-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49)) (m ((c.tc : Thread Cert.Kernel.nD Cert.Kernel.τ).loc Cert.Kernel.main_arg50)) (m ((c.tc : Thread Cert.Kernel.nD Cert.Kernel.τ).loc Cert.Kernel.main_arg51))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) (m ((c.tc : Thread Cert.KernelIdeal.nD Cert.KernelIdeal.τ).loc Cert.KernelIdeal.main_arg50)) (m ((c.tc : Thread Cert.KernelIdeal.nD Cert.KernelIdeal.τ).loc Cert.KernelIdeal.main_arg51))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49)) (m ((c.tc : Thread Cert.ReferenceIdeal.nD Cert.ReferenceIdeal.τ).loc Cert.ReferenceIdeal.main_arg50)) (m ((c.tc : Thread Cert.ReferenceIdeal.nD Cert.ReferenceIdeal.τ).loc Cert.ReferenceIdeal.main_arg51))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part18 {F : FTy → Type} [FloatOps F] (main_arg25 : IVec S16384 32) (main_v303 : IVec S_ 1) (main_c_125 : IVec S_ 32) : IVec S_ 1 :=
  let main_v304 : IVec S16384 32 := broadcastInDim S16384 ![] bcast_S_S16384 main_c_125
  let main_v305 : IVec S16384 1 := cmpi .sge main_arg25 main_v304
  let main_c_126 : IVec S_ 32 := constantI S_ 32 999#32
  let main_v306 : IVec S16384 32 := broadcastInDim S16384 ![] bcast_S_S16384 main_c_126
  let main_v307 : IVec S16384 1 := cmpi .sle main_arg25 main_v306
  let main_v308 : IVec S16384 1 := andi main_v305 main_v307
  let main_c_127 : IVec S_ 1 := constantI S_ 1 1#1
  let main_v309 : IVec S_ 1 := (fun x v => Host.reduce IntOp.andi x v reducesTo_S16384_S_d0 h_S_) main_v308 main_c_127
  let main_v310 : IVec S_ 1 := andi main_v303 main_v309
  main_v310

def fn_part17 {F : FTy → Type} [FloatOps F] (main_arg23 : IVec S16384 32) (main_arg24 : IVec S16384 32) (main_arg25 : IVec S16384 32) (main_v282 : IVec S_ 1) (main_v287 : IVec S16384 1) : IVec S_ 1 :=
  let main_c_118 : IVec S_ 1 := constantI S_ 1 1#1
  let main_v288 : IVec S_ 1 := (fun x v => Host.reduce IntOp.andi x v reducesTo_S16384_S_d0 h_S_) main_v287 main_c_118
  let main_v289 : IVec S_ 1 := andi main_v282 main_v288
  let main_c_119 : IVec S_ 32 := constantI S_ 32 0#32
  let main_v290 : IVec S16384 32 := broadcastInDim S16384 ![] bcast_S_S16384 main_c_119
  let main_v291 : IVec S16384 1 := cmpi .sge main_arg23 main_v290
  let main_c_120 : IVec S_ 32 := constantI S_ 32 999#32
  let main_v292 : IVec S16384 32 := broadcastInDim S16384 ![] bcast_S_S16384 main_c_120
  let main_v293 : IVec S16384 1 := cmpi .sle main_arg23 main_v292
  let main_v294 : IVec S16384 1 := andi main_v291 main_v293
  let main_c_121 : IVec S_ 1 := constantI S_ 1 1#1
  let main_v295 : IVec S_ 1 := (fun x v => Host.reduce IntOp.andi x v reducesTo_S16384_S_d0 h_S_) main_v294 main_c_121
  let main_v296 : IVec S_ 1 := andi main_v289 main_v295
  let main_c_122 : IVec S_ 32 := constantI S_ 32 0#32
  let main_v297 : IVec S16384 32 := broadcastInDim S16384 ![] bcast_S_S16384 main_c_122
  let main_v298 : IVec S16384 1 := cmpi .sge main_arg24 main_v297
  let main_c_123 : IVec S_ 32 := constantI S_ 32 999#32
  let main_v299 : IVec S16384 32 := broadcastInDim S16384 ![] bcast_S_S16384 main_c_123
  let main_v300 : IVec S16384 1 := cmpi .sle main_arg24 main_v299
  let main_v301 : IVec S16384 1 := andi main_v298 main_v300
  let main_c_124 : IVec S_ 1 := constantI S_ 1 1#1
  let main_v302 : IVec S_ 1 := (fun x v => Host.reduce IntOp.andi x v reducesTo_S16384_S_d0 h_S_) main_v301 main_c_124
  let main_v303 : IVec S_ 1 := andi main_v296 main_v302
  let main_c_125 : IVec S_ 32 := constantI S_ 32 0#32
  fn_part18 (F := F) main_arg25 main_v303 main_c_125

def fn_part16 {F : FTy → Type} [FloatOps F] (main_arg20 : IVec S16384 32) (main_arg21 : IVec S16384 32) (main_arg22 : IVec S16384 32) (main_arg23 : IVec S16384 32) (main_arg24 : IVec S16384 32) (main_arg25 : IVec S16384 32) (main_v268 : IVec S_ 1) (main_v270 : IVec S16384 1) : IVec S_ 1 :=
  let main_c_111 : IVec S_ 32 := constantI S_ 32 999#32
  let main_v271 : IVec S16384 32 := broadcastInDim S16384 ![] bcast_S_S16384 main_c_111
  let main_v272 : IVec S16384 1 := cmpi .sle main_arg20 main_v271
  let main_v273 : IVec S16384 1 := andi main_v270 main_v272
  let main_c_112 : IVec S_ 1 := constantI S_ 1 1#1
  let main_v274 : IVec S_ 1 := (fun x v => Host.reduce IntOp.andi x v reducesTo_S16384_S_d0 h_S_) main_v273 main_c_112
  let main_v275 : IVec S_ 1 := andi main_v268 main_v274
  let main_c_113 : IVec S_ 32 := constantI S_ 32 0#32
  let main_v276 : IVec S16384 32 := broadcastInDim S16384 ![] bcast_S_S16384 main_c_113
  let main_v277 : IVec S16384 1 := cmpi .sge main_arg21 main_v276
  let main_c_114 : IVec S_ 32 := constantI S_ 32 999#32
  let main_v278 : IVec S16384 32 := broadcastInDim S16384 ![] bcast_S_S16384 main_c_114
  let main_v279 : IVec S16384 1 := cmpi .sle main_arg21 main_v278
  let main_v280 : IVec S16384 1 := andi main_v277 main_v279
  let main_c_115 : IVec S_ 1 := constantI S_ 1 1#1
  let main_v281 : IVec S_ 1 := (fun x v => Host.reduce IntOp.andi x v reducesTo_S16384_S_d0 h_S_) main_v280 main_c_115
  let main_v282 : IVec S_ 1 := andi main_v275 main_v281
  let main_c_116 : IVec S_ 32 := constantI S_ 32 0#32
  let main_v283 : IVec S16384 32 := broadcastInDim S16384 ![] bcast_S_S16384 main_c_116
  let main_v284 : IVec S16384 1 := cmpi .sge main_arg22 main_v283
  let main_c_117 : IVec S_ 32 := constantI S_ 32 999#32
  let main_v285 : IVec S16384 32 := broadcastInDim S16384 ![] bcast_S_S16384 main_c_117
  let main_v286 : IVec S16384 1 := cmpi .sle main_arg22 main_v285
  let main_v287 : IVec S16384 1 := andi main_v284 main_v286
  fn_part17 (F := F) main_arg23 main_arg24 main_arg25 main_v282 main_v287

def fn_part15 {F : FTy → Type} [FloatOps F] (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v247 : IVec S_ 1) (main_v253 : IVec S_ 1) : IVec S_ 1 :=
  let main_v254 : IVec S_ 1 := andi main_v247 main_v253
  let main_c_104 : IVec S_ 32 := constantI S_ 32 0#32
  let main_v255 : IVec S16384 32 := broadcastInDim S16384 ![] bcast_S_S16384 main_c_104
  let main_v256 : IVec S16384 1 := cmpi .sge main_arg18 main_v255
  let main_c_105 : IVec S_ 32 := constantI S_ 32 999#32
  let main_v257 : IVec S16384 32 := broadcastInDim S16384 ![] bcast_S_S16384 main_c_105
  let main_v258 : IVec S16384 1 := cmpi .sle main_arg18 main_v257
  let main_v259 : IVec S16384 1 := andi main_v256 main_v258
  let main_c_106 : IVec S_ 1 := constantI S_ 1 1#1
  let main_v260 : IVec S_ 1 := (fun x v => Host.reduce IntOp.andi x v reducesTo_S16384_S_d0 h_S_) main_v259 main_c_106
  let main_v261 : IVec S_ 1 := andi main_v254 main_v260
  let main_c_107 : IVec S_ 32 := constantI S_ 32 0#32
  let main_v262 : IVec S16384 32 := broadcastInDim S16384 ![] bcast_S_S16384 main_c_107
  let main_v263 : IVec S16384 1 := cmpi .sge main_arg19 main_v262
  let main_c_108 : IVec S_ 32 := constantI S_ 32 999#32
  let main_v264 : IVec S16384 32 := broadcastInDim S16384 ![] bcast_S_S16384 main_c_108
  let main_v265 : IVec S16384 1 := cmpi .sle main_arg19 main_v264
  let main_v266 : IVec S16384 1 := andi main_v263 main_v265
  let main_c_109 : IVec S_ 1 := constantI S_ 1 1#1
  let main_v267 : IVec S_ 1 := (fun x v => Host.reduce IntOp.andi x v reducesTo_S16384_S_d0 h_S_) main_v266 main_c_109
  let main_v268 : IVec S_ 1 := andi main_v261 main_v267
  let main_c_110 : IVec S_ 32 := constantI S_ 32 0#32
  let main_v269 : IVec S16384 32 := broadcastInDim S16384 ![] bcast_S_S16384 main_c_110
  let main_v270 : IVec S16384 1 := cmpi .sge main_arg20 main_v269
  fn_part16 (F := F) main_arg20 main_arg21 main_arg22 main_arg23 main_arg24 main_arg25 main_v268 main_v270

def fn_part14 {F : FTy → Type} [FloatOps F] (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v233 : IVec S_ 1) (main_v235 : IVec S16384 1) (main_v236 : IVec S16384 32) : IVec S_ 1 :=
  let main_v237 : IVec S16384 1 := cmpi .sle main_arg15 main_v236
  let main_v238 : IVec S16384 1 := andi main_v235 main_v237
  let main_c_97 : IVec S_ 1 := constantI S_ 1 1#1
  let main_v239 : IVec S_ 1 := (fun x v => Host.reduce IntOp.andi x v reducesTo_S16384_S_d0 h_S_) main_v238 main_c_97
  let main_v240 : IVec S_ 1 := andi main_v233 main_v239
  let main_c_98 : IVec S_ 32 := constantI S_ 32 0#32
  let main_v241 : IVec S16384 32 := broadcastInDim S16384 ![] bcast_S_S16384 main_c_98
  let main_v242 : IVec S16384 1 := cmpi .sge main_arg16 main_v241
  let main_c_99 : IVec S_ 32 := constantI S_ 32 999#32
  let main_v243 : IVec S16384 32 := broadcastInDim S16384 ![] bcast_S_S16384 main_c_99
  let main_v244 : IVec S16384 1 := cmpi .sle main_arg16 main_v243
  let main_v245 : IVec S16384 1 := andi main_v242 main_v244
  let main_c_100 : IVec S_ 1 := constantI S_ 1 1#1
  let main_v246 : IVec S_ 1 := (fun x v => Host.reduce IntOp.andi x v reducesTo_S16384_S_d0 h_S_) main_v245 main_c_100
  let main_v247 : IVec S_ 1 := andi main_v240 main_v246
  let main_c_101 : IVec S_ 32 := constantI S_ 32 0#32
  let main_v248 : IVec S16384 32 := broadcastInDim S16384 ![] bcast_S_S16384 main_c_101
  let main_v249 : IVec S16384 1 := cmpi .sge main_arg17 main_v248
  let main_c_102 : IVec S_ 32 := constantI S_ 32 999#32
  let main_v250 : IVec S16384 32 := broadcastInDim S16384 ![] bcast_S_S16384 main_c_102
  let main_v251 : IVec S16384 1 := cmpi .sle main_arg17 main_v250
  let main_v252 : IVec S16384 1 := andi main_v249 main_v251
  let main_c_103 : IVec S_ 1 := constantI S_ 1 1#1
  let main_v253 : IVec S_ 1 := (fun x v => Host.reduce IntOp.andi x v reducesTo_S16384_S_d0 h_S_) main_v252 main_c_103
  fn_part15 (F := F) main_arg18 main_arg19 main_arg20 main_arg21 main_arg22 main_arg23 main_arg24 main_arg25 main_v247 main_v253

def fn_part13 {F : FTy → Type} [FloatOps F] (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v219 : IVec S_ 1) (main_c_89 : IVec S_ 32) : IVec S_ 1 :=
  let main_v220 : IVec S16384 32 := broadcastInDim S16384 ![] bcast_S_S16384 main_c_89
  let main_v221 : IVec S16384 1 := cmpi .sge main_arg13 main_v220
  let main_c_90 : IVec S_ 32 := constantI S_ 32 999#32
  let main_v222 : IVec S16384 32 := broadcastInDim S16384 ![] bcast_S_S16384 main_c_90
  let main_v223 : IVec S16384 1 := cmpi .sle main_arg13 main_v222
  let main_v224 : IVec S16384 1 := andi main_v221 main_v223
  let main_c_91 : IVec S_ 1 := constantI S_ 1 1#1
  let main_v225 : IVec S_ 1 := (fun x v => Host.reduce IntOp.andi x v reducesTo_S16384_S_d0 h_S_) main_v224 main_c_91
  let main_v226 : IVec S_ 1 := andi main_v219 main_v225
  let main_c_92 : IVec S_ 32 := constantI S_ 32 0#32
  let main_v227 : IVec S16384 32 := broadcastInDim S16384 ![] bcast_S_S16384 main_c_92
  let main_v228 : IVec S16384 1 := cmpi .sge main_arg14 main_v227
  let main_c_93 : IVec S_ 32 := constantI S_ 32 999#32
  let main_v229 : IVec S16384 32 := broadcastInDim S16384 ![] bcast_S_S16384 main_c_93
  let main_v230 : IVec S16384 1 := cmpi .sle main_arg14 main_v229
  let main_v231 : IVec S16384 1 := andi main_v228 main_v230
  let main_c_94 : IVec S_ 1 := constantI S_ 1 1#1
  let main_v232 : IVec S_ 1 := (fun x v => Host.reduce IntOp.andi x v reducesTo_S16384_S_d0 h_S_) main_v231 main_c_94
  let main_v233 : IVec S_ 1 := andi main_v226 main_v232
  let main_c_95 : IVec S_ 32 := constantI S_ 32 0#32
  let main_v234 : IVec S16384 32 := broadcastInDim S16384 ![] bcast_S_S16384 main_c_95
  let main_v235 : IVec S16384 1 := cmpi .sge main_arg15 main_v234
  let main_c_96 : IVec S_ 32 := constantI S_ 32 999#32
  let main_v236 : IVec S16384 32 := broadcastInDim S16384 ![] bcast_S_S16384 main_c_96
  fn_part14 (F := F) main_arg15 main_arg16 main_arg17 main_arg18 main_arg19 main_arg20 main_arg21 main_arg22 main_arg23 main_arg24 main_arg25 main_v233 main_v235 main_v236

def fn_part12 {F : FTy → Type} [FloatOps F] (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v198 : IVec S_ 1) (main_v203 : IVec S16384 1) : IVec S_ 1 :=
  let main_c_82 : IVec S_ 1 := constantI S_ 1 1#1
  let main_v204 : IVec S_ 1 := (fun x v => Host.reduce IntOp.andi x v reducesTo_S16384_S_d0 h_S_) main_v203 main_c_82
  let main_v205 : IVec S_ 1 := andi main_v198 main_v204
  let main_c_83 : IVec S_ 32 := constantI S_ 32 0#32
  let main_v206 : IVec S16384 32 := broadcastInDim S16384 ![] bcast_S_S16384 main_c_83
  let main_v207 : IVec S16384 1 := cmpi .sge main_arg11 main_v206
  let main_c_84 : IVec S_ 32 := constantI S_ 32 999#32
  let main_v208 : IVec S16384 32 := broadcastInDim S16384 ![] bcast_S_S16384 main_c_84
  let main_v209 : IVec S16384 1 := cmpi .sle main_arg11 main_v208
  let main_v210 : IVec S16384 1 := andi main_v207 main_v209
  let main_c_85 : IVec S_ 1 := constantI S_ 1 1#1
  let main_v211 : IVec S_ 1 := (fun x v => Host.reduce IntOp.andi x v reducesTo_S16384_S_d0 h_S_) main_v210 main_c_85
  let main_v212 : IVec S_ 1 := andi main_v205 main_v211
  let main_c_86 : IVec S_ 32 := constantI S_ 32 0#32
  let main_v213 : IVec S16384 32 := broadcastInDim S16384 ![] bcast_S_S16384 main_c_86
  let main_v214 : IVec S16384 1 := cmpi .sge main_arg12 main_v213
  let main_c_87 : IVec S_ 32 := constantI S_ 32 999#32
  let main_v215 : IVec S16384 32 := broadcastInDim S16384 ![] bcast_S_S16384 main_c_87
  let main_v216 : IVec S16384 1 := cmpi .sle main_arg12 main_v215
  let main_v217 : IVec S16384 1 := andi main_v214 main_v216
  let main_c_88 : IVec S_ 1 := constantI S_ 1 1#1
  let main_v218 : IVec S_ 1 := (fun x v => Host.reduce IntOp.andi x v reducesTo_S16384_S_d0 h_S_) main_v217 main_c_88
  let main_v219 : IVec S_ 1 := andi main_v212 main_v218
  let main_c_89 : IVec S_ 32 := constantI S_ 32 0#32
  fn_part13 (F := F) main_arg13 main_arg14 main_arg15 main_arg16 main_arg17 main_arg18 main_arg19 main_arg20 main_arg21 main_arg22 main_arg23 main_arg24 main_arg25 main_v219 main_c_89

def fn_part11 {F : FTy → Type} [FloatOps F] (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v184 : IVec S_ 1) (main_v186 : IVec S16384 1) : IVec S_ 1 :=
  let main_c_75 : IVec S_ 32 := constantI S_ 32 999#32
  let main_v187 : IVec S16384 32 := broadcastInDim S16384 ![] bcast_S_S16384 main_c_75
  let main_v188 : IVec S16384 1 := cmpi .sle main_arg8 main_v187
  let main_v189 : IVec S16384 1 := andi main_v186 main_v188
  let main_c_76 : IVec S_ 1 := constantI S_ 1 1#1
  let main_v190 : IVec S_ 1 := (fun x v => Host.reduce IntOp.andi x v reducesTo_S16384_S_d0 h_S_) main_v189 main_c_76
  let main_v191 : IVec S_ 1 := andi main_v184 main_v190
  let main_c_77 : IVec S_ 32 := constantI S_ 32 0#32
  let main_v192 : IVec S16384 32 := broadcastInDim S16384 ![] bcast_S_S16384 main_c_77
  let main_v193 : IVec S16384 1 := cmpi .sge main_arg9 main_v192
  let main_c_78 : IVec S_ 32 := constantI S_ 32 999#32
  let main_v194 : IVec S16384 32 := broadcastInDim S16384 ![] bcast_S_S16384 main_c_78
  let main_v195 : IVec S16384 1 := cmpi .sle main_arg9 main_v194
  let main_v196 : IVec S16384 1 := andi main_v193 main_v195
  let main_c_79 : IVec S_ 1 := constantI S_ 1 1#1
  let main_v197 : IVec S_ 1 := (fun x v => Host.reduce IntOp.andi x v reducesTo_S16384_S_d0 h_S_) main_v196 main_c_79
  let main_v198 : IVec S_ 1 := andi main_v191 main_v197
  let main_c_80 : IVec S_ 32 := constantI S_ 32 0#32
  let main_v199 : IVec S16384 32 := broadcastInDim S16384 ![] bcast_S_S16384 main_c_80
  let main_v200 : IVec S16384 1 := cmpi .sge main_arg10 main_v199
  let main_c_81 : IVec S_ 32 := constantI S_ 32 999#32
  let main_v201 : IVec S16384 32 := broadcastInDim S16384 ![] bcast_S_S16384 main_c_81
  let main_v202 : IVec S16384 1 := cmpi .sle main_arg10 main_v201
  let main_v203 : IVec S16384 1 := andi main_v200 main_v202
  fn_part12 (F := F) main_arg11 main_arg12 main_arg13 main_arg14 main_arg15 main_arg16 main_arg17 main_arg18 main_arg19 main_arg20 main_arg21 main_arg22 main_arg23 main_arg24 main_arg25 main_v198 main_v203

def fn_part10 {F : FTy → Type} [FloatOps F] (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v163 : IVec S_ 1) (main_v169 : IVec S_ 1) : IVec S_ 1 :=
  let main_v170 : IVec S_ 1 := andi main_v163 main_v169
  let main_c_68 : IVec S_ 32 := constantI S_ 32 0#32
  let main_v171 : IVec S16384 32 := broadcastInDim S16384 ![] bcast_S_S16384 main_c_68
  let main_v172 : IVec S16384 1 := cmpi .sge main_arg6 main_v171
  let main_c_69 : IVec S_ 32 := constantI S_ 32 999#32
  let main_v173 : IVec S16384 32 := broadcastInDim S16384 ![] bcast_S_S16384 main_c_69
  let main_v174 : IVec S16384 1 := cmpi .sle main_arg6 main_v173
  let main_v175 : IVec S16384 1 := andi main_v172 main_v174
  let main_c_70 : IVec S_ 1 := constantI S_ 1 1#1
  let main_v176 : IVec S_ 1 := (fun x v => Host.reduce IntOp.andi x v reducesTo_S16384_S_d0 h_S_) main_v175 main_c_70
  let main_v177 : IVec S_ 1 := andi main_v170 main_v176
  let main_c_71 : IVec S_ 32 := constantI S_ 32 0#32
  let main_v178 : IVec S16384 32 := broadcastInDim S16384 ![] bcast_S_S16384 main_c_71
  let main_v179 : IVec S16384 1 := cmpi .sge main_arg7 main_v178
  let main_c_72 : IVec S_ 32 := constantI S_ 32 999#32
  let main_v180 : IVec S16384 32 := broadcastInDim S16384 ![] bcast_S_S16384 main_c_72
  let main_v181 : IVec S16384 1 := cmpi .sle main_arg7 main_v180
  let main_v182 : IVec S16384 1 := andi main_v179 main_v181
  let main_c_73 : IVec S_ 1 := constantI S_ 1 1#1
  let main_v183 : IVec S_ 1 := (fun x v => Host.reduce IntOp.andi x v reducesTo_S16384_S_d0 h_S_) main_v182 main_c_73
  let main_v184 : IVec S_ 1 := andi main_v177 main_v183
  let main_c_74 : IVec S_ 32 := constantI S_ 32 0#32
  let main_v185 : IVec S16384 32 := broadcastInDim S16384 ![] bcast_S_S16384 main_c_74
  let main_v186 : IVec S16384 1 := cmpi .sge main_arg8 main_v185
  fn_part11 (F := F) main_arg8 main_arg9 main_arg10 main_arg11 main_arg12 main_arg13 main_arg14 main_arg15 main_arg16 main_arg17 main_arg18 main_arg19 main_arg20 main_arg21 main_arg22 main_arg23 main_arg24 main_arg25 main_v184 main_v186

def fn_part9 {F : FTy → Type} [FloatOps F] (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v149 : IVec S_ 1) (main_v151 : IVec S16384 1) (main_v152 : IVec S16384 32) : IVec S_ 1 :=
  let main_v153 : IVec S16384 1 := cmpi .sle main_arg3 main_v152
  let main_v154 : IVec S16384 1 := andi main_v151 main_v153
  let main_c_61 : IVec S_ 1 := constantI S_ 1 1#1
  let main_v155 : IVec S_ 1 := (fun x v => Host.reduce IntOp.andi x v reducesTo_S16384_S_d0 h_S_) main_v154 main_c_61
  let main_v156 : IVec S_ 1 := andi main_v149 main_v155
  let main_c_62 : IVec S_ 32 := constantI S_ 32 0#32
  let main_v157 : IVec S16384 32 := broadcastInDim S16384 ![] bcast_S_S16384 main_c_62
  let main_v158 : IVec S16384 1 := cmpi .sge main_arg4 main_v157
  let main_c_63 : IVec S_ 32 := constantI S_ 32 999#32
  let main_v159 : IVec S16384 32 := broadcastInDim S16384 ![] bcast_S_S16384 main_c_63
  let main_v160 : IVec S16384 1 := cmpi .sle main_arg4 main_v159
  let main_v161 : IVec S16384 1 := andi main_v158 main_v160
  let main_c_64 : IVec S_ 1 := constantI S_ 1 1#1
  let main_v162 : IVec S_ 1 := (fun x v => Host.reduce IntOp.andi x v reducesTo_S16384_S_d0 h_S_) main_v161 main_c_64
  let main_v163 : IVec S_ 1 := andi main_v156 main_v162
  let main_c_65 : IVec S_ 32 := constantI S_ 32 0#32
  let main_v164 : IVec S16384 32 := broadcastInDim S16384 ![] bcast_S_S16384 main_c_65
  let main_v165 : IVec S16384 1 := cmpi .sge main_arg5 main_v164
  let main_c_66 : IVec S_ 32 := constantI S_ 32 999#32
  let main_v166 : IVec S16384 32 := broadcastInDim S16384 ![] bcast_S_S16384 main_c_66
  let main_v167 : IVec S16384 1 := cmpi .sle main_arg5 main_v166
  let main_v168 : IVec S16384 1 := andi main_v165 main_v167
  let main_c_67 : IVec S_ 1 := constantI S_ 1 1#1
  let main_v169 : IVec S_ 1 := (fun x v => Host.reduce IntOp.andi x v reducesTo_S16384_S_d0 h_S_) main_v168 main_c_67
  fn_part10 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v163 main_v169

def fn_part8 {F : FTy → Type} [FloatOps F] (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_v135 : IVec S_ 1) (main_c_53 : IVec S_ 32) : IVec S_ 1 :=
  let main_v136 : IVec S16384 32 := broadcastInDim S16384 ![] bcast_S_S16384 main_c_53
  let main_v137 : IVec S16384 1 := cmpi .sge main_arg1 main_v136
  let main_c_54 : IVec S_ 32 := constantI S_ 32 999#32
  let main_v138 : IVec S16384 32 := broadcastInDim S16384 ![] bcast_S_S16384 main_c_54
  let main_v139 : IVec S16384 1 := cmpi .sle main_arg1 main_v138
  let main_v140 : IVec S16384 1 := andi main_v137 main_v139
  let main_c_55 : IVec S_ 1 := constantI S_ 1 1#1
  let main_v141 : IVec S_ 1 := (fun x v => Host.reduce IntOp.andi x v reducesTo_S16384_S_d0 h_S_) main_v140 main_c_55
  let main_v142 : IVec S_ 1 := andi main_v135 main_v141
  let main_c_56 : IVec S_ 32 := constantI S_ 32 0#32
  let main_v143 : IVec S16384 32 := broadcastInDim S16384 ![] bcast_S_S16384 main_c_56
  let main_v144 : IVec S16384 1 := cmpi .sge main_arg2 main_v143
  let main_c_57 : IVec S_ 32 := constantI S_ 32 999#32
  let main_v145 : IVec S16384 32 := broadcastInDim S16384 ![] bcast_S_S16384 main_c_57
  let main_v146 : IVec S16384 1 := cmpi .sle main_arg2 main_v145
  let main_v147 : IVec S16384 1 := andi main_v144 main_v146
  let main_c_58 : IVec S_ 1 := constantI S_ 1 1#1
  let main_v148 : IVec S_ 1 := (fun x v => Host.reduce IntOp.andi x v reducesTo_S16384_S_d0 h_S_) main_v147 main_c_58
  let main_v149 : IVec S_ 1 := andi main_v142 main_v148
  let main_c_59 : IVec S_ 32 := constantI S_ 32 0#32
  let main_v150 : IVec S16384 32 := broadcastInDim S16384 ![] bcast_S_S16384 main_c_59
  let main_v151 : IVec S16384 1 := cmpi .sge main_arg3 main_v150
  let main_c_60 : IVec S_ 32 := constantI S_ 32 999#32
  let main_v152 : IVec S16384 32 := broadcastInDim S16384 ![] bcast_S_S16384 main_c_60
  fn_part9 (F := F) main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v149 main_v151 main_v152

def fn_part7 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg51 : FVec F S1000x128 .f32) (main_v118 : IVec S_ 1) (main_v119 : FVec F S1000x128 .f32) : IVec S_ 1 :=
  let main_cst_46 : FVec F S_ .f32 := constant S_ .f32 0x7F800000#32
  let main_v120 : FVec F S1000x128 .f32 := broadcastInDim S1000x128 ![] bcast_S_S1000x128 main_cst_46
  let main_v121 : IVec S1000x128 1 := cmpf .olt main_v119 main_v120
  let main_c_47 : IVec S_ 1 := constantI S_ 1 1#1
  let main_v122 : IVec S_ 1 := (fun x v => Host.reduce IntOp.andi x v reducesTo_S1000x128_S_d0_1 h_S_) main_v121 main_c_47
  let main_v123 : IVec S_ 1 := andi main_v118 main_v122
  let main_v124 : FVec F S1000x128 .f32 := Host.absf main_arg51
  let main_cst_48 : FVec F S_ .f32 := constant S_ .f32 0x7F800000#32
  let main_v125 : FVec F S1000x128 .f32 := broadcastInDim S1000x128 ![] bcast_S_S1000x128 main_cst_48
  let main_v126 : IVec S1000x128 1 := cmpf .olt main_v124 main_v125
  let main_c_49 : IVec S_ 1 := constantI S_ 1 1#1
  let main_v127 : IVec S_ 1 := (fun x v => Host.reduce IntOp.andi x v reducesTo_S1000x128_S_d0_1 h_S_) main_v126 main_c_49
  let main_v128 : IVec S_ 1 := andi main_v123 main_v127
  let main_c_50 : IVec S_ 32 := constantI S_ 32 0#32
  let main_v129 : IVec S16384 32 := broadcastInDim S16384 ![] bcast_S_S16384 main_c_50
  let main_v130 : IVec S16384 1 := cmpi .sge main_arg0 main_v129
  let main_c_51 : IVec S_ 32 := constantI S_ 32 999#32
  let main_v131 : IVec S16384 32 := broadcastInDim S16384 ![] bcast_S_S16384 main_c_51
  let main_v132 : IVec S16384 1 := cmpi .sle main_arg0 main_v131
  let main_v133 : IVec S16384 1 := andi main_v130 main_v132
  let main_c_52 : IVec S_ 1 := constantI S_ 1 1#1
  let main_v134 : IVec S_ 1 := (fun x v => Host.reduce IntOp.andi x v reducesTo_S16384_S_d0 h_S_) main_v133 main_c_52
  let main_v135 : IVec S_ 1 := andi main_v128 main_v134
  let main_c_53 : IVec S_ 32 := constantI S_ 32 0#32
  fn_part8 (F := F) main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v135 main_c_53

def fn_part6 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg47 : FVec F S1000x128 .f32) (main_arg48 : FVec F S1000x128 .f32) (main_arg49 : FVec F S1000x128 .f32) (main_arg50 : FVec F S1000x128 .f32) (main_arg51 : FVec F S1000x128 .f32) (main_v98 : IVec S_ 1) (main_v101 : IVec S1000x128 1) (main_c_39 : IVec S_ 1) : IVec S_ 1 :=
  let main_v102 : IVec S_ 1 := (fun x v => Host.reduce IntOp.andi x v reducesTo_S1000x128_S_d0_1 h_S_) main_v101 main_c_39
  let main_v103 : IVec S_ 1 := andi main_v98 main_v102
  let main_v104 : FVec F S1000x128 .f32 := Host.absf main_arg47
  let main_cst_40 : FVec F S_ .f32 := constant S_ .f32 0x7F800000#32
  let main_v105 : FVec F S1000x128 .f32 := broadcastInDim S1000x128 ![] bcast_S_S1000x128 main_cst_40
  let main_v106 : IVec S1000x128 1 := cmpf .olt main_v104 main_v105
  let main_c_41 : IVec S_ 1 := constantI S_ 1 1#1
  let main_v107 : IVec S_ 1 := (fun x v => Host.reduce IntOp.andi x v reducesTo_S1000x128_S_d0_1 h_S_) main_v106 main_c_41
  let main_v108 : IVec S_ 1 := andi main_v103 main_v107
  let main_v109 : FVec F S1000x128 .f32 := Host.absf main_arg48
  let main_cst_42 : FVec F S_ .f32 := constant S_ .f32 0x7F800000#32
  let main_v110 : FVec F S1000x128 .f32 := broadcastInDim S1000x128 ![] bcast_S_S1000x128 main_cst_42
  let main_v111 : IVec S1000x128 1 := cmpf .olt main_v109 main_v110
  let main_c_43 : IVec S_ 1 := constantI S_ 1 1#1
  let main_v112 : IVec S_ 1 := (fun x v => Host.reduce IntOp.andi x v reducesTo_S1000x128_S_d0_1 h_S_) main_v111 main_c_43
  let main_v113 : IVec S_ 1 := andi main_v108 main_v112
  let main_v114 : FVec F S1000x128 .f32 := Host.absf main_arg49
  let main_cst_44 : FVec F S_ .f32 := constant S_ .f32 0x7F800000#32
  let main_v115 : FVec F S1000x128 .f32 := broadcastInDim S1000x128 ![] bcast_S_S1000x128 main_cst_44
  let main_v116 : IVec S1000x128 1 := cmpf .olt main_v114 main_v115
  let main_c_45 : IVec S_ 1 := constantI S_ 1 1#1
  let main_v117 : IVec S_ 1 := (fun x v => Host.reduce IntOp.andi x v reducesTo_S1000x128_S_d0_1 h_S_) main_v116 main_c_45
  let main_v118 : IVec S_ 1 := andi main_v113 main_v117
  let main_v119 : FVec F S1000x128 .f32 := Host.absf main_arg50
  fn_part7 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg51 main_v118 main_v119

def fn_part5 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) (main_v83 : IVec S_ 1) (main_v84 : FVec F S1000x128 .f32) (main_cst_32 : FVec F S_ .f32) : IVec S_ 1 :=
  let main_v85 : FVec F S1000x128 .f32 := broadcastInDim S1000x128 ![] bcast_S_S1000x128 main_cst_32
  let main_v86 : IVec S1000x128 1 := cmpf .olt main_v84 main_v85
  let main_c_33 : IVec S_ 1 := constantI S_ 1 1#1
  let main_v87 : IVec S_ 1 := (fun x v => Host.reduce IntOp.andi x v reducesTo_S1000x128_S_d0_1 h_S_) main_v86 main_c_33
  let main_v88 : IVec S_ 1 := andi main_v83 main_v87
  let main_v89 : FVec F S1000x128 .f32 := Host.absf main_arg44
  let main_cst_34 : FVec F S_ .f32 := constant S_ .f32 0x7F800000#32
  let main_v90 : FVec F S1000x128 .f32 := broadcastInDim S1000x128 ![] bcast_S_S1000x128 main_cst_34
  let main_v91 : IVec S1000x128 1 := cmpf .olt main_v89 main_v90
  let main_c_35 : IVec S_ 1 := constantI S_ 1 1#1
  let main_v92 : IVec S_ 1 := (fun x v => Host.reduce IntOp.andi x v reducesTo_S1000x128_S_d0_1 h_S_) main_v91 main_c_35
  let main_v93 : IVec S_ 1 := andi main_v88 main_v92
  let main_v94 : FVec F S1000x128 .f32 := Host.absf main_arg45
  let main_cst_36 : FVec F S_ .f32 := constant S_ .f32 0x7F800000#32
  let main_v95 : FVec F S1000x128 .f32 := broadcastInDim S1000x128 ![] bcast_S_S1000x128 main_cst_36
  let main_v96 : IVec S1000x128 1 := cmpf .olt main_v94 main_v95
  let main_c_37 : IVec S_ 1 := constantI S_ 1 1#1
  let main_v97 : IVec S_ 1 := (fun x v => Host.reduce IntOp.andi x v reducesTo_S1000x128_S_d0_1 h_S_) main_v96 main_c_37
  let main_v98 : IVec S_ 1 := andi main_v93 main_v97
  let main_v99 : FVec F S1000x128 .f32 := Host.absf main_arg46
  let main_cst_38 : FVec F S_ .f32 := constant S_ .f32 0x7F800000#32
  let main_v100 : FVec F S1000x128 .f32 := broadcastInDim S1000x128 ![] bcast_S_S1000x128 main_cst_38
  let main_v101 : IVec S1000x128 1 := cmpf .olt main_v99 main_v100
  let main_c_39 : IVec S_ 1 := constantI S_ 1 1#1
  fn_part6 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg47 main_arg48 main_arg49 main_arg50 main_arg51 main_v98 main_v101 main_c_39

def fn_part4 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg40 : FVec F S1000x128 .f32) (main_arg41 : FVec F S1000x128 .f32) (main_arg42 : FVec F S1000x128 .f32) (main_arg43 : FVec F S1000x128 .f32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) (main_v63 : IVec S_ 1) (main_v67 : IVec S_ 1) : IVec S_ 1 :=
  let main_v68 : IVec S_ 1 := andi main_v63 main_v67
  let main_v69 : FVec F S1000x128 .f32 := Host.absf main_arg40
  let main_cst_26 : FVec F S_ .f32 := constant S_ .f32 0x7F800000#32
  let main_v70 : FVec F S1000x128 .f32 := broadcastInDim S1000x128 ![] bcast_S_S1000x128 main_cst_26
  let main_v71 : IVec S1000x128 1 := cmpf .olt main_v69 main_v70
  let main_c_27 : IVec S_ 1 := constantI S_ 1 1#1
  let main_v72 : IVec S_ 1 := (fun x v => Host.reduce IntOp.andi x v reducesTo_S1000x128_S_d0_1 h_S_) main_v71 main_c_27
  let main_v73 : IVec S_ 1 := andi main_v68 main_v72
  let main_v74 : FVec F S1000x128 .f32 := Host.absf main_arg41
  let main_cst_28 : FVec F S_ .f32 := constant S_ .f32 0x7F800000#32
  let main_v75 : FVec F S1000x128 .f32 := broadcastInDim S1000x128 ![] bcast_S_S1000x128 main_cst_28
  let main_v76 : IVec S1000x128 1 := cmpf .olt main_v74 main_v75
  let main_c_29 : IVec S_ 1 := constantI S_ 1 1#1
  let main_v77 : IVec S_ 1 := (fun x v => Host.reduce IntOp.andi x v reducesTo_S1000x128_S_d0_1 h_S_) main_v76 main_c_29
  let main_v78 : IVec S_ 1 := andi main_v73 main_v77
  let main_v79 : FVec F S1000x128 .f32 := Host.absf main_arg42
  let main_cst_30 : FVec F S_ .f32 := constant S_ .f32 0x7F800000#32
  let main_v80 : FVec F S1000x128 .f32 := broadcastInDim S1000x128 ![] bcast_S_S1000x128 main_cst_30
  let main_v81 : IVec S1000x128 1 := cmpf .olt main_v79 main_v80
  let main_c_31 : IVec S_ 1 := constantI S_ 1 1#1
  let main_v82 : IVec S_ 1 := (fun x v => Host.reduce IntOp.andi x v reducesTo_S1000x128_S_d0_1 h_S_) main_v81 main_c_31
  let main_v83 : IVec S_ 1 := andi main_v78 main_v82
  let main_v84 : FVec F S1000x128 .f32 := Host.absf main_arg43
  let main_cst_32 : FVec F S_ .f32 := constant S_ .f32 0x7F800000#32
  fn_part5 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg44 main_arg45 main_arg46 main_arg47 main_arg48 main_arg49 main_arg50 main_arg51 main_v83 main_v84 main_cst_32

def fn_part3 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg37 : FVec F S1000x128 .f32) (main_arg38 : FVec F S1000x128 .f32) (main_arg39 : FVec F S1000x128 .f32) (main_arg40 : FVec F S1000x128 .f32) (main_arg41 : FVec F S1000x128 .f32) (main_arg42 : FVec F S1000x128 .f32) (main_arg43 : FVec F S1000x128 .f32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) (main_v48 : IVec S_ 1) (main_v49 : FVec F S1000x128 .f32) (main_v50 : FVec F S1000x128 .f32) : IVec S_ 1 :=
  let main_v51 : IVec S1000x128 1 := cmpf .olt main_v49 main_v50
  let main_c_19 : IVec S_ 1 := constantI S_ 1 1#1
  let main_v52 : IVec S_ 1 := (fun x v => Host.reduce IntOp.andi x v reducesTo_S1000x128_S_d0_1 h_S_) main_v51 main_c_19
  let main_v53 : IVec S_ 1 := andi main_v48 main_v52
  let main_v54 : FVec F S1000x128 .f32 := Host.absf main_arg37
  let main_cst_20 : FVec F S_ .f32 := constant S_ .f32 0x7F800000#32
  let main_v55 : FVec F S1000x128 .f32 := broadcastInDim S1000x128 ![] bcast_S_S1000x128 main_cst_20
  let main_v56 : IVec S1000x128 1 := cmpf .olt main_v54 main_v55
  let main_c_21 : IVec S_ 1 := constantI S_ 1 1#1
  let main_v57 : IVec S_ 1 := (fun x v => Host.reduce IntOp.andi x v reducesTo_S1000x128_S_d0_1 h_S_) main_v56 main_c_21
  let main_v58 : IVec S_ 1 := andi main_v53 main_v57
  let main_v59 : FVec F S1000x128 .f32 := Host.absf main_arg38
  let main_cst_22 : FVec F S_ .f32 := constant S_ .f32 0x7F800000#32
  let main_v60 : FVec F S1000x128 .f32 := broadcastInDim S1000x128 ![] bcast_S_S1000x128 main_cst_22
  let main_v61 : IVec S1000x128 1 := cmpf .olt main_v59 main_v60
  let main_c_23 : IVec S_ 1 := constantI S_ 1 1#1
  let main_v62 : IVec S_ 1 := (fun x v => Host.reduce IntOp.andi x v reducesTo_S1000x128_S_d0_1 h_S_) main_v61 main_c_23
  let main_v63 : IVec S_ 1 := andi main_v58 main_v62
  let main_v64 : FVec F S1000x128 .f32 := Host.absf main_arg39
  let main_cst_24 : FVec F S_ .f32 := constant S_ .f32 0x7F800000#32
  let main_v65 : FVec F S1000x128 .f32 := broadcastInDim S1000x128 ![] bcast_S_S1000x128 main_cst_24
  let main_v66 : IVec S1000x128 1 := cmpf .olt main_v64 main_v65
  let main_c_25 : IVec S_ 1 := constantI S_ 1 1#1
  let main_v67 : IVec S_ 1 := (fun x v => Host.reduce IntOp.andi x v reducesTo_S1000x128_S_d0_1 h_S_) main_v66 main_c_25
  fn_part4 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg40 main_arg41 main_arg42 main_arg43 main_arg44 main_arg45 main_arg46 main_arg47 main_arg48 main_arg49 main_arg50 main_arg51 main_v63 main_v67

def fn_part2 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg33 : FVec F S1000x128 .f32) (main_arg34 : FVec F S1000x128 .f32) (main_arg35 : FVec F S1000x128 .f32) (main_arg36 : FVec F S1000x128 .f32) (main_arg37 : FVec F S1000x128 .f32) (main_arg38 : FVec F S1000x128 .f32) (main_arg39 : FVec F S1000x128 .f32) (main_arg40 : FVec F S1000x128 .f32) (main_arg41 : FVec F S1000x128 .f32) (main_arg42 : FVec F S1000x128 .f32) (main_arg43 : FVec F S1000x128 .f32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) (main_v33 : IVec S_ 1) : IVec S_ 1 :=
  let main_v34 : FVec F S1000x128 .f32 := Host.absf main_arg33
  let main_cst_12 : FVec F S_ .f32 := constant S_ .f32 0x7F800000#32
  let main_v35 : FVec F S1000x128 .f32 := broadcastInDim S1000x128 ![] bcast_S_S1000x128 main_cst_12
  let main_v36 : IVec S1000x128 1 := cmpf .olt main_v34 main_v35
  let main_c_13 : IVec S_ 1 := constantI S_ 1 1#1
  let main_v37 : IVec S_ 1 := (fun x v => Host.reduce IntOp.andi x v reducesTo_S1000x128_S_d0_1 h_S_) main_v36 main_c_13
  let main_v38 : IVec S_ 1 := andi main_v33 main_v37
  let main_v39 : FVec F S1000x128 .f32 := Host.absf main_arg34
  let main_cst_14 : FVec F S_ .f32 := constant S_ .f32 0x7F800000#32
  let main_v40 : FVec F S1000x128 .f32 := broadcastInDim S1000x128 ![] bcast_S_S1000x128 main_cst_14
  let main_v41 : IVec S1000x128 1 := cmpf .olt main_v39 main_v40
  let main_c_15 : IVec S_ 1 := constantI S_ 1 1#1
  let main_v42 : IVec S_ 1 := (fun x v => Host.reduce IntOp.andi x v reducesTo_S1000x128_S_d0_1 h_S_) main_v41 main_c_15
  let main_v43 : IVec S_ 1 := andi main_v38 main_v42
  let main_v44 : FVec F S1000x128 .f32 := Host.absf main_arg35
  let main_cst_16 : FVec F S_ .f32 := constant S_ .f32 0x7F800000#32
  let main_v45 : FVec F S1000x128 .f32 := broadcastInDim S1000x128 ![] bcast_S_S1000x128 main_cst_16
  let main_v46 : IVec S1000x128 1 := cmpf .olt main_v44 main_v45
  let main_c_17 : IVec S_ 1 := constantI S_ 1 1#1
  let main_v47 : IVec S_ 1 := (fun x v => Host.reduce IntOp.andi x v reducesTo_S1000x128_S_d0_1 h_S_) main_v46 main_c_17
  let main_v48 : IVec S_ 1 := andi main_v43 main_v47
  let main_v49 : FVec F S1000x128 .f32 := Host.absf main_arg36
  let main_cst_18 : FVec F S_ .f32 := constant S_ .f32 0x7F800000#32
  let main_v50 : FVec F S1000x128 .f32 := broadcastInDim S1000x128 ![] bcast_S_S1000x128 main_cst_18
  fn_part3 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg37 main_arg38 main_arg39 main_arg40 main_arg41 main_arg42 main_arg43 main_arg44 main_arg45 main_arg46 main_arg47 main_arg48 main_arg49 main_arg50 main_arg51 main_v48 main_v49 main_v50

def fn_part1 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg30 : FVec F S1000x128 .f32) (main_arg31 : FVec F S1000x128 .f32) (main_arg32 : FVec F S1000x128 .f32) (main_arg33 : FVec F S1000x128 .f32) (main_arg34 : FVec F S1000x128 .f32) (main_arg35 : FVec F S1000x128 .f32) (main_arg36 : FVec F S1000x128 .f32) (main_arg37 : FVec F S1000x128 .f32) (main_arg38 : FVec F S1000x128 .f32) (main_arg39 : FVec F S1000x128 .f32) (main_arg40 : FVec F S1000x128 .f32) (main_arg41 : FVec F S1000x128 .f32) (main_arg42 : FVec F S1000x128 .f32) (main_arg43 : FVec F S1000x128 .f32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) (main_v13 : IVec S_ 1) (main_v16 : IVec S1000x128 1) : IVec S_ 1 :=
  let main_c_5 : IVec S_ 1 := constantI S_ 1 1#1
  let main_v17 : IVec S_ 1 := (fun x v => Host.reduce IntOp.andi x v reducesTo_S1000x128_S_d0_1 h_S_) main_v16 main_c_5
  let main_v18 : IVec S_ 1 := andi main_v13 main_v17
  let main_v19 : FVec F S1000x128 .f32 := Host.absf main_arg30
  let main_cst_6 : FVec F S_ .f32 := constant S_ .f32 0x7F800000#32
  let main_v20 : FVec F S1000x128 .f32 := broadcastInDim S1000x128 ![] bcast_S_S1000x128 main_cst_6
  let main_v21 : IVec S1000x128 1 := cmpf .olt main_v19 main_v20
  let main_c_7 : IVec S_ 1 := constantI S_ 1 1#1
  let main_v22 : IVec S_ 1 := (fun x v => Host.reduce IntOp.andi x v reducesTo_S1000x128_S_d0_1 h_S_) main_v21 main_c_7
  let main_v23 : IVec S_ 1 := andi main_v18 main_v22
  let main_v24 : FVec F S1000x128 .f32 := Host.absf main_arg31
  let main_cst_8 : FVec F S_ .f32 := constant S_ .f32 0x7F800000#32
  let main_v25 : FVec F S1000x128 .f32 := broadcastInDim S1000x128 ![] bcast_S_S1000x128 main_cst_8
  let main_v26 : IVec S1000x128 1 := cmpf .olt main_v24 main_v25
  let main_c_9 : IVec S_ 1 := constantI S_ 1 1#1
  let main_v27 : IVec S_ 1 := (fun x v => Host.reduce IntOp.andi x v reducesTo_S1000x128_S_d0_1 h_S_) main_v26 main_c_9
  let main_v28 : IVec S_ 1 := andi main_v23 main_v27
  let main_v29 : FVec F S1000x128 .f32 := Host.absf main_arg32
  let main_cst_10 : FVec F S_ .f32 := constant S_ .f32 0x7F800000#32
  let main_v30 : FVec F S1000x128 .f32 := broadcastInDim S1000x128 ![] bcast_S_S1000x128 main_cst_10
  let main_v31 : IVec S1000x128 1 := cmpf .olt main_v29 main_v30
  let main_c_11 : IVec S_ 1 := constantI S_ 1 1#1
  let main_v32 : IVec S_ 1 := (fun x v => Host.reduce IntOp.andi x v reducesTo_S1000x128_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg33 main_arg34 main_arg35 main_arg36 main_arg37 main_arg38 main_arg39 main_arg40 main_arg41 main_arg42 main_arg43 main_arg44 main_arg45 main_arg46 main_arg47 main_arg48 main_arg49 main_arg50 main_arg51 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_arg16 : IVec S16384 32) (main_arg17 : IVec S16384 32) (main_arg18 : IVec S16384 32) (main_arg19 : IVec S16384 32) (main_arg20 : IVec S16384 32) (main_arg21 : IVec S16384 32) (main_arg22 : IVec S16384 32) (main_arg23 : IVec S16384 32) (main_arg24 : IVec S16384 32) (main_arg25 : IVec S16384 32) (main_arg26 : FVec F S1000x128 .f32) (main_arg27 : FVec F S1000x128 .f32) (main_arg28 : FVec F S1000x128 .f32) (main_arg29 : FVec F S1000x128 .f32) (main_arg30 : FVec F S1000x128 .f32) (main_arg31 : FVec F S1000x128 .f32) (main_arg32 : FVec F S1000x128 .f32) (main_arg33 : FVec F S1000x128 .f32) (main_arg34 : FVec F S1000x128 .f32) (main_arg35 : FVec F S1000x128 .f32) (main_arg36 : FVec F S1000x128 .f32) (main_arg37 : FVec F S1000x128 .f32) (main_arg38 : FVec F S1000x128 .f32) (main_arg39 : FVec F S1000x128 .f32) (main_arg40 : FVec F S1000x128 .f32) (main_arg41 : FVec F S1000x128 .f32) (main_arg42 : FVec F S1000x128 .f32) (main_arg43 : FVec F S1000x128 .f32) (main_arg44 : FVec F S1000x128 .f32) (main_arg45 : FVec F S1000x128 .f32) (main_arg46 : FVec F S1000x128 .f32) (main_arg47 : FVec F S1000x128 .f32) (main_arg48 : FVec F S1000x128 .f32) (main_arg49 : FVec F S1000x128 .f32) (main_arg50 : FVec F S1000x128 .f32) (main_arg51 : FVec F S1000x128 .f32) : IVec S_ 1 :=
  let main_v0 : FVec F S1000x128 .f32 := Host.absf main_arg26
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S1000x128 .f32 := Host.absf main_arg27
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000x128 .f32 := Host.absf main_arg28
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_v14 : FVec F S1000x128 .f32 := Host.absf main_arg29
  let main_cst_4 : FVec F S_ .f32 := constant S_ .f32 0x7F800000#32
  let main_v15 : FVec F S1000x128 .f32 := broadcastInDim S1000x128 ![] bcast_S_S1000x128 main_cst_4
  let main_v16 : IVec S1000x128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg30 main_arg31 main_arg32 main_arg33 main_arg34 main_arg35 main_arg36 main_arg37 main_arg38 main_arg39 main_arg40 main_arg41 main_arg42 main_arg43 main_arg44 main_arg45 main_arg46 main_arg47 main_arg48 main_arg49 main_arg50 main_arg51 main_v13 main_v16
-- ==== Kernel.lean ====
abbrev S16384 : Shape := ⟨1, ![16384]⟩
abbrev S1000x128 : Shape := ⟨2, ![1000, 128]⟩
abbrev S128x128 : Shape := ⟨2, ![128, 128]⟩
abbrev S16384x3328 : Shape := ⟨2, ![16384, 3328]⟩
abbrev S26x4x128 : Shape := ⟨3, ![26, 4, 128]⟩
abbrev S7x128x128 : Shape := ⟨3, ![7, 128, 128]⟩
abbrev S_ : Shape := ⟨0, ![]⟩
abbrev S1x4x128 : Shape := ⟨3, ![1, 4, 128]⟩
abbrev S4x128 : Shape := ⟨2, ![4, 128]⟩
abbrev S104x128 : Shape := ⟨2, ![104, 128]⟩
abbrev S1x128x128 : Shape := ⟨3, ![1, 128, 128]⟩
abbrev S1x1x128 : Shape := ⟨3, ![1, 1, 128]⟩
abbrev S128 : Shape := ⟨1, ![128]⟩

abbrev nBuf : Table → Nat
  | .hbm => 79
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S1000x128, .f32⟩
  | .hbm, ⟨27, _⟩ => ⟨S1000x128, .f32⟩
  | .hbm, ⟨28, _⟩ => ⟨S1000x128, .f32⟩
  | .hbm, ⟨29, _⟩ => ⟨S1000x128, .f32⟩
  | .hbm, ⟨30, _⟩ => ⟨S1000x128, .f32⟩
  | .hbm, ⟨31, _⟩ => ⟨S1000x128, .f32⟩
  | .hbm, ⟨32, _⟩ => ⟨S1000x128, .f32⟩
  | .hbm, ⟨33, _⟩ => ⟨S1000x128, .f32⟩
  | .hbm, ⟨34, _⟩ => ⟨S1000x128, .f32⟩
  | .hbm, ⟨35, _⟩ => ⟨S1000x128, .f32⟩
  | .hbm, ⟨36, _⟩ => ⟨S1000x128, .f32⟩
  | .hbm, ⟨37, _⟩ => ⟨S1000x128, .f32⟩
  | .hbm, ⟨38, _⟩ => ⟨S1000x128, .f32⟩
  | .hbm, ⟨39, _⟩ => ⟨S1000x128, .f32⟩
  | .hbm, ⟨40, _⟩ => ⟨S1000x128, .f32⟩
  | .hbm, ⟨41, _⟩ => ⟨S1000x128, .f32⟩
  | .hbm, ⟨42, _⟩ => ⟨S1000x128, .f32⟩
  | .hbm, ⟨43, _⟩ => ⟨S1000x128, .f32⟩
  | .hbm, ⟨44, _⟩ => ⟨S1000x128, .f32⟩
  | .hbm, ⟨45, _⟩ => ⟨S1000x128, .f32⟩
  | .hbm, ⟨46, _⟩ => ⟨S1000x128, .f32⟩
  | .hbm, ⟨47, _⟩ => ⟨S1000x128, .f32⟩
  | .hbm, ⟨48, _⟩ => ⟨S1000x128, .f32⟩
  | .hbm, ⟨49, _⟩ => ⟨S1000x128, .f32⟩
  | .hbm, ⟨50, _⟩ => ⟨S1000x128, .f32⟩
  | .hbm, ⟨51, _⟩ => ⟨S1000x128, .f32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S16384x3328, .f32⟩
  | .local .scVector .vmem, ⟨0, _⟩ => ⟨S26x4x128, .i32⟩
  | .local .scVector .vmem, ⟨1, _⟩ => ⟨S7x128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_arg26_scv : Ref sig .scVector := ⟨.hbm, 26, rfl⟩
abbrev main_arg27_scv : Ref sig .scVector := ⟨.hbm, 27, rfl⟩
abbrev main_arg28_scv : Ref sig .scVector := ⟨.hbm, 28, rfl⟩
abbrev main_arg29_scv : Ref sig .scVector := ⟨.hbm, 29, rfl⟩
abbrev main_arg30_scv : Ref sig .scVector := ⟨.hbm, 30, rfl⟩
abbrev main_arg31_scv : Ref sig .scVector := ⟨.hbm, 31, rfl⟩
abbrev main_arg32_scv : Ref sig .scVector := ⟨.hbm, 32, rfl⟩
abbrev main_arg33_scv : Ref sig .scVector := ⟨.hbm, 33, rfl⟩
abbrev main_arg34_scv : Ref sig .scVector := ⟨.hbm, 34, rfl⟩
abbrev main_arg35_scv : Ref sig .scVector := ⟨.hbm, 35, rfl⟩
abbrev main_arg36_scv : Ref sig .scVector := ⟨.hbm, 36, rfl⟩
abbrev main_arg37_scv : Ref sig .scVector := ⟨.hbm, 37, rfl⟩
abbrev main_arg38_scv : Ref sig .scVector := ⟨.hbm, 38, rfl⟩
abbrev main_arg39_scv : Ref sig .scVector := ⟨.hbm, 39, rfl⟩
abbrev main_arg40_scv : Ref sig .scVector := ⟨.hbm, 40, rfl⟩
abbrev main_arg41_scv : Ref sig .scVector := ⟨.hbm, 41, rfl⟩
abbrev main_arg42_scv : Ref sig .scVector := ⟨.hbm, 42, rfl⟩
abbrev main_arg43_scv : Ref sig .scVector := ⟨.hbm, 43, rfl⟩
abbrev main_arg44_scv : Ref sig .scVector := ⟨.hbm, 44, rfl⟩
abbrev main_arg45_scv : Ref sig .scVector := ⟨.hbm, 45, rfl⟩
abbrev main_arg46_scv : Ref sig .scVector := ⟨.hbm, 46, rfl⟩
abbrev main_arg47_scv : Ref sig .scVector := ⟨.hbm, 47, rfl⟩
abbrev main_arg48_scv : Ref sig .scVector := ⟨.hbm, 48, rfl⟩
abbrev main_arg49_scv : Ref sig .scVector := ⟨.hbm, 49, rfl⟩
abbrev main_arg50_scv : Ref sig .scVector := ⟨.hbm, 50, rfl⟩
abbrev main_arg51_scv : Ref sig .scVector := ⟨.hbm, 51, rfl⟩
abbrev main_v0_scv : Ref sig .scVector := ⟨.hbm, 52, rfl⟩
abbrev main_v1_scv : Ref sig .scVector := ⟨.hbm, 53, rfl⟩
abbrev main_v2_scv : Ref sig .scVector := ⟨.hbm, 54, rfl⟩
abbrev main_v3_scv : Ref sig .scVector := ⟨.hbm, 55, rfl⟩
abbrev main_v4_scv : Ref sig .scVector := ⟨.hbm, 56, rfl⟩
abbrev main_v5_scv : Ref sig .scVector := ⟨.hbm, 57, rfl⟩
abbrev main_v6_scv : Ref sig .scVector := ⟨.hbm, 58, rfl⟩
abbrev main_v7_scv : Ref sig .scVector := ⟨.hbm, 59, rfl⟩
abbrev main_v8_scv : Ref sig .scVector := ⟨.hbm, 60, rfl⟩
abbrev main_v9_scv : Ref sig .scVector := ⟨.hbm, 61, rfl⟩
abbrev main_v10_scv : Ref sig .scVector := ⟨.hbm, 62, rfl⟩
abbrev main_v11_scv : Ref sig .scVector := ⟨.hbm, 63, rfl⟩
abbrev main_v12_scv : Ref sig .scVector := ⟨.hbm, 64, rfl⟩
abbrev main_v13_scv : Ref sig .scVector := ⟨.hbm, 65, rfl⟩
abbrev main_v14_scv : Ref sig .scVector := ⟨.hbm, 66, rfl⟩
abbrev main_v15_scv : Ref sig .scVector := ⟨.hbm, 67, rfl⟩
abbrev main_v16_scv : Ref sig .scVector := ⟨.hbm, 68, rfl⟩
abbrev main_v17_scv : Ref sig .scVector := ⟨.hbm, 69, rfl⟩
abbrev main_v18_scv : Ref sig .scVector := ⟨.hbm, 70, rfl⟩
abbrev main_v19_scv : Ref sig .scVector := ⟨.hbm, 71, rfl⟩
abbrev main_v20_scv : Ref sig .scVector := ⟨.hbm, 72, rfl⟩
abbrev main_v21_scv : Ref sig .scVector := ⟨.hbm, 73, rfl⟩
abbrev main_v22_scv : Ref sig .scVector := ⟨.hbm, 74, rfl⟩
abbrev main_v23_scv : Ref sig .scVector := ⟨.hbm, 75, rfl⟩
abbrev main_v24_scv : Ref sig .scVector := ⟨.hbm, 76, rfl⟩
abbrev main_v25_scv : Ref sig .scVector := ⟨.hbm, 77, rfl⟩
abbrev main_v26_scv : Ref sig .scVector := ⟨.hbm, 78, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_2 : BitVec 32 := 0#32
  ![v3.toNat, 0]
def k0_cond1 (i : grid0.Coords) : BitVec 1 :=
  let arg0 : BitVec 32 := BitVec.ofNat 32 (i 0).val
  let c2_i32_187 : BitVec 32 := 2#32
  let v187 : BitVec 32 := Scalar.muli arg0 c2_i32_187
  let arg1 : BitVec 32 := BitVec.ofNat 32 (i 1).val
  let c2_i32_188 : BitVec 32 := 2#32
  let v188 : BitVec 32 := Scalar.remsi arg1 c2_i32_188
  let v189 : BitVec 32 := Scalar.addi v187 v188
  let c0_i32_189 : BitVec 32 := 0#32
  let v190 : BitVec 1 := Scalar.cmpi .eq v189 c0_i32_189
  let v191 : BitVec 32 := Scalar.extui v190
  let c0_i32_190 : BitVec 32 := 0#32
  let v192 : BitVec 1 := Scalar.cmpi .ne v191 c0_i32_190
  v192

def k0_off2 (i : grid0.Coords) (c0_i32_253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v237 : BitVec 32 := Scalar.addi v2 c0_i32_253
  let c0_i32_257 : BitVec 32 := 0#32
  ![v237.toNat, 0]
def k0_off3 (i : grid0.Coords) (c0_i32_277 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v254 : BitVec 32 := Scalar.addi v2 c0_i32_277
  let c128_i32 : BitVec 32 := 128#32
  ![v254.toNat, 128]
def k0_off4 (i : grid0.Coords) (c0_i32_308 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v278 : BitVec 32 := Scalar.addi v2 c0_i32_308
  let c256_i32 : BitVec 32 := 256#32
  ![v278.toNat, 256]
def k0_off5 (i : grid0.Coords) (c0_i32_339 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v302 : BitVec 32 := Scalar.addi v2 c0_i32_339
  let c384_i32 : BitVec 32 := 384#32
  ![v302.toNat, 384]
def k0_off6 (i : grid0.Coords) (c0_i32_370 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v326 : BitVec 32 := Scalar.addi v2 c0_i32_370
  let c512_i32_374 : BitVec 32 := 512#32
  ![v326.toNat, 512]
def k0_off7 (i : grid0.Coords) (c0_i32_402 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v350 : BitVec 32 := Scalar.addi v2 c0_i32_402
  let c640_i32 : BitVec 32 := 640#32
  ![v350.toNat, 640]
def k0_off8 (i : grid0.Coords) (c0_i32_433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v374 : BitVec 32 := Scalar.addi v2 c0_i32_433
  let c768_i32 : BitVec 32 := 768#32
  ![v374.toNat, 768]
def k0_off9 (i : grid0.Coords) (c0_i32_464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v398 : BitVec 32 := Scalar.addi v2 c0_i32_464
  let c896_i32 : BitVec 32 := 896#32
  ![v398.toNat, 896]
def k0_off10 (i : grid0.Coords) (c0_i32_495 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v422 : BitVec 32 := Scalar.addi v2 c0_i32_495
  let c1024_i32 : BitVec 32 := 1024#32
  ![v422.toNat, 1024]
def k0_off11 (i : grid0.Coords) (c0_i32_526 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v446 : BitVec 32 := Scalar.addi v2 c0_i32_526
  let c1152_i32 : BitVec 32 := 1152#32
  ![v446.toNat, 1152]
def k0_off12 (i : grid0.Coords) (c0_i32_557 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v470 : BitVec 32 := Scalar.addi v2 c0_i32_557
  let c1280_i32 : BitVec 32 := 1280#32
  ![v470.toNat, 1280]
def k0_off13 (i : grid0.Coords) (c0_i32_588 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v494 : BitVec 32 := Scalar.addi v2 c0_i32_588
  let c1408_i32 : BitVec 32 := 1408#32
  ![v494.toNat, 1408]
def k0_off14 (i : grid0.Coords) (c0_i32_619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v518 : BitVec 32 := Scalar.addi v2 c0_i32_619
  let c1536_i32 : BitVec 32 := 1536#32
  ![v518.toNat, 1536]
def k0_off15 (i : grid0.Coords) (c0_i32_650 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v542 : BitVec 32 := Scalar.addi v2 c0_i32_650
  let c1664_i32 : BitVec 32 := 1664#32
  ![v542.toNat, 1664]
def k0_off16 (i : grid0.Coords) (c0_i32_681 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v566 : BitVec 32 := Scalar.addi v2 c0_i32_681
  let c1792_i32 : BitVec 32 := 1792#32
  ![v566.toNat, 1792]
def k0_off17 (i : grid0.Coords) (c0_i32_712 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v590 : BitVec 32 := Scalar.addi v2 c0_i32_712
  let c1920_i32 : BitVec 32 := 1920#32
  ![v590.toNat, 1920]
def k0_off18 (i : grid0.Coords) (c0_i32_743 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v614 : BitVec 32 := Scalar.addi v2 c0_i32_743
  let c2048_i32 : BitVec 32 := 2048#32
  ![v614.toNat, 2048]
def k0_off19 (i : grid0.Coords) (c0_i32_774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v638 : BitVec 32 := Scalar.addi v2 c0_i32_774
  let c2176_i32 : BitVec 32 := 2176#32
  ![v638.toNat, 2176]
def k0_off20 (i : grid0.Coords) (c0_i32_805 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v662 : BitVec 32 := Scalar.addi v2 c0_i32_805
  let c2304_i32 : BitVec 32 := 2304#32
  ![v662.toNat, 2304]
def k0_off21 (i : grid0.Coords) (c0_i32_836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v686 : BitVec 32 := Scalar.addi v2 c0_i32_836
  let c2432_i32 : BitVec 32 := 2432#32
  ![v686.toNat, 2432]
def k0_off22 (i : grid0.Coords) (c0_i32_867 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v710 : BitVec 32 := Scalar.addi v2 c0_i32_867
  let c2560_i32 : BitVec 32 := 2560#32
  ![v710.toNat, 2560]
def k0_off23 (i : grid0.Coords) (c0_i32_898 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v734 : BitVec 32 := Scalar.addi v2 c0_i32_898
  let c2688_i32 : BitVec 32 := 2688#32
  ![v734.toNat, 2688]
def k0_off24 (i : grid0.Coords) (c0_i32_929 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v758 : BitVec 32 := Scalar.addi v2 c0_i32_929
  let c2816_i32 : BitVec 32 := 2816#32
  ![v758.toNat, 2816]
def k0_off25 (i : grid0.Coords) (c0_i32_960 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v782 : BitVec 32 := Scalar.addi v2 c0_i32_960
  let c2944_i32 : BitVec 32 := 2944#32
  ![v782.toNat, 2944]
def k0_off26 (i : grid0.Coords) (c0_i32_991 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v806 : BitVec 32 := Scalar.addi v2 c0_i32_991
  let c3072_i32 : BitVec 32 := 3072#32
  ![v806.toNat, 3072]
def k0_off27 (i : grid0.Coords) (c0_i32_1022 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v830 : BitVec 32 := Scalar.addi v2 c0_i32_1022
  let c3200_i32 : BitVec 32 := 3200#32
  ![v830.toNat, 3200]
def k0_cond2 (i : grid0.Coords) : BitVec 1 :=
  let arg0 : BitVec 32 := BitVec.ofNat 32 (i 0).val
  let c2_i32_187 : BitVec 32 := 2#32
  let v187 : BitVec 32 := Scalar.muli arg0 c2_i32_187
  let arg1 : BitVec 32 := BitVec.ofNat 32 (i 1).val
  let c2_i32_188 : BitVec 32 := 2#32
  let v188 : BitVec 32 := Scalar.remsi arg1 c2_i32_188
  let v189 : BitVec 32 := Scalar.addi v187 v188
  let c1_i32_191 : BitVec 32 := 1#32
  let v193 : BitVec 1 := Scalar.cmpi .eq v189 c1_i32_191
  let v194 : BitVec 32 := Scalar.extui v193
  let c0_i32_192 : BitVec 32 := 0#32
  let v195 : BitVec 1 := Scalar.cmpi .ne v194 c0_i32_192
  v195

def k0_off28 (i : grid0.Coords) (c0_i32_253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v237 : BitVec 32 := Scalar.addi v2 c0_i32_253
  let c896_i32 : BitVec 32 := 896#32
  ![v237.toNat, 896]
def k0_off29 (i : grid0.Coords) (c0_i32_276 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v254 : BitVec 32 := Scalar.addi v2 c0_i32_276
  let c1024_i32 : BitVec 32 := 1024#32
  ![v254.toNat, 1024]
def k0_off30 (i : grid0.Coords) (c0_i32_307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v278 : BitVec 32 := Scalar.addi v2 c0_i32_307
  let c1152_i32 : BitVec 32 := 1152#32
  ![v278.toNat, 1152]
def k0_off31 (i : grid0.Coords) (c0_i32_338 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v302 : BitVec 32 := Scalar.addi v2 c0_i32_338
  let c1280_i32 : BitVec 32 := 1280#32
  ![v302.toNat, 1280]
def k0_off32 (i : grid0.Coords) (c0_i32_369 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v326 : BitVec 32 := Scalar.addi v2 c0_i32_369
  let c1408_i32 : BitVec 32 := 1408#32
  ![v326.toNat, 1408]
def k0_off33 (i : grid0.Coords) (c0_i32_400 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v350 : BitVec 32 := Scalar.addi v2 c0_i32_400
  let c1536_i32 : BitVec 32 := 1536#32
  ![v350.toNat, 1536]
def k0_off34 (i : grid0.Coords) (c0_i32_431 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v374 : BitVec 32 := Scalar.addi v2 c0_i32_431
  let c1664_i32 : BitVec 32 := 1664#32
  ![v374.toNat, 1664]
def k0_off35 (i : grid0.Coords) (c0_i32_462 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v398 : BitVec 32 := Scalar.addi v2 c0_i32_462
  let c1792_i32 : BitVec 32 := 1792#32
  ![v398.toNat, 1792]
def k0_off36 (i : grid0.Coords) (c0_i32_493 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v422 : BitVec 32 := Scalar.addi v2 c0_i32_493
  let c1920_i32 : BitVec 32 := 1920#32
  ![v422.toNat, 1920]
def k0_off37 (i : grid0.Coords) (c0_i32_524 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v446 : BitVec 32 := Scalar.addi v2 c0_i32_524
  let c2048_i32 : BitVec 32 := 2048#32
  ![v446.toNat, 2048]
def k0_off38 (i : grid0.Coords) (c0_i32_555 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v470 : BitVec 32 := Scalar.addi v2 c0_i32_555
  let c2176_i32 : BitVec 32 := 2176#32
  ![v470.toNat, 2176]
def k0_off39 (i : grid0.Coords) (c0_i32_586 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v494 : BitVec 32 := Scalar.addi v2 c0_i32_586
  let c2304_i32 : BitVec 32 := 2304#32
  ![v494.toNat, 2304]
def k0_off40 (i : grid0.Coords) (c0_i32_617 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v518 : BitVec 32 := Scalar.addi v2 c0_i32_617
  let c2432_i32 : BitVec 32 := 2432#32
  ![v518.toNat, 2432]
def k0_off41 (i : grid0.Coords) (c0_i32_648 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v542 : BitVec 32 := Scalar.addi v2 c0_i32_648
  let c2560_i32 : BitVec 32 := 2560#32
  ![v542.toNat, 2560]
def k0_off42 (i : grid0.Coords) (c0_i32_679 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v566 : BitVec 32 := Scalar.addi v2 c0_i32_679
  let c2688_i32 : BitVec 32 := 2688#32
  ![v566.toNat, 2688]
def k0_off43 (i : grid0.Coords) (c0_i32_710 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v590 : BitVec 32 := Scalar.addi v2 c0_i32_710
  let c2816_i32 : BitVec 32 := 2816#32
  ![v590.toNat, 2816]
def k0_off44 (i : grid0.Coords) (c0_i32_741 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v614 : BitVec 32 := Scalar.addi v2 c0_i32_741
  let c2944_i32 : BitVec 32 := 2944#32
  ![v614.toNat, 2944]
def k0_off45 (i : grid0.Coords) (c0_i32_772 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v638 : BitVec 32 := Scalar.addi v2 c0_i32_772
  let c3072_i32 : BitVec 32 := 3072#32
  ![v638.toNat, 3072]
def k0_off46 (i : grid0.Coords) (c0_i32_803 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v662 : BitVec 32 := Scalar.addi v2 c0_i32_803
  let c3200_i32 : BitVec 32 := 3200#32
  ![v662.toNat, 3200]
def k0_off47 (i : grid0.Coords) (c0_i32_834 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v686 : BitVec 32 := Scalar.addi v2 c0_i32_834
  let c0_i32_838 : BitVec 32 := 0#32
  ![v686.toNat, 0]
def k0_off48 (i : grid0.Coords) (c0_i32_866 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v710 : BitVec 32 := Scalar.addi v2 c0_i32_866
  let c128_i32 : BitVec 32 := 128#32
  ![v710.toNat, 128]
def k0_off49 (i : grid0.Coords) (c0_i32_897 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v734 : BitVec 32 := Scalar.addi v2 c0_i32_897
  let c256_i32 : BitVec 32 := 256#32
  ![v734.toNat, 256]
def k0_off50 (i : grid0.Coords) (c0_i32_928 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v758 : BitVec 32 := Scalar.addi v2 c0_i32_928
  let c384_i32 : BitVec 32 := 384#32
  ![v758.toNat, 384]
def k0_off51 (i : grid0.Coords) (c0_i32_959 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v782 : BitVec 32 := Scalar.addi v2 c0_i32_959
  let c512_i32_963 : BitVec 32 := 512#32
  ![v782.toNat, 512]
def k0_off52 (i : grid0.Coords) (c0_i32_991 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v806 : BitVec 32 := Scalar.addi v2 c0_i32_991
  let c640_i32 : BitVec 32 := 640#32
  ![v806.toNat, 640]
def k0_off53 (i : grid0.Coords) (c0_i32_1022 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v830 : BitVec 32 := Scalar.addi v2 c0_i32_1022
  let c768_i32 : BitVec 32 := 768#32
  ![v830.toNat, 768]
def k0_cond3 (i : grid0.Coords) : BitVec 1 :=
  let arg0 : BitVec 32 := BitVec.ofNat 32 (i 0).val
  let c2_i32_187 : BitVec 32 := 2#32
  let v187 : BitVec 32 := Scalar.muli arg0 c2_i32_187
  let arg1 : BitVec 32 := BitVec.ofNat 32 (i 1).val
  let c2_i32_188 : BitVec 32 := 2#32
  let v188 : BitVec 32 := Scalar.remsi arg1 c2_i32_188
  let v189 : BitVec 32 := Scalar.addi v187 v188
  let c2_i32_193 : BitVec 32 := 2#32
  let v196 : BitVec 1 := Scalar.cmpi .eq v189 c2_i32_193
  let v197 : BitVec 32 := Scalar.extui v196
  let c0_i32_194 : BitVec 32 := 0#32
  let v198 : BitVec 1 := Scalar.cmpi .ne v197 c0_i32_194
  v198

def k0_off54 (i : grid0.Coords) (c0_i32_253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v237 : BitVec 32 := Scalar.addi v2 c0_i32_253
  let c1664_i32 : BitVec 32 := 1664#32
  ![v237.toNat, 1664]
def k0_off55 (i : grid0.Coords) (c0_i32_276 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v254 : BitVec 32 := Scalar.addi v2 c0_i32_276
  let c1792_i32 : BitVec 32 := 1792#32
  ![v254.toNat, 1792]
def k0_off56 (i : grid0.Coords) (c0_i32_307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v278 : BitVec 32 := Scalar.addi v2 c0_i32_307
  let c1920_i32 : BitVec 32 := 1920#32
  ![v278.toNat, 1920]
def k0_off57 (i : grid0.Coords) (c0_i32_338 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v302 : BitVec 32 := Scalar.addi v2 c0_i32_338
  let c2048_i32 : BitVec 32 := 2048#32
  ![v302.toNat, 2048]
def k0_off58 (i : grid0.Coords) (c0_i32_369 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v326 : BitVec 32 := Scalar.addi v2 c0_i32_369
  let c2176_i32 : BitVec 32 := 2176#32
  ![v326.toNat, 2176]
def k0_off59 (i : grid0.Coords) (c0_i32_400 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v350 : BitVec 32 := Scalar.addi v2 c0_i32_400
  let c2304_i32 : BitVec 32 := 2304#32
  ![v350.toNat, 2304]
def k0_off60 (i : grid0.Coords) (c0_i32_431 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v374 : BitVec 32 := Scalar.addi v2 c0_i32_431
  let c2432_i32 : BitVec 32 := 2432#32
  ![v374.toNat, 2432]
def k0_off61 (i : grid0.Coords) (c0_i32_462 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v398 : BitVec 32 := Scalar.addi v2 c0_i32_462
  let c2560_i32 : BitVec 32 := 2560#32
  ![v398.toNat, 2560]
def k0_off62 (i : grid0.Coords) (c0_i32_493 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v422 : BitVec 32 := Scalar.addi v2 c0_i32_493
  let c2688_i32 : BitVec 32 := 2688#32
  ![v422.toNat, 2688]
def k0_off63 (i : grid0.Coords) (c0_i32_524 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v446 : BitVec 32 := Scalar.addi v2 c0_i32_524
  let c2816_i32 : BitVec 32 := 2816#32
  ![v446.toNat, 2816]
def k0_off64 (i : grid0.Coords) (c0_i32_555 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v470 : BitVec 32 := Scalar.addi v2 c0_i32_555
  let c2944_i32 : BitVec 32 := 2944#32
  ![v470.toNat, 2944]
def k0_off65 (i : grid0.Coords) (c0_i32_586 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v494 : BitVec 32 := Scalar.addi v2 c0_i32_586
  let c3072_i32 : BitVec 32 := 3072#32
  ![v494.toNat, 3072]
def k0_off66 (i : grid0.Coords) (c0_i32_617 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v518 : BitVec 32 := Scalar.addi v2 c0_i32_617
  let c3200_i32 : BitVec 32 := 3200#32
  ![v518.toNat, 3200]
def k0_off67 (i : grid0.Coords) (c0_i32_648 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v542 : BitVec 32 := Scalar.addi v2 c0_i32_648
  let c0_i32_652 : BitVec 32 := 0#32
  ![v542.toNat, 0]
def k0_off68 (i : grid0.Coords) (c0_i32_680 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v566 : BitVec 32 := Scalar.addi v2 c0_i32_680
  let c128_i32 : BitVec 32 := 128#32
  ![v566.toNat, 128]
def k0_off69 (i : grid0.Coords) (c0_i32_711 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v590 : BitVec 32 := Scalar.addi v2 c0_i32_711
  let c256_i32 : BitVec 32 := 256#32
  ![v590.toNat, 256]
def k0_off70 (i : grid0.Coords) (c0_i32_742 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v614 : BitVec 32 := Scalar.addi v2 c0_i32_742
  let c384_i32 : BitVec 32 := 384#32
  ![v614.toNat, 384]
def k0_off71 (i : grid0.Coords) (c0_i32_773 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v638 : BitVec 32 := Scalar.addi v2 c0_i32_773
  let c512_i32_777 : BitVec 32 := 512#32
  ![v638.toNat, 512]
def k0_off72 (i : grid0.Coords) (c0_i32_805 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v662 : BitVec 32 := Scalar.addi v2 c0_i32_805
  let c640_i32 : BitVec 32 := 640#32
  ![v662.toNat, 640]
def k0_off73 (i : grid0.Coords) (c0_i32_836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v686 : BitVec 32 := Scalar.addi v2 c0_i32_836
  let c768_i32 : BitVec 32 := 768#32
  ![v686.toNat, 768]
def k0_off74 (i : grid0.Coords) (c0_i32_867 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v710 : BitVec 32 := Scalar.addi v2 c0_i32_867
  let c896_i32 : BitVec 32 := 896#32
  ![v710.toNat, 896]
def k0_off75 (i : grid0.Coords) (c0_i32_898 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v734 : BitVec 32 := Scalar.addi v2 c0_i32_898
  let c1024_i32 : BitVec 32 := 1024#32
  ![v734.toNat, 1024]
def k0_off76 (i : grid0.Coords) (c0_i32_929 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v758 : BitVec 32 := Scalar.addi v2 c0_i32_929
  let c1152_i32 : BitVec 32 := 1152#32
  ![v758.toNat, 1152]
def k0_off77 (i : grid0.Coords) (c0_i32_960 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v782 : BitVec 32 := Scalar.addi v2 c0_i32_960
  let c1280_i32 : BitVec 32 := 1280#32
  ![v782.toNat, 1280]
def k0_off78 (i : grid0.Coords) (c0_i32_991 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v806 : BitVec 32 := Scalar.addi v2 c0_i32_991
  let c1408_i32 : BitVec 32 := 1408#32
  ![v806.toNat, 1408]
def k0_off79 (i : grid0.Coords) (c0_i32_1022 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v830 : BitVec 32 := Scalar.addi v2 c0_i32_1022
  let c1536_i32 : BitVec 32 := 1536#32
  ![v830.toNat, 1536]
def k0_cond4 (i : grid0.Coords) : BitVec 1 :=
  let arg0 : BitVec 32 := BitVec.ofNat 32 (i 0).val
  let c2_i32_187 : BitVec 32 := 2#32
  let v187 : BitVec 32 := Scalar.muli arg0 c2_i32_187
  let arg1 : BitVec 32 := BitVec.ofNat 32 (i 1).val
  let c2_i32_188 : BitVec 32 := 2#32
  let v188 : BitVec 32 := Scalar.remsi arg1 c2_i32_188
  let v189 : BitVec 32 := Scalar.addi v187 v188
  let c3_i32_195 : BitVec 32 := 3#32
  let v199 : BitVec 1 := Scalar.cmpi .eq v189 c3_i32_195
  let v200 : BitVec 32 := Scalar.extui v199
  let c0_i32_196 : BitVec 32 := 0#32
  let v201 : BitVec 1 := Scalar.cmpi .ne v200 c0_i32_196
  v201

def k0_off80 (i : grid0.Coords) (c0_i32_253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v237 : BitVec 32 := Scalar.addi v2 c0_i32_253
  let c2560_i32 : BitVec 32 := 2560#32
  ![v237.toNat, 2560]
def k0_off81 (i : grid0.Coords) (c0_i32_276 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v254 : BitVec 32 := Scalar.addi v2 c0_i32_276
  let c2688_i32 : BitVec 32 := 2688#32
  ![v254.toNat, 2688]
def k0_off82 (i : grid0.Coords) (c0_i32_307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v278 : BitVec 32 := Scalar.addi v2 c0_i32_307
  let c2816_i32 : BitVec 32 := 2816#32
  ![v278.toNat, 2816]
def k0_off83 (i : grid0.Coords) (c0_i32_338 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v302 : BitVec 32 := Scalar.addi v2 c0_i32_338
  let c2944_i32 : BitVec 32 := 2944#32
  ![v302.toNat, 2944]
def k0_off84 (i : grid0.Coords) (c0_i32_369 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v326 : BitVec 32 := Scalar.addi v2 c0_i32_369
  let c3072_i32 : BitVec 32 := 3072#32
  ![v326.toNat, 3072]
def k0_off85 (i : grid0.Coords) (c0_i32_400 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v350 : BitVec 32 := Scalar.addi v2 c0_i32_400
  let c3200_i32 : BitVec 32 := 3200#32
  ![v350.toNat, 3200]
def k0_off86 (i : grid0.Coords) (c0_i32_431 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v374 : BitVec 32 := Scalar.addi v2 c0_i32_431
  let c0_i32_435 : BitVec 32 := 0#32
  ![v374.toNat, 0]
def k0_off87 (i : grid0.Coords) (c0_i32_463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v398 : BitVec 32 := Scalar.addi v2 c0_i32_463
  let c128_i32 : BitVec 32 := 128#32
  ![v398.toNat, 128]
def k0_off88 (i : grid0.Coords) (c0_i32_494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v422 : BitVec 32 := Scalar.addi v2 c0_i32_494
  let c256_i32 : BitVec 32 := 256#32
  ![v422.toNat, 256]
def k0_off89 (i : grid0.Coords) (c0_i32_525 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v446 : BitVec 32 := Scalar.addi v2 c0_i32_525
  let c384_i32 : BitVec 32 := 384#32
  ![v446.toNat, 384]
def k0_off90 (i : grid0.Coords) (c0_i32_556 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v470 : BitVec 32 := Scalar.addi v2 c0_i32_556
  let c512_i32_560 : BitVec 32 := 512#32
  ![v470.toNat, 512]
def k0_off91 (i : grid0.Coords) (c0_i32_588 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v494 : BitVec 32 := Scalar.addi v2 c0_i32_588
  let c640_i32 : BitVec 32 := 640#32
  ![v494.toNat, 640]
def k0_off92 (i : grid0.Coords) (c0_i32_619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v518 : BitVec 32 := Scalar.addi v2 c0_i32_619
  let c768_i32 : BitVec 32 := 768#32
  ![v518.toNat, 768]
def k0_off93 (i : grid0.Coords) (c0_i32_650 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v542 : BitVec 32 := Scalar.addi v2 c0_i32_650
  let c896_i32 : BitVec 32 := 896#32
  ![v542.toNat, 896]
def k0_off94 (i : grid0.Coords) (c0_i32_681 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v566 : BitVec 32 := Scalar.addi v2 c0_i32_681
  let c1024_i32 : BitVec 32 := 1024#32
  ![v566.toNat, 1024]
def k0_off95 (i : grid0.Coords) (c0_i32_712 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v590 : BitVec 32 := Scalar.addi v2 c0_i32_712
  let c1152_i32 : BitVec 32 := 1152#32
  ![v590.toNat, 1152]
def k0_off96 (i : grid0.Coords) (c0_i32_743 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v614 : BitVec 32 := Scalar.addi v2 c0_i32_743
  let c1280_i32 : BitVec 32 := 1280#32
  ![v614.toNat, 1280]
def k0_off97 (i : grid0.Coords) (c0_i32_774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v638 : BitVec 32 := Scalar.addi v2 c0_i32_774
  let c1408_i32 : BitVec 32 := 1408#32
  ![v638.toNat, 1408]
def k0_off98 (i : grid0.Coords) (c0_i32_805 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v662 : BitVec 32 := Scalar.addi v2 c0_i32_805
  let c1536_i32 : BitVec 32 := 1536#32
  ![v662.toNat, 1536]
def k0_off99 (i : grid0.Coords) (c0_i32_836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v686 : BitVec 32 := Scalar.addi v2 c0_i32_836
  let c1664_i32 : BitVec 32 := 1664#32
  ![v686.toNat, 1664]
def k0_off100 (i : grid0.Coords) (c0_i32_867 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v710 : BitVec 32 := Scalar.addi v2 c0_i32_867
  let c1792_i32 : BitVec 32 := 1792#32
  ![v710.toNat, 1792]
def k0_off101 (i : grid0.Coords) (c0_i32_898 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v734 : BitVec 32 := Scalar.addi v2 c0_i32_898
  let c1920_i32 : BitVec 32 := 1920#32
  ![v734.toNat, 1920]
def k0_off102 (i : grid0.Coords) (c0_i32_929 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v758 : BitVec 32 := Scalar.addi v2 c0_i32_929
  let c2048_i32 : BitVec 32 := 2048#32
  ![v758.toNat, 2048]
def k0_off103 (i : grid0.Coords) (c0_i32_960 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v782 : BitVec 32 := Scalar.addi v2 c0_i32_960
  let c2176_i32 : BitVec 32 := 2176#32
  ![v782.toNat, 2176]
def k0_off104 (i : grid0.Coords) (c0_i32_991 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v806 : BitVec 32 := Scalar.addi v2 c0_i32_991
  let c2304_i32 : BitVec 32 := 2304#32
  ![v806.toNat, 2304]
def k0_off105 (i : grid0.Coords) (c0_i32_1022 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v830 : BitVec 32 := Scalar.addi v2 c0_i32_1022
  let c2432_i32 : BitVec 32 := 2432#32
  ![v830.toNat, 2432]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S128x128 : S16384.ShapeCasts S128x128
  inb_S26x4x128_S1x4x128_0_0_0 : ∀ a, (![0, 0, 0] : Fin 3 → Nat) a + S1x4x128.size a ≤ S26x4x128.size a
  squeezes_S1x4x128_S4x128 : S1x4x128.Squeezes S4x128
  inb_S26x4x128_S1x4x128_1_0_0 : ∀ a, (![1, 0, 0] : Fin 3 → Nat) a + S1x4x128.size a ≤ S26x4x128.size a
  inb_S26x4x128_S1x4x128_2_0_0 : ∀ a, (![2, 0, 0] : Fin 3 → Nat) a + S1x4x128.size a ≤ S26x4x128.size a
  inb_S26x4x128_S1x4x128_3_0_0 : ∀ a, (![3, 0, 0] : Fin 3 → Nat) a + S1x4x128.size a ≤ S26x4x128.size a
  inb_S26x4x128_S1x4x128_4_0_0 : ∀ a, (![4, 0, 0] : Fin 3 → Nat) a + S1x4x128.size a ≤ S26x4x128.size a
  inb_S26x4x128_S1x4x128_5_0_0 : ∀ a, (![5, 0, 0] : Fin 3 → Nat) a + S1x4x128.size a ≤ S26x4x128.size a
  inb_S26x4x128_S1x4x128_6_0_0 : ∀ a, (![6, 0, 0] : Fin 3 → Nat) a + S1x4x128.size a ≤ S26x4x128.size a
  inb_S26x4x128_S1x4x128_7_0_0 : ∀ a, (![7, 0, 0] : Fin 3 → Nat) a + S1x4x128.size a ≤ S26x4x128.size a
  inb_S26x4x128_S1x4x128_8_0_0 : ∀ a, (![8, 0, 0] : Fin 3 → Nat) a + S1x4x128.size a ≤ S26x4x128.size a
  inb_S26x4x128_S1x4x128_9_0_0 : ∀ a, (![9, 0, 0] : Fin 3 → Nat) a + S1x4x128.size a ≤ S26x4x128.size a
  inb_S26x4x128_S1x4x128_10_0_0 : ∀ a, (![10, 0, 0] : Fin 3 → Nat) a + S1x4x128.size a ≤ S26x4x128.size a
  inb_S26x4x128_S1x4x128_11_0_0 : ∀ a, (![11, 0, 0] : Fin 3 → Nat) a + S1x4x128.size a ≤ S26x4x128.size a
  inb_S26x4x128_S1x4x128_12_0_0 : ∀ a, (![12, 0, 0] : Fin 3 → Nat) a + S1x4x128.size a ≤ S26x4x128.size a
  inb_S26x4x128_S1x4x128_13_0_0 : ∀ a, (![13, 0, 0] : Fin 3 → Nat) a + S1x4x128.size a ≤ S26x4x128.size a
  inb_S26x4x128_S1x4x128_14_0_0 : ∀ a, (![14, 0, 0] : Fin 3 → Nat) a + S1x4x128.size a ≤ S26x4x128.size a
  inb_S26x4x128_S1x4x128_15_0_0 : ∀ a, (![15, 0, 0] : Fin 3 → Nat) a + S1x4x128.size a ≤ S26x4x128.size a
  inb_S26x4x128_S1x4x128_16_0_0 : ∀ a, (![16, 0, 0] : Fin 3 → Nat) a + S1x4x128.size a ≤ S26x4x128.size a
  inb_S26x4x128_S1x4x128_17_0_0 : ∀ a, (![17, 0, 0] : Fin 3 → Nat) a + S1x4x128.size a ≤ S26x4x128.size a
  inb_S26x4x128_S1x4x128_18_0_0 : ∀ a, (![18, 0, 0] : Fin 3 → Nat) a + S1x4x128.size a ≤ S26x4x128.size a
  inb_S26x4x128_S1x4x128_19_0_0 : ∀ a, (![19, 0, 0] : Fin 3 → Nat) a + S1x4x128.size a ≤ S26x4x128.size a
  inb_S26x4x128_S1x4x128_20_0_0 : ∀ a, (![20, 0, 0] : Fin 3 → Nat) a + S1x4x128.size a ≤ S26x4x128.size a
  inb_S26x4x128_S1x4x128_21_0_0 : ∀ a, (![21, 0, 0] : Fin 3 → Nat) a + S1x4x128.size a ≤ S26x4x128.size a
  inb_S26x4x128_S1x4x128_22_0_0 : ∀ a, (![22, 0, 0] : Fin 3 → Nat) a + S1x4x128.size a ≤ S26x4x128.size a
  inb_S26x4x128_S1x4x128_23_0_0 : ∀ a, (![23, 0, 0] : Fin 3 → Nat) a + S1x4x128.size a ≤ S26x4x128.size a
  inb_S26x4x128_S1x4x128_24_0_0 : ∀ a, (![24, 0, 0] : Fin 3 → Nat) a + S1x4x128.size a ≤ S26x4x128.size a
  inb_S26x4x128_S1x4x128_25_0_0 : ∀ a, (![25, 0, 0] : Fin 3 → Nat) a + S1x4x128.size a ≤ S26x4x128.size a
  inb_S128x128_S104x128_0_0 : ∀ a, (![0, 0] : Fin 2 → Nat) a + S104x128.size a ≤ S128x128.size a
  inb_S7x128x128_S1x128x128_0_0_0 : ∀ a, (![0, 0, 0] : Fin 3 → Nat) a + S1x128x128.size a ≤ S7x128x128.size a
  squeezes_S1x128x128_S128x128 : S1x128x128.Squeezes S128x128
  inb_S26x4x128_S1x1x128_0_0_0 : ∀ a, (![0, 0, 0] : Fin 3 → Nat) a + S1x1x128.size a ≤ S26x4x128.size a
  squeezes_S1x1x128_S128 : S1x1x128.Squeezes S128
  inb_S1000x128_S1000x128_0_0 : ∀ a, (![0, 0] : Fin 2 → Nat) a + S1000x128.size a ≤ S1000x128.size a
  gathers_S1000x128_S128x128 : S1000x128.Gathers 0 S128x128
  inb_S7x128x128_S1x128x128_1_0_0 : ∀ a, (![1, 0, 0] : Fin 3 → Nat) a + S1x128x128.size a ≤ S7x128x128.size a
  inb_S26x4x128_S1x1x128_1_0_0 : ∀ a, (![1, 0, 0] : Fin 3 → Nat) a + S1x1x128.size a ≤ S26x4x128.size a
  inb_S7x128x128_S1x128x128_2_0_0 : ∀ a, (![2, 0, 0] : Fin 3 → Nat) a + S1x128x128.size a ≤ S7x128x128.size a
  inb_S26x4x128_S1x1x128_2_0_0 : ∀ a, (![2, 0, 0] : Fin 3 → Nat) a + S1x1x128.size a ≤ S26x4x128.size a
  inb_S7x128x128_S1x128x128_3_0_0 : ∀ a, (![3, 0, 0] : Fin 3 → Nat) a + S1x128x128.size a ≤ S7x128x128.size a
  inb_S26x4x128_S1x1x128_3_0_0 : ∀ a, (![3, 0, 0] : Fin 3 → Nat) a + S1x1x128.size a ≤ S26x4x128.size a
  inb_S7x128x128_S1x128x128_4_0_0 : ∀ a, (![4, 0, 0] : Fin 3 → Nat) a + S1x128x128.size a ≤ S7x128x128.size a
  inb_S26x4x128_S1x1x128_4_0_0 : ∀ a, (![4, 0, 0] : Fin 3 → Nat) a + S1x1x128.size a ≤ S26x4x128.size a
  inb_S7x128x128_S1x128x128_5_0_0 : ∀ a, (![5, 0, 0] : Fin 3 → Nat) a + S1x128x128.size a ≤ S7x128x128.size a
  inb_S26x4x128_S1x1x128_5_0_0 : ∀ a, (![5, 0, 0] : Fin 3 → Nat) a + S1x1x128.size a ≤ S26x4x128.size a
  inb_S7x128x128_S1x128x128_6_0_0 : ∀ a, (![6, 0, 0] : Fin 3 → Nat) a + S1x128x128.size a ≤ S7x128x128.size a
  inb_S26x4x128_S1x1x128_6_0_0 : ∀ a, (![6, 0, 0] : Fin 3 → Nat) a + S1x1x128.size a ≤ S26x4x128.size a
  inb_S26x4x128_S1x1x128_7_0_0 : ∀ a, (![7, 0, 0] : Fin 3 → Nat) a + S1x1x128.size a ≤ S26x4x128.size a
  inb_S26x4x128_S1x1x128_8_0_0 : ∀ a, (![8, 0, 0] : Fin 3 → Nat) a + S1x1x128.size a ≤ S26x4x128.size a
  inb_S26x4x128_S1x1x128_9_0_0 : ∀ a, (![9, 0, 0] : Fin 3 → Nat) a + S1x1x128.size a ≤ S26x4x128.size a
  inb_S26x4x128_S1x1x128_10_0_0 : ∀ a, (![10, 0, 0] : Fin 3 → Nat) a + S1x1x128.size a ≤ S26x4x128.size a
  inb_S26x4x128_S1x1x128_11_0_0 : ∀ a, (![11, 0, 0] : Fin 3 → Nat) a + S1x1x128.size a ≤ S26x4x128.size a
  inb_S26x4x128_S1x1x128_12_0_0 : ∀ a, (![12, 0, 0] : Fin 3 → Nat) a + S1x1x128.size a ≤ S26x4x128.size a
  inb_S26x4x128_S1x1x128_13_0_0 : ∀ a, (![13, 0, 0] : Fin 3 → Nat) a + S1x1x128.size a ≤ S26x4x128.size a
  inb_S26x4x128_S1x1x128_14_0_0 : ∀ a, (![14, 0, 0] : Fin 3 → Nat) a + S1x1x128.size a ≤ S26x4x128.size a
  inb_S26x4x128_S1x1x128_15_0_0 : ∀ a, (![15, 0, 0] : Fin 3 → Nat) a + S1x1x128.size a ≤ S26x4x128.size a
  inb_S26x4x128_S1x1x128_16_0_0 : ∀ a, (![16, 0, 0] : Fin 3 → Nat) a + S1x1x128.size a ≤ S26x4x128.size a
  inb_S26x4x128_S1x1x128_17_0_0 : ∀ a, (![17, 0, 0] : Fin 3 → Nat) a + S1x1x128.size a ≤ S26x4x128.size a
  inb_S26x4x128_S1x1x128_18_0_0 : ∀ a, (![18, 0, 0] : Fin 3 → Nat) a + S1x1x128.size a ≤ S26x4x128.size a
  inb_S26x4x128_S1x1x128_19_0_0 : ∀ a, (![19, 0, 0] : Fin 3 → Nat) a + S1x1x128.size a ≤ S26x4x128.size a
  inb_S26x4x128_S1x1x128_20_0_0 : ∀ a, (![20, 0, 0] : Fin 3 → Nat) a + S1x1x128.size a ≤ S26x4x128.size a
  inb_S26x4x128_S1x1x128_21_0_0 : ∀ a, (![21, 0, 0] : Fin 3 → Nat) a + S1x1x128.size a ≤ S26x4x128.size a
  inb_S26x4x128_S1x1x128_22_0_0 : ∀ a, (![22, 0, 0] : Fin 3 → Nat) a + S1x1x128.size a ≤ S26x4x128.size a
  inb_S26x4x128_S1x1x128_23_0_0 : ∀ a, (![23, 0, 0] : Fin 3 → Nat) a + S1x1x128.size a ≤ S26x4x128.size a
  inb_S26x4x128_S1x1x128_24_0_0 : ∀ a, (![24, 0, 0] : Fin 3 → Nat) a + S1x1x128.size a ≤ S26x4x128.size a
  inb_S26x4x128_S1x1x128_25_0_0 : ∀ a, (![25, 0, 0] : Fin 3 → Nat) a + S1x1x128.size a ≤ S26x4x128.size a
  inb_S26x4x128_S1x1x128_0_1_0 : ∀ a, (![0, 1, 0] : Fin 3 → Nat) a + S1x1x128.size a ≤ S26x4x128.size a
  inb_S26x4x128_S1x1x128_1_1_0 : ∀ a, (![1, 1, 0] : Fin 3 → Nat) a + S1x1x128.size a ≤ S26x4x128.size a
  inb_S26x4x128_S1x1x128_2_1_0 : ∀ a, (![2, 1, 0] : Fin 3 → Nat) a + S1x1x128.size a ≤ S26x4x128.size a
  inb_S26x4x128_S1x1x128_3_1_0 : ∀ a, (![3, 1, 0] : Fin 3 → Nat) a + S1x1x128.size a ≤ S26x4x128.size a
  inb_S26x4x128_S1x1x128_4_1_0 : ∀ a, (![4, 1, 0] : Fin 3 → Nat) a + S1x1x128.size a ≤ S26x4x128.size a
  inb_S26x4x128_S1x1x128_5_1_0 : ∀ a, (![5, 1, 0] : Fin 3 → Nat) a + S1x1x128.size a ≤ S26x4x128.size a
  inb_S26x4x128_S1x1x128_6_1_0 : ∀ a, (![6, 1, 0] : Fin 3 → Nat) a + S1x1x128.size a ≤ S26x4x128.size a
  inb_S26x4x128_S1x1x128_7_1_0 : ∀ a, (![7, 1, 0] : Fin 3 → Nat) a + S1x1x128.size a ≤ S26x4x128.size a
  inb_S26x4x128_S1x1x128_8_1_0 : ∀ a, (![8, 1, 0] : Fin 3 → Nat) a + S1x1x128.size a ≤ S26x4x128.size a
  inb_S26x4x128_S1x1x128_9_1_0 : ∀ a, (![9, 1, 0] : Fin 3 → Nat) a + S1x1x128.size a ≤ S26x4x128.size a
  inb_S26x4x128_S1x1x128_10_1_0 : ∀ a, (![10, 1, 0] : Fin 3 → Nat) a + S1x1x128.size a ≤ S26x4x128.size a
  inb_S26x4x128_S1x1x128_11_1_0 : ∀ a, (![11, 1, 0] : Fin 3 → Nat) a + S1x1x128.size a ≤ S26x4x128.size a
  inb_S26x4x128_S1x1x128_12_1_0 : ∀ a, (![12, 1, 0] : Fin 3 → Nat) a + S1x1x128.size a ≤ S26x4x128.size a
  inb_S26x4x128_S1x1x128_13_1_0 : ∀ a, (![13, 1, 0] : Fin 3 → Nat) a + S1x1x128.size a ≤ S26x4x128.size a
  inb_S26x4x128_S1x1x128_14_1_0 : ∀ a, (![14, 1, 0] : Fin 3 → Nat) a + S1x1x128.size a ≤ S26x4x128.size a
  inb_S26x4x128_S1x1x128_15_1_0 : ∀ a, (![15, 1, 0] : Fin 3 → Nat) a + S1x1x128.size a ≤ S26x4x128.size a
  inb_S26x4x128_S1x1x128_16_1_0 : ∀ a, (![16, 1, 0] : Fin 3 → Nat) a + S1x1x128.size a ≤ S26x4x128.size a
  inb_S26x4x128_S1x1x128_17_1_0 : ∀ a, (![17, 1, 0] : Fin 3 → Nat) a + S1x1x128.size a ≤ S26x4x128.size a
  inb_S26x4x128_S1x1x128_18_1_0 : ∀ a, (![18, 1, 0] : Fin 3 → Nat) a + S1x1x128.size a ≤ S26x4x128.size a
  inb_S26x4x128_S1x1x128_19_1_0 : ∀ a, (![19, 1, 0] : Fin 3 → Nat) a + S1x1x128.size a ≤ S26x4x128.size a
  inb_S26x4x128_S1x1x128_20_1_0 : ∀ a, (![20, 1, 0] : Fin 3 → Nat) a + S1x1x128.size a ≤ S26x4x128.size a
  inb_S26x4x128_S1x1x128_21_1_0 : ∀ a, (![21, 1, 0] : Fin 3 → Nat) a + S1x1x128.size a ≤ S26x4x128.size a
  inb_S26x4x128_S1x1x128_22_1_0 : ∀ a, (![22, 1, 0] : Fin 3 → Nat) a + S1x1x128.size a ≤ S26x4x128.size a
  inb_S26x4x128_S1x1x128_23_1_0 : ∀ a, (![23, 1, 0] : Fin 3 → Nat) a + S1x1x128.size a ≤ S26x4x128.size a
  inb_S26x4x128_S1x1x128_24_1_0 : ∀ a, (![24, 1, 0] : Fin 3 → Nat) a + S1x1x128.size a ≤ S26x4x128.size a
  inb_S26x4x128_S1x1x128_25_1_0 : ∀ a, (![25, 1, 0] : Fin 3 → Nat) a + S1x1x128.size a ≤ S26x4x128.size a
  inb_S26x4x128_S1x1x128_0_2_0 : ∀ a, (![0, 2, 0] : Fin 3 → Nat) a + S1x1x128.size a ≤ S26x4x128.size a
  inb_S26x4x128_S1x1x128_1_2_0 : ∀ a, (![1, 2, 0] : Fin 3 → Nat) a + S1x1x128.size a ≤ S26x4x128.size a
  inb_S26x4x128_S1x1x128_2_2_0 : ∀ a, (![2, 2, 0] : Fin 3 → Nat) a + S1x1x128.size a ≤ S26x4x128.size a
  inb_S26x4x128_S1x1x128_3_2_0 : ∀ a, (![3, 2, 0] : Fin 3 → Nat) a + S1x1x128.size a ≤ S26x4x128.size a
  inb_S26x4x128_S1x1x128_4_2_0 : ∀ a, (![4, 2, 0] : Fin 3 → Nat) a + S1x1x128.size a ≤ S26x4x128.size a
  inb_S26x4x128_S1x1x128_5_2_0 : ∀ a, (![5, 2, 0] : Fin 3 → Nat) a + S1x1x128.size a ≤ S26x4x128.size a
  inb_S26x4x128_S1x1x128_6_2_0 : ∀ a, (![6, 2, 0] : Fin 3 → Nat) a + S1x1x128.size a ≤ S26x4x128.size a
  inb_S26x4x128_S1x1x128_7_2_0 : ∀ a, (![7, 2, 0] : Fin 3 → Nat) a + S1x1x128.size a ≤ S26x4x128.size a
  inb_S26x4x128_S1x1x128_8_2_0 : ∀ a, (![8, 2, 0] : Fin 3 → Nat) a + S1x1x128.size a ≤ S26x4x128.size a
  inb_S26x4x128_S1x1x128_9_2_0 : ∀ a, (![9, 2, 0] : Fin 3 → Nat) a + S1x1x128.size a ≤ S26x4x128.size a
  inb_S26x4x128_S1x1x128_10_2_0 : ∀ a, (![10, 2, 0] : Fin 3 → Nat) a + S1x1x128.size a ≤ S26x4x128.size a
  inb_S26x4x128_S1x1x128_11_2_0 : ∀ a, (![11, 2, 0] : Fin 3 → Nat) a + S1x1x128.size a ≤ S26x4x128.size a
  inb_S26x4x128_S1x1x128_12_2_0 : ∀ a, (![12, 2, 0] : Fin 3 → Nat) a + S1x1x128.size a ≤ S26x4x128.size a
  inb_S26x4x128_S1x1x128_13_2_0 : ∀ a, (![13, 2, 0] : Fin 3 → Nat) a + S1x1x128.size a ≤ S26x4x128.size a
  inb_S26x4x128_S1x1x128_14_2_0 : ∀ a, (![14, 2, 0] : Fin 3 → Nat) a + S1x1x128.size a ≤ S26x4x128.size a
  inb_S26x4x128_S1x1x128_15_2_0 : ∀ a, (![15, 2, 0] : Fin 3 → Nat) a + S1x1x128.size a ≤ S26x4x128.size a
  inb_S26x4x128_S1x1x128_16_2_0 : ∀ a, (![16, 2, 0] : Fin 3 → Nat) a + S1x1x128.size a ≤ S26x4x128.size a
  inb_S26x4x128_S1x1x128_17_2_0 : ∀ a, (![17, 2, 0] : Fin 3 → Nat) a + S1x1x128.size a ≤ S26x4x128.size a
  inb_S26x4x128_S1x1x128_18_2_0 : ∀ a, (![18, 2, 0] : Fin 3 → Nat) a + S1x1x128.size a ≤ S26x4x128.size a
  inb_S26x4x128_S1x1x128_19_2_0 : ∀ a, (![19, 2, 0] : Fin 3 → Nat) a + S1x1x128.size a ≤ S26x4x128.size a
  inb_S26x4x128_S1x1x128_20_2_0 : ∀ a, (![20, 2, 0] : Fin 3 → Nat) a + S1x1x128.size a ≤ S26x4x128.size a
  inb_S26x4x128_S1x1x128_21_2_0 : ∀ a, (![21, 2, 0] : Fin 3 → Nat) a + S1x1x128.size a ≤ S26x4x128.size a
  inb_S26x4x128_S1x1x128_22_2_0 : ∀ a, (![22, 2, 0] : Fin 3 → Nat) a + S1x1x128.size a ≤ S26x4x128.size a
  inb_S26x4x128_S1x1x128_23_2_0 : ∀ a, (![23, 2, 0] : Fin 3 → Nat) a + S1x1x128.size a ≤ S26x4x128.size a
  inb_S26x4x128_S1x1x128_24_2_0 : ∀ a, (![24, 2, 0] : Fin 3 → Nat) a + S1x1x128.size a ≤ S26x4x128.size a
  inb_S26x4x128_S1x1x128_25_2_0 : ∀ a, (![25, 2, 0] : Fin 3 → Nat) a + S1x1x128.size a ≤ S26x4x128.size a
  inb_S26x4x128_S1x1x128_0_3_0 : ∀ a, (![0, 3, 0] : Fin 3 → Nat) a + S1x1x128.size a ≤ S26x4x128.size a
  inb_S26x4x128_S1x1x128_1_3_0 : ∀ a, (![1, 3, 0] : Fin 3 → Nat) a + S1x1x128.size a ≤ S26x4x128.size a
  inb_S26x4x128_S1x1x128_2_3_0 : ∀ a, (![2, 3, 0] : Fin 3 → Nat) a + S1x1x128.size a ≤ S26x4x128.size a
  inb_S26x4x128_S1x1x128_3_3_0 : ∀ a, (![3, 3, 0] : Fin 3 → Nat) a + S1x1x128.size a ≤ S26x4x128.size a
  inb_S26x4x128_S1x1x128_4_3_0 : ∀ a, (![4, 3, 0] : Fin 3 → Nat) a + S1x1x128.size a ≤ S26x4x128.size a
  inb_S26x4x128_S1x1x128_5_3_0 : ∀ a, (![5, 3, 0] : Fin 3 → Nat) a + S1x1x128.size a ≤ S26x4x128.size a
  inb_S26x4x128_S1x1x128_6_3_0 : ∀ a, (![6, 3, 0] : Fin 3 → Nat) a + S1x1x128.size a ≤ S26x4x128.size a
  inb_S26x4x128_S1x1x128_7_3_0 : ∀ a, (![7, 3, 0] : Fin 3 → Nat) a + S1x1x128.size a ≤ S26x4x128.size a
  inb_S26x4x128_S1x1x128_8_3_0 : ∀ a, (![8, 3, 0] : Fin 3 → Nat) a + S1x1x128.size a ≤ S26x4x128.size a
  inb_S26x4x128_S1x1x128_9_3_0 : ∀ a, (![9, 3, 0] : Fin 3 → Nat) a + S1x1x128.size a ≤ S26x4x128.size a
  inb_S26x4x128_S1x1x128_10_3_0 : ∀ a, (![10, 3, 0] : Fin 3 → Nat) a + S1x1x128.size a ≤ S26x4x128.size a
  inb_S26x4x128_S1x1x128_11_3_0 : ∀ a, (![11, 3, 0] : Fin 3 → Nat) a + S1x1x128.size a ≤ S26x4x128.size a
  inb_S26x4x128_S1x1x128_12_3_0 : ∀ a, (![12, 3, 0] : Fin 3 → Nat) a + S1x1x128.size a ≤ S26x4x128.size a
  inb_S26x4x128_S1x1x128_13_3_0 : ∀ a, (![13, 3, 0] : Fin 3 → Nat) a + S1x1x128.size a ≤ S26x4x128.size a
  inb_S26x4x128_S1x1x128_14_3_0 : ∀ a, (![14, 3, 0] : Fin 3 → Nat) a + S1x1x128.size a ≤ S26x4x128.size a
  inb_S26x4x128_S1x1x128_15_3_0 : ∀ a, (![15, 3, 0] : Fin 3 → Nat) a + S1x1x128.size a ≤ S26x4x128.size a
  inb_S26x4x128_S1x1x128_16_3_0 : ∀ a, (![16, 3, 0] : Fin 3 → Nat) a + S1x1x128.size a ≤ S26x4x128.size a
  inb_S26x4x128_S1x1x128_17_3_0 : ∀ a, (![17, 3, 0] : Fin 3 → Nat) a + S1x1x128.size a ≤ S26x4x128.size a
  inb_S26x4x128_S1x1x128_18_3_0 : ∀ a, (![18, 3, 0] : Fin 3 → Nat) a + S1x1x128.size a ≤ S26x4x128.size a
  inb_S26x4x128_S1x1x128_19_3_0 : ∀ a, (![19, 3, 0] : Fin 3 → Nat) a + S1x1x128.size a ≤ S26x4x128.size a
  inb_S26x4x128_S1x1x128_20_3_0 : ∀ a, (![20, 3, 0] : Fin 3 → Nat) a + S1x1x128.size a ≤ S26x4x128.size a
  inb_S26x4x128_S1x1x128_21_3_0 : ∀ a, (![21, 3, 0] : Fin 3 → Nat) a + S1x1x128.size a ≤ S26x4x128.size a
  inb_S26x4x128_S1x1x128_22_3_0 : ∀ a, (![22, 3, 0] : Fin 3 → Nat) a + S1x1x128.size a ≤ S26x4x128.size a
  inb_S26x4x128_S1x1x128_23_3_0 : ∀ a, (![23, 3, 0] : Fin 3 → Nat) a + S1x1x128.size a ≤ S26x4x128.size a
  inb_S26x4x128_S1x1x128_24_3_0 : ∀ a, (![24, 3, 0] : Fin 3 → Nat) a + S1x1x128.size a ≤ S26x4x128.size a
  inb_S26x4x128_S1x1x128_25_3_0 : ∀ a, (![25, 3, 0] : Fin 3 → Nat) a + S1x1x128.size a ≤ S26x4x128.size a
  hcc0_scratch2 : 0 + S_.numel ≤ 15
  hcc0_scratch3 : 1 + S_.numel ≤ 15
  hcc0_scratch4 : 2 + S_.numel ≤ 15
  hcc0_scratch5 : 3 + S_.numel ≤ 15
  hcc0_scratch6 : 4 + S_.numel ≤ 15
  hcc0_scratch7 : 5 + S_.numel ≤ 15
  hcc0_scratch8 : 6 + S_.numel ≤ 15
  hcc0_scratch9 : 7 + S_.numel ≤ 15
  hcc0_scratch10 : 8 + S_.numel ≤ 15
  hcc0_scratch11 : 9 + S_.numel ≤ 15
  hcc0_scratch12 : 10 + S_.numel ≤ 15
  hcc0_scratch13 : 11 + S_.numel ≤ 15
  hcc0_scratch14 : 12 + S_.numel ≤ 15
  hcc0_scratch15 : 13 + S_.numel ≤ 15
  hcc0_scratch16 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x128.size a ≤ S128x128.size a
  k0_off2_inb : ∀ i : grid0.Coords, ∀ (k0_h1 : k0_cond1 i = 1#1), ∀ (r : Fin 4), ∀ a, (k0_off2 i (BitVec.ofNat 32 (128 * r.val))) a + S128x128.size a ≤ S16384x3328.size a
  k0_off3_inb : ∀ i : grid0.Coords, ∀ (k0_h1 : k0_cond1 i = 1#1), ∀ (r : Fin 4), ∀ a, (k0_off3 i (BitVec.ofNat 32 (128 * r.val))) a + S128x128.size a ≤ S16384x3328.size a
  k0_off4_inb : ∀ i : grid0.Coords, ∀ (k0_h1 : k0_cond1 i = 1#1), ∀ (r : Fin 4), ∀ a, (k0_off4 i (BitVec.ofNat 32 (128 * r.val))) a + S128x128.size a ≤ S16384x3328.size a
  k0_off5_inb : ∀ i : grid0.Coords, ∀ (k0_h1 : k0_cond1 i = 1#1), ∀ (r : Fin 4), ∀ a, (k0_off5 i (BitVec.ofNat 32 (128 * r.val))) a + S128x128.size a ≤ S16384x3328.size a
  k0_off6_inb : ∀ i : grid0.Coords, ∀ (k0_h1 : k0_cond1 i = 1#1), ∀ (r : Fin 4), ∀ a, (k0_off6 i (BitVec.ofNat 32 (128 * r.val))) a + S128x128.size a ≤ S16384x3328.size a
  k0_off7_inb : ∀ i : grid0.Coords, ∀ (k0_h1 : k0_cond1 i = 1#1), ∀ (r : Fin 4), ∀ a, (k0_off7 i (BitVec.ofNat 32 (128 * r.val))) a + S128x128.size a ≤ S16384x3328.size a
  k0_off8_inb : ∀ i : grid0.Coords, ∀ (k0_h1 : k0_cond1 i = 1#1), ∀ (r : Fin 4), ∀ a, (k0_off8 i (BitVec.ofNat 32 (128 * r.val))) a + S128x128.size a ≤ S16384x3328.size a
  k0_off9_inb : ∀ i : grid0.Coords, ∀ (k0_h1 : k0_cond1 i = 1#1), ∀ (r : Fin 4), ∀ a, (k0_off9 i (BitVec.ofNat 32 (128 * r.val))) a + S128x128.size a ≤ S16384x3328.size a
  k0_off10_inb : ∀ i : grid0.Coords, ∀ (k0_h1 : k0_cond1 i = 1#1), ∀ (r : Fin 4), ∀ a, (k0_off10 i (BitVec.ofNat 32 (128 * r.val))) a + S128x128.size a ≤ S16384x3328.size a
  k0_off11_inb : ∀ i : grid0.Coords, ∀ (k0_h1 : k0_cond1 i = 1#1), ∀ (r : Fin 4), ∀ a, (k0_off11 i (BitVec.ofNat 32 (128 * r.val))) a + S128x128.size a ≤ S16384x3328.size a
  k0_off12_inb : ∀ i : grid0.Coords, ∀ (k0_h1 : k0_cond1 i = 1#1), ∀ (r : Fin 4), ∀ a, (k0_off12 i (BitVec.ofNat 32 (128 * r.val))) a + S128x128.size a ≤ S16384x3328.size a
  k0_off13_inb : ∀ i : grid0.Coords, ∀ (k0_h1 : k0_cond1 i = 1#1), ∀ (r : Fin 4), ∀ a, (k0_off13 i (BitVec.ofNat 32 (128 * r.val))) a + S128x128.size a ≤ S16384x3328.size a
  k0_off14_inb : ∀ i : grid0.Coords, ∀ (k0_h1 : k0_cond1 i = 1#1), ∀ (r : Fin 4), ∀ a, (k0_off14 i (BitVec.ofNat 32 (128 * r.val))) a + S128x128.size a ≤ S16384x3328.size a
  k0_off15_inb : ∀ i : grid0.Coords, ∀ (k0_h1 : k0_cond1 i = 1#1), ∀ (r : Fin 4), ∀ a, (k0_off15 i (BitVec.ofNat 32 (128 * r.val))) a + S128x128.size a ≤ S16384x3328.size a
  k0_off16_inb : ∀ i : grid0.Coords, ∀ (k0_h1 : k0_cond1 i = 1#1), ∀ (r : Fin 4), ∀ a, (k0_off16 i (BitVec.ofNat 32 (128 * r.val))) a + S128x128.size a ≤ S16384x3328.size a
  k0_off17_inb : ∀ i : grid0.Coords, ∀ (k0_h1 : k0_cond1 i = 1#1), ∀ (r : Fin 4), ∀ a, (k0_off17 i (BitVec.ofNat 32 (128 * r.val))) a + S128x128.size a ≤ S16384x3328.size a
  k0_off18_inb : ∀ i : grid0.Coords, ∀ (k0_h1 : k0_cond1 i = 1#1), ∀ (r : Fin 4), ∀ a, (k0_off18 i (BitVec.ofNat 32 (128 * r.val))) a + S128x128.size a ≤ S16384x3328.size a
  k0_off19_inb : ∀ i : grid0.Coords, ∀ (k0_h1 : k0_cond1 i = 1#1), ∀ (r : Fin 4), ∀ a, (k0_off19 i (BitVec.ofNat 32 (128 * r.val))) a + S128x128.size a ≤ S16384x3328.size a
  k0_off20_inb : ∀ i : grid0.Coords, ∀ (k0_h1 : k0_cond1 i = 1#1), ∀ (r : Fin 4), ∀ a, (k0_off20 i (BitVec.ofNat 32 (128 * r.val))) a + S128x128.size a ≤ S16384x3328.size a
  k0_off21_inb : ∀ i : grid0.Coords, ∀ (k0_h1 : k0_cond1 i = 1#1), ∀ (r : Fin 4), ∀ a, (k0_off21 i (BitVec.ofNat 32 (128 * r.val))) a + S128x128.size a ≤ S16384x3328.size a
  k0_off22_inb : ∀ i : grid0.Coords, ∀ (k0_h1 : k0_cond1 i = 1#1), ∀ (r : Fin 4), ∀ a, (k0_off22 i (BitVec.ofNat 32 (128 * r.val))) a + S128x128.size a ≤ S16384x3328.size a
  k0_off23_inb : ∀ i : grid0.Coords, ∀ (k0_h1 : k0_cond1 i = 1#1), ∀ (r : Fin 4), ∀ a, (k0_off23 i (BitVec.ofNat 32 (128 * r.val))) a + S128x128.size a ≤ S16384x3328.size a
  k0_off24_inb : ∀ i : grid0.Coords, ∀ (k0_h1 : k0_cond1 i = 1#1), ∀ (r : Fin 4), ∀ a, (k0_off24 i (BitVec.ofNat 32 (128 * r.val))) a + S128x128.size a ≤ S16384x3328.size a
  k0_off25_inb : ∀ i : grid0.Coords, ∀ (k0_h1 : k0_cond1 i = 1#1), ∀ (r : Fin 4), ∀ a, (k0_off25 i (BitVec.ofNat 32 (128 * r.val))) a + S128x128.size a ≤ S16384x3328.size a
  k0_off26_inb : ∀ i : grid0.Coords, ∀ (k0_h1 : k0_cond1 i = 1#1), ∀ (r : Fin 4), ∀ a, (k0_off26 i (BitVec.ofNat 32 (128 * r.val))) a + S128x128.size a ≤ S16384x3328.size a
  k0_off27_inb : ∀ i : grid0.Coords, ∀ (k0_h1 : k0_cond1 i = 1#1), ∀ (r : Fin 4), ∀ a, (k0_off27 i (BitVec.ofNat 32 (128 * r.val))) a + S128x128.size a ≤ S16384x3328.size a
  k0_off28_inb : ∀ i : grid0.Coords, ∀ (k0_h2 : k0_cond2 i = 1#1), ∀ (r : Fin 4), ∀ a, (k0_off28 i (BitVec.ofNat 32 (128 * r.val))) a + S128x128.size a ≤ S16384x3328.size a
  k0_off29_inb : ∀ i : grid0.Coords, ∀ (k0_h2 : k0_cond2 i = 1#1), ∀ (r : Fin 4), ∀ a, (k0_off29 i (BitVec.ofNat 32 (128 * r.val))) a + S128x128.size a ≤ S16384x3328.size a
  k0_off30_inb : ∀ i : grid0.Coords, ∀ (k0_h2 : k0_cond2 i = 1#1), ∀ (r : Fin 4), ∀ a, (k0_off30 i (BitVec.ofNat 32 (128 * r.val))) a + S128x128.size a ≤ S16384x3328.size a
  k0_off31_inb : ∀ i : grid0.Coords, ∀ (k0_h2 : k0_cond2 i = 1#1), ∀ (r : Fin 4), ∀ a, (k0_off31 i (BitVec.ofNat 32 (128 * r.val))) a + S128x128.size a ≤ S16384x3328.size a
  k0_off32_inb : ∀ i : grid0.Coords, ∀ (k0_h2 : k0_cond2 i = 1#1), ∀ (r : Fin 4), ∀ a, (k0_off32 i (BitVec.ofNat 32 (128 * r.val))) a + S128x128.size a ≤ S16384x3328.size a
  k0_off33_inb : ∀ i : grid0.Coords, ∀ (k0_h2 : k0_cond2 i = 1#1), ∀ (r : Fin 4), ∀ a, (k0_off33 i (BitVec.ofNat 32 (128 * r.val))) a + S128x128.size a ≤ S16384x3328.size a
  k0_off34_inb : ∀ i : grid0.Coords, ∀ (k0_h2 : k0_cond2 i = 1#1), ∀ (r : Fin 4), ∀ a, (k0_off34 i (BitVec.ofNat 32 (128 * r.val))) a + S128x128.size a ≤ S16384x3328.size a
  k0_off35_inb : ∀ i : grid0.Coords, ∀ (k0_h2 : k0_cond2 i = 1#1), ∀ (r : Fin 4), ∀ a, (k0_off35 i (BitVec.ofNat 32 (128 * r.val))) a + S128x128.size a ≤ S16384x3328.size a
  k0_off36_inb : ∀ i : grid0.Coords, ∀ (k0_h2 : k0_cond2 i = 1#1), ∀ (r : Fin 4), ∀ a, (k0_off36 i (BitVec.ofNat 32 (128 * r.val))) a + S128x128.size a ≤ S16384x3328.size a
  k0_off37_inb : ∀ i : grid0.Coords, ∀ (k0_h2 : k0_cond2 i = 1#1), ∀ (r : Fin 4), ∀ a, (k0_off37 i (BitVec.ofNat 32 (128 * r.val))) a + S128x128.size a ≤ S16384x3328.size a
  k0_off38_inb : ∀ i : grid0.Coords, ∀ (k0_h2 : k0_cond2 i = 1#1), ∀ (r : Fin 4), ∀ a, (k0_off38 i (BitVec.ofNat 32 (128 * r.val))) a + S128x128.size a ≤ S16384x3328.size a
  k0_off39_inb : ∀ i : grid0.Coords, ∀ (k0_h2 : k0_cond2 i = 1#1), ∀ (r : Fin 4), ∀ a, (k0_off39 i (BitVec.ofNat 32 (128 * r.val))) a + S128x128.size a ≤ S16384x3328.size a
  k0_off40_inb : ∀ i : grid0.Coords, ∀ (k0_h2 : k0_cond2 i = 1#1), ∀ (r : Fin 4), ∀ a, (k0_off40 i (BitVec.ofNat 32 (128 * r.val))) a + S128x128.size a ≤ S16384x3328.size a
  k0_off41_inb : ∀ i : grid0.Coords, ∀ (k0_h2 : k0_cond2 i = 1#1), ∀ (r : Fin 4), ∀ a, (k0_off41 i (BitVec.ofNat 32 (128 * r.val))) a + S128x128.size a ≤ S16384x3328.size a
  k0_off42_inb : ∀ i : grid0.Coords, ∀ (k0_h2 : k0_cond2 i = 1#1), ∀ (r : Fin 4), ∀ a, (k0_off42 i (BitVec.ofNat 32 (128 * r.val))) a + S128x128.size a ≤ S16384x3328.size a
  k0_off43_inb : ∀ i : grid0.Coords, ∀ (k0_h2 : k0_cond2 i = 1#1), ∀ (r : Fin 4), ∀ a, (k0_off43 i (BitVec.ofNat 32 (128 * r.val))) a + S128x128.size a ≤ S16384x3328.size a
  k0_off44_inb : ∀ i : grid0.Coords, ∀ (k0_h2 : k0_cond2 i = 1#1), ∀ (r : Fin 4), ∀ a, (k0_off44 i (BitVec.ofNat 32 (128 * r.val))) a + S128x128.size a ≤ S16384x3328.size a
  k0_off45_inb : ∀ i : grid0.Coords, ∀ (k0_h2 : k0_cond2 i = 1#1), ∀ (r : Fin 4), ∀ a, (k0_off45 i (BitVec.ofNat 32 (128 * r.val))) a + S128x128.size a ≤ S16384x3328.size a
  k0_off46_inb : ∀ i : grid0.Coords, ∀ (k0_h2 : k0_cond2 i = 1#1), ∀ (r : Fin 4), ∀ a, (k0_off46 i (BitVec.ofNat 32 (128 * r.val))) a + S128x128.size a ≤ S16384x3328.size a
  k0_off47_inb : ∀ i : grid0.Coords, ∀ (k0_h2 : k0_cond2 i = 1#1), ∀ (r : Fin 4), ∀ a, (k0_off47 i (BitVec.ofNat 32 (128 * r.val))) a + S128x128.size a ≤ S16384x3328.size a
  k0_off48_inb : ∀ i : grid0.Coords, ∀ (k0_h2 : k0_cond2 i = 1#1), ∀ (r : Fin 4), ∀ a, (k0_off48 i (BitVec.ofNat 32 (128 * r.val))) a + S128x128.size a ≤ S16384x3328.size a
  k0_off49_inb : ∀ i : grid0.Coords, ∀ (k0_h2 : k0_cond2 i = 1#1), ∀ (r : Fin 4), ∀ a, (k0_off49 i (BitVec.ofNat 32 (128 * r.val))) a + S128x128.size a ≤ S16384x3328.size a
  k0_off50_inb : ∀ i : grid0.Coords, ∀ (k0_h2 : k0_cond2 i = 1#1), ∀ (r : Fin 4), ∀ a, (k0_off50 i (BitVec.ofNat 32 (128 * r.val))) a + S128x128.size a ≤ S16384x3328.size a
  k0_off51_inb : ∀ i : grid0.Coords, ∀ (k0_h2 : k0_cond2 i = 1#1), ∀ (r : Fin 4), ∀ a, (k0_off51 i (BitVec.ofNat 32 (128 * r.val))) a + S128x128.size a ≤ S16384x3328.size a
  k0_off52_inb : ∀ i : grid0.Coords, ∀ (k0_h2 : k0_cond2 i = 1#1), ∀ (r : Fin 4), ∀ a, (k0_off52 i (BitVec.ofNat 32 (128 * r.val))) a + S128x128.size a ≤ S16384x3328.size a
  k0_off53_inb : ∀ i : grid0.Coords, ∀ (k0_h2 : k0_cond2 i = 1#1), ∀ (r : Fin 4), ∀ a, (k0_off53 i (BitVec.ofNat 32 (128 * r.val))) a + S128x128.size a ≤ S16384x3328.size a
  k0_off54_inb : ∀ i : grid0.Coords, ∀ (k0_h3 : k0_cond3 i = 1#1), ∀ (r : Fin 4), ∀ a, (k0_off54 i (BitVec.ofNat 32 (128 * r.val))) a + S128x128.size a ≤ S16384x3328.size a
  k0_off55_inb : ∀ i : grid0.Coords, ∀ (k0_h3 : k0_cond3 i = 1#1), ∀ (r : Fin 4), ∀ a, (k0_off55 i (BitVec.ofNat 32 (128 * r.val))) a + S128x128.size a ≤ S16384x3328.size a
  k0_off56_inb : ∀ i : grid0.Coords, ∀ (k0_h3 : k0_cond3 i = 1#1), ∀ (r : Fin 4), ∀ a, (k0_off56 i (BitVec.ofNat 32 (128 * r.val))) a + S128x128.size a ≤ S16384x3328.size a
  k0_off57_inb : ∀ i : grid0.Coords, ∀ (k0_h3 : k0_cond3 i = 1#1), ∀ (r : Fin 4), ∀ a, (k0_off57 i (BitVec.ofNat 32 (128 * r.val))) a + S128x128.size a ≤ S16384x3328.size a
  k0_off58_inb : ∀ i : grid0.Coords, ∀ (k0_h3 : k0_cond3 i = 1#1), ∀ (r : Fin 4), ∀ a, (k0_off58 i (BitVec.ofNat 32 (128 * r.val))) a + S128x128.size a ≤ S16384x3328.size a
  k0_off59_inb : ∀ i : grid0.Coords, ∀ (k0_h3 : k0_cond3 i = 1#1), ∀ (r : Fin 4), ∀ a, (k0_off59 i (BitVec.ofNat 32 (128 * r.val))) a + S128x128.size a ≤ S16384x3328.size a
  k0_off60_inb : ∀ i : grid0.Coords, ∀ (k0_h3 : k0_cond3 i = 1#1), ∀ (r : Fin 4), ∀ a, (k0_off60 i (BitVec.ofNat 32 (128 * r.val))) a + S128x128.size a ≤ S16384x3328.size a
  k0_off61_inb : ∀ i : grid0.Coords, ∀ (k0_h3 : k0_cond3 i = 1#1), ∀ (r : Fin 4), ∀ a, (k0_off61 i (BitVec.ofNat 32 (128 * r.val))) a + S128x128.size a ≤ S16384x3328.size a
  k0_off62_inb : ∀ i : grid0.Coords, ∀ (k0_h3 : k0_cond3 i = 1#1), ∀ (r : Fin 4), ∀ a, (k0_off62 i (BitVec.ofNat 32 (128 * r.val))) a + S128x128.size a ≤ S16384x3328.size a
  k0_off63_inb : ∀ i : grid0.Coords, ∀ (k0_h3 : k0_cond3 i = 1#1), ∀ (r : Fin 4), ∀ a, (k0_off63 i (BitVec.ofNat 32 (128 * r.val))) a + S128x128.size a ≤ S16384x3328.size a
  k0_off64_inb : ∀ i : grid0.Coords, ∀ (k0_h3 : k0_cond3 i = 1#1), ∀ (r : Fin 4), ∀ a, (k0_off64 i (BitVec.ofNat 32 (128 * r.val))) a + S128x128.size a ≤ S16384x3328.size a
  k0_off65_inb : ∀ i : grid0.Coords, ∀ (k0_h3 : k0_cond3 i = 1#1), ∀ (r : Fin 4), ∀ a, (k0_off65 i (BitVec.ofNat 32 (128 * r.val))) a + S128x128.size a ≤ S16384x3328.size a
  k0_off66_inb : ∀ i : grid0.Coords, ∀ (k0_h3 : k0_cond3 i = 1#1), ∀ (r : Fin 4), ∀ a, (k0_off66 i (BitVec.ofNat 32 (128 * r.val))) a + S128x128.size a ≤ S16384x3328.size a
  k0_off67_inb : ∀ i : grid0.Coords, ∀ (k0_h3 : k0_cond3 i = 1#1), ∀ (r : Fin 4), ∀ a, (k0_off67 i (BitVec.ofNat 32 (128 * r.val))) a + S128x128.size a ≤ S16384x3328.size a
  k0_off68_inb : ∀ i : grid0.Coords, ∀ (k0_h3 : k0_cond3 i = 1#1), ∀ (r : Fin 4), ∀ a, (k0_off68 i (BitVec.ofNat 32 (128 * r.val))) a + S128x128.size a ≤ S16384x3328.size a
  k0_off69_inb : ∀ i : grid0.Coords, ∀ (k0_h3 : k0_cond3 i = 1#1), ∀ (r : Fin 4), ∀ a, (k0_off69 i (BitVec.ofNat 32 (128 * r.val))) a + S128x128.size a ≤ S16384x3328.size a
  k0_off70_inb : ∀ i : grid0.Coords, ∀ (k0_h3 : k0_cond3 i = 1#1), ∀ (r : Fin 4), ∀ a, (k0_off70 i (BitVec.ofNat 32 (128 * r.val))) a + S128x128.size a ≤ S16384x3328.size a
  k0_off71_inb : ∀ i : grid0.Coords, ∀ (k0_h3 : k0_cond3 i = 1#1), ∀ (r : Fin 4), ∀ a, (k0_off71 i (BitVec.ofNat 32 (128 * r.val))) a + S128x128.size a ≤ S16384x3328.size a
  k0_off72_inb : ∀ i : grid0.Coords, ∀ (k0_h3 : k0_cond3 i = 1#1), ∀ (r : Fin 4), ∀ a, (k0_off72 i (BitVec.ofNat 32 (128 * r.val))) a + S128x128.size a ≤ S16384x3328.size a
  k0_off73_inb : ∀ i : grid0.Coords, ∀ (k0_h3 : k0_cond3 i = 1#1), ∀ (r : Fin 4), ∀ a, (k0_off73 i (BitVec.ofNat 32 (128 * r.val))) a + S128x128.size a ≤ S16384x3328.size a
  k0_off74_inb : ∀ i : grid0.Coords, ∀ (k0_h3 : k0_cond3 i = 1#1), ∀ (r : Fin 4), ∀ a, (k0_off74 i (BitVec.ofNat 32 (128 * r.val))) a + S128x128.size a ≤ S16384x3328.size a
  k0_off75_inb : ∀ i : grid0.Coords, ∀ (k0_h3 : k0_cond3 i = 1#1), ∀ (r : Fin 4), ∀ a, (k0_off75 i (BitVec.ofNat 32 (128 * r.val))) a + S128x128.size a ≤ S16384x3328.size a
  k0_off76_inb : ∀ i : grid0.Coords, ∀ (k0_h3 : k0_cond3 i = 1#1), ∀ (r : Fin 4), ∀ a, (k0_off76 i (BitVec.ofNat 32 (128 * r.val))) a + S128x128.size a ≤ S16384x3328.size a
  k0_off77_inb : ∀ i : grid0.Coords, ∀ (k0_h3 : k0_cond3 i = 1#1), ∀ (r : Fin 4), ∀ a, (k0_off77 i (BitVec.ofNat 32 (128 * r.val))) a + S128x128.size a ≤ S16384x3328.size a
  k0_off78_inb : ∀ i : grid0.Coords, ∀ (k0_h3 : k0_cond3 i = 1#1), ∀ (r : Fin 4), ∀ a, (k0_off78 i (BitVec.ofNat 32 (128 * r.val))) a + S128x128.size a ≤ S16384x3328.size a
  k0_off79_inb : ∀ i : grid0.Coords, ∀ (k0_h3 : k0_cond3 i = 1#1), ∀ (r : Fin 4), ∀ a, (k0_off79 i (BitVec.ofNat 32 (128 * r.val))) a + S128x128.size a ≤ S16384x3328.size a
  k0_off80_inb : ∀ i : grid0.Coords, ∀ (k0_h4 : k0_cond4 i = 1#1), ∀ (r : Fin 4), ∀ a, (k0_off80 i (BitVec.ofNat 32 (128 * r.val))) a + S128x128.size a ≤ S16384x3328.size a
  k0_off81_inb : ∀ i : grid0.Coords, ∀ (k0_h4 : k0_cond4 i = 1#1), ∀ (r : Fin 4), ∀ a, (k0_off81 i (BitVec.ofNat 32 (128 * r.val))) a + S128x128.size a ≤ S16384x3328.size a
  k0_off82_inb : ∀ i : grid0.Coords, ∀ (k0_h4 : k0_cond4 i = 1#1), ∀ (r : Fin 4), ∀ a, (k0_off82 i (BitVec.ofNat 32 (128 * r.val))) a + S128x128.size a ≤ S16384x3328.size a
  k0_off83_inb : ∀ i : grid0.Coords, ∀ (k0_h4 : k0_cond4 i = 1#1), ∀ (r : Fin 4), ∀ a, (k0_off83 i (BitVec.ofNat 32 (128 * r.val))) a + S128x128.size a ≤ S16384x3328.size a
  k0_off84_inb : ∀ i : grid0.Coords, ∀ (k0_h4 : k0_cond4 i = 1#1), ∀ (r : Fin 4), ∀ a, (k0_off84 i (BitVec.ofNat 32 (128 * r.val))) a + S128x128.size a ≤ S16384x3328.size a
  k0_off85_inb : ∀ i : grid0.Coords, ∀ (k0_h4 : k0_cond4 i = 1#1), ∀ (r : Fin 4), ∀ a, (k0_off85 i (BitVec.ofNat 32 (128 * r.val))) a + S128x128.size a ≤ S16384x3328.size a
  k0_off86_inb : ∀ i : grid0.Coords, ∀ (k0_h4 : k0_cond4 i = 1#1), ∀ (r : Fin 4), ∀ a, (k0_off86 i (BitVec.ofNat 32 (128 * r.val))) a + S128x128.size a ≤ S16384x3328.size a
  k0_off87_inb : ∀ i : grid0.Coords, ∀ (k0_h4 : k0_cond4 i = 1#1), ∀ (r : Fin 4), ∀ a, (k0_off87 i (BitVec.ofNat 32 (128 * r.val))) a + S128x128.size a ≤ S16384x3328.size a
  k0_off88_inb : ∀ i : grid0.Coords, ∀ (k0_h4 : k0_cond4 i = 1#1), ∀ (r : Fin 4), ∀ a, (k0_off88 i (BitVec.ofNat 32 (128 * r.val))) a + S128x128.size a ≤ S16384x3328.size a
  k0_off89_inb : ∀ i : grid0.Coords, ∀ (k0_h4 : k0_cond4 i = 1#1), ∀ (r : Fin 4), ∀ a, (k0_off89 i (BitVec.ofNat 32 (128 * r.val))) a + S128x128.size a ≤ S16384x3328.size a
  k0_off90_inb : ∀ i : grid0.Coords, ∀ (k0_h4 : k0_cond4 i = 1#1), ∀ (r : Fin 4), ∀ a, (k0_off90 i (BitVec.ofNat 32 (128 * r.val))) a + S128x128.size a ≤ S16384x3328.size a
  k0_off91_inb : ∀ i : grid0.Coords, ∀ (k0_h4 : k0_cond4 i = 1#1), ∀ (r : Fin 4), ∀ a, (k0_off91 i (BitVec.ofNat 32 (128 * r.val))) a + S128x128.size a ≤ S16384x3328.size a
  k0_off92_inb : ∀ i : grid0.Coords, ∀ (k0_h4 : k0_cond4 i = 1#1), ∀ (r : Fin 4), ∀ a, (k0_off92 i (BitVec.ofNat 32 (128 * r.val))) a + S128x128.size a ≤ S16384x3328.size a
  k0_off93_inb : ∀ i : grid0.Coords, ∀ (k0_h4 : k0_cond4 i = 1#1), ∀ (r : Fin 4), ∀ a, (k0_off93 i (BitVec.ofNat 32 (128 * r.val))) a + S128x128.size a ≤ S16384x3328.size a
  k0_off94_inb : ∀ i : grid0.Coords, ∀ (k0_h4 : k0_cond4 i = 1#1), ∀ (r : Fin 4), ∀ a, (k0_off94 i (BitVec.ofNat 32 (128 * r.val))) a + S128x128.size a ≤ S16384x3328.size a
  k0_off95_inb : ∀ i : grid0.Coords, ∀ (k0_h4 : k0_cond4 i = 1#1), ∀ (r : Fin 4), ∀ a, (k0_off95 i (BitVec.ofNat 32 (128 * r.val))) a + S128x128.size a ≤ S16384x3328.size a
  k0_off96_inb : ∀ i : grid0.Coords, ∀ (k0_h4 : k0_cond4 i = 1#1), ∀ (r : Fin 4), ∀ a, (k0_off96 i (BitVec.ofNat 32 (128 * r.val))) a + S128x128.size a ≤ S16384x3328.size a
  k0_off97_inb : ∀ i : grid0.Coords, ∀ (k0_h4 : k0_cond4 i = 1#1), ∀ (r : Fin 4), ∀ a, (k0_off97 i (BitVec.ofNat 32 (128 * r.val))) a + S128x128.size a ≤ S16384x3328.size a
  k0_off98_inb : ∀ i : grid0.Coords, ∀ (k0_h4 : k0_cond4 i = 1#1), ∀ (r : Fin 4), ∀ a, (k0_off98 i (BitVec.ofNat 32 (128 * r.val))) a + S128x128.size a ≤ S16384x3328.size a
  k0_off99_inb : ∀ i : grid0.Coords, ∀ (k0_h4 : k0_cond4 i = 1#1), ∀ (r : Fin 4), ∀ a, (k0_off99 i (BitVec.ofNat 32 (128 * r.val))) a + S128x128.size a ≤ S16384x3328.size a
  k0_off100_inb : ∀ i : grid0.Coords, ∀ (k0_h4 : k0_cond4 i = 1#1), ∀ (r : Fin 4), ∀ a, (k0_off100 i (BitVec.ofNat 32 (128 * r.val))) a + S128x128.size a ≤ S16384x3328.size a
  k0_off101_inb : ∀ i : grid0.Coords, ∀ (k0_h4 : k0_cond4 i = 1#1), ∀ (r : Fin 4), ∀ a, (k0_off101 i (BitVec.ofNat 32 (128 * r.val))) a + S128x128.size a ≤ S16384x3328.size a
  k0_off102_inb : ∀ i : grid0.Coords, ∀ (k0_h4 : k0_cond4 i = 1#1), ∀ (r : Fin 4), ∀ a, (k0_off102 i (BitVec.ofNat 32 (128 * r.val))) a + S128x128.size a ≤ S16384x3328.size a
  k0_off103_inb : ∀ i : grid0.Coords, ∀ (k0_h4 : k0_cond4 i = 1#1), ∀ (r : Fin 4), ∀ a, (k0_off103 i (BitVec.ofNat 32 (128 * r.val))) a + S128x128.size a ≤ S16384x3328.size a
  k0_off104_inb : ∀ i : grid0.Coords, ∀ (k0_h4 : k0_cond4 i = 1#1), ∀ (r : Fin 4), ∀ a, (k0_off104 i (BitVec.ofNat 32 (128 * r.val))) a + S128x128.size a ≤ S16384x3328.size a
  k0_off105_inb : ∀ i : grid0.Coords, ∀ (k0_h4 : k0_cond4 i = 1#1), ∀ (r : Fin 4), ∀ a, (k0_off105 i (BitVec.ofNat 32 (128 * r.val))) a + S128x128.size a ≤ S16384x3328.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16

class Facts : Prop extends Facts₀ where

variable [Facts]
-- ==== ReferenceIdeal.lean ====
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x2048 : Shape := ⟨2, ![16384, 2048]⟩
abbrev S16384x1280 : Shape := ⟨2, ![16384, 1280]⟩
abbrev S16384x3328 : Shape := ⟨2, ![16384, 3328]⟩

abbrev nBuf : Space → Nat
  | .hbm => 653
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .i32⟩
  | 9 => ⟨S16384, .i32⟩
  | 10 => ⟨S16384, .i32⟩
  | 11 => ⟨S16384, .i32⟩
  | 12 => ⟨S16384, .i32⟩
  | 13 => ⟨S16384, .i32⟩
  | 14 => ⟨S16384, .i32⟩
  | 15 => ⟨S16384, .i32⟩
  | 16 => ⟨S16384, .i32⟩
  | 17 => ⟨S16384, .i32⟩
  | 18 => ⟨S16384, .i32⟩
  | 19 => ⟨S16384, .i32⟩
  | 20 => ⟨S16384, .i32⟩
  | 21 => ⟨S16384, .i32⟩
  | 22 => ⟨S16384, .i32⟩
  | 23 => ⟨S16384, .i32⟩
  | 24 => ⟨S16384, .i32⟩
  | 25 => ⟨S16384, .i32⟩
  | 26 => ⟨S1000x128, .f32⟩
  | 27 => ⟨S1000x128, .f32⟩
  | 28 => ⟨S1000x128, .f32⟩
  | 29 => ⟨S1000x128, .f32⟩
  | 30 => ⟨S1000x128, .f32⟩
  | 31 => ⟨S1000x128, .f32⟩
  | 32 => ⟨S1000x128, .f32⟩
  | 33 => ⟨S1000x128, .f32⟩
  | 34 => ⟨S1000x128, .f32⟩
  | 35 => ⟨S1000x128, .f32⟩
  | 36 => ⟨S1000x128, .f32⟩
  | 37 => ⟨S1000x128, .f32⟩
  | 38 => ⟨S1000x128, .f32⟩
  | 39 => ⟨S1000x128, .f32⟩
  | 40 => ⟨S1000x128, .f32⟩
  | 41 => ⟨S1000x128, .f32⟩
  | 42 => ⟨S1000x128, .f32⟩
  | 43 => ⟨S1000x128, .f32⟩
  | 44 => ⟨S1000x128, .f32⟩
  | 45 => ⟨S1000x128, .f32⟩
  | 46 => ⟨S1000x128, .f32⟩
  | 47 => ⟨S1000x128, .f32⟩
  | 48 => ⟨S1000x128, .f32⟩
  | 49 => ⟨S1000x128, .f32⟩
  | 50 => ⟨S1000x128, .f32⟩
  | 51 => ⟨S1000x128, .f32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S1, .i32⟩
  | 61 => ⟨S_, .i32⟩
  | 62 => ⟨S16384x1, .i32⟩
  | 63 => ⟨S16384x1, .i1⟩
  | 64 => ⟨S1x1, .i32⟩
  | 65 => ⟨S16384x1, .i32⟩
  | 66 => ⟨S16384x1, .i1⟩
  | 67 => ⟨S16384x1, .i1⟩
  | 68 => ⟨S_, .i1⟩
  | 69 => ⟨S16384, .i1⟩
  | 70 => ⟨S16384x128, .f32⟩
  | 71 => ⟨S16384x128, .i1⟩
  | 72 => ⟨S_, .f32⟩
  | 73 => ⟨S16384x128, .f32⟩
  | 74 => ⟨S16384x128, .f32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S1, .i32⟩
  | 84 => ⟨S_, .i32⟩
  | 85 => ⟨S16384x1, .i32⟩
  | 86 => ⟨S16384x1, .i1⟩
  | 87 => ⟨S1x1, .i32⟩
  | 88 => ⟨S16384x1, .i32⟩
  | 89 => ⟨S16384x1, .i1⟩
  | 90 => ⟨S16384x1, .i1⟩
  | 91 => ⟨S_, .i1⟩
  | 92 => ⟨S16384, .i1⟩
  | 93 => ⟨S16384x128, .f32⟩
  | 94 => ⟨S16384x128, .i1⟩
  | 95 => ⟨S_, .f32⟩
  | 96 => ⟨S16384x128, .f32⟩
  | 97 => ⟨S16384x128, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S1, .i32⟩
  | 107 => ⟨S_, .i32⟩
  | 108 => ⟨S16384x1, .i32⟩
  | 109 => ⟨S16384x1, .i1⟩
  | 110 => ⟨S1x1, .i32⟩
  | 111 => ⟨S16384x1, .i32⟩
  | 112 => ⟨S16384x1, .i1⟩
  | 113 => ⟨S16384x1, .i1⟩
  | 114 => ⟨S_, .i1⟩
  | 115 => ⟨S16384, .i1⟩
  | 116 => ⟨S16384x128, .f32⟩
  | 117 => ⟨S16384x128, .i1⟩
  | 118 => ⟨S_, .f32⟩
  | 119 => ⟨S16384x128, .f32⟩
  | 120 => ⟨S16384x128, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384, .i32⟩

abbrev hbmTy0_1 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x128, .f32⟩
  | 12 => ⟨S16384x128, .i1⟩
  | 13 => ⟨S_, .f32⟩
  | 14 => ⟨S16384x128, .f32⟩
  | 15 => ⟨S16384x128, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x128, .f32⟩
  | 35 => ⟨S16384x128, .i1⟩
  | 36 => ⟨S_, .f32⟩
  | 37 => ⟨S16384x128, .f32⟩
  | 38 => ⟨S16384x128, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x128, .f32⟩
  | 58 => ⟨S16384x128, .i1⟩
  | 59 => ⟨S_, .f32⟩
  | 60 => ⟨S16384x128, .f32⟩
  | 61 => ⟨S16384x128, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x128, .f32⟩
  | 81 => ⟨S16384x128, .i1⟩
  | 82 => ⟨S_, .f32⟩
  | 83 => ⟨S16384x128, .f32⟩
  | 84 => ⟨S16384x128, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x128, .f32⟩
  | 104 => ⟨S16384x128, .i1⟩
  | 105 => ⟨S_, .f32⟩
  | 106 => ⟨S16384x128, .f32⟩
  | 107 => ⟨S16384x128, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x128, .f32⟩
  | 127 => ⟨S16384x128, .i1⟩
  | _ => ⟨S16384, .i32⟩

abbrev hbmTy0_2 (i : Nat) : BufTy := match i % 128 with
  | 0 => ⟨S_, .f32⟩
  | 1 => ⟨S16384x128, .f32⟩
  | 2 => ⟨S16384x128, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S1, .i32⟩
  | 12 => ⟨S_, .i32⟩
  | 13 => ⟨S16384x1, .i32⟩
  | 14 => ⟨S16384x1, .i1⟩
  | 15 => ⟨S1x1, .i32⟩
  | 16 => ⟨S16384x1, .i32⟩
  | 17 => ⟨S16384x1, .i1⟩
  | 18 => ⟨S16384x1, .i1⟩
  | 19 => ⟨S_, .i1⟩
  | 20 => ⟨S16384, .i1⟩
  | 21 => ⟨S16384x128, .f32⟩
  | 22 => ⟨S16384x128, .i1⟩
  | 23 => ⟨S_, .f32⟩
  | 24 => ⟨S16384x128, .f32⟩
  | 25 => ⟨S16384x128, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x128, .f32⟩
  | 45 => ⟨S16384x128, .i1⟩
  | 46 => ⟨S_, .f32⟩
  | 47 => ⟨S16384x128, .f32⟩
  | 48 => ⟨S16384x128, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x128, .f32⟩
  | 68 => ⟨S16384x128, .i1⟩
  | 69 => ⟨S_, .f32⟩
  | 70 => ⟨S16384x128, .f32⟩
  | 71 => ⟨S16384x128, .f32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384x128, .f32⟩
  | 91 => ⟨S16384x128, .i1⟩
  | 92 => ⟨S_, .f32⟩
  | 93 => ⟨S16384x128, .f32⟩
  | 94 => ⟨S16384x128, .f32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x128, .f32⟩
  | 114 => ⟨S16384x128, .i1⟩
  | 115 => ⟨S_, .f32⟩
  | 116 => ⟨S16384x128, .f32⟩
  | 117 => ⟨S16384x128, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S1, .i32⟩
  | 127 => ⟨S_, .i32⟩
  | _ => ⟨S16384, .i32⟩

abbrev hbmTy0_3 (i : Nat) : BufTy := match i % 128 with
  | 0 => ⟨S16384x1, .i32⟩
  | 1 => ⟨S16384x1, .i1⟩
  | 2 => ⟨S1x1, .i32⟩
  | 3 => ⟨S16384x1, .i32⟩
  | 4 => ⟨S16384x1, .i1⟩
  | 5 => ⟨S16384x1, .i1⟩
  | 6 => ⟨S_, .i1⟩
  | 7 => ⟨S16384, .i1⟩
  | 8 => ⟨S16384x128, .f32⟩
  | 9 => ⟨S16384x128, .i1⟩
  | 10 => ⟨S_, .f32⟩
  | 11 => ⟨S16384x128, .f32⟩
  | 12 => ⟨S16384x128, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x128, .f32⟩
  | 32 => ⟨S16384x128, .i1⟩
  | 33 => ⟨S_, .f32⟩
  | 34 => ⟨S16384x128, .f32⟩
  | 35 => ⟨S16384x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x128, .f32⟩
  | 55 => ⟨S16384x128, .i1⟩
  | 56 => ⟨S_, .f32⟩
  | 57 => ⟨S16384x128, .f32⟩
  | 58 => ⟨S16384x128, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x128, .f32⟩
  | 78 => ⟨S16384x128, .i1⟩
  | 79 => ⟨S_, .f32⟩
  | 80 => ⟨S16384x128, .f32⟩
  | 81 => ⟨S16384x128, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S1, .i32⟩
  | 91 => ⟨S_, .i32⟩
  | 92 => ⟨S16384x1, .i32⟩
  | 93 => ⟨S16384x1, .i1⟩
  | 94 => ⟨S1x1, .i32⟩
  | 95 => ⟨S16384x1, .i32⟩
  | 96 => ⟨S16384x1, .i1⟩
  | 97 => ⟨S16384x1, .i1⟩
  | 98 => ⟨S_, .i1⟩
  | 99 => ⟨S16384, .i1⟩
  | 100 => ⟨S16384x128, .f32⟩
  | 101 => ⟨S16384x128, .i1⟩
  | 102 => ⟨S_, .f32⟩
  | 103 => ⟨S16384x128, .f32⟩
  | 104 => ⟨S16384x128, .f32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S1, .i32⟩
  | 114 => ⟨S_, .i32⟩
  | 115 => ⟨S16384x1, .i32⟩
  | 116 => ⟨S16384x1, .i1⟩
  | 117 => ⟨S1x1, .i32⟩
  | 118 => ⟨S16384x1, .i32⟩
  | 119 => ⟨S16384x1, .i1⟩
  | 120 => ⟨S16384x1, .i1⟩
  | 121 => ⟨S_, .i1⟩
  | 122 => ⟨S16384, .i1⟩
  | 123 => ⟨S16384x128, .f32⟩
  | 124 => ⟨S16384x128, .i1⟩
  | 125 => ⟨S_, .f32⟩
  | 126 => ⟨S16384x128, .f32⟩
  | 127 => ⟨S16384x128, .f32⟩
  | _ => ⟨S16384, .i32⟩

abbrev hbmTy0_4 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x128, .f32⟩
  | 19 => ⟨S16384x128, .i1⟩
  | 20 => ⟨S_, .f32⟩
  | 21 => ⟨S16384x128, .f32⟩
  | 22 => ⟨S16384x128, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S1, .i32⟩
  | 32 => ⟨S_, .i32⟩
  | 33 => ⟨S16384x1, .i32⟩
  | 34 => ⟨S16384x1, .i1⟩
  | 35 => ⟨S1x1, .i32⟩
  | 36 => ⟨S16384x1, .i32⟩
  | 37 => ⟨S16384x1, .i1⟩
  | 38 => ⟨S16384x1, .i1⟩
  | 39 => ⟨S_, .i1⟩
  | 40 => ⟨S16384, .i1⟩
  | 41 => ⟨S16384x128, .f32⟩
  | 42 => ⟨S16384x128, .i1⟩
  | 43 => ⟨S_, .f32⟩
  | 44 => ⟨S16384x128, .f32⟩
  | 45 => ⟨S16384x128, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S1, .i32⟩
  | 55 => ⟨S_, .i32⟩
  | 56 => ⟨S16384x1, .i32⟩
  | 57 => ⟨S16384x1, .i1⟩
  | 58 => ⟨S1x1, .i32⟩
  | 59 => ⟨S16384x1, .i32⟩
  | 60 => ⟨S16384x1, .i1⟩
  | 61 => ⟨S16384x1, .i1⟩
  | 62 => ⟨S_, .i1⟩
  | 63 => ⟨S16384, .i1⟩
  | 64 => ⟨S16384x128, .f32⟩
  | 65 => ⟨S16384x128, .i1⟩
  | 66 => ⟨S_, .f32⟩
  | 67 => ⟨S16384x128, .f32⟩
  | 68 => ⟨S16384x128, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x128, .f32⟩
  | 88 => ⟨S16384x128, .i1⟩
  | 89 => ⟨S_, .f32⟩
  | 90 => ⟨S16384x128, .f32⟩
  | 91 => ⟨S16384x128, .f32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x128, .f32⟩
  | 111 => ⟨S16384x128, .i1⟩
  | 112 => ⟨S_, .f32⟩
  | 113 => ⟨S16384x128, .f32⟩
  | 114 => ⟨S16384x128, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x128, .f32⟩
  | 6 => ⟨S16384x128, .i1⟩
  | 7 => ⟨S_, .f32⟩
  | 8 => ⟨S16384x128, .f32⟩
  | 9 => ⟨S16384x128, .f32⟩
  | 10 => ⟨S16384x2048, .f32⟩
  | 11 => ⟨S16384x1280, .f32⟩
  | 12 => ⟨S16384x3328, .f32⟩
  | _ => ⟨S16384, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v0 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v1 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v2 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v3 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_c_1 : Ref sig .tc := ⟨.hbm, 152, rfl⟩
abbrev main_call4_c_2 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_3 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_call4_cst : Ref sig .tc := ⟨.hbm, 164, rfl⟩
abbrev main_call4_v15 : Ref sig .tc := ⟨.hbm, 165, rfl⟩
abbrev main_v4 : Ref sig .tc := ⟨.hbm, 166, rfl⟩
abbrev main_call5_c : Ref sig .tc := ⟨.hbm, 167, rfl⟩
abbrev main_call5_v0 : Ref sig .tc := ⟨.hbm, 168, rfl⟩
abbrev main_call5_v1 : Ref sig .tc := ⟨.hbm, 169, rfl⟩
abbrev main_call5_c_0 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_c_1 : Ref sig .tc := ⟨.hbm, 175, rfl⟩
abbrev main_call5_c_2 : Ref sig .tc := ⟨.hbm, 176, rfl⟩
abbrev main_call5_v6 : Ref sig .tc := ⟨.hbm, 177, rfl⟩
abbrev main_call5_v7 : Ref sig .tc := ⟨.hbm, 178, rfl⟩
abbrev main_call5_v8 : Ref sig .tc := ⟨.hbm, 179, rfl⟩
abbrev main_call5_v9 : Ref sig .tc := ⟨.hbm, 180, rfl⟩
abbrev main_call5_v10 : Ref sig .tc := ⟨.hbm, 181, rfl⟩
abbrev main_call5_v11 : Ref sig .tc := ⟨.hbm, 182, rfl⟩
abbrev main_call5_c_3 : Ref sig .tc := ⟨.hbm, 183, rfl⟩
abbrev main_call5_v12 : Ref sig .tc := ⟨.hbm, 184, rfl⟩
abbrev main_call5_v13 : Ref sig .tc := ⟨.hbm, 185, rfl⟩
abbrev main_call5_v14 : Ref sig .tc := ⟨.hbm, 186, rfl⟩
abbrev main_call5_cst : Ref sig .tc := ⟨.hbm, 187, rfl⟩
abbrev main_call5_v15 : Ref sig .tc := ⟨.hbm, 188, rfl⟩
abbrev main_v5 : Ref sig .tc := ⟨.hbm, 189, rfl⟩
abbrev main_call6_c : Ref sig .tc := ⟨.hbm, 190, rfl⟩
abbrev main_call6_v0 : Ref sig .tc := ⟨.hbm, 191, rfl⟩
abbrev main_call6_v1 : Ref sig .tc := ⟨.hbm, 192, rfl⟩
abbrev main_call6_c_0 : Ref sig .tc := ⟨.hbm, 193, rfl⟩
abbrev main_call6_v2 : Ref sig .tc := ⟨.hbm, 194, rfl⟩
abbrev main_call6_v3 : Ref sig .tc := ⟨.hbm, 195, rfl⟩
abbrev main_call6_v4 : Ref sig .tc := ⟨.hbm, 196, rfl⟩
abbrev main_call6_v5 : Ref sig .tc := ⟨.hbm, 197, rfl⟩
abbrev main_call6_c_1 : Ref sig .tc := ⟨.hbm, 198, rfl⟩
abbrev main_call6_c_2 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_c_3 : Ref sig .tc := ⟨.hbm, 206, rfl⟩
abbrev main_call6_v12 : Ref sig .tc := ⟨.hbm, 207, rfl⟩
abbrev main_call6_v13 : Ref sig .tc := ⟨.hbm, 208, rfl⟩
abbrev main_call6_v14 : Ref sig .tc := ⟨.hbm, 209, rfl⟩
abbrev main_call6_cst : Ref sig .tc := ⟨.hbm, 210, rfl⟩
abbrev main_call6_v15 : Ref sig .tc := ⟨.hbm, 211, rfl⟩
abbrev main_v6 : Ref sig .tc := ⟨.hbm, 212, rfl⟩
abbrev main_call7_c : Ref sig .tc := ⟨.hbm, 213, rfl⟩
abbrev main_call7_v0 : Ref sig .tc := ⟨.hbm, 214, rfl⟩
abbrev main_call7_v1 : Ref sig .tc := ⟨.hbm, 215, rfl⟩
abbrev main_call7_c_0 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_call7_v5 : Ref sig .tc := ⟨.hbm, 220, rfl⟩
abbrev main_call7_c_1 : Ref sig .tc := ⟨.hbm, 221, rfl⟩
abbrev main_call7_c_2 : Ref sig .tc := ⟨.hbm, 222, rfl⟩
abbrev main_call7_v6 : Ref sig .tc := ⟨.hbm, 223, rfl⟩
abbrev main_call7_v7 : Ref sig .tc := ⟨.hbm, 224, rfl⟩
abbrev main_call7_v8 : Ref sig .tc := ⟨.hbm, 225, rfl⟩
abbrev main_call7_v9 : Ref sig .tc := ⟨.hbm, 226, rfl⟩
abbrev main_call7_v10 : Ref sig .tc := ⟨.hbm, 227, rfl⟩
abbrev main_call7_v11 : Ref sig .tc := ⟨.hbm, 228, rfl⟩
abbrev main_call7_c_3 : Ref sig .tc := ⟨.hbm, 229, rfl⟩
abbrev main_call7_v12 : Ref sig .tc := ⟨.hbm, 230, rfl⟩
abbrev main_call7_v13 : Ref sig .tc := ⟨.hbm, 231, rfl⟩
abbrev main_call7_v14 : Ref sig .tc := ⟨.hbm, 232, rfl⟩
abbrev main_call7_cst : Ref sig .tc := ⟨.hbm, 233, rfl⟩
abbrev main_call7_v15 : Ref sig .tc := ⟨.hbm, 234, rfl⟩
abbrev main_v7 : Ref sig .tc := ⟨.hbm, 235, rfl⟩
abbrev main_call8_c : Ref sig .tc := ⟨.hbm, 236, rfl⟩
abbrev main_call8_v0 : Ref sig .tc := ⟨.hbm, 237, rfl⟩
abbrev main_call8_v1 : Ref sig .tc := ⟨.hbm, 238, rfl⟩
abbrev main_call8_c_0 : Ref sig .tc := ⟨.hbm, 239, rfl⟩
abbrev main_call8_v2 : Ref sig .tc := ⟨.hbm, 240, rfl⟩
abbrev main_call8_v3 : Ref sig .tc := ⟨.hbm, 241, rfl⟩
abbrev main_call8_v4 : Ref sig .tc := ⟨.hbm, 242, rfl⟩
abbrev main_call8_v5 : Ref sig .tc := ⟨.hbm, 243, rfl⟩
abbrev main_call8_c_1 : Ref sig .tc := ⟨.hbm, 244, rfl⟩
abbrev main_call8_c_2 : Ref sig .tc := ⟨.hbm, 245, rfl⟩
abbrev main_call8_v6 : Ref sig .tc := ⟨.hbm, 246, rfl⟩
abbrev main_call8_v7 : Ref sig .tc := ⟨.hbm, 247, rfl⟩
abbrev main_call8_v8 : Ref sig .tc := ⟨.hbm, 248, rfl⟩
abbrev main_call8_v9 : Ref sig .tc := ⟨.hbm, 249, rfl⟩
abbrev main_call8_v10 : Ref sig .tc := ⟨.hbm, 250, rfl⟩
abbrev main_call8_v11 : Ref sig .tc := ⟨.hbm, 251, rfl⟩
abbrev main_call8_c_3 : Ref sig .tc := ⟨.hbm, 252, rfl⟩
abbrev main_call8_v12 : Ref sig .tc := ⟨.hbm, 253, rfl⟩
abbrev main_call8_v13 : Ref sig .tc := ⟨.hbm, 254, rfl⟩
abbrev main_call8_v14 : Ref sig .tc := ⟨.hbm, 255, rfl⟩
abbrev main_call8_cst : Ref sig .tc := ⟨.hbm, 256, rfl⟩
abbrev main_call8_v15 : Ref sig .tc := ⟨.hbm, 257, rfl⟩
abbrev main_v8 : Ref sig .tc := ⟨.hbm, 258, rfl⟩
abbrev main_call9_c : Ref sig .tc := ⟨.hbm, 259, rfl⟩
abbrev main_call9_v0 : Ref sig .tc := ⟨.hbm, 260, rfl⟩
abbrev main_call9_v1 : Ref sig .tc := ⟨.hbm, 261, rfl⟩
abbrev main_call9_c_0 : Ref sig .tc := ⟨.hbm, 262, rfl⟩
abbrev main_call9_v2 : Ref sig .tc := ⟨.hbm, 263, rfl⟩
abbrev main_call9_v3 : Ref sig .tc := ⟨.hbm, 264, rfl⟩
abbrev main_call9_v4 : Ref sig .tc := ⟨.hbm, 265, rfl⟩
abbrev main_call9_v5 : Ref sig .tc := ⟨.hbm, 266, rfl⟩
abbrev main_call9_c_1 : Ref sig .tc := ⟨.hbm, 267, rfl⟩
abbrev main_call9_c_2 : Ref sig .tc := ⟨.hbm, 268, rfl⟩
abbrev main_call9_v6 : Ref sig .tc := ⟨.hbm, 269, rfl⟩
abbrev main_call9_v7 : Ref sig .tc := ⟨.hbm, 270, rfl⟩
abbrev main_call9_v8 : Ref sig .tc := ⟨.hbm, 271, rfl⟩
abbrev main_call9_v9 : Ref sig .tc := ⟨.hbm, 272, rfl⟩
abbrev main_call9_v10 : Ref sig .tc := ⟨.hbm, 273, rfl⟩
abbrev main_call9_v11 : Ref sig .tc := ⟨.hbm, 274, rfl⟩
abbrev main_call9_c_3 : Ref sig .tc := ⟨.hbm, 275, rfl⟩
abbrev main_call9_v12 : Ref sig .tc := ⟨.hbm, 276, rfl⟩
abbrev main_call9_v13 : Ref sig .tc := ⟨.hbm, 277, rfl⟩
abbrev main_call9_v14 : Ref sig .tc := ⟨.hbm, 278, rfl⟩
abbrev main_call9_cst : Ref sig .tc := ⟨.hbm, 279, rfl⟩
abbrev main_call9_v15 : Ref sig .tc := ⟨.hbm, 280, rfl⟩
abbrev main_v9 : Ref sig .tc := ⟨.hbm, 281, rfl⟩
abbrev main_call10_c : Ref sig .tc := ⟨.hbm, 282, rfl⟩
abbrev main_call10_v0 : Ref sig .tc := ⟨.hbm, 283, rfl⟩
abbrev main_call10_v1 : Ref sig .tc := ⟨.hbm, 284, rfl⟩
abbrev main_call10_c_0 : Ref sig .tc := ⟨.hbm, 285, rfl⟩
abbrev main_call10_v2 : Ref sig .tc := ⟨.hbm, 286, rfl⟩
abbrev main_call10_v3 : Ref sig .tc := ⟨.hbm, 287, rfl⟩
abbrev main_call10_v4 : Ref sig .tc := ⟨.hbm, 288, rfl⟩
abbrev main_call10_v5 : Ref sig .tc := ⟨.hbm, 289, rfl⟩
abbrev main_call10_c_1 : Ref sig .tc := ⟨.hbm, 290, rfl⟩
abbrev main_call10_c_2 : Ref sig .tc := ⟨.hbm, 291, rfl⟩
abbrev main_call10_v6 : Ref sig .tc := ⟨.hbm, 292, rfl⟩
abbrev main_call10_v7 : Ref sig .tc := ⟨.hbm, 293, rfl⟩
abbrev main_call10_v8 : Ref sig .tc := ⟨.hbm, 294, rfl⟩
abbrev main_call10_v9 : Ref sig .tc := ⟨.hbm, 295, rfl⟩
abbrev main_call10_v10 : Ref sig .tc := ⟨.hbm, 296, rfl⟩
abbrev main_call10_v11 : Ref sig .tc := ⟨.hbm, 297, rfl⟩
abbrev main_call10_c_3 : Ref sig .tc := ⟨.hbm, 298, rfl⟩
abbrev main_call10_v12 : Ref sig .tc := ⟨.hbm, 299, rfl⟩
abbrev main_call10_v13 : Ref sig .tc := ⟨.hbm, 300, rfl⟩
abbrev main_call10_v14 : Ref sig .tc := ⟨.hbm, 301, rfl⟩
abbrev main_call10_cst : Ref sig .tc := ⟨.hbm, 302, rfl⟩
abbrev main_call10_v15 : Ref sig .tc := ⟨.hbm, 303, rfl⟩
abbrev main_v10 : Ref sig .tc := ⟨.hbm, 304, rfl⟩
abbrev main_call11_c : Ref sig .tc := ⟨.hbm, 305, rfl⟩
abbrev main_call11_v0 : Ref sig .tc := ⟨.hbm, 306, rfl⟩
abbrev main_call11_v1 : Ref sig .tc := ⟨.hbm, 307, rfl⟩
abbrev main_call11_c_0 : Ref sig .tc := ⟨.hbm, 308, rfl⟩
abbrev main_call11_v2 : Ref sig .tc := ⟨.hbm, 309, rfl⟩
abbrev main_call11_v3 : Ref sig .tc := ⟨.hbm, 310, rfl⟩
abbrev main_call11_v4 : Ref sig .tc := ⟨.hbm, 311, rfl⟩
abbrev main_call11_v5 : Ref sig .tc := ⟨.hbm, 312, rfl⟩
abbrev main_call11_c_1 : Ref sig .tc := ⟨.hbm, 313, rfl⟩
abbrev main_call11_c_2 : Ref sig .tc := ⟨.hbm, 314, rfl⟩
abbrev main_call11_v6 : Ref sig .tc := ⟨.hbm, 315, rfl⟩
abbrev main_call11_v7 : Ref sig .tc := ⟨.hbm, 316, rfl⟩
abbrev main_call11_v8 : Ref sig .tc := ⟨.hbm, 317, rfl⟩
abbrev main_call11_v9 : Ref sig .tc := ⟨.hbm, 318, rfl⟩
abbrev main_call11_v10 : Ref sig .tc := ⟨.hbm, 319, rfl⟩
abbrev main_call11_v11 : Ref sig .tc := ⟨.hbm, 320, rfl⟩
abbrev main_call11_c_3 : Ref sig .tc := ⟨.hbm, 321, rfl⟩
abbrev main_call11_v12 : Ref sig .tc := ⟨.hbm, 322, rfl⟩
abbrev main_call11_v13 : Ref sig .tc := ⟨.hbm, 323, rfl⟩
abbrev main_call11_v14 : Ref sig .tc := ⟨.hbm, 324, rfl⟩
abbrev main_call11_cst : Ref sig .tc := ⟨.hbm, 325, rfl⟩
abbrev main_call11_v15 : Ref sig .tc := ⟨.hbm, 326, rfl⟩
abbrev main_v11 : Ref sig .tc := ⟨.hbm, 327, rfl⟩
abbrev main_call12_c : Ref sig .tc := ⟨.hbm, 328, rfl⟩
abbrev main_call12_v0 : Ref sig .tc := ⟨.hbm, 329, rfl⟩
abbrev main_call12_v1 : Ref sig .tc := ⟨.hbm, 330, rfl⟩
abbrev main_call12_c_0 : Ref sig .tc := ⟨.hbm, 331, rfl⟩
abbrev main_call12_v2 : Ref sig .tc := ⟨.hbm, 332, rfl⟩
abbrev main_call12_v3 : Ref sig .tc := ⟨.hbm, 333, rfl⟩
abbrev main_call12_v4 : Ref sig .tc := ⟨.hbm, 334, rfl⟩
abbrev main_call12_v5 : Ref sig .tc := ⟨.hbm, 335, rfl⟩
abbrev main_call12_c_1 : Ref sig .tc := ⟨.hbm, 336, rfl⟩
abbrev main_call12_c_2 : Ref sig .tc := ⟨.hbm, 337, rfl⟩
abbrev main_call12_v6 : Ref sig .tc := ⟨.hbm, 338, rfl⟩
abbrev main_call12_v7 : Ref sig .tc := ⟨.hbm, 339, rfl⟩
abbrev main_call12_v8 : Ref sig .tc := ⟨.hbm, 340, rfl⟩
abbrev main_call12_v9 : Ref sig .tc := ⟨.hbm, 341, rfl⟩
abbrev main_call12_v10 : Ref sig .tc := ⟨.hbm, 342, rfl⟩
abbrev main_call12_v11 : Ref sig .tc := ⟨.hbm, 343, rfl⟩
abbrev main_call12_c_3 : Ref sig .tc := ⟨.hbm, 344, rfl⟩
abbrev main_call12_v12 : Ref sig .tc := ⟨.hbm, 345, rfl⟩
abbrev main_call12_v13 : Ref sig .tc := ⟨.hbm, 346, rfl⟩
abbrev main_call12_v14 : Ref sig .tc := ⟨.hbm, 347, rfl⟩
abbrev main_call12_cst : Ref sig .tc := ⟨.hbm, 348, rfl⟩
abbrev main_call12_v15 : Ref sig .tc := ⟨.hbm, 349, rfl⟩
abbrev main_v12 : Ref sig .tc := ⟨.hbm, 350, rfl⟩
abbrev main_call13_c : Ref sig .tc := ⟨.hbm, 351, rfl⟩
abbrev main_call13_v0 : Ref sig .tc := ⟨.hbm, 352, rfl⟩
abbrev main_call13_v1 : Ref sig .tc := ⟨.hbm, 353, rfl⟩
abbrev main_call13_c_0 : Ref sig .tc := ⟨.hbm, 354, rfl⟩
abbrev main_call13_v2 : Ref sig .tc := ⟨.hbm, 355, rfl⟩
abbrev main_call13_v3 : Ref sig .tc := ⟨.hbm, 356, rfl⟩
abbrev main_call13_v4 : Ref sig .tc := ⟨.hbm, 357, rfl⟩
abbrev main_call13_v5 : Ref sig .tc := ⟨.hbm, 358, rfl⟩
abbrev main_call13_c_1 : Ref sig .tc := ⟨.hbm, 359, rfl⟩
abbrev main_call13_c_2 : Ref sig .tc := ⟨.hbm, 360, rfl⟩
abbrev main_call13_v6 : Ref sig .tc := ⟨.hbm, 361, rfl⟩
abbrev main_call13_v7 : Ref sig .tc := ⟨.hbm, 362, rfl⟩
abbrev main_call13_v8 : Ref sig .tc := ⟨.hbm, 363, rfl⟩
abbrev main_call13_v9 : Ref sig .tc := ⟨.hbm, 364, rfl⟩
abbrev main_call13_v10 : Ref sig .tc := ⟨.hbm, 365, rfl⟩
abbrev main_call13_v11 : Ref sig .tc := ⟨.hbm, 366, rfl⟩
abbrev main_call13_c_3 : Ref sig .tc := ⟨.hbm, 367, rfl⟩
abbrev main_call13_v12 : Ref sig .tc := ⟨.hbm, 368, rfl⟩
abbrev main_call13_v13 : Ref sig .tc := ⟨.hbm, 369, rfl⟩
abbrev main_call13_v14 : Ref sig .tc := ⟨.hbm, 370, rfl⟩
abbrev main_call13_cst : Ref sig .tc := ⟨.hbm, 371, rfl⟩
abbrev main_call13_v15 : Ref sig .tc := ⟨.hbm, 372, rfl⟩
abbrev main_v13 : Ref sig .tc := ⟨.hbm, 373, rfl⟩
abbrev main_call14_c : Ref sig .tc := ⟨.hbm, 374, rfl⟩
abbrev main_call14_v0 : Ref sig .tc := ⟨.hbm, 375, rfl⟩
abbrev main_call14_v1 : Ref sig .tc := ⟨.hbm, 376, rfl⟩
abbrev main_call14_c_0 : Ref sig .tc := ⟨.hbm, 377, rfl⟩
abbrev main_call14_v2 : Ref sig .tc := ⟨.hbm, 378, rfl⟩
abbrev main_call14_v3 : Ref sig .tc := ⟨.hbm, 379, rfl⟩
abbrev main_call14_v4 : Ref sig .tc := ⟨.hbm, 380, rfl⟩
abbrev main_call14_v5 : Ref sig .tc := ⟨.hbm, 381, rfl⟩
abbrev main_call14_c_1 : Ref sig .tc := ⟨.hbm, 382, rfl⟩
abbrev main_call14_c_2 : Ref sig .tc := ⟨.hbm, 383, rfl⟩
abbrev main_call14_v6 : Ref sig .tc := ⟨.hbm, 384, rfl⟩
abbrev main_call14_v7 : Ref sig .tc := ⟨.hbm, 385, rfl⟩
abbrev main_call14_v8 : Ref sig .tc := ⟨.hbm, 386, rfl⟩
abbrev main_call14_v9 : Ref sig .tc := ⟨.hbm, 387, rfl⟩
abbrev main_call14_v10 : Ref sig .tc := ⟨.hbm, 388, rfl⟩
abbrev main_call14_v11 : Ref sig .tc := ⟨.hbm, 389, rfl⟩
abbrev main_call14_c_3 : Ref sig .tc := ⟨.hbm, 390, rfl⟩
abbrev main_call14_v12 : Ref sig .tc := ⟨.hbm, 391, rfl⟩
abbrev main_call14_v13 : Ref sig .tc := ⟨.hbm, 392, rfl⟩
abbrev main_call14_v14 : Ref sig .tc := ⟨.hbm, 393, rfl⟩
abbrev main_call14_cst : Ref sig .tc := ⟨.hbm, 394, rfl⟩
abbrev main_call14_v15 : Ref sig .tc := ⟨.hbm, 395, rfl⟩
abbrev main_v14 : Ref sig .tc := ⟨.hbm, 396, rfl⟩
abbrev main_call15_c : Ref sig .tc := ⟨.hbm, 397, rfl⟩
abbrev main_call15_v0 : Ref sig .tc := ⟨.hbm, 398, rfl⟩
abbrev main_call15_v1 : Ref sig .tc := ⟨.hbm, 399, rfl⟩
abbrev main_call15_c_0 : Ref sig .tc := ⟨.hbm, 400, rfl⟩
abbrev main_call15_v2 : Ref sig .tc := ⟨.hbm, 401, rfl⟩
abbrev main_call15_v3 : Ref sig .tc := ⟨.hbm, 402, rfl⟩
abbrev main_call15_v4 : Ref sig .tc := ⟨.hbm, 403, rfl⟩
abbrev main_call15_v5 : Ref sig .tc := ⟨.hbm, 404, rfl⟩
abbrev main_call15_c_1 : Ref sig .tc := ⟨.hbm, 405, rfl⟩
abbrev main_call15_c_2 : Ref sig .tc := ⟨.hbm, 406, rfl⟩
abbrev main_call15_v6 : Ref sig .tc := ⟨.hbm, 407, rfl⟩
abbrev main_call15_v7 : Ref sig .tc := ⟨.hbm, 408, rfl⟩
abbrev main_call15_v8 : Ref sig .tc := ⟨.hbm, 409, rfl⟩
abbrev main_call15_v9 : Ref sig .tc := ⟨.hbm, 410, rfl⟩
abbrev main_call15_v10 : Ref sig .tc := ⟨.hbm, 411, rfl⟩
abbrev main_call15_v11 : Ref sig .tc := ⟨.hbm, 412, rfl⟩
abbrev main_call15_c_3 : Ref sig .tc := ⟨.hbm, 413, rfl⟩
abbrev main_call15_v12 : Ref sig .tc := ⟨.hbm, 414, rfl⟩
abbrev main_call15_v13 : Ref sig .tc := ⟨.hbm, 415, rfl⟩
abbrev main_call15_v14 : Ref sig .tc := ⟨.hbm, 416, rfl⟩
abbrev main_call15_cst : Ref sig .tc := ⟨.hbm, 417, rfl⟩
abbrev main_call15_v15 : Ref sig .tc := ⟨.hbm, 418, rfl⟩
abbrev main_v15 : Ref sig .tc := ⟨.hbm, 419, rfl⟩
abbrev main_call16_c : Ref sig .tc := ⟨.hbm, 420, rfl⟩
abbrev main_call16_v0 : Ref sig .tc := ⟨.hbm, 421, rfl⟩
abbrev main_call16_v1 : Ref sig .tc := ⟨.hbm, 422, rfl⟩
abbrev main_call16_c_0 : Ref sig .tc := ⟨.hbm, 423, rfl⟩
abbrev main_call16_v2 : Ref sig .tc := ⟨.hbm, 424, rfl⟩
abbrev main_call16_v3 : Ref sig .tc := ⟨.hbm, 425, rfl⟩
abbrev main_call16_v4 : Ref sig .tc := ⟨.hbm, 426, rfl⟩
abbrev main_call16_v5 : Ref sig .tc := ⟨.hbm, 427, rfl⟩
abbrev main_call16_c_1 : Ref sig .tc := ⟨.hbm, 428, rfl⟩
abbrev main_call16_c_2 : Ref sig .tc := ⟨.hbm, 429, rfl⟩
abbrev main_call16_v6 : Ref sig .tc := ⟨.hbm, 430, rfl⟩
abbrev main_call16_v7 : Ref sig .tc := ⟨.hbm, 431, rfl⟩
abbrev main_call16_v8 : Ref sig .tc := ⟨.hbm, 432, rfl⟩
abbrev main_call16_v9 : Ref sig .tc := ⟨.hbm, 433, rfl⟩
abbrev main_call16_v10 : Ref sig .tc := ⟨.hbm, 434, rfl⟩
abbrev main_call16_v11 : Ref sig .tc := ⟨.hbm, 435, rfl⟩
abbrev main_call16_c_3 : Ref sig .tc := ⟨.hbm, 436, rfl⟩
abbrev main_call16_v12 : Ref sig .tc := ⟨.hbm, 437, rfl⟩
abbrev main_call16_v13 : Ref sig .tc := ⟨.hbm, 438, rfl⟩
abbrev main_call16_v14 : Ref sig .tc := ⟨.hbm, 439, rfl⟩
abbrev main_call16_cst : Ref sig .tc := ⟨.hbm, 440, rfl⟩
abbrev main_call16_v15 : Ref sig .tc := ⟨.hbm, 441, rfl⟩
abbrev main_v16 : Ref sig .tc := ⟨.hbm, 442, rfl⟩
abbrev main_call17_c : Ref sig .tc := ⟨.hbm, 443, rfl⟩
abbrev main_call17_v0 : Ref sig .tc := ⟨.hbm, 444, rfl⟩
abbrev main_call17_v1 : Ref sig .tc := ⟨.hbm, 445, rfl⟩
abbrev main_call17_c_0 : Ref sig .tc := ⟨.hbm, 446, rfl⟩
abbrev main_call17_v2 : Ref sig .tc := ⟨.hbm, 447, rfl⟩
abbrev main_call17_v3 : Ref sig .tc := ⟨.hbm, 448, rfl⟩
abbrev main_call17_v4 : Ref sig .tc := ⟨.hbm, 449, rfl⟩
abbrev main_call17_v5 : Ref sig .tc := ⟨.hbm, 450, rfl⟩
abbrev main_call17_c_1 : Ref sig .tc := ⟨.hbm, 451, rfl⟩
abbrev main_call17_c_2 : Ref sig .tc := ⟨.hbm, 452, rfl⟩
abbrev main_call17_v6 : Ref sig .tc := ⟨.hbm, 453, rfl⟩
abbrev main_call17_v7 : Ref sig .tc := ⟨.hbm, 454, rfl⟩
abbrev main_call17_v8 : Ref sig .tc := ⟨.hbm, 455, rfl⟩
abbrev main_call17_v9 : Ref sig .tc := ⟨.hbm, 456, rfl⟩
abbrev main_call17_v10 : Ref sig .tc := ⟨.hbm, 457, rfl⟩
abbrev main_call17_v11 : Ref sig .tc := ⟨.hbm, 458, rfl⟩
abbrev main_call17_c_3 : Ref sig .tc := ⟨.hbm, 459, rfl⟩
abbrev main_call17_v12 : Ref sig .tc := ⟨.hbm, 460, rfl⟩
abbrev main_call17_v13 : Ref sig .tc := ⟨.hbm, 461, rfl⟩
abbrev main_call17_v14 : Ref sig .tc := ⟨.hbm, 462, rfl⟩
abbrev main_call17_cst : Ref sig .tc := ⟨.hbm, 463, rfl⟩
abbrev main_call17_v15 : Ref sig .tc := ⟨.hbm, 464, rfl⟩
abbrev main_v17 : Ref sig .tc := ⟨.hbm, 465, rfl⟩
abbrev main_call18_c : Ref sig .tc := ⟨.hbm, 466, rfl⟩
abbrev main_call18_v0 : Ref sig .tc := ⟨.hbm, 467, rfl⟩
abbrev main_call18_v1 : Ref sig .tc := ⟨.hbm, 468, rfl⟩
abbrev main_call18_c_0 : Ref sig .tc := ⟨.hbm, 469, rfl⟩
abbrev main_call18_v2 : Ref sig .tc := ⟨.hbm, 470, rfl⟩
abbrev main_call18_v3 : Ref sig .tc := ⟨.hbm, 471, rfl⟩
abbrev main_call18_v4 : Ref sig .tc := ⟨.hbm, 472, rfl⟩
abbrev main_call18_v5 : Ref sig .tc := ⟨.hbm, 473, rfl⟩
abbrev main_call18_c_1 : Ref sig .tc := ⟨.hbm, 474, rfl⟩
abbrev main_call18_c_2 : Ref sig .tc := ⟨.hbm, 475, rfl⟩
abbrev main_call18_v6 : Ref sig .tc := ⟨.hbm, 476, rfl⟩
abbrev main_call18_v7 : Ref sig .tc := ⟨.hbm, 477, rfl⟩
abbrev main_call18_v8 : Ref sig .tc := ⟨.hbm, 478, rfl⟩
abbrev main_call18_v9 : Ref sig .tc := ⟨.hbm, 479, rfl⟩
abbrev main_call18_v10 : Ref sig .tc := ⟨.hbm, 480, rfl⟩
abbrev main_call18_v11 : Ref sig .tc := ⟨.hbm, 481, rfl⟩
abbrev main_call18_c_3 : Ref sig .tc := ⟨.hbm, 482, rfl⟩
abbrev main_call18_v12 : Ref sig .tc := ⟨.hbm, 483, rfl⟩
abbrev main_call18_v13 : Ref sig .tc := ⟨.hbm, 484, rfl⟩
abbrev main_call18_v14 : Ref sig .tc := ⟨.hbm, 485, rfl⟩
abbrev main_call18_cst : Ref sig .tc := ⟨.hbm, 486, rfl⟩
abbrev main_call18_v15 : Ref sig .tc := ⟨.hbm, 487, rfl⟩
abbrev main_v18 : Ref sig .tc := ⟨.hbm, 488, rfl⟩
abbrev main_call19_c : Ref sig .tc := ⟨.hbm, 489, rfl⟩
abbrev main_call19_v0 : Ref sig .tc := ⟨.hbm, 490, rfl⟩
abbrev main_call19_v1 : Ref sig .tc := ⟨.hbm, 491, rfl⟩
abbrev main_call19_c_0 : Ref sig .tc := ⟨.hbm, 492, rfl⟩
abbrev main_call19_v2 : Ref sig .tc := ⟨.hbm, 493, rfl⟩
abbrev main_call19_v3 : Ref sig .tc := ⟨.hbm, 494, rfl⟩
abbrev main_call19_v4 : Ref sig .tc := ⟨.hbm, 495, rfl⟩
abbrev main_call19_v5 : Ref sig .tc := ⟨.hbm, 496, rfl⟩
abbrev main_call19_c_1 : Ref sig .tc := ⟨.hbm, 497, rfl⟩
abbrev main_call19_c_2 : Ref sig .tc := ⟨.hbm, 498, rfl⟩
abbrev main_call19_v6 : Ref sig .tc := ⟨.hbm, 499, rfl⟩
abbrev main_call19_v7 : Ref sig .tc := ⟨.hbm, 500, rfl⟩
abbrev main_call19_v8 : Ref sig .tc := ⟨.hbm, 501, rfl⟩
abbrev main_call19_v9 : Ref sig .tc := ⟨.hbm, 502, rfl⟩
abbrev main_call19_v10 : Ref sig .tc := ⟨.hbm, 503, rfl⟩
abbrev main_call19_v11 : Ref sig .tc := ⟨.hbm, 504, rfl⟩
abbrev main_call19_c_3 : Ref sig .tc := ⟨.hbm, 505, rfl⟩
abbrev main_call19_v12 : Ref sig .tc := ⟨.hbm, 506, rfl⟩
abbrev main_call19_v13 : Ref sig .tc := ⟨.hbm, 507, rfl⟩
abbrev main_call19_v14 : Ref sig .tc := ⟨.hbm, 508, rfl⟩
abbrev main_call19_cst : Ref sig .tc := ⟨.hbm, 509, rfl⟩
abbrev main_call19_v15 : Ref sig .tc := ⟨.hbm, 510, rfl⟩
abbrev main_v19 : Ref sig .tc := ⟨.hbm, 511, rfl⟩
abbrev main_call20_c : Ref sig .tc := ⟨.hbm, 512, rfl⟩
abbrev main_call20_v0 : Ref sig .tc := ⟨.hbm, 513, rfl⟩
abbrev main_call20_v1 : Ref sig .tc := ⟨.hbm, 514, rfl⟩
abbrev main_call20_c_0 : Ref sig .tc := ⟨.hbm, 515, rfl⟩
abbrev main_call20_v2 : Ref sig .tc := ⟨.hbm, 516, rfl⟩
abbrev main_call20_v3 : Ref sig .tc := ⟨.hbm, 517, rfl⟩
abbrev main_call20_v4 : Ref sig .tc := ⟨.hbm, 518, rfl⟩
abbrev main_call20_v5 : Ref sig .tc := ⟨.hbm, 519, rfl⟩
abbrev main_call20_c_1 : Ref sig .tc := ⟨.hbm, 520, rfl⟩
abbrev main_call20_c_2 : Ref sig .tc := ⟨.hbm, 521, rfl⟩
abbrev main_call20_v6 : Ref sig .tc := ⟨.hbm, 522, rfl⟩
abbrev main_call20_v7 : Ref sig .tc := ⟨.hbm, 523, rfl⟩
abbrev main_call20_v8 : Ref sig .tc := ⟨.hbm, 524, rfl⟩
abbrev main_call20_v9 : Ref sig .tc := ⟨.hbm, 525, rfl⟩
abbrev main_call20_v10 : Ref sig .tc := ⟨.hbm, 526, rfl⟩
abbrev main_call20_v11 : Ref sig .tc := ⟨.hbm, 527, rfl⟩
abbrev main_call20_c_3 : Ref sig .tc := ⟨.hbm, 528, rfl⟩
abbrev main_call20_v12 : Ref sig .tc := ⟨.hbm, 529, rfl⟩
abbrev main_call20_v13 : Ref sig .tc := ⟨.hbm, 530, rfl⟩
abbrev main_call20_v14 : Ref sig .tc := ⟨.hbm, 531, rfl⟩
abbrev main_call20_cst : Ref sig .tc := ⟨.hbm, 532, rfl⟩
abbrev main_call20_v15 : Ref sig .tc := ⟨.hbm, 533, rfl⟩
abbrev main_v20 : Ref sig .tc := ⟨.hbm, 534, rfl⟩
abbrev main_call21_c : Ref sig .tc := ⟨.hbm, 535, rfl⟩
abbrev main_call21_v0 : Ref sig .tc := ⟨.hbm, 536, rfl⟩
abbrev main_call21_v1 : Ref sig .tc := ⟨.hbm, 537, rfl⟩
abbrev main_call21_c_0 : Ref sig .tc := ⟨.hbm, 538, rfl⟩
abbrev main_call21_v2 : Ref sig .tc := ⟨.hbm, 539, rfl⟩
abbrev main_call21_v3 : Ref sig .tc := ⟨.hbm, 540, rfl⟩
abbrev main_call21_v4 : Ref sig .tc := ⟨.hbm, 541, rfl⟩
abbrev main_call21_v5 : Ref sig .tc := ⟨.hbm, 542, rfl⟩
abbrev main_call21_c_1 : Ref sig .tc := ⟨.hbm, 543, rfl⟩
abbrev main_call21_c_2 : Ref sig .tc := ⟨.hbm, 544, rfl⟩
abbrev main_call21_v6 : Ref sig .tc := ⟨.hbm, 545, rfl⟩
abbrev main_call21_v7 : Ref sig .tc := ⟨.hbm, 546, rfl⟩
abbrev main_call21_v8 : Ref sig .tc := ⟨.hbm, 547, rfl⟩
abbrev main_call21_v9 : Ref sig .tc := ⟨.hbm, 548, rfl⟩
abbrev main_call21_v10 : Ref sig .tc := ⟨.hbm, 549, rfl⟩
abbrev main_call21_v11 : Ref sig .tc := ⟨.hbm, 550, rfl⟩
abbrev main_call21_c_3 : Ref sig .tc := ⟨.hbm, 551, rfl⟩
abbrev main_call21_v12 : Ref sig .tc := ⟨.hbm, 552, rfl⟩
abbrev main_call21_v13 : Ref sig .tc := ⟨.hbm, 553, rfl⟩
abbrev main_call21_v14 : Ref sig .tc := ⟨.hbm, 554, rfl⟩
abbrev main_call21_cst : Ref sig .tc := ⟨.hbm, 555, rfl⟩
abbrev main_call21_v15 : Ref sig .tc := ⟨.hbm, 556, rfl⟩
abbrev main_v21 : Ref sig .tc := ⟨.hbm, 557, rfl⟩
abbrev main_call22_c : Ref sig .tc := ⟨.hbm, 558, rfl⟩
abbrev main_call22_v0 : Ref sig .tc := ⟨.hbm, 559, rfl⟩
abbrev main_call22_v1 : Ref sig .tc := ⟨.hbm, 560, rfl⟩
abbrev main_call22_c_0 : Ref sig .tc := ⟨.hbm, 561, rfl⟩
abbrev main_call22_v2 : Ref sig .tc := ⟨.hbm, 562, rfl⟩
abbrev main_call22_v3 : Ref sig .tc := ⟨.hbm, 563, rfl⟩
abbrev main_call22_v4 : Ref sig .tc := ⟨.hbm, 564, rfl⟩
abbrev main_call22_v5 : Ref sig .tc := ⟨.hbm, 565, rfl⟩
abbrev main_call22_c_1 : Ref sig .tc := ⟨.hbm, 566, rfl⟩
abbrev main_call22_c_2 : Ref sig .tc := ⟨.hbm, 567, rfl⟩
abbrev main_call22_v6 : Ref sig .tc := ⟨.hbm, 568, rfl⟩
abbrev main_call22_v7 : Ref sig .tc := ⟨.hbm, 569, rfl⟩
abbrev main_call22_v8 : Ref sig .tc := ⟨.hbm, 570, rfl⟩
abbrev main_call22_v9 : Ref sig .tc := ⟨.hbm, 571, rfl⟩
abbrev main_call22_v10 : Ref sig .tc := ⟨.hbm, 572, rfl⟩
abbrev main_call22_v11 : Ref sig .tc := ⟨.hbm, 573, rfl⟩
abbrev main_call22_c_3 : Ref sig .tc := ⟨.hbm, 574, rfl⟩
abbrev main_call22_v12 : Ref sig .tc := ⟨.hbm, 575, rfl⟩
abbrev main_call22_v13 : Ref sig .tc := ⟨.hbm, 576, rfl⟩
abbrev main_call22_v14 : Ref sig .tc := ⟨.hbm, 577, rfl⟩
abbrev main_call22_cst : Ref sig .tc := ⟨.hbm, 578, rfl⟩
abbrev main_call22_v15 : Ref sig .tc := ⟨.hbm, 579, rfl⟩
abbrev main_v22 : Ref sig .tc := ⟨.hbm, 580, rfl⟩
abbrev main_call23_c : Ref sig .tc := ⟨.hbm, 581, rfl⟩
abbrev main_call23_v0 : Ref sig .tc := ⟨.hbm, 582, rfl⟩
abbrev main_call23_v1 : Ref sig .tc := ⟨.hbm, 583, rfl⟩
abbrev main_call23_c_0 : Ref sig .tc := ⟨.hbm, 584, rfl⟩
abbrev main_call23_v2 : Ref sig .tc := ⟨.hbm, 585, rfl⟩
abbrev main_call23_v3 : Ref sig .tc := ⟨.hbm, 586, rfl⟩
abbrev main_call23_v4 : Ref sig .tc := ⟨.hbm, 587, rfl⟩
abbrev main_call23_v5 : Ref sig .tc := ⟨.hbm, 588, rfl⟩
abbrev main_call23_c_1 : Ref sig .tc := ⟨.hbm, 589, rfl⟩
abbrev main_call23_c_2 : Ref sig .tc := ⟨.hbm, 590, rfl⟩
abbrev main_call23_v6 : Ref sig .tc := ⟨.hbm, 591, rfl⟩
abbrev main_call23_v7 : Ref sig .tc := ⟨.hbm, 592, rfl⟩
abbrev main_call23_v8 : Ref sig .tc := ⟨.hbm, 593, rfl⟩
abbrev main_call23_v9 : Ref sig .tc := ⟨.hbm, 594, rfl⟩
abbrev main_call23_v10 : Ref sig .tc := ⟨.hbm, 595, rfl⟩
abbrev main_call23_v11 : Ref sig .tc := ⟨.hbm, 596, rfl⟩
abbrev main_call23_c_3 : Ref sig .tc := ⟨.hbm, 597, rfl⟩
abbrev main_call23_v12 : Ref sig .tc := ⟨.hbm, 598, rfl⟩
abbrev main_call23_v13 : Ref sig .tc := ⟨.hbm, 599, rfl⟩
abbrev main_call23_v14 : Ref sig .tc := ⟨.hbm, 600, rfl⟩
abbrev main_call23_cst : Ref sig .tc := ⟨.hbm, 601, rfl⟩
abbrev main_call23_v15 : Ref sig .tc := ⟨.hbm, 602, rfl⟩
abbrev main_v23 : Ref sig .tc := ⟨.hbm, 603, rfl⟩
abbrev main_call24_c : Ref sig .tc := ⟨.hbm, 604, rfl⟩
abbrev main_call24_v0 : Ref sig .tc := ⟨.hbm, 605, rfl⟩
abbrev main_call24_v1 : Ref sig .tc := ⟨.hbm, 606, rfl⟩
abbrev main_call24_c_0 : Ref sig .tc := ⟨.hbm, 607, rfl⟩
abbrev main_call24_v2 : Ref sig .tc := ⟨.hbm, 608, rfl⟩
abbrev main_call24_v3 : Ref sig .tc := ⟨.hbm, 609, rfl⟩
abbrev main_call24_v4 : Ref sig .tc := ⟨.hbm, 610, rfl⟩
abbrev main_call24_v5 : Ref sig .tc := ⟨.hbm, 611, rfl⟩
abbrev main_call24_c_1 : Ref sig .tc := ⟨.hbm, 612, rfl⟩
abbrev main_call24_c_2 : Ref sig .tc := ⟨.hbm, 613, rfl⟩
abbrev main_call24_v6 : Ref sig .tc := ⟨.hbm, 614, rfl⟩
abbrev main_call24_v7 : Ref sig .tc := ⟨.hbm, 615, rfl⟩
abbrev main_call24_v8 : Ref sig .tc := ⟨.hbm, 616, rfl⟩
abbrev main_call24_v9 : Ref sig .tc := ⟨.hbm, 617, rfl⟩
abbrev main_call24_v10 : Ref sig .tc := ⟨.hbm, 618, rfl⟩
abbrev main_call24_v11 : Ref sig .tc := ⟨.hbm, 619, rfl⟩
abbrev main_call24_c_3 : Ref sig .tc := ⟨.hbm, 620, rfl⟩
abbrev main_call24_v12 : Ref sig .tc := ⟨.hbm, 621, rfl⟩
abbrev main_call24_v13 : Ref sig .tc := ⟨.hbm, 622, rfl⟩
abbrev main_call24_v14 : Ref sig .tc := ⟨.hbm, 623, rfl⟩
abbrev main_call24_cst : Ref sig .tc := ⟨.hbm, 624, rfl⟩
abbrev main_call24_v15 : Ref sig .tc := ⟨.hbm, 625, rfl⟩
abbrev main_v24 : Ref sig .tc := ⟨.hbm, 626, rfl⟩
abbrev main_call25_c : Ref sig .tc := ⟨.hbm, 627, rfl⟩
abbrev main_call25_v0 : Ref sig .tc := ⟨.hbm, 628, rfl⟩
abbrev main_call25_v1 : Ref sig .tc := ⟨.hbm, 629, rfl⟩
abbrev main_call25_c_0 : Ref sig .tc := ⟨.hbm, 630, rfl⟩
abbrev main_call25_v2 : Ref sig .tc := ⟨.hbm, 631, rfl⟩
abbrev main_call25_v3 : Ref sig .tc := ⟨.hbm, 632, rfl⟩
abbrev main_call25_v4 : Ref sig .tc := ⟨.hbm, 633, rfl⟩
abbrev main_call25_v5 : Ref sig .tc := ⟨.hbm, 634, rfl⟩
abbrev main_call25_c_1 : Ref sig .tc := ⟨.hbm, 635, rfl⟩
abbrev main_call25_c_2 : Ref sig .tc := ⟨.hbm, 636, rfl⟩
abbrev main_call25_v6 : Ref sig .tc := ⟨.hbm, 637, rfl⟩
abbrev main_call25_v7 : Ref sig .tc := ⟨.hbm, 638, rfl⟩
abbrev main_call25_v8 : Ref sig .tc := ⟨.hbm, 639, rfl⟩
abbrev main_call25_v9 : Ref sig .tc := ⟨.hbm, 640, rfl⟩
abbrev main_call25_v10 : Ref sig .tc := ⟨.hbm, 641, rfl⟩
abbrev main_call25_v11 : Ref sig .tc := ⟨.hbm, 642, rfl⟩
abbrev main_call25_c_3 : Ref sig .tc := ⟨.hbm, 643, rfl⟩
abbrev main_call25_v12 : Ref sig .tc := ⟨.hbm, 644, rfl⟩
abbrev main_call25_v13 : Ref sig .tc := ⟨.hbm, 645, rfl⟩
abbrev main_call25_v14 : Ref sig .tc := ⟨.hbm, 646, rfl⟩
abbrev main_call25_cst : Ref sig .tc := ⟨.hbm, 647, rfl⟩
abbrev main_call25_v15 : Ref sig .tc := ⟨.hbm, 648, rfl⟩
abbrev main_v25 : Ref sig .tc := ⟨.hbm, 649, rfl⟩
abbrev main_v26 : Ref sig .tc := ⟨.hbm, 650, rfl⟩
abbrev main_v27 : Ref sig .tc := ⟨.hbm, 651, rfl⟩
abbrev main_v28 : Ref sig .tc := ⟨.hbm, 652, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x128_S16384x128_S16384x128_S16384x128_S16384x128_S16384x128_S16384x128_S16384x128_S16384x128_S16384x128_S16384x128_S16384x128_S16384x128_S16384x128_S16384x2048_d1 : Shape.Concatenates [S16384x128, S16384x128, S16384x128, S16384x128, S16384x128, S16384x128, S16384x128, S16384x128, S16384x128, S16384x128, S16384x128, S16384x128, S16384x128, S16384x128, S16384x128, S16384x128] S16384x2048 1
  concatenates_S16384x128_S16384x128_S16384x128_S16384x128_S16384x128_S16384x128_S16384x128_S16384x128_S16384x128_S16384x128_S16384x1280_d1 : Shape.Concatenates [S16384x128, S16384x128, S16384x128, S16384x128, S16384x128, S16384x128, S16384x128, S16384x128, S16384x128, S16384x128] S16384x1280 1
  concatenates_S16384x2048_S16384x1280_S16384x3328_d1 : Shape.Concatenates [S16384x2048, S16384x1280] S16384x3328 1
  gather_S1000x128_S16384x1_S16384x128_1_0_n_n_0_1_1128_wf : GatherDims.WF S1000x128 S16384x1 S16384x128 [1] [0] [] [0] [] 1 ![1, 128]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.SetupKB0.lean ====
import proofs.«204019_g4913442586959_cont_sun_m_672_34_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«204019_g4913442586959_cont_sun_m_672_34_alg».proof.Proof.Gen.Kernel

/-!
# The launch's view of the program

The program is one call of a vector-subcore kernel on 2 SparseCores of 16 subcores each, after 26 reshapes of the
index columns on the host. This module names what the launch theorem is applied to: the configuration, the body
table, the variants, the ghost state (the handshakes' rounds and the transfers' counters), the launch contents as a
valuation, and a tile's coordinates, its thread and its 512 output rows.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory -/

variable (m : (ℓ : Loc nD τ sig) → Buf (Elt F) ℓ) (ρ : Dev nD → PrngReg)

/-- The launch contents of device `d`'s buffers, as a valuation. -/
def V0 (d : Dev nD) : Valuation τ sig (Elt F) := fun b => m (d, b)

/-! ## A tile -/

/-- The grid coordinates of tile `(c, s)`: SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cVL (L : grid0.Coords) : Fin τ.nSC := (L 0).castLE hcore0
abbrev jVL (L : grid0.Coords) : Fin τ.nSub := (L 1).castLE hsub0

theorem bound_zero : grid0.bound 0 = 2 := rfl
theorem bound_one : grid0.bound 1 = 16 := rfl

/-- The tile's number `2 i + c` among the 32. -/
def wOf (c : Fin 2) (i : Fin 16) : Fin 32 := ⟨2 * i.val + c.val, by omega⟩

theorem oTR_inb (L : grid0.Coords) :
    ∀ a, (![1024 * (L 1).val + 512 * (L 0).val, 0] : Fin 2 → Nat) a + (![512, 3328] : Fin 2 → Nat) a ≤ S16384x3328.size a := by
  have h0 : (L 0).val < 2 := (L 0).isLt
  have h1 : (L 1).val < 16 := (L 1).isLt
  exact Rect.inb₂ (show 1024 * (L 1).val + 512 * (L 0).val + 512 ≤ 16384 by omega) (show 0 + 3328 ≤ 3328 by omega)

/-- The 512 output rows of tile `L`. -/
abbrev oTR (L : grid0.Coords) : Rect S16384x3328 :=
  Rect.unit (s := S16384x3328) ![1024 * (L 1).val + 512 * (L 0).val, 0] ![512, 3328] (oTR_inb L)

/-- The 4 rows of a reshaped column that tile `L` reads, as the kernel computes the offset. -/
abbrev colRectL (L : grid0.Coords) : Rect S128x128 := Rect.unit (s := S128x128) (k0_off1 L) S4x128.size (k0_off1_inb L)

/-- Tile `L`'s number among the 32. -/
def wOfL (L : grid0.Coords) : Fin 32 :=
  ⟨2 * (L 1).val + (L 0).val, by have h0 : (L 0).val < 2 := (L 0).isLt; have h1 : (L 1).val < 16 := (L 1).isLt; omega⟩

/-- The output buffer of device `d`. -/
abbrev oLoc (d : Dev nD) : Loc nD τ sig := (SparseCore.T d).loc main_v26

end Cert.Proof.KB

end
-- ==== Proof.TablesKB.lean ====
import proofs.«204019_g4913442586959_cont_sun_m_672_34_alg».proof.Proof.SetupKB0

/-!
# The 26-entry tables of the launch set-up

Twenty-six columns, twenty-six reshaped columns, twenty-six tables: each family below lists its 26 entries at the
program's own names, one definition per entry, so that every entry is typed at its own array's shape; a family is
the vector of its entries.
-/

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The 26 reshapes of @main, in order: column t as 128 rows of 128 words. -/
def mainOps : List (HloOp τ sig (Elt F)) :=
  [StableHlo.reshape main_arg0 main_v0 rfl shapeCasts_S16384_S128x128,
   StableHlo.reshape main_arg1 main_v1 rfl shapeCasts_S16384_S128x128,
   StableHlo.reshape main_arg2 main_v2 rfl shapeCasts_S16384_S128x128,
   StableHlo.reshape main_arg3 main_v3 rfl shapeCasts_S16384_S128x128,
   StableHlo.reshape main_arg4 main_v4 rfl shapeCasts_S16384_S128x128,
   StableHlo.reshape main_arg5 main_v5 rfl shapeCasts_S16384_S128x128,
   StableHlo.reshape main_arg6 main_v6 rfl shapeCasts_S16384_S128x128,
   StableHlo.reshape main_arg7 main_v7 rfl shapeCasts_S16384_S128x128,
   StableHlo.reshape main_arg8 main_v8 rfl shapeCasts_S16384_S128x128,
   StableHlo.reshape main_arg9 main_v9 rfl shapeCasts_S16384_S128x128,
   StableHlo.reshape main_arg10 main_v10 rfl shapeCasts_S16384_S128x128,
   StableHlo.reshape main_arg11 main_v11 rfl shapeCasts_S16384_S128x128,
   StableHlo.reshape main_arg12 main_v12 rfl shapeCasts_S16384_S128x128,
   StableHlo.reshape main_arg13 main_v13 rfl shapeCasts_S16384_S128x128,
   StableHlo.reshape main_arg14 main_v14 rfl shapeCasts_S16384_S128x128,
   StableHlo.reshape main_arg15 main_v15 rfl shapeCasts_S16384_S128x128,
   StableHlo.reshape main_arg16 main_v16 rfl shapeCasts_S16384_S128x128,
   StableHlo.reshape main_arg17 main_v17 rfl shapeCasts_S16384_S128x128,
   StableHlo.reshape main_arg18 main_v18 rfl shapeCasts_S16384_S128x128,
   StableHlo.reshape main_arg19 main_v19 rfl shapeCasts_S16384_S128x128,
   StableHlo.reshape main_arg20 main_v20 rfl shapeCasts_S16384_S128x128,
   StableHlo.reshape main_arg21 main_v21 rfl shapeCasts_S16384_S128x128,
   StableHlo.reshape main_arg22 main_v22 rfl shapeCasts_S16384_S128x128,
   StableHlo.reshape main_arg23 main_v23 rfl shapeCasts_S16384_S128x128,
   StableHlo.reshape main_arg24 main_v24 rfl shapeCasts_S16384_S128x128,
   StableHlo.reshape main_arg25 main_v25 rfl shapeCasts_S16384_S128x128]

variable (m : (ℓ : Loc nD τ sig) → Buf (Elt F) ℓ)

/-- The buffers' contents after the 26 reshapes. -/
def V1 (d : Dev nD) : Valuation τ sig (Elt F) := StableHlo.after mainOps (V0 m d)

/-- The reshaped columns, the columns and the tables, as device buffers. -/
def vRefs : Fin 26 → DevRef τ sig :=
  ![(Proc.devRef .tc (main_v0 : Ref sig .tc) : DevRef τ sig),
    (Proc.devRef .tc (main_v1 : Ref sig .tc) : DevRef τ sig),
    (Proc.devRef .tc (main_v2 : Ref sig .tc) : DevRef τ sig),
    (Proc.devRef .tc (main_v3 : Ref sig .tc) : DevRef τ sig),
    (Proc.devRef .tc (main_v4 : Ref sig .tc) : DevRef τ sig),
    (Proc.devRef .tc (main_v5 : Ref sig .tc) : DevRef τ sig),
    (Proc.devRef .tc (main_v6 : Ref sig .tc) : DevRef τ sig),
    (Proc.devRef .tc (main_v7 : Ref sig .tc) : DevRef τ sig),
    (Proc.devRef .tc (main_v8 : Ref sig .tc) : DevRef τ sig),
    (Proc.devRef .tc (main_v9 : Ref sig .tc) : DevRef τ sig),
    (Proc.devRef .tc (main_v10 : Ref sig .tc) : DevRef τ sig),
    (Proc.devRef .tc (main_v11 : Ref sig .tc) : DevRef τ sig),
    (Proc.devRef .tc (main_v12 : Ref sig .tc) : DevRef τ sig),
    (Proc.devRef .tc (main_v13 : Ref sig .tc) : DevRef τ sig),
    (Proc.devRef .tc (main_v14 : Ref sig .tc) : DevRef τ sig),
    (Proc.devRef .tc (main_v15 : Ref sig .tc) : DevRef τ sig),
    (Proc.devRef .tc (main_v16 : Ref sig .tc) : DevRef τ sig),
    (Proc.devRef .tc (main_v17 : Ref sig .tc) : DevRef τ sig),
    (Proc.devRef .tc (main_v18 : Ref sig .tc) : DevRef τ sig),
    (Proc.devRef .tc (main_v19 : Ref sig .tc) : DevRef τ sig),
    (Proc.devRef .tc (main_v20 : Ref sig .tc) : DevRef τ sig),
    (Proc.devRef .tc (main_v21 : Ref sig .tc) : DevRef τ sig),
    (Proc.devRef .tc (main_v22 : Ref sig .tc) : DevRef τ sig),
    (Proc.devRef .tc (main_v23 : Ref sig .tc) : DevRef τ sig),
    (Proc.devRef .tc (main_v24 : Ref sig .tc) : DevRef τ sig),
    (Proc.devRef .tc (main_v25 : Ref sig .tc) : DevRef τ sig)]
def colRefs : Fin 26 → DevRef τ sig :=
  ![(Proc.devRef .tc (main_arg0 : Ref sig .tc) : DevRef τ sig),
    (Proc.devRef .tc (main_arg1 : Ref sig .tc) : DevRef τ sig),
    (Proc.devRef .tc (main_arg2 : Ref sig .tc) : DevRef τ sig),
    (Proc.devRef .tc (main_arg3 : Ref sig .tc) : DevRef τ sig),
    (Proc.devRef .tc (main_arg4 : Ref sig .tc) : DevRef τ sig),
    (Proc.devRef .tc (main_arg5 : Ref sig .tc) : DevRef τ sig),
    (Proc.devRef .tc (main_arg6 : Ref sig .tc) : DevRef τ sig),
    (Proc.devRef .tc (main_arg7 : Ref sig .tc) : DevRef τ sig),
    (Proc.devRef .tc (main_arg8 : Ref sig .tc) : DevRef τ sig),
    (Proc.devRef .tc (main_arg9 : Ref sig .tc) : DevRef τ sig),
    (Proc.devRef .tc (main_arg10 : Ref sig .tc) : DevRef τ sig),
    (Proc.devRef .tc (main_arg11 : Ref sig .tc) : DevRef τ sig),
    (Proc.devRef .tc (main_arg12 : Ref sig .tc) : DevRef τ sig),
    (Proc.devRef .tc (main_arg13 : Ref sig .tc) : DevRef τ sig),
    (Proc.devRef .tc (main_arg14 : Ref sig .tc) : DevRef τ sig),
    (Proc.devRef .tc (main_arg15 : Ref sig .tc) : DevRef τ sig),
    (Proc.devRef .tc (main_arg16 : Ref sig .tc) : DevRef τ sig),
    (Proc.devRef .tc (main_arg17 : Ref sig .tc) : DevRef τ sig),
    (Proc.devRef .tc (main_arg18 : Ref sig .tc) : DevRef τ sig),
    (Proc.devRef .tc (main_arg19 : Ref sig .tc) : DevRef τ sig),
    (Proc.devRef .tc (main_arg20 : Ref sig .tc) : DevRef τ sig),
    (Proc.devRef .tc (main_arg21 : Ref sig .tc) : DevRef τ sig),
    (Proc.devRef .tc (main_arg22 : Ref sig .tc) : DevRef τ sig),
    (Proc.devRef .tc (main_arg23 : Ref sig .tc) : DevRef τ sig),
    (Proc.devRef .tc (main_arg24 : Ref sig .tc) : DevRef τ sig),
    (Proc.devRef .tc (main_arg25 : Ref sig .tc) : DevRef τ sig)]
def tblRefs : Fin 26 → DevRef τ sig :=
  ![(Proc.devRef .tc (main_arg26 : Ref sig .tc) : DevRef τ sig),
    (Proc.devRef .tc (main_arg27 : Ref sig .tc) : DevRef τ sig),
    (Proc.devRef .tc (main_arg28 : Ref sig .tc) : DevRef τ sig),
    (Proc.devRef .tc (main_arg29 : Ref sig .tc) : DevRef τ sig),
    (Proc.devRef .tc (main_arg30 : Ref sig .tc) : DevRef τ sig),
    (Proc.devRef .tc (main_arg31 : Ref sig .tc) : DevRef τ sig),
    (Proc.devRef .tc (main_arg32 : Ref sig .tc) : DevRef τ sig),
    (Proc.devRef .tc (main_arg33 : Ref sig .tc) : DevRef τ sig),
    (Proc.devRef .tc (main_arg34 : Ref sig .tc) : DevRef τ sig),
    (Proc.devRef .tc (main_arg35 : Ref sig .tc) : DevRef τ sig),
    (Proc.devRef .tc (main_arg36 : Ref sig .tc) : DevRef τ sig),
    (Proc.devRef .tc (main_arg37 : Ref sig .tc) : DevRef τ sig),
    (Proc.devRef .tc (main_arg38 : Ref sig .tc) : DevRef τ sig),
    (Proc.devRef .tc (main_arg39 : Ref sig .tc) : DevRef τ sig),
    (Proc.devRef .tc (main_arg40 : Ref sig .tc) : DevRef τ sig),
    (Proc.devRef .tc (main_arg41 : Ref sig .tc) : DevRef τ sig),
    (Proc.devRef .tc (main_arg42 : Ref sig .tc) : DevRef τ sig),
    (Proc.devRef .tc (main_arg43 : Ref sig .tc) : DevRef τ sig),
    (Proc.devRef .tc (main_arg44 : Ref sig .tc) : DevRef τ sig),
    (Proc.devRef .tc (main_arg45 : Ref sig .tc) : DevRef τ sig),
    (Proc.devRef .tc (main_arg46 : Ref sig .tc) : DevRef τ sig),
    (Proc.devRef .tc (main_arg47 : Ref sig .tc) : DevRef τ sig),
    (Proc.devRef .tc (main_arg48 : Ref sig .tc) : DevRef τ sig),
    (Proc.devRef .tc (main_arg49 : Ref sig .tc) : DevRef τ sig),
    (Proc.devRef .tc (main_arg50 : Ref sig .tc) : DevRef τ sig),
    (Proc.devRef .tc (main_arg51 : Ref sig .tc) : DevRef τ sig)]

/-! ## The launch contents of the tables and of the columns -/

def tblVal0 (d : Dev nD) : S1000x128.Idx → Elt F .f32 := m ((SparseCore.T d).loc main_arg26)
def tblVal1 (d : Dev nD) : S1000x128.Idx → Elt F .f32 := m ((SparseCore.T d).loc main_arg27)
def tblVal2 (d : Dev nD) : S1000x128.Idx → Elt F .f32 := m ((SparseCore.T d).loc main_arg28)
def tblVal3 (d : Dev nD) : S1000x128.Idx → Elt F .f32 := m ((SparseCore.T d).loc main_arg29)
def tblVal4 (d : Dev nD) : S1000x128.Idx → Elt F .f32 := m ((SparseCore.T d).loc main_arg30)
def tblVal5 (d : Dev nD) : S1000x128.Idx → Elt F .f32 := m ((SparseCore.T d).loc main_arg31)
def tblVal6 (d : Dev nD) : S1000x128.Idx → Elt F .f32 := m ((SparseCore.T d).loc main_arg32)
def tblVal7 (d : Dev nD) : S1000x128.Idx → Elt F .f32 := m ((SparseCore.T d).loc main_arg33)
def tblVal8 (d : Dev nD) : S1000x128.Idx → Elt F .f32 := m ((SparseCore.T d).loc main_arg34)
def tblVal9 (d : Dev nD) : S1000x128.Idx → Elt F .f32 := m ((SparseCore.T d).loc main_arg35)
def tblVal10 (d : Dev nD) : S1000x128.Idx → Elt F .f32 := m ((SparseCore.T d).loc main_arg36)
def tblVal11 (d : Dev nD) : S1000x128.Idx → Elt F .f32 := m ((SparseCore.T d).loc main_arg37)
def tblVal12 (d : Dev nD) : S1000x128.Idx → Elt F .f32 := m ((SparseCore.T d).loc main_arg38)
def tblVal13 (d : Dev nD) : S1000x128.Idx → Elt F .f32 := m ((SparseCore.T d).loc main_arg39)
def tblVal14 (d : Dev nD) : S1000x128.Idx → Elt F .f32 := m ((SparseCore.T d).loc main_arg40)
def tblVal15 (d : Dev nD) : S1000x128.Idx → Elt F .f32 := m ((SparseCore.T d).loc main_arg41)
def tblVal16 (d : Dev nD) : S1000x128.Idx → Elt F .f32 := m ((SparseCore.T d).loc main_arg42)
def tblVal17 (d : Dev nD) : S1000x128.Idx → Elt F .f32 := m ((SparseCore.T d).loc main_arg43)
def tblVal18 (d : Dev nD) : S1000x128.Idx → Elt F .f32 := m ((SparseCore.T d).loc main_arg44)
def tblVal19 (d : Dev nD) : S1000x128.Idx → Elt F .f32 := m ((SparseCore.T d).loc main_arg45)
def tblVal20 (d : Dev nD) : S1000x128.Idx → Elt F .f32 := m ((SparseCore.T d).loc main_arg46)
def tblVal21 (d : Dev nD) : S1000x128.Idx → Elt F .f32 := m ((SparseCore.T d).loc main_arg47)
def tblVal22 (d : Dev nD) : S1000x128.Idx → Elt F .f32 := m ((SparseCore.T d).loc main_arg48)
def tblVal23 (d : Dev nD) : S1000x128.Idx → Elt F .f32 := m ((SparseCore.T d).loc main_arg49)
def tblVal24 (d : Dev nD) : S1000x128.Idx → Elt F .f32 := m ((SparseCore.T d).loc main_arg50)
def tblVal25 (d : Dev nD) : S1000x128.Idx → Elt F .f32 := m ((SparseCore.T d).loc main_arg51)
def colVal0 (d : Dev nD) : S16384.Idx → Elt F .i32 := m ((SparseCore.T d).loc main_arg0)
def colVal1 (d : Dev nD) : S16384.Idx → Elt F .i32 := m ((SparseCore.T d).loc main_arg1)
def colVal2 (d : Dev nD) : S16384.Idx → Elt F .i32 := m ((SparseCore.T d).loc main_arg2)
def colVal3 (d : Dev nD) : S16384.Idx → Elt F .i32 := m ((SparseCore.T d).loc main_arg3)
def colVal4 (d : Dev nD) : S16384.Idx → Elt F .i32 := m ((SparseCore.T d).loc main_arg4)
def colVal5 (d : Dev nD) : S16384.Idx → Elt F .i32 := m ((SparseCore.T d).loc main_arg5)
def colVal6 (d : Dev nD) : S16384.Idx → Elt F .i32 := m ((SparseCore.T d).loc main_arg6)
def colVal7 (d : Dev nD) : S16384.Idx → Elt F .i32 := m ((SparseCore.T d).loc main_arg7)
def colVal8 (d : Dev nD) : S16384.Idx → Elt F .i32 := m ((SparseCore.T d).loc main_arg8)
def colVal9 (d : Dev nD) : S16384.Idx → Elt F .i32 := m ((SparseCore.T d).loc main_arg9)
def colVal10 (d : Dev nD) : S16384.Idx → Elt F .i32 := m ((SparseCore.T d).loc main_arg10)
def colVal11 (d : Dev nD) : S16384.Idx → Elt F .i32 := m ((SparseCore.T d).loc main_arg11)
def colVal12 (d : Dev nD) : S16384.Idx → Elt F .i32 := m ((SparseCore.T d).loc main_arg12)
def colVal13 (d : Dev nD) : S16384.Idx → Elt F .i32 := m ((SparseCore.T d).loc main_arg13)
def colVal14 (d : Dev nD) : S16384.Idx → Elt F .i32 := m ((SparseCore.T d).loc main_arg14)
def colVal15 (d : Dev nD) : S16384.Idx → Elt F .i32 := m ((SparseCore.T d).loc main_arg15)
def colVal16 (d : Dev nD) : S16384.Idx → Elt F .i32 := m ((SparseCore.T d).loc main_arg16)
def colVal17 (d : Dev nD) : S16384.Idx → Elt F .i32 := m ((SparseCore.T d).loc main_arg17)
def colVal18 (d : Dev nD) : S16384.Idx → Elt F .i32 := m ((SparseCore.T d).loc main_arg18)
def colVal19 (d : Dev nD) : S16384.Idx → Elt F .i32 := m ((SparseCore.T d).loc main_arg19)
def colVal20 (d : Dev nD) : S16384.Idx → Elt F .i32 := m ((SparseCore.T d).loc main_arg20)
def colVal21 (d : Dev nD) : S16384.Idx → Elt F .i32 := m ((SparseCore.T d).loc main_arg21)
def colVal22 (d : Dev nD) : S16384.Idx → Elt F .i32 := m ((SparseCore.T d).loc main_arg22)
def colVal23 (d : Dev nD) : S16384.Idx → Elt F .i32 := m ((SparseCore.T d).loc main_arg23)
def colVal24 (d : Dev nD) : S16384.Idx → Elt F .i32 := m ((SparseCore.T d).loc main_arg24)
def colVal25 (d : Dev nD) : S16384.Idx → Elt F .i32 := m ((SparseCore.T d).loc main_arg25)
def tblVec (d : Dev nD) : Fin 26 → S1000x128.Idx → Elt F .f32 := ![tblVal0 m d, tblVal1 m d, tblVal2 m d, tblVal3 m d, tblVal4 m d, tblVal5 m d, tblVal6 m d, tblVal7 m d, tblVal8 m d, tblVal9 m d, tblVal10 m d, tblVal11 m d, tblVal12 m d, tblVal13 m d, tblVal14 m d, tblVal15 m d, tblVal16 m d, tblVal17 m d, tblVal18 m d, tblVal19 m d, tblVal20 m d, tblVal21 m d, tblVal22 m d, tblVal23 m d, tblVal24 m d, tblVal25 m d]
def colVec (d : Dev nD) : Fin 26 → S16384.Idx → Elt F .i32 := ![colVal0 m d, colVal1 m d, colVal2 m d, colVal3 m d, colVal4 m d, colVal5 m d, colVal6 m d, colVal7 m d, colVal8 m d, colVal9 m d, colVal10 m d, colVal11 m d, colVal12 m d, colVal13 m d, colVal14 m d, colVal15 m d, colVal16 m d, colVal17 m d, colVal18 m d, colVal19 m d, colVal20 m d, colVal21 m d, colVal22 m d, colVal23 m d, colVal24 m d, colVal25 m d]

/-! ## Reshaped column t on the elements I, at its contents after the reshapes; table t whole at share q, at its launch contents -/

def colAt0 (d : Dev nD) (I : Finset S128x128.Idx) : sProp 𝕄 := (SparseCore.T d).loc main_v0 ↦[I]{fullShare} V1 m d (Proc.devRef .tc (main_v0 : Ref sig .tc))
def colAt1 (d : Dev nD) (I : Finset S128x128.Idx) : sProp 𝕄 := (SparseCore.T d).loc main_v1 ↦[I]{fullShare} V1 m d (Proc.devRef .tc (main_v1 : Ref sig .tc))
def colAt2 (d : Dev nD) (I : Finset S128x128.Idx) : sProp 𝕄 := (SparseCore.T d).loc main_v2 ↦[I]{fullShare} V1 m d (Proc.devRef .tc (main_v2 : Ref sig .tc))
def colAt3 (d : Dev nD) (I : Finset S128x128.Idx) : sProp 𝕄 := (SparseCore.T d).loc main_v3 ↦[I]{fullShare} V1 m d (Proc.devRef .tc (main_v3 : Ref sig .tc))
def colAt4 (d : Dev nD) (I : Finset S128x128.Idx) : sProp 𝕄 := (SparseCore.T d).loc main_v4 ↦[I]{fullShare} V1 m d (Proc.devRef .tc (main_v4 : Ref sig .tc))
def colAt5 (d : Dev nD) (I : Finset S128x128.Idx) : sProp 𝕄 := (SparseCore.T d).loc main_v5 ↦[I]{fullShare} V1 m d (Proc.devRef .tc (main_v5 : Ref sig .tc))
def colAt6 (d : Dev nD) (I : Finset S128x128.Idx) : sProp 𝕄 := (SparseCore.T d).loc main_v6 ↦[I]{fullShare} V1 m d (Proc.devRef .tc (main_v6 : Ref sig .tc))
def colAt7 (d : Dev nD) (I : Finset S128x128.Idx) : sProp 𝕄 := (SparseCore.T d).loc main_v7 ↦[I]{fullShare} V1 m d (Proc.devRef .tc (main_v7 : Ref sig .tc))
def colAt8 (d : Dev nD) (I : Finset S128x128.Idx) : sProp 𝕄 := (SparseCore.T d).loc main_v8 ↦[I]{fullShare} V1 m d (Proc.devRef .tc (main_v8 : Ref sig .tc))
def colAt9 (d : Dev nD) (I : Finset S128x128.Idx) : sProp 𝕄 := (SparseCore.T d).loc main_v9 ↦[I]{fullShare} V1 m d (Proc.devRef .tc (main_v9 : Ref sig .tc))
def colAt10 (d : Dev nD) (I : Finset S128x128.Idx) : sProp 𝕄 := (SparseCore.T d).loc main_v10 ↦[I]{fullShare} V1 m d (Proc.devRef .tc (main_v10 : Ref sig .tc))
def colAt11 (d : Dev nD) (I : Finset S128x128.Idx) : sProp 𝕄 := (SparseCore.T d).loc main_v11 ↦[I]{fullShare} V1 m d (Proc.devRef .tc (main_v11 : Ref sig .tc))
def colAt12 (d : Dev nD) (I : Finset S128x128.Idx) : sProp 𝕄 := (SparseCore.T d).loc main_v12 ↦[I]{fullShare} V1 m d (Proc.devRef .tc (main_v12 : Ref sig .tc))
def colAt13 (d : Dev nD) (I : Finset S128x128.Idx) : sProp 𝕄 := (SparseCore.T d).loc main_v13 ↦[I]{fullShare} V1 m d (Proc.devRef .tc (main_v13 : Ref sig .tc))
def colAt14 (d : Dev nD) (I : Finset S128x128.Idx) : sProp 𝕄 := (SparseCore.T d).loc main_v14 ↦[I]{fullShare} V1 m d (Proc.devRef .tc (main_v14 : Ref sig .tc))
def colAt15 (d : Dev nD) (I : Finset S128x128.Idx) : sProp 𝕄 := (SparseCore.T d).loc main_v15 ↦[I]{fullShare} V1 m d (Proc.devRef .tc (main_v15 : Ref sig .tc))
def colAt16 (d : Dev nD) (I : Finset S128x128.Idx) : sProp 𝕄 := (SparseCore.T d).loc main_v16 ↦[I]{fullShare} V1 m d (Proc.devRef .tc (main_v16 : Ref sig .tc))
def colAt17 (d : Dev nD) (I : Finset S128x128.Idx) : sProp 𝕄 := (SparseCore.T d).loc main_v17 ↦[I]{fullShare} V1 m d (Proc.devRef .tc (main_v17 : Ref sig .tc))
def colAt18 (d : Dev nD) (I : Finset S128x128.Idx) : sProp 𝕄 := (SparseCore.T d).loc main_v18 ↦[I]{fullShare} V1 m d (Proc.devRef .tc (main_v18 : Ref sig .tc))
def colAt19 (d : Dev nD) (I : Finset S128x128.Idx) : sProp 𝕄 := (SparseCore.T d).loc main_v19 ↦[I]{fullShare} V1 m d (Proc.devRef .tc (main_v19 : Ref sig .tc))
def colAt20 (d : Dev nD) (I : Finset S128x128.Idx) : sProp 𝕄 := (SparseCore.T d).loc main_v20 ↦[I]{fullShare} V1 m d (Proc.devRef .tc (main_v20 : Ref sig .tc))
def colAt21 (d : Dev nD) (I : Finset S128x128.Idx) : sProp 𝕄 := (SparseCore.T d).loc main_v21 ↦[I]{fullShare} V1 m d (Proc.devRef .tc (main_v21 : Ref sig .tc))
def colAt22 (d : Dev nD) (I : Finset S128x128.Idx) : sProp 𝕄 := (SparseCore.T d).loc main_v22 ↦[I]{fullShare} V1 m d (Proc.devRef .tc (main_v22 : Ref sig .tc))
def colAt23 (d : Dev nD) (I : Finset S128x128.Idx) : sProp 𝕄 := (SparseCore.T d).loc main_v23 ↦[I]{fullShare} V1 m d (Proc.devRef .tc (main_v23 : Ref sig .tc))
def colAt24 (d : Dev nD) (I : Finset S128x128.Idx) : sProp 𝕄 := (SparseCore.T d).loc main_v24 ↦[I]{fullShare} V1 m d (Proc.devRef .tc (main_v24 : Ref sig .tc))
def colAt25 (d : Dev nD) (I : Finset S128x128.Idx) : sProp 𝕄 := (SparseCore.T d).loc main_v25 ↦[I]{fullShare} V1 m d (Proc.devRef .tc (main_v25 : Ref sig .tc))
def colAt (d : Dev nD) (I : Finset S128x128.Idx) : Fin 26 → sProp 𝕄 := ![colAt0 m d I, colAt1 m d I, colAt2 m d I, colAt3 m d I, colAt4 m d I, colAt5 m d I, colAt6 m d I, colAt7 m d I, colAt8 m d I, colAt9 m d I, colAt10 m d I, colAt11 m d I, colAt12 m d I, colAt13 m d I, colAt14 m d I, colAt15 m d I, colAt16 m d I, colAt17 m d I, colAt18 m d I, colAt19 m d I, colAt20 m d I, colAt21 m d I, colAt22 m d I, colAt23 m d I, colAt24 m d I, colAt25 m d I]
def tblAt0 (d : Dev nD) (q : PosShare TreeShare) : sProp 𝕄 := (SparseCore.T d).loc main_arg26 ↦{q} m ((SparseCore.T d).loc main_arg26)
def tblAt1 (d : Dev nD) (q : PosShare TreeShare) : sProp 𝕄 := (SparseCore.T d).loc main_arg27 ↦{q} m ((SparseCore.T d).loc main_arg27)
def tblAt2 (d : Dev nD) (q : PosShare TreeShare) : sProp 𝕄 := (SparseCore.T d).loc main_arg28 ↦{q} m ((SparseCore.T d).loc main_arg28)
def tblAt3 (d : Dev nD) (q : PosShare TreeShare) : sProp 𝕄 := (SparseCore.T d).loc main_arg29 ↦{q} m ((SparseCore.T d).loc main_arg29)
def tblAt4 (d : Dev nD) (q : PosShare TreeShare) : sProp 𝕄 := (SparseCore.T d).loc main_arg30 ↦{q} m ((SparseCore.T d).loc main_arg30)
def tblAt5 (d : Dev nD) (q : PosShare TreeShare) : sProp 𝕄 := (SparseCore.T d).loc main_arg31 ↦{q} m ((SparseCore.T d).loc main_arg31)
def tblAt6 (d : Dev nD) (q : PosShare TreeShare) : sProp 𝕄 := (SparseCore.T d).loc main_arg32 ↦{q} m ((SparseCore.T d).loc main_arg32)
def tblAt7 (d : Dev nD) (q : PosShare TreeShare) : sProp 𝕄 := (SparseCore.T d).loc main_arg33 ↦{q} m ((SparseCore.T d).loc main_arg33)
def tblAt8 (d : Dev nD) (q : PosShare TreeShare) : sProp 𝕄 := (SparseCore.T d).loc main_arg34 ↦{q} m ((SparseCore.T d).loc main_arg34)
def tblAt9 (d : Dev nD) (q : PosShare TreeShare) : sProp 𝕄 := (SparseCore.T d).loc main_arg35 ↦{q} m ((SparseCore.T d).loc main_arg35)
def tblAt10 (d : Dev nD) (q : PosShare TreeShare) : sProp 𝕄 := (SparseCore.T d).loc main_arg36 ↦{q} m ((SparseCore.T d).loc main_arg36)
def tblAt11 (d : Dev nD) (q : PosShare TreeShare) : sProp 𝕄 := (SparseCore.T d).loc main_arg37 ↦{q} m ((SparseCore.T d).loc main_arg37)
def tblAt12 (d : Dev nD) (q : PosShare TreeShare) : sProp 𝕄 := (SparseCore.T d).loc main_arg38 ↦{q} m ((SparseCore.T d).loc main_arg38)
def tblAt13 (d : Dev nD) (q : PosShare TreeShare) : sProp 𝕄 := (SparseCore.T d).loc main_arg39 ↦{q} m ((SparseCore.T d).loc main_arg39)
def tblAt14 (d : Dev nD) (q : PosShare TreeShare) : sProp 𝕄 := (SparseCore.T d).loc main_arg40 ↦{q} m ((SparseCore.T d).loc main_arg40)
def tblAt15 (d : Dev nD) (q : PosShare TreeShare) : sProp 𝕄 := (SparseCore.T d).loc main_arg41 ↦{q} m ((SparseCore.T d).loc main_arg41)
def tblAt16 (d : Dev nD) (q : PosShare TreeShare) : sProp 𝕄 := (SparseCore.T d).loc main_arg42 ↦{q} m ((SparseCore.T d).loc main_arg42)
def tblAt17 (d : Dev nD) (q : PosShare TreeShare) : sProp 𝕄 := (SparseCore.T d).loc main_arg43 ↦{q} m ((SparseCore.T d).loc main_arg43)
def tblAt18 (d : Dev nD) (q : PosShare TreeShare) : sProp 𝕄 := (SparseCore.T d).loc main_arg44 ↦{q} m ((SparseCore.T d).loc main_arg44)
def tblAt19 (d : Dev nD) (q : PosShare TreeShare) : sProp 𝕄 := (SparseCore.T d).loc main_arg45 ↦{q} m ((SparseCore.T d).loc main_arg45)
def tblAt20 (d : Dev nD) (q : PosShare TreeShare) : sProp 𝕄 := (SparseCore.T d).loc main_arg46 ↦{q} m ((SparseCore.T d).loc main_arg46)
def tblAt21 (d : Dev nD) (q : PosShare TreeShare) : sProp 𝕄 := (SparseCore.T d).loc main_arg47 ↦{q} m ((SparseCore.T d).loc main_arg47)
def tblAt22 (d : Dev nD) (q : PosShare TreeShare) : sProp 𝕄 := (SparseCore.T d).loc main_arg48 ↦{q} m ((SparseCore.T d).loc main_arg48)
def tblAt23 (d : Dev nD) (q : PosShare TreeShare) : sProp 𝕄 := (SparseCore.T d).loc main_arg49 ↦{q} m ((SparseCore.T d).loc main_arg49)
def tblAt24 (d : Dev nD) (q : PosShare TreeShare) : sProp 𝕄 := (SparseCore.T d).loc main_arg50 ↦{q} m ((SparseCore.T d).loc main_arg50)
def tblAt25 (d : Dev nD) (q : PosShare TreeShare) : sProp 𝕄 := (SparseCore.T d).loc main_arg51 ↦{q} m ((SparseCore.T d).loc main_arg51)
def tblAt (d : Dev nD) (q : PosShare TreeShare) : Fin 26 → sProp 𝕄 := ![tblAt0 m d q, tblAt1 m d q, tblAt2 m d q, tblAt3 m d q, tblAt4 m d q, tblAt5 m d q, tblAt6 m d q, tblAt7 m d q, tblAt8 m d q, tblAt9 m d q, tblAt10 m d q, tblAt11 m d q, tblAt12 m d q, tblAt13 m d q, tblAt14 m d q, tblAt15 m d q, tblAt16 m d q, tblAt17 m d q, tblAt18 m d q, tblAt19 m d q, tblAt20 m d q, tblAt21 m d q, tblAt22 m d q, tblAt23 m d q, tblAt24 m d q, tblAt25 m d q]

/-! ## The same as tile L of device d names them: the kernel's own slice of reshaped column t, and table t whole -/

abbrev cSl0 (L : grid0.Coords) : Memref sig .scVector .hbm S4x128 .i32 := (Memref.whole main_v0_scv : Memref sig .scVector .hbm S128x128 .i32).slice (Rect.unit (s := S128x128) (k0_off1 L) S4x128.size (k0_off1_inb L)) (fun _ => rfl)
abbrev cSl1 (L : grid0.Coords) : Memref sig .scVector .hbm S4x128 .i32 := (Memref.whole main_v1_scv : Memref sig .scVector .hbm S128x128 .i32).slice (Rect.unit (s := S128x128) (k0_off1 L) S4x128.size (k0_off1_inb L)) (fun _ => rfl)
abbrev cSl2 (L : grid0.Coords) : Memref sig .scVector .hbm S4x128 .i32 := (Memref.whole main_v2_scv : Memref sig .scVector .hbm S128x128 .i32).slice (Rect.unit (s := S128x128) (k0_off1 L) S4x128.size (k0_off1_inb L)) (fun _ => rfl)
abbrev cSl3 (L : grid0.Coords) : Memref sig .scVector .hbm S4x128 .i32 := (Memref.whole main_v3_scv : Memref sig .scVector .hbm S128x128 .i32).slice (Rect.unit (s := S128x128) (k0_off1 L) S4x128.size (k0_off1_inb L)) (fun _ => rfl)
abbrev cSl4 (L : grid0.Coords) : Memref sig .scVector .hbm S4x128 .i32 := (Memref.whole main_v4_scv : Memref sig .scVector .hbm S128x128 .i32).slice (Rect.unit (s := S128x128) (k0_off1 L) S4x128.size (k0_off1_inb L)) (fun _ => rfl)
abbrev cSl5 (L : grid0.Coords) : Memref sig .scVector .hbm S4x128 .i32 := (Memref.whole main_v5_scv : Memref sig .scVector .hbm S128x128 .i32).slice (Rect.unit (s := S128x128) (k0_off1 L) S4x128.size (k0_off1_inb L)) (fun _ => rfl)
abbrev cSl6 (L : grid0.Coords) : Memref sig .scVector .hbm S4x128 .i32 := (Memref.whole main_v6_scv : Memref sig .scVector .hbm S128x128 .i32).slice (Rect.unit (s := S128x128) (k0_off1 L) S4x128.size (k0_off1_inb L)) (fun _ => rfl)
abbrev cSl7 (L : grid0.Coords) : Memref sig .scVector .hbm S4x128 .i32 := (Memref.whole main_v7_scv : Memref sig .scVector .hbm S128x128 .i32).slice (Rect.unit (s := S128x128) (k0_off1 L) S4x128.size (k0_off1_inb L)) (fun _ => rfl)
abbrev cSl8 (L : grid0.Coords) : Memref sig .scVector .hbm S4x128 .i32 := (Memref.whole main_v8_scv : Memref sig .scVector .hbm S128x128 .i32).slice (Rect.unit (s := S128x128) (k0_off1 L) S4x128.size (k0_off1_inb L)) (fun _ => rfl)
abbrev cSl9 (L : grid0.Coords) : Memref sig .scVector .hbm S4x128 .i32 := (Memref.whole main_v9_scv : Memref sig .scVector .hbm S128x128 .i32).slice (Rect.unit (s := S128x128) (k0_off1 L) S4x128.size (k0_off1_inb L)) (fun _ => rfl)
abbrev cSl10 (L : grid0.Coords) : Memref sig .scVector .hbm S4x128 .i32 := (Memref.whole main_v10_scv : Memref sig .scVector .hbm S128x128 .i32).slice (Rect.unit (s := S128x128) (k0_off1 L) S4x128.size (k0_off1_inb L)) (fun _ => rfl)
abbrev cSl11 (L : grid0.Coords) : Memref sig .scVector .hbm S4x128 .i32 := (Memref.whole main_v11_scv : Memref sig .scVector .hbm S128x128 .i32).slice (Rect.unit (s := S128x128) (k0_off1 L) S4x128.size (k0_off1_inb L)) (fun _ => rfl)
abbrev cSl12 (L : grid0.Coords) : Memref sig .scVector .hbm S4x128 .i32 := (Memref.whole main_v12_scv : Memref sig .scVector .hbm S128x128 .i32).slice (Rect.unit (s := S128x128) (k0_off1 L) S4x128.size (k0_off1_inb L)) (fun _ => rfl)
abbrev cSl13 (L : grid0.Coords) : Memref sig .scVector .hbm S4x128 .i32 := (Memref.whole main_v13_scv : Memref sig .scVector .hbm S128x128 .i32).slice (Rect.unit (s := S128x128) (k0_off1 L) S4x128.size (k0_off1_inb L)) (fun _ => rfl)
abbrev cSl14 (L : grid0.Coords) : Memref sig .scVector .hbm S4x128 .i32 := (Memref.whole main_v14_scv : Memref sig .scVector .hbm S128x128 .i32).slice (Rect.unit (s := S128x128) (k0_off1 L) S4x128.size (k0_off1_inb L)) (fun _ => rfl)
abbrev cSl15 (L : grid0.Coords) : Memref sig .scVector .hbm S4x128 .i32 := (Memref.whole main_v15_scv : Memref sig .scVector .hbm S128x128 .i32).slice (Rect.unit (s := S128x128) (k0_off1 L) S4x128.size (k0_off1_inb L)) (fun _ => rfl)
abbrev cSl16 (L : grid0.Coords) : Memref sig .scVector .hbm S4x128 .i32 := (Memref.whole main_v16_scv : Memref sig .scVector .hbm S128x128 .i32).slice (Rect.unit (s := S128x128) (k0_off1 L) S4x128.size (k0_off1_inb L)) (fun _ => rfl)
abbrev cSl17 (L : grid0.Coords) : Memref sig .scVector .hbm S4x128 .i32 := (Memref.whole main_v17_scv : Memref sig .scVector .hbm S128x128 .i32).slice (Rect.unit (s := S128x128) (k0_off1 L) S4x128.size (k0_off1_inb L)) (fun _ => rfl)
abbrev cSl18 (L : grid0.Coords) : Memref sig .scVector .hbm S4x128 .i32 := (Memref.whole main_v18_scv : Memref sig .scVector .hbm S128x128 .i32).slice (Rect.unit (s := S128x128) (k0_off1 L) S4x128.size (k0_off1_inb L)) (fun _ => rfl)
abbrev cSl19 (L : grid0.Coords) : Memref sig .scVector .hbm S4x128 .i32 := (Memref.whole main_v19_scv : Memref sig .scVector .hbm S128x128 .i32).slice (Rect.unit (s := S128x128) (k0_off1 L) S4x128.size (k0_off1_inb L)) (fun _ => rfl)
abbrev cSl20 (L : grid0.Coords) : Memref sig .scVector .hbm S4x128 .i32 := (Memref.whole main_v20_scv : Memref sig .scVector .hbm S128x128 .i32).slice (Rect.unit (s := S128x128) (k0_off1 L) S4x128.size (k0_off1_inb L)) (fun _ => rfl)
abbrev cSl21 (L : grid0.Coords) : Memref sig .scVector .hbm S4x128 .i32 := (Memref.whole main_v21_scv : Memref sig .scVector .hbm S128x128 .i32).slice (Rect.unit (s := S128x128) (k0_off1 L) S4x128.size (k0_off1_inb L)) (fun _ => rfl)
abbrev cSl22 (L : grid0.Coords) : Memref sig .scVector .hbm S4x128 .i32 := (Memref.whole main_v22_scv : Memref sig .scVector .hbm S128x128 .i32).slice (Rect.unit (s := S128x128) (k0_off1 L) S4x128.size (k0_off1_inb L)) (fun _ => rfl)
abbrev cSl23 (L : grid0.Coords) : Memref sig .scVector .hbm S4x128 .i32 := (Memref.whole main_v23_scv : Memref sig .scVector .hbm S128x128 .i32).slice (Rect.unit (s := S128x128) (k0_off1 L) S4x128.size (k0_off1_inb L)) (fun _ => rfl)
abbrev cSl24 (L : grid0.Coords) : Memref sig .scVector .hbm S4x128 .i32 := (Memref.whole main_v24_scv : Memref sig .scVector .hbm S128x128 .i32).slice (Rect.unit (s := S128x128) (k0_off1 L) S4x128.size (k0_off1_inb L)) (fun _ => rfl)
abbrev cSl25 (L : grid0.Coords) : Memref sig .scVector .hbm S4x128 .i32 := (Memref.whole main_v25_scv : Memref sig .scVector .hbm S128x128 .i32).slice (Rect.unit (s := S128x128) (k0_off1 L) S4x128.size (k0_off1_inb L)) (fun _ => rfl)
theorem set_cSl0 (L : grid0.Coords) : (cSl0 L).view.set = (colRectL L).set := View.set_slice_whole _ _
theorem set_cSl1 (L : grid0.Coords) : (cSl1 L).view.set = (colRectL L).set := View.set_slice_whole _ _
theorem set_cSl2 (L : grid0.Coords) : (cSl2 L).view.set = (colRectL L).set := View.set_slice_whole _ _
theorem set_cSl3 (L : grid0.Coords) : (cSl3 L).view.set = (colRectL L).set := View.set_slice_whole _ _
theorem set_cSl4 (L : grid0.Coords) : (cSl4 L).view.set = (colRectL L).set := View.set_slice_whole _ _
theorem set_cSl5 (L : grid0.Coords) : (cSl5 L).view.set = (colRectL L).set := View.set_slice_whole _ _
theorem set_cSl6 (L : grid0.Coords) : (cSl6 L).view.set = (colRectL L).set := View.set_slice_whole _ _
theorem set_cSl7 (L : grid0.Coords) : (cSl7 L).view.set = (colRectL L).set := View.set_slice_whole _ _
theorem set_cSl8 (L : grid0.Coords) : (cSl8 L).view.set = (colRectL L).set := View.set_slice_whole _ _
theorem set_cSl9 (L : grid0.Coords) : (cSl9 L).view.set = (colRectL L).set := View.set_slice_whole _ _
theorem set_cSl10 (L : grid0.Coords) : (cSl10 L).view.set = (colRectL L).set := View.set_slice_whole _ _
theorem set_cSl11 (L : grid0.Coords) : (cSl11 L).view.set = (colRectL L).set := View.set_slice_whole _ _
theorem set_cSl12 (L : grid0.Coords) : (cSl12 L).view.set = (colRectL L).set := View.set_slice_whole _ _
theorem set_cSl13 (L : grid0.Coords) : (cSl13 L).view.set = (colRectL L).set := View.set_slice_whole _ _
theorem set_cSl14 (L : grid0.Coords) : (cSl14 L).view.set = (colRectL L).set := View.set_slice_whole _ _
theorem set_cSl15 (L : grid0.Coords) : (cSl15 L).view.set = (colRectL L).set := View.set_slice_whole _ _
theorem set_cSl16 (L : grid0.Coords) : (cSl16 L).view.set = (colRectL L).set := View.set_slice_whole _ _
theorem set_cSl17 (L : grid0.Coords) : (cSl17 L).view.set = (colRectL L).set := View.set_slice_whole _ _
theorem set_cSl18 (L : grid0.Coords) : (cSl18 L).view.set = (colRectL L).set := View.set_slice_whole _ _
theorem set_cSl19 (L : grid0.Coords) : (cSl19 L).view.set = (colRectL L).set := View.set_slice_whole _ _
theorem set_cSl20 (L : grid0.Coords) : (cSl20 L).view.set = (colRectL L).set := View.set_slice_whole _ _
theorem set_cSl21 (L : grid0.Coords) : (cSl21 L).view.set = (colRectL L).set := View.set_slice_whole _ _
theorem set_cSl22 (L : grid0.Coords) : (cSl22 L).view.set = (colRectL L).set := View.set_slice_whole _ _
theorem set_cSl23 (L : grid0.Coords) : (cSl23 L).view.set = (colRectL L).set := View.set_slice_whole _ _
theorem set_cSl24 (L : grid0.Coords) : (cSl24 L).view.set = (colRectL L).set := View.set_slice_whole _ _
theorem set_cSl25 (L : grid0.Coords) : (cSl25 L).view.set = (colRectL L).set := View.set_slice_whole _ _
def colPcL0 (d : Dev nD) (L : grid0.Coords) : sProp 𝕄 := (cSl0 L).view.loc (V d (cVL L) (jVL L)) ↦[(cSl0 L).view.set]{fullShare} V1 m d (Proc.devRef .tc (main_v0 : Ref sig .tc))
def colPcL1 (d : Dev nD) (L : grid0.Coords) : sProp 𝕄 := (cSl1 L).view.loc (V d (cVL L) (jVL L)) ↦[(cSl1 L).view.set]{fullShare} V1 m d (Proc.devRef .tc (main_v1 : Ref sig .tc))
def colPcL2 (d : Dev nD) (L : grid0.Coords) : sProp 𝕄 := (cSl2 L).view.loc (V d (cVL L) (jVL L)) ↦[(cSl2 L).view.set]{fullShare} V1 m d (Proc.devRef .tc (main_v2 : Ref sig .tc))
def colPcL3 (d : Dev nD) (L : grid0.Coords) : sProp 𝕄 := (cSl3 L).view.loc (V d (cVL L) (jVL L)) ↦[(cSl3 L).view.set]{fullShare} V1 m d (Proc.devRef .tc (main_v3 : Ref sig .tc))
def colPcL4 (d : Dev nD) (L : grid0.Coords) : sProp 𝕄 := (cSl4 L).view.loc (V d (cVL L) (jVL L)) ↦[(cSl4 L).view.set]{fullShare} V1 m d (Proc.devRef .tc (main_v4 : Ref sig .tc))
def colPcL5 (d : Dev nD) (L : grid0.Coords) : sProp 𝕄 := (cSl5 L).view.loc (V d (cVL L) (jVL L)) ↦[(cSl5 L).view.set]{fullShare} V1 m d (Proc.devRef .tc (main_v5 : Ref sig .tc))
def colPcL6 (d : Dev nD) (L : grid0.Coords) : sProp 𝕄 := (cSl6 L).view.loc (V d (cVL L) (jVL L)) ↦[(cSl6 L).view.set]{fullShare} V1 m d (Proc.devRef .tc (main_v6 : Ref sig .tc))
def colPcL7 (d : Dev nD) (L : grid0.Coords) : sProp 𝕄 := (cSl7 L).view.loc (V d (cVL L) (jVL L)) ↦[(cSl7 L).view.set]{fullShare} V1 m d (Proc.devRef .tc (main_v7 : Ref sig .tc))
def colPcL8 (d : Dev nD) (L : grid0.Coords) : sProp 𝕄 := (cSl8 L).view.loc (V d (cVL L) (jVL L)) ↦[(cSl8 L).view.set]{fullShare} V1 m d (Proc.devRef .tc (main_v8 : Ref sig .tc))
def colPcL9 (d : Dev nD) (L : grid0.Coords) : sProp 𝕄 := (cSl9 L).view.loc (V d (cVL L) (jVL L)) ↦[(cSl9 L).view.set]{fullShare} V1 m d (Proc.devRef .tc (main_v9 : Ref sig .tc))
def colPcL10 (d : Dev nD) (L : grid0.Coords) : sProp 𝕄 := (cSl10 L).view.loc (V d (cVL L) (jVL L)) ↦[(cSl10 L).view.set]{fullShare} V1 m d (Proc.devRef .tc (main_v10 : Ref sig .tc))
def colPcL11 (d : Dev nD) (L : grid0.Coords) : sProp 𝕄 := (cSl11 L).view.loc (V d (cVL L) (jVL L)) ↦[(cSl11 L).view.set]{fullShare} V1 m d (Proc.devRef .tc (main_v11 : Ref sig .tc))
def colPcL12 (d : Dev nD) (L : grid0.Coords) : sProp 𝕄 := (cSl12 L).view.loc (V d (cVL L) (jVL L)) ↦[(cSl12 L).view.set]{fullShare} V1 m d (Proc.devRef .tc (main_v12 : Ref sig .tc))
def colPcL13 (d : Dev nD) (L : grid0.Coords) : sProp 𝕄 := (cSl13 L).view.loc (V d (cVL L) (jVL L)) ↦[(cSl13 L).view.set]{fullShare} V1 m d (Proc.devRef .tc (main_v13 : Ref sig .tc))
def colPcL14 (d : Dev nD) (L : grid0.Coords) : sProp 𝕄 := (cSl14 L).view.loc (V d (cVL L) (jVL L)) ↦[(cSl14 L).view.set]{fullShare} V1 m d (Proc.devRef .tc (main_v14 : Ref sig .tc))
def colPcL15 (d : Dev nD) (L : grid0.Coords) : sProp 𝕄 := (cSl15 L).view.loc (V d (cVL L) (jVL L)) ↦[(cSl15 L).view.set]{fullShare} V1 m d (Proc.devRef .tc (main_v15 : Ref sig .tc))
def colPcL16 (d : Dev nD) (L : grid0.Coords) : sProp 𝕄 := (cSl16 L).view.loc (V d (cVL L) (jVL L)) ↦[(cSl16 L).view.set]{fullShare} V1 m d (Proc.devRef .tc (main_v16 : Ref sig .tc))
def colPcL17 (d : Dev nD) (L : grid0.Coords) : sProp 𝕄 := (cSl17 L).view.loc (V d (cVL L) (jVL L)) ↦[(cSl17 L).view.set]{fullShare} V1 m d (Proc.devRef .tc (main_v17 : Ref sig .tc))
def colPcL18 (d : Dev nD) (L : grid0.Coords) : sProp 𝕄 := (cSl18 L).view.loc (V d (cVL L) (jVL L)) ↦[(cSl18 L).view.set]{fullShare} V1 m d (Proc.devRef .tc (main_v18 : Ref sig .tc))
def colPcL19 (d : Dev nD) (L : grid0.Coords) : sProp 𝕄 := (cSl19 L).view.loc (V d (cVL L) (jVL L)) ↦[(cSl19 L).view.set]{fullShare} V1 m d (Proc.devRef .tc (main_v19 : Ref sig .tc))
def colPcL20 (d : Dev nD) (L : grid0.Coords) : sProp 𝕄 := (cSl20 L).view.loc (V d (cVL L) (jVL L)) ↦[(cSl20 L).view.set]{fullShare} V1 m d (Proc.devRef .tc (main_v20 : Ref sig .tc))
def colPcL21 (d : Dev nD) (L : grid0.Coords) : sProp 𝕄 := (cSl21 L).view.loc (V d (cVL L) (jVL L)) ↦[(cSl21 L).view.set]{fullShare} V1 m d (Proc.devRef .tc (main_v21 : Ref sig .tc))
def colPcL22 (d : Dev nD) (L : grid0.Coords) : sProp 𝕄 := (cSl22 L).view.loc (V d (cVL L) (jVL L)) ↦[(cSl22 L).view.set]{fullShare} V1 m d (Proc.devRef .tc (main_v22 : Ref sig .tc))
def colPcL23 (d : Dev nD) (L : grid0.Coords) : sProp 𝕄 := (cSl23 L).view.loc (V d (cVL L) (jVL L)) ↦[(cSl23 L).view.set]{fullShare} V1 m d (Proc.devRef .tc (main_v23 : Ref sig .tc))
def colPcL24 (d : Dev nD) (L : grid0.Coords) : sProp 𝕄 := (cSl24 L).view.loc (V d (cVL L) (jVL L)) ↦[(cSl24 L).view.set]{fullShare} V1 m d (Proc.devRef .tc (main_v24 : Ref sig .tc))
def colPcL25 (d : Dev nD) (L : grid0.Coords) : sProp 𝕄 := (cSl25 L).view.loc (V d (cVL L) (jVL L)) ↦[(cSl25 L).view.set]{fullShare} V1 m d (Proc.devRef .tc (main_v25 : Ref sig .tc))
def colPcL (d : Dev nD) (L : grid0.Coords) : Fin 26 → sProp 𝕄 := ![colPcL0 m d L, colPcL1 m d L, colPcL2 m d L, colPcL3 m d L, colPcL4 m d L, colPcL5 m d L, colPcL6 m d L, colPcL7 m d L, colPcL8 m d L, colPcL9 m d L, colPcL10 m d L, colPcL11 m d L, colPcL12 m d L, colPcL13 m d L, colPcL14 m d L, colPcL15 m d L, colPcL16 m d L, colPcL17 m d L, colPcL18 m d L, colPcL19 m d L, colPcL20 m d L, colPcL21 m d L, colPcL22 m d L, colPcL23 m d L, colPcL24 m d L, colPcL25 m d L]
theorem colPcL0_eq (d : Dev nD) (L : grid0.Coords) : colPcL0 m d L = colAt0 m d (colRectL L).set := by unfold colPcL0 colAt0; rw [set_cSl0]
theorem colPcL1_eq (d : Dev nD) (L : grid0.Coords) : colPcL1 m d L = colAt1 m d (colRectL L).set := by unfold colPcL1 colAt1; rw [set_cSl1]
theorem colPcL2_eq (d : Dev nD) (L : grid0.Coords) : colPcL2 m d L = colAt2 m d (colRectL L).set := by unfold colPcL2 colAt2; rw [set_cSl2]
theorem colPcL3_eq (d : Dev nD) (L : grid0.Coords) : colPcL3 m d L = colAt3 m d (colRectL L).set := by unfold colPcL3 colAt3; rw [set_cSl3]
theorem colPcL4_eq (d : Dev nD) (L : grid0.Coords) : colPcL4 m d L = colAt4 m d (colRectL L).set := by unfold colPcL4 colAt4; rw [set_cSl4]
theorem colPcL5_eq (d : Dev nD) (L : grid0.Coords) : colPcL5 m d L = colAt5 m d (colRectL L).set := by unfold colPcL5 colAt5; rw [set_cSl5]
theorem colPcL6_eq (d : Dev nD) (L : grid0.Coords) : colPcL6 m d L = colAt6 m d (colRectL L).set := by unfold colPcL6 colAt6; rw [set_cSl6]
theorem colPcL7_eq (d : Dev nD) (L : grid0.Coords) : colPcL7 m d L = colAt7 m d (colRectL L).set := by unfold colPcL7 colAt7; rw [set_cSl7]
theorem colPcL8_eq (d : Dev nD) (L : grid0.Coords) : colPcL8 m d L = colAt8 m d (colRectL L).set := by unfold colPcL8 colAt8; rw [set_cSl8]
theorem colPcL9_eq (d : Dev nD) (L : grid0.Coords) : colPcL9 m d L = colAt9 m d (colRectL L).set := by unfold colPcL9 colAt9; rw [set_cSl9]
theorem colPcL10_eq (d : Dev nD) (L : grid0.Coords) : colPcL10 m d L = colAt10 m d (colRectL L).set := by unfold colPcL10 colAt10; rw [set_cSl10]
theorem colPcL11_eq (d : Dev nD) (L : grid0.Coords) : colPcL11 m d L = colAt11 m d (colRectL L).set := by unfold colPcL11 colAt11; rw [set_cSl11]
theorem colPcL12_eq (d : Dev nD) (L : grid0.Coords) : colPcL12 m d L = colAt12 m d (colRectL L).set := by unfold colPcL12 colAt12; rw [set_cSl12]
theorem colPcL13_eq (d : Dev nD) (L : grid0.Coords) : colPcL13 m d L = colAt13 m d (colRectL L).set := by unfold colPcL13 colAt13; rw [set_cSl13]
theorem colPcL14_eq (d : Dev nD) (L : grid0.Coords) : colPcL14 m d L = colAt14 m d (colRectL L).set := by unfold colPcL14 colAt14; rw [set_cSl14]
theorem colPcL15_eq (d : Dev nD) (L : grid0.Coords) : colPcL15 m d L = colAt15 m d (colRectL L).set := by unfold colPcL15 colAt15; rw [set_cSl15]
theorem colPcL16_eq (d : Dev nD) (L : grid0.Coords) : colPcL16 m d L = colAt16 m d (colRectL L).set := by unfold colPcL16 colAt16; rw [set_cSl16]
theorem colPcL17_eq (d : Dev nD) (L : grid0.Coords) : colPcL17 m d L = colAt17 m d (colRectL L).set := by unfold colPcL17 colAt17; rw [set_cSl17]
theorem colPcL18_eq (d : Dev nD) (L : grid0.Coords) : colPcL18 m d L = colAt18 m d (colRectL L).set := by unfold colPcL18 colAt18; rw [set_cSl18]
theorem colPcL19_eq (d : Dev nD) (L : grid0.Coords) : colPcL19 m d L = colAt19 m d (colRectL L).set := by unfold colPcL19 colAt19; rw [set_cSl19]
theorem colPcL20_eq (d : Dev nD) (L : grid0.Coords) : colPcL20 m d L = colAt20 m d (colRectL L).set := by unfold colPcL20 colAt20; rw [set_cSl20]
theorem colPcL21_eq (d : Dev nD) (L : grid0.Coords) : colPcL21 m d L = colAt21 m d (colRectL L).set := by unfold colPcL21 colAt21; rw [set_cSl21]
theorem colPcL22_eq (d : Dev nD) (L : grid0.Coords) : colPcL22 m d L = colAt22 m d (colRectL L).set := by unfold colPcL22 colAt22; rw [set_cSl22]
theorem colPcL23_eq (d : Dev nD) (L : grid0.Coords) : colPcL23 m d L = colAt23 m d (colRectL L).set := by unfold colPcL23 colAt23; rw [set_cSl23]
theorem colPcL24_eq (d : Dev nD) (L : grid0.Coords) : colPcL24 m d L = colAt24 m d (colRectL L).set := by unfold colPcL24 colAt24; rw [set_cSl24]
theorem colPcL25_eq (d : Dev nD) (L : grid0.Coords) : colPcL25 m d L = colAt25 m d (colRectL L).set := by unfold colPcL25 colAt25; rw [set_cSl25]
theorem colPcL_eq (d : Dev nD) (L : grid0.Coords) : colPcL m d L = colAt m d (colRectL L).set := by
  unfold colPcL colAt
  rw [colPcL0_eq, colPcL1_eq, colPcL2_eq, colPcL3_eq, colPcL4_eq, colPcL5_eq, colPcL6_eq, colPcL7_eq, colPcL8_eq, colPcL9_eq, colPcL10_eq, colPcL11_eq, colPcL12_eq, colPcL13_eq, colPcL14_eq, colPcL15_eq, colPcL16_eq, colPcL17_eq, colPcL18_eq, colPcL19_eq, colPcL20_eq, colPcL21_eq, colPcL22_eq, colPcL23_eq, colPcL24_eq, colPcL25_eq]
def tblTokL0 (d : Dev nD) (L : grid0.Coords) (q : PosShare TreeShare) : sProp 𝕄 := (Memref.whole main_arg26_scv : Memref sig .scVector .hbm S1000x128 .f32).view.loc (V d (cVL L) (jVL L)) ↦{q} m ((SparseCore.T d).loc main_arg26)
def tblTokL1 (d : Dev nD) (L : grid0.Coords) (q : PosShare TreeShare) : sProp 𝕄 := (Memref.whole main_arg27_scv : Memref sig .scVector .hbm S1000x128 .f32).view.loc (V d (cVL L) (jVL L)) ↦{q} m ((SparseCore.T d).loc main_arg27)
def tblTokL2 (d : Dev nD) (L : grid0.Coords) (q : PosShare TreeShare) : sProp 𝕄 := (Memref.whole main_arg28_scv : Memref sig .scVector .hbm S1000x128 .f32).view.loc (V d (cVL L) (jVL L)) ↦{q} m ((SparseCore.T d).loc main_arg28)
def tblTokL3 (d : Dev nD) (L : grid0.Coords) (q : PosShare TreeShare) : sProp 𝕄 := (Memref.whole main_arg29_scv : Memref sig .scVector .hbm S1000x128 .f32).view.loc (V d (cVL L) (jVL L)) ↦{q} m ((SparseCore.T d).loc main_arg29)
def tblTokL4 (d : Dev nD) (L : grid0.Coords) (q : PosShare TreeShare) : sProp 𝕄 := (Memref.whole main_arg30_scv : Memref sig .scVector .hbm S1000x128 .f32).view.loc (V d (cVL L) (jVL L)) ↦{q} m ((SparseCore.T d).loc main_arg30)
def tblTokL5 (d : Dev nD) (L : grid0.Coords) (q : PosShare TreeShare) : sProp 𝕄 := (Memref.whole main_arg31_scv : Memref sig .scVector .hbm S1000x128 .f32).view.loc (V d (cVL L) (jVL L)) ↦{q} m ((SparseCore.T d).loc main_arg31)
def tblTokL6 (d : Dev nD) (L : grid0.Coords) (q : PosShare TreeShare) : sProp 𝕄 := (Memref.whole main_arg32_scv : Memref sig .scVector .hbm S1000x128 .f32).view.loc (V d (cVL L) (jVL L)) ↦{q} m ((SparseCore.T d).loc main_arg32)
def tblTokL7 (d : Dev nD) (L : grid0.Coords) (q : PosShare TreeShare) : sProp 𝕄 := (Memref.whole main_arg33_scv : Memref sig .scVector .hbm S1000x128 .f32).view.loc (V d (cVL L) (jVL L)) ↦{q} m ((SparseCore.T d).loc main_arg33)
def tblTokL8 (d : Dev nD) (L : grid0.Coords) (q : PosShare TreeShare) : sProp 𝕄 := (Memref.whole main_arg34_scv : Memref sig .scVector .hbm S1000x128 .f32).view.loc (V d (cVL L) (jVL L)) ↦{q} m ((SparseCore.T d).loc main_arg34)
def tblTokL9 (d : Dev nD) (L : grid0.Coords) (q : PosShare TreeShare) : sProp 𝕄 := (Memref.whole main_arg35_scv : Memref sig .scVector .hbm S1000x128 .f32).view.loc (V d (cVL L) (jVL L)) ↦{q} m ((SparseCore.T d).loc main_arg35)
def tblTokL10 (d : Dev nD) (L : grid0.Coords) (q : PosShare TreeShare) : sProp 𝕄 := (Memref.whole main_arg36_scv : Memref sig .scVector .hbm S1000x128 .f32).view.loc (V d (cVL L) (jVL L)) ↦{q} m ((SparseCore.T d).loc main_arg36)
def tblTokL11 (d : Dev nD) (L : grid0.Coords) (q : PosShare TreeShare) : sProp 𝕄 := (Memref.whole main_arg37_scv : Memref sig .scVector .hbm S1000x128 .f32).view.loc (V d (cVL L) (jVL L)) ↦{q} m ((SparseCore.T d).loc main_arg37)
def tblTokL12 (d : Dev nD) (L : grid0.Coords) (q : PosShare TreeShare) : sProp 𝕄 := (Memref.whole main_arg38_scv : Memref sig .scVector .hbm S1000x128 .f32).view.loc (V d (cVL L) (jVL L)) ↦{q} m ((SparseCore.T d).loc main_arg38)
def tblTokL13 (d : Dev nD) (L : grid0.Coords) (q : PosShare TreeShare) : sProp 𝕄 := (Memref.whole main_arg39_scv : Memref sig .scVector .hbm S1000x128 .f32).view.loc (V d (cVL L) (jVL L)) ↦{q} m ((SparseCore.T d).loc main_arg39)
def tblTokL14 (d : Dev nD) (L : grid0.Coords) (q : PosShare TreeShare) : sProp 𝕄 := (Memref.whole main_arg40_scv : Memref sig .scVector .hbm S1000x128 .f32).view.loc (V d (cVL L) (jVL L)) ↦{q} m ((SparseCore.T d).loc main_arg40)
def tblTokL15 (d : Dev nD) (L : grid0.Coords) (q : PosShare TreeShare) : sProp 𝕄 := (Memref.whole main_arg41_scv : Memref sig .scVector .hbm S1000x128 .f32).view.loc (V d (cVL L) (jVL L)) ↦{q} m ((SparseCore.T d).loc main_arg41)
def tblTokL16 (d : Dev nD) (L : grid0.Coords) (q : PosShare TreeShare) : sProp 𝕄 := (Memref.whole main_arg42_scv : Memref sig .scVector .hbm S1000x128 .f32).view.loc (V d (cVL L) (jVL L)) ↦{q} m ((SparseCore.T d).loc main_arg42)
def tblTokL17 (d : Dev nD) (L : grid0.Coords) (q : PosShare TreeShare) : sProp 𝕄 := (Memref.whole main_arg43_scv : Memref sig .scVector .hbm S1000x128 .f32).view.loc (V d (cVL L) (jVL L)) ↦{q} m ((SparseCore.T d).loc main_arg43)
def tblTokL18 (d : Dev nD) (L : grid0.Coords) (q : PosShare TreeShare) : sProp 𝕄 := (Memref.whole main_arg44_scv : Memref sig .scVector .hbm S1000x128 .f32).view.loc (V d (cVL L) (jVL L)) ↦{q} m ((SparseCore.T d).loc main_arg44)
def tblTokL19 (d : Dev nD) (L : grid0.Coords) (q : PosShare TreeShare) : sProp 𝕄 := (Memref.whole main_arg45_scv : Memref sig .scVector .hbm S1000x128 .f32).view.loc (V d (cVL L) (jVL L)) ↦{q} m ((SparseCore.T d).loc main_arg45)
def tblTokL20 (d : Dev nD) (L : grid0.Coords) (q : PosShare TreeShare) : sProp 𝕄 := (Memref.whole main_arg46_scv : Memref sig .scVector .hbm S1000x128 .f32).view.loc (V d (cVL L) (jVL L)) ↦{q} m ((SparseCore.T d).loc main_arg46)
def tblTokL21 (d : Dev nD) (L : grid0.Coords) (q : PosShare TreeShare) : sProp 𝕄 := (Memref.whole main_arg47_scv : Memref sig .scVector .hbm S1000x128 .f32).view.loc (V d (cVL L) (jVL L)) ↦{q} m ((SparseCore.T d).loc main_arg47)
def tblTokL22 (d : Dev nD) (L : grid0.Coords) (q : PosShare TreeShare) : sProp 𝕄 := (Memref.whole main_arg48_scv : Memref sig .scVector .hbm S1000x128 .f32).view.loc (V d (cVL L) (jVL L)) ↦{q} m ((SparseCore.T d).loc main_arg48)
def tblTokL23 (d : Dev nD) (L : grid0.Coords) (q : PosShare TreeShare) : sProp 𝕄 := (Memref.whole main_arg49_scv : Memref sig .scVector .hbm S1000x128 .f32).view.loc (V d (cVL L) (jVL L)) ↦{q} m ((SparseCore.T d).loc main_arg49)
def tblTokL24 (d : Dev nD) (L : grid0.Coords) (q : PosShare TreeShare) : sProp 𝕄 := (Memref.whole main_arg50_scv : Memref sig .scVector .hbm S1000x128 .f32).view.loc (V d (cVL L) (jVL L)) ↦{q} m ((SparseCore.T d).loc main_arg50)
def tblTokL25 (d : Dev nD) (L : grid0.Coords) (q : PosShare TreeShare) : sProp 𝕄 := (Memref.whole main_arg51_scv : Memref sig .scVector .hbm S1000x128 .f32).view.loc (V d (cVL L) (jVL L)) ↦{q} m ((SparseCore.T d).loc main_arg51)
def tblTokL (d : Dev nD) (L : grid0.Coords) (q : PosShare TreeShare) : Fin 26 → sProp 𝕄 := ![tblTokL0 m d L q, tblTokL1 m d L q, tblTokL2 m d L q, tblTokL3 m d L q, tblTokL4 m d L q, tblTokL5 m d L q, tblTokL6 m d L q, tblTokL7 m d L q, tblTokL8 m d L q, tblTokL9 m d L q, tblTokL10 m d L q, tblTokL11 m d L q, tblTokL12 m d L q, tblTokL13 m d L q, tblTokL14 m d L q, tblTokL15 m d L q, tblTokL16 m d L q, tblTokL17 m d L q, tblTokL18 m d L q, tblTokL19 m d L q, tblTokL20 m d L q, tblTokL21 m d L q, tblTokL22 m d L q, tblTokL23 m d L q, tblTokL24 m d L q, tblTokL25 m d L q]
theorem tblTokL0_eq (d : Dev nD) (L : grid0.Coords) (q : PosShare TreeShare) : tblTokL0 m d L q = tblAt0 m d q := rfl
theorem tblTokL1_eq (d : Dev nD) (L : grid0.Coords) (q : PosShare TreeShare) : tblTokL1 m d L q = tblAt1 m d q := rfl
theorem tblTokL2_eq (d : Dev nD) (L : grid0.Coords) (q : PosShare TreeShare) : tblTokL2 m d L q = tblAt2 m d q := rfl
theorem tblTokL3_eq (d : Dev nD) (L : grid0.Coords) (q : PosShare TreeShare) : tblTokL3 m d L q = tblAt3 m d q := rfl
theorem tblTokL4_eq (d : Dev nD) (L : grid0.Coords) (q : PosShare TreeShare) : tblTokL4 m d L q = tblAt4 m d q := rfl
theorem tblTokL5_eq (d : Dev nD) (L : grid0.Coords) (q : PosShare TreeShare) : tblTokL5 m d L q = tblAt5 m d q := rfl
theorem tblTokL6_eq (d : Dev nD) (L : grid0.Coords) (q : PosShare TreeShare) : tblTokL6 m d L q = tblAt6 m d q := rfl
theorem tblTokL7_eq (d : Dev nD) (L : grid0.Coords) (q : PosShare TreeShare) : tblTokL7 m d L q = tblAt7 m d q := rfl
theorem tblTokL8_eq (d : Dev nD) (L : grid0.Coords) (q : PosShare TreeShare) : tblTokL8 m d L q = tblAt8 m d q := rfl
theorem tblTokL9_eq (d : Dev nD) (L : grid0.Coords) (q : PosShare TreeShare) : tblTokL9 m d L q = tblAt9 m d q := rfl
theorem tblTokL10_eq (d : Dev nD) (L : grid0.Coords) (q : PosShare TreeShare) : tblTokL10 m d L q = tblAt10 m d q := rfl
theorem tblTokL11_eq (d : Dev nD) (L : grid0.Coords) (q : PosShare TreeShare) : tblTokL11 m d L q = tblAt11 m d q := rfl
theorem tblTokL12_eq (d : Dev nD) (L : grid0.Coords) (q : PosShare TreeShare) : tblTokL12 m d L q = tblAt12 m d q := rfl
theorem tblTokL13_eq (d : Dev nD) (L : grid0.Coords) (q : PosShare TreeShare) : tblTokL13 m d L q = tblAt13 m d q := rfl
theorem tblTokL14_eq (d : Dev nD) (L : grid0.Coords) (q : PosShare TreeShare) : tblTokL14 m d L q = tblAt14 m d q := rfl
theorem tblTokL15_eq (d : Dev nD) (L : grid0.Coords) (q : PosShare TreeShare) : tblTokL15 m d L q = tblAt15 m d q := rfl
theorem tblTokL16_eq (d : Dev nD) (L : grid0.Coords) (q : PosShare TreeShare) : tblTokL16 m d L q = tblAt16 m d q := rfl
theorem tblTokL17_eq (d : Dev nD) (L : grid0.Coords) (q : PosShare TreeShare) : tblTokL17 m d L q = tblAt17 m d q := rfl
theorem tblTokL18_eq (d : Dev nD) (L : grid0.Coords) (q : PosShare TreeShare) : tblTokL18 m d L q = tblAt18 m d q := rfl
theorem tblTokL19_eq (d : Dev nD) (L : grid0.Coords) (q : PosShare TreeShare) : tblTokL19 m d L q = tblAt19 m d q := rfl
theorem tblTokL20_eq (d : Dev nD) (L : grid0.Coords) (q : PosShare TreeShare) : tblTokL20 m d L q = tblAt20 m d q := rfl
theorem tblTokL21_eq (d : Dev nD) (L : grid0.Coords) (q : PosShare TreeShare) : tblTokL21 m d L q = tblAt21 m d q := rfl
theorem tblTokL22_eq (d : Dev nD) (L : grid0.Coords) (q : PosShare TreeShare) : tblTokL22 m d L q = tblAt22 m d q := rfl
theorem tblTokL23_eq (d : Dev nD) (L : grid0.Coords) (q : PosShare TreeShare) : tblTokL23 m d L q = tblAt23 m d q := rfl
theorem tblTokL24_eq (d : Dev nD) (L : grid0.Coords) (q : PosShare TreeShare) : tblTokL24 m d L q = tblAt24 m d q := rfl
theorem tblTokL25_eq (d : Dev nD) (L : grid0.Coords) (q : PosShare TreeShare) : tblTokL25 m d L q = tblAt25 m d q := rfl
theorem tblTokL_eq (d : Dev nD) (L : grid0.Coords) (q : PosShare TreeShare) : tblTokL m d L q = tblAt m d q := by
  unfold tblTokL tblAt
  rw [tblTokL0_eq, tblTokL1_eq, tblTokL2_eq, tblTokL3_eq, tblTokL4_eq, tblTokL5_eq, tblTokL6_eq, tblTokL7_eq, tblTokL8_eq, tblTokL9_eq, tblTokL10_eq, tblTokL11_eq, tblTokL12_eq, tblTokL13_eq, tblTokL14_eq, tblTokL15_eq, tblTokL16_eq, tblTokL17_eq, tblTokL18_eq, tblTokL19_eq, tblTokL20_eq, tblTokL21_eq, tblTokL22_eq, tblTokL23_eq, tblTokL24_eq, tblTokL25_eq]

/-- A product over the 26 tables, spelt out. -/
def sep26 (Φ : Fin 26 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25)

theorem bigSep_fin26 (Φ : Fin 26 → sProp 𝕄) : bigSep Finset.univ Φ = sep26 Φ := by
  rw [show (Finset.univ : Finset (Fin 26)) = {0, 1, 2, 3, 4, 5, 6, 7, 8, 9, 10, 11, 12, 13, 14, 15, 16, 17, 18, 19, 20, 21, 22, 23, 24, 25} by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

set_option maxHeartbeats 4000000 in
/-- The claim's reading of the final memory: the output, then the 52 arguments unchanged. -/
def QCat (d : Dev nD) (g : Buf (Elt F) ((d.tc : Thread nD τ).loc main_v26)) (r : PUnit × MemSt nD τ sig (Elt F)) : Prop :=
  r.2.mem ((d.tc : Thread nD τ).loc main_v26) = g
  ∧ r.2.mem ((d.tc : Thread nD τ).loc main_arg0) = m ((d.tc : Thread nD τ).loc main_arg0)
  ∧ r.2.mem ((d.tc : Thread nD τ).loc main_arg1) = m ((d.tc : Thread nD τ).loc main_arg1)
  ∧ r.2.mem ((d.tc : Thread nD τ).loc main_arg2) = m ((d.tc : Thread nD τ).loc main_arg2)
  ∧ r.2.mem ((d.tc : Thread nD τ).loc main_arg3) = m ((d.tc : Thread nD τ).loc main_arg3)
  ∧ r.2.mem ((d.tc : Thread nD τ).loc main_arg4) = m ((d.tc : Thread nD τ).loc main_arg4)
  ∧ r.2.mem ((d.tc : Thread nD τ).loc main_arg5) = m ((d.tc : Thread nD τ).loc main_arg5)
  ∧ r.2.mem ((d.tc : Thread nD τ).loc main_arg6) = m ((d.tc : Thread nD τ).loc main_arg6)
  ∧ r.2.mem ((d.tc : Thread nD τ).loc main_arg7) = m ((d.tc : Thread nD τ).loc main_arg7)
  ∧ r.2.mem ((d.tc : Thread nD τ).loc main_arg8) = m ((d.tc : Thread nD τ).loc main_arg8)
  ∧ r.2.mem ((d.tc : Thread nD τ).loc main_arg9) = m ((d.tc : Thread nD τ).loc main_arg9)
  ∧ r.2.mem ((d.tc : Thread nD τ).loc main_arg10) = m ((d.tc : Thread nD τ).loc main_arg10)
  ∧ r.2.mem ((d.tc : Thread nD τ).loc main_arg11) = m ((d.tc : Thread nD τ).loc main_arg11)
  ∧ r.2.mem ((d.tc : Thread nD τ).loc main_arg12) = m ((d.tc : Thread nD τ).loc main_arg12)
  ∧ r.2.mem ((d.tc : Thread nD τ).loc main_arg13) = m ((d.tc : Thread nD τ).loc main_arg13)
  ∧ r.2.mem ((d.tc : Thread nD τ).loc main_arg14) = m ((d.tc : Thread nD τ).loc main_arg14)
  ∧ r.2.mem ((d.tc : Thread nD τ).loc main_arg15) = m ((d.tc : Thread nD τ).loc main_arg15)
  ∧ r.2.mem ((d.tc : Thread nD τ).loc main_arg16) = m ((d.tc : Thread nD τ).loc main_arg16)
  ∧ r.2.mem ((d.tc : Thread nD τ).loc main_arg17) = m ((d.tc : Thread nD τ).loc main_arg17)
  ∧ r.2.mem ((d.tc : Thread nD τ).loc main_arg18) = m ((d.tc : Thread nD τ).loc main_arg18)
  ∧ r.2.mem ((d.tc : Thread nD τ).loc main_arg19) = m ((d.tc : Thread nD τ).loc main_arg19)
  ∧ r.2.mem ((d.tc : Thread nD τ).loc main_arg20) = m ((d.tc : Thread nD τ).loc main_arg20)
  ∧ r.2.mem ((d.tc : Thread nD τ).loc main_arg21) = m ((d.tc : Thread nD τ).loc main_arg21)
  ∧ r.2.mem ((d.tc : Thread nD τ).loc main_arg22) = m ((d.tc : Thread nD τ).loc main_arg22)
  ∧ r.2.mem ((d.tc : Thread nD τ).loc main_arg23) = m ((d.tc : Thread nD τ).loc main_arg23)
  ∧ r.2.mem ((d.tc : Thread nD τ).loc main_arg24) = m ((d.tc : Thread nD τ).loc main_arg24)
  ∧ r.2.mem ((d.tc : Thread nD τ).loc main_arg25) = m ((d.tc : Thread nD τ).loc main_arg25)
  ∧ r.2.mem ((d.tc : Thread nD τ).loc main_arg26) = m ((d.tc : Thread nD τ).loc main_arg26)
  ∧ r.2.mem ((d.tc : Thread nD τ).loc main_arg27) = m ((d.tc : Thread nD τ).loc main_arg27)
  ∧ r.2.mem ((d.tc : Thread nD τ).loc main_arg28) = m ((d.tc : Thread nD τ).loc main_arg28)
  ∧ r.2.mem ((d.tc : Thread nD τ).loc main_arg29) = m ((d.tc : Thread nD τ).loc main_arg29)
  ∧ r.2.mem ((d.tc : Thread nD τ).loc main_arg30) = m ((d.tc : Thread nD τ).loc main_arg30)
  ∧ r.2.mem ((d.tc : Thread nD τ).loc main_arg31) = m ((d.tc : Thread nD τ).loc main_arg31)
  ∧ r.2.mem ((d.tc : Thread nD τ).loc main_arg32) = m ((d.tc : Thread nD τ).loc main_arg32)
  ∧ r.2.mem ((d.tc : Thread nD τ).loc main_arg33) = m ((d.tc : Thread nD τ).loc main_arg33)
  ∧ r.2.mem ((d.tc : Thread nD τ).loc main_arg34) = m ((d.tc : Thread nD τ).loc main_arg34)
  ∧ r.2.mem ((d.tc : Thread nD τ).loc main_arg35) = m ((d.tc : Thread nD τ).loc main_arg35)
  ∧ r.2.mem ((d.tc : Thread nD τ).loc main_arg36) = m ((d.tc : Thread nD τ).loc main_arg36)
  ∧ r.2.mem ((d.tc : Thread nD τ).loc main_arg37) = m ((d.tc : Thread nD τ).loc main_arg37)
  ∧ r.2.mem ((d.tc : Thread nD τ).loc main_arg38) = m ((d.tc : Thread nD τ).loc main_arg38)
  ∧ r.2.mem ((d.tc : Thread nD τ).loc main_arg39) = m ((d.tc : Thread nD τ).loc main_arg39)
  ∧ r.2.mem ((d.tc : Thread nD τ).loc main_arg40) = m ((d.tc : Thread nD τ).loc main_arg40)
  ∧ r.2.mem ((d.tc : Thread nD τ).loc main_arg41) = m ((d.tc : Thread nD τ).loc main_arg41)
  ∧ r.2.mem ((d.tc : Thread nD τ).loc main_arg42) = m ((d.tc : Thread nD τ).loc main_arg42)
  ∧ r.2.mem ((d.tc : Thread nD τ).loc main_arg43) = m ((d.tc : Thread nD τ).loc main_arg43)
  ∧ r.2.mem ((d.tc : Thread nD τ).loc main_arg44) = m ((d.tc : Thread nD τ).loc main_arg44)
  ∧ r.2.mem ((d.tc : Thread nD τ).loc main_arg45) = m ((d.tc : Thread nD τ).loc main_arg45)
  ∧ r.2.mem ((d.tc : Thread nD τ).loc main_arg46) = m ((d.tc : Thread nD τ).loc main_arg46)
  ∧ r.2.mem ((d.tc : Thread nD τ).loc main_arg47) = m ((d.tc : Thread nD τ).loc main_arg47)
  ∧ r.2.mem ((d.tc : Thread nD τ).loc main_arg48) = m ((d.tc : Thread nD τ).loc main_arg48)
  ∧ r.2.mem ((d.tc : Thread nD τ).loc main_arg49) = m ((d.tc : Thread nD τ).loc main_arg49)
  ∧ r.2.mem ((d.tc : Thread nD τ).loc main_arg50) = m ((d.tc : Thread nD τ).loc main_arg50)
  ∧ r.2.mem ((d.tc : Thread nD τ).loc main_arg51) = m ((d.tc : Thread nD τ).loc main_arg51)

end Cert.Proof.KB

end
-- ==== Proof.Spec.lean ====
import Idealize.ShloMosaic.PureOps.Ideal
import Idealize.ShloMosaic.Lib.ValueIdx

/-!
  The function both programs compute. Twenty-six lookup tables of 1000 rows by 128 entries and twenty-six
  columns of 16384 row numbers go to one array of 16384 rows by 26·128 entries: row `b` is the
  concatenation, over the tables `t`, of row `col t b` of table `t`. A row number is read as an unsigned
  word modulo 1000, which on words below 1000 — the only ones the precondition admits — is the word itself.
-/

namespace Cert.Spec

open Idealize.ShloMosaic Idealize.ShloMosaic.ValueIdx

/-- The shape of a table, of a column, and of the result. -/
abbrev TblS : Shape := ⟨2, ![1000, 128]⟩
abbrev ColS : Shape := ⟨1, ![16384]⟩
abbrev OutS : Shape := ⟨2, ![16384, 3328]⟩

/-- The table a result column `q < 3328` belongs to. -/
def tblOf (q : Fin 3328) : Fin 26 := ⟨q.val / 128, by have := q.isLt; omega⟩
/-- The entry of that table's row a result column reads. -/
def laneOf (q : Fin 3328) : Fin 128 := ⟨q.val % 128, Nat.mod_lt _ (by decide)⟩
/-- A word as a row number of a table. -/
def rowOf (w : BitVec 32) : Fin 1000 := ⟨w.toNat % 1000, Nat.mod_lt _ (by decide)⟩

theorem rowOf_val_of_lt {w : BitVec 32} (h : w.toNat < 1000) : (rowOf w).val = w.toNat := Nat.mod_eq_of_lt h

/-- Entry `(b, q)` of the result: entry `q % 128` of row `col (q / 128) b` of table `q / 128`. -/
def G {α : Type} (tbl : Fin 26 → TblS.Idx → α) (col : Fin 26 → ColS.Idx → BitVec 32) : OutS.Idx → α :=
  fun j => tbl (tblOf (j 1)) (ix2 (rowOf (col (tblOf (j 1)) (ix1 (j 0)))) (laneOf (j 1)))

theorem G_apply {α : Type} (tbl : Fin 26 → TblS.Idx → α) (col : Fin 26 → ColS.Idx → BitVec 32) (b : Fin 16384) (q : Fin 3328) :
    G tbl col (ix2 b q) = tbl (tblOf q) (ix2 (rowOf (col (tblOf q) (ix1 b))) (laneOf q)) := rfl

/-- Column `128·t + e` belongs to table `t` and reads entry `e`. -/
theorem tblOf_block (t : Fin 26) (e : Fin 128) (h : 128 * t.val + e.val < 3328) : tblOf ⟨128 * t.val + e.val, h⟩ = t :=
  Fin.ext (by show (128 * t.val + e.val) / 128 = t.val; have := e.isLt; omega)
theorem laneOf_block (t : Fin 26) (e : Fin 128) (h : 128 * t.val + e.val < 3328) : laneOf ⟨128 * t.val + e.val, h⟩ = e :=
  Fin.ext (by show (128 * t.val + e.val) % 128 = e.val; have := e.isLt; omega)

end Cert.Spec
-- ==== Proof.LibCover.lean ====
import Idealize.ShloMosaic.Shape

/-!
# Thirty-two tiles cover the columns and the output

Tile `(c, i)`, `c < 2`, `i < 16`, has number `w = 2 i + c`. Of a column array seen as 128 rows of 128 words it owns
the 4 rows from row `4 w = 8 i + 4 c`; of the output, 16384 rows of 3328 words, the 512 rows from row
`512 w = 1024 i + 512 c`. As `w` runs over `0 … 31` these row ranges are consecutive and of equal length, so they are
pairwise disjoint and cover all rows: row `ρ` belongs to `i = ρ / 8`, `c = (ρ / 4) % 2` (resp. `ρ / 1024`, `(ρ / 512) % 2`).
Inside a tile's output rows, the 104 square blocks of 128 rows by 128 words, block `(r, t)` at row `128 r` of the tile
and word `128 t`, are again pairwise disjoint (different `r`: different rows; different `t`: different words) and cover
the tile's rows (`r = (ρ - 512 w) / 128`, `t = κ / 128`).
-/

namespace Cert.Proof.LibCover

open Idealize.ShloMosaic

/-- A column array, 16384 words as 128 rows of 128. -/
abbrev s₁ : Shape := ⟨2, ![128, 128]⟩
/-- The output: 16384 rows of 26 · 128 words. -/
abbrev s₂ : Shape := ⟨2, ![16384, 3328]⟩

/-- Two different pairs of bounded numbers differ in the first or in the second number. -/
theorem val_ne_of_pair_ne {m n : Nat} {c c' : Fin m} {i i' : Fin n} (h : (c, i) ≠ (c', i')) :
    c.val ≠ c'.val ∨ i.val ≠ i'.val := by
  by_cases hc : c = c'
  · right
    intro hi
    exact h (by rw [hc, Fin.ext hi])
  · left
    exact fun e => hc (Fin.ext e)

/-! ## The columns -/

theorem colRect_inb (c : Fin 2) (i : Fin 16) :
    ∀ a, (![8 * i.val + 4 * c.val, 0] : Fin 2 → Nat) a + (![4, 128] : Fin 2 → Nat) a ≤ s₁.size a :=
  Rect.inb₂ (show 8 * i.val + 4 * c.val + 4 ≤ 128 by omega) (show 0 + 128 ≤ 128 by omega)

/-- The 4 rows of a column array that tile `(c, i)` owns. -/
abbrev colRect (c : Fin 2) (i : Fin 16) : Rect s₁ :=
  Rect.unit (s := s₁) ![8 * i.val + 4 * c.val, 0] ![4, 128] (colRect_inb c i)

theorem mem_colRect {c : Fin 2} {i : Fin 16} {j : s₁.Idx} :
    j ∈ (colRect c i).set ↔ 8 * i.val + 4 * c.val ≤ (j 0).val ∧ (j 0).val < 8 * i.val + 4 * c.val + 4 := by
  rw [Rect.mem_set_unit]
  constructor
  · intro h; exact h 0
  · intro h a
    have h1 : (j 1).val < 128 := (j 1).isLt
    fin_cases a
    · exact h
    · exact ⟨Nat.zero_le _, by show (j 1).val < 0 + 128; omega⟩

theorem colRect_disjoint (c : Fin 2) (i : Fin 16) (c' : Fin 2) (i' : Fin 16) (h : (c, i) ≠ (c', i')) :
    Disjoint (colRect c i).set (colRect c' i').set := by
  have hne : c.val ≠ c'.val ∨ i.val ≠ i'.val := val_ne_of_pair_ne h
  refine Rect.unit_disjoint (0 : Fin 2) ?_
  show 8 * i.val + 4 * c.val + 4 ≤ 8 * i'.val + 4 * c'.val ∨ 8 * i'.val + 4 * c'.val + 4 ≤ 8 * i.val + 4 * c.val
  have := c.isLt
  have := c'.isLt
  omega

theorem colRect_cover :
    (Finset.univ : Finset (Fin 2 × Fin 16)).biUnion (fun p => (colRect p.1 p.2).set) = Finset.univ := by
  ext j
  simp only [Finset.mem_biUnion, Finset.mem_univ, true_and, iff_true]
  have h0 : (j 0).val < 128 := (j 0).isLt
  exact ⟨(⟨(j 0).val / 4 % 2, Nat.mod_lt _ (by omega)⟩, ⟨(j 0).val / 8, by omega⟩),
    mem_colRect.2 ⟨by show 8 * ((j 0).val / 8) + 4 * ((j 0).val / 4 % 2) ≤ (j 0).val; omega,
      by show (j 0).val < 8 * ((j 0).val / 8) + 4 * ((j 0).val / 4 % 2) + 4; omega⟩⟩

/-! ## The output -/

theorem outRect_inb (c : Fin 2) (i : Fin 16) :
    ∀ a, (![1024 * i.val + 512 * c.val, 0] : Fin 2 → Nat) a + (![512, 3328] : Fin 2 → Nat) a ≤ s₂.size a :=
  Rect.inb₂ (show 1024 * i.val + 512 * c.val + 512 ≤ 16384 by omega) (show 0 + 3328 ≤ 3328 by omega)

/-- The 512 rows of the output that tile `(c, i)` owns. -/
abbrev outRect (c : Fin 2) (i : Fin 16) : Rect s₂ :=
  Rect.unit (s := s₂) ![1024 * i.val + 512 * c.val, 0] ![512, 3328] (outRect_inb c i)

theorem mem_outRect {c : Fin 2} {i : Fin 16} {j : s₂.Idx} :
    j ∈ (outRect c i).set ↔
      1024 * i.val + 512 * c.val ≤ (j 0).val ∧ (j 0).val < 1024 * i.val + 512 * c.val + 512 := by
  rw [Rect.mem_set_unit]
  constructor
  · intro h; exact h 0
  · intro h a
    have h1 : (j 1).val < 3328 := (j 1).isLt
    fin_cases a
    · exact h
    · exact ⟨Nat.zero_le _, by show (j 1).val < 0 + 3328; omega⟩

theorem outRect_disjoint (c : Fin 2) (i : Fin 16) (c' : Fin 2) (i' : Fin 16) (h : (c, i) ≠ (c', i')) :
    Disjoint (outRect c i).set (outRect c' i').set := by
  have hne : c.val ≠ c'.val ∨ i.val ≠ i'.val := val_ne_of_pair_ne h
  refine Rect.unit_disjoint (0 : Fin 2) ?_
  show 1024 * i.val + 512 * c.val + 512 ≤ 1024 * i'.val + 512 * c'.val
    ∨ 1024 * i'.val + 512 * c'.val + 512 ≤ 1024 * i.val + 512 * c.val
  have := c.isLt
  have := c'.isLt
  omega

theorem outRect_cover :
    (Finset.univ : Finset (Fin 2 × Fin 16)).biUnion (fun p => (outRect p.1 p.2).set) = Finset.univ := by
  ext j
  simp only [Finset.mem_biUnion, Finset.mem_univ, true_and, iff_true]
  have h0 : (j 0).val < 16384 := (j 0).isLt
  exact ⟨(⟨(j 0).val / 512 % 2, Nat.mod_lt _ (by omega)⟩, ⟨(j 0).val / 1024, by omega⟩),
    mem_outRect.2 ⟨by show 1024 * ((j 0).val / 1024) + 512 * ((j 0).val / 512 % 2) ≤ (j 0).val; omega,
      by show (j 0).val < 1024 * ((j 0).val / 1024) + 512 * ((j 0).val / 512 % 2) + 512; omega⟩⟩

/-! ## The 104 blocks of a tile's output rows -/

theorem outBlk_inb (c : Fin 2) (i : Fin 16) (r : Fin 4) (t : Fin 26) :
    ∀ a, (![1024 * i.val + 512 * c.val + 128 * r.val, 128 * t.val] : Fin 2 → Nat) a + (![128, 128] : Fin 2 → Nat) a
      ≤ s₂.size a :=
  Rect.inb₂ (show 1024 * i.val + 512 * c.val + 128 * r.val + 128 ≤ 16384 by omega)
    (show 128 * t.val + 128 ≤ 3328 by omega)

/-- Block `(r, t)` of tile `(c, i)`: 128 rows from row `128 r` of the tile, the 128 words of table `t`. -/
abbrev outBlk (c : Fin 2) (i : Fin 16) (r : Fin 4) (t : Fin 26) : Rect s₂ :=
  Rect.unit (s := s₂) ![1024 * i.val + 512 * c.val + 128 * r.val, 128 * t.val] ![128, 128] (outBlk_inb c i r t)

theorem mem_outBlk {c : Fin 2} {i : Fin 16} {r : Fin 4} {t : Fin 26} {j : s₂.Idx} :
    j ∈ (outBlk c i r t).set ↔
      (1024 * i.val + 512 * c.val + 128 * r.val ≤ (j 0).val ∧ (j 0).val < 1024 * i.val + 512 * c.val + 128 * r.val + 128)
      ∧ (128 * t.val ≤ (j 1).val ∧ (j 1).val < 128 * t.val + 128) := by
  rw [Rect.mem_set_unit]
  constructor
  · intro h; exact ⟨h 0, h 1⟩
  · intro h a
    fin_cases a
    · exact h.1
    · exact h.2

/-- Blocks of one tile at different `(r, t)` are disjoint. -/
theorem outBlk_disjoint (c : Fin 2) (i : Fin 16) (r : Fin 4) (t : Fin 26) (r' : Fin 4) (t' : Fin 26)
    (h : (r, t) ≠ (r', t')) : Disjoint (outBlk c i r t).set (outBlk c i r' t').set := by
  have hne : r.val ≠ r'.val ∨ t.val ≠ t'.val := val_ne_of_pair_ne h
  rcases hne with hr | ht
  · refine Rect.unit_disjoint (0 : Fin 2) ?_
    show 1024 * i.val + 512 * c.val + 128 * r.val + 128 ≤ 1024 * i.val + 512 * c.val + 128 * r'.val
      ∨ 1024 * i.val + 512 * c.val + 128 * r'.val + 128 ≤ 1024 * i.val + 512 * c.val + 128 * r.val
    omega
  · refine Rect.unit_disjoint (1 : Fin 2) ?_
    show 128 * t.val + 128 ≤ 128 * t'.val ∨ 128 * t'.val + 128 ≤ 128 * t.val
    omega

/-- The blocks of a tile lie in the tile's rows. -/
theorem outBlk_subset (c : Fin 2) (i : Fin 16) (r : Fin 4) (t : Fin 26) : (outBlk c i r t).set ⊆ (outRect c i).set := by
  intro j hj
  have h := (mem_outBlk.1 hj).1
  have := r.isLt
  exact mem_outRect.2 ⟨by omega, by omega⟩

/-- The blocks of a tile cover the tile's rows. -/
theorem outBlk_cover (c : Fin 2) (i : Fin 16) :
    (Finset.univ : Finset (Fin 4 × Fin 26)).biUnion (fun p => (outBlk c i p.1 p.2).set) = (outRect c i).set := by
  ext j
  simp only [Finset.mem_biUnion, Finset.mem_univ, true_and]
  constructor
  · rintro ⟨p, hp⟩
    exact outBlk_subset c i p.1 p.2 hp
  · intro hj
    have h := mem_outRect.1 hj
    have h1 : (j 1).val < 3328 := (j 1).isLt
    exact ⟨(⟨((j 0).val - (1024 * i.val + 512 * c.val)) / 128, by omega⟩, ⟨(j 1).val / 128, by omega⟩),
      mem_outBlk.2 ⟨⟨by show 1024 * i.val + 512 * c.val + 128 * (((j 0).val - (1024 * i.val + 512 * c.val)) / 128) ≤ (j 0).val; omega,
        by show (j 0).val < 1024 * i.val + 512 * c.val + 128 * (((j 0).val - (1024 * i.val + 512 * c.val)) / 128) + 128; omega⟩,
        ⟨by show 128 * ((j 1).val / 128) ≤ (j 1).val; omega, by show (j 1).val < 128 * ((j 1).val / 128) + 128; omega⟩⟩⟩

/-- All 32 · 104 blocks are pairwise disjoint. -/
theorem outBlk_disjoint_all (c : Fin 2) (i : Fin 16) (r : Fin 4) (t : Fin 26) (c' : Fin 2) (i' : Fin 16) (r' : Fin 4) (t' : Fin 26)
    (h : (c, i, r, t) ≠ (c', i', r', t')) : Disjoint (outBlk c i r t).set (outBlk c' i' r' t').set := by
  by_cases hci : (c, i) = (c', i')
  · obtain ⟨rfl, rfl⟩ := Prod.mk.inj hci
    exact outBlk_disjoint c i r t r' t' fun e => h (by rw [e])
  · exact Finset.disjoint_of_subset_left (outBlk_subset c i r t)
      (Finset.disjoint_of_subset_right (outBlk_subset c' i' r' t') (outRect_disjoint c i c' i' hci))

/-- All 32 · 104 blocks cover the output. -/
theorem outBlk_cover_all :
    (Finset.univ : Finset ((Fin 2 × Fin 16) × (Fin 4 × Fin 26))).biUnion (fun p => (outBlk p.1.1 p.1.2 p.2.1 p.2.2).set)
      = Finset.univ := by
  ext j
  simp only [Finset.mem_biUnion, Finset.mem_univ, true_and, iff_true]
  obtain ⟨p, -, hp⟩ := Finset.mem_biUnion.1 (outRect_cover.symm ▸ Finset.mem_univ j)
  obtain ⟨q, -, hq⟩ := Finset.mem_biUnion.1 ((outBlk_cover p.1 p.2).symm ▸ hp)
  exact ⟨(p, q), hq⟩

end Cert.Proof.LibCover
-- ==== Proof.SetupKB.lean ====
import proofs.«204019_g4913442586959_cont_sun_m_672_34_alg».proof.Proof.TablesKB
import proofs.«204019_g4913442586959_cont_sun_m_672_34_alg».proof.Proof.Spec
import proofs.«204019_g4913442586959_cont_sun_m_672_34_alg».proof.Proof.LibCover

/-!
# What the handshakes carry

Tile `L = (c, i)` of the one call is handed: a read share of each of the 26 tables, whole; of each reshaped column
its 4 rows, rows `8 i + 4 c …`; of the output its 512 rows, rows `1024 i + 512 c …`, at the launch contents. It hands
the same back, its output rows holding the function the claim names. The call's operands for a SparseCore are its
sixteen tiles' shares, so the sequencer's split is the identity.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's rectangles are the cover's -/

/-- The kernel's offset `4 (2 i + c)`, computed on 32-bit words, is `8 i + 4 c`. -/
theorem colRectL_eq (L : grid0.Coords) : colRectL L = LibCover.colRect (L 0) (L 1) := by
  show Rect.unit (s := S128x128) (k0_off1 L) S4x128.size (k0_off1_inb L)
    = Rect.unit (s := S128x128) ![8 * (L 1).val + 4 * (L 0).val, 0] ![4, 128] (LibCover.colRect_inb (L 0) (L 1))
  congr 1
  exact k0_off1_eq L

theorem oTR_eq (L : grid0.Coords) : oTR L = LibCover.outRect (L 0) (L 1) := rfl

variable (m : (ℓ : Loc nD τ sig) → Buf (Elt F) ℓ)

/-! ## The output's piece and its final contents -/

/-- Tile `L`'s 512 output rows at contents `f`, as the tile names them. -/
def outPcL (d : Dev nD) (L : grid0.Coords) (f : Buf (Elt F) (oLoc d)) : sProp 𝕄 :=
  (Memref.whole main_v26_scv : Memref sig .scVector .hbm S16384x3328 .f32).view.loc (V d (cVL L) (jVL L))
    ↦[(Memref.whole main_v26_scv : Memref sig .scVector .hbm S16384x3328 .f32).view.setOn (oTR L).set]{fullShare} f

omit m in
theorem outPcL_eq (d : Dev nD) (L : grid0.Coords) (f : Buf (Elt F) (oLoc d)) :
    outPcL d L f = (oLoc d ↦[(oTR L).set]{fullShare} f : sProp 𝕄) := by
  unfold outPcL
  rw [show (Memref.whole main_v26_scv : Memref sig .scVector .hbm S16384x3328 .f32).view.setOn (oTR L).set = (oTR L).set
    from Finset.map_refl]

/-- What the output holds in the end: row `b` is the concatenation over the tables of their rows `col t b`. -/
def GO (d : Dev nD) : Buf (Elt F) (oLoc d) := Cert.Spec.G (tblVec m d) (colVec m d)

/-! ## A tile's payload -/

/-- What tile `L` holds of the call's operands, its output rows at contents `f`: a read share of each table, its 4 rows
    of each reshaped column, its 512 rows of the output. -/
def payL (d : Dev nD) (L : grid0.Coords) (f : Buf (Elt F) (oLoc d)) : sProp 𝕄 :=
  iprop((bigSep Finset.univ fun t : Fin 26 => tblTokL m d L (Transfers.shareTok fullShare 32 (wOfL L)) t)
    ∗ (bigSep Finset.univ fun t : Fin 26 => colPcL m d L t) ∗ outPcL d L f)

/-- What tile `L` is handed: the output rows at the launch contents. -/
abbrev goPayL (d : Dev nD) (L : grid0.Coords) : sProp 𝕄 := payL m d L (m (oLoc d))

/-- What tile `L` hands back: the same, its output rows at whatever it left there. -/
def tdPayL (d : Dev nD) (L : grid0.Coords) : sProp 𝕄 :=
  iprop((bigSep Finset.univ fun t : Fin 26 => tblTokL m d L (Transfers.shareTok fullShare 32 (wOfL L)) t)
    ∗ (bigSep Finset.univ fun t : Fin 26 => colPcL m d L t) ∗ ∃ f, outPcL d L f)

/-- The same in the TensorCore's names, over the cover's rectangles. -/
theorem payL_eq (d : Dev nD) (L : grid0.Coords) (f : Buf (Elt F) (oLoc d)) :
    payL m d L f = iprop((bigSep Finset.univ fun t : Fin 26 => tblAt m d (Transfers.shareTok fullShare 32 (wOfL L)) t)
      ∗ (bigSep Finset.univ fun t : Fin 26 => colAt m d (LibCover.colRect (L 0) (L 1)).set t)
      ∗ (oLoc d ↦[(LibCover.outRect (L 0) (L 1)).set]{fullShare} f)) := by
  unfold payL
  rw [tblTokL_eq, colPcL_eq, outPcL_eq, colRectL_eq, oTR_eq]

/-! ## The payloads may be stored in an invariant -/

omit m in
theorem storable_pointsTo {ℓ : Loc nD τ sig} (I : Finset (Idx ℓ)) (q : PosShare TreeShare) (f : Buf (Elt F) ℓ) :
    BI.Storable (upEmb : UEmb _ 𝕄) (ℓ ↦[I]{q} f : sProp 𝕄) := inferInstance

instance tblAt_storable (d : Dev nD) (q : PosShare TreeShare) (t : Fin 26) : BI.Storable (upEmb : UEmb _ 𝕄) (tblAt m d q t) := by
  fin_cases t <;> exact storable_pointsTo _ _ _

instance colAt_storable (d : Dev nD) (I : Finset S128x128.Idx) (t : Fin 26) : BI.Storable (upEmb : UEmb _ 𝕄) (colAt m d I t) := by
  fin_cases t <;> exact storable_pointsTo _ _ _

instance payL_storable (d : Dev nD) (L : grid0.Coords) (f : Buf (Elt F) (oLoc d)) : BI.Storable (upEmb : UEmb _ 𝕄) (payL m d L f) := by
  rw [payL_eq]
  infer_instance

theorem tdPayL_eq (d : Dev nD) (L : grid0.Coords) :
    tdPayL m d L = iprop((bigSep Finset.univ fun t : Fin 26 => tblAt m d (Transfers.shareTok fullShare 32 (wOfL L)) t)
      ∗ (bigSep Finset.univ fun t : Fin 26 => colAt m d (LibCover.colRect (L 0) (L 1)).set t)
      ∗ ∃ f, (oLoc d ↦[(LibCover.outRect (L 0) (L 1)).set]{fullShare} f)) := by
  unfold tdPayL
  simp only [tblTokL_eq, colPcL_eq, outPcL_eq, colRectL_eq, oTR_eq]

instance tdPayL_storable (d : Dev nD) (L : grid0.Coords) : BI.Storable (upEmb : UEmb _ 𝕄) (tdPayL m d L) := by
  rw [tdPayL_eq]
  infer_instance

/-! ## The pay record -/

theorem nCore_eq (q : Fin 1) : (K (F := F)).nCore q = 2 := by
  rw [Subsingleton.elim q 0]
theorem nSub_eq (q : Fin 1) : (K (F := F)).nSub q = 16 := by
  rw [Subsingleton.elim q 0]

/-- The coordinates of the call's tile `(c, i)`. -/
abbrev LV {q : Fin 1} (c : Fin ((K (F := F)).nCore q)) (i : Fin ((K (F := F)).nSub q)) : grid0.Coords :=
  coordsV ⟨c.val, c.isLt.trans_eq (nCore_eq (F := F) q)⟩ ⟨i.val, i.isLt.trans_eq (nSub_eq (F := F) q)⟩

/-- The one call: a SparseCore's operands are its sixteen tiles' payloads. -/
def P : (K (F := F)).Pay (nD := nD) (Val := Elt F) (Name := ℕ) (U := UU) where
  st := fun _ d c => bigSep Finset.univ fun i => goPayL m d (LV c i)
  dn := fun _ d c => bigSep Finset.univ fun i => tdPayL m d (LV c i)
  go := fun _ d c i => goPayL m d (LV c i)
  td := fun _ d c i => tdPayL m d (LV c i)
  x := fun _ _ => iprop(emp)

instance P_storable : (P (F := F) m).IsStorable where
  st _ d c := (inferInstance : BI.Storable (upEmb : UEmb _ 𝕄) (bigSep Finset.univ fun i => payL m d (LV c i) (m (oLoc d))))
  dn _ d c := (inferInstance : BI.Storable (upEmb : UEmb _ 𝕄) (bigSep Finset.univ fun i => tdPayL m d (LV c i)))
  go _ d c i := payL_storable m d (LV c i) (m (oLoc d))
  td _ d c i := tdPayL_storable m d (LV c i)

/-- The sequencer hands each tile its own and gets each tile's back. -/
theorem vecSplit : (K (F := F)).VecSplit' (P m) 0 := by
  intro d c
  show (bigSep Finset.univ fun i : Fin ((K (F := F)).nSub 0) => goPayL m d (LV c i)) ⊢ |={Set.univ}=> iprop(
      (bigSep Finset.univ fun i : Fin ((K (F := F)).nSub 0) => goPayL m d (LV c i))
      ∗ ((bigSep Finset.univ fun i : Fin ((K (F := F)).nSub 0) => tdPayL m d (LV c i))
          -∗ bigSep Finset.univ fun i : Fin ((K (F := F)).nSub 0) => tdPayL m d (LV c i)))
  iintro H
  imodintro
  isplitl [H]
  · iexact H
  · iintro H
    iexact H

end Cert.Proof.KB

end
-- ==== Proof.LaunchKBa.lean ====
import proofs.«204019_g4913442586959_cont_sun_m_672_34_alg».proof.Proof.SetupKB

/-!
# Splitting the call's operands among the 32 tiles, and joining them back

Before the call the TensorCore holds every array whole. A table is split into 32 read shares and a remainder; a
reshaped column and the output are split along the 32 tiles' row ranges, which are pairwise disjoint and cover the
rows. Regrouped per tile these are the tiles' payloads, and the same regrouping read backwards joins what the tiles
hand back: the tables' shares to the whole tables, the output's pieces — all at one function — to the whole output.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

local notation "𝕄" => MT nD τ sig (HIx 1) (Elt F) ℕ UU ℕ

/-! ## Products of products -/

omit F in
/-- Two nested products may be taken in either order. -/
theorem bigSep_comm' {M : Type} [URA M] {A B : Type} (s : Finset A) (t : Finset B) (Φ : A → B → sProp M) :
    (bigSep s fun a => bigSep t fun b => Φ a b) = bigSep t fun b => bigSep s fun a => Φ a b := by
  classical
  induction t using Finset.induction_on with
  | empty => simp only [bigSep_empty, bigSep_emp_const]
  | insert b t hb ih =>
    simp only [bigSep_insert hb]
    rw [bigSep_sep, ih]

omit F in
/-- A product over `s` of two products over `t` and a third factor, regrouped: the two products over `t` of products over `s`, and the third factors. -/
theorem regroup_abs {M : Type} [URA M] {A B : Type} (s : Finset A) (t : Finset B) (Φ Ψ : A → B → sProp M) (C : A → sProp M) :
    (bigSep s fun a => iprop((bigSep t fun b => Φ a b) ∗ (bigSep t fun b => Ψ a b) ∗ C a))
      = iprop((bigSep t fun b => bigSep s fun a => Φ a b) ∗ (bigSep t fun b => bigSep s fun a => Ψ a b) ∗ bigSep s C) := by
  rw [bigSep_sep', bigSep_sep', bigSep_comm' s t Φ, bigSep_comm' s t Ψ]

/-- Tile `(c, i)` has number `2 i + c`: a bijection onto `0 … 31`. -/
def wEquiv : Fin 2 × Fin 16 ≃ Fin 32 where
  toFun p := wOf p.1 p.2
  invFun w := (⟨w.val % 2, Nat.mod_lt _ (by omega)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit F in
/-- A product over the 32 tile numbers is a product over the tiles. -/
theorem bigSep_tiles {M : Type} [URA M] (Φ : Fin 32 → sProp M) :
    (bigSep Finset.univ fun p : Fin 2 × Fin 16 => Φ (wOf p.1 p.2)) = bigSep Finset.univ Φ := by
  rw [← Finset.map_univ_equiv wEquiv, bigSep_map]
  rfl

theorem wOfL_coordsV (c : Fin 2) (i : Fin 16) : wOfL (coordsV c i) = wOf c i := rfl

omit F in
/-- A product over `Fin n` read over `Fin n'`, the two numbers equal. -/
theorem bigSep_fin_cast {M : Type} [URA M] {n n' : ℕ} (h : n = n') (Φ : Fin n → sProp M) :
    bigSep Finset.univ Φ = bigSep Finset.univ fun c : Fin n' => Φ (Fin.cast h.symm c) := by
  subst h
  rfl

/-- A product over the call's SparseCores and their subcores is a product over the 32 tiles. -/
theorem tiles_flat (Φ : grid0.Coords → sProp 𝕄) :
    (bigSep Finset.univ fun c : Fin ((K (F := F)).nCore 0) => bigSep Finset.univ fun i : Fin ((K (F := F)).nSub 0) => Φ (LV c i))
      = bigSep Finset.univ fun p : Fin 2 × Fin 16 => Φ (coordsV p.1 p.2) := by
  rw [bigSep_fin_cast (nCore_zero (F := F)), bigSep_univ_prod]
  refine bigSep_congr fun c _ => ?_
  rw [bigSep_fin_cast (nSub_zero (F := F))]
  rfl

/-! ## One array along a disjoint cover -/

/-- An array held whole is held piece by piece along a family of pairwise disjoint element sets that covers it. -/
theorem pointsTo_cover {T' : Type} [Fintype T'] {ℓ : Loc nD τ sig} (Kf : T' → Finset (Idx ℓ))
    (hd : ∀ t t', t ≠ t' → Disjoint (Kf t) (Kf t')) (hc : (Finset.univ : Finset T').biUnion Kf = Finset.univ)
    (q : PosShare TreeShare) (f : Buf (Elt F) ℓ) :
    (ℓ ↦[Finset.univ]{q} f : sProp 𝕄) = bigSep Finset.univ fun t => ℓ ↦[Kf t]{q} f := by
  rw [← pointsTo_biUnion Finset.univ Kf (fun t _ t' _ h => hd t t' h), hc]

variable (m : (ℓ : Loc nD τ sig) → Buf (Elt F) ℓ)

/-- A table whole is a remainder and 32 read shares. -/
theorem tbl_toks (d : Dev nD) (t : Fin 26) :
    (tblAt m d fullShare t : sProp 𝕄) ⊣⊢ iprop(tblAt m d (Transfers.shareDrop fullShare 32) t
      ∗ bigSep Finset.univ fun w : Fin 32 => tblAt m d (Transfers.shareTok fullShare 32 w) t) := by
  fin_cases t <;> exact Transfers.pointsTo_toks fullShare 32

/-- A reshaped column whole is its 32 tiles' rows. -/
theorem col_cover (d : Dev nD) (t : Fin 26) :
    (colAt m d Finset.univ t : sProp 𝕄)
      = bigSep Finset.univ fun p : Fin 2 × Fin 16 => colAt m d (LibCover.colRect p.1 p.2).set t := by
  fin_cases t <;>
    (apply pointsTo_cover
     · exact fun p p' h => LibCover.colRect_disjoint p.1 p.2 p'.1 p'.2 h
     · exact LibCover.colRect_cover)

omit m in
/-- The output whole is its 32 tiles' rows. -/
theorem out_cover (d : Dev nD) (f : Buf (Elt F) (oLoc d)) :
    (oLoc d ↦[Finset.univ]{fullShare} f : sProp 𝕄)
      = bigSep Finset.univ fun p : Fin 2 × Fin 16 => oLoc d ↦[(LibCover.outRect p.1 p.2).set]{fullShare} f :=
  pointsTo_cover (ℓ := oLoc d) (fun p : Fin 2 × Fin 16 => (LibCover.outRect p.1 p.2).set)
    (fun p p' h => LibCover.outRect_disjoint p.1 p.2 p'.1 p'.2 h) LibCover.outRect_cover fullShare f

/-! ## The 32 payloads, regrouped per array -/

set_option maxHeartbeats 2000000 in
/-- All tiles' tables' shares and columns' rows, beside anything `C` per tile: every table's 32 shares, every reshaped
    column whole, and the `C`s. -/
theorem regroup (d : Dev nD) (C : Fin 2 × Fin 16 → sProp 𝕄) :
    (bigSep Finset.univ fun p : Fin 2 × Fin 16 =>
      iprop((bigSep Finset.univ fun t : Fin 26 => tblAt m d (Transfers.shareTok fullShare 32 (wOf p.1 p.2)) t)
        ∗ (bigSep Finset.univ fun t : Fin 26 => colAt m d (LibCover.colRect p.1 p.2).set t) ∗ C p))
      = iprop((bigSep Finset.univ fun t : Fin 26 => bigSep Finset.univ fun w : Fin 32 => tblAt m d (Transfers.shareTok fullShare 32 w) t)
          ∗ (bigSep Finset.univ fun t : Fin 26 => colAt m d Finset.univ t) ∗ bigSep Finset.univ C) := by
  have hA : (bigSep Finset.univ fun t : Fin 26 => bigSep Finset.univ fun p : Fin 2 × Fin 16 =>
        tblAt m d (Transfers.shareTok fullShare 32 (wOf p.1 p.2)) t)
      = (bigSep Finset.univ fun t : Fin 26 => bigSep Finset.univ fun w : Fin 32 => tblAt m d (Transfers.shareTok fullShare 32 w) t) :=
    bigSep_congr fun t _ => bigSep_tiles (fun w => tblAt m d (Transfers.shareTok fullShare 32 w) t)
  have hB : (bigSep Finset.univ fun t : Fin 26 => bigSep Finset.univ fun p : Fin 2 × Fin 16 =>
        colAt m d (LibCover.colRect p.1 p.2).set t)
      = (bigSep Finset.univ fun t : Fin 26 => colAt m d Finset.univ t) :=
    bigSep_congr fun t _ => (col_cover m d t).symm
  exact (regroup_abs Finset.univ Finset.univ
    (fun (p : Fin 2 × Fin 16) (t : Fin 26) => tblAt m d (Transfers.shareTok fullShare 32 (wOf p.1 p.2)) t)
    (fun (p : Fin 2 × Fin 16) (t : Fin 26) => colAt m d (LibCover.colRect p.1 p.2).set t) C).trans
    (congrArg₂ (fun X Y : sProp 𝕄 => iprop(X ∗ Y ∗ bigSep Finset.univ C)) hA hB)

/-- All tiles' payloads, the output rows at `f`: every table's 32 shares, every reshaped column whole, the output whole at `f`. -/
theorem pays_eq (d : Dev nD) (f : Buf (Elt F) (oLoc d)) :
    (bigSep Finset.univ fun c : Fin ((K (F := F)).nCore 0) => bigSep Finset.univ fun i : Fin ((K (F := F)).nSub 0) => payL m d (LV c i) f)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} f)) := by
  rw [tiles_flat (fun L => payL m d L f)]
  simp only [payL_eq]
  rw [out_cover]
  exact regroup m d (fun p => oLoc d ↦[(LibCover.outRect p.1 p.2).set]{fullShare} f)

omit m in
set_option maxHeartbeats 2000000 in
set_option synthInstance.maxHeartbeats 1000000 in
/-- Output rows held tile by tile, each at what its tile left: the output whole, at some contents. -/
theorem outs_join (d : Dev nD) (f₀ : Buf (Elt F) (oLoc d)) :
    (bigSep Finset.univ fun p : Fin 2 × Fin 16 => iprop(∃ f, (oLoc d ↦[(LibCover.outRect p.1 p.2).set]{fullShare} f : sProp 𝕄)))
      ⊢ (iprop(∃ g, oLoc d ↦[Finset.univ]{fullShare} g) : sProp 𝕄) := by
  haveI : Nonempty (Buf (Elt F) (oLoc d)) := ⟨f₀⟩
  haveI : ∀ _ : Fin 2 × Fin 16, Nonempty (Buf (Elt F) (oLoc d)) := fun _ => ⟨f₀⟩
  refine (bigSep_exists_pi Finset.univ (fun (p : Fin 2 × Fin 16) (f : Buf (Elt F) (oLoc d)) =>
    (oLoc d ↦[(LibCover.outRect p.1 p.2).set]{fullShare} f : sProp 𝕄))).trans ?_
  iintro ⟨%fs, H⟩
  ihave H' := (pointsTo_biUnion_join (ℓ := oLoc d) (q := fullShare) (Val := Elt F) Finset.univ
    (fun p : Fin 2 × Fin 16 => (LibCover.outRect p.1 p.2).set) fs (fs (0, 0))
    (fun p _ p' _ h => LibCover.outRect_disjoint p.1 p.2 p'.1 p'.2 h)) $$ H
  icases H' with ⟨%g, -, Hg⟩
  rw [LibCover.outRect_cover]
  iexists g
  iexact Hg

/-- What the call takes for the two SparseCores, -/
theorem st0_eq (d : Dev nD) :
    (bigSep Finset.univ fun c : Fin ((K (F := F)).nCore 0) => (P m).st 0 d c)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} m (oLoc d))) := by
  show (bigSep Finset.univ fun c : Fin ((K (F := F)).nCore 0) => bigSep Finset.univ fun i : Fin ((K (F := F)).nSub 0) => payL m d (LV c i) (m (oLoc d))) = _
  exact pays_eq m d (m (oLoc d))

/-- and what it hands back. -/
theorem dn0_join (d : Dev nD) :
    (bigSep Finset.univ fun c : Fin ((K (F := F)).nCore 0) => (P m).dn 0 d c)
      ⊢ (iprop((bigSep Finset.univ fun t : Fin 26 => bigSep Finset.univ fun w : Fin 32 => tblAt m d (Transfers.shareTok fullShare 32 w) t)
          ∗ (bigSep Finset.univ fun t : Fin 26 => colAt m d Finset.univ t) ∗ ∃ g, oLoc d ↦[Finset.univ]{fullShare} g) : sProp 𝕄) := by
  show (bigSep Finset.univ fun c : Fin ((K (F := F)).nCore 0) => bigSep Finset.univ fun i : Fin ((K (F := F)).nSub 0) => tdPayL m d (LV c i)) ⊢ _
  rw [tiles_flat (fun L => tdPayL m d L)]
  simp only [tdPayL_eq]
  refine (Entails.of_eq (regroup m d (fun p => iprop(∃ f, (oLoc d ↦[(LibCover.outRect p.1 p.2).set]{fullShare} f : sProp 𝕄))))).trans ?_
  iintro ⟨Ht, Hc, Ho⟩
  isplitl [Ht]; · iexact Ht
  isplitl [Hc]; · iexact Hc
  iapply (outs_join d (m (oLoc d)))
  iexact Ho

end Cert.Proof.KB

end
-- ==== Proof.LaunchKB.lean ====
import proofs.«204019_g4913442586959_cont_sun_m_672_34_alg».proof.Proof.LaunchKBa
import Idealize.ShloMosaic.Lib.Pipeline.Frame
import proofs.«204019_g4913442586959_cont_sun_m_672_34_alg».proof.Proof.Gen.Pre_input_domain

/-!
# The launch

@main on a TensorCore: the 26 reshapes run as one straight line over the buffers the TensorCore holds whole; the
reshaped columns, the tables and the output are then taken out of that set, split among the 32 tiles and handed to
the call; what comes back is joined, and the tables and the output (now at the function the claim names) are put
beside the rest, which no step has touched. The final memory is read off what is held.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

local notation "𝕄" => MT nD τ sig (HIx 1) (Elt F) ℕ UU ℕ

open Idealize.ShloMosaic.Pipeline (ucRefs unscopedBufs_held sub_ucRefs)

/-! ## Reading a held set off the final state -/

/-- Under the state interpretation, buffers held whole pin the physical contents. -/
theorem held_agree (c : Thread nD τ) (S' : Finset (DevRef τ sig)) (W : Valuation τ sig (Elt F)) (st : Phys nD τ sig (Elt F)) :
    iprop((held c S' W : sProp 𝕄) ∗ SI st) ⊢ (⌜∀ b ∈ S', st.mem.mem (c.1, b) = W b⌝ : sProp 𝕄) := by
  classical
  unfold held
  induction S' using Finset.induction_on with
  | empty =>
    iintro -
    ipureintro
    exact fun b hb => absurd hb (Finset.notMem_empty b)
  | insert b S' hb ih =>
    rw [SparseCore.bigSep_insert' hb]
    iintro ⟨⟨Hb, HS⟩, HSI⟩
    ihave H := (persistent_entails_right (SI_pointsTo_agree (st := st) (ℓ := (c.1, b)) (I := Finset.univ) (q := fullShare) (f := W b))) $$ [HSI Hb]
    · isplitl [HSI] <;> iassumption
    icases H with ⟨%h1, HSI, -⟩
    ihave %h2 := ih $$ [HS HSI]
    · isplitl [HS] <;> iassumption
    ipureintro
    intro b' hb'
    rcases Finset.mem_insert.1 hb' with rfl | hb'
    · exact funext fun i => h1 i (Finset.mem_univ i)
    · exact h2 b' hb'

/-! ## The reshapes -/

theorem mainOps_ok : ∀ op ∈ (mainOps : List (HloOp τ sig (Elt F))), op.bufs ⊆ ucRefs τ sig ∧ op.fresh = ∅ := by
  have key : ∀ (x y : Ref sig .tc) (he : x.ty.elt = y.ty.elt) (hn : x.ty.shape.ShapeCasts y.ty.shape)
      (hx : x.space ≠ .host ∧ (Proc.devRef (τ := τ) .tc x).isScoped = false) (hy : y.space ≠ .host ∧ (Proc.devRef (τ := τ) .tc y).isScoped = false),
      (StableHlo.reshape (τ := τ) (Val := Elt F) x y he hn hx hy).bufs ⊆ ucRefs τ sig
        ∧ (StableHlo.reshape (τ := τ) (Val := Elt F) x y he hn hx hy).fresh = ∅ :=
    fun x y he hn hx hy => ⟨sub_ucRefs _ (StableHlo.reshape_bufs_sub (he := he) (hn := hn) (hx := hx) (hy := hy)), rfl⟩
  intro op hop
  unfold mainOps at hop
  simp only [List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl <;> exact key _ _ _ _ _ _

/-! ## The held set, array by array -/

theorem vRefs_inj : Function.Injective (vRefs : Fin 26 → DevRef τ sig) := by decide
theorem tblRefs_inj : Function.Injective (tblRefs : Fin 26 → DevRef τ sig) := by decide

/-- The reshaped columns, the tables, the output, and the TensorCore's other unscoped buffers. -/
def vS : Finset (DevRef τ sig) := Finset.univ.map ⟨vRefs, vRefs_inj⟩
def tblS : Finset (DevRef τ sig) := Finset.univ.map ⟨tblRefs, tblRefs_inj⟩
abbrev oRef : DevRef τ sig := Proc.devRef .tc (main_v26 : Ref sig .tc)
def restS : Finset (DevRef τ sig) := ((ucRefs τ sig \ vS) \ tblS) \ {oRef}

theorem mem_ucRefs (r : Ref sig .tc) (h : (Proc.devRef (τ := τ) .tc r).isScoped = false) : Proc.devRef (τ := τ) .tc r ∈ ucRefs τ sig :=
  Finset.mem_filter.mpr ⟨StableHlo.devRef_mem_tcRefs r, by rw [h]; exact Bool.false_ne_true⟩

theorem vRefs_mem (t : Fin 26) : vRefs t ∈ ucRefs τ sig := by fin_cases t <;> exact mem_ucRefs _ rfl
theorem tblRefs_mem (t : Fin 26) : tblRefs t ∈ ucRefs τ sig := by fin_cases t <;> exact mem_ucRefs _ rfl
theorem colRefs_mem (t : Fin 26) : colRefs t ∈ ucRefs τ sig := by fin_cases t <;> exact mem_ucRefs _ rfl
theorem oRef_mem : oRef ∈ ucRefs τ sig := mem_ucRefs _ rfl

theorem tbl_not_v : ∀ t : Fin 26, tblRefs t ∉ vS := by decide
theorem col_not_v : ∀ t : Fin 26, colRefs t ∉ vS := by decide
theorem col_not_tbl : ∀ t : Fin 26, colRefs t ∉ tblS := by decide
theorem col_ne_o : ∀ t : Fin 26, colRefs t ≠ oRef := by decide
theorem o_not_v : oRef ∉ vS := by decide
theorem o_not_tbl : oRef ∉ tblS := by decide

theorem vS_sub : vS ⊆ ucRefs τ sig := fun b hb => by
  obtain ⟨t, -, rfl⟩ := Finset.mem_map.1 hb
  exact vRefs_mem t
theorem tblS_sub : tblS ⊆ ucRefs τ sig \ vS := fun b hb => by
  obtain ⟨t, -, rfl⟩ := Finset.mem_map.1 hb
  exact Finset.mem_sdiff.2 ⟨tblRefs_mem t, tbl_not_v t⟩
theorem o_sub : ({oRef} : Finset (DevRef τ sig)) ⊆ (ucRefs τ sig \ vS) \ tblS :=
  Finset.singleton_subset_iff.2 (Finset.mem_sdiff.2 ⟨Finset.mem_sdiff.2 ⟨oRef_mem, o_not_v⟩, o_not_tbl⟩)
theorem colRefs_mem_rest (t : Fin 26) : colRefs t ∈ restS :=
  Finset.mem_sdiff.2 ⟨Finset.mem_sdiff.2 ⟨Finset.mem_sdiff.2 ⟨colRefs_mem t, col_not_v t⟩, col_not_tbl t⟩,
    fun h => col_ne_o t (Finset.mem_singleton.1 h)⟩

/-- Every reshape writes a reshaped column only. -/
theorem writes_sub_vS : ∀ op ∈ (mainOps : List (HloOp τ sig (Elt F))), op.writes ⊆ vS := by
  intro op hop
  unfold mainOps at hop
  simp only [List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl <;> (rw [StableHlo.reshape_writes]; decide)

variable (m : (ℓ : Loc nD τ sig) → Buf (Elt F) ℓ) (ρ : Dev nD → PrngReg)

/-- A buffer that is not a reshaped column is at its launch contents after the reshapes. -/
theorem V1_of_not_v (d : Dev nD) {b : DevRef τ sig} (hb : b ∉ vS) : V1 m d b = V0 m d b :=
  StableHlo.after_of_forall_not_mem mainOps (V0 m d) fun op hop hw => hb (writes_sub_vS op hop hw)

theorem held_vS (d : Dev nD) :
    (held (d.tc : Thread nD τ) vS (V1 m d) : sProp 𝕄) = bigSep Finset.univ fun t : Fin 26 => colAt m d Finset.univ t := by
  unfold held vS
  rw [bigSep_map]
  exact bigSep_congr fun t _ => by fin_cases t <;> rfl

theorem held_tblS (d : Dev nD) :
    (held (d.tc : Thread nD τ) tblS (V0 m d) : sProp 𝕄) = bigSep Finset.univ fun t : Fin 26 => tblAt m d fullShare t := by
  unfold held tblS
  rw [bigSep_map]
  exact bigSep_congr fun t _ => by fin_cases t <;> rfl

omit m in
theorem held_o (d : Dev nD) (W : Valuation τ sig (Elt F)) :
    (held (d.tc : Thread nD τ) {oRef} W : sProp 𝕄) = (oLoc d ↦[Finset.univ]{fullShare} W oRef) := by
  unfold held
  rw [bigSep_singleton]

/-- After the reshapes the TensorCore holds: the reshaped columns, the tables, the output, and the rest untouched. -/
theorem held_parts (d : Dev nD) :
    (held (d.tc : Thread nD τ) (ucRefs τ sig) (V1 m d) : sProp 𝕄)
      = iprop((bigSep Finset.univ fun t : Fin 26 => colAt m d Finset.univ t) ∗ (bigSep Finset.univ fun t : Fin 26 => tblAt m d fullShare t)
          ∗ (oLoc d ↦[Finset.univ]{fullShare} m (oLoc d)) ∗ held (d.tc : Thread nD τ) restS (V0 m d)) := by
  rw [StableHlo.held_sub_split (d.tc : Thread nD τ) vS_sub (V1 m d), held_vS,
    StableHlo.held_congr (d.tc : Thread nD τ) (S := ucRefs τ sig \ vS) (V := V1 m d) (V' := V0 m d)
      (fun b hb => V1_of_not_v m d (Finset.mem_sdiff.1 hb).2),
    StableHlo.held_sub_split (d.tc : Thread nD τ) tblS_sub (V0 m d), held_tblS,
    StableHlo.held_sub_split (d.tc : Thread nD τ) o_sub (V0 m d), held_o]
  rfl

/-- The same, the contents after the reshapes written out. -/
theorem held_parts' (d : Dev nD) :
    (held (d.tc : Thread nD τ) (ucRefs τ sig) (StableHlo.after mainOps (V0 m d)) : sProp 𝕄)
      = iprop((bigSep Finset.univ fun t : Fin 26 => colAt m d Finset.univ t) ∗ (bigSep Finset.univ fun t : Fin 26 => tblAt m d fullShare t)
          ∗ (oLoc d ↦[Finset.univ]{fullShare} m (oLoc d)) ∗ held (d.tc : Thread nD τ) restS (V0 m d)) := held_parts m d

/-- The tables, each whole: their remainders and their 32 shares; -/
theorem tbls_split (d : Dev nD) :
    (bigSep Finset.univ fun t : Fin 26 => tblAt m d fullShare t)
      ⊢ (iprop((bigSep Finset.univ fun t : Fin 26 => tblAt m d (Transfers.shareDrop fullShare 32) t)
        ∗ bigSep Finset.univ fun t : Fin 26 => bigSep Finset.univ fun w : Fin 32 => tblAt m d (Transfers.shareTok fullShare 32 w) t) : sProp 𝕄) := by
  rw [← bigSep_sep']
  exact bigSep_mono fun t _ => (tbl_toks m d t).1

/-- joined back. -/
theorem tbls_join (d : Dev nD) :
    (iprop((bigSep Finset.univ fun t : Fin 26 => tblAt m d (Transfers.shareDrop fullShare 32) t)
        ∗ bigSep Finset.univ fun t : Fin 26 => bigSep Finset.univ fun w : Fin 32 => tblAt m d (Transfers.shareTok fullShare 32 w) t) : sProp 𝕄)
      ⊢ bigSep Finset.univ fun t : Fin 26 => tblAt m d fullShare t := by
  rw [← bigSep_sep']
  exact bigSep_mono fun t _ => (tbl_toks m d t).2

/-! ## @main on the TensorCore -/

variable [FloatOps F]

/-- @main is the 26 reshapes in a row, then the call. -/
theorem main_eq (d : Dev nD) :
    main (F := F) d = StableHlo.seq (mainOps (F := F)) >>= fun _ => ((K (F := F)).run d 0 >>= fun _ => pure ⟨⟩) := rfl

/-- What @main leaves the claim: the tables and the other untouched buffers (the columns among them) at their launch
    contents, the output at what the tiles left. -/
def FIN (d : Dev nD) : sProp 𝕄 :=
  iprop((bigSep Finset.univ fun t : Fin 26 => tblAt m d fullShare t) ∗ (∃ g, oLoc d ↦[Finset.univ]{fullShare} g)
    ∗ held (d.tc : Thread nD τ) restS (V0 m d))

set_option backward.isDefEq.respectTransparency.types false in
set_option maxHeartbeats 2000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (d.tc : Thread nD τ) (ucRefs τ sig) (V0 m d)
      from unscopedBufs_held d (V0 m d), main_eq]
  iintro ⟨#Hctx, Hst, ⟨Hb, Hheld, -, -⟩, -⟩
  iapply (StableHlo.wp_seq 𝒱 none Set.univ d (ucRefs τ sig) _ mainOps (fun op h => (mainOps_ok op h).1)
    (fun op h => (mainOps_ok op h).2) (V0 m d)) $$ [Hb Hheld]
  · isplitl [Hb]; · iexact Hb
    iexact Hheld
  iintro ⟨Hb, Hheld⟩
  ihave H := (Entails.of_eq (held_parts' m d)) $$ Hheld
  icases H with ⟨Hv, Htbl, Ho, Hrest⟩
  ihave Ht := (tbls_split m d) $$ Htbl
  icases Ht with ⟨Hdrop, Htok⟩
  simp only [wp_bind, wp_pure]
  iapply ((K (F := F)).wp_run (D (F := F)) 𝒱 (EH := EH) (P := P m) κ d 0) $$ [Hst Htok Hv Ho Hdrop Hrest Hb]
  isplitr; · iexact Hctx
  isplitl [Hst]; · iexact Hst
  isplitl [Htok Hv Ho]
  · rw [st0_eq]
    isplitl [Htok]; · iexact Htok
    isplitl [Hv]; · iexact Hv
    iexact Ho
  iintro ⟨Hst, Hdn⟩
  ihave Hdn' := (dn0_join m d) $$ Hdn
  icases Hdn' with ⟨Htok, -, Ho⟩
  ihave Htbl := (tbls_join m d) $$ [Hdrop Htok]
  · isplitl [Hdrop]; · iexact Hdrop
    iexact Htok
  imodintro
  isplitl [Hst]; · iexact Hst
  unfold FIN
  isplitl [Htbl]; · iexact Htbl
  isplitl [Ho]; · iexact Ho
  iexact Hrest

/-- The claim's reading of the final memory of device `d`: the 52 arguments hold what they held (the output what it holds). -/
def fq (d : Dev nD) (s' : Phys nD τ sig (Elt F)) : Prop := QCat.{0} m d (s'.mem.mem ((d.tc : Thread nD τ).loc main_v26)) (⟨⟩, s'.mem)

set_option maxRecDepth 16384 in
set_option maxHeartbeats 2000000 in
theorem hfin (d : Dev nD) (s' : Phys nD τ sig (Elt F)) : iprop(FIN m d ∗ SI s') ⊢ (⌜fq m d s'⌝ : sProp 𝕄) := by
  unfold FIN
  rw [← held_tblS]
  iintro ⟨⟨Htbl, -, Hrest⟩, HSI⟩
  ihave H := (persistent_entails_right (held_agree (d.tc : Thread nD τ) tblS (V0 m d) s')) $$ [Htbl HSI]
  · isplitl [Htbl] <;> iassumption
  icases H with ⟨%ht, -, HSI⟩
  ihave %hr := (held_agree (d.tc : Thread nD τ) restS (V0 m d) s') $$ [Hrest HSI]
  · isplitl [Hrest] <;> iassumption
  ipureintro
  have hc : ∀ t : Fin 26, s'.mem.mem (d, colRefs t) = V0 m d (colRefs t) := fun t => hr _ (colRefs_mem_rest t)
  have htb : ∀ t : Fin 26, s'.mem.mem (d, tblRefs t) = V0 m d (tblRefs t) :=
    fun t => ht _ (Finset.mem_map_of_mem _ (Finset.mem_univ t))
  unfold fq QCat
  exact ⟨rfl, hc 0, hc 1, hc 2, hc 3, hc 4, hc 5, hc 6, hc 7, hc 8, hc 9, hc 10, hc 11, hc 12, hc 13, hc 14, hc 15, hc 16, hc 17, hc 18, hc 19, hc 20, hc 21, hc 22, hc 23, hc 24, hc 25, htb 0, htb 1, htb 2, htb 3, htb 4, htb 5, htb 6, htb 7, htb 8, htb 9, htb 10, htb 11, htb 12, htb 13, htb 14, htb 15, htb 16, htb 17, htb 18, htb 19, htb 20, htb 21, htb 22, htb 23, htb 24, htb 25⟩

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program's run -/

/-- On every device the 52 arguments hold what they held. -/
def QC : PUnit × MemSt nD τ sig (Elt F) → Prop := fun r => ∀ d : Dev nD, QCat.{0} m d (r.2.mem ((d.tc : Thread nD τ).loc main_v26)) r

/-- Given the tiles' obligation, every weakly fair run of the program ends, in a memory of which `QC` holds. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.ColValKB.lean ====
import proofs.«204019_g4913442586959_cont_sun_m_672_34_alg».proof.Proof.TablesKB
import Idealize.ShloMosaic.Lib.ValueIdx

/-!
# The reshaped columns

The host reshapes each column of 16384 words into 128 rows of 128 words before the call: entry `(R, p)` of the
reshaped column is entry `128·R + p` of the column (row-major order on both sides).
-/

noncomputable section

namespace Cert.Proof.KBV

open Cert.Kernel Cert.Kernel.Gen

open Idealize.ShloMosaic
open Idealize.ShloMosaic.SparseCore (S V T)
open Idealize.ShloMosaic.ValueIdx
open Idealize.ShloMosaic.StableHlo
open Cert.Proof.KB

variable {F : FTy → Type}

/-- The position of entry `(R, p)` of a reshaped column in the column. -/
def colIx (R p : Fin 128) : Fin 16384 := ⟨128 * R.val + p.val, by have := R.isLt; have := p.isLt; omega⟩

/-- A column of 16384 entries cast to 128 rows of 128 reads, at `(R, p)`, the column at `128·R + p`. -/
theorem shapeCast_col {α : Type} (x : S16384.Idx → α) (h : S16384.ShapeCasts S128x128) (R p : Fin 128) :
    shapeCast S128x128 x h (ix2 R p) = x (ix1 (colIx R p)) := by
  unfold shapeCast
  refine congrArg x (Shape.reshapeEquiv_eq_of_rowMajor h ?_)
  rw [Shape.rowMajor_val_one, Shape.rowMajor_val_two]
  show 128 * R.val + p.val = R.val * 128 + p.val
  omega

variable (m : (ℓ : Loc nD τ sig) → Buf (Elt F) ℓ)

theorem V1_col_0 (d : Dev nD) (R p : Fin 128) :
    (V1 m d (Proc.devRef .tc (main_v0 : Ref sig .tc)) : S128x128.Idx → Elt F .i32) (ix2 R p) = colVal0 m d (ix1 (colIx R p)) := by
  have e : (V1 m d (Proc.devRef .tc (main_v0 : Ref sig .tc)) : S128x128.Idx → Elt F .i32)
      = shapeCast S128x128 (colVal0 m d) shapeCasts_S16384_S128x128 := by
    show StableHlo.after mainOps (V0 m d) (Proc.devRef .tc (main_v0 : Ref sig .tc)) = _
    unfold mainOps
    after_results
    rfl
  rw [e]
  exact shapeCast_col _ _ R p
theorem V1_col_1 (d : Dev nD) (R p : Fin 128) :
    (V1 m d (Proc.devRef .tc (main_v1 : Ref sig .tc)) : S128x128.Idx → Elt F .i32) (ix2 R p) = colVal1 m d (ix1 (colIx R p)) := by
  have e : (V1 m d (Proc.devRef .tc (main_v1 : Ref sig .tc)) : S128x128.Idx → Elt F .i32)
      = shapeCast S128x128 (colVal1 m d) shapeCasts_S16384_S128x128 := by
    show StableHlo.after mainOps (V0 m d) (Proc.devRef .tc (main_v1 : Ref sig .tc)) = _
    unfold mainOps
    after_results
    rfl
  rw [e]
  exact shapeCast_col _ _ R p
theorem V1_col_2 (d : Dev nD) (R p : Fin 128) :
    (V1 m d (Proc.devRef .tc (main_v2 : Ref sig .tc)) : S128x128.Idx → Elt F .i32) (ix2 R p) = colVal2 m d (ix1 (colIx R p)) := by
  have e : (V1 m d (Proc.devRef .tc (main_v2 : Ref sig .tc)) : S128x128.Idx → Elt F .i32)
      = shapeCast S128x128 (colVal2 m d) shapeCasts_S16384_S128x128 := by
    show StableHlo.after mainOps (V0 m d) (Proc.devRef .tc (main_v2 : Ref sig .tc)) = _
    unfold mainOps
    after_results
    rfl
  rw [e]
  exact shapeCast_col _ _ R p
theorem V1_col_3 (d : Dev nD) (R p : Fin 128) :
    (V1 m d (Proc.devRef .tc (main_v3 : Ref sig .tc)) : S128x128.Idx → Elt F .i32) (ix2 R p) = colVal3 m d (ix1 (colIx R p)) := by
  have e : (V1 m d (Proc.devRef .tc (main_v3 : Ref sig .tc)) : S128x128.Idx → Elt F .i32)
      = shapeCast S128x128 (colVal3 m d) shapeCasts_S16384_S128x128 := by
    show StableHlo.after mainOps (V0 m d) (Proc.devRef .tc (main_v3 : Ref sig .tc)) = _
    unfold mainOps
    after_results
    rfl
  rw [e]
  exact shapeCast_col _ _ R p
theorem V1_col_4 (d : Dev nD) (R p : Fin 128) :
    (V1 m d (Proc.devRef .tc (main_v4 : Ref sig .tc)) : S128x128.Idx → Elt F .i32) (ix2 R p) = colVal4 m d (ix1 (colIx R p)) := by
  have e : (V1 m d (Proc.devRef .tc (main_v4 : Ref sig .tc)) : S128x128.Idx → Elt F .i32)
      = shapeCast S128x128 (colVal4 m d) shapeCasts_S16384_S128x128 := by
    show StableHlo.after mainOps (V0 m d) (Proc.devRef .tc (main_v4 : Ref sig .tc)) = _
    unfold mainOps
    after_results
    rfl
  rw [e]
  exact shapeCast_col _ _ R p
theorem V1_col_5 (d : Dev nD) (R p : Fin 128) :
    (V1 m d (Proc.devRef .tc (main_v5 : Ref sig .tc)) : S128x128.Idx → Elt F .i32) (ix2 R p) = colVal5 m d (ix1 (colIx R p)) := by
  have e : (V1 m d (Proc.devRef .tc (main_v5 : Ref sig .tc)) : S128x128.Idx → Elt F .i32)
      = shapeCast S128x128 (colVal5 m d) shapeCasts_S16384_S128x128 := by
    show StableHlo.after mainOps (V0 m d) (Proc.devRef .tc (main_v5 : Ref sig .tc)) = _
    unfold mainOps
    after_results
    rfl
  rw [e]
  exact shapeCast_col _ _ R p
theorem V1_col_6 (d : Dev nD) (R p : Fin 128) :
    (V1 m d (Proc.devRef .tc (main_v6 : Ref sig .tc)) : S128x128.Idx → Elt F .i32) (ix2 R p) = colVal6 m d (ix1 (colIx R p)) := by
  have e : (V1 m d (Proc.devRef .tc (main_v6 : Ref sig .tc)) : S128x128.Idx → Elt F .i32)
      = shapeCast S128x128 (colVal6 m d) shapeCasts_S16384_S128x128 := by
    show StableHlo.after mainOps (V0 m d) (Proc.devRef .tc (main_v6 : Ref sig .tc)) = _
    unfold mainOps
    after_results
    rfl
  rw [e]
  exact shapeCast_col _ _ R p
theorem V1_col_7 (d : Dev nD) (R p : Fin 128) :
    (V1 m d (Proc.devRef .tc (main_v7 : Ref sig .tc)) : S128x128.Idx → Elt F .i32) (ix2 R p) = colVal7 m d (ix1 (colIx R p)) := by
  have e : (V1 m d (Proc.devRef .tc (main_v7 : Ref sig .tc)) : S128x128.Idx → Elt F .i32)
      = shapeCast S128x128 (colVal7 m d) shapeCasts_S16384_S128x128 := by
    show StableHlo.after mainOps (V0 m d) (Proc.devRef .tc (main_v7 : Ref sig .tc)) = _
    unfold mainOps
    after_results
    rfl
  rw [e]
  exact shapeCast_col _ _ R p
theorem V1_col_8 (d : Dev nD) (R p : Fin 128) :
    (V1 m d (Proc.devRef .tc (main_v8 : Ref sig .tc)) : S128x128.Idx → Elt F .i32) (ix2 R p) = colVal8 m d (ix1 (colIx R p)) := by
  have e : (V1 m d (Proc.devRef .tc (main_v8 : Ref sig .tc)) : S128x128.Idx → Elt F .i32)
      = shapeCast S128x128 (colVal8 m d) shapeCasts_S16384_S128x128 := by
    show StableHlo.after mainOps (V0 m d) (Proc.devRef .tc (main_v8 : Ref sig .tc)) = _
    unfold mainOps
    after_results
    rfl
  rw [e]
  exact shapeCast_col _ _ R p
theorem V1_col_9 (d : Dev nD) (R p : Fin 128) :
    (V1 m d (Proc.devRef .tc (main_v9 : Ref sig .tc)) : S128x128.Idx → Elt F .i32) (ix2 R p) = colVal9 m d (ix1 (colIx R p)) := by
  have e : (V1 m d (Proc.devRef .tc (main_v9 : Ref sig .tc)) : S128x128.Idx → Elt F .i32)
      = shapeCast S128x128 (colVal9 m d) shapeCasts_S16384_S128x128 := by
    show StableHlo.after mainOps (V0 m d) (Proc.devRef .tc (main_v9 : Ref sig .tc)) = _
    unfold mainOps
    after_results
    rfl
  rw [e]
  exact shapeCast_col _ _ R p
theorem V1_col_10 (d : Dev nD) (R p : Fin 128) :
    (V1 m d (Proc.devRef .tc (main_v10 : Ref sig .tc)) : S128x128.Idx → Elt F .i32) (ix2 R p) = colVal10 m d (ix1 (colIx R p)) := by
  have e : (V1 m d (Proc.devRef .tc (main_v10 : Ref sig .tc)) : S128x128.Idx → Elt F .i32)
      = shapeCast S128x128 (colVal10 m d) shapeCasts_S16384_S128x128 := by
    show StableHlo.after mainOps (V0 m d) (Proc.devRef .tc (main_v10 : Ref sig .tc)) = _
    unfold mainOps
    after_results
    rfl
  rw [e]
  exact shapeCast_col _ _ R p
theorem V1_col_11 (d : Dev nD) (R p : Fin 128) :
    (V1 m d (Proc.devRef .tc (main_v11 : Ref sig .tc)) : S128x128.Idx → Elt F .i32) (ix2 R p) = colVal11 m d (ix1 (colIx R p)) := by
  have e : (V1 m d (Proc.devRef .tc (main_v11 : Ref sig .tc)) : S128x128.Idx → Elt F .i32)
      = shapeCast S128x128 (colVal11 m d) shapeCasts_S16384_S128x128 := by
    show StableHlo.after mainOps (V0 m d) (Proc.devRef .tc (main_v11 : Ref sig .tc)) = _
    unfold mainOps
    after_results
    rfl
  rw [e]
  exact shapeCast_col _ _ R p
theorem V1_col_12 (d : Dev nD) (R p : Fin 128) :
    (V1 m d (Proc.devRef .tc (main_v12 : Ref sig .tc)) : S128x128.Idx → Elt F .i32) (ix2 R p) = colVal12 m d (ix1 (colIx R p)) := by
  have e : (V1 m d (Proc.devRef .tc (main_v12 : Ref sig .tc)) : S128x128.Idx → Elt F .i32)
      = shapeCast S128x128 (colVal12 m d) shapeCasts_S16384_S128x128 := by
    show StableHlo.after mainOps (V0 m d) (Proc.devRef .tc (main_v12 : Ref sig .tc)) = _
    unfold mainOps
    after_results
    rfl
  rw [e]
  exact shapeCast_col _ _ R p
theorem V1_col_13 (d : Dev nD) (R p : Fin 128) :
    (V1 m d (Proc.devRef .tc (main_v13 : Ref sig .tc)) : S128x128.Idx → Elt F .i32) (ix2 R p) = colVal13 m d (ix1 (colIx R p)) := by
  have e : (V1 m d (Proc.devRef .tc (main_v13 : Ref sig .tc)) : S128x128.Idx → Elt F .i32)
      = shapeCast S128x128 (colVal13 m d) shapeCasts_S16384_S128x128 := by
    show StableHlo.after mainOps (V0 m d) (Proc.devRef .tc (main_v13 : Ref sig .tc)) = _
    unfold mainOps
    after_results
    rfl
  rw [e]
  exact shapeCast_col _ _ R p
theorem V1_col_14 (d : Dev nD) (R p : Fin 128) :
    (V1 m d (Proc.devRef .tc (main_v14 : Ref sig .tc)) : S128x128.Idx → Elt F .i32) (ix2 R p) = colVal14 m d (ix1 (colIx R p)) := by
  have e : (V1 m d (Proc.devRef .tc (main_v14 : Ref sig .tc)) : S128x128.Idx → Elt F .i32)
      = shapeCast S128x128 (colVal14 m d) shapeCasts_S16384_S128x128 := by
    show StableHlo.after mainOps (V0 m d) (Proc.devRef .tc (main_v14 : Ref sig .tc)) = _
    unfold mainOps
    after_results
    rfl
  rw [e]
  exact shapeCast_col _ _ R p
theorem V1_col_15 (d : Dev nD) (R p : Fin 128) :
    (V1 m d (Proc.devRef .tc (main_v15 : Ref sig .tc)) : S128x128.Idx → Elt F .i32) (ix2 R p) = colVal15 m d (ix1 (colIx R p)) := by
  have e : (V1 m d (Proc.devRef .tc (main_v15 : Ref sig .tc)) : S128x128.Idx → Elt F .i32)
      = shapeCast S128x128 (colVal15 m d) shapeCasts_S16384_S128x128 := by
    show StableHlo.after mainOps (V0 m d) (Proc.devRef .tc (main_v15 : Ref sig .tc)) = _
    unfold mainOps
    after_results
    rfl
  rw [e]
  exact shapeCast_col _ _ R p
theorem V1_col_16 (d : Dev nD) (R p : Fin 128) :
    (V1 m d (Proc.devRef .tc (main_v16 : Ref sig .tc)) : S128x128.Idx → Elt F .i32) (ix2 R p) = colVal16 m d (ix1 (colIx R p)) := by
  have e : (V1 m d (Proc.devRef .tc (main_v16 : Ref sig .tc)) : S128x128.Idx → Elt F .i32)
      = shapeCast S128x128 (colVal16 m d) shapeCasts_S16384_S128x128 := by
    show StableHlo.after mainOps (V0 m d) (Proc.devRef .tc (main_v16 : Ref sig .tc)) = _
    unfold mainOps
    after_results
    rfl
  rw [e]
  exact shapeCast_col _ _ R p
theorem V1_col_17 (d : Dev nD) (R p : Fin 128) :
    (V1 m d (Proc.devRef .tc (main_v17 : Ref sig .tc)) : S128x128.Idx → Elt F .i32) (ix2 R p) = colVal17 m d (ix1 (colIx R p)) := by
  have e : (V1 m d (Proc.devRef .tc (main_v17 : Ref sig .tc)) : S128x128.Idx → Elt F .i32)
      = shapeCast S128x128 (colVal17 m d) shapeCasts_S16384_S128x128 := by
    show StableHlo.after mainOps (V0 m d) (Proc.devRef .tc (main_v17 : Ref sig .tc)) = _
    unfold mainOps
    after_results
    rfl
  rw [e]
  exact shapeCast_col _ _ R p
theorem V1_col_18 (d : Dev nD) (R p : Fin 128) :
    (V1 m d (Proc.devRef .tc (main_v18 : Ref sig .tc)) : S128x128.Idx → Elt F .i32) (ix2 R p) = colVal18 m d (ix1 (colIx R p)) := by
  have e : (V1 m d (Proc.devRef .tc (main_v18 : Ref sig .tc)) : S128x128.Idx → Elt F .i32)
      = shapeCast S128x128 (colVal18 m d) shapeCasts_S16384_S128x128 := by
    show StableHlo.after mainOps (V0 m d) (Proc.devRef .tc (main_v18 : Ref sig .tc)) = _
    unfold mainOps
    after_results
    rfl
  rw [e]
  exact shapeCast_col _ _ R p
theorem V1_col_19 (d : Dev nD) (R p : Fin 128) :
    (V1 m d (Proc.devRef .tc (main_v19 : Ref sig .tc)) : S128x128.Idx → Elt F .i32) (ix2 R p) = colVal19 m d (ix1 (colIx R p)) := by
  have e : (V1 m d (Proc.devRef .tc (main_v19 : Ref sig .tc)) : S128x128.Idx → Elt F .i32)
      = shapeCast S128x128 (colVal19 m d) shapeCasts_S16384_S128x128 := by
    show StableHlo.after mainOps (V0 m d) (Proc.devRef .tc (main_v19 : Ref sig .tc)) = _
    unfold mainOps
    after_results
    rfl
  rw [e]
  exact shapeCast_col _ _ R p
theorem V1_col_20 (d : Dev nD) (R p : Fin 128) :
    (V1 m d (Proc.devRef .tc (main_v20 : Ref sig .tc)) : S128x128.Idx → Elt F .i32) (ix2 R p) = colVal20 m d (ix1 (colIx R p)) := by
  have e : (V1 m d (Proc.devRef .tc (main_v20 : Ref sig .tc)) : S128x128.Idx → Elt F .i32)
      = shapeCast S128x128 (colVal20 m d) shapeCasts_S16384_S128x128 := by
    show StableHlo.after mainOps (V0 m d) (Proc.devRef .tc (main_v20 : Ref sig .tc)) = _
    unfold mainOps
    after_results
    rfl
  rw [e]
  exact shapeCast_col _ _ R p
theorem V1_col_21 (d : Dev nD) (R p : Fin 128) :
    (V1 m d (Proc.devRef .tc (main_v21 : Ref sig .tc)) : S128x128.Idx → Elt F .i32) (ix2 R p) = colVal21 m d (ix1 (colIx R p)) := by
  have e : (V1 m d (Proc.devRef .tc (main_v21 : Ref sig .tc)) : S128x128.Idx → Elt F .i32)
      = shapeCast S128x128 (colVal21 m d) shapeCasts_S16384_S128x128 := by
    show StableHlo.after mainOps (V0 m d) (Proc.devRef .tc (main_v21 : Ref sig .tc)) = _
    unfold mainOps
    after_results
    rfl
  rw [e]
  exact shapeCast_col _ _ R p
theorem V1_col_22 (d : Dev nD) (R p : Fin 128) :
    (V1 m d (Proc.devRef .tc (main_v22 : Ref sig .tc)) : S128x128.Idx → Elt F .i32) (ix2 R p) = colVal22 m d (ix1 (colIx R p)) := by
  have e : (V1 m d (Proc.devRef .tc (main_v22 : Ref sig .tc)) : S128x128.Idx → Elt F .i32)
      = shapeCast S128x128 (colVal22 m d) shapeCasts_S16384_S128x128 := by
    show StableHlo.after mainOps (V0 m d) (Proc.devRef .tc (main_v22 : Ref sig .tc)) = _
    unfold mainOps
    after_results
    rfl
  rw [e]
  exact shapeCast_col _ _ R p
theorem V1_col_23 (d : Dev nD) (R p : Fin 128) :
    (V1 m d (Proc.devRef .tc (main_v23 : Ref sig .tc)) : S128x128.Idx → Elt F .i32) (ix2 R p) = colVal23 m d (ix1 (colIx R p)) := by
  have e : (V1 m d (Proc.devRef .tc (main_v23 : Ref sig .tc)) : S128x128.Idx → Elt F .i32)
      = shapeCast S128x128 (colVal23 m d) shapeCasts_S16384_S128x128 := by
    show StableHlo.after mainOps (V0 m d) (Proc.devRef .tc (main_v23 : Ref sig .tc)) = _
    unfold mainOps
    after_results
    rfl
  rw [e]
  exact shapeCast_col _ _ R p
theorem V1_col_24 (d : Dev nD) (R p : Fin 128) :
    (V1 m d (Proc.devRef .tc (main_v24 : Ref sig .tc)) : S128x128.Idx → Elt F .i32) (ix2 R p) = colVal24 m d (ix1 (colIx R p)) := by
  have e : (V1 m d (Proc.devRef .tc (main_v24 : Ref sig .tc)) : S128x128.Idx → Elt F .i32)
      = shapeCast S128x128 (colVal24 m d) shapeCasts_S16384_S128x128 := by
    show StableHlo.after mainOps (V0 m d) (Proc.devRef .tc (main_v24 : Ref sig .tc)) = _
    unfold mainOps
    after_results
    rfl
  rw [e]
  exact shapeCast_col _ _ R p
theorem V1_col_25 (d : Dev nD) (R p : Fin 128) :
    (V1 m d (Proc.devRef .tc (main_v25 : Ref sig .tc)) : S128x128.Idx → Elt F .i32) (ix2 R p) = colVal25 m d (ix1 (colIx R p)) := by
  have e : (V1 m d (Proc.devRef .tc (main_v25 : Ref sig .tc)) : S128x128.Idx → Elt F .i32)
      = shapeCast S128x128 (colVal25 m d) shapeCasts_S16384_S128x128 := by
    show StableHlo.after mainOps (V0 m d) (Proc.devRef .tc (main_v25 : Ref sig .tc)) = _
    unfold mainOps
    after_results
    rfl
  rw [e]
  exact shapeCast_col _ _ R p

end Cert.Proof.KBV

end
-- ==== Proof.TileStmtKB.lean ====
import proofs.«204019_g4913442586959_cont_sun_m_672_34_alg».proof.Proof.TablesKB

/-!
  The statement of one tile's run, apart from its proof: from the tile's share of the operands, its two scratch buffers and
  its fifteen transfer cells at zero, the kernel's body on tile `L` runs to the same with the output rows rewritten — under
  four conditions on `L`, one per branch of the body. The tile's program as one definition. The range of the reshaped
  columns' words, column by column.
-/

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

set_option maxHeartbeats 4000000 in
/-- The kernel's body on tile `L` over the call's operands, scratch buffers and transfer cells. -/
abbrev tileProg [FloatOps F] (L : grid0.Coords) :
    Prog (TpuEff nD τ sig (Elt F) Λ₀ (.scVector ((L 0).castLE hcore0) ((L 1).castLE hsub0))) PUnit :=
  cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16

set_option maxHeartbeats 400000000 in
set_option maxRecDepth 65536 in
/-- The run of the body on a tile whose coordinates satisfy `C1 .. C4`. -/
def TileRunOf [FloatOps F] (C1 C2 C3 C4 : grid0.Coords → Prop) : Prop :=
  ∀ (d : Dev nD) (L : grid0.Coords) (hF : (K (F := F)).Facts) (O : CellTallies nD τ sig (HIx 1)) (W : Waits sig (HIx 1)) (hO : ∀ g, O g none = 0)
    (q : PosShare TreeShare) (hc1 : C1 L) (hc2 : C2 L) (hc3 : C3 L) (hc4 : C4 L)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)),
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄)

/-- Every word of every reshaped column, read unsigned, is below 1000. -/
def PreOK (m : (ℓ : Loc nD τ sig) → Buf (Elt F) ℓ) : Prop := ∀ d : Dev nD,
    (∀ j, ((V1 m d (Proc.devRef .tc (main_v0 : Ref sig .tc)) : S128x128.Idx → BitVec 32) j).toNat < 1000)
    ∧ (∀ j, ((V1 m d (Proc.devRef .tc (main_v1 : Ref sig .tc)) : S128x128.Idx → BitVec 32) j).toNat < 1000)
    ∧ (∀ j, ((V1 m d (Proc.devRef .tc (main_v2 : Ref sig .tc)) : S128x128.Idx → BitVec 32) j).toNat < 1000)
    ∧ (∀ j, ((V1 m d (Proc.devRef .tc (main_v3 : Ref sig .tc)) : S128x128.Idx → BitVec 32) j).toNat < 1000)
    ∧ (∀ j, ((V1 m d (Proc.devRef .tc (main_v4 : Ref sig .tc)) : S128x128.Idx → BitVec 32) j).toNat < 1000)
    ∧ (∀ j, ((V1 m d (Proc.devRef .tc (main_v5 : Ref sig .tc)) : S128x128.Idx → BitVec 32) j).toNat < 1000)
    ∧ (∀ j, ((V1 m d (Proc.devRef .tc (main_v6 : Ref sig .tc)) : S128x128.Idx → BitVec 32) j).toNat < 1000)
    ∧ (∀ j, ((V1 m d (Proc.devRef .tc (main_v7 : Ref sig .tc)) : S128x128.Idx → BitVec 32) j).toNat < 1000)
    ∧ (∀ j, ((V1 m d (Proc.devRef .tc (main_v8 : Ref sig .tc)) : S128x128.Idx → BitVec 32) j).toNat < 1000)
    ∧ (∀ j, ((V1 m d (Proc.devRef .tc (main_v9 : Ref sig .tc)) : S128x128.Idx → BitVec 32) j).toNat < 1000)
    ∧ (∀ j, ((V1 m d (Proc.devRef .tc (main_v10 : Ref sig .tc)) : S128x128.Idx → BitVec 32) j).toNat < 1000)
    ∧ (∀ j, ((V1 m d (Proc.devRef .tc (main_v11 : Ref sig .tc)) : S128x128.Idx → BitVec 32) j).toNat < 1000)
    ∧ (∀ j, ((V1 m d (Proc.devRef .tc (main_v12 : Ref sig .tc)) : S128x128.Idx → BitVec 32) j).toNat < 1000)
    ∧ (∀ j, ((V1 m d (Proc.devRef .tc (main_v13 : Ref sig .tc)) : S128x128.Idx → BitVec 32) j).toNat < 1000)
    ∧ (∀ j, ((V1 m d (Proc.devRef .tc (main_v14 : Ref sig .tc)) : S128x128.Idx → BitVec 32) j).toNat < 1000)
    ∧ (∀ j, ((V1 m d (Proc.devRef .tc (main_v15 : Ref sig .tc)) : S128x128.Idx → BitVec 32) j).toNat < 1000)
    ∧ (∀ j, ((V1 m d (Proc.devRef .tc (main_v16 : Ref sig .tc)) : S128x128.Idx → BitVec 32) j).toNat < 1000)
    ∧ (∀ j, ((V1 m d (Proc.devRef .tc (main_v17 : Ref sig .tc)) : S128x128.Idx → BitVec 32) j).toNat < 1000)
    ∧ (∀ j, ((V1 m d (Proc.devRef .tc (main_v18 : Ref sig .tc)) : S128x128.Idx → BitVec 32) j).toNat < 1000)
    ∧ (∀ j, ((V1 m d (Proc.devRef .tc (main_v19 : Ref sig .tc)) : S128x128.Idx → BitVec 32) j).toNat < 1000)
    ∧ (∀ j, ((V1 m d (Proc.devRef .tc (main_v20 : Ref sig .tc)) : S128x128.Idx → BitVec 32) j).toNat < 1000)
    ∧ (∀ j, ((V1 m d (Proc.devRef .tc (main_v21 : Ref sig .tc)) : S128x128.Idx → BitVec 32) j).toNat < 1000)
    ∧ (∀ j, ((V1 m d (Proc.devRef .tc (main_v22 : Ref sig .tc)) : S128x128.Idx → BitVec 32) j).toNat < 1000)
    ∧ (∀ j, ((V1 m d (Proc.devRef .tc (main_v23 : Ref sig .tc)) : S128x128.Idx → BitVec 32) j).toNat < 1000)
    ∧ (∀ j, ((V1 m d (Proc.devRef .tc (main_v24 : Ref sig .tc)) : S128x128.Idx → BitVec 32) j).toNat < 1000)
    ∧ (∀ j, ((V1 m d (Proc.devRef .tc (main_v25 : Ref sig .tc)) : S128x128.Idx → BitVec 32) j).toNat < 1000)

end Cert.Proof.KB

end
-- ==== Proof.PreRange.lean ====
import Idealize.ShloMosaic.Lib.ReduceAll
import proofs.«204019_g4913442586959_cont_sun_m_672_34_alg».proof.Pre_input_domain
import proofs.«204019_g4913442586959_cont_sun_m_672_34_alg».proof.Proof.Gen.Pre_input_domain

/-!
# The precondition, read back

The precondition function computes one bit: for every table `all(|x| < +inf)`, for every index column
`all((0 ≤ a) & (a ≤ 999))` (signed comparisons), all joined by `and`. The bit is a left-nested chain
`((… & r₂₄) & r₂₅)`, so from "the bit is one" one peels the last conjunct off, then the one before, and so on
down to the first column; the table conjuncts are never opened. The function is printed as a chain of
parts, each calling the next; the lemma for a part says what "the result is one" gives about the part's
inputs, and is proved from the lemma of the part it calls. Where a column's check is cut by a part
boundary, the half-finished intermediate (the constant 0, the `a ≥ 0` mask, the broadcast 999, the
pointwise mask or the reduced bit) is an input of the later part, and its lemma speaks of it as such.

Result: every word of every column, read unsigned, is below 1000.
-/

namespace Cert.Proof.PreRange

open Idealize.ShloMosaic Cert.Pre_input_domain

/-- A rank-0 array has a single index. -/
instance subsingletonScalarIdx : Subsingleton S_.Idx := ⟨fun a b => funext fun d => d.elim0⟩

/-- Every word of the column, read unsigned, is a row number of a 1000-row table. -/
def InRange (a : IVec S16384 32) : Prop := ∀ b, (a b).toNat < 1000

/-- Every column of the list is in range. -/
def AllR (l : List (IVec S16384 32)) : Prop := ∀ a ∈ l, InRange a

theorem AllR.nil : AllR [] := fun _ h => nomatch h

theorem AllR.cons {a : IVec S16384 32} {l : List (IVec S16384 32)} (ha : InRange a) (hl : AllR l) : AllR (a :: l) :=
  fun x hx => by rcases List.mem_cons.1 hx with rfl | hx; exacts [ha, hl x hx]

/-- An `and` of two one-bit scalars is one only if both are. -/
theorem and_one {x y : IVec S_ 1} (h : andi x y = fun _ => 1#1) : x = (fun _ => 1#1) ∧ y = (fun _ => 1#1) :=
  ⟨funext fun j => (IntOp.andi_eq_one.1 (congrFun h j)).1, funext fun j => (IntOp.andi_eq_one.1 (congrFun h j)).2⟩

/-- A pointwise `and` that is one everywhere: both operands are. -/
theorem and_all {x y : IVec S16384 1} (h : ∀ b, andi x y b = 1#1) : (∀ b, x b = 1#1) ∧ (∀ b, y b = 1#1) :=
  ⟨fun b => (IntOp.andi_eq_one.1 (h b)).1, fun b => (IntOp.andi_eq_one.1 (h b)).2⟩

/-- A word that is between 0 and 999 as a signed integer is below 1000 as an unsigned one. -/
theorem inRange_of_bounds {a : IVec S16384 32} (h0 : ∀ b, 0 ≤ (a b).toInt) (h1 : ∀ b, (a b).toInt ≤ 999) : InRange a := by
  intro b
  have e0 := h0 b
  have e1 := h1 b
  rw [BitVec.toInt_eq_toNat_cond] at e0 e1
  omega

section
variable [Facts]

/-- A reduction by `and` over the whole column that is one saw a one at every index. -/
theorem all_one {x : IVec S16384 1} {c : IVec S_ 1}
    (h : Host.reduce IntOp.andi x c Facts.reducesTo_S16384_S_d0 Facts.h_S_ = fun _ => 1#1) (b : S16384.Idx) : x b = 1#1 :=
  Host.reduce_andi_all x c _ _ (fun d => d.elim0) (congrFun h _) b

/-- `a ≥ 0` (signed) against the broadcast constant 0, read back: the broadcast of a scalar is that scalar at every index. -/
theorem ge_zero {a : IVec S16384 32}
    (h : ∀ b, cmpi .sge a (broadcastInDim S16384 ![] Facts.bcast_S_S16384 (constantI S_ 32 0#32)) b = 1#1) (b : S16384.Idx) :
    0 ≤ (a b).toInt := by
  have e : (0#32 : BitVec 32).toInt ≤ (a b).toInt := IntOp.cmpi_sge.1 (h b)
  rw [show (0#32 : BitVec 32).toInt = 0 by decide] at e
  exact e

/-- `a ≤ 999` (signed) against the broadcast constant 999, read back. -/
theorem le_max {a : IVec S16384 32}
    (h : ∀ b, cmpi .sle a (broadcastInDim S16384 ![] Facts.bcast_S_S16384 (constantI S_ 32 999#32)) b = 1#1) (b : S16384.Idx) :
    (a b).toInt ≤ 999 := by
  have e : (a b).toInt ≤ (999#32 : BitVec 32).toInt := IntOp.cmpi_sle.1 (h b)
  rw [show (999#32 : BitVec 32).toInt = 999 by decide] at e
  exact e

/-- One column's pointwise mask `(a ≥ 0) & (a ≤ 999)`, one everywhere, read back. -/
theorem mask_range {a : IVec S16384 32}
    (h : ∀ b, andi (cmpi .sge a (broadcastInDim S16384 ![] Facts.bcast_S_S16384 (constantI S_ 32 0#32)))
        (cmpi .sle a (broadcastInDim S16384 ![] Facts.bcast_S_S16384 (constantI S_ 32 999#32))) b = 1#1) : InRange a :=
  inRange_of_bounds (ge_zero (and_all h).1) (le_max (and_all h).2)

/-- One column's whole check — `all((a ≥ 0) & (a ≤ 999))` — read back. -/
theorem col_range {a : IVec S16384 32} {c : IVec S_ 1}
    (h : Host.reduce IntOp.andi (andi (cmpi .sge a (broadcastInDim S16384 ![] Facts.bcast_S_S16384 (constantI S_ 32 0#32)))
        (cmpi .sle a (broadcastInDim S16384 ![] Facts.bcast_S_S16384 (constantI S_ 32 999#32)))) c
        Facts.reducesTo_S16384_S_d0 Facts.h_S_ = fun _ => 1#1) : InRange a :=
  mask_range (all_one h)

variable {F : FTy → Type} [FloatOps F]
variable (a0 a1 a2 a3 a4 a5 a6 a7 a8 a9 a10 a11 a12 a13 a14 a15 a16 a17 a18 a19 a20 a21 a22 a23 a24 a25 : IVec S16384 32)

/-! ## The parts that check the columns, last to first -/

/-- Part 18 finishes column 25, whose constant 0 it is handed. -/
theorem p18 (v303 : IVec S_ 1) (c125 : IVec S_ 32) (hc : c125 = constantI S_ 32 0#32)
    (h : fn_part18 (F := F) a25 v303 c125 = fun _ => 1#1) : v303 = (fun _ => 1#1) ∧ AllR [a25] := by
  subst hc
  obtain ⟨h303, h309⟩ := and_one h
  exact ⟨h303, .cons (col_range h309) .nil⟩

/-- Part 17 is handed column 22's pointwise mask, and checks columns 23 and 24. -/
theorem p17 (v282 : IVec S_ 1) (v287 : IVec S16384 1)
    (h : fn_part17 (F := F) a23 a24 a25 v282 v287 = fun _ => 1#1) :
    v282 = (fun _ => 1#1) ∧ (∀ b, v287 b = 1#1) ∧ AllR [a23, a24, a25] := by
  obtain ⟨h303, r⟩ := p18 (F := F) a25 _ _ rfl h
  obtain ⟨h296, h302⟩ := and_one h303
  obtain ⟨h289, h295⟩ := and_one h296
  obtain ⟨h282, h288⟩ := and_one h289
  exact ⟨h282, all_one h288, .cons (col_range h295) (.cons (col_range h302) r)⟩

/-- Part 16 is handed column 20's `a ≥ 0` mask, finishes column 20, checks column 21 and starts column 22. -/
theorem p16 (v268 : IVec S_ 1) (v270 : IVec S16384 1)
    (h : fn_part16 (F := F) a20 a21 a22 a23 a24 a25 v268 v270 = fun _ => 1#1) :
    v268 = (fun _ => 1#1) ∧ (∀ b, v270 b = 1#1) ∧ (∀ b, (a20 b).toInt ≤ 999) ∧ AllR [a21, a22, a23, a24, a25] := by
  obtain ⟨h282, h287, r⟩ := p17 (F := F) a23 a24 a25 _ _ h
  obtain ⟨h275, h281⟩ := and_one h282
  obtain ⟨h268, h274⟩ := and_one h275
  obtain ⟨h270, h272⟩ := and_all (all_one h274)
  exact ⟨h268, h270, le_max h272, .cons (col_range h281) (.cons (mask_range h287) r)⟩

/-- Part 15 is handed column 17's reduced bit, checks columns 18 and 19 and starts column 20. -/
theorem p15 (v247 v253 : IVec S_ 1)
    (h : fn_part15 (F := F) a18 a19 a20 a21 a22 a23 a24 a25 v247 v253 = fun _ => 1#1) :
    v247 = (fun _ => 1#1) ∧ v253 = (fun _ => 1#1) ∧ AllR [a18, a19, a20, a21, a22, a23, a24, a25] := by
  obtain ⟨h268, h270, h20, r⟩ := p16 (F := F) a20 a21 a22 a23 a24 a25 _ _ h
  obtain ⟨h261, h267⟩ := and_one h268
  obtain ⟨h254, h260⟩ := and_one h261
  obtain ⟨h247, h253⟩ := and_one h254
  exact ⟨h247, h253, .cons (col_range h260) (.cons (col_range h267) (.cons (inRange_of_bounds (ge_zero h270) h20) r))⟩

/-- Part 14 is handed column 15's `a ≥ 0` mask and broadcast 999, finishes column 15, checks 16 and 17. -/
theorem p14 (v233 : IVec S_ 1) (v235 : IVec S16384 1) (v236 : IVec S16384 32)
    (hv : v236 = broadcastInDim S16384 ![] Facts.bcast_S_S16384 (constantI S_ 32 999#32))
    (h : fn_part14 (F := F) a15 a16 a17 a18 a19 a20 a21 a22 a23 a24 a25 v233 v235 v236 = fun _ => 1#1) :
    v233 = (fun _ => 1#1) ∧ (∀ b, v235 b = 1#1) ∧ (∀ b, (a15 b).toInt ≤ 999) ∧ AllR [a16, a17, a18, a19, a20, a21, a22, a23, a24, a25] := by
  subst hv
  obtain ⟨h247, h253, r⟩ := p15 (F := F) a18 a19 a20 a21 a22 a23 a24 a25 _ _ h
  obtain ⟨h240, h246⟩ := and_one h247
  obtain ⟨h233, h239⟩ := and_one h240
  obtain ⟨h235, h237⟩ := and_all (all_one h239)
  exact ⟨h233, h235, le_max h237, .cons (col_range h246) (.cons (col_range h253) r)⟩

/-- Part 13 is handed column 13's constant 0, checks columns 13 and 14 and starts column 15. -/
theorem p13 (v219 : IVec S_ 1) (c89 : IVec S_ 32) (hc : c89 = constantI S_ 32 0#32)
    (h : fn_part13 (F := F) a13 a14 a15 a16 a17 a18 a19 a20 a21 a22 a23 a24 a25 v219 c89 = fun _ => 1#1) : v219 = (fun _ => 1#1) ∧ AllR [a13, a14, a15, a16, a17, a18, a19, a20, a21, a22, a23, a24, a25] := by
  subst hc
  obtain ⟨h233, h235, h15, r⟩ := p14 (F := F) a15 a16 a17 a18 a19 a20 a21 a22 a23 a24 a25 _ _ _ rfl h
  obtain ⟨h226, h232⟩ := and_one h233
  obtain ⟨h219, h225⟩ := and_one h226
  exact ⟨h219, .cons (col_range h225) (.cons (col_range h232) (.cons (inRange_of_bounds (ge_zero h235) h15) r))⟩

/-- Part 12 is handed column 10's pointwise mask, and checks columns 11 and 12. -/
theorem p12 (v198 : IVec S_ 1) (v203 : IVec S16384 1)
    (h : fn_part12 (F := F) a11 a12 a13 a14 a15 a16 a17 a18 a19 a20 a21 a22 a23 a24 a25 v198 v203 = fun _ => 1#1) :
    v198 = (fun _ => 1#1) ∧ (∀ b, v203 b = 1#1) ∧ AllR [a11, a12, a13, a14, a15, a16, a17, a18, a19, a20, a21, a22, a23, a24, a25] := by
  obtain ⟨h219, r⟩ := p13 (F := F) a13 a14 a15 a16 a17 a18 a19 a20 a21 a22 a23 a24 a25 _ _ rfl h
  obtain ⟨h212, h218⟩ := and_one h219
  obtain ⟨h205, h211⟩ := and_one h212
  obtain ⟨h198, h204⟩ := and_one h205
  exact ⟨h198, all_one h204, .cons (col_range h211) (.cons (col_range h218) r)⟩

/-- Part 11 is handed column 8's `a ≥ 0` mask, finishes column 8, checks column 9 and starts column 10. -/
theorem p11 (v184 : IVec S_ 1) (v186 : IVec S16384 1)
    (h : fn_part11 (F := F) a8 a9 a10 a11 a12 a13 a14 a15 a16 a17 a18 a19 a20 a21 a22 a23 a24 a25 v184 v186 = fun _ => 1#1) :
    v184 = (fun _ => 1#1) ∧ (∀ b, v186 b = 1#1) ∧ (∀ b, (a8 b).toInt ≤ 999) ∧ AllR [a9, a10, a11, a12, a13, a14, a15, a16, a17, a18, a19, a20, a21, a22, a23, a24, a25] := by
  obtain ⟨h198, h203, r⟩ := p12 (F := F) a11 a12 a13 a14 a15 a16 a17 a18 a19 a20 a21 a22 a23 a24 a25 _ _ h
  obtain ⟨h191, h197⟩ := and_one h198
  obtain ⟨h184, h190⟩ := and_one h191
  obtain ⟨h186, h188⟩ := and_all (all_one h190)
  exact ⟨h184, h186, le_max h188, .cons (col_range h197) (.cons (mask_range h203) r)⟩

/-- Part 10 is handed column 5's reduced bit, checks columns 6 and 7 and starts column 8. -/
theorem p10 (v163 v169 : IVec S_ 1)
    (h : fn_part10 (F := F) a6 a7 a8 a9 a10 a11 a12 a13 a14 a15 a16 a17 a18 a19 a20 a21 a22 a23 a24 a25 v163 v169 = fun _ => 1#1) :
    v163 = (fun _ => 1#1) ∧ v169 = (fun _ => 1#1) ∧ AllR [a6, a7, a8, a9, a10, a11, a12, a13, a14, a15, a16, a17, a18, a19, a20, a21, a22, a23, a24, a25] := by
  obtain ⟨h184, h186, h8, r⟩ := p11 (F := F) a8 a9 a10 a11 a12 a13 a14 a15 a16 a17 a18 a19 a20 a21 a22 a23 a24 a25 _ _ h
  obtain ⟨h177, h183⟩ := and_one h184
  obtain ⟨h170, h176⟩ := and_one h177
  obtain ⟨h163, h169⟩ := and_one h170
  exact ⟨h163, h169, .cons (col_range h176) (.cons (col_range h183) (.cons (inRange_of_bounds (ge_zero h186) h8) r))⟩

/-- Part 9 is handed column 3's `a ≥ 0` mask and broadcast 999, finishes column 3, checks 4 and 5. -/
theorem p9 (v149 : IVec S_ 1) (v151 : IVec S16384 1) (v152 : IVec S16384 32)
    (hv : v152 = broadcastInDim S16384 ![] Facts.bcast_S_S16384 (constantI S_ 32 999#32))
    (h : fn_part9 (F := F) a3 a4 a5 a6 a7 a8 a9 a10 a11 a12 a13 a14 a15 a16 a17 a18 a19 a20 a21 a22 a23 a24 a25 v149 v151 v152 = fun _ => 1#1) :
    v149 = (fun _ => 1#1) ∧ (∀ b, v151 b = 1#1) ∧ (∀ b, (a3 b).toInt ≤ 999) ∧ AllR [a4, a5, a6, a7, a8, a9, a10, a11, a12, a13, a14, a15, a16, a17, a18, a19, a20, a21, a22, a23, a24, a25] := by
  subst hv
  obtain ⟨h163, h169, r⟩ := p10 (F := F) a6 a7 a8 a9 a10 a11 a12 a13 a14 a15 a16 a17 a18 a19 a20 a21 a22 a23 a24 a25 _ _ h
  obtain ⟨h156, h162⟩ := and_one h163
  obtain ⟨h149, h155⟩ := and_one h156
  obtain ⟨h151, h153⟩ := and_all (all_one h155)
  exact ⟨h149, h151, le_max h153, .cons (col_range h162) (.cons (col_range h169) r)⟩

/-- Part 8 is handed column 1's constant 0, checks columns 1 and 2 and starts column 3. -/
theorem p8 (v135 : IVec S_ 1) (c53 : IVec S_ 32) (hc : c53 = constantI S_ 32 0#32)
    (h : fn_part8 (F := F) a1 a2 a3 a4 a5 a6 a7 a8 a9 a10 a11 a12 a13 a14 a15 a16 a17 a18 a19 a20 a21 a22 a23 a24 a25 v135 c53 = fun _ => 1#1) : v135 = (fun _ => 1#1) ∧ AllR [a1, a2, a3, a4, a5, a6, a7, a8, a9, a10, a11, a12, a13, a14, a15, a16, a17, a18, a19, a20, a21, a22, a23, a24, a25] := by
  subst hc
  obtain ⟨h149, h151, h3, r⟩ := p9 (F := F) a3 a4 a5 a6 a7 a8 a9 a10 a11 a12 a13 a14 a15 a16 a17 a18 a19 a20 a21 a22 a23 a24 a25 _ _ _ rfl h
  obtain ⟨h142, h148⟩ := and_one h149
  obtain ⟨h135, h141⟩ := and_one h142
  exact ⟨h135, .cons (col_range h141) (.cons (col_range h148) (.cons (inRange_of_bounds (ge_zero h151) h3) r))⟩

/-! ## The parts that check the tables: the columns pass through -/

variable (t26 t27 t28 t29 t30 t31 t32 t33 t34 t35 t36 t37 t38 t39 t40 t41 t42 t43 t44 t45 t46 t47 t48 t49 t50 t51 : FVec F S1000x128 .f32)

/-- Part 7 finishes the tables and checks column 0. -/
theorem p7 (v118 : IVec S_ 1) (v119 : FVec F S1000x128 .f32)
    (h : fn_part7 (F := F) a0 a1 a2 a3 a4 a5 a6 a7 a8 a9 a10 a11 a12 a13 a14 a15 a16 a17 a18 a19 a20 a21 a22 a23 a24 a25 t51 v118 v119 = fun _ => 1#1) : AllR [a0, a1, a2, a3, a4, a5, a6, a7, a8, a9, a10, a11, a12, a13, a14, a15, a16, a17, a18, a19, a20, a21, a22, a23, a24, a25] := by
  obtain ⟨h135, r⟩ := p8 (F := F) a1 a2 a3 a4 a5 a6 a7 a8 a9 a10 a11 a12 a13 a14 a15 a16 a17 a18 a19 a20 a21 a22 a23 a24 a25 _ _ rfl h
  obtain ⟨h128, h134⟩ := and_one h135
  exact .cons (col_range h134) r

theorem p6 (v98 : IVec S_ 1) (v101 : IVec S1000x128 1) (c39 : IVec S_ 1)
    (h : fn_part6 (F := F) a0 a1 a2 a3 a4 a5 a6 a7 a8 a9 a10 a11 a12 a13 a14 a15 a16 a17 a18 a19 a20 a21 a22 a23 a24 a25 t47 t48 t49 t50 t51 v98 v101 c39 = fun _ => 1#1) : AllR [a0, a1, a2, a3, a4, a5, a6, a7, a8, a9, a10, a11, a12, a13, a14, a15, a16, a17, a18, a19, a20, a21, a22, a23, a24, a25] :=
  p7 (F := F) a0 a1 a2 a3 a4 a5 a6 a7 a8 a9 a10 a11 a12 a13 a14 a15 a16 a17 a18 a19 a20 a21 a22 a23 a24 a25 _ _ _ h

theorem p5 (v83 : IVec S_ 1) (v84 : FVec F S1000x128 .f32) (cst32 : FVec F S_ .f32)
    (h : fn_part5 (F := F) a0 a1 a2 a3 a4 a5 a6 a7 a8 a9 a10 a11 a12 a13 a14 a15 a16 a17 a18 a19 a20 a21 a22 a23 a24 a25 t44 t45 t46 t47 t48 t49 t50 t51 v83 v84 cst32 = fun _ => 1#1) : AllR [a0, a1, a2, a3, a4, a5, a6, a7, a8, a9, a10, a11, a12, a13, a14, a15, a16, a17, a18, a19, a20, a21, a22, a23, a24, a25] :=
  p6 (F := F) a0 a1 a2 a3 a4 a5 a6 a7 a8 a9 a10 a11 a12 a13 a14 a15 a16 a17 a18 a19 a20 a21 a22 a23 a24 a25 _ _ _ _ _ _ _ _ h

theorem p4 (v63 v67 : IVec S_ 1)
    (h : fn_part4 (F := F) a0 a1 a2 a3 a4 a5 a6 a7 a8 a9 a10 a11 a12 a13 a14 a15 a16 a17 a18 a19 a20 a21 a22 a23 a24 a25 t40 t41 t42 t43 t44 t45 t46 t47 t48 t49 t50 t51 v63 v67 = fun _ => 1#1) : AllR [a0, a1, a2, a3, a4, a5, a6, a7, a8, a9, a10, a11, a12, a13, a14, a15, a16, a17, a18, a19, a20, a21, a22, a23, a24, a25] :=
  p5 (F := F) a0 a1 a2 a3 a4 a5 a6 a7 a8 a9 a10 a11 a12 a13 a14 a15 a16 a17 a18 a19 a20 a21 a22 a23 a24 a25 _ _ _ _ _ _ _ _ _ _ _ h

theorem p3 (v48 : IVec S_ 1) (v49 v50 : FVec F S1000x128 .f32)
    (h : fn_part3 (F := F) a0 a1 a2 a3 a4 a5 a6 a7 a8 a9 a10 a11 a12 a13 a14 a15 a16 a17 a18 a19 a20 a21 a22 a23 a24 a25 t37 t38 t39 t40 t41 t42 t43 t44 t45 t46 t47 t48 t49 t50 t51 v48 v49 v50 = fun _ => 1#1) : AllR [a0, a1, a2, a3, a4, a5, a6, a7, a8, a9, a10, a11, a12, a13, a14, a15, a16, a17, a18, a19, a20, a21, a22, a23, a24, a25] :=
  p4 (F := F) a0 a1 a2 a3 a4 a5 a6 a7 a8 a9 a10 a11 a12 a13 a14 a15 a16 a17 a18 a19 a20 a21 a22 a23 a24 a25 _ _ _ _ _ _ _ _ _ _ _ _ _ _ h

theorem p2 (v33 : IVec S_ 1)
    (h : fn_part2 (F := F) a0 a1 a2 a3 a4 a5 a6 a7 a8 a9 a10 a11 a12 a13 a14 a15 a16 a17 a18 a19 a20 a21 a22 a23 a24 a25 t33 t34 t35 t36 t37 t38 t39 t40 t41 t42 t43 t44 t45 t46 t47 t48 t49 t50 t51 v33 = fun _ => 1#1) : AllR [a0, a1, a2, a3, a4, a5, a6, a7, a8, a9, a10, a11, a12, a13, a14, a15, a16, a17, a18, a19, a20, a21, a22, a23, a24, a25] :=
  p3 (F := F) a0 a1 a2 a3 a4 a5 a6 a7 a8 a9 a10 a11 a12 a13 a14 a15 a16 a17 a18 a19 a20 a21 a22 a23 a24 a25 _ _ _ _ _ _ _ _ _ _ _ _ _ _ _ _ _ _ h

theorem p1 (v13 : IVec S_ 1) (v16 : IVec S1000x128 1)
    (h : fn_part1 (F := F) a0 a1 a2 a3 a4 a5 a6 a7 a8 a9 a10 a11 a12 a13 a14 a15 a16 a17 a18 a19 a20 a21 a22 a23 a24 a25 t30 t31 t32 t33 t34 t35 t36 t37 t38 t39 t40 t41 t42 t43 t44 t45 t46 t47 t48 t49 t50 t51 v13 v16 = fun _ => 1#1) : AllR [a0, a1, a2, a3, a4, a5, a6, a7, a8, a9, a10, a11, a12, a13, a14, a15, a16, a17, a18, a19, a20, a21, a22, a23, a24, a25] :=
  p2 (F := F) a0 a1 a2 a3 a4 a5 a6 a7 a8 a9 a10 a11 a12 a13 a14 a15 a16 a17 a18 a19 a20 a21 a22 a23 a24 a25 _ _ _ _ _ _ _ _ _ _ _ _ _ _ _ _ _ _ _ _ h

/-- The precondition bit is one: every column is in range. -/
theorem allR_of_fn (h : fn (F := F) a0 a1 a2 a3 a4 a5 a6 a7 a8 a9 a10 a11 a12 a13 a14 a15 a16 a17 a18 a19 a20 a21 a22 a23 a24 a25 t26 t27 t28 t29 t30 t31 t32 t33 t34 t35 t36 t37 t38 t39 t40 t41 t42 t43 t44 t45 t46 t47 t48 t49 t50 t51 = fun _ => 1#1) : AllR [a0, a1, a2, a3, a4, a5, a6, a7, a8, a9, a10, a11, a12, a13, a14, a15, a16, a17, a18, a19, a20, a21, a22, a23, a24, a25] :=
  p1 (F := F) a0 a1 a2 a3 a4 a5 a6 a7 a8 a9 a10 a11 a12 a13 a14 a15 a16 a17 a18 a19 a20 a21 a22 a23 a24 a25 _ _ _ _ _ _ _ _ _ _ _ _ _ _ _ _ _ _ _ _ _ _ _ _ h

/-- The precondition bit is one: every word of column `t`, read unsigned, is below 1000. -/
theorem range_of_fn (h : fn (F := F) a0 a1 a2 a3 a4 a5 a6 a7 a8 a9 a10 a11 a12 a13 a14 a15 a16 a17 a18 a19 a20 a21 a22 a23 a24 a25 t26 t27 t28 t29 t30 t31 t32 t33 t34 t35 t36 t37 t38 t39 t40 t41 t42 t43 t44 t45 t46 t47 t48 t49 t50 t51 = fun _ => 1#1) :
    ∀ (t : Fin 26) (b : S16384.Idx), ((![a0, a1, a2, a3, a4, a5, a6, a7, a8, a9, a10, a11, a12, a13, a14, a15, a16, a17, a18, a19, a20, a21, a22, a23, a24, a25] : Fin 26 → IVec S16384 32) t b).toNat < 1000 := by
  have H := allR_of_fn (F := F) a0 a1 a2 a3 a4 a5 a6 a7 a8 a9 a10 a11 a12 a13 a14 a15 a16 a17 a18 a19 a20 a21 a22 a23 a24 a25 t26 t27 t28 t29 t30 t31 t32 t33 t34 t35 t36 t37 t38 t39 t40 t41 t42 t43 t44 t45 t46 t47 t48 t49 t50 t51 h
  intro t b
  fin_cases t <;> exact H _ (by simp) b

end

end Cert.Proof.PreRange
-- ==== Proof.PreOKKB.lean ====
import proofs.«204019_g4913442586959_cont_sun_m_672_34_alg».proof.Proof.ColValKB
import proofs.«204019_g4913442586959_cont_sun_m_672_34_alg».proof.Proof.TileStmtKB
import proofs.«204019_g4913442586959_cont_sun_m_672_34_alg».proof.Proof.PreRange

/-!
# The reshaped columns hold row numbers

The precondition bounds every word of every index column below 1000. A reshaped column holds the same words in
another arrangement — entry `(R, p)` is word `128 R + p` of the column — so its words are below 1000 too.
-/

noncomputable section

namespace Cert.Proof.KB

open Cert.Kernel Cert.Kernel.Gen

open Idealize.ShloMosaic
open Idealize.ShloMosaic.SparseCore (S V T)

set_option maxHeartbeats 4000000 in
/-- The precondition gives what the tiles' proofs ask of the reshaped columns. -/
theorem preOK_of_pre (m : (ℓ : Loc nD τ sig) → Buf (Elt Bits) ℓ) (hpre : Cert.Pre_Kernel m) : PreOK (F := Bits) m := by
  intro d
  have hr := Cert.Proof.PreRange.range_of_fn (F := Bits) _ _ _ _ _ _ _ _ _ _ _ _ _ _ _ _ _ _ _ _ _ _ _ _ _ _ _ _ _ _ _ _ _ _ _ _ _ _ _ _ _ _ _ _ _ _ _ _ _ _ _ _ (hpre d)
  refine ⟨?_, ?_, ?_, ?_, ?_, ?_, ?_, ?_, ?_, ?_, ?_, ?_, ?_, ?_, ?_, ?_, ?_, ?_, ?_, ?_, ?_, ?_, ?_, ?_, ?_, ?_⟩
  · intro j
    have e : (V1 m d (Proc.devRef .tc (main_v0 : Ref sig .tc)) : S128x128.Idx → BitVec 32) j
        = colVal0 m d (ValueIdx.ix1 (Cert.Proof.KBV.colIx (j 0) (j 1))) :=
      (congrArg (V1 m d (Proc.devRef .tc (main_v0 : Ref sig .tc)) : S128x128.Idx → BitVec 32) (ValueIdx.eq_ix2 j)).trans
        (Cert.Proof.KBV.V1_col_0 m d (j 0) (j 1))
    rw [e]
    exact hr 0 _
  · intro j
    have e : (V1 m d (Proc.devRef .tc (main_v1 : Ref sig .tc)) : S128x128.Idx → BitVec 32) j
        = colVal1 m d (ValueIdx.ix1 (Cert.Proof.KBV.colIx (j 0) (j 1))) :=
      (congrArg (V1 m d (Proc.devRef .tc (main_v1 : Ref sig .tc)) : S128x128.Idx → BitVec 32) (ValueIdx.eq_ix2 j)).trans
        (Cert.Proof.KBV.V1_col_1 m d (j 0) (j 1))
    rw [e]
    exact hr 1 _
  · intro j
    have e : (V1 m d (Proc.devRef .tc (main_v2 : Ref sig .tc)) : S128x128.Idx → BitVec 32) j
        = colVal2 m d (ValueIdx.ix1 (Cert.Proof.KBV.colIx (j 0) (j 1))) :=
      (congrArg (V1 m d (Proc.devRef .tc (main_v2 : Ref sig .tc)) : S128x128.Idx → BitVec 32) (ValueIdx.eq_ix2 j)).trans
        (Cert.Proof.KBV.V1_col_2 m d (j 0) (j 1))
    rw [e]
    exact hr 2 _
  · intro j
    have e : (V1 m d (Proc.devRef .tc (main_v3 : Ref sig .tc)) : S128x128.Idx → BitVec 32) j
        = colVal3 m d (ValueIdx.ix1 (Cert.Proof.KBV.colIx (j 0) (j 1))) :=
      (congrArg (V1 m d (Proc.devRef .tc (main_v3 : Ref sig .tc)) : S128x128.Idx → BitVec 32) (ValueIdx.eq_ix2 j)).trans
        (Cert.Proof.KBV.V1_col_3 m d (j 0) (j 1))
    rw [e]
    exact hr 3 _
  · intro j
    have e : (V1 m d (Proc.devRef .tc (main_v4 : Ref sig .tc)) : S128x128.Idx → BitVec 32) j
        = colVal4 m d (ValueIdx.ix1 (Cert.Proof.KBV.colIx (j 0) (j 1))) :=
      (congrArg (V1 m d (Proc.devRef .tc (main_v4 : Ref sig .tc)) : S128x128.Idx → BitVec 32) (ValueIdx.eq_ix2 j)).trans
        (Cert.Proof.KBV.V1_col_4 m d (j 0) (j 1))
    rw [e]
    exact hr 4 _
  · intro j
    have e : (V1 m d (Proc.devRef .tc (main_v5 : Ref sig .tc)) : S128x128.Idx → BitVec 32) j
        = colVal5 m d (ValueIdx.ix1 (Cert.Proof.KBV.colIx (j 0) (j 1))) :=
      (congrArg (V1 m d (Proc.devRef .tc (main_v5 : Ref sig .tc)) : S128x128.Idx → BitVec 32) (ValueIdx.eq_ix2 j)).trans
        (Cert.Proof.KBV.V1_col_5 m d (j 0) (j 1))
    rw [e]
    exact hr 5 _
  · intro j
    have e : (V1 m d (Proc.devRef .tc (main_v6 : Ref sig .tc)) : S128x128.Idx → BitVec 32) j
        = colVal6 m d (ValueIdx.ix1 (Cert.Proof.KBV.colIx (j 0) (j 1))) :=
      (congrArg (V1 m d (Proc.devRef .tc (main_v6 : Ref sig .tc)) : S128x128.Idx → BitVec 32) (ValueIdx.eq_ix2 j)).trans
        (Cert.Proof.KBV.V1_col_6 m d (j 0) (j 1))
    rw [e]
    exact hr 6 _
  · intro j
    have e : (V1 m d (Proc.devRef .tc (main_v7 : Ref sig .tc)) : S128x128.Idx → BitVec 32) j
        = colVal7 m d (ValueIdx.ix1 (Cert.Proof.KBV.colIx (j 0) (j 1))) :=
      (congrArg (V1 m d (Proc.devRef .tc (main_v7 : Ref sig .tc)) : S128x128.Idx → BitVec 32) (ValueIdx.eq_ix2 j)).trans
        (Cert.Proof.KBV.V1_col_7 m d (j 0) (j 1))
    rw [e]
    exact hr 7 _
  · intro j
    have e : (V1 m d (Proc.devRef .tc (main_v8 : Ref sig .tc)) : S128x128.Idx → BitVec 32) j
        = colVal8 m d (ValueIdx.ix1 (Cert.Proof.KBV.colIx (j 0) (j 1))) :=
      (congrArg (V1 m d (Proc.devRef .tc (main_v8 : Ref sig .tc)) : S128x128.Idx → BitVec 32) (ValueIdx.eq_ix2 j)).trans
        (Cert.Proof.KBV.V1_col_8 m d (j 0) (j 1))
    rw [e]
    exact hr 8 _
  · intro j
    have e : (V1 m d (Proc.devRef .tc (main_v9 : Ref sig .tc)) : S128x128.Idx → BitVec 32) j
        = colVal9 m d (ValueIdx.ix1 (Cert.Proof.KBV.colIx (j 0) (j 1))) :=
      (congrArg (V1 m d (Proc.devRef .tc (main_v9 : Ref sig .tc)) : S128x128.Idx → BitVec 32) (ValueIdx.eq_ix2 j)).trans
        (Cert.Proof.KBV.V1_col_9 m d (j 0) (j 1))
    rw [e]
    exact hr 9 _
  · intro j
    have e : (V1 m d (Proc.devRef .tc (main_v10 : Ref sig .tc)) : S128x128.Idx → BitVec 32) j
        = colVal10 m d (ValueIdx.ix1 (Cert.Proof.KBV.colIx (j 0) (j 1))) :=
      (congrArg (V1 m d (Proc.devRef .tc (main_v10 : Ref sig .tc)) : S128x128.Idx → BitVec 32) (ValueIdx.eq_ix2 j)).trans
        (Cert.Proof.KBV.V1_col_10 m d (j 0) (j 1))
    rw [e]
    exact hr 10 _
  · intro j
    have e : (V1 m d (Proc.devRef .tc (main_v11 : Ref sig .tc)) : S128x128.Idx → BitVec 32) j
        = colVal11 m d (ValueIdx.ix1 (Cert.Proof.KBV.colIx (j 0) (j 1))) :=
      (congrArg (V1 m d (Proc.devRef .tc (main_v11 : Ref sig .tc)) : S128x128.Idx → BitVec 32) (ValueIdx.eq_ix2 j)).trans
        (Cert.Proof.KBV.V1_col_11 m d (j 0) (j 1))
    rw [e]
    exact hr 11 _
  · intro j
    have e : (V1 m d (Proc.devRef .tc (main_v12 : Ref sig .tc)) : S128x128.Idx → BitVec 32) j
        = colVal12 m d (ValueIdx.ix1 (Cert.Proof.KBV.colIx (j 0) (j 1))) :=
      (congrArg (V1 m d (Proc.devRef .tc (main_v12 : Ref sig .tc)) : S128x128.Idx → BitVec 32) (ValueIdx.eq_ix2 j)).trans
        (Cert.Proof.KBV.V1_col_12 m d (j 0) (j 1))
    rw [e]
    exact hr 12 _
  · intro j
    have e : (V1 m d (Proc.devRef .tc (main_v13 : Ref sig .tc)) : S128x128.Idx → BitVec 32) j
        = colVal13 m d (ValueIdx.ix1 (Cert.Proof.KBV.colIx (j 0) (j 1))) :=
      (congrArg (V1 m d (Proc.devRef .tc (main_v13 : Ref sig .tc)) : S128x128.Idx → BitVec 32) (ValueIdx.eq_ix2 j)).trans
        (Cert.Proof.KBV.V1_col_13 m d (j 0) (j 1))
    rw [e]
    exact hr 13 _
  · intro j
    have e : (V1 m d (Proc.devRef .tc (main_v14 : Ref sig .tc)) : S128x128.Idx → BitVec 32) j
        = colVal14 m d (ValueIdx.ix1 (Cert.Proof.KBV.colIx (j 0) (j 1))) :=
      (congrArg (V1 m d (Proc.devRef .tc (main_v14 : Ref sig .tc)) : S128x128.Idx → BitVec 32) (ValueIdx.eq_ix2 j)).trans
        (Cert.Proof.KBV.V1_col_14 m d (j 0) (j 1))
    rw [e]
    exact hr 14 _
  · intro j
    have e : (V1 m d (Proc.devRef .tc (main_v15 : Ref sig .tc)) : S128x128.Idx → BitVec 32) j
        = colVal15 m d (ValueIdx.ix1 (Cert.Proof.KBV.colIx (j 0) (j 1))) :=
      (congrArg (V1 m d (Proc.devRef .tc (main_v15 : Ref sig .tc)) : S128x128.Idx → BitVec 32) (ValueIdx.eq_ix2 j)).trans
        (Cert.Proof.KBV.V1_col_15 m d (j 0) (j 1))
    rw [e]
    exact hr 15 _
  · intro j
    have e : (V1 m d (Proc.devRef .tc (main_v16 : Ref sig .tc)) : S128x128.Idx → BitVec 32) j
        = colVal16 m d (ValueIdx.ix1 (Cert.Proof.KBV.colIx (j 0) (j 1))) :=
      (congrArg (V1 m d (Proc.devRef .tc (main_v16 : Ref sig .tc)) : S128x128.Idx → BitVec 32) (ValueIdx.eq_ix2 j)).trans
        (Cert.Proof.KBV.V1_col_16 m d (j 0) (j 1))
    rw [e]
    exact hr 16 _
  · intro j
    have e : (V1 m d (Proc.devRef .tc (main_v17 : Ref sig .tc)) : S128x128.Idx → BitVec 32) j
        = colVal17 m d (ValueIdx.ix1 (Cert.Proof.KBV.colIx (j 0) (j 1))) :=
      (congrArg (V1 m d (Proc.devRef .tc (main_v17 : Ref sig .tc)) : S128x128.Idx → BitVec 32) (ValueIdx.eq_ix2 j)).trans
        (Cert.Proof.KBV.V1_col_17 m d (j 0) (j 1))
    rw [e]
    exact hr 17 _
  · intro j
    have e : (V1 m d (Proc.devRef .tc (main_v18 : Ref sig .tc)) : S128x128.Idx → BitVec 32) j
        = colVal18 m d (ValueIdx.ix1 (Cert.Proof.KBV.colIx (j 0) (j 1))) :=
      (congrArg (V1 m d (Proc.devRef .tc (main_v18 : Ref sig .tc)) : S128x128.Idx → BitVec 32) (ValueIdx.eq_ix2 j)).trans
        (Cert.Proof.KBV.V1_col_18 m d (j 0) (j 1))
    rw [e]
    exact hr 18 _
  · intro j
    have e : (V1 m d (Proc.devRef .tc (main_v19 : Ref sig .tc)) : S128x128.Idx → BitVec 32) j
        = colVal19 m d (ValueIdx.ix1 (Cert.Proof.KBV.colIx (j 0) (j 1))) :=
      (congrArg (V1 m d (Proc.devRef .tc (main_v19 : Ref sig .tc)) : S128x128.Idx → BitVec 32) (ValueIdx.eq_ix2 j)).trans
        (Cert.Proof.KBV.V1_col_19 m d (j 0) (j 1))
    rw [e]
    exact hr 19 _
  · intro j
    have e : (V1 m d (Proc.devRef .tc (main_v20 : Ref sig .tc)) : S128x128.Idx → BitVec 32) j
        = colVal20 m d (ValueIdx.ix1 (Cert.Proof.KBV.colIx (j 0) (j 1))) :=
      (congrArg (V1 m d (Proc.devRef .tc (main_v20 : Ref sig .tc)) : S128x128.Idx → BitVec 32) (ValueIdx.eq_ix2 j)).trans
        (Cert.Proof.KBV.V1_col_20 m d (j 0) (j 1))
    rw [e]
    exact hr 20 _
  · intro j
    have e : (V1 m d (Proc.devRef .tc (main_v21 : Ref sig .tc)) : S128x128.Idx → BitVec 32) j
        = colVal21 m d (ValueIdx.ix1 (Cert.Proof.KBV.colIx (j 0) (j 1))) :=
      (congrArg (V1 m d (Proc.devRef .tc (main_v21 : Ref sig .tc)) : S128x128.Idx → BitVec 32) (ValueIdx.eq_ix2 j)).trans
        (Cert.Proof.KBV.V1_col_21 m d (j 0) (j 1))
    rw [e]
    exact hr 21 _
  · intro j
    have e : (V1 m d (Proc.devRef .tc (main_v22 : Ref sig .tc)) : S128x128.Idx → BitVec 32) j
        = colVal22 m d (ValueIdx.ix1 (Cert.Proof.KBV.colIx (j 0) (j 1))) :=
      (congrArg (V1 m d (Proc.devRef .tc (main_v22 : Ref sig .tc)) : S128x128.Idx → BitVec 32) (ValueIdx.eq_ix2 j)).trans
        (Cert.Proof.KBV.V1_col_22 m d (j 0) (j 1))
    rw [e]
    exact hr 22 _
  · intro j
    have e : (V1 m d (Proc.devRef .tc (main_v23 : Ref sig .tc)) : S128x128.Idx → BitVec 32) j
        = colVal23 m d (ValueIdx.ix1 (Cert.Proof.KBV.colIx (j 0) (j 1))) :=
      (congrArg (V1 m d (Proc.devRef .tc (main_v23 : Ref sig .tc)) : S128x128.Idx → BitVec 32) (ValueIdx.eq_ix2 j)).trans
        (Cert.Proof.KBV.V1_col_23 m d (j 0) (j 1))
    rw [e]
    exact hr 23 _
  · intro j
    have e : (V1 m d (Proc.devRef .tc (main_v24 : Ref sig .tc)) : S128x128.Idx → BitVec 32) j
        = colVal24 m d (ValueIdx.ix1 (Cert.Proof.KBV.colIx (j 0) (j 1))) :=
      (congrArg (V1 m d (Proc.devRef .tc (main_v24 : Ref sig .tc)) : S128x128.Idx → BitVec 32) (ValueIdx.eq_ix2 j)).trans
        (Cert.Proof.KBV.V1_col_24 m d (j 0) (j 1))
    rw [e]
    exact hr 24 _
  · intro j
    have e : (V1 m d (Proc.devRef .tc (main_v25 : Ref sig .tc)) : S128x128.Idx → BitVec 32) j
        = colVal25 m d (ValueIdx.ix1 (Cert.Proof.KBV.colIx (j 0) (j 1))) :=
      (congrArg (V1 m d (Proc.devRef .tc (main_v25 : Ref sig .tc)) : S128x128.Idx → BitVec 32) (ValueIdx.eq_ix2 j)).trans
        (Cert.Proof.KBV.V1_col_25 m d (j 0) (j 1))
    rw [e]
    exact hr 25 _

end Cert.Proof.KB

end
-- ==== Proof.FrameKB.lean ====
import proofs.«204019_g4913442586959_cont_sun_m_672_34_alg».proof.Proof.LaunchKB
import proofs.«204019_g4913442586959_cont_sun_m_672_34_alg».proof.Proof.PreOKKB

/-!
# The frame claim from the tiles' obligation

Under the precondition the reshaped columns hold row numbers; given that, the tiles meet their obligation, and the
launch theorem's run ends with the 52 arguments holding what they held.
-/

noncomputable section

namespace Cert.Proof.KB

open Cert.Kernel Cert.Kernel.Gen

open Idealize.ShloMosaic
open Idealize.ShloMosaic.SparseCore (S V T)
open Idealize.SL.Sem

/-- The frame claim, given the tiles' obligation under the range facts: the 52 arguments end as they began. -/
theorem frame_kb_of
    (htile : ∀ m : (ℓ : Loc nD τ sig) → Buf (Elt Bits) ℓ, PreOK (F := Bits) m → (K (F := Bits)).TileObl (D (F := Bits)) 𝒱 (P m) v₀ 0) :
    Cert.frame_Kernel := fun m g hpre =>
  (θ_run Cert.Kernel.defs _ _).mono (fun _ h c => (h c).2) (run_main (F := Bits) m g (htile m (preOK_of_pre m hpre)))

end Cert.Proof.KB

end
-- ==== Proof.GroupKB.lean ====
import proofs.«204019_g4913442586959_cont_sun_m_672_34_alg».proof.Proof.Gen.Kernel

/-!
# The four groups of tiles

The kernel's body is one of four branches, chosen by four conditions on the tile's coordinates. On each of the 32
tiles exactly one of the four conditions holds.
-/

namespace Cert.Proof.KB

open Cert.Kernel Cert.Kernel.Gen
open Idealize.ShloMosaic

/-- Exactly one of the four branch conditions holds at every tile. -/
theorem group_cases : ∀ L : grid0.Coords,
    (k0_cond1 L = 1#1 ∧ ¬ k0_cond2 L = 1#1 ∧ ¬ k0_cond3 L = 1#1 ∧ ¬ k0_cond4 L = 1#1)
    ∨ (¬ k0_cond1 L = 1#1 ∧ k0_cond2 L = 1#1 ∧ ¬ k0_cond3 L = 1#1 ∧ ¬ k0_cond4 L = 1#1)
    ∨ (¬ k0_cond1 L = 1#1 ∧ ¬ k0_cond2 L = 1#1 ∧ k0_cond3 L = 1#1 ∧ ¬ k0_cond4 L = 1#1)
    ∨ (¬ k0_cond1 L = 1#1 ∧ ¬ k0_cond2 L = 1#1 ∧ ¬ k0_cond3 L = 1#1 ∧ k0_cond4 L = 1#1) := by
  decide +kernel

end Cert.Proof.KB
-- ==== Proof.ObligKB.lean ====
import proofs.«204019_g4913442586959_cont_sun_m_672_34_alg».proof.Proof.SetupKB
import proofs.«204019_g4913442586959_cont_sun_m_672_34_alg».proof.Proof.TileStmtKB
import proofs.«204019_g4913442586959_cont_sun_m_672_34_alg».proof.Proof.GroupKB

/-!
  The tile obligation from the tile's run. A vector subcore's task is handed the tile's share of the operands and the
  subcore's scoped storage; the scoped storage is the two scratch buffers, the fifteen transfer cells at zero, and a
  rest the body never touches. The run of the body (stated per branch condition) takes exactly the share, the two
  buffers and the fifteen cells; the rest is framed around it. Exactly one branch condition holds on every tile.
-/

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Peeling members off a big product -/

/-- A big product over a set, with a list of distinct members of the set taken out in order. -/
theorem bigSep_peel {I : Type} [DecidableEq I] (Φ : I → sProp 𝕄) :
    ∀ (l : List I) (s : Finset I), l.Nodup → (∀ i ∈ l, i ∈ s) →
      bigSep s Φ = l.foldr (fun i acc => iprop(Φ i ∗ acc)) (bigSep (l.foldl Finset.erase s) Φ)
  | [], s, _, _ => rfl
  | a :: l, s, hnd, hm => by
    rw [SparseCore.bigSep_erase' (hm a List.mem_cons_self), List.foldr_cons, List.foldl_cons,
      ← bigSep_peel Φ l (s.erase a) (List.nodup_cons.mp hnd).2 fun i hi =>
        Finset.mem_erase.mpr ⟨fun e => (List.nodup_cons.mp hnd).1 (e ▸ hi), hm i (List.mem_cons_of_mem _ hi)⟩]

/-- The body's fifteen transfer cells. -/
def tileSems : List (SemLoc sig) :=
  [.dma cc0_scratch2.sem, .dma cc0_scratch3.sem, .dma cc0_scratch4.sem, .dma cc0_scratch5.sem, .dma cc0_scratch6.sem,
   .dma cc0_scratch7.sem, .dma cc0_scratch8.sem, .dma cc0_scratch9.sem, .dma cc0_scratch10.sem, .dma cc0_scratch11.sem,
   .dma cc0_scratch12.sem, .dma cc0_scratch13.sem, .dma cc0_scratch14.sem, .dma cc0_scratch15.sem, .dma cc0_scratch16.sem]

theorem tileSems_nodup : tileSems.Nodup := by decide
theorem tileSems_scoped : ∀ s ∈ tileSems, s.isScoped .scVector = true := by decide

/-- The same on a thread. -/
def tileCells (thr : Thread nD τ) : List (GSem nD τ sig) := tileSems.map fun s => (thr, s)

/-- A subcore's other scoped cells. -/
def restCells (thr : Thread nD τ) : Finset (GSem nD τ sig) := (tileCells thr).foldl Finset.erase (ownCells thr)

variable (d : Dev nD) (L : grid0.Coords)

set_option maxHeartbeats 4000000 in
/-- The subcore's cells at zero: the fifteen, and the rest. -/
theorem ownSems0_V :
    (ownSems0 (V d (cVL L) (jVL L)) : sProp 𝕄)
      = iprop(semVal (((V d (cVL L) (jVL L)), .dma cc0_scratch2.sem) : GSem nD τ sig) 0
          ∗ semVal (((V d (cVL L) (jVL L)), .dma cc0_scratch3.sem) : GSem nD τ sig) 0
          ∗ semVal (((V d (cVL L) (jVL L)), .dma cc0_scratch4.sem) : GSem nD τ sig) 0
          ∗ semVal (((V d (cVL L) (jVL L)), .dma cc0_scratch5.sem) : GSem nD τ sig) 0
          ∗ semVal (((V d (cVL L) (jVL L)), .dma cc0_scratch6.sem) : GSem nD τ sig) 0
          ∗ semVal (((V d (cVL L) (jVL L)), .dma cc0_scratch7.sem) : GSem nD τ sig) 0
          ∗ semVal (((V d (cVL L) (jVL L)), .dma cc0_scratch8.sem) : GSem nD τ sig) 0
          ∗ semVal (((V d (cVL L) (jVL L)), .dma cc0_scratch9.sem) : GSem nD τ sig) 0
          ∗ semVal (((V d (cVL L) (jVL L)), .dma cc0_scratch10.sem) : GSem nD τ sig) 0
          ∗ semVal (((V d (cVL L) (jVL L)), .dma cc0_scratch11.sem) : GSem nD τ sig) 0
          ∗ semVal (((V d (cVL L) (jVL L)), .dma cc0_scratch12.sem) : GSem nD τ sig) 0
          ∗ semVal (((V d (cVL L) (jVL L)), .dma cc0_scratch13.sem) : GSem nD τ sig) 0
          ∗ semVal (((V d (cVL L) (jVL L)), .dma cc0_scratch14.sem) : GSem nD τ sig) 0
          ∗ semVal (((V d (cVL L) (jVL L)), .dma cc0_scratch15.sem) : GSem nD τ sig) 0
          ∗ semVal (((V d (cVL L) (jVL L)), .dma cc0_scratch16.sem) : GSem nD τ sig) 0
          ∗ bigSep (restCells (V d (cVL L) (jVL L))) fun g => semVal g 0) := by
  unfold SparseCore.Cfg.ownSems0
  rw [bigSep_peel (F := F) (fun g => semVal g 0) (tileCells (V d (cVL L) (jVL L))) _
    (tileSems_nodup.map fun a b h => (Prod.mk.inj h).2)
    (fun g hg => by
      obtain ⟨s, hs, rfl⟩ := List.mem_map.mp hg
      exact mem_ownCells.mpr ⟨rfl, tileSems_scoped s hs⟩)]
  unfold restCells
  simp only [tileCells, tileSems, List.map_cons, List.map_nil, List.foldr_cons, List.foldr_nil]

/-- The subcore's buffers: the two scratch buffers, at some contents, and the rest. -/
theorem ownBufs_V :
    (ownBufs (V d (cVL L) (jVL L)) : sProp 𝕄)
      = iprop((∃ f, (V d (cVL L) (jVL L)).loc cc0_scratch0 ↦{fullShare} f) ∗ (∃ f, (V d (cVL L) (jVL L)).loc cc0_scratch1 ↦{fullShare} f)
          ∗ bigSep (((ownRefs (τ := τ) (.scVector (cVL L) (jVL L))).erase ((Proc.scVector (cVL L) (jVL L)).devRef cc0_scratch0)).erase
              ((Proc.scVector (cVL L) (jVL L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cVL L) (jVL L))
    (b := (Proc.scVector (cVL L) (jVL L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cVL L) (jVL L)) (b := (Proc.scVector (cVL L) (jVL L)).devRef cc0_scratch1) rfl⟩)]

/-! ## The task on one tile -/

/-- Splits off and closes, one after the other, the conjuncts that are the named hypotheses. -/
syntax "isplits" "[" ident* "]" : tactic
macro_rules
  | `(tactic| isplits []) => `(tactic| skip)
  | `(tactic| isplits [$h $hs*]) => `(tactic| (isplitl [$h]; (· iexact $h); isplits [$hs*]))

variable [FloatOps F] (m : (ℓ : Loc nD τ sig) → Buf (Elt F) ℓ)

set_option maxHeartbeats 400000000 in
set_option maxRecDepth 65536 in
/-- The task on tile `L`, from the run of the body under conditions that hold at `L`: the tile's share is the run's
    tables, column pieces and output rows; the subcore's scoped storage is the run's two buffers and fifteen cells and a
    rest, kept aside and handed back. -/
theorem tile_body {C1 C2 C3 C4 : grid0.Coords → Prop} (hrun : TileRunOf (F := F) C1 C2 C3 C4) (hpre : PreOK m)
    (hc1 : C1 L) (hc2 : C2 L) (hc3 : C3 L) (hc4 : C4 L)
    (O : CellTallies nD τ sig (HIx 1)) (W : Waits sig (HIx 1)) (hO : ∀ g, O g none = 0) :
    iprop(levAts (K (F := F)).L (K (F := F)).lev ∗ emp ∗ goPayL m d L
        ∗ scopedBufs (V d (cVL L) (jVL L)) ∗ scopedSems0 (V d (cVL L) (jVL L)) ∗ owes (V d (cVL L) (jVL L)) O W)
      ⊢ wp frame (wpE (defs₀ (F := F)) 𝒱₀ (V d (cVL L) (jVL L)) none) Set.univ (tileProg (F := F) L)
          fun _ => iprop(tdPayL m d L ∗ scopedBufs (V d (cVL L) (jVL L)) ∗ scopedSems0 (V d (cVL L) (jVL L))
            ∗ ∃ W', ⌜∀ p ∈ W', p ∈ W ∨ p.2 = none⌝ ∗ owes (V d (cVL L) (jVL L)) O W') := by
  rw [(K (F := F)).scopedBufs_V facts d (cVL L) (jVL L), SparseCore.Cfg.scopedSems0_V (Val := Elt F) d (cVL L) (jVL L),
    ownSems0_V, ownBufs_V]
  unfold goPayL tdPayL payL
  simp only [bigSep_fin26]
  unfold sep26
  simp only [tblTokL, colPcL, Matrix.cons_val, outPcL,
    tblTokL0, tblTokL1, tblTokL2, tblTokL3, tblTokL4, tblTokL5, tblTokL6, tblTokL7, tblTokL8, tblTokL9, tblTokL10, tblTokL11, tblTokL12,
    tblTokL13, tblTokL14, tblTokL15, tblTokL16, tblTokL17, tblTokL18, tblTokL19, tblTokL20, tblTokL21, tblTokL22, tblTokL23, tblTokL24, tblTokL25,
    colPcL0, colPcL1, colPcL2, colPcL3, colPcL4, colPcL5, colPcL6, colPcL7, colPcL8, colPcL9, colPcL10, colPcL11, colPcL12,
    colPcL13, colPcL14, colPcL15, colPcL16, colPcL17, colPcL18, colPcL19, colPcL20, colPcL21, colPcL22, colPcL23, colPcL24, colPcL25]
  obtain ⟨p0, p1, p2, p3, p4, p5, p6, p7, p8, p9, p10, p11, p12, p13, p14, p15, p16, p17, p18, p19, p20, p21, p22, p23, p24, p25⟩ := hpre d
  iintro ⟨#Hlv, -, ⟨⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩, Ho⟩, ⟨⟨%fs, Hs⟩, ⟨%fr, Hr⟩, Hbufs⟩, ⟨Hm2, Hm3, Hm4, Hm5, Hm6, Hm7, Hm8, Hm9, Hm10, Hm11, Hm12, Hm13, Hm14, Hm15, Hm16, Hsems⟩, HO⟩
  ihave Hwp := (hrun d L facts O W hO (Transfers.shareTok fullShare 32 (wOfL L)) hc1 hc2 hc3 hc4
      (m ((SparseCore.T d).loc main_arg26)) (V1 m d (Proc.devRef .tc (main_v0 : Ref sig .tc))) p0
      (m ((SparseCore.T d).loc main_arg27)) (V1 m d (Proc.devRef .tc (main_v1 : Ref sig .tc))) p1
      (m ((SparseCore.T d).loc main_arg28)) (V1 m d (Proc.devRef .tc (main_v2 : Ref sig .tc))) p2
      (m ((SparseCore.T d).loc main_arg29)) (V1 m d (Proc.devRef .tc (main_v3 : Ref sig .tc))) p3
      (m ((SparseCore.T d).loc main_arg30)) (V1 m d (Proc.devRef .tc (main_v4 : Ref sig .tc))) p4
      (m ((SparseCore.T d).loc main_arg31)) (V1 m d (Proc.devRef .tc (main_v5 : Ref sig .tc))) p5
      (m ((SparseCore.T d).loc main_arg32)) (V1 m d (Proc.devRef .tc (main_v6 : Ref sig .tc))) p6
      (m ((SparseCore.T d).loc main_arg33)) (V1 m d (Proc.devRef .tc (main_v7 : Ref sig .tc))) p7
      (m ((SparseCore.T d).loc main_arg34)) (V1 m d (Proc.devRef .tc (main_v8 : Ref sig .tc))) p8
      (m ((SparseCore.T d).loc main_arg35)) (V1 m d (Proc.devRef .tc (main_v9 : Ref sig .tc))) p9
      (m ((SparseCore.T d).loc main_arg36)) (V1 m d (Proc.devRef .tc (main_v10 : Ref sig .tc))) p10
      (m ((SparseCore.T d).loc main_arg37)) (V1 m d (Proc.devRef .tc (main_v11 : Ref sig .tc))) p11
      (m ((SparseCore.T d).loc main_arg38)) (V1 m d (Proc.devRef .tc (main_v12 : Ref sig .tc))) p12
      (m ((SparseCore.T d).loc main_arg39)) (V1 m d (Proc.devRef .tc (main_v13 : Ref sig .tc))) p13
      (m ((SparseCore.T d).loc main_arg40)) (V1 m d (Proc.devRef .tc (main_v14 : Ref sig .tc))) p14
      (m ((SparseCore.T d).loc main_arg41)) (V1 m d (Proc.devRef .tc (main_v15 : Ref sig .tc))) p15
      (m ((SparseCore.T d).loc main_arg42)) (V1 m d (Proc.devRef .tc (main_v16 : Ref sig .tc))) p16
      (m ((SparseCore.T d).loc main_arg43)) (V1 m d (Proc.devRef .tc (main_v17 : Ref sig .tc))) p17
      (m ((SparseCore.T d).loc main_arg44)) (V1 m d (Proc.devRef .tc (main_v18 : Ref sig .tc))) p18
      (m ((SparseCore.T d).loc main_arg45)) (V1 m d (Proc.devRef .tc (main_v19 : Ref sig .tc))) p19
      (m ((SparseCore.T d).loc main_arg46)) (V1 m d (Proc.devRef .tc (main_v20 : Ref sig .tc))) p20
      (m ((SparseCore.T d).loc main_arg47)) (V1 m d (Proc.devRef .tc (main_v21 : Ref sig .tc))) p21
      (m ((SparseCore.T d).loc main_arg48)) (V1 m d (Proc.devRef .tc (main_v22 : Ref sig .tc))) p22
      (m ((SparseCore.T d).loc main_arg49)) (V1 m d (Proc.devRef .tc (main_v23 : Ref sig .tc))) p23
      (m ((SparseCore.T d).loc main_arg50)) (V1 m d (Proc.devRef .tc (main_v24 : Ref sig .tc))) p24
      (m ((SparseCore.T d).loc main_arg51)) (V1 m d (Proc.devRef .tc (main_v25 : Ref sig .tc))) p25
      (m (oLoc d)) fs fr) $$ [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho Hs Hr Hm2 Hm3 Hm4 Hm5 Hm6 Hm7 Hm8 Hm9 Hm10 Hm11 Hm12 Hm13 Hm14 Hm15 Hm16 HO]
  · isplitl []; · iexact Hlv
    isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    isplits [Ho Hs Hr Hm2 Hm3 Hm4 Hm5 Hm6 Hm7 Hm8 Hm9 Hm10 Hm11 Hm12 Hm13 Hm14 Hm15 Hm16]
    iexact HO
  iapply (wp_wand frame _ _) $$ Hwp
  iintro %_ ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hm2, Hm3, Hm4, Hm5, Hm6, Hm7, Hm8, Hm9, Hm10, Hm11, Hm12, Hm13, Hm14, Hm15, Hm16, HO⟩
  isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho]
  · isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    · isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24]
      iexact Ht25
    isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    · isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24]
      iexact Hc25
    iexact Ho
  isplitl [Hs Hr Hbufs]
  · isplits [Hs Hr]
    iexact Hbufs
  isplitl [Hm2 Hm3 Hm4 Hm5 Hm6 Hm7 Hm8 Hm9 Hm10 Hm11 Hm12 Hm13 Hm14 Hm15 Hm16 Hsems]
  · isplits [Hm2 Hm3 Hm4 Hm5 Hm6 Hm7 Hm8 Hm9 Hm10 Hm11 Hm12 Hm13 Hm14 Hm15 Hm16]
    iexact Hsems
  iexact HO

/-! ## The obligation -/

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 40000000 in
set_option maxRecDepth 16384 in
/-- The tile obligation of the one call, from the four branches' runs: every tile satisfies exactly one branch's
    conditions (`group_cases`), and that branch's run gives its task. -/
theorem tileObl (hpre : PreOK m)
    (h0 : TileRunOf (F := F) (fun L => k0_cond1 L = 1#1) (fun L => ¬ k0_cond2 L = 1#1) (fun L => ¬ k0_cond3 L = 1#1) (fun L => ¬ k0_cond4 L = 1#1))
    (h1 : TileRunOf (F := F) (fun L => ¬ k0_cond1 L = 1#1) (fun L => k0_cond2 L = 1#1) (fun L => ¬ k0_cond3 L = 1#1) (fun L => ¬ k0_cond4 L = 1#1))
    (h2 : TileRunOf (F := F) (fun L => ¬ k0_cond1 L = 1#1) (fun L => ¬ k0_cond2 L = 1#1) (fun L => k0_cond3 L = 1#1) (fun L => ¬ k0_cond4 L = 1#1))
    (h3 : TileRunOf (F := F) (fun L => ¬ k0_cond1 L = 1#1) (fun L => ¬ k0_cond2 L = 1#1) (fun L => ¬ k0_cond3 L = 1#1) (fun L => k0_cond4 L = 1#1)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rcases group_cases (coordsV ⟨_, hci.1⟩ ⟨_, hci.2⟩) with ⟨g1, g2, g3, g4⟩ | ⟨g1, g2, g3, g4⟩ | ⟨g1, g2, g3, g4⟩ | ⟨g1, g2, g3, g4⟩
  · exact (tile_body d (coordsV ⟨_, hci.1⟩ ⟨_, hci.2⟩) m h0 hpre g1 g2 g3 g4 O W hO).trans (wp_mono frame _ _ fun _ => obl_post)
  · exact (tile_body d (coordsV ⟨_, hci.1⟩ ⟨_, hci.2⟩) m h1 hpre g1 g2 g3 g4 O W hO).trans (wp_mono frame _ _ fun _ => obl_post)
  · exact (tile_body d (coordsV ⟨_, hci.1⟩ ⟨_, hci.2⟩) m h2 hpre g1 g2 g3 g4 O W hO).trans (wp_mono frame _ _ fun _ => obl_post)
  · exact (tile_body d (coordsV ⟨_, hci.1⟩ ⟨_, hci.2⟩) m h3 hpre g1 g2 g3 g4 O W hO).trans (wp_mono frame _ _ fun _ => obl_post)

end Cert.Proof.KB

end
-- ==== Proof.IdxScratchKB.lean ====
import proofs.«204019_g4913442586959_cont_sun_m_672_34_alg».proof.Defs
import Idealize.ShloMosaic.Lib.SparseCore.Launch
import Idealize.ShloMosaic.Lib.Tactic
import Idealize.ShloMosaic.Lib.ValueIdx
import Idealize.ShloMosaic.Lib.ValueLayout
import proofs.«204019_g4913442586959_cont_sun_m_672_34_alg».proof.Proof.Gen.Kernel

/-!
  The index scratch of a tile: an array of 26 by 4 by 128 words, filled window by window — window `t` is the
  4 by 128 block at first coordinate `t` — and then read in lists of 128 words. The 26 windows are pairwise
  disjoint and cover the array, so the array held whole is the 26 windows held apart, and the 26 windows, each
  holding on its own elements what it was written with, are the array held whole at one closed-form contents.
-/

noncomputable section

namespace Cert.Proof.KB.Idx

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ (URounds (GSem nD τ sig) ℕ × Counters) ℕ

local notation "sV" => (Memref.whole Cert.Kernel.cc0_scratch0 : Memref Cert.Kernel.sig Kind.scVector Space.vmem Cert.Kernel.S26x4x128 EltTy.i32)

/-- Window `t` of the scratch, as the program addresses it: the block of one by 4 by 128 at `(t, 0, 0)`, its unit
    axis dropped. -/
abbrev Wn (t : Nat) (h : ∀ a, (![t, 0, 0] : Fin 3 → Nat) a + S1x4x128.size a ≤ S26x4x128.size a) :
    Memref sig .scVector .vmem S4x128 .i32 :=
  ((sV).slice (Rect.unit (s := S26x4x128) ![t, 0, 0] S1x4x128.size h) (fun _ => rfl)).squeeze S4x128 squeezes_S1x4x128_S4x128

/-- The elements of the scratch at first coordinate `t`. -/
def winSet (t : Nat) : Finset S26x4x128.Idx := Finset.univ.filter fun j => (j 0).val = t
/-- The elements of the scratch at first coordinate `k` or more. -/
def tailSet (k : Nat) : Finset S26x4x128.Idx := Finset.univ.filter fun j => k ≤ (j 0).val

theorem mem_winSet {t : Nat} {j : S26x4x128.Idx} : j ∈ winSet t ↔ (j 0).val = t := by simp [winSet]
theorem mem_tailSet {k : Nat} {j : S26x4x128.Idx} : j ∈ tailSet k ↔ k ≤ (j 0).val := by simp [tailSet]

/-- Window `t` covers exactly the elements at first coordinate `t`. -/
theorem set_Wn (t : Nat) (h : ∀ a, (![t, 0, 0] : Fin 3 → Nat) a + S1x4x128.size a ≤ S26x4x128.size a) :
    (Wn t h).view.set = winSet t := by
  show (((sV).view.slice (Rect.unit (s := S26x4x128) ![t, 0, 0] S1x4x128.size h)).reshape S4x128 squeezes_S1x4x128_S4x128.numel_eq).set = _
  rw [View.set_reshape]
  show ((View.whole (cc0_scratch0 : Ref sig .scVector)).slice (Rect.unit (s := S26x4x128) ![t, 0, 0] S1x4x128.size h)).set = _
  rw [View.set_slice_whole]
  ext j
  rw [mem_winSet]
  refine (Rect.mem_set_unit (s := S26x4x128)).trans ⟨fun H => ?_, fun H a => ?_⟩
  · have h0 := H 0
    simp at h0
    omega
  · match a with
    | ⟨0, _⟩ => simp; omega
    | ⟨1, _⟩ => simp; exact (j 1).isLt
    | ⟨2, _⟩ => simp; exact (j 2).isLt

variable (d : Dev nD) (c : Fin τ.nSC) (i : Fin τ.nSub)

/-- The scratch of the tile `(c, i)` of device `d`. -/
abbrev sLoc : Loc nD τ sig := (sV).view.loc (V d c i)

theorem tailSet_last : tailSet 25 = winSet 25 := by
  ext j; rw [mem_tailSet, mem_winSet]
  have hj : (j 0).val < 26 := (j 0).isLt
  omega
theorem tailSet_succ (k : Nat) : tailSet k = winSet k ∪ tailSet (k + 1) := by
  ext j; rw [Finset.mem_union, mem_tailSet, mem_winSet, mem_tailSet]; omega
theorem win_tail_disjoint (k : Nat) : Disjoint (winSet k) (tailSet (k + 1)) := by
  rw [Finset.disjoint_left]; intro j h1 h2; rw [mem_winSet] at h1; rw [mem_tailSet] at h2; omega
theorem tailSet_zero : tailSet 0 = Finset.univ := by
  ext j; simp [mem_tailSet]

/-- A window held on its own elements is the scratch held on the elements at the window's first coordinate. -/
theorem pts_Wn (t : Nat) (h : ∀ a, (![t, 0, 0] : Fin 3 → Nat) a + S1x4x128.size a ≤ S26x4x128.size a)
    (g : Buf (Elt F) (sLoc d c i)) :
    ((Wn t h).view.loc (V d c i) ↦[(Wn t h).view.set]{fullShare} g : sProp 𝕄) = (sLoc d c i ↦[winSet t]{fullShare} g) := by
  rw [set_Wn]

/-- The same, the contents replaced by one that agrees with them on the window. -/
theorem pts_Wn_congr (t : Nat) (h : ∀ a, (![t, 0, 0] : Fin 3 → Nat) a + S1x4x128.size a ≤ S26x4x128.size a)
    (g g' : Buf (Elt F) (sLoc d c i)) (hg : ∀ j ∈ (Wn t h).view.set, g j = g' j) :
    ((Wn t h).view.loc (V d c i) ↦[(Wn t h).view.set]{fullShare} g : sProp 𝕄) = (sLoc d c i ↦[winSet t]{fullShare} g') := by
  rw [pointsTo_congr hg, set_Wn]

/-- The whole scratch is its elements from first coordinate 0 on. -/
theorem pts_univ (f : Buf (Elt F) (sLoc d c i)) :
    ((sV).view.loc (V d c i) ↦{fullShare} f : sProp 𝕄) = (sLoc d c i ↦[tailSet 0]{fullShare} f) := by
  rw [tailSet_zero]

/-- One window off the front: the elements from first coordinate `k` on are window `k` and the elements from `k + 1` on. -/
theorem split_step (k : Nat) (h : ∀ a, (![k, 0, 0] : Fin 3 → Nat) a + S1x4x128.size a ≤ S26x4x128.size a)
    (f : Buf (Elt F) (sLoc d c i)) (R : sProp 𝕄)
    (hR : (sLoc d c i ↦[tailSet (k + 1)]{fullShare} f : sProp 𝕄) ⊢ R) :
    (sLoc d c i ↦[tailSet k]{fullShare} f : sProp 𝕄)
      ⊢ iprop(((Wn k h).view.loc (V d c i) ↦[(Wn k h).view.set]{fullShare} f) ∗ R) := by
  rw [pts_Wn, tailSet_succ k]
  iintro H
  ihave H' := (pointsTo_union (ℓ := sLoc d c i) (q := fullShare) (f := f) (win_tail_disjoint k)).1 $$ H
  icases H' with ⟨H1, H2⟩
  isplitl [H1]; · iexact H1
  iapply hR; iexact H2

theorem split_last (h : ∀ a, (![25, 0, 0] : Fin 3 → Nat) a + S1x4x128.size a ≤ S26x4x128.size a)
    (f : Buf (Elt F) (sLoc d c i)) :
    (sLoc d c i ↦[tailSet 25]{fullShare} f : sProp 𝕄)
      ⊢ ((Wn 25 h).view.loc (V d c i) ↦[(Wn 25 h).view.set]{fullShare} f) := by
  rw [pts_Wn, tailSet_last]

/-- One window back on the front, at new contents `G` that the window's own contents agree with on the window. -/
theorem join_step (k : Nat) (h : ∀ a, (![k, 0, 0] : Fin 3 → Nat) a + S1x4x128.size a ≤ S26x4x128.size a)
    (g G : Buf (Elt F) (sLoc d c i)) (hg : ∀ j ∈ (Wn k h).view.set, g j = G j) (R : sProp 𝕄)
    (hR : R ⊢ (sLoc d c i ↦[tailSet (k + 1)]{fullShare} G : sProp 𝕄)) :
    iprop(((Wn k h).view.loc (V d c i) ↦[(Wn k h).view.set]{fullShare} g) ∗ R)
      ⊢ (sLoc d c i ↦[tailSet k]{fullShare} G : sProp 𝕄) := by
  rw [pts_Wn_congr d c i k h g G hg, tailSet_succ k]
  iintro ⟨H1, H2⟩
  ihave H2' := hR $$ H2
  iapply (pointsTo_union (ℓ := sLoc d c i) (q := fullShare) (f := G) (win_tail_disjoint k)).2
  isplitl [H1]; · iexact H1
  iexact H2'

theorem join_last (h : ∀ a, (![25, 0, 0] : Fin 3 → Nat) a + S1x4x128.size a ≤ S26x4x128.size a)
    (g G : Buf (Elt F) (sLoc d c i)) (hg : ∀ j ∈ (Wn 25 h).view.set, g j = G j) :
    ((Wn 25 h).view.loc (V d c i) ↦[(Wn 25 h).view.set]{fullShare} g)
      ⊢ (sLoc d c i ↦[tailSet 25]{fullShare} G : sProp 𝕄) := by
  rw [pts_Wn_congr d c i 25 h g G hg, tailSet_last]

set_option maxHeartbeats 4000000 in
/-- The scratch held whole is its 26 windows held apart, at the same contents. -/
theorem idx_split (f : Buf (Elt F) (sLoc d c i)) :
    ((sV).view.loc (V d c i) ↦{fullShare} f : sProp 𝕄) ⊢ iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} f) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} f) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} f) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} f) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} f) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} f) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} f) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} f) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} f) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} f) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} f) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} f) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} f) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} f) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} f) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} f) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} f) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} f) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} f) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} f) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} f) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} f) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} f) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} f) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} f) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} f)) := by
  rw [pts_univ]
  refine split_step d c i 0 inb_S26x4x128_S1x4x128_0_0_0 f _ ?_
  refine split_step d c i 1 inb_S26x4x128_S1x4x128_1_0_0 f _ ?_
  refine split_step d c i 2 inb_S26x4x128_S1x4x128_2_0_0 f _ ?_
  refine split_step d c i 3 inb_S26x4x128_S1x4x128_3_0_0 f _ ?_
  refine split_step d c i 4 inb_S26x4x128_S1x4x128_4_0_0 f _ ?_
  refine split_step d c i 5 inb_S26x4x128_S1x4x128_5_0_0 f _ ?_
  refine split_step d c i 6 inb_S26x4x128_S1x4x128_6_0_0 f _ ?_
  refine split_step d c i 7 inb_S26x4x128_S1x4x128_7_0_0 f _ ?_
  refine split_step d c i 8 inb_S26x4x128_S1x4x128_8_0_0 f _ ?_
  refine split_step d c i 9 inb_S26x4x128_S1x4x128_9_0_0 f _ ?_
  refine split_step d c i 10 inb_S26x4x128_S1x4x128_10_0_0 f _ ?_
  refine split_step d c i 11 inb_S26x4x128_S1x4x128_11_0_0 f _ ?_
  refine split_step d c i 12 inb_S26x4x128_S1x4x128_12_0_0 f _ ?_
  refine split_step d c i 13 inb_S26x4x128_S1x4x128_13_0_0 f _ ?_
  refine split_step d c i 14 inb_S26x4x128_S1x4x128_14_0_0 f _ ?_
  refine split_step d c i 15 inb_S26x4x128_S1x4x128_15_0_0 f _ ?_
  refine split_step d c i 16 inb_S26x4x128_S1x4x128_16_0_0 f _ ?_
  refine split_step d c i 17 inb_S26x4x128_S1x4x128_17_0_0 f _ ?_
  refine split_step d c i 18 inb_S26x4x128_S1x4x128_18_0_0 f _ ?_
  refine split_step d c i 19 inb_S26x4x128_S1x4x128_19_0_0 f _ ?_
  refine split_step d c i 20 inb_S26x4x128_S1x4x128_20_0_0 f _ ?_
  refine split_step d c i 21 inb_S26x4x128_S1x4x128_21_0_0 f _ ?_
  refine split_step d c i 22 inb_S26x4x128_S1x4x128_22_0_0 f _ ?_
  refine split_step d c i 23 inb_S26x4x128_S1x4x128_23_0_0 f _ ?_
  refine split_step d c i 24 inb_S26x4x128_S1x4x128_24_0_0 f _ ?_
  exact split_last d c i inb_S26x4x128_S1x4x128_25_0_0 f

/-! ## The contents the 26 copies leave -/

/-- Entry `(t, r, p)` of the scratch is word `(r, p)` of what window `t` was written with. -/
def IDXV (pay : Fin 26 → S4x128.Idx → Elt F .i32) : S26x4x128.Idx → Elt F .i32 :=
  fun j => pay ⟨(j 0).val, (j 0).isLt⟩ (ix2 (⟨(j 1).val, (j 1).isLt⟩ : Fin 4) (⟨(j 2).val, (j 2).isLt⟩ : Fin 128))

/-- Where window `t` puts its word `(a, b)`: at `(t, a, b)`. -/
theorem emb_Wn (t : Nat) (h : ∀ a, (![t, 0, 0] : Fin 3 → Nat) a + S1x4x128.size a ≤ S26x4x128.size a)
    (a : Fin 4) (b : Fin 128) (q : Fin 3) :
    ((Wn t h).view.emb (ix2 a b) q : Nat)
      = (![t, 0, 0] : Fin 3 → Nat) q + 1 * (ix3 (⟨0, Nat.one_pos⟩ : Fin 1) a b q : Nat) := by
  show ((Rect.unit (s := S26x4x128) ![t, 0, 0] S1x4x128.size h).emb
      (Shape.reshapeEquiv squeezes_S1x4x128_S4x128.numel_eq (ix2 a b)) q : Nat) = _
  rw [reshapeEquiv_ix2_1ab]
  rfl

/-- A window written whole with `pay t` holds, on its own elements, the closed-form contents. -/
theorem writes_eq_IDXV (t : Nat) (ht : t < 26) (h : ∀ a, (![t, 0, 0] : Fin 3 → Nat) a + S1x4x128.size a ≤ S26x4x128.size a)
    (fs : Buf (Elt F) (sLoc d c i)) (pay : Fin 26 → S4x128.Idx → Elt F .i32)
    (p : S4x128.Idx → Elt F .i32) (hp : p = pay ⟨t, ht⟩) :
    ∀ j ∈ (Wn t h).view.set, (Wn t h).view.writes (Elt F) fs [⟨Rect.whole S4x128, p⟩] j = IDXV pay j := by
  subst hp
  intro j hj
  obtain ⟨y, -, rfl⟩ := Finset.mem_map.mp hj
  have h1 := View.read_writes_cons_emb (Wn t h).view fs (Rect.whole S4x128) (pay ⟨t, ht⟩) [] y
  rw [Rect.emb_whole_apply] at h1
  refine (show (Wn t h).view.writes (Elt F) fs [⟨Rect.whole S4x128, pay ⟨t, ht⟩⟩] ((Wn t h).view.emb y)
      = pay ⟨t, ht⟩ y from h1).trans ?_
  obtain ⟨a, b, rfl⟩ : ∃ a b, y = ix2 a b := ⟨y 0, y 1, eq_ix2 y⟩
  show pay ⟨t, ht⟩ (ix2 a b) = pay ⟨_, _⟩ (ix2 ⟨_, _⟩ ⟨_, _⟩)
  refine congrArg₂ pay (Fin.ext ?_) (congrArg₂ ix2 (Fin.ext ?_) (Fin.ext ?_))
  · show t = ((Wn t h).view.emb (ix2 a b) 0 : Nat)
    rw [emb_Wn]; show t = t + 1 * 0; omega
  · show a.val = ((Wn t h).view.emb (ix2 a b) 1 : Nat)
    rw [emb_Wn]; show a.val = 0 + 1 * a.val; omega
  · show b.val = ((Wn t h).view.emb (ix2 a b) 2 : Nat)
    rw [emb_Wn]; show b.val = 0 + 1 * b.val; omega

set_option maxHeartbeats 4000000 in
/-- The 26 windows held apart, each at what its whole write left, are the scratch held whole at the closed-form
    contents. -/
theorem idx_join' (pay : Fin 26 → S4x128.Idx → Elt F .i32) (fs : Buf (Elt F) (sLoc d c i)) :
    iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} ((((sV).slice (Rect.unit (s := S26x4x128) ![0, 0, 0] S1x4x128.size inb_S26x4x128_S1x4x128_0_0_0) (fun _ => rfl)).squeeze S4x128 squeezes_S1x4x128_S4x128).view.writes (Elt F) fs [⟨Rect.whole S4x128, pay 0⟩])) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} ((((sV).slice (Rect.unit (s := S26x4x128) ![1, 0, 0] S1x4x128.size inb_S26x4x128_S1x4x128_1_0_0) (fun _ => rfl)).squeeze S4x128 squeezes_S1x4x128_S4x128).view.writes (Elt F) fs [⟨Rect.whole S4x128, pay 1⟩])) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} ((((sV).slice (Rect.unit (s := S26x4x128) ![2, 0, 0] S1x4x128.size inb_S26x4x128_S1x4x128_2_0_0) (fun _ => rfl)).squeeze S4x128 squeezes_S1x4x128_S4x128).view.writes (Elt F) fs [⟨Rect.whole S4x128, pay 2⟩])) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} ((((sV).slice (Rect.unit (s := S26x4x128) ![3, 0, 0] S1x4x128.size inb_S26x4x128_S1x4x128_3_0_0) (fun _ => rfl)).squeeze S4x128 squeezes_S1x4x128_S4x128).view.writes (Elt F) fs [⟨Rect.whole S4x128, pay 3⟩])) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} ((((sV).slice (Rect.unit (s := S26x4x128) ![4, 0, 0] S1x4x128.size inb_S26x4x128_S1x4x128_4_0_0) (fun _ => rfl)).squeeze S4x128 squeezes_S1x4x128_S4x128).view.writes (Elt F) fs [⟨Rect.whole S4x128, pay 4⟩])) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} ((((sV).slice (Rect.unit (s := S26x4x128) ![5, 0, 0] S1x4x128.size inb_S26x4x128_S1x4x128_5_0_0) (fun _ => rfl)).squeeze S4x128 squeezes_S1x4x128_S4x128).view.writes (Elt F) fs [⟨Rect.whole S4x128, pay 5⟩])) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} ((((sV).slice (Rect.unit (s := S26x4x128) ![6, 0, 0] S1x4x128.size inb_S26x4x128_S1x4x128_6_0_0) (fun _ => rfl)).squeeze S4x128 squeezes_S1x4x128_S4x128).view.writes (Elt F) fs [⟨Rect.whole S4x128, pay 6⟩])) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} ((((sV).slice (Rect.unit (s := S26x4x128) ![7, 0, 0] S1x4x128.size inb_S26x4x128_S1x4x128_7_0_0) (fun _ => rfl)).squeeze S4x128 squeezes_S1x4x128_S4x128).view.writes (Elt F) fs [⟨Rect.whole S4x128, pay 7⟩])) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} ((((sV).slice (Rect.unit (s := S26x4x128) ![8, 0, 0] S1x4x128.size inb_S26x4x128_S1x4x128_8_0_0) (fun _ => rfl)).squeeze S4x128 squeezes_S1x4x128_S4x128).view.writes (Elt F) fs [⟨Rect.whole S4x128, pay 8⟩])) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} ((((sV).slice (Rect.unit (s := S26x4x128) ![9, 0, 0] S1x4x128.size inb_S26x4x128_S1x4x128_9_0_0) (fun _ => rfl)).squeeze S4x128 squeezes_S1x4x128_S4x128).view.writes (Elt F) fs [⟨Rect.whole S4x128, pay 9⟩])) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} ((((sV).slice (Rect.unit (s := S26x4x128) ![10, 0, 0] S1x4x128.size inb_S26x4x128_S1x4x128_10_0_0) (fun _ => rfl)).squeeze S4x128 squeezes_S1x4x128_S4x128).view.writes (Elt F) fs [⟨Rect.whole S4x128, pay 10⟩])) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} ((((sV).slice (Rect.unit (s := S26x4x128) ![11, 0, 0] S1x4x128.size inb_S26x4x128_S1x4x128_11_0_0) (fun _ => rfl)).squeeze S4x128 squeezes_S1x4x128_S4x128).view.writes (Elt F) fs [⟨Rect.whole S4x128, pay 11⟩])) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} ((((sV).slice (Rect.unit (s := S26x4x128) ![12, 0, 0] S1x4x128.size inb_S26x4x128_S1x4x128_12_0_0) (fun _ => rfl)).squeeze S4x128 squeezes_S1x4x128_S4x128).view.writes (Elt F) fs [⟨Rect.whole S4x128, pay 12⟩])) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} ((((sV).slice (Rect.unit (s := S26x4x128) ![13, 0, 0] S1x4x128.size inb_S26x4x128_S1x4x128_13_0_0) (fun _ => rfl)).squeeze S4x128 squeezes_S1x4x128_S4x128).view.writes (Elt F) fs [⟨Rect.whole S4x128, pay 13⟩])) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} ((((sV).slice (Rect.unit (s := S26x4x128) ![14, 0, 0] S1x4x128.size inb_S26x4x128_S1x4x128_14_0_0) (fun _ => rfl)).squeeze S4x128 squeezes_S1x4x128_S4x128).view.writes (Elt F) fs [⟨Rect.whole S4x128, pay 14⟩])) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} ((((sV).slice (Rect.unit (s := S26x4x128) ![15, 0, 0] S1x4x128.size inb_S26x4x128_S1x4x128_15_0_0) (fun _ => rfl)).squeeze S4x128 squeezes_S1x4x128_S4x128).view.writes (Elt F) fs [⟨Rect.whole S4x128, pay 15⟩])) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} ((((sV).slice (Rect.unit (s := S26x4x128) ![16, 0, 0] S1x4x128.size inb_S26x4x128_S1x4x128_16_0_0) (fun _ => rfl)).squeeze S4x128 squeezes_S1x4x128_S4x128).view.writes (Elt F) fs [⟨Rect.whole S4x128, pay 16⟩])) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} ((((sV).slice (Rect.unit (s := S26x4x128) ![17, 0, 0] S1x4x128.size inb_S26x4x128_S1x4x128_17_0_0) (fun _ => rfl)).squeeze S4x128 squeezes_S1x4x128_S4x128).view.writes (Elt F) fs [⟨Rect.whole S4x128, pay 17⟩])) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} ((((sV).slice (Rect.unit (s := S26x4x128) ![18, 0, 0] S1x4x128.size inb_S26x4x128_S1x4x128_18_0_0) (fun _ => rfl)).squeeze S4x128 squeezes_S1x4x128_S4x128).view.writes (Elt F) fs [⟨Rect.whole S4x128, pay 18⟩])) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} ((((sV).slice (Rect.unit (s := S26x4x128) ![19, 0, 0] S1x4x128.size inb_S26x4x128_S1x4x128_19_0_0) (fun _ => rfl)).squeeze S4x128 squeezes_S1x4x128_S4x128).view.writes (Elt F) fs [⟨Rect.whole S4x128, pay 19⟩])) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} ((((sV).slice (Rect.unit (s := S26x4x128) ![20, 0, 0] S1x4x128.size inb_S26x4x128_S1x4x128_20_0_0) (fun _ => rfl)).squeeze S4x128 squeezes_S1x4x128_S4x128).view.writes (Elt F) fs [⟨Rect.whole S4x128, pay 20⟩])) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} ((((sV).slice (Rect.unit (s := S26x4x128) ![21, 0, 0] S1x4x128.size inb_S26x4x128_S1x4x128_21_0_0) (fun _ => rfl)).squeeze S4x128 squeezes_S1x4x128_S4x128).view.writes (Elt F) fs [⟨Rect.whole S4x128, pay 21⟩])) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} ((((sV).slice (Rect.unit (s := S26x4x128) ![22, 0, 0] S1x4x128.size inb_S26x4x128_S1x4x128_22_0_0) (fun _ => rfl)).squeeze S4x128 squeezes_S1x4x128_S4x128).view.writes (Elt F) fs [⟨Rect.whole S4x128, pay 22⟩])) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} ((((sV).slice (Rect.unit (s := S26x4x128) ![23, 0, 0] S1x4x128.size inb_S26x4x128_S1x4x128_23_0_0) (fun _ => rfl)).squeeze S4x128 squeezes_S1x4x128_S4x128).view.writes (Elt F) fs [⟨Rect.whole S4x128, pay 23⟩])) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} ((((sV).slice (Rect.unit (s := S26x4x128) ![24, 0, 0] S1x4x128.size inb_S26x4x128_S1x4x128_24_0_0) (fun _ => rfl)).squeeze S4x128 squeezes_S1x4x128_S4x128).view.writes (Elt F) fs [⟨Rect.whole S4x128, pay 24⟩])) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} ((((sV).slice (Rect.unit (s := S26x4x128) ![25, 0, 0] S1x4x128.size inb_S26x4x128_S1x4x128_25_0_0) (fun _ => rfl)).squeeze S4x128 squeezes_S1x4x128_S4x128).view.writes (Elt F) fs [⟨Rect.whole S4x128, pay 25⟩])))
      ⊢ ((sV).view.loc (V d c i) ↦{fullShare} IDXV pay : sProp 𝕄) := by
  rw [pts_univ]
  refine join_step d c i 0 inb_S26x4x128_S1x4x128_0_0_0 _ (IDXV pay) (writes_eq_IDXV d c i 0 (by decide) inb_S26x4x128_S1x4x128_0_0_0 fs pay (pay 0) rfl) _ ?_
  refine join_step d c i 1 inb_S26x4x128_S1x4x128_1_0_0 _ (IDXV pay) (writes_eq_IDXV d c i 1 (by decide) inb_S26x4x128_S1x4x128_1_0_0 fs pay (pay 1) rfl) _ ?_
  refine join_step d c i 2 inb_S26x4x128_S1x4x128_2_0_0 _ (IDXV pay) (writes_eq_IDXV d c i 2 (by decide) inb_S26x4x128_S1x4x128_2_0_0 fs pay (pay 2) rfl) _ ?_
  refine join_step d c i 3 inb_S26x4x128_S1x4x128_3_0_0 _ (IDXV pay) (writes_eq_IDXV d c i 3 (by decide) inb_S26x4x128_S1x4x128_3_0_0 fs pay (pay 3) rfl) _ ?_
  refine join_step d c i 4 inb_S26x4x128_S1x4x128_4_0_0 _ (IDXV pay) (writes_eq_IDXV d c i 4 (by decide) inb_S26x4x128_S1x4x128_4_0_0 fs pay (pay 4) rfl) _ ?_
  refine join_step d c i 5 inb_S26x4x128_S1x4x128_5_0_0 _ (IDXV pay) (writes_eq_IDXV d c i 5 (by decide) inb_S26x4x128_S1x4x128_5_0_0 fs pay (pay 5) rfl) _ ?_
  refine join_step d c i 6 inb_S26x4x128_S1x4x128_6_0_0 _ (IDXV pay) (writes_eq_IDXV d c i 6 (by decide) inb_S26x4x128_S1x4x128_6_0_0 fs pay (pay 6) rfl) _ ?_
  refine join_step d c i 7 inb_S26x4x128_S1x4x128_7_0_0 _ (IDXV pay) (writes_eq_IDXV d c i 7 (by decide) inb_S26x4x128_S1x4x128_7_0_0 fs pay (pay 7) rfl) _ ?_
  refine join_step d c i 8 inb_S26x4x128_S1x4x128_8_0_0 _ (IDXV pay) (writes_eq_IDXV d c i 8 (by decide) inb_S26x4x128_S1x4x128_8_0_0 fs pay (pay 8) rfl) _ ?_
  refine join_step d c i 9 inb_S26x4x128_S1x4x128_9_0_0 _ (IDXV pay) (writes_eq_IDXV d c i 9 (by decide) inb_S26x4x128_S1x4x128_9_0_0 fs pay (pay 9) rfl) _ ?_
  refine join_step d c i 10 inb_S26x4x128_S1x4x128_10_0_0 _ (IDXV pay) (writes_eq_IDXV d c i 10 (by decide) inb_S26x4x128_S1x4x128_10_0_0 fs pay (pay 10) rfl) _ ?_
  refine join_step d c i 11 inb_S26x4x128_S1x4x128_11_0_0 _ (IDXV pay) (writes_eq_IDXV d c i 11 (by decide) inb_S26x4x128_S1x4x128_11_0_0 fs pay (pay 11) rfl) _ ?_
  refine join_step d c i 12 inb_S26x4x128_S1x4x128_12_0_0 _ (IDXV pay) (writes_eq_IDXV d c i 12 (by decide) inb_S26x4x128_S1x4x128_12_0_0 fs pay (pay 12) rfl) _ ?_
  refine join_step d c i 13 inb_S26x4x128_S1x4x128_13_0_0 _ (IDXV pay) (writes_eq_IDXV d c i 13 (by decide) inb_S26x4x128_S1x4x128_13_0_0 fs pay (pay 13) rfl) _ ?_
  refine join_step d c i 14 inb_S26x4x128_S1x4x128_14_0_0 _ (IDXV pay) (writes_eq_IDXV d c i 14 (by decide) inb_S26x4x128_S1x4x128_14_0_0 fs pay (pay 14) rfl) _ ?_
  refine join_step d c i 15 inb_S26x4x128_S1x4x128_15_0_0 _ (IDXV pay) (writes_eq_IDXV d c i 15 (by decide) inb_S26x4x128_S1x4x128_15_0_0 fs pay (pay 15) rfl) _ ?_
  refine join_step d c i 16 inb_S26x4x128_S1x4x128_16_0_0 _ (IDXV pay) (writes_eq_IDXV d c i 16 (by decide) inb_S26x4x128_S1x4x128_16_0_0 fs pay (pay 16) rfl) _ ?_
  refine join_step d c i 17 inb_S26x4x128_S1x4x128_17_0_0 _ (IDXV pay) (writes_eq_IDXV d c i 17 (by decide) inb_S26x4x128_S1x4x128_17_0_0 fs pay (pay 17) rfl) _ ?_
  refine join_step d c i 18 inb_S26x4x128_S1x4x128_18_0_0 _ (IDXV pay) (writes_eq_IDXV d c i 18 (by decide) inb_S26x4x128_S1x4x128_18_0_0 fs pay (pay 18) rfl) _ ?_
  refine join_step d c i 19 inb_S26x4x128_S1x4x128_19_0_0 _ (IDXV pay) (writes_eq_IDXV d c i 19 (by decide) inb_S26x4x128_S1x4x128_19_0_0 fs pay (pay 19) rfl) _ ?_
  refine join_step d c i 20 inb_S26x4x128_S1x4x128_20_0_0 _ (IDXV pay) (writes_eq_IDXV d c i 20 (by decide) inb_S26x4x128_S1x4x128_20_0_0 fs pay (pay 20) rfl) _ ?_
  refine join_step d c i 21 inb_S26x4x128_S1x4x128_21_0_0 _ (IDXV pay) (writes_eq_IDXV d c i 21 (by decide) inb_S26x4x128_S1x4x128_21_0_0 fs pay (pay 21) rfl) _ ?_
  refine join_step d c i 22 inb_S26x4x128_S1x4x128_22_0_0 _ (IDXV pay) (writes_eq_IDXV d c i 22 (by decide) inb_S26x4x128_S1x4x128_22_0_0 fs pay (pay 22) rfl) _ ?_
  refine join_step d c i 23 inb_S26x4x128_S1x4x128_23_0_0 _ (IDXV pay) (writes_eq_IDXV d c i 23 (by decide) inb_S26x4x128_S1x4x128_23_0_0 fs pay (pay 23) rfl) _ ?_
  refine join_step d c i 24 inb_S26x4x128_S1x4x128_24_0_0 _ (IDXV pay) (writes_eq_IDXV d c i 24 (by decide) inb_S26x4x128_S1x4x128_24_0_0 fs pay (pay 24) rfl) _ ?_
  exact join_last d c i inb_S26x4x128_S1x4x128_25_0_0 _ (IDXV pay) (writes_eq_IDXV d c i 25 (by decide) inb_S26x4x128_S1x4x128_25_0_0 fs pay (pay 25) rfl)

/-! ## The words read back are row numbers -/

theorem IDXV_lt (pay : Fin 26 → S4x128.Idx → Elt F .i32) (hpay : ∀ t y, (pay t y).toNat < 1000) :
    ∀ j, (IDXV pay j).toNat < 1000 := fun _ => hpay _ _

/-- Every word of every list of 128 read out of the scratch is below 1000. -/
theorem list_inb (pay : Fin 26 → S4x128.Idx → Elt F .i32) (hpay : ∀ t y, (pay t y).toNat < 1000) :
    ∀ (a b : Nat) (h1 : ∀ x, (![a, b, 0] : Fin 3 → Nat) x + S1x1x128.size x ≤ S26x4x128.size x)
      (h2 : (Rect.unit (s := S26x4x128) ![a, b, 0] S1x1x128.size h1).shape.Squeezes S128) (x : S128.Idx),
      ((((sV).slice (Rect.unit (s := S26x4x128) ![a, b, 0] S1x1x128.size h1) (fun _ => rfl)).squeeze S128 h2).view.read
        (Elt F) (IDXV pay) x).toNat < 1000 := by
  intro a b h1 h2 x
  show (IDXV pay ((((sV).slice (Rect.unit (s := S26x4x128) ![a, b, 0] S1x1x128.size h1) (fun _ => rfl)).squeeze S128 h2).view.emb x)).toNat < 1000
  exact IDXV_lt pay hpay _

/-! ## The windows at any contents -/

/-- One window back on the front, whatever it and the rest hold. -/
theorem join_any_step (k : Nat) (h : ∀ a, (![k, 0, 0] : Fin 3 → Nat) a + S1x4x128.size a ≤ S26x4x128.size a)
    (g : Buf (Elt F) (sLoc d c i)) (R : sProp 𝕄)
    (hR : R ⊢ (iprop(∃ f : Buf (Elt F) (sLoc d c i), sLoc d c i ↦[tailSet (k + 1)]{fullShare} f) : sProp 𝕄)) :
    iprop(((Wn k h).view.loc (V d c i) ↦[(Wn k h).view.set]{fullShare} g) ∗ R)
      ⊢ (iprop(∃ f : Buf (Elt F) (sLoc d c i), sLoc d c i ↦[tailSet k]{fullShare} f) : sProp 𝕄) := by
  rw [pts_Wn, tailSet_succ k]
  iintro ⟨H1, H2⟩
  ihave H2' := hR $$ H2
  icases H2' with ⟨%f', H2'⟩
  ihave H := (pointsTo_join (ℓ := sLoc d c i) (q := fullShare) (f := g) (g := f') (win_tail_disjoint k)) $$ [H1 H2']
  · isplitl [H1]; · iexact H1
    iexact H2'
  iexists _; iexact H

theorem join_any_last (h : ∀ a, (![25, 0, 0] : Fin 3 → Nat) a + S1x4x128.size a ≤ S26x4x128.size a)
    (g : Buf (Elt F) (sLoc d c i)) :
    ((Wn 25 h).view.loc (V d c i) ↦[(Wn 25 h).view.set]{fullShare} g)
      ⊢ (iprop(∃ f : Buf (Elt F) (sLoc d c i), sLoc d c i ↦[tailSet 25]{fullShare} f) : sProp 𝕄) := by
  rw [pts_Wn, tailSet_last]
  iintro H; iexists _; iexact H

set_option maxHeartbeats 4000000 in
/-- The 26 windows held apart, at whatever contents, are the index scratch held whole at some contents. -/
theorem idx_join_any (g0 : Buf (Elt F) (sLoc d c i)) (g1 : Buf (Elt F) (sLoc d c i)) (g2 : Buf (Elt F) (sLoc d c i)) (g3 : Buf (Elt F) (sLoc d c i)) (g4 : Buf (Elt F) (sLoc d c i)) (g5 : Buf (Elt F) (sLoc d c i)) (g6 : Buf (Elt F) (sLoc d c i)) (g7 : Buf (Elt F) (sLoc d c i)) (g8 : Buf (Elt F) (sLoc d c i)) (g9 : Buf (Elt F) (sLoc d c i)) (g10 : Buf (Elt F) (sLoc d c i)) (g11 : Buf (Elt F) (sLoc d c i)) (g12 : Buf (Elt F) (sLoc d c i)) (g13 : Buf (Elt F) (sLoc d c i)) (g14 : Buf (Elt F) (sLoc d c i)) (g15 : Buf (Elt F) (sLoc d c i)) (g16 : Buf (Elt F) (sLoc d c i)) (g17 : Buf (Elt F) (sLoc d c i)) (g18 : Buf (Elt F) (sLoc d c i)) (g19 : Buf (Elt F) (sLoc d c i)) (g20 : Buf (Elt F) (sLoc d c i)) (g21 : Buf (Elt F) (sLoc d c i)) (g22 : Buf (Elt F) (sLoc d c i)) (g23 : Buf (Elt F) (sLoc d c i)) (g24 : Buf (Elt F) (sLoc d c i)) (g25 : Buf (Elt F) (sLoc d c i)) :
    iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} g0) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} g1) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} g2) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} g3) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} g4) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} g5) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} g6) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} g7) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} g8) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} g9) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} g10) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} g11) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} g12) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} g13) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} g14) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} g15) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} g16) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} g17) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} g18) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} g19) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} g20) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} g21) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} g22) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} g23) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} g24) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} g25))
      ⊢ (iprop(∃ f : Buf (Elt F) (sLoc d c i), (sV).view.loc (V d c i) ↦{fullShare} f) : sProp 𝕄) := by
  have key : iprop(
      ((Wn 0 inb_S26x4x128_S1x4x128_0_0_0).view.loc (V d c i) ↦[(Wn 0 inb_S26x4x128_S1x4x128_0_0_0).view.set]{fullShare} g0) ∗
      ((Wn 1 inb_S26x4x128_S1x4x128_1_0_0).view.loc (V d c i) ↦[(Wn 1 inb_S26x4x128_S1x4x128_1_0_0).view.set]{fullShare} g1) ∗
      ((Wn 2 inb_S26x4x128_S1x4x128_2_0_0).view.loc (V d c i) ↦[(Wn 2 inb_S26x4x128_S1x4x128_2_0_0).view.set]{fullShare} g2) ∗
      ((Wn 3 inb_S26x4x128_S1x4x128_3_0_0).view.loc (V d c i) ↦[(Wn 3 inb_S26x4x128_S1x4x128_3_0_0).view.set]{fullShare} g3) ∗
      ((Wn 4 inb_S26x4x128_S1x4x128_4_0_0).view.loc (V d c i) ↦[(Wn 4 inb_S26x4x128_S1x4x128_4_0_0).view.set]{fullShare} g4) ∗
      ((Wn 5 inb_S26x4x128_S1x4x128_5_0_0).view.loc (V d c i) ↦[(Wn 5 inb_S26x4x128_S1x4x128_5_0_0).view.set]{fullShare} g5) ∗
      ((Wn 6 inb_S26x4x128_S1x4x128_6_0_0).view.loc (V d c i) ↦[(Wn 6 inb_S26x4x128_S1x4x128_6_0_0).view.set]{fullShare} g6) ∗
      ((Wn 7 inb_S26x4x128_S1x4x128_7_0_0).view.loc (V d c i) ↦[(Wn 7 inb_S26x4x128_S1x4x128_7_0_0).view.set]{fullShare} g7) ∗
      ((Wn 8 inb_S26x4x128_S1x4x128_8_0_0).view.loc (V d c i) ↦[(Wn 8 inb_S26x4x128_S1x4x128_8_0_0).view.set]{fullShare} g8) ∗
      ((Wn 9 inb_S26x4x128_S1x4x128_9_0_0).view.loc (V d c i) ↦[(Wn 9 inb_S26x4x128_S1x4x128_9_0_0).view.set]{fullShare} g9) ∗
      ((Wn 10 inb_S26x4x128_S1x4x128_10_0_0).view.loc (V d c i) ↦[(Wn 10 inb_S26x4x128_S1x4x128_10_0_0).view.set]{fullShare} g10) ∗
      ((Wn 11 inb_S26x4x128_S1x4x128_11_0_0).view.loc (V d c i) ↦[(Wn 11 inb_S26x4x128_S1x4x128_11_0_0).view.set]{fullShare} g11) ∗
      ((Wn 12 inb_S26x4x128_S1x4x128_12_0_0).view.loc (V d c i) ↦[(Wn 12 inb_S26x4x128_S1x4x128_12_0_0).view.set]{fullShare} g12) ∗
      ((Wn 13 inb_S26x4x128_S1x4x128_13_0_0).view.loc (V d c i) ↦[(Wn 13 inb_S26x4x128_S1x4x128_13_0_0).view.set]{fullShare} g13) ∗
      ((Wn 14 inb_S26x4x128_S1x4x128_14_0_0).view.loc (V d c i) ↦[(Wn 14 inb_S26x4x128_S1x4x128_14_0_0).view.set]{fullShare} g14) ∗
      ((Wn 15 inb_S26x4x128_S1x4x128_15_0_0).view.loc (V d c i) ↦[(Wn 15 inb_S26x4x128_S1x4x128_15_0_0).view.set]{fullShare} g15) ∗
      ((Wn 16 inb_S26x4x128_S1x4x128_16_0_0).view.loc (V d c i) ↦[(Wn 16 inb_S26x4x128_S1x4x128_16_0_0).view.set]{fullShare} g16) ∗
      ((Wn 17 inb_S26x4x128_S1x4x128_17_0_0).view.loc (V d c i) ↦[(Wn 17 inb_S26x4x128_S1x4x128_17_0_0).view.set]{fullShare} g17) ∗
      ((Wn 18 inb_S26x4x128_S1x4x128_18_0_0).view.loc (V d c i) ↦[(Wn 18 inb_S26x4x128_S1x4x128_18_0_0).view.set]{fullShare} g18) ∗
      ((Wn 19 inb_S26x4x128_S1x4x128_19_0_0).view.loc (V d c i) ↦[(Wn 19 inb_S26x4x128_S1x4x128_19_0_0).view.set]{fullShare} g19) ∗
      ((Wn 20 inb_S26x4x128_S1x4x128_20_0_0).view.loc (V d c i) ↦[(Wn 20 inb_S26x4x128_S1x4x128_20_0_0).view.set]{fullShare} g20) ∗
      ((Wn 21 inb_S26x4x128_S1x4x128_21_0_0).view.loc (V d c i) ↦[(Wn 21 inb_S26x4x128_S1x4x128_21_0_0).view.set]{fullShare} g21) ∗
      ((Wn 22 inb_S26x4x128_S1x4x128_22_0_0).view.loc (V d c i) ↦[(Wn 22 inb_S26x4x128_S1x4x128_22_0_0).view.set]{fullShare} g22) ∗
      ((Wn 23 inb_S26x4x128_S1x4x128_23_0_0).view.loc (V d c i) ↦[(Wn 23 inb_S26x4x128_S1x4x128_23_0_0).view.set]{fullShare} g23) ∗
      ((Wn 24 inb_S26x4x128_S1x4x128_24_0_0).view.loc (V d c i) ↦[(Wn 24 inb_S26x4x128_S1x4x128_24_0_0).view.set]{fullShare} g24) ∗
      ((Wn 25 inb_S26x4x128_S1x4x128_25_0_0).view.loc (V d c i) ↦[(Wn 25 inb_S26x4x128_S1x4x128_25_0_0).view.set]{fullShare} g25))
      ⊢ (iprop(∃ f : Buf (Elt F) (sLoc d c i), sLoc d c i ↦[tailSet 0]{fullShare} f) : sProp 𝕄) := by
    refine join_any_step d c i 0 inb_S26x4x128_S1x4x128_0_0_0 g0 _ ?_
    refine join_any_step d c i 1 inb_S26x4x128_S1x4x128_1_0_0 g1 _ ?_
    refine join_any_step d c i 2 inb_S26x4x128_S1x4x128_2_0_0 g2 _ ?_
    refine join_any_step d c i 3 inb_S26x4x128_S1x4x128_3_0_0 g3 _ ?_
    refine join_any_step d c i 4 inb_S26x4x128_S1x4x128_4_0_0 g4 _ ?_
    refine join_any_step d c i 5 inb_S26x4x128_S1x4x128_5_0_0 g5 _ ?_
    refine join_any_step d c i 6 inb_S26x4x128_S1x4x128_6_0_0 g6 _ ?_
    refine join_any_step d c i 7 inb_S26x4x128_S1x4x128_7_0_0 g7 _ ?_
    refine join_any_step d c i 8 inb_S26x4x128_S1x4x128_8_0_0 g8 _ ?_
    refine join_any_step d c i 9 inb_S26x4x128_S1x4x128_9_0_0 g9 _ ?_
    refine join_any_step d c i 10 inb_S26x4x128_S1x4x128_10_0_0 g10 _ ?_
    refine join_any_step d c i 11 inb_S26x4x128_S1x4x128_11_0_0 g11 _ ?_
    refine join_any_step d c i 12 inb_S26x4x128_S1x4x128_12_0_0 g12 _ ?_
    refine join_any_step d c i 13 inb_S26x4x128_S1x4x128_13_0_0 g13 _ ?_
    refine join_any_step d c i 14 inb_S26x4x128_S1x4x128_14_0_0 g14 _ ?_
    refine join_any_step d c i 15 inb_S26x4x128_S1x4x128_15_0_0 g15 _ ?_
    refine join_any_step d c i 16 inb_S26x4x128_S1x4x128_16_0_0 g16 _ ?_
    refine join_any_step d c i 17 inb_S26x4x128_S1x4x128_17_0_0 g17 _ ?_
    refine join_any_step d c i 18 inb_S26x4x128_S1x4x128_18_0_0 g18 _ ?_
    refine join_any_step d c i 19 inb_S26x4x128_S1x4x128_19_0_0 g19 _ ?_
    refine join_any_step d c i 20 inb_S26x4x128_S1x4x128_20_0_0 g20 _ ?_
    refine join_any_step d c i 21 inb_S26x4x128_S1x4x128_21_0_0 g21 _ ?_
    refine join_any_step d c i 22 inb_S26x4x128_S1x4x128_22_0_0 g22 _ ?_
    refine join_any_step d c i 23 inb_S26x4x128_S1x4x128_23_0_0 g23 _ ?_
    refine join_any_step d c i 24 inb_S26x4x128_S1x4x128_24_0_0 g24 _ ?_
    exact join_any_last d c i inb_S26x4x128_S1x4x128_25_0_0 g25
  rw [tailSet_zero] at key
  exact key

/-! ## The row scratch: 7 slots of 128 by 128 -/

local notation "rV" => (Memref.whole Cert.Kernel.cc0_scratch1 : Memref Cert.Kernel.sig Kind.scVector Space.vmem Cert.Kernel.S7x128x128 EltTy.f32)

/-- Window `t` of the row scratch, as the program addresses it: the block at `(t, 0, 0)`, one thick, its unit axis dropped. -/
abbrev Rn (t : Nat) (h : ∀ a, (![t, 0, 0] : Fin 3 → Nat) a + S1x128x128.size a ≤ S7x128x128.size a) :
    Memref sig .scVector .vmem S128x128 .f32 :=
  ((rV).slice (Rect.unit (s := S7x128x128) ![t, 0, 0] S1x128x128.size h) (fun _ => rfl)).squeeze S128x128 squeezes_S1x128x128_S128x128

/-- The elements of the row scratch at first coordinate `t`. -/
def rwinSet (t : Nat) : Finset S7x128x128.Idx := Finset.univ.filter fun j => (j 0).val = t
/-- The elements of the row scratch at first coordinate `k` or more. -/
def rtailSet (k : Nat) : Finset S7x128x128.Idx := Finset.univ.filter fun j => k ≤ (j 0).val

theorem mem_rwinSet {t : Nat} {j : S7x128x128.Idx} : j ∈ rwinSet t ↔ (j 0).val = t := by simp [rwinSet]
theorem mem_rtailSet {k : Nat} {j : S7x128x128.Idx} : j ∈ rtailSet k ↔ k ≤ (j 0).val := by simp [rtailSet]

/-- Window `t` covers exactly the elements at first coordinate `t`. -/
theorem set_Rn (t : Nat) (h : ∀ a, (![t, 0, 0] : Fin 3 → Nat) a + S1x128x128.size a ≤ S7x128x128.size a) :
    (Rn t h).view.set = rwinSet t := by
  show (((rV).view.slice (Rect.unit (s := S7x128x128) ![t, 0, 0] S1x128x128.size h)).reshape S128x128 squeezes_S1x128x128_S128x128.numel_eq).set = _
  rw [View.set_reshape]
  show ((View.whole (cc0_scratch1 : Ref sig .scVector)).slice (Rect.unit (s := S7x128x128) ![t, 0, 0] S1x128x128.size h)).set = _
  rw [View.set_slice_whole]
  ext j
  rw [mem_rwinSet]
  refine (Rect.mem_set_unit (s := S7x128x128)).trans ⟨fun H => ?_, fun H a => ?_⟩
  · have h0 := H 0
    simp at h0
    omega
  · match a with
    | ⟨0, _⟩ => simp; omega
    | ⟨1, _⟩ => simp; exact (j 1).isLt
    | ⟨2, _⟩ => simp; exact (j 2).isLt

/-- The row scratch of the tile `(c, i)` of device `d`. -/
abbrev rLoc : Loc nD τ sig := (rV).view.loc (V d c i)

theorem rtailSet_last : rtailSet 6 = rwinSet 6 := by
  ext j; rw [mem_rtailSet, mem_rwinSet]
  have hj : (j 0).val < 7 := (j 0).isLt
  omega
theorem rtailSet_succ (k : Nat) : rtailSet k = rwinSet k ∪ rtailSet (k + 1) := by
  ext j; rw [Finset.mem_union, mem_rtailSet, mem_rwinSet, mem_rtailSet]; omega
theorem rwin_tail_disjoint (k : Nat) : Disjoint (rwinSet k) (rtailSet (k + 1)) := by
  rw [Finset.disjoint_left]; intro j h1 h2; rw [mem_rwinSet] at h1; rw [mem_rtailSet] at h2; omega
theorem rtailSet_zero : rtailSet 0 = Finset.univ := by
  ext j; simp [mem_rtailSet]

/-- A window held on its own elements is the row scratch held on the elements at the window's first coordinate. -/
theorem rpts_Wn (t : Nat) (h : ∀ a, (![t, 0, 0] : Fin 3 → Nat) a + S1x128x128.size a ≤ S7x128x128.size a)
    (g : Buf (Elt F) (rLoc d c i)) :
    ((Rn t h).view.loc (V d c i) ↦[(Rn t h).view.set]{fullShare} g : sProp 𝕄) = (rLoc d c i ↦[rwinSet t]{fullShare} g) := by
  rw [set_Rn]

/-- The whole row scratch is its elements from first coordinate 0 on. -/
theorem rpts_univ (f : Buf (Elt F) (rLoc d c i)) :
    ((rV).view.loc (V d c i) ↦{fullShare} f : sProp 𝕄) = (rLoc d c i ↦[rtailSet 0]{fullShare} f) := by
  rw [rtailSet_zero]

/-- One window off the front. -/
theorem rsplit_step (k : Nat) (h : ∀ a, (![k, 0, 0] : Fin 3 → Nat) a + S1x128x128.size a ≤ S7x128x128.size a)
    (f : Buf (Elt F) (rLoc d c i)) (R : sProp 𝕄)
    (hR : (rLoc d c i ↦[rtailSet (k + 1)]{fullShare} f : sProp 𝕄) ⊢ R) :
    (rLoc d c i ↦[rtailSet k]{fullShare} f : sProp 𝕄)
      ⊢ iprop(((Rn k h).view.loc (V d c i) ↦[(Rn k h).view.set]{fullShare} f) ∗ R) := by
  rw [rpts_Wn, rtailSet_succ k]
  iintro H
  ihave H' := (pointsTo_union (ℓ := rLoc d c i) (q := fullShare) (f := f) (rwin_tail_disjoint k)).1 $$ H
  icases H' with ⟨H1, H2⟩
  isplitl [H1]; · iexact H1
  iapply hR; iexact H2

theorem rsplit_last (h : ∀ a, (![6, 0, 0] : Fin 3 → Nat) a + S1x128x128.size a ≤ S7x128x128.size a)
    (f : Buf (Elt F) (rLoc d c i)) :
    (rLoc d c i ↦[rtailSet 6]{fullShare} f : sProp 𝕄)
      ⊢ ((Rn 6 h).view.loc (V d c i) ↦[(Rn 6 h).view.set]{fullShare} f) := by
  rw [rpts_Wn, rtailSet_last]

set_option maxHeartbeats 4000000 in
/-- The row scratch held whole is its 7 windows held apart, at the same contents. -/
theorem rows_split (f : Buf (Elt F) (rLoc d c i)) :
    ((rV).view.loc (V d c i) ↦{fullShare} f : sProp 𝕄) ⊢ iprop(
      ((((rV).slice (Rect.unit (s := S7x128x128) ![0, 0, 0] S1x128x128.size inb_S7x128x128_S1x128x128_0_0_0) (fun _ => rfl)).squeeze S128x128 squeezes_S1x128x128_S128x128).view.loc (V d c i) ↦[(((rV).slice (Rect.unit (s := S7x128x128) ![0, 0, 0] S1x128x128.size inb_S7x128x128_S1x128x128_0_0_0) (fun _ => rfl)).squeeze S128x128 squeezes_S1x128x128_S128x128).view.set]{fullShare} f) ∗
      ((((rV).slice (Rect.unit (s := S7x128x128) ![1, 0, 0] S1x128x128.size inb_S7x128x128_S1x128x128_1_0_0) (fun _ => rfl)).squeeze S128x128 squeezes_S1x128x128_S128x128).view.loc (V d c i) ↦[(((rV).slice (Rect.unit (s := S7x128x128) ![1, 0, 0] S1x128x128.size inb_S7x128x128_S1x128x128_1_0_0) (fun _ => rfl)).squeeze S128x128 squeezes_S1x128x128_S128x128).view.set]{fullShare} f) ∗
      ((((rV).slice (Rect.unit (s := S7x128x128) ![2, 0, 0] S1x128x128.size inb_S7x128x128_S1x128x128_2_0_0) (fun _ => rfl)).squeeze S128x128 squeezes_S1x128x128_S128x128).view.loc (V d c i) ↦[(((rV).slice (Rect.unit (s := S7x128x128) ![2, 0, 0] S1x128x128.size inb_S7x128x128_S1x128x128_2_0_0) (fun _ => rfl)).squeeze S128x128 squeezes_S1x128x128_S128x128).view.set]{fullShare} f) ∗
      ((((rV).slice (Rect.unit (s := S7x128x128) ![3, 0, 0] S1x128x128.size inb_S7x128x128_S1x128x128_3_0_0) (fun _ => rfl)).squeeze S128x128 squeezes_S1x128x128_S128x128).view.loc (V d c i) ↦[(((rV).slice (Rect.unit (s := S7x128x128) ![3, 0, 0] S1x128x128.size inb_S7x128x128_S1x128x128_3_0_0) (fun _ => rfl)).squeeze S128x128 squeezes_S1x128x128_S128x128).view.set]{fullShare} f) ∗
      ((((rV).slice (Rect.unit (s := S7x128x128) ![4, 0, 0] S1x128x128.size inb_S7x128x128_S1x128x128_4_0_0) (fun _ => rfl)).squeeze S128x128 squeezes_S1x128x128_S128x128).view.loc (V d c i) ↦[(((rV).slice (Rect.unit (s := S7x128x128) ![4, 0, 0] S1x128x128.size inb_S7x128x128_S1x128x128_4_0_0) (fun _ => rfl)).squeeze S128x128 squeezes_S1x128x128_S128x128).view.set]{fullShare} f) ∗
      ((((rV).slice (Rect.unit (s := S7x128x128) ![5, 0, 0] S1x128x128.size inb_S7x128x128_S1x128x128_5_0_0) (fun _ => rfl)).squeeze S128x128 squeezes_S1x128x128_S128x128).view.loc (V d c i) ↦[(((rV).slice (Rect.unit (s := S7x128x128) ![5, 0, 0] S1x128x128.size inb_S7x128x128_S1x128x128_5_0_0) (fun _ => rfl)).squeeze S128x128 squeezes_S1x128x128_S128x128).view.set]{fullShare} f) ∗
      ((((rV).slice (Rect.unit (s := S7x128x128) ![6, 0, 0] S1x128x128.size inb_S7x128x128_S1x128x128_6_0_0) (fun _ => rfl)).squeeze S128x128 squeezes_S1x128x128_S128x128).view.loc (V d c i) ↦[(((rV).slice (Rect.unit (s := S7x128x128) ![6, 0, 0] S1x128x128.size inb_S7x128x128_S1x128x128_6_0_0) (fun _ => rfl)).squeeze S128x128 squeezes_S1x128x128_S128x128).view.set]{fullShare} f)) := by
  rw [rpts_univ]
  refine rsplit_step d c i 0 inb_S7x128x128_S1x128x128_0_0_0 f _ ?_
  refine rsplit_step d c i 1 inb_S7x128x128_S1x128x128_1_0_0 f _ ?_
  refine rsplit_step d c i 2 inb_S7x128x128_S1x128x128_2_0_0 f _ ?_
  refine rsplit_step d c i 3 inb_S7x128x128_S1x128x128_3_0_0 f _ ?_
  refine rsplit_step d c i 4 inb_S7x128x128_S1x128x128_4_0_0 f _ ?_
  refine rsplit_step d c i 5 inb_S7x128x128_S1x128x128_5_0_0 f _ ?_
  exact rsplit_last d c i inb_S7x128x128_S1x128x128_6_0_0 f

/-- One window back on the front, whatever it and the rest hold. -/
theorem rjoin_any_step (k : Nat) (h : ∀ a, (![k, 0, 0] : Fin 3 → Nat) a + S1x128x128.size a ≤ S7x128x128.size a)
    (g : Buf (Elt F) (rLoc d c i)) (R : sProp 𝕄)
    (hR : R ⊢ (iprop(∃ f : Buf (Elt F) (rLoc d c i), rLoc d c i ↦[rtailSet (k + 1)]{fullShare} f) : sProp 𝕄)) :
    iprop(((Rn k h).view.loc (V d c i) ↦[(Rn k h).view.set]{fullShare} g) ∗ R)
      ⊢ (iprop(∃ f : Buf (Elt F) (rLoc d c i), rLoc d c i ↦[rtailSet k]{fullShare} f) : sProp 𝕄) := by
  rw [rpts_Wn, rtailSet_succ k]
  iintro ⟨H1, H2⟩
  ihave H2' := hR $$ H2
  icases H2' with ⟨%f', H2'⟩
  ihave H := (pointsTo_join (ℓ := rLoc d c i) (q := fullShare) (f := g) (g := f') (rwin_tail_disjoint k)) $$ [H1 H2']
  · isplitl [H1]; · iexact H1
    iexact H2'
  iexists _; iexact H

theorem rjoin_any_last (h : ∀ a, (![6, 0, 0] : Fin 3 → Nat) a + S1x128x128.size a ≤ S7x128x128.size a)
    (g : Buf (Elt F) (rLoc d c i)) :
    ((Rn 6 h).view.loc (V d c i) ↦[(Rn 6 h).view.set]{fullShare} g)
      ⊢ (iprop(∃ f : Buf (Elt F) (rLoc d c i), rLoc d c i ↦[rtailSet 6]{fullShare} f) : sProp 𝕄) := by
  rw [rpts_Wn, rtailSet_last]
  iintro H; iexists _; iexact H

set_option maxHeartbeats 4000000 in
/-- The 7 windows held apart, at whatever contents, are the row scratch held whole at some contents. -/
theorem rows_join (g0 : Buf (Elt F) (rLoc d c i)) (g1 : Buf (Elt F) (rLoc d c i)) (g2 : Buf (Elt F) (rLoc d c i)) (g3 : Buf (Elt F) (rLoc d c i)) (g4 : Buf (Elt F) (rLoc d c i)) (g5 : Buf (Elt F) (rLoc d c i)) (g6 : Buf (Elt F) (rLoc d c i)) :
    iprop(
      ((((rV).slice (Rect.unit (s := S7x128x128) ![0, 0, 0] S1x128x128.size inb_S7x128x128_S1x128x128_0_0_0) (fun _ => rfl)).squeeze S128x128 squeezes_S1x128x128_S128x128).view.loc (V d c i) ↦[(((rV).slice (Rect.unit (s := S7x128x128) ![0, 0, 0] S1x128x128.size inb_S7x128x128_S1x128x128_0_0_0) (fun _ => rfl)).squeeze S128x128 squeezes_S1x128x128_S128x128).view.set]{fullShare} g0) ∗
      ((((rV).slice (Rect.unit (s := S7x128x128) ![1, 0, 0] S1x128x128.size inb_S7x128x128_S1x128x128_1_0_0) (fun _ => rfl)).squeeze S128x128 squeezes_S1x128x128_S128x128).view.loc (V d c i) ↦[(((rV).slice (Rect.unit (s := S7x128x128) ![1, 0, 0] S1x128x128.size inb_S7x128x128_S1x128x128_1_0_0) (fun _ => rfl)).squeeze S128x128 squeezes_S1x128x128_S128x128).view.set]{fullShare} g1) ∗
      ((((rV).slice (Rect.unit (s := S7x128x128) ![2, 0, 0] S1x128x128.size inb_S7x128x128_S1x128x128_2_0_0) (fun _ => rfl)).squeeze S128x128 squeezes_S1x128x128_S128x128).view.loc (V d c i) ↦[(((rV).slice (Rect.unit (s := S7x128x128) ![2, 0, 0] S1x128x128.size inb_S7x128x128_S1x128x128_2_0_0) (fun _ => rfl)).squeeze S128x128 squeezes_S1x128x128_S128x128).view.set]{fullShare} g2) ∗
      ((((rV).slice (Rect.unit (s := S7x128x128) ![3, 0, 0] S1x128x128.size inb_S7x128x128_S1x128x128_3_0_0) (fun _ => rfl)).squeeze S128x128 squeezes_S1x128x128_S128x128).view.loc (V d c i) ↦[(((rV).slice (Rect.unit (s := S7x128x128) ![3, 0, 0] S1x128x128.size inb_S7x128x128_S1x128x128_3_0_0) (fun _ => rfl)).squeeze S128x128 squeezes_S1x128x128_S128x128).view.set]{fullShare} g3) ∗
      ((((rV).slice (Rect.unit (s := S7x128x128) ![4, 0, 0] S1x128x128.size inb_S7x128x128_S1x128x128_4_0_0) (fun _ => rfl)).squeeze S128x128 squeezes_S1x128x128_S128x128).view.loc (V d c i) ↦[(((rV).slice (Rect.unit (s := S7x128x128) ![4, 0, 0] S1x128x128.size inb_S7x128x128_S1x128x128_4_0_0) (fun _ => rfl)).squeeze S128x128 squeezes_S1x128x128_S128x128).view.set]{fullShare} g4) ∗
      ((((rV).slice (Rect.unit (s := S7x128x128) ![5, 0, 0] S1x128x128.size inb_S7x128x128_S1x128x128_5_0_0) (fun _ => rfl)).squeeze S128x128 squeezes_S1x128x128_S128x128).view.loc (V d c i) ↦[(((rV).slice (Rect.unit (s := S7x128x128) ![5, 0, 0] S1x128x128.size inb_S7x128x128_S1x128x128_5_0_0) (fun _ => rfl)).squeeze S128x128 squeezes_S1x128x128_S128x128).view.set]{fullShare} g5) ∗
      ((((rV).slice (Rect.unit (s := S7x128x128) ![6, 0, 0] S1x128x128.size inb_S7x128x128_S1x128x128_6_0_0) (fun _ => rfl)).squeeze S128x128 squeezes_S1x128x128_S128x128).view.loc (V d c i) ↦[(((rV).slice (Rect.unit (s := S7x128x128) ![6, 0, 0] S1x128x128.size inb_S7x128x128_S1x128x128_6_0_0) (fun _ => rfl)).squeeze S128x128 squeezes_S1x128x128_S128x128).view.set]{fullShare} g6))
      ⊢ (iprop(∃ f : Buf (Elt F) (rLoc d c i), (rV).view.loc (V d c i) ↦{fullShare} f) : sProp 𝕄) := by
  have key : iprop(
      ((Rn 0 inb_S7x128x128_S1x128x128_0_0_0).view.loc (V d c i) ↦[(Rn 0 inb_S7x128x128_S1x128x128_0_0_0).view.set]{fullShare} g0) ∗
      ((Rn 1 inb_S7x128x128_S1x128x128_1_0_0).view.loc (V d c i) ↦[(Rn 1 inb_S7x128x128_S1x128x128_1_0_0).view.set]{fullShare} g1) ∗
      ((Rn 2 inb_S7x128x128_S1x128x128_2_0_0).view.loc (V d c i) ↦[(Rn 2 inb_S7x128x128_S1x128x128_2_0_0).view.set]{fullShare} g2) ∗
      ((Rn 3 inb_S7x128x128_S1x128x128_3_0_0).view.loc (V d c i) ↦[(Rn 3 inb_S7x128x128_S1x128x128_3_0_0).view.set]{fullShare} g3) ∗
      ((Rn 4 inb_S7x128x128_S1x128x128_4_0_0).view.loc (V d c i) ↦[(Rn 4 inb_S7x128x128_S1x128x128_4_0_0).view.set]{fullShare} g4) ∗
      ((Rn 5 inb_S7x128x128_S1x128x128_5_0_0).view.loc (V d c i) ↦[(Rn 5 inb_S7x128x128_S1x128x128_5_0_0).view.set]{fullShare} g5) ∗
      ((Rn 6 inb_S7x128x128_S1x128x128_6_0_0).view.loc (V d c i) ↦[(Rn 6 inb_S7x128x128_S1x128x128_6_0_0).view.set]{fullShare} g6))
      ⊢ (iprop(∃ f : Buf (Elt F) (rLoc d c i), rLoc d c i ↦[rtailSet 0]{fullShare} f) : sProp 𝕄) := by
    refine rjoin_any_step d c i 0 inb_S7x128x128_S1x128x128_0_0_0 g0 _ ?_
    refine rjoin_any_step d c i 1 inb_S7x128x128_S1x128x128_1_0_0 g1 _ ?_
    refine rjoin_any_step d c i 2 inb_S7x128x128_S1x128x128_2_0_0 g2 _ ?_
    refine rjoin_any_step d c i 3 inb_S7x128x128_S1x128x128_3_0_0 g3 _ ?_
    refine rjoin_any_step d c i 4 inb_S7x128x128_S1x128x128_4_0_0 g4 _ ?_
    refine rjoin_any_step d c i 5 inb_S7x128x128_S1x128x128_5_0_0 g5 _ ?_
    exact rjoin_any_last d c i inb_S7x128x128_S1x128x128_6_0_0 g6
  rw [rtailSet_zero] at key
  exact key

end Cert.Proof.KB.Idx
-- ==== Proof.ValueKB.lean ====
import proofs.«204019_g4913442586959_cont_sun_m_672_34_alg».proof.Proof.IdxScratchKB
import proofs.«204019_g4913442586959_cont_sun_m_672_34_alg».proof.Proof.Spec
import proofs.«204019_g4913442586959_cont_sun_m_672_34_alg».proof.Proof.SetupKB0
import Idealize.ShloMosaic.Lib.SparseCore.Stream

/-!
  The value of one item of a tile. Tile `L` handles 512 rows of the result, in 4 sub-chunks of 128. For table `t`
  and sub-chunk `r`, the 128 words of list `(t, r)` of the index scratch name rows of table `t`; the gather puts,
  at `(p, e)` of a 128 by 128 slot, entry `e` of the row of table `t` that word `p` of the list names; the slot
  goes to the block of the result at rows `1024·L₁ + 512·L₀ + 128·r ..` and columns `128·t ..`. The words of the
  list are entries `128·(8·L₁ + 4·L₀ + r) + p` of column `t`, so the slot holds the specified values.
-/

noncomputable section

namespace Cert.Proof.KB.Val

open Cert.Kernel Cert.Kernel.Gen

open Idealize.ShloMosaic
open Idealize.ShloMosaic.ValueIdx
open Cert.Proof.KB Cert.Proof.KB.Idx

variable {F : FTy → Type}

local notation "sV" => (Memref.whole Cert.Kernel.cc0_scratch0 : Memref Cert.Kernel.sig Kind.scVector Space.vmem Cert.Kernel.S26x4x128 EltTy.i32)

/-! ## The gather's payload at an index -/

/-- Row `k` of an offset list of 128 words is word `k` of the list. -/
theorem rows_apply (idx : S128.Idx → Elt F .i32) {z : ℕ} (hn : S128.numel = 128) (hin : ∀ x, (idx x).toNat < z) (k : Fin 128) :
    SparseCore.rows idx hn hin k = ⟨(idx (ix1 k)).toNat, hin _⟩ := by
  apply Fin.ext
  show (idx (S128.rowMajor.symm (k.cast hn.symm))).toNat = (idx (ix1 k)).toNat
  have e : S128.rowMajor.symm (k.cast hn.symm) = ix1 k := by
    rw [Equiv.symm_apply_eq]; apply Fin.ext; rw [Shape.rowMajor_val_one]; rfl
  rw [e]

/-- The gathered slot at `(p, e)`: entry `e` of the row of the source that word `p` of the list names. -/
theorem gp_apply (g : S1000x128.Idx → Elt F .f32) (idx : S128.Idx → Elt F .i32)
    (hn : S128.numel = S128x128.size (gathers_S1000x128_S128x128).axis')
    (hin : ∀ x, (idx x).toNat < S1000x128.size (gathers_S1000x128_S128x128).axis) (p e : Fin 128) :
    SparseCore.gatherPayload (s₀ := S1000x128) (s := S128x128) gathers_S1000x128_S128x128 g (SparseCore.rows idx hn hin) (ix2 p e)
      = g (ix2 (⟨(idx (ix1 p)).toNat, hin _⟩ : Fin 1000) e) := by
  unfold SparseCore.gatherPayload
  refine congrArg g (funext fun b => Fin.ext ?_)
  match b with
  | ⟨0, hb⟩ =>
    have h0 := Shape.Gathers.idx_axis gathers_S1000x128_S128x128 (SparseCore.rows idx hn hin) (ix2 p e)
    show (Shape.Gathers.idx gathers_S1000x128_S128x128 (SparseCore.rows idx hn hin) (ix2 p e) (gathers_S1000x128_S128x128).axis).val = _
    rw [h0]
    show (SparseCore.rows idx hn hin p).val = _
    exact congrArg Fin.val (rows_apply idx hn hin p)
  | ⟨1, hb⟩ =>
    rw [Shape.Gathers.idx_of_ne gathers_S1000x128_S128x128 _ _ _ (Nat.succ_ne_zero 0)]; rfl

/-! ## A list of the index scratch read at a word -/

/-- An index `x` of `[a]` matched with shape `[1, 1, a]` is `(0, 0, x)`. -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Word `p` of list `(a, b)` of the scratch is the scratch's entry `(a, b, p)`. -/
theorem list_read (f : S26x4x128.Idx → Elt F .i32) (a b : Nat)
    (h1 : ∀ x, (![a, b, 0] : Fin 3 → Nat) x + S1x1x128.size x ≤ S26x4x128.size x)
    (h2 : (Rect.unit (s := S26x4x128) ![a, b, 0] S1x1x128.size h1).shape.Squeezes S128) (p : Fin 128) :
    (((sV).slice (Rect.unit (s := S26x4x128) ![a, b, 0] S1x1x128.size h1) (fun _ => rfl)).squeeze S128 h2).view.read (Elt F) f (ix1 p)
      = f (ix3 (⟨a, h1 0⟩ : Fin 26) (⟨b, h1 1⟩ : Fin 4) p) := by
  show f ((((sV).slice (Rect.unit (s := S26x4x128) ![a, b, 0] S1x1x128.size h1) (fun _ => rfl)).squeeze S128 h2).view.emb (ix1 p)) = _
  refine congrArg f (funext fun q => Fin.ext ?_)
  show ((Rect.unit (s := S26x4x128) ![a, b, 0] S1x1x128.size h1).emb (Shape.reshapeEquiv h2.numel_eq (ix1 p)) q : Nat) = _
  rw [reshapeEquiv_ix1_11a]
  match q with
  | ⟨0, _⟩ => show a + 1 * 0 = a; omega
  | ⟨1, _⟩ => show b + 1 * 0 = b; omega
  | ⟨2, _⟩ => show 0 + 1 * p.val = p.val; omega

/-! ## The rows of a reshaped column a tile reads -/

/-- Row `r` of the four rows of a reshaped column that tile `L` reads. -/
def colRow (L : grid0.Coords) (r : Fin 4) : Fin 128 :=
  ⟨8 * (L 1).val + 4 * (L 0).val + r.val, by
    have h0 : (L 0).val < 2 := (L 0).isLt
    have h1 : (L 1).val < 16 := (L 1).isLt
    have := r.isLt; omega⟩

theorem colRect_emb (L : grid0.Coords) (r : Fin 4) (p : Fin 128) : (colRectL L).emb (ix2 r p) = ix2 (colRow L r) p := by
  funext q; apply Fin.ext
  show (k0_off1 L) q + 1 * ((ix2 r p) q : Nat) = _
  rw [k0_off1_eq]
  match q with
  | ⟨0, _⟩ => show 8 * (L 1).val + 4 * (L 0).val + 1 * r.val = 8 * (L 1).val + 4 * (L 0).val + r.val; omega
  | ⟨1, _⟩ => show 0 + 1 * p.val = p.val; omega

/-- Reading the tile's window of a 128 by 128 view at `(r, p)` is reading the view at `(8·L₁ + 4·L₀ + r, p)`. -/
theorem col_read_view {sp : Space} (v : View sig .scVector sp S128x128 .i32) (L : grid0.Coords)
    (fc : v.ty.Contents (Elt F)) (r : Fin 4) (p : Fin 128) :
    (v.slice (colRectL L)).read (Elt F) fc (ix2 r p) = v.read (Elt F) fc (ix2 (colRow L r) p) := by
  rw [View.read_apply, View.read_apply]
  show _root_.cast _ (fc (v.emb ((colRectL L).emb (ix2 r p)))) = _
  rw [colRect_emb]

theorem col_read_0 (L : grid0.Coords) (fc : S128x128.Idx → Elt F .i32) (r : Fin 4) (p : Fin 128) :
    View.read (Elt F) ((Memref.whole main_v0_scv : Memref sig .scVector .hbm S128x128 .i32).slice (colRectL L) (fun _ => rfl)).view fc (ix2 r p)
      = fc (ix2 (colRow L r) p) := col_read_view (View.whole main_v0_scv) L fc r p
theorem col_read_1 (L : grid0.Coords) (fc : S128x128.Idx → Elt F .i32) (r : Fin 4) (p : Fin 128) :
    View.read (Elt F) ((Memref.whole main_v1_scv : Memref sig .scVector .hbm S128x128 .i32).slice (colRectL L) (fun _ => rfl)).view fc (ix2 r p)
      = fc (ix2 (colRow L r) p) := col_read_view (View.whole main_v1_scv) L fc r p
theorem col_read_2 (L : grid0.Coords) (fc : S128x128.Idx → Elt F .i32) (r : Fin 4) (p : Fin 128) :
    View.read (Elt F) ((Memref.whole main_v2_scv : Memref sig .scVector .hbm S128x128 .i32).slice (colRectL L) (fun _ => rfl)).view fc (ix2 r p)
      = fc (ix2 (colRow L r) p) := col_read_view (View.whole main_v2_scv) L fc r p
theorem col_read_3 (L : grid0.Coords) (fc : S128x128.Idx → Elt F .i32) (r : Fin 4) (p : Fin 128) :
    View.read (Elt F) ((Memref.whole main_v3_scv : Memref sig .scVector .hbm S128x128 .i32).slice (colRectL L) (fun _ => rfl)).view fc (ix2 r p)
      = fc (ix2 (colRow L r) p) := col_read_view (View.whole main_v3_scv) L fc r p
theorem col_read_4 (L : grid0.Coords) (fc : S128x128.Idx → Elt F .i32) (r : Fin 4) (p : Fin 128) :
    View.read (Elt F) ((Memref.whole main_v4_scv : Memref sig .scVector .hbm S128x128 .i32).slice (colRectL L) (fun _ => rfl)).view fc (ix2 r p)
      = fc (ix2 (colRow L r) p) := col_read_view (View.whole main_v4_scv) L fc r p
theorem col_read_5 (L : grid0.Coords) (fc : S128x128.Idx → Elt F .i32) (r : Fin 4) (p : Fin 128) :
    View.read (Elt F) ((Memref.whole main_v5_scv : Memref sig .scVector .hbm S128x128 .i32).slice (colRectL L) (fun _ => rfl)).view fc (ix2 r p)
      = fc (ix2 (colRow L r) p) := col_read_view (View.whole main_v5_scv) L fc r p
theorem col_read_6 (L : grid0.Coords) (fc : S128x128.Idx → Elt F .i32) (r : Fin 4) (p : Fin 128) :
    View.read (Elt F) ((Memref.whole main_v6_scv : Memref sig .scVector .hbm S128x128 .i32).slice (colRectL L) (fun _ => rfl)).view fc (ix2 r p)
      = fc (ix2 (colRow L r) p) := col_read_view (View.whole main_v6_scv) L fc r p
theorem col_read_7 (L : grid0.Coords) (fc : S128x128.Idx → Elt F .i32) (r : Fin 4) (p : Fin 128) :
    View.read (Elt F) ((Memref.whole main_v7_scv : Memref sig .scVector .hbm S128x128 .i32).slice (colRectL L) (fun _ => rfl)).view fc (ix2 r p)
      = fc (ix2 (colRow L r) p) := col_read_view (View.whole main_v7_scv) L fc r p
theorem col_read_8 (L : grid0.Coords) (fc : S128x128.Idx → Elt F .i32) (r : Fin 4) (p : Fin 128) :
    View.read (Elt F) ((Memref.whole main_v8_scv : Memref sig .scVector .hbm S128x128 .i32).slice (colRectL L) (fun _ => rfl)).view fc (ix2 r p)
      = fc (ix2 (colRow L r) p) := col_read_view (View.whole main_v8_scv) L fc r p
theorem col_read_9 (L : grid0.Coords) (fc : S128x128.Idx → Elt F .i32) (r : Fin 4) (p : Fin 128) :
    View.read (Elt F) ((Memref.whole main_v9_scv : Memref sig .scVector .hbm S128x128 .i32).slice (colRectL L) (fun _ => rfl)).view fc (ix2 r p)
      = fc (ix2 (colRow L r) p) := col_read_view (View.whole main_v9_scv) L fc r p
theorem col_read_10 (L : grid0.Coords) (fc : S128x128.Idx → Elt F .i32) (r : Fin 4) (p : Fin 128) :
    View.read (Elt F) ((Memref.whole main_v10_scv : Memref sig .scVector .hbm S128x128 .i32).slice (colRectL L) (fun _ => rfl)).view fc (ix2 r p)
      = fc (ix2 (colRow L r) p) := col_read_view (View.whole main_v10_scv) L fc r p
theorem col_read_11 (L : grid0.Coords) (fc : S128x128.Idx → Elt F .i32) (r : Fin 4) (p : Fin 128) :
    View.read (Elt F) ((Memref.whole main_v11_scv : Memref sig .scVector .hbm S128x128 .i32).slice (colRectL L) (fun _ => rfl)).view fc (ix2 r p)
      = fc (ix2 (colRow L r) p) := col_read_view (View.whole main_v11_scv) L fc r p
theorem col_read_12 (L : grid0.Coords) (fc : S128x128.Idx → Elt F .i32) (r : Fin 4) (p : Fin 128) :
    View.read (Elt F) ((Memref.whole main_v12_scv : Memref sig .scVector .hbm S128x128 .i32).slice (colRectL L) (fun _ => rfl)).view fc (ix2 r p)
      = fc (ix2 (colRow L r) p) := col_read_view (View.whole main_v12_scv) L fc r p
theorem col_read_13 (L : grid0.Coords) (fc : S128x128.Idx → Elt F .i32) (r : Fin 4) (p : Fin 128) :
    View.read (Elt F) ((Memref.whole main_v13_scv : Memref sig .scVector .hbm S128x128 .i32).slice (colRectL L) (fun _ => rfl)).view fc (ix2 r p)
      = fc (ix2 (colRow L r) p) := col_read_view (View.whole main_v13_scv) L fc r p
theorem col_read_14 (L : grid0.Coords) (fc : S128x128.Idx → Elt F .i32) (r : Fin 4) (p : Fin 128) :
    View.read (Elt F) ((Memref.whole main_v14_scv : Memref sig .scVector .hbm S128x128 .i32).slice (colRectL L) (fun _ => rfl)).view fc (ix2 r p)
      = fc (ix2 (colRow L r) p) := col_read_view (View.whole main_v14_scv) L fc r p
theorem col_read_15 (L : grid0.Coords) (fc : S128x128.Idx → Elt F .i32) (r : Fin 4) (p : Fin 128) :
    View.read (Elt F) ((Memref.whole main_v15_scv : Memref sig .scVector .hbm S128x128 .i32).slice (colRectL L) (fun _ => rfl)).view fc (ix2 r p)
      = fc (ix2 (colRow L r) p) := col_read_view (View.whole main_v15_scv) L fc r p
theorem col_read_16 (L : grid0.Coords) (fc : S128x128.Idx → Elt F .i32) (r : Fin 4) (p : Fin 128) :
    View.read (Elt F) ((Memref.whole main_v16_scv : Memref sig .scVector .hbm S128x128 .i32).slice (colRectL L) (fun _ => rfl)).view fc (ix2 r p)
      = fc (ix2 (colRow L r) p) := col_read_view (View.whole main_v16_scv) L fc r p
theorem col_read_17 (L : grid0.Coords) (fc : S128x128.Idx → Elt F .i32) (r : Fin 4) (p : Fin 128) :
    View.read (Elt F) ((Memref.whole main_v17_scv : Memref sig .scVector .hbm S128x128 .i32).slice (colRectL L) (fun _ => rfl)).view fc (ix2 r p)
      = fc (ix2 (colRow L r) p) := col_read_view (View.whole main_v17_scv) L fc r p
theorem col_read_18 (L : grid0.Coords) (fc : S128x128.Idx → Elt F .i32) (r : Fin 4) (p : Fin 128) :
    View.read (Elt F) ((Memref.whole main_v18_scv : Memref sig .scVector .hbm S128x128 .i32).slice (colRectL L) (fun _ => rfl)).view fc (ix2 r p)
      = fc (ix2 (colRow L r) p) := col_read_view (View.whole main_v18_scv) L fc r p
theorem col_read_19 (L : grid0.Coords) (fc : S128x128.Idx → Elt F .i32) (r : Fin 4) (p : Fin 128) :
    View.read (Elt F) ((Memref.whole main_v19_scv : Memref sig .scVector .hbm S128x128 .i32).slice (colRectL L) (fun _ => rfl)).view fc (ix2 r p)
      = fc (ix2 (colRow L r) p) := col_read_view (View.whole main_v19_scv) L fc r p
theorem col_read_20 (L : grid0.Coords) (fc : S128x128.Idx → Elt F .i32) (r : Fin 4) (p : Fin 128) :
    View.read (Elt F) ((Memref.whole main_v20_scv : Memref sig .scVector .hbm S128x128 .i32).slice (colRectL L) (fun _ => rfl)).view fc (ix2 r p)
      = fc (ix2 (colRow L r) p) := col_read_view (View.whole main_v20_scv) L fc r p
theorem col_read_21 (L : grid0.Coords) (fc : S128x128.Idx → Elt F .i32) (r : Fin 4) (p : Fin 128) :
    View.read (Elt F) ((Memref.whole main_v21_scv : Memref sig .scVector .hbm S128x128 .i32).slice (colRectL L) (fun _ => rfl)).view fc (ix2 r p)
      = fc (ix2 (colRow L r) p) := col_read_view (View.whole main_v21_scv) L fc r p
theorem col_read_22 (L : grid0.Coords) (fc : S128x128.Idx → Elt F .i32) (r : Fin 4) (p : Fin 128) :
    View.read (Elt F) ((Memref.whole main_v22_scv : Memref sig .scVector .hbm S128x128 .i32).slice (colRectL L) (fun _ => rfl)).view fc (ix2 r p)
      = fc (ix2 (colRow L r) p) := col_read_view (View.whole main_v22_scv) L fc r p
theorem col_read_23 (L : grid0.Coords) (fc : S128x128.Idx → Elt F .i32) (r : Fin 4) (p : Fin 128) :
    View.read (Elt F) ((Memref.whole main_v23_scv : Memref sig .scVector .hbm S128x128 .i32).slice (colRectL L) (fun _ => rfl)).view fc (ix2 r p)
      = fc (ix2 (colRow L r) p) := col_read_view (View.whole main_v23_scv) L fc r p
theorem col_read_24 (L : grid0.Coords) (fc : S128x128.Idx → Elt F .i32) (r : Fin 4) (p : Fin 128) :
    View.read (Elt F) ((Memref.whole main_v24_scv : Memref sig .scVector .hbm S128x128 .i32).slice (colRectL L) (fun _ => rfl)).view fc (ix2 r p)
      = fc (ix2 (colRow L r) p) := col_read_view (View.whole main_v24_scv) L fc r p
theorem col_read_25 (L : grid0.Coords) (fc : S128x128.Idx → Elt F .i32) (r : Fin 4) (p : Fin 128) :
    View.read (Elt F) ((Memref.whole main_v25_scv : Memref sig .scVector .hbm S128x128 .i32).slice (colRectL L) (fun _ => rfl)).view fc (ix2 r p)
      = fc (ix2 (colRow L r) p) := col_read_view (View.whole main_v25_scv) L fc r p

/-! ## The item's value is the specified one -/

theorem IDXV_ix3 (pay : Fin 26 → S4x128.Idx → Elt F .i32) (t : Fin 26) (r : Fin 4) (p : Fin 128) :
    IDXV pay (ix3 t r p) = pay t (ix2 r p) := rfl

/-- The row of the result that word `p` of sub-chunk `r` of tile `L` belongs to. -/
def outRow (L : grid0.Coords) (r : Fin 4) (p : Fin 128) : Fin 16384 :=
  ⟨1024 * (L 1).val + 512 * (L 0).val + 128 * r.val + p.val, by
    have h0 : (L 0).val < 2 := (L 0).isLt
    have h1 : (L 1).val < 16 := (L 1).isLt
    have := r.isLt; have := p.isLt; omega⟩
/-- Column `e` of table `t`'s block of the result. -/
def outCol (t : Fin 26) (e : Fin 128) : Fin 3328 := ⟨128 * t.val + e.val, by have := t.isLt; have := e.isLt; omega⟩

/-- What the windows were written with, in terms of the columns: the reshaped column `t` at `(R, p)` is the column at
    `128·R + p`. -/
theorem hpay_of_fc (col : Fin 26 → Cert.Spec.ColS.Idx → BitVec 32) (fc : Fin 26 → S128x128.Idx → Elt F .i32)
    (hfc : ∀ t (R p : Fin 128), fc t (ix2 R p) = col t (ix1 (⟨128 * R.val + p.val, by have := R.isLt; have := p.isLt; omega⟩ : Fin 16384)))
    (L : grid0.Coords) (pay : Fin 26 → S4x128.Idx → Elt F .i32)
    (hp : ∀ t (r : Fin 4) (p : Fin 128), pay t (ix2 r p) = fc t (ix2 (colRow L r) p)) :
    ∀ t (r : Fin 4) (p : Fin 128), pay t (ix2 r p) = col t (ix1 (outRow L r p)) := by
  intro t r p
  rw [hp, hfc]
  refine congrArg (fun x => col t (ix1 x)) (Fin.ext ?_)
  show 128 * (8 * (L 1).val + 4 * (L 0).val + r.val) + p.val = 1024 * (L 1).val + 512 * (L 0).val + 128 * r.val + p.val
  omega

/-- Entry `e` of the row of table `t` that the scratch's word `(t, r, p)` names is the specified entry
    `(1024·L₁ + 512·L₀ + 128·r + p, 128·t + e)` of the result. -/
theorem item_spec {α : Type} (tbl : Fin 26 → Cert.Spec.TblS.Idx → α) (col : Fin 26 → Cert.Spec.ColS.Idx → BitVec 32)
    (hr : ∀ t b, (col t b).toNat < 1000) (L : grid0.Coords) (pay : Fin 26 → S4x128.Idx → Elt F .i32)
    (hpay : ∀ t (r : Fin 4) (p : Fin 128), pay t (ix2 r p) = col t (ix1 (outRow L r p)))
    (t : Fin 26) (r : Fin 4) (p e : Fin 128) (hlt : (IDXV pay (ix3 t r p)).toNat < 1000) :
    tbl t (ix2 (⟨(IDXV pay (ix3 t r p)).toNat, hlt⟩ : Fin 1000) e)
      = Cert.Spec.G tbl col (ix2 (outRow L r p) (outCol t e)) := by
  rw [Cert.Spec.G_apply,
    show Cert.Spec.tblOf (outCol t e) = t from Cert.Spec.tblOf_block t e _,
    show Cert.Spec.laneOf (outCol t e) = e from Cert.Spec.laneOf_block t e _]
  refine congrArg (fun x => tbl t (ix2 x e)) (Fin.ext ?_)
  show (IDXV pay (ix3 t r p)).toNat = (Cert.Spec.rowOf (col t (ix1 (outRow L r p)))).val
  rw [Cert.Spec.rowOf_val_of_lt (hr _ _), IDXV_ix3, hpay]

/-- The scratch's words are row numbers when the columns' are. -/
theorem pay_lt (col : Fin 26 → Cert.Spec.ColS.Idx → BitVec 32) (hr : ∀ t b, (col t b).toNat < 1000) (L : grid0.Coords)
    (pay : Fin 26 → S4x128.Idx → Elt F .i32)
    (hpay : ∀ t (r : Fin 4) (p : Fin 128), pay t (ix2 r p) = col t (ix1 (outRow L r p))) :
    ∀ t y, (pay t y).toNat < 1000 := by
  intro t y
  obtain ⟨r, p, rfl⟩ : ∃ (r : Fin 4) (p : Fin 128), y = ix2 r p := ⟨y 0, y 1, eq_ix2 y⟩
  rw [hpay]; exact hr _ _

/-- The gathered slot of item `(t, r)` holds the specified block of the result: at `(p, e)`, entry
    `(1024·L₁ + 512·L₀ + 128·r + p, 128·t + e)`. -/
theorem slot_spec (tbl : Fin 26 → S1000x128.Idx → Elt F .f32) (col : Fin 26 → Cert.Spec.ColS.Idx → BitVec 32)
    (hr : ∀ t b, (col t b).toNat < 1000) (L : grid0.Coords) (pay : Fin 26 → S4x128.Idx → Elt F .i32)
    (hpay : ∀ t (r : Fin 4) (p : Fin 128), pay t (ix2 r p) = col t (ix1 (outRow L r p)))
    (t : Fin 26) (r : Fin 4) (idx : S128.Idx → Elt F .i32) (hidx : ∀ p : Fin 128, idx (ix1 p) = IDXV pay (ix3 t r p))
    (hn : S128.numel = S128x128.size (gathers_S1000x128_S128x128).axis')
    (hin : ∀ x, (idx x).toNat < S1000x128.size (gathers_S1000x128_S128x128).axis) (p e : Fin 128) :
    SparseCore.gatherPayload (s₀ := S1000x128) (s := S128x128) gathers_S1000x128_S128x128 (tbl t) (SparseCore.rows idx hn hin) (ix2 p e)
      = Cert.Spec.G tbl col (ix2 (outRow L r p) (outCol t e)) := by
  rw [gp_apply]
  have hlt : (IDXV pay (ix3 t r p)).toNat < 1000 := hidx p ▸ hin (ix1 p)
  have e1 : (⟨(idx (ix1 p)).toNat, hin _⟩ : Fin 1000) = ⟨(IDXV pay (ix3 t r p)).toNat, hlt⟩ := Fin.ext (show (idx (ix1 p)).toNat = (IDXV pay (ix3 t r p)).toNat from congrArg BitVec.toNat (hidx p))
  rw [e1]
  exact item_spec tbl col hr L pay hpay t r p e hlt

/-! ## What the windows are written with is in range -/

theorem pay_lt_fc_0 (L : grid0.Coords) (fc : S128x128.Idx → Elt F .i32) (h : ∀ j, (fc j).toNat < 1000) :
    ∀ y, ((ReadAs.same.apply (View.read (Elt F) ((Memref.whole main_v0_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v0_scv : Memref sig .scVector .hbm S128x128 .i32).slice (colRectL L) (fun _ => rfl)).view fc (ix2 r p)).toNat < 1000
  rw [col_read_0]; exact h _
theorem pay_lt_fc_1 (L : grid0.Coords) (fc : S128x128.Idx → Elt F .i32) (h : ∀ j, (fc j).toNat < 1000) :
    ∀ y, ((ReadAs.same.apply (View.read (Elt F) ((Memref.whole main_v1_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v1_scv : Memref sig .scVector .hbm S128x128 .i32).slice (colRectL L) (fun _ => rfl)).view fc (ix2 r p)).toNat < 1000
  rw [col_read_1]; exact h _
theorem pay_lt_fc_2 (L : grid0.Coords) (fc : S128x128.Idx → Elt F .i32) (h : ∀ j, (fc j).toNat < 1000) :
    ∀ y, ((ReadAs.same.apply (View.read (Elt F) ((Memref.whole main_v2_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v2_scv : Memref sig .scVector .hbm S128x128 .i32).slice (colRectL L) (fun _ => rfl)).view fc (ix2 r p)).toNat < 1000
  rw [col_read_2]; exact h _
theorem pay_lt_fc_3 (L : grid0.Coords) (fc : S128x128.Idx → Elt F .i32) (h : ∀ j, (fc j).toNat < 1000) :
    ∀ y, ((ReadAs.same.apply (View.read (Elt F) ((Memref.whole main_v3_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v3_scv : Memref sig .scVector .hbm S128x128 .i32).slice (colRectL L) (fun _ => rfl)).view fc (ix2 r p)).toNat < 1000
  rw [col_read_3]; exact h _
theorem pay_lt_fc_4 (L : grid0.Coords) (fc : S128x128.Idx → Elt F .i32) (h : ∀ j, (fc j).toNat < 1000) :
    ∀ y, ((ReadAs.same.apply (View.read (Elt F) ((Memref.whole main_v4_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v4_scv : Memref sig .scVector .hbm S128x128 .i32).slice (colRectL L) (fun _ => rfl)).view fc (ix2 r p)).toNat < 1000
  rw [col_read_4]; exact h _
theorem pay_lt_fc_5 (L : grid0.Coords) (fc : S128x128.Idx → Elt F .i32) (h : ∀ j, (fc j).toNat < 1000) :
    ∀ y, ((ReadAs.same.apply (View.read (Elt F) ((Memref.whole main_v5_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v5_scv : Memref sig .scVector .hbm S128x128 .i32).slice (colRectL L) (fun _ => rfl)).view fc (ix2 r p)).toNat < 1000
  rw [col_read_5]; exact h _
theorem pay_lt_fc_6 (L : grid0.Coords) (fc : S128x128.Idx → Elt F .i32) (h : ∀ j, (fc j).toNat < 1000) :
    ∀ y, ((ReadAs.same.apply (View.read (Elt F) ((Memref.whole main_v6_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v6_scv : Memref sig .scVector .hbm S128x128 .i32).slice (colRectL L) (fun _ => rfl)).view fc (ix2 r p)).toNat < 1000
  rw [col_read_6]; exact h _
theorem pay_lt_fc_7 (L : grid0.Coords) (fc : S128x128.Idx → Elt F .i32) (h : ∀ j, (fc j).toNat < 1000) :
    ∀ y, ((ReadAs.same.apply (View.read (Elt F) ((Memref.whole main_v7_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v7_scv : Memref sig .scVector .hbm S128x128 .i32).slice (colRectL L) (fun _ => rfl)).view fc (ix2 r p)).toNat < 1000
  rw [col_read_7]; exact h _
theorem pay_lt_fc_8 (L : grid0.Coords) (fc : S128x128.Idx → Elt F .i32) (h : ∀ j, (fc j).toNat < 1000) :
    ∀ y, ((ReadAs.same.apply (View.read (Elt F) ((Memref.whole main_v8_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v8_scv : Memref sig .scVector .hbm S128x128 .i32).slice (colRectL L) (fun _ => rfl)).view fc (ix2 r p)).toNat < 1000
  rw [col_read_8]; exact h _
theorem pay_lt_fc_9 (L : grid0.Coords) (fc : S128x128.Idx → Elt F .i32) (h : ∀ j, (fc j).toNat < 1000) :
    ∀ y, ((ReadAs.same.apply (View.read (Elt F) ((Memref.whole main_v9_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v9_scv : Memref sig .scVector .hbm S128x128 .i32).slice (colRectL L) (fun _ => rfl)).view fc (ix2 r p)).toNat < 1000
  rw [col_read_9]; exact h _
theorem pay_lt_fc_10 (L : grid0.Coords) (fc : S128x128.Idx → Elt F .i32) (h : ∀ j, (fc j).toNat < 1000) :
    ∀ y, ((ReadAs.same.apply (View.read (Elt F) ((Memref.whole main_v10_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v10_scv : Memref sig .scVector .hbm S128x128 .i32).slice (colRectL L) (fun _ => rfl)).view fc (ix2 r p)).toNat < 1000
  rw [col_read_10]; exact h _
theorem pay_lt_fc_11 (L : grid0.Coords) (fc : S128x128.Idx → Elt F .i32) (h : ∀ j, (fc j).toNat < 1000) :
    ∀ y, ((ReadAs.same.apply (View.read (Elt F) ((Memref.whole main_v11_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v11_scv : Memref sig .scVector .hbm S128x128 .i32).slice (colRectL L) (fun _ => rfl)).view fc (ix2 r p)).toNat < 1000
  rw [col_read_11]; exact h _
theorem pay_lt_fc_12 (L : grid0.Coords) (fc : S128x128.Idx → Elt F .i32) (h : ∀ j, (fc j).toNat < 1000) :
    ∀ y, ((ReadAs.same.apply (View.read (Elt F) ((Memref.whole main_v12_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v12_scv : Memref sig .scVector .hbm S128x128 .i32).slice (colRectL L) (fun _ => rfl)).view fc (ix2 r p)).toNat < 1000
  rw [col_read_12]; exact h _
theorem pay_lt_fc_13 (L : grid0.Coords) (fc : S128x128.Idx → Elt F .i32) (h : ∀ j, (fc j).toNat < 1000) :
    ∀ y, ((ReadAs.same.apply (View.read (Elt F) ((Memref.whole main_v13_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v13_scv : Memref sig .scVector .hbm S128x128 .i32).slice (colRectL L) (fun _ => rfl)).view fc (ix2 r p)).toNat < 1000
  rw [col_read_13]; exact h _
theorem pay_lt_fc_14 (L : grid0.Coords) (fc : S128x128.Idx → Elt F .i32) (h : ∀ j, (fc j).toNat < 1000) :
    ∀ y, ((ReadAs.same.apply (View.read (Elt F) ((Memref.whole main_v14_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v14_scv : Memref sig .scVector .hbm S128x128 .i32).slice (colRectL L) (fun _ => rfl)).view fc (ix2 r p)).toNat < 1000
  rw [col_read_14]; exact h _
theorem pay_lt_fc_15 (L : grid0.Coords) (fc : S128x128.Idx → Elt F .i32) (h : ∀ j, (fc j).toNat < 1000) :
    ∀ y, ((ReadAs.same.apply (View.read (Elt F) ((Memref.whole main_v15_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v15_scv : Memref sig .scVector .hbm S128x128 .i32).slice (colRectL L) (fun _ => rfl)).view fc (ix2 r p)).toNat < 1000
  rw [col_read_15]; exact h _
theorem pay_lt_fc_16 (L : grid0.Coords) (fc : S128x128.Idx → Elt F .i32) (h : ∀ j, (fc j).toNat < 1000) :
    ∀ y, ((ReadAs.same.apply (View.read (Elt F) ((Memref.whole main_v16_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v16_scv : Memref sig .scVector .hbm S128x128 .i32).slice (colRectL L) (fun _ => rfl)).view fc (ix2 r p)).toNat < 1000
  rw [col_read_16]; exact h _
theorem pay_lt_fc_17 (L : grid0.Coords) (fc : S128x128.Idx → Elt F .i32) (h : ∀ j, (fc j).toNat < 1000) :
    ∀ y, ((ReadAs.same.apply (View.read (Elt F) ((Memref.whole main_v17_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v17_scv : Memref sig .scVector .hbm S128x128 .i32).slice (colRectL L) (fun _ => rfl)).view fc (ix2 r p)).toNat < 1000
  rw [col_read_17]; exact h _
theorem pay_lt_fc_18 (L : grid0.Coords) (fc : S128x128.Idx → Elt F .i32) (h : ∀ j, (fc j).toNat < 1000) :
    ∀ y, ((ReadAs.same.apply (View.read (Elt F) ((Memref.whole main_v18_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v18_scv : Memref sig .scVector .hbm S128x128 .i32).slice (colRectL L) (fun _ => rfl)).view fc (ix2 r p)).toNat < 1000
  rw [col_read_18]; exact h _
theorem pay_lt_fc_19 (L : grid0.Coords) (fc : S128x128.Idx → Elt F .i32) (h : ∀ j, (fc j).toNat < 1000) :
    ∀ y, ((ReadAs.same.apply (View.read (Elt F) ((Memref.whole main_v19_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v19_scv : Memref sig .scVector .hbm S128x128 .i32).slice (colRectL L) (fun _ => rfl)).view fc (ix2 r p)).toNat < 1000
  rw [col_read_19]; exact h _
theorem pay_lt_fc_20 (L : grid0.Coords) (fc : S128x128.Idx → Elt F .i32) (h : ∀ j, (fc j).toNat < 1000) :
    ∀ y, ((ReadAs.same.apply (View.read (Elt F) ((Memref.whole main_v20_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v20_scv : Memref sig .scVector .hbm S128x128 .i32).slice (colRectL L) (fun _ => rfl)).view fc (ix2 r p)).toNat < 1000
  rw [col_read_20]; exact h _
theorem pay_lt_fc_21 (L : grid0.Coords) (fc : S128x128.Idx → Elt F .i32) (h : ∀ j, (fc j).toNat < 1000) :
    ∀ y, ((ReadAs.same.apply (View.read (Elt F) ((Memref.whole main_v21_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v21_scv : Memref sig .scVector .hbm S128x128 .i32).slice (colRectL L) (fun _ => rfl)).view fc (ix2 r p)).toNat < 1000
  rw [col_read_21]; exact h _
theorem pay_lt_fc_22 (L : grid0.Coords) (fc : S128x128.Idx → Elt F .i32) (h : ∀ j, (fc j).toNat < 1000) :
    ∀ y, ((ReadAs.same.apply (View.read (Elt F) ((Memref.whole main_v22_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v22_scv : Memref sig .scVector .hbm S128x128 .i32).slice (colRectL L) (fun _ => rfl)).view fc (ix2 r p)).toNat < 1000
  rw [col_read_22]; exact h _
theorem pay_lt_fc_23 (L : grid0.Coords) (fc : S128x128.Idx → Elt F .i32) (h : ∀ j, (fc j).toNat < 1000) :
    ∀ y, ((ReadAs.same.apply (View.read (Elt F) ((Memref.whole main_v23_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v23_scv : Memref sig .scVector .hbm S128x128 .i32).slice (colRectL L) (fun _ => rfl)).view fc (ix2 r p)).toNat < 1000
  rw [col_read_23]; exact h _
theorem pay_lt_fc_24 (L : grid0.Coords) (fc : S128x128.Idx → Elt F .i32) (h : ∀ j, (fc j).toNat < 1000) :
    ∀ y, ((ReadAs.same.apply (View.read (Elt F) ((Memref.whole main_v24_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v24_scv : Memref sig .scVector .hbm S128x128 .i32).slice (colRectL L) (fun _ => rfl)).view fc (ix2 r p)).toNat < 1000
  rw [col_read_24]; exact h _
theorem pay_lt_fc_25 (L : grid0.Coords) (fc : S128x128.Idx → Elt F .i32) (h : ∀ j, (fc j).toNat < 1000) :
    ∀ y, ((ReadAs.same.apply (View.read (Elt F) ((Memref.whole main_v25_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v25_scv : Memref sig .scVector .hbm S128x128 .i32).slice (colRectL L) (fun _ => rfl)).view fc (ix2 r p)).toNat < 1000
  rw [col_read_25]; exact h _

/-! ## A chain of whole writes through views of one buffer -/

/-- One more layer: contents that are a whole write through `v` over contents that agree with `G` on `T`, the
    payload being what `v` reads off `G`, agree with `G` on `T` and on what `v` covers. -/
theorem chain_step {κ : Kind} {sp : Space} {s : Shape} {e : EltTy} {Val : EltTy → Type} (v : View sig κ sp s e)
    (X X' G : v.ty.Contents Val) (P : s.Idx → Val e) (T : Finset v.ty.Idx)
    (hX : X = View.write Val v X' P Finset.univ) (hT : ∀ i ∈ T, X' i = G i) (hP : ∀ y, P y = v.read Val G y) :
    ∀ i ∈ T ∪ v.set, X i = G i := by
  subst hX
  intro i hi
  by_cases hv : i ∈ v.set
  · obtain ⟨y, -, rfl⟩ := Finset.mem_map.mp hv
    rw [View.write_emb_of_mem _ _ (Finset.mem_univ y), hP y, View.read_apply, cast_cast, cast_eq]
  · rw [View.write_of_not_mem _ _ _ (by rwa [View.setOn_univ])]
    rcases Finset.mem_union.mp hi with h | h
    · exact hT i h
    · exact absurd h hv

/-- The same, the contents outside `T` and `v` not mentioned: one layer keeps what the earlier ones established
    wherever `v` does not write. -/
theorem chain_keep {κ : Kind} {sp : Space} {s : Shape} {e : EltTy} {Val : EltTy → Type} (v : View sig κ sp s e)
    (X' : v.ty.Contents Val) (P : s.Idx → Val e) (i : v.ty.Idx) (hi : i ∉ v.set) :
    View.write Val v X' P Finset.univ i = X' i :=
  View.write_of_not_mem _ _ _ (by rwa [View.setOn_univ])

/-! ## The slots of the row scratch -/

local notation "rV" => (Memref.whole Cert.Kernel.cc0_scratch1 : Memref Cert.Kernel.sig Kind.scVector Space.vmem Cert.Kernel.S7x128x128 EltTy.f32)

/-- Two different slots share no element. -/
theorem Rn_disjoint (s s' : Nat) (h : ∀ a, (![s, 0, 0] : Fin 3 → Nat) a + S1x128x128.size a ≤ S7x128x128.size a)
    (h' : ∀ a, (![s', 0, 0] : Fin 3 → Nat) a + S1x128x128.size a ≤ S7x128x128.size a) (hne : s ≠ s') :
    Disjoint (Rn s h).view.set (Rn s' h').view.set := by
  rw [set_Rn, set_Rn, Finset.disjoint_left]
  intro j h1 h2
  rw [mem_rwinSet] at h1 h2
  exact hne (h1.symm.trans h2)

/-- A slot read after a whole write through the same slot: the payload. -/
theorem Rn_read_hit (s : Nat) (h : ∀ a, (![s, 0, 0] : Fin 3 → Nat) a + S1x128x128.size a ≤ S7x128x128.size a)
    (Y' : S7x128x128.Idx → Elt F .f32) (Q : S128x128.Idx → Elt F .f32) :
    (Rn s h).view.read (Elt F) ((Rn s h).view.write (Elt F) Y' Q Finset.univ) = Q :=
  View.read_write_univ _ _

/-- A slot read after a whole write through another slot: what it read before. -/
theorem Rn_read_miss (s s' : Nat) (h : ∀ a, (![s, 0, 0] : Fin 3 → Nat) a + S1x128x128.size a ≤ S7x128x128.size a)
    (h' : ∀ a, (![s', 0, 0] : Fin 3 → Nat) a + S1x128x128.size a ≤ S7x128x128.size a) (hne : s ≠ s')
    (Y' : S7x128x128.Idx → Elt F .f32) (Q : S128x128.Idx → Elt F .f32) :
    (Rn s h).view.read (Elt F) ((Rn s' h').view.write (Elt F) Y' Q Finset.univ) = (Rn s h).view.read (Elt F) Y' :=
  View.read_congr fun i hi => View.write_of_not_mem _ _ _ (by
    rw [View.setOn_univ]
    exact Finset.disjoint_left.mp (Rn_disjoint s s' h h' hne) hi)

end Cert.Proof.KB.Val
-- ==== Proof.TileKB0.lean ====
/-
  One vector subcore's task, for the subcores whose group number 2·(core) + (subcore mod 2) is 0.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  some contents.
-/
import proofs.«204019_g4913442586959_cont_sun_m_672_34_alg».proof.Proof.SetupKB0
import proofs.«204019_g4913442586959_cont_sun_m_672_34_alg».proof.Proof.IdxScratchKB
import proofs.«204019_g4913442586959_cont_sun_m_672_34_alg».proof.Proof.ValueKB
import proofs.«204019_g4913442586959_cont_sun_m_672_34_alg».proof.Proof.Gen.Kernel.Skeleton

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insert0 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_run0 (hF : (K (F := F)).Facts) (O : CellTallies nD τ sig (HIx 1)) (W : Waits sig (HIx 1)) (hO : ∀ g, O g none = 0)
    (q : PosShare TreeShare) (hc1 : k0_cond1 L = 1#1) (hc2 : ¬ k0_cond2 L = 1#1) (hc3 : ¬ k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]; · iexists _; iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insert0 _ ?_)

end Cert.Proof.KB

end
-- ==== Proof.TileKB1.lean ====
/-
  One vector subcore's task, for the subcores whose group number 2·(core) + (subcore mod 2) is 1.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  some contents.
-/
import proofs.«204019_g4913442586959_cont_sun_m_672_34_alg».proof.Proof.SetupKB0
import proofs.«204019_g4913442586959_cont_sun_m_672_34_alg».proof.Proof.IdxScratchKB
import proofs.«204019_g4913442586959_cont_sun_m_672_34_alg».proof.Proof.ValueKB
import proofs.«204019_g4913442586959_cont_sun_m_672_34_alg».proof.Proof.Gen.Kernel.Skeleton

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insert1 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_run1 (hF : (K (F := F)).Facts) (O : CellTallies nD τ sig (HIx 1)) (W : Waits sig (HIx 1)) (hO : ∀ g, O g none = 0)
    (q : PosShare TreeShare) (hc1 : ¬ k0_cond1 L = 1#1) (hc2 : k0_cond2 L = 1#1) (hc3 : ¬ k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]; · iexists _; iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insert1 _ ?_)

end Cert.Proof.KB

end
-- ==== Proof.TileKB2.lean ====
/-
  One vector subcore's task, for the subcores whose group number 2·(core) + (subcore mod 2) is 2.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  some contents.
-/
import proofs.«204019_g4913442586959_cont_sun_m_672_34_alg».proof.Proof.SetupKB0
import proofs.«204019_g4913442586959_cont_sun_m_672_34_alg».proof.Proof.IdxScratchKB
import proofs.«204019_g4913442586959_cont_sun_m_672_34_alg».proof.Proof.ValueKB
import proofs.«204019_g4913442586959_cont_sun_m_672_34_alg».proof.Proof.Gen.Kernel.Skeleton

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insert2 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_run2 (hF : (K (F := F)).Facts) (O : CellTallies nD τ sig (HIx 1)) (W : Waits sig (HIx 1)) (hO : ∀ g, O g none = 0)
    (q : PosShare TreeShare) (hc1 : ¬ k0_cond1 L = 1#1) (hc2 : ¬ k0_cond2 L = 1#1) (hc3 : k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]; · iexists _; iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insert2 _ ?_)

end Cert.Proof.KB

end
-- ==== Proof.TileKB3.lean ====
/-
  One vector subcore's task, for the subcores whose group number 2·(core) + (subcore mod 2) is 3.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  some contents.
-/
import proofs.«204019_g4913442586959_cont_sun_m_672_34_alg».proof.Proof.SetupKB0
import proofs.«204019_g4913442586959_cont_sun_m_672_34_alg».proof.Proof.IdxScratchKB
import proofs.«204019_g4913442586959_cont_sun_m_672_34_alg».proof.Proof.ValueKB
import proofs.«204019_g4913442586959_cont_sun_m_672_34_alg».proof.Proof.Gen.Kernel.Skeleton

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insert3 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_run3 (hF : (K (F := F)).Facts) (O : CellTallies nD τ sig (HIx 1)) (W : Waits sig (HIx 1)) (hO : ∀ g, O g none = 0)
    (q : PosShare TreeShare) (hc1 : ¬ k0_cond1 L = 1#1) (hc2 : ¬ k0_cond2 L = 1#1) (hc3 : ¬ k0_cond3 L = 1#1) (hc4 : k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]; · iexists _; iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insert3 _ ?_)

end Cert.Proof.KB

end
-- ==== Proof.SetupKI0.lean ====
import proofs.«204019_g4913442586959_cont_sun_m_672_34_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«204019_g4913442586959_cont_sun_m_672_34_alg».proof.Proof.Gen.KernelIdeal

/-!
# The launch's view of the program

The program is one call of a vector-subcore kernel on 2 SparseCores of 16 subcores each, after 26 reshapes of the
index columns on the host. This module names what the launch theorem is applied to: the configuration, the body
table, the variants, the ghost state (the handshakes' rounds and the transfers' counters), the launch contents as a
valuation, and a tile's coordinates, its thread and its 512 output rows.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory -/

variable (m : (ℓ : Loc nD τ sig) → Buf (Elt F) ℓ) (ρ : Dev nD → PrngReg)

/-- The launch contents of device `d`'s buffers, as a valuation. -/
def V0 (d : Dev nD) : Valuation τ sig (Elt F) := fun b => m (d, b)

/-! ## A tile -/

/-- The grid coordinates of tile `(c, s)`: SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cVL (L : grid0.Coords) : Fin τ.nSC := (L 0).castLE hcore0
abbrev jVL (L : grid0.Coords) : Fin τ.nSub := (L 1).castLE hsub0

theorem bound_zero : grid0.bound 0 = 2 := rfl
theorem bound_one : grid0.bound 1 = 16 := rfl

/-- The tile's number `2 i + c` among the 32. -/
def wOf (c : Fin 2) (i : Fin 16) : Fin 32 := ⟨2 * i.val + c.val, by omega⟩

theorem oTR_inb (L : grid0.Coords) :
    ∀ a, (![1024 * (L 1).val + 512 * (L 0).val, 0] : Fin 2 → Nat) a + (![512, 3328] : Fin 2 → Nat) a ≤ S16384x3328.size a := by
  have h0 : (L 0).val < 2 := (L 0).isLt
  have h1 : (L 1).val < 16 := (L 1).isLt
  exact Rect.inb₂ (show 1024 * (L 1).val + 512 * (L 0).val + 512 ≤ 16384 by omega) (show 0 + 3328 ≤ 3328 by omega)

/-- The 512 output rows of tile `L`. -/
abbrev oTR (L : grid0.Coords) : Rect S16384x3328 :=
  Rect.unit (s := S16384x3328) ![1024 * (L 1).val + 512 * (L 0).val, 0] ![512, 3328] (oTR_inb L)

/-- The 4 rows of a reshaped column that tile `L` reads, as the kernel computes the offset. -/
abbrev colRectL (L : grid0.Coords) : Rect S128x128 := Rect.unit (s := S128x128) (k0_off1 L) S4x128.size (k0_off1_inb L)

/-- Tile `L`'s number among the 32. -/
def wOfL (L : grid0.Coords) : Fin 32 :=
  ⟨2 * (L 1).val + (L 0).val, by have h0 : (L 0).val < 2 := (L 0).isLt; have h1 : (L 1).val < 16 := (L 1).isLt; omega⟩

/-- The output buffer of device `d`. -/
abbrev oLoc (d : Dev nD) : Loc nD τ sig := (SparseCore.T d).loc main_v26

end Cert.Proof.KI

end
-- ==== Proof.TablesKI.lean ====
import proofs.«204019_g4913442586959_cont_sun_m_672_34_alg».proof.Proof.SetupKI0

/-!
# The 26-entry tables of the launch set-up

Twenty-six columns, twenty-six reshaped columns, twenty-six tables: each family below lists its 26 entries at the
program's own names, one definition per entry, so that every entry is typed at its own array's shape; a family is
the vector of its entries.
-/

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The 26 reshapes of @main, in order: column t as 128 rows of 128 words. -/
def mainOps : List (HloOp τ sig (Elt F)) :=
  [StableHlo.reshape main_arg0 main_v0 rfl shapeCasts_S16384_S128x128,
   StableHlo.reshape main_arg1 main_v1 rfl shapeCasts_S16384_S128x128,
   StableHlo.reshape main_arg2 main_v2 rfl shapeCasts_S16384_S128x128,
   StableHlo.reshape main_arg3 main_v3 rfl shapeCasts_S16384_S128x128,
   StableHlo.reshape main_arg4 main_v4 rfl shapeCasts_S16384_S128x128,
   StableHlo.reshape main_arg5 main_v5 rfl shapeCasts_S16384_S128x128,
   StableHlo.reshape main_arg6 main_v6 rfl shapeCasts_S16384_S128x128,
   StableHlo.reshape main_arg7 main_v7 rfl shapeCasts_S16384_S128x128,
   StableHlo.reshape main_arg8 main_v8 rfl shapeCasts_S16384_S128x128,
   StableHlo.reshape main_arg9 main_v9 rfl shapeCasts_S16384_S128x128,
   StableHlo.reshape main_arg10 main_v10 rfl shapeCasts_S16384_S128x128,
   StableHlo.reshape main_arg11 main_v11 rfl shapeCasts_S16384_S128x128,
   StableHlo.reshape main_arg12 main_v12 rfl shapeCasts_S16384_S128x128,
   StableHlo.reshape main_arg13 main_v13 rfl shapeCasts_S16384_S128x128,
   StableHlo.reshape main_arg14 main_v14 rfl shapeCasts_S16384_S128x128,
   StableHlo.reshape main_arg15 main_v15 rfl shapeCasts_S16384_S128x128,
   StableHlo.reshape main_arg16 main_v16 rfl shapeCasts_S16384_S128x128,
   StableHlo.reshape main_arg17 main_v17 rfl shapeCasts_S16384_S128x128,
   StableHlo.reshape main_arg18 main_v18 rfl shapeCasts_S16384_S128x128,
   StableHlo.reshape main_arg19 main_v19 rfl shapeCasts_S16384_S128x128,
   StableHlo.reshape main_arg20 main_v20 rfl shapeCasts_S16384_S128x128,
   StableHlo.reshape main_arg21 main_v21 rfl shapeCasts_S16384_S128x128,
   StableHlo.reshape main_arg22 main_v22 rfl shapeCasts_S16384_S128x128,
   StableHlo.reshape main_arg23 main_v23 rfl shapeCasts_S16384_S128x128,
   StableHlo.reshape main_arg24 main_v24 rfl shapeCasts_S16384_S128x128,
   StableHlo.reshape main_arg25 main_v25 rfl shapeCasts_S16384_S128x128]

variable (m : (ℓ : Loc nD τ sig) → Buf (Elt F) ℓ)

/-- The buffers' contents after the 26 reshapes. -/
def V1 (d : Dev nD) : Valuation τ sig (Elt F) := StableHlo.after mainOps (V0 m d)

/-- The reshaped columns, the columns and the tables, as device buffers. -/
def vRefs : Fin 26 → DevRef τ sig :=
  ![(Proc.devRef .tc (main_v0 : Ref sig .tc) : DevRef τ sig),
    (Proc.devRef .tc (main_v1 : Ref sig .tc) : DevRef τ sig),
    (Proc.devRef .tc (main_v2 : Ref sig .tc) : DevRef τ sig),
    (Proc.devRef .tc (main_v3 : Ref sig .tc) : DevRef τ sig),
    (Proc.devRef .tc (main_v4 : Ref sig .tc) : DevRef τ sig),
    (Proc.devRef .tc (main_v5 : Ref sig .tc) : DevRef τ sig),
    (Proc.devRef .tc (main_v6 : Ref sig .tc) : DevRef τ sig),
    (Proc.devRef .tc (main_v7 : Ref sig .tc) : DevRef τ sig),
    (Proc.devRef .tc (main_v8 : Ref sig .tc) : DevRef τ sig),
    (Proc.devRef .tc (main_v9 : Ref sig .tc) : DevRef τ sig),
    (Proc.devRef .tc (main_v10 : Ref sig .tc) : DevRef τ sig),
    (Proc.devRef .tc (main_v11 : Ref sig .tc) : DevRef τ sig),
    (Proc.devRef .tc (main_v12 : Ref sig .tc) : DevRef τ sig),
    (Proc.devRef .tc (main_v13 : Ref sig .tc) : DevRef τ sig),
    (Proc.devRef .tc (main_v14 : Ref sig .tc) : DevRef τ sig),
    (Proc.devRef .tc (main_v15 : Ref sig .tc) : DevRef τ sig),
    (Proc.devRef .tc (main_v16 : Ref sig .tc) : DevRef τ sig),
    (Proc.devRef .tc (main_v17 : Ref sig .tc) : DevRef τ sig),
    (Proc.devRef .tc (main_v18 : Ref sig .tc) : DevRef τ sig),
    (Proc.devRef .tc (main_v19 : Ref sig .tc) : DevRef τ sig),
    (Proc.devRef .tc (main_v20 : Ref sig .tc) : DevRef τ sig),
    (Proc.devRef .tc (main_v21 : Ref sig .tc) : DevRef τ sig),
    (Proc.devRef .tc (main_v22 : Ref sig .tc) : DevRef τ sig),
    (Proc.devRef .tc (main_v23 : Ref sig .tc) : DevRef τ sig),
    (Proc.devRef .tc (main_v24 : Ref sig .tc) : DevRef τ sig),
    (Proc.devRef .tc (main_v25 : Ref sig .tc) : DevRef τ sig)]
def colRefs : Fin 26 → DevRef τ sig :=
  ![(Proc.devRef .tc (main_arg0 : Ref sig .tc) : DevRef τ sig),
    (Proc.devRef .tc (main_arg1 : Ref sig .tc) : DevRef τ sig),
    (Proc.devRef .tc (main_arg2 : Ref sig .tc) : DevRef τ sig),
    (Proc.devRef .tc (main_arg3 : Ref sig .tc) : DevRef τ sig),
    (Proc.devRef .tc (main_arg4 : Ref sig .tc) : DevRef τ sig),
    (Proc.devRef .tc (main_arg5 : Ref sig .tc) : DevRef τ sig),
    (Proc.devRef .tc (main_arg6 : Ref sig .tc) : DevRef τ sig),
    (Proc.devRef .tc (main_arg7 : Ref sig .tc) : DevRef τ sig),
    (Proc.devRef .tc (main_arg8 : Ref sig .tc) : DevRef τ sig),
    (Proc.devRef .tc (main_arg9 : Ref sig .tc) : DevRef τ sig),
    (Proc.devRef .tc (main_arg10 : Ref sig .tc) : DevRef τ sig),
    (Proc.devRef .tc (main_arg11 : Ref sig .tc) : DevRef τ sig),
    (Proc.devRef .tc (main_arg12 : Ref sig .tc) : DevRef τ sig),
    (Proc.devRef .tc (main_arg13 : Ref sig .tc) : DevRef τ sig),
    (Proc.devRef .tc (main_arg14 : Ref sig .tc) : DevRef τ sig),
    (Proc.devRef .tc (main_arg15 : Ref sig .tc) : DevRef τ sig),
    (Proc.devRef .tc (main_arg16 : Ref sig .tc) : DevRef τ sig),
    (Proc.devRef .tc (main_arg17 : Ref sig .tc) : DevRef τ sig),
    (Proc.devRef .tc (main_arg18 : Ref sig .tc) : DevRef τ sig),
    (Proc.devRef .tc (main_arg19 : Ref sig .tc) : DevRef τ sig),
    (Proc.devRef .tc (main_arg20 : Ref sig .tc) : DevRef τ sig),
    (Proc.devRef .tc (main_arg21 : Ref sig .tc) : DevRef τ sig),
    (Proc.devRef .tc (main_arg22 : Ref sig .tc) : DevRef τ sig),
    (Proc.devRef .tc (main_arg23 : Ref sig .tc) : DevRef τ sig),
    (Proc.devRef .tc (main_arg24 : Ref sig .tc) : DevRef τ sig),
    (Proc.devRef .tc (main_arg25 : Ref sig .tc) : DevRef τ sig)]
def tblRefs : Fin 26 → DevRef τ sig :=
  ![(Proc.devRef .tc (main_arg26 : Ref sig .tc) : DevRef τ sig),
    (Proc.devRef .tc (main_arg27 : Ref sig .tc) : DevRef τ sig),
    (Proc.devRef .tc (main_arg28 : Ref sig .tc) : DevRef τ sig),
    (Proc.devRef .tc (main_arg29 : Ref sig .tc) : DevRef τ sig),
    (Proc.devRef .tc (main_arg30 : Ref sig .tc) : DevRef τ sig),
    (Proc.devRef .tc (main_arg31 : Ref sig .tc) : DevRef τ sig),
    (Proc.devRef .tc (main_arg32 : Ref sig .tc) : DevRef τ sig),
    (Proc.devRef .tc (main_arg33 : Ref sig .tc) : DevRef τ sig),
    (Proc.devRef .tc (main_arg34 : Ref sig .tc) : DevRef τ sig),
    (Proc.devRef .tc (main_arg35 : Ref sig .tc) : DevRef τ sig),
    (Proc.devRef .tc (main_arg36 : Ref sig .tc) : DevRef τ sig),
    (Proc.devRef .tc (main_arg37 : Ref sig .tc) : DevRef τ sig),
    (Proc.devRef .tc (main_arg38 : Ref sig .tc) : DevRef τ sig),
    (Proc.devRef .tc (main_arg39 : Ref sig .tc) : DevRef τ sig),
    (Proc.devRef .tc (main_arg40 : Ref sig .tc) : DevRef τ sig),
    (Proc.devRef .tc (main_arg41 : Ref sig .tc) : DevRef τ sig),
    (Proc.devRef .tc (main_arg42 : Ref sig .tc) : DevRef τ sig),
    (Proc.devRef .tc (main_arg43 : Ref sig .tc) : DevRef τ sig),
    (Proc.devRef .tc (main_arg44 : Ref sig .tc) : DevRef τ sig),
    (Proc.devRef .tc (main_arg45 : Ref sig .tc) : DevRef τ sig),
    (Proc.devRef .tc (main_arg46 : Ref sig .tc) : DevRef τ sig),
    (Proc.devRef .tc (main_arg47 : Ref sig .tc) : DevRef τ sig),
    (Proc.devRef .tc (main_arg48 : Ref sig .tc) : DevRef τ sig),
    (Proc.devRef .tc (main_arg49 : Ref sig .tc) : DevRef τ sig),
    (Proc.devRef .tc (main_arg50 : Ref sig .tc) : DevRef τ sig),
    (Proc.devRef .tc (main_arg51 : Ref sig .tc) : DevRef τ sig)]

/-! ## The launch contents of the tables and of the columns -/

def tblVal0 (d : Dev nD) : S1000x128.Idx → Elt F .f32 := m ((SparseCore.T d).loc main_arg26)
def tblVal1 (d : Dev nD) : S1000x128.Idx → Elt F .f32 := m ((SparseCore.T d).loc main_arg27)
def tblVal2 (d : Dev nD) : S1000x128.Idx → Elt F .f32 := m ((SparseCore.T d).loc main_arg28)
def tblVal3 (d : Dev nD) : S1000x128.Idx → Elt F .f32 := m ((SparseCore.T d).loc main_arg29)
def tblVal4 (d : Dev nD) : S1000x128.Idx → Elt F .f32 := m ((SparseCore.T d).loc main_arg30)
def tblVal5 (d : Dev nD) : S1000x128.Idx → Elt F .f32 := m ((SparseCore.T d).loc main_arg31)
def tblVal6 (d : Dev nD) : S1000x128.Idx → Elt F .f32 := m ((SparseCore.T d).loc main_arg32)
def tblVal7 (d : Dev nD) : S1000x128.Idx → Elt F .f32 := m ((SparseCore.T d).loc main_arg33)
def tblVal8 (d : Dev nD) : S1000x128.Idx → Elt F .f32 := m ((SparseCore.T d).loc main_arg34)
def tblVal9 (d : Dev nD) : S1000x128.Idx → Elt F .f32 := m ((SparseCore.T d).loc main_arg35)
def tblVal10 (d : Dev nD) : S1000x128.Idx → Elt F .f32 := m ((SparseCore.T d).loc main_arg36)
def tblVal11 (d : Dev nD) : S1000x128.Idx → Elt F .f32 := m ((SparseCore.T d).loc main_arg37)
def tblVal12 (d : Dev nD) : S1000x128.Idx → Elt F .f32 := m ((SparseCore.T d).loc main_arg38)
def tblVal13 (d : Dev nD) : S1000x128.Idx → Elt F .f32 := m ((SparseCore.T d).loc main_arg39)
def tblVal14 (d : Dev nD) : S1000x128.Idx → Elt F .f32 := m ((SparseCore.T d).loc main_arg40)
def tblVal15 (d : Dev nD) : S1000x128.Idx → Elt F .f32 := m ((SparseCore.T d).loc main_arg41)
def tblVal16 (d : Dev nD) : S1000x128.Idx → Elt F .f32 := m ((SparseCore.T d).loc main_arg42)
def tblVal17 (d : Dev nD) : S1000x128.Idx → Elt F .f32 := m ((SparseCore.T d).loc main_arg43)
def tblVal18 (d : Dev nD) : S1000x128.Idx → Elt F .f32 := m ((SparseCore.T d).loc main_arg44)
def tblVal19 (d : Dev nD) : S1000x128.Idx → Elt F .f32 := m ((SparseCore.T d).loc main_arg45)
def tblVal20 (d : Dev nD) : S1000x128.Idx → Elt F .f32 := m ((SparseCore.T d).loc main_arg46)
def tblVal21 (d : Dev nD) : S1000x128.Idx → Elt F .f32 := m ((SparseCore.T d).loc main_arg47)
def tblVal22 (d : Dev nD) : S1000x128.Idx → Elt F .f32 := m ((SparseCore.T d).loc main_arg48)
def tblVal23 (d : Dev nD) : S1000x128.Idx → Elt F .f32 := m ((SparseCore.T d).loc main_arg49)
def tblVal24 (d : Dev nD) : S1000x128.Idx → Elt F .f32 := m ((SparseCore.T d).loc main_arg50)
def tblVal25 (d : Dev nD) : S1000x128.Idx → Elt F .f32 := m ((SparseCore.T d).loc main_arg51)
def colVal0 (d : Dev nD) : S16384.Idx → Elt F .i32 := m ((SparseCore.T d).loc main_arg0)
def colVal1 (d : Dev nD) : S16384.Idx → Elt F .i32 := m ((SparseCore.T d).loc main_arg1)
def colVal2 (d : Dev nD) : S16384.Idx → Elt F .i32 := m ((SparseCore.T d).loc main_arg2)
def colVal3 (d : Dev nD) : S16384.Idx → Elt F .i32 := m ((SparseCore.T d).loc main_arg3)
def colVal4 (d : Dev nD) : S16384.Idx → Elt F .i32 := m ((SparseCore.T d).loc main_arg4)
def colVal5 (d : Dev nD) : S16384.Idx → Elt F .i32 := m ((SparseCore.T d).loc main_arg5)
def colVal6 (d : Dev nD) : S16384.Idx → Elt F .i32 := m ((SparseCore.T d).loc main_arg6)
def colVal7 (d : Dev nD) : S16384.Idx → Elt F .i32 := m ((SparseCore.T d).loc main_arg7)
def colVal8 (d : Dev nD) : S16384.Idx → Elt F .i32 := m ((SparseCore.T d).loc main_arg8)
def colVal9 (d : Dev nD) : S16384.Idx → Elt F .i32 := m ((SparseCore.T d).loc main_arg9)
def colVal10 (d : Dev nD) : S16384.Idx → Elt F .i32 := m ((SparseCore.T d).loc main_arg10)
def colVal11 (d : Dev nD) : S16384.Idx → Elt F .i32 := m ((SparseCore.T d).loc main_arg11)
def colVal12 (d : Dev nD) : S16384.Idx → Elt F .i32 := m ((SparseCore.T d).loc main_arg12)
def colVal13 (d : Dev nD) : S16384.Idx → Elt F .i32 := m ((SparseCore.T d).loc main_arg13)
def colVal14 (d : Dev nD) : S16384.Idx → Elt F .i32 := m ((SparseCore.T d).loc main_arg14)
def colVal15 (d : Dev nD) : S16384.Idx → Elt F .i32 := m ((SparseCore.T d).loc main_arg15)
def colVal16 (d : Dev nD) : S16384.Idx → Elt F .i32 := m ((SparseCore.T d).loc main_arg16)
def colVal17 (d : Dev nD) : S16384.Idx → Elt F .i32 := m ((SparseCore.T d).loc main_arg17)
def colVal18 (d : Dev nD) : S16384.Idx → Elt F .i32 := m ((SparseCore.T d).loc main_arg18)
def colVal19 (d : Dev nD) : S16384.Idx → Elt F .i32 := m ((SparseCore.T d).loc main_arg19)
def colVal20 (d : Dev nD) : S16384.Idx → Elt F .i32 := m ((SparseCore.T d).loc main_arg20)
def colVal21 (d : Dev nD) : S16384.Idx → Elt F .i32 := m ((SparseCore.T d).loc main_arg21)
def colVal22 (d : Dev nD) : S16384.Idx → Elt F .i32 := m ((SparseCore.T d).loc main_arg22)
def colVal23 (d : Dev nD) : S16384.Idx → Elt F .i32 := m ((SparseCore.T d).loc main_arg23)
def colVal24 (d : Dev nD) : S16384.Idx → Elt F .i32 := m ((SparseCore.T d).loc main_arg24)
def colVal25 (d : Dev nD) : S16384.Idx → Elt F .i32 := m ((SparseCore.T d).loc main_arg25)
def tblVec (d : Dev nD) : Fin 26 → S1000x128.Idx → Elt F .f32 := ![tblVal0 m d, tblVal1 m d, tblVal2 m d, tblVal3 m d, tblVal4 m d, tblVal5 m d, tblVal6 m d, tblVal7 m d, tblVal8 m d, tblVal9 m d, tblVal10 m d, tblVal11 m d, tblVal12 m d, tblVal13 m d, tblVal14 m d, tblVal15 m d, tblVal16 m d, tblVal17 m d, tblVal18 m d, tblVal19 m d, tblVal20 m d, tblVal21 m d, tblVal22 m d, tblVal23 m d, tblVal24 m d, tblVal25 m d]
def colVec (d : Dev nD) : Fin 26 → S16384.Idx → Elt F .i32 := ![colVal0 m d, colVal1 m d, colVal2 m d, colVal3 m d, colVal4 m d, colVal5 m d, colVal6 m d, colVal7 m d, colVal8 m d, colVal9 m d, colVal10 m d, colVal11 m d, colVal12 m d, colVal13 m d, colVal14 m d, colVal15 m d, colVal16 m d, colVal17 m d, colVal18 m d, colVal19 m d, colVal20 m d, colVal21 m d, colVal22 m d, colVal23 m d, colVal24 m d, colVal25 m d]

/-! ## Reshaped column t on the elements I, at its contents after the reshapes; table t whole at share q, at its launch contents -/

def colAt0 (d : Dev nD) (I : Finset S128x128.Idx) : sProp 𝕄 := (SparseCore.T d).loc main_v0 ↦[I]{fullShare} V1 m d (Proc.devRef .tc (main_v0 : Ref sig .tc))
def colAt1 (d : Dev nD) (I : Finset S128x128.Idx) : sProp 𝕄 := (SparseCore.T d).loc main_v1 ↦[I]{fullShare} V1 m d (Proc.devRef .tc (main_v1 : Ref sig .tc))
def colAt2 (d : Dev nD) (I : Finset S128x128.Idx) : sProp 𝕄 := (SparseCore.T d).loc main_v2 ↦[I]{fullShare} V1 m d (Proc.devRef .tc (main_v2 : Ref sig .tc))
def colAt3 (d : Dev nD) (I : Finset S128x128.Idx) : sProp 𝕄 := (SparseCore.T d).loc main_v3 ↦[I]{fullShare} V1 m d (Proc.devRef .tc (main_v3 : Ref sig .tc))
def colAt4 (d : Dev nD) (I : Finset S128x128.Idx) : sProp 𝕄 := (SparseCore.T d).loc main_v4 ↦[I]{fullShare} V1 m d (Proc.devRef .tc (main_v4 : Ref sig .tc))
def colAt5 (d : Dev nD) (I : Finset S128x128.Idx) : sProp 𝕄 := (SparseCore.T d).loc main_v5 ↦[I]{fullShare} V1 m d (Proc.devRef .tc (main_v5 : Ref sig .tc))
def colAt6 (d : Dev nD) (I : Finset S128x128.Idx) : sProp 𝕄 := (SparseCore.T d).loc main_v6 ↦[I]{fullShare} V1 m d (Proc.devRef .tc (main_v6 : Ref sig .tc))
def colAt7 (d : Dev nD) (I : Finset S128x128.Idx) : sProp 𝕄 := (SparseCore.T d).loc main_v7 ↦[I]{fullShare} V1 m d (Proc.devRef .tc (main_v7 : Ref sig .tc))
def colAt8 (d : Dev nD) (I : Finset S128x128.Idx) : sProp 𝕄 := (SparseCore.T d).loc main_v8 ↦[I]{fullShare} V1 m d (Proc.devRef .tc (main_v8 : Ref sig .tc))
def colAt9 (d : Dev nD) (I : Finset S128x128.Idx) : sProp 𝕄 := (SparseCore.T d).loc main_v9 ↦[I]{fullShare} V1 m d (Proc.devRef .tc (main_v9 : Ref sig .tc))
def colAt10 (d : Dev nD) (I : Finset S128x128.Idx) : sProp 𝕄 := (SparseCore.T d).loc main_v10 ↦[I]{fullShare} V1 m d (Proc.devRef .tc (main_v10 : Ref sig .tc))
def colAt11 (d : Dev nD) (I : Finset S128x128.Idx) : sProp 𝕄 := (SparseCore.T d).loc main_v11 ↦[I]{fullShare} V1 m d (Proc.devRef .tc (main_v11 : Ref sig .tc))
def colAt12 (d : Dev nD) (I : Finset S128x128.Idx) : sProp 𝕄 := (SparseCore.T d).loc main_v12 ↦[I]{fullShare} V1 m d (Proc.devRef .tc (main_v12 : Ref sig .tc))
def colAt13 (d : Dev nD) (I : Finset S128x128.Idx) : sProp 𝕄 := (SparseCore.T d).loc main_v13 ↦[I]{fullShare} V1 m d (Proc.devRef .tc (main_v13 : Ref sig .tc))
def colAt14 (d : Dev nD) (I : Finset S128x128.Idx) : sProp 𝕄 := (SparseCore.T d).loc main_v14 ↦[I]{fullShare} V1 m d (Proc.devRef .tc (main_v14 : Ref sig .tc))
def colAt15 (d : Dev nD) (I : Finset S128x128.Idx) : sProp 𝕄 := (SparseCore.T d).loc main_v15 ↦[I]{fullShare} V1 m d (Proc.devRef .tc (main_v15 : Ref sig .tc))
def colAt16 (d : Dev nD) (I : Finset S128x128.Idx) : sProp 𝕄 := (SparseCore.T d).loc main_v16 ↦[I]{fullShare} V1 m d (Proc.devRef .tc (main_v16 : Ref sig .tc))
def colAt17 (d : Dev nD) (I : Finset S128x128.Idx) : sProp 𝕄 := (SparseCore.T d).loc main_v17 ↦[I]{fullShare} V1 m d (Proc.devRef .tc (main_v17 : Ref sig .tc))
def colAt18 (d : Dev nD) (I : Finset S128x128.Idx) : sProp 𝕄 := (SparseCore.T d).loc main_v18 ↦[I]{fullShare} V1 m d (Proc.devRef .tc (main_v18 : Ref sig .tc))
def colAt19 (d : Dev nD) (I : Finset S128x128.Idx) : sProp 𝕄 := (SparseCore.T d).loc main_v19 ↦[I]{fullShare} V1 m d (Proc.devRef .tc (main_v19 : Ref sig .tc))
def colAt20 (d : Dev nD) (I : Finset S128x128.Idx) : sProp 𝕄 := (SparseCore.T d).loc main_v20 ↦[I]{fullShare} V1 m d (Proc.devRef .tc (main_v20 : Ref sig .tc))
def colAt21 (d : Dev nD) (I : Finset S128x128.Idx) : sProp 𝕄 := (SparseCore.T d).loc main_v21 ↦[I]{fullShare} V1 m d (Proc.devRef .tc (main_v21 : Ref sig .tc))
def colAt22 (d : Dev nD) (I : Finset S128x128.Idx) : sProp 𝕄 := (SparseCore.T d).loc main_v22 ↦[I]{fullShare} V1 m d (Proc.devRef .tc (main_v22 : Ref sig .tc))
def colAt23 (d : Dev nD) (I : Finset S128x128.Idx) : sProp 𝕄 := (SparseCore.T d).loc main_v23 ↦[I]{fullShare} V1 m d (Proc.devRef .tc (main_v23 : Ref sig .tc))
def colAt24 (d : Dev nD) (I : Finset S128x128.Idx) : sProp 𝕄 := (SparseCore.T d).loc main_v24 ↦[I]{fullShare} V1 m d (Proc.devRef .tc (main_v24 : Ref sig .tc))
def colAt25 (d : Dev nD) (I : Finset S128x128.Idx) : sProp 𝕄 := (SparseCore.T d).loc main_v25 ↦[I]{fullShare} V1 m d (Proc.devRef .tc (main_v25 : Ref sig .tc))
def colAt (d : Dev nD) (I : Finset S128x128.Idx) : Fin 26 → sProp 𝕄 := ![colAt0 m d I, colAt1 m d I, colAt2 m d I, colAt3 m d I, colAt4 m d I, colAt5 m d I, colAt6 m d I, colAt7 m d I, colAt8 m d I, colAt9 m d I, colAt10 m d I, colAt11 m d I, colAt12 m d I, colAt13 m d I, colAt14 m d I, colAt15 m d I, colAt16 m d I, colAt17 m d I, colAt18 m d I, colAt19 m d I, colAt20 m d I, colAt21 m d I, colAt22 m d I, colAt23 m d I, colAt24 m d I, colAt25 m d I]
def tblAt0 (d : Dev nD) (q : PosShare TreeShare) : sProp 𝕄 := (SparseCore.T d).loc main_arg26 ↦{q} m ((SparseCore.T d).loc main_arg26)
def tblAt1 (d : Dev nD) (q : PosShare TreeShare) : sProp 𝕄 := (SparseCore.T d).loc main_arg27 ↦{q} m ((SparseCore.T d).loc main_arg27)
def tblAt2 (d : Dev nD) (q : PosShare TreeShare) : sProp 𝕄 := (SparseCore.T d).loc main_arg28 ↦{q} m ((SparseCore.T d).loc main_arg28)
def tblAt3 (d : Dev nD) (q : PosShare TreeShare) : sProp 𝕄 := (SparseCore.T d).loc main_arg29 ↦{q} m ((SparseCore.T d).loc main_arg29)
def tblAt4 (d : Dev nD) (q : PosShare TreeShare) : sProp 𝕄 := (SparseCore.T d).loc main_arg30 ↦{q} m ((SparseCore.T d).loc main_arg30)
def tblAt5 (d : Dev nD) (q : PosShare TreeShare) : sProp 𝕄 := (SparseCore.T d).loc main_arg31 ↦{q} m ((SparseCore.T d).loc main_arg31)
def tblAt6 (d : Dev nD) (q : PosShare TreeShare) : sProp 𝕄 := (SparseCore.T d).loc main_arg32 ↦{q} m ((SparseCore.T d).loc main_arg32)
def tblAt7 (d : Dev nD) (q : PosShare TreeShare) : sProp 𝕄 := (SparseCore.T d).loc main_arg33 ↦{q} m ((SparseCore.T d).loc main_arg33)
def tblAt8 (d : Dev nD) (q : PosShare TreeShare) : sProp 𝕄 := (SparseCore.T d).loc main_arg34 ↦{q} m ((SparseCore.T d).loc main_arg34)
def tblAt9 (d : Dev nD) (q : PosShare TreeShare) : sProp 𝕄 := (SparseCore.T d).loc main_arg35 ↦{q} m ((SparseCore.T d).loc main_arg35)
def tblAt10 (d : Dev nD) (q : PosShare TreeShare) : sProp 𝕄 := (SparseCore.T d).loc main_arg36 ↦{q} m ((SparseCore.T d).loc main_arg36)
def tblAt11 (d : Dev nD) (q : PosShare TreeShare) : sProp 𝕄 := (SparseCore.T d).loc main_arg37 ↦{q} m ((SparseCore.T d).loc main_arg37)
def tblAt12 (d : Dev nD) (q : PosShare TreeShare) : sProp 𝕄 := (SparseCore.T d).loc main_arg38 ↦{q} m ((SparseCore.T d).loc main_arg38)
def tblAt13 (d : Dev nD) (q : PosShare TreeShare) : sProp 𝕄 := (SparseCore.T d).loc main_arg39 ↦{q} m ((SparseCore.T d).loc main_arg39)
def tblAt14 (d : Dev nD) (q : PosShare TreeShare) : sProp 𝕄 := (SparseCore.T d).loc main_arg40 ↦{q} m ((SparseCore.T d).loc main_arg40)
def tblAt15 (d : Dev nD) (q : PosShare TreeShare) : sProp 𝕄 := (SparseCore.T d).loc main_arg41 ↦{q} m ((SparseCore.T d).loc main_arg41)
def tblAt16 (d : Dev nD) (q : PosShare TreeShare) : sProp 𝕄 := (SparseCore.T d).loc main_arg42 ↦{q} m ((SparseCore.T d).loc main_arg42)
def tblAt17 (d : Dev nD) (q : PosShare TreeShare) : sProp 𝕄 := (SparseCore.T d).loc main_arg43 ↦{q} m ((SparseCore.T d).loc main_arg43)
def tblAt18 (d : Dev nD) (q : PosShare TreeShare) : sProp 𝕄 := (SparseCore.T d).loc main_arg44 ↦{q} m ((SparseCore.T d).loc main_arg44)
def tblAt19 (d : Dev nD) (q : PosShare TreeShare) : sProp 𝕄 := (SparseCore.T d).loc main_arg45 ↦{q} m ((SparseCore.T d).loc main_arg45)
def tblAt20 (d : Dev nD) (q : PosShare TreeShare) : sProp 𝕄 := (SparseCore.T d).loc main_arg46 ↦{q} m ((SparseCore.T d).loc main_arg46)
def tblAt21 (d : Dev nD) (q : PosShare TreeShare) : sProp 𝕄 := (SparseCore.T d).loc main_arg47 ↦{q} m ((SparseCore.T d).loc main_arg47)
def tblAt22 (d : Dev nD) (q : PosShare TreeShare) : sProp 𝕄 := (SparseCore.T d).loc main_arg48 ↦{q} m ((SparseCore.T d).loc main_arg48)
def tblAt23 (d : Dev nD) (q : PosShare TreeShare) : sProp 𝕄 := (SparseCore.T d).loc main_arg49 ↦{q} m ((SparseCore.T d).loc main_arg49)
def tblAt24 (d : Dev nD) (q : PosShare TreeShare) : sProp 𝕄 := (SparseCore.T d).loc main_arg50 ↦{q} m ((SparseCore.T d).loc main_arg50)
def tblAt25 (d : Dev nD) (q : PosShare TreeShare) : sProp 𝕄 := (SparseCore.T d).loc main_arg51 ↦{q} m ((SparseCore.T d).loc main_arg51)
def tblAt (d : Dev nD) (q : PosShare TreeShare) : Fin 26 → sProp 𝕄 := ![tblAt0 m d q, tblAt1 m d q, tblAt2 m d q, tblAt3 m d q, tblAt4 m d q, tblAt5 m d q, tblAt6 m d q, tblAt7 m d q, tblAt8 m d q, tblAt9 m d q, tblAt10 m d q, tblAt11 m d q, tblAt12 m d q, tblAt13 m d q, tblAt14 m d q, tblAt15 m d q, tblAt16 m d q, tblAt17 m d q, tblAt18 m d q, tblAt19 m d q, tblAt20 m d q, tblAt21 m d q, tblAt22 m d q, tblAt23 m d q, tblAt24 m d q, tblAt25 m d q]

/-! ## The same as tile L of device d names them: the kernel's own slice of reshaped column t, and table t whole -/

abbrev cSl0 (L : grid0.Coords) : Memref sig .scVector .hbm S4x128 .i32 := (Memref.whole main_v0_scv : Memref sig .scVector .hbm S128x128 .i32).slice (Rect.unit (s := S128x128) (k0_off1 L) S4x128.size (k0_off1_inb L)) (fun _ => rfl)
abbrev cSl1 (L : grid0.Coords) : Memref sig .scVector .hbm S4x128 .i32 := (Memref.whole main_v1_scv : Memref sig .scVector .hbm S128x128 .i32).slice (Rect.unit (s := S128x128) (k0_off1 L) S4x128.size (k0_off1_inb L)) (fun _ => rfl)
abbrev cSl2 (L : grid0.Coords) : Memref sig .scVector .hbm S4x128 .i32 := (Memref.whole main_v2_scv : Memref sig .scVector .hbm S128x128 .i32).slice (Rect.unit (s := S128x128) (k0_off1 L) S4x128.size (k0_off1_inb L)) (fun _ => rfl)
abbrev cSl3 (L : grid0.Coords) : Memref sig .scVector .hbm S4x128 .i32 := (Memref.whole main_v3_scv : Memref sig .scVector .hbm S128x128 .i32).slice (Rect.unit (s := S128x128) (k0_off1 L) S4x128.size (k0_off1_inb L)) (fun _ => rfl)
abbrev cSl4 (L : grid0.Coords) : Memref sig .scVector .hbm S4x128 .i32 := (Memref.whole main_v4_scv : Memref sig .scVector .hbm S128x128 .i32).slice (Rect.unit (s := S128x128) (k0_off1 L) S4x128.size (k0_off1_inb L)) (fun _ => rfl)
abbrev cSl5 (L : grid0.Coords) : Memref sig .scVector .hbm S4x128 .i32 := (Memref.whole main_v5_scv : Memref sig .scVector .hbm S128x128 .i32).slice (Rect.unit (s := S128x128) (k0_off1 L) S4x128.size (k0_off1_inb L)) (fun _ => rfl)
abbrev cSl6 (L : grid0.Coords) : Memref sig .scVector .hbm S4x128 .i32 := (Memref.whole main_v6_scv : Memref sig .scVector .hbm S128x128 .i32).slice (Rect.unit (s := S128x128) (k0_off1 L) S4x128.size (k0_off1_inb L)) (fun _ => rfl)
abbrev cSl7 (L : grid0.Coords) : Memref sig .scVector .hbm S4x128 .i32 := (Memref.whole main_v7_scv : Memref sig .scVector .hbm S128x128 .i32).slice (Rect.unit (s := S128x128) (k0_off1 L) S4x128.size (k0_off1_inb L)) (fun _ => rfl)
abbrev cSl8 (L : grid0.Coords) : Memref sig .scVector .hbm S4x128 .i32 := (Memref.whole main_v8_scv : Memref sig .scVector .hbm S128x128 .i32).slice (Rect.unit (s := S128x128) (k0_off1 L) S4x128.size (k0_off1_inb L)) (fun _ => rfl)
abbrev cSl9 (L : grid0.Coords) : Memref sig .scVector .hbm S4x128 .i32 := (Memref.whole main_v9_scv : Memref sig .scVector .hbm S128x128 .i32).slice (Rect.unit (s := S128x128) (k0_off1 L) S4x128.size (k0_off1_inb L)) (fun _ => rfl)
abbrev cSl10 (L : grid0.Coords) : Memref sig .scVector .hbm S4x128 .i32 := (Memref.whole main_v10_scv : Memref sig .scVector .hbm S128x128 .i32).slice (Rect.unit (s := S128x128) (k0_off1 L) S4x128.size (k0_off1_inb L)) (fun _ => rfl)
abbrev cSl11 (L : grid0.Coords) : Memref sig .scVector .hbm S4x128 .i32 := (Memref.whole main_v11_scv : Memref sig .scVector .hbm S128x128 .i32).slice (Rect.unit (s := S128x128) (k0_off1 L) S4x128.size (k0_off1_inb L)) (fun _ => rfl)
abbrev cSl12 (L : grid0.Coords) : Memref sig .scVector .hbm S4x128 .i32 := (Memref.whole main_v12_scv : Memref sig .scVector .hbm S128x128 .i32).slice (Rect.unit (s := S128x128) (k0_off1 L) S4x128.size (k0_off1_inb L)) (fun _ => rfl)
abbrev cSl13 (L : grid0.Coords) : Memref sig .scVector .hbm S4x128 .i32 := (Memref.whole main_v13_scv : Memref sig .scVector .hbm S128x128 .i32).slice (Rect.unit (s := S128x128) (k0_off1 L) S4x128.size (k0_off1_inb L)) (fun _ => rfl)
abbrev cSl14 (L : grid0.Coords) : Memref sig .scVector .hbm S4x128 .i32 := (Memref.whole main_v14_scv : Memref sig .scVector .hbm S128x128 .i32).slice (Rect.unit (s := S128x128) (k0_off1 L) S4x128.size (k0_off1_inb L)) (fun _ => rfl)
abbrev cSl15 (L : grid0.Coords) : Memref sig .scVector .hbm S4x128 .i32 := (Memref.whole main_v15_scv : Memref sig .scVector .hbm S128x128 .i32).slice (Rect.unit (s := S128x128) (k0_off1 L) S4x128.size (k0_off1_inb L)) (fun _ => rfl)
abbrev cSl16 (L : grid0.Coords) : Memref sig .scVector .hbm S4x128 .i32 := (Memref.whole main_v16_scv : Memref sig .scVector .hbm S128x128 .i32).slice (Rect.unit (s := S128x128) (k0_off1 L) S4x128.size (k0_off1_inb L)) (fun _ => rfl)
abbrev cSl17 (L : grid0.Coords) : Memref sig .scVector .hbm S4x128 .i32 := (Memref.whole main_v17_scv : Memref sig .scVector .hbm S128x128 .i32).slice (Rect.unit (s := S128x128) (k0_off1 L) S4x128.size (k0_off1_inb L)) (fun _ => rfl)
abbrev cSl18 (L : grid0.Coords) : Memref sig .scVector .hbm S4x128 .i32 := (Memref.whole main_v18_scv : Memref sig .scVector .hbm S128x128 .i32).slice (Rect.unit (s := S128x128) (k0_off1 L) S4x128.size (k0_off1_inb L)) (fun _ => rfl)
abbrev cSl19 (L : grid0.Coords) : Memref sig .scVector .hbm S4x128 .i32 := (Memref.whole main_v19_scv : Memref sig .scVector .hbm S128x128 .i32).slice (Rect.unit (s := S128x128) (k0_off1 L) S4x128.size (k0_off1_inb L)) (fun _ => rfl)
abbrev cSl20 (L : grid0.Coords) : Memref sig .scVector .hbm S4x128 .i32 := (Memref.whole main_v20_scv : Memref sig .scVector .hbm S128x128 .i32).slice (Rect.unit (s := S128x128) (k0_off1 L) S4x128.size (k0_off1_inb L)) (fun _ => rfl)
abbrev cSl21 (L : grid0.Coords) : Memref sig .scVector .hbm S4x128 .i32 := (Memref.whole main_v21_scv : Memref sig .scVector .hbm S128x128 .i32).slice (Rect.unit (s := S128x128) (k0_off1 L) S4x128.size (k0_off1_inb L)) (fun _ => rfl)
abbrev cSl22 (L : grid0.Coords) : Memref sig .scVector .hbm S4x128 .i32 := (Memref.whole main_v22_scv : Memref sig .scVector .hbm S128x128 .i32).slice (Rect.unit (s := S128x128) (k0_off1 L) S4x128.size (k0_off1_inb L)) (fun _ => rfl)
abbrev cSl23 (L : grid0.Coords) : Memref sig .scVector .hbm S4x128 .i32 := (Memref.whole main_v23_scv : Memref sig .scVector .hbm S128x128 .i32).slice (Rect.unit (s := S128x128) (k0_off1 L) S4x128.size (k0_off1_inb L)) (fun _ => rfl)
abbrev cSl24 (L : grid0.Coords) : Memref sig .scVector .hbm S4x128 .i32 := (Memref.whole main_v24_scv : Memref sig .scVector .hbm S128x128 .i32).slice (Rect.unit (s := S128x128) (k0_off1 L) S4x128.size (k0_off1_inb L)) (fun _ => rfl)
abbrev cSl25 (L : grid0.Coords) : Memref sig .scVector .hbm S4x128 .i32 := (Memref.whole main_v25_scv : Memref sig .scVector .hbm S128x128 .i32).slice (Rect.unit (s := S128x128) (k0_off1 L) S4x128.size (k0_off1_inb L)) (fun _ => rfl)
theorem set_cSl0 (L : grid0.Coords) : (cSl0 L).view.set = (colRectL L).set := View.set_slice_whole _ _
theorem set_cSl1 (L : grid0.Coords) : (cSl1 L).view.set = (colRectL L).set := View.set_slice_whole _ _
theorem set_cSl2 (L : grid0.Coords) : (cSl2 L).view.set = (colRectL L).set := View.set_slice_whole _ _
theorem set_cSl3 (L : grid0.Coords) : (cSl3 L).view.set = (colRectL L).set := View.set_slice_whole _ _
theorem set_cSl4 (L : grid0.Coords) : (cSl4 L).view.set = (colRectL L).set := View.set_slice_whole _ _
theorem set_cSl5 (L : grid0.Coords) : (cSl5 L).view.set = (colRectL L).set := View.set_slice_whole _ _
theorem set_cSl6 (L : grid0.Coords) : (cSl6 L).view.set = (colRectL L).set := View.set_slice_whole _ _
theorem set_cSl7 (L : grid0.Coords) : (cSl7 L).view.set = (colRectL L).set := View.set_slice_whole _ _
theorem set_cSl8 (L : grid0.Coords) : (cSl8 L).view.set = (colRectL L).set := View.set_slice_whole _ _
theorem set_cSl9 (L : grid0.Coords) : (cSl9 L).view.set = (colRectL L).set := View.set_slice_whole _ _
theorem set_cSl10 (L : grid0.Coords) : (cSl10 L).view.set = (colRectL L).set := View.set_slice_whole _ _
theorem set_cSl11 (L : grid0.Coords) : (cSl11 L).view.set = (colRectL L).set := View.set_slice_whole _ _
theorem set_cSl12 (L : grid0.Coords) : (cSl12 L).view.set = (colRectL L).set := View.set_slice_whole _ _
theorem set_cSl13 (L : grid0.Coords) : (cSl13 L).view.set = (colRectL L).set := View.set_slice_whole _ _
theorem set_cSl14 (L : grid0.Coords) : (cSl14 L).view.set = (colRectL L).set := View.set_slice_whole _ _
theorem set_cSl15 (L : grid0.Coords) : (cSl15 L).view.set = (colRectL L).set := View.set_slice_whole _ _
theorem set_cSl16 (L : grid0.Coords) : (cSl16 L).view.set = (colRectL L).set := View.set_slice_whole _ _
theorem set_cSl17 (L : grid0.Coords) : (cSl17 L).view.set = (colRectL L).set := View.set_slice_whole _ _
theorem set_cSl18 (L : grid0.Coords) : (cSl18 L).view.set = (colRectL L).set := View.set_slice_whole _ _
theorem set_cSl19 (L : grid0.Coords) : (cSl19 L).view.set = (colRectL L).set := View.set_slice_whole _ _
theorem set_cSl20 (L : grid0.Coords) : (cSl20 L).view.set = (colRectL L).set := View.set_slice_whole _ _
theorem set_cSl21 (L : grid0.Coords) : (cSl21 L).view.set = (colRectL L).set := View.set_slice_whole _ _
theorem set_cSl22 (L : grid0.Coords) : (cSl22 L).view.set = (colRectL L).set := View.set_slice_whole _ _
theorem set_cSl23 (L : grid0.Coords) : (cSl23 L).view.set = (colRectL L).set := View.set_slice_whole _ _
theorem set_cSl24 (L : grid0.Coords) : (cSl24 L).view.set = (colRectL L).set := View.set_slice_whole _ _
theorem set_cSl25 (L : grid0.Coords) : (cSl25 L).view.set = (colRectL L).set := View.set_slice_whole _ _
def colPcL0 (d : Dev nD) (L : grid0.Coords) : sProp 𝕄 := (cSl0 L).view.loc (V d (cVL L) (jVL L)) ↦[(cSl0 L).view.set]{fullShare} V1 m d (Proc.devRef .tc (main_v0 : Ref sig .tc))
def colPcL1 (d : Dev nD) (L : grid0.Coords) : sProp 𝕄 := (cSl1 L).view.loc (V d (cVL L) (jVL L)) ↦[(cSl1 L).view.set]{fullShare} V1 m d (Proc.devRef .tc (main_v1 : Ref sig .tc))
def colPcL2 (d : Dev nD) (L : grid0.Coords) : sProp 𝕄 := (cSl2 L).view.loc (V d (cVL L) (jVL L)) ↦[(cSl2 L).view.set]{fullShare} V1 m d (Proc.devRef .tc (main_v2 : Ref sig .tc))
def colPcL3 (d : Dev nD) (L : grid0.Coords) : sProp 𝕄 := (cSl3 L).view.loc (V d (cVL L) (jVL L)) ↦[(cSl3 L).view.set]{fullShare} V1 m d (Proc.devRef .tc (main_v3 : Ref sig .tc))
def colPcL4 (d : Dev nD) (L : grid0.Coords) : sProp 𝕄 := (cSl4 L).view.loc (V d (cVL L) (jVL L)) ↦[(cSl4 L).view.set]{fullShare} V1 m d (Proc.devRef .tc (main_v4 : Ref sig .tc))
def colPcL5 (d : Dev nD) (L : grid0.Coords) : sProp 𝕄 := (cSl5 L).view.loc (V d (cVL L) (jVL L)) ↦[(cSl5 L).view.set]{fullShare} V1 m d (Proc.devRef .tc (main_v5 : Ref sig .tc))
def colPcL6 (d : Dev nD) (L : grid0.Coords) : sProp 𝕄 := (cSl6 L).view.loc (V d (cVL L) (jVL L)) ↦[(cSl6 L).view.set]{fullShare} V1 m d (Proc.devRef .tc (main_v6 : Ref sig .tc))
def colPcL7 (d : Dev nD) (L : grid0.Coords) : sProp 𝕄 := (cSl7 L).view.loc (V d (cVL L) (jVL L)) ↦[(cSl7 L).view.set]{fullShare} V1 m d (Proc.devRef .tc (main_v7 : Ref sig .tc))
def colPcL8 (d : Dev nD) (L : grid0.Coords) : sProp 𝕄 := (cSl8 L).view.loc (V d (cVL L) (jVL L)) ↦[(cSl8 L).view.set]{fullShare} V1 m d (Proc.devRef .tc (main_v8 : Ref sig .tc))
def colPcL9 (d : Dev nD) (L : grid0.Coords) : sProp 𝕄 := (cSl9 L).view.loc (V d (cVL L) (jVL L)) ↦[(cSl9 L).view.set]{fullShare} V1 m d (Proc.devRef .tc (main_v9 : Ref sig .tc))
def colPcL10 (d : Dev nD) (L : grid0.Coords) : sProp 𝕄 := (cSl10 L).view.loc (V d (cVL L) (jVL L)) ↦[(cSl10 L).view.set]{fullShare} V1 m d (Proc.devRef .tc (main_v10 : Ref sig .tc))
def colPcL11 (d : Dev nD) (L : grid0.Coords) : sProp 𝕄 := (cSl11 L).view.loc (V d (cVL L) (jVL L)) ↦[(cSl11 L).view.set]{fullShare} V1 m d (Proc.devRef .tc (main_v11 : Ref sig .tc))
def colPcL12 (d : Dev nD) (L : grid0.Coords) : sProp 𝕄 := (cSl12 L).view.loc (V d (cVL L) (jVL L)) ↦[(cSl12 L).view.set]{fullShare} V1 m d (Proc.devRef .tc (main_v12 : Ref sig .tc))
def colPcL13 (d : Dev nD) (L : grid0.Coords) : sProp 𝕄 := (cSl13 L).view.loc (V d (cVL L) (jVL L)) ↦[(cSl13 L).view.set]{fullShare} V1 m d (Proc.devRef .tc (main_v13 : Ref sig .tc))
def colPcL14 (d : Dev nD) (L : grid0.Coords) : sProp 𝕄 := (cSl14 L).view.loc (V d (cVL L) (jVL L)) ↦[(cSl14 L).view.set]{fullShare} V1 m d (Proc.devRef .tc (main_v14 : Ref sig .tc))
def colPcL15 (d : Dev nD) (L : grid0.Coords) : sProp 𝕄 := (cSl15 L).view.loc (V d (cVL L) (jVL L)) ↦[(cSl15 L).view.set]{fullShare} V1 m d (Proc.devRef .tc (main_v15 : Ref sig .tc))
def colPcL16 (d : Dev nD) (L : grid0.Coords) : sProp 𝕄 := (cSl16 L).view.loc (V d (cVL L) (jVL L)) ↦[(cSl16 L).view.set]{fullShare} V1 m d (Proc.devRef .tc (main_v16 : Ref sig .tc))
def colPcL17 (d : Dev nD) (L : grid0.Coords) : sProp 𝕄 := (cSl17 L).view.loc (V d (cVL L) (jVL L)) ↦[(cSl17 L).view.set]{fullShare} V1 m d (Proc.devRef .tc (main_v17 : Ref sig .tc))
def colPcL18 (d : Dev nD) (L : grid0.Coords) : sProp 𝕄 := (cSl18 L).view.loc (V d (cVL L) (jVL L)) ↦[(cSl18 L).view.set]{fullShare} V1 m d (Proc.devRef .tc (main_v18 : Ref sig .tc))
def colPcL19 (d : Dev nD) (L : grid0.Coords) : sProp 𝕄 := (cSl19 L).view.loc (V d (cVL L) (jVL L)) ↦[(cSl19 L).view.set]{fullShare} V1 m d (Proc.devRef .tc (main_v19 : Ref sig .tc))
def colPcL20 (d : Dev nD) (L : grid0.Coords) : sProp 𝕄 := (cSl20 L).view.loc (V d (cVL L) (jVL L)) ↦[(cSl20 L).view.set]{fullShare} V1 m d (Proc.devRef .tc (main_v20 : Ref sig .tc))
def colPcL21 (d : Dev nD) (L : grid0.Coords) : sProp 𝕄 := (cSl21 L).view.loc (V d (cVL L) (jVL L)) ↦[(cSl21 L).view.set]{fullShare} V1 m d (Proc.devRef .tc (main_v21 : Ref sig .tc))
def colPcL22 (d : Dev nD) (L : grid0.Coords) : sProp 𝕄 := (cSl22 L).view.loc (V d (cVL L) (jVL L)) ↦[(cSl22 L).view.set]{fullShare} V1 m d (Proc.devRef .tc (main_v22 : Ref sig .tc))
def colPcL23 (d : Dev nD) (L : grid0.Coords) : sProp 𝕄 := (cSl23 L).view.loc (V d (cVL L) (jVL L)) ↦[(cSl23 L).view.set]{fullShare} V1 m d (Proc.devRef .tc (main_v23 : Ref sig .tc))
def colPcL24 (d : Dev nD) (L : grid0.Coords) : sProp 𝕄 := (cSl24 L).view.loc (V d (cVL L) (jVL L)) ↦[(cSl24 L).view.set]{fullShare} V1 m d (Proc.devRef .tc (main_v24 : Ref sig .tc))
def colPcL25 (d : Dev nD) (L : grid0.Coords) : sProp 𝕄 := (cSl25 L).view.loc (V d (cVL L) (jVL L)) ↦[(cSl25 L).view.set]{fullShare} V1 m d (Proc.devRef .tc (main_v25 : Ref sig .tc))
def colPcL (d : Dev nD) (L : grid0.Coords) : Fin 26 → sProp 𝕄 := ![colPcL0 m d L, colPcL1 m d L, colPcL2 m d L, colPcL3 m d L, colPcL4 m d L, colPcL5 m d L, colPcL6 m d L, colPcL7 m d L, colPcL8 m d L, colPcL9 m d L, colPcL10 m d L, colPcL11 m d L, colPcL12 m d L, colPcL13 m d L, colPcL14 m d L, colPcL15 m d L, colPcL16 m d L, colPcL17 m d L, colPcL18 m d L, colPcL19 m d L, colPcL20 m d L, colPcL21 m d L, colPcL22 m d L, colPcL23 m d L, colPcL24 m d L, colPcL25 m d L]
theorem colPcL0_eq (d : Dev nD) (L : grid0.Coords) : colPcL0 m d L = colAt0 m d (colRectL L).set := by unfold colPcL0 colAt0; rw [set_cSl0]
theorem colPcL1_eq (d : Dev nD) (L : grid0.Coords) : colPcL1 m d L = colAt1 m d (colRectL L).set := by unfold colPcL1 colAt1; rw [set_cSl1]
theorem colPcL2_eq (d : Dev nD) (L : grid0.Coords) : colPcL2 m d L = colAt2 m d (colRectL L).set := by unfold colPcL2 colAt2; rw [set_cSl2]
theorem colPcL3_eq (d : Dev nD) (L : grid0.Coords) : colPcL3 m d L = colAt3 m d (colRectL L).set := by unfold colPcL3 colAt3; rw [set_cSl3]
theorem colPcL4_eq (d : Dev nD) (L : grid0.Coords) : colPcL4 m d L = colAt4 m d (colRectL L).set := by unfold colPcL4 colAt4; rw [set_cSl4]
theorem colPcL5_eq (d : Dev nD) (L : grid0.Coords) : colPcL5 m d L = colAt5 m d (colRectL L).set := by unfold colPcL5 colAt5; rw [set_cSl5]
theorem colPcL6_eq (d : Dev nD) (L : grid0.Coords) : colPcL6 m d L = colAt6 m d (colRectL L).set := by unfold colPcL6 colAt6; rw [set_cSl6]
theorem colPcL7_eq (d : Dev nD) (L : grid0.Coords) : colPcL7 m d L = colAt7 m d (colRectL L).set := by unfold colPcL7 colAt7; rw [set_cSl7]
theorem colPcL8_eq (d : Dev nD) (L : grid0.Coords) : colPcL8 m d L = colAt8 m d (colRectL L).set := by unfold colPcL8 colAt8; rw [set_cSl8]
theorem colPcL9_eq (d : Dev nD) (L : grid0.Coords) : colPcL9 m d L = colAt9 m d (colRectL L).set := by unfold colPcL9 colAt9; rw [set_cSl9]
theorem colPcL10_eq (d : Dev nD) (L : grid0.Coords) : colPcL10 m d L = colAt10 m d (colRectL L).set := by unfold colPcL10 colAt10; rw [set_cSl10]
theorem colPcL11_eq (d : Dev nD) (L : grid0.Coords) : colPcL11 m d L = colAt11 m d (colRectL L).set := by unfold colPcL11 colAt11; rw [set_cSl11]
theorem colPcL12_eq (d : Dev nD) (L : grid0.Coords) : colPcL12 m d L = colAt12 m d (colRectL L).set := by unfold colPcL12 colAt12; rw [set_cSl12]
theorem colPcL13_eq (d : Dev nD) (L : grid0.Coords) : colPcL13 m d L = colAt13 m d (colRectL L).set := by unfold colPcL13 colAt13; rw [set_cSl13]
theorem colPcL14_eq (d : Dev nD) (L : grid0.Coords) : colPcL14 m d L = colAt14 m d (colRectL L).set := by unfold colPcL14 colAt14; rw [set_cSl14]
theorem colPcL15_eq (d : Dev nD) (L : grid0.Coords) : colPcL15 m d L = colAt15 m d (colRectL L).set := by unfold colPcL15 colAt15; rw [set_cSl15]
theorem colPcL16_eq (d : Dev nD) (L : grid0.Coords) : colPcL16 m d L = colAt16 m d (colRectL L).set := by unfold colPcL16 colAt16; rw [set_cSl16]
theorem colPcL17_eq (d : Dev nD) (L : grid0.Coords) : colPcL17 m d L = colAt17 m d (colRectL L).set := by unfold colPcL17 colAt17; rw [set_cSl17]
theorem colPcL18_eq (d : Dev nD) (L : grid0.Coords) : colPcL18 m d L = colAt18 m d (colRectL L).set := by unfold colPcL18 colAt18; rw [set_cSl18]
theorem colPcL19_eq (d : Dev nD) (L : grid0.Coords) : colPcL19 m d L = colAt19 m d (colRectL L).set := by unfold colPcL19 colAt19; rw [set_cSl19]
theorem colPcL20_eq (d : Dev nD) (L : grid0.Coords) : colPcL20 m d L = colAt20 m d (colRectL L).set := by unfold colPcL20 colAt20; rw [set_cSl20]
theorem colPcL21_eq (d : Dev nD) (L : grid0.Coords) : colPcL21 m d L = colAt21 m d (colRectL L).set := by unfold colPcL21 colAt21; rw [set_cSl21]
theorem colPcL22_eq (d : Dev nD) (L : grid0.Coords) : colPcL22 m d L = colAt22 m d (colRectL L).set := by unfold colPcL22 colAt22; rw [set_cSl22]
theorem colPcL23_eq (d : Dev nD) (L : grid0.Coords) : colPcL23 m d L = colAt23 m d (colRectL L).set := by unfold colPcL23 colAt23; rw [set_cSl23]
theorem colPcL24_eq (d : Dev nD) (L : grid0.Coords) : colPcL24 m d L = colAt24 m d (colRectL L).set := by unfold colPcL24 colAt24; rw [set_cSl24]
theorem colPcL25_eq (d : Dev nD) (L : grid0.Coords) : colPcL25 m d L = colAt25 m d (colRectL L).set := by unfold colPcL25 colAt25; rw [set_cSl25]
theorem colPcL_eq (d : Dev nD) (L : grid0.Coords) : colPcL m d L = colAt m d (colRectL L).set := by
  unfold colPcL colAt
  rw [colPcL0_eq, colPcL1_eq, colPcL2_eq, colPcL3_eq, colPcL4_eq, colPcL5_eq, colPcL6_eq, colPcL7_eq, colPcL8_eq, colPcL9_eq, colPcL10_eq, colPcL11_eq, colPcL12_eq, colPcL13_eq, colPcL14_eq, colPcL15_eq, colPcL16_eq, colPcL17_eq, colPcL18_eq, colPcL19_eq, colPcL20_eq, colPcL21_eq, colPcL22_eq, colPcL23_eq, colPcL24_eq, colPcL25_eq]
def tblTokL0 (d : Dev nD) (L : grid0.Coords) (q : PosShare TreeShare) : sProp 𝕄 := (Memref.whole main_arg26_scv : Memref sig .scVector .hbm S1000x128 .f32).view.loc (V d (cVL L) (jVL L)) ↦{q} m ((SparseCore.T d).loc main_arg26)
def tblTokL1 (d : Dev nD) (L : grid0.Coords) (q : PosShare TreeShare) : sProp 𝕄 := (Memref.whole main_arg27_scv : Memref sig .scVector .hbm S1000x128 .f32).view.loc (V d (cVL L) (jVL L)) ↦{q} m ((SparseCore.T d).loc main_arg27)
def tblTokL2 (d : Dev nD) (L : grid0.Coords) (q : PosShare TreeShare) : sProp 𝕄 := (Memref.whole main_arg28_scv : Memref sig .scVector .hbm S1000x128 .f32).view.loc (V d (cVL L) (jVL L)) ↦{q} m ((SparseCore.T d).loc main_arg28)
def tblTokL3 (d : Dev nD) (L : grid0.Coords) (q : PosShare TreeShare) : sProp 𝕄 := (Memref.whole main_arg29_scv : Memref sig .scVector .hbm S1000x128 .f32).view.loc (V d (cVL L) (jVL L)) ↦{q} m ((SparseCore.T d).loc main_arg29)
def tblTokL4 (d : Dev nD) (L : grid0.Coords) (q : PosShare TreeShare) : sProp 𝕄 := (Memref.whole main_arg30_scv : Memref sig .scVector .hbm S1000x128 .f32).view.loc (V d (cVL L) (jVL L)) ↦{q} m ((SparseCore.T d).loc main_arg30)
def tblTokL5 (d : Dev nD) (L : grid0.Coords) (q : PosShare TreeShare) : sProp 𝕄 := (Memref.whole main_arg31_scv : Memref sig .scVector .hbm S1000x128 .f32).view.loc (V d (cVL L) (jVL L)) ↦{q} m ((SparseCore.T d).loc main_arg31)
def tblTokL6 (d : Dev nD) (L : grid0.Coords) (q : PosShare TreeShare) : sProp 𝕄 := (Memref.whole main_arg32_scv : Memref sig .scVector .hbm S1000x128 .f32).view.loc (V d (cVL L) (jVL L)) ↦{q} m ((SparseCore.T d).loc main_arg32)
def tblTokL7 (d : Dev nD) (L : grid0.Coords) (q : PosShare TreeShare) : sProp 𝕄 := (Memref.whole main_arg33_scv : Memref sig .scVector .hbm S1000x128 .f32).view.loc (V d (cVL L) (jVL L)) ↦{q} m ((SparseCore.T d).loc main_arg33)
def tblTokL8 (d : Dev nD) (L : grid0.Coords) (q : PosShare TreeShare) : sProp 𝕄 := (Memref.whole main_arg34_scv : Memref sig .scVector .hbm S1000x128 .f32).view.loc (V d (cVL L) (jVL L)) ↦{q} m ((SparseCore.T d).loc main_arg34)
def tblTokL9 (d : Dev nD) (L : grid0.Coords) (q : PosShare TreeShare) : sProp 𝕄 := (Memref.whole main_arg35_scv : Memref sig .scVector .hbm S1000x128 .f32).view.loc (V d (cVL L) (jVL L)) ↦{q} m ((SparseCore.T d).loc main_arg35)
def tblTokL10 (d : Dev nD) (L : grid0.Coords) (q : PosShare TreeShare) : sProp 𝕄 := (Memref.whole main_arg36_scv : Memref sig .scVector .hbm S1000x128 .f32).view.loc (V d (cVL L) (jVL L)) ↦{q} m ((SparseCore.T d).loc main_arg36)
def tblTokL11 (d : Dev nD) (L : grid0.Coords) (q : PosShare TreeShare) : sProp 𝕄 := (Memref.whole main_arg37_scv : Memref sig .scVector .hbm S1000x128 .f32).view.loc (V d (cVL L) (jVL L)) ↦{q} m ((SparseCore.T d).loc main_arg37)
def tblTokL12 (d : Dev nD) (L : grid0.Coords) (q : PosShare TreeShare) : sProp 𝕄 := (Memref.whole main_arg38_scv : Memref sig .scVector .hbm S1000x128 .f32).view.loc (V d (cVL L) (jVL L)) ↦{q} m ((SparseCore.T d).loc main_arg38)
def tblTokL13 (d : Dev nD) (L : grid0.Coords) (q : PosShare TreeShare) : sProp 𝕄 := (Memref.whole main_arg39_scv : Memref sig .scVector .hbm S1000x128 .f32).view.loc (V d (cVL L) (jVL L)) ↦{q} m ((SparseCore.T d).loc main_arg39)
def tblTokL14 (d : Dev nD) (L : grid0.Coords) (q : PosShare TreeShare) : sProp 𝕄 := (Memref.whole main_arg40_scv : Memref sig .scVector .hbm S1000x128 .f32).view.loc (V d (cVL L) (jVL L)) ↦{q} m ((SparseCore.T d).loc main_arg40)
def tblTokL15 (d : Dev nD) (L : grid0.Coords) (q : PosShare TreeShare) : sProp 𝕄 := (Memref.whole main_arg41_scv : Memref sig .scVector .hbm S1000x128 .f32).view.loc (V d (cVL L) (jVL L)) ↦{q} m ((SparseCore.T d).loc main_arg41)
def tblTokL16 (d : Dev nD) (L : grid0.Coords) (q : PosShare TreeShare) : sProp 𝕄 := (Memref.whole main_arg42_scv : Memref sig .scVector .hbm S1000x128 .f32).view.loc (V d (cVL L) (jVL L)) ↦{q} m ((SparseCore.T d).loc main_arg42)
def tblTokL17 (d : Dev nD) (L : grid0.Coords) (q : PosShare TreeShare) : sProp 𝕄 := (Memref.whole main_arg43_scv : Memref sig .scVector .hbm S1000x128 .f32).view.loc (V d (cVL L) (jVL L)) ↦{q} m ((SparseCore.T d).loc main_arg43)
def tblTokL18 (d : Dev nD) (L : grid0.Coords) (q : PosShare TreeShare) : sProp 𝕄 := (Memref.whole main_arg44_scv : Memref sig .scVector .hbm S1000x128 .f32).view.loc (V d (cVL L) (jVL L)) ↦{q} m ((SparseCore.T d).loc main_arg44)
def tblTokL19 (d : Dev nD) (L : grid0.Coords) (q : PosShare TreeShare) : sProp 𝕄 := (Memref.whole main_arg45_scv : Memref sig .scVector .hbm S1000x128 .f32).view.loc (V d (cVL L) (jVL L)) ↦{q} m ((SparseCore.T d).loc main_arg45)
def tblTokL20 (d : Dev nD) (L : grid0.Coords) (q : PosShare TreeShare) : sProp 𝕄 := (Memref.whole main_arg46_scv : Memref sig .scVector .hbm S1000x128 .f32).view.loc (V d (cVL L) (jVL L)) ↦{q} m ((SparseCore.T d).loc main_arg46)
def tblTokL21 (d : Dev nD) (L : grid0.Coords) (q : PosShare TreeShare) : sProp 𝕄 := (Memref.whole main_arg47_scv : Memref sig .scVector .hbm S1000x128 .f32).view.loc (V d (cVL L) (jVL L)) ↦{q} m ((SparseCore.T d).loc main_arg47)
def tblTokL22 (d : Dev nD) (L : grid0.Coords) (q : PosShare TreeShare) : sProp 𝕄 := (Memref.whole main_arg48_scv : Memref sig .scVector .hbm S1000x128 .f32).view.loc (V d (cVL L) (jVL L)) ↦{q} m ((SparseCore.T d).loc main_arg48)
def tblTokL23 (d : Dev nD) (L : grid0.Coords) (q : PosShare TreeShare) : sProp 𝕄 := (Memref.whole main_arg49_scv : Memref sig .scVector .hbm S1000x128 .f32).view.loc (V d (cVL L) (jVL L)) ↦{q} m ((SparseCore.T d).loc main_arg49)
def tblTokL24 (d : Dev nD) (L : grid0.Coords) (q : PosShare TreeShare) : sProp 𝕄 := (Memref.whole main_arg50_scv : Memref sig .scVector .hbm S1000x128 .f32).view.loc (V d (cVL L) (jVL L)) ↦{q} m ((SparseCore.T d).loc main_arg50)
def tblTokL25 (d : Dev nD) (L : grid0.Coords) (q : PosShare TreeShare) : sProp 𝕄 := (Memref.whole main_arg51_scv : Memref sig .scVector .hbm S1000x128 .f32).view.loc (V d (cVL L) (jVL L)) ↦{q} m ((SparseCore.T d).loc main_arg51)
def tblTokL (d : Dev nD) (L : grid0.Coords) (q : PosShare TreeShare) : Fin 26 → sProp 𝕄 := ![tblTokL0 m d L q, tblTokL1 m d L q, tblTokL2 m d L q, tblTokL3 m d L q, tblTokL4 m d L q, tblTokL5 m d L q, tblTokL6 m d L q, tblTokL7 m d L q, tblTokL8 m d L q, tblTokL9 m d L q, tblTokL10 m d L q, tblTokL11 m d L q, tblTokL12 m d L q, tblTokL13 m d L q, tblTokL14 m d L q, tblTokL15 m d L q, tblTokL16 m d L q, tblTokL17 m d L q, tblTokL18 m d L q, tblTokL19 m d L q, tblTokL20 m d L q, tblTokL21 m d L q, tblTokL22 m d L q, tblTokL23 m d L q, tblTokL24 m d L q, tblTokL25 m d L q]
theorem tblTokL0_eq (d : Dev nD) (L : grid0.Coords) (q : PosShare TreeShare) : tblTokL0 m d L q = tblAt0 m d q := rfl
theorem tblTokL1_eq (d : Dev nD) (L : grid0.Coords) (q : PosShare TreeShare) : tblTokL1 m d L q = tblAt1 m d q := rfl
theorem tblTokL2_eq (d : Dev nD) (L : grid0.Coords) (q : PosShare TreeShare) : tblTokL2 m d L q = tblAt2 m d q := rfl
theorem tblTokL3_eq (d : Dev nD) (L : grid0.Coords) (q : PosShare TreeShare) : tblTokL3 m d L q = tblAt3 m d q := rfl
theorem tblTokL4_eq (d : Dev nD) (L : grid0.Coords) (q : PosShare TreeShare) : tblTokL4 m d L q = tblAt4 m d q := rfl
theorem tblTokL5_eq (d : Dev nD) (L : grid0.Coords) (q : PosShare TreeShare) : tblTokL5 m d L q = tblAt5 m d q := rfl
theorem tblTokL6_eq (d : Dev nD) (L : grid0.Coords) (q : PosShare TreeShare) : tblTokL6 m d L q = tblAt6 m d q := rfl
theorem tblTokL7_eq (d : Dev nD) (L : grid0.Coords) (q : PosShare TreeShare) : tblTokL7 m d L q = tblAt7 m d q := rfl
theorem tblTokL8_eq (d : Dev nD) (L : grid0.Coords) (q : PosShare TreeShare) : tblTokL8 m d L q = tblAt8 m d q := rfl
theorem tblTokL9_eq (d : Dev nD) (L : grid0.Coords) (q : PosShare TreeShare) : tblTokL9 m d L q = tblAt9 m d q := rfl
theorem tblTokL10_eq (d : Dev nD) (L : grid0.Coords) (q : PosShare TreeShare) : tblTokL10 m d L q = tblAt10 m d q := rfl
theorem tblTokL11_eq (d : Dev nD) (L : grid0.Coords) (q : PosShare TreeShare) : tblTokL11 m d L q = tblAt11 m d q := rfl
theorem tblTokL12_eq (d : Dev nD) (L : grid0.Coords) (q : PosShare TreeShare) : tblTokL12 m d L q = tblAt12 m d q := rfl
theorem tblTokL13_eq (d : Dev nD) (L : grid0.Coords) (q : PosShare TreeShare) : tblTokL13 m d L q = tblAt13 m d q := rfl
theorem tblTokL14_eq (d : Dev nD) (L : grid0.Coords) (q : PosShare TreeShare) : tblTokL14 m d L q = tblAt14 m d q := rfl
theorem tblTokL15_eq (d : Dev nD) (L : grid0.Coords) (q : PosShare TreeShare) : tblTokL15 m d L q = tblAt15 m d q := rfl
theorem tblTokL16_eq (d : Dev nD) (L : grid0.Coords) (q : PosShare TreeShare) : tblTokL16 m d L q = tblAt16 m d q := rfl
theorem tblTokL17_eq (d : Dev nD) (L : grid0.Coords) (q : PosShare TreeShare) : tblTokL17 m d L q = tblAt17 m d q := rfl
theorem tblTokL18_eq (d : Dev nD) (L : grid0.Coords) (q : PosShare TreeShare) : tblTokL18 m d L q = tblAt18 m d q := rfl
theorem tblTokL19_eq (d : Dev nD) (L : grid0.Coords) (q : PosShare TreeShare) : tblTokL19 m d L q = tblAt19 m d q := rfl
theorem tblTokL20_eq (d : Dev nD) (L : grid0.Coords) (q : PosShare TreeShare) : tblTokL20 m d L q = tblAt20 m d q := rfl
theorem tblTokL21_eq (d : Dev nD) (L : grid0.Coords) (q : PosShare TreeShare) : tblTokL21 m d L q = tblAt21 m d q := rfl
theorem tblTokL22_eq (d : Dev nD) (L : grid0.Coords) (q : PosShare TreeShare) : tblTokL22 m d L q = tblAt22 m d q := rfl
theorem tblTokL23_eq (d : Dev nD) (L : grid0.Coords) (q : PosShare TreeShare) : tblTokL23 m d L q = tblAt23 m d q := rfl
theorem tblTokL24_eq (d : Dev nD) (L : grid0.Coords) (q : PosShare TreeShare) : tblTokL24 m d L q = tblAt24 m d q := rfl
theorem tblTokL25_eq (d : Dev nD) (L : grid0.Coords) (q : PosShare TreeShare) : tblTokL25 m d L q = tblAt25 m d q := rfl
theorem tblTokL_eq (d : Dev nD) (L : grid0.Coords) (q : PosShare TreeShare) : tblTokL m d L q = tblAt m d q := by
  unfold tblTokL tblAt
  rw [tblTokL0_eq, tblTokL1_eq, tblTokL2_eq, tblTokL3_eq, tblTokL4_eq, tblTokL5_eq, tblTokL6_eq, tblTokL7_eq, tblTokL8_eq, tblTokL9_eq, tblTokL10_eq, tblTokL11_eq, tblTokL12_eq, tblTokL13_eq, tblTokL14_eq, tblTokL15_eq, tblTokL16_eq, tblTokL17_eq, tblTokL18_eq, tblTokL19_eq, tblTokL20_eq, tblTokL21_eq, tblTokL22_eq, tblTokL23_eq, tblTokL24_eq, tblTokL25_eq]

/-- A product over the 26 tables, spelt out. -/
def sep26 (Φ : Fin 26 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25)

theorem bigSep_fin26 (Φ : Fin 26 → sProp 𝕄) : bigSep Finset.univ Φ = sep26 Φ := by
  rw [show (Finset.univ : Finset (Fin 26)) = {0, 1, 2, 3, 4, 5, 6, 7, 8, 9, 10, 11, 12, 13, 14, 15, 16, 17, 18, 19, 20, 21, 22, 23, 24, 25} by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

set_option maxHeartbeats 4000000 in
/-- The claim's reading of the final memory: the output, then the 52 arguments unchanged. -/
def QCat (d : Dev nD) (g : Buf (Elt F) ((d.tc : Thread nD τ).loc main_v26)) (r : PUnit × MemSt nD τ sig (Elt F)) : Prop :=
  r.2.mem ((d.tc : Thread nD τ).loc main_v26) = g
  ∧ r.2.mem ((d.tc : Thread nD τ).loc main_arg0) = m ((d.tc : Thread nD τ).loc main_arg0)
  ∧ r.2.mem ((d.tc : Thread nD τ).loc main_arg1) = m ((d.tc : Thread nD τ).loc main_arg1)
  ∧ r.2.mem ((d.tc : Thread nD τ).loc main_arg2) = m ((d.tc : Thread nD τ).loc main_arg2)
  ∧ r.2.mem ((d.tc : Thread nD τ).loc main_arg3) = m ((d.tc : Thread nD τ).loc main_arg3)
  ∧ r.2.mem ((d.tc : Thread nD τ).loc main_arg4) = m ((d.tc : Thread nD τ).loc main_arg4)
  ∧ r.2.mem ((d.tc : Thread nD τ).loc main_arg5) = m ((d.tc : Thread nD τ).loc main_arg5)
  ∧ r.2.mem ((d.tc : Thread nD τ).loc main_arg6) = m ((d.tc : Thread nD τ).loc main_arg6)
  ∧ r.2.mem ((d.tc : Thread nD τ).loc main_arg7) = m ((d.tc : Thread nD τ).loc main_arg7)
  ∧ r.2.mem ((d.tc : Thread nD τ).loc main_arg8) = m ((d.tc : Thread nD τ).loc main_arg8)
  ∧ r.2.mem ((d.tc : Thread nD τ).loc main_arg9) = m ((d.tc : Thread nD τ).loc main_arg9)
  ∧ r.2.mem ((d.tc : Thread nD τ).loc main_arg10) = m ((d.tc : Thread nD τ).loc main_arg10)
  ∧ r.2.mem ((d.tc : Thread nD τ).loc main_arg11) = m ((d.tc : Thread nD τ).loc main_arg11)
  ∧ r.2.mem ((d.tc : Thread nD τ).loc main_arg12) = m ((d.tc : Thread nD τ).loc main_arg12)
  ∧ r.2.mem ((d.tc : Thread nD τ).loc main_arg13) = m ((d.tc : Thread nD τ).loc main_arg13)
  ∧ r.2.mem ((d.tc : Thread nD τ).loc main_arg14) = m ((d.tc : Thread nD τ).loc main_arg14)
  ∧ r.2.mem ((d.tc : Thread nD τ).loc main_arg15) = m ((d.tc : Thread nD τ).loc main_arg15)
  ∧ r.2.mem ((d.tc : Thread nD τ).loc main_arg16) = m ((d.tc : Thread nD τ).loc main_arg16)
  ∧ r.2.mem ((d.tc : Thread nD τ).loc main_arg17) = m ((d.tc : Thread nD τ).loc main_arg17)
  ∧ r.2.mem ((d.tc : Thread nD τ).loc main_arg18) = m ((d.tc : Thread nD τ).loc main_arg18)
  ∧ r.2.mem ((d.tc : Thread nD τ).loc main_arg19) = m ((d.tc : Thread nD τ).loc main_arg19)
  ∧ r.2.mem ((d.tc : Thread nD τ).loc main_arg20) = m ((d.tc : Thread nD τ).loc main_arg20)
  ∧ r.2.mem ((d.tc : Thread nD τ).loc main_arg21) = m ((d.tc : Thread nD τ).loc main_arg21)
  ∧ r.2.mem ((d.tc : Thread nD τ).loc main_arg22) = m ((d.tc : Thread nD τ).loc main_arg22)
  ∧ r.2.mem ((d.tc : Thread nD τ).loc main_arg23) = m ((d.tc : Thread nD τ).loc main_arg23)
  ∧ r.2.mem ((d.tc : Thread nD τ).loc main_arg24) = m ((d.tc : Thread nD τ).loc main_arg24)
  ∧ r.2.mem ((d.tc : Thread nD τ).loc main_arg25) = m ((d.tc : Thread nD τ).loc main_arg25)
  ∧ r.2.mem ((d.tc : Thread nD τ).loc main_arg26) = m ((d.tc : Thread nD τ).loc main_arg26)
  ∧ r.2.mem ((d.tc : Thread nD τ).loc main_arg27) = m ((d.tc : Thread nD τ).loc main_arg27)
  ∧ r.2.mem ((d.tc : Thread nD τ).loc main_arg28) = m ((d.tc : Thread nD τ).loc main_arg28)
  ∧ r.2.mem ((d.tc : Thread nD τ).loc main_arg29) = m ((d.tc : Thread nD τ).loc main_arg29)
  ∧ r.2.mem ((d.tc : Thread nD τ).loc main_arg30) = m ((d.tc : Thread nD τ).loc main_arg30)
  ∧ r.2.mem ((d.tc : Thread nD τ).loc main_arg31) = m ((d.tc : Thread nD τ).loc main_arg31)
  ∧ r.2.mem ((d.tc : Thread nD τ).loc main_arg32) = m ((d.tc : Thread nD τ).loc main_arg32)
  ∧ r.2.mem ((d.tc : Thread nD τ).loc main_arg33) = m ((d.tc : Thread nD τ).loc main_arg33)
  ∧ r.2.mem ((d.tc : Thread nD τ).loc main_arg34) = m ((d.tc : Thread nD τ).loc main_arg34)
  ∧ r.2.mem ((d.tc : Thread nD τ).loc main_arg35) = m ((d.tc : Thread nD τ).loc main_arg35)
  ∧ r.2.mem ((d.tc : Thread nD τ).loc main_arg36) = m ((d.tc : Thread nD τ).loc main_arg36)
  ∧ r.2.mem ((d.tc : Thread nD τ).loc main_arg37) = m ((d.tc : Thread nD τ).loc main_arg37)
  ∧ r.2.mem ((d.tc : Thread nD τ).loc main_arg38) = m ((d.tc : Thread nD τ).loc main_arg38)
  ∧ r.2.mem ((d.tc : Thread nD τ).loc main_arg39) = m ((d.tc : Thread nD τ).loc main_arg39)
  ∧ r.2.mem ((d.tc : Thread nD τ).loc main_arg40) = m ((d.tc : Thread nD τ).loc main_arg40)
  ∧ r.2.mem ((d.tc : Thread nD τ).loc main_arg41) = m ((d.tc : Thread nD τ).loc main_arg41)
  ∧ r.2.mem ((d.tc : Thread nD τ).loc main_arg42) = m ((d.tc : Thread nD τ).loc main_arg42)
  ∧ r.2.mem ((d.tc : Thread nD τ).loc main_arg43) = m ((d.tc : Thread nD τ).loc main_arg43)
  ∧ r.2.mem ((d.tc : Thread nD τ).loc main_arg44) = m ((d.tc : Thread nD τ).loc main_arg44)
  ∧ r.2.mem ((d.tc : Thread nD τ).loc main_arg45) = m ((d.tc : Thread nD τ).loc main_arg45)
  ∧ r.2.mem ((d.tc : Thread nD τ).loc main_arg46) = m ((d.tc : Thread nD τ).loc main_arg46)
  ∧ r.2.mem ((d.tc : Thread nD τ).loc main_arg47) = m ((d.tc : Thread nD τ).loc main_arg47)
  ∧ r.2.mem ((d.tc : Thread nD τ).loc main_arg48) = m ((d.tc : Thread nD τ).loc main_arg48)
  ∧ r.2.mem ((d.tc : Thread nD τ).loc main_arg49) = m ((d.tc : Thread nD τ).loc main_arg49)
  ∧ r.2.mem ((d.tc : Thread nD τ).loc main_arg50) = m ((d.tc : Thread nD τ).loc main_arg50)
  ∧ r.2.mem ((d.tc : Thread nD τ).loc main_arg51) = m ((d.tc : Thread nD τ).loc main_arg51)

end Cert.Proof.KI

end
-- ==== Proof.SetupKI.lean ====
import proofs.«204019_g4913442586959_cont_sun_m_672_34_alg».proof.Proof.TablesKI
import proofs.«204019_g4913442586959_cont_sun_m_672_34_alg».proof.Proof.Spec
import proofs.«204019_g4913442586959_cont_sun_m_672_34_alg».proof.Proof.LibCover

/-!
# What the handshakes carry

Tile `L = (c, i)` of the one call is handed: a read share of each of the 26 tables, whole; of each reshaped column
its 4 rows, rows `8 i + 4 c …`; of the output its 512 rows, rows `1024 i + 512 c …`, at the launch contents. It hands
the same back, its output rows holding the function the claim names. The call's operands for a SparseCore are its
sixteen tiles' shares, so the sequencer's split is the identity.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's rectangles are the cover's -/

/-- The kernel's offset `4 (2 i + c)`, computed on 32-bit words, is `8 i + 4 c`. -/
theorem colRectL_eq (L : grid0.Coords) : colRectL L = LibCover.colRect (L 0) (L 1) := by
  show Rect.unit (s := S128x128) (k0_off1 L) S4x128.size (k0_off1_inb L)
    = Rect.unit (s := S128x128) ![8 * (L 1).val + 4 * (L 0).val, 0] ![4, 128] (LibCover.colRect_inb (L 0) (L 1))
  congr 1
  exact k0_off1_eq L

theorem oTR_eq (L : grid0.Coords) : oTR L = LibCover.outRect (L 0) (L 1) := rfl

variable (m : (ℓ : Loc nD τ sig) → Buf (Elt F) ℓ)

/-! ## The output's piece and its final contents -/

/-- Tile `L`'s 512 output rows at contents `f`, as the tile names them. -/
def outPcL (d : Dev nD) (L : grid0.Coords) (f : Buf (Elt F) (oLoc d)) : sProp 𝕄 :=
  (Memref.whole main_v26_scv : Memref sig .scVector .hbm S16384x3328 .f32).view.loc (V d (cVL L) (jVL L))
    ↦[(Memref.whole main_v26_scv : Memref sig .scVector .hbm S16384x3328 .f32).view.setOn (oTR L).set]{fullShare} f

omit m in
theorem outPcL_eq (d : Dev nD) (L : grid0.Coords) (f : Buf (Elt F) (oLoc d)) :
    outPcL d L f = (oLoc d ↦[(oTR L).set]{fullShare} f : sProp 𝕄) := by
  unfold outPcL
  rw [show (Memref.whole main_v26_scv : Memref sig .scVector .hbm S16384x3328 .f32).view.setOn (oTR L).set = (oTR L).set
    from Finset.map_refl]

/-- What the output holds in the end: row `b` is the concatenation over the tables of their rows `col t b`. -/
def GO (d : Dev nD) : Buf (Elt F) (oLoc d) := Cert.Spec.G (tblVec m d) (colVec m d)

/-! ## A tile's payload -/

/-- What tile `L` holds of the call's operands, its output rows at contents `f`: a read share of each table, its 4 rows
    of each reshaped column, its 512 rows of the output. -/
def payL (d : Dev nD) (L : grid0.Coords) (f : Buf (Elt F) (oLoc d)) : sProp 𝕄 :=
  iprop((bigSep Finset.univ fun t : Fin 26 => tblTokL m d L (Transfers.shareTok fullShare 32 (wOfL L)) t)
    ∗ (bigSep Finset.univ fun t : Fin 26 => colPcL m d L t) ∗ outPcL d L f)

/-- What tile `L` is handed: the output rows at the launch contents. -/
abbrev goPayL (d : Dev nD) (L : grid0.Coords) : sProp 𝕄 := payL m d L (m (oLoc d))

/-- What tile `L` hands back: the same, its output rows at whatever it left there. -/
def tdPayL (d : Dev nD) (L : grid0.Coords) : sProp 𝕄 :=
  iprop((bigSep Finset.univ fun t : Fin 26 => tblTokL m d L (Transfers.shareTok fullShare 32 (wOfL L)) t)
    ∗ (bigSep Finset.univ fun t : Fin 26 => colPcL m d L t) ∗ ∃ f, outPcL d L f)

/-- The same in the TensorCore's names, over the cover's rectangles. -/
theorem payL_eq (d : Dev nD) (L : grid0.Coords) (f : Buf (Elt F) (oLoc d)) :
    payL m d L f = iprop((bigSep Finset.univ fun t : Fin 26 => tblAt m d (Transfers.shareTok fullShare 32 (wOfL L)) t)
      ∗ (bigSep Finset.univ fun t : Fin 26 => colAt m d (LibCover.colRect (L 0) (L 1)).set t)
      ∗ (oLoc d ↦[(LibCover.outRect (L 0) (L 1)).set]{fullShare} f)) := by
  unfold payL
  rw [tblTokL_eq, colPcL_eq, outPcL_eq, colRectL_eq, oTR_eq]

/-! ## The payloads may be stored in an invariant -/

omit m in
theorem storable_pointsTo {ℓ : Loc nD τ sig} (I : Finset (Idx ℓ)) (q : PosShare TreeShare) (f : Buf (Elt F) ℓ) :
    BI.Storable (upEmb : UEmb _ 𝕄) (ℓ ↦[I]{q} f : sProp 𝕄) := inferInstance

instance tblAt_storable (d : Dev nD) (q : PosShare TreeShare) (t : Fin 26) : BI.Storable (upEmb : UEmb _ 𝕄) (tblAt m d q t) := by
  fin_cases t <;> exact storable_pointsTo _ _ _

instance colAt_storable (d : Dev nD) (I : Finset S128x128.Idx) (t : Fin 26) : BI.Storable (upEmb : UEmb _ 𝕄) (colAt m d I t) := by
  fin_cases t <;> exact storable_pointsTo _ _ _

instance payL_storable (d : Dev nD) (L : grid0.Coords) (f : Buf (Elt F) (oLoc d)) : BI.Storable (upEmb : UEmb _ 𝕄) (payL m d L f) := by
  rw [payL_eq]
  infer_instance

theorem tdPayL_eq (d : Dev nD) (L : grid0.Coords) :
    tdPayL m d L = iprop((bigSep Finset.univ fun t : Fin 26 => tblAt m d (Transfers.shareTok fullShare 32 (wOfL L)) t)
      ∗ (bigSep Finset.univ fun t : Fin 26 => colAt m d (LibCover.colRect (L 0) (L 1)).set t)
      ∗ ∃ f, (oLoc d ↦[(LibCover.outRect (L 0) (L 1)).set]{fullShare} f)) := by
  unfold tdPayL
  simp only [tblTokL_eq, colPcL_eq, outPcL_eq, colRectL_eq, oTR_eq]

instance tdPayL_storable (d : Dev nD) (L : grid0.Coords) : BI.Storable (upEmb : UEmb _ 𝕄) (tdPayL m d L) := by
  rw [tdPayL_eq]
  infer_instance

/-! ## The pay record -/

theorem nCore_eq (q : Fin 1) : (K (F := F)).nCore q = 2 := by
  rw [Subsingleton.elim q 0]
theorem nSub_eq (q : Fin 1) : (K (F := F)).nSub q = 16 := by
  rw [Subsingleton.elim q 0]

/-- The coordinates of the call's tile `(c, i)`. -/
abbrev LV {q : Fin 1} (c : Fin ((K (F := F)).nCore q)) (i : Fin ((K (F := F)).nSub q)) : grid0.Coords :=
  coordsV ⟨c.val, c.isLt.trans_eq (nCore_eq (F := F) q)⟩ ⟨i.val, i.isLt.trans_eq (nSub_eq (F := F) q)⟩

/-- The one call: a SparseCore's operands are its sixteen tiles' payloads. -/
def P : (K (F := F)).Pay (nD := nD) (Val := Elt F) (Name := ℕ) (U := UU) where
  st := fun _ d c => bigSep Finset.univ fun i => goPayL m d (LV c i)
  dn := fun _ d c => bigSep Finset.univ fun i => tdPayL m d (LV c i)
  go := fun _ d c i => goPayL m d (LV c i)
  td := fun _ d c i => tdPayL m d (LV c i)
  x := fun _ _ => iprop(emp)

instance P_storable : (P (F := F) m).IsStorable where
  st _ d c := (inferInstance : BI.Storable (upEmb : UEmb _ 𝕄) (bigSep Finset.univ fun i => payL m d (LV c i) (m (oLoc d))))
  dn _ d c := (inferInstance : BI.Storable (upEmb : UEmb _ 𝕄) (bigSep Finset.univ fun i => tdPayL m d (LV c i)))
  go _ d c i := payL_storable m d (LV c i) (m (oLoc d))
  td _ d c i := tdPayL_storable m d (LV c i)

/-- The sequencer hands each tile its own and gets each tile's back. -/
theorem vecSplit : (K (F := F)).VecSplit' (P m) 0 := by
  intro d c
  show (bigSep Finset.univ fun i : Fin ((K (F := F)).nSub 0) => goPayL m d (LV c i)) ⊢ |={Set.univ}=> iprop(
      (bigSep Finset.univ fun i : Fin ((K (F := F)).nSub 0) => goPayL m d (LV c i))
      ∗ ((bigSep Finset.univ fun i : Fin ((K (F := F)).nSub 0) => tdPayL m d (LV c i))
          -∗ bigSep Finset.univ fun i : Fin ((K (F := F)).nSub 0) => tdPayL m d (LV c i)))
  iintro H
  imodintro
  isplitl [H]
  · iexact H
  · iintro H
    iexact H

end Cert.Proof.KI

end
-- ==== Proof.SetupValKI.lean ====
import proofs.«204019_g4913442586959_cont_sun_m_672_34_alg».proof.Proof.SetupKI

/-!
# What the handshakes carry, the output at its value

As the frame form, but a tile hands its 512 output rows back holding the function the claim names, not whatever it
left: the value form of the call's pay record.
-/

noncomputable section

namespace Cert.Proof.KIV

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI

variable {F : FTy → Type}

local notation "𝕄" => MT nD τ sig (HIx 1) (Elt F) ℕ UU ℕ

variable (m : (ℓ : Loc nD τ sig) → Buf (Elt F) ℓ)

/-- What tile `L` hands back: what it was handed, its output rows at the function the claim names. -/
abbrev tdPayLV (d : Dev nD) (L : grid0.Coords) : sProp 𝕄 := payL m d L (GO m d)

/-- The one call, in value form: a SparseCore's operands are its sixteen tiles' payloads. -/
def PV : (K (F := F)).Pay (nD := nD) (Val := Elt F) (Name := ℕ) (U := UU) where
  st := fun _ d c => bigSep Finset.univ fun i => goPayL m d (LV c i)
  dn := fun _ d c => bigSep Finset.univ fun i => tdPayLV m d (LV c i)
  go := fun _ d c i => goPayL m d (LV c i)
  td := fun _ d c i => tdPayLV m d (LV c i)
  x := fun _ _ => iprop(emp)

instance PV_storable : (PV (F := F) m).IsStorable where
  st _ d c := (inferInstance : BI.Storable (upEmb : UEmb _ 𝕄) (bigSep Finset.univ fun i => payL m d (LV c i) (m (oLoc d))))
  dn _ d c := (inferInstance : BI.Storable (upEmb : UEmb _ 𝕄) (bigSep Finset.univ fun i => payL m d (LV c i) (GO m d)))
  go _ d c i := payL_storable m d (LV c i) (m (oLoc d))
  td _ d c i := payL_storable m d (LV c i) (GO m d)

/-- The sequencer hands each tile its own and gets each tile's back. -/
theorem vecSplitV : (K (F := F)).VecSplit' (PV m) 0 := by
  intro d c
  show (bigSep Finset.univ fun i : Fin ((K (F := F)).nSub 0) => goPayL m d (LV c i)) ⊢ |={Set.univ}=> iprop(
      (bigSep Finset.univ fun i : Fin ((K (F := F)).nSub 0) => goPayL m d (LV c i))
      ∗ ((bigSep Finset.univ fun i : Fin ((K (F := F)).nSub 0) => tdPayLV m d (LV c i))
          -∗ bigSep Finset.univ fun i : Fin ((K (F := F)).nSub 0) => tdPayLV m d (LV c i)))
  iintro H
  imodintro
  isplitl [H]
  · iexact H
  · iintro H
    iexact H

end Cert.Proof.KIV

end
-- ==== Proof.LaunchKIa.lean ====
import proofs.«204019_g4913442586959_cont_sun_m_672_34_alg».proof.Proof.SetupKI

/-!
# Splitting the call's operands among the 32 tiles, and joining them back

Before the call the TensorCore holds every array whole. A table is split into 32 read shares and a remainder; a
reshaped column and the output are split along the 32 tiles' row ranges, which are pairwise disjoint and cover the
rows. Regrouped per tile these are the tiles' payloads, and the same regrouping read backwards joins what the tiles
hand back: the tables' shares to the whole tables, the output's pieces — all at one function — to the whole output.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

local notation "𝕄" => MT nD τ sig (HIx 1) (Elt F) ℕ UU ℕ

/-! ## Products of products -/

omit F in
/-- Two nested products may be taken in either order. -/
theorem bigSep_comm' {M : Type} [URA M] {A B : Type} (s : Finset A) (t : Finset B) (Φ : A → B → sProp M) :
    (bigSep s fun a => bigSep t fun b => Φ a b) = bigSep t fun b => bigSep s fun a => Φ a b := by
  classical
  induction t using Finset.induction_on with
  | empty => simp only [bigSep_empty, bigSep_emp_const]
  | insert b t hb ih =>
    simp only [bigSep_insert hb]
    rw [bigSep_sep, ih]

omit F in
/-- A product over `s` of two products over `t` and a third factor, regrouped: the two products over `t` of products over `s`, and the third factors. -/
theorem regroup_abs {M : Type} [URA M] {A B : Type} (s : Finset A) (t : Finset B) (Φ Ψ : A → B → sProp M) (C : A → sProp M) :
    (bigSep s fun a => iprop((bigSep t fun b => Φ a b) ∗ (bigSep t fun b => Ψ a b) ∗ C a))
      = iprop((bigSep t fun b => bigSep s fun a => Φ a b) ∗ (bigSep t fun b => bigSep s fun a => Ψ a b) ∗ bigSep s C) := by
  rw [bigSep_sep', bigSep_sep', bigSep_comm' s t Φ, bigSep_comm' s t Ψ]

/-- Tile `(c, i)` has number `2 i + c`: a bijection onto `0 … 31`. -/
def wEquiv : Fin 2 × Fin 16 ≃ Fin 32 where
  toFun p := wOf p.1 p.2
  invFun w := (⟨w.val % 2, Nat.mod_lt _ (by omega)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

omit F in
/-- A product over the 32 tile numbers is a product over the tiles. -/
theorem bigSep_tiles {M : Type} [URA M] (Φ : Fin 32 → sProp M) :
    (bigSep Finset.univ fun p : Fin 2 × Fin 16 => Φ (wOf p.1 p.2)) = bigSep Finset.univ Φ := by
  rw [← Finset.map_univ_equiv wEquiv, bigSep_map]
  rfl

theorem wOfL_coordsV (c : Fin 2) (i : Fin 16) : wOfL (coordsV c i) = wOf c i := rfl

omit F in
/-- A product over `Fin n` read over `Fin n'`, the two numbers equal. -/
theorem bigSep_fin_cast {M : Type} [URA M] {n n' : ℕ} (h : n = n') (Φ : Fin n → sProp M) :
    bigSep Finset.univ Φ = bigSep Finset.univ fun c : Fin n' => Φ (Fin.cast h.symm c) := by
  subst h
  rfl

/-- A product over the call's SparseCores and their subcores is a product over the 32 tiles. -/
theorem tiles_flat (Φ : grid0.Coords → sProp 𝕄) :
    (bigSep Finset.univ fun c : Fin ((K (F := F)).nCore 0) => bigSep Finset.univ fun i : Fin ((K (F := F)).nSub 0) => Φ (LV c i))
      = bigSep Finset.univ fun p : Fin 2 × Fin 16 => Φ (coordsV p.1 p.2) := by
  rw [bigSep_fin_cast (nCore_zero (F := F)), bigSep_univ_prod]
  refine bigSep_congr fun c _ => ?_
  rw [bigSep_fin_cast (nSub_zero (F := F))]
  rfl

/-! ## One array along a disjoint cover -/

/-- An array held whole is held piece by piece along a family of pairwise disjoint element sets that covers it. -/
theorem pointsTo_cover {T' : Type} [Fintype T'] {ℓ : Loc nD τ sig} (Kf : T' → Finset (Idx ℓ))
    (hd : ∀ t t', t ≠ t' → Disjoint (Kf t) (Kf t')) (hc : (Finset.univ : Finset T').biUnion Kf = Finset.univ)
    (q : PosShare TreeShare) (f : Buf (Elt F) ℓ) :
    (ℓ ↦[Finset.univ]{q} f : sProp 𝕄) = bigSep Finset.univ fun t => ℓ ↦[Kf t]{q} f := by
  rw [← pointsTo_biUnion Finset.univ Kf (fun t _ t' _ h => hd t t' h), hc]

variable (m : (ℓ : Loc nD τ sig) → Buf (Elt F) ℓ)

/-- A table whole is a remainder and 32 read shares. -/
theorem tbl_toks (d : Dev nD) (t : Fin 26) :
    (tblAt m d fullShare t : sProp 𝕄) ⊣⊢ iprop(tblAt m d (Transfers.shareDrop fullShare 32) t
      ∗ bigSep Finset.univ fun w : Fin 32 => tblAt m d (Transfers.shareTok fullShare 32 w) t) := by
  fin_cases t <;> exact Transfers.pointsTo_toks fullShare 32

/-- A reshaped column whole is its 32 tiles' rows. -/
theorem col_cover (d : Dev nD) (t : Fin 26) :
    (colAt m d Finset.univ t : sProp 𝕄)
      = bigSep Finset.univ fun p : Fin 2 × Fin 16 => colAt m d (LibCover.colRect p.1 p.2).set t := by
  fin_cases t <;>
    (apply pointsTo_cover
     · exact fun p p' h => LibCover.colRect_disjoint p.1 p.2 p'.1 p'.2 h
     · exact LibCover.colRect_cover)

omit m in
/-- The output whole is its 32 tiles' rows. -/
theorem out_cover (d : Dev nD) (f : Buf (Elt F) (oLoc d)) :
    (oLoc d ↦[Finset.univ]{fullShare} f : sProp 𝕄)
      = bigSep Finset.univ fun p : Fin 2 × Fin 16 => oLoc d ↦[(LibCover.outRect p.1 p.2).set]{fullShare} f :=
  pointsTo_cover (ℓ := oLoc d) (fun p : Fin 2 × Fin 16 => (LibCover.outRect p.1 p.2).set)
    (fun p p' h => LibCover.outRect_disjoint p.1 p.2 p'.1 p'.2 h) LibCover.outRect_cover fullShare f

/-! ## The 32 payloads, regrouped per array -/

set_option maxHeartbeats 2000000 in
/-- All tiles' tables' shares and columns' rows, beside anything `C` per tile: every table's 32 shares, every reshaped
    column whole, and the `C`s. -/
theorem regroup (d : Dev nD) (C : Fin 2 × Fin 16 → sProp 𝕄) :
    (bigSep Finset.univ fun p : Fin 2 × Fin 16 =>
      iprop((bigSep Finset.univ fun t : Fin 26 => tblAt m d (Transfers.shareTok fullShare 32 (wOf p.1 p.2)) t)
        ∗ (bigSep Finset.univ fun t : Fin 26 => colAt m d (LibCover.colRect p.1 p.2).set t) ∗ C p))
      = iprop((bigSep Finset.univ fun t : Fin 26 => bigSep Finset.univ fun w : Fin 32 => tblAt m d (Transfers.shareTok fullShare 32 w) t)
          ∗ (bigSep Finset.univ fun t : Fin 26 => colAt m d Finset.univ t) ∗ bigSep Finset.univ C) := by
  have hA : (bigSep Finset.univ fun t : Fin 26 => bigSep Finset.univ fun p : Fin 2 × Fin 16 =>
        tblAt m d (Transfers.shareTok fullShare 32 (wOf p.1 p.2)) t)
      = (bigSep Finset.univ fun t : Fin 26 => bigSep Finset.univ fun w : Fin 32 => tblAt m d (Transfers.shareTok fullShare 32 w) t) :=
    bigSep_congr fun t _ => bigSep_tiles (fun w => tblAt m d (Transfers.shareTok fullShare 32 w) t)
  have hB : (bigSep Finset.univ fun t : Fin 26 => bigSep Finset.univ fun p : Fin 2 × Fin 16 =>
        colAt m d (LibCover.colRect p.1 p.2).set t)
      = (bigSep Finset.univ fun t : Fin 26 => colAt m d Finset.univ t) :=
    bigSep_congr fun t _ => (col_cover m d t).symm
  exact (regroup_abs Finset.univ Finset.univ
    (fun (p : Fin 2 × Fin 16) (t : Fin 26) => tblAt m d (Transfers.shareTok fullShare 32 (wOf p.1 p.2)) t)
    (fun (p : Fin 2 × Fin 16) (t : Fin 26) => colAt m d (LibCover.colRect p.1 p.2).set t) C).trans
    (congrArg₂ (fun X Y : sProp 𝕄 => iprop(X ∗ Y ∗ bigSep Finset.univ C)) hA hB)

/-- All tiles' payloads, the output rows at `f`: every table's 32 shares, every reshaped column whole, the output whole at `f`. -/
theorem pays_eq (d : Dev nD) (f : Buf (Elt F) (oLoc d)) :
    (bigSep Finset.univ fun c : Fin ((K (F := F)).nCore 0) => bigSep Finset.univ fun i : Fin ((K (F := F)).nSub 0) => payL m d (LV c i) f)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} f)) := by
  rw [tiles_flat (fun L => payL m d L f)]
  simp only [payL_eq]
  rw [out_cover]
  exact regroup m d (fun p => oLoc d ↦[(LibCover.outRect p.1 p.2).set]{fullShare} f)

omit m in
set_option maxHeartbeats 2000000 in
set_option synthInstance.maxHeartbeats 1000000 in
/-- Output rows held tile by tile, each at what its tile left: the output whole, at some contents. -/
theorem outs_join (d : Dev nD) (f₀ : Buf (Elt F) (oLoc d)) :
    (bigSep Finset.univ fun p : Fin 2 × Fin 16 => iprop(∃ f, (oLoc d ↦[(LibCover.outRect p.1 p.2).set]{fullShare} f : sProp 𝕄)))
      ⊢ (iprop(∃ g, oLoc d ↦[Finset.univ]{fullShare} g) : sProp 𝕄) := by
  haveI : Nonempty (Buf (Elt F) (oLoc d)) := ⟨f₀⟩
  haveI : ∀ _ : Fin 2 × Fin 16, Nonempty (Buf (Elt F) (oLoc d)) := fun _ => ⟨f₀⟩
  refine (bigSep_exists_pi Finset.univ (fun (p : Fin 2 × Fin 16) (f : Buf (Elt F) (oLoc d)) =>
    (oLoc d ↦[(LibCover.outRect p.1 p.2).set]{fullShare} f : sProp 𝕄))).trans ?_
  iintro ⟨%fs, H⟩
  ihave H' := (pointsTo_biUnion_join (ℓ := oLoc d) (q := fullShare) (Val := Elt F) Finset.univ
    (fun p : Fin 2 × Fin 16 => (LibCover.outRect p.1 p.2).set) fs (fs (0, 0))
    (fun p _ p' _ h => LibCover.outRect_disjoint p.1 p.2 p'.1 p'.2 h)) $$ H
  icases H' with ⟨%g, -, Hg⟩
  rw [LibCover.outRect_cover]
  iexists g
  iexact Hg

/-- What the call takes for the two SparseCores, -/
theorem st0_eq (d : Dev nD) :
    (bigSep Finset.univ fun c : Fin ((K (F := F)).nCore 0) => (P m).st 0 d c)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} m (oLoc d))) := by
  show (bigSep Finset.univ fun c : Fin ((K (F := F)).nCore 0) => bigSep Finset.univ fun i : Fin ((K (F := F)).nSub 0) => payL m d (LV c i) (m (oLoc d))) = _
  exact pays_eq m d (m (oLoc d))

/-- and what it hands back. -/
theorem dn0_join (d : Dev nD) :
    (bigSep Finset.univ fun c : Fin ((K (F := F)).nCore 0) => (P m).dn 0 d c)
      ⊢ (iprop((bigSep Finset.univ fun t : Fin 26 => bigSep Finset.univ fun w : Fin 32 => tblAt m d (Transfers.shareTok fullShare 32 w) t)
          ∗ (bigSep Finset.univ fun t : Fin 26 => colAt m d Finset.univ t) ∗ ∃ g, oLoc d ↦[Finset.univ]{fullShare} g) : sProp 𝕄) := by
  show (bigSep Finset.univ fun c : Fin ((K (F := F)).nCore 0) => bigSep Finset.univ fun i : Fin ((K (F := F)).nSub 0) => tdPayL m d (LV c i)) ⊢ _
  rw [tiles_flat (fun L => tdPayL m d L)]
  simp only [tdPayL_eq]
  refine (Entails.of_eq (regroup m d (fun p => iprop(∃ f, (oLoc d ↦[(LibCover.outRect p.1 p.2).set]{fullShare} f : sProp 𝕄))))).trans ?_
  iintro ⟨Ht, Hc, Ho⟩
  isplitl [Ht]; · iexact Ht
  isplitl [Hc]; · iexact Hc
  iapply (outs_join d (m (oLoc d)))
  iexact Ho

end Cert.Proof.KI

end
-- ==== Proof.LaunchValKIa.lean ====
import proofs.«204019_g4913442586959_cont_sun_m_672_34_alg».proof.Proof.SetupValKI
import proofs.«204019_g4913442586959_cont_sun_m_672_34_alg».proof.Proof.LaunchKIa

/-!
# Splitting the call's operands among the 32 tiles and joining them back, the output at its value

What the call takes is what the frame form takes. What it hands back is the same regrouping with every tile's output
rows at the ONE function the claim names, so the 32 pieces join to the whole output at that function.
-/

noncomputable section

namespace Cert.Proof.KIV

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Cert.Proof.KI

variable {F : FTy → Type}

local notation "𝕄" => MT nD τ sig (HIx 1) (Elt F) ℕ UU ℕ

variable (m : (ℓ : Loc nD τ sig) → Buf (Elt F) ℓ)

/-- What the call takes for the two SparseCores, -/
theorem st0_eqV (d : Dev nD) :
    (bigSep Finset.univ fun c : Fin ((K (F := F)).nCore 0) => (PV m).st 0 d c)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} m (oLoc d))) := by
  show (bigSep Finset.univ fun c : Fin ((K (F := F)).nCore 0) => bigSep Finset.univ fun i : Fin ((K (F := F)).nSub 0) => payL m d (LV c i) (m (oLoc d))) = _
  exact pays_eq m d (m (oLoc d))

/-- and what it hands back: the output whole at the function the claim names. -/
theorem dn0_joinV (d : Dev nD) :
    (bigSep Finset.univ fun c : Fin ((K (F := F)).nCore 0) => (PV m).dn 0 d c)
      = iprop((bigSep Finset.univ fun t : Fin 26 => bigSep Finset.univ fun w : Fin 32 => tblAt m d (Transfers.shareTok fullShare 32 w) t)
          ∗ (bigSep Finset.univ fun t : Fin 26 => colAt m d Finset.univ t) ∗ (oLoc d ↦[Finset.univ]{fullShare} GO m d)) := by
  show (bigSep Finset.univ fun c : Fin ((K (F := F)).nCore 0) => bigSep Finset.univ fun i : Fin ((K (F := F)).nSub 0) => payL m d (LV c i) (GO m d)) = _
  exact pays_eq m d (GO m d)

end Cert.Proof.KIV

end
-- ==== Proof.LaunchKI.lean ====
import proofs.«204019_g4913442586959_cont_sun_m_672_34_alg».proof.Proof.LaunchKIa
import Idealize.ShloMosaic.Lib.Pipeline.Frame
import proofs.«204019_g4913442586959_cont_sun_m_672_34_alg».proof.Proof.Gen.Pre_input_domain

/-!
# The launch

@main on a TensorCore: the 26 reshapes run as one straight line over the buffers the TensorCore holds whole; the
reshaped columns, the tables and the output are then taken out of that set, split among the 32 tiles and handed to
the call; what comes back is joined, and the tables and the output (now at the function the claim names) are put
beside the rest, which no step has touched. The final memory is read off what is held.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

local notation "𝕄" => MT nD τ sig (HIx 1) (Elt F) ℕ UU ℕ

open Idealize.ShloMosaic.Pipeline (ucRefs unscopedBufs_held sub_ucRefs)

/-! ## Reading a held set off the final state -/

/-- Under the state interpretation, buffers held whole pin the physical contents. -/
theorem held_agree (c : Thread nD τ) (S' : Finset (DevRef τ sig)) (W : Valuation τ sig (Elt F)) (st : Phys nD τ sig (Elt F)) :
    iprop((held c S' W : sProp 𝕄) ∗ SI st) ⊢ (⌜∀ b ∈ S', st.mem.mem (c.1, b) = W b⌝ : sProp 𝕄) := by
  classical
  unfold held
  induction S' using Finset.induction_on with
  | empty =>
    iintro -
    ipureintro
    exact fun b hb => absurd hb (Finset.notMem_empty b)
  | insert b S' hb ih =>
    rw [SparseCore.bigSep_insert' hb]
    iintro ⟨⟨Hb, HS⟩, HSI⟩
    ihave H := (persistent_entails_right (SI_pointsTo_agree (st := st) (ℓ := (c.1, b)) (I := Finset.univ) (q := fullShare) (f := W b))) $$ [HSI Hb]
    · isplitl [HSI] <;> iassumption
    icases H with ⟨%h1, HSI, -⟩
    ihave %h2 := ih $$ [HS HSI]
    · isplitl [HS] <;> iassumption
    ipureintro
    intro b' hb'
    rcases Finset.mem_insert.1 hb' with rfl | hb'
    · exact funext fun i => h1 i (Finset.mem_univ i)
    · exact h2 b' hb'

/-! ## The reshapes -/

theorem mainOps_ok : ∀ op ∈ (mainOps : List (HloOp τ sig (Elt F))), op.bufs ⊆ ucRefs τ sig ∧ op.fresh = ∅ := by
  have key : ∀ (x y : Ref sig .tc) (he : x.ty.elt = y.ty.elt) (hn : x.ty.shape.ShapeCasts y.ty.shape)
      (hx : x.space ≠ .host ∧ (Proc.devRef (τ := τ) .tc x).isScoped = false) (hy : y.space ≠ .host ∧ (Proc.devRef (τ := τ) .tc y).isScoped = false),
      (StableHlo.reshape (τ := τ) (Val := Elt F) x y he hn hx hy).bufs ⊆ ucRefs τ sig
        ∧ (StableHlo.reshape (τ := τ) (Val := Elt F) x y he hn hx hy).fresh = ∅ :=
    fun x y he hn hx hy => ⟨sub_ucRefs _ (StableHlo.reshape_bufs_sub (he := he) (hn := hn) (hx := hx) (hy := hy)), rfl⟩
  intro op hop
  unfold mainOps at hop
  simp only [List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl <;> exact key _ _ _ _ _ _

/-! ## The held set, array by array -/

theorem vRefs_inj : Function.Injective (vRefs : Fin 26 → DevRef τ sig) := by decide
theorem tblRefs_inj : Function.Injective (tblRefs : Fin 26 → DevRef τ sig) := by decide

/-- The reshaped columns, the tables, the output, and the TensorCore's other unscoped buffers. -/
def vS : Finset (DevRef τ sig) := Finset.univ.map ⟨vRefs, vRefs_inj⟩
def tblS : Finset (DevRef τ sig) := Finset.univ.map ⟨tblRefs, tblRefs_inj⟩
abbrev oRef : DevRef τ sig := Proc.devRef .tc (main_v26 : Ref sig .tc)
def restS : Finset (DevRef τ sig) := ((ucRefs τ sig \ vS) \ tblS) \ {oRef}

theorem mem_ucRefs (r : Ref sig .tc) (h : (Proc.devRef (τ := τ) .tc r).isScoped = false) : Proc.devRef (τ := τ) .tc r ∈ ucRefs τ sig :=
  Finset.mem_filter.mpr ⟨StableHlo.devRef_mem_tcRefs r, by rw [h]; exact Bool.false_ne_true⟩

theorem vRefs_mem (t : Fin 26) : vRefs t ∈ ucRefs τ sig := by fin_cases t <;> exact mem_ucRefs _ rfl
theorem tblRefs_mem (t : Fin 26) : tblRefs t ∈ ucRefs τ sig := by fin_cases t <;> exact mem_ucRefs _ rfl
theorem colRefs_mem (t : Fin 26) : colRefs t ∈ ucRefs τ sig := by fin_cases t <;> exact mem_ucRefs _ rfl
theorem oRef_mem : oRef ∈ ucRefs τ sig := mem_ucRefs _ rfl

theorem tbl_not_v : ∀ t : Fin 26, tblRefs t ∉ vS := by decide
theorem col_not_v : ∀ t : Fin 26, colRefs t ∉ vS := by decide
theorem col_not_tbl : ∀ t : Fin 26, colRefs t ∉ tblS := by decide
theorem col_ne_o : ∀ t : Fin 26, colRefs t ≠ oRef := by decide
theorem o_not_v : oRef ∉ vS := by decide
theorem o_not_tbl : oRef ∉ tblS := by decide

theorem vS_sub : vS ⊆ ucRefs τ sig := fun b hb => by
  obtain ⟨t, -, rfl⟩ := Finset.mem_map.1 hb
  exact vRefs_mem t
theorem tblS_sub : tblS ⊆ ucRefs τ sig \ vS := fun b hb => by
  obtain ⟨t, -, rfl⟩ := Finset.mem_map.1 hb
  exact Finset.mem_sdiff.2 ⟨tblRefs_mem t, tbl_not_v t⟩
theorem o_sub : ({oRef} : Finset (DevRef τ sig)) ⊆ (ucRefs τ sig \ vS) \ tblS :=
  Finset.singleton_subset_iff.2 (Finset.mem_sdiff.2 ⟨Finset.mem_sdiff.2 ⟨oRef_mem, o_not_v⟩, o_not_tbl⟩)
theorem colRefs_mem_rest (t : Fin 26) : colRefs t ∈ restS :=
  Finset.mem_sdiff.2 ⟨Finset.mem_sdiff.2 ⟨Finset.mem_sdiff.2 ⟨colRefs_mem t, col_not_v t⟩, col_not_tbl t⟩,
    fun h => col_ne_o t (Finset.mem_singleton.1 h)⟩

/-- Every reshape writes a reshaped column only. -/
theorem writes_sub_vS : ∀ op ∈ (mainOps : List (HloOp τ sig (Elt F))), op.writes ⊆ vS := by
  intro op hop
  unfold mainOps at hop
  simp only [List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl <;> (rw [StableHlo.reshape_writes]; decide)

variable (m : (ℓ : Loc nD τ sig) → Buf (Elt F) ℓ) (ρ : Dev nD → PrngReg)

/-- A buffer that is not a reshaped column is at its launch contents after the reshapes. -/
theorem V1_of_not_v (d : Dev nD) {b : DevRef τ sig} (hb : b ∉ vS) : V1 m d b = V0 m d b :=
  StableHlo.after_of_forall_not_mem mainOps (V0 m d) fun op hop hw => hb (writes_sub_vS op hop hw)

theorem held_vS (d : Dev nD) :
    (held (d.tc : Thread nD τ) vS (V1 m d) : sProp 𝕄) = bigSep Finset.univ fun t : Fin 26 => colAt m d Finset.univ t := by
  unfold held vS
  rw [bigSep_map]
  exact bigSep_congr fun t _ => by fin_cases t <;> rfl

theorem held_tblS (d : Dev nD) :
    (held (d.tc : Thread nD τ) tblS (V0 m d) : sProp 𝕄) = bigSep Finset.univ fun t : Fin 26 => tblAt m d fullShare t := by
  unfold held tblS
  rw [bigSep_map]
  exact bigSep_congr fun t _ => by fin_cases t <;> rfl

omit m in
theorem held_o (d : Dev nD) (W : Valuation τ sig (Elt F)) :
    (held (d.tc : Thread nD τ) {oRef} W : sProp 𝕄) = (oLoc d ↦[Finset.univ]{fullShare} W oRef) := by
  unfold held
  rw [bigSep_singleton]

/-- After the reshapes the TensorCore holds: the reshaped columns, the tables, the output, and the rest untouched. -/
theorem held_parts (d : Dev nD) :
    (held (d.tc : Thread nD τ) (ucRefs τ sig) (V1 m d) : sProp 𝕄)
      = iprop((bigSep Finset.univ fun t : Fin 26 => colAt m d Finset.univ t) ∗ (bigSep Finset.univ fun t : Fin 26 => tblAt m d fullShare t)
          ∗ (oLoc d ↦[Finset.univ]{fullShare} m (oLoc d)) ∗ held (d.tc : Thread nD τ) restS (V0 m d)) := by
  rw [StableHlo.held_sub_split (d.tc : Thread nD τ) vS_sub (V1 m d), held_vS,
    StableHlo.held_congr (d.tc : Thread nD τ) (S := ucRefs τ sig \ vS) (V := V1 m d) (V' := V0 m d)
      (fun b hb => V1_of_not_v m d (Finset.mem_sdiff.1 hb).2),
    StableHlo.held_sub_split (d.tc : Thread nD τ) tblS_sub (V0 m d), held_tblS,
    StableHlo.held_sub_split (d.tc : Thread nD τ) o_sub (V0 m d), held_o]
  rfl

/-- The same, the contents after the reshapes written out. -/
theorem held_parts' (d : Dev nD) :
    (held (d.tc : Thread nD τ) (ucRefs τ sig) (StableHlo.after mainOps (V0 m d)) : sProp 𝕄)
      = iprop((bigSep Finset.univ fun t : Fin 26 => colAt m d Finset.univ t) ∗ (bigSep Finset.univ fun t : Fin 26 => tblAt m d fullShare t)
          ∗ (oLoc d ↦[Finset.univ]{fullShare} m (oLoc d)) ∗ held (d.tc : Thread nD τ) restS (V0 m d)) := held_parts m d

/-- The tables, each whole: their remainders and their 32 shares; -/
theorem tbls_split (d : Dev nD) :
    (bigSep Finset.univ fun t : Fin 26 => tblAt m d fullShare t)
      ⊢ (iprop((bigSep Finset.univ fun t : Fin 26 => tblAt m d (Transfers.shareDrop fullShare 32) t)
        ∗ bigSep Finset.univ fun t : Fin 26 => bigSep Finset.univ fun w : Fin 32 => tblAt m d (Transfers.shareTok fullShare 32 w) t) : sProp 𝕄) := by
  rw [← bigSep_sep']
  exact bigSep_mono fun t _ => (tbl_toks m d t).1

/-- joined back. -/
theorem tbls_join (d : Dev nD) :
    (iprop((bigSep Finset.univ fun t : Fin 26 => tblAt m d (Transfers.shareDrop fullShare 32) t)
        ∗ bigSep Finset.univ fun t : Fin 26 => bigSep Finset.univ fun w : Fin 32 => tblAt m d (Transfers.shareTok fullShare 32 w) t) : sProp 𝕄)
      ⊢ bigSep Finset.univ fun t : Fin 26 => tblAt m d fullShare t := by
  rw [← bigSep_sep']
  exact bigSep_mono fun t _ => (tbl_toks m d t).2

/-! ## @main on the TensorCore -/

variable [FloatOps F]

/-- @main is the 26 reshapes in a row, then the call. -/
theorem main_eq (d : Dev nD) :
    main (F := F) d = StableHlo.seq (mainOps (F := F)) >>= fun _ => ((K (F := F)).run d 0 >>= fun _ => pure ⟨⟩) := rfl

/-- What @main leaves the claim: the tables and the other untouched buffers (the columns among them) at their launch
    contents, the output at what the tiles left. -/
def FIN (d : Dev nD) : sProp 𝕄 :=
  iprop((bigSep Finset.univ fun t : Fin 26 => tblAt m d fullShare t) ∗ (∃ g, oLoc d ↦[Finset.univ]{fullShare} g)
    ∗ held (d.tc : Thread nD τ) restS (V0 m d))

set_option backward.isDefEq.respectTransparency.types false in
set_option maxHeartbeats 2000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (d.tc : Thread nD τ) (ucRefs τ sig) (V0 m d)
      from unscopedBufs_held d (V0 m d), main_eq]
  iintro ⟨#Hctx, Hst, ⟨Hb, Hheld, -, -⟩, -⟩
  iapply (StableHlo.wp_seq 𝒱 none Set.univ d (ucRefs τ sig) _ mainOps (fun op h => (mainOps_ok op h).1)
    (fun op h => (mainOps_ok op h).2) (V0 m d)) $$ [Hb Hheld]
  · isplitl [Hb]; · iexact Hb
    iexact Hheld
  iintro ⟨Hb, Hheld⟩
  ihave H := (Entails.of_eq (held_parts' m d)) $$ Hheld
  icases H with ⟨Hv, Htbl, Ho, Hrest⟩
  ihave Ht := (tbls_split m d) $$ Htbl
  icases Ht with ⟨Hdrop, Htok⟩
  simp only [wp_bind, wp_pure]
  iapply ((K (F := F)).wp_run (D (F := F)) 𝒱 (EH := EH) (P := P m) κ d 0) $$ [Hst Htok Hv Ho Hdrop Hrest Hb]
  isplitr; · iexact Hctx
  isplitl [Hst]; · iexact Hst
  isplitl [Htok Hv Ho]
  · rw [st0_eq]
    isplitl [Htok]; · iexact Htok
    isplitl [Hv]; · iexact Hv
    iexact Ho
  iintro ⟨Hst, Hdn⟩
  ihave Hdn' := (dn0_join m d) $$ Hdn
  icases Hdn' with ⟨Htok, -, Ho⟩
  ihave Htbl := (tbls_join m d) $$ [Hdrop Htok]
  · isplitl [Hdrop]; · iexact Hdrop
    iexact Htok
  imodintro
  isplitl [Hst]; · iexact Hst
  unfold FIN
  isplitl [Htbl]; · iexact Htbl
  isplitl [Ho]; · iexact Ho
  iexact Hrest

/-- The claim's reading of the final memory of device `d`: the 52 arguments hold what they held (the output what it holds). -/
def fq (d : Dev nD) (s' : Phys nD τ sig (Elt F)) : Prop := QCat.{0} m d (s'.mem.mem ((d.tc : Thread nD τ).loc main_v26)) (⟨⟩, s'.mem)

set_option maxRecDepth 16384 in
set_option maxHeartbeats 2000000 in
theorem hfin (d : Dev nD) (s' : Phys nD τ sig (Elt F)) : iprop(FIN m d ∗ SI s') ⊢ (⌜fq m d s'⌝ : sProp 𝕄) := by
  unfold FIN
  rw [← held_tblS]
  iintro ⟨⟨Htbl, -, Hrest⟩, HSI⟩
  ihave H := (persistent_entails_right (held_agree (d.tc : Thread nD τ) tblS (V0 m d) s')) $$ [Htbl HSI]
  · isplitl [Htbl] <;> iassumption
  icases H with ⟨%ht, -, HSI⟩
  ihave %hr := (held_agree (d.tc : Thread nD τ) restS (V0 m d) s') $$ [Hrest HSI]
  · isplitl [Hrest] <;> iassumption
  ipureintro
  have hc : ∀ t : Fin 26, s'.mem.mem (d, colRefs t) = V0 m d (colRefs t) := fun t => hr _ (colRefs_mem_rest t)
  have htb : ∀ t : Fin 26, s'.mem.mem (d, tblRefs t) = V0 m d (tblRefs t) :=
    fun t => ht _ (Finset.mem_map_of_mem _ (Finset.mem_univ t))
  unfold fq QCat
  exact ⟨rfl, hc 0, hc 1, hc 2, hc 3, hc 4, hc 5, hc 6, hc 7, hc 8, hc 9, hc 10, hc 11, hc 12, hc 13, hc 14, hc 15, hc 16, hc 17, hc 18, hc 19, hc 20, hc 21, hc 22, hc 23, hc 24, hc 25, htb 0, htb 1, htb 2, htb 3, htb 4, htb 5, htb 6, htb 7, htb 8, htb 9, htb 10, htb 11, htb 12, htb 13, htb 14, htb 15, htb 16, htb 17, htb 18, htb 19, htb 20, htb 21, htb 22, htb 23, htb 24, htb 25⟩

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program's run -/

/-- On every device the 52 arguments hold what they held. -/
def QC : PUnit × MemSt nD τ sig (Elt F) → Prop := fun r => ∀ d : Dev nD, QCat.{0} m d (r.2.mem ((d.tc : Thread nD τ).loc main_v26)) r

/-- Given the tiles' obligation, every weakly fair run of the program ends, in a memory of which `QC` holds. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.LaunchValKI.lean ====
import proofs.«204019_g4913442586959_cont_sun_m_672_34_alg».proof.Proof.LaunchValKIa
import proofs.«204019_g4913442586959_cont_sun_m_672_34_alg».proof.Proof.LaunchKI

/-!
# The launch, the output at its value

As the frame form: the reshapes, the split, the call, the join. What comes back now holds the output at the function
the claim names, so the final memory's output is read off what is held as the other arrays are.
-/

noncomputable section

namespace Cert.Proof.KIV

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Cert.Proof.KI

variable {F : FTy → Type}

local notation "𝕄" => MT nD τ sig (HIx 1) (Elt F) ℕ UU ℕ

open Idealize.ShloMosaic.Pipeline (ucRefs unscopedBufs_held sub_ucRefs)

variable (m : (ℓ : Loc nD τ sig) → Buf (Elt F) ℓ) (ρ : Dev nD → PrngReg)

variable [FloatOps F]

/-- What @main leaves the claim: the tables and the other untouched buffers (the columns among them) at their launch
    contents, the output at the function the claim names. -/
def FINV (d : Dev nD) : sProp 𝕄 :=
  iprop((bigSep Finset.univ fun t : Fin 26 => tblAt m d fullShare t) ∗ (oLoc d ↦[Finset.univ]{fullShare} GO m d)
    ∗ held (d.tc : Thread nD τ) restS (V0 m d))

set_option backward.isDefEq.respectTransparency.types false in
set_option maxHeartbeats 2000000 in
theorem hmainV (κ : GSem nD τ sig → ℕ) (d : Dev nD) :
    iprop((K (F := F)).ctx EH (PV m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [show (unscopedBufs d (fun b => m ((SparseCore.T d).loc b)) : sProp 𝕄) = held (d.tc : Thread nD τ) (ucRefs τ sig) (V0 m d)
      from unscopedBufs_held d (V0 m d), main_eq]
  iintro ⟨#Hctx, Hst, ⟨Hb, Hheld, -, -⟩, -⟩
  iapply (StableHlo.wp_seq 𝒱 none Set.univ d (ucRefs τ sig) _ mainOps (fun op h => (mainOps_ok op h).1)
    (fun op h => (mainOps_ok op h).2) (V0 m d)) $$ [Hb Hheld]
  · isplitl [Hb]; · iexact Hb
    iexact Hheld
  iintro ⟨Hb, Hheld⟩
  ihave H := (Entails.of_eq (held_parts' m d)) $$ Hheld
  icases H with ⟨Hv, Htbl, Ho, Hrest⟩
  ihave Ht := (tbls_split m d) $$ Htbl
  icases Ht with ⟨Hdrop, Htok⟩
  simp only [wp_bind, wp_pure]
  iapply ((K (F := F)).wp_run (D (F := F)) 𝒱 (EH := EH) (P := PV m) κ d 0) $$ [Hst Htok Hv Ho Hdrop Hrest Hb]
  isplitr; · iexact Hctx
  isplitl [Hst]; · iexact Hst
  isplitl [Htok Hv Ho]
  · rw [st0_eqV]
    isplitl [Htok]; · iexact Htok
    isplitl [Hv]; · iexact Hv
    iexact Ho
  iintro ⟨Hst, Hdn⟩
  ihave Hdn' := (Entails.of_eq (dn0_joinV m d)) $$ Hdn
  icases Hdn' with ⟨Htok, -, Ho⟩
  ihave Htbl := (tbls_join m d) $$ [Hdrop Htok]
  · isplitl [Hdrop]; · iexact Hdrop
    iexact Htok
  imodintro
  isplitl [Hst]; · iexact Hst
  unfold FINV
  isplitl [Htbl]; · iexact Htbl
  isplitl [Ho]; · iexact Ho
  iexact Hrest

/-- The claim's reading of the final memory of device `d`: the output holds the function the claim names, the 52
    arguments what they held. -/
def fqV (d : Dev nD) (s' : Phys nD τ sig (Elt F)) : Prop := QCat.{0} m d (GO m d) (⟨⟩, s'.mem)

set_option maxRecDepth 16384 in
set_option maxHeartbeats 2000000 in
theorem hfinV (d : Dev nD) (s' : Phys nD τ sig (Elt F)) : iprop(FINV m d ∗ SI s') ⊢ (⌜fqV m d s'⌝ : sProp 𝕄) := by
  unfold FINV
  rw [← held_tblS]
  iintro ⟨⟨Htbl, Ho, Hrest⟩, HSI⟩
  ihave H := (persistent_entails_right (held_agree (d.tc : Thread nD τ) tblS (V0 m d) s')) $$ [Htbl HSI]
  · isplitl [Htbl] <;> iassumption
  icases H with ⟨%ht, -, HSI⟩
  ihave H2 := (persistent_entails_right (SI_pointsTo_agree (st := s') (ℓ := oLoc d) (I := Finset.univ) (q := fullShare) (f := GO m d))) $$ [HSI Ho]
  · isplitl [HSI] <;> iassumption
  icases H2 with ⟨%ho, HSI, -⟩
  ihave %hr := (held_agree (d.tc : Thread nD τ) restS (V0 m d) s') $$ [Hrest HSI]
  · isplitl [Hrest] <;> iassumption
  ipureintro
  have hc : ∀ t : Fin 26, s'.mem.mem (d, colRefs t) = V0 m d (colRefs t) := fun t => hr _ (colRefs_mem_rest t)
  have htb : ∀ t : Fin 26, s'.mem.mem (d, tblRefs t) = V0 m d (tblRefs t) :=
    fun t => ht _ (Finset.mem_map_of_mem _ (Finset.mem_univ t))
  have hov : s'.mem.mem ((d.tc : Thread nD τ).loc main_v26) = GO m d := funext fun i => ho i (Finset.mem_univ i)
  unfold fqV QCat
  exact ⟨hov, hc 0, hc 1, hc 2, hc 3, hc 4, hc 5, hc 6, hc 7, hc 8, hc 9, hc 10, hc 11, hc 12, hc 13, hc 14, hc 15, hc 16, hc 17, hc 18, hc 19, hc 20, hc 21, hc 22, hc 23, hc 24, hc 25, htb 0, htb 1, htb 2, htb 3, htb 4, htb 5, htb 6, htb 7, htb 8, htb 9, htb 10, htb 11, htb 12, htb 13, htb 14, htb 15, htb 16, htb 17, htb 18, htb 19, htb 20, htb 21, htb 22, htb 23, htb 24, htb 25⟩

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PV m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (PV (F := F) m).x q thr) = bigSep Finset.univ fun _ => iprop(emp) from
    bigSep_congr fun _ _ => bigSep_univ_of_subsingleton (0 : Fin 1), bigSep_emp']
  iempintro

/-- On every device the output holds the function the claim names and the 52 arguments what they held. -/
def QCV : PUnit × MemSt nD τ sig (Elt F) → Prop := fun r => ∀ d : Dev nD, QCat.{0} m d (GO m d) r

/-- Given the tiles' obligation in value form, every weakly fair run of the program ends, in a memory of which
    `QCV` holds. -/
theorem run_main_val [∀ e, Nonempty (Elt F e)] (htile : (K (F := F)).TileObl (D (F := F)) 𝒱 (PV m) v₀ 0) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PV m) facts v₀
    (fun q hq => match q with | 0 => nomatch hq)
    (fun q _ => match q with | 0 => htile)
    (fun q _ => match q with | 0 => SparseCore.Cfg.VecSplit.of_plain (vecSplitV m))
    m ρ main (fun _ => iprop(emp)) (FINV m) (u₀ (F := F)) (sep_elim_left.trans (hu₀V m)) (hmainV m ρ) (fqV m) (hfinV m) (QCV m) (fun _ h => h)

end Cert.Proof.KIV

end
-- ==== Proof.ColValKI.lean ====
import proofs.«204019_g4913442586959_cont_sun_m_672_34_alg».proof.Proof.TablesKI
import Idealize.ShloMosaic.Lib.ValueIdx

/-!
# The reshaped columns

The host reshapes each column of 16384 words into 128 rows of 128 words before the call: entry `(R, p)` of the
reshaped column is entry `128·R + p` of the column (row-major order on both sides).
-/

noncomputable section

namespace Cert.Proof.KIV

open Cert.KernelIdeal Cert.KernelIdeal.Gen

open Idealize.ShloMosaic
open Idealize.ShloMosaic.SparseCore (S V T)
open Idealize.ShloMosaic.ValueIdx
open Idealize.ShloMosaic.StableHlo
open Cert.Proof.KI

variable {F : FTy → Type}

/-- The position of entry `(R, p)` of a reshaped column in the column. -/
def colIx (R p : Fin 128) : Fin 16384 := ⟨128 * R.val + p.val, by have := R.isLt; have := p.isLt; omega⟩

/-- A column of 16384 entries cast to 128 rows of 128 reads, at `(R, p)`, the column at `128·R + p`. -/
theorem shapeCast_col {α : Type} (x : S16384.Idx → α) (h : S16384.ShapeCasts S128x128) (R p : Fin 128) :
    shapeCast S128x128 x h (ix2 R p) = x (ix1 (colIx R p)) := by
  unfold shapeCast
  refine congrArg x (Shape.reshapeEquiv_eq_of_rowMajor h ?_)
  rw [Shape.rowMajor_val_one, Shape.rowMajor_val_two]
  show 128 * R.val + p.val = R.val * 128 + p.val
  omega

variable (m : (ℓ : Loc nD τ sig) → Buf (Elt F) ℓ)

theorem V1_col_0 (d : Dev nD) (R p : Fin 128) :
    (V1 m d (Proc.devRef .tc (main_v0 : Ref sig .tc)) : S128x128.Idx → Elt F .i32) (ix2 R p) = colVal0 m d (ix1 (colIx R p)) := by
  have e : (V1 m d (Proc.devRef .tc (main_v0 : Ref sig .tc)) : S128x128.Idx → Elt F .i32)
      = shapeCast S128x128 (colVal0 m d) shapeCasts_S16384_S128x128 := by
    show StableHlo.after mainOps (V0 m d) (Proc.devRef .tc (main_v0 : Ref sig .tc)) = _
    unfold mainOps
    after_results
    rfl
  rw [e]
  exact shapeCast_col _ _ R p
theorem V1_col_1 (d : Dev nD) (R p : Fin 128) :
    (V1 m d (Proc.devRef .tc (main_v1 : Ref sig .tc)) : S128x128.Idx → Elt F .i32) (ix2 R p) = colVal1 m d (ix1 (colIx R p)) := by
  have e : (V1 m d (Proc.devRef .tc (main_v1 : Ref sig .tc)) : S128x128.Idx → Elt F .i32)
      = shapeCast S128x128 (colVal1 m d) shapeCasts_S16384_S128x128 := by
    show StableHlo.after mainOps (V0 m d) (Proc.devRef .tc (main_v1 : Ref sig .tc)) = _
    unfold mainOps
    after_results
    rfl
  rw [e]
  exact shapeCast_col _ _ R p
theorem V1_col_2 (d : Dev nD) (R p : Fin 128) :
    (V1 m d (Proc.devRef .tc (main_v2 : Ref sig .tc)) : S128x128.Idx → Elt F .i32) (ix2 R p) = colVal2 m d (ix1 (colIx R p)) := by
  have e : (V1 m d (Proc.devRef .tc (main_v2 : Ref sig .tc)) : S128x128.Idx → Elt F .i32)
      = shapeCast S128x128 (colVal2 m d) shapeCasts_S16384_S128x128 := by
    show StableHlo.after mainOps (V0 m d) (Proc.devRef .tc (main_v2 : Ref sig .tc)) = _
    unfold mainOps
    after_results
    rfl
  rw [e]
  exact shapeCast_col _ _ R p
theorem V1_col_3 (d : Dev nD) (R p : Fin 128) :
    (V1 m d (Proc.devRef .tc (main_v3 : Ref sig .tc)) : S128x128.Idx → Elt F .i32) (ix2 R p) = colVal3 m d (ix1 (colIx R p)) := by
  have e : (V1 m d (Proc.devRef .tc (main_v3 : Ref sig .tc)) : S128x128.Idx → Elt F .i32)
      = shapeCast S128x128 (colVal3 m d) shapeCasts_S16384_S128x128 := by
    show StableHlo.after mainOps (V0 m d) (Proc.devRef .tc (main_v3 : Ref sig .tc)) = _
    unfold mainOps
    after_results
    rfl
  rw [e]
  exact shapeCast_col _ _ R p
theorem V1_col_4 (d : Dev nD) (R p : Fin 128) :
    (V1 m d (Proc.devRef .tc (main_v4 : Ref sig .tc)) : S128x128.Idx → Elt F .i32) (ix2 R p) = colVal4 m d (ix1 (colIx R p)) := by
  have e : (V1 m d (Proc.devRef .tc (main_v4 : Ref sig .tc)) : S128x128.Idx → Elt F .i32)
      = shapeCast S128x128 (colVal4 m d) shapeCasts_S16384_S128x128 := by
    show StableHlo.after mainOps (V0 m d) (Proc.devRef .tc (main_v4 : Ref sig .tc)) = _
    unfold mainOps
    after_results
    rfl
  rw [e]
  exact shapeCast_col _ _ R p
theorem V1_col_5 (d : Dev nD) (R p : Fin 128) :
    (V1 m d (Proc.devRef .tc (main_v5 : Ref sig .tc)) : S128x128.Idx → Elt F .i32) (ix2 R p) = colVal5 m d (ix1 (colIx R p)) := by
  have e : (V1 m d (Proc.devRef .tc (main_v5 : Ref sig .tc)) : S128x128.Idx → Elt F .i32)
      = shapeCast S128x128 (colVal5 m d) shapeCasts_S16384_S128x128 := by
    show StableHlo.after mainOps (V0 m d) (Proc.devRef .tc (main_v5 : Ref sig .tc)) = _
    unfold mainOps
    after_results
    rfl
  rw [e]
  exact shapeCast_col _ _ R p
theorem V1_col_6 (d : Dev nD) (R p : Fin 128) :
    (V1 m d (Proc.devRef .tc (main_v6 : Ref sig .tc)) : S128x128.Idx → Elt F .i32) (ix2 R p) = colVal6 m d (ix1 (colIx R p)) := by
  have e : (V1 m d (Proc.devRef .tc (main_v6 : Ref sig .tc)) : S128x128.Idx → Elt F .i32)
      = shapeCast S128x128 (colVal6 m d) shapeCasts_S16384_S128x128 := by
    show StableHlo.after mainOps (V0 m d) (Proc.devRef .tc (main_v6 : Ref sig .tc)) = _
    unfold mainOps
    after_results
    rfl
  rw [e]
  exact shapeCast_col _ _ R p
theorem V1_col_7 (d : Dev nD) (R p : Fin 128) :
    (V1 m d (Proc.devRef .tc (main_v7 : Ref sig .tc)) : S128x128.Idx → Elt F .i32) (ix2 R p) = colVal7 m d (ix1 (colIx R p)) := by
  have e : (V1 m d (Proc.devRef .tc (main_v7 : Ref sig .tc)) : S128x128.Idx → Elt F .i32)
      = shapeCast S128x128 (colVal7 m d) shapeCasts_S16384_S128x128 := by
    show StableHlo.after mainOps (V0 m d) (Proc.devRef .tc (main_v7 : Ref sig .tc)) = _
    unfold mainOps
    after_results
    rfl
  rw [e]
  exact shapeCast_col _ _ R p
theorem V1_col_8 (d : Dev nD) (R p : Fin 128) :
    (V1 m d (Proc.devRef .tc (main_v8 : Ref sig .tc)) : S128x128.Idx → Elt F .i32) (ix2 R p) = colVal8 m d (ix1 (colIx R p)) := by
  have e : (V1 m d (Proc.devRef .tc (main_v8 : Ref sig .tc)) : S128x128.Idx → Elt F .i32)
      = shapeCast S128x128 (colVal8 m d) shapeCasts_S16384_S128x128 := by
    show StableHlo.after mainOps (V0 m d) (Proc.devRef .tc (main_v8 : Ref sig .tc)) = _
    unfold mainOps
    after_results
    rfl
  rw [e]
  exact shapeCast_col _ _ R p
theorem V1_col_9 (d : Dev nD) (R p : Fin 128) :
    (V1 m d (Proc.devRef .tc (main_v9 : Ref sig .tc)) : S128x128.Idx → Elt F .i32) (ix2 R p) = colVal9 m d (ix1 (colIx R p)) := by
  have e : (V1 m d (Proc.devRef .tc (main_v9 : Ref sig .tc)) : S128x128.Idx → Elt F .i32)
      = shapeCast S128x128 (colVal9 m d) shapeCasts_S16384_S128x128 := by
    show StableHlo.after mainOps (V0 m d) (Proc.devRef .tc (main_v9 : Ref sig .tc)) = _
    unfold mainOps
    after_results
    rfl
  rw [e]
  exact shapeCast_col _ _ R p
theorem V1_col_10 (d : Dev nD) (R p : Fin 128) :
    (V1 m d (Proc.devRef .tc (main_v10 : Ref sig .tc)) : S128x128.Idx → Elt F .i32) (ix2 R p) = colVal10 m d (ix1 (colIx R p)) := by
  have e : (V1 m d (Proc.devRef .tc (main_v10 : Ref sig .tc)) : S128x128.Idx → Elt F .i32)
      = shapeCast S128x128 (colVal10 m d) shapeCasts_S16384_S128x128 := by
    show StableHlo.after mainOps (V0 m d) (Proc.devRef .tc (main_v10 : Ref sig .tc)) = _
    unfold mainOps
    after_results
    rfl
  rw [e]
  exact shapeCast_col _ _ R p
theorem V1_col_11 (d : Dev nD) (R p : Fin 128) :
    (V1 m d (Proc.devRef .tc (main_v11 : Ref sig .tc)) : S128x128.Idx → Elt F .i32) (ix2 R p) = colVal11 m d (ix1 (colIx R p)) := by
  have e : (V1 m d (Proc.devRef .tc (main_v11 : Ref sig .tc)) : S128x128.Idx → Elt F .i32)
      = shapeCast S128x128 (colVal11 m d) shapeCasts_S16384_S128x128 := by
    show StableHlo.after mainOps (V0 m d) (Proc.devRef .tc (main_v11 : Ref sig .tc)) = _
    unfold mainOps
    after_results
    rfl
  rw [e]
  exact shapeCast_col _ _ R p
theorem V1_col_12 (d : Dev nD) (R p : Fin 128) :
    (V1 m d (Proc.devRef .tc (main_v12 : Ref sig .tc)) : S128x128.Idx → Elt F .i32) (ix2 R p) = colVal12 m d (ix1 (colIx R p)) := by
  have e : (V1 m d (Proc.devRef .tc (main_v12 : Ref sig .tc)) : S128x128.Idx → Elt F .i32)
      = shapeCast S128x128 (colVal12 m d) shapeCasts_S16384_S128x128 := by
    show StableHlo.after mainOps (V0 m d) (Proc.devRef .tc (main_v12 : Ref sig .tc)) = _
    unfold mainOps
    after_results
    rfl
  rw [e]
  exact shapeCast_col _ _ R p
theorem V1_col_13 (d : Dev nD) (R p : Fin 128) :
    (V1 m d (Proc.devRef .tc (main_v13 : Ref sig .tc)) : S128x128.Idx → Elt F .i32) (ix2 R p) = colVal13 m d (ix1 (colIx R p)) := by
  have e : (V1 m d (Proc.devRef .tc (main_v13 : Ref sig .tc)) : S128x128.Idx → Elt F .i32)
      = shapeCast S128x128 (colVal13 m d) shapeCasts_S16384_S128x128 := by
    show StableHlo.after mainOps (V0 m d) (Proc.devRef .tc (main_v13 : Ref sig .tc)) = _
    unfold mainOps
    after_results
    rfl
  rw [e]
  exact shapeCast_col _ _ R p
theorem V1_col_14 (d : Dev nD) (R p : Fin 128) :
    (V1 m d (Proc.devRef .tc (main_v14 : Ref sig .tc)) : S128x128.Idx → Elt F .i32) (ix2 R p) = colVal14 m d (ix1 (colIx R p)) := by
  have e : (V1 m d (Proc.devRef .tc (main_v14 : Ref sig .tc)) : S128x128.Idx → Elt F .i32)
      = shapeCast S128x128 (colVal14 m d) shapeCasts_S16384_S128x128 := by
    show StableHlo.after mainOps (V0 m d) (Proc.devRef .tc (main_v14 : Ref sig .tc)) = _
    unfold mainOps
    after_results
    rfl
  rw [e]
  exact shapeCast_col _ _ R p
theorem V1_col_15 (d : Dev nD) (R p : Fin 128) :
    (V1 m d (Proc.devRef .tc (main_v15 : Ref sig .tc)) : S128x128.Idx → Elt F .i32) (ix2 R p) = colVal15 m d (ix1 (colIx R p)) := by
  have e : (V1 m d (Proc.devRef .tc (main_v15 : Ref sig .tc)) : S128x128.Idx → Elt F .i32)
      = shapeCast S128x128 (colVal15 m d) shapeCasts_S16384_S128x128 := by
    show StableHlo.after mainOps (V0 m d) (Proc.devRef .tc (main_v15 : Ref sig .tc)) = _
    unfold mainOps
    after_results
    rfl
  rw [e]
  exact shapeCast_col _ _ R p
theorem V1_col_16 (d : Dev nD) (R p : Fin 128) :
    (V1 m d (Proc.devRef .tc (main_v16 : Ref sig .tc)) : S128x128.Idx → Elt F .i32) (ix2 R p) = colVal16 m d (ix1 (colIx R p)) := by
  have e : (V1 m d (Proc.devRef .tc (main_v16 : Ref sig .tc)) : S128x128.Idx → Elt F .i32)
      = shapeCast S128x128 (colVal16 m d) shapeCasts_S16384_S128x128 := by
    show StableHlo.after mainOps (V0 m d) (Proc.devRef .tc (main_v16 : Ref sig .tc)) = _
    unfold mainOps
    after_results
    rfl
  rw [e]
  exact shapeCast_col _ _ R p
theorem V1_col_17 (d : Dev nD) (R p : Fin 128) :
    (V1 m d (Proc.devRef .tc (main_v17 : Ref sig .tc)) : S128x128.Idx → Elt F .i32) (ix2 R p) = colVal17 m d (ix1 (colIx R p)) := by
  have e : (V1 m d (Proc.devRef .tc (main_v17 : Ref sig .tc)) : S128x128.Idx → Elt F .i32)
      = shapeCast S128x128 (colVal17 m d) shapeCasts_S16384_S128x128 := by
    show StableHlo.after mainOps (V0 m d) (Proc.devRef .tc (main_v17 : Ref sig .tc)) = _
    unfold mainOps
    after_results
    rfl
  rw [e]
  exact shapeCast_col _ _ R p
theorem V1_col_18 (d : Dev nD) (R p : Fin 128) :
    (V1 m d (Proc.devRef .tc (main_v18 : Ref sig .tc)) : S128x128.Idx → Elt F .i32) (ix2 R p) = colVal18 m d (ix1 (colIx R p)) := by
  have e : (V1 m d (Proc.devRef .tc (main_v18 : Ref sig .tc)) : S128x128.Idx → Elt F .i32)
      = shapeCast S128x128 (colVal18 m d) shapeCasts_S16384_S128x128 := by
    show StableHlo.after mainOps (V0 m d) (Proc.devRef .tc (main_v18 : Ref sig .tc)) = _
    unfold mainOps
    after_results
    rfl
  rw [e]
  exact shapeCast_col _ _ R p
theorem V1_col_19 (d : Dev nD) (R p : Fin 128) :
    (V1 m d (Proc.devRef .tc (main_v19 : Ref sig .tc)) : S128x128.Idx → Elt F .i32) (ix2 R p) = colVal19 m d (ix1 (colIx R p)) := by
  have e : (V1 m d (Proc.devRef .tc (main_v19 : Ref sig .tc)) : S128x128.Idx → Elt F .i32)
      = shapeCast S128x128 (colVal19 m d) shapeCasts_S16384_S128x128 := by
    show StableHlo.after mainOps (V0 m d) (Proc.devRef .tc (main_v19 : Ref sig .tc)) = _
    unfold mainOps
    after_results
    rfl
  rw [e]
  exact shapeCast_col _ _ R p
theorem V1_col_20 (d : Dev nD) (R p : Fin 128) :
    (V1 m d (Proc.devRef .tc (main_v20 : Ref sig .tc)) : S128x128.Idx → Elt F .i32) (ix2 R p) = colVal20 m d (ix1 (colIx R p)) := by
  have e : (V1 m d (Proc.devRef .tc (main_v20 : Ref sig .tc)) : S128x128.Idx → Elt F .i32)
      = shapeCast S128x128 (colVal20 m d) shapeCasts_S16384_S128x128 := by
    show StableHlo.after mainOps (V0 m d) (Proc.devRef .tc (main_v20 : Ref sig .tc)) = _
    unfold mainOps
    after_results
    rfl
  rw [e]
  exact shapeCast_col _ _ R p
theorem V1_col_21 (d : Dev nD) (R p : Fin 128) :
    (V1 m d (Proc.devRef .tc (main_v21 : Ref sig .tc)) : S128x128.Idx → Elt F .i32) (ix2 R p) = colVal21 m d (ix1 (colIx R p)) := by
  have e : (V1 m d (Proc.devRef .tc (main_v21 : Ref sig .tc)) : S128x128.Idx → Elt F .i32)
      = shapeCast S128x128 (colVal21 m d) shapeCasts_S16384_S128x128 := by
    show StableHlo.after mainOps (V0 m d) (Proc.devRef .tc (main_v21 : Ref sig .tc)) = _
    unfold mainOps
    after_results
    rfl
  rw [e]
  exact shapeCast_col _ _ R p
theorem V1_col_22 (d : Dev nD) (R p : Fin 128) :
    (V1 m d (Proc.devRef .tc (main_v22 : Ref sig .tc)) : S128x128.Idx → Elt F .i32) (ix2 R p) = colVal22 m d (ix1 (colIx R p)) := by
  have e : (V1 m d (Proc.devRef .tc (main_v22 : Ref sig .tc)) : S128x128.Idx → Elt F .i32)
      = shapeCast S128x128 (colVal22 m d) shapeCasts_S16384_S128x128 := by
    show StableHlo.after mainOps (V0 m d) (Proc.devRef .tc (main_v22 : Ref sig .tc)) = _
    unfold mainOps
    after_results
    rfl
  rw [e]
  exact shapeCast_col _ _ R p
theorem V1_col_23 (d : Dev nD) (R p : Fin 128) :
    (V1 m d (Proc.devRef .tc (main_v23 : Ref sig .tc)) : S128x128.Idx → Elt F .i32) (ix2 R p) = colVal23 m d (ix1 (colIx R p)) := by
  have e : (V1 m d (Proc.devRef .tc (main_v23 : Ref sig .tc)) : S128x128.Idx → Elt F .i32)
      = shapeCast S128x128 (colVal23 m d) shapeCasts_S16384_S128x128 := by
    show StableHlo.after mainOps (V0 m d) (Proc.devRef .tc (main_v23 : Ref sig .tc)) = _
    unfold mainOps
    after_results
    rfl
  rw [e]
  exact shapeCast_col _ _ R p
theorem V1_col_24 (d : Dev nD) (R p : Fin 128) :
    (V1 m d (Proc.devRef .tc (main_v24 : Ref sig .tc)) : S128x128.Idx → Elt F .i32) (ix2 R p) = colVal24 m d (ix1 (colIx R p)) := by
  have e : (V1 m d (Proc.devRef .tc (main_v24 : Ref sig .tc)) : S128x128.Idx → Elt F .i32)
      = shapeCast S128x128 (colVal24 m d) shapeCasts_S16384_S128x128 := by
    show StableHlo.after mainOps (V0 m d) (Proc.devRef .tc (main_v24 : Ref sig .tc)) = _
    unfold mainOps
    after_results
    rfl
  rw [e]
  exact shapeCast_col _ _ R p
theorem V1_col_25 (d : Dev nD) (R p : Fin 128) :
    (V1 m d (Proc.devRef .tc (main_v25 : Ref sig .tc)) : S128x128.Idx → Elt F .i32) (ix2 R p) = colVal25 m d (ix1 (colIx R p)) := by
  have e : (V1 m d (Proc.devRef .tc (main_v25 : Ref sig .tc)) : S128x128.Idx → Elt F .i32)
      = shapeCast S128x128 (colVal25 m d) shapeCasts_S16384_S128x128 := by
    show StableHlo.after mainOps (V0 m d) (Proc.devRef .tc (main_v25 : Ref sig .tc)) = _
    unfold mainOps
    after_results
    rfl
  rw [e]
  exact shapeCast_col _ _ R p

end Cert.Proof.KIV

end
-- ==== Proof.TileStmtKI.lean ====
import proofs.«204019_g4913442586959_cont_sun_m_672_34_alg».proof.Proof.TablesKI

/-!
  The statement of one tile's run, apart from its proof: from the tile's share of the operands, its two scratch buffers and
  its fifteen transfer cells at zero, the kernel's body on tile `L` runs to the same with the output rows rewritten — under
  four conditions on `L`, one per branch of the body. The tile's program as one definition. The range of the reshaped
  columns' words, column by column.
-/

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

set_option maxHeartbeats 4000000 in
/-- The kernel's body on tile `L` over the call's operands, scratch buffers and transfer cells. -/
abbrev tileProg [FloatOps F] (L : grid0.Coords) :
    Prog (TpuEff nD τ sig (Elt F) Λ₀ (.scVector ((L 0).castLE hcore0) ((L 1).castLE hsub0))) PUnit :=
  cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16

set_option maxHeartbeats 400000000 in
set_option maxRecDepth 65536 in
/-- The run of the body on a tile whose coordinates satisfy `C1 .. C4`. -/
def TileRunOf [FloatOps F] (C1 C2 C3 C4 : grid0.Coords → Prop) : Prop :=
  ∀ (d : Dev nD) (L : grid0.Coords) (hF : (K (F := F)).Facts) (O : CellTallies nD τ sig (HIx 1)) (W : Waits sig (HIx 1)) (hO : ∀ g, O g none = 0)
    (q : PosShare TreeShare) (hc1 : C1 L) (hc2 : C2 L) (hc3 : C3 L) (hc4 : C4 L)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)),
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            (∃ f, (Memref.whole main_v26_scv : Memref sig .scVector .hbm S16384x3328 .f32).view.loc (V d (cVL L) (jVL L)) ↦[(Memref.whole main_v26_scv : Memref sig .scVector .hbm S16384x3328 .f32).view.setOn (oTR L).set]{fullShare} f) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄)

/-- Every word of every reshaped column, read unsigned, is below 1000. -/
def PreOK (m : (ℓ : Loc nD τ sig) → Buf (Elt F) ℓ) : Prop := ∀ d : Dev nD,
    (∀ j, ((V1 m d (Proc.devRef .tc (main_v0 : Ref sig .tc)) : S128x128.Idx → BitVec 32) j).toNat < 1000)
    ∧ (∀ j, ((V1 m d (Proc.devRef .tc (main_v1 : Ref sig .tc)) : S128x128.Idx → BitVec 32) j).toNat < 1000)
    ∧ (∀ j, ((V1 m d (Proc.devRef .tc (main_v2 : Ref sig .tc)) : S128x128.Idx → BitVec 32) j).toNat < 1000)
    ∧ (∀ j, ((V1 m d (Proc.devRef .tc (main_v3 : Ref sig .tc)) : S128x128.Idx → BitVec 32) j).toNat < 1000)
    ∧ (∀ j, ((V1 m d (Proc.devRef .tc (main_v4 : Ref sig .tc)) : S128x128.Idx → BitVec 32) j).toNat < 1000)
    ∧ (∀ j, ((V1 m d (Proc.devRef .tc (main_v5 : Ref sig .tc)) : S128x128.Idx → BitVec 32) j).toNat < 1000)
    ∧ (∀ j, ((V1 m d (Proc.devRef .tc (main_v6 : Ref sig .tc)) : S128x128.Idx → BitVec 32) j).toNat < 1000)
    ∧ (∀ j, ((V1 m d (Proc.devRef .tc (main_v7 : Ref sig .tc)) : S128x128.Idx → BitVec 32) j).toNat < 1000)
    ∧ (∀ j, ((V1 m d (Proc.devRef .tc (main_v8 : Ref sig .tc)) : S128x128.Idx → BitVec 32) j).toNat < 1000)
    ∧ (∀ j, ((V1 m d (Proc.devRef .tc (main_v9 : Ref sig .tc)) : S128x128.Idx → BitVec 32) j).toNat < 1000)
    ∧ (∀ j, ((V1 m d (Proc.devRef .tc (main_v10 : Ref sig .tc)) : S128x128.Idx → BitVec 32) j).toNat < 1000)
    ∧ (∀ j, ((V1 m d (Proc.devRef .tc (main_v11 : Ref sig .tc)) : S128x128.Idx → BitVec 32) j).toNat < 1000)
    ∧ (∀ j, ((V1 m d (Proc.devRef .tc (main_v12 : Ref sig .tc)) : S128x128.Idx → BitVec 32) j).toNat < 1000)
    ∧ (∀ j, ((V1 m d (Proc.devRef .tc (main_v13 : Ref sig .tc)) : S128x128.Idx → BitVec 32) j).toNat < 1000)
    ∧ (∀ j, ((V1 m d (Proc.devRef .tc (main_v14 : Ref sig .tc)) : S128x128.Idx → BitVec 32) j).toNat < 1000)
    ∧ (∀ j, ((V1 m d (Proc.devRef .tc (main_v15 : Ref sig .tc)) : S128x128.Idx → BitVec 32) j).toNat < 1000)
    ∧ (∀ j, ((V1 m d (Proc.devRef .tc (main_v16 : Ref sig .tc)) : S128x128.Idx → BitVec 32) j).toNat < 1000)
    ∧ (∀ j, ((V1 m d (Proc.devRef .tc (main_v17 : Ref sig .tc)) : S128x128.Idx → BitVec 32) j).toNat < 1000)
    ∧ (∀ j, ((V1 m d (Proc.devRef .tc (main_v18 : Ref sig .tc)) : S128x128.Idx → BitVec 32) j).toNat < 1000)
    ∧ (∀ j, ((V1 m d (Proc.devRef .tc (main_v19 : Ref sig .tc)) : S128x128.Idx → BitVec 32) j).toNat < 1000)
    ∧ (∀ j, ((V1 m d (Proc.devRef .tc (main_v20 : Ref sig .tc)) : S128x128.Idx → BitVec 32) j).toNat < 1000)
    ∧ (∀ j, ((V1 m d (Proc.devRef .tc (main_v21 : Ref sig .tc)) : S128x128.Idx → BitVec 32) j).toNat < 1000)
    ∧ (∀ j, ((V1 m d (Proc.devRef .tc (main_v22 : Ref sig .tc)) : S128x128.Idx → BitVec 32) j).toNat < 1000)
    ∧ (∀ j, ((V1 m d (Proc.devRef .tc (main_v23 : Ref sig .tc)) : S128x128.Idx → BitVec 32) j).toNat < 1000)
    ∧ (∀ j, ((V1 m d (Proc.devRef .tc (main_v24 : Ref sig .tc)) : S128x128.Idx → BitVec 32) j).toNat < 1000)
    ∧ (∀ j, ((V1 m d (Proc.devRef .tc (main_v25 : Ref sig .tc)) : S128x128.Idx → BitVec 32) j).toNat < 1000)

end Cert.Proof.KI

end
-- ==== Proof.PreOKKI.lean ====
import proofs.«204019_g4913442586959_cont_sun_m_672_34_alg».proof.Proof.ColValKI
import proofs.«204019_g4913442586959_cont_sun_m_672_34_alg».proof.Proof.TileStmtKI
import proofs.«204019_g4913442586959_cont_sun_m_672_34_alg».proof.Proof.PreRange

/-!
# The reshaped columns hold row numbers

The precondition bounds every word of every index column below 1000. A reshaped column holds the same words in
another arrangement — entry `(R, p)` is word `128 R + p` of the column — so its words are below 1000 too.
-/

noncomputable section

namespace Cert.Proof.KI

open Cert.KernelIdeal Cert.KernelIdeal.Gen

open Idealize.ShloMosaic
open Idealize.ShloMosaic.SparseCore (S V T)

set_option maxHeartbeats 4000000 in
/-- The precondition gives what the tiles' proofs ask of the reshaped columns. -/
theorem preOK_of_pre (m : (ℓ : Loc nD τ sig) → Buf (Elt Ideal) ℓ) (hpre : Cert.Pre_KernelIdeal m) : PreOK (F := Ideal) m := by
  intro d
  have hr := Cert.Proof.PreRange.range_of_fn (F := Ideal) _ _ _ _ _ _ _ _ _ _ _ _ _ _ _ _ _ _ _ _ _ _ _ _ _ _ _ _ _ _ _ _ _ _ _ _ _ _ _ _ _ _ _ _ _ _ _ _ _ _ _ _ (hpre d)
  refine ⟨?_, ?_, ?_, ?_, ?_, ?_, ?_, ?_, ?_, ?_, ?_, ?_, ?_, ?_, ?_, ?_, ?_, ?_, ?_, ?_, ?_, ?_, ?_, ?_, ?_, ?_⟩
  · intro j
    have e : (V1 m d (Proc.devRef .tc (main_v0 : Ref sig .tc)) : S128x128.Idx → BitVec 32) j
        = colVal0 m d (ValueIdx.ix1 (Cert.Proof.KIV.colIx (j 0) (j 1))) :=
      (congrArg (V1 m d (Proc.devRef .tc (main_v0 : Ref sig .tc)) : S128x128.Idx → BitVec 32) (ValueIdx.eq_ix2 j)).trans
        (Cert.Proof.KIV.V1_col_0 m d (j 0) (j 1))
    rw [e]
    exact hr 0 _
  · intro j
    have e : (V1 m d (Proc.devRef .tc (main_v1 : Ref sig .tc)) : S128x128.Idx → BitVec 32) j
        = colVal1 m d (ValueIdx.ix1 (Cert.Proof.KIV.colIx (j 0) (j 1))) :=
      (congrArg (V1 m d (Proc.devRef .tc (main_v1 : Ref sig .tc)) : S128x128.Idx → BitVec 32) (ValueIdx.eq_ix2 j)).trans
        (Cert.Proof.KIV.V1_col_1 m d (j 0) (j 1))
    rw [e]
    exact hr 1 _
  · intro j
    have e : (V1 m d (Proc.devRef .tc (main_v2 : Ref sig .tc)) : S128x128.Idx → BitVec 32) j
        = colVal2 m d (ValueIdx.ix1 (Cert.Proof.KIV.colIx (j 0) (j 1))) :=
      (congrArg (V1 m d (Proc.devRef .tc (main_v2 : Ref sig .tc)) : S128x128.Idx → BitVec 32) (ValueIdx.eq_ix2 j)).trans
        (Cert.Proof.KIV.V1_col_2 m d (j 0) (j 1))
    rw [e]
    exact hr 2 _
  · intro j
    have e : (V1 m d (Proc.devRef .tc (main_v3 : Ref sig .tc)) : S128x128.Idx → BitVec 32) j
        = colVal3 m d (ValueIdx.ix1 (Cert.Proof.KIV.colIx (j 0) (j 1))) :=
      (congrArg (V1 m d (Proc.devRef .tc (main_v3 : Ref sig .tc)) : S128x128.Idx → BitVec 32) (ValueIdx.eq_ix2 j)).trans
        (Cert.Proof.KIV.V1_col_3 m d (j 0) (j 1))
    rw [e]
    exact hr 3 _
  · intro j
    have e : (V1 m d (Proc.devRef .tc (main_v4 : Ref sig .tc)) : S128x128.Idx → BitVec 32) j
        = colVal4 m d (ValueIdx.ix1 (Cert.Proof.KIV.colIx (j 0) (j 1))) :=
      (congrArg (V1 m d (Proc.devRef .tc (main_v4 : Ref sig .tc)) : S128x128.Idx → BitVec 32) (ValueIdx.eq_ix2 j)).trans
        (Cert.Proof.KIV.V1_col_4 m d (j 0) (j 1))
    rw [e]
    exact hr 4 _
  · intro j
    have e : (V1 m d (Proc.devRef .tc (main_v5 : Ref sig .tc)) : S128x128.Idx → BitVec 32) j
        = colVal5 m d (ValueIdx.ix1 (Cert.Proof.KIV.colIx (j 0) (j 1))) :=
      (congrArg (V1 m d (Proc.devRef .tc (main_v5 : Ref sig .tc)) : S128x128.Idx → BitVec 32) (ValueIdx.eq_ix2 j)).trans
        (Cert.Proof.KIV.V1_col_5 m d (j 0) (j 1))
    rw [e]
    exact hr 5 _
  · intro j
    have e : (V1 m d (Proc.devRef .tc (main_v6 : Ref sig .tc)) : S128x128.Idx → BitVec 32) j
        = colVal6 m d (ValueIdx.ix1 (Cert.Proof.KIV.colIx (j 0) (j 1))) :=
      (congrArg (V1 m d (Proc.devRef .tc (main_v6 : Ref sig .tc)) : S128x128.Idx → BitVec 32) (ValueIdx.eq_ix2 j)).trans
        (Cert.Proof.KIV.V1_col_6 m d (j 0) (j 1))
    rw [e]
    exact hr 6 _
  · intro j
    have e : (V1 m d (Proc.devRef .tc (main_v7 : Ref sig .tc)) : S128x128.Idx → BitVec 32) j
        = colVal7 m d (ValueIdx.ix1 (Cert.Proof.KIV.colIx (j 0) (j 1))) :=
      (congrArg (V1 m d (Proc.devRef .tc (main_v7 : Ref sig .tc)) : S128x128.Idx → BitVec 32) (ValueIdx.eq_ix2 j)).trans
        (Cert.Proof.KIV.V1_col_7 m d (j 0) (j 1))
    rw [e]
    exact hr 7 _
  · intro j
    have e : (V1 m d (Proc.devRef .tc (main_v8 : Ref sig .tc)) : S128x128.Idx → BitVec 32) j
        = colVal8 m d (ValueIdx.ix1 (Cert.Proof.KIV.colIx (j 0) (j 1))) :=
      (congrArg (V1 m d (Proc.devRef .tc (main_v8 : Ref sig .tc)) : S128x128.Idx → BitVec 32) (ValueIdx.eq_ix2 j)).trans
        (Cert.Proof.KIV.V1_col_8 m d (j 0) (j 1))
    rw [e]
    exact hr 8 _
  · intro j
    have e : (V1 m d (Proc.devRef .tc (main_v9 : Ref sig .tc)) : S128x128.Idx → BitVec 32) j
        = colVal9 m d (ValueIdx.ix1 (Cert.Proof.KIV.colIx (j 0) (j 1))) :=
      (congrArg (V1 m d (Proc.devRef .tc (main_v9 : Ref sig .tc)) : S128x128.Idx → BitVec 32) (ValueIdx.eq_ix2 j)).trans
        (Cert.Proof.KIV.V1_col_9 m d (j 0) (j 1))
    rw [e]
    exact hr 9 _
  · intro j
    have e : (V1 m d (Proc.devRef .tc (main_v10 : Ref sig .tc)) : S128x128.Idx → BitVec 32) j
        = colVal10 m d (ValueIdx.ix1 (Cert.Proof.KIV.colIx (j 0) (j 1))) :=
      (congrArg (V1 m d (Proc.devRef .tc (main_v10 : Ref sig .tc)) : S128x128.Idx → BitVec 32) (ValueIdx.eq_ix2 j)).trans
        (Cert.Proof.KIV.V1_col_10 m d (j 0) (j 1))
    rw [e]
    exact hr 10 _
  · intro j
    have e : (V1 m d (Proc.devRef .tc (main_v11 : Ref sig .tc)) : S128x128.Idx → BitVec 32) j
        = colVal11 m d (ValueIdx.ix1 (Cert.Proof.KIV.colIx (j 0) (j 1))) :=
      (congrArg (V1 m d (Proc.devRef .tc (main_v11 : Ref sig .tc)) : S128x128.Idx → BitVec 32) (ValueIdx.eq_ix2 j)).trans
        (Cert.Proof.KIV.V1_col_11 m d (j 0) (j 1))
    rw [e]
    exact hr 11 _
  · intro j
    have e : (V1 m d (Proc.devRef .tc (main_v12 : Ref sig .tc)) : S128x128.Idx → BitVec 32) j
        = colVal12 m d (ValueIdx.ix1 (Cert.Proof.KIV.colIx (j 0) (j 1))) :=
      (congrArg (V1 m d (Proc.devRef .tc (main_v12 : Ref sig .tc)) : S128x128.Idx → BitVec 32) (ValueIdx.eq_ix2 j)).trans
        (Cert.Proof.KIV.V1_col_12 m d (j 0) (j 1))
    rw [e]
    exact hr 12 _
  · intro j
    have e : (V1 m d (Proc.devRef .tc (main_v13 : Ref sig .tc)) : S128x128.Idx → BitVec 32) j
        = colVal13 m d (ValueIdx.ix1 (Cert.Proof.KIV.colIx (j 0) (j 1))) :=
      (congrArg (V1 m d (Proc.devRef .tc (main_v13 : Ref sig .tc)) : S128x128.Idx → BitVec 32) (ValueIdx.eq_ix2 j)).trans
        (Cert.Proof.KIV.V1_col_13 m d (j 0) (j 1))
    rw [e]
    exact hr 13 _
  · intro j
    have e : (V1 m d (Proc.devRef .tc (main_v14 : Ref sig .tc)) : S128x128.Idx → BitVec 32) j
        = colVal14 m d (ValueIdx.ix1 (Cert.Proof.KIV.colIx (j 0) (j 1))) :=
      (congrArg (V1 m d (Proc.devRef .tc (main_v14 : Ref sig .tc)) : S128x128.Idx → BitVec 32) (ValueIdx.eq_ix2 j)).trans
        (Cert.Proof.KIV.V1_col_14 m d (j 0) (j 1))
    rw [e]
    exact hr 14 _
  · intro j
    have e : (V1 m d (Proc.devRef .tc (main_v15 : Ref sig .tc)) : S128x128.Idx → BitVec 32) j
        = colVal15 m d (ValueIdx.ix1 (Cert.Proof.KIV.colIx (j 0) (j 1))) :=
      (congrArg (V1 m d (Proc.devRef .tc (main_v15 : Ref sig .tc)) : S128x128.Idx → BitVec 32) (ValueIdx.eq_ix2 j)).trans
        (Cert.Proof.KIV.V1_col_15 m d (j 0) (j 1))
    rw [e]
    exact hr 15 _
  · intro j
    have e : (V1 m d (Proc.devRef .tc (main_v16 : Ref sig .tc)) : S128x128.Idx → BitVec 32) j
        = colVal16 m d (ValueIdx.ix1 (Cert.Proof.KIV.colIx (j 0) (j 1))) :=
      (congrArg (V1 m d (Proc.devRef .tc (main_v16 : Ref sig .tc)) : S128x128.Idx → BitVec 32) (ValueIdx.eq_ix2 j)).trans
        (Cert.Proof.KIV.V1_col_16 m d (j 0) (j 1))
    rw [e]
    exact hr 16 _
  · intro j
    have e : (V1 m d (Proc.devRef .tc (main_v17 : Ref sig .tc)) : S128x128.Idx → BitVec 32) j
        = colVal17 m d (ValueIdx.ix1 (Cert.Proof.KIV.colIx (j 0) (j 1))) :=
      (congrArg (V1 m d (Proc.devRef .tc (main_v17 : Ref sig .tc)) : S128x128.Idx → BitVec 32) (ValueIdx.eq_ix2 j)).trans
        (Cert.Proof.KIV.V1_col_17 m d (j 0) (j 1))
    rw [e]
    exact hr 17 _
  · intro j
    have e : (V1 m d (Proc.devRef .tc (main_v18 : Ref sig .tc)) : S128x128.Idx → BitVec 32) j
        = colVal18 m d (ValueIdx.ix1 (Cert.Proof.KIV.colIx (j 0) (j 1))) :=
      (congrArg (V1 m d (Proc.devRef .tc (main_v18 : Ref sig .tc)) : S128x128.Idx → BitVec 32) (ValueIdx.eq_ix2 j)).trans
        (Cert.Proof.KIV.V1_col_18 m d (j 0) (j 1))
    rw [e]
    exact hr 18 _
  · intro j
    have e : (V1 m d (Proc.devRef .tc (main_v19 : Ref sig .tc)) : S128x128.Idx → BitVec 32) j
        = colVal19 m d (ValueIdx.ix1 (Cert.Proof.KIV.colIx (j 0) (j 1))) :=
      (congrArg (V1 m d (Proc.devRef .tc (main_v19 : Ref sig .tc)) : S128x128.Idx → BitVec 32) (ValueIdx.eq_ix2 j)).trans
        (Cert.Proof.KIV.V1_col_19 m d (j 0) (j 1))
    rw [e]
    exact hr 19 _
  · intro j
    have e : (V1 m d (Proc.devRef .tc (main_v20 : Ref sig .tc)) : S128x128.Idx → BitVec 32) j
        = colVal20 m d (ValueIdx.ix1 (Cert.Proof.KIV.colIx (j 0) (j 1))) :=
      (congrArg (V1 m d (Proc.devRef .tc (main_v20 : Ref sig .tc)) : S128x128.Idx → BitVec 32) (ValueIdx.eq_ix2 j)).trans
        (Cert.Proof.KIV.V1_col_20 m d (j 0) (j 1))
    rw [e]
    exact hr 20 _
  · intro j
    have e : (V1 m d (Proc.devRef .tc (main_v21 : Ref sig .tc)) : S128x128.Idx → BitVec 32) j
        = colVal21 m d (ValueIdx.ix1 (Cert.Proof.KIV.colIx (j 0) (j 1))) :=
      (congrArg (V1 m d (Proc.devRef .tc (main_v21 : Ref sig .tc)) : S128x128.Idx → BitVec 32) (ValueIdx.eq_ix2 j)).trans
        (Cert.Proof.KIV.V1_col_21 m d (j 0) (j 1))
    rw [e]
    exact hr 21 _
  · intro j
    have e : (V1 m d (Proc.devRef .tc (main_v22 : Ref sig .tc)) : S128x128.Idx → BitVec 32) j
        = colVal22 m d (ValueIdx.ix1 (Cert.Proof.KIV.colIx (j 0) (j 1))) :=
      (congrArg (V1 m d (Proc.devRef .tc (main_v22 : Ref sig .tc)) : S128x128.Idx → BitVec 32) (ValueIdx.eq_ix2 j)).trans
        (Cert.Proof.KIV.V1_col_22 m d (j 0) (j 1))
    rw [e]
    exact hr 22 _
  · intro j
    have e : (V1 m d (Proc.devRef .tc (main_v23 : Ref sig .tc)) : S128x128.Idx → BitVec 32) j
        = colVal23 m d (ValueIdx.ix1 (Cert.Proof.KIV.colIx (j 0) (j 1))) :=
      (congrArg (V1 m d (Proc.devRef .tc (main_v23 : Ref sig .tc)) : S128x128.Idx → BitVec 32) (ValueIdx.eq_ix2 j)).trans
        (Cert.Proof.KIV.V1_col_23 m d (j 0) (j 1))
    rw [e]
    exact hr 23 _
  · intro j
    have e : (V1 m d (Proc.devRef .tc (main_v24 : Ref sig .tc)) : S128x128.Idx → BitVec 32) j
        = colVal24 m d (ValueIdx.ix1 (Cert.Proof.KIV.colIx (j 0) (j 1))) :=
      (congrArg (V1 m d (Proc.devRef .tc (main_v24 : Ref sig .tc)) : S128x128.Idx → BitVec 32) (ValueIdx.eq_ix2 j)).trans
        (Cert.Proof.KIV.V1_col_24 m d (j 0) (j 1))
    rw [e]
    exact hr 24 _
  · intro j
    have e : (V1 m d (Proc.devRef .tc (main_v25 : Ref sig .tc)) : S128x128.Idx → BitVec 32) j
        = colVal25 m d (ValueIdx.ix1 (Cert.Proof.KIV.colIx (j 0) (j 1))) :=
      (congrArg (V1 m d (Proc.devRef .tc (main_v25 : Ref sig .tc)) : S128x128.Idx → BitVec 32) (ValueIdx.eq_ix2 j)).trans
        (Cert.Proof.KIV.V1_col_25 m d (j 0) (j 1))
    rw [e]
    exact hr 25 _

end Cert.Proof.KI

end
-- ==== Proof.RefCall.lean ====
import proofs.«204019_g4913442586959_cont_sun_m_672_34_alg».proof.Proof.Gen.ReferenceIdeal
import Idealize.ShloMosaic.Lib.StableHlo.Run

/-!
  One table lookup of the reference program: the twenty-three operations one call of the lookup function runs, as a
  list over the call's buffers; the call's body is that straight line; the buffers it writes; what a buffer it does not
  write holds afterwards (unchanged) and what its result buffer holds (the composed term `takeVal` of the table and the
  column), for any buffers that are pairwise distinct.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of one lookup, in order: the wrap of a negative row number (compare with zero, add the row count,
    select), the row number as a one-column matrix, the validity mask (at least zero, at most 999, both, reduced along
    the column axis), the gather of the rows, the mask broadcast along the row, the fill value, the final select. -/
def takeOps (tb : TRef sig ⟨S1000x128, .f32⟩) (cl : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary cl φ.v0 φ.v1 (cmpi .slt),
    TRef.nullary φ.c_0 (constantI S_ 32 1000#32),
    TRef.unary φ.c_0 φ.v2 (broadcastInDim S16384 ![] bcast_S_S16384),
    TRef.binary cl φ.v2 φ.v3 addi,
    TRef.ternary φ.v1 φ.v3 cl φ.call0.v0 select,
    TRef.unary φ.call0.v0 φ.v5 (broadcastInDim S16384x1 ![0] bcast_S16384_S16384x1_0),
    TRef.nullary φ.c_1 (constantI S1 32 999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tb φ.v5 φ.v13 (fun x i => Host.gather gather_S1000x128_S16384x1_S16384x128_1_0_n_n_0_1_1128 x i),
    TRef.unary φ.v12 φ.v14 (broadcastInDim S16384x128 ![0] bcast_S16384_S16384x128_0),
    TRef.nullary φ.cst (constant S_ .f32 0x7FC00000#32),
    TRef.unary φ.cst φ.v15 (broadcastInDim S16384x128 ![] bcast_S_S16384x128),
    TRef.ternary φ.v14 φ.v13 φ.v15 φ.v16 select ]

/-- The lookup function's body is that straight line: its one inner call unfolded, sequencing reassociated. -/
theorem take_body_eq (tb : TRef sig ⟨S1000x128, .f32⟩) (cl : TRef sig ⟨S16384, .i32⟩) (φ : fn_take.Bufs) :
    fn_take.body (F := F) tb cl φ = seq (takeOps tb cl φ) := by
  simp only [fn_take.body, fn_where.body, takeOps, seq, bind_assoc, pure_bind]

/-- The buffers one lookup writes, in the order it writes them. -/
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
   φ.v7.ref, φ.v8.ref, φ.v9.ref, φ.v10.ref, φ.v11.ref, φ.c_3.ref, φ.v12.ref, φ.v13.ref, φ.v14.ref, φ.cst.ref, φ.v15.ref,
   φ.v16.ref]

theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of a lookup writes one of those buffers. -/
theorem take_writes (tb : TRef sig ⟨S1000x128, .f32⟩) (cl : TRef sig ⟨S16384, .i32⟩) (φ : fn_take.Bufs) :
    (takeOps (F := F) tb cl φ).Forall fun op => op.writes ⊆ ((takeW φ).map (Proc.devRef (τ := τ) .tc)).toFinset := by
  have m : ∀ {y : Ref sig .tc}, y ∈ takeW φ →
      ({Proc.devRef .tc y} : Finset (DevRef τ sig)) ⊆ ((takeW φ).map (Proc.devRef (τ := τ) .tc)).toFinset := single_sub_of_mem
  exact ⟨m (by simp [takeW]), m (by simp [takeW]), m (by simp [takeW]), m (by simp [takeW]), m (by simp [takeW]), m (by simp [takeW]),
    m (by simp [takeW]), m (by simp [takeW]), m (by simp [takeW]), m (by simp [takeW]), m (by simp [takeW]), m (by simp [takeW]),
    m (by simp [takeW]), m (by simp [takeW]), m (by simp [takeW]), m (by simp [takeW]), m (by simp [takeW]), m (by simp [takeW]),
    m (by simp [takeW]), m (by simp [takeW]), m (by simp [takeW]), m (by simp [takeW]), m (by simp [takeW])⟩

/-- A buffer a lookup does not write holds afterwards what it held. -/
theorem take_frame (tb : TRef sig ⟨S1000x128, .f32⟩) (cl : TRef sig ⟨S16384, .i32⟩) (φ : fn_take.Bufs)
    (V : Valuation τ sig (Elt F)) {r : Ref sig .tc} (hr : r ∉ takeW φ) :
    after (takeOps tb cl φ) V (Proc.devRef .tc r) = V (Proc.devRef .tc r) :=
  after_of_writes_sub _ V (take_writes tb cl φ) hr

/-- Every operation of a lookup touches TensorCore buffers only. -/
theorem take_sub (tb : TRef sig ⟨S1000x128, .f32⟩) (cl : TRef sig ⟨S16384, .i32⟩) (φ : fn_take.Bufs) :
    (takeOps (F := F) tb cl φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- No operation of a lookup leaves its result undetermined. -/
theorem take_fresh (tb : TRef sig ⟨S1000x128, .f32⟩) (cl : TRef sig ⟨S16384, .i32⟩) (φ : fn_take.Bufs) :
    ∀ op ∈ takeOps (F := F) tb cl φ, op.fresh = ∅ := by
  intro _ h; (repeat (cases h with | head => rfl | tail _ h => ?_)); exact nomatch h

/-! ## What a lookup computes -/

/-- A row number with the negative ones wrapped: below zero (as a signed word) it has the row count added. -/
def wrapIdx (i : (⟨S16384, .i32⟩ : BufTy).Contents (Elt F)) : (⟨S16384, .i32⟩ : BufTy).Contents (Elt F) :=
  select (cmpi .slt i (broadcastInDim S16384 ![] bcast_S_S16384 (constantI S_ 32 0#32)))
    (addi i (broadcastInDim S16384 ![] bcast_S_S16384 (constantI S_ 32 1000#32))) i

/-- The wrapped row numbers as a matrix of one column: the gather's index operand. -/
def idxCol (i : (⟨S16384, .i32⟩ : BufTy).Contents (Elt F)) : (⟨S16384x1, .i32⟩ : BufTy).Contents (Elt F) :=
  broadcastInDim S16384x1 ![0] bcast_S16384_S16384x1_0 (wrapIdx i)

/-- The validity mask of the index column: at least zero and at most 999, reduced (and) along the column axis. -/
def maskOf (j : (⟨S16384x1, .i32⟩ : BufTy).Contents (Elt F)) : (⟨S16384, .i1⟩ : BufTy).Contents (Elt F) :=
  Host.reduce IntOp.andi
    (andi (cmpi .sge j (broadcastInDim S16384x1 ![] bcast_S_S16384x1 (constantI S_ 32 0#32)))
      (cmpi .sle j (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- One lookup's result as a term of the table and the column: the gathered rows where the mask holds, the fill value elsewhere. -/
def takeVal (x : (⟨S1000x128, .f32⟩ : BufTy).Contents (Elt F)) (i : (⟨S16384, .i32⟩ : BufTy).Contents (Elt F)) :
    (⟨S16384x128, .f32⟩ : BufTy).Contents (Elt F) :=
  select (broadcastInDim S16384x128 ![0] bcast_S16384_S16384x128_0 (maskOf (idxCol i)))
    (Host.gather gather_S1000x128_S16384x1_S16384x128_1_0_n_n_0_1_1128 x (idxCol i))
    (broadcastInDim S16384x128 ![] bcast_S_S16384x128 (constant S_ .f32 0x7FC00000#32))

/-- After a lookup whose buffers, table and column are pairwise distinct, the result buffer holds `takeVal` of the table's
    and the column's contents before it: each operand is read where the operation that produced it left it, no later
    operation of the line writing it. -/
theorem take_val (tb : TRef sig ⟨S1000x128, .f32⟩) (cl : TRef sig ⟨S16384, .i32⟩) (φ : fn_take.Bufs)
    (hnd : (tb.ref :: cl.ref :: takeW φ).Nodup) (V : Valuation τ sig (Elt F)) :
    φ.v16.ofBuf (after (takeOps tb cl φ) V (Proc.devRef .tc φ.v16.ref))
      = takeVal (tb.ofBuf (V (Proc.devRef .tc tb.ref))) (cl.ofBuf (V (Proc.devRef .tc cl.ref))) := by
  simp only [takeW, List.nodup_cons, List.mem_cons, List.not_mem_nil, or_false, not_or, List.nodup_nil, and_true,
    not_false_eq_true] at hnd
  simp (disch := simp only [ne_eq, hnd, not_false_eq_true]) only [takeOps, after_cons, after_nil,
    nullary_result', unary_result', binary_result', ternary_result',
    nullary_result_ne', unary_result_ne', binary_result_ne', ternary_result_ne', cast_cast, cast_eq]
  rfl

end Cert.ReferenceIdeal.RefValue

end
-- ==== Proof.RefTables.lean ====
import proofs.«204019_g4913442586959_cont_sun_m_672_34_alg».proof.Proof.Gen.ReferenceIdeal
import Idealize.ShloMosaic.Lib.StableHlo.Run

/-!
  The reference program's twenty-six lookups as tables indexed by the lookup's number: its table argument, its column
  argument, its record of buffers; the three concatenations that follow them, as the program prints them; and the
  concatenation of twenty-six blocks as one term of a family of blocks.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Lookup `k`'s table argument. -/
def tblT : Fin 26 → TRef sig ⟨S1000x128, .f32⟩ :=
  ![TRef.of main_arg26, TRef.of main_arg27, TRef.of main_arg28, TRef.of main_arg29, TRef.of main_arg30, TRef.of main_arg31, TRef.of main_arg32, TRef.of main_arg33, TRef.of main_arg34, TRef.of main_arg35, TRef.of main_arg36, TRef.of main_arg37, TRef.of main_arg38, TRef.of main_arg39, TRef.of main_arg40, TRef.of main_arg41, TRef.of main_arg42, TRef.of main_arg43, TRef.of main_arg44, TRef.of main_arg45, TRef.of main_arg46, TRef.of main_arg47, TRef.of main_arg48, TRef.of main_arg49, TRef.of main_arg50, TRef.of main_arg51]

/-- Lookup `k`'s column argument. -/
def colT : Fin 26 → TRef sig ⟨S16384, .i32⟩ :=
  ![TRef.of main_arg0, TRef.of main_arg1, TRef.of main_arg2, TRef.of main_arg3, TRef.of main_arg4, TRef.of main_arg5, TRef.of main_arg6, TRef.of main_arg7, TRef.of main_arg8, TRef.of main_arg9, TRef.of main_arg10, TRef.of main_arg11, TRef.of main_arg12, TRef.of main_arg13, TRef.of main_arg14, TRef.of main_arg15, TRef.of main_arg16, TRef.of main_arg17, TRef.of main_arg18, TRef.of main_arg19, TRef.of main_arg20, TRef.of main_arg21, TRef.of main_arg22, TRef.of main_arg23, TRef.of main_arg24, TRef.of main_arg25]

/-- Lookup `k`'s buffers. -/
def callB : Fin 26 → fn_take.Bufs :=
  ![main_call0, main_call1, main_call2, main_call3, main_call4, main_call5, main_call6, main_call7, main_call8, main_call9, main_call10, main_call11, main_call12, main_call13, main_call14, main_call15, main_call16, main_call17, main_call18, main_call19, main_call20, main_call21, main_call22, main_call23, main_call24, main_call25]

/-- The three concatenations after the lookups: blocks 0–15, blocks 16–25, the two halves. -/
abbrev tailOps : List (HloOp τ sig (Elt F)) :=
  [ nary ![main_v0, main_v1, main_v2, main_v3, main_v4, main_v5, main_v6, main_v7, main_v8, main_v9, main_v10, main_v11, main_v12, main_v13, main_v14, main_v15] main_v26 (fun u => concatenate S16384x2048 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩, ⟨S16384x128, u 10⟩, ⟨S16384x128, u 11⟩, ⟨S16384x128, u 12⟩, ⟨S16384x128, u 13⟩, ⟨S16384x128, u 14⟩, ⟨S16384x128, u 15⟩] concatenates_S16384x128_S16384x128_S16384x128_S16384x128_S16384x128_S16384x128_S16384x128_S16384x128_S16384x128_S16384x128_S16384x128_S16384x128_S16384x128_S16384x128_S16384x128_S16384x128_S16384x2048_d1),
    nary ![main_v16, main_v17, main_v18, main_v19, main_v20, main_v21, main_v22, main_v23, main_v24, main_v25] main_v27 (fun u => concatenate S16384x1280 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩] concatenates_S16384x128_S16384x128_S16384x128_S16384x128_S16384x128_S16384x128_S16384x128_S16384x128_S16384x128_S16384x128_S16384x1280_d1),
    binary main_v26 main_v27 main_v28 ((fun a b => concatenate S16384x3328 1 [⟨S16384x2048, a⟩, ⟨S16384x1280, b⟩] concatenates_S16384x2048_S16384x1280_S16384x3328_d1) : (⟨S16384x2048, .f32⟩ : BufTy).Contents (Elt F) → (⟨S16384x1280, .f32⟩ : BufTy).Contents (Elt F) → (⟨S16384x3328, .f32⟩ : BufTy).Contents (Elt F)) ]

/-- Twenty-six blocks side by side, concatenated as the program does it: sixteen, ten, then the two halves. -/
def catAll (g : Fin 26 → (⟨S16384x128, .f32⟩ : BufTy).Contents (Elt F)) : (⟨S16384x3328, .f32⟩ : BufTy).Contents (Elt F) :=
  concatenate S16384x3328 1
    [⟨S16384x2048, concatenate S16384x2048 1 [⟨S16384x128, g 0⟩, ⟨S16384x128, g 1⟩, ⟨S16384x128, g 2⟩, ⟨S16384x128, g 3⟩, ⟨S16384x128, g 4⟩, ⟨S16384x128, g 5⟩, ⟨S16384x128, g 6⟩, ⟨S16384x128, g 7⟩, ⟨S16384x128, g 8⟩, ⟨S16384x128, g 9⟩, ⟨S16384x128, g 10⟩, ⟨S16384x128, g 11⟩, ⟨S16384x128, g 12⟩, ⟨S16384x128, g 13⟩, ⟨S16384x128, g 14⟩, ⟨S16384x128, g 15⟩] concatenates_S16384x128_S16384x128_S16384x128_S16384x128_S16384x128_S16384x128_S16384x128_S16384x128_S16384x128_S16384x128_S16384x128_S16384x128_S16384x128_S16384x128_S16384x128_S16384x128_S16384x2048_d1⟩,
     ⟨S16384x1280, concatenate S16384x1280 1 [⟨S16384x128, g 16⟩, ⟨S16384x128, g 17⟩, ⟨S16384x128, g 18⟩, ⟨S16384x128, g 19⟩, ⟨S16384x128, g 20⟩, ⟨S16384x128, g 21⟩, ⟨S16384x128, g 22⟩, ⟨S16384x128, g 23⟩, ⟨S16384x128, g 24⟩, ⟨S16384x128, g 25⟩] concatenates_S16384x128_S16384x128_S16384x128_S16384x128_S16384x128_S16384x128_S16384x128_S16384x128_S16384x128_S16384x128_S16384x1280_d1⟩]
    concatenates_S16384x2048_S16384x1280_S16384x3328_d1

/-- The tables' and the columns' launch contents on a device, by the lookup's number. -/
def tbls (m' : (ℓ : Loc nD τ sig) → Buf (Elt F) ℓ) (c : Dev nD) : Fin 26 → (⟨S1000x128, .f32⟩ : BufTy).Contents (Elt F) :=
  ![m' ((c.tc : Thread nD τ).loc main_arg26), m' ((c.tc : Thread nD τ).loc main_arg27), m' ((c.tc : Thread nD τ).loc main_arg28), m' ((c.tc : Thread nD τ).loc main_arg29), m' ((c.tc : Thread nD τ).loc main_arg30), m' ((c.tc : Thread nD τ).loc main_arg31), m' ((c.tc : Thread nD τ).loc main_arg32), m' ((c.tc : Thread nD τ).loc main_arg33), m' ((c.tc : Thread nD τ).loc main_arg34), m' ((c.tc : Thread nD τ).loc main_arg35), m' ((c.tc : Thread nD τ).loc main_arg36), m' ((c.tc : Thread nD τ).loc main_arg37), m' ((c.tc : Thread nD τ).loc main_arg38), m' ((c.tc : Thread nD τ).loc main_arg39), m' ((c.tc : Thread nD τ).loc main_arg40), m' ((c.tc : Thread nD τ).loc main_arg41), m' ((c.tc : Thread nD τ).loc main_arg42), m' ((c.tc : Thread nD τ).loc main_arg43), m' ((c.tc : Thread nD τ).loc main_arg44), m' ((c.tc : Thread nD τ).loc main_arg45), m' ((c.tc : Thread nD τ).loc main_arg46), m' ((c.tc : Thread nD τ).loc main_arg47), m' ((c.tc : Thread nD τ).loc main_arg48), m' ((c.tc : Thread nD τ).loc main_arg49), m' ((c.tc : Thread nD τ).loc main_arg50), m' ((c.tc : Thread nD τ).loc main_arg51)]
def cols (m' : (ℓ : Loc nD τ sig) → Buf (Elt F) ℓ) (c : Dev nD) : Fin 26 → (⟨S16384, .i32⟩ : BufTy).Contents (Elt F) :=
  ![m' ((c.tc : Thread nD τ).loc main_arg0), m' ((c.tc : Thread nD τ).loc main_arg1), m' ((c.tc : Thread nD τ).loc main_arg2), m' ((c.tc : Thread nD τ).loc main_arg3), m' ((c.tc : Thread nD τ).loc main_arg4), m' ((c.tc : Thread nD τ).loc main_arg5), m' ((c.tc : Thread nD τ).loc main_arg6), m' ((c.tc : Thread nD τ).loc main_arg7), m' ((c.tc : Thread nD τ).loc main_arg8), m' ((c.tc : Thread nD τ).loc main_arg9), m' ((c.tc : Thread nD τ).loc main_arg10), m' ((c.tc : Thread nD τ).loc main_arg11), m' ((c.tc : Thread nD τ).loc main_arg12), m' ((c.tc : Thread nD τ).loc main_arg13), m' ((c.tc : Thread nD τ).loc main_arg14), m' ((c.tc : Thread nD τ).loc main_arg15), m' ((c.tc : Thread nD τ).loc main_arg16), m' ((c.tc : Thread nD τ).loc main_arg17), m' ((c.tc : Thread nD τ).loc main_arg18), m' ((c.tc : Thread nD τ).loc main_arg19), m' ((c.tc : Thread nD τ).loc main_arg20), m' ((c.tc : Thread nD τ).loc main_arg21), m' ((c.tc : Thread nD τ).loc main_arg22), m' ((c.tc : Thread nD τ).loc main_arg23), m' ((c.tc : Thread nD τ).loc main_arg24), m' ((c.tc : Thread nD τ).loc main_arg25)]

end Cert.ReferenceIdeal.RefValue

end
-- ==== Proof.RefArgs.lean ====
import proofs.«204019_g4913442586959_cont_sun_m_672_34_alg».proof.Proof.Gen.ReferenceIdeal

/-!
  The reference program's fifty-two arguments unchanged, as the conjunction the claim states: argument by argument, in
  the claim's order.
-/

namespace Cert.ReferenceIdeal.RefValue

open Cert.ReferenceIdeal Idealize.ShloMosaic Idealize.SL.Sem

/-- Every argument buffer of device `c` holds in `mem` what it holds in `m'`. -/
def ArgsKept {Val : EltTy → Type} (mem m' : (ℓ : Loc nD τ sig) → Buf Val ℓ) (c : Dev nD) : Prop :=
    mem ((c.tc : Thread nD τ).loc main_arg0) = m' ((c.tc : Thread nD τ).loc main_arg0)
    ∧ mem ((c.tc : Thread nD τ).loc main_arg1) = m' ((c.tc : Thread nD τ).loc main_arg1)
    ∧ mem ((c.tc : Thread nD τ).loc main_arg2) = m' ((c.tc : Thread nD τ).loc main_arg2)
    ∧ mem ((c.tc : Thread nD τ).loc main_arg3) = m' ((c.tc : Thread nD τ).loc main_arg3)
    ∧ mem ((c.tc : Thread nD τ).loc main_arg4) = m' ((c.tc : Thread nD τ).loc main_arg4)
    ∧ mem ((c.tc : Thread nD τ).loc main_arg5) = m' ((c.tc : Thread nD τ).loc main_arg5)
    ∧ mem ((c.tc : Thread nD τ).loc main_arg6) = m' ((c.tc : Thread nD τ).loc main_arg6)
    ∧ mem ((c.tc : Thread nD τ).loc main_arg7) = m' ((c.tc : Thread nD τ).loc main_arg7)
    ∧ mem ((c.tc : Thread nD τ).loc main_arg8) = m' ((c.tc : Thread nD τ).loc main_arg8)
    ∧ mem ((c.tc : Thread nD τ).loc main_arg9) = m' ((c.tc : Thread nD τ).loc main_arg9)
    ∧ mem ((c.tc : Thread nD τ).loc main_arg10) = m' ((c.tc : Thread nD τ).loc main_arg10)
    ∧ mem ((c.tc : Thread nD τ).loc main_arg11) = m' ((c.tc : Thread nD τ).loc main_arg11)
    ∧ mem ((c.tc : Thread nD τ).loc main_arg12) = m' ((c.tc : Thread nD τ).loc main_arg12)
    ∧ mem ((c.tc : Thread nD τ).loc main_arg13) = m' ((c.tc : Thread nD τ).loc main_arg13)
    ∧ mem ((c.tc : Thread nD τ).loc main_arg14) = m' ((c.tc : Thread nD τ).loc main_arg14)
    ∧ mem ((c.tc : Thread nD τ).loc main_arg15) = m' ((c.tc : Thread nD τ).loc main_arg15)
    ∧ mem ((c.tc : Thread nD τ).loc main_arg16) = m' ((c.tc : Thread nD τ).loc main_arg16)
    ∧ mem ((c.tc : Thread nD τ).loc main_arg17) = m' ((c.tc : Thread nD τ).loc main_arg17)
    ∧ mem ((c.tc : Thread nD τ).loc main_arg18) = m' ((c.tc : Thread nD τ).loc main_arg18)
    ∧ mem ((c.tc : Thread nD τ).loc main_arg19) = m' ((c.tc : Thread nD τ).loc main_arg19)
    ∧ mem ((c.tc : Thread nD τ).loc main_arg20) = m' ((c.tc : Thread nD τ).loc main_arg20)
    ∧ mem ((c.tc : Thread nD τ).loc main_arg21) = m' ((c.tc : Thread nD τ).loc main_arg21)
    ∧ mem ((c.tc : Thread nD τ).loc main_arg22) = m' ((c.tc : Thread nD τ).loc main_arg22)
    ∧ mem ((c.tc : Thread nD τ).loc main_arg23) = m' ((c.tc : Thread nD τ).loc main_arg23)
    ∧ mem ((c.tc : Thread nD τ).loc main_arg24) = m' ((c.tc : Thread nD τ).loc main_arg24)
    ∧ mem ((c.tc : Thread nD τ).loc main_arg25) = m' ((c.tc : Thread nD τ).loc main_arg25)
    ∧ mem ((c.tc : Thread nD τ).loc main_arg26) = m' ((c.tc : Thread nD τ).loc main_arg26)
    ∧ mem ((c.tc : Thread nD τ).loc main_arg27) = m' ((c.tc : Thread nD τ).loc main_arg27)
    ∧ mem ((c.tc : Thread nD τ).loc main_arg28) = m' ((c.tc : Thread nD τ).loc main_arg28)
    ∧ mem ((c.tc : Thread nD τ).loc main_arg29) = m' ((c.tc : Thread nD τ).loc main_arg29)
    ∧ mem ((c.tc : Thread nD τ).loc main_arg30) = m' ((c.tc : Thread nD τ).loc main_arg30)
    ∧ mem ((c.tc : Thread nD τ).loc main_arg31) = m' ((c.tc : Thread nD τ).loc main_arg31)
    ∧ mem ((c.tc : Thread nD τ).loc main_arg32) = m' ((c.tc : Thread nD τ).loc main_arg32)
    ∧ mem ((c.tc : Thread nD τ).loc main_arg33) = m' ((c.tc : Thread nD τ).loc main_arg33)
    ∧ mem ((c.tc : Thread nD τ).loc main_arg34) = m' ((c.tc : Thread nD τ).loc main_arg34)
    ∧ mem ((c.tc : Thread nD τ).loc main_arg35) = m' ((c.tc : Thread nD τ).loc main_arg35)
    ∧ mem ((c.tc : Thread nD τ).loc main_arg36) = m' ((c.tc : Thread nD τ).loc main_arg36)
    ∧ mem ((c.tc : Thread nD τ).loc main_arg37) = m' ((c.tc : Thread nD τ).loc main_arg37)
    ∧ mem ((c.tc : Thread nD τ).loc main_arg38) = m' ((c.tc : Thread nD τ).loc main_arg38)
    ∧ mem ((c.tc : Thread nD τ).loc main_arg39) = m' ((c.tc : Thread nD τ).loc main_arg39)
    ∧ mem ((c.tc : Thread nD τ).loc main_arg40) = m' ((c.tc : Thread nD τ).loc main_arg40)
    ∧ mem ((c.tc : Thread nD τ).loc main_arg41) = m' ((c.tc : Thread nD τ).loc main_arg41)
    ∧ mem ((c.tc : Thread nD τ).loc main_arg42) = m' ((c.tc : Thread nD τ).loc main_arg42)
    ∧ mem ((c.tc : Thread nD τ).loc main_arg43) = m' ((c.tc : Thread nD τ).loc main_arg43)
    ∧ mem ((c.tc : Thread nD τ).loc main_arg44) = m' ((c.tc : Thread nD τ).loc main_arg44)
    ∧ mem ((c.tc : Thread nD τ).loc main_arg45) = m' ((c.tc : Thread nD τ).loc main_arg45)
    ∧ mem ((c.tc : Thread nD τ).loc main_arg46) = m' ((c.tc : Thread nD τ).loc main_arg46)
    ∧ mem ((c.tc : Thread nD τ).loc main_arg47) = m' ((c.tc : Thread nD τ).loc main_arg47)
    ∧ mem ((c.tc : Thread nD τ).loc main_arg48) = m' ((c.tc : Thread nD τ).loc main_arg48)
    ∧ mem ((c.tc : Thread nD τ).loc main_arg49) = m' ((c.tc : Thread nD τ).loc main_arg49)
    ∧ mem ((c.tc : Thread nD τ).loc main_arg50) = m' ((c.tc : Thread nD τ).loc main_arg50)
    ∧ mem ((c.tc : Thread nD τ).loc main_arg51) = m' ((c.tc : Thread nD τ).loc main_arg51)

end Cert.ReferenceIdeal.RefValue
-- ==== Proof.RefRun.lean ====
import proofs.«204019_g4913442586959_cont_sun_m_672_34_alg».proof.Proof.RefCall
import proofs.«204019_g4913442586959_cont_sun_m_672_34_alg».proof.Proof.RefTables
import proofs.«204019_g4913442586959_cont_sun_m_672_34_alg».proof.Proof.RefArgs

/-!
  The reference program's run. Its @main is twenty-six lookups and three concatenations: a straight line of 601
  operations, the lookups' lines one after the other and the concatenations last. Every weakly fair execution
  terminates with the result buffer at the concatenation of the twenty-six lookups' terms (`catAll` of `takeVal`) of the
  arguments' launch contents, and the arguments unchanged.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Lookup `k`'s operations. -/
def callOps (k : Fin 26) : List (HloOp τ sig (Elt F)) := takeOps (tblT k) (colT k) (callB k)

/-- The lookups' lines, in the order of a list of lookup numbers. -/
def callsOps (ks : List (Fin 26)) : List (HloOp τ sig (Elt F)) := ks.flatMap callOps

/-- @main's operations: the twenty-six lookups in order, then the three concatenations. -/
def ops : List (HloOp τ sig (Elt F)) := callsOps (List.finRange 26) ++ tailOps

theorem finRange26 : List.finRange 26
    = [0, 1, 2, 3, 4, 5, 6, 7, 8, 9, 10, 11, 12, 13, 14, 15, 16, 17, 18, 19, 20, 21, 22, 23, 24, 25] := by decide

theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 4096 in
/-- @main is that straight line: each call's body is its line (`take_body_eq`), and lines run one after the other are
    their concatenation run as one (`seq_append`). -/
theorem main_eq (c : Dev nD) : main (F := F) c = seq ops := by
  simp only [ops, callsOps, finRange26, List.flatMap_cons, List.flatMap_nil, List.append_nil, List.append_assoc, seq_append]
  simp only [main, take_body_eq]
  rfl

theorem scopedRefs_eq : (Finset.univ.filter fun b : Ref sig .tc => b.isScoped) = ∅ := by decide
theorem scopedSems_eq : (Finset.univ.filter fun sm : SemLoc sig => sm.isScoped .tc) = ∅ := by decide

theorem calls_forall {p : HloOp τ sig (Elt F) → Prop} (h : ∀ k, (callOps (F := F) k).Forall p) (ks : List (Fin 26)) :
    (callsOps (F := F) ks).Forall p :=
  List.forall_iff_forall_mem.mpr fun op hop => by
    obtain ⟨k, -, hk⟩ := List.mem_flatMap.mp hop
    exact List.forall_iff_forall_mem.mp (h k) op hk

/-- Every operation touches TensorCore buffers only. -/
theorem ops_sub : (ops : List (HloOp τ sig (Elt F))).Forall fun op => op.bufs ⊆ tcRefs τ sig :=
  List.forall_append.mpr ⟨calls_forall (fun k => take_sub _ _ _) _, ⟨nary_bufs_sub .., nary_bufs_sub .., binary_bufs_sub ..⟩⟩

/-- No operation leaves its result undetermined. -/
theorem ops_fresh : ∀ op ∈ (ops : List (HloOp τ sig (Elt F))), op.fresh = ∅ := by
  intro op hop
  rcases List.mem_append.mp hop with h | h
  · obtain ⟨k, -, hk⟩ := List.mem_flatMap.mp h
    exact take_fresh _ _ _ op hk
  · simp only [tailOps, List.mem_cons, List.not_mem_nil, or_false] at h
    rcases h with rfl | rfl | rfl <;> rfl

/-! ## Which buffers are which: decided on the tables -/

/-- No lookup writes a table or a column argument. -/
theorem args_not_written : ∀ j k : Fin 26, (tblT k).ref ∉ takeW (callB j) ∧ (colT k).ref ∉ takeW (callB j) := by decide +kernel
/-- No lookup writes another lookup's result. -/
theorem res_not_written : ∀ j k : Fin 26, j ≠ k → (callB k).v16.ref ∉ takeW (callB j) := by decide +kernel
/-- A lookup's table, column and own buffers are pairwise distinct. -/
theorem call_nodup : ∀ k : Fin 26, ((tblT k).ref :: (colT k).ref :: takeW (callB k)).Nodup := by decide +kernel

/-! ## The lookups' lines, one after the other -/

/-- A buffer none of the lookups `ks` writes holds after their lines what it held. -/
theorem calls_frame (ks : List (Fin 26)) (V : Valuation τ sig (Elt F)) {r : Ref sig .tc}
    (h : ∀ j ∈ ks, r ∉ takeW (callB j)) : after (callsOps ks) V (Proc.devRef .tc r) = V (Proc.devRef .tc r) := by
  induction ks generalizing V with
  | nil => rfl
  | cons j ks ih =>
    rw [callsOps, List.flatMap_cons, after_app]
    exact (ih _ fun j' hj' => h j' (List.mem_cons_of_mem _ hj')).trans (take_frame _ _ _ V (h j List.mem_cons_self))

/-- After the lines of distinct lookups `ks`, the result buffer of each lookup `k` among them holds `takeVal` of its
    table's and column's contents before all of them: the lines before `k`'s write neither its table nor its column, its
    own line computes `takeVal` of them, the lines after it do not write its result. -/
theorem calls_val (ks : List (Fin 26)) (hnd : ks.Nodup) (V : Valuation τ sig (Elt F)) (k : Fin 26) (hk : k ∈ ks) :
    (callB k).v16.ofBuf (after (callsOps ks) V (Proc.devRef .tc (callB k).v16.ref))
      = takeVal ((tblT k).ofBuf (V (Proc.devRef .tc (tblT k).ref))) ((colT k).ofBuf (V (Proc.devRef .tc (colT k).ref))) := by
  induction ks generalizing V with
  | nil => cases hk
  | cons j ks ih =>
    rw [callsOps, List.flatMap_cons, after_app]
    rcases List.mem_cons.mp hk with rfl | hk'
    · have hnot : k ∉ ks := (List.nodup_cons.mp hnd).1
      rw [show after (List.flatMap callOps ks) = after (callsOps ks) from rfl,
        calls_frame ks _ fun j' hj' => res_not_written j' k (by rintro rfl; exact hnot hj')]
      exact take_val _ _ _ (call_nodup k) V
    · rw [show after (List.flatMap callOps ks) = after (callsOps ks) from rfl, ih (List.nodup_cons.mp hnd).2 _ hk']
      rw [show callOps (F := F) j = takeOps (tblT j) (colT j) (callB j) from rfl,
        take_frame _ _ _ V (args_not_written j k).1, take_frame _ _ _ V (args_not_written j k).2]

/-! ## The three concatenations, and the whole line -/

/-- After the concatenations the result buffer holds the twenty-six lookups' results side by side. -/
theorem tail_val (W : Valuation τ sig (Elt F)) :
    after tailOps W (Proc.devRef .tc main_v28) = catAll fun k => (callB k).v16.ofBuf (W (Proc.devRef .tc (callB k).v16.ref)) := by
  after_results_simp
  rfl

/-- The buffers the concatenations write. -/
theorem tail_writes : (tailOps : List (HloOp τ sig (Elt F))).Forall fun op =>
    op.writes ⊆ (([main_v26, main_v27, main_v28] : List (Ref sig .tc)).map (Proc.devRef (τ := τ) .tc)).toFinset :=
  ⟨single_sub_of_mem (by simp), single_sub_of_mem (by simp), single_sub_of_mem (by simp)⟩

theorem finRange26_nodup : (List.finRange 26).Nodup := List.nodup_finRange 26

/-- The result: the concatenation of the lookups' terms of the launch contents. -/
theorem ops_val (V : Valuation τ sig (Elt F)) :
    after ops V (Proc.devRef .tc main_v28)
      = catAll fun k => takeVal ((tblT k).ofBuf (V (Proc.devRef .tc (tblT k).ref))) ((colT k).ofBuf (V (Proc.devRef .tc (colT k).ref))) := by
  rw [ops, after_app, tail_val]
  exact congrArg catAll (funext fun k => calls_val _ finRange26_nodup V k (List.mem_finRange k))

/-- The frame: a table or a column argument is written by no operation. -/
theorem ops_tbl (V : Valuation τ sig (Elt F)) (k : Fin 26) :
    after ops V (Proc.devRef .tc (tblT k).ref) = V (Proc.devRef .tc (tblT k).ref) := by
  rw [ops, after_app, after_of_writes_sub tailOps _ tail_writes (by revert k; decide)]
  exact calls_frame _ V fun j _ => (args_not_written j k).1
theorem ops_col (V : Valuation τ sig (Elt F)) (k : Fin 26) :
    after ops V (Proc.devRef .tc (colT k).ref) = V (Proc.devRef .tc (colT k).ref) := by
  rw [ops, after_app, after_of_writes_sub tailOps _ tail_writes (by revert k; decide)]
  exact calls_frame _ V fun j _ => (args_not_written j k).2

/-- On every device, for any float values, from any memory with zero counters: every weakly fair execution of @main
    terminates, with every TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The run, over the launch contents -/

/-- The tables' and the columns' launch contents by the lookup's number are the contents of the lookups' arguments. -/
theorem tbls_apply (m' : (ℓ : Loc nD τ sig) → Buf (Elt F) ℓ) (c : Dev nD) (k : Fin 26) :
    (tblT k).ofBuf (launchContents m' c (Proc.devRef .tc (tblT k).ref)) = tbls m' c k := by
  fin_cases k <;> rfl
theorem cols_apply (m' : (ℓ : Loc nD τ sig) → Buf (Elt F) ℓ) (c : Dev nD) (k : Fin 26) :
    (colT k).ofBuf (launchContents m' c (Proc.devRef .tc (colT k).ref)) = cols m' c k := by
  fin_cases k <;> rfl

/-- The argument buffers: the twenty-six columns, then the twenty-six tables. -/
def argRefs : List (Ref sig .tc) := List.ofFn (fun k => (colT k).ref) ++ List.ofFn (fun k => (tblT k).ref)

/-- No operation writes an argument. -/
theorem ops_arg (V : Valuation τ sig (Elt F)) {r : Ref sig .tc} (hr : r ∈ argRefs) :
    after ops V (Proc.devRef .tc r) = V (Proc.devRef .tc r) := by
  rcases List.mem_append.mp hr with h | h
  · obtain ⟨k, rfl⟩ := List.mem_ofFn.mp h
    exact ops_col V k
  · obtain ⟨k, rfl⟩ := List.mem_ofFn.mp h
    exact ops_tbl V k

/-- The fifty-two arguments unchanged, from every buffer of the argument list unchanged: each conjunct names a buffer of
    the list (decided). -/
theorem argsKept_of {Val : EltTy → Type} (mem m' : (ℓ : Loc nD τ sig) → Buf Val ℓ) (c : Dev nD)
    (h : ∀ r : Ref sig .tc, r ∈ argRefs → mem ((c.tc : Thread nD τ).loc r) = m' ((c.tc : Thread nD τ).loc r)) :
    ArgsKept mem m' c := by
  unfold ArgsKept
  repeat' apply And.intro
  all_goals exact h _ (by decide)

/-- On every device, for any float values, from any memory with zero counters: every weakly fair execution of @main
    terminates with the result buffer at the twenty-six lookups' terms of the arguments' launch contents, side by side,
    and the arguments unchanged. -/
theorem run_cat (m' : (ℓ : Loc nD τ sig) → Buf (Elt F) ℓ) (ρ' : Dev nD → PrngReg) :
    θ_run (defs (F := F)) (onTc (τ := τ) (main (F := F))) ⟨m', fun _ => 0, ρ'⟩ fun r => ∀ c : Dev nD,
      r.2.mem ((c.tc : Thread nD τ).loc main_v28) = catAll (fun k => takeVal (tbls m' c k) (cols m' c k))
      ∧ ArgsKept r.2.mem m' c :=
  (θ_run defs _ _).mono (fun r h c =>
      ⟨(h c main_v28).trans ((ops_val _).trans
          (congrArg catAll (funext fun k => by rw [tbls_apply, cols_apply]))),
        argsKept_of _ _ c fun r hr => (h c r).trans (ops_arg _ hr)⟩)
    (run_main m' ρ')

end Cert.ReferenceIdeal.RefValue

end
-- ==== Proof.RefValue.lean ====
import proofs.«204019_g4913442586959_cont_sun_m_672_34_alg».proof.Proof.RefCall
import proofs.«204019_g4913442586959_cont_sun_m_672_34_alg».proof.Proof.RefTables
import proofs.«204019_g4913442586959_cont_sun_m_672_34_alg».proof.Proof.Spec
import Idealize.ShloMosaic.Lib.Pipeline.Value
import Idealize.ShloMosaic.PureOps.Reduce

/-!
  The value of the reference program. One lookup, read at an index, on a column whose words are all below 1000: the
  wrap of negative row numbers returns the word itself (a word below 1000 is not negative as a signed word), the
  validity mask is all ones (such a word is at least 0 and at most 999), so the final select returns the gathered
  row, and the gather reads the table's row the word names (its clamp into [0, 999] changes nothing). The concatenation
  of the twenty-six blocks read at column `q` is block `q / 128` at column `q % 128`. Together: the specification `G`.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec

variable {F : FTy → Type} [FloatOps F]

/-! ## Words below 1000 as signed words -/

theorem toInt_of_lt {w : BitVec 32} (h : w.toNat < 1000) : w.toInt = (w.toNat : Int) := by
  rw [BitVec.toInt_eq_toNat_cond]; split <;> omega

theorem slt_zero_of_lt {w : BitVec 32} (h : w.toNat < 1000) : IntOp.cmpi .slt w 0#32 = 0#1 := by
  have : w.slt 0#32 = false := by
    rw [BitVec.slt_eq_decide, toInt_of_lt h]; simp
  simp [IntOp.cmpi, this]

theorem sge_zero_of_lt {w : BitVec 32} (h : w.toNat < 1000) : IntOp.cmpi .sge w 0#32 = 1#1 := by
  have : (0#32 : BitVec 32).sle w = true := by
    rw [BitVec.sle_eq_decide, toInt_of_lt h]; simp
  simp [IntOp.cmpi, this]

theorem sle_999_of_lt {w : BitVec 32} (h : w.toNat < 1000) : IntOp.cmpi .sle w 999#32 = 1#1 := by
  have : w.sle 999#32 = true := by
    rw [BitVec.sle_eq_decide, toInt_of_lt h]
    have : (999#32 : BitVec 32).toInt = 999 := by decide
    rw [this]; simp; omega
  simp [IntOp.cmpi, this]

/-! ## One lookup read at an index -/

/-- On a word below 1000 the wrap of negative row numbers returns the word. -/
theorem wrapIdx_apply (i : (⟨S16384, .i32⟩ : BufTy).Contents (Elt F)) (b : S16384.Idx) (h : (i b).toNat < 1000) :
    wrapIdx (F := F) i b = i b := by
  show Scalar.select (IntOp.cmpi .slt (i b) 0#32) (IntOp.addi (i b) 1000#32) (i b) = i b
  rw [slt_zero_of_lt h, select_zero]

/-- The index column at row `b` is the wrapped row number of `b`. -/
theorem idxCol_apply (i : (⟨S16384, .i32⟩ : BufTy).Contents (Elt F)) (j : S16384x1.Idx) :
    idxCol (F := F) i j = wrapIdx i (ix1 (j 0)) := by
  unfold idxCol
  exact broadcastInDim_apply _ _ _ j (ix1 (j 0)) fun a => by match a with | ⟨0, _⟩ => rfl

/-- A left fold by `and` from 1 over ones is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- The validity mask of an index column whose words are all below 1000 is all ones. -/
theorem maskOf_apply (J : (⟨S16384x1, .i32⟩ : BufTy).Contents (Elt F)) (hJ : ∀ j, (J j).toNat < 1000) (b : S16384.Idx) :
    maskOf (F := F) J b = 1#1 := by
  unfold maskOf
  rw [Host.reduce_eq_foldl]
  exact foldl_andi_one _ _ fun n _ => by
    show IntOp.andi (IntOp.cmpi .sge (J n) 0#32) (IntOp.cmpi .sle (J n) 999#32) = 1#1
    rw [sge_zero_of_lt (hJ n), sle_999_of_lt (hJ n)]; decide

/-- The gather of table rows read at `(b, e)`: entry `e` of the row the index column names at `b`, read signed and
    clamped into [0, 999]. On the row axis (collapsed, named by the start index map) the operand coordinate is the
    clamped start index; on the entry axis (an offset axis) it is the result's entry coordinate. -/
theorem gather_apply {α : Type} (x : S1000x128.Idx → α) (J : IVec S16384x1 32) (b : Fin 16384) (e : Fin 128) :
    Host.gather gather_S1000x128_S16384x1_S16384x128_1_0_n_n_0_1_1128 x J (ix2 b e)
      = x (ix2 ⟨min (J (ix2 b ⟨0, Nat.one_pos⟩)).toInt.toNat 999, by omega⟩ e) := by
  unfold Host.gather
  congr 1
  funext a
  refine Fin.ext ?_
  match a with
  | ⟨0, _⟩ =>
    show gather_S1000x128_S16384x1_S16384x128_1_0_n_n_0_1_1128.start (ix2 b e) J (0 : Fin S1000x128.rank)
        + gather_S1000x128_S16384x1_S16384x128_1_0_n_n_0_1_1128.batchCoord (ix2 b e) (0 : Fin S1000x128.rank)
        + gather_S1000x128_S16384x1_S16384x128_1_0_n_n_0_1_1128.offCoord (ix2 b e) (0 : Fin S1000x128.rank)
      = min (J (ix2 b ⟨0, Nat.one_pos⟩)).toInt.toNat 999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1000x128.rank) ∈ gather_S1000x128_S16384x1_S16384x128_1_0_n_n_0_1_1128.startIndexMap
      from List.mem_singleton.mpr rfl)]
    have hsi : gather_S1000x128_S16384x1_S16384x128_1_0_n_n_0_1_1128.siIdx (ix2 b e)
        ⟨List.idxOf (0 : Fin S1000x128.rank) gather_S1000x128_S16384x1_S16384x128_1_0_n_n_0_1_1128.startIndexMap,
          List.idxOf_lt_length_iff.2 (List.mem_singleton.mpr rfl)⟩ = ix2 b ⟨0, Nat.one_pos⟩ := by
      funext c; refine Fin.ext ?_
      match c with
      | ⟨0, _⟩ => rfl
      | ⟨1, _⟩ => rfl
    rw [hsi]
    rfl
  | ⟨1, _⟩ =>
    show gather_S1000x128_S16384x1_S16384x128_1_0_n_n_0_1_1128.start (ix2 b e) J (1 : Fin S1000x128.rank)
        + gather_S1000x128_S16384x1_S16384x128_1_0_n_n_0_1_1128.batchCoord (ix2 b e) (1 : Fin S1000x128.rank)
        + gather_S1000x128_S16384x1_S16384x128_1_0_n_n_0_1_1128.offCoord (ix2 b e) (1 : Fin S1000x128.rank)
      = e.val
    rw [GatherDims.batchCoord_eq_zero _ _ _ List.not_mem_nil]
    have hs : gather_S1000x128_S16384x1_S16384x128_1_0_n_n_0_1_1128.start (ix2 b e) J (1 : Fin S1000x128.rank) = 0 := by
      unfold GatherDims.start
      rw [dif_neg (by decide)]
    rw [hs]
    simp only [Nat.add_zero, Nat.zero_add]
    unfold GatherDims.offCoord
    rw [dif_pos (by decide)]
    rfl

/-- One lookup at `(b, e)`, on a column of words below 1000: entry `e` of the table's row the column names at `b`. -/
theorem takeVal_apply (x : (⟨S1000x128, .f32⟩ : BufTy).Contents (Elt F)) (i : (⟨S16384, .i32⟩ : BufTy).Contents (Elt F))
    (hi : ∀ b, (i b).toNat < 1000) (b : Fin 16384) (e : Fin 128) :
    takeVal (F := F) x i (ix2 b e) = x (ix2 (rowOf (i (ix1 b))) e) := by
  have hJ : ∀ j, (idxCol (F := F) i j).toNat < 1000 := fun j => by
    rw [idxCol_apply, wrapIdx_apply _ _ (hi _)]; exact hi _
  unfold takeVal
  rw [select_apply]
  have hm : broadcastInDim S16384x128 ![0] bcast_S16384_S16384x128_0 (maskOf (F := F) (idxCol i)) (ix2 b e) = 1#1 := by
    unfold broadcastInDim; exact maskOf_apply _ hJ _
  rw [hm, select_one, gather_apply]
  have hw := hi (ix1 b)
  refine congrArg (fun r => x (ix2 r e)) (Fin.ext ?_)
  show min (idxCol (F := F) i (ix2 b ⟨0, Nat.one_pos⟩)).toInt.toNat 999 = (i (ix1 b)).toNat % 1000
  rw [idxCol_apply, wrapIdx_apply _ _ (hi _)]
  show min (i (ix1 b)).toInt.toNat 999 = (i (ix1 b)).toNat % 1000
  rw [toInt_of_lt hw, Int.toNat_natCast]; omega

/-! ## The concatenation read at an index -/

/-- `N` blocks of 128 columns side by side, read at column `q`: block `q / 128` at column `q % 128`. -/
theorem catBlocks_apply {α : Type} {N M : Nat} (g : Fin N → S16384x128.Idx → α)
    (h : Shape.Concatenates ((List.ofFn fun n : Fin N => (⟨S16384x128, g n⟩ : (s : Shape) × (s.Idx → α))).map (·.1)) ⟨2, ![16384, M]⟩ 1)
    (b : Fin 16384) (q : Fin M) (hq : q.val / 128 < N) :
    concatenate ⟨2, ![16384, M]⟩ 1 (List.ofFn fun n : Fin N => (⟨S16384x128, g n⟩ : (s : Shape) × (s.Idx → α))) h (ix2 b q)
      = g ⟨q.val / 128, hq⟩ (ix2 b ⟨q.val % 128, Nat.mod_lt _ (by decide)⟩) :=
  concatenate_ofFn_apply 1 g h rfl 128 rfl (ix2 b q) ⟨q.val / 128, hq⟩ rfl (ix2 b ⟨q.val % 128, Nat.mod_lt _ (by decide)⟩) rfl
    fun c hc => by
      match c with
      | ⟨0, _⟩ => rfl
      | ⟨1, _⟩ => exact absurd rfl hc

/-- The twenty-six blocks side by side, read at column `q`: block `q / 128` at column `q % 128`. -/
theorem catAll_apply (g : Fin 26 → (⟨S16384x128, .f32⟩ : BufTy).Contents (Elt F)) (b : Fin 16384) (q : Fin 3328) :
    catAll g (ix2 b q) = g (tblOf q) (ix2 b (laneOf q)) := by
  unfold catAll
  by_cases hq : q.val < 2048
  · refine (concatenate_pair_apply_left (t := S16384x3328) (s₁ := S16384x2048) (s₂ := S16384x1280) 1 _ _ _ (ix2 b q) rfl
      (ix2 b (⟨q.val, hq⟩ : Fin 2048)) fun c => by
      match c with
      | ⟨0, _⟩ => rfl
      | ⟨1, _⟩ => rfl).trans ?_
    refine (catBlocks_apply (N := 16) (M := 2048) (fun n => g (Fin.castLE (by decide) n)) _ b ⟨q.val, hq⟩
      (by show q.val / 128 < 16; omega)).trans ?_
    rfl
  · have hq' : q.val - 2048 < 1280 := by have := q.isLt; omega
    refine (concatenate_pair_apply_right (t := S16384x3328) (s₁ := S16384x2048) (s₂ := S16384x1280) 1 _ _ _ (ix2 b q) rfl rfl
      (ix2 b (⟨q.val - 2048, hq'⟩ : Fin 1280)) (fun c hc => by
      match c with
      | ⟨0, _⟩ => rfl
      | ⟨1, _⟩ => exact absurd rfl hc) (by show q.val - 2048 + 2048 = q.val; omega)).trans ?_
    refine (catBlocks_apply (N := 10) (M := 1280) (fun n => g ⟨16 + n.val, by have := n.isLt; omega⟩) _ b ⟨q.val - 2048, hq'⟩
      (by show (q.val - 2048) / 128 < 10; omega)).trans ?_
    have e1 : (⟨16 + (q.val - 2048) / 128, by omega⟩ : Fin 26) = tblOf q :=
      Fin.ext (by show 16 + (q.val - 2048) / 128 = q.val / 128; omega)
    have e2 : (⟨(q.val - 2048) % 128, Nat.mod_lt _ (by decide)⟩ : Fin 128) = laneOf q :=
      Fin.ext (by show (q.val - 2048) % 128 = q.val % 128; omega)
    show g ⟨16 + (q.val - 2048) / 128, _⟩ (ix2 b ⟨(q.val - 2048) % 128, _⟩) = _
    rw [e1, e2]

/-! ## The specification -/

/-- The twenty-six lookups side by side, on columns of words below 1000, are the specification's function. -/
theorem cat_take_eq_G (T : Fin 26 → (⟨S1000x128, .f32⟩ : BufTy).Contents (Elt F))
    (C : Fin 26 → (⟨S16384, .i32⟩ : BufTy).Contents (Elt F)) (hr : ∀ t b, (C t b).toNat < 1000) :
    catAll (fun k => takeVal (T k) (C k)) = G T C := by
  funext j
  obtain ⟨b, q, rfl⟩ : ∃ b q, j = ix2 b q := ⟨j 0, j 1, eq_ix2 j⟩
  exact (catAll_apply _ b q).trans (takeVal_apply (T (tblOf q)) (C (tblOf q)) (hr _) b (laneOf q))

end Cert.ReferenceIdeal.RefValue

end
-- ==== Proof.RefFinal.lean ====
import proofs.«204019_g4913442586959_cont_sun_m_672_34_alg».proof.Proof.RefRun
import proofs.«204019_g4913442586959_cont_sun_m_672_34_alg».proof.Proof.RefValue

/-!
  The reference program's run with its value: on columns of words below 1000, every weakly fair execution terminates
  with the result buffer at the specification's function `G` of the tables' and the columns' launch contents, and the
  arguments unchanged.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The run (`run_cat`) with the concatenated lookups read as the specification (`cat_take_eq_G`). -/
theorem run (m' : (ℓ : Loc nD τ sig) → Buf (Elt F) ℓ) (ρ' : Dev nD → PrngReg)
    (hr : ∀ (c : Dev nD) (t : Fin 26) (b : Cert.Spec.ColS.Idx), (cols m' c t b).toNat < 1000) :
    θ_run (defs (F := F)) (onTc (τ := τ) (main (F := F))) ⟨m', fun _ => 0, ρ'⟩ fun r => ∀ c : Dev nD,
      r.2.mem ((c.tc : Thread nD τ).loc main_v28) = Cert.Spec.G (tbls m' c) (cols m' c)
      ∧ ArgsKept r.2.mem m' c :=
  (θ_run defs _ _).mono (fun _ h c => ⟨(h c).1.trans (cat_take_eq_G _ _ (hr c)), (h c).2⟩) (run_cat m' ρ')

end Cert.ReferenceIdeal.RefValue

end
-- ==== Proof.RefClaims.lean ====
import proofs.«204019_g4913442586959_cont_sun_m_672_34_alg».proof.Defs
import proofs.«204019_g4913442586959_cont_sun_m_672_34_alg».proof.Proof.RefFinal
import proofs.«204019_g4913442586959_cont_sun_m_672_34_alg».proof.Proof.PreRange
import proofs.«204019_g4913442586959_cont_sun_m_672_34_alg».proof.Proof.Gen.Pre_input_domain

/-!
  The reference program's share of the claim. The precondition says every column word is below 1000 (the range read
  back from the precondition's bit); under it the reference runs, leaves its arguments unchanged, and ends with the
  result buffer at the specification's function of the launch contents.
-/

noncomputable section

namespace Cert.Proof.RefClaims

open Cert.ReferenceIdeal Cert.ReferenceIdeal.RefValue Idealize.ShloMosaic Idealize.ShloMosaic.TcCoe Idealize.SL.Sem

/-- Under the precondition every word of every column, read unsigned, is below 1000. -/
theorem cols_range (m' : (ℓ : Loc nD τ sig) → Buf (Elt Ideal) ℓ)
    (hpre : Cert.Pre_ReferenceIdeal (hPre_input_domain := Cert.Pre_input_domain.Gen.facts) m') :
    ∀ (c : Dev nD) (t : Fin 26) (b : Cert.Spec.ColS.Idx), (cols (F := Ideal) m' c t b).toNat < 1000 :=
  fun c => Cert.Proof.PreRange.range_of_fn (F := Ideal) (h := hpre c)

/-- The reference runs and its arguments end unchanged: the run with its value conjunct dropped. -/
theorem frame_ri : Cert.frame_ReferenceIdeal (hReferenceIdeal := Cert.ReferenceIdeal.Gen.facts)
    (hPre_input_domain := Cert.Pre_input_domain.Gen.facts) :=
  fun m g hpre => (θ_run (Cert.ReferenceIdeal.defs (F := Ideal)) _ _).mono (fun _ h c => (h c).2)
    (run (F := Ideal) m g (cols_range m hpre))

/-- The reference's side of the equivalence, for the result `fun c => G (tables on c) (columns on c)`: the run ends with
    the result buffer at it and the arguments unchanged. -/
theorem ref_side (m' : (ℓ : Loc nD τ sig) → Buf (Elt Ideal) ℓ) (ρ' : Dev nD → PrngReg)
    (hr : ∀ (c : Dev nD) (t : Fin 26) (b : Cert.Spec.ColS.Idx), (cols (F := Ideal) m' c t b).toNat < 1000) :
    θ_run (Cert.ReferenceIdeal.defs (F := Ideal)) (onTc (τ := τ) (main (F := Ideal))) ⟨m', fun _ => 0, ρ'⟩ fun r => ∀ c : Dev nD,
      r.2.mem ((c.tc : Thread nD τ).loc main_v28) = (fun c => Cert.Spec.G (tbls (F := Ideal) m' c) (cols (F := Ideal) m' c)) c
      ∧ ArgsKept r.2.mem m' c :=
  run (F := Ideal) m' ρ' hr

end Cert.Proof.RefClaims

end
-- ==== Proof.AlgKI.lean ====
import proofs.«204019_g4913442586959_cont_sun_m_672_34_alg».proof.Proof.LaunchValKI
import proofs.«204019_g4913442586959_cont_sun_m_672_34_alg».proof.Proof.PreOKKI
import proofs.«204019_g4913442586959_cont_sun_m_672_34_alg».proof.Proof.RefClaims

/-!
# The kernel and the reference agree

From memories that agree on the 52 arguments, the kernel's run leaves in its output, and the reference's run in its
result, the same array: row `b` is the concatenation over the tables of their rows `col t b`. Both runs leave the
arguments as they were. The kernel's side is the launch in value form; the reference's side is its run; the two
arrays are the same function of the arguments, which agree.
-/

noncomputable section

namespace Cert.Proof.KIV

open Cert.KernelIdeal Cert.KernelIdeal.Gen

open Idealize.ShloMosaic
open Idealize.ShloMosaic.SparseCore (S V T)
open Idealize.SL.Sem
open Cert.Proof.KI

/-- The kernel's run in value form, given the tiles' obligation in value form under the range facts. -/
theorem run_val_of
    (htile : ∀ m : (ℓ : Loc nD τ sig) → Buf (Elt Ideal) ℓ, PreOK (F := Ideal) m → (K (F := Ideal)).TileObl (D (F := Ideal)) 𝒱 (PV m) v₀ 0)
    (m : (ℓ : Loc nD τ sig) → Buf (Elt Ideal) ℓ) (g : Dev nD → PrngReg) (hpre : Cert.Pre_KernelIdeal m) :
    θ_run (Cert.KernelIdeal.defs (F := Ideal)) (Cert.KernelIdeal.threads (F := Ideal)) ⟨m, fun _ => 0, g⟩ (QCV m) :=
  run_main_val (F := Ideal) m g (htile m (preOK_of_pre m hpre))

/-- The frame claim from the value launch: the 52 arguments end as they began. -/
theorem frame_ki_val_of
    (htile : ∀ m : (ℓ : Loc nD τ sig) → Buf (Elt Ideal) ℓ, PreOK (F := Ideal) m → (K (F := Ideal)).TileObl (D (F := Ideal)) 𝒱 (PV m) v₀ 0) :
    Cert.frame_KernelIdeal := fun m g hpre =>
  (θ_run Cert.KernelIdeal.defs _ _).mono (fun _ h c => (h c).2) (run_val_of htile m g hpre)

/-- The algebraic claim: the kernel's output and the reference's result are the same array, the arguments unchanged. -/
theorem algebraic_ki_of
    (htile : ∀ m : (ℓ : Loc nD τ sig) → Buf (Elt Ideal) ℓ, PreOK (F := Ideal) m → (K (F := Ideal)).TileObl (D (F := Ideal)) 𝒱 (PV m) v₀ 0) :
    Cert.algebraic_KernelIdeal_ReferenceIdeal := by
  intro m g m' g' hpre hag
  have hcols : ∀ (c : Dev nD) (t : Fin 26), Cert.ReferenceIdeal.RefValue.cols (F := Ideal) m' c t = colVec m c t := by
    intro c t
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51⟩ := hag c
    fin_cases t
    · exact a0
    · exact a1
    · exact a2
    · exact a3
    · exact a4
    · exact a5
    · exact a6
    · exact a7
    · exact a8
    · exact a9
    · exact a10
    · exact a11
    · exact a12
    · exact a13
    · exact a14
    · exact a15
    · exact a16
    · exact a17
    · exact a18
    · exact a19
    · exact a20
    · exact a21
    · exact a22
    · exact a23
    · exact a24
    · exact a25
  have htbls : ∀ (c : Dev nD) (t : Fin 26), Cert.ReferenceIdeal.RefValue.tbls (F := Ideal) m' c t = tblVec m c t := by
    intro c t
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51⟩ := hag c
    fin_cases t
    · exact a26
    · exact a27
    · exact a28
    · exact a29
    · exact a30
    · exact a31
    · exact a32
    · exact a33
    · exact a34
    · exact a35
    · exact a36
    · exact a37
    · exact a38
    · exact a39
    · exact a40
    · exact a41
    · exact a42
    · exact a43
    · exact a44
    · exact a45
    · exact a46
    · exact a47
    · exact a48
    · exact a49
    · exact a50
    · exact a51
  have hrange : ∀ (c : Dev nD) (t : Fin 26) (b : Cert.Spec.ColS.Idx), (colVec m c t b).toNat < 1000 :=
    fun c => Cert.Proof.PreRange.range_of_fn (F := Ideal) (h := hpre c)
  have hr' : ∀ (c : Dev Cert.ReferenceIdeal.nD) (t : Fin 26) (b : Cert.Spec.ColS.Idx),
      (Cert.ReferenceIdeal.RefValue.cols (F := Ideal) m' c t b).toNat < 1000 := by
    intro c t b
    rw [hcols c t]
    exact hrange c t b
  have hG : ∀ c : Dev nD, Cert.Spec.G (Cert.ReferenceIdeal.RefValue.tbls (F := Ideal) m' c) (Cert.ReferenceIdeal.RefValue.cols (F := Ideal) m' c) = GO m c :=
    fun c => congrArg₂ Cert.Spec.G (funext (htbls c)) (funext (hcols c))
  refine ⟨fun c => GO m c, ?_, ?_⟩
  · exact (θ_run Cert.KernelIdeal.defs _ _).mono (fun _ h c => h c) (run_val_of htile m g hpre)
  · exact (θ_run Cert.ReferenceIdeal.defs _ _).mono (fun _ h c => ⟨(h c).1.trans (hG c), (h c).2⟩) (Cert.Proof.RefClaims.ref_side m' g' hr')

end Cert.Proof.KIV

end
-- ==== Proof.TileValStmtKI.lean ====
import proofs.«204019_g4913442586959_cont_sun_m_672_34_alg».proof.Proof.TileStmtKI
import proofs.«204019_g4913442586959_cont_sun_m_672_34_alg».proof.Proof.Spec
import Idealize.ShloMosaic.Lib.ValueIdx

/-!
  The statement of one tile's run in value form, apart from its proof: as the frame form, and the tile's 512 output rows end
  holding the specified values, given that the reshaped columns' entry (R, p) is the columns' entry 128·R + p and that the
  columns' words are below 1000.
-/

noncomputable section

namespace Cert.Proof.KIV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI

variable {F : FTy → Type}
local notation "𝕄" => MT nD τ sig (HIx 1) (Elt F) ℕ UU ℕ

set_option maxHeartbeats 400000000 in
set_option maxRecDepth 65536 in
/-- The run of the body, in value form, on a tile whose coordinates satisfy the four conditions. -/
def TileValOf [FloatOps F] (C1 C2 C3 C4 : grid0.Coords → Prop) : Prop :=
  ∀ (d : Dev nD) (L : grid0.Coords) (hF : (K (F := F)).Facts) (O : CellTallies nD τ sig (HIx 1)) (W : Waits sig (HIx 1)) (hO : ∀ g, O g none = 0)
    (q : PosShare TreeShare) (hc1 : C1 L) (hc2 : C2 L) (hc3 : C3 L) (hc4 : C4 L)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (col : Fin 26 → Cert.Spec.ColS.Idx → BitVec 32) (hr : ∀ t b, (col t b).toNat < 1000)
    (hfcol : ∀ (t : Fin 26) (R p : Fin 128), (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 R p) = col t (ValueIdx.ix1 (⟨128 * R.val + p.val, by have := R.isLt; have := p.isLt; omega⟩ : Fin 16384)))
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)),
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            ((Memref.whole main_v26_scv : Memref sig .scVector .hbm S16384x3328 .f32).view.loc (V d (cVL L) (jVL L)) ↦[(Memref.whole main_v26_scv : Memref sig .scVector .hbm S16384x3328 .f32).view.setOn (oTR L).set]{fullShare} (Cert.Spec.G (fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) col)) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄)

end Cert.Proof.KIV

end
-- ==== Proof.GroupKI.lean ====
import proofs.«204019_g4913442586959_cont_sun_m_672_34_alg».proof.Proof.Gen.KernelIdeal

/-!
# The four groups of tiles

The kernel's body is one of four branches, chosen by four conditions on the tile's coordinates. On each of the 32
tiles exactly one of the four conditions holds.
-/

namespace Cert.Proof.KI

open Cert.KernelIdeal Cert.KernelIdeal.Gen
open Idealize.ShloMosaic

/-- Exactly one of the four branch conditions holds at every tile. -/
theorem group_cases : ∀ L : grid0.Coords,
    (k0_cond1 L = 1#1 ∧ ¬ k0_cond2 L = 1#1 ∧ ¬ k0_cond3 L = 1#1 ∧ ¬ k0_cond4 L = 1#1)
    ∨ (¬ k0_cond1 L = 1#1 ∧ k0_cond2 L = 1#1 ∧ ¬ k0_cond3 L = 1#1 ∧ ¬ k0_cond4 L = 1#1)
    ∨ (¬ k0_cond1 L = 1#1 ∧ ¬ k0_cond2 L = 1#1 ∧ k0_cond3 L = 1#1 ∧ ¬ k0_cond4 L = 1#1)
    ∨ (¬ k0_cond1 L = 1#1 ∧ ¬ k0_cond2 L = 1#1 ∧ ¬ k0_cond3 L = 1#1 ∧ k0_cond4 L = 1#1) := by
  decide +kernel

end Cert.Proof.KI
-- ==== Proof.ObligKI.lean ====
import proofs.«204019_g4913442586959_cont_sun_m_672_34_alg».proof.Proof.SetupKI
import proofs.«204019_g4913442586959_cont_sun_m_672_34_alg».proof.Proof.TileStmtKI
import proofs.«204019_g4913442586959_cont_sun_m_672_34_alg».proof.Proof.GroupKI

/-!
  The tile obligation from the tile's run. A vector subcore's task is handed the tile's share of the operands and the
  subcore's scoped storage; the scoped storage is the two scratch buffers, the fifteen transfer cells at zero, and a
  rest the body never touches. The run of the body (stated per branch condition) takes exactly the share, the two
  buffers and the fifteen cells; the rest is framed around it. Exactly one branch condition holds on every tile.
-/

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Peeling members off a big product -/

/-- A big product over a set, with a list of distinct members of the set taken out in order. -/
theorem bigSep_peel {I : Type} [DecidableEq I] (Φ : I → sProp 𝕄) :
    ∀ (l : List I) (s : Finset I), l.Nodup → (∀ i ∈ l, i ∈ s) →
      bigSep s Φ = l.foldr (fun i acc => iprop(Φ i ∗ acc)) (bigSep (l.foldl Finset.erase s) Φ)
  | [], s, _, _ => rfl
  | a :: l, s, hnd, hm => by
    rw [SparseCore.bigSep_erase' (hm a List.mem_cons_self), List.foldr_cons, List.foldl_cons,
      ← bigSep_peel Φ l (s.erase a) (List.nodup_cons.mp hnd).2 fun i hi =>
        Finset.mem_erase.mpr ⟨fun e => (List.nodup_cons.mp hnd).1 (e ▸ hi), hm i (List.mem_cons_of_mem _ hi)⟩]

/-- The body's fifteen transfer cells. -/
def tileSems : List (SemLoc sig) :=
  [.dma cc0_scratch2.sem, .dma cc0_scratch3.sem, .dma cc0_scratch4.sem, .dma cc0_scratch5.sem, .dma cc0_scratch6.sem,
   .dma cc0_scratch7.sem, .dma cc0_scratch8.sem, .dma cc0_scratch9.sem, .dma cc0_scratch10.sem, .dma cc0_scratch11.sem,
   .dma cc0_scratch12.sem, .dma cc0_scratch13.sem, .dma cc0_scratch14.sem, .dma cc0_scratch15.sem, .dma cc0_scratch16.sem]

theorem tileSems_nodup : tileSems.Nodup := by decide
theorem tileSems_scoped : ∀ s ∈ tileSems, s.isScoped .scVector = true := by decide

/-- The same on a thread. -/
def tileCells (thr : Thread nD τ) : List (GSem nD τ sig) := tileSems.map fun s => (thr, s)

/-- A subcore's other scoped cells. -/
def restCells (thr : Thread nD τ) : Finset (GSem nD τ sig) := (tileCells thr).foldl Finset.erase (ownCells thr)

variable (d : Dev nD) (L : grid0.Coords)

set_option maxHeartbeats 4000000 in
/-- The subcore's cells at zero: the fifteen, and the rest. -/
theorem ownSems0_V :
    (ownSems0 (V d (cVL L) (jVL L)) : sProp 𝕄)
      = iprop(semVal (((V d (cVL L) (jVL L)), .dma cc0_scratch2.sem) : GSem nD τ sig) 0
          ∗ semVal (((V d (cVL L) (jVL L)), .dma cc0_scratch3.sem) : GSem nD τ sig) 0
          ∗ semVal (((V d (cVL L) (jVL L)), .dma cc0_scratch4.sem) : GSem nD τ sig) 0
          ∗ semVal (((V d (cVL L) (jVL L)), .dma cc0_scratch5.sem) : GSem nD τ sig) 0
          ∗ semVal (((V d (cVL L) (jVL L)), .dma cc0_scratch6.sem) : GSem nD τ sig) 0
          ∗ semVal (((V d (cVL L) (jVL L)), .dma cc0_scratch7.sem) : GSem nD τ sig) 0
          ∗ semVal (((V d (cVL L) (jVL L)), .dma cc0_scratch8.sem) : GSem nD τ sig) 0
          ∗ semVal (((V d (cVL L) (jVL L)), .dma cc0_scratch9.sem) : GSem nD τ sig) 0
          ∗ semVal (((V d (cVL L) (jVL L)), .dma cc0_scratch10.sem) : GSem nD τ sig) 0
          ∗ semVal (((V d (cVL L) (jVL L)), .dma cc0_scratch11.sem) : GSem nD τ sig) 0
          ∗ semVal (((V d (cVL L) (jVL L)), .dma cc0_scratch12.sem) : GSem nD τ sig) 0
          ∗ semVal (((V d (cVL L) (jVL L)), .dma cc0_scratch13.sem) : GSem nD τ sig) 0
          ∗ semVal (((V d (cVL L) (jVL L)), .dma cc0_scratch14.sem) : GSem nD τ sig) 0
          ∗ semVal (((V d (cVL L) (jVL L)), .dma cc0_scratch15.sem) : GSem nD τ sig) 0
          ∗ semVal (((V d (cVL L) (jVL L)), .dma cc0_scratch16.sem) : GSem nD τ sig) 0
          ∗ bigSep (restCells (V d (cVL L) (jVL L))) fun g => semVal g 0) := by
  unfold SparseCore.Cfg.ownSems0
  rw [bigSep_peel (F := F) (fun g => semVal g 0) (tileCells (V d (cVL L) (jVL L))) _
    (tileSems_nodup.map fun a b h => (Prod.mk.inj h).2)
    (fun g hg => by
      obtain ⟨s, hs, rfl⟩ := List.mem_map.mp hg
      exact mem_ownCells.mpr ⟨rfl, tileSems_scoped s hs⟩)]
  unfold restCells
  simp only [tileCells, tileSems, List.map_cons, List.map_nil, List.foldr_cons, List.foldr_nil]

/-- The subcore's buffers: the two scratch buffers, at some contents, and the rest. -/
theorem ownBufs_V :
    (ownBufs (V d (cVL L) (jVL L)) : sProp 𝕄)
      = iprop((∃ f, (V d (cVL L) (jVL L)).loc cc0_scratch0 ↦{fullShare} f) ∗ (∃ f, (V d (cVL L) (jVL L)).loc cc0_scratch1 ↦{fullShare} f)
          ∗ bigSep (((ownRefs (τ := τ) (.scVector (cVL L) (jVL L))).erase ((Proc.scVector (cVL L) (jVL L)).devRef cc0_scratch0)).erase
              ((Proc.scVector (cVL L) (jVL L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cVL L) (jVL L))
    (b := (Proc.scVector (cVL L) (jVL L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cVL L) (jVL L)) (b := (Proc.scVector (cVL L) (jVL L)).devRef cc0_scratch1) rfl⟩)]

/-! ## The task on one tile -/

/-- Splits off and closes, one after the other, the conjuncts that are the named hypotheses. -/
syntax "isplits" "[" ident* "]" : tactic
macro_rules
  | `(tactic| isplits []) => `(tactic| skip)
  | `(tactic| isplits [$h $hs*]) => `(tactic| (isplitl [$h]; (· iexact $h); isplits [$hs*]))

variable [FloatOps F] (m : (ℓ : Loc nD τ sig) → Buf (Elt F) ℓ)

set_option maxHeartbeats 400000000 in
set_option maxRecDepth 65536 in
/-- The task on tile `L`, from the run of the body under conditions that hold at `L`: the tile's share is the run's
    tables, column pieces and output rows; the subcore's scoped storage is the run's two buffers and fifteen cells and a
    rest, kept aside and handed back. -/
theorem tile_body {C1 C2 C3 C4 : grid0.Coords → Prop} (hrun : TileRunOf (F := F) C1 C2 C3 C4) (hpre : PreOK m)
    (hc1 : C1 L) (hc2 : C2 L) (hc3 : C3 L) (hc4 : C4 L)
    (O : CellTallies nD τ sig (HIx 1)) (W : Waits sig (HIx 1)) (hO : ∀ g, O g none = 0) :
    iprop(levAts (K (F := F)).L (K (F := F)).lev ∗ emp ∗ goPayL m d L
        ∗ scopedBufs (V d (cVL L) (jVL L)) ∗ scopedSems0 (V d (cVL L) (jVL L)) ∗ owes (V d (cVL L) (jVL L)) O W)
      ⊢ wp frame (wpE (defs₀ (F := F)) 𝒱₀ (V d (cVL L) (jVL L)) none) Set.univ (tileProg (F := F) L)
          fun _ => iprop(tdPayL m d L ∗ scopedBufs (V d (cVL L) (jVL L)) ∗ scopedSems0 (V d (cVL L) (jVL L))
            ∗ ∃ W', ⌜∀ p ∈ W', p ∈ W ∨ p.2 = none⌝ ∗ owes (V d (cVL L) (jVL L)) O W') := by
  rw [(K (F := F)).scopedBufs_V facts d (cVL L) (jVL L), SparseCore.Cfg.scopedSems0_V (Val := Elt F) d (cVL L) (jVL L),
    ownSems0_V, ownBufs_V]
  unfold goPayL tdPayL payL
  simp only [bigSep_fin26]
  unfold sep26
  simp only [tblTokL, colPcL, Matrix.cons_val, outPcL,
    tblTokL0, tblTokL1, tblTokL2, tblTokL3, tblTokL4, tblTokL5, tblTokL6, tblTokL7, tblTokL8, tblTokL9, tblTokL10, tblTokL11, tblTokL12,
    tblTokL13, tblTokL14, tblTokL15, tblTokL16, tblTokL17, tblTokL18, tblTokL19, tblTokL20, tblTokL21, tblTokL22, tblTokL23, tblTokL24, tblTokL25,
    colPcL0, colPcL1, colPcL2, colPcL3, colPcL4, colPcL5, colPcL6, colPcL7, colPcL8, colPcL9, colPcL10, colPcL11, colPcL12,
    colPcL13, colPcL14, colPcL15, colPcL16, colPcL17, colPcL18, colPcL19, colPcL20, colPcL21, colPcL22, colPcL23, colPcL24, colPcL25]
  obtain ⟨p0, p1, p2, p3, p4, p5, p6, p7, p8, p9, p10, p11, p12, p13, p14, p15, p16, p17, p18, p19, p20, p21, p22, p23, p24, p25⟩ := hpre d
  iintro ⟨#Hlv, -, ⟨⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩, Ho⟩, ⟨⟨%fs, Hs⟩, ⟨%fr, Hr⟩, Hbufs⟩, ⟨Hm2, Hm3, Hm4, Hm5, Hm6, Hm7, Hm8, Hm9, Hm10, Hm11, Hm12, Hm13, Hm14, Hm15, Hm16, Hsems⟩, HO⟩
  ihave Hwp := (hrun d L facts O W hO (Transfers.shareTok fullShare 32 (wOfL L)) hc1 hc2 hc3 hc4
      (m ((SparseCore.T d).loc main_arg26)) (V1 m d (Proc.devRef .tc (main_v0 : Ref sig .tc))) p0
      (m ((SparseCore.T d).loc main_arg27)) (V1 m d (Proc.devRef .tc (main_v1 : Ref sig .tc))) p1
      (m ((SparseCore.T d).loc main_arg28)) (V1 m d (Proc.devRef .tc (main_v2 : Ref sig .tc))) p2
      (m ((SparseCore.T d).loc main_arg29)) (V1 m d (Proc.devRef .tc (main_v3 : Ref sig .tc))) p3
      (m ((SparseCore.T d).loc main_arg30)) (V1 m d (Proc.devRef .tc (main_v4 : Ref sig .tc))) p4
      (m ((SparseCore.T d).loc main_arg31)) (V1 m d (Proc.devRef .tc (main_v5 : Ref sig .tc))) p5
      (m ((SparseCore.T d).loc main_arg32)) (V1 m d (Proc.devRef .tc (main_v6 : Ref sig .tc))) p6
      (m ((SparseCore.T d).loc main_arg33)) (V1 m d (Proc.devRef .tc (main_v7 : Ref sig .tc))) p7
      (m ((SparseCore.T d).loc main_arg34)) (V1 m d (Proc.devRef .tc (main_v8 : Ref sig .tc))) p8
      (m ((SparseCore.T d).loc main_arg35)) (V1 m d (Proc.devRef .tc (main_v9 : Ref sig .tc))) p9
      (m ((SparseCore.T d).loc main_arg36)) (V1 m d (Proc.devRef .tc (main_v10 : Ref sig .tc))) p10
      (m ((SparseCore.T d).loc main_arg37)) (V1 m d (Proc.devRef .tc (main_v11 : Ref sig .tc))) p11
      (m ((SparseCore.T d).loc main_arg38)) (V1 m d (Proc.devRef .tc (main_v12 : Ref sig .tc))) p12
      (m ((SparseCore.T d).loc main_arg39)) (V1 m d (Proc.devRef .tc (main_v13 : Ref sig .tc))) p13
      (m ((SparseCore.T d).loc main_arg40)) (V1 m d (Proc.devRef .tc (main_v14 : Ref sig .tc))) p14
      (m ((SparseCore.T d).loc main_arg41)) (V1 m d (Proc.devRef .tc (main_v15 : Ref sig .tc))) p15
      (m ((SparseCore.T d).loc main_arg42)) (V1 m d (Proc.devRef .tc (main_v16 : Ref sig .tc))) p16
      (m ((SparseCore.T d).loc main_arg43)) (V1 m d (Proc.devRef .tc (main_v17 : Ref sig .tc))) p17
      (m ((SparseCore.T d).loc main_arg44)) (V1 m d (Proc.devRef .tc (main_v18 : Ref sig .tc))) p18
      (m ((SparseCore.T d).loc main_arg45)) (V1 m d (Proc.devRef .tc (main_v19 : Ref sig .tc))) p19
      (m ((SparseCore.T d).loc main_arg46)) (V1 m d (Proc.devRef .tc (main_v20 : Ref sig .tc))) p20
      (m ((SparseCore.T d).loc main_arg47)) (V1 m d (Proc.devRef .tc (main_v21 : Ref sig .tc))) p21
      (m ((SparseCore.T d).loc main_arg48)) (V1 m d (Proc.devRef .tc (main_v22 : Ref sig .tc))) p22
      (m ((SparseCore.T d).loc main_arg49)) (V1 m d (Proc.devRef .tc (main_v23 : Ref sig .tc))) p23
      (m ((SparseCore.T d).loc main_arg50)) (V1 m d (Proc.devRef .tc (main_v24 : Ref sig .tc))) p24
      (m ((SparseCore.T d).loc main_arg51)) (V1 m d (Proc.devRef .tc (main_v25 : Ref sig .tc))) p25
      (m (oLoc d)) fs fr) $$ [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho Hs Hr Hm2 Hm3 Hm4 Hm5 Hm6 Hm7 Hm8 Hm9 Hm10 Hm11 Hm12 Hm13 Hm14 Hm15 Hm16 HO]
  · isplitl []; · iexact Hlv
    isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    isplits [Ho Hs Hr Hm2 Hm3 Hm4 Hm5 Hm6 Hm7 Hm8 Hm9 Hm10 Hm11 Hm12 Hm13 Hm14 Hm15 Hm16]
    iexact HO
  iapply (wp_wand frame _ _) $$ Hwp
  iintro %_ ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hm2, Hm3, Hm4, Hm5, Hm6, Hm7, Hm8, Hm9, Hm10, Hm11, Hm12, Hm13, Hm14, Hm15, Hm16, HO⟩
  isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho]
  · isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    · isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24]
      iexact Ht25
    isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    · isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24]
      iexact Hc25
    iexact Ho
  isplitl [Hs Hr Hbufs]
  · isplits [Hs Hr]
    iexact Hbufs
  isplitl [Hm2 Hm3 Hm4 Hm5 Hm6 Hm7 Hm8 Hm9 Hm10 Hm11 Hm12 Hm13 Hm14 Hm15 Hm16 Hsems]
  · isplits [Hm2 Hm3 Hm4 Hm5 Hm6 Hm7 Hm8 Hm9 Hm10 Hm11 Hm12 Hm13 Hm14 Hm15 Hm16]
    iexact Hsems
  iexact HO

/-! ## The obligation -/

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 40000000 in
set_option maxRecDepth 16384 in
/-- The tile obligation of the one call, from the four branches' runs: every tile satisfies exactly one branch's
    conditions (`group_cases`), and that branch's run gives its task. -/
theorem tileObl (hpre : PreOK m)
    (h0 : TileRunOf (F := F) (fun L => k0_cond1 L = 1#1) (fun L => ¬ k0_cond2 L = 1#1) (fun L => ¬ k0_cond3 L = 1#1) (fun L => ¬ k0_cond4 L = 1#1))
    (h1 : TileRunOf (F := F) (fun L => ¬ k0_cond1 L = 1#1) (fun L => k0_cond2 L = 1#1) (fun L => ¬ k0_cond3 L = 1#1) (fun L => ¬ k0_cond4 L = 1#1))
    (h2 : TileRunOf (F := F) (fun L => ¬ k0_cond1 L = 1#1) (fun L => ¬ k0_cond2 L = 1#1) (fun L => k0_cond3 L = 1#1) (fun L => ¬ k0_cond4 L = 1#1))
    (h3 : TileRunOf (F := F) (fun L => ¬ k0_cond1 L = 1#1) (fun L => ¬ k0_cond2 L = 1#1) (fun L => ¬ k0_cond3 L = 1#1) (fun L => k0_cond4 L = 1#1)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rcases group_cases (coordsV ⟨_, hci.1⟩ ⟨_, hci.2⟩) with ⟨g1, g2, g3, g4⟩ | ⟨g1, g2, g3, g4⟩ | ⟨g1, g2, g3, g4⟩ | ⟨g1, g2, g3, g4⟩
  · exact (tile_body d (coordsV ⟨_, hci.1⟩ ⟨_, hci.2⟩) m h0 hpre g1 g2 g3 g4 O W hO).trans (wp_mono frame _ _ fun _ => obl_post)
  · exact (tile_body d (coordsV ⟨_, hci.1⟩ ⟨_, hci.2⟩) m h1 hpre g1 g2 g3 g4 O W hO).trans (wp_mono frame _ _ fun _ => obl_post)
  · exact (tile_body d (coordsV ⟨_, hci.1⟩ ⟨_, hci.2⟩) m h2 hpre g1 g2 g3 g4 O W hO).trans (wp_mono frame _ _ fun _ => obl_post)
  · exact (tile_body d (coordsV ⟨_, hci.1⟩ ⟨_, hci.2⟩) m h3 hpre g1 g2 g3 g4 O W hO).trans (wp_mono frame _ _ fun _ => obl_post)

end Cert.Proof.KI

end
-- ==== Proof.ObligValKI.lean ====
import proofs.«204019_g4913442586959_cont_sun_m_672_34_alg».proof.Proof.SetupValKI
import proofs.«204019_g4913442586959_cont_sun_m_672_34_alg».proof.Proof.TileValStmtKI
import proofs.«204019_g4913442586959_cont_sun_m_672_34_alg».proof.Proof.ColValKI
import proofs.«204019_g4913442586959_cont_sun_m_672_34_alg».proof.Proof.ObligKI
import proofs.«204019_g4913442586959_cont_sun_m_672_34_alg».proof.Proof.GroupKI

/-!
  The tile obligation in value form, from the tile's run in value form: as the frame form, the run handing the tile's
  output rows back at the specified values. The run needs the columns in range and the reshaped columns' entries as
  entries of the columns; both follow from the range of the reshaped columns and from what the host's reshapes do.
-/

noncomputable section

namespace Cert.Proof.KIV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI

variable {F : FTy → Type}
local notation "𝕄" => MT nD τ sig (HIx 1) (Elt F) ℕ UU ℕ

section Columns

variable (m : (ℓ : Loc nD τ sig) → Buf (Elt F) ℓ)

set_option maxHeartbeats 8000000 in
set_option maxRecDepth 8192 in
/-- Entry `(R, p)` of reshaped column `t` is entry `128·R + p` of column `t`. -/
theorem hfcolV (d : Dev nD) : ∀ (t : Fin 26) (R p : Fin 128),
    (![V1 m d (Proc.devRef .tc (main_v0 : Ref sig .tc)), V1 m d (Proc.devRef .tc (main_v1 : Ref sig .tc)), V1 m d (Proc.devRef .tc (main_v2 : Ref sig .tc)), V1 m d (Proc.devRef .tc (main_v3 : Ref sig .tc)), V1 m d (Proc.devRef .tc (main_v4 : Ref sig .tc)), V1 m d (Proc.devRef .tc (main_v5 : Ref sig .tc)), V1 m d (Proc.devRef .tc (main_v6 : Ref sig .tc)), V1 m d (Proc.devRef .tc (main_v7 : Ref sig .tc)), V1 m d (Proc.devRef .tc (main_v8 : Ref sig .tc)), V1 m d (Proc.devRef .tc (main_v9 : Ref sig .tc)), V1 m d (Proc.devRef .tc (main_v10 : Ref sig .tc)), V1 m d (Proc.devRef .tc (main_v11 : Ref sig .tc)), V1 m d (Proc.devRef .tc (main_v12 : Ref sig .tc)), V1 m d (Proc.devRef .tc (main_v13 : Ref sig .tc)), V1 m d (Proc.devRef .tc (main_v14 : Ref sig .tc)), V1 m d (Proc.devRef .tc (main_v15 : Ref sig .tc)), V1 m d (Proc.devRef .tc (main_v16 : Ref sig .tc)), V1 m d (Proc.devRef .tc (main_v17 : Ref sig .tc)), V1 m d (Proc.devRef .tc (main_v18 : Ref sig .tc)), V1 m d (Proc.devRef .tc (main_v19 : Ref sig .tc)), V1 m d (Proc.devRef .tc (main_v20 : Ref sig .tc)), V1 m d (Proc.devRef .tc (main_v21 : Ref sig .tc)), V1 m d (Proc.devRef .tc (main_v22 : Ref sig .tc)), V1 m d (Proc.devRef .tc (main_v23 : Ref sig .tc)), V1 m d (Proc.devRef .tc (main_v24 : Ref sig .tc)), V1 m d (Proc.devRef .tc (main_v25 : Ref sig .tc))] : Fin 26 → S128x128.Idx → Elt F .i32) t (ix2 R p)
      = colVec m d t (ix1 (⟨128 * R.val + p.val, by have := R.isLt; have := p.isLt; omega⟩ : Fin 16384)) := by
  intro t R p
  rcases t with ⟨k, hk⟩
  match k, hk with
  | 0, _ => exact V1_col_0 m d R p
  | 1, _ => exact V1_col_1 m d R p
  | 2, _ => exact V1_col_2 m d R p
  | 3, _ => exact V1_col_3 m d R p
  | 4, _ => exact V1_col_4 m d R p
  | 5, _ => exact V1_col_5 m d R p
  | 6, _ => exact V1_col_6 m d R p
  | 7, _ => exact V1_col_7 m d R p
  | 8, _ => exact V1_col_8 m d R p
  | 9, _ => exact V1_col_9 m d R p
  | 10, _ => exact V1_col_10 m d R p
  | 11, _ => exact V1_col_11 m d R p
  | 12, _ => exact V1_col_12 m d R p
  | 13, _ => exact V1_col_13 m d R p
  | 14, _ => exact V1_col_14 m d R p
  | 15, _ => exact V1_col_15 m d R p
  | 16, _ => exact V1_col_16 m d R p
  | 17, _ => exact V1_col_17 m d R p
  | 18, _ => exact V1_col_18 m d R p
  | 19, _ => exact V1_col_19 m d R p
  | 20, _ => exact V1_col_20 m d R p
  | 21, _ => exact V1_col_21 m d R p
  | 22, _ => exact V1_col_22 m d R p
  | 23, _ => exact V1_col_23 m d R p
  | 24, _ => exact V1_col_24 m d R p
  | 25, _ => exact V1_col_25 m d R p
  | k + 26, hk => exact absurd hk (by omega)

/-- The columns' words are below 1000 when the reshaped columns' are. -/
theorem colVec_range (hpre : PreOK m) (d : Dev nD) : ∀ t b, (colVec m d t b).toNat < 1000 := by
  obtain ⟨p0, p1, p2, p3, p4, p5, p6, p7, p8, p9, p10, p11, p12, p13, p14, p15, p16, p17, p18, p19, p20, p21, p22, p23, p24, p25⟩ := hpre d
  intro t b
  have hlt : (b 0).val < 16384 := (b 0).isLt
  have hb : b = ix1 (colIx ⟨(b 0).val / 128, by omega⟩ ⟨(b 0).val % 128, Nat.mod_lt _ (by decide)⟩) := by
    funext a
    match a with
    | ⟨0, _⟩ => exact Fin.ext (by show (b 0).val = 128 * ((b 0).val / 128) + (b 0).val % 128; omega)
  rw [hb]
  fin_cases t
  · show (colVal0 m d (ix1 (colIx _ _))).toNat < 1000
    rw [← V1_col_0 m d]; exact p0 _
  · show (colVal1 m d (ix1 (colIx _ _))).toNat < 1000
    rw [← V1_col_1 m d]; exact p1 _
  · show (colVal2 m d (ix1 (colIx _ _))).toNat < 1000
    rw [← V1_col_2 m d]; exact p2 _
  · show (colVal3 m d (ix1 (colIx _ _))).toNat < 1000
    rw [← V1_col_3 m d]; exact p3 _
  · show (colVal4 m d (ix1 (colIx _ _))).toNat < 1000
    rw [← V1_col_4 m d]; exact p4 _
  · show (colVal5 m d (ix1 (colIx _ _))).toNat < 1000
    rw [← V1_col_5 m d]; exact p5 _
  · show (colVal6 m d (ix1 (colIx _ _))).toNat < 1000
    rw [← V1_col_6 m d]; exact p6 _
  · show (colVal7 m d (ix1 (colIx _ _))).toNat < 1000
    rw [← V1_col_7 m d]; exact p7 _
  · show (colVal8 m d (ix1 (colIx _ _))).toNat < 1000
    rw [← V1_col_8 m d]; exact p8 _
  · show (colVal9 m d (ix1 (colIx _ _))).toNat < 1000
    rw [← V1_col_9 m d]; exact p9 _
  · show (colVal10 m d (ix1 (colIx _ _))).toNat < 1000
    rw [← V1_col_10 m d]; exact p10 _
  · show (colVal11 m d (ix1 (colIx _ _))).toNat < 1000
    rw [← V1_col_11 m d]; exact p11 _
  · show (colVal12 m d (ix1 (colIx _ _))).toNat < 1000
    rw [← V1_col_12 m d]; exact p12 _
  · show (colVal13 m d (ix1 (colIx _ _))).toNat < 1000
    rw [← V1_col_13 m d]; exact p13 _
  · show (colVal14 m d (ix1 (colIx _ _))).toNat < 1000
    rw [← V1_col_14 m d]; exact p14 _
  · show (colVal15 m d (ix1 (colIx _ _))).toNat < 1000
    rw [← V1_col_15 m d]; exact p15 _
  · show (colVal16 m d (ix1 (colIx _ _))).toNat < 1000
    rw [← V1_col_16 m d]; exact p16 _
  · show (colVal17 m d (ix1 (colIx _ _))).toNat < 1000
    rw [← V1_col_17 m d]; exact p17 _
  · show (colVal18 m d (ix1 (colIx _ _))).toNat < 1000
    rw [← V1_col_18 m d]; exact p18 _
  · show (colVal19 m d (ix1 (colIx _ _))).toNat < 1000
    rw [← V1_col_19 m d]; exact p19 _
  · show (colVal20 m d (ix1 (colIx _ _))).toNat < 1000
    rw [← V1_col_20 m d]; exact p20 _
  · show (colVal21 m d (ix1 (colIx _ _))).toNat < 1000
    rw [← V1_col_21 m d]; exact p21 _
  · show (colVal22 m d (ix1 (colIx _ _))).toNat < 1000
    rw [← V1_col_22 m d]; exact p22 _
  · show (colVal23 m d (ix1 (colIx _ _))).toNat < 1000
    rw [← V1_col_23 m d]; exact p23 _
  · show (colVal24 m d (ix1 (colIx _ _))).toNat < 1000
    rw [← V1_col_24 m d]; exact p24 _
  · show (colVal25 m d (ix1 (colIx _ _))).toNat < 1000
    rw [← V1_col_25 m d]; exact p25 _

end Columns

variable (d : Dev nD) (L : grid0.Coords)

variable [FloatOps F] (m : (ℓ : Loc nD τ sig) → Buf (Elt F) ℓ)

set_option maxHeartbeats 400000000 in
set_option maxRecDepth 65536 in
/-- The task on tile `L`, from the run of the body under conditions that hold at `L`: the tile's share is the run's
    tables, column pieces and output rows; the subcore's scoped storage is the run's two buffers and fifteen cells and a
    rest, kept aside and handed back. -/
theorem tile_bodyV {C1 C2 C3 C4 : grid0.Coords → Prop} (hrun : TileValOf (F := F) C1 C2 C3 C4) (hpre : PreOK m)
    (hc1 : C1 L) (hc2 : C2 L) (hc3 : C3 L) (hc4 : C4 L)
    (O : CellTallies nD τ sig (HIx 1)) (W : Waits sig (HIx 1)) (hO : ∀ g, O g none = 0) :
    iprop(levAts (K (F := F)).L (K (F := F)).lev ∗ emp ∗ goPayL m d L
        ∗ scopedBufs (V d (cVL L) (jVL L)) ∗ scopedSems0 (V d (cVL L) (jVL L)) ∗ owes (V d (cVL L) (jVL L)) O W)
      ⊢ wp frame (wpE (defs₀ (F := F)) 𝒱₀ (V d (cVL L) (jVL L)) none) Set.univ (tileProg (F := F) L)
          fun _ => iprop(payL m d L (GO m d) ∗ scopedBufs (V d (cVL L) (jVL L)) ∗ scopedSems0 (V d (cVL L) (jVL L))
            ∗ ∃ W', ⌜∀ p ∈ W', p ∈ W ∨ p.2 = none⌝ ∗ owes (V d (cVL L) (jVL L)) O W') := by
  rw [(K (F := F)).scopedBufs_V facts d (cVL L) (jVL L), SparseCore.Cfg.scopedSems0_V (Val := Elt F) d (cVL L) (jVL L),
    ownSems0_V, ownBufs_V]
  unfold goPayL payL
  simp only [bigSep_fin26]
  unfold sep26
  simp only [tblTokL, colPcL, Matrix.cons_val, outPcL, GO, tblVec, tblVal0, tblVal1, tblVal2, tblVal3, tblVal4, tblVal5, tblVal6, tblVal7, tblVal8, tblVal9, tblVal10, tblVal11, tblVal12, tblVal13, tblVal14, tblVal15, tblVal16, tblVal17, tblVal18, tblVal19, tblVal20, tblVal21, tblVal22, tblVal23, tblVal24, tblVal25,
    tblTokL0, tblTokL1, tblTokL2, tblTokL3, tblTokL4, tblTokL5, tblTokL6, tblTokL7, tblTokL8, tblTokL9, tblTokL10, tblTokL11, tblTokL12,
    tblTokL13, tblTokL14, tblTokL15, tblTokL16, tblTokL17, tblTokL18, tblTokL19, tblTokL20, tblTokL21, tblTokL22, tblTokL23, tblTokL24, tblTokL25,
    colPcL0, colPcL1, colPcL2, colPcL3, colPcL4, colPcL5, colPcL6, colPcL7, colPcL8, colPcL9, colPcL10, colPcL11, colPcL12,
    colPcL13, colPcL14, colPcL15, colPcL16, colPcL17, colPcL18, colPcL19, colPcL20, colPcL21, colPcL22, colPcL23, colPcL24, colPcL25]
  obtain ⟨p0, p1, p2, p3, p4, p5, p6, p7, p8, p9, p10, p11, p12, p13, p14, p15, p16, p17, p18, p19, p20, p21, p22, p23, p24, p25⟩ := hpre d
  iintro ⟨#Hlv, -, ⟨⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩, Ho⟩, ⟨⟨%fs, Hs⟩, ⟨%fr, Hr⟩, Hbufs⟩, ⟨Hm2, Hm3, Hm4, Hm5, Hm6, Hm7, Hm8, Hm9, Hm10, Hm11, Hm12, Hm13, Hm14, Hm15, Hm16, Hsems⟩, HO⟩
  ihave Hwp := (hrun d L facts O W hO (Transfers.shareTok fullShare 32 (wOfL L)) hc1 hc2 hc3 hc4
      (m ((SparseCore.T d).loc main_arg26)) (V1 m d (Proc.devRef .tc (main_v0 : Ref sig .tc))) p0
      (m ((SparseCore.T d).loc main_arg27)) (V1 m d (Proc.devRef .tc (main_v1 : Ref sig .tc))) p1
      (m ((SparseCore.T d).loc main_arg28)) (V1 m d (Proc.devRef .tc (main_v2 : Ref sig .tc))) p2
      (m ((SparseCore.T d).loc main_arg29)) (V1 m d (Proc.devRef .tc (main_v3 : Ref sig .tc))) p3
      (m ((SparseCore.T d).loc main_arg30)) (V1 m d (Proc.devRef .tc (main_v4 : Ref sig .tc))) p4
      (m ((SparseCore.T d).loc main_arg31)) (V1 m d (Proc.devRef .tc (main_v5 : Ref sig .tc))) p5
      (m ((SparseCore.T d).loc main_arg32)) (V1 m d (Proc.devRef .tc (main_v6 : Ref sig .tc))) p6
      (m ((SparseCore.T d).loc main_arg33)) (V1 m d (Proc.devRef .tc (main_v7 : Ref sig .tc))) p7
      (m ((SparseCore.T d).loc main_arg34)) (V1 m d (Proc.devRef .tc (main_v8 : Ref sig .tc))) p8
      (m ((SparseCore.T d).loc main_arg35)) (V1 m d (Proc.devRef .tc (main_v9 : Ref sig .tc))) p9
      (m ((SparseCore.T d).loc main_arg36)) (V1 m d (Proc.devRef .tc (main_v10 : Ref sig .tc))) p10
      (m ((SparseCore.T d).loc main_arg37)) (V1 m d (Proc.devRef .tc (main_v11 : Ref sig .tc))) p11
      (m ((SparseCore.T d).loc main_arg38)) (V1 m d (Proc.devRef .tc (main_v12 : Ref sig .tc))) p12
      (m ((SparseCore.T d).loc main_arg39)) (V1 m d (Proc.devRef .tc (main_v13 : Ref sig .tc))) p13
      (m ((SparseCore.T d).loc main_arg40)) (V1 m d (Proc.devRef .tc (main_v14 : Ref sig .tc))) p14
      (m ((SparseCore.T d).loc main_arg41)) (V1 m d (Proc.devRef .tc (main_v15 : Ref sig .tc))) p15
      (m ((SparseCore.T d).loc main_arg42)) (V1 m d (Proc.devRef .tc (main_v16 : Ref sig .tc))) p16
      (m ((SparseCore.T d).loc main_arg43)) (V1 m d (Proc.devRef .tc (main_v17 : Ref sig .tc))) p17
      (m ((SparseCore.T d).loc main_arg44)) (V1 m d (Proc.devRef .tc (main_v18 : Ref sig .tc))) p18
      (m ((SparseCore.T d).loc main_arg45)) (V1 m d (Proc.devRef .tc (main_v19 : Ref sig .tc))) p19
      (m ((SparseCore.T d).loc main_arg46)) (V1 m d (Proc.devRef .tc (main_v20 : Ref sig .tc))) p20
      (m ((SparseCore.T d).loc main_arg47)) (V1 m d (Proc.devRef .tc (main_v21 : Ref sig .tc))) p21
      (m ((SparseCore.T d).loc main_arg48)) (V1 m d (Proc.devRef .tc (main_v22 : Ref sig .tc))) p22
      (m ((SparseCore.T d).loc main_arg49)) (V1 m d (Proc.devRef .tc (main_v23 : Ref sig .tc))) p23
      (m ((SparseCore.T d).loc main_arg50)) (V1 m d (Proc.devRef .tc (main_v24 : Ref sig .tc))) p24
      (m ((SparseCore.T d).loc main_arg51)) (V1 m d (Proc.devRef .tc (main_v25 : Ref sig .tc))) p25
      (colVec m d) (colVec_range m hpre d) (hfcolV m d)
      (m (oLoc d)) fs fr) $$ [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho Hs Hr Hm2 Hm3 Hm4 Hm5 Hm6 Hm7 Hm8 Hm9 Hm10 Hm11 Hm12 Hm13 Hm14 Hm15 Hm16 HO]
  · isplitl []; · iexact Hlv
    isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    isplits [Ho Hs Hr Hm2 Hm3 Hm4 Hm5 Hm6 Hm7 Hm8 Hm9 Hm10 Hm11 Hm12 Hm13 Hm14 Hm15 Hm16]
    iexact HO
  iapply (wp_wand frame _ _) $$ Hwp
  iintro %_ ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hm2, Hm3, Hm4, Hm5, Hm6, Hm7, Hm8, Hm9, Hm10, Hm11, Hm12, Hm13, Hm14, Hm15, Hm16, HO⟩
  isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Ho]
  · isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25]
    · isplits [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24]
      iexact Ht25
    isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
    · isplits [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24]
      iexact Hc25
    iexact Ho
  isplitl [Hs Hr Hbufs]
  · isplits [Hs Hr]
    iexact Hbufs
  isplitl [Hm2 Hm3 Hm4 Hm5 Hm6 Hm7 Hm8 Hm9 Hm10 Hm11 Hm12 Hm13 Hm14 Hm15 Hm16 Hsems]
  · isplits [Hm2 Hm3 Hm4 Hm5 Hm6 Hm7 Hm8 Hm9 Hm10 Hm11 Hm12 Hm13 Hm14 Hm15 Hm16]
    iexact Hsems
  iexact HO

/-! ## The obligation -/

set_option maxHeartbeats 40000000 in
set_option maxRecDepth 16384 in
/-- The tile obligation of the one call, from the four branches' runs: every tile satisfies exactly one branch's
    conditions (`group_cases`), and that branch's run gives its task. -/
theorem tileOblV (hpre : PreOK m)
    (h0 : TileValOf (F := F) (fun L => k0_cond1 L = 1#1) (fun L => ¬ k0_cond2 L = 1#1) (fun L => ¬ k0_cond3 L = 1#1) (fun L => ¬ k0_cond4 L = 1#1))
    (h1 : TileValOf (F := F) (fun L => ¬ k0_cond1 L = 1#1) (fun L => k0_cond2 L = 1#1) (fun L => ¬ k0_cond3 L = 1#1) (fun L => ¬ k0_cond4 L = 1#1))
    (h2 : TileValOf (F := F) (fun L => ¬ k0_cond1 L = 1#1) (fun L => ¬ k0_cond2 L = 1#1) (fun L => k0_cond3 L = 1#1) (fun L => ¬ k0_cond4 L = 1#1))
    (h3 : TileValOf (F := F) (fun L => ¬ k0_cond1 L = 1#1) (fun L => ¬ k0_cond2 L = 1#1) (fun L => ¬ k0_cond3 L = 1#1) (fun L => k0_cond4 L = 1#1)) :
    (K (F := F)).TileObl (D (F := F)) 𝒱 (PV m) v₀ 0 := by
  intro d c i O W hO _ _
  simp only [show (PV m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rcases group_cases (coordsV ⟨_, hci.1⟩ ⟨_, hci.2⟩) with ⟨g1, g2, g3, g4⟩ | ⟨g1, g2, g3, g4⟩ | ⟨g1, g2, g3, g4⟩ | ⟨g1, g2, g3, g4⟩
  · exact (tile_bodyV d (coordsV ⟨_, hci.1⟩ ⟨_, hci.2⟩) m h0 hpre g1 g2 g3 g4 O W hO).trans (wp_mono frame _ _ fun _ => obl_post)
  · exact (tile_bodyV d (coordsV ⟨_, hci.1⟩ ⟨_, hci.2⟩) m h1 hpre g1 g2 g3 g4 O W hO).trans (wp_mono frame _ _ fun _ => obl_post)
  · exact (tile_bodyV d (coordsV ⟨_, hci.1⟩ ⟨_, hci.2⟩) m h2 hpre g1 g2 g3 g4 O W hO).trans (wp_mono frame _ _ fun _ => obl_post)
  · exact (tile_bodyV d (coordsV ⟨_, hci.1⟩ ⟨_, hci.2⟩) m h3 hpre g1 g2 g3 g4 O W hO).trans (wp_mono frame _ _ fun _ => obl_post)

end Cert.Proof.KIV

end
-- ==== Proof.IdxScratchKI.lean ====
import proofs.«204019_g4913442586959_cont_sun_m_672_34_alg».proof.Defs
import Idealize.ShloMosaic.Lib.SparseCore.Launch
import Idealize.ShloMosaic.Lib.Tactic
import Idealize.ShloMosaic.Lib.ValueIdx
import Idealize.ShloMosaic.Lib.ValueLayout
import proofs.«204019_g4913442586959_cont_sun_m_672_34_alg».proof.Proof.Gen.KernelIdeal

/-!
  The index scratch of a tile: an array of 26 by 4 by 128 words, filled window by window — window `t` is the
  4 by 128 block at first coordinate `t` — and then read in lists of 128 words. The 26 windows are pairwise
  disjoint and cover the array, so the array held whole is the 26 windows held apart, and the 26 windows, each
  holding on its own elements what it was written with, are the array held whole at one closed-form contents.
-/

noncomputable section

namespace Cert.Proof.KI.Idx

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ (URounds (GSem nD τ sig) ℕ × Counters) ℕ

local notation "sV" => (Memref.whole Cert.KernelIdeal.cc0_scratch0 : Memref Cert.KernelIdeal.sig Kind.scVector Space.vmem Cert.KernelIdeal.S26x4x128 EltTy.i32)

/-- Window `t` of the scratch, as the program addresses it: the block of one by 4 by 128 at `(t, 0, 0)`, its unit
    axis dropped. -/
abbrev Wn (t : Nat) (h : ∀ a, (![t, 0, 0] : Fin 3 → Nat) a + S1x4x128.size a ≤ S26x4x128.size a) :
    Memref sig .scVector .vmem S4x128 .i32 :=
  ((sV).slice (Rect.unit (s := S26x4x128) ![t, 0, 0] S1x4x128.size h) (fun _ => rfl)).squeeze S4x128 squeezes_S1x4x128_S4x128

/-- The elements of the scratch at first coordinate `t`. -/
def winSet (t : Nat) : Finset S26x4x128.Idx := Finset.univ.filter fun j => (j 0).val = t
/-- The elements of the scratch at first coordinate `k` or more. -/
def tailSet (k : Nat) : Finset S26x4x128.Idx := Finset.univ.filter fun j => k ≤ (j 0).val

theorem mem_winSet {t : Nat} {j : S26x4x128.Idx} : j ∈ winSet t ↔ (j 0).val = t := by simp [winSet]
theorem mem_tailSet {k : Nat} {j : S26x4x128.Idx} : j ∈ tailSet k ↔ k ≤ (j 0).val := by simp [tailSet]

/-- Window `t` covers exactly the elements at first coordinate `t`. -/
theorem set_Wn (t : Nat) (h : ∀ a, (![t, 0, 0] : Fin 3 → Nat) a + S1x4x128.size a ≤ S26x4x128.size a) :
    (Wn t h).view.set = winSet t := by
  show (((sV).view.slice (Rect.unit (s := S26x4x128) ![t, 0, 0] S1x4x128.size h)).reshape S4x128 squeezes_S1x4x128_S4x128.numel_eq).set = _
  rw [View.set_reshape]
  show ((View.whole (cc0_scratch0 : Ref sig .scVector)).slice (Rect.unit (s := S26x4x128) ![t, 0, 0] S1x4x128.size h)).set = _
  rw [View.set_slice_whole]
  ext j
  rw [mem_winSet]
  refine (Rect.mem_set_unit (s := S26x4x128)).trans ⟨fun H => ?_, fun H a => ?_⟩
  · have h0 := H 0
    simp at h0
    omega
  · match a with
    | ⟨0, _⟩ => simp; omega
    | ⟨1, _⟩ => simp; exact (j 1).isLt
    | ⟨2, _⟩ => simp; exact (j 2).isLt

variable (d : Dev nD) (c : Fin τ.nSC) (i : Fin τ.nSub)

/-- The scratch of the tile `(c, i)` of device `d`. -/
abbrev sLoc : Loc nD τ sig := (sV).view.loc (V d c i)

theorem tailSet_last : tailSet 25 = winSet 25 := by
  ext j; rw [mem_tailSet, mem_winSet]
  have hj : (j 0).val < 26 := (j 0).isLt
  omega
theorem tailSet_succ (k : Nat) : tailSet k = winSet k ∪ tailSet (k + 1) := by
  ext j; rw [Finset.mem_union, mem_tailSet, mem_winSet, mem_tailSet]; omega
theorem win_tail_disjoint (k : Nat) : Disjoint (winSet k) (tailSet (k + 1)) := by
  rw [Finset.disjoint_left]; intro j h1 h2; rw [mem_winSet] at h1; rw [mem_tailSet] at h2; omega
theorem tailSet_zero : tailSet 0 = Finset.univ := by
  ext j; simp [mem_tailSet]

/-- A window held on its own elements is the scratch held on the elements at the window's first coordinate. -/
theorem pts_Wn (t : Nat) (h : ∀ a, (![t, 0, 0] : Fin 3 → Nat) a + S1x4x128.size a ≤ S26x4x128.size a)
    (g : Buf (Elt F) (sLoc d c i)) :
    ((Wn t h).view.loc (V d c i) ↦[(Wn t h).view.set]{fullShare} g : sProp 𝕄) = (sLoc d c i ↦[winSet t]{fullShare} g) := by
  rw [set_Wn]

/-- The same, the contents replaced by one that agrees with them on the window. -/
theorem pts_Wn_congr (t : Nat) (h : ∀ a, (![t, 0, 0] : Fin 3 → Nat) a + S1x4x128.size a ≤ S26x4x128.size a)
    (g g' : Buf (Elt F) (sLoc d c i)) (hg : ∀ j ∈ (Wn t h).view.set, g j = g' j) :
    ((Wn t h).view.loc (V d c i) ↦[(Wn t h).view.set]{fullShare} g : sProp 𝕄) = (sLoc d c i ↦[winSet t]{fullShare} g') := by
  rw [pointsTo_congr hg, set_Wn]

/-- The whole scratch is its elements from first coordinate 0 on. -/
theorem pts_univ (f : Buf (Elt F) (sLoc d c i)) :
    ((sV).view.loc (V d c i) ↦{fullShare} f : sProp 𝕄) = (sLoc d c i ↦[tailSet 0]{fullShare} f) := by
  rw [tailSet_zero]

/-- One window off the front: the elements from first coordinate `k` on are window `k` and the elements from `k + 1` on. -/
theorem split_step (k : Nat) (h : ∀ a, (![k, 0, 0] : Fin 3 → Nat) a + S1x4x128.size a ≤ S26x4x128.size a)
    (f : Buf (Elt F) (sLoc d c i)) (R : sProp 𝕄)
    (hR : (sLoc d c i ↦[tailSet (k + 1)]{fullShare} f : sProp 𝕄) ⊢ R) :
    (sLoc d c i ↦[tailSet k]{fullShare} f : sProp 𝕄)
      ⊢ iprop(((Wn k h).view.loc (V d c i) ↦[(Wn k h).view.set]{fullShare} f) ∗ R) := by
  rw [pts_Wn, tailSet_succ k]
  iintro H
  ihave H' := (pointsTo_union (ℓ := sLoc d c i) (q := fullShare) (f := f) (win_tail_disjoint k)).1 $$ H
  icases H' with ⟨H1, H2⟩
  isplitl [H1]; · iexact H1
  iapply hR; iexact H2

theorem split_last (h : ∀ a, (![25, 0, 0] : Fin 3 → Nat) a + S1x4x128.size a ≤ S26x4x128.size a)
    (f : Buf (Elt F) (sLoc d c i)) :
    (sLoc d c i ↦[tailSet 25]{fullShare} f : sProp 𝕄)
      ⊢ ((Wn 25 h).view.loc (V d c i) ↦[(Wn 25 h).view.set]{fullShare} f) := by
  rw [pts_Wn, tailSet_last]

/-- One window back on the front, at new contents `G` that the window's own contents agree with on the window. -/
theorem join_step (k : Nat) (h : ∀ a, (![k, 0, 0] : Fin 3 → Nat) a + S1x4x128.size a ≤ S26x4x128.size a)
    (g G : Buf (Elt F) (sLoc d c i)) (hg : ∀ j ∈ (Wn k h).view.set, g j = G j) (R : sProp 𝕄)
    (hR : R ⊢ (sLoc d c i ↦[tailSet (k + 1)]{fullShare} G : sProp 𝕄)) :
    iprop(((Wn k h).view.loc (V d c i) ↦[(Wn k h).view.set]{fullShare} g) ∗ R)
      ⊢ (sLoc d c i ↦[tailSet k]{fullShare} G : sProp 𝕄) := by
  rw [pts_Wn_congr d c i k h g G hg, tailSet_succ k]
  iintro ⟨H1, H2⟩
  ihave H2' := hR $$ H2
  iapply (pointsTo_union (ℓ := sLoc d c i) (q := fullShare) (f := G) (win_tail_disjoint k)).2
  isplitl [H1]; · iexact H1
  iexact H2'

theorem join_last (h : ∀ a, (![25, 0, 0] : Fin 3 → Nat) a + S1x4x128.size a ≤ S26x4x128.size a)
    (g G : Buf (Elt F) (sLoc d c i)) (hg : ∀ j ∈ (Wn 25 h).view.set, g j = G j) :
    ((Wn 25 h).view.loc (V d c i) ↦[(Wn 25 h).view.set]{fullShare} g)
      ⊢ (sLoc d c i ↦[tailSet 25]{fullShare} G : sProp 𝕄) := by
  rw [pts_Wn_congr d c i 25 h g G hg, tailSet_last]

set_option maxHeartbeats 4000000 in
/-- The scratch held whole is its 26 windows held apart, at the same contents. -/
theorem idx_split (f : Buf (Elt F) (sLoc d c i)) :
    ((sV).view.loc (V d c i) ↦{fullShare} f : sProp 𝕄) ⊢ iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} f) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} f) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} f) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} f) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} f) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} f) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} f) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} f) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} f) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} f) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} f) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} f) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} f) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} f) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} f) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} f) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} f) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} f) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} f) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} f) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} f) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} f) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} f) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} f) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} f) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} f)) := by
  rw [pts_univ]
  refine split_step d c i 0 inb_S26x4x128_S1x4x128_0_0_0 f _ ?_
  refine split_step d c i 1 inb_S26x4x128_S1x4x128_1_0_0 f _ ?_
  refine split_step d c i 2 inb_S26x4x128_S1x4x128_2_0_0 f _ ?_
  refine split_step d c i 3 inb_S26x4x128_S1x4x128_3_0_0 f _ ?_
  refine split_step d c i 4 inb_S26x4x128_S1x4x128_4_0_0 f _ ?_
  refine split_step d c i 5 inb_S26x4x128_S1x4x128_5_0_0 f _ ?_
  refine split_step d c i 6 inb_S26x4x128_S1x4x128_6_0_0 f _ ?_
  refine split_step d c i 7 inb_S26x4x128_S1x4x128_7_0_0 f _ ?_
  refine split_step d c i 8 inb_S26x4x128_S1x4x128_8_0_0 f _ ?_
  refine split_step d c i 9 inb_S26x4x128_S1x4x128_9_0_0 f _ ?_
  refine split_step d c i 10 inb_S26x4x128_S1x4x128_10_0_0 f _ ?_
  refine split_step d c i 11 inb_S26x4x128_S1x4x128_11_0_0 f _ ?_
  refine split_step d c i 12 inb_S26x4x128_S1x4x128_12_0_0 f _ ?_
  refine split_step d c i 13 inb_S26x4x128_S1x4x128_13_0_0 f _ ?_
  refine split_step d c i 14 inb_S26x4x128_S1x4x128_14_0_0 f _ ?_
  refine split_step d c i 15 inb_S26x4x128_S1x4x128_15_0_0 f _ ?_
  refine split_step d c i 16 inb_S26x4x128_S1x4x128_16_0_0 f _ ?_
  refine split_step d c i 17 inb_S26x4x128_S1x4x128_17_0_0 f _ ?_
  refine split_step d c i 18 inb_S26x4x128_S1x4x128_18_0_0 f _ ?_
  refine split_step d c i 19 inb_S26x4x128_S1x4x128_19_0_0 f _ ?_
  refine split_step d c i 20 inb_S26x4x128_S1x4x128_20_0_0 f _ ?_
  refine split_step d c i 21 inb_S26x4x128_S1x4x128_21_0_0 f _ ?_
  refine split_step d c i 22 inb_S26x4x128_S1x4x128_22_0_0 f _ ?_
  refine split_step d c i 23 inb_S26x4x128_S1x4x128_23_0_0 f _ ?_
  refine split_step d c i 24 inb_S26x4x128_S1x4x128_24_0_0 f _ ?_
  exact split_last d c i inb_S26x4x128_S1x4x128_25_0_0 f

/-! ## The contents the 26 copies leave -/

/-- Entry `(t, r, p)` of the scratch is word `(r, p)` of what window `t` was written with. -/
def IDXV (pay : Fin 26 → S4x128.Idx → Elt F .i32) : S26x4x128.Idx → Elt F .i32 :=
  fun j => pay ⟨(j 0).val, (j 0).isLt⟩ (ix2 (⟨(j 1).val, (j 1).isLt⟩ : Fin 4) (⟨(j 2).val, (j 2).isLt⟩ : Fin 128))

/-- Where window `t` puts its word `(a, b)`: at `(t, a, b)`. -/
theorem emb_Wn (t : Nat) (h : ∀ a, (![t, 0, 0] : Fin 3 → Nat) a + S1x4x128.size a ≤ S26x4x128.size a)
    (a : Fin 4) (b : Fin 128) (q : Fin 3) :
    ((Wn t h).view.emb (ix2 a b) q : Nat)
      = (![t, 0, 0] : Fin 3 → Nat) q + 1 * (ix3 (⟨0, Nat.one_pos⟩ : Fin 1) a b q : Nat) := by
  show ((Rect.unit (s := S26x4x128) ![t, 0, 0] S1x4x128.size h).emb
      (Shape.reshapeEquiv squeezes_S1x4x128_S4x128.numel_eq (ix2 a b)) q : Nat) = _
  rw [reshapeEquiv_ix2_1ab]
  rfl

/-- A window written whole with `pay t` holds, on its own elements, the closed-form contents. -/
theorem writes_eq_IDXV (t : Nat) (ht : t < 26) (h : ∀ a, (![t, 0, 0] : Fin 3 → Nat) a + S1x4x128.size a ≤ S26x4x128.size a)
    (fs : Buf (Elt F) (sLoc d c i)) (pay : Fin 26 → S4x128.Idx → Elt F .i32)
    (p : S4x128.Idx → Elt F .i32) (hp : p = pay ⟨t, ht⟩) :
    ∀ j ∈ (Wn t h).view.set, (Wn t h).view.writes (Elt F) fs [⟨Rect.whole S4x128, p⟩] j = IDXV pay j := by
  subst hp
  intro j hj
  obtain ⟨y, -, rfl⟩ := Finset.mem_map.mp hj
  have h1 := View.read_writes_cons_emb (Wn t h).view fs (Rect.whole S4x128) (pay ⟨t, ht⟩) [] y
  rw [Rect.emb_whole_apply] at h1
  refine (show (Wn t h).view.writes (Elt F) fs [⟨Rect.whole S4x128, pay ⟨t, ht⟩⟩] ((Wn t h).view.emb y)
      = pay ⟨t, ht⟩ y from h1).trans ?_
  obtain ⟨a, b, rfl⟩ : ∃ a b, y = ix2 a b := ⟨y 0, y 1, eq_ix2 y⟩
  show pay ⟨t, ht⟩ (ix2 a b) = pay ⟨_, _⟩ (ix2 ⟨_, _⟩ ⟨_, _⟩)
  refine congrArg₂ pay (Fin.ext ?_) (congrArg₂ ix2 (Fin.ext ?_) (Fin.ext ?_))
  · show t = ((Wn t h).view.emb (ix2 a b) 0 : Nat)
    rw [emb_Wn]; show t = t + 1 * 0; omega
  · show a.val = ((Wn t h).view.emb (ix2 a b) 1 : Nat)
    rw [emb_Wn]; show a.val = 0 + 1 * a.val; omega
  · show b.val = ((Wn t h).view.emb (ix2 a b) 2 : Nat)
    rw [emb_Wn]; show b.val = 0 + 1 * b.val; omega

set_option maxHeartbeats 4000000 in
/-- The 26 windows held apart, each at what its whole write left, are the scratch held whole at the closed-form
    contents. -/
theorem idx_join' (pay : Fin 26 → S4x128.Idx → Elt F .i32) (fs : Buf (Elt F) (sLoc d c i)) :
    iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} ((((sV).slice (Rect.unit (s := S26x4x128) ![0, 0, 0] S1x4x128.size inb_S26x4x128_S1x4x128_0_0_0) (fun _ => rfl)).squeeze S4x128 squeezes_S1x4x128_S4x128).view.writes (Elt F) fs [⟨Rect.whole S4x128, pay 0⟩])) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} ((((sV).slice (Rect.unit (s := S26x4x128) ![1, 0, 0] S1x4x128.size inb_S26x4x128_S1x4x128_1_0_0) (fun _ => rfl)).squeeze S4x128 squeezes_S1x4x128_S4x128).view.writes (Elt F) fs [⟨Rect.whole S4x128, pay 1⟩])) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} ((((sV).slice (Rect.unit (s := S26x4x128) ![2, 0, 0] S1x4x128.size inb_S26x4x128_S1x4x128_2_0_0) (fun _ => rfl)).squeeze S4x128 squeezes_S1x4x128_S4x128).view.writes (Elt F) fs [⟨Rect.whole S4x128, pay 2⟩])) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} ((((sV).slice (Rect.unit (s := S26x4x128) ![3, 0, 0] S1x4x128.size inb_S26x4x128_S1x4x128_3_0_0) (fun _ => rfl)).squeeze S4x128 squeezes_S1x4x128_S4x128).view.writes (Elt F) fs [⟨Rect.whole S4x128, pay 3⟩])) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} ((((sV).slice (Rect.unit (s := S26x4x128) ![4, 0, 0] S1x4x128.size inb_S26x4x128_S1x4x128_4_0_0) (fun _ => rfl)).squeeze S4x128 squeezes_S1x4x128_S4x128).view.writes (Elt F) fs [⟨Rect.whole S4x128, pay 4⟩])) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} ((((sV).slice (Rect.unit (s := S26x4x128) ![5, 0, 0] S1x4x128.size inb_S26x4x128_S1x4x128_5_0_0) (fun _ => rfl)).squeeze S4x128 squeezes_S1x4x128_S4x128).view.writes (Elt F) fs [⟨Rect.whole S4x128, pay 5⟩])) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} ((((sV).slice (Rect.unit (s := S26x4x128) ![6, 0, 0] S1x4x128.size inb_S26x4x128_S1x4x128_6_0_0) (fun _ => rfl)).squeeze S4x128 squeezes_S1x4x128_S4x128).view.writes (Elt F) fs [⟨Rect.whole S4x128, pay 6⟩])) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} ((((sV).slice (Rect.unit (s := S26x4x128) ![7, 0, 0] S1x4x128.size inb_S26x4x128_S1x4x128_7_0_0) (fun _ => rfl)).squeeze S4x128 squeezes_S1x4x128_S4x128).view.writes (Elt F) fs [⟨Rect.whole S4x128, pay 7⟩])) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} ((((sV).slice (Rect.unit (s := S26x4x128) ![8, 0, 0] S1x4x128.size inb_S26x4x128_S1x4x128_8_0_0) (fun _ => rfl)).squeeze S4x128 squeezes_S1x4x128_S4x128).view.writes (Elt F) fs [⟨Rect.whole S4x128, pay 8⟩])) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} ((((sV).slice (Rect.unit (s := S26x4x128) ![9, 0, 0] S1x4x128.size inb_S26x4x128_S1x4x128_9_0_0) (fun _ => rfl)).squeeze S4x128 squeezes_S1x4x128_S4x128).view.writes (Elt F) fs [⟨Rect.whole S4x128, pay 9⟩])) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} ((((sV).slice (Rect.unit (s := S26x4x128) ![10, 0, 0] S1x4x128.size inb_S26x4x128_S1x4x128_10_0_0) (fun _ => rfl)).squeeze S4x128 squeezes_S1x4x128_S4x128).view.writes (Elt F) fs [⟨Rect.whole S4x128, pay 10⟩])) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} ((((sV).slice (Rect.unit (s := S26x4x128) ![11, 0, 0] S1x4x128.size inb_S26x4x128_S1x4x128_11_0_0) (fun _ => rfl)).squeeze S4x128 squeezes_S1x4x128_S4x128).view.writes (Elt F) fs [⟨Rect.whole S4x128, pay 11⟩])) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} ((((sV).slice (Rect.unit (s := S26x4x128) ![12, 0, 0] S1x4x128.size inb_S26x4x128_S1x4x128_12_0_0) (fun _ => rfl)).squeeze S4x128 squeezes_S1x4x128_S4x128).view.writes (Elt F) fs [⟨Rect.whole S4x128, pay 12⟩])) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} ((((sV).slice (Rect.unit (s := S26x4x128) ![13, 0, 0] S1x4x128.size inb_S26x4x128_S1x4x128_13_0_0) (fun _ => rfl)).squeeze S4x128 squeezes_S1x4x128_S4x128).view.writes (Elt F) fs [⟨Rect.whole S4x128, pay 13⟩])) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} ((((sV).slice (Rect.unit (s := S26x4x128) ![14, 0, 0] S1x4x128.size inb_S26x4x128_S1x4x128_14_0_0) (fun _ => rfl)).squeeze S4x128 squeezes_S1x4x128_S4x128).view.writes (Elt F) fs [⟨Rect.whole S4x128, pay 14⟩])) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} ((((sV).slice (Rect.unit (s := S26x4x128) ![15, 0, 0] S1x4x128.size inb_S26x4x128_S1x4x128_15_0_0) (fun _ => rfl)).squeeze S4x128 squeezes_S1x4x128_S4x128).view.writes (Elt F) fs [⟨Rect.whole S4x128, pay 15⟩])) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} ((((sV).slice (Rect.unit (s := S26x4x128) ![16, 0, 0] S1x4x128.size inb_S26x4x128_S1x4x128_16_0_0) (fun _ => rfl)).squeeze S4x128 squeezes_S1x4x128_S4x128).view.writes (Elt F) fs [⟨Rect.whole S4x128, pay 16⟩])) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} ((((sV).slice (Rect.unit (s := S26x4x128) ![17, 0, 0] S1x4x128.size inb_S26x4x128_S1x4x128_17_0_0) (fun _ => rfl)).squeeze S4x128 squeezes_S1x4x128_S4x128).view.writes (Elt F) fs [⟨Rect.whole S4x128, pay 17⟩])) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} ((((sV).slice (Rect.unit (s := S26x4x128) ![18, 0, 0] S1x4x128.size inb_S26x4x128_S1x4x128_18_0_0) (fun _ => rfl)).squeeze S4x128 squeezes_S1x4x128_S4x128).view.writes (Elt F) fs [⟨Rect.whole S4x128, pay 18⟩])) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} ((((sV).slice (Rect.unit (s := S26x4x128) ![19, 0, 0] S1x4x128.size inb_S26x4x128_S1x4x128_19_0_0) (fun _ => rfl)).squeeze S4x128 squeezes_S1x4x128_S4x128).view.writes (Elt F) fs [⟨Rect.whole S4x128, pay 19⟩])) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} ((((sV).slice (Rect.unit (s := S26x4x128) ![20, 0, 0] S1x4x128.size inb_S26x4x128_S1x4x128_20_0_0) (fun _ => rfl)).squeeze S4x128 squeezes_S1x4x128_S4x128).view.writes (Elt F) fs [⟨Rect.whole S4x128, pay 20⟩])) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} ((((sV).slice (Rect.unit (s := S26x4x128) ![21, 0, 0] S1x4x128.size inb_S26x4x128_S1x4x128_21_0_0) (fun _ => rfl)).squeeze S4x128 squeezes_S1x4x128_S4x128).view.writes (Elt F) fs [⟨Rect.whole S4x128, pay 21⟩])) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} ((((sV).slice (Rect.unit (s := S26x4x128) ![22, 0, 0] S1x4x128.size inb_S26x4x128_S1x4x128_22_0_0) (fun _ => rfl)).squeeze S4x128 squeezes_S1x4x128_S4x128).view.writes (Elt F) fs [⟨Rect.whole S4x128, pay 22⟩])) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} ((((sV).slice (Rect.unit (s := S26x4x128) ![23, 0, 0] S1x4x128.size inb_S26x4x128_S1x4x128_23_0_0) (fun _ => rfl)).squeeze S4x128 squeezes_S1x4x128_S4x128).view.writes (Elt F) fs [⟨Rect.whole S4x128, pay 23⟩])) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} ((((sV).slice (Rect.unit (s := S26x4x128) ![24, 0, 0] S1x4x128.size inb_S26x4x128_S1x4x128_24_0_0) (fun _ => rfl)).squeeze S4x128 squeezes_S1x4x128_S4x128).view.writes (Elt F) fs [⟨Rect.whole S4x128, pay 24⟩])) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} ((((sV).slice (Rect.unit (s := S26x4x128) ![25, 0, 0] S1x4x128.size inb_S26x4x128_S1x4x128_25_0_0) (fun _ => rfl)).squeeze S4x128 squeezes_S1x4x128_S4x128).view.writes (Elt F) fs [⟨Rect.whole S4x128, pay 25⟩])))
      ⊢ ((sV).view.loc (V d c i) ↦{fullShare} IDXV pay : sProp 𝕄) := by
  rw [pts_univ]
  refine join_step d c i 0 inb_S26x4x128_S1x4x128_0_0_0 _ (IDXV pay) (writes_eq_IDXV d c i 0 (by decide) inb_S26x4x128_S1x4x128_0_0_0 fs pay (pay 0) rfl) _ ?_
  refine join_step d c i 1 inb_S26x4x128_S1x4x128_1_0_0 _ (IDXV pay) (writes_eq_IDXV d c i 1 (by decide) inb_S26x4x128_S1x4x128_1_0_0 fs pay (pay 1) rfl) _ ?_
  refine join_step d c i 2 inb_S26x4x128_S1x4x128_2_0_0 _ (IDXV pay) (writes_eq_IDXV d c i 2 (by decide) inb_S26x4x128_S1x4x128_2_0_0 fs pay (pay 2) rfl) _ ?_
  refine join_step d c i 3 inb_S26x4x128_S1x4x128_3_0_0 _ (IDXV pay) (writes_eq_IDXV d c i 3 (by decide) inb_S26x4x128_S1x4x128_3_0_0 fs pay (pay 3) rfl) _ ?_
  refine join_step d c i 4 inb_S26x4x128_S1x4x128_4_0_0 _ (IDXV pay) (writes_eq_IDXV d c i 4 (by decide) inb_S26x4x128_S1x4x128_4_0_0 fs pay (pay 4) rfl) _ ?_
  refine join_step d c i 5 inb_S26x4x128_S1x4x128_5_0_0 _ (IDXV pay) (writes_eq_IDXV d c i 5 (by decide) inb_S26x4x128_S1x4x128_5_0_0 fs pay (pay 5) rfl) _ ?_
  refine join_step d c i 6 inb_S26x4x128_S1x4x128_6_0_0 _ (IDXV pay) (writes_eq_IDXV d c i 6 (by decide) inb_S26x4x128_S1x4x128_6_0_0 fs pay (pay 6) rfl) _ ?_
  refine join_step d c i 7 inb_S26x4x128_S1x4x128_7_0_0 _ (IDXV pay) (writes_eq_IDXV d c i 7 (by decide) inb_S26x4x128_S1x4x128_7_0_0 fs pay (pay 7) rfl) _ ?_
  refine join_step d c i 8 inb_S26x4x128_S1x4x128_8_0_0 _ (IDXV pay) (writes_eq_IDXV d c i 8 (by decide) inb_S26x4x128_S1x4x128_8_0_0 fs pay (pay 8) rfl) _ ?_
  refine join_step d c i 9 inb_S26x4x128_S1x4x128_9_0_0 _ (IDXV pay) (writes_eq_IDXV d c i 9 (by decide) inb_S26x4x128_S1x4x128_9_0_0 fs pay (pay 9) rfl) _ ?_
  refine join_step d c i 10 inb_S26x4x128_S1x4x128_10_0_0 _ (IDXV pay) (writes_eq_IDXV d c i 10 (by decide) inb_S26x4x128_S1x4x128_10_0_0 fs pay (pay 10) rfl) _ ?_
  refine join_step d c i 11 inb_S26x4x128_S1x4x128_11_0_0 _ (IDXV pay) (writes_eq_IDXV d c i 11 (by decide) inb_S26x4x128_S1x4x128_11_0_0 fs pay (pay 11) rfl) _ ?_
  refine join_step d c i 12 inb_S26x4x128_S1x4x128_12_0_0 _ (IDXV pay) (writes_eq_IDXV d c i 12 (by decide) inb_S26x4x128_S1x4x128_12_0_0 fs pay (pay 12) rfl) _ ?_
  refine join_step d c i 13 inb_S26x4x128_S1x4x128_13_0_0 _ (IDXV pay) (writes_eq_IDXV d c i 13 (by decide) inb_S26x4x128_S1x4x128_13_0_0 fs pay (pay 13) rfl) _ ?_
  refine join_step d c i 14 inb_S26x4x128_S1x4x128_14_0_0 _ (IDXV pay) (writes_eq_IDXV d c i 14 (by decide) inb_S26x4x128_S1x4x128_14_0_0 fs pay (pay 14) rfl) _ ?_
  refine join_step d c i 15 inb_S26x4x128_S1x4x128_15_0_0 _ (IDXV pay) (writes_eq_IDXV d c i 15 (by decide) inb_S26x4x128_S1x4x128_15_0_0 fs pay (pay 15) rfl) _ ?_
  refine join_step d c i 16 inb_S26x4x128_S1x4x128_16_0_0 _ (IDXV pay) (writes_eq_IDXV d c i 16 (by decide) inb_S26x4x128_S1x4x128_16_0_0 fs pay (pay 16) rfl) _ ?_
  refine join_step d c i 17 inb_S26x4x128_S1x4x128_17_0_0 _ (IDXV pay) (writes_eq_IDXV d c i 17 (by decide) inb_S26x4x128_S1x4x128_17_0_0 fs pay (pay 17) rfl) _ ?_
  refine join_step d c i 18 inb_S26x4x128_S1x4x128_18_0_0 _ (IDXV pay) (writes_eq_IDXV d c i 18 (by decide) inb_S26x4x128_S1x4x128_18_0_0 fs pay (pay 18) rfl) _ ?_
  refine join_step d c i 19 inb_S26x4x128_S1x4x128_19_0_0 _ (IDXV pay) (writes_eq_IDXV d c i 19 (by decide) inb_S26x4x128_S1x4x128_19_0_0 fs pay (pay 19) rfl) _ ?_
  refine join_step d c i 20 inb_S26x4x128_S1x4x128_20_0_0 _ (IDXV pay) (writes_eq_IDXV d c i 20 (by decide) inb_S26x4x128_S1x4x128_20_0_0 fs pay (pay 20) rfl) _ ?_
  refine join_step d c i 21 inb_S26x4x128_S1x4x128_21_0_0 _ (IDXV pay) (writes_eq_IDXV d c i 21 (by decide) inb_S26x4x128_S1x4x128_21_0_0 fs pay (pay 21) rfl) _ ?_
  refine join_step d c i 22 inb_S26x4x128_S1x4x128_22_0_0 _ (IDXV pay) (writes_eq_IDXV d c i 22 (by decide) inb_S26x4x128_S1x4x128_22_0_0 fs pay (pay 22) rfl) _ ?_
  refine join_step d c i 23 inb_S26x4x128_S1x4x128_23_0_0 _ (IDXV pay) (writes_eq_IDXV d c i 23 (by decide) inb_S26x4x128_S1x4x128_23_0_0 fs pay (pay 23) rfl) _ ?_
  refine join_step d c i 24 inb_S26x4x128_S1x4x128_24_0_0 _ (IDXV pay) (writes_eq_IDXV d c i 24 (by decide) inb_S26x4x128_S1x4x128_24_0_0 fs pay (pay 24) rfl) _ ?_
  exact join_last d c i inb_S26x4x128_S1x4x128_25_0_0 _ (IDXV pay) (writes_eq_IDXV d c i 25 (by decide) inb_S26x4x128_S1x4x128_25_0_0 fs pay (pay 25) rfl)

/-! ## The words read back are row numbers -/

theorem IDXV_lt (pay : Fin 26 → S4x128.Idx → Elt F .i32) (hpay : ∀ t y, (pay t y).toNat < 1000) :
    ∀ j, (IDXV pay j).toNat < 1000 := fun _ => hpay _ _

/-- Every word of every list of 128 read out of the scratch is below 1000. -/
theorem list_inb (pay : Fin 26 → S4x128.Idx → Elt F .i32) (hpay : ∀ t y, (pay t y).toNat < 1000) :
    ∀ (a b : Nat) (h1 : ∀ x, (![a, b, 0] : Fin 3 → Nat) x + S1x1x128.size x ≤ S26x4x128.size x)
      (h2 : (Rect.unit (s := S26x4x128) ![a, b, 0] S1x1x128.size h1).shape.Squeezes S128) (x : S128.Idx),
      ((((sV).slice (Rect.unit (s := S26x4x128) ![a, b, 0] S1x1x128.size h1) (fun _ => rfl)).squeeze S128 h2).view.read
        (Elt F) (IDXV pay) x).toNat < 1000 := by
  intro a b h1 h2 x
  show (IDXV pay ((((sV).slice (Rect.unit (s := S26x4x128) ![a, b, 0] S1x1x128.size h1) (fun _ => rfl)).squeeze S128 h2).view.emb x)).toNat < 1000
  exact IDXV_lt pay hpay _

/-! ## The windows at any contents -/

/-- One window back on the front, whatever it and the rest hold. -/
theorem join_any_step (k : Nat) (h : ∀ a, (![k, 0, 0] : Fin 3 → Nat) a + S1x4x128.size a ≤ S26x4x128.size a)
    (g : Buf (Elt F) (sLoc d c i)) (R : sProp 𝕄)
    (hR : R ⊢ (iprop(∃ f : Buf (Elt F) (sLoc d c i), sLoc d c i ↦[tailSet (k + 1)]{fullShare} f) : sProp 𝕄)) :
    iprop(((Wn k h).view.loc (V d c i) ↦[(Wn k h).view.set]{fullShare} g) ∗ R)
      ⊢ (iprop(∃ f : Buf (Elt F) (sLoc d c i), sLoc d c i ↦[tailSet k]{fullShare} f) : sProp 𝕄) := by
  rw [pts_Wn, tailSet_succ k]
  iintro ⟨H1, H2⟩
  ihave H2' := hR $$ H2
  icases H2' with ⟨%f', H2'⟩
  ihave H := (pointsTo_join (ℓ := sLoc d c i) (q := fullShare) (f := g) (g := f') (win_tail_disjoint k)) $$ [H1 H2']
  · isplitl [H1]; · iexact H1
    iexact H2'
  iexists _; iexact H

theorem join_any_last (h : ∀ a, (![25, 0, 0] : Fin 3 → Nat) a + S1x4x128.size a ≤ S26x4x128.size a)
    (g : Buf (Elt F) (sLoc d c i)) :
    ((Wn 25 h).view.loc (V d c i) ↦[(Wn 25 h).view.set]{fullShare} g)
      ⊢ (iprop(∃ f : Buf (Elt F) (sLoc d c i), sLoc d c i ↦[tailSet 25]{fullShare} f) : sProp 𝕄) := by
  rw [pts_Wn, tailSet_last]
  iintro H; iexists _; iexact H

set_option maxHeartbeats 4000000 in
/-- The 26 windows held apart, at whatever contents, are the index scratch held whole at some contents. -/
theorem idx_join_any (g0 : Buf (Elt F) (sLoc d c i)) (g1 : Buf (Elt F) (sLoc d c i)) (g2 : Buf (Elt F) (sLoc d c i)) (g3 : Buf (Elt F) (sLoc d c i)) (g4 : Buf (Elt F) (sLoc d c i)) (g5 : Buf (Elt F) (sLoc d c i)) (g6 : Buf (Elt F) (sLoc d c i)) (g7 : Buf (Elt F) (sLoc d c i)) (g8 : Buf (Elt F) (sLoc d c i)) (g9 : Buf (Elt F) (sLoc d c i)) (g10 : Buf (Elt F) (sLoc d c i)) (g11 : Buf (Elt F) (sLoc d c i)) (g12 : Buf (Elt F) (sLoc d c i)) (g13 : Buf (Elt F) (sLoc d c i)) (g14 : Buf (Elt F) (sLoc d c i)) (g15 : Buf (Elt F) (sLoc d c i)) (g16 : Buf (Elt F) (sLoc d c i)) (g17 : Buf (Elt F) (sLoc d c i)) (g18 : Buf (Elt F) (sLoc d c i)) (g19 : Buf (Elt F) (sLoc d c i)) (g20 : Buf (Elt F) (sLoc d c i)) (g21 : Buf (Elt F) (sLoc d c i)) (g22 : Buf (Elt F) (sLoc d c i)) (g23 : Buf (Elt F) (sLoc d c i)) (g24 : Buf (Elt F) (sLoc d c i)) (g25 : Buf (Elt F) (sLoc d c i)) :
    iprop(
      ((((sV).slice (Rect.unit (s := S26x4x128) ![0, 0, 0] S1x4x128.size inb_S26x4x128_S1x4x128_0_0_0) (fun _ => rfl)).squeeze S4x128 squeezes_S1x4x128_S4x128).view.loc (V d c i) ↦[(((sV).slice (Rect.unit (s := S26x4x128) ![0, 0, 0] S1x4x128.size inb_S26x4x128_S1x4x128_0_0_0) (fun _ => rfl)).squeeze S4x128 squeezes_S1x4x128_S4x128).view.set]{fullShare} g0) ∗
      ((((sV).slice (Rect.unit (s := S26x4x128) ![1, 0, 0] S1x4x128.size inb_S26x4x128_S1x4x128_1_0_0) (fun _ => rfl)).squeeze S4x128 squeezes_S1x4x128_S4x128).view.loc (V d c i) ↦[(((sV).slice (Rect.unit (s := S26x4x128) ![1, 0, 0] S1x4x128.size inb_S26x4x128_S1x4x128_1_0_0) (fun _ => rfl)).squeeze S4x128 squeezes_S1x4x128_S4x128).view.set]{fullShare} g1) ∗
      ((((sV).slice (Rect.unit (s := S26x4x128) ![2, 0, 0] S1x4x128.size inb_S26x4x128_S1x4x128_2_0_0) (fun _ => rfl)).squeeze S4x128 squeezes_S1x4x128_S4x128).view.loc (V d c i) ↦[(((sV).slice (Rect.unit (s := S26x4x128) ![2, 0, 0] S1x4x128.size inb_S26x4x128_S1x4x128_2_0_0) (fun _ => rfl)).squeeze S4x128 squeezes_S1x4x128_S4x128).view.set]{fullShare} g2) ∗
      ((((sV).slice (Rect.unit (s := S26x4x128) ![3, 0, 0] S1x4x128.size inb_S26x4x128_S1x4x128_3_0_0) (fun _ => rfl)).squeeze S4x128 squeezes_S1x4x128_S4x128).view.loc (V d c i) ↦[(((sV).slice (Rect.unit (s := S26x4x128) ![3, 0, 0] S1x4x128.size inb_S26x4x128_S1x4x128_3_0_0) (fun _ => rfl)).squeeze S4x128 squeezes_S1x4x128_S4x128).view.set]{fullShare} g3) ∗
      ((((sV).slice (Rect.unit (s := S26x4x128) ![4, 0, 0] S1x4x128.size inb_S26x4x128_S1x4x128_4_0_0) (fun _ => rfl)).squeeze S4x128 squeezes_S1x4x128_S4x128).view.loc (V d c i) ↦[(((sV).slice (Rect.unit (s := S26x4x128) ![4, 0, 0] S1x4x128.size inb_S26x4x128_S1x4x128_4_0_0) (fun _ => rfl)).squeeze S4x128 squeezes_S1x4x128_S4x128).view.set]{fullShare} g4) ∗
      ((((sV).slice (Rect.unit (s := S26x4x128) ![5, 0, 0] S1x4x128.size inb_S26x4x128_S1x4x128_5_0_0) (fun _ => rfl)).squeeze S4x128 squeezes_S1x4x128_S4x128).view.loc (V d c i) ↦[(((sV).slice (Rect.unit (s := S26x4x128) ![5, 0, 0] S1x4x128.size inb_S26x4x128_S1x4x128_5_0_0) (fun _ => rfl)).squeeze S4x128 squeezes_S1x4x128_S4x128).view.set]{fullShare} g5) ∗
      ((((sV).slice (Rect.unit (s := S26x4x128) ![6, 0, 0] S1x4x128.size inb_S26x4x128_S1x4x128_6_0_0) (fun _ => rfl)).squeeze S4x128 squeezes_S1x4x128_S4x128).view.loc (V d c i) ↦[(((sV).slice (Rect.unit (s := S26x4x128) ![6, 0, 0] S1x4x128.size inb_S26x4x128_S1x4x128_6_0_0) (fun _ => rfl)).squeeze S4x128 squeezes_S1x4x128_S4x128).view.set]{fullShare} g6) ∗
      ((((sV).slice (Rect.unit (s := S26x4x128) ![7, 0, 0] S1x4x128.size inb_S26x4x128_S1x4x128_7_0_0) (fun _ => rfl)).squeeze S4x128 squeezes_S1x4x128_S4x128).view.loc (V d c i) ↦[(((sV).slice (Rect.unit (s := S26x4x128) ![7, 0, 0] S1x4x128.size inb_S26x4x128_S1x4x128_7_0_0) (fun _ => rfl)).squeeze S4x128 squeezes_S1x4x128_S4x128).view.set]{fullShare} g7) ∗
      ((((sV).slice (Rect.unit (s := S26x4x128) ![8, 0, 0] S1x4x128.size inb_S26x4x128_S1x4x128_8_0_0) (fun _ => rfl)).squeeze S4x128 squeezes_S1x4x128_S4x128).view.loc (V d c i) ↦[(((sV).slice (Rect.unit (s := S26x4x128) ![8, 0, 0] S1x4x128.size inb_S26x4x128_S1x4x128_8_0_0) (fun _ => rfl)).squeeze S4x128 squeezes_S1x4x128_S4x128).view.set]{fullShare} g8) ∗
      ((((sV).slice (Rect.unit (s := S26x4x128) ![9, 0, 0] S1x4x128.size inb_S26x4x128_S1x4x128_9_0_0) (fun _ => rfl)).squeeze S4x128 squeezes_S1x4x128_S4x128).view.loc (V d c i) ↦[(((sV).slice (Rect.unit (s := S26x4x128) ![9, 0, 0] S1x4x128.size inb_S26x4x128_S1x4x128_9_0_0) (fun _ => rfl)).squeeze S4x128 squeezes_S1x4x128_S4x128).view.set]{fullShare} g9) ∗
      ((((sV).slice (Rect.unit (s := S26x4x128) ![10, 0, 0] S1x4x128.size inb_S26x4x128_S1x4x128_10_0_0) (fun _ => rfl)).squeeze S4x128 squeezes_S1x4x128_S4x128).view.loc (V d c i) ↦[(((sV).slice (Rect.unit (s := S26x4x128) ![10, 0, 0] S1x4x128.size inb_S26x4x128_S1x4x128_10_0_0) (fun _ => rfl)).squeeze S4x128 squeezes_S1x4x128_S4x128).view.set]{fullShare} g10) ∗
      ((((sV).slice (Rect.unit (s := S26x4x128) ![11, 0, 0] S1x4x128.size inb_S26x4x128_S1x4x128_11_0_0) (fun _ => rfl)).squeeze S4x128 squeezes_S1x4x128_S4x128).view.loc (V d c i) ↦[(((sV).slice (Rect.unit (s := S26x4x128) ![11, 0, 0] S1x4x128.size inb_S26x4x128_S1x4x128_11_0_0) (fun _ => rfl)).squeeze S4x128 squeezes_S1x4x128_S4x128).view.set]{fullShare} g11) ∗
      ((((sV).slice (Rect.unit (s := S26x4x128) ![12, 0, 0] S1x4x128.size inb_S26x4x128_S1x4x128_12_0_0) (fun _ => rfl)).squeeze S4x128 squeezes_S1x4x128_S4x128).view.loc (V d c i) ↦[(((sV).slice (Rect.unit (s := S26x4x128) ![12, 0, 0] S1x4x128.size inb_S26x4x128_S1x4x128_12_0_0) (fun _ => rfl)).squeeze S4x128 squeezes_S1x4x128_S4x128).view.set]{fullShare} g12) ∗
      ((((sV).slice (Rect.unit (s := S26x4x128) ![13, 0, 0] S1x4x128.size inb_S26x4x128_S1x4x128_13_0_0) (fun _ => rfl)).squeeze S4x128 squeezes_S1x4x128_S4x128).view.loc (V d c i) ↦[(((sV).slice (Rect.unit (s := S26x4x128) ![13, 0, 0] S1x4x128.size inb_S26x4x128_S1x4x128_13_0_0) (fun _ => rfl)).squeeze S4x128 squeezes_S1x4x128_S4x128).view.set]{fullShare} g13) ∗
      ((((sV).slice (Rect.unit (s := S26x4x128) ![14, 0, 0] S1x4x128.size inb_S26x4x128_S1x4x128_14_0_0) (fun _ => rfl)).squeeze S4x128 squeezes_S1x4x128_S4x128).view.loc (V d c i) ↦[(((sV).slice (Rect.unit (s := S26x4x128) ![14, 0, 0] S1x4x128.size inb_S26x4x128_S1x4x128_14_0_0) (fun _ => rfl)).squeeze S4x128 squeezes_S1x4x128_S4x128).view.set]{fullShare} g14) ∗
      ((((sV).slice (Rect.unit (s := S26x4x128) ![15, 0, 0] S1x4x128.size inb_S26x4x128_S1x4x128_15_0_0) (fun _ => rfl)).squeeze S4x128 squeezes_S1x4x128_S4x128).view.loc (V d c i) ↦[(((sV).slice (Rect.unit (s := S26x4x128) ![15, 0, 0] S1x4x128.size inb_S26x4x128_S1x4x128_15_0_0) (fun _ => rfl)).squeeze S4x128 squeezes_S1x4x128_S4x128).view.set]{fullShare} g15) ∗
      ((((sV).slice (Rect.unit (s := S26x4x128) ![16, 0, 0] S1x4x128.size inb_S26x4x128_S1x4x128_16_0_0) (fun _ => rfl)).squeeze S4x128 squeezes_S1x4x128_S4x128).view.loc (V d c i) ↦[(((sV).slice (Rect.unit (s := S26x4x128) ![16, 0, 0] S1x4x128.size inb_S26x4x128_S1x4x128_16_0_0) (fun _ => rfl)).squeeze S4x128 squeezes_S1x4x128_S4x128).view.set]{fullShare} g16) ∗
      ((((sV).slice (Rect.unit (s := S26x4x128) ![17, 0, 0] S1x4x128.size inb_S26x4x128_S1x4x128_17_0_0) (fun _ => rfl)).squeeze S4x128 squeezes_S1x4x128_S4x128).view.loc (V d c i) ↦[(((sV).slice (Rect.unit (s := S26x4x128) ![17, 0, 0] S1x4x128.size inb_S26x4x128_S1x4x128_17_0_0) (fun _ => rfl)).squeeze S4x128 squeezes_S1x4x128_S4x128).view.set]{fullShare} g17) ∗
      ((((sV).slice (Rect.unit (s := S26x4x128) ![18, 0, 0] S1x4x128.size inb_S26x4x128_S1x4x128_18_0_0) (fun _ => rfl)).squeeze S4x128 squeezes_S1x4x128_S4x128).view.loc (V d c i) ↦[(((sV).slice (Rect.unit (s := S26x4x128) ![18, 0, 0] S1x4x128.size inb_S26x4x128_S1x4x128_18_0_0) (fun _ => rfl)).squeeze S4x128 squeezes_S1x4x128_S4x128).view.set]{fullShare} g18) ∗
      ((((sV).slice (Rect.unit (s := S26x4x128) ![19, 0, 0] S1x4x128.size inb_S26x4x128_S1x4x128_19_0_0) (fun _ => rfl)).squeeze S4x128 squeezes_S1x4x128_S4x128).view.loc (V d c i) ↦[(((sV).slice (Rect.unit (s := S26x4x128) ![19, 0, 0] S1x4x128.size inb_S26x4x128_S1x4x128_19_0_0) (fun _ => rfl)).squeeze S4x128 squeezes_S1x4x128_S4x128).view.set]{fullShare} g19) ∗
      ((((sV).slice (Rect.unit (s := S26x4x128) ![20, 0, 0] S1x4x128.size inb_S26x4x128_S1x4x128_20_0_0) (fun _ => rfl)).squeeze S4x128 squeezes_S1x4x128_S4x128).view.loc (V d c i) ↦[(((sV).slice (Rect.unit (s := S26x4x128) ![20, 0, 0] S1x4x128.size inb_S26x4x128_S1x4x128_20_0_0) (fun _ => rfl)).squeeze S4x128 squeezes_S1x4x128_S4x128).view.set]{fullShare} g20) ∗
      ((((sV).slice (Rect.unit (s := S26x4x128) ![21, 0, 0] S1x4x128.size inb_S26x4x128_S1x4x128_21_0_0) (fun _ => rfl)).squeeze S4x128 squeezes_S1x4x128_S4x128).view.loc (V d c i) ↦[(((sV).slice (Rect.unit (s := S26x4x128) ![21, 0, 0] S1x4x128.size inb_S26x4x128_S1x4x128_21_0_0) (fun _ => rfl)).squeeze S4x128 squeezes_S1x4x128_S4x128).view.set]{fullShare} g21) ∗
      ((((sV).slice (Rect.unit (s := S26x4x128) ![22, 0, 0] S1x4x128.size inb_S26x4x128_S1x4x128_22_0_0) (fun _ => rfl)).squeeze S4x128 squeezes_S1x4x128_S4x128).view.loc (V d c i) ↦[(((sV).slice (Rect.unit (s := S26x4x128) ![22, 0, 0] S1x4x128.size inb_S26x4x128_S1x4x128_22_0_0) (fun _ => rfl)).squeeze S4x128 squeezes_S1x4x128_S4x128).view.set]{fullShare} g22) ∗
      ((((sV).slice (Rect.unit (s := S26x4x128) ![23, 0, 0] S1x4x128.size inb_S26x4x128_S1x4x128_23_0_0) (fun _ => rfl)).squeeze S4x128 squeezes_S1x4x128_S4x128).view.loc (V d c i) ↦[(((sV).slice (Rect.unit (s := S26x4x128) ![23, 0, 0] S1x4x128.size inb_S26x4x128_S1x4x128_23_0_0) (fun _ => rfl)).squeeze S4x128 squeezes_S1x4x128_S4x128).view.set]{fullShare} g23) ∗
      ((((sV).slice (Rect.unit (s := S26x4x128) ![24, 0, 0] S1x4x128.size inb_S26x4x128_S1x4x128_24_0_0) (fun _ => rfl)).squeeze S4x128 squeezes_S1x4x128_S4x128).view.loc (V d c i) ↦[(((sV).slice (Rect.unit (s := S26x4x128) ![24, 0, 0] S1x4x128.size inb_S26x4x128_S1x4x128_24_0_0) (fun _ => rfl)).squeeze S4x128 squeezes_S1x4x128_S4x128).view.set]{fullShare} g24) ∗
      ((((sV).slice (Rect.unit (s := S26x4x128) ![25, 0, 0] S1x4x128.size inb_S26x4x128_S1x4x128_25_0_0) (fun _ => rfl)).squeeze S4x128 squeezes_S1x4x128_S4x128).view.loc (V d c i) ↦[(((sV).slice (Rect.unit (s := S26x4x128) ![25, 0, 0] S1x4x128.size inb_S26x4x128_S1x4x128_25_0_0) (fun _ => rfl)).squeeze S4x128 squeezes_S1x4x128_S4x128).view.set]{fullShare} g25))
      ⊢ (iprop(∃ f : Buf (Elt F) (sLoc d c i), (sV).view.loc (V d c i) ↦{fullShare} f) : sProp 𝕄) := by
  have key : iprop(
      ((Wn 0 inb_S26x4x128_S1x4x128_0_0_0).view.loc (V d c i) ↦[(Wn 0 inb_S26x4x128_S1x4x128_0_0_0).view.set]{fullShare} g0) ∗
      ((Wn 1 inb_S26x4x128_S1x4x128_1_0_0).view.loc (V d c i) ↦[(Wn 1 inb_S26x4x128_S1x4x128_1_0_0).view.set]{fullShare} g1) ∗
      ((Wn 2 inb_S26x4x128_S1x4x128_2_0_0).view.loc (V d c i) ↦[(Wn 2 inb_S26x4x128_S1x4x128_2_0_0).view.set]{fullShare} g2) ∗
      ((Wn 3 inb_S26x4x128_S1x4x128_3_0_0).view.loc (V d c i) ↦[(Wn 3 inb_S26x4x128_S1x4x128_3_0_0).view.set]{fullShare} g3) ∗
      ((Wn 4 inb_S26x4x128_S1x4x128_4_0_0).view.loc (V d c i) ↦[(Wn 4 inb_S26x4x128_S1x4x128_4_0_0).view.set]{fullShare} g4) ∗
      ((Wn 5 inb_S26x4x128_S1x4x128_5_0_0).view.loc (V d c i) ↦[(Wn 5 inb_S26x4x128_S1x4x128_5_0_0).view.set]{fullShare} g5) ∗
      ((Wn 6 inb_S26x4x128_S1x4x128_6_0_0).view.loc (V d c i) ↦[(Wn 6 inb_S26x4x128_S1x4x128_6_0_0).view.set]{fullShare} g6) ∗
      ((Wn 7 inb_S26x4x128_S1x4x128_7_0_0).view.loc (V d c i) ↦[(Wn 7 inb_S26x4x128_S1x4x128_7_0_0).view.set]{fullShare} g7) ∗
      ((Wn 8 inb_S26x4x128_S1x4x128_8_0_0).view.loc (V d c i) ↦[(Wn 8 inb_S26x4x128_S1x4x128_8_0_0).view.set]{fullShare} g8) ∗
      ((Wn 9 inb_S26x4x128_S1x4x128_9_0_0).view.loc (V d c i) ↦[(Wn 9 inb_S26x4x128_S1x4x128_9_0_0).view.set]{fullShare} g9) ∗
      ((Wn 10 inb_S26x4x128_S1x4x128_10_0_0).view.loc (V d c i) ↦[(Wn 10 inb_S26x4x128_S1x4x128_10_0_0).view.set]{fullShare} g10) ∗
      ((Wn 11 inb_S26x4x128_S1x4x128_11_0_0).view.loc (V d c i) ↦[(Wn 11 inb_S26x4x128_S1x4x128_11_0_0).view.set]{fullShare} g11) ∗
      ((Wn 12 inb_S26x4x128_S1x4x128_12_0_0).view.loc (V d c i) ↦[(Wn 12 inb_S26x4x128_S1x4x128_12_0_0).view.set]{fullShare} g12) ∗
      ((Wn 13 inb_S26x4x128_S1x4x128_13_0_0).view.loc (V d c i) ↦[(Wn 13 inb_S26x4x128_S1x4x128_13_0_0).view.set]{fullShare} g13) ∗
      ((Wn 14 inb_S26x4x128_S1x4x128_14_0_0).view.loc (V d c i) ↦[(Wn 14 inb_S26x4x128_S1x4x128_14_0_0).view.set]{fullShare} g14) ∗
      ((Wn 15 inb_S26x4x128_S1x4x128_15_0_0).view.loc (V d c i) ↦[(Wn 15 inb_S26x4x128_S1x4x128_15_0_0).view.set]{fullShare} g15) ∗
      ((Wn 16 inb_S26x4x128_S1x4x128_16_0_0).view.loc (V d c i) ↦[(Wn 16 inb_S26x4x128_S1x4x128_16_0_0).view.set]{fullShare} g16) ∗
      ((Wn 17 inb_S26x4x128_S1x4x128_17_0_0).view.loc (V d c i) ↦[(Wn 17 inb_S26x4x128_S1x4x128_17_0_0).view.set]{fullShare} g17) ∗
      ((Wn 18 inb_S26x4x128_S1x4x128_18_0_0).view.loc (V d c i) ↦[(Wn 18 inb_S26x4x128_S1x4x128_18_0_0).view.set]{fullShare} g18) ∗
      ((Wn 19 inb_S26x4x128_S1x4x128_19_0_0).view.loc (V d c i) ↦[(Wn 19 inb_S26x4x128_S1x4x128_19_0_0).view.set]{fullShare} g19) ∗
      ((Wn 20 inb_S26x4x128_S1x4x128_20_0_0).view.loc (V d c i) ↦[(Wn 20 inb_S26x4x128_S1x4x128_20_0_0).view.set]{fullShare} g20) ∗
      ((Wn 21 inb_S26x4x128_S1x4x128_21_0_0).view.loc (V d c i) ↦[(Wn 21 inb_S26x4x128_S1x4x128_21_0_0).view.set]{fullShare} g21) ∗
      ((Wn 22 inb_S26x4x128_S1x4x128_22_0_0).view.loc (V d c i) ↦[(Wn 22 inb_S26x4x128_S1x4x128_22_0_0).view.set]{fullShare} g22) ∗
      ((Wn 23 inb_S26x4x128_S1x4x128_23_0_0).view.loc (V d c i) ↦[(Wn 23 inb_S26x4x128_S1x4x128_23_0_0).view.set]{fullShare} g23) ∗
      ((Wn 24 inb_S26x4x128_S1x4x128_24_0_0).view.loc (V d c i) ↦[(Wn 24 inb_S26x4x128_S1x4x128_24_0_0).view.set]{fullShare} g24) ∗
      ((Wn 25 inb_S26x4x128_S1x4x128_25_0_0).view.loc (V d c i) ↦[(Wn 25 inb_S26x4x128_S1x4x128_25_0_0).view.set]{fullShare} g25))
      ⊢ (iprop(∃ f : Buf (Elt F) (sLoc d c i), sLoc d c i ↦[tailSet 0]{fullShare} f) : sProp 𝕄) := by
    refine join_any_step d c i 0 inb_S26x4x128_S1x4x128_0_0_0 g0 _ ?_
    refine join_any_step d c i 1 inb_S26x4x128_S1x4x128_1_0_0 g1 _ ?_
    refine join_any_step d c i 2 inb_S26x4x128_S1x4x128_2_0_0 g2 _ ?_
    refine join_any_step d c i 3 inb_S26x4x128_S1x4x128_3_0_0 g3 _ ?_
    refine join_any_step d c i 4 inb_S26x4x128_S1x4x128_4_0_0 g4 _ ?_
    refine join_any_step d c i 5 inb_S26x4x128_S1x4x128_5_0_0 g5 _ ?_
    refine join_any_step d c i 6 inb_S26x4x128_S1x4x128_6_0_0 g6 _ ?_
    refine join_any_step d c i 7 inb_S26x4x128_S1x4x128_7_0_0 g7 _ ?_
    refine join_any_step d c i 8 inb_S26x4x128_S1x4x128_8_0_0 g8 _ ?_
    refine join_any_step d c i 9 inb_S26x4x128_S1x4x128_9_0_0 g9 _ ?_
    refine join_any_step d c i 10 inb_S26x4x128_S1x4x128_10_0_0 g10 _ ?_
    refine join_any_step d c i 11 inb_S26x4x128_S1x4x128_11_0_0 g11 _ ?_
    refine join_any_step d c i 12 inb_S26x4x128_S1x4x128_12_0_0 g12 _ ?_
    refine join_any_step d c i 13 inb_S26x4x128_S1x4x128_13_0_0 g13 _ ?_
    refine join_any_step d c i 14 inb_S26x4x128_S1x4x128_14_0_0 g14 _ ?_
    refine join_any_step d c i 15 inb_S26x4x128_S1x4x128_15_0_0 g15 _ ?_
    refine join_any_step d c i 16 inb_S26x4x128_S1x4x128_16_0_0 g16 _ ?_
    refine join_any_step d c i 17 inb_S26x4x128_S1x4x128_17_0_0 g17 _ ?_
    refine join_any_step d c i 18 inb_S26x4x128_S1x4x128_18_0_0 g18 _ ?_
    refine join_any_step d c i 19 inb_S26x4x128_S1x4x128_19_0_0 g19 _ ?_
    refine join_any_step d c i 20 inb_S26x4x128_S1x4x128_20_0_0 g20 _ ?_
    refine join_any_step d c i 21 inb_S26x4x128_S1x4x128_21_0_0 g21 _ ?_
    refine join_any_step d c i 22 inb_S26x4x128_S1x4x128_22_0_0 g22 _ ?_
    refine join_any_step d c i 23 inb_S26x4x128_S1x4x128_23_0_0 g23 _ ?_
    refine join_any_step d c i 24 inb_S26x4x128_S1x4x128_24_0_0 g24 _ ?_
    exact join_any_last d c i inb_S26x4x128_S1x4x128_25_0_0 g25
  rw [tailSet_zero] at key
  exact key

/-! ## The row scratch: 7 slots of 128 by 128 -/

local notation "rV" => (Memref.whole Cert.KernelIdeal.cc0_scratch1 : Memref Cert.KernelIdeal.sig Kind.scVector Space.vmem Cert.KernelIdeal.S7x128x128 EltTy.f32)

/-- Window `t` of the row scratch, as the program addresses it: the block at `(t, 0, 0)`, one thick, its unit axis dropped. -/
abbrev Rn (t : Nat) (h : ∀ a, (![t, 0, 0] : Fin 3 → Nat) a + S1x128x128.size a ≤ S7x128x128.size a) :
    Memref sig .scVector .vmem S128x128 .f32 :=
  ((rV).slice (Rect.unit (s := S7x128x128) ![t, 0, 0] S1x128x128.size h) (fun _ => rfl)).squeeze S128x128 squeezes_S1x128x128_S128x128

/-- The elements of the row scratch at first coordinate `t`. -/
def rwinSet (t : Nat) : Finset S7x128x128.Idx := Finset.univ.filter fun j => (j 0).val = t
/-- The elements of the row scratch at first coordinate `k` or more. -/
def rtailSet (k : Nat) : Finset S7x128x128.Idx := Finset.univ.filter fun j => k ≤ (j 0).val

theorem mem_rwinSet {t : Nat} {j : S7x128x128.Idx} : j ∈ rwinSet t ↔ (j 0).val = t := by simp [rwinSet]
theorem mem_rtailSet {k : Nat} {j : S7x128x128.Idx} : j ∈ rtailSet k ↔ k ≤ (j 0).val := by simp [rtailSet]

/-- Window `t` covers exactly the elements at first coordinate `t`. -/
theorem set_Rn (t : Nat) (h : ∀ a, (![t, 0, 0] : Fin 3 → Nat) a + S1x128x128.size a ≤ S7x128x128.size a) :
    (Rn t h).view.set = rwinSet t := by
  show (((rV).view.slice (Rect.unit (s := S7x128x128) ![t, 0, 0] S1x128x128.size h)).reshape S128x128 squeezes_S1x128x128_S128x128.numel_eq).set = _
  rw [View.set_reshape]
  show ((View.whole (cc0_scratch1 : Ref sig .scVector)).slice (Rect.unit (s := S7x128x128) ![t, 0, 0] S1x128x128.size h)).set = _
  rw [View.set_slice_whole]
  ext j
  rw [mem_rwinSet]
  refine (Rect.mem_set_unit (s := S7x128x128)).trans ⟨fun H => ?_, fun H a => ?_⟩
  · have h0 := H 0
    simp at h0
    omega
  · match a with
    | ⟨0, _⟩ => simp; omega
    | ⟨1, _⟩ => simp; exact (j 1).isLt
    | ⟨2, _⟩ => simp; exact (j 2).isLt

/-- The row scratch of the tile `(c, i)` of device `d`. -/
abbrev rLoc : Loc nD τ sig := (rV).view.loc (V d c i)

theorem rtailSet_last : rtailSet 6 = rwinSet 6 := by
  ext j; rw [mem_rtailSet, mem_rwinSet]
  have hj : (j 0).val < 7 := (j 0).isLt
  omega
theorem rtailSet_succ (k : Nat) : rtailSet k = rwinSet k ∪ rtailSet (k + 1) := by
  ext j; rw [Finset.mem_union, mem_rtailSet, mem_rwinSet, mem_rtailSet]; omega
theorem rwin_tail_disjoint (k : Nat) : Disjoint (rwinSet k) (rtailSet (k + 1)) := by
  rw [Finset.disjoint_left]; intro j h1 h2; rw [mem_rwinSet] at h1; rw [mem_rtailSet] at h2; omega
theorem rtailSet_zero : rtailSet 0 = Finset.univ := by
  ext j; simp [mem_rtailSet]

/-- A window held on its own elements is the row scratch held on the elements at the window's first coordinate. -/
theorem rpts_Wn (t : Nat) (h : ∀ a, (![t, 0, 0] : Fin 3 → Nat) a + S1x128x128.size a ≤ S7x128x128.size a)
    (g : Buf (Elt F) (rLoc d c i)) :
    ((Rn t h).view.loc (V d c i) ↦[(Rn t h).view.set]{fullShare} g : sProp 𝕄) = (rLoc d c i ↦[rwinSet t]{fullShare} g) := by
  rw [set_Rn]

/-- The whole row scratch is its elements from first coordinate 0 on. -/
theorem rpts_univ (f : Buf (Elt F) (rLoc d c i)) :
    ((rV).view.loc (V d c i) ↦{fullShare} f : sProp 𝕄) = (rLoc d c i ↦[rtailSet 0]{fullShare} f) := by
  rw [rtailSet_zero]

/-- One window off the front. -/
theorem rsplit_step (k : Nat) (h : ∀ a, (![k, 0, 0] : Fin 3 → Nat) a + S1x128x128.size a ≤ S7x128x128.size a)
    (f : Buf (Elt F) (rLoc d c i)) (R : sProp 𝕄)
    (hR : (rLoc d c i ↦[rtailSet (k + 1)]{fullShare} f : sProp 𝕄) ⊢ R) :
    (rLoc d c i ↦[rtailSet k]{fullShare} f : sProp 𝕄)
      ⊢ iprop(((Rn k h).view.loc (V d c i) ↦[(Rn k h).view.set]{fullShare} f) ∗ R) := by
  rw [rpts_Wn, rtailSet_succ k]
  iintro H
  ihave H' := (pointsTo_union (ℓ := rLoc d c i) (q := fullShare) (f := f) (rwin_tail_disjoint k)).1 $$ H
  icases H' with ⟨H1, H2⟩
  isplitl [H1]; · iexact H1
  iapply hR; iexact H2

theorem rsplit_last (h : ∀ a, (![6, 0, 0] : Fin 3 → Nat) a + S1x128x128.size a ≤ S7x128x128.size a)
    (f : Buf (Elt F) (rLoc d c i)) :
    (rLoc d c i ↦[rtailSet 6]{fullShare} f : sProp 𝕄)
      ⊢ ((Rn 6 h).view.loc (V d c i) ↦[(Rn 6 h).view.set]{fullShare} f) := by
  rw [rpts_Wn, rtailSet_last]

set_option maxHeartbeats 4000000 in
/-- The row scratch held whole is its 7 windows held apart, at the same contents. -/
theorem rows_split (f : Buf (Elt F) (rLoc d c i)) :
    ((rV).view.loc (V d c i) ↦{fullShare} f : sProp 𝕄) ⊢ iprop(
      ((((rV).slice (Rect.unit (s := S7x128x128) ![0, 0, 0] S1x128x128.size inb_S7x128x128_S1x128x128_0_0_0) (fun _ => rfl)).squeeze S128x128 squeezes_S1x128x128_S128x128).view.loc (V d c i) ↦[(((rV).slice (Rect.unit (s := S7x128x128) ![0, 0, 0] S1x128x128.size inb_S7x128x128_S1x128x128_0_0_0) (fun _ => rfl)).squeeze S128x128 squeezes_S1x128x128_S128x128).view.set]{fullShare} f) ∗
      ((((rV).slice (Rect.unit (s := S7x128x128) ![1, 0, 0] S1x128x128.size inb_S7x128x128_S1x128x128_1_0_0) (fun _ => rfl)).squeeze S128x128 squeezes_S1x128x128_S128x128).view.loc (V d c i) ↦[(((rV).slice (Rect.unit (s := S7x128x128) ![1, 0, 0] S1x128x128.size inb_S7x128x128_S1x128x128_1_0_0) (fun _ => rfl)).squeeze S128x128 squeezes_S1x128x128_S128x128).view.set]{fullShare} f) ∗
      ((((rV).slice (Rect.unit (s := S7x128x128) ![2, 0, 0] S1x128x128.size inb_S7x128x128_S1x128x128_2_0_0) (fun _ => rfl)).squeeze S128x128 squeezes_S1x128x128_S128x128).view.loc (V d c i) ↦[(((rV).slice (Rect.unit (s := S7x128x128) ![2, 0, 0] S1x128x128.size inb_S7x128x128_S1x128x128_2_0_0) (fun _ => rfl)).squeeze S128x128 squeezes_S1x128x128_S128x128).view.set]{fullShare} f) ∗
      ((((rV).slice (Rect.unit (s := S7x128x128) ![3, 0, 0] S1x128x128.size inb_S7x128x128_S1x128x128_3_0_0) (fun _ => rfl)).squeeze S128x128 squeezes_S1x128x128_S128x128).view.loc (V d c i) ↦[(((rV).slice (Rect.unit (s := S7x128x128) ![3, 0, 0] S1x128x128.size inb_S7x128x128_S1x128x128_3_0_0) (fun _ => rfl)).squeeze S128x128 squeezes_S1x128x128_S128x128).view.set]{fullShare} f) ∗
      ((((rV).slice (Rect.unit (s := S7x128x128) ![4, 0, 0] S1x128x128.size inb_S7x128x128_S1x128x128_4_0_0) (fun _ => rfl)).squeeze S128x128 squeezes_S1x128x128_S128x128).view.loc (V d c i) ↦[(((rV).slice (Rect.unit (s := S7x128x128) ![4, 0, 0] S1x128x128.size inb_S7x128x128_S1x128x128_4_0_0) (fun _ => rfl)).squeeze S128x128 squeezes_S1x128x128_S128x128).view.set]{fullShare} f) ∗
      ((((rV).slice (Rect.unit (s := S7x128x128) ![5, 0, 0] S1x128x128.size inb_S7x128x128_S1x128x128_5_0_0) (fun _ => rfl)).squeeze S128x128 squeezes_S1x128x128_S128x128).view.loc (V d c i) ↦[(((rV).slice (Rect.unit (s := S7x128x128) ![5, 0, 0] S1x128x128.size inb_S7x128x128_S1x128x128_5_0_0) (fun _ => rfl)).squeeze S128x128 squeezes_S1x128x128_S128x128).view.set]{fullShare} f) ∗
      ((((rV).slice (Rect.unit (s := S7x128x128) ![6, 0, 0] S1x128x128.size inb_S7x128x128_S1x128x128_6_0_0) (fun _ => rfl)).squeeze S128x128 squeezes_S1x128x128_S128x128).view.loc (V d c i) ↦[(((rV).slice (Rect.unit (s := S7x128x128) ![6, 0, 0] S1x128x128.size inb_S7x128x128_S1x128x128_6_0_0) (fun _ => rfl)).squeeze S128x128 squeezes_S1x128x128_S128x128).view.set]{fullShare} f)) := by
  rw [rpts_univ]
  refine rsplit_step d c i 0 inb_S7x128x128_S1x128x128_0_0_0 f _ ?_
  refine rsplit_step d c i 1 inb_S7x128x128_S1x128x128_1_0_0 f _ ?_
  refine rsplit_step d c i 2 inb_S7x128x128_S1x128x128_2_0_0 f _ ?_
  refine rsplit_step d c i 3 inb_S7x128x128_S1x128x128_3_0_0 f _ ?_
  refine rsplit_step d c i 4 inb_S7x128x128_S1x128x128_4_0_0 f _ ?_
  refine rsplit_step d c i 5 inb_S7x128x128_S1x128x128_5_0_0 f _ ?_
  exact rsplit_last d c i inb_S7x128x128_S1x128x128_6_0_0 f

/-- One window back on the front, whatever it and the rest hold. -/
theorem rjoin_any_step (k : Nat) (h : ∀ a, (![k, 0, 0] : Fin 3 → Nat) a + S1x128x128.size a ≤ S7x128x128.size a)
    (g : Buf (Elt F) (rLoc d c i)) (R : sProp 𝕄)
    (hR : R ⊢ (iprop(∃ f : Buf (Elt F) (rLoc d c i), rLoc d c i ↦[rtailSet (k + 1)]{fullShare} f) : sProp 𝕄)) :
    iprop(((Rn k h).view.loc (V d c i) ↦[(Rn k h).view.set]{fullShare} g) ∗ R)
      ⊢ (iprop(∃ f : Buf (Elt F) (rLoc d c i), rLoc d c i ↦[rtailSet k]{fullShare} f) : sProp 𝕄) := by
  rw [rpts_Wn, rtailSet_succ k]
  iintro ⟨H1, H2⟩
  ihave H2' := hR $$ H2
  icases H2' with ⟨%f', H2'⟩
  ihave H := (pointsTo_join (ℓ := rLoc d c i) (q := fullShare) (f := g) (g := f') (rwin_tail_disjoint k)) $$ [H1 H2']
  · isplitl [H1]; · iexact H1
    iexact H2'
  iexists _; iexact H

theorem rjoin_any_last (h : ∀ a, (![6, 0, 0] : Fin 3 → Nat) a + S1x128x128.size a ≤ S7x128x128.size a)
    (g : Buf (Elt F) (rLoc d c i)) :
    ((Rn 6 h).view.loc (V d c i) ↦[(Rn 6 h).view.set]{fullShare} g)
      ⊢ (iprop(∃ f : Buf (Elt F) (rLoc d c i), rLoc d c i ↦[rtailSet 6]{fullShare} f) : sProp 𝕄) := by
  rw [rpts_Wn, rtailSet_last]
  iintro H; iexists _; iexact H

set_option maxHeartbeats 4000000 in
/-- The 7 windows held apart, at whatever contents, are the row scratch held whole at some contents. -/
theorem rows_join (g0 : Buf (Elt F) (rLoc d c i)) (g1 : Buf (Elt F) (rLoc d c i)) (g2 : Buf (Elt F) (rLoc d c i)) (g3 : Buf (Elt F) (rLoc d c i)) (g4 : Buf (Elt F) (rLoc d c i)) (g5 : Buf (Elt F) (rLoc d c i)) (g6 : Buf (Elt F) (rLoc d c i)) :
    iprop(
      ((((rV).slice (Rect.unit (s := S7x128x128) ![0, 0, 0] S1x128x128.size inb_S7x128x128_S1x128x128_0_0_0) (fun _ => rfl)).squeeze S128x128 squeezes_S1x128x128_S128x128).view.loc (V d c i) ↦[(((rV).slice (Rect.unit (s := S7x128x128) ![0, 0, 0] S1x128x128.size inb_S7x128x128_S1x128x128_0_0_0) (fun _ => rfl)).squeeze S128x128 squeezes_S1x128x128_S128x128).view.set]{fullShare} g0) ∗
      ((((rV).slice (Rect.unit (s := S7x128x128) ![1, 0, 0] S1x128x128.size inb_S7x128x128_S1x128x128_1_0_0) (fun _ => rfl)).squeeze S128x128 squeezes_S1x128x128_S128x128).view.loc (V d c i) ↦[(((rV).slice (Rect.unit (s := S7x128x128) ![1, 0, 0] S1x128x128.size inb_S7x128x128_S1x128x128_1_0_0) (fun _ => rfl)).squeeze S128x128 squeezes_S1x128x128_S128x128).view.set]{fullShare} g1) ∗
      ((((rV).slice (Rect.unit (s := S7x128x128) ![2, 0, 0] S1x128x128.size inb_S7x128x128_S1x128x128_2_0_0) (fun _ => rfl)).squeeze S128x128 squeezes_S1x128x128_S128x128).view.loc (V d c i) ↦[(((rV).slice (Rect.unit (s := S7x128x128) ![2, 0, 0] S1x128x128.size inb_S7x128x128_S1x128x128_2_0_0) (fun _ => rfl)).squeeze S128x128 squeezes_S1x128x128_S128x128).view.set]{fullShare} g2) ∗
      ((((rV).slice (Rect.unit (s := S7x128x128) ![3, 0, 0] S1x128x128.size inb_S7x128x128_S1x128x128_3_0_0) (fun _ => rfl)).squeeze S128x128 squeezes_S1x128x128_S128x128).view.loc (V d c i) ↦[(((rV).slice (Rect.unit (s := S7x128x128) ![3, 0, 0] S1x128x128.size inb_S7x128x128_S1x128x128_3_0_0) (fun _ => rfl)).squeeze S128x128 squeezes_S1x128x128_S128x128).view.set]{fullShare} g3) ∗
      ((((rV).slice (Rect.unit (s := S7x128x128) ![4, 0, 0] S1x128x128.size inb_S7x128x128_S1x128x128_4_0_0) (fun _ => rfl)).squeeze S128x128 squeezes_S1x128x128_S128x128).view.loc (V d c i) ↦[(((rV).slice (Rect.unit (s := S7x128x128) ![4, 0, 0] S1x128x128.size inb_S7x128x128_S1x128x128_4_0_0) (fun _ => rfl)).squeeze S128x128 squeezes_S1x128x128_S128x128).view.set]{fullShare} g4) ∗
      ((((rV).slice (Rect.unit (s := S7x128x128) ![5, 0, 0] S1x128x128.size inb_S7x128x128_S1x128x128_5_0_0) (fun _ => rfl)).squeeze S128x128 squeezes_S1x128x128_S128x128).view.loc (V d c i) ↦[(((rV).slice (Rect.unit (s := S7x128x128) ![5, 0, 0] S1x128x128.size inb_S7x128x128_S1x128x128_5_0_0) (fun _ => rfl)).squeeze S128x128 squeezes_S1x128x128_S128x128).view.set]{fullShare} g5) ∗
      ((((rV).slice (Rect.unit (s := S7x128x128) ![6, 0, 0] S1x128x128.size inb_S7x128x128_S1x128x128_6_0_0) (fun _ => rfl)).squeeze S128x128 squeezes_S1x128x128_S128x128).view.loc (V d c i) ↦[(((rV).slice (Rect.unit (s := S7x128x128) ![6, 0, 0] S1x128x128.size inb_S7x128x128_S1x128x128_6_0_0) (fun _ => rfl)).squeeze S128x128 squeezes_S1x128x128_S128x128).view.set]{fullShare} g6))
      ⊢ (iprop(∃ f : Buf (Elt F) (rLoc d c i), (rV).view.loc (V d c i) ↦{fullShare} f) : sProp 𝕄) := by
  have key : iprop(
      ((Rn 0 inb_S7x128x128_S1x128x128_0_0_0).view.loc (V d c i) ↦[(Rn 0 inb_S7x128x128_S1x128x128_0_0_0).view.set]{fullShare} g0) ∗
      ((Rn 1 inb_S7x128x128_S1x128x128_1_0_0).view.loc (V d c i) ↦[(Rn 1 inb_S7x128x128_S1x128x128_1_0_0).view.set]{fullShare} g1) ∗
      ((Rn 2 inb_S7x128x128_S1x128x128_2_0_0).view.loc (V d c i) ↦[(Rn 2 inb_S7x128x128_S1x128x128_2_0_0).view.set]{fullShare} g2) ∗
      ((Rn 3 inb_S7x128x128_S1x128x128_3_0_0).view.loc (V d c i) ↦[(Rn 3 inb_S7x128x128_S1x128x128_3_0_0).view.set]{fullShare} g3) ∗
      ((Rn 4 inb_S7x128x128_S1x128x128_4_0_0).view.loc (V d c i) ↦[(Rn 4 inb_S7x128x128_S1x128x128_4_0_0).view.set]{fullShare} g4) ∗
      ((Rn 5 inb_S7x128x128_S1x128x128_5_0_0).view.loc (V d c i) ↦[(Rn 5 inb_S7x128x128_S1x128x128_5_0_0).view.set]{fullShare} g5) ∗
      ((Rn 6 inb_S7x128x128_S1x128x128_6_0_0).view.loc (V d c i) ↦[(Rn 6 inb_S7x128x128_S1x128x128_6_0_0).view.set]{fullShare} g6))
      ⊢ (iprop(∃ f : Buf (Elt F) (rLoc d c i), rLoc d c i ↦[rtailSet 0]{fullShare} f) : sProp 𝕄) := by
    refine rjoin_any_step d c i 0 inb_S7x128x128_S1x128x128_0_0_0 g0 _ ?_
    refine rjoin_any_step d c i 1 inb_S7x128x128_S1x128x128_1_0_0 g1 _ ?_
    refine rjoin_any_step d c i 2 inb_S7x128x128_S1x128x128_2_0_0 g2 _ ?_
    refine rjoin_any_step d c i 3 inb_S7x128x128_S1x128x128_3_0_0 g3 _ ?_
    refine rjoin_any_step d c i 4 inb_S7x128x128_S1x128x128_4_0_0 g4 _ ?_
    refine rjoin_any_step d c i 5 inb_S7x128x128_S1x128x128_5_0_0 g5 _ ?_
    exact rjoin_any_last d c i inb_S7x128x128_S1x128x128_6_0_0 g6
  rw [rtailSet_zero] at key
  exact key

end Cert.Proof.KI.Idx
-- ==== Proof.ValueKI.lean ====
import proofs.«204019_g4913442586959_cont_sun_m_672_34_alg».proof.Proof.IdxScratchKI
import proofs.«204019_g4913442586959_cont_sun_m_672_34_alg».proof.Proof.Spec
import proofs.«204019_g4913442586959_cont_sun_m_672_34_alg».proof.Proof.SetupKI0
import Idealize.ShloMosaic.Lib.SparseCore.Stream

/-!
  The value of one item of a tile. Tile `L` handles 512 rows of the result, in 4 sub-chunks of 128. For table `t`
  and sub-chunk `r`, the 128 words of list `(t, r)` of the index scratch name rows of table `t`; the gather puts,
  at `(p, e)` of a 128 by 128 slot, entry `e` of the row of table `t` that word `p` of the list names; the slot
  goes to the block of the result at rows `1024·L₁ + 512·L₀ + 128·r ..` and columns `128·t ..`. The words of the
  list are entries `128·(8·L₁ + 4·L₀ + r) + p` of column `t`, so the slot holds the specified values.
-/

noncomputable section

namespace Cert.Proof.KI.Val

open Cert.KernelIdeal Cert.KernelIdeal.Gen

open Idealize.ShloMosaic
open Idealize.ShloMosaic.ValueIdx
open Cert.Proof.KI Cert.Proof.KI.Idx

variable {F : FTy → Type}

local notation "sV" => (Memref.whole Cert.KernelIdeal.cc0_scratch0 : Memref Cert.KernelIdeal.sig Kind.scVector Space.vmem Cert.KernelIdeal.S26x4x128 EltTy.i32)

/-! ## The gather's payload at an index -/

/-- Row `k` of an offset list of 128 words is word `k` of the list. -/
theorem rows_apply (idx : S128.Idx → Elt F .i32) {z : ℕ} (hn : S128.numel = 128) (hin : ∀ x, (idx x).toNat < z) (k : Fin 128) :
    SparseCore.rows idx hn hin k = ⟨(idx (ix1 k)).toNat, hin _⟩ := by
  apply Fin.ext
  show (idx (S128.rowMajor.symm (k.cast hn.symm))).toNat = (idx (ix1 k)).toNat
  have e : S128.rowMajor.symm (k.cast hn.symm) = ix1 k := by
    rw [Equiv.symm_apply_eq]; apply Fin.ext; rw [Shape.rowMajor_val_one]; rfl
  rw [e]

/-- The gathered slot at `(p, e)`: entry `e` of the row of the source that word `p` of the list names. -/
theorem gp_apply (g : S1000x128.Idx → Elt F .f32) (idx : S128.Idx → Elt F .i32)
    (hn : S128.numel = S128x128.size (gathers_S1000x128_S128x128).axis')
    (hin : ∀ x, (idx x).toNat < S1000x128.size (gathers_S1000x128_S128x128).axis) (p e : Fin 128) :
    SparseCore.gatherPayload (s₀ := S1000x128) (s := S128x128) gathers_S1000x128_S128x128 g (SparseCore.rows idx hn hin) (ix2 p e)
      = g (ix2 (⟨(idx (ix1 p)).toNat, hin _⟩ : Fin 1000) e) := by
  unfold SparseCore.gatherPayload
  refine congrArg g (funext fun b => Fin.ext ?_)
  match b with
  | ⟨0, hb⟩ =>
    have h0 := Shape.Gathers.idx_axis gathers_S1000x128_S128x128 (SparseCore.rows idx hn hin) (ix2 p e)
    show (Shape.Gathers.idx gathers_S1000x128_S128x128 (SparseCore.rows idx hn hin) (ix2 p e) (gathers_S1000x128_S128x128).axis).val = _
    rw [h0]
    show (SparseCore.rows idx hn hin p).val = _
    exact congrArg Fin.val (rows_apply idx hn hin p)
  | ⟨1, hb⟩ =>
    rw [Shape.Gathers.idx_of_ne gathers_S1000x128_S128x128 _ _ _ (Nat.succ_ne_zero 0)]; rfl

/-! ## A list of the index scratch read at a word -/

/-- An index `x` of `[a]` matched with shape `[1, 1, a]` is `(0, 0, x)`. -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- Word `p` of list `(a, b)` of the scratch is the scratch's entry `(a, b, p)`. -/
theorem list_read (f : S26x4x128.Idx → Elt F .i32) (a b : Nat)
    (h1 : ∀ x, (![a, b, 0] : Fin 3 → Nat) x + S1x1x128.size x ≤ S26x4x128.size x)
    (h2 : (Rect.unit (s := S26x4x128) ![a, b, 0] S1x1x128.size h1).shape.Squeezes S128) (p : Fin 128) :
    (((sV).slice (Rect.unit (s := S26x4x128) ![a, b, 0] S1x1x128.size h1) (fun _ => rfl)).squeeze S128 h2).view.read (Elt F) f (ix1 p)
      = f (ix3 (⟨a, h1 0⟩ : Fin 26) (⟨b, h1 1⟩ : Fin 4) p) := by
  show f ((((sV).slice (Rect.unit (s := S26x4x128) ![a, b, 0] S1x1x128.size h1) (fun _ => rfl)).squeeze S128 h2).view.emb (ix1 p)) = _
  refine congrArg f (funext fun q => Fin.ext ?_)
  show ((Rect.unit (s := S26x4x128) ![a, b, 0] S1x1x128.size h1).emb (Shape.reshapeEquiv h2.numel_eq (ix1 p)) q : Nat) = _
  rw [reshapeEquiv_ix1_11a]
  match q with
  | ⟨0, _⟩ => show a + 1 * 0 = a; omega
  | ⟨1, _⟩ => show b + 1 * 0 = b; omega
  | ⟨2, _⟩ => show 0 + 1 * p.val = p.val; omega

/-! ## The rows of a reshaped column a tile reads -/

/-- Row `r` of the four rows of a reshaped column that tile `L` reads. -/
def colRow (L : grid0.Coords) (r : Fin 4) : Fin 128 :=
  ⟨8 * (L 1).val + 4 * (L 0).val + r.val, by
    have h0 : (L 0).val < 2 := (L 0).isLt
    have h1 : (L 1).val < 16 := (L 1).isLt
    have := r.isLt; omega⟩

theorem colRect_emb (L : grid0.Coords) (r : Fin 4) (p : Fin 128) : (colRectL L).emb (ix2 r p) = ix2 (colRow L r) p := by
  funext q; apply Fin.ext
  show (k0_off1 L) q + 1 * ((ix2 r p) q : Nat) = _
  rw [k0_off1_eq]
  match q with
  | ⟨0, _⟩ => show 8 * (L 1).val + 4 * (L 0).val + 1 * r.val = 8 * (L 1).val + 4 * (L 0).val + r.val; omega
  | ⟨1, _⟩ => show 0 + 1 * p.val = p.val; omega

/-- Reading the tile's window of a 128 by 128 view at `(r, p)` is reading the view at `(8·L₁ + 4·L₀ + r, p)`. -/
theorem col_read_view {sp : Space} (v : View sig .scVector sp S128x128 .i32) (L : grid0.Coords)
    (fc : v.ty.Contents (Elt F)) (r : Fin 4) (p : Fin 128) :
    (v.slice (colRectL L)).read (Elt F) fc (ix2 r p) = v.read (Elt F) fc (ix2 (colRow L r) p) := by
  rw [View.read_apply, View.read_apply]
  show _root_.cast _ (fc (v.emb ((colRectL L).emb (ix2 r p)))) = _
  rw [colRect_emb]

theorem col_read_0 (L : grid0.Coords) (fc : S128x128.Idx → Elt F .i32) (r : Fin 4) (p : Fin 128) :
    View.read (Elt F) ((Memref.whole main_v0_scv : Memref sig .scVector .hbm S128x128 .i32).slice (colRectL L) (fun _ => rfl)).view fc (ix2 r p)
      = fc (ix2 (colRow L r) p) := col_read_view (View.whole main_v0_scv) L fc r p
theorem col_read_1 (L : grid0.Coords) (fc : S128x128.Idx → Elt F .i32) (r : Fin 4) (p : Fin 128) :
    View.read (Elt F) ((Memref.whole main_v1_scv : Memref sig .scVector .hbm S128x128 .i32).slice (colRectL L) (fun _ => rfl)).view fc (ix2 r p)
      = fc (ix2 (colRow L r) p) := col_read_view (View.whole main_v1_scv) L fc r p
theorem col_read_2 (L : grid0.Coords) (fc : S128x128.Idx → Elt F .i32) (r : Fin 4) (p : Fin 128) :
    View.read (Elt F) ((Memref.whole main_v2_scv : Memref sig .scVector .hbm S128x128 .i32).slice (colRectL L) (fun _ => rfl)).view fc (ix2 r p)
      = fc (ix2 (colRow L r) p) := col_read_view (View.whole main_v2_scv) L fc r p
theorem col_read_3 (L : grid0.Coords) (fc : S128x128.Idx → Elt F .i32) (r : Fin 4) (p : Fin 128) :
    View.read (Elt F) ((Memref.whole main_v3_scv : Memref sig .scVector .hbm S128x128 .i32).slice (colRectL L) (fun _ => rfl)).view fc (ix2 r p)
      = fc (ix2 (colRow L r) p) := col_read_view (View.whole main_v3_scv) L fc r p
theorem col_read_4 (L : grid0.Coords) (fc : S128x128.Idx → Elt F .i32) (r : Fin 4) (p : Fin 128) :
    View.read (Elt F) ((Memref.whole main_v4_scv : Memref sig .scVector .hbm S128x128 .i32).slice (colRectL L) (fun _ => rfl)).view fc (ix2 r p)
      = fc (ix2 (colRow L r) p) := col_read_view (View.whole main_v4_scv) L fc r p
theorem col_read_5 (L : grid0.Coords) (fc : S128x128.Idx → Elt F .i32) (r : Fin 4) (p : Fin 128) :
    View.read (Elt F) ((Memref.whole main_v5_scv : Memref sig .scVector .hbm S128x128 .i32).slice (colRectL L) (fun _ => rfl)).view fc (ix2 r p)
      = fc (ix2 (colRow L r) p) := col_read_view (View.whole main_v5_scv) L fc r p
theorem col_read_6 (L : grid0.Coords) (fc : S128x128.Idx → Elt F .i32) (r : Fin 4) (p : Fin 128) :
    View.read (Elt F) ((Memref.whole main_v6_scv : Memref sig .scVector .hbm S128x128 .i32).slice (colRectL L) (fun _ => rfl)).view fc (ix2 r p)
      = fc (ix2 (colRow L r) p) := col_read_view (View.whole main_v6_scv) L fc r p
theorem col_read_7 (L : grid0.Coords) (fc : S128x128.Idx → Elt F .i32) (r : Fin 4) (p : Fin 128) :
    View.read (Elt F) ((Memref.whole main_v7_scv : Memref sig .scVector .hbm S128x128 .i32).slice (colRectL L) (fun _ => rfl)).view fc (ix2 r p)
      = fc (ix2 (colRow L r) p) := col_read_view (View.whole main_v7_scv) L fc r p
theorem col_read_8 (L : grid0.Coords) (fc : S128x128.Idx → Elt F .i32) (r : Fin 4) (p : Fin 128) :
    View.read (Elt F) ((Memref.whole main_v8_scv : Memref sig .scVector .hbm S128x128 .i32).slice (colRectL L) (fun _ => rfl)).view fc (ix2 r p)
      = fc (ix2 (colRow L r) p) := col_read_view (View.whole main_v8_scv) L fc r p
theorem col_read_9 (L : grid0.Coords) (fc : S128x128.Idx → Elt F .i32) (r : Fin 4) (p : Fin 128) :
    View.read (Elt F) ((Memref.whole main_v9_scv : Memref sig .scVector .hbm S128x128 .i32).slice (colRectL L) (fun _ => rfl)).view fc (ix2 r p)
      = fc (ix2 (colRow L r) p) := col_read_view (View.whole main_v9_scv) L fc r p
theorem col_read_10 (L : grid0.Coords) (fc : S128x128.Idx → Elt F .i32) (r : Fin 4) (p : Fin 128) :
    View.read (Elt F) ((Memref.whole main_v10_scv : Memref sig .scVector .hbm S128x128 .i32).slice (colRectL L) (fun _ => rfl)).view fc (ix2 r p)
      = fc (ix2 (colRow L r) p) := col_read_view (View.whole main_v10_scv) L fc r p
theorem col_read_11 (L : grid0.Coords) (fc : S128x128.Idx → Elt F .i32) (r : Fin 4) (p : Fin 128) :
    View.read (Elt F) ((Memref.whole main_v11_scv : Memref sig .scVector .hbm S128x128 .i32).slice (colRectL L) (fun _ => rfl)).view fc (ix2 r p)
      = fc (ix2 (colRow L r) p) := col_read_view (View.whole main_v11_scv) L fc r p
theorem col_read_12 (L : grid0.Coords) (fc : S128x128.Idx → Elt F .i32) (r : Fin 4) (p : Fin 128) :
    View.read (Elt F) ((Memref.whole main_v12_scv : Memref sig .scVector .hbm S128x128 .i32).slice (colRectL L) (fun _ => rfl)).view fc (ix2 r p)
      = fc (ix2 (colRow L r) p) := col_read_view (View.whole main_v12_scv) L fc r p
theorem col_read_13 (L : grid0.Coords) (fc : S128x128.Idx → Elt F .i32) (r : Fin 4) (p : Fin 128) :
    View.read (Elt F) ((Memref.whole main_v13_scv : Memref sig .scVector .hbm S128x128 .i32).slice (colRectL L) (fun _ => rfl)).view fc (ix2 r p)
      = fc (ix2 (colRow L r) p) := col_read_view (View.whole main_v13_scv) L fc r p
theorem col_read_14 (L : grid0.Coords) (fc : S128x128.Idx → Elt F .i32) (r : Fin 4) (p : Fin 128) :
    View.read (Elt F) ((Memref.whole main_v14_scv : Memref sig .scVector .hbm S128x128 .i32).slice (colRectL L) (fun _ => rfl)).view fc (ix2 r p)
      = fc (ix2 (colRow L r) p) := col_read_view (View.whole main_v14_scv) L fc r p
theorem col_read_15 (L : grid0.Coords) (fc : S128x128.Idx → Elt F .i32) (r : Fin 4) (p : Fin 128) :
    View.read (Elt F) ((Memref.whole main_v15_scv : Memref sig .scVector .hbm S128x128 .i32).slice (colRectL L) (fun _ => rfl)).view fc (ix2 r p)
      = fc (ix2 (colRow L r) p) := col_read_view (View.whole main_v15_scv) L fc r p
theorem col_read_16 (L : grid0.Coords) (fc : S128x128.Idx → Elt F .i32) (r : Fin 4) (p : Fin 128) :
    View.read (Elt F) ((Memref.whole main_v16_scv : Memref sig .scVector .hbm S128x128 .i32).slice (colRectL L) (fun _ => rfl)).view fc (ix2 r p)
      = fc (ix2 (colRow L r) p) := col_read_view (View.whole main_v16_scv) L fc r p
theorem col_read_17 (L : grid0.Coords) (fc : S128x128.Idx → Elt F .i32) (r : Fin 4) (p : Fin 128) :
    View.read (Elt F) ((Memref.whole main_v17_scv : Memref sig .scVector .hbm S128x128 .i32).slice (colRectL L) (fun _ => rfl)).view fc (ix2 r p)
      = fc (ix2 (colRow L r) p) := col_read_view (View.whole main_v17_scv) L fc r p
theorem col_read_18 (L : grid0.Coords) (fc : S128x128.Idx → Elt F .i32) (r : Fin 4) (p : Fin 128) :
    View.read (Elt F) ((Memref.whole main_v18_scv : Memref sig .scVector .hbm S128x128 .i32).slice (colRectL L) (fun _ => rfl)).view fc (ix2 r p)
      = fc (ix2 (colRow L r) p) := col_read_view (View.whole main_v18_scv) L fc r p
theorem col_read_19 (L : grid0.Coords) (fc : S128x128.Idx → Elt F .i32) (r : Fin 4) (p : Fin 128) :
    View.read (Elt F) ((Memref.whole main_v19_scv : Memref sig .scVector .hbm S128x128 .i32).slice (colRectL L) (fun _ => rfl)).view fc (ix2 r p)
      = fc (ix2 (colRow L r) p) := col_read_view (View.whole main_v19_scv) L fc r p
theorem col_read_20 (L : grid0.Coords) (fc : S128x128.Idx → Elt F .i32) (r : Fin 4) (p : Fin 128) :
    View.read (Elt F) ((Memref.whole main_v20_scv : Memref sig .scVector .hbm S128x128 .i32).slice (colRectL L) (fun _ => rfl)).view fc (ix2 r p)
      = fc (ix2 (colRow L r) p) := col_read_view (View.whole main_v20_scv) L fc r p
theorem col_read_21 (L : grid0.Coords) (fc : S128x128.Idx → Elt F .i32) (r : Fin 4) (p : Fin 128) :
    View.read (Elt F) ((Memref.whole main_v21_scv : Memref sig .scVector .hbm S128x128 .i32).slice (colRectL L) (fun _ => rfl)).view fc (ix2 r p)
      = fc (ix2 (colRow L r) p) := col_read_view (View.whole main_v21_scv) L fc r p
theorem col_read_22 (L : grid0.Coords) (fc : S128x128.Idx → Elt F .i32) (r : Fin 4) (p : Fin 128) :
    View.read (Elt F) ((Memref.whole main_v22_scv : Memref sig .scVector .hbm S128x128 .i32).slice (colRectL L) (fun _ => rfl)).view fc (ix2 r p)
      = fc (ix2 (colRow L r) p) := col_read_view (View.whole main_v22_scv) L fc r p
theorem col_read_23 (L : grid0.Coords) (fc : S128x128.Idx → Elt F .i32) (r : Fin 4) (p : Fin 128) :
    View.read (Elt F) ((Memref.whole main_v23_scv : Memref sig .scVector .hbm S128x128 .i32).slice (colRectL L) (fun _ => rfl)).view fc (ix2 r p)
      = fc (ix2 (colRow L r) p) := col_read_view (View.whole main_v23_scv) L fc r p
theorem col_read_24 (L : grid0.Coords) (fc : S128x128.Idx → Elt F .i32) (r : Fin 4) (p : Fin 128) :
    View.read (Elt F) ((Memref.whole main_v24_scv : Memref sig .scVector .hbm S128x128 .i32).slice (colRectL L) (fun _ => rfl)).view fc (ix2 r p)
      = fc (ix2 (colRow L r) p) := col_read_view (View.whole main_v24_scv) L fc r p
theorem col_read_25 (L : grid0.Coords) (fc : S128x128.Idx → Elt F .i32) (r : Fin 4) (p : Fin 128) :
    View.read (Elt F) ((Memref.whole main_v25_scv : Memref sig .scVector .hbm S128x128 .i32).slice (colRectL L) (fun _ => rfl)).view fc (ix2 r p)
      = fc (ix2 (colRow L r) p) := col_read_view (View.whole main_v25_scv) L fc r p

/-! ## The item's value is the specified one -/

theorem IDXV_ix3 (pay : Fin 26 → S4x128.Idx → Elt F .i32) (t : Fin 26) (r : Fin 4) (p : Fin 128) :
    IDXV pay (ix3 t r p) = pay t (ix2 r p) := rfl

/-- The row of the result that word `p` of sub-chunk `r` of tile `L` belongs to. -/
def outRow (L : grid0.Coords) (r : Fin 4) (p : Fin 128) : Fin 16384 :=
  ⟨1024 * (L 1).val + 512 * (L 0).val + 128 * r.val + p.val, by
    have h0 : (L 0).val < 2 := (L 0).isLt
    have h1 : (L 1).val < 16 := (L 1).isLt
    have := r.isLt; have := p.isLt; omega⟩
/-- Column `e` of table `t`'s block of the result. -/
def outCol (t : Fin 26) (e : Fin 128) : Fin 3328 := ⟨128 * t.val + e.val, by have := t.isLt; have := e.isLt; omega⟩

/-- What the windows were written with, in terms of the columns: the reshaped column `t` at `(R, p)` is the column at
    `128·R + p`. -/
theorem hpay_of_fc (col : Fin 26 → Cert.Spec.ColS.Idx → BitVec 32) (fc : Fin 26 → S128x128.Idx → Elt F .i32)
    (hfc : ∀ t (R p : Fin 128), fc t (ix2 R p) = col t (ix1 (⟨128 * R.val + p.val, by have := R.isLt; have := p.isLt; omega⟩ : Fin 16384)))
    (L : grid0.Coords) (pay : Fin 26 → S4x128.Idx → Elt F .i32)
    (hp : ∀ t (r : Fin 4) (p : Fin 128), pay t (ix2 r p) = fc t (ix2 (colRow L r) p)) :
    ∀ t (r : Fin 4) (p : Fin 128), pay t (ix2 r p) = col t (ix1 (outRow L r p)) := by
  intro t r p
  rw [hp, hfc]
  refine congrArg (fun x => col t (ix1 x)) (Fin.ext ?_)
  show 128 * (8 * (L 1).val + 4 * (L 0).val + r.val) + p.val = 1024 * (L 1).val + 512 * (L 0).val + 128 * r.val + p.val
  omega

/-- Entry `e` of the row of table `t` that the scratch's word `(t, r, p)` names is the specified entry
    `(1024·L₁ + 512·L₀ + 128·r + p, 128·t + e)` of the result. -/
theorem item_spec {α : Type} (tbl : Fin 26 → Cert.Spec.TblS.Idx → α) (col : Fin 26 → Cert.Spec.ColS.Idx → BitVec 32)
    (hr : ∀ t b, (col t b).toNat < 1000) (L : grid0.Coords) (pay : Fin 26 → S4x128.Idx → Elt F .i32)
    (hpay : ∀ t (r : Fin 4) (p : Fin 128), pay t (ix2 r p) = col t (ix1 (outRow L r p)))
    (t : Fin 26) (r : Fin 4) (p e : Fin 128) (hlt : (IDXV pay (ix3 t r p)).toNat < 1000) :
    tbl t (ix2 (⟨(IDXV pay (ix3 t r p)).toNat, hlt⟩ : Fin 1000) e)
      = Cert.Spec.G tbl col (ix2 (outRow L r p) (outCol t e)) := by
  rw [Cert.Spec.G_apply,
    show Cert.Spec.tblOf (outCol t e) = t from Cert.Spec.tblOf_block t e _,
    show Cert.Spec.laneOf (outCol t e) = e from Cert.Spec.laneOf_block t e _]
  refine congrArg (fun x => tbl t (ix2 x e)) (Fin.ext ?_)
  show (IDXV pay (ix3 t r p)).toNat = (Cert.Spec.rowOf (col t (ix1 (outRow L r p)))).val
  rw [Cert.Spec.rowOf_val_of_lt (hr _ _), IDXV_ix3, hpay]

/-- The scratch's words are row numbers when the columns' are. -/
theorem pay_lt (col : Fin 26 → Cert.Spec.ColS.Idx → BitVec 32) (hr : ∀ t b, (col t b).toNat < 1000) (L : grid0.Coords)
    (pay : Fin 26 → S4x128.Idx → Elt F .i32)
    (hpay : ∀ t (r : Fin 4) (p : Fin 128), pay t (ix2 r p) = col t (ix1 (outRow L r p))) :
    ∀ t y, (pay t y).toNat < 1000 := by
  intro t y
  obtain ⟨r, p, rfl⟩ : ∃ (r : Fin 4) (p : Fin 128), y = ix2 r p := ⟨y 0, y 1, eq_ix2 y⟩
  rw [hpay]; exact hr _ _

/-- The gathered slot of item `(t, r)` holds the specified block of the result: at `(p, e)`, entry
    `(1024·L₁ + 512·L₀ + 128·r + p, 128·t + e)`. -/
theorem slot_spec (tbl : Fin 26 → S1000x128.Idx → Elt F .f32) (col : Fin 26 → Cert.Spec.ColS.Idx → BitVec 32)
    (hr : ∀ t b, (col t b).toNat < 1000) (L : grid0.Coords) (pay : Fin 26 → S4x128.Idx → Elt F .i32)
    (hpay : ∀ t (r : Fin 4) (p : Fin 128), pay t (ix2 r p) = col t (ix1 (outRow L r p)))
    (t : Fin 26) (r : Fin 4) (idx : S128.Idx → Elt F .i32) (hidx : ∀ p : Fin 128, idx (ix1 p) = IDXV pay (ix3 t r p))
    (hn : S128.numel = S128x128.size (gathers_S1000x128_S128x128).axis')
    (hin : ∀ x, (idx x).toNat < S1000x128.size (gathers_S1000x128_S128x128).axis) (p e : Fin 128) :
    SparseCore.gatherPayload (s₀ := S1000x128) (s := S128x128) gathers_S1000x128_S128x128 (tbl t) (SparseCore.rows idx hn hin) (ix2 p e)
      = Cert.Spec.G tbl col (ix2 (outRow L r p) (outCol t e)) := by
  rw [gp_apply]
  have hlt : (IDXV pay (ix3 t r p)).toNat < 1000 := hidx p ▸ hin (ix1 p)
  have e1 : (⟨(idx (ix1 p)).toNat, hin _⟩ : Fin 1000) = ⟨(IDXV pay (ix3 t r p)).toNat, hlt⟩ := Fin.ext (show (idx (ix1 p)).toNat = (IDXV pay (ix3 t r p)).toNat from congrArg BitVec.toNat (hidx p))
  rw [e1]
  exact item_spec tbl col hr L pay hpay t r p e hlt

/-! ## What the windows are written with is in range -/

theorem pay_lt_fc_0 (L : grid0.Coords) (fc : S128x128.Idx → Elt F .i32) (h : ∀ j, (fc j).toNat < 1000) :
    ∀ y, ((ReadAs.same.apply (View.read (Elt F) ((Memref.whole main_v0_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v0_scv : Memref sig .scVector .hbm S128x128 .i32).slice (colRectL L) (fun _ => rfl)).view fc (ix2 r p)).toNat < 1000
  rw [col_read_0]; exact h _
theorem pay_lt_fc_1 (L : grid0.Coords) (fc : S128x128.Idx → Elt F .i32) (h : ∀ j, (fc j).toNat < 1000) :
    ∀ y, ((ReadAs.same.apply (View.read (Elt F) ((Memref.whole main_v1_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v1_scv : Memref sig .scVector .hbm S128x128 .i32).slice (colRectL L) (fun _ => rfl)).view fc (ix2 r p)).toNat < 1000
  rw [col_read_1]; exact h _
theorem pay_lt_fc_2 (L : grid0.Coords) (fc : S128x128.Idx → Elt F .i32) (h : ∀ j, (fc j).toNat < 1000) :
    ∀ y, ((ReadAs.same.apply (View.read (Elt F) ((Memref.whole main_v2_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v2_scv : Memref sig .scVector .hbm S128x128 .i32).slice (colRectL L) (fun _ => rfl)).view fc (ix2 r p)).toNat < 1000
  rw [col_read_2]; exact h _
theorem pay_lt_fc_3 (L : grid0.Coords) (fc : S128x128.Idx → Elt F .i32) (h : ∀ j, (fc j).toNat < 1000) :
    ∀ y, ((ReadAs.same.apply (View.read (Elt F) ((Memref.whole main_v3_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v3_scv : Memref sig .scVector .hbm S128x128 .i32).slice (colRectL L) (fun _ => rfl)).view fc (ix2 r p)).toNat < 1000
  rw [col_read_3]; exact h _
theorem pay_lt_fc_4 (L : grid0.Coords) (fc : S128x128.Idx → Elt F .i32) (h : ∀ j, (fc j).toNat < 1000) :
    ∀ y, ((ReadAs.same.apply (View.read (Elt F) ((Memref.whole main_v4_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v4_scv : Memref sig .scVector .hbm S128x128 .i32).slice (colRectL L) (fun _ => rfl)).view fc (ix2 r p)).toNat < 1000
  rw [col_read_4]; exact h _
theorem pay_lt_fc_5 (L : grid0.Coords) (fc : S128x128.Idx → Elt F .i32) (h : ∀ j, (fc j).toNat < 1000) :
    ∀ y, ((ReadAs.same.apply (View.read (Elt F) ((Memref.whole main_v5_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v5_scv : Memref sig .scVector .hbm S128x128 .i32).slice (colRectL L) (fun _ => rfl)).view fc (ix2 r p)).toNat < 1000
  rw [col_read_5]; exact h _
theorem pay_lt_fc_6 (L : grid0.Coords) (fc : S128x128.Idx → Elt F .i32) (h : ∀ j, (fc j).toNat < 1000) :
    ∀ y, ((ReadAs.same.apply (View.read (Elt F) ((Memref.whole main_v6_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v6_scv : Memref sig .scVector .hbm S128x128 .i32).slice (colRectL L) (fun _ => rfl)).view fc (ix2 r p)).toNat < 1000
  rw [col_read_6]; exact h _
theorem pay_lt_fc_7 (L : grid0.Coords) (fc : S128x128.Idx → Elt F .i32) (h : ∀ j, (fc j).toNat < 1000) :
    ∀ y, ((ReadAs.same.apply (View.read (Elt F) ((Memref.whole main_v7_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v7_scv : Memref sig .scVector .hbm S128x128 .i32).slice (colRectL L) (fun _ => rfl)).view fc (ix2 r p)).toNat < 1000
  rw [col_read_7]; exact h _
theorem pay_lt_fc_8 (L : grid0.Coords) (fc : S128x128.Idx → Elt F .i32) (h : ∀ j, (fc j).toNat < 1000) :
    ∀ y, ((ReadAs.same.apply (View.read (Elt F) ((Memref.whole main_v8_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v8_scv : Memref sig .scVector .hbm S128x128 .i32).slice (colRectL L) (fun _ => rfl)).view fc (ix2 r p)).toNat < 1000
  rw [col_read_8]; exact h _
theorem pay_lt_fc_9 (L : grid0.Coords) (fc : S128x128.Idx → Elt F .i32) (h : ∀ j, (fc j).toNat < 1000) :
    ∀ y, ((ReadAs.same.apply (View.read (Elt F) ((Memref.whole main_v9_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v9_scv : Memref sig .scVector .hbm S128x128 .i32).slice (colRectL L) (fun _ => rfl)).view fc (ix2 r p)).toNat < 1000
  rw [col_read_9]; exact h _
theorem pay_lt_fc_10 (L : grid0.Coords) (fc : S128x128.Idx → Elt F .i32) (h : ∀ j, (fc j).toNat < 1000) :
    ∀ y, ((ReadAs.same.apply (View.read (Elt F) ((Memref.whole main_v10_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v10_scv : Memref sig .scVector .hbm S128x128 .i32).slice (colRectL L) (fun _ => rfl)).view fc (ix2 r p)).toNat < 1000
  rw [col_read_10]; exact h _
theorem pay_lt_fc_11 (L : grid0.Coords) (fc : S128x128.Idx → Elt F .i32) (h : ∀ j, (fc j).toNat < 1000) :
    ∀ y, ((ReadAs.same.apply (View.read (Elt F) ((Memref.whole main_v11_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v11_scv : Memref sig .scVector .hbm S128x128 .i32).slice (colRectL L) (fun _ => rfl)).view fc (ix2 r p)).toNat < 1000
  rw [col_read_11]; exact h _
theorem pay_lt_fc_12 (L : grid0.Coords) (fc : S128x128.Idx → Elt F .i32) (h : ∀ j, (fc j).toNat < 1000) :
    ∀ y, ((ReadAs.same.apply (View.read (Elt F) ((Memref.whole main_v12_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v12_scv : Memref sig .scVector .hbm S128x128 .i32).slice (colRectL L) (fun _ => rfl)).view fc (ix2 r p)).toNat < 1000
  rw [col_read_12]; exact h _
theorem pay_lt_fc_13 (L : grid0.Coords) (fc : S128x128.Idx → Elt F .i32) (h : ∀ j, (fc j).toNat < 1000) :
    ∀ y, ((ReadAs.same.apply (View.read (Elt F) ((Memref.whole main_v13_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v13_scv : Memref sig .scVector .hbm S128x128 .i32).slice (colRectL L) (fun _ => rfl)).view fc (ix2 r p)).toNat < 1000
  rw [col_read_13]; exact h _
theorem pay_lt_fc_14 (L : grid0.Coords) (fc : S128x128.Idx → Elt F .i32) (h : ∀ j, (fc j).toNat < 1000) :
    ∀ y, ((ReadAs.same.apply (View.read (Elt F) ((Memref.whole main_v14_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v14_scv : Memref sig .scVector .hbm S128x128 .i32).slice (colRectL L) (fun _ => rfl)).view fc (ix2 r p)).toNat < 1000
  rw [col_read_14]; exact h _
theorem pay_lt_fc_15 (L : grid0.Coords) (fc : S128x128.Idx → Elt F .i32) (h : ∀ j, (fc j).toNat < 1000) :
    ∀ y, ((ReadAs.same.apply (View.read (Elt F) ((Memref.whole main_v15_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v15_scv : Memref sig .scVector .hbm S128x128 .i32).slice (colRectL L) (fun _ => rfl)).view fc (ix2 r p)).toNat < 1000
  rw [col_read_15]; exact h _
theorem pay_lt_fc_16 (L : grid0.Coords) (fc : S128x128.Idx → Elt F .i32) (h : ∀ j, (fc j).toNat < 1000) :
    ∀ y, ((ReadAs.same.apply (View.read (Elt F) ((Memref.whole main_v16_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v16_scv : Memref sig .scVector .hbm S128x128 .i32).slice (colRectL L) (fun _ => rfl)).view fc (ix2 r p)).toNat < 1000
  rw [col_read_16]; exact h _
theorem pay_lt_fc_17 (L : grid0.Coords) (fc : S128x128.Idx → Elt F .i32) (h : ∀ j, (fc j).toNat < 1000) :
    ∀ y, ((ReadAs.same.apply (View.read (Elt F) ((Memref.whole main_v17_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v17_scv : Memref sig .scVector .hbm S128x128 .i32).slice (colRectL L) (fun _ => rfl)).view fc (ix2 r p)).toNat < 1000
  rw [col_read_17]; exact h _
theorem pay_lt_fc_18 (L : grid0.Coords) (fc : S128x128.Idx → Elt F .i32) (h : ∀ j, (fc j).toNat < 1000) :
    ∀ y, ((ReadAs.same.apply (View.read (Elt F) ((Memref.whole main_v18_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v18_scv : Memref sig .scVector .hbm S128x128 .i32).slice (colRectL L) (fun _ => rfl)).view fc (ix2 r p)).toNat < 1000
  rw [col_read_18]; exact h _
theorem pay_lt_fc_19 (L : grid0.Coords) (fc : S128x128.Idx → Elt F .i32) (h : ∀ j, (fc j).toNat < 1000) :
    ∀ y, ((ReadAs.same.apply (View.read (Elt F) ((Memref.whole main_v19_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v19_scv : Memref sig .scVector .hbm S128x128 .i32).slice (colRectL L) (fun _ => rfl)).view fc (ix2 r p)).toNat < 1000
  rw [col_read_19]; exact h _
theorem pay_lt_fc_20 (L : grid0.Coords) (fc : S128x128.Idx → Elt F .i32) (h : ∀ j, (fc j).toNat < 1000) :
    ∀ y, ((ReadAs.same.apply (View.read (Elt F) ((Memref.whole main_v20_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v20_scv : Memref sig .scVector .hbm S128x128 .i32).slice (colRectL L) (fun _ => rfl)).view fc (ix2 r p)).toNat < 1000
  rw [col_read_20]; exact h _
theorem pay_lt_fc_21 (L : grid0.Coords) (fc : S128x128.Idx → Elt F .i32) (h : ∀ j, (fc j).toNat < 1000) :
    ∀ y, ((ReadAs.same.apply (View.read (Elt F) ((Memref.whole main_v21_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v21_scv : Memref sig .scVector .hbm S128x128 .i32).slice (colRectL L) (fun _ => rfl)).view fc (ix2 r p)).toNat < 1000
  rw [col_read_21]; exact h _
theorem pay_lt_fc_22 (L : grid0.Coords) (fc : S128x128.Idx → Elt F .i32) (h : ∀ j, (fc j).toNat < 1000) :
    ∀ y, ((ReadAs.same.apply (View.read (Elt F) ((Memref.whole main_v22_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v22_scv : Memref sig .scVector .hbm S128x128 .i32).slice (colRectL L) (fun _ => rfl)).view fc (ix2 r p)).toNat < 1000
  rw [col_read_22]; exact h _
theorem pay_lt_fc_23 (L : grid0.Coords) (fc : S128x128.Idx → Elt F .i32) (h : ∀ j, (fc j).toNat < 1000) :
    ∀ y, ((ReadAs.same.apply (View.read (Elt F) ((Memref.whole main_v23_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v23_scv : Memref sig .scVector .hbm S128x128 .i32).slice (colRectL L) (fun _ => rfl)).view fc (ix2 r p)).toNat < 1000
  rw [col_read_23]; exact h _
theorem pay_lt_fc_24 (L : grid0.Coords) (fc : S128x128.Idx → Elt F .i32) (h : ∀ j, (fc j).toNat < 1000) :
    ∀ y, ((ReadAs.same.apply (View.read (Elt F) ((Memref.whole main_v24_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v24_scv : Memref sig .scVector .hbm S128x128 .i32).slice (colRectL L) (fun _ => rfl)).view fc (ix2 r p)).toNat < 1000
  rw [col_read_24]; exact h _
theorem pay_lt_fc_25 (L : grid0.Coords) (fc : S128x128.Idx → Elt F .i32) (h : ∀ j, (fc j).toNat < 1000) :
    ∀ y, ((ReadAs.same.apply (View.read (Elt F) ((Memref.whole main_v25_scv : Memref sig .scVector .hbm S128x128 .i32).slice (colRectL L) (fun _ => rfl)).view fc) y : Elt F .i32)).toNat < 1000 := by
  intro y
  obtain ⟨r, p, rfl⟩ : ∃ (r : Fin 4) (p : Fin 128), y = ix2 r p := ⟨y 0, y 1, eq_ix2 y⟩
  show (View.read (Elt F) ((Memref.whole main_v25_scv : Memref sig .scVector .hbm S128x128 .i32).slice (colRectL L) (fun _ => rfl)).view fc (ix2 r p)).toNat < 1000
  rw [col_read_25]; exact h _

/-! ## A chain of whole writes through views of one buffer -/

/-- One more layer: contents that are a whole write through `v` over contents that agree with `G` on `T`, the
    payload being what `v` reads off `G`, agree with `G` on `T` and on what `v` covers. -/
theorem chain_step {κ : Kind} {sp : Space} {s : Shape} {e : EltTy} {Val : EltTy → Type} (v : View sig κ sp s e)
    (X X' G : v.ty.Contents Val) (P : s.Idx → Val e) (T : Finset v.ty.Idx)
    (hX : X = View.write Val v X' P Finset.univ) (hT : ∀ i ∈ T, X' i = G i) (hP : ∀ y, P y = v.read Val G y) :
    ∀ i ∈ T ∪ v.set, X i = G i := by
  subst hX
  intro i hi
  by_cases hv : i ∈ v.set
  · obtain ⟨y, -, rfl⟩ := Finset.mem_map.mp hv
    rw [View.write_emb_of_mem _ _ (Finset.mem_univ y), hP y, View.read_apply, cast_cast, cast_eq]
  · rw [View.write_of_not_mem _ _ _ (by rwa [View.setOn_univ])]
    rcases Finset.mem_union.mp hi with h | h
    · exact hT i h
    · exact absurd h hv

/-- The same, the contents outside `T` and `v` not mentioned: one layer keeps what the earlier ones established
    wherever `v` does not write. -/
theorem chain_keep {κ : Kind} {sp : Space} {s : Shape} {e : EltTy} {Val : EltTy → Type} (v : View sig κ sp s e)
    (X' : v.ty.Contents Val) (P : s.Idx → Val e) (i : v.ty.Idx) (hi : i ∉ v.set) :
    View.write Val v X' P Finset.univ i = X' i :=
  View.write_of_not_mem _ _ _ (by rwa [View.setOn_univ])

/-! ## The slots of the row scratch -/

local notation "rV" => (Memref.whole Cert.KernelIdeal.cc0_scratch1 : Memref Cert.KernelIdeal.sig Kind.scVector Space.vmem Cert.KernelIdeal.S7x128x128 EltTy.f32)

/-- Two different slots share no element. -/
theorem Rn_disjoint (s s' : Nat) (h : ∀ a, (![s, 0, 0] : Fin 3 → Nat) a + S1x128x128.size a ≤ S7x128x128.size a)
    (h' : ∀ a, (![s', 0, 0] : Fin 3 → Nat) a + S1x128x128.size a ≤ S7x128x128.size a) (hne : s ≠ s') :
    Disjoint (Rn s h).view.set (Rn s' h').view.set := by
  rw [set_Rn, set_Rn, Finset.disjoint_left]
  intro j h1 h2
  rw [mem_rwinSet] at h1 h2
  exact hne (h1.symm.trans h2)

/-- A slot read after a whole write through the same slot: the payload. -/
theorem Rn_read_hit (s : Nat) (h : ∀ a, (![s, 0, 0] : Fin 3 → Nat) a + S1x128x128.size a ≤ S7x128x128.size a)
    (Y' : S7x128x128.Idx → Elt F .f32) (Q : S128x128.Idx → Elt F .f32) :
    (Rn s h).view.read (Elt F) ((Rn s h).view.write (Elt F) Y' Q Finset.univ) = Q :=
  View.read_write_univ _ _

/-- A slot read after a whole write through another slot: what it read before. -/
theorem Rn_read_miss (s s' : Nat) (h : ∀ a, (![s, 0, 0] : Fin 3 → Nat) a + S1x128x128.size a ≤ S7x128x128.size a)
    (h' : ∀ a, (![s', 0, 0] : Fin 3 → Nat) a + S1x128x128.size a ≤ S7x128x128.size a) (hne : s ≠ s')
    (Y' : S7x128x128.Idx → Elt F .f32) (Q : S128x128.Idx → Elt F .f32) :
    (Rn s h).view.read (Elt F) ((Rn s' h').view.write (Elt F) Y' Q Finset.univ) = (Rn s h).view.read (Elt F) Y' :=
  View.read_congr fun i hi => View.write_of_not_mem _ _ _ (by
    rw [View.setOn_univ]
    exact Finset.disjoint_left.mp (Rn_disjoint s s' h h' hne) hi)

end Cert.Proof.KI.Val
-- ==== Proof.ChainKI0.lean ====
/-
  Group 0's items in the order the task serves them: item j = 26·r + i is (table (i + 0) mod 26, sub-chunk r), its slot j mod 7.
  gp j  : what item j's gather lands in its slot: entry (p, e) is table t's entry (list (t, r) at p, e).
  rowsAt j : the row scratch once gathers 0 .. j have been issued (each lands in its own slot, over what was there).
  pay j : what item j's copy-out carries: its slot as the row scratch stands when the copy is issued, which is after
          gather min (j + 5, 103): the five gathers issued in between went to other slots.
  outAt j : the output once copies 0 .. j have landed, each in its own 128 x 128 block.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI

noncomputable section

namespace Cert.Proof.KI.Chain0

open Cert.KernelIdeal Cert.KernelIdeal.Gen
open Idealize.ShloMosaic
open Idealize.ShloMosaic.SparseCore (S V T)

/-- What a tile's run starts from: the 26 tables' contents, the index scratch's (every word a row number below 1000),
    the output's and the row scratch's. -/
structure TileIn (F : FTy → Type) (d : Dev nD) (L : grid0.Coords) where
  ft0 : Buf (Elt F) ((V d (cVL L) (jVL L)).loc main_arg26_scv)
  ft1 : Buf (Elt F) ((V d (cVL L) (jVL L)).loc main_arg27_scv)
  ft2 : Buf (Elt F) ((V d (cVL L) (jVL L)).loc main_arg28_scv)
  ft3 : Buf (Elt F) ((V d (cVL L) (jVL L)).loc main_arg29_scv)
  ft4 : Buf (Elt F) ((V d (cVL L) (jVL L)).loc main_arg30_scv)
  ft5 : Buf (Elt F) ((V d (cVL L) (jVL L)).loc main_arg31_scv)
  ft6 : Buf (Elt F) ((V d (cVL L) (jVL L)).loc main_arg32_scv)
  ft7 : Buf (Elt F) ((V d (cVL L) (jVL L)).loc main_arg33_scv)
  ft8 : Buf (Elt F) ((V d (cVL L) (jVL L)).loc main_arg34_scv)
  ft9 : Buf (Elt F) ((V d (cVL L) (jVL L)).loc main_arg35_scv)
  ft10 : Buf (Elt F) ((V d (cVL L) (jVL L)).loc main_arg36_scv)
  ft11 : Buf (Elt F) ((V d (cVL L) (jVL L)).loc main_arg37_scv)
  ft12 : Buf (Elt F) ((V d (cVL L) (jVL L)).loc main_arg38_scv)
  ft13 : Buf (Elt F) ((V d (cVL L) (jVL L)).loc main_arg39_scv)
  ft14 : Buf (Elt F) ((V d (cVL L) (jVL L)).loc main_arg40_scv)
  ft15 : Buf (Elt F) ((V d (cVL L) (jVL L)).loc main_arg41_scv)
  ft16 : Buf (Elt F) ((V d (cVL L) (jVL L)).loc main_arg42_scv)
  ft17 : Buf (Elt F) ((V d (cVL L) (jVL L)).loc main_arg43_scv)
  ft18 : Buf (Elt F) ((V d (cVL L) (jVL L)).loc main_arg44_scv)
  ft19 : Buf (Elt F) ((V d (cVL L) (jVL L)).loc main_arg45_scv)
  ft20 : Buf (Elt F) ((V d (cVL L) (jVL L)).loc main_arg46_scv)
  ft21 : Buf (Elt F) ((V d (cVL L) (jVL L)).loc main_arg47_scv)
  ft22 : Buf (Elt F) ((V d (cVL L) (jVL L)).loc main_arg48_scv)
  ft23 : Buf (Elt F) ((V d (cVL L) (jVL L)).loc main_arg49_scv)
  ft24 : Buf (Elt F) ((V d (cVL L) (jVL L)).loc main_arg50_scv)
  ft25 : Buf (Elt F) ((V d (cVL L) (jVL L)).loc main_arg51_scv)
  fi : Buf (Elt F) ((V d (cVL L) (jVL L)).loc cc0_scratch0)
  hin : ∀ (a b : Nat) (h1 : ∀ x, (![a, b, 0] : Fin 3 → Nat) x + S1x1x128.size x ≤ S26x4x128.size x) (h2 : (Rect.unit (s := S26x4x128) ![a, b, 0] S1x1x128.size h1).shape.Squeezes S128) (x : S128.Idx),
      (((((Memref.whole cc0_scratch0 : Memref sig .scVector .vmem S26x4x128 .i32).slice (Rect.unit (s := S26x4x128) ![a, b, 0] S1x1x128.size h1) (fun _ => rfl)).squeeze S128 h2).view.read (Elt F) fi x) : BitVec 32).toNat < 1000
  fo : Buf (Elt F) ((V d (cVL L) (jVL L)).loc main_v26_scv)
  fr : Buf (Elt F) ((V d (cVL L) (jVL L)).loc cc0_scratch1)

variable {F : FTy → Type} {d : Dev nD} {L : grid0.Coords} (I : TileIn F d L) (hc : k0_cond1 L = 1#1)

def gp0 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 0, 0] S1x1x128.size inb_S26x4x128_S1x1x128_0_0_0) (fun _ => rfl)).squeeze S128 squeezes_S1x1x128_S128).view.read (Elt F) I.fi) rfl (I.hin 0 0 inb_S26x4x128_S1x1x128_0_0_0 squeezes_S1x1x128_S128))
def rowsAt0 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view I.fr (gp0 I) Finset.univ
def gp1 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 0, 0] S1x1x128.size inb_S26x4x128_S1x1x128_1_0_0) (fun _ => rfl)).squeeze S128 squeezes_S1x1x128_S128).view.read (Elt F) I.fi) rfl (I.hin 1 0 inb_S26x4x128_S1x1x128_1_0_0 squeezes_S1x1x128_S128))
def rowsAt1 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt0 I) (gp1 I) Finset.univ
def gp2 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 0, 0] S1x1x128.size inb_S26x4x128_S1x1x128_2_0_0) (fun _ => rfl)).squeeze S128 squeezes_S1x1x128_S128).view.read (Elt F) I.fi) rfl (I.hin 2 0 inb_S26x4x128_S1x1x128_2_0_0 squeezes_S1x1x128_S128))
def rowsAt2 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt1 I) (gp2 I) Finset.univ
def gp3 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 0, 0] S1x1x128.size inb_S26x4x128_S1x1x128_3_0_0) (fun _ => rfl)).squeeze S128 squeezes_S1x1x128_S128).view.read (Elt F) I.fi) rfl (I.hin 3 0 inb_S26x4x128_S1x1x128_3_0_0 squeezes_S1x1x128_S128))
def rowsAt3 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt2 I) (gp3 I) Finset.univ
def gp4 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 0, 0] S1x1x128.size inb_S26x4x128_S1x1x128_4_0_0) (fun _ => rfl)).squeeze S128 squeezes_S1x1x128_S128).view.read (Elt F) I.fi) rfl (I.hin 4 0 inb_S26x4x128_S1x1x128_4_0_0 squeezes_S1x1x128_S128))
def rowsAt4 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt3 I) (gp4 I) Finset.univ
def gp5 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 0, 0] S1x1x128.size inb_S26x4x128_S1x1x128_5_0_0) (fun _ => rfl)).squeeze S128 squeezes_S1x1x128_S128).view.read (Elt F) I.fi) rfl (I.hin 5 0 inb_S26x4x128_S1x1x128_5_0_0 squeezes_S1x1x128_S128))
def rowsAt5 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt4 I) (gp5 I) Finset.univ
def gp6 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 0, 0] S1x1x128.size inb_S26x4x128_S1x1x128_6_0_0) (fun _ => rfl)).squeeze S128 squeezes_S1x1x128_S128).view.read (Elt F) I.fi) rfl (I.hin 6 0 inb_S26x4x128_S1x1x128_6_0_0 squeezes_S1x1x128_S128))
def rowsAt6 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt5 I) (gp6 I) Finset.univ
def gp7 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 0, 0] S1x1x128.size inb_S26x4x128_S1x1x128_7_0_0) (fun _ => rfl)).squeeze S128 squeezes_S1x1x128_S128).view.read (Elt F) I.fi) rfl (I.hin 7 0 inb_S26x4x128_S1x1x128_7_0_0 squeezes_S1x1x128_S128))
def rowsAt7 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt6 I) (gp7 I) Finset.univ
def gp8 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 0, 0] S1x1x128.size inb_S26x4x128_S1x1x128_8_0_0) (fun _ => rfl)).squeeze S128 squeezes_S1x1x128_S128).view.read (Elt F) I.fi) rfl (I.hin 8 0 inb_S26x4x128_S1x1x128_8_0_0 squeezes_S1x1x128_S128))
def rowsAt8 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt7 I) (gp8 I) Finset.univ
def gp9 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 0, 0] S1x1x128.size inb_S26x4x128_S1x1x128_9_0_0) (fun _ => rfl)).squeeze S128 squeezes_S1x1x128_S128).view.read (Elt F) I.fi) rfl (I.hin 9 0 inb_S26x4x128_S1x1x128_9_0_0 squeezes_S1x1x128_S128))
def rowsAt9 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt8 I) (gp9 I) Finset.univ
def gp10 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 0, 0] S1x1x128.size inb_S26x4x128_S1x1x128_10_0_0) (fun _ => rfl)).squeeze S128 squeezes_S1x1x128_S128).view.read (Elt F) I.fi) rfl (I.hin 10 0 inb_S26x4x128_S1x1x128_10_0_0 squeezes_S1x1x128_S128))
def rowsAt10 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt9 I) (gp10 I) Finset.univ
def gp11 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 0, 0] S1x1x128.size inb_S26x4x128_S1x1x128_11_0_0) (fun _ => rfl)).squeeze S128 squeezes_S1x1x128_S128).view.read (Elt F) I.fi) rfl (I.hin 11 0 inb_S26x4x128_S1x1x128_11_0_0 squeezes_S1x1x128_S128))
def rowsAt11 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt10 I) (gp11 I) Finset.univ
def gp12 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 0, 0] S1x1x128.size inb_S26x4x128_S1x1x128_12_0_0) (fun _ => rfl)).squeeze S128 squeezes_S1x1x128_S128).view.read (Elt F) I.fi) rfl (I.hin 12 0 inb_S26x4x128_S1x1x128_12_0_0 squeezes_S1x1x128_S128))
def rowsAt12 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt11 I) (gp12 I) Finset.univ
def gp13 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 0, 0] S1x1x128.size inb_S26x4x128_S1x1x128_13_0_0) (fun _ => rfl)).squeeze S128 squeezes_S1x1x128_S128).view.read (Elt F) I.fi) rfl (I.hin 13 0 inb_S26x4x128_S1x1x128_13_0_0 squeezes_S1x1x128_S128))
def rowsAt13 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt12 I) (gp13 I) Finset.univ
def gp14 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 0, 0] S1x1x128.size inb_S26x4x128_S1x1x128_14_0_0) (fun _ => rfl)).squeeze S128 squeezes_S1x1x128_S128).view.read (Elt F) I.fi) rfl (I.hin 14 0 inb_S26x4x128_S1x1x128_14_0_0 squeezes_S1x1x128_S128))
def rowsAt14 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt13 I) (gp14 I) Finset.univ
def gp15 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 0, 0] S1x1x128.size inb_S26x4x128_S1x1x128_15_0_0) (fun _ => rfl)).squeeze S128 squeezes_S1x1x128_S128).view.read (Elt F) I.fi) rfl (I.hin 15 0 inb_S26x4x128_S1x1x128_15_0_0 squeezes_S1x1x128_S128))
def rowsAt15 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt14 I) (gp15 I) Finset.univ
def gp16 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 0, 0] S1x1x128.size inb_S26x4x128_S1x1x128_16_0_0) (fun _ => rfl)).squeeze S128 squeezes_S1x1x128_S128).view.read (Elt F) I.fi) rfl (I.hin 16 0 inb_S26x4x128_S1x1x128_16_0_0 squeezes_S1x1x128_S128))
def rowsAt16 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt15 I) (gp16 I) Finset.univ
def gp17 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 0, 0] S1x1x128.size inb_S26x4x128_S1x1x128_17_0_0) (fun _ => rfl)).squeeze S128 squeezes_S1x1x128_S128).view.read (Elt F) I.fi) rfl (I.hin 17 0 inb_S26x4x128_S1x1x128_17_0_0 squeezes_S1x1x128_S128))
def rowsAt17 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt16 I) (gp17 I) Finset.univ
def gp18 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 0, 0] S1x1x128.size inb_S26x4x128_S1x1x128_18_0_0) (fun _ => rfl)).squeeze S128 squeezes_S1x1x128_S128).view.read (Elt F) I.fi) rfl (I.hin 18 0 inb_S26x4x128_S1x1x128_18_0_0 squeezes_S1x1x128_S128))
def rowsAt18 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt17 I) (gp18 I) Finset.univ
def gp19 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 0, 0] S1x1x128.size inb_S26x4x128_S1x1x128_19_0_0) (fun _ => rfl)).squeeze S128 squeezes_S1x1x128_S128).view.read (Elt F) I.fi) rfl (I.hin 19 0 inb_S26x4x128_S1x1x128_19_0_0 squeezes_S1x1x128_S128))
def rowsAt19 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt18 I) (gp19 I) Finset.univ
def gp20 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 0, 0] S1x1x128.size inb_S26x4x128_S1x1x128_20_0_0) (fun _ => rfl)).squeeze S128 squeezes_S1x1x128_S128).view.read (Elt F) I.fi) rfl (I.hin 20 0 inb_S26x4x128_S1x1x128_20_0_0 squeezes_S1x1x128_S128))
def rowsAt20 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt19 I) (gp20 I) Finset.univ
def gp21 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 0, 0] S1x1x128.size inb_S26x4x128_S1x1x128_21_0_0) (fun _ => rfl)).squeeze S128 squeezes_S1x1x128_S128).view.read (Elt F) I.fi) rfl (I.hin 21 0 inb_S26x4x128_S1x1x128_21_0_0 squeezes_S1x1x128_S128))
def rowsAt21 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt20 I) (gp21 I) Finset.univ
def gp22 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 0, 0] S1x1x128.size inb_S26x4x128_S1x1x128_22_0_0) (fun _ => rfl)).squeeze S128 squeezes_S1x1x128_S128).view.read (Elt F) I.fi) rfl (I.hin 22 0 inb_S26x4x128_S1x1x128_22_0_0 squeezes_S1x1x128_S128))
def rowsAt22 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt21 I) (gp22 I) Finset.univ
def gp23 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 0, 0] S1x1x128.size inb_S26x4x128_S1x1x128_23_0_0) (fun _ => rfl)).squeeze S128 squeezes_S1x1x128_S128).view.read (Elt F) I.fi) rfl (I.hin 23 0 inb_S26x4x128_S1x1x128_23_0_0 squeezes_S1x1x128_S128))
def rowsAt23 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt22 I) (gp23 I) Finset.univ
def gp24 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 0, 0] S1x1x128.size inb_S26x4x128_S1x1x128_24_0_0) (fun _ => rfl)).squeeze S128 squeezes_S1x1x128_S128).view.read (Elt F) I.fi) rfl (I.hin 24 0 inb_S26x4x128_S1x1x128_24_0_0 squeezes_S1x1x128_S128))
def rowsAt24 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt23 I) (gp24 I) Finset.univ
def gp25 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 0, 0] S1x1x128.size inb_S26x4x128_S1x1x128_25_0_0) (fun _ => rfl)).squeeze S128 squeezes_S1x1x128_S128).view.read (Elt F) I.fi) rfl (I.hin 25 0 inb_S26x4x128_S1x1x128_25_0_0 squeezes_S1x1x128_S128))
def rowsAt25 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt24 I) (gp25 I) Finset.univ
def gp26 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 1, 0] S1x1x128.size inb_S26x4x128_S1x1x128_0_1_0) (fun _ => rfl)).squeeze S128 squeezes_S1x1x128_S128).view.read (Elt F) I.fi) rfl (I.hin 0 1 inb_S26x4x128_S1x1x128_0_1_0 squeezes_S1x1x128_S128))
def rowsAt26 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt25 I) (gp26 I) Finset.univ
def gp27 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 1, 0] S1x1x128.size inb_S26x4x128_S1x1x128_1_1_0) (fun _ => rfl)).squeeze S128 squeezes_S1x1x128_S128).view.read (Elt F) I.fi) rfl (I.hin 1 1 inb_S26x4x128_S1x1x128_1_1_0 squeezes_S1x1x128_S128))
def rowsAt27 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt26 I) (gp27 I) Finset.univ
def gp28 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 1, 0] S1x1x128.size inb_S26x4x128_S1x1x128_2_1_0) (fun _ => rfl)).squeeze S128 squeezes_S1x1x128_S128).view.read (Elt F) I.fi) rfl (I.hin 2 1 inb_S26x4x128_S1x1x128_2_1_0 squeezes_S1x1x128_S128))
def rowsAt28 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt27 I) (gp28 I) Finset.univ
def gp29 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 1, 0] S1x1x128.size inb_S26x4x128_S1x1x128_3_1_0) (fun _ => rfl)).squeeze S128 squeezes_S1x1x128_S128).view.read (Elt F) I.fi) rfl (I.hin 3 1 inb_S26x4x128_S1x1x128_3_1_0 squeezes_S1x1x128_S128))
def rowsAt29 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt28 I) (gp29 I) Finset.univ
def gp30 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 1, 0] S1x1x128.size inb_S26x4x128_S1x1x128_4_1_0) (fun _ => rfl)).squeeze S128 squeezes_S1x1x128_S128).view.read (Elt F) I.fi) rfl (I.hin 4 1 inb_S26x4x128_S1x1x128_4_1_0 squeezes_S1x1x128_S128))
def rowsAt30 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt29 I) (gp30 I) Finset.univ
def gp31 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 1, 0] S1x1x128.size inb_S26x4x128_S1x1x128_5_1_0) (fun _ => rfl)).squeeze S128 squeezes_S1x1x128_S128).view.read (Elt F) I.fi) rfl (I.hin 5 1 inb_S26x4x128_S1x1x128_5_1_0 squeezes_S1x1x128_S128))
def rowsAt31 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt30 I) (gp31 I) Finset.univ
def gp32 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 1, 0] S1x1x128.size inb_S26x4x128_S1x1x128_6_1_0) (fun _ => rfl)).squeeze S128 squeezes_S1x1x128_S128).view.read (Elt F) I.fi) rfl (I.hin 6 1 inb_S26x4x128_S1x1x128_6_1_0 squeezes_S1x1x128_S128))
def rowsAt32 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt31 I) (gp32 I) Finset.univ
def gp33 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 1, 0] S1x1x128.size inb_S26x4x128_S1x1x128_7_1_0) (fun _ => rfl)).squeeze S128 squeezes_S1x1x128_S128).view.read (Elt F) I.fi) rfl (I.hin 7 1 inb_S26x4x128_S1x1x128_7_1_0 squeezes_S1x1x128_S128))
def rowsAt33 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt32 I) (gp33 I) Finset.univ
def gp34 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 1, 0] S1x1x128.size inb_S26x4x128_S1x1x128_8_1_0) (fun _ => rfl)).squeeze S128 squeezes_S1x1x128_S128).view.read (Elt F) I.fi) rfl (I.hin 8 1 inb_S26x4x128_S1x1x128_8_1_0 squeezes_S1x1x128_S128))
def rowsAt34 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt33 I) (gp34 I) Finset.univ
def gp35 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 1, 0] S1x1x128.size inb_S26x4x128_S1x1x128_9_1_0) (fun _ => rfl)).squeeze S128 squeezes_S1x1x128_S128).view.read (Elt F) I.fi) rfl (I.hin 9 1 inb_S26x4x128_S1x1x128_9_1_0 squeezes_S1x1x128_S128))
def rowsAt35 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt34 I) (gp35 I) Finset.univ
def gp36 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 1, 0] S1x1x128.size inb_S26x4x128_S1x1x128_10_1_0) (fun _ => rfl)).squeeze S128 squeezes_S1x1x128_S128).view.read (Elt F) I.fi) rfl (I.hin 10 1 inb_S26x4x128_S1x1x128_10_1_0 squeezes_S1x1x128_S128))
def rowsAt36 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt35 I) (gp36 I) Finset.univ
def gp37 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 1, 0] S1x1x128.size inb_S26x4x128_S1x1x128_11_1_0) (fun _ => rfl)).squeeze S128 squeezes_S1x1x128_S128).view.read (Elt F) I.fi) rfl (I.hin 11 1 inb_S26x4x128_S1x1x128_11_1_0 squeezes_S1x1x128_S128))
def rowsAt37 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt36 I) (gp37 I) Finset.univ
def gp38 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 1, 0] S1x1x128.size inb_S26x4x128_S1x1x128_12_1_0) (fun _ => rfl)).squeeze S128 squeezes_S1x1x128_S128).view.read (Elt F) I.fi) rfl (I.hin 12 1 inb_S26x4x128_S1x1x128_12_1_0 squeezes_S1x1x128_S128))
def rowsAt38 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt37 I) (gp38 I) Finset.univ
def gp39 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 1, 0] S1x1x128.size inb_S26x4x128_S1x1x128_13_1_0) (fun _ => rfl)).squeeze S128 squeezes_S1x1x128_S128).view.read (Elt F) I.fi) rfl (I.hin 13 1 inb_S26x4x128_S1x1x128_13_1_0 squeezes_S1x1x128_S128))
def rowsAt39 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt38 I) (gp39 I) Finset.univ
def gp40 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 1, 0] S1x1x128.size inb_S26x4x128_S1x1x128_14_1_0) (fun _ => rfl)).squeeze S128 squeezes_S1x1x128_S128).view.read (Elt F) I.fi) rfl (I.hin 14 1 inb_S26x4x128_S1x1x128_14_1_0 squeezes_S1x1x128_S128))
def rowsAt40 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt39 I) (gp40 I) Finset.univ
def gp41 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 1, 0] S1x1x128.size inb_S26x4x128_S1x1x128_15_1_0) (fun _ => rfl)).squeeze S128 squeezes_S1x1x128_S128).view.read (Elt F) I.fi) rfl (I.hin 15 1 inb_S26x4x128_S1x1x128_15_1_0 squeezes_S1x1x128_S128))
def rowsAt41 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt40 I) (gp41 I) Finset.univ
def gp42 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 1, 0] S1x1x128.size inb_S26x4x128_S1x1x128_16_1_0) (fun _ => rfl)).squeeze S128 squeezes_S1x1x128_S128).view.read (Elt F) I.fi) rfl (I.hin 16 1 inb_S26x4x128_S1x1x128_16_1_0 squeezes_S1x1x128_S128))
def rowsAt42 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt41 I) (gp42 I) Finset.univ
def gp43 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 1, 0] S1x1x128.size inb_S26x4x128_S1x1x128_17_1_0) (fun _ => rfl)).squeeze S128 squeezes_S1x1x128_S128).view.read (Elt F) I.fi) rfl (I.hin 17 1 inb_S26x4x128_S1x1x128_17_1_0 squeezes_S1x1x128_S128))
def rowsAt43 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt42 I) (gp43 I) Finset.univ
def gp44 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 1, 0] S1x1x128.size inb_S26x4x128_S1x1x128_18_1_0) (fun _ => rfl)).squeeze S128 squeezes_S1x1x128_S128).view.read (Elt F) I.fi) rfl (I.hin 18 1 inb_S26x4x128_S1x1x128_18_1_0 squeezes_S1x1x128_S128))
def rowsAt44 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt43 I) (gp44 I) Finset.univ
def gp45 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 1, 0] S1x1x128.size inb_S26x4x128_S1x1x128_19_1_0) (fun _ => rfl)).squeeze S128 squeezes_S1x1x128_S128).view.read (Elt F) I.fi) rfl (I.hin 19 1 inb_S26x4x128_S1x1x128_19_1_0 squeezes_S1x1x128_S128))
def rowsAt45 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt44 I) (gp45 I) Finset.univ
def gp46 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 1, 0] S1x1x128.size inb_S26x4x128_S1x1x128_20_1_0) (fun _ => rfl)).squeeze S128 squeezes_S1x1x128_S128).view.read (Elt F) I.fi) rfl (I.hin 20 1 inb_S26x4x128_S1x1x128_20_1_0 squeezes_S1x1x128_S128))
def rowsAt46 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt45 I) (gp46 I) Finset.univ
def gp47 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 1, 0] S1x1x128.size inb_S26x4x128_S1x1x128_21_1_0) (fun _ => rfl)).squeeze S128 squeezes_S1x1x128_S128).view.read (Elt F) I.fi) rfl (I.hin 21 1 inb_S26x4x128_S1x1x128_21_1_0 squeezes_S1x1x128_S128))
def rowsAt47 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt46 I) (gp47 I) Finset.univ
def gp48 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 1, 0] S1x1x128.size inb_S26x4x128_S1x1x128_22_1_0) (fun _ => rfl)).squeeze S128 squeezes_S1x1x128_S128).view.read (Elt F) I.fi) rfl (I.hin 22 1 inb_S26x4x128_S1x1x128_22_1_0 squeezes_S1x1x128_S128))
def rowsAt48 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt47 I) (gp48 I) Finset.univ
def gp49 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 1, 0] S1x1x128.size inb_S26x4x128_S1x1x128_23_1_0) (fun _ => rfl)).squeeze S128 squeezes_S1x1x128_S128).view.read (Elt F) I.fi) rfl (I.hin 23 1 inb_S26x4x128_S1x1x128_23_1_0 squeezes_S1x1x128_S128))
def rowsAt49 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt48 I) (gp49 I) Finset.univ
def gp50 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 1, 0] S1x1x128.size inb_S26x4x128_S1x1x128_24_1_0) (fun _ => rfl)).squeeze S128 squeezes_S1x1x128_S128).view.read (Elt F) I.fi) rfl (I.hin 24 1 inb_S26x4x128_S1x1x128_24_1_0 squeezes_S1x1x128_S128))
def rowsAt50 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt49 I) (gp50 I) Finset.univ
def gp51 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 1, 0] S1x1x128.size inb_S26x4x128_S1x1x128_25_1_0) (fun _ => rfl)).squeeze S128 squeezes_S1x1x128_S128).view.read (Elt F) I.fi) rfl (I.hin 25 1 inb_S26x4x128_S1x1x128_25_1_0 squeezes_S1x1x128_S128))
def rowsAt51 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt50 I) (gp51 I) Finset.univ
def gp52 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 2, 0] S1x1x128.size inb_S26x4x128_S1x1x128_0_2_0) (fun _ => rfl)).squeeze S128 squeezes_S1x1x128_S128).view.read (Elt F) I.fi) rfl (I.hin 0 2 inb_S26x4x128_S1x1x128_0_2_0 squeezes_S1x1x128_S128))
def rowsAt52 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt51 I) (gp52 I) Finset.univ
def gp53 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 2, 0] S1x1x128.size inb_S26x4x128_S1x1x128_1_2_0) (fun _ => rfl)).squeeze S128 squeezes_S1x1x128_S128).view.read (Elt F) I.fi) rfl (I.hin 1 2 inb_S26x4x128_S1x1x128_1_2_0 squeezes_S1x1x128_S128))
def rowsAt53 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt52 I) (gp53 I) Finset.univ
def gp54 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 2, 0] S1x1x128.size inb_S26x4x128_S1x1x128_2_2_0) (fun _ => rfl)).squeeze S128 squeezes_S1x1x128_S128).view.read (Elt F) I.fi) rfl (I.hin 2 2 inb_S26x4x128_S1x1x128_2_2_0 squeezes_S1x1x128_S128))
def rowsAt54 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt53 I) (gp54 I) Finset.univ
def gp55 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 2, 0] S1x1x128.size inb_S26x4x128_S1x1x128_3_2_0) (fun _ => rfl)).squeeze S128 squeezes_S1x1x128_S128).view.read (Elt F) I.fi) rfl (I.hin 3 2 inb_S26x4x128_S1x1x128_3_2_0 squeezes_S1x1x128_S128))
def rowsAt55 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt54 I) (gp55 I) Finset.univ
def gp56 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 2, 0] S1x1x128.size inb_S26x4x128_S1x1x128_4_2_0) (fun _ => rfl)).squeeze S128 squeezes_S1x1x128_S128).view.read (Elt F) I.fi) rfl (I.hin 4 2 inb_S26x4x128_S1x1x128_4_2_0 squeezes_S1x1x128_S128))
def rowsAt56 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt55 I) (gp56 I) Finset.univ
def gp57 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 2, 0] S1x1x128.size inb_S26x4x128_S1x1x128_5_2_0) (fun _ => rfl)).squeeze S128 squeezes_S1x1x128_S128).view.read (Elt F) I.fi) rfl (I.hin 5 2 inb_S26x4x128_S1x1x128_5_2_0 squeezes_S1x1x128_S128))
def rowsAt57 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt56 I) (gp57 I) Finset.univ
def gp58 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 2, 0] S1x1x128.size inb_S26x4x128_S1x1x128_6_2_0) (fun _ => rfl)).squeeze S128 squeezes_S1x1x128_S128).view.read (Elt F) I.fi) rfl (I.hin 6 2 inb_S26x4x128_S1x1x128_6_2_0 squeezes_S1x1x128_S128))
def rowsAt58 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt57 I) (gp58 I) Finset.univ
def gp59 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 2, 0] S1x1x128.size inb_S26x4x128_S1x1x128_7_2_0) (fun _ => rfl)).squeeze S128 squeezes_S1x1x128_S128).view.read (Elt F) I.fi) rfl (I.hin 7 2 inb_S26x4x128_S1x1x128_7_2_0 squeezes_S1x1x128_S128))
def rowsAt59 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt58 I) (gp59 I) Finset.univ
def gp60 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 2, 0] S1x1x128.size inb_S26x4x128_S1x1x128_8_2_0) (fun _ => rfl)).squeeze S128 squeezes_S1x1x128_S128).view.read (Elt F) I.fi) rfl (I.hin 8 2 inb_S26x4x128_S1x1x128_8_2_0 squeezes_S1x1x128_S128))
def rowsAt60 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt59 I) (gp60 I) Finset.univ
def gp61 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 2, 0] S1x1x128.size inb_S26x4x128_S1x1x128_9_2_0) (fun _ => rfl)).squeeze S128 squeezes_S1x1x128_S128).view.read (Elt F) I.fi) rfl (I.hin 9 2 inb_S26x4x128_S1x1x128_9_2_0 squeezes_S1x1x128_S128))
def rowsAt61 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt60 I) (gp61 I) Finset.univ
def gp62 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 2, 0] S1x1x128.size inb_S26x4x128_S1x1x128_10_2_0) (fun _ => rfl)).squeeze S128 squeezes_S1x1x128_S128).view.read (Elt F) I.fi) rfl (I.hin 10 2 inb_S26x4x128_S1x1x128_10_2_0 squeezes_S1x1x128_S128))
def rowsAt62 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt61 I) (gp62 I) Finset.univ
def gp63 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 2, 0] S1x1x128.size inb_S26x4x128_S1x1x128_11_2_0) (fun _ => rfl)).squeeze S128 squeezes_S1x1x128_S128).view.read (Elt F) I.fi) rfl (I.hin 11 2 inb_S26x4x128_S1x1x128_11_2_0 squeezes_S1x1x128_S128))
def rowsAt63 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt62 I) (gp63 I) Finset.univ
def gp64 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 2, 0] S1x1x128.size inb_S26x4x128_S1x1x128_12_2_0) (fun _ => rfl)).squeeze S128 squeezes_S1x1x128_S128).view.read (Elt F) I.fi) rfl (I.hin 12 2 inb_S26x4x128_S1x1x128_12_2_0 squeezes_S1x1x128_S128))
def rowsAt64 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt63 I) (gp64 I) Finset.univ
def gp65 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 2, 0] S1x1x128.size inb_S26x4x128_S1x1x128_13_2_0) (fun _ => rfl)).squeeze S128 squeezes_S1x1x128_S128).view.read (Elt F) I.fi) rfl (I.hin 13 2 inb_S26x4x128_S1x1x128_13_2_0 squeezes_S1x1x128_S128))
def rowsAt65 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt64 I) (gp65 I) Finset.univ
def gp66 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 2, 0] S1x1x128.size inb_S26x4x128_S1x1x128_14_2_0) (fun _ => rfl)).squeeze S128 squeezes_S1x1x128_S128).view.read (Elt F) I.fi) rfl (I.hin 14 2 inb_S26x4x128_S1x1x128_14_2_0 squeezes_S1x1x128_S128))
def rowsAt66 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt65 I) (gp66 I) Finset.univ
def gp67 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 2, 0] S1x1x128.size inb_S26x4x128_S1x1x128_15_2_0) (fun _ => rfl)).squeeze S128 squeezes_S1x1x128_S128).view.read (Elt F) I.fi) rfl (I.hin 15 2 inb_S26x4x128_S1x1x128_15_2_0 squeezes_S1x1x128_S128))
def rowsAt67 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt66 I) (gp67 I) Finset.univ
def gp68 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 2, 0] S1x1x128.size inb_S26x4x128_S1x1x128_16_2_0) (fun _ => rfl)).squeeze S128 squeezes_S1x1x128_S128).view.read (Elt F) I.fi) rfl (I.hin 16 2 inb_S26x4x128_S1x1x128_16_2_0 squeezes_S1x1x128_S128))
def rowsAt68 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt67 I) (gp68 I) Finset.univ
def gp69 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 2, 0] S1x1x128.size inb_S26x4x128_S1x1x128_17_2_0) (fun _ => rfl)).squeeze S128 squeezes_S1x1x128_S128).view.read (Elt F) I.fi) rfl (I.hin 17 2 inb_S26x4x128_S1x1x128_17_2_0 squeezes_S1x1x128_S128))
def rowsAt69 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt68 I) (gp69 I) Finset.univ
def gp70 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 2, 0] S1x1x128.size inb_S26x4x128_S1x1x128_18_2_0) (fun _ => rfl)).squeeze S128 squeezes_S1x1x128_S128).view.read (Elt F) I.fi) rfl (I.hin 18 2 inb_S26x4x128_S1x1x128_18_2_0 squeezes_S1x1x128_S128))
def rowsAt70 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt69 I) (gp70 I) Finset.univ
def gp71 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 2, 0] S1x1x128.size inb_S26x4x128_S1x1x128_19_2_0) (fun _ => rfl)).squeeze S128 squeezes_S1x1x128_S128).view.read (Elt F) I.fi) rfl (I.hin 19 2 inb_S26x4x128_S1x1x128_19_2_0 squeezes_S1x1x128_S128))
def rowsAt71 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt70 I) (gp71 I) Finset.univ
def gp72 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 2, 0] S1x1x128.size inb_S26x4x128_S1x1x128_20_2_0) (fun _ => rfl)).squeeze S128 squeezes_S1x1x128_S128).view.read (Elt F) I.fi) rfl (I.hin 20 2 inb_S26x4x128_S1x1x128_20_2_0 squeezes_S1x1x128_S128))
def rowsAt72 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt71 I) (gp72 I) Finset.univ
def gp73 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 2, 0] S1x1x128.size inb_S26x4x128_S1x1x128_21_2_0) (fun _ => rfl)).squeeze S128 squeezes_S1x1x128_S128).view.read (Elt F) I.fi) rfl (I.hin 21 2 inb_S26x4x128_S1x1x128_21_2_0 squeezes_S1x1x128_S128))
def rowsAt73 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt72 I) (gp73 I) Finset.univ
def gp74 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 2, 0] S1x1x128.size inb_S26x4x128_S1x1x128_22_2_0) (fun _ => rfl)).squeeze S128 squeezes_S1x1x128_S128).view.read (Elt F) I.fi) rfl (I.hin 22 2 inb_S26x4x128_S1x1x128_22_2_0 squeezes_S1x1x128_S128))
def rowsAt74 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt73 I) (gp74 I) Finset.univ
def gp75 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 2, 0] S1x1x128.size inb_S26x4x128_S1x1x128_23_2_0) (fun _ => rfl)).squeeze S128 squeezes_S1x1x128_S128).view.read (Elt F) I.fi) rfl (I.hin 23 2 inb_S26x4x128_S1x1x128_23_2_0 squeezes_S1x1x128_S128))
def rowsAt75 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt74 I) (gp75 I) Finset.univ
def gp76 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 2, 0] S1x1x128.size inb_S26x4x128_S1x1x128_24_2_0) (fun _ => rfl)).squeeze S128 squeezes_S1x1x128_S128).view.read (Elt F) I.fi) rfl (I.hin 24 2 inb_S26x4x128_S1x1x128_24_2_0 squeezes_S1x1x128_S128))
def rowsAt76 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt75 I) (gp76 I) Finset.univ
def gp77 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 2, 0] S1x1x128.size inb_S26x4x128_S1x1x128_25_2_0) (fun _ => rfl)).squeeze S128 squeezes_S1x1x128_S128).view.read (Elt F) I.fi) rfl (I.hin 25 2 inb_S26x4x128_S1x1x128_25_2_0 squeezes_S1x1x128_S128))
def rowsAt77 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt76 I) (gp77 I) Finset.univ
def gp78 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 3, 0] S1x1x128.size inb_S26x4x128_S1x1x128_0_3_0) (fun _ => rfl)).squeeze S128 squeezes_S1x1x128_S128).view.read (Elt F) I.fi) rfl (I.hin 0 3 inb_S26x4x128_S1x1x128_0_3_0 squeezes_S1x1x128_S128))
def rowsAt78 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt77 I) (gp78 I) Finset.univ
def gp79 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 3, 0] S1x1x128.size inb_S26x4x128_S1x1x128_1_3_0) (fun _ => rfl)).squeeze S128 squeezes_S1x1x128_S128).view.read (Elt F) I.fi) rfl (I.hin 1 3 inb_S26x4x128_S1x1x128_1_3_0 squeezes_S1x1x128_S128))
def rowsAt79 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt78 I) (gp79 I) Finset.univ
def gp80 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 3, 0] S1x1x128.size inb_S26x4x128_S1x1x128_2_3_0) (fun _ => rfl)).squeeze S128 squeezes_S1x1x128_S128).view.read (Elt F) I.fi) rfl (I.hin 2 3 inb_S26x4x128_S1x1x128_2_3_0 squeezes_S1x1x128_S128))
def rowsAt80 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt79 I) (gp80 I) Finset.univ
def gp81 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 3, 0] S1x1x128.size inb_S26x4x128_S1x1x128_3_3_0) (fun _ => rfl)).squeeze S128 squeezes_S1x1x128_S128).view.read (Elt F) I.fi) rfl (I.hin 3 3 inb_S26x4x128_S1x1x128_3_3_0 squeezes_S1x1x128_S128))
def rowsAt81 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt80 I) (gp81 I) Finset.univ
def gp82 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 3, 0] S1x1x128.size inb_S26x4x128_S1x1x128_4_3_0) (fun _ => rfl)).squeeze S128 squeezes_S1x1x128_S128).view.read (Elt F) I.fi) rfl (I.hin 4 3 inb_S26x4x128_S1x1x128_4_3_0 squeezes_S1x1x128_S128))
def rowsAt82 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt81 I) (gp82 I) Finset.univ
def gp83 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 3, 0] S1x1x128.size inb_S26x4x128_S1x1x128_5_3_0) (fun _ => rfl)).squeeze S128 squeezes_S1x1x128_S128).view.read (Elt F) I.fi) rfl (I.hin 5 3 inb_S26x4x128_S1x1x128_5_3_0 squeezes_S1x1x128_S128))
def rowsAt83 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt82 I) (gp83 I) Finset.univ
def gp84 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 3, 0] S1x1x128.size inb_S26x4x128_S1x1x128_6_3_0) (fun _ => rfl)).squeeze S128 squeezes_S1x1x128_S128).view.read (Elt F) I.fi) rfl (I.hin 6 3 inb_S26x4x128_S1x1x128_6_3_0 squeezes_S1x1x128_S128))
def rowsAt84 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt83 I) (gp84 I) Finset.univ
def gp85 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 3, 0] S1x1x128.size inb_S26x4x128_S1x1x128_7_3_0) (fun _ => rfl)).squeeze S128 squeezes_S1x1x128_S128).view.read (Elt F) I.fi) rfl (I.hin 7 3 inb_S26x4x128_S1x1x128_7_3_0 squeezes_S1x1x128_S128))
def rowsAt85 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt84 I) (gp85 I) Finset.univ
def gp86 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 3, 0] S1x1x128.size inb_S26x4x128_S1x1x128_8_3_0) (fun _ => rfl)).squeeze S128 squeezes_S1x1x128_S128).view.read (Elt F) I.fi) rfl (I.hin 8 3 inb_S26x4x128_S1x1x128_8_3_0 squeezes_S1x1x128_S128))
def rowsAt86 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt85 I) (gp86 I) Finset.univ
def gp87 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 3, 0] S1x1x128.size inb_S26x4x128_S1x1x128_9_3_0) (fun _ => rfl)).squeeze S128 squeezes_S1x1x128_S128).view.read (Elt F) I.fi) rfl (I.hin 9 3 inb_S26x4x128_S1x1x128_9_3_0 squeezes_S1x1x128_S128))
def rowsAt87 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt86 I) (gp87 I) Finset.univ
def gp88 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 3, 0] S1x1x128.size inb_S26x4x128_S1x1x128_10_3_0) (fun _ => rfl)).squeeze S128 squeezes_S1x1x128_S128).view.read (Elt F) I.fi) rfl (I.hin 10 3 inb_S26x4x128_S1x1x128_10_3_0 squeezes_S1x1x128_S128))
def rowsAt88 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt87 I) (gp88 I) Finset.univ
def gp89 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 3, 0] S1x1x128.size inb_S26x4x128_S1x1x128_11_3_0) (fun _ => rfl)).squeeze S128 squeezes_S1x1x128_S128).view.read (Elt F) I.fi) rfl (I.hin 11 3 inb_S26x4x128_S1x1x128_11_3_0 squeezes_S1x1x128_S128))
def rowsAt89 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt88 I) (gp89 I) Finset.univ
def gp90 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 3, 0] S1x1x128.size inb_S26x4x128_S1x1x128_12_3_0) (fun _ => rfl)).squeeze S128 squeezes_S1x1x128_S128).view.read (Elt F) I.fi) rfl (I.hin 12 3 inb_S26x4x128_S1x1x128_12_3_0 squeezes_S1x1x128_S128))
def rowsAt90 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt89 I) (gp90 I) Finset.univ
def gp91 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 3, 0] S1x1x128.size inb_S26x4x128_S1x1x128_13_3_0) (fun _ => rfl)).squeeze S128 squeezes_S1x1x128_S128).view.read (Elt F) I.fi) rfl (I.hin 13 3 inb_S26x4x128_S1x1x128_13_3_0 squeezes_S1x1x128_S128))
def rowsAt91 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt90 I) (gp91 I) Finset.univ
def gp92 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 3, 0] S1x1x128.size inb_S26x4x128_S1x1x128_14_3_0) (fun _ => rfl)).squeeze S128 squeezes_S1x1x128_S128).view.read (Elt F) I.fi) rfl (I.hin 14 3 inb_S26x4x128_S1x1x128_14_3_0 squeezes_S1x1x128_S128))
def rowsAt92 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt91 I) (gp92 I) Finset.univ
def gp93 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 3, 0] S1x1x128.size inb_S26x4x128_S1x1x128_15_3_0) (fun _ => rfl)).squeeze S128 squeezes_S1x1x128_S128).view.read (Elt F) I.fi) rfl (I.hin 15 3 inb_S26x4x128_S1x1x128_15_3_0 squeezes_S1x1x128_S128))
def rowsAt93 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt92 I) (gp93 I) Finset.univ
def gp94 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 3, 0] S1x1x128.size inb_S26x4x128_S1x1x128_16_3_0) (fun _ => rfl)).squeeze S128 squeezes_S1x1x128_S128).view.read (Elt F) I.fi) rfl (I.hin 16 3 inb_S26x4x128_S1x1x128_16_3_0 squeezes_S1x1x128_S128))
def rowsAt94 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt93 I) (gp94 I) Finset.univ
def gp95 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 3, 0] S1x1x128.size inb_S26x4x128_S1x1x128_17_3_0) (fun _ => rfl)).squeeze S128 squeezes_S1x1x128_S128).view.read (Elt F) I.fi) rfl (I.hin 17 3 inb_S26x4x128_S1x1x128_17_3_0 squeezes_S1x1x128_S128))
def rowsAt95 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt94 I) (gp95 I) Finset.univ
def gp96 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 3, 0] S1x1x128.size inb_S26x4x128_S1x1x128_18_3_0) (fun _ => rfl)).squeeze S128 squeezes_S1x1x128_S128).view.read (Elt F) I.fi) rfl (I.hin 18 3 inb_S26x4x128_S1x1x128_18_3_0 squeezes_S1x1x128_S128))
def rowsAt96 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt95 I) (gp96 I) Finset.univ
def gp97 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 3, 0] S1x1x128.size inb_S26x4x128_S1x1x128_19_3_0) (fun _ => rfl)).squeeze S128 squeezes_S1x1x128_S128).view.read (Elt F) I.fi) rfl (I.hin 19 3 inb_S26x4x128_S1x1x128_19_3_0 squeezes_S1x1x128_S128))
def rowsAt97 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt96 I) (gp97 I) Finset.univ
def gp98 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 3, 0] S1x1x128.size inb_S26x4x128_S1x1x128_20_3_0) (fun _ => rfl)).squeeze S128 squeezes_S1x1x128_S128).view.read (Elt F) I.fi) rfl (I.hin 20 3 inb_S26x4x128_S1x1x128_20_3_0 squeezes_S1x1x128_S128))
def rowsAt98 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt97 I) (gp98 I) Finset.univ
def gp99 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 3, 0] S1x1x128.size inb_S26x4x128_S1x1x128_21_3_0) (fun _ => rfl)).squeeze S128 squeezes_S1x1x128_S128).view.read (Elt F) I.fi) rfl (I.hin 21 3 inb_S26x4x128_S1x1x128_21_3_0 squeezes_S1x1x128_S128))
def rowsAt99 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt98 I) (gp99 I) Finset.univ
def gp100 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 3, 0] S1x1x128.size inb_S26x4x128_S1x1x128_22_3_0) (fun _ => rfl)).squeeze S128 squeezes_S1x1x128_S128).view.read (Elt F) I.fi) rfl (I.hin 22 3 inb_S26x4x128_S1x1x128_22_3_0 squeezes_S1x1x128_S128))
def rowsAt100 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt99 I) (gp100 I) Finset.univ
def gp101 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 3, 0] S1x1x128.size inb_S26x4x128_S1x1x128_23_3_0) (fun _ => rfl)).squeeze S128 squeezes_S1x1x128_S128).view.read (Elt F) I.fi) rfl (I.hin 23 3 inb_S26x4x128_S1x1x128_23_3_0 squeezes_S1x1x128_S128))
def rowsAt101 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt100 I) (gp101 I) Finset.univ
def gp102 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 3, 0] S1x1x128.size inb_S26x4x128_S1x1x128_24_3_0) (fun _ => rfl)).squeeze S128 squeezes_S1x1x128_S128).view.read (Elt F) I.fi) rfl (I.hin 24 3 inb_S26x4x128_S1x1x128_24_3_0 squeezes_S1x1x128_S128))
def rowsAt102 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt101 I) (gp102 I) Finset.univ
def gp103 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 3, 0] S1x1x128.size inb_S26x4x128_S1x1x128_25_3_0) (fun _ => rfl)).squeeze S128 squeezes_S1x1x128_S128).view.read (Elt F) I.fi) rfl (I.hin 25 3 inb_S26x4x128_S1x1x128_25_3_0 squeezes_S1x1x128_S128))
def rowsAt103 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt102 I) (gp103 I) Finset.univ
def pay0 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt5 I))
def outAt0 : Buf (Elt F) ((V d (cVL L) (jVL L)).loc main_v26_scv) :=
  View.write (Elt F) ((Memref.whole main_v26_scv : Memref sig .scVector .hbm S16384x3328 .f32).slice (Rect.unit (s := S16384x3328) (k0_off2 L 0#32) S128x128.size (k0_off2_inb L hc 0)) (fun _ => rfl)).view I.fo (pay0 I) Finset.univ
def pay1 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt6 I))
def outAt1 : Buf (Elt F) ((V d (cVL L) (jVL L)).loc main_v26_scv) :=
  View.write (Elt F) ((Memref.whole main_v26_scv : Memref sig .scVector .hbm S16384x3328 .f32).slice (Rect.unit (s := S16384x3328) (k0_off3 L 0#32) S128x128.size (k0_off3_inb L hc 0)) (fun _ => rfl)).view (outAt0 I hc) (pay1 I) Finset.univ
def pay2 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt7 I))
def outAt2 : Buf (Elt F) ((V d (cVL L) (jVL L)).loc main_v26_scv) :=
  View.write (Elt F) ((Memref.whole main_v26_scv : Memref sig .scVector .hbm S16384x3328 .f32).slice (Rect.unit (s := S16384x3328) (k0_off4 L 0#32) S128x128.size (k0_off4_inb L hc 0)) (fun _ => rfl)).view (outAt1 I hc) (pay2 I) Finset.univ
def pay3 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt8 I))
def outAt3 : Buf (Elt F) ((V d (cVL L) (jVL L)).loc main_v26_scv) :=
  View.write (Elt F) ((Memref.whole main_v26_scv : Memref sig .scVector .hbm S16384x3328 .f32).slice (Rect.unit (s := S16384x3328) (k0_off5 L 0#32) S128x128.size (k0_off5_inb L hc 0)) (fun _ => rfl)).view (outAt2 I hc) (pay3 I) Finset.univ
def pay4 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt9 I))
def outAt4 : Buf (Elt F) ((V d (cVL L) (jVL L)).loc main_v26_scv) :=
  View.write (Elt F) ((Memref.whole main_v26_scv : Memref sig .scVector .hbm S16384x3328 .f32).slice (Rect.unit (s := S16384x3328) (k0_off6 L 0#32) S128x128.size (k0_off6_inb L hc 0)) (fun _ => rfl)).view (outAt3 I hc) (pay4 I) Finset.univ
def pay5 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt10 I))
def outAt5 : Buf (Elt F) ((V d (cVL L) (jVL L)).loc main_v26_scv) :=
  View.write (Elt F) ((Memref.whole main_v26_scv : Memref sig .scVector .hbm S16384x3328 .f32).slice (Rect.unit (s := S16384x3328) (k0_off7 L 0#32) S128x128.size (k0_off7_inb L hc 0)) (fun _ => rfl)).view (outAt4 I hc) (pay5 I) Finset.univ
def pay6 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt11 I))
def outAt6 : Buf (Elt F) ((V d (cVL L) (jVL L)).loc main_v26_scv) :=
  View.write (Elt F) ((Memref.whole main_v26_scv : Memref sig .scVector .hbm S16384x3328 .f32).slice (Rect.unit (s := S16384x3328) (k0_off8 L 0#32) S128x128.size (k0_off8_inb L hc 0)) (fun _ => rfl)).view (outAt5 I hc) (pay6 I) Finset.univ
def pay7 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt12 I))
def outAt7 : Buf (Elt F) ((V d (cVL L) (jVL L)).loc main_v26_scv) :=
  View.write (Elt F) ((Memref.whole main_v26_scv : Memref sig .scVector .hbm S16384x3328 .f32).slice (Rect.unit (s := S16384x3328) (k0_off9 L 0#32) S128x128.size (k0_off9_inb L hc 0)) (fun _ => rfl)).view (outAt6 I hc) (pay7 I) Finset.univ
def pay8 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt13 I))
def outAt8 : Buf (Elt F) ((V d (cVL L) (jVL L)).loc main_v26_scv) :=
  View.write (Elt F) ((Memref.whole main_v26_scv : Memref sig .scVector .hbm S16384x3328 .f32).slice (Rect.unit (s := S16384x3328) (k0_off10 L 0#32) S128x128.size (k0_off10_inb L hc 0)) (fun _ => rfl)).view (outAt7 I hc) (pay8 I) Finset.univ
def pay9 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt14 I))
def outAt9 : Buf (Elt F) ((V d (cVL L) (jVL L)).loc main_v26_scv) :=
  View.write (Elt F) ((Memref.whole main_v26_scv : Memref sig .scVector .hbm S16384x3328 .f32).slice (Rect.unit (s := S16384x3328) (k0_off11 L 0#32) S128x128.size (k0_off11_inb L hc 0)) (fun _ => rfl)).view (outAt8 I hc) (pay9 I) Finset.univ
def pay10 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt15 I))
def outAt10 : Buf (Elt F) ((V d (cVL L) (jVL L)).loc main_v26_scv) :=
  View.write (Elt F) ((Memref.whole main_v26_scv : Memref sig .scVector .hbm S16384x3328 .f32).slice (Rect.unit (s := S16384x3328) (k0_off12 L 0#32) S128x128.size (k0_off12_inb L hc 0)) (fun _ => rfl)).view (outAt9 I hc) (pay10 I) Finset.univ
def pay11 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt16 I))
def outAt11 : Buf (Elt F) ((V d (cVL L) (jVL L)).loc main_v26_scv) :=
  View.write (Elt F) ((Memref.whole main_v26_scv : Memref sig .scVector .hbm S16384x3328 .f32).slice (Rect.unit (s := S16384x3328) (k0_off13 L 0#32) S128x128.size (k0_off13_inb L hc 0)) (fun _ => rfl)).view (outAt10 I hc) (pay11 I) Finset.univ
def pay12 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt17 I))
def outAt12 : Buf (Elt F) ((V d (cVL L) (jVL L)).loc main_v26_scv) :=
  View.write (Elt F) ((Memref.whole main_v26_scv : Memref sig .scVector .hbm S16384x3328 .f32).slice (Rect.unit (s := S16384x3328) (k0_off14 L 0#32) S128x128.size (k0_off14_inb L hc 0)) (fun _ => rfl)).view (outAt11 I hc) (pay12 I) Finset.univ
def pay13 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt18 I))
def outAt13 : Buf (Elt F) ((V d (cVL L) (jVL L)).loc main_v26_scv) :=
  View.write (Elt F) ((Memref.whole main_v26_scv : Memref sig .scVector .hbm S16384x3328 .f32).slice (Rect.unit (s := S16384x3328) (k0_off15 L 0#32) S128x128.size (k0_off15_inb L hc 0)) (fun _ => rfl)).view (outAt12 I hc) (pay13 I) Finset.univ
def pay14 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt19 I))
def outAt14 : Buf (Elt F) ((V d (cVL L) (jVL L)).loc main_v26_scv) :=
  View.write (Elt F) ((Memref.whole main_v26_scv : Memref sig .scVector .hbm S16384x3328 .f32).slice (Rect.unit (s := S16384x3328) (k0_off16 L 0#32) S128x128.size (k0_off16_inb L hc 0)) (fun _ => rfl)).view (outAt13 I hc) (pay14 I) Finset.univ
def pay15 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt20 I))
def outAt15 : Buf (Elt F) ((V d (cVL L) (jVL L)).loc main_v26_scv) :=
  View.write (Elt F) ((Memref.whole main_v26_scv : Memref sig .scVector .hbm S16384x3328 .f32).slice (Rect.unit (s := S16384x3328) (k0_off17 L 0#32) S128x128.size (k0_off17_inb L hc 0)) (fun _ => rfl)).view (outAt14 I hc) (pay15 I) Finset.univ
def pay16 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt21 I))
def outAt16 : Buf (Elt F) ((V d (cVL L) (jVL L)).loc main_v26_scv) :=
  View.write (Elt F) ((Memref.whole main_v26_scv : Memref sig .scVector .hbm S16384x3328 .f32).slice (Rect.unit (s := S16384x3328) (k0_off18 L 0#32) S128x128.size (k0_off18_inb L hc 0)) (fun _ => rfl)).view (outAt15 I hc) (pay16 I) Finset.univ
def pay17 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt22 I))
def outAt17 : Buf (Elt F) ((V d (cVL L) (jVL L)).loc main_v26_scv) :=
  View.write (Elt F) ((Memref.whole main_v26_scv : Memref sig .scVector .hbm S16384x3328 .f32).slice (Rect.unit (s := S16384x3328) (k0_off19 L 0#32) S128x128.size (k0_off19_inb L hc 0)) (fun _ => rfl)).view (outAt16 I hc) (pay17 I) Finset.univ
def pay18 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt23 I))
def outAt18 : Buf (Elt F) ((V d (cVL L) (jVL L)).loc main_v26_scv) :=
  View.write (Elt F) ((Memref.whole main_v26_scv : Memref sig .scVector .hbm S16384x3328 .f32).slice (Rect.unit (s := S16384x3328) (k0_off20 L 0#32) S128x128.size (k0_off20_inb L hc 0)) (fun _ => rfl)).view (outAt17 I hc) (pay18 I) Finset.univ
def pay19 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt24 I))
def outAt19 : Buf (Elt F) ((V d (cVL L) (jVL L)).loc main_v26_scv) :=
  View.write (Elt F) ((Memref.whole main_v26_scv : Memref sig .scVector .hbm S16384x3328 .f32).slice (Rect.unit (s := S16384x3328) (k0_off21 L 0#32) S128x128.size (k0_off21_inb L hc 0)) (fun _ => rfl)).view (outAt18 I hc) (pay19 I) Finset.univ
def pay20 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt25 I))
def outAt20 : Buf (Elt F) ((V d (cVL L) (jVL L)).loc main_v26_scv) :=
  View.write (Elt F) ((Memref.whole main_v26_scv : Memref sig .scVector .hbm S16384x3328 .f32).slice (Rect.unit (s := S16384x3328) (k0_off22 L 0#32) S128x128.size (k0_off22_inb L hc 0)) (fun _ => rfl)).view (outAt19 I hc) (pay20 I) Finset.univ
def pay21 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt26 I))
def outAt21 : Buf (Elt F) ((V d (cVL L) (jVL L)).loc main_v26_scv) :=
  View.write (Elt F) ((Memref.whole main_v26_scv : Memref sig .scVector .hbm S16384x3328 .f32).slice (Rect.unit (s := S16384x3328) (k0_off23 L 0#32) S128x128.size (k0_off23_inb L hc 0)) (fun _ => rfl)).view (outAt20 I hc) (pay21 I) Finset.univ
def pay22 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt27 I))
def outAt22 : Buf (Elt F) ((V d (cVL L) (jVL L)).loc main_v26_scv) :=
  View.write (Elt F) ((Memref.whole main_v26_scv : Memref sig .scVector .hbm S16384x3328 .f32).slice (Rect.unit (s := S16384x3328) (k0_off24 L 0#32) S128x128.size (k0_off24_inb L hc 0)) (fun _ => rfl)).view (outAt21 I hc) (pay22 I) Finset.univ
def pay23 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt28 I))
def outAt23 : Buf (Elt F) ((V d (cVL L) (jVL L)).loc main_v26_scv) :=
  View.write (Elt F) ((Memref.whole main_v26_scv : Memref sig .scVector .hbm S16384x3328 .f32).slice (Rect.unit (s := S16384x3328) (k0_off25 L 0#32) S128x128.size (k0_off25_inb L hc 0)) (fun _ => rfl)).view (outAt22 I hc) (pay23 I) Finset.univ
def pay24 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt29 I))
def outAt24 : Buf (Elt F) ((V d (cVL L) (jVL L)).loc main_v26_scv) :=
  View.write (Elt F) ((Memref.whole main_v26_scv : Memref sig .scVector .hbm S16384x3328 .f32).slice (Rect.unit (s := S16384x3328) (k0_off26 L 0#32) S128x128.size (k0_off26_inb L hc 0)) (fun _ => rfl)).view (outAt23 I hc) (pay24 I) Finset.univ
def pay25 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt30 I))
def outAt25 : Buf (Elt F) ((V d (cVL L) (jVL L)).loc main_v26_scv) :=
  View.write (Elt F) ((Memref.whole main_v26_scv : Memref sig .scVector .hbm S16384x3328 .f32).slice (Rect.unit (s := S16384x3328) (k0_off27 L 0#32) S128x128.size (k0_off27_inb L hc 0)) (fun _ => rfl)).view (outAt24 I hc) (pay25 I) Finset.univ
def pay26 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt31 I))
def outAt26 : Buf (Elt F) ((V d (cVL L) (jVL L)).loc main_v26_scv) :=
  View.write (Elt F) ((Memref.whole main_v26_scv : Memref sig .scVector .hbm S16384x3328 .f32).slice (Rect.unit (s := S16384x3328) (k0_off2 L 128#32) S128x128.size (k0_off2_inb L hc 1)) (fun _ => rfl)).view (outAt25 I hc) (pay26 I) Finset.univ
def pay27 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt32 I))
def outAt27 : Buf (Elt F) ((V d (cVL L) (jVL L)).loc main_v26_scv) :=
  View.write (Elt F) ((Memref.whole main_v26_scv : Memref sig .scVector .hbm S16384x3328 .f32).slice (Rect.unit (s := S16384x3328) (k0_off3 L 128#32) S128x128.size (k0_off3_inb L hc 1)) (fun _ => rfl)).view (outAt26 I hc) (pay27 I) Finset.univ
def pay28 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt33 I))
def outAt28 : Buf (Elt F) ((V d (cVL L) (jVL L)).loc main_v26_scv) :=
  View.write (Elt F) ((Memref.whole main_v26_scv : Memref sig .scVector .hbm S16384x3328 .f32).slice (Rect.unit (s := S16384x3328) (k0_off4 L 128#32) S128x128.size (k0_off4_inb L hc 1)) (fun _ => rfl)).view (outAt27 I hc) (pay28 I) Finset.univ
def pay29 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt34 I))
def outAt29 : Buf (Elt F) ((V d (cVL L) (jVL L)).loc main_v26_scv) :=
  View.write (Elt F) ((Memref.whole main_v26_scv : Memref sig .scVector .hbm S16384x3328 .f32).slice (Rect.unit (s := S16384x3328) (k0_off5 L 128#32) S128x128.size (k0_off5_inb L hc 1)) (fun _ => rfl)).view (outAt28 I hc) (pay29 I) Finset.univ
def pay30 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt35 I))
def outAt30 : Buf (Elt F) ((V d (cVL L) (jVL L)).loc main_v26_scv) :=
  View.write (Elt F) ((Memref.whole main_v26_scv : Memref sig .scVector .hbm S16384x3328 .f32).slice (Rect.unit (s := S16384x3328) (k0_off6 L 128#32) S128x128.size (k0_off6_inb L hc 1)) (fun _ => rfl)).view (outAt29 I hc) (pay30 I) Finset.univ
def pay31 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt36 I))
def outAt31 : Buf (Elt F) ((V d (cVL L) (jVL L)).loc main_v26_scv) :=
  View.write (Elt F) ((Memref.whole main_v26_scv : Memref sig .scVector .hbm S16384x3328 .f32).slice (Rect.unit (s := S16384x3328) (k0_off7 L 128#32) S128x128.size (k0_off7_inb L hc 1)) (fun _ => rfl)).view (outAt30 I hc) (pay31 I) Finset.univ
def pay32 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt37 I))
def outAt32 : Buf (Elt F) ((V d (cVL L) (jVL L)).loc main_v26_scv) :=
  View.write (Elt F) ((Memref.whole main_v26_scv : Memref sig .scVector .hbm S16384x3328 .f32).slice (Rect.unit (s := S16384x3328) (k0_off8 L 128#32) S128x128.size (k0_off8_inb L hc 1)) (fun _ => rfl)).view (outAt31 I hc) (pay32 I) Finset.univ
def pay33 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt38 I))
def outAt33 : Buf (Elt F) ((V d (cVL L) (jVL L)).loc main_v26_scv) :=
  View.write (Elt F) ((Memref.whole main_v26_scv : Memref sig .scVector .hbm S16384x3328 .f32).slice (Rect.unit (s := S16384x3328) (k0_off9 L 128#32) S128x128.size (k0_off9_inb L hc 1)) (fun _ => rfl)).view (outAt32 I hc) (pay33 I) Finset.univ
def pay34 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt39 I))
def outAt34 : Buf (Elt F) ((V d (cVL L) (jVL L)).loc main_v26_scv) :=
  View.write (Elt F) ((Memref.whole main_v26_scv : Memref sig .scVector .hbm S16384x3328 .f32).slice (Rect.unit (s := S16384x3328) (k0_off10 L 128#32) S128x128.size (k0_off10_inb L hc 1)) (fun _ => rfl)).view (outAt33 I hc) (pay34 I) Finset.univ
def pay35 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt40 I))
def outAt35 : Buf (Elt F) ((V d (cVL L) (jVL L)).loc main_v26_scv) :=
  View.write (Elt F) ((Memref.whole main_v26_scv : Memref sig .scVector .hbm S16384x3328 .f32).slice (Rect.unit (s := S16384x3328) (k0_off11 L 128#32) S128x128.size (k0_off11_inb L hc 1)) (fun _ => rfl)).view (outAt34 I hc) (pay35 I) Finset.univ
def pay36 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt41 I))
def outAt36 : Buf (Elt F) ((V d (cVL L) (jVL L)).loc main_v26_scv) :=
  View.write (Elt F) ((Memref.whole main_v26_scv : Memref sig .scVector .hbm S16384x3328 .f32).slice (Rect.unit (s := S16384x3328) (k0_off12 L 128#32) S128x128.size (k0_off12_inb L hc 1)) (fun _ => rfl)).view (outAt35 I hc) (pay36 I) Finset.univ
def pay37 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt42 I))
def outAt37 : Buf (Elt F) ((V d (cVL L) (jVL L)).loc main_v26_scv) :=
  View.write (Elt F) ((Memref.whole main_v26_scv : Memref sig .scVector .hbm S16384x3328 .f32).slice (Rect.unit (s := S16384x3328) (k0_off13 L 128#32) S128x128.size (k0_off13_inb L hc 1)) (fun _ => rfl)).view (outAt36 I hc) (pay37 I) Finset.univ
def pay38 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt43 I))
def outAt38 : Buf (Elt F) ((V d (cVL L) (jVL L)).loc main_v26_scv) :=
  View.write (Elt F) ((Memref.whole main_v26_scv : Memref sig .scVector .hbm S16384x3328 .f32).slice (Rect.unit (s := S16384x3328) (k0_off14 L 128#32) S128x128.size (k0_off14_inb L hc 1)) (fun _ => rfl)).view (outAt37 I hc) (pay38 I) Finset.univ
def pay39 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt44 I))
def outAt39 : Buf (Elt F) ((V d (cVL L) (jVL L)).loc main_v26_scv) :=
  View.write (Elt F) ((Memref.whole main_v26_scv : Memref sig .scVector .hbm S16384x3328 .f32).slice (Rect.unit (s := S16384x3328) (k0_off15 L 128#32) S128x128.size (k0_off15_inb L hc 1)) (fun _ => rfl)).view (outAt38 I hc) (pay39 I) Finset.univ
def pay40 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt45 I))
def outAt40 : Buf (Elt F) ((V d (cVL L) (jVL L)).loc main_v26_scv) :=
  View.write (Elt F) ((Memref.whole main_v26_scv : Memref sig .scVector .hbm S16384x3328 .f32).slice (Rect.unit (s := S16384x3328) (k0_off16 L 128#32) S128x128.size (k0_off16_inb L hc 1)) (fun _ => rfl)).view (outAt39 I hc) (pay40 I) Finset.univ
def pay41 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt46 I))
def outAt41 : Buf (Elt F) ((V d (cVL L) (jVL L)).loc main_v26_scv) :=
  View.write (Elt F) ((Memref.whole main_v26_scv : Memref sig .scVector .hbm S16384x3328 .f32).slice (Rect.unit (s := S16384x3328) (k0_off17 L 128#32) S128x128.size (k0_off17_inb L hc 1)) (fun _ => rfl)).view (outAt40 I hc) (pay41 I) Finset.univ
def pay42 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt47 I))
def outAt42 : Buf (Elt F) ((V d (cVL L) (jVL L)).loc main_v26_scv) :=
  View.write (Elt F) ((Memref.whole main_v26_scv : Memref sig .scVector .hbm S16384x3328 .f32).slice (Rect.unit (s := S16384x3328) (k0_off18 L 128#32) S128x128.size (k0_off18_inb L hc 1)) (fun _ => rfl)).view (outAt41 I hc) (pay42 I) Finset.univ
def pay43 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt48 I))
def outAt43 : Buf (Elt F) ((V d (cVL L) (jVL L)).loc main_v26_scv) :=
  View.write (Elt F) ((Memref.whole main_v26_scv : Memref sig .scVector .hbm S16384x3328 .f32).slice (Rect.unit (s := S16384x3328) (k0_off19 L 128#32) S128x128.size (k0_off19_inb L hc 1)) (fun _ => rfl)).view (outAt42 I hc) (pay43 I) Finset.univ
def pay44 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt49 I))
def outAt44 : Buf (Elt F) ((V d (cVL L) (jVL L)).loc main_v26_scv) :=
  View.write (Elt F) ((Memref.whole main_v26_scv : Memref sig .scVector .hbm S16384x3328 .f32).slice (Rect.unit (s := S16384x3328) (k0_off20 L 128#32) S128x128.size (k0_off20_inb L hc 1)) (fun _ => rfl)).view (outAt43 I hc) (pay44 I) Finset.univ
def pay45 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt50 I))
def outAt45 : Buf (Elt F) ((V d (cVL L) (jVL L)).loc main_v26_scv) :=
  View.write (Elt F) ((Memref.whole main_v26_scv : Memref sig .scVector .hbm S16384x3328 .f32).slice (Rect.unit (s := S16384x3328) (k0_off21 L 128#32) S128x128.size (k0_off21_inb L hc 1)) (fun _ => rfl)).view (outAt44 I hc) (pay45 I) Finset.univ
def pay46 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt51 I))
def outAt46 : Buf (Elt F) ((V d (cVL L) (jVL L)).loc main_v26_scv) :=
  View.write (Elt F) ((Memref.whole main_v26_scv : Memref sig .scVector .hbm S16384x3328 .f32).slice (Rect.unit (s := S16384x3328) (k0_off22 L 128#32) S128x128.size (k0_off22_inb L hc 1)) (fun _ => rfl)).view (outAt45 I hc) (pay46 I) Finset.univ
def pay47 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt52 I))
def outAt47 : Buf (Elt F) ((V d (cVL L) (jVL L)).loc main_v26_scv) :=
  View.write (Elt F) ((Memref.whole main_v26_scv : Memref sig .scVector .hbm S16384x3328 .f32).slice (Rect.unit (s := S16384x3328) (k0_off23 L 128#32) S128x128.size (k0_off23_inb L hc 1)) (fun _ => rfl)).view (outAt46 I hc) (pay47 I) Finset.univ
def pay48 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt53 I))
def outAt48 : Buf (Elt F) ((V d (cVL L) (jVL L)).loc main_v26_scv) :=
  View.write (Elt F) ((Memref.whole main_v26_scv : Memref sig .scVector .hbm S16384x3328 .f32).slice (Rect.unit (s := S16384x3328) (k0_off24 L 128#32) S128x128.size (k0_off24_inb L hc 1)) (fun _ => rfl)).view (outAt47 I hc) (pay48 I) Finset.univ
def pay49 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt54 I))
def outAt49 : Buf (Elt F) ((V d (cVL L) (jVL L)).loc main_v26_scv) :=
  View.write (Elt F) ((Memref.whole main_v26_scv : Memref sig .scVector .hbm S16384x3328 .f32).slice (Rect.unit (s := S16384x3328) (k0_off25 L 128#32) S128x128.size (k0_off25_inb L hc 1)) (fun _ => rfl)).view (outAt48 I hc) (pay49 I) Finset.univ
def pay50 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt55 I))
def outAt50 : Buf (Elt F) ((V d (cVL L) (jVL L)).loc main_v26_scv) :=
  View.write (Elt F) ((Memref.whole main_v26_scv : Memref sig .scVector .hbm S16384x3328 .f32).slice (Rect.unit (s := S16384x3328) (k0_off26 L 128#32) S128x128.size (k0_off26_inb L hc 1)) (fun _ => rfl)).view (outAt49 I hc) (pay50 I) Finset.univ
def pay51 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt56 I))
def outAt51 : Buf (Elt F) ((V d (cVL L) (jVL L)).loc main_v26_scv) :=
  View.write (Elt F) ((Memref.whole main_v26_scv : Memref sig .scVector .hbm S16384x3328 .f32).slice (Rect.unit (s := S16384x3328) (k0_off27 L 128#32) S128x128.size (k0_off27_inb L hc 1)) (fun _ => rfl)).view (outAt50 I hc) (pay51 I) Finset.univ
def pay52 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt57 I))
def outAt52 : Buf (Elt F) ((V d (cVL L) (jVL L)).loc main_v26_scv) :=
  View.write (Elt F) ((Memref.whole main_v26_scv : Memref sig .scVector .hbm S16384x3328 .f32).slice (Rect.unit (s := S16384x3328) (k0_off2 L 256#32) S128x128.size (k0_off2_inb L hc 2)) (fun _ => rfl)).view (outAt51 I hc) (pay52 I) Finset.univ
def pay53 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt58 I))
def outAt53 : Buf (Elt F) ((V d (cVL L) (jVL L)).loc main_v26_scv) :=
  View.write (Elt F) ((Memref.whole main_v26_scv : Memref sig .scVector .hbm S16384x3328 .f32).slice (Rect.unit (s := S16384x3328) (k0_off3 L 256#32) S128x128.size (k0_off3_inb L hc 2)) (fun _ => rfl)).view (outAt52 I hc) (pay53 I) Finset.univ
def pay54 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt59 I))
def outAt54 : Buf (Elt F) ((V d (cVL L) (jVL L)).loc main_v26_scv) :=
  View.write (Elt F) ((Memref.whole main_v26_scv : Memref sig .scVector .hbm S16384x3328 .f32).slice (Rect.unit (s := S16384x3328) (k0_off4 L 256#32) S128x128.size (k0_off4_inb L hc 2)) (fun _ => rfl)).view (outAt53 I hc) (pay54 I) Finset.univ
def pay55 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt60 I))
def outAt55 : Buf (Elt F) ((V d (cVL L) (jVL L)).loc main_v26_scv) :=
  View.write (Elt F) ((Memref.whole main_v26_scv : Memref sig .scVector .hbm S16384x3328 .f32).slice (Rect.unit (s := S16384x3328) (k0_off5 L 256#32) S128x128.size (k0_off5_inb L hc 2)) (fun _ => rfl)).view (outAt54 I hc) (pay55 I) Finset.univ
def pay56 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt61 I))
def outAt56 : Buf (Elt F) ((V d (cVL L) (jVL L)).loc main_v26_scv) :=
  View.write (Elt F) ((Memref.whole main_v26_scv : Memref sig .scVector .hbm S16384x3328 .f32).slice (Rect.unit (s := S16384x3328) (k0_off6 L 256#32) S128x128.size (k0_off6_inb L hc 2)) (fun _ => rfl)).view (outAt55 I hc) (pay56 I) Finset.univ
def pay57 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt62 I))
def outAt57 : Buf (Elt F) ((V d (cVL L) (jVL L)).loc main_v26_scv) :=
  View.write (Elt F) ((Memref.whole main_v26_scv : Memref sig .scVector .hbm S16384x3328 .f32).slice (Rect.unit (s := S16384x3328) (k0_off7 L 256#32) S128x128.size (k0_off7_inb L hc 2)) (fun _ => rfl)).view (outAt56 I hc) (pay57 I) Finset.univ
def pay58 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt63 I))
def outAt58 : Buf (Elt F) ((V d (cVL L) (jVL L)).loc main_v26_scv) :=
  View.write (Elt F) ((Memref.whole main_v26_scv : Memref sig .scVector .hbm S16384x3328 .f32).slice (Rect.unit (s := S16384x3328) (k0_off8 L 256#32) S128x128.size (k0_off8_inb L hc 2)) (fun _ => rfl)).view (outAt57 I hc) (pay58 I) Finset.univ
def pay59 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt64 I))
def outAt59 : Buf (Elt F) ((V d (cVL L) (jVL L)).loc main_v26_scv) :=
  View.write (Elt F) ((Memref.whole main_v26_scv : Memref sig .scVector .hbm S16384x3328 .f32).slice (Rect.unit (s := S16384x3328) (k0_off9 L 256#32) S128x128.size (k0_off9_inb L hc 2)) (fun _ => rfl)).view (outAt58 I hc) (pay59 I) Finset.univ
def pay60 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt65 I))
def outAt60 : Buf (Elt F) ((V d (cVL L) (jVL L)).loc main_v26_scv) :=
  View.write (Elt F) ((Memref.whole main_v26_scv : Memref sig .scVector .hbm S16384x3328 .f32).slice (Rect.unit (s := S16384x3328) (k0_off10 L 256#32) S128x128.size (k0_off10_inb L hc 2)) (fun _ => rfl)).view (outAt59 I hc) (pay60 I) Finset.univ
def pay61 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt66 I))
def outAt61 : Buf (Elt F) ((V d (cVL L) (jVL L)).loc main_v26_scv) :=
  View.write (Elt F) ((Memref.whole main_v26_scv : Memref sig .scVector .hbm S16384x3328 .f32).slice (Rect.unit (s := S16384x3328) (k0_off11 L 256#32) S128x128.size (k0_off11_inb L hc 2)) (fun _ => rfl)).view (outAt60 I hc) (pay61 I) Finset.univ
def pay62 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt67 I))
def outAt62 : Buf (Elt F) ((V d (cVL L) (jVL L)).loc main_v26_scv) :=
  View.write (Elt F) ((Memref.whole main_v26_scv : Memref sig .scVector .hbm S16384x3328 .f32).slice (Rect.unit (s := S16384x3328) (k0_off12 L 256#32) S128x128.size (k0_off12_inb L hc 2)) (fun _ => rfl)).view (outAt61 I hc) (pay62 I) Finset.univ
def pay63 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt68 I))
def outAt63 : Buf (Elt F) ((V d (cVL L) (jVL L)).loc main_v26_scv) :=
  View.write (Elt F) ((Memref.whole main_v26_scv : Memref sig .scVector .hbm S16384x3328 .f32).slice (Rect.unit (s := S16384x3328) (k0_off13 L 256#32) S128x128.size (k0_off13_inb L hc 2)) (fun _ => rfl)).view (outAt62 I hc) (pay63 I) Finset.univ
def pay64 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt69 I))
def outAt64 : Buf (Elt F) ((V d (cVL L) (jVL L)).loc main_v26_scv) :=
  View.write (Elt F) ((Memref.whole main_v26_scv : Memref sig .scVector .hbm S16384x3328 .f32).slice (Rect.unit (s := S16384x3328) (k0_off14 L 256#32) S128x128.size (k0_off14_inb L hc 2)) (fun _ => rfl)).view (outAt63 I hc) (pay64 I) Finset.univ
def pay65 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt70 I))
def outAt65 : Buf (Elt F) ((V d (cVL L) (jVL L)).loc main_v26_scv) :=
  View.write (Elt F) ((Memref.whole main_v26_scv : Memref sig .scVector .hbm S16384x3328 .f32).slice (Rect.unit (s := S16384x3328) (k0_off15 L 256#32) S128x128.size (k0_off15_inb L hc 2)) (fun _ => rfl)).view (outAt64 I hc) (pay65 I) Finset.univ
def pay66 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt71 I))
def outAt66 : Buf (Elt F) ((V d (cVL L) (jVL L)).loc main_v26_scv) :=
  View.write (Elt F) ((Memref.whole main_v26_scv : Memref sig .scVector .hbm S16384x3328 .f32).slice (Rect.unit (s := S16384x3328) (k0_off16 L 256#32) S128x128.size (k0_off16_inb L hc 2)) (fun _ => rfl)).view (outAt65 I hc) (pay66 I) Finset.univ
def pay67 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt72 I))
def outAt67 : Buf (Elt F) ((V d (cVL L) (jVL L)).loc main_v26_scv) :=
  View.write (Elt F) ((Memref.whole main_v26_scv : Memref sig .scVector .hbm S16384x3328 .f32).slice (Rect.unit (s := S16384x3328) (k0_off17 L 256#32) S128x128.size (k0_off17_inb L hc 2)) (fun _ => rfl)).view (outAt66 I hc) (pay67 I) Finset.univ
def pay68 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt73 I))
def outAt68 : Buf (Elt F) ((V d (cVL L) (jVL L)).loc main_v26_scv) :=
  View.write (Elt F) ((Memref.whole main_v26_scv : Memref sig .scVector .hbm S16384x3328 .f32).slice (Rect.unit (s := S16384x3328) (k0_off18 L 256#32) S128x128.size (k0_off18_inb L hc 2)) (fun _ => rfl)).view (outAt67 I hc) (pay68 I) Finset.univ
def pay69 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt74 I))
def outAt69 : Buf (Elt F) ((V d (cVL L) (jVL L)).loc main_v26_scv) :=
  View.write (Elt F) ((Memref.whole main_v26_scv : Memref sig .scVector .hbm S16384x3328 .f32).slice (Rect.unit (s := S16384x3328) (k0_off19 L 256#32) S128x128.size (k0_off19_inb L hc 2)) (fun _ => rfl)).view (outAt68 I hc) (pay69 I) Finset.univ
def pay70 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt75 I))
def outAt70 : Buf (Elt F) ((V d (cVL L) (jVL L)).loc main_v26_scv) :=
  View.write (Elt F) ((Memref.whole main_v26_scv : Memref sig .scVector .hbm S16384x3328 .f32).slice (Rect.unit (s := S16384x3328) (k0_off20 L 256#32) S128x128.size (k0_off20_inb L hc 2)) (fun _ => rfl)).view (outAt69 I hc) (pay70 I) Finset.univ
def pay71 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt76 I))
def outAt71 : Buf (Elt F) ((V d (cVL L) (jVL L)).loc main_v26_scv) :=
  View.write (Elt F) ((Memref.whole main_v26_scv : Memref sig .scVector .hbm S16384x3328 .f32).slice (Rect.unit (s := S16384x3328) (k0_off21 L 256#32) S128x128.size (k0_off21_inb L hc 2)) (fun _ => rfl)).view (outAt70 I hc) (pay71 I) Finset.univ
def pay72 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt77 I))
def outAt72 : Buf (Elt F) ((V d (cVL L) (jVL L)).loc main_v26_scv) :=
  View.write (Elt F) ((Memref.whole main_v26_scv : Memref sig .scVector .hbm S16384x3328 .f32).slice (Rect.unit (s := S16384x3328) (k0_off22 L 256#32) S128x128.size (k0_off22_inb L hc 2)) (fun _ => rfl)).view (outAt71 I hc) (pay72 I) Finset.univ
def pay73 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt78 I))
def outAt73 : Buf (Elt F) ((V d (cVL L) (jVL L)).loc main_v26_scv) :=
  View.write (Elt F) ((Memref.whole main_v26_scv : Memref sig .scVector .hbm S16384x3328 .f32).slice (Rect.unit (s := S16384x3328) (k0_off23 L 256#32) S128x128.size (k0_off23_inb L hc 2)) (fun _ => rfl)).view (outAt72 I hc) (pay73 I) Finset.univ
def pay74 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt79 I))
def outAt74 : Buf (Elt F) ((V d (cVL L) (jVL L)).loc main_v26_scv) :=
  View.write (Elt F) ((Memref.whole main_v26_scv : Memref sig .scVector .hbm S16384x3328 .f32).slice (Rect.unit (s := S16384x3328) (k0_off24 L 256#32) S128x128.size (k0_off24_inb L hc 2)) (fun _ => rfl)).view (outAt73 I hc) (pay74 I) Finset.univ
def pay75 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt80 I))
def outAt75 : Buf (Elt F) ((V d (cVL L) (jVL L)).loc main_v26_scv) :=
  View.write (Elt F) ((Memref.whole main_v26_scv : Memref sig .scVector .hbm S16384x3328 .f32).slice (Rect.unit (s := S16384x3328) (k0_off25 L 256#32) S128x128.size (k0_off25_inb L hc 2)) (fun _ => rfl)).view (outAt74 I hc) (pay75 I) Finset.univ
def pay76 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt81 I))
def outAt76 : Buf (Elt F) ((V d (cVL L) (jVL L)).loc main_v26_scv) :=
  View.write (Elt F) ((Memref.whole main_v26_scv : Memref sig .scVector .hbm S16384x3328 .f32).slice (Rect.unit (s := S16384x3328) (k0_off26 L 256#32) S128x128.size (k0_off26_inb L hc 2)) (fun _ => rfl)).view (outAt75 I hc) (pay76 I) Finset.univ
def pay77 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt82 I))
def outAt77 : Buf (Elt F) ((V d (cVL L) (jVL L)).loc main_v26_scv) :=
  View.write (Elt F) ((Memref.whole main_v26_scv : Memref sig .scVector .hbm S16384x3328 .f32).slice (Rect.unit (s := S16384x3328) (k0_off27 L 256#32) S128x128.size (k0_off27_inb L hc 2)) (fun _ => rfl)).view (outAt76 I hc) (pay77 I) Finset.univ
def pay78 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt83 I))
def outAt78 : Buf (Elt F) ((V d (cVL L) (jVL L)).loc main_v26_scv) :=
  View.write (Elt F) ((Memref.whole main_v26_scv : Memref sig .scVector .hbm S16384x3328 .f32).slice (Rect.unit (s := S16384x3328) (k0_off2 L 384#32) S128x128.size (k0_off2_inb L hc 3)) (fun _ => rfl)).view (outAt77 I hc) (pay78 I) Finset.univ
def pay79 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt84 I))
def outAt79 : Buf (Elt F) ((V d (cVL L) (jVL L)).loc main_v26_scv) :=
  View.write (Elt F) ((Memref.whole main_v26_scv : Memref sig .scVector .hbm S16384x3328 .f32).slice (Rect.unit (s := S16384x3328) (k0_off3 L 384#32) S128x128.size (k0_off3_inb L hc 3)) (fun _ => rfl)).view (outAt78 I hc) (pay79 I) Finset.univ
def pay80 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt85 I))
def outAt80 : Buf (Elt F) ((V d (cVL L) (jVL L)).loc main_v26_scv) :=
  View.write (Elt F) ((Memref.whole main_v26_scv : Memref sig .scVector .hbm S16384x3328 .f32).slice (Rect.unit (s := S16384x3328) (k0_off4 L 384#32) S128x128.size (k0_off4_inb L hc 3)) (fun _ => rfl)).view (outAt79 I hc) (pay80 I) Finset.univ
def pay81 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt86 I))
def outAt81 : Buf (Elt F) ((V d (cVL L) (jVL L)).loc main_v26_scv) :=
  View.write (Elt F) ((Memref.whole main_v26_scv : Memref sig .scVector .hbm S16384x3328 .f32).slice (Rect.unit (s := S16384x3328) (k0_off5 L 384#32) S128x128.size (k0_off5_inb L hc 3)) (fun _ => rfl)).view (outAt80 I hc) (pay81 I) Finset.univ
def pay82 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt87 I))
def outAt82 : Buf (Elt F) ((V d (cVL L) (jVL L)).loc main_v26_scv) :=
  View.write (Elt F) ((Memref.whole main_v26_scv : Memref sig .scVector .hbm S16384x3328 .f32).slice (Rect.unit (s := S16384x3328) (k0_off6 L 384#32) S128x128.size (k0_off6_inb L hc 3)) (fun _ => rfl)).view (outAt81 I hc) (pay82 I) Finset.univ
def pay83 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt88 I))
def outAt83 : Buf (Elt F) ((V d (cVL L) (jVL L)).loc main_v26_scv) :=
  View.write (Elt F) ((Memref.whole main_v26_scv : Memref sig .scVector .hbm S16384x3328 .f32).slice (Rect.unit (s := S16384x3328) (k0_off7 L 384#32) S128x128.size (k0_off7_inb L hc 3)) (fun _ => rfl)).view (outAt82 I hc) (pay83 I) Finset.univ
def pay84 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt89 I))
def outAt84 : Buf (Elt F) ((V d (cVL L) (jVL L)).loc main_v26_scv) :=
  View.write (Elt F) ((Memref.whole main_v26_scv : Memref sig .scVector .hbm S16384x3328 .f32).slice (Rect.unit (s := S16384x3328) (k0_off8 L 384#32) S128x128.size (k0_off8_inb L hc 3)) (fun _ => rfl)).view (outAt83 I hc) (pay84 I) Finset.univ
def pay85 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt90 I))
def outAt85 : Buf (Elt F) ((V d (cVL L) (jVL L)).loc main_v26_scv) :=
  View.write (Elt F) ((Memref.whole main_v26_scv : Memref sig .scVector .hbm S16384x3328 .f32).slice (Rect.unit (s := S16384x3328) (k0_off9 L 384#32) S128x128.size (k0_off9_inb L hc 3)) (fun _ => rfl)).view (outAt84 I hc) (pay85 I) Finset.univ
def pay86 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt91 I))
def outAt86 : Buf (Elt F) ((V d (cVL L) (jVL L)).loc main_v26_scv) :=
  View.write (Elt F) ((Memref.whole main_v26_scv : Memref sig .scVector .hbm S16384x3328 .f32).slice (Rect.unit (s := S16384x3328) (k0_off10 L 384#32) S128x128.size (k0_off10_inb L hc 3)) (fun _ => rfl)).view (outAt85 I hc) (pay86 I) Finset.univ
def pay87 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt92 I))
def outAt87 : Buf (Elt F) ((V d (cVL L) (jVL L)).loc main_v26_scv) :=
  View.write (Elt F) ((Memref.whole main_v26_scv : Memref sig .scVector .hbm S16384x3328 .f32).slice (Rect.unit (s := S16384x3328) (k0_off11 L 384#32) S128x128.size (k0_off11_inb L hc 3)) (fun _ => rfl)).view (outAt86 I hc) (pay87 I) Finset.univ
def pay88 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt93 I))
def outAt88 : Buf (Elt F) ((V d (cVL L) (jVL L)).loc main_v26_scv) :=
  View.write (Elt F) ((Memref.whole main_v26_scv : Memref sig .scVector .hbm S16384x3328 .f32).slice (Rect.unit (s := S16384x3328) (k0_off12 L 384#32) S128x128.size (k0_off12_inb L hc 3)) (fun _ => rfl)).view (outAt87 I hc) (pay88 I) Finset.univ
def pay89 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt94 I))
def outAt89 : Buf (Elt F) ((V d (cVL L) (jVL L)).loc main_v26_scv) :=
  View.write (Elt F) ((Memref.whole main_v26_scv : Memref sig .scVector .hbm S16384x3328 .f32).slice (Rect.unit (s := S16384x3328) (k0_off13 L 384#32) S128x128.size (k0_off13_inb L hc 3)) (fun _ => rfl)).view (outAt88 I hc) (pay89 I) Finset.univ
def pay90 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt95 I))
def outAt90 : Buf (Elt F) ((V d (cVL L) (jVL L)).loc main_v26_scv) :=
  View.write (Elt F) ((Memref.whole main_v26_scv : Memref sig .scVector .hbm S16384x3328 .f32).slice (Rect.unit (s := S16384x3328) (k0_off14 L 384#32) S128x128.size (k0_off14_inb L hc 3)) (fun _ => rfl)).view (outAt89 I hc) (pay90 I) Finset.univ
def pay91 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt96 I))
def outAt91 : Buf (Elt F) ((V d (cVL L) (jVL L)).loc main_v26_scv) :=
  View.write (Elt F) ((Memref.whole main_v26_scv : Memref sig .scVector .hbm S16384x3328 .f32).slice (Rect.unit (s := S16384x3328) (k0_off15 L 384#32) S128x128.size (k0_off15_inb L hc 3)) (fun _ => rfl)).view (outAt90 I hc) (pay91 I) Finset.univ
def pay92 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt97 I))
def outAt92 : Buf (Elt F) ((V d (cVL L) (jVL L)).loc main_v26_scv) :=
  View.write (Elt F) ((Memref.whole main_v26_scv : Memref sig .scVector .hbm S16384x3328 .f32).slice (Rect.unit (s := S16384x3328) (k0_off16 L 384#32) S128x128.size (k0_off16_inb L hc 3)) (fun _ => rfl)).view (outAt91 I hc) (pay92 I) Finset.univ
def pay93 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt98 I))
def outAt93 : Buf (Elt F) ((V d (cVL L) (jVL L)).loc main_v26_scv) :=
  View.write (Elt F) ((Memref.whole main_v26_scv : Memref sig .scVector .hbm S16384x3328 .f32).slice (Rect.unit (s := S16384x3328) (k0_off17 L 384#32) S128x128.size (k0_off17_inb L hc 3)) (fun _ => rfl)).view (outAt92 I hc) (pay93 I) Finset.univ
def pay94 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt99 I))
def outAt94 : Buf (Elt F) ((V d (cVL L) (jVL L)).loc main_v26_scv) :=
  View.write (Elt F) ((Memref.whole main_v26_scv : Memref sig .scVector .hbm S16384x3328 .f32).slice (Rect.unit (s := S16384x3328) (k0_off18 L 384#32) S128x128.size (k0_off18_inb L hc 3)) (fun _ => rfl)).view (outAt93 I hc) (pay94 I) Finset.univ
def pay95 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt100 I))
def outAt95 : Buf (Elt F) ((V d (cVL L) (jVL L)).loc main_v26_scv) :=
  View.write (Elt F) ((Memref.whole main_v26_scv : Memref sig .scVector .hbm S16384x3328 .f32).slice (Rect.unit (s := S16384x3328) (k0_off19 L 384#32) S128x128.size (k0_off19_inb L hc 3)) (fun _ => rfl)).view (outAt94 I hc) (pay95 I) Finset.univ
def pay96 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt101 I))
def outAt96 : Buf (Elt F) ((V d (cVL L) (jVL L)).loc main_v26_scv) :=
  View.write (Elt F) ((Memref.whole main_v26_scv : Memref sig .scVector .hbm S16384x3328 .f32).slice (Rect.unit (s := S16384x3328) (k0_off20 L 384#32) S128x128.size (k0_off20_inb L hc 3)) (fun _ => rfl)).view (outAt95 I hc) (pay96 I) Finset.univ
def pay97 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt102 I))
def outAt97 : Buf (Elt F) ((V d (cVL L) (jVL L)).loc main_v26_scv) :=
  View.write (Elt F) ((Memref.whole main_v26_scv : Memref sig .scVector .hbm S16384x3328 .f32).slice (Rect.unit (s := S16384x3328) (k0_off21 L 384#32) S128x128.size (k0_off21_inb L hc 3)) (fun _ => rfl)).view (outAt96 I hc) (pay97 I) Finset.univ
def pay98 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt103 I))
def outAt98 : Buf (Elt F) ((V d (cVL L) (jVL L)).loc main_v26_scv) :=
  View.write (Elt F) ((Memref.whole main_v26_scv : Memref sig .scVector .hbm S16384x3328 .f32).slice (Rect.unit (s := S16384x3328) (k0_off22 L 384#32) S128x128.size (k0_off22_inb L hc 3)) (fun _ => rfl)).view (outAt97 I hc) (pay98 I) Finset.univ
def pay99 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt103 I))
def outAt99 : Buf (Elt F) ((V d (cVL L) (jVL L)).loc main_v26_scv) :=
  View.write (Elt F) ((Memref.whole main_v26_scv : Memref sig .scVector .hbm S16384x3328 .f32).slice (Rect.unit (s := S16384x3328) (k0_off23 L 384#32) S128x128.size (k0_off23_inb L hc 3)) (fun _ => rfl)).view (outAt98 I hc) (pay99 I) Finset.univ
def pay100 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt103 I))
def outAt100 : Buf (Elt F) ((V d (cVL L) (jVL L)).loc main_v26_scv) :=
  View.write (Elt F) ((Memref.whole main_v26_scv : Memref sig .scVector .hbm S16384x3328 .f32).slice (Rect.unit (s := S16384x3328) (k0_off24 L 384#32) S128x128.size (k0_off24_inb L hc 3)) (fun _ => rfl)).view (outAt99 I hc) (pay100 I) Finset.univ
def pay101 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt103 I))
def outAt101 : Buf (Elt F) ((V d (cVL L) (jVL L)).loc main_v26_scv) :=
  View.write (Elt F) ((Memref.whole main_v26_scv : Memref sig .scVector .hbm S16384x3328 .f32).slice (Rect.unit (s := S16384x3328) (k0_off25 L 384#32) S128x128.size (k0_off25_inb L hc 3)) (fun _ => rfl)).view (outAt100 I hc) (pay101 I) Finset.univ
def pay102 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt103 I))
def outAt102 : Buf (Elt F) ((V d (cVL L) (jVL L)).loc main_v26_scv) :=
  View.write (Elt F) ((Memref.whole main_v26_scv : Memref sig .scVector .hbm S16384x3328 .f32).slice (Rect.unit (s := S16384x3328) (k0_off26 L 384#32) S128x128.size (k0_off26_inb L hc 3)) (fun _ => rfl)).view (outAt101 I hc) (pay102 I) Finset.univ
def pay103 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt103 I))
def outAt103 : Buf (Elt F) ((V d (cVL L) (jVL L)).loc main_v26_scv) :=
  View.write (Elt F) ((Memref.whole main_v26_scv : Memref sig .scVector .hbm S16384x3328 .f32).slice (Rect.unit (s := S16384x3328) (k0_off27 L 384#32) S128x128.size (k0_off27_inb L hc 3)) (fun _ => rfl)).view (outAt102 I hc) (pay103 I) Finset.univ

end Cert.Proof.KI.Chain0

end
-- ==== Proof.ValStepKI.lean ====
import proofs.«204019_g4913442586959_cont_sun_m_672_34_alg».proof.Proof.SetupKI0
import proofs.«204019_g4913442586959_cont_sun_m_672_34_alg».proof.Proof.LibCover
import proofs.«204019_g4913442586959_cont_sun_m_672_34_alg».proof.Proof.ValueKI

/-!
  The steps of a tile's value argument, free of the tile's 104 items. The output after copy `n` is a whole write
  of item `n`'s slot through item `n`'s block over the output after copy `n - 1`; if the slot holds the specified
  values of the block, then the output holds the specified values on blocks `0 … n`. Item `n` is sub-chunk
  `n / 26` of table `(n % 26 + ph) % 26`, `ph` the phase of the tile's group; as `n` runs over `0 … 103` the
  blocks are all 104 blocks of the tile's rows.
-/

noncomputable section

namespace Cert.Proof.KI.Step

open Cert.KernelIdeal Cert.KernelIdeal.Gen

open Idealize.ShloMosaic
open Idealize.ShloMosaic.ValueIdx
open Cert.Proof.KI Cert.Proof.KI.Idx Cert.Proof.KI.Val

variable {F : FTy → Type}

local notation "sV" => (Memref.whole Cert.KernelIdeal.cc0_scratch0 : Memref Cert.KernelIdeal.sig Kind.scVector Space.vmem Cert.KernelIdeal.S26x4x128 EltTy.i32)
local notation "oV" => (Memref.whole Cert.KernelIdeal.main_v26_scv : Memref Cert.KernelIdeal.sig Kind.scVector Space.hbm Cert.KernelIdeal.S16384x3328 EltTy.f32)

/-- The sub-chunk and the table of item `n` of a group of phase `ph`. -/
def rOf (n : Nat) : Fin 4 := ⟨n / 26 % 4, Nat.mod_lt _ (by decide)⟩
def tOf (ph n : Nat) : Fin 26 := ⟨(n % 26 + ph) % 26, Nat.mod_lt _ (by decide)⟩

/-- The block of the output that item `n` of tile `L` fills. -/
def blkSet (L : grid0.Coords) (ph n : Nat) : Finset S16384x3328.Idx :=
  (LibCover.outBlk (L 0) (L 1) (rOf n) (tOf ph n)).set

/-- A table read through its full-size window is the table. -/
theorem read_full {κ : Kind} {sp : Space} {e : EltTy} {Val : EltTy → Type} (v : View sig κ sp S1000x128 e)
    (inb : ∀ a, (![0, 0] : Fin 2 → Nat) a + S1000x128.size a ≤ S1000x128.size a) (f : v.ty.Contents Val) :
    (v.slice (Rect.unit (s := S1000x128) ![0, 0] S1000x128.size inb)).read Val f = v.read Val f := by
  funext x
  rw [View.read_apply, View.read_apply]
  show _root_.cast _ (f (v.emb ((Rect.unit (s := S1000x128) ![0, 0] S1000x128.size inb).emb x))) = _
  have e1 : (Rect.unit (s := S1000x128) ![0, 0] S1000x128.size inb).emb x = x := by
    funext a; apply Fin.ext
    show (![0, 0] : Fin 2 → Nat) a + 1 * (x a : Nat) = (x a : Nat)
    match a with
    | ⟨0, _⟩ => show 0 + 1 * (x ⟨0, _⟩ : Nat) = _; omega
    | ⟨1, _⟩ => show 0 + 1 * (x ⟨1, _⟩ : Nat) = _; omega
  rw [e1]

/-- What item `(t, r)`'s copy carries is the specified block: the slot was gathered from table `t` by list
    `(t, r)` of the index scratch, and the block sits at rows `1024·L₁ + 512·L₀ + 128·r ..`, words `128·t ..`. -/
theorem item_payload (tbl : Fin 26 → S1000x128.Idx → Elt F .f32) (col : Fin 26 → Cert.Spec.ColS.Idx → BitVec 32)
    (hr : ∀ t b, (col t b).toNat < 1000) (L : grid0.Coords) (pay : Fin 26 → S4x128.Idx → Elt F .i32)
    (hpay : ∀ t (r : Fin 4) (p : Fin 128), pay t (ix2 r p) = col t (ix1 (outRow L r p)))
    (fi : S26x4x128.Idx → Elt F .i32) (hfi : fi = IDXV pay) (t : Fin 26) (r : Fin 4)
    (h1 : ∀ x, (![t.val, r.val, 0] : Fin 3 → Nat) x + S1x1x128.size x ≤ S26x4x128.size x)
    (h2 : (Rect.unit (s := S26x4x128) ![t.val, r.val, 0] S1x1x128.size h1).shape.Squeezes S128)
    (tblread : S1000x128.Idx → Elt F .f32) (htr : tblread = tbl t)
    (hn : S128.numel = S128x128.size (gathers_S1000x128_S128x128).axis')
    (hin : ∀ x, ((((sV).slice (Rect.unit (s := S26x4x128) ![t.val, r.val, 0] S1x1x128.size h1) (fun _ => rfl)).squeeze S128 h2).view.read (Elt F) fi x).toNat
      < S1000x128.size (gathers_S1000x128_S128x128).axis)
    (off : Fin 2 → Nat) (hoff : off = ![1024 * (L 1).val + 512 * (L 0).val + 128 * r.val, 128 * t.val])
    (inb : ∀ a, off a + S128x128.size a ≤ S16384x3328.size a)
    (Pj : S128x128.Idx → Elt F .f32)
    (hPj : Pj = SparseCore.gatherPayload (s₀ := S1000x128) (s := S128x128) gathers_S1000x128_S128x128 tblread
      (SparseCore.rows ((((sV).slice (Rect.unit (s := S26x4x128) ![t.val, r.val, 0] S1x1x128.size h1) (fun _ => rfl)).squeeze S128 h2).view.read (Elt F) fi) hn hin)) :
    ∀ y, Pj y = Cert.Spec.G tbl col ((Rect.unit (s := S16384x3328) off S128x128.size inb).emb y) := by
  subst hPj htr hoff hfi
  intro y
  obtain ⟨p, e, rfl⟩ : ∃ (p e : Fin 128), y = ix2 p e := ⟨y 0, y 1, eq_ix2 y⟩
  rw [slot_spec tbl col hr L pay hpay t r _ (fun p => list_read (IDXV pay) t.val r.val h1 h2 p) hn hin p e]
  refine congrArg (Cert.Spec.G tbl col) (funext fun a => Fin.ext ?_)
  match a with
  | ⟨0, _⟩ =>
    show 1024 * (L 1).val + 512 * (L 0).val + 128 * r.val + p.val = 1024 * (L 1).val + 512 * (L 0).val + 128 * r.val + 1 * p.val
    omega
  | ⟨1, _⟩ =>
    show 128 * t.val + e.val = 128 * t.val + 1 * e.val
    omega

/-- One more copy: a whole write of a slot that holds the specified values of block `n`, through block `n`, over an
    output that holds the specified values on blocks `0 … n - 1`, holds them on blocks `0 … n`. -/
theorem out_step (L : grid0.Coords) (ph : Nat) (G : S16384x3328.Idx → Elt F .f32) (n : Nat) (off : Fin 2 → Nat)
    (hoff : off = ![1024 * (L 1).val + 512 * (L 0).val + 128 * (rOf n).val, 128 * (tOf ph n).val])
    (inb : ∀ a, off a + S128x128.size a ≤ S16384x3328.size a)
    (X' : S16384x3328.Idx → Elt F .f32) (P : S128x128.Idx → Elt F .f32)
    (hP : ∀ y, P y = G ((Rect.unit (s := S16384x3328) off S128x128.size inb).emb y))
    (hX' : ∀ j' < n, ∀ i ∈ blkSet L ph j', X' i = G i) :
    ∀ j' < n + 1, ∀ i ∈ blkSet L ph j',
      View.write (Elt F) ((oV).slice (Rect.unit (s := S16384x3328) off S128x128.size inb) (fun _ => rfl)).view X' P Finset.univ i = G i := by
  intro j' hj' i hi
  have hset : ((oV).slice (Rect.unit (s := S16384x3328) off S128x128.size inb) (fun _ => rfl)).view.set = blkSet L ph n := by
    show ((View.whole (main_v26_scv : Ref sig .scVector)).slice (Rect.unit (s := S16384x3328) off S128x128.size inb)).set = _
    rw [View.set_slice_whole]
    subst hoff
    rfl
  by_cases hv : i ∈ ((oV).slice (Rect.unit (s := S16384x3328) off S128x128.size inb) (fun _ => rfl)).view.set
  · obtain ⟨y, -, rfl⟩ := Finset.mem_map.mp hv
    rw [View.write_emb_of_mem _ _ (Finset.mem_univ y)]
    show P y = G ((Rect.unit (s := S16384x3328) off S128x128.size inb).emb y)
    exact hP y
  · rw [View.write_of_not_mem _ _ _ (by rwa [View.setOn_univ])]
    rcases Nat.lt_succ_iff_lt_or_eq.mp hj' with h | h
    · exact hX' j' h i hi
    · subst h
      exact absurd (hset ▸ hi) hv

/-- The 104 blocks are all of the tile's rows. -/
theorem rows_covered' (c : Fin 2) (k : Fin 16) (ph : Nat) (hph : ph < 26) (i : LibCover.s₂.Idx)
    (hi : i ∈ (LibCover.outRect c k).set) : ∃ j' < 104, i ∈ (LibCover.outBlk c k (rOf j') (tOf ph j')).set := by
  rw [← LibCover.outBlk_cover] at hi
  obtain ⟨⟨r, t⟩, -, hrt⟩ := Finset.mem_biUnion.mp hi
  have hr4 := r.isLt
  have ht26 := t.isLt
  refine ⟨26 * r.val + (t.val + 26 - ph) % 26, by omega, ?_⟩
  have e1 : rOf (26 * r.val + (t.val + 26 - ph) % 26) = r := Fin.ext (by
    show (26 * r.val + (t.val + 26 - ph) % 26) / 26 % 4 = r.val
    omega)
  have e2 : tOf ph (26 * r.val + (t.val + 26 - ph) % 26) = t := Fin.ext (by
    show ((26 * r.val + (t.val + 26 - ph) % 26) % 26 + ph) % 26 = t.val
    omega)
  rw [e1, e2]
  exact hrt

theorem rows_covered (L : grid0.Coords) (ph : Nat) (hph : ph < 26) (i : S16384x3328.Idx)
    (hi : i ∈ (oV).view.setOn (oTR L).set) : ∃ j' < 104, i ∈ blkSet L ph j' := by
  have hi' : i ∈ (LibCover.outRect (L 0) (L 1)).set := by
    obtain ⟨x, hx, rfl⟩ := Finset.mem_map.mp hi
    exact hx
  exact rows_covered' (L 0) (L 1) ph hph i hi'

end Cert.Proof.KI.Step
-- ==== Proof.ValChainKI0.lean ====
import proofs.«204019_g4913442586959_cont_sun_m_672_34_alg».proof.Proof.ChainKI0
import proofs.«204019_g4913442586959_cont_sun_m_672_34_alg».proof.Proof.ValStepKI

/-!
  The value of a tile of group 0: after its 104 copies the tile's 512 rows of the output hold the specified values.
  Item j's copy carries its slot as the row scratch stands after gather min (j + 5, 103); the gathers issued after
  gather j went to other slots (slot numbers are taken modulo 7, and at most five gathers lie in between), so the
  slot still holds what gather j landed: entry (p, e) is entry e of the row of table t that word p of list (t, r) of
  the index scratch names. That word is entry 128·(8·L₁ + 4·L₀ + r) + p of column t, so the slot is the specified
  block at rows 1024·L₁ + 512·L₀ + 128·r .., words 128·t ... Copy by copy the output then holds the specified values
  on the blocks of items 0 .. j, and the 104 blocks are all of the tile's rows.
-/

noncomputable section

namespace Cert.Proof.KI.Chain0

open Cert.KernelIdeal Cert.KernelIdeal.Gen
open Idealize.ShloMosaic
open Idealize.ShloMosaic.SparseCore (S V T)
open Idealize.ShloMosaic.ValueIdx
open Cert.Proof.KI Cert.Proof.KI.Idx Cert.Proof.KI.Val

variable {F : FTy → Type} {d : Dev nD} {L : grid0.Coords} (I : TileIn F d L) (hc : k0_cond1 L = 1#1)

/-- What the value argument assumes of the run's start: the tables, the columns in range, the index scratch filled
    with the tile's four rows of each reshaped column. -/
structure Hyp (tbl : Fin 26 → S1000x128.Idx → Elt F .f32) (col : Fin 26 → Cert.Spec.ColS.Idx → BitVec 32)
    (pay : Fin 26 → S4x128.Idx → Elt F .i32) : Prop where
  ht0 : tbl 0 = I.ft0
  ht1 : tbl 1 = I.ft1
  ht2 : tbl 2 = I.ft2
  ht3 : tbl 3 = I.ft3
  ht4 : tbl 4 = I.ft4
  ht5 : tbl 5 = I.ft5
  ht6 : tbl 6 = I.ft6
  ht7 : tbl 7 = I.ft7
  ht8 : tbl 8 = I.ft8
  ht9 : tbl 9 = I.ft9
  ht10 : tbl 10 = I.ft10
  ht11 : tbl 11 = I.ft11
  ht12 : tbl 12 = I.ft12
  ht13 : tbl 13 = I.ft13
  ht14 : tbl 14 = I.ft14
  ht15 : tbl 15 = I.ft15
  ht16 : tbl 16 = I.ft16
  ht17 : tbl 17 = I.ft17
  ht18 : tbl 18 = I.ft18
  ht19 : tbl 19 = I.ft19
  ht20 : tbl 20 = I.ft20
  ht21 : tbl 21 = I.ft21
  ht22 : tbl 22 = I.ft22
  ht23 : tbl 23 = I.ft23
  ht24 : tbl 24 = I.ft24
  ht25 : tbl 25 = I.ft25
  hr : ∀ t b, (col t b).toNat < 1000
  hfi : I.fi = IDXV pay
  hpay : ∀ t (r : Fin 4) (p : Fin 128), pay t (ix2 r p) = col t (ix1 (outRow L r p))

variable {tbl : Fin 26 → S1000x128.Idx → Elt F .f32} {col : Fin 26 → Cert.Spec.ColS.Idx → BitVec 32} {pay : Fin 26 → S4x128.Idx → Elt F .i32}

theorem rd0 : (Rn 0 inb_S7x128x128_S1x128x128_0_0_0).view.read (Elt F) (rowsAt5 I) = gp0 I :=
  ((Rn_read_miss 0 5 inb_S7x128x128_S1x128x128_0_0_0 inb_S7x128x128_S1x128x128_5_0_0 (by decide) (rowsAt4 I) (gp5 I)).trans ((Rn_read_miss 0 4 inb_S7x128x128_S1x128x128_0_0_0 inb_S7x128x128_S1x128x128_4_0_0 (by decide) (rowsAt3 I) (gp4 I)).trans ((Rn_read_miss 0 3 inb_S7x128x128_S1x128x128_0_0_0 inb_S7x128x128_S1x128x128_3_0_0 (by decide) (rowsAt2 I) (gp3 I)).trans ((Rn_read_miss 0 2 inb_S7x128x128_S1x128x128_0_0_0 inb_S7x128x128_S1x128x128_2_0_0 (by decide) (rowsAt1 I) (gp2 I)).trans ((Rn_read_miss 0 1 inb_S7x128x128_S1x128x128_0_0_0 inb_S7x128x128_S1x128x128_1_0_0 (by decide) (rowsAt0 I) (gp1 I)).trans (Rn_read_hit 0 inb_S7x128x128_S1x128x128_0_0_0 I.fr (gp0 I)))))))
theorem payG0 (H : Hyp I tbl col pay) : ∀ y, pay0 I y = Cert.Spec.G tbl col ((Rect.unit (s := S16384x3328) (k0_off2 L 0#32) S128x128.size (k0_off2_inb L hc 0)).emb y) :=
  Step.item_payload tbl col H.hr L pay H.hpay I.fi H.hfi 0 0 inb_S26x4x128_S1x1x128_0_0_0 squeezes_S1x1x128_S128
    _ ((Step.read_full (View.whole main_arg26_scv) inb_S1000x128_S1000x128_0_0 I.ft0).trans H.ht0.symm)
    rfl (I.hin 0 0 inb_S26x4x128_S1x1x128_0_0_0 squeezes_S1x1x128_S128) (k0_off2 L 0#32) (k0_off2_eq L 0) (k0_off2_inb L hc 0) (pay0 I) (rd0 I)
theorem inv0 (H : Hyp I tbl col pay) : ∀ j' < 1, ∀ i ∈ Step.blkSet L 0 j', outAt0 I hc i = Cert.Spec.G tbl col i :=
  Step.out_step L 0 (Cert.Spec.G tbl col) 0 (k0_off2 L 0#32) (k0_off2_eq L 0) (k0_off2_inb L hc 0) I.fo (pay0 I) (payG0 I hc H)
    (fun j' h => absurd h (Nat.not_lt_zero j'))
theorem rd1 : (Rn 1 inb_S7x128x128_S1x128x128_1_0_0).view.read (Elt F) (rowsAt6 I) = gp1 I :=
  ((Rn_read_miss 1 6 inb_S7x128x128_S1x128x128_1_0_0 inb_S7x128x128_S1x128x128_6_0_0 (by decide) (rowsAt5 I) (gp6 I)).trans ((Rn_read_miss 1 5 inb_S7x128x128_S1x128x128_1_0_0 inb_S7x128x128_S1x128x128_5_0_0 (by decide) (rowsAt4 I) (gp5 I)).trans ((Rn_read_miss 1 4 inb_S7x128x128_S1x128x128_1_0_0 inb_S7x128x128_S1x128x128_4_0_0 (by decide) (rowsAt3 I) (gp4 I)).trans ((Rn_read_miss 1 3 inb_S7x128x128_S1x128x128_1_0_0 inb_S7x128x128_S1x128x128_3_0_0 (by decide) (rowsAt2 I) (gp3 I)).trans ((Rn_read_miss 1 2 inb_S7x128x128_S1x128x128_1_0_0 inb_S7x128x128_S1x128x128_2_0_0 (by decide) (rowsAt1 I) (gp2 I)).trans (Rn_read_hit 1 inb_S7x128x128_S1x128x128_1_0_0 (rowsAt0 I) (gp1 I)))))))
theorem payG1 (H : Hyp I tbl col pay) : ∀ y, pay1 I y = Cert.Spec.G tbl col ((Rect.unit (s := S16384x3328) (k0_off3 L 0#32) S128x128.size (k0_off3_inb L hc 0)).emb y) :=
  Step.item_payload tbl col H.hr L pay H.hpay I.fi H.hfi 1 0 inb_S26x4x128_S1x1x128_1_0_0 squeezes_S1x1x128_S128
    _ ((Step.read_full (View.whole main_arg27_scv) inb_S1000x128_S1000x128_0_0 I.ft1).trans H.ht1.symm)
    rfl (I.hin 1 0 inb_S26x4x128_S1x1x128_1_0_0 squeezes_S1x1x128_S128) (k0_off3 L 0#32) (k0_off3_eq L 0) (k0_off3_inb L hc 0) (pay1 I) (rd1 I)
theorem inv1 (H : Hyp I tbl col pay) : ∀ j' < 2, ∀ i ∈ Step.blkSet L 0 j', outAt1 I hc i = Cert.Spec.G tbl col i :=
  Step.out_step L 0 (Cert.Spec.G tbl col) 1 (k0_off3 L 0#32) (k0_off3_eq L 0) (k0_off3_inb L hc 0) (outAt0 I hc) (pay1 I) (payG1 I hc H)
    (inv0 I hc H)
theorem rd2 : (Rn 2 inb_S7x128x128_S1x128x128_2_0_0).view.read (Elt F) (rowsAt7 I) = gp2 I :=
  ((Rn_read_miss 2 0 inb_S7x128x128_S1x128x128_2_0_0 inb_S7x128x128_S1x128x128_0_0_0 (by decide) (rowsAt6 I) (gp7 I)).trans ((Rn_read_miss 2 6 inb_S7x128x128_S1x128x128_2_0_0 inb_S7x128x128_S1x128x128_6_0_0 (by decide) (rowsAt5 I) (gp6 I)).trans ((Rn_read_miss 2 5 inb_S7x128x128_S1x128x128_2_0_0 inb_S7x128x128_S1x128x128_5_0_0 (by decide) (rowsAt4 I) (gp5 I)).trans ((Rn_read_miss 2 4 inb_S7x128x128_S1x128x128_2_0_0 inb_S7x128x128_S1x128x128_4_0_0 (by decide) (rowsAt3 I) (gp4 I)).trans ((Rn_read_miss 2 3 inb_S7x128x128_S1x128x128_2_0_0 inb_S7x128x128_S1x128x128_3_0_0 (by decide) (rowsAt2 I) (gp3 I)).trans (Rn_read_hit 2 inb_S7x128x128_S1x128x128_2_0_0 (rowsAt1 I) (gp2 I)))))))
theorem payG2 (H : Hyp I tbl col pay) : ∀ y, pay2 I y = Cert.Spec.G tbl col ((Rect.unit (s := S16384x3328) (k0_off4 L 0#32) S128x128.size (k0_off4_inb L hc 0)).emb y) :=
  Step.item_payload tbl col H.hr L pay H.hpay I.fi H.hfi 2 0 inb_S26x4x128_S1x1x128_2_0_0 squeezes_S1x1x128_S128
    _ ((Step.read_full (View.whole main_arg28_scv) inb_S1000x128_S1000x128_0_0 I.ft2).trans H.ht2.symm)
    rfl (I.hin 2 0 inb_S26x4x128_S1x1x128_2_0_0 squeezes_S1x1x128_S128) (k0_off4 L 0#32) (k0_off4_eq L 0) (k0_off4_inb L hc 0) (pay2 I) (rd2 I)
theorem inv2 (H : Hyp I tbl col pay) : ∀ j' < 3, ∀ i ∈ Step.blkSet L 0 j', outAt2 I hc i = Cert.Spec.G tbl col i :=
  Step.out_step L 0 (Cert.Spec.G tbl col) 2 (k0_off4 L 0#32) (k0_off4_eq L 0) (k0_off4_inb L hc 0) (outAt1 I hc) (pay2 I) (payG2 I hc H)
    (inv1 I hc H)
theorem rd3 : (Rn 3 inb_S7x128x128_S1x128x128_3_0_0).view.read (Elt F) (rowsAt8 I) = gp3 I :=
  ((Rn_read_miss 3 1 inb_S7x128x128_S1x128x128_3_0_0 inb_S7x128x128_S1x128x128_1_0_0 (by decide) (rowsAt7 I) (gp8 I)).trans ((Rn_read_miss 3 0 inb_S7x128x128_S1x128x128_3_0_0 inb_S7x128x128_S1x128x128_0_0_0 (by decide) (rowsAt6 I) (gp7 I)).trans ((Rn_read_miss 3 6 inb_S7x128x128_S1x128x128_3_0_0 inb_S7x128x128_S1x128x128_6_0_0 (by decide) (rowsAt5 I) (gp6 I)).trans ((Rn_read_miss 3 5 inb_S7x128x128_S1x128x128_3_0_0 inb_S7x128x128_S1x128x128_5_0_0 (by decide) (rowsAt4 I) (gp5 I)).trans ((Rn_read_miss 3 4 inb_S7x128x128_S1x128x128_3_0_0 inb_S7x128x128_S1x128x128_4_0_0 (by decide) (rowsAt3 I) (gp4 I)).trans (Rn_read_hit 3 inb_S7x128x128_S1x128x128_3_0_0 (rowsAt2 I) (gp3 I)))))))
theorem payG3 (H : Hyp I tbl col pay) : ∀ y, pay3 I y = Cert.Spec.G tbl col ((Rect.unit (s := S16384x3328) (k0_off5 L 0#32) S128x128.size (k0_off5_inb L hc 0)).emb y) :=
  Step.item_payload tbl col H.hr L pay H.hpay I.fi H.hfi 3 0 inb_S26x4x128_S1x1x128_3_0_0 squeezes_S1x1x128_S128
    _ ((Step.read_full (View.whole main_arg29_scv) inb_S1000x128_S1000x128_0_0 I.ft3).trans H.ht3.symm)
    rfl (I.hin 3 0 inb_S26x4x128_S1x1x128_3_0_0 squeezes_S1x1x128_S128) (k0_off5 L 0#32) (k0_off5_eq L 0) (k0_off5_inb L hc 0) (pay3 I) (rd3 I)
theorem inv3 (H : Hyp I tbl col pay) : ∀ j' < 4, ∀ i ∈ Step.blkSet L 0 j', outAt3 I hc i = Cert.Spec.G tbl col i :=
  Step.out_step L 0 (Cert.Spec.G tbl col) 3 (k0_off5 L 0#32) (k0_off5_eq L 0) (k0_off5_inb L hc 0) (outAt2 I hc) (pay3 I) (payG3 I hc H)
    (inv2 I hc H)
theorem rd4 : (Rn 4 inb_S7x128x128_S1x128x128_4_0_0).view.read (Elt F) (rowsAt9 I) = gp4 I :=
  ((Rn_read_miss 4 2 inb_S7x128x128_S1x128x128_4_0_0 inb_S7x128x128_S1x128x128_2_0_0 (by decide) (rowsAt8 I) (gp9 I)).trans ((Rn_read_miss 4 1 inb_S7x128x128_S1x128x128_4_0_0 inb_S7x128x128_S1x128x128_1_0_0 (by decide) (rowsAt7 I) (gp8 I)).trans ((Rn_read_miss 4 0 inb_S7x128x128_S1x128x128_4_0_0 inb_S7x128x128_S1x128x128_0_0_0 (by decide) (rowsAt6 I) (gp7 I)).trans ((Rn_read_miss 4 6 inb_S7x128x128_S1x128x128_4_0_0 inb_S7x128x128_S1x128x128_6_0_0 (by decide) (rowsAt5 I) (gp6 I)).trans ((Rn_read_miss 4 5 inb_S7x128x128_S1x128x128_4_0_0 inb_S7x128x128_S1x128x128_5_0_0 (by decide) (rowsAt4 I) (gp5 I)).trans (Rn_read_hit 4 inb_S7x128x128_S1x128x128_4_0_0 (rowsAt3 I) (gp4 I)))))))
theorem payG4 (H : Hyp I tbl col pay) : ∀ y, pay4 I y = Cert.Spec.G tbl col ((Rect.unit (s := S16384x3328) (k0_off6 L 0#32) S128x128.size (k0_off6_inb L hc 0)).emb y) :=
  Step.item_payload tbl col H.hr L pay H.hpay I.fi H.hfi 4 0 inb_S26x4x128_S1x1x128_4_0_0 squeezes_S1x1x128_S128
    _ ((Step.read_full (View.whole main_arg30_scv) inb_S1000x128_S1000x128_0_0 I.ft4).trans H.ht4.symm)
    rfl (I.hin 4 0 inb_S26x4x128_S1x1x128_4_0_0 squeezes_S1x1x128_S128) (k0_off6 L 0#32) (k0_off6_eq L 0) (k0_off6_inb L hc 0) (pay4 I) (rd4 I)
theorem inv4 (H : Hyp I tbl col pay) : ∀ j' < 5, ∀ i ∈ Step.blkSet L 0 j', outAt4 I hc i = Cert.Spec.G tbl col i :=
  Step.out_step L 0 (Cert.Spec.G tbl col) 4 (k0_off6 L 0#32) (k0_off6_eq L 0) (k0_off6_inb L hc 0) (outAt3 I hc) (pay4 I) (payG4 I hc H)
    (inv3 I hc H)
theorem rd5 : (Rn 5 inb_S7x128x128_S1x128x128_5_0_0).view.read (Elt F) (rowsAt10 I) = gp5 I :=
  ((Rn_read_miss 5 3 inb_S7x128x128_S1x128x128_5_0_0 inb_S7x128x128_S1x128x128_3_0_0 (by decide) (rowsAt9 I) (gp10 I)).trans ((Rn_read_miss 5 2 inb_S7x128x128_S1x128x128_5_0_0 inb_S7x128x128_S1x128x128_2_0_0 (by decide) (rowsAt8 I) (gp9 I)).trans ((Rn_read_miss 5 1 inb_S7x128x128_S1x128x128_5_0_0 inb_S7x128x128_S1x128x128_1_0_0 (by decide) (rowsAt7 I) (gp8 I)).trans ((Rn_read_miss 5 0 inb_S7x128x128_S1x128x128_5_0_0 inb_S7x128x128_S1x128x128_0_0_0 (by decide) (rowsAt6 I) (gp7 I)).trans ((Rn_read_miss 5 6 inb_S7x128x128_S1x128x128_5_0_0 inb_S7x128x128_S1x128x128_6_0_0 (by decide) (rowsAt5 I) (gp6 I)).trans (Rn_read_hit 5 inb_S7x128x128_S1x128x128_5_0_0 (rowsAt4 I) (gp5 I)))))))
theorem payG5 (H : Hyp I tbl col pay) : ∀ y, pay5 I y = Cert.Spec.G tbl col ((Rect.unit (s := S16384x3328) (k0_off7 L 0#32) S128x128.size (k0_off7_inb L hc 0)).emb y) :=
  Step.item_payload tbl col H.hr L pay H.hpay I.fi H.hfi 5 0 inb_S26x4x128_S1x1x128_5_0_0 squeezes_S1x1x128_S128
    _ ((Step.read_full (View.whole main_arg31_scv) inb_S1000x128_S1000x128_0_0 I.ft5).trans H.ht5.symm)
    rfl (I.hin 5 0 inb_S26x4x128_S1x1x128_5_0_0 squeezes_S1x1x128_S128) (k0_off7 L 0#32) (k0_off7_eq L 0) (k0_off7_inb L hc 0) (pay5 I) (rd5 I)
theorem inv5 (H : Hyp I tbl col pay) : ∀ j' < 6, ∀ i ∈ Step.blkSet L 0 j', outAt5 I hc i = Cert.Spec.G tbl col i :=
  Step.out_step L 0 (Cert.Spec.G tbl col) 5 (k0_off7 L 0#32) (k0_off7_eq L 0) (k0_off7_inb L hc 0) (outAt4 I hc) (pay5 I) (payG5 I hc H)
    (inv4 I hc H)
theorem rd6 : (Rn 6 inb_S7x128x128_S1x128x128_6_0_0).view.read (Elt F) (rowsAt11 I) = gp6 I :=
  ((Rn_read_miss 6 4 inb_S7x128x128_S1x128x128_6_0_0 inb_S7x128x128_S1x128x128_4_0_0 (by decide) (rowsAt10 I) (gp11 I)).trans ((Rn_read_miss 6 3 inb_S7x128x128_S1x128x128_6_0_0 inb_S7x128x128_S1x128x128_3_0_0 (by decide) (rowsAt9 I) (gp10 I)).trans ((Rn_read_miss 6 2 inb_S7x128x128_S1x128x128_6_0_0 inb_S7x128x128_S1x128x128_2_0_0 (by decide) (rowsAt8 I) (gp9 I)).trans ((Rn_read_miss 6 1 inb_S7x128x128_S1x128x128_6_0_0 inb_S7x128x128_S1x128x128_1_0_0 (by decide) (rowsAt7 I) (gp8 I)).trans ((Rn_read_miss 6 0 inb_S7x128x128_S1x128x128_6_0_0 inb_S7x128x128_S1x128x128_0_0_0 (by decide) (rowsAt6 I) (gp7 I)).trans (Rn_read_hit 6 inb_S7x128x128_S1x128x128_6_0_0 (rowsAt5 I) (gp6 I)))))))
theorem payG6 (H : Hyp I tbl col pay) : ∀ y, pay6 I y = Cert.Spec.G tbl col ((Rect.unit (s := S16384x3328) (k0_off8 L 0#32) S128x128.size (k0_off8_inb L hc 0)).emb y) :=
  Step.item_payload tbl col H.hr L pay H.hpay I.fi H.hfi 6 0 inb_S26x4x128_S1x1x128_6_0_0 squeezes_S1x1x128_S128
    _ ((Step.read_full (View.whole main_arg32_scv) inb_S1000x128_S1000x128_0_0 I.ft6).trans H.ht6.symm)
    rfl (I.hin 6 0 inb_S26x4x128_S1x1x128_6_0_0 squeezes_S1x1x128_S128) (k0_off8 L 0#32) (k0_off8_eq L 0) (k0_off8_inb L hc 0) (pay6 I) (rd6 I)
theorem inv6 (H : Hyp I tbl col pay) : ∀ j' < 7, ∀ i ∈ Step.blkSet L 0 j', outAt6 I hc i = Cert.Spec.G tbl col i :=
  Step.out_step L 0 (Cert.Spec.G tbl col) 6 (k0_off8 L 0#32) (k0_off8_eq L 0) (k0_off8_inb L hc 0) (outAt5 I hc) (pay6 I) (payG6 I hc H)
    (inv5 I hc H)
theorem rd7 : (Rn 0 inb_S7x128x128_S1x128x128_0_0_0).view.read (Elt F) (rowsAt12 I) = gp7 I :=
  ((Rn_read_miss 0 5 inb_S7x128x128_S1x128x128_0_0_0 inb_S7x128x128_S1x128x128_5_0_0 (by decide) (rowsAt11 I) (gp12 I)).trans ((Rn_read_miss 0 4 inb_S7x128x128_S1x128x128_0_0_0 inb_S7x128x128_S1x128x128_4_0_0 (by decide) (rowsAt10 I) (gp11 I)).trans ((Rn_read_miss 0 3 inb_S7x128x128_S1x128x128_0_0_0 inb_S7x128x128_S1x128x128_3_0_0 (by decide) (rowsAt9 I) (gp10 I)).trans ((Rn_read_miss 0 2 inb_S7x128x128_S1x128x128_0_0_0 inb_S7x128x128_S1x128x128_2_0_0 (by decide) (rowsAt8 I) (gp9 I)).trans ((Rn_read_miss 0 1 inb_S7x128x128_S1x128x128_0_0_0 inb_S7x128x128_S1x128x128_1_0_0 (by decide) (rowsAt7 I) (gp8 I)).trans (Rn_read_hit 0 inb_S7x128x128_S1x128x128_0_0_0 (rowsAt6 I) (gp7 I)))))))
theorem payG7 (H : Hyp I tbl col pay) : ∀ y, pay7 I y = Cert.Spec.G tbl col ((Rect.unit (s := S16384x3328) (k0_off9 L 0#32) S128x128.size (k0_off9_inb L hc 0)).emb y) :=
  Step.item_payload tbl col H.hr L pay H.hpay I.fi H.hfi 7 0 inb_S26x4x128_S1x1x128_7_0_0 squeezes_S1x1x128_S128
    _ ((Step.read_full (View.whole main_arg33_scv) inb_S1000x128_S1000x128_0_0 I.ft7).trans H.ht7.symm)
    rfl (I.hin 7 0 inb_S26x4x128_S1x1x128_7_0_0 squeezes_S1x1x128_S128) (k0_off9 L 0#32) (k0_off9_eq L 0) (k0_off9_inb L hc 0) (pay7 I) (rd7 I)
theorem inv7 (H : Hyp I tbl col pay) : ∀ j' < 8, ∀ i ∈ Step.blkSet L 0 j', outAt7 I hc i = Cert.Spec.G tbl col i :=
  Step.out_step L 0 (Cert.Spec.G tbl col) 7 (k0_off9 L 0#32) (k0_off9_eq L 0) (k0_off9_inb L hc 0) (outAt6 I hc) (pay7 I) (payG7 I hc H)
    (inv6 I hc H)
theorem rd8 : (Rn 1 inb_S7x128x128_S1x128x128_1_0_0).view.read (Elt F) (rowsAt13 I) = gp8 I :=
  ((Rn_read_miss 1 6 inb_S7x128x128_S1x128x128_1_0_0 inb_S7x128x128_S1x128x128_6_0_0 (by decide) (rowsAt12 I) (gp13 I)).trans ((Rn_read_miss 1 5 inb_S7x128x128_S1x128x128_1_0_0 inb_S7x128x128_S1x128x128_5_0_0 (by decide) (rowsAt11 I) (gp12 I)).trans ((Rn_read_miss 1 4 inb_S7x128x128_S1x128x128_1_0_0 inb_S7x128x128_S1x128x128_4_0_0 (by decide) (rowsAt10 I) (gp11 I)).trans ((Rn_read_miss 1 3 inb_S7x128x128_S1x128x128_1_0_0 inb_S7x128x128_S1x128x128_3_0_0 (by decide) (rowsAt9 I) (gp10 I)).trans ((Rn_read_miss 1 2 inb_S7x128x128_S1x128x128_1_0_0 inb_S7x128x128_S1x128x128_2_0_0 (by decide) (rowsAt8 I) (gp9 I)).trans (Rn_read_hit 1 inb_S7x128x128_S1x128x128_1_0_0 (rowsAt7 I) (gp8 I)))))))
theorem payG8 (H : Hyp I tbl col pay) : ∀ y, pay8 I y = Cert.Spec.G tbl col ((Rect.unit (s := S16384x3328) (k0_off10 L 0#32) S128x128.size (k0_off10_inb L hc 0)).emb y) :=
  Step.item_payload tbl col H.hr L pay H.hpay I.fi H.hfi 8 0 inb_S26x4x128_S1x1x128_8_0_0 squeezes_S1x1x128_S128
    _ ((Step.read_full (View.whole main_arg34_scv) inb_S1000x128_S1000x128_0_0 I.ft8).trans H.ht8.symm)
    rfl (I.hin 8 0 inb_S26x4x128_S1x1x128_8_0_0 squeezes_S1x1x128_S128) (k0_off10 L 0#32) (k0_off10_eq L 0) (k0_off10_inb L hc 0) (pay8 I) (rd8 I)
theorem inv8 (H : Hyp I tbl col pay) : ∀ j' < 9, ∀ i ∈ Step.blkSet L 0 j', outAt8 I hc i = Cert.Spec.G tbl col i :=
  Step.out_step L 0 (Cert.Spec.G tbl col) 8 (k0_off10 L 0#32) (k0_off10_eq L 0) (k0_off10_inb L hc 0) (outAt7 I hc) (pay8 I) (payG8 I hc H)
    (inv7 I hc H)
theorem rd9 : (Rn 2 inb_S7x128x128_S1x128x128_2_0_0).view.read (Elt F) (rowsAt14 I) = gp9 I :=
  ((Rn_read_miss 2 0 inb_S7x128x128_S1x128x128_2_0_0 inb_S7x128x128_S1x128x128_0_0_0 (by decide) (rowsAt13 I) (gp14 I)).trans ((Rn_read_miss 2 6 inb_S7x128x128_S1x128x128_2_0_0 inb_S7x128x128_S1x128x128_6_0_0 (by decide) (rowsAt12 I) (gp13 I)).trans ((Rn_read_miss 2 5 inb_S7x128x128_S1x128x128_2_0_0 inb_S7x128x128_S1x128x128_5_0_0 (by decide) (rowsAt11 I) (gp12 I)).trans ((Rn_read_miss 2 4 inb_S7x128x128_S1x128x128_2_0_0 inb_S7x128x128_S1x128x128_4_0_0 (by decide) (rowsAt10 I) (gp11 I)).trans ((Rn_read_miss 2 3 inb_S7x128x128_S1x128x128_2_0_0 inb_S7x128x128_S1x128x128_3_0_0 (by decide) (rowsAt9 I) (gp10 I)).trans (Rn_read_hit 2 inb_S7x128x128_S1x128x128_2_0_0 (rowsAt8 I) (gp9 I)))))))
theorem payG9 (H : Hyp I tbl col pay) : ∀ y, pay9 I y = Cert.Spec.G tbl col ((Rect.unit (s := S16384x3328) (k0_off11 L 0#32) S128x128.size (k0_off11_inb L hc 0)).emb y) :=
  Step.item_payload tbl col H.hr L pay H.hpay I.fi H.hfi 9 0 inb_S26x4x128_S1x1x128_9_0_0 squeezes_S1x1x128_S128
    _ ((Step.read_full (View.whole main_arg35_scv) inb_S1000x128_S1000x128_0_0 I.ft9).trans H.ht9.symm)
    rfl (I.hin 9 0 inb_S26x4x128_S1x1x128_9_0_0 squeezes_S1x1x128_S128) (k0_off11 L 0#32) (k0_off11_eq L 0) (k0_off11_inb L hc 0) (pay9 I) (rd9 I)
theorem inv9 (H : Hyp I tbl col pay) : ∀ j' < 10, ∀ i ∈ Step.blkSet L 0 j', outAt9 I hc i = Cert.Spec.G tbl col i :=
  Step.out_step L 0 (Cert.Spec.G tbl col) 9 (k0_off11 L 0#32) (k0_off11_eq L 0) (k0_off11_inb L hc 0) (outAt8 I hc) (pay9 I) (payG9 I hc H)
    (inv8 I hc H)
theorem rd10 : (Rn 3 inb_S7x128x128_S1x128x128_3_0_0).view.read (Elt F) (rowsAt15 I) = gp10 I :=
  ((Rn_read_miss 3 1 inb_S7x128x128_S1x128x128_3_0_0 inb_S7x128x128_S1x128x128_1_0_0 (by decide) (rowsAt14 I) (gp15 I)).trans ((Rn_read_miss 3 0 inb_S7x128x128_S1x128x128_3_0_0 inb_S7x128x128_S1x128x128_0_0_0 (by decide) (rowsAt13 I) (gp14 I)).trans ((Rn_read_miss 3 6 inb_S7x128x128_S1x128x128_3_0_0 inb_S7x128x128_S1x128x128_6_0_0 (by decide) (rowsAt12 I) (gp13 I)).trans ((Rn_read_miss 3 5 inb_S7x128x128_S1x128x128_3_0_0 inb_S7x128x128_S1x128x128_5_0_0 (by decide) (rowsAt11 I) (gp12 I)).trans ((Rn_read_miss 3 4 inb_S7x128x128_S1x128x128_3_0_0 inb_S7x128x128_S1x128x128_4_0_0 (by decide) (rowsAt10 I) (gp11 I)).trans (Rn_read_hit 3 inb_S7x128x128_S1x128x128_3_0_0 (rowsAt9 I) (gp10 I)))))))
theorem payG10 (H : Hyp I tbl col pay) : ∀ y, pay10 I y = Cert.Spec.G tbl col ((Rect.unit (s := S16384x3328) (k0_off12 L 0#32) S128x128.size (k0_off12_inb L hc 0)).emb y) :=
  Step.item_payload tbl col H.hr L pay H.hpay I.fi H.hfi 10 0 inb_S26x4x128_S1x1x128_10_0_0 squeezes_S1x1x128_S128
    _ ((Step.read_full (View.whole main_arg36_scv) inb_S1000x128_S1000x128_0_0 I.ft10).trans H.ht10.symm)
    rfl (I.hin 10 0 inb_S26x4x128_S1x1x128_10_0_0 squeezes_S1x1x128_S128) (k0_off12 L 0#32) (k0_off12_eq L 0) (k0_off12_inb L hc 0) (pay10 I) (rd10 I)
theorem inv10 (H : Hyp I tbl col pay) : ∀ j' < 11, ∀ i ∈ Step.blkSet L 0 j', outAt10 I hc i = Cert.Spec.G tbl col i :=
  Step.out_step L 0 (Cert.Spec.G tbl col) 10 (k0_off12 L 0#32) (k0_off12_eq L 0) (k0_off12_inb L hc 0) (outAt9 I hc) (pay10 I) (payG10 I hc H)
    (inv9 I hc H)
theorem rd11 : (Rn 4 inb_S7x128x128_S1x128x128_4_0_0).view.read (Elt F) (rowsAt16 I) = gp11 I :=
  ((Rn_read_miss 4 2 inb_S7x128x128_S1x128x128_4_0_0 inb_S7x128x128_S1x128x128_2_0_0 (by decide) (rowsAt15 I) (gp16 I)).trans ((Rn_read_miss 4 1 inb_S7x128x128_S1x128x128_4_0_0 inb_S7x128x128_S1x128x128_1_0_0 (by decide) (rowsAt14 I) (gp15 I)).trans ((Rn_read_miss 4 0 inb_S7x128x128_S1x128x128_4_0_0 inb_S7x128x128_S1x128x128_0_0_0 (by decide) (rowsAt13 I) (gp14 I)).trans ((Rn_read_miss 4 6 inb_S7x128x128_S1x128x128_4_0_0 inb_S7x128x128_S1x128x128_6_0_0 (by decide) (rowsAt12 I) (gp13 I)).trans ((Rn_read_miss 4 5 inb_S7x128x128_S1x128x128_4_0_0 inb_S7x128x128_S1x128x128_5_0_0 (by decide) (rowsAt11 I) (gp12 I)).trans (Rn_read_hit 4 inb_S7x128x128_S1x128x128_4_0_0 (rowsAt10 I) (gp11 I)))))))
theorem payG11 (H : Hyp I tbl col pay) : ∀ y, pay11 I y = Cert.Spec.G tbl col ((Rect.unit (s := S16384x3328) (k0_off13 L 0#32) S128x128.size (k0_off13_inb L hc 0)).emb y) :=
  Step.item_payload tbl col H.hr L pay H.hpay I.fi H.hfi 11 0 inb_S26x4x128_S1x1x128_11_0_0 squeezes_S1x1x128_S128
    _ ((Step.read_full (View.whole main_arg37_scv) inb_S1000x128_S1000x128_0_0 I.ft11).trans H.ht11.symm)
    rfl (I.hin 11 0 inb_S26x4x128_S1x1x128_11_0_0 squeezes_S1x1x128_S128) (k0_off13 L 0#32) (k0_off13_eq L 0) (k0_off13_inb L hc 0) (pay11 I) (rd11 I)
theorem inv11 (H : Hyp I tbl col pay) : ∀ j' < 12, ∀ i ∈ Step.blkSet L 0 j', outAt11 I hc i = Cert.Spec.G tbl col i :=
  Step.out_step L 0 (Cert.Spec.G tbl col) 11 (k0_off13 L 0#32) (k0_off13_eq L 0) (k0_off13_inb L hc 0) (outAt10 I hc) (pay11 I) (payG11 I hc H)
    (inv10 I hc H)
theorem rd12 : (Rn 5 inb_S7x128x128_S1x128x128_5_0_0).view.read (Elt F) (rowsAt17 I) = gp12 I :=
  ((Rn_read_miss 5 3 inb_S7x128x128_S1x128x128_5_0_0 inb_S7x128x128_S1x128x128_3_0_0 (by decide) (rowsAt16 I) (gp17 I)).trans ((Rn_read_miss 5 2 inb_S7x128x128_S1x128x128_5_0_0 inb_S7x128x128_S1x128x128_2_0_0 (by decide) (rowsAt15 I) (gp16 I)).trans ((Rn_read_miss 5 1 inb_S7x128x128_S1x128x128_5_0_0 inb_S7x128x128_S1x128x128_1_0_0 (by decide) (rowsAt14 I) (gp15 I)).trans ((Rn_read_miss 5 0 inb_S7x128x128_S1x128x128_5_0_0 inb_S7x128x128_S1x128x128_0_0_0 (by decide) (rowsAt13 I) (gp14 I)).trans ((Rn_read_miss 5 6 inb_S7x128x128_S1x128x128_5_0_0 inb_S7x128x128_S1x128x128_6_0_0 (by decide) (rowsAt12 I) (gp13 I)).trans (Rn_read_hit 5 inb_S7x128x128_S1x128x128_5_0_0 (rowsAt11 I) (gp12 I)))))))
theorem payG12 (H : Hyp I tbl col pay) : ∀ y, pay12 I y = Cert.Spec.G tbl col ((Rect.unit (s := S16384x3328) (k0_off14 L 0#32) S128x128.size (k0_off14_inb L hc 0)).emb y) :=
  Step.item_payload tbl col H.hr L pay H.hpay I.fi H.hfi 12 0 inb_S26x4x128_S1x1x128_12_0_0 squeezes_S1x1x128_S128
    _ ((Step.read_full (View.whole main_arg38_scv) inb_S1000x128_S1000x128_0_0 I.ft12).trans H.ht12.symm)
    rfl (I.hin 12 0 inb_S26x4x128_S1x1x128_12_0_0 squeezes_S1x1x128_S128) (k0_off14 L 0#32) (k0_off14_eq L 0) (k0_off14_inb L hc 0) (pay12 I) (rd12 I)
theorem inv12 (H : Hyp I tbl col pay) : ∀ j' < 13, ∀ i ∈ Step.blkSet L 0 j', outAt12 I hc i = Cert.Spec.G tbl col i :=
  Step.out_step L 0 (Cert.Spec.G tbl col) 12 (k0_off14 L 0#32) (k0_off14_eq L 0) (k0_off14_inb L hc 0) (outAt11 I hc) (pay12 I) (payG12 I hc H)
    (inv11 I hc H)
theorem rd13 : (Rn 6 inb_S7x128x128_S1x128x128_6_0_0).view.read (Elt F) (rowsAt18 I) = gp13 I :=
  ((Rn_read_miss 6 4 inb_S7x128x128_S1x128x128_6_0_0 inb_S7x128x128_S1x128x128_4_0_0 (by decide) (rowsAt17 I) (gp18 I)).trans ((Rn_read_miss 6 3 inb_S7x128x128_S1x128x128_6_0_0 inb_S7x128x128_S1x128x128_3_0_0 (by decide) (rowsAt16 I) (gp17 I)).trans ((Rn_read_miss 6 2 inb_S7x128x128_S1x128x128_6_0_0 inb_S7x128x128_S1x128x128_2_0_0 (by decide) (rowsAt15 I) (gp16 I)).trans ((Rn_read_miss 6 1 inb_S7x128x128_S1x128x128_6_0_0 inb_S7x128x128_S1x128x128_1_0_0 (by decide) (rowsAt14 I) (gp15 I)).trans ((Rn_read_miss 6 0 inb_S7x128x128_S1x128x128_6_0_0 inb_S7x128x128_S1x128x128_0_0_0 (by decide) (rowsAt13 I) (gp14 I)).trans (Rn_read_hit 6 inb_S7x128x128_S1x128x128_6_0_0 (rowsAt12 I) (gp13 I)))))))
theorem payG13 (H : Hyp I tbl col pay) : ∀ y, pay13 I y = Cert.Spec.G tbl col ((Rect.unit (s := S16384x3328) (k0_off15 L 0#32) S128x128.size (k0_off15_inb L hc 0)).emb y) :=
  Step.item_payload tbl col H.hr L pay H.hpay I.fi H.hfi 13 0 inb_S26x4x128_S1x1x128_13_0_0 squeezes_S1x1x128_S128
    _ ((Step.read_full (View.whole main_arg39_scv) inb_S1000x128_S1000x128_0_0 I.ft13).trans H.ht13.symm)
    rfl (I.hin 13 0 inb_S26x4x128_S1x1x128_13_0_0 squeezes_S1x1x128_S128) (k0_off15 L 0#32) (k0_off15_eq L 0) (k0_off15_inb L hc 0) (pay13 I) (rd13 I)
theorem inv13 (H : Hyp I tbl col pay) : ∀ j' < 14, ∀ i ∈ Step.blkSet L 0 j', outAt13 I hc i = Cert.Spec.G tbl col i :=
  Step.out_step L 0 (Cert.Spec.G tbl col) 13 (k0_off15 L 0#32) (k0_off15_eq L 0) (k0_off15_inb L hc 0) (outAt12 I hc) (pay13 I) (payG13 I hc H)
    (inv12 I hc H)
theorem rd14 : (Rn 0 inb_S7x128x128_S1x128x128_0_0_0).view.read (Elt F) (rowsAt19 I) = gp14 I :=
  ((Rn_read_miss 0 5 inb_S7x128x128_S1x128x128_0_0_0 inb_S7x128x128_S1x128x128_5_0_0 (by decide) (rowsAt18 I) (gp19 I)).trans ((Rn_read_miss 0 4 inb_S7x128x128_S1x128x128_0_0_0 inb_S7x128x128_S1x128x128_4_0_0 (by decide) (rowsAt17 I) (gp18 I)).trans ((Rn_read_miss 0 3 inb_S7x128x128_S1x128x128_0_0_0 inb_S7x128x128_S1x128x128_3_0_0 (by decide) (rowsAt16 I) (gp17 I)).trans ((Rn_read_miss 0 2 inb_S7x128x128_S1x128x128_0_0_0 inb_S7x128x128_S1x128x128_2_0_0 (by decide) (rowsAt15 I) (gp16 I)).trans ((Rn_read_miss 0 1 inb_S7x128x128_S1x128x128_0_0_0 inb_S7x128x128_S1x128x128_1_0_0 (by decide) (rowsAt14 I) (gp15 I)).trans (Rn_read_hit 0 inb_S7x128x128_S1x128x128_0_0_0 (rowsAt13 I) (gp14 I)))))))
theorem payG14 (H : Hyp I tbl col pay) : ∀ y, pay14 I y = Cert.Spec.G tbl col ((Rect.unit (s := S16384x3328) (k0_off16 L 0#32) S128x128.size (k0_off16_inb L hc 0)).emb y) :=
  Step.item_payload tbl col H.hr L pay H.hpay I.fi H.hfi 14 0 inb_S26x4x128_S1x1x128_14_0_0 squeezes_S1x1x128_S128
    _ ((Step.read_full (View.whole main_arg40_scv) inb_S1000x128_S1000x128_0_0 I.ft14).trans H.ht14.symm)
    rfl (I.hin 14 0 inb_S26x4x128_S1x1x128_14_0_0 squeezes_S1x1x128_S128) (k0_off16 L 0#32) (k0_off16_eq L 0) (k0_off16_inb L hc 0) (pay14 I) (rd14 I)
theorem inv14 (H : Hyp I tbl col pay) : ∀ j' < 15, ∀ i ∈ Step.blkSet L 0 j', outAt14 I hc i = Cert.Spec.G tbl col i :=
  Step.out_step L 0 (Cert.Spec.G tbl col) 14 (k0_off16 L 0#32) (k0_off16_eq L 0) (k0_off16_inb L hc 0) (outAt13 I hc) (pay14 I) (payG14 I hc H)
    (inv13 I hc H)
theorem rd15 : (Rn 1 inb_S7x128x128_S1x128x128_1_0_0).view.read (Elt F) (rowsAt20 I) = gp15 I :=
  ((Rn_read_miss 1 6 inb_S7x128x128_S1x128x128_1_0_0 inb_S7x128x128_S1x128x128_6_0_0 (by decide) (rowsAt19 I) (gp20 I)).trans ((Rn_read_miss 1 5 inb_S7x128x128_S1x128x128_1_0_0 inb_S7x128x128_S1x128x128_5_0_0 (by decide) (rowsAt18 I) (gp19 I)).trans ((Rn_read_miss 1 4 inb_S7x128x128_S1x128x128_1_0_0 inb_S7x128x128_S1x128x128_4_0_0 (by decide) (rowsAt17 I) (gp18 I)).trans ((Rn_read_miss 1 3 inb_S7x128x128_S1x128x128_1_0_0 inb_S7x128x128_S1x128x128_3_0_0 (by decide) (rowsAt16 I) (gp17 I)).trans ((Rn_read_miss 1 2 inb_S7x128x128_S1x128x128_1_0_0 inb_S7x128x128_S1x128x128_2_0_0 (by decide) (rowsAt15 I) (gp16 I)).trans (Rn_read_hit 1 inb_S7x128x128_S1x128x128_1_0_0 (rowsAt14 I) (gp15 I)))))))
theorem payG15 (H : Hyp I tbl col pay) : ∀ y, pay15 I y = Cert.Spec.G tbl col ((Rect.unit (s := S16384x3328) (k0_off17 L 0#32) S128x128.size (k0_off17_inb L hc 0)).emb y) :=
  Step.item_payload tbl col H.hr L pay H.hpay I.fi H.hfi 15 0 inb_S26x4x128_S1x1x128_15_0_0 squeezes_S1x1x128_S128
    _ ((Step.read_full (View.whole main_arg41_scv) inb_S1000x128_S1000x128_0_0 I.ft15).trans H.ht15.symm)
    rfl (I.hin 15 0 inb_S26x4x128_S1x1x128_15_0_0 squeezes_S1x1x128_S128) (k0_off17 L 0#32) (k0_off17_eq L 0) (k0_off17_inb L hc 0) (pay15 I) (rd15 I)
theorem inv15 (H : Hyp I tbl col pay) : ∀ j' < 16, ∀ i ∈ Step.blkSet L 0 j', outAt15 I hc i = Cert.Spec.G tbl col i :=
  Step.out_step L 0 (Cert.Spec.G tbl col) 15 (k0_off17 L 0#32) (k0_off17_eq L 0) (k0_off17_inb L hc 0) (outAt14 I hc) (pay15 I) (payG15 I hc H)
    (inv14 I hc H)
theorem rd16 : (Rn 2 inb_S7x128x128_S1x128x128_2_0_0).view.read (Elt F) (rowsAt21 I) = gp16 I :=
  ((Rn_read_miss 2 0 inb_S7x128x128_S1x128x128_2_0_0 inb_S7x128x128_S1x128x128_0_0_0 (by decide) (rowsAt20 I) (gp21 I)).trans ((Rn_read_miss 2 6 inb_S7x128x128_S1x128x128_2_0_0 inb_S7x128x128_S1x128x128_6_0_0 (by decide) (rowsAt19 I) (gp20 I)).trans ((Rn_read_miss 2 5 inb_S7x128x128_S1x128x128_2_0_0 inb_S7x128x128_S1x128x128_5_0_0 (by decide) (rowsAt18 I) (gp19 I)).trans ((Rn_read_miss 2 4 inb_S7x128x128_S1x128x128_2_0_0 inb_S7x128x128_S1x128x128_4_0_0 (by decide) (rowsAt17 I) (gp18 I)).trans ((Rn_read_miss 2 3 inb_S7x128x128_S1x128x128_2_0_0 inb_S7x128x128_S1x128x128_3_0_0 (by decide) (rowsAt16 I) (gp17 I)).trans (Rn_read_hit 2 inb_S7x128x128_S1x128x128_2_0_0 (rowsAt15 I) (gp16 I)))))))
theorem payG16 (H : Hyp I tbl col pay) : ∀ y, pay16 I y = Cert.Spec.G tbl col ((Rect.unit (s := S16384x3328) (k0_off18 L 0#32) S128x128.size (k0_off18_inb L hc 0)).emb y) :=
  Step.item_payload tbl col H.hr L pay H.hpay I.fi H.hfi 16 0 inb_S26x4x128_S1x1x128_16_0_0 squeezes_S1x1x128_S128
    _ ((Step.read_full (View.whole main_arg42_scv) inb_S1000x128_S1000x128_0_0 I.ft16).trans H.ht16.symm)
    rfl (I.hin 16 0 inb_S26x4x128_S1x1x128_16_0_0 squeezes_S1x1x128_S128) (k0_off18 L 0#32) (k0_off18_eq L 0) (k0_off18_inb L hc 0) (pay16 I) (rd16 I)
theorem inv16 (H : Hyp I tbl col pay) : ∀ j' < 17, ∀ i ∈ Step.blkSet L 0 j', outAt16 I hc i = Cert.Spec.G tbl col i :=
  Step.out_step L 0 (Cert.Spec.G tbl col) 16 (k0_off18 L 0#32) (k0_off18_eq L 0) (k0_off18_inb L hc 0) (outAt15 I hc) (pay16 I) (payG16 I hc H)
    (inv15 I hc H)
theorem rd17 : (Rn 3 inb_S7x128x128_S1x128x128_3_0_0).view.read (Elt F) (rowsAt22 I) = gp17 I :=
  ((Rn_read_miss 3 1 inb_S7x128x128_S1x128x128_3_0_0 inb_S7x128x128_S1x128x128_1_0_0 (by decide) (rowsAt21 I) (gp22 I)).trans ((Rn_read_miss 3 0 inb_S7x128x128_S1x128x128_3_0_0 inb_S7x128x128_S1x128x128_0_0_0 (by decide) (rowsAt20 I) (gp21 I)).trans ((Rn_read_miss 3 6 inb_S7x128x128_S1x128x128_3_0_0 inb_S7x128x128_S1x128x128_6_0_0 (by decide) (rowsAt19 I) (gp20 I)).trans ((Rn_read_miss 3 5 inb_S7x128x128_S1x128x128_3_0_0 inb_S7x128x128_S1x128x128_5_0_0 (by decide) (rowsAt18 I) (gp19 I)).trans ((Rn_read_miss 3 4 inb_S7x128x128_S1x128x128_3_0_0 inb_S7x128x128_S1x128x128_4_0_0 (by decide) (rowsAt17 I) (gp18 I)).trans (Rn_read_hit 3 inb_S7x128x128_S1x128x128_3_0_0 (rowsAt16 I) (gp17 I)))))))
theorem payG17 (H : Hyp I tbl col pay) : ∀ y, pay17 I y = Cert.Spec.G tbl col ((Rect.unit (s := S16384x3328) (k0_off19 L 0#32) S128x128.size (k0_off19_inb L hc 0)).emb y) :=
  Step.item_payload tbl col H.hr L pay H.hpay I.fi H.hfi 17 0 inb_S26x4x128_S1x1x128_17_0_0 squeezes_S1x1x128_S128
    _ ((Step.read_full (View.whole main_arg43_scv) inb_S1000x128_S1000x128_0_0 I.ft17).trans H.ht17.symm)
    rfl (I.hin 17 0 inb_S26x4x128_S1x1x128_17_0_0 squeezes_S1x1x128_S128) (k0_off19 L 0#32) (k0_off19_eq L 0) (k0_off19_inb L hc 0) (pay17 I) (rd17 I)
theorem inv17 (H : Hyp I tbl col pay) : ∀ j' < 18, ∀ i ∈ Step.blkSet L 0 j', outAt17 I hc i = Cert.Spec.G tbl col i :=
  Step.out_step L 0 (Cert.Spec.G tbl col) 17 (k0_off19 L 0#32) (k0_off19_eq L 0) (k0_off19_inb L hc 0) (outAt16 I hc) (pay17 I) (payG17 I hc H)
    (inv16 I hc H)
theorem rd18 : (Rn 4 inb_S7x128x128_S1x128x128_4_0_0).view.read (Elt F) (rowsAt23 I) = gp18 I :=
  ((Rn_read_miss 4 2 inb_S7x128x128_S1x128x128_4_0_0 inb_S7x128x128_S1x128x128_2_0_0 (by decide) (rowsAt22 I) (gp23 I)).trans ((Rn_read_miss 4 1 inb_S7x128x128_S1x128x128_4_0_0 inb_S7x128x128_S1x128x128_1_0_0 (by decide) (rowsAt21 I) (gp22 I)).trans ((Rn_read_miss 4 0 inb_S7x128x128_S1x128x128_4_0_0 inb_S7x128x128_S1x128x128_0_0_0 (by decide) (rowsAt20 I) (gp21 I)).trans ((Rn_read_miss 4 6 inb_S7x128x128_S1x128x128_4_0_0 inb_S7x128x128_S1x128x128_6_0_0 (by decide) (rowsAt19 I) (gp20 I)).trans ((Rn_read_miss 4 5 inb_S7x128x128_S1x128x128_4_0_0 inb_S7x128x128_S1x128x128_5_0_0 (by decide) (rowsAt18 I) (gp19 I)).trans (Rn_read_hit 4 inb_S7x128x128_S1x128x128_4_0_0 (rowsAt17 I) (gp18 I)))))))
theorem payG18 (H : Hyp I tbl col pay) : ∀ y, pay18 I y = Cert.Spec.G tbl col ((Rect.unit (s := S16384x3328) (k0_off20 L 0#32) S128x128.size (k0_off20_inb L hc 0)).emb y) :=
  Step.item_payload tbl col H.hr L pay H.hpay I.fi H.hfi 18 0 inb_S26x4x128_S1x1x128_18_0_0 squeezes_S1x1x128_S128
    _ ((Step.read_full (View.whole main_arg44_scv) inb_S1000x128_S1000x128_0_0 I.ft18).trans H.ht18.symm)
    rfl (I.hin 18 0 inb_S26x4x128_S1x1x128_18_0_0 squeezes_S1x1x128_S128) (k0_off20 L 0#32) (k0_off20_eq L 0) (k0_off20_inb L hc 0) (pay18 I) (rd18 I)
theorem inv18 (H : Hyp I tbl col pay) : ∀ j' < 19, ∀ i ∈ Step.blkSet L 0 j', outAt18 I hc i = Cert.Spec.G tbl col i :=
  Step.out_step L 0 (Cert.Spec.G tbl col) 18 (k0_off20 L 0#32) (k0_off20_eq L 0) (k0_off20_inb L hc 0) (outAt17 I hc) (pay18 I) (payG18 I hc H)
    (inv17 I hc H)
theorem rd19 : (Rn 5 inb_S7x128x128_S1x128x128_5_0_0).view.read (Elt F) (rowsAt24 I) = gp19 I :=
  ((Rn_read_miss 5 3 inb_S7x128x128_S1x128x128_5_0_0 inb_S7x128x128_S1x128x128_3_0_0 (by decide) (rowsAt23 I) (gp24 I)).trans ((Rn_read_miss 5 2 inb_S7x128x128_S1x128x128_5_0_0 inb_S7x128x128_S1x128x128_2_0_0 (by decide) (rowsAt22 I) (gp23 I)).trans ((Rn_read_miss 5 1 inb_S7x128x128_S1x128x128_5_0_0 inb_S7x128x128_S1x128x128_1_0_0 (by decide) (rowsAt21 I) (gp22 I)).trans ((Rn_read_miss 5 0 inb_S7x128x128_S1x128x128_5_0_0 inb_S7x128x128_S1x128x128_0_0_0 (by decide) (rowsAt20 I) (gp21 I)).trans ((Rn_read_miss 5 6 inb_S7x128x128_S1x128x128_5_0_0 inb_S7x128x128_S1x128x128_6_0_0 (by decide) (rowsAt19 I) (gp20 I)).trans (Rn_read_hit 5 inb_S7x128x128_S1x128x128_5_0_0 (rowsAt18 I) (gp19 I)))))))
theorem payG19 (H : Hyp I tbl col pay) : ∀ y, pay19 I y = Cert.Spec.G tbl col ((Rect.unit (s := S16384x3328) (k0_off21 L 0#32) S128x128.size (k0_off21_inb L hc 0)).emb y) :=
  Step.item_payload tbl col H.hr L pay H.hpay I.fi H.hfi 19 0 inb_S26x4x128_S1x1x128_19_0_0 squeezes_S1x1x128_S128
    _ ((Step.read_full (View.whole main_arg45_scv) inb_S1000x128_S1000x128_0_0 I.ft19).trans H.ht19.symm)
    rfl (I.hin 19 0 inb_S26x4x128_S1x1x128_19_0_0 squeezes_S1x1x128_S128) (k0_off21 L 0#32) (k0_off21_eq L 0) (k0_off21_inb L hc 0) (pay19 I) (rd19 I)
theorem inv19 (H : Hyp I tbl col pay) : ∀ j' < 20, ∀ i ∈ Step.blkSet L 0 j', outAt19 I hc i = Cert.Spec.G tbl col i :=
  Step.out_step L 0 (Cert.Spec.G tbl col) 19 (k0_off21 L 0#32) (k0_off21_eq L 0) (k0_off21_inb L hc 0) (outAt18 I hc) (pay19 I) (payG19 I hc H)
    (inv18 I hc H)
theorem rd20 : (Rn 6 inb_S7x128x128_S1x128x128_6_0_0).view.read (Elt F) (rowsAt25 I) = gp20 I :=
  ((Rn_read_miss 6 4 inb_S7x128x128_S1x128x128_6_0_0 inb_S7x128x128_S1x128x128_4_0_0 (by decide) (rowsAt24 I) (gp25 I)).trans ((Rn_read_miss 6 3 inb_S7x128x128_S1x128x128_6_0_0 inb_S7x128x128_S1x128x128_3_0_0 (by decide) (rowsAt23 I) (gp24 I)).trans ((Rn_read_miss 6 2 inb_S7x128x128_S1x128x128_6_0_0 inb_S7x128x128_S1x128x128_2_0_0 (by decide) (rowsAt22 I) (gp23 I)).trans ((Rn_read_miss 6 1 inb_S7x128x128_S1x128x128_6_0_0 inb_S7x128x128_S1x128x128_1_0_0 (by decide) (rowsAt21 I) (gp22 I)).trans ((Rn_read_miss 6 0 inb_S7x128x128_S1x128x128_6_0_0 inb_S7x128x128_S1x128x128_0_0_0 (by decide) (rowsAt20 I) (gp21 I)).trans (Rn_read_hit 6 inb_S7x128x128_S1x128x128_6_0_0 (rowsAt19 I) (gp20 I)))))))
theorem payG20 (H : Hyp I tbl col pay) : ∀ y, pay20 I y = Cert.Spec.G tbl col ((Rect.unit (s := S16384x3328) (k0_off22 L 0#32) S128x128.size (k0_off22_inb L hc 0)).emb y) :=
  Step.item_payload tbl col H.hr L pay H.hpay I.fi H.hfi 20 0 inb_S26x4x128_S1x1x128_20_0_0 squeezes_S1x1x128_S128
    _ ((Step.read_full (View.whole main_arg46_scv) inb_S1000x128_S1000x128_0_0 I.ft20).trans H.ht20.symm)
    rfl (I.hin 20 0 inb_S26x4x128_S1x1x128_20_0_0 squeezes_S1x1x128_S128) (k0_off22 L 0#32) (k0_off22_eq L 0) (k0_off22_inb L hc 0) (pay20 I) (rd20 I)
theorem inv20 (H : Hyp I tbl col pay) : ∀ j' < 21, ∀ i ∈ Step.blkSet L 0 j', outAt20 I hc i = Cert.Spec.G tbl col i :=
  Step.out_step L 0 (Cert.Spec.G tbl col) 20 (k0_off22 L 0#32) (k0_off22_eq L 0) (k0_off22_inb L hc 0) (outAt19 I hc) (pay20 I) (payG20 I hc H)
    (inv19 I hc H)
theorem rd21 : (Rn 0 inb_S7x128x128_S1x128x128_0_0_0).view.read (Elt F) (rowsAt26 I) = gp21 I :=
  ((Rn_read_miss 0 5 inb_S7x128x128_S1x128x128_0_0_0 inb_S7x128x128_S1x128x128_5_0_0 (by decide) (rowsAt25 I) (gp26 I)).trans ((Rn_read_miss 0 4 inb_S7x128x128_S1x128x128_0_0_0 inb_S7x128x128_S1x128x128_4_0_0 (by decide) (rowsAt24 I) (gp25 I)).trans ((Rn_read_miss 0 3 inb_S7x128x128_S1x128x128_0_0_0 inb_S7x128x128_S1x128x128_3_0_0 (by decide) (rowsAt23 I) (gp24 I)).trans ((Rn_read_miss 0 2 inb_S7x128x128_S1x128x128_0_0_0 inb_S7x128x128_S1x128x128_2_0_0 (by decide) (rowsAt22 I) (gp23 I)).trans ((Rn_read_miss 0 1 inb_S7x128x128_S1x128x128_0_0_0 inb_S7x128x128_S1x128x128_1_0_0 (by decide) (rowsAt21 I) (gp22 I)).trans (Rn_read_hit 0 inb_S7x128x128_S1x128x128_0_0_0 (rowsAt20 I) (gp21 I)))))))
theorem payG21 (H : Hyp I tbl col pay) : ∀ y, pay21 I y = Cert.Spec.G tbl col ((Rect.unit (s := S16384x3328) (k0_off23 L 0#32) S128x128.size (k0_off23_inb L hc 0)).emb y) :=
  Step.item_payload tbl col H.hr L pay H.hpay I.fi H.hfi 21 0 inb_S26x4x128_S1x1x128_21_0_0 squeezes_S1x1x128_S128
    _ ((Step.read_full (View.whole main_arg47_scv) inb_S1000x128_S1000x128_0_0 I.ft21).trans H.ht21.symm)
    rfl (I.hin 21 0 inb_S26x4x128_S1x1x128_21_0_0 squeezes_S1x1x128_S128) (k0_off23 L 0#32) (k0_off23_eq L 0) (k0_off23_inb L hc 0) (pay21 I) (rd21 I)
theorem inv21 (H : Hyp I tbl col pay) : ∀ j' < 22, ∀ i ∈ Step.blkSet L 0 j', outAt21 I hc i = Cert.Spec.G tbl col i :=
  Step.out_step L 0 (Cert.Spec.G tbl col) 21 (k0_off23 L 0#32) (k0_off23_eq L 0) (k0_off23_inb L hc 0) (outAt20 I hc) (pay21 I) (payG21 I hc H)
    (inv20 I hc H)
theorem rd22 : (Rn 1 inb_S7x128x128_S1x128x128_1_0_0).view.read (Elt F) (rowsAt27 I) = gp22 I :=
  ((Rn_read_miss 1 6 inb_S7x128x128_S1x128x128_1_0_0 inb_S7x128x128_S1x128x128_6_0_0 (by decide) (rowsAt26 I) (gp27 I)).trans ((Rn_read_miss 1 5 inb_S7x128x128_S1x128x128_1_0_0 inb_S7x128x128_S1x128x128_5_0_0 (by decide) (rowsAt25 I) (gp26 I)).trans ((Rn_read_miss 1 4 inb_S7x128x128_S1x128x128_1_0_0 inb_S7x128x128_S1x128x128_4_0_0 (by decide) (rowsAt24 I) (gp25 I)).trans ((Rn_read_miss 1 3 inb_S7x128x128_S1x128x128_1_0_0 inb_S7x128x128_S1x128x128_3_0_0 (by decide) (rowsAt23 I) (gp24 I)).trans ((Rn_read_miss 1 2 inb_S7x128x128_S1x128x128_1_0_0 inb_S7x128x128_S1x128x128_2_0_0 (by decide) (rowsAt22 I) (gp23 I)).trans (Rn_read_hit 1 inb_S7x128x128_S1x128x128_1_0_0 (rowsAt21 I) (gp22 I)))))))
theorem payG22 (H : Hyp I tbl col pay) : ∀ y, pay22 I y = Cert.Spec.G tbl col ((Rect.unit (s := S16384x3328) (k0_off24 L 0#32) S128x128.size (k0_off24_inb L hc 0)).emb y) :=
  Step.item_payload tbl col H.hr L pay H.hpay I.fi H.hfi 22 0 inb_S26x4x128_S1x1x128_22_0_0 squeezes_S1x1x128_S128
    _ ((Step.read_full (View.whole main_arg48_scv) inb_S1000x128_S1000x128_0_0 I.ft22).trans H.ht22.symm)
    rfl (I.hin 22 0 inb_S26x4x128_S1x1x128_22_0_0 squeezes_S1x1x128_S128) (k0_off24 L 0#32) (k0_off24_eq L 0) (k0_off24_inb L hc 0) (pay22 I) (rd22 I)
theorem inv22 (H : Hyp I tbl col pay) : ∀ j' < 23, ∀ i ∈ Step.blkSet L 0 j', outAt22 I hc i = Cert.Spec.G tbl col i :=
  Step.out_step L 0 (Cert.Spec.G tbl col) 22 (k0_off24 L 0#32) (k0_off24_eq L 0) (k0_off24_inb L hc 0) (outAt21 I hc) (pay22 I) (payG22 I hc H)
    (inv21 I hc H)
theorem rd23 : (Rn 2 inb_S7x128x128_S1x128x128_2_0_0).view.read (Elt F) (rowsAt28 I) = gp23 I :=
  ((Rn_read_miss 2 0 inb_S7x128x128_S1x128x128_2_0_0 inb_S7x128x128_S1x128x128_0_0_0 (by decide) (rowsAt27 I) (gp28 I)).trans ((Rn_read_miss 2 6 inb_S7x128x128_S1x128x128_2_0_0 inb_S7x128x128_S1x128x128_6_0_0 (by decide) (rowsAt26 I) (gp27 I)).trans ((Rn_read_miss 2 5 inb_S7x128x128_S1x128x128_2_0_0 inb_S7x128x128_S1x128x128_5_0_0 (by decide) (rowsAt25 I) (gp26 I)).trans ((Rn_read_miss 2 4 inb_S7x128x128_S1x128x128_2_0_0 inb_S7x128x128_S1x128x128_4_0_0 (by decide) (rowsAt24 I) (gp25 I)).trans ((Rn_read_miss 2 3 inb_S7x128x128_S1x128x128_2_0_0 inb_S7x128x128_S1x128x128_3_0_0 (by decide) (rowsAt23 I) (gp24 I)).trans (Rn_read_hit 2 inb_S7x128x128_S1x128x128_2_0_0 (rowsAt22 I) (gp23 I)))))))
theorem payG23 (H : Hyp I tbl col pay) : ∀ y, pay23 I y = Cert.Spec.G tbl col ((Rect.unit (s := S16384x3328) (k0_off25 L 0#32) S128x128.size (k0_off25_inb L hc 0)).emb y) :=
  Step.item_payload tbl col H.hr L pay H.hpay I.fi H.hfi 23 0 inb_S26x4x128_S1x1x128_23_0_0 squeezes_S1x1x128_S128
    _ ((Step.read_full (View.whole main_arg49_scv) inb_S1000x128_S1000x128_0_0 I.ft23).trans H.ht23.symm)
    rfl (I.hin 23 0 inb_S26x4x128_S1x1x128_23_0_0 squeezes_S1x1x128_S128) (k0_off25 L 0#32) (k0_off25_eq L 0) (k0_off25_inb L hc 0) (pay23 I) (rd23 I)
theorem inv23 (H : Hyp I tbl col pay) : ∀ j' < 24, ∀ i ∈ Step.blkSet L 0 j', outAt23 I hc i = Cert.Spec.G tbl col i :=
  Step.out_step L 0 (Cert.Spec.G tbl col) 23 (k0_off25 L 0#32) (k0_off25_eq L 0) (k0_off25_inb L hc 0) (outAt22 I hc) (pay23 I) (payG23 I hc H)
    (inv22 I hc H)
theorem rd24 : (Rn 3 inb_S7x128x128_S1x128x128_3_0_0).view.read (Elt F) (rowsAt29 I) = gp24 I :=
  ((Rn_read_miss 3 1 inb_S7x128x128_S1x128x128_3_0_0 inb_S7x128x128_S1x128x128_1_0_0 (by decide) (rowsAt28 I) (gp29 I)).trans ((Rn_read_miss 3 0 inb_S7x128x128_S1x128x128_3_0_0 inb_S7x128x128_S1x128x128_0_0_0 (by decide) (rowsAt27 I) (gp28 I)).trans ((Rn_read_miss 3 6 inb_S7x128x128_S1x128x128_3_0_0 inb_S7x128x128_S1x128x128_6_0_0 (by decide) (rowsAt26 I) (gp27 I)).trans ((Rn_read_miss 3 5 inb_S7x128x128_S1x128x128_3_0_0 inb_S7x128x128_S1x128x128_5_0_0 (by decide) (rowsAt25 I) (gp26 I)).trans ((Rn_read_miss 3 4 inb_S7x128x128_S1x128x128_3_0_0 inb_S7x128x128_S1x128x128_4_0_0 (by decide) (rowsAt24 I) (gp25 I)).trans (Rn_read_hit 3 inb_S7x128x128_S1x128x128_3_0_0 (rowsAt23 I) (gp24 I)))))))
theorem payG24 (H : Hyp I tbl col pay) : ∀ y, pay24 I y = Cert.Spec.G tbl col ((Rect.unit (s := S16384x3328) (k0_off26 L 0#32) S128x128.size (k0_off26_inb L hc 0)).emb y) :=
  Step.item_payload tbl col H.hr L pay H.hpay I.fi H.hfi 24 0 inb_S26x4x128_S1x1x128_24_0_0 squeezes_S1x1x128_S128
    _ ((Step.read_full (View.whole main_arg50_scv) inb_S1000x128_S1000x128_0_0 I.ft24).trans H.ht24.symm)
    rfl (I.hin 24 0 inb_S26x4x128_S1x1x128_24_0_0 squeezes_S1x1x128_S128) (k0_off26 L 0#32) (k0_off26_eq L 0) (k0_off26_inb L hc 0) (pay24 I) (rd24 I)
theorem inv24 (H : Hyp I tbl col pay) : ∀ j' < 25, ∀ i ∈ Step.blkSet L 0 j', outAt24 I hc i = Cert.Spec.G tbl col i :=
  Step.out_step L 0 (Cert.Spec.G tbl col) 24 (k0_off26 L 0#32) (k0_off26_eq L 0) (k0_off26_inb L hc 0) (outAt23 I hc) (pay24 I) (payG24 I hc H)
    (inv23 I hc H)
theorem rd25 : (Rn 4 inb_S7x128x128_S1x128x128_4_0_0).view.read (Elt F) (rowsAt30 I) = gp25 I :=
  ((Rn_read_miss 4 2 inb_S7x128x128_S1x128x128_4_0_0 inb_S7x128x128_S1x128x128_2_0_0 (by decide) (rowsAt29 I) (gp30 I)).trans ((Rn_read_miss 4 1 inb_S7x128x128_S1x128x128_4_0_0 inb_S7x128x128_S1x128x128_1_0_0 (by decide) (rowsAt28 I) (gp29 I)).trans ((Rn_read_miss 4 0 inb_S7x128x128_S1x128x128_4_0_0 inb_S7x128x128_S1x128x128_0_0_0 (by decide) (rowsAt27 I) (gp28 I)).trans ((Rn_read_miss 4 6 inb_S7x128x128_S1x128x128_4_0_0 inb_S7x128x128_S1x128x128_6_0_0 (by decide) (rowsAt26 I) (gp27 I)).trans ((Rn_read_miss 4 5 inb_S7x128x128_S1x128x128_4_0_0 inb_S7x128x128_S1x128x128_5_0_0 (by decide) (rowsAt25 I) (gp26 I)).trans (Rn_read_hit 4 inb_S7x128x128_S1x128x128_4_0_0 (rowsAt24 I) (gp25 I)))))))
theorem payG25 (H : Hyp I tbl col pay) : ∀ y, pay25 I y = Cert.Spec.G tbl col ((Rect.unit (s := S16384x3328) (k0_off27 L 0#32) S128x128.size (k0_off27_inb L hc 0)).emb y) :=
  Step.item_payload tbl col H.hr L pay H.hpay I.fi H.hfi 25 0 inb_S26x4x128_S1x1x128_25_0_0 squeezes_S1x1x128_S128
    _ ((Step.read_full (View.whole main_arg51_scv) inb_S1000x128_S1000x128_0_0 I.ft25).trans H.ht25.symm)
    rfl (I.hin 25 0 inb_S26x4x128_S1x1x128_25_0_0 squeezes_S1x1x128_S128) (k0_off27 L 0#32) (k0_off27_eq L 0) (k0_off27_inb L hc 0) (pay25 I) (rd25 I)
theorem inv25 (H : Hyp I tbl col pay) : ∀ j' < 26, ∀ i ∈ Step.blkSet L 0 j', outAt25 I hc i = Cert.Spec.G tbl col i :=
  Step.out_step L 0 (Cert.Spec.G tbl col) 25 (k0_off27 L 0#32) (k0_off27_eq L 0) (k0_off27_inb L hc 0) (outAt24 I hc) (pay25 I) (payG25 I hc H)
    (inv24 I hc H)
theorem rd26 : (Rn 5 inb_S7x128x128_S1x128x128_5_0_0).view.read (Elt F) (rowsAt31 I) = gp26 I :=
  ((Rn_read_miss 5 3 inb_S7x128x128_S1x128x128_5_0_0 inb_S7x128x128_S1x128x128_3_0_0 (by decide) (rowsAt30 I) (gp31 I)).trans ((Rn_read_miss 5 2 inb_S7x128x128_S1x128x128_5_0_0 inb_S7x128x128_S1x128x128_2_0_0 (by decide) (rowsAt29 I) (gp30 I)).trans ((Rn_read_miss 5 1 inb_S7x128x128_S1x128x128_5_0_0 inb_S7x128x128_S1x128x128_1_0_0 (by decide) (rowsAt28 I) (gp29 I)).trans ((Rn_read_miss 5 0 inb_S7x128x128_S1x128x128_5_0_0 inb_S7x128x128_S1x128x128_0_0_0 (by decide) (rowsAt27 I) (gp28 I)).trans ((Rn_read_miss 5 6 inb_S7x128x128_S1x128x128_5_0_0 inb_S7x128x128_S1x128x128_6_0_0 (by decide) (rowsAt26 I) (gp27 I)).trans (Rn_read_hit 5 inb_S7x128x128_S1x128x128_5_0_0 (rowsAt25 I) (gp26 I)))))))
theorem payG26 (H : Hyp I tbl col pay) : ∀ y, pay26 I y = Cert.Spec.G tbl col ((Rect.unit (s := S16384x3328) (k0_off2 L 128#32) S128x128.size (k0_off2_inb L hc 1)).emb y) :=
  Step.item_payload tbl col H.hr L pay H.hpay I.fi H.hfi 0 1 inb_S26x4x128_S1x1x128_0_1_0 squeezes_S1x1x128_S128
    _ ((Step.read_full (View.whole main_arg26_scv) inb_S1000x128_S1000x128_0_0 I.ft0).trans H.ht0.symm)
    rfl (I.hin 0 1 inb_S26x4x128_S1x1x128_0_1_0 squeezes_S1x1x128_S128) (k0_off2 L 128#32) (k0_off2_eq L 1) (k0_off2_inb L hc 1) (pay26 I) (rd26 I)
theorem inv26 (H : Hyp I tbl col pay) : ∀ j' < 27, ∀ i ∈ Step.blkSet L 0 j', outAt26 I hc i = Cert.Spec.G tbl col i :=
  Step.out_step L 0 (Cert.Spec.G tbl col) 26 (k0_off2 L 128#32) (k0_off2_eq L 1) (k0_off2_inb L hc 1) (outAt25 I hc) (pay26 I) (payG26 I hc H)
    (inv25 I hc H)
theorem rd27 : (Rn 6 inb_S7x128x128_S1x128x128_6_0_0).view.read (Elt F) (rowsAt32 I) = gp27 I :=
  ((Rn_read_miss 6 4 inb_S7x128x128_S1x128x128_6_0_0 inb_S7x128x128_S1x128x128_4_0_0 (by decide) (rowsAt31 I) (gp32 I)).trans ((Rn_read_miss 6 3 inb_S7x128x128_S1x128x128_6_0_0 inb_S7x128x128_S1x128x128_3_0_0 (by decide) (rowsAt30 I) (gp31 I)).trans ((Rn_read_miss 6 2 inb_S7x128x128_S1x128x128_6_0_0 inb_S7x128x128_S1x128x128_2_0_0 (by decide) (rowsAt29 I) (gp30 I)).trans ((Rn_read_miss 6 1 inb_S7x128x128_S1x128x128_6_0_0 inb_S7x128x128_S1x128x128_1_0_0 (by decide) (rowsAt28 I) (gp29 I)).trans ((Rn_read_miss 6 0 inb_S7x128x128_S1x128x128_6_0_0 inb_S7x128x128_S1x128x128_0_0_0 (by decide) (rowsAt27 I) (gp28 I)).trans (Rn_read_hit 6 inb_S7x128x128_S1x128x128_6_0_0 (rowsAt26 I) (gp27 I)))))))
theorem payG27 (H : Hyp I tbl col pay) : ∀ y, pay27 I y = Cert.Spec.G tbl col ((Rect.unit (s := S16384x3328) (k0_off3 L 128#32) S128x128.size (k0_off3_inb L hc 1)).emb y) :=
  Step.item_payload tbl col H.hr L pay H.hpay I.fi H.hfi 1 1 inb_S26x4x128_S1x1x128_1_1_0 squeezes_S1x1x128_S128
    _ ((Step.read_full (View.whole main_arg27_scv) inb_S1000x128_S1000x128_0_0 I.ft1).trans H.ht1.symm)
    rfl (I.hin 1 1 inb_S26x4x128_S1x1x128_1_1_0 squeezes_S1x1x128_S128) (k0_off3 L 128#32) (k0_off3_eq L 1) (k0_off3_inb L hc 1) (pay27 I) (rd27 I)
theorem inv27 (H : Hyp I tbl col pay) : ∀ j' < 28, ∀ i ∈ Step.blkSet L 0 j', outAt27 I hc i = Cert.Spec.G tbl col i :=
  Step.out_step L 0 (Cert.Spec.G tbl col) 27 (k0_off3 L 128#32) (k0_off3_eq L 1) (k0_off3_inb L hc 1) (outAt26 I hc) (pay27 I) (payG27 I hc H)
    (inv26 I hc H)
theorem rd28 : (Rn 0 inb_S7x128x128_S1x128x128_0_0_0).view.read (Elt F) (rowsAt33 I) = gp28 I :=
  ((Rn_read_miss 0 5 inb_S7x128x128_S1x128x128_0_0_0 inb_S7x128x128_S1x128x128_5_0_0 (by decide) (rowsAt32 I) (gp33 I)).trans ((Rn_read_miss 0 4 inb_S7x128x128_S1x128x128_0_0_0 inb_S7x128x128_S1x128x128_4_0_0 (by decide) (rowsAt31 I) (gp32 I)).trans ((Rn_read_miss 0 3 inb_S7x128x128_S1x128x128_0_0_0 inb_S7x128x128_S1x128x128_3_0_0 (by decide) (rowsAt30 I) (gp31 I)).trans ((Rn_read_miss 0 2 inb_S7x128x128_S1x128x128_0_0_0 inb_S7x128x128_S1x128x128_2_0_0 (by decide) (rowsAt29 I) (gp30 I)).trans ((Rn_read_miss 0 1 inb_S7x128x128_S1x128x128_0_0_0 inb_S7x128x128_S1x128x128_1_0_0 (by decide) (rowsAt28 I) (gp29 I)).trans (Rn_read_hit 0 inb_S7x128x128_S1x128x128_0_0_0 (rowsAt27 I) (gp28 I)))))))
theorem payG28 (H : Hyp I tbl col pay) : ∀ y, pay28 I y = Cert.Spec.G tbl col ((Rect.unit (s := S16384x3328) (k0_off4 L 128#32) S128x128.size (k0_off4_inb L hc 1)).emb y) :=
  Step.item_payload tbl col H.hr L pay H.hpay I.fi H.hfi 2 1 inb_S26x4x128_S1x1x128_2_1_0 squeezes_S1x1x128_S128
    _ ((Step.read_full (View.whole main_arg28_scv) inb_S1000x128_S1000x128_0_0 I.ft2).trans H.ht2.symm)
    rfl (I.hin 2 1 inb_S26x4x128_S1x1x128_2_1_0 squeezes_S1x1x128_S128) (k0_off4 L 128#32) (k0_off4_eq L 1) (k0_off4_inb L hc 1) (pay28 I) (rd28 I)
theorem inv28 (H : Hyp I tbl col pay) : ∀ j' < 29, ∀ i ∈ Step.blkSet L 0 j', outAt28 I hc i = Cert.Spec.G tbl col i :=
  Step.out_step L 0 (Cert.Spec.G tbl col) 28 (k0_off4 L 128#32) (k0_off4_eq L 1) (k0_off4_inb L hc 1) (outAt27 I hc) (pay28 I) (payG28 I hc H)
    (inv27 I hc H)
theorem rd29 : (Rn 1 inb_S7x128x128_S1x128x128_1_0_0).view.read (Elt F) (rowsAt34 I) = gp29 I :=
  ((Rn_read_miss 1 6 inb_S7x128x128_S1x128x128_1_0_0 inb_S7x128x128_S1x128x128_6_0_0 (by decide) (rowsAt33 I) (gp34 I)).trans ((Rn_read_miss 1 5 inb_S7x128x128_S1x128x128_1_0_0 inb_S7x128x128_S1x128x128_5_0_0 (by decide) (rowsAt32 I) (gp33 I)).trans ((Rn_read_miss 1 4 inb_S7x128x128_S1x128x128_1_0_0 inb_S7x128x128_S1x128x128_4_0_0 (by decide) (rowsAt31 I) (gp32 I)).trans ((Rn_read_miss 1 3 inb_S7x128x128_S1x128x128_1_0_0 inb_S7x128x128_S1x128x128_3_0_0 (by decide) (rowsAt30 I) (gp31 I)).trans ((Rn_read_miss 1 2 inb_S7x128x128_S1x128x128_1_0_0 inb_S7x128x128_S1x128x128_2_0_0 (by decide) (rowsAt29 I) (gp30 I)).trans (Rn_read_hit 1 inb_S7x128x128_S1x128x128_1_0_0 (rowsAt28 I) (gp29 I)))))))
theorem payG29 (H : Hyp I tbl col pay) : ∀ y, pay29 I y = Cert.Spec.G tbl col ((Rect.unit (s := S16384x3328) (k0_off5 L 128#32) S128x128.size (k0_off5_inb L hc 1)).emb y) :=
  Step.item_payload tbl col H.hr L pay H.hpay I.fi H.hfi 3 1 inb_S26x4x128_S1x1x128_3_1_0 squeezes_S1x1x128_S128
    _ ((Step.read_full (View.whole main_arg29_scv) inb_S1000x128_S1000x128_0_0 I.ft3).trans H.ht3.symm)
    rfl (I.hin 3 1 inb_S26x4x128_S1x1x128_3_1_0 squeezes_S1x1x128_S128) (k0_off5 L 128#32) (k0_off5_eq L 1) (k0_off5_inb L hc 1) (pay29 I) (rd29 I)
theorem inv29 (H : Hyp I tbl col pay) : ∀ j' < 30, ∀ i ∈ Step.blkSet L 0 j', outAt29 I hc i = Cert.Spec.G tbl col i :=
  Step.out_step L 0 (Cert.Spec.G tbl col) 29 (k0_off5 L 128#32) (k0_off5_eq L 1) (k0_off5_inb L hc 1) (outAt28 I hc) (pay29 I) (payG29 I hc H)
    (inv28 I hc H)
theorem rd30 : (Rn 2 inb_S7x128x128_S1x128x128_2_0_0).view.read (Elt F) (rowsAt35 I) = gp30 I :=
  ((Rn_read_miss 2 0 inb_S7x128x128_S1x128x128_2_0_0 inb_S7x128x128_S1x128x128_0_0_0 (by decide) (rowsAt34 I) (gp35 I)).trans ((Rn_read_miss 2 6 inb_S7x128x128_S1x128x128_2_0_0 inb_S7x128x128_S1x128x128_6_0_0 (by decide) (rowsAt33 I) (gp34 I)).trans ((Rn_read_miss 2 5 inb_S7x128x128_S1x128x128_2_0_0 inb_S7x128x128_S1x128x128_5_0_0 (by decide) (rowsAt32 I) (gp33 I)).trans ((Rn_read_miss 2 4 inb_S7x128x128_S1x128x128_2_0_0 inb_S7x128x128_S1x128x128_4_0_0 (by decide) (rowsAt31 I) (gp32 I)).trans ((Rn_read_miss 2 3 inb_S7x128x128_S1x128x128_2_0_0 inb_S7x128x128_S1x128x128_3_0_0 (by decide) (rowsAt30 I) (gp31 I)).trans (Rn_read_hit 2 inb_S7x128x128_S1x128x128_2_0_0 (rowsAt29 I) (gp30 I)))))))
theorem payG30 (H : Hyp I tbl col pay) : ∀ y, pay30 I y = Cert.Spec.G tbl col ((Rect.unit (s := S16384x3328) (k0_off6 L 128#32) S128x128.size (k0_off6_inb L hc 1)).emb y) :=
  Step.item_payload tbl col H.hr L pay H.hpay I.fi H.hfi 4 1 inb_S26x4x128_S1x1x128_4_1_0 squeezes_S1x1x128_S128
    _ ((Step.read_full (View.whole main_arg30_scv) inb_S1000x128_S1000x128_0_0 I.ft4).trans H.ht4.symm)
    rfl (I.hin 4 1 inb_S26x4x128_S1x1x128_4_1_0 squeezes_S1x1x128_S128) (k0_off6 L 128#32) (k0_off6_eq L 1) (k0_off6_inb L hc 1) (pay30 I) (rd30 I)
theorem inv30 (H : Hyp I tbl col pay) : ∀ j' < 31, ∀ i ∈ Step.blkSet L 0 j', outAt30 I hc i = Cert.Spec.G tbl col i :=
  Step.out_step L 0 (Cert.Spec.G tbl col) 30 (k0_off6 L 128#32) (k0_off6_eq L 1) (k0_off6_inb L hc 1) (outAt29 I hc) (pay30 I) (payG30 I hc H)
    (inv29 I hc H)
theorem rd31 : (Rn 3 inb_S7x128x128_S1x128x128_3_0_0).view.read (Elt F) (rowsAt36 I) = gp31 I :=
  ((Rn_read_miss 3 1 inb_S7x128x128_S1x128x128_3_0_0 inb_S7x128x128_S1x128x128_1_0_0 (by decide) (rowsAt35 I) (gp36 I)).trans ((Rn_read_miss 3 0 inb_S7x128x128_S1x128x128_3_0_0 inb_S7x128x128_S1x128x128_0_0_0 (by decide) (rowsAt34 I) (gp35 I)).trans ((Rn_read_miss 3 6 inb_S7x128x128_S1x128x128_3_0_0 inb_S7x128x128_S1x128x128_6_0_0 (by decide) (rowsAt33 I) (gp34 I)).trans ((Rn_read_miss 3 5 inb_S7x128x128_S1x128x128_3_0_0 inb_S7x128x128_S1x128x128_5_0_0 (by decide) (rowsAt32 I) (gp33 I)).trans ((Rn_read_miss 3 4 inb_S7x128x128_S1x128x128_3_0_0 inb_S7x128x128_S1x128x128_4_0_0 (by decide) (rowsAt31 I) (gp32 I)).trans (Rn_read_hit 3 inb_S7x128x128_S1x128x128_3_0_0 (rowsAt30 I) (gp31 I)))))))
theorem payG31 (H : Hyp I tbl col pay) : ∀ y, pay31 I y = Cert.Spec.G tbl col ((Rect.unit (s := S16384x3328) (k0_off7 L 128#32) S128x128.size (k0_off7_inb L hc 1)).emb y) :=
  Step.item_payload tbl col H.hr L pay H.hpay I.fi H.hfi 5 1 inb_S26x4x128_S1x1x128_5_1_0 squeezes_S1x1x128_S128
    _ ((Step.read_full (View.whole main_arg31_scv) inb_S1000x128_S1000x128_0_0 I.ft5).trans H.ht5.symm)
    rfl (I.hin 5 1 inb_S26x4x128_S1x1x128_5_1_0 squeezes_S1x1x128_S128) (k0_off7 L 128#32) (k0_off7_eq L 1) (k0_off7_inb L hc 1) (pay31 I) (rd31 I)
theorem inv31 (H : Hyp I tbl col pay) : ∀ j' < 32, ∀ i ∈ Step.blkSet L 0 j', outAt31 I hc i = Cert.Spec.G tbl col i :=
  Step.out_step L 0 (Cert.Spec.G tbl col) 31 (k0_off7 L 128#32) (k0_off7_eq L 1) (k0_off7_inb L hc 1) (outAt30 I hc) (pay31 I) (payG31 I hc H)
    (inv30 I hc H)
theorem rd32 : (Rn 4 inb_S7x128x128_S1x128x128_4_0_0).view.read (Elt F) (rowsAt37 I) = gp32 I :=
  ((Rn_read_miss 4 2 inb_S7x128x128_S1x128x128_4_0_0 inb_S7x128x128_S1x128x128_2_0_0 (by decide) (rowsAt36 I) (gp37 I)).trans ((Rn_read_miss 4 1 inb_S7x128x128_S1x128x128_4_0_0 inb_S7x128x128_S1x128x128_1_0_0 (by decide) (rowsAt35 I) (gp36 I)).trans ((Rn_read_miss 4 0 inb_S7x128x128_S1x128x128_4_0_0 inb_S7x128x128_S1x128x128_0_0_0 (by decide) (rowsAt34 I) (gp35 I)).trans ((Rn_read_miss 4 6 inb_S7x128x128_S1x128x128_4_0_0 inb_S7x128x128_S1x128x128_6_0_0 (by decide) (rowsAt33 I) (gp34 I)).trans ((Rn_read_miss 4 5 inb_S7x128x128_S1x128x128_4_0_0 inb_S7x128x128_S1x128x128_5_0_0 (by decide) (rowsAt32 I) (gp33 I)).trans (Rn_read_hit 4 inb_S7x128x128_S1x128x128_4_0_0 (rowsAt31 I) (gp32 I)))))))
theorem payG32 (H : Hyp I tbl col pay) : ∀ y, pay32 I y = Cert.Spec.G tbl col ((Rect.unit (s := S16384x3328) (k0_off8 L 128#32) S128x128.size (k0_off8_inb L hc 1)).emb y) :=
  Step.item_payload tbl col H.hr L pay H.hpay I.fi H.hfi 6 1 inb_S26x4x128_S1x1x128_6_1_0 squeezes_S1x1x128_S128
    _ ((Step.read_full (View.whole main_arg32_scv) inb_S1000x128_S1000x128_0_0 I.ft6).trans H.ht6.symm)
    rfl (I.hin 6 1 inb_S26x4x128_S1x1x128_6_1_0 squeezes_S1x1x128_S128) (k0_off8 L 128#32) (k0_off8_eq L 1) (k0_off8_inb L hc 1) (pay32 I) (rd32 I)
theorem inv32 (H : Hyp I tbl col pay) : ∀ j' < 33, ∀ i ∈ Step.blkSet L 0 j', outAt32 I hc i = Cert.Spec.G tbl col i :=
  Step.out_step L 0 (Cert.Spec.G tbl col) 32 (k0_off8 L 128#32) (k0_off8_eq L 1) (k0_off8_inb L hc 1) (outAt31 I hc) (pay32 I) (payG32 I hc H)
    (inv31 I hc H)
theorem rd33 : (Rn 5 inb_S7x128x128_S1x128x128_5_0_0).view.read (Elt F) (rowsAt38 I) = gp33 I :=
  ((Rn_read_miss 5 3 inb_S7x128x128_S1x128x128_5_0_0 inb_S7x128x128_S1x128x128_3_0_0 (by decide) (rowsAt37 I) (gp38 I)).trans ((Rn_read_miss 5 2 inb_S7x128x128_S1x128x128_5_0_0 inb_S7x128x128_S1x128x128_2_0_0 (by decide) (rowsAt36 I) (gp37 I)).trans ((Rn_read_miss 5 1 inb_S7x128x128_S1x128x128_5_0_0 inb_S7x128x128_S1x128x128_1_0_0 (by decide) (rowsAt35 I) (gp36 I)).trans ((Rn_read_miss 5 0 inb_S7x128x128_S1x128x128_5_0_0 inb_S7x128x128_S1x128x128_0_0_0 (by decide) (rowsAt34 I) (gp35 I)).trans ((Rn_read_miss 5 6 inb_S7x128x128_S1x128x128_5_0_0 inb_S7x128x128_S1x128x128_6_0_0 (by decide) (rowsAt33 I) (gp34 I)).trans (Rn_read_hit 5 inb_S7x128x128_S1x128x128_5_0_0 (rowsAt32 I) (gp33 I)))))))
theorem payG33 (H : Hyp I tbl col pay) : ∀ y, pay33 I y = Cert.Spec.G tbl col ((Rect.unit (s := S16384x3328) (k0_off9 L 128#32) S128x128.size (k0_off9_inb L hc 1)).emb y) :=
  Step.item_payload tbl col H.hr L pay H.hpay I.fi H.hfi 7 1 inb_S26x4x128_S1x1x128_7_1_0 squeezes_S1x1x128_S128
    _ ((Step.read_full (View.whole main_arg33_scv) inb_S1000x128_S1000x128_0_0 I.ft7).trans H.ht7.symm)
    rfl (I.hin 7 1 inb_S26x4x128_S1x1x128_7_1_0 squeezes_S1x1x128_S128) (k0_off9 L 128#32) (k0_off9_eq L 1) (k0_off9_inb L hc 1) (pay33 I) (rd33 I)
theorem inv33 (H : Hyp I tbl col pay) : ∀ j' < 34, ∀ i ∈ Step.blkSet L 0 j', outAt33 I hc i = Cert.Spec.G tbl col i :=
  Step.out_step L 0 (Cert.Spec.G tbl col) 33 (k0_off9 L 128#32) (k0_off9_eq L 1) (k0_off9_inb L hc 1) (outAt32 I hc) (pay33 I) (payG33 I hc H)
    (inv32 I hc H)
theorem rd34 : (Rn 6 inb_S7x128x128_S1x128x128_6_0_0).view.read (Elt F) (rowsAt39 I) = gp34 I :=
  ((Rn_read_miss 6 4 inb_S7x128x128_S1x128x128_6_0_0 inb_S7x128x128_S1x128x128_4_0_0 (by decide) (rowsAt38 I) (gp39 I)).trans ((Rn_read_miss 6 3 inb_S7x128x128_S1x128x128_6_0_0 inb_S7x128x128_S1x128x128_3_0_0 (by decide) (rowsAt37 I) (gp38 I)).trans ((Rn_read_miss 6 2 inb_S7x128x128_S1x128x128_6_0_0 inb_S7x128x128_S1x128x128_2_0_0 (by decide) (rowsAt36 I) (gp37 I)).trans ((Rn_read_miss 6 1 inb_S7x128x128_S1x128x128_6_0_0 inb_S7x128x128_S1x128x128_1_0_0 (by decide) (rowsAt35 I) (gp36 I)).trans ((Rn_read_miss 6 0 inb_S7x128x128_S1x128x128_6_0_0 inb_S7x128x128_S1x128x128_0_0_0 (by decide) (rowsAt34 I) (gp35 I)).trans (Rn_read_hit 6 inb_S7x128x128_S1x128x128_6_0_0 (rowsAt33 I) (gp34 I)))))))
theorem payG34 (H : Hyp I tbl col pay) : ∀ y, pay34 I y = Cert.Spec.G tbl col ((Rect.unit (s := S16384x3328) (k0_off10 L 128#32) S128x128.size (k0_off10_inb L hc 1)).emb y) :=
  Step.item_payload tbl col H.hr L pay H.hpay I.fi H.hfi 8 1 inb_S26x4x128_S1x1x128_8_1_0 squeezes_S1x1x128_S128
    _ ((Step.read_full (View.whole main_arg34_scv) inb_S1000x128_S1000x128_0_0 I.ft8).trans H.ht8.symm)
    rfl (I.hin 8 1 inb_S26x4x128_S1x1x128_8_1_0 squeezes_S1x1x128_S128) (k0_off10 L 128#32) (k0_off10_eq L 1) (k0_off10_inb L hc 1) (pay34 I) (rd34 I)
theorem inv34 (H : Hyp I tbl col pay) : ∀ j' < 35, ∀ i ∈ Step.blkSet L 0 j', outAt34 I hc i = Cert.Spec.G tbl col i :=
  Step.out_step L 0 (Cert.Spec.G tbl col) 34 (k0_off10 L 128#32) (k0_off10_eq L 1) (k0_off10_inb L hc 1) (outAt33 I hc) (pay34 I) (payG34 I hc H)
    (inv33 I hc H)
theorem rd35 : (Rn 0 inb_S7x128x128_S1x128x128_0_0_0).view.read (Elt F) (rowsAt40 I) = gp35 I :=
  ((Rn_read_miss 0 5 inb_S7x128x128_S1x128x128_0_0_0 inb_S7x128x128_S1x128x128_5_0_0 (by decide) (rowsAt39 I) (gp40 I)).trans ((Rn_read_miss 0 4 inb_S7x128x128_S1x128x128_0_0_0 inb_S7x128x128_S1x128x128_4_0_0 (by decide) (rowsAt38 I) (gp39 I)).trans ((Rn_read_miss 0 3 inb_S7x128x128_S1x128x128_0_0_0 inb_S7x128x128_S1x128x128_3_0_0 (by decide) (rowsAt37 I) (gp38 I)).trans ((Rn_read_miss 0 2 inb_S7x128x128_S1x128x128_0_0_0 inb_S7x128x128_S1x128x128_2_0_0 (by decide) (rowsAt36 I) (gp37 I)).trans ((Rn_read_miss 0 1 inb_S7x128x128_S1x128x128_0_0_0 inb_S7x128x128_S1x128x128_1_0_0 (by decide) (rowsAt35 I) (gp36 I)).trans (Rn_read_hit 0 inb_S7x128x128_S1x128x128_0_0_0 (rowsAt34 I) (gp35 I)))))))
theorem payG35 (H : Hyp I tbl col pay) : ∀ y, pay35 I y = Cert.Spec.G tbl col ((Rect.unit (s := S16384x3328) (k0_off11 L 128#32) S128x128.size (k0_off11_inb L hc 1)).emb y) :=
  Step.item_payload tbl col H.hr L pay H.hpay I.fi H.hfi 9 1 inb_S26x4x128_S1x1x128_9_1_0 squeezes_S1x1x128_S128
    _ ((Step.read_full (View.whole main_arg35_scv) inb_S1000x128_S1000x128_0_0 I.ft9).trans H.ht9.symm)
    rfl (I.hin 9 1 inb_S26x4x128_S1x1x128_9_1_0 squeezes_S1x1x128_S128) (k0_off11 L 128#32) (k0_off11_eq L 1) (k0_off11_inb L hc 1) (pay35 I) (rd35 I)
theorem inv35 (H : Hyp I tbl col pay) : ∀ j' < 36, ∀ i ∈ Step.blkSet L 0 j', outAt35 I hc i = Cert.Spec.G tbl col i :=
  Step.out_step L 0 (Cert.Spec.G tbl col) 35 (k0_off11 L 128#32) (k0_off11_eq L 1) (k0_off11_inb L hc 1) (outAt34 I hc) (pay35 I) (payG35 I hc H)
    (inv34 I hc H)
theorem rd36 : (Rn 1 inb_S7x128x128_S1x128x128_1_0_0).view.read (Elt F) (rowsAt41 I) = gp36 I :=
  ((Rn_read_miss 1 6 inb_S7x128x128_S1x128x128_1_0_0 inb_S7x128x128_S1x128x128_6_0_0 (by decide) (rowsAt40 I) (gp41 I)).trans ((Rn_read_miss 1 5 inb_S7x128x128_S1x128x128_1_0_0 inb_S7x128x128_S1x128x128_5_0_0 (by decide) (rowsAt39 I) (gp40 I)).trans ((Rn_read_miss 1 4 inb_S7x128x128_S1x128x128_1_0_0 inb_S7x128x128_S1x128x128_4_0_0 (by decide) (rowsAt38 I) (gp39 I)).trans ((Rn_read_miss 1 3 inb_S7x128x128_S1x128x128_1_0_0 inb_S7x128x128_S1x128x128_3_0_0 (by decide) (rowsAt37 I) (gp38 I)).trans ((Rn_read_miss 1 2 inb_S7x128x128_S1x128x128_1_0_0 inb_S7x128x128_S1x128x128_2_0_0 (by decide) (rowsAt36 I) (gp37 I)).trans (Rn_read_hit 1 inb_S7x128x128_S1x128x128_1_0_0 (rowsAt35 I) (gp36 I)))))))
theorem payG36 (H : Hyp I tbl col pay) : ∀ y, pay36 I y = Cert.Spec.G tbl col ((Rect.unit (s := S16384x3328) (k0_off12 L 128#32) S128x128.size (k0_off12_inb L hc 1)).emb y) :=
  Step.item_payload tbl col H.hr L pay H.hpay I.fi H.hfi 10 1 inb_S26x4x128_S1x1x128_10_1_0 squeezes_S1x1x128_S128
    _ ((Step.read_full (View.whole main_arg36_scv) inb_S1000x128_S1000x128_0_0 I.ft10).trans H.ht10.symm)
    rfl (I.hin 10 1 inb_S26x4x128_S1x1x128_10_1_0 squeezes_S1x1x128_S128) (k0_off12 L 128#32) (k0_off12_eq L 1) (k0_off12_inb L hc 1) (pay36 I) (rd36 I)
theorem inv36 (H : Hyp I tbl col pay) : ∀ j' < 37, ∀ i ∈ Step.blkSet L 0 j', outAt36 I hc i = Cert.Spec.G tbl col i :=
  Step.out_step L 0 (Cert.Spec.G tbl col) 36 (k0_off12 L 128#32) (k0_off12_eq L 1) (k0_off12_inb L hc 1) (outAt35 I hc) (pay36 I) (payG36 I hc H)
    (inv35 I hc H)
theorem rd37 : (Rn 2 inb_S7x128x128_S1x128x128_2_0_0).view.read (Elt F) (rowsAt42 I) = gp37 I :=
  ((Rn_read_miss 2 0 inb_S7x128x128_S1x128x128_2_0_0 inb_S7x128x128_S1x128x128_0_0_0 (by decide) (rowsAt41 I) (gp42 I)).trans ((Rn_read_miss 2 6 inb_S7x128x128_S1x128x128_2_0_0 inb_S7x128x128_S1x128x128_6_0_0 (by decide) (rowsAt40 I) (gp41 I)).trans ((Rn_read_miss 2 5 inb_S7x128x128_S1x128x128_2_0_0 inb_S7x128x128_S1x128x128_5_0_0 (by decide) (rowsAt39 I) (gp40 I)).trans ((Rn_read_miss 2 4 inb_S7x128x128_S1x128x128_2_0_0 inb_S7x128x128_S1x128x128_4_0_0 (by decide) (rowsAt38 I) (gp39 I)).trans ((Rn_read_miss 2 3 inb_S7x128x128_S1x128x128_2_0_0 inb_S7x128x128_S1x128x128_3_0_0 (by decide) (rowsAt37 I) (gp38 I)).trans (Rn_read_hit 2 inb_S7x128x128_S1x128x128_2_0_0 (rowsAt36 I) (gp37 I)))))))
theorem payG37 (H : Hyp I tbl col pay) : ∀ y, pay37 I y = Cert.Spec.G tbl col ((Rect.unit (s := S16384x3328) (k0_off13 L 128#32) S128x128.size (k0_off13_inb L hc 1)).emb y) :=
  Step.item_payload tbl col H.hr L pay H.hpay I.fi H.hfi 11 1 inb_S26x4x128_S1x1x128_11_1_0 squeezes_S1x1x128_S128
    _ ((Step.read_full (View.whole main_arg37_scv) inb_S1000x128_S1000x128_0_0 I.ft11).trans H.ht11.symm)
    rfl (I.hin 11 1 inb_S26x4x128_S1x1x128_11_1_0 squeezes_S1x1x128_S128) (k0_off13 L 128#32) (k0_off13_eq L 1) (k0_off13_inb L hc 1) (pay37 I) (rd37 I)
theorem inv37 (H : Hyp I tbl col pay) : ∀ j' < 38, ∀ i ∈ Step.blkSet L 0 j', outAt37 I hc i = Cert.Spec.G tbl col i :=
  Step.out_step L 0 (Cert.Spec.G tbl col) 37 (k0_off13 L 128#32) (k0_off13_eq L 1) (k0_off13_inb L hc 1) (outAt36 I hc) (pay37 I) (payG37 I hc H)
    (inv36 I hc H)
theorem rd38 : (Rn 3 inb_S7x128x128_S1x128x128_3_0_0).view.read (Elt F) (rowsAt43 I) = gp38 I :=
  ((Rn_read_miss 3 1 inb_S7x128x128_S1x128x128_3_0_0 inb_S7x128x128_S1x128x128_1_0_0 (by decide) (rowsAt42 I) (gp43 I)).trans ((Rn_read_miss 3 0 inb_S7x128x128_S1x128x128_3_0_0 inb_S7x128x128_S1x128x128_0_0_0 (by decide) (rowsAt41 I) (gp42 I)).trans ((Rn_read_miss 3 6 inb_S7x128x128_S1x128x128_3_0_0 inb_S7x128x128_S1x128x128_6_0_0 (by decide) (rowsAt40 I) (gp41 I)).trans ((Rn_read_miss 3 5 inb_S7x128x128_S1x128x128_3_0_0 inb_S7x128x128_S1x128x128_5_0_0 (by decide) (rowsAt39 I) (gp40 I)).trans ((Rn_read_miss 3 4 inb_S7x128x128_S1x128x128_3_0_0 inb_S7x128x128_S1x128x128_4_0_0 (by decide) (rowsAt38 I) (gp39 I)).trans (Rn_read_hit 3 inb_S7x128x128_S1x128x128_3_0_0 (rowsAt37 I) (gp38 I)))))))
theorem payG38 (H : Hyp I tbl col pay) : ∀ y, pay38 I y = Cert.Spec.G tbl col ((Rect.unit (s := S16384x3328) (k0_off14 L 128#32) S128x128.size (k0_off14_inb L hc 1)).emb y) :=
  Step.item_payload tbl col H.hr L pay H.hpay I.fi H.hfi 12 1 inb_S26x4x128_S1x1x128_12_1_0 squeezes_S1x1x128_S128
    _ ((Step.read_full (View.whole main_arg38_scv) inb_S1000x128_S1000x128_0_0 I.ft12).trans H.ht12.symm)
    rfl (I.hin 12 1 inb_S26x4x128_S1x1x128_12_1_0 squeezes_S1x1x128_S128) (k0_off14 L 128#32) (k0_off14_eq L 1) (k0_off14_inb L hc 1) (pay38 I) (rd38 I)
theorem inv38 (H : Hyp I tbl col pay) : ∀ j' < 39, ∀ i ∈ Step.blkSet L 0 j', outAt38 I hc i = Cert.Spec.G tbl col i :=
  Step.out_step L 0 (Cert.Spec.G tbl col) 38 (k0_off14 L 128#32) (k0_off14_eq L 1) (k0_off14_inb L hc 1) (outAt37 I hc) (pay38 I) (payG38 I hc H)
    (inv37 I hc H)
theorem rd39 : (Rn 4 inb_S7x128x128_S1x128x128_4_0_0).view.read (Elt F) (rowsAt44 I) = gp39 I :=
  ((Rn_read_miss 4 2 inb_S7x128x128_S1x128x128_4_0_0 inb_S7x128x128_S1x128x128_2_0_0 (by decide) (rowsAt43 I) (gp44 I)).trans ((Rn_read_miss 4 1 inb_S7x128x128_S1x128x128_4_0_0 inb_S7x128x128_S1x128x128_1_0_0 (by decide) (rowsAt42 I) (gp43 I)).trans ((Rn_read_miss 4 0 inb_S7x128x128_S1x128x128_4_0_0 inb_S7x128x128_S1x128x128_0_0_0 (by decide) (rowsAt41 I) (gp42 I)).trans ((Rn_read_miss 4 6 inb_S7x128x128_S1x128x128_4_0_0 inb_S7x128x128_S1x128x128_6_0_0 (by decide) (rowsAt40 I) (gp41 I)).trans ((Rn_read_miss 4 5 inb_S7x128x128_S1x128x128_4_0_0 inb_S7x128x128_S1x128x128_5_0_0 (by decide) (rowsAt39 I) (gp40 I)).trans (Rn_read_hit 4 inb_S7x128x128_S1x128x128_4_0_0 (rowsAt38 I) (gp39 I)))))))
theorem payG39 (H : Hyp I tbl col pay) : ∀ y, pay39 I y = Cert.Spec.G tbl col ((Rect.unit (s := S16384x3328) (k0_off15 L 128#32) S128x128.size (k0_off15_inb L hc 1)).emb y) :=
  Step.item_payload tbl col H.hr L pay H.hpay I.fi H.hfi 13 1 inb_S26x4x128_S1x1x128_13_1_0 squeezes_S1x1x128_S128
    _ ((Step.read_full (View.whole main_arg39_scv) inb_S1000x128_S1000x128_0_0 I.ft13).trans H.ht13.symm)
    rfl (I.hin 13 1 inb_S26x4x128_S1x1x128_13_1_0 squeezes_S1x1x128_S128) (k0_off15 L 128#32) (k0_off15_eq L 1) (k0_off15_inb L hc 1) (pay39 I) (rd39 I)
theorem inv39 (H : Hyp I tbl col pay) : ∀ j' < 40, ∀ i ∈ Step.blkSet L 0 j', outAt39 I hc i = Cert.Spec.G tbl col i :=
  Step.out_step L 0 (Cert.Spec.G tbl col) 39 (k0_off15 L 128#32) (k0_off15_eq L 1) (k0_off15_inb L hc 1) (outAt38 I hc) (pay39 I) (payG39 I hc H)
    (inv38 I hc H)
theorem rd40 : (Rn 5 inb_S7x128x128_S1x128x128_5_0_0).view.read (Elt F) (rowsAt45 I) = gp40 I :=
  ((Rn_read_miss 5 3 inb_S7x128x128_S1x128x128_5_0_0 inb_S7x128x128_S1x128x128_3_0_0 (by decide) (rowsAt44 I) (gp45 I)).trans ((Rn_read_miss 5 2 inb_S7x128x128_S1x128x128_5_0_0 inb_S7x128x128_S1x128x128_2_0_0 (by decide) (rowsAt43 I) (gp44 I)).trans ((Rn_read_miss 5 1 inb_S7x128x128_S1x128x128_5_0_0 inb_S7x128x128_S1x128x128_1_0_0 (by decide) (rowsAt42 I) (gp43 I)).trans ((Rn_read_miss 5 0 inb_S7x128x128_S1x128x128_5_0_0 inb_S7x128x128_S1x128x128_0_0_0 (by decide) (rowsAt41 I) (gp42 I)).trans ((Rn_read_miss 5 6 inb_S7x128x128_S1x128x128_5_0_0 inb_S7x128x128_S1x128x128_6_0_0 (by decide) (rowsAt40 I) (gp41 I)).trans (Rn_read_hit 5 inb_S7x128x128_S1x128x128_5_0_0 (rowsAt39 I) (gp40 I)))))))
theorem payG40 (H : Hyp I tbl col pay) : ∀ y, pay40 I y = Cert.Spec.G tbl col ((Rect.unit (s := S16384x3328) (k0_off16 L 128#32) S128x128.size (k0_off16_inb L hc 1)).emb y) :=
  Step.item_payload tbl col H.hr L pay H.hpay I.fi H.hfi 14 1 inb_S26x4x128_S1x1x128_14_1_0 squeezes_S1x1x128_S128
    _ ((Step.read_full (View.whole main_arg40_scv) inb_S1000x128_S1000x128_0_0 I.ft14).trans H.ht14.symm)
    rfl (I.hin 14 1 inb_S26x4x128_S1x1x128_14_1_0 squeezes_S1x1x128_S128) (k0_off16 L 128#32) (k0_off16_eq L 1) (k0_off16_inb L hc 1) (pay40 I) (rd40 I)
theorem inv40 (H : Hyp I tbl col pay) : ∀ j' < 41, ∀ i ∈ Step.blkSet L 0 j', outAt40 I hc i = Cert.Spec.G tbl col i :=
  Step.out_step L 0 (Cert.Spec.G tbl col) 40 (k0_off16 L 128#32) (k0_off16_eq L 1) (k0_off16_inb L hc 1) (outAt39 I hc) (pay40 I) (payG40 I hc H)
    (inv39 I hc H)
theorem rd41 : (Rn 6 inb_S7x128x128_S1x128x128_6_0_0).view.read (Elt F) (rowsAt46 I) = gp41 I :=
  ((Rn_read_miss 6 4 inb_S7x128x128_S1x128x128_6_0_0 inb_S7x128x128_S1x128x128_4_0_0 (by decide) (rowsAt45 I) (gp46 I)).trans ((Rn_read_miss 6 3 inb_S7x128x128_S1x128x128_6_0_0 inb_S7x128x128_S1x128x128_3_0_0 (by decide) (rowsAt44 I) (gp45 I)).trans ((Rn_read_miss 6 2 inb_S7x128x128_S1x128x128_6_0_0 inb_S7x128x128_S1x128x128_2_0_0 (by decide) (rowsAt43 I) (gp44 I)).trans ((Rn_read_miss 6 1 inb_S7x128x128_S1x128x128_6_0_0 inb_S7x128x128_S1x128x128_1_0_0 (by decide) (rowsAt42 I) (gp43 I)).trans ((Rn_read_miss 6 0 inb_S7x128x128_S1x128x128_6_0_0 inb_S7x128x128_S1x128x128_0_0_0 (by decide) (rowsAt41 I) (gp42 I)).trans (Rn_read_hit 6 inb_S7x128x128_S1x128x128_6_0_0 (rowsAt40 I) (gp41 I)))))))
theorem payG41 (H : Hyp I tbl col pay) : ∀ y, pay41 I y = Cert.Spec.G tbl col ((Rect.unit (s := S16384x3328) (k0_off17 L 128#32) S128x128.size (k0_off17_inb L hc 1)).emb y) :=
  Step.item_payload tbl col H.hr L pay H.hpay I.fi H.hfi 15 1 inb_S26x4x128_S1x1x128_15_1_0 squeezes_S1x1x128_S128
    _ ((Step.read_full (View.whole main_arg41_scv) inb_S1000x128_S1000x128_0_0 I.ft15).trans H.ht15.symm)
    rfl (I.hin 15 1 inb_S26x4x128_S1x1x128_15_1_0 squeezes_S1x1x128_S128) (k0_off17 L 128#32) (k0_off17_eq L 1) (k0_off17_inb L hc 1) (pay41 I) (rd41 I)
theorem inv41 (H : Hyp I tbl col pay) : ∀ j' < 42, ∀ i ∈ Step.blkSet L 0 j', outAt41 I hc i = Cert.Spec.G tbl col i :=
  Step.out_step L 0 (Cert.Spec.G tbl col) 41 (k0_off17 L 128#32) (k0_off17_eq L 1) (k0_off17_inb L hc 1) (outAt40 I hc) (pay41 I) (payG41 I hc H)
    (inv40 I hc H)
theorem rd42 : (Rn 0 inb_S7x128x128_S1x128x128_0_0_0).view.read (Elt F) (rowsAt47 I) = gp42 I :=
  ((Rn_read_miss 0 5 inb_S7x128x128_S1x128x128_0_0_0 inb_S7x128x128_S1x128x128_5_0_0 (by decide) (rowsAt46 I) (gp47 I)).trans ((Rn_read_miss 0 4 inb_S7x128x128_S1x128x128_0_0_0 inb_S7x128x128_S1x128x128_4_0_0 (by decide) (rowsAt45 I) (gp46 I)).trans ((Rn_read_miss 0 3 inb_S7x128x128_S1x128x128_0_0_0 inb_S7x128x128_S1x128x128_3_0_0 (by decide) (rowsAt44 I) (gp45 I)).trans ((Rn_read_miss 0 2 inb_S7x128x128_S1x128x128_0_0_0 inb_S7x128x128_S1x128x128_2_0_0 (by decide) (rowsAt43 I) (gp44 I)).trans ((Rn_read_miss 0 1 inb_S7x128x128_S1x128x128_0_0_0 inb_S7x128x128_S1x128x128_1_0_0 (by decide) (rowsAt42 I) (gp43 I)).trans (Rn_read_hit 0 inb_S7x128x128_S1x128x128_0_0_0 (rowsAt41 I) (gp42 I)))))))
theorem payG42 (H : Hyp I tbl col pay) : ∀ y, pay42 I y = Cert.Spec.G tbl col ((Rect.unit (s := S16384x3328) (k0_off18 L 128#32) S128x128.size (k0_off18_inb L hc 1)).emb y) :=
  Step.item_payload tbl col H.hr L pay H.hpay I.fi H.hfi 16 1 inb_S26x4x128_S1x1x128_16_1_0 squeezes_S1x1x128_S128
    _ ((Step.read_full (View.whole main_arg42_scv) inb_S1000x128_S1000x128_0_0 I.ft16).trans H.ht16.symm)
    rfl (I.hin 16 1 inb_S26x4x128_S1x1x128_16_1_0 squeezes_S1x1x128_S128) (k0_off18 L 128#32) (k0_off18_eq L 1) (k0_off18_inb L hc 1) (pay42 I) (rd42 I)
theorem inv42 (H : Hyp I tbl col pay) : ∀ j' < 43, ∀ i ∈ Step.blkSet L 0 j', outAt42 I hc i = Cert.Spec.G tbl col i :=
  Step.out_step L 0 (Cert.Spec.G tbl col) 42 (k0_off18 L 128#32) (k0_off18_eq L 1) (k0_off18_inb L hc 1) (outAt41 I hc) (pay42 I) (payG42 I hc H)
    (inv41 I hc H)
theorem rd43 : (Rn 1 inb_S7x128x128_S1x128x128_1_0_0).view.read (Elt F) (rowsAt48 I) = gp43 I :=
  ((Rn_read_miss 1 6 inb_S7x128x128_S1x128x128_1_0_0 inb_S7x128x128_S1x128x128_6_0_0 (by decide) (rowsAt47 I) (gp48 I)).trans ((Rn_read_miss 1 5 inb_S7x128x128_S1x128x128_1_0_0 inb_S7x128x128_S1x128x128_5_0_0 (by decide) (rowsAt46 I) (gp47 I)).trans ((Rn_read_miss 1 4 inb_S7x128x128_S1x128x128_1_0_0 inb_S7x128x128_S1x128x128_4_0_0 (by decide) (rowsAt45 I) (gp46 I)).trans ((Rn_read_miss 1 3 inb_S7x128x128_S1x128x128_1_0_0 inb_S7x128x128_S1x128x128_3_0_0 (by decide) (rowsAt44 I) (gp45 I)).trans ((Rn_read_miss 1 2 inb_S7x128x128_S1x128x128_1_0_0 inb_S7x128x128_S1x128x128_2_0_0 (by decide) (rowsAt43 I) (gp44 I)).trans (Rn_read_hit 1 inb_S7x128x128_S1x128x128_1_0_0 (rowsAt42 I) (gp43 I)))))))
theorem payG43 (H : Hyp I tbl col pay) : ∀ y, pay43 I y = Cert.Spec.G tbl col ((Rect.unit (s := S16384x3328) (k0_off19 L 128#32) S128x128.size (k0_off19_inb L hc 1)).emb y) :=
  Step.item_payload tbl col H.hr L pay H.hpay I.fi H.hfi 17 1 inb_S26x4x128_S1x1x128_17_1_0 squeezes_S1x1x128_S128
    _ ((Step.read_full (View.whole main_arg43_scv) inb_S1000x128_S1000x128_0_0 I.ft17).trans H.ht17.symm)
    rfl (I.hin 17 1 inb_S26x4x128_S1x1x128_17_1_0 squeezes_S1x1x128_S128) (k0_off19 L 128#32) (k0_off19_eq L 1) (k0_off19_inb L hc 1) (pay43 I) (rd43 I)
theorem inv43 (H : Hyp I tbl col pay) : ∀ j' < 44, ∀ i ∈ Step.blkSet L 0 j', outAt43 I hc i = Cert.Spec.G tbl col i :=
  Step.out_step L 0 (Cert.Spec.G tbl col) 43 (k0_off19 L 128#32) (k0_off19_eq L 1) (k0_off19_inb L hc 1) (outAt42 I hc) (pay43 I) (payG43 I hc H)
    (inv42 I hc H)
theorem rd44 : (Rn 2 inb_S7x128x128_S1x128x128_2_0_0).view.read (Elt F) (rowsAt49 I) = gp44 I :=
  ((Rn_read_miss 2 0 inb_S7x128x128_S1x128x128_2_0_0 inb_S7x128x128_S1x128x128_0_0_0 (by decide) (rowsAt48 I) (gp49 I)).trans ((Rn_read_miss 2 6 inb_S7x128x128_S1x128x128_2_0_0 inb_S7x128x128_S1x128x128_6_0_0 (by decide) (rowsAt47 I) (gp48 I)).trans ((Rn_read_miss 2 5 inb_S7x128x128_S1x128x128_2_0_0 inb_S7x128x128_S1x128x128_5_0_0 (by decide) (rowsAt46 I) (gp47 I)).trans ((Rn_read_miss 2 4 inb_S7x128x128_S1x128x128_2_0_0 inb_S7x128x128_S1x128x128_4_0_0 (by decide) (rowsAt45 I) (gp46 I)).trans ((Rn_read_miss 2 3 inb_S7x128x128_S1x128x128_2_0_0 inb_S7x128x128_S1x128x128_3_0_0 (by decide) (rowsAt44 I) (gp45 I)).trans (Rn_read_hit 2 inb_S7x128x128_S1x128x128_2_0_0 (rowsAt43 I) (gp44 I)))))))
theorem payG44 (H : Hyp I tbl col pay) : ∀ y, pay44 I y = Cert.Spec.G tbl col ((Rect.unit (s := S16384x3328) (k0_off20 L 128#32) S128x128.size (k0_off20_inb L hc 1)).emb y) :=
  Step.item_payload tbl col H.hr L pay H.hpay I.fi H.hfi 18 1 inb_S26x4x128_S1x1x128_18_1_0 squeezes_S1x1x128_S128
    _ ((Step.read_full (View.whole main_arg44_scv) inb_S1000x128_S1000x128_0_0 I.ft18).trans H.ht18.symm)
    rfl (I.hin 18 1 inb_S26x4x128_S1x1x128_18_1_0 squeezes_S1x1x128_S128) (k0_off20 L 128#32) (k0_off20_eq L 1) (k0_off20_inb L hc 1) (pay44 I) (rd44 I)
theorem inv44 (H : Hyp I tbl col pay) : ∀ j' < 45, ∀ i ∈ Step.blkSet L 0 j', outAt44 I hc i = Cert.Spec.G tbl col i :=
  Step.out_step L 0 (Cert.Spec.G tbl col) 44 (k0_off20 L 128#32) (k0_off20_eq L 1) (k0_off20_inb L hc 1) (outAt43 I hc) (pay44 I) (payG44 I hc H)
    (inv43 I hc H)
theorem rd45 : (Rn 3 inb_S7x128x128_S1x128x128_3_0_0).view.read (Elt F) (rowsAt50 I) = gp45 I :=
  ((Rn_read_miss 3 1 inb_S7x128x128_S1x128x128_3_0_0 inb_S7x128x128_S1x128x128_1_0_0 (by decide) (rowsAt49 I) (gp50 I)).trans ((Rn_read_miss 3 0 inb_S7x128x128_S1x128x128_3_0_0 inb_S7x128x128_S1x128x128_0_0_0 (by decide) (rowsAt48 I) (gp49 I)).trans ((Rn_read_miss 3 6 inb_S7x128x128_S1x128x128_3_0_0 inb_S7x128x128_S1x128x128_6_0_0 (by decide) (rowsAt47 I) (gp48 I)).trans ((Rn_read_miss 3 5 inb_S7x128x128_S1x128x128_3_0_0 inb_S7x128x128_S1x128x128_5_0_0 (by decide) (rowsAt46 I) (gp47 I)).trans ((Rn_read_miss 3 4 inb_S7x128x128_S1x128x128_3_0_0 inb_S7x128x128_S1x128x128_4_0_0 (by decide) (rowsAt45 I) (gp46 I)).trans (Rn_read_hit 3 inb_S7x128x128_S1x128x128_3_0_0 (rowsAt44 I) (gp45 I)))))))
theorem payG45 (H : Hyp I tbl col pay) : ∀ y, pay45 I y = Cert.Spec.G tbl col ((Rect.unit (s := S16384x3328) (k0_off21 L 128#32) S128x128.size (k0_off21_inb L hc 1)).emb y) :=
  Step.item_payload tbl col H.hr L pay H.hpay I.fi H.hfi 19 1 inb_S26x4x128_S1x1x128_19_1_0 squeezes_S1x1x128_S128
    _ ((Step.read_full (View.whole main_arg45_scv) inb_S1000x128_S1000x128_0_0 I.ft19).trans H.ht19.symm)
    rfl (I.hin 19 1 inb_S26x4x128_S1x1x128_19_1_0 squeezes_S1x1x128_S128) (k0_off21 L 128#32) (k0_off21_eq L 1) (k0_off21_inb L hc 1) (pay45 I) (rd45 I)
theorem inv45 (H : Hyp I tbl col pay) : ∀ j' < 46, ∀ i ∈ Step.blkSet L 0 j', outAt45 I hc i = Cert.Spec.G tbl col i :=
  Step.out_step L 0 (Cert.Spec.G tbl col) 45 (k0_off21 L 128#32) (k0_off21_eq L 1) (k0_off21_inb L hc 1) (outAt44 I hc) (pay45 I) (payG45 I hc H)
    (inv44 I hc H)
theorem rd46 : (Rn 4 inb_S7x128x128_S1x128x128_4_0_0).view.read (Elt F) (rowsAt51 I) = gp46 I :=
  ((Rn_read_miss 4 2 inb_S7x128x128_S1x128x128_4_0_0 inb_S7x128x128_S1x128x128_2_0_0 (by decide) (rowsAt50 I) (gp51 I)).trans ((Rn_read_miss 4 1 inb_S7x128x128_S1x128x128_4_0_0 inb_S7x128x128_S1x128x128_1_0_0 (by decide) (rowsAt49 I) (gp50 I)).trans ((Rn_read_miss 4 0 inb_S7x128x128_S1x128x128_4_0_0 inb_S7x128x128_S1x128x128_0_0_0 (by decide) (rowsAt48 I) (gp49 I)).trans ((Rn_read_miss 4 6 inb_S7x128x128_S1x128x128_4_0_0 inb_S7x128x128_S1x128x128_6_0_0 (by decide) (rowsAt47 I) (gp48 I)).trans ((Rn_read_miss 4 5 inb_S7x128x128_S1x128x128_4_0_0 inb_S7x128x128_S1x128x128_5_0_0 (by decide) (rowsAt46 I) (gp47 I)).trans (Rn_read_hit 4 inb_S7x128x128_S1x128x128_4_0_0 (rowsAt45 I) (gp46 I)))))))
theorem payG46 (H : Hyp I tbl col pay) : ∀ y, pay46 I y = Cert.Spec.G tbl col ((Rect.unit (s := S16384x3328) (k0_off22 L 128#32) S128x128.size (k0_off22_inb L hc 1)).emb y) :=
  Step.item_payload tbl col H.hr L pay H.hpay I.fi H.hfi 20 1 inb_S26x4x128_S1x1x128_20_1_0 squeezes_S1x1x128_S128
    _ ((Step.read_full (View.whole main_arg46_scv) inb_S1000x128_S1000x128_0_0 I.ft20).trans H.ht20.symm)
    rfl (I.hin 20 1 inb_S26x4x128_S1x1x128_20_1_0 squeezes_S1x1x128_S128) (k0_off22 L 128#32) (k0_off22_eq L 1) (k0_off22_inb L hc 1) (pay46 I) (rd46 I)
theorem inv46 (H : Hyp I tbl col pay) : ∀ j' < 47, ∀ i ∈ Step.blkSet L 0 j', outAt46 I hc i = Cert.Spec.G tbl col i :=
  Step.out_step L 0 (Cert.Spec.G tbl col) 46 (k0_off22 L 128#32) (k0_off22_eq L 1) (k0_off22_inb L hc 1) (outAt45 I hc) (pay46 I) (payG46 I hc H)
    (inv45 I hc H)
theorem rd47 : (Rn 5 inb_S7x128x128_S1x128x128_5_0_0).view.read (Elt F) (rowsAt52 I) = gp47 I :=
  ((Rn_read_miss 5 3 inb_S7x128x128_S1x128x128_5_0_0 inb_S7x128x128_S1x128x128_3_0_0 (by decide) (rowsAt51 I) (gp52 I)).trans ((Rn_read_miss 5 2 inb_S7x128x128_S1x128x128_5_0_0 inb_S7x128x128_S1x128x128_2_0_0 (by decide) (rowsAt50 I) (gp51 I)).trans ((Rn_read_miss 5 1 inb_S7x128x128_S1x128x128_5_0_0 inb_S7x128x128_S1x128x128_1_0_0 (by decide) (rowsAt49 I) (gp50 I)).trans ((Rn_read_miss 5 0 inb_S7x128x128_S1x128x128_5_0_0 inb_S7x128x128_S1x128x128_0_0_0 (by decide) (rowsAt48 I) (gp49 I)).trans ((Rn_read_miss 5 6 inb_S7x128x128_S1x128x128_5_0_0 inb_S7x128x128_S1x128x128_6_0_0 (by decide) (rowsAt47 I) (gp48 I)).trans (Rn_read_hit 5 inb_S7x128x128_S1x128x128_5_0_0 (rowsAt46 I) (gp47 I)))))))
theorem payG47 (H : Hyp I tbl col pay) : ∀ y, pay47 I y = Cert.Spec.G tbl col ((Rect.unit (s := S16384x3328) (k0_off23 L 128#32) S128x128.size (k0_off23_inb L hc 1)).emb y) :=
  Step.item_payload tbl col H.hr L pay H.hpay I.fi H.hfi 21 1 inb_S26x4x128_S1x1x128_21_1_0 squeezes_S1x1x128_S128
    _ ((Step.read_full (View.whole main_arg47_scv) inb_S1000x128_S1000x128_0_0 I.ft21).trans H.ht21.symm)
    rfl (I.hin 21 1 inb_S26x4x128_S1x1x128_21_1_0 squeezes_S1x1x128_S128) (k0_off23 L 128#32) (k0_off23_eq L 1) (k0_off23_inb L hc 1) (pay47 I) (rd47 I)
theorem inv47 (H : Hyp I tbl col pay) : ∀ j' < 48, ∀ i ∈ Step.blkSet L 0 j', outAt47 I hc i = Cert.Spec.G tbl col i :=
  Step.out_step L 0 (Cert.Spec.G tbl col) 47 (k0_off23 L 128#32) (k0_off23_eq L 1) (k0_off23_inb L hc 1) (outAt46 I hc) (pay47 I) (payG47 I hc H)
    (inv46 I hc H)
theorem rd48 : (Rn 6 inb_S7x128x128_S1x128x128_6_0_0).view.read (Elt F) (rowsAt53 I) = gp48 I :=
  ((Rn_read_miss 6 4 inb_S7x128x128_S1x128x128_6_0_0 inb_S7x128x128_S1x128x128_4_0_0 (by decide) (rowsAt52 I) (gp53 I)).trans ((Rn_read_miss 6 3 inb_S7x128x128_S1x128x128_6_0_0 inb_S7x128x128_S1x128x128_3_0_0 (by decide) (rowsAt51 I) (gp52 I)).trans ((Rn_read_miss 6 2 inb_S7x128x128_S1x128x128_6_0_0 inb_S7x128x128_S1x128x128_2_0_0 (by decide) (rowsAt50 I) (gp51 I)).trans ((Rn_read_miss 6 1 inb_S7x128x128_S1x128x128_6_0_0 inb_S7x128x128_S1x128x128_1_0_0 (by decide) (rowsAt49 I) (gp50 I)).trans ((Rn_read_miss 6 0 inb_S7x128x128_S1x128x128_6_0_0 inb_S7x128x128_S1x128x128_0_0_0 (by decide) (rowsAt48 I) (gp49 I)).trans (Rn_read_hit 6 inb_S7x128x128_S1x128x128_6_0_0 (rowsAt47 I) (gp48 I)))))))
theorem payG48 (H : Hyp I tbl col pay) : ∀ y, pay48 I y = Cert.Spec.G tbl col ((Rect.unit (s := S16384x3328) (k0_off24 L 128#32) S128x128.size (k0_off24_inb L hc 1)).emb y) :=
  Step.item_payload tbl col H.hr L pay H.hpay I.fi H.hfi 22 1 inb_S26x4x128_S1x1x128_22_1_0 squeezes_S1x1x128_S128
    _ ((Step.read_full (View.whole main_arg48_scv) inb_S1000x128_S1000x128_0_0 I.ft22).trans H.ht22.symm)
    rfl (I.hin 22 1 inb_S26x4x128_S1x1x128_22_1_0 squeezes_S1x1x128_S128) (k0_off24 L 128#32) (k0_off24_eq L 1) (k0_off24_inb L hc 1) (pay48 I) (rd48 I)
theorem inv48 (H : Hyp I tbl col pay) : ∀ j' < 49, ∀ i ∈ Step.blkSet L 0 j', outAt48 I hc i = Cert.Spec.G tbl col i :=
  Step.out_step L 0 (Cert.Spec.G tbl col) 48 (k0_off24 L 128#32) (k0_off24_eq L 1) (k0_off24_inb L hc 1) (outAt47 I hc) (pay48 I) (payG48 I hc H)
    (inv47 I hc H)
theorem rd49 : (Rn 0 inb_S7x128x128_S1x128x128_0_0_0).view.read (Elt F) (rowsAt54 I) = gp49 I :=
  ((Rn_read_miss 0 5 inb_S7x128x128_S1x128x128_0_0_0 inb_S7x128x128_S1x128x128_5_0_0 (by decide) (rowsAt53 I) (gp54 I)).trans ((Rn_read_miss 0 4 inb_S7x128x128_S1x128x128_0_0_0 inb_S7x128x128_S1x128x128_4_0_0 (by decide) (rowsAt52 I) (gp53 I)).trans ((Rn_read_miss 0 3 inb_S7x128x128_S1x128x128_0_0_0 inb_S7x128x128_S1x128x128_3_0_0 (by decide) (rowsAt51 I) (gp52 I)).trans ((Rn_read_miss 0 2 inb_S7x128x128_S1x128x128_0_0_0 inb_S7x128x128_S1x128x128_2_0_0 (by decide) (rowsAt50 I) (gp51 I)).trans ((Rn_read_miss 0 1 inb_S7x128x128_S1x128x128_0_0_0 inb_S7x128x128_S1x128x128_1_0_0 (by decide) (rowsAt49 I) (gp50 I)).trans (Rn_read_hit 0 inb_S7x128x128_S1x128x128_0_0_0 (rowsAt48 I) (gp49 I)))))))
theorem payG49 (H : Hyp I tbl col pay) : ∀ y, pay49 I y = Cert.Spec.G tbl col ((Rect.unit (s := S16384x3328) (k0_off25 L 128#32) S128x128.size (k0_off25_inb L hc 1)).emb y) :=
  Step.item_payload tbl col H.hr L pay H.hpay I.fi H.hfi 23 1 inb_S26x4x128_S1x1x128_23_1_0 squeezes_S1x1x128_S128
    _ ((Step.read_full (View.whole main_arg49_scv) inb_S1000x128_S1000x128_0_0 I.ft23).trans H.ht23.symm)
    rfl (I.hin 23 1 inb_S26x4x128_S1x1x128_23_1_0 squeezes_S1x1x128_S128) (k0_off25 L 128#32) (k0_off25_eq L 1) (k0_off25_inb L hc 1) (pay49 I) (rd49 I)
theorem inv49 (H : Hyp I tbl col pay) : ∀ j' < 50, ∀ i ∈ Step.blkSet L 0 j', outAt49 I hc i = Cert.Spec.G tbl col i :=
  Step.out_step L 0 (Cert.Spec.G tbl col) 49 (k0_off25 L 128#32) (k0_off25_eq L 1) (k0_off25_inb L hc 1) (outAt48 I hc) (pay49 I) (payG49 I hc H)
    (inv48 I hc H)
theorem rd50 : (Rn 1 inb_S7x128x128_S1x128x128_1_0_0).view.read (Elt F) (rowsAt55 I) = gp50 I :=
  ((Rn_read_miss 1 6 inb_S7x128x128_S1x128x128_1_0_0 inb_S7x128x128_S1x128x128_6_0_0 (by decide) (rowsAt54 I) (gp55 I)).trans ((Rn_read_miss 1 5 inb_S7x128x128_S1x128x128_1_0_0 inb_S7x128x128_S1x128x128_5_0_0 (by decide) (rowsAt53 I) (gp54 I)).trans ((Rn_read_miss 1 4 inb_S7x128x128_S1x128x128_1_0_0 inb_S7x128x128_S1x128x128_4_0_0 (by decide) (rowsAt52 I) (gp53 I)).trans ((Rn_read_miss 1 3 inb_S7x128x128_S1x128x128_1_0_0 inb_S7x128x128_S1x128x128_3_0_0 (by decide) (rowsAt51 I) (gp52 I)).trans ((Rn_read_miss 1 2 inb_S7x128x128_S1x128x128_1_0_0 inb_S7x128x128_S1x128x128_2_0_0 (by decide) (rowsAt50 I) (gp51 I)).trans (Rn_read_hit 1 inb_S7x128x128_S1x128x128_1_0_0 (rowsAt49 I) (gp50 I)))))))
theorem payG50 (H : Hyp I tbl col pay) : ∀ y, pay50 I y = Cert.Spec.G tbl col ((Rect.unit (s := S16384x3328) (k0_off26 L 128#32) S128x128.size (k0_off26_inb L hc 1)).emb y) :=
  Step.item_payload tbl col H.hr L pay H.hpay I.fi H.hfi 24 1 inb_S26x4x128_S1x1x128_24_1_0 squeezes_S1x1x128_S128
    _ ((Step.read_full (View.whole main_arg50_scv) inb_S1000x128_S1000x128_0_0 I.ft24).trans H.ht24.symm)
    rfl (I.hin 24 1 inb_S26x4x128_S1x1x128_24_1_0 squeezes_S1x1x128_S128) (k0_off26 L 128#32) (k0_off26_eq L 1) (k0_off26_inb L hc 1) (pay50 I) (rd50 I)
theorem inv50 (H : Hyp I tbl col pay) : ∀ j' < 51, ∀ i ∈ Step.blkSet L 0 j', outAt50 I hc i = Cert.Spec.G tbl col i :=
  Step.out_step L 0 (Cert.Spec.G tbl col) 50 (k0_off26 L 128#32) (k0_off26_eq L 1) (k0_off26_inb L hc 1) (outAt49 I hc) (pay50 I) (payG50 I hc H)
    (inv49 I hc H)
theorem rd51 : (Rn 2 inb_S7x128x128_S1x128x128_2_0_0).view.read (Elt F) (rowsAt56 I) = gp51 I :=
  ((Rn_read_miss 2 0 inb_S7x128x128_S1x128x128_2_0_0 inb_S7x128x128_S1x128x128_0_0_0 (by decide) (rowsAt55 I) (gp56 I)).trans ((Rn_read_miss 2 6 inb_S7x128x128_S1x128x128_2_0_0 inb_S7x128x128_S1x128x128_6_0_0 (by decide) (rowsAt54 I) (gp55 I)).trans ((Rn_read_miss 2 5 inb_S7x128x128_S1x128x128_2_0_0 inb_S7x128x128_S1x128x128_5_0_0 (by decide) (rowsAt53 I) (gp54 I)).trans ((Rn_read_miss 2 4 inb_S7x128x128_S1x128x128_2_0_0 inb_S7x128x128_S1x128x128_4_0_0 (by decide) (rowsAt52 I) (gp53 I)).trans ((Rn_read_miss 2 3 inb_S7x128x128_S1x128x128_2_0_0 inb_S7x128x128_S1x128x128_3_0_0 (by decide) (rowsAt51 I) (gp52 I)).trans (Rn_read_hit 2 inb_S7x128x128_S1x128x128_2_0_0 (rowsAt50 I) (gp51 I)))))))
theorem payG51 (H : Hyp I tbl col pay) : ∀ y, pay51 I y = Cert.Spec.G tbl col ((Rect.unit (s := S16384x3328) (k0_off27 L 128#32) S128x128.size (k0_off27_inb L hc 1)).emb y) :=
  Step.item_payload tbl col H.hr L pay H.hpay I.fi H.hfi 25 1 inb_S26x4x128_S1x1x128_25_1_0 squeezes_S1x1x128_S128
    _ ((Step.read_full (View.whole main_arg51_scv) inb_S1000x128_S1000x128_0_0 I.ft25).trans H.ht25.symm)
    rfl (I.hin 25 1 inb_S26x4x128_S1x1x128_25_1_0 squeezes_S1x1x128_S128) (k0_off27 L 128#32) (k0_off27_eq L 1) (k0_off27_inb L hc 1) (pay51 I) (rd51 I)
theorem inv51 (H : Hyp I tbl col pay) : ∀ j' < 52, ∀ i ∈ Step.blkSet L 0 j', outAt51 I hc i = Cert.Spec.G tbl col i :=
  Step.out_step L 0 (Cert.Spec.G tbl col) 51 (k0_off27 L 128#32) (k0_off27_eq L 1) (k0_off27_inb L hc 1) (outAt50 I hc) (pay51 I) (payG51 I hc H)
    (inv50 I hc H)
theorem rd52 : (Rn 3 inb_S7x128x128_S1x128x128_3_0_0).view.read (Elt F) (rowsAt57 I) = gp52 I :=
  ((Rn_read_miss 3 1 inb_S7x128x128_S1x128x128_3_0_0 inb_S7x128x128_S1x128x128_1_0_0 (by decide) (rowsAt56 I) (gp57 I)).trans ((Rn_read_miss 3 0 inb_S7x128x128_S1x128x128_3_0_0 inb_S7x128x128_S1x128x128_0_0_0 (by decide) (rowsAt55 I) (gp56 I)).trans ((Rn_read_miss 3 6 inb_S7x128x128_S1x128x128_3_0_0 inb_S7x128x128_S1x128x128_6_0_0 (by decide) (rowsAt54 I) (gp55 I)).trans ((Rn_read_miss 3 5 inb_S7x128x128_S1x128x128_3_0_0 inb_S7x128x128_S1x128x128_5_0_0 (by decide) (rowsAt53 I) (gp54 I)).trans ((Rn_read_miss 3 4 inb_S7x128x128_S1x128x128_3_0_0 inb_S7x128x128_S1x128x128_4_0_0 (by decide) (rowsAt52 I) (gp53 I)).trans (Rn_read_hit 3 inb_S7x128x128_S1x128x128_3_0_0 (rowsAt51 I) (gp52 I)))))))
theorem payG52 (H : Hyp I tbl col pay) : ∀ y, pay52 I y = Cert.Spec.G tbl col ((Rect.unit (s := S16384x3328) (k0_off2 L 256#32) S128x128.size (k0_off2_inb L hc 2)).emb y) :=
  Step.item_payload tbl col H.hr L pay H.hpay I.fi H.hfi 0 2 inb_S26x4x128_S1x1x128_0_2_0 squeezes_S1x1x128_S128
    _ ((Step.read_full (View.whole main_arg26_scv) inb_S1000x128_S1000x128_0_0 I.ft0).trans H.ht0.symm)
    rfl (I.hin 0 2 inb_S26x4x128_S1x1x128_0_2_0 squeezes_S1x1x128_S128) (k0_off2 L 256#32) (k0_off2_eq L 2) (k0_off2_inb L hc 2) (pay52 I) (rd52 I)
theorem inv52 (H : Hyp I tbl col pay) : ∀ j' < 53, ∀ i ∈ Step.blkSet L 0 j', outAt52 I hc i = Cert.Spec.G tbl col i :=
  Step.out_step L 0 (Cert.Spec.G tbl col) 52 (k0_off2 L 256#32) (k0_off2_eq L 2) (k0_off2_inb L hc 2) (outAt51 I hc) (pay52 I) (payG52 I hc H)
    (inv51 I hc H)
theorem rd53 : (Rn 4 inb_S7x128x128_S1x128x128_4_0_0).view.read (Elt F) (rowsAt58 I) = gp53 I :=
  ((Rn_read_miss 4 2 inb_S7x128x128_S1x128x128_4_0_0 inb_S7x128x128_S1x128x128_2_0_0 (by decide) (rowsAt57 I) (gp58 I)).trans ((Rn_read_miss 4 1 inb_S7x128x128_S1x128x128_4_0_0 inb_S7x128x128_S1x128x128_1_0_0 (by decide) (rowsAt56 I) (gp57 I)).trans ((Rn_read_miss 4 0 inb_S7x128x128_S1x128x128_4_0_0 inb_S7x128x128_S1x128x128_0_0_0 (by decide) (rowsAt55 I) (gp56 I)).trans ((Rn_read_miss 4 6 inb_S7x128x128_S1x128x128_4_0_0 inb_S7x128x128_S1x128x128_6_0_0 (by decide) (rowsAt54 I) (gp55 I)).trans ((Rn_read_miss 4 5 inb_S7x128x128_S1x128x128_4_0_0 inb_S7x128x128_S1x128x128_5_0_0 (by decide) (rowsAt53 I) (gp54 I)).trans (Rn_read_hit 4 inb_S7x128x128_S1x128x128_4_0_0 (rowsAt52 I) (gp53 I)))))))
theorem payG53 (H : Hyp I tbl col pay) : ∀ y, pay53 I y = Cert.Spec.G tbl col ((Rect.unit (s := S16384x3328) (k0_off3 L 256#32) S128x128.size (k0_off3_inb L hc 2)).emb y) :=
  Step.item_payload tbl col H.hr L pay H.hpay I.fi H.hfi 1 2 inb_S26x4x128_S1x1x128_1_2_0 squeezes_S1x1x128_S128
    _ ((Step.read_full (View.whole main_arg27_scv) inb_S1000x128_S1000x128_0_0 I.ft1).trans H.ht1.symm)
    rfl (I.hin 1 2 inb_S26x4x128_S1x1x128_1_2_0 squeezes_S1x1x128_S128) (k0_off3 L 256#32) (k0_off3_eq L 2) (k0_off3_inb L hc 2) (pay53 I) (rd53 I)
theorem inv53 (H : Hyp I tbl col pay) : ∀ j' < 54, ∀ i ∈ Step.blkSet L 0 j', outAt53 I hc i = Cert.Spec.G tbl col i :=
  Step.out_step L 0 (Cert.Spec.G tbl col) 53 (k0_off3 L 256#32) (k0_off3_eq L 2) (k0_off3_inb L hc 2) (outAt52 I hc) (pay53 I) (payG53 I hc H)
    (inv52 I hc H)
theorem rd54 : (Rn 5 inb_S7x128x128_S1x128x128_5_0_0).view.read (Elt F) (rowsAt59 I) = gp54 I :=
  ((Rn_read_miss 5 3 inb_S7x128x128_S1x128x128_5_0_0 inb_S7x128x128_S1x128x128_3_0_0 (by decide) (rowsAt58 I) (gp59 I)).trans ((Rn_read_miss 5 2 inb_S7x128x128_S1x128x128_5_0_0 inb_S7x128x128_S1x128x128_2_0_0 (by decide) (rowsAt57 I) (gp58 I)).trans ((Rn_read_miss 5 1 inb_S7x128x128_S1x128x128_5_0_0 inb_S7x128x128_S1x128x128_1_0_0 (by decide) (rowsAt56 I) (gp57 I)).trans ((Rn_read_miss 5 0 inb_S7x128x128_S1x128x128_5_0_0 inb_S7x128x128_S1x128x128_0_0_0 (by decide) (rowsAt55 I) (gp56 I)).trans ((Rn_read_miss 5 6 inb_S7x128x128_S1x128x128_5_0_0 inb_S7x128x128_S1x128x128_6_0_0 (by decide) (rowsAt54 I) (gp55 I)).trans (Rn_read_hit 5 inb_S7x128x128_S1x128x128_5_0_0 (rowsAt53 I) (gp54 I)))))))
theorem payG54 (H : Hyp I tbl col pay) : ∀ y, pay54 I y = Cert.Spec.G tbl col ((Rect.unit (s := S16384x3328) (k0_off4 L 256#32) S128x128.size (k0_off4_inb L hc 2)).emb y) :=
  Step.item_payload tbl col H.hr L pay H.hpay I.fi H.hfi 2 2 inb_S26x4x128_S1x1x128_2_2_0 squeezes_S1x1x128_S128
    _ ((Step.read_full (View.whole main_arg28_scv) inb_S1000x128_S1000x128_0_0 I.ft2).trans H.ht2.symm)
    rfl (I.hin 2 2 inb_S26x4x128_S1x1x128_2_2_0 squeezes_S1x1x128_S128) (k0_off4 L 256#32) (k0_off4_eq L 2) (k0_off4_inb L hc 2) (pay54 I) (rd54 I)
theorem inv54 (H : Hyp I tbl col pay) : ∀ j' < 55, ∀ i ∈ Step.blkSet L 0 j', outAt54 I hc i = Cert.Spec.G tbl col i :=
  Step.out_step L 0 (Cert.Spec.G tbl col) 54 (k0_off4 L 256#32) (k0_off4_eq L 2) (k0_off4_inb L hc 2) (outAt53 I hc) (pay54 I) (payG54 I hc H)
    (inv53 I hc H)
theorem rd55 : (Rn 6 inb_S7x128x128_S1x128x128_6_0_0).view.read (Elt F) (rowsAt60 I) = gp55 I :=
  ((Rn_read_miss 6 4 inb_S7x128x128_S1x128x128_6_0_0 inb_S7x128x128_S1x128x128_4_0_0 (by decide) (rowsAt59 I) (gp60 I)).trans ((Rn_read_miss 6 3 inb_S7x128x128_S1x128x128_6_0_0 inb_S7x128x128_S1x128x128_3_0_0 (by decide) (rowsAt58 I) (gp59 I)).trans ((Rn_read_miss 6 2 inb_S7x128x128_S1x128x128_6_0_0 inb_S7x128x128_S1x128x128_2_0_0 (by decide) (rowsAt57 I) (gp58 I)).trans ((Rn_read_miss 6 1 inb_S7x128x128_S1x128x128_6_0_0 inb_S7x128x128_S1x128x128_1_0_0 (by decide) (rowsAt56 I) (gp57 I)).trans ((Rn_read_miss 6 0 inb_S7x128x128_S1x128x128_6_0_0 inb_S7x128x128_S1x128x128_0_0_0 (by decide) (rowsAt55 I) (gp56 I)).trans (Rn_read_hit 6 inb_S7x128x128_S1x128x128_6_0_0 (rowsAt54 I) (gp55 I)))))))
theorem payG55 (H : Hyp I tbl col pay) : ∀ y, pay55 I y = Cert.Spec.G tbl col ((Rect.unit (s := S16384x3328) (k0_off5 L 256#32) S128x128.size (k0_off5_inb L hc 2)).emb y) :=
  Step.item_payload tbl col H.hr L pay H.hpay I.fi H.hfi 3 2 inb_S26x4x128_S1x1x128_3_2_0 squeezes_S1x1x128_S128
    _ ((Step.read_full (View.whole main_arg29_scv) inb_S1000x128_S1000x128_0_0 I.ft3).trans H.ht3.symm)
    rfl (I.hin 3 2 inb_S26x4x128_S1x1x128_3_2_0 squeezes_S1x1x128_S128) (k0_off5 L 256#32) (k0_off5_eq L 2) (k0_off5_inb L hc 2) (pay55 I) (rd55 I)
theorem inv55 (H : Hyp I tbl col pay) : ∀ j' < 56, ∀ i ∈ Step.blkSet L 0 j', outAt55 I hc i = Cert.Spec.G tbl col i :=
  Step.out_step L 0 (Cert.Spec.G tbl col) 55 (k0_off5 L 256#32) (k0_off5_eq L 2) (k0_off5_inb L hc 2) (outAt54 I hc) (pay55 I) (payG55 I hc H)
    (inv54 I hc H)
theorem rd56 : (Rn 0 inb_S7x128x128_S1x128x128_0_0_0).view.read (Elt F) (rowsAt61 I) = gp56 I :=
  ((Rn_read_miss 0 5 inb_S7x128x128_S1x128x128_0_0_0 inb_S7x128x128_S1x128x128_5_0_0 (by decide) (rowsAt60 I) (gp61 I)).trans ((Rn_read_miss 0 4 inb_S7x128x128_S1x128x128_0_0_0 inb_S7x128x128_S1x128x128_4_0_0 (by decide) (rowsAt59 I) (gp60 I)).trans ((Rn_read_miss 0 3 inb_S7x128x128_S1x128x128_0_0_0 inb_S7x128x128_S1x128x128_3_0_0 (by decide) (rowsAt58 I) (gp59 I)).trans ((Rn_read_miss 0 2 inb_S7x128x128_S1x128x128_0_0_0 inb_S7x128x128_S1x128x128_2_0_0 (by decide) (rowsAt57 I) (gp58 I)).trans ((Rn_read_miss 0 1 inb_S7x128x128_S1x128x128_0_0_0 inb_S7x128x128_S1x128x128_1_0_0 (by decide) (rowsAt56 I) (gp57 I)).trans (Rn_read_hit 0 inb_S7x128x128_S1x128x128_0_0_0 (rowsAt55 I) (gp56 I)))))))
theorem payG56 (H : Hyp I tbl col pay) : ∀ y, pay56 I y = Cert.Spec.G tbl col ((Rect.unit (s := S16384x3328) (k0_off6 L 256#32) S128x128.size (k0_off6_inb L hc 2)).emb y) :=
  Step.item_payload tbl col H.hr L pay H.hpay I.fi H.hfi 4 2 inb_S26x4x128_S1x1x128_4_2_0 squeezes_S1x1x128_S128
    _ ((Step.read_full (View.whole main_arg30_scv) inb_S1000x128_S1000x128_0_0 I.ft4).trans H.ht4.symm)
    rfl (I.hin 4 2 inb_S26x4x128_S1x1x128_4_2_0 squeezes_S1x1x128_S128) (k0_off6 L 256#32) (k0_off6_eq L 2) (k0_off6_inb L hc 2) (pay56 I) (rd56 I)
theorem inv56 (H : Hyp I tbl col pay) : ∀ j' < 57, ∀ i ∈ Step.blkSet L 0 j', outAt56 I hc i = Cert.Spec.G tbl col i :=
  Step.out_step L 0 (Cert.Spec.G tbl col) 56 (k0_off6 L 256#32) (k0_off6_eq L 2) (k0_off6_inb L hc 2) (outAt55 I hc) (pay56 I) (payG56 I hc H)
    (inv55 I hc H)
theorem rd57 : (Rn 1 inb_S7x128x128_S1x128x128_1_0_0).view.read (Elt F) (rowsAt62 I) = gp57 I :=
  ((Rn_read_miss 1 6 inb_S7x128x128_S1x128x128_1_0_0 inb_S7x128x128_S1x128x128_6_0_0 (by decide) (rowsAt61 I) (gp62 I)).trans ((Rn_read_miss 1 5 inb_S7x128x128_S1x128x128_1_0_0 inb_S7x128x128_S1x128x128_5_0_0 (by decide) (rowsAt60 I) (gp61 I)).trans ((Rn_read_miss 1 4 inb_S7x128x128_S1x128x128_1_0_0 inb_S7x128x128_S1x128x128_4_0_0 (by decide) (rowsAt59 I) (gp60 I)).trans ((Rn_read_miss 1 3 inb_S7x128x128_S1x128x128_1_0_0 inb_S7x128x128_S1x128x128_3_0_0 (by decide) (rowsAt58 I) (gp59 I)).trans ((Rn_read_miss 1 2 inb_S7x128x128_S1x128x128_1_0_0 inb_S7x128x128_S1x128x128_2_0_0 (by decide) (rowsAt57 I) (gp58 I)).trans (Rn_read_hit 1 inb_S7x128x128_S1x128x128_1_0_0 (rowsAt56 I) (gp57 I)))))))
theorem payG57 (H : Hyp I tbl col pay) : ∀ y, pay57 I y = Cert.Spec.G tbl col ((Rect.unit (s := S16384x3328) (k0_off7 L 256#32) S128x128.size (k0_off7_inb L hc 2)).emb y) :=
  Step.item_payload tbl col H.hr L pay H.hpay I.fi H.hfi 5 2 inb_S26x4x128_S1x1x128_5_2_0 squeezes_S1x1x128_S128
    _ ((Step.read_full (View.whole main_arg31_scv) inb_S1000x128_S1000x128_0_0 I.ft5).trans H.ht5.symm)
    rfl (I.hin 5 2 inb_S26x4x128_S1x1x128_5_2_0 squeezes_S1x1x128_S128) (k0_off7 L 256#32) (k0_off7_eq L 2) (k0_off7_inb L hc 2) (pay57 I) (rd57 I)
theorem inv57 (H : Hyp I tbl col pay) : ∀ j' < 58, ∀ i ∈ Step.blkSet L 0 j', outAt57 I hc i = Cert.Spec.G tbl col i :=
  Step.out_step L 0 (Cert.Spec.G tbl col) 57 (k0_off7 L 256#32) (k0_off7_eq L 2) (k0_off7_inb L hc 2) (outAt56 I hc) (pay57 I) (payG57 I hc H)
    (inv56 I hc H)
theorem rd58 : (Rn 2 inb_S7x128x128_S1x128x128_2_0_0).view.read (Elt F) (rowsAt63 I) = gp58 I :=
  ((Rn_read_miss 2 0 inb_S7x128x128_S1x128x128_2_0_0 inb_S7x128x128_S1x128x128_0_0_0 (by decide) (rowsAt62 I) (gp63 I)).trans ((Rn_read_miss 2 6 inb_S7x128x128_S1x128x128_2_0_0 inb_S7x128x128_S1x128x128_6_0_0 (by decide) (rowsAt61 I) (gp62 I)).trans ((Rn_read_miss 2 5 inb_S7x128x128_S1x128x128_2_0_0 inb_S7x128x128_S1x128x128_5_0_0 (by decide) (rowsAt60 I) (gp61 I)).trans ((Rn_read_miss 2 4 inb_S7x128x128_S1x128x128_2_0_0 inb_S7x128x128_S1x128x128_4_0_0 (by decide) (rowsAt59 I) (gp60 I)).trans ((Rn_read_miss 2 3 inb_S7x128x128_S1x128x128_2_0_0 inb_S7x128x128_S1x128x128_3_0_0 (by decide) (rowsAt58 I) (gp59 I)).trans (Rn_read_hit 2 inb_S7x128x128_S1x128x128_2_0_0 (rowsAt57 I) (gp58 I)))))))
theorem payG58 (H : Hyp I tbl col pay) : ∀ y, pay58 I y = Cert.Spec.G tbl col ((Rect.unit (s := S16384x3328) (k0_off8 L 256#32) S128x128.size (k0_off8_inb L hc 2)).emb y) :=
  Step.item_payload tbl col H.hr L pay H.hpay I.fi H.hfi 6 2 inb_S26x4x128_S1x1x128_6_2_0 squeezes_S1x1x128_S128
    _ ((Step.read_full (View.whole main_arg32_scv) inb_S1000x128_S1000x128_0_0 I.ft6).trans H.ht6.symm)
    rfl (I.hin 6 2 inb_S26x4x128_S1x1x128_6_2_0 squeezes_S1x1x128_S128) (k0_off8 L 256#32) (k0_off8_eq L 2) (k0_off8_inb L hc 2) (pay58 I) (rd58 I)
theorem inv58 (H : Hyp I tbl col pay) : ∀ j' < 59, ∀ i ∈ Step.blkSet L 0 j', outAt58 I hc i = Cert.Spec.G tbl col i :=
  Step.out_step L 0 (Cert.Spec.G tbl col) 58 (k0_off8 L 256#32) (k0_off8_eq L 2) (k0_off8_inb L hc 2) (outAt57 I hc) (pay58 I) (payG58 I hc H)
    (inv57 I hc H)
theorem rd59 : (Rn 3 inb_S7x128x128_S1x128x128_3_0_0).view.read (Elt F) (rowsAt64 I) = gp59 I :=
  ((Rn_read_miss 3 1 inb_S7x128x128_S1x128x128_3_0_0 inb_S7x128x128_S1x128x128_1_0_0 (by decide) (rowsAt63 I) (gp64 I)).trans ((Rn_read_miss 3 0 inb_S7x128x128_S1x128x128_3_0_0 inb_S7x128x128_S1x128x128_0_0_0 (by decide) (rowsAt62 I) (gp63 I)).trans ((Rn_read_miss 3 6 inb_S7x128x128_S1x128x128_3_0_0 inb_S7x128x128_S1x128x128_6_0_0 (by decide) (rowsAt61 I) (gp62 I)).trans ((Rn_read_miss 3 5 inb_S7x128x128_S1x128x128_3_0_0 inb_S7x128x128_S1x128x128_5_0_0 (by decide) (rowsAt60 I) (gp61 I)).trans ((Rn_read_miss 3 4 inb_S7x128x128_S1x128x128_3_0_0 inb_S7x128x128_S1x128x128_4_0_0 (by decide) (rowsAt59 I) (gp60 I)).trans (Rn_read_hit 3 inb_S7x128x128_S1x128x128_3_0_0 (rowsAt58 I) (gp59 I)))))))
theorem payG59 (H : Hyp I tbl col pay) : ∀ y, pay59 I y = Cert.Spec.G tbl col ((Rect.unit (s := S16384x3328) (k0_off9 L 256#32) S128x128.size (k0_off9_inb L hc 2)).emb y) :=
  Step.item_payload tbl col H.hr L pay H.hpay I.fi H.hfi 7 2 inb_S26x4x128_S1x1x128_7_2_0 squeezes_S1x1x128_S128
    _ ((Step.read_full (View.whole main_arg33_scv) inb_S1000x128_S1000x128_0_0 I.ft7).trans H.ht7.symm)
    rfl (I.hin 7 2 inb_S26x4x128_S1x1x128_7_2_0 squeezes_S1x1x128_S128) (k0_off9 L 256#32) (k0_off9_eq L 2) (k0_off9_inb L hc 2) (pay59 I) (rd59 I)
theorem inv59 (H : Hyp I tbl col pay) : ∀ j' < 60, ∀ i ∈ Step.blkSet L 0 j', outAt59 I hc i = Cert.Spec.G tbl col i :=
  Step.out_step L 0 (Cert.Spec.G tbl col) 59 (k0_off9 L 256#32) (k0_off9_eq L 2) (k0_off9_inb L hc 2) (outAt58 I hc) (pay59 I) (payG59 I hc H)
    (inv58 I hc H)
theorem rd60 : (Rn 4 inb_S7x128x128_S1x128x128_4_0_0).view.read (Elt F) (rowsAt65 I) = gp60 I :=
  ((Rn_read_miss 4 2 inb_S7x128x128_S1x128x128_4_0_0 inb_S7x128x128_S1x128x128_2_0_0 (by decide) (rowsAt64 I) (gp65 I)).trans ((Rn_read_miss 4 1 inb_S7x128x128_S1x128x128_4_0_0 inb_S7x128x128_S1x128x128_1_0_0 (by decide) (rowsAt63 I) (gp64 I)).trans ((Rn_read_miss 4 0 inb_S7x128x128_S1x128x128_4_0_0 inb_S7x128x128_S1x128x128_0_0_0 (by decide) (rowsAt62 I) (gp63 I)).trans ((Rn_read_miss 4 6 inb_S7x128x128_S1x128x128_4_0_0 inb_S7x128x128_S1x128x128_6_0_0 (by decide) (rowsAt61 I) (gp62 I)).trans ((Rn_read_miss 4 5 inb_S7x128x128_S1x128x128_4_0_0 inb_S7x128x128_S1x128x128_5_0_0 (by decide) (rowsAt60 I) (gp61 I)).trans (Rn_read_hit 4 inb_S7x128x128_S1x128x128_4_0_0 (rowsAt59 I) (gp60 I)))))))
theorem payG60 (H : Hyp I tbl col pay) : ∀ y, pay60 I y = Cert.Spec.G tbl col ((Rect.unit (s := S16384x3328) (k0_off10 L 256#32) S128x128.size (k0_off10_inb L hc 2)).emb y) :=
  Step.item_payload tbl col H.hr L pay H.hpay I.fi H.hfi 8 2 inb_S26x4x128_S1x1x128_8_2_0 squeezes_S1x1x128_S128
    _ ((Step.read_full (View.whole main_arg34_scv) inb_S1000x128_S1000x128_0_0 I.ft8).trans H.ht8.symm)
    rfl (I.hin 8 2 inb_S26x4x128_S1x1x128_8_2_0 squeezes_S1x1x128_S128) (k0_off10 L 256#32) (k0_off10_eq L 2) (k0_off10_inb L hc 2) (pay60 I) (rd60 I)
theorem inv60 (H : Hyp I tbl col pay) : ∀ j' < 61, ∀ i ∈ Step.blkSet L 0 j', outAt60 I hc i = Cert.Spec.G tbl col i :=
  Step.out_step L 0 (Cert.Spec.G tbl col) 60 (k0_off10 L 256#32) (k0_off10_eq L 2) (k0_off10_inb L hc 2) (outAt59 I hc) (pay60 I) (payG60 I hc H)
    (inv59 I hc H)
theorem rd61 : (Rn 5 inb_S7x128x128_S1x128x128_5_0_0).view.read (Elt F) (rowsAt66 I) = gp61 I :=
  ((Rn_read_miss 5 3 inb_S7x128x128_S1x128x128_5_0_0 inb_S7x128x128_S1x128x128_3_0_0 (by decide) (rowsAt65 I) (gp66 I)).trans ((Rn_read_miss 5 2 inb_S7x128x128_S1x128x128_5_0_0 inb_S7x128x128_S1x128x128_2_0_0 (by decide) (rowsAt64 I) (gp65 I)).trans ((Rn_read_miss 5 1 inb_S7x128x128_S1x128x128_5_0_0 inb_S7x128x128_S1x128x128_1_0_0 (by decide) (rowsAt63 I) (gp64 I)).trans ((Rn_read_miss 5 0 inb_S7x128x128_S1x128x128_5_0_0 inb_S7x128x128_S1x128x128_0_0_0 (by decide) (rowsAt62 I) (gp63 I)).trans ((Rn_read_miss 5 6 inb_S7x128x128_S1x128x128_5_0_0 inb_S7x128x128_S1x128x128_6_0_0 (by decide) (rowsAt61 I) (gp62 I)).trans (Rn_read_hit 5 inb_S7x128x128_S1x128x128_5_0_0 (rowsAt60 I) (gp61 I)))))))
theorem payG61 (H : Hyp I tbl col pay) : ∀ y, pay61 I y = Cert.Spec.G tbl col ((Rect.unit (s := S16384x3328) (k0_off11 L 256#32) S128x128.size (k0_off11_inb L hc 2)).emb y) :=
  Step.item_payload tbl col H.hr L pay H.hpay I.fi H.hfi 9 2 inb_S26x4x128_S1x1x128_9_2_0 squeezes_S1x1x128_S128
    _ ((Step.read_full (View.whole main_arg35_scv) inb_S1000x128_S1000x128_0_0 I.ft9).trans H.ht9.symm)
    rfl (I.hin 9 2 inb_S26x4x128_S1x1x128_9_2_0 squeezes_S1x1x128_S128) (k0_off11 L 256#32) (k0_off11_eq L 2) (k0_off11_inb L hc 2) (pay61 I) (rd61 I)
theorem inv61 (H : Hyp I tbl col pay) : ∀ j' < 62, ∀ i ∈ Step.blkSet L 0 j', outAt61 I hc i = Cert.Spec.G tbl col i :=
  Step.out_step L 0 (Cert.Spec.G tbl col) 61 (k0_off11 L 256#32) (k0_off11_eq L 2) (k0_off11_inb L hc 2) (outAt60 I hc) (pay61 I) (payG61 I hc H)
    (inv60 I hc H)
theorem rd62 : (Rn 6 inb_S7x128x128_S1x128x128_6_0_0).view.read (Elt F) (rowsAt67 I) = gp62 I :=
  ((Rn_read_miss 6 4 inb_S7x128x128_S1x128x128_6_0_0 inb_S7x128x128_S1x128x128_4_0_0 (by decide) (rowsAt66 I) (gp67 I)).trans ((Rn_read_miss 6 3 inb_S7x128x128_S1x128x128_6_0_0 inb_S7x128x128_S1x128x128_3_0_0 (by decide) (rowsAt65 I) (gp66 I)).trans ((Rn_read_miss 6 2 inb_S7x128x128_S1x128x128_6_0_0 inb_S7x128x128_S1x128x128_2_0_0 (by decide) (rowsAt64 I) (gp65 I)).trans ((Rn_read_miss 6 1 inb_S7x128x128_S1x128x128_6_0_0 inb_S7x128x128_S1x128x128_1_0_0 (by decide) (rowsAt63 I) (gp64 I)).trans ((Rn_read_miss 6 0 inb_S7x128x128_S1x128x128_6_0_0 inb_S7x128x128_S1x128x128_0_0_0 (by decide) (rowsAt62 I) (gp63 I)).trans (Rn_read_hit 6 inb_S7x128x128_S1x128x128_6_0_0 (rowsAt61 I) (gp62 I)))))))
theorem payG62 (H : Hyp I tbl col pay) : ∀ y, pay62 I y = Cert.Spec.G tbl col ((Rect.unit (s := S16384x3328) (k0_off12 L 256#32) S128x128.size (k0_off12_inb L hc 2)).emb y) :=
  Step.item_payload tbl col H.hr L pay H.hpay I.fi H.hfi 10 2 inb_S26x4x128_S1x1x128_10_2_0 squeezes_S1x1x128_S128
    _ ((Step.read_full (View.whole main_arg36_scv) inb_S1000x128_S1000x128_0_0 I.ft10).trans H.ht10.symm)
    rfl (I.hin 10 2 inb_S26x4x128_S1x1x128_10_2_0 squeezes_S1x1x128_S128) (k0_off12 L 256#32) (k0_off12_eq L 2) (k0_off12_inb L hc 2) (pay62 I) (rd62 I)
theorem inv62 (H : Hyp I tbl col pay) : ∀ j' < 63, ∀ i ∈ Step.blkSet L 0 j', outAt62 I hc i = Cert.Spec.G tbl col i :=
  Step.out_step L 0 (Cert.Spec.G tbl col) 62 (k0_off12 L 256#32) (k0_off12_eq L 2) (k0_off12_inb L hc 2) (outAt61 I hc) (pay62 I) (payG62 I hc H)
    (inv61 I hc H)
theorem rd63 : (Rn 0 inb_S7x128x128_S1x128x128_0_0_0).view.read (Elt F) (rowsAt68 I) = gp63 I :=
  ((Rn_read_miss 0 5 inb_S7x128x128_S1x128x128_0_0_0 inb_S7x128x128_S1x128x128_5_0_0 (by decide) (rowsAt67 I) (gp68 I)).trans ((Rn_read_miss 0 4 inb_S7x128x128_S1x128x128_0_0_0 inb_S7x128x128_S1x128x128_4_0_0 (by decide) (rowsAt66 I) (gp67 I)).trans ((Rn_read_miss 0 3 inb_S7x128x128_S1x128x128_0_0_0 inb_S7x128x128_S1x128x128_3_0_0 (by decide) (rowsAt65 I) (gp66 I)).trans ((Rn_read_miss 0 2 inb_S7x128x128_S1x128x128_0_0_0 inb_S7x128x128_S1x128x128_2_0_0 (by decide) (rowsAt64 I) (gp65 I)).trans ((Rn_read_miss 0 1 inb_S7x128x128_S1x128x128_0_0_0 inb_S7x128x128_S1x128x128_1_0_0 (by decide) (rowsAt63 I) (gp64 I)).trans (Rn_read_hit 0 inb_S7x128x128_S1x128x128_0_0_0 (rowsAt62 I) (gp63 I)))))))
theorem payG63 (H : Hyp I tbl col pay) : ∀ y, pay63 I y = Cert.Spec.G tbl col ((Rect.unit (s := S16384x3328) (k0_off13 L 256#32) S128x128.size (k0_off13_inb L hc 2)).emb y) :=
  Step.item_payload tbl col H.hr L pay H.hpay I.fi H.hfi 11 2 inb_S26x4x128_S1x1x128_11_2_0 squeezes_S1x1x128_S128
    _ ((Step.read_full (View.whole main_arg37_scv) inb_S1000x128_S1000x128_0_0 I.ft11).trans H.ht11.symm)
    rfl (I.hin 11 2 inb_S26x4x128_S1x1x128_11_2_0 squeezes_S1x1x128_S128) (k0_off13 L 256#32) (k0_off13_eq L 2) (k0_off13_inb L hc 2) (pay63 I) (rd63 I)
theorem inv63 (H : Hyp I tbl col pay) : ∀ j' < 64, ∀ i ∈ Step.blkSet L 0 j', outAt63 I hc i = Cert.Spec.G tbl col i :=
  Step.out_step L 0 (Cert.Spec.G tbl col) 63 (k0_off13 L 256#32) (k0_off13_eq L 2) (k0_off13_inb L hc 2) (outAt62 I hc) (pay63 I) (payG63 I hc H)
    (inv62 I hc H)
theorem rd64 : (Rn 1 inb_S7x128x128_S1x128x128_1_0_0).view.read (Elt F) (rowsAt69 I) = gp64 I :=
  ((Rn_read_miss 1 6 inb_S7x128x128_S1x128x128_1_0_0 inb_S7x128x128_S1x128x128_6_0_0 (by decide) (rowsAt68 I) (gp69 I)).trans ((Rn_read_miss 1 5 inb_S7x128x128_S1x128x128_1_0_0 inb_S7x128x128_S1x128x128_5_0_0 (by decide) (rowsAt67 I) (gp68 I)).trans ((Rn_read_miss 1 4 inb_S7x128x128_S1x128x128_1_0_0 inb_S7x128x128_S1x128x128_4_0_0 (by decide) (rowsAt66 I) (gp67 I)).trans ((Rn_read_miss 1 3 inb_S7x128x128_S1x128x128_1_0_0 inb_S7x128x128_S1x128x128_3_0_0 (by decide) (rowsAt65 I) (gp66 I)).trans ((Rn_read_miss 1 2 inb_S7x128x128_S1x128x128_1_0_0 inb_S7x128x128_S1x128x128_2_0_0 (by decide) (rowsAt64 I) (gp65 I)).trans (Rn_read_hit 1 inb_S7x128x128_S1x128x128_1_0_0 (rowsAt63 I) (gp64 I)))))))
theorem payG64 (H : Hyp I tbl col pay) : ∀ y, pay64 I y = Cert.Spec.G tbl col ((Rect.unit (s := S16384x3328) (k0_off14 L 256#32) S128x128.size (k0_off14_inb L hc 2)).emb y) :=
  Step.item_payload tbl col H.hr L pay H.hpay I.fi H.hfi 12 2 inb_S26x4x128_S1x1x128_12_2_0 squeezes_S1x1x128_S128
    _ ((Step.read_full (View.whole main_arg38_scv) inb_S1000x128_S1000x128_0_0 I.ft12).trans H.ht12.symm)
    rfl (I.hin 12 2 inb_S26x4x128_S1x1x128_12_2_0 squeezes_S1x1x128_S128) (k0_off14 L 256#32) (k0_off14_eq L 2) (k0_off14_inb L hc 2) (pay64 I) (rd64 I)
theorem inv64 (H : Hyp I tbl col pay) : ∀ j' < 65, ∀ i ∈ Step.blkSet L 0 j', outAt64 I hc i = Cert.Spec.G tbl col i :=
  Step.out_step L 0 (Cert.Spec.G tbl col) 64 (k0_off14 L 256#32) (k0_off14_eq L 2) (k0_off14_inb L hc 2) (outAt63 I hc) (pay64 I) (payG64 I hc H)
    (inv63 I hc H)
theorem rd65 : (Rn 2 inb_S7x128x128_S1x128x128_2_0_0).view.read (Elt F) (rowsAt70 I) = gp65 I :=
  ((Rn_read_miss 2 0 inb_S7x128x128_S1x128x128_2_0_0 inb_S7x128x128_S1x128x128_0_0_0 (by decide) (rowsAt69 I) (gp70 I)).trans ((Rn_read_miss 2 6 inb_S7x128x128_S1x128x128_2_0_0 inb_S7x128x128_S1x128x128_6_0_0 (by decide) (rowsAt68 I) (gp69 I)).trans ((Rn_read_miss 2 5 inb_S7x128x128_S1x128x128_2_0_0 inb_S7x128x128_S1x128x128_5_0_0 (by decide) (rowsAt67 I) (gp68 I)).trans ((Rn_read_miss 2 4 inb_S7x128x128_S1x128x128_2_0_0 inb_S7x128x128_S1x128x128_4_0_0 (by decide) (rowsAt66 I) (gp67 I)).trans ((Rn_read_miss 2 3 inb_S7x128x128_S1x128x128_2_0_0 inb_S7x128x128_S1x128x128_3_0_0 (by decide) (rowsAt65 I) (gp66 I)).trans (Rn_read_hit 2 inb_S7x128x128_S1x128x128_2_0_0 (rowsAt64 I) (gp65 I)))))))
theorem payG65 (H : Hyp I tbl col pay) : ∀ y, pay65 I y = Cert.Spec.G tbl col ((Rect.unit (s := S16384x3328) (k0_off15 L 256#32) S128x128.size (k0_off15_inb L hc 2)).emb y) :=
  Step.item_payload tbl col H.hr L pay H.hpay I.fi H.hfi 13 2 inb_S26x4x128_S1x1x128_13_2_0 squeezes_S1x1x128_S128
    _ ((Step.read_full (View.whole main_arg39_scv) inb_S1000x128_S1000x128_0_0 I.ft13).trans H.ht13.symm)
    rfl (I.hin 13 2 inb_S26x4x128_S1x1x128_13_2_0 squeezes_S1x1x128_S128) (k0_off15 L 256#32) (k0_off15_eq L 2) (k0_off15_inb L hc 2) (pay65 I) (rd65 I)
theorem inv65 (H : Hyp I tbl col pay) : ∀ j' < 66, ∀ i ∈ Step.blkSet L 0 j', outAt65 I hc i = Cert.Spec.G tbl col i :=
  Step.out_step L 0 (Cert.Spec.G tbl col) 65 (k0_off15 L 256#32) (k0_off15_eq L 2) (k0_off15_inb L hc 2) (outAt64 I hc) (pay65 I) (payG65 I hc H)
    (inv64 I hc H)
theorem rd66 : (Rn 3 inb_S7x128x128_S1x128x128_3_0_0).view.read (Elt F) (rowsAt71 I) = gp66 I :=
  ((Rn_read_miss 3 1 inb_S7x128x128_S1x128x128_3_0_0 inb_S7x128x128_S1x128x128_1_0_0 (by decide) (rowsAt70 I) (gp71 I)).trans ((Rn_read_miss 3 0 inb_S7x128x128_S1x128x128_3_0_0 inb_S7x128x128_S1x128x128_0_0_0 (by decide) (rowsAt69 I) (gp70 I)).trans ((Rn_read_miss 3 6 inb_S7x128x128_S1x128x128_3_0_0 inb_S7x128x128_S1x128x128_6_0_0 (by decide) (rowsAt68 I) (gp69 I)).trans ((Rn_read_miss 3 5 inb_S7x128x128_S1x128x128_3_0_0 inb_S7x128x128_S1x128x128_5_0_0 (by decide) (rowsAt67 I) (gp68 I)).trans ((Rn_read_miss 3 4 inb_S7x128x128_S1x128x128_3_0_0 inb_S7x128x128_S1x128x128_4_0_0 (by decide) (rowsAt66 I) (gp67 I)).trans (Rn_read_hit 3 inb_S7x128x128_S1x128x128_3_0_0 (rowsAt65 I) (gp66 I)))))))
theorem payG66 (H : Hyp I tbl col pay) : ∀ y, pay66 I y = Cert.Spec.G tbl col ((Rect.unit (s := S16384x3328) (k0_off16 L 256#32) S128x128.size (k0_off16_inb L hc 2)).emb y) :=
  Step.item_payload tbl col H.hr L pay H.hpay I.fi H.hfi 14 2 inb_S26x4x128_S1x1x128_14_2_0 squeezes_S1x1x128_S128
    _ ((Step.read_full (View.whole main_arg40_scv) inb_S1000x128_S1000x128_0_0 I.ft14).trans H.ht14.symm)
    rfl (I.hin 14 2 inb_S26x4x128_S1x1x128_14_2_0 squeezes_S1x1x128_S128) (k0_off16 L 256#32) (k0_off16_eq L 2) (k0_off16_inb L hc 2) (pay66 I) (rd66 I)
theorem inv66 (H : Hyp I tbl col pay) : ∀ j' < 67, ∀ i ∈ Step.blkSet L 0 j', outAt66 I hc i = Cert.Spec.G tbl col i :=
  Step.out_step L 0 (Cert.Spec.G tbl col) 66 (k0_off16 L 256#32) (k0_off16_eq L 2) (k0_off16_inb L hc 2) (outAt65 I hc) (pay66 I) (payG66 I hc H)
    (inv65 I hc H)
theorem rd67 : (Rn 4 inb_S7x128x128_S1x128x128_4_0_0).view.read (Elt F) (rowsAt72 I) = gp67 I :=
  ((Rn_read_miss 4 2 inb_S7x128x128_S1x128x128_4_0_0 inb_S7x128x128_S1x128x128_2_0_0 (by decide) (rowsAt71 I) (gp72 I)).trans ((Rn_read_miss 4 1 inb_S7x128x128_S1x128x128_4_0_0 inb_S7x128x128_S1x128x128_1_0_0 (by decide) (rowsAt70 I) (gp71 I)).trans ((Rn_read_miss 4 0 inb_S7x128x128_S1x128x128_4_0_0 inb_S7x128x128_S1x128x128_0_0_0 (by decide) (rowsAt69 I) (gp70 I)).trans ((Rn_read_miss 4 6 inb_S7x128x128_S1x128x128_4_0_0 inb_S7x128x128_S1x128x128_6_0_0 (by decide) (rowsAt68 I) (gp69 I)).trans ((Rn_read_miss 4 5 inb_S7x128x128_S1x128x128_4_0_0 inb_S7x128x128_S1x128x128_5_0_0 (by decide) (rowsAt67 I) (gp68 I)).trans (Rn_read_hit 4 inb_S7x128x128_S1x128x128_4_0_0 (rowsAt66 I) (gp67 I)))))))
theorem payG67 (H : Hyp I tbl col pay) : ∀ y, pay67 I y = Cert.Spec.G tbl col ((Rect.unit (s := S16384x3328) (k0_off17 L 256#32) S128x128.size (k0_off17_inb L hc 2)).emb y) :=
  Step.item_payload tbl col H.hr L pay H.hpay I.fi H.hfi 15 2 inb_S26x4x128_S1x1x128_15_2_0 squeezes_S1x1x128_S128
    _ ((Step.read_full (View.whole main_arg41_scv) inb_S1000x128_S1000x128_0_0 I.ft15).trans H.ht15.symm)
    rfl (I.hin 15 2 inb_S26x4x128_S1x1x128_15_2_0 squeezes_S1x1x128_S128) (k0_off17 L 256#32) (k0_off17_eq L 2) (k0_off17_inb L hc 2) (pay67 I) (rd67 I)
theorem inv67 (H : Hyp I tbl col pay) : ∀ j' < 68, ∀ i ∈ Step.blkSet L 0 j', outAt67 I hc i = Cert.Spec.G tbl col i :=
  Step.out_step L 0 (Cert.Spec.G tbl col) 67 (k0_off17 L 256#32) (k0_off17_eq L 2) (k0_off17_inb L hc 2) (outAt66 I hc) (pay67 I) (payG67 I hc H)
    (inv66 I hc H)
theorem rd68 : (Rn 5 inb_S7x128x128_S1x128x128_5_0_0).view.read (Elt F) (rowsAt73 I) = gp68 I :=
  ((Rn_read_miss 5 3 inb_S7x128x128_S1x128x128_5_0_0 inb_S7x128x128_S1x128x128_3_0_0 (by decide) (rowsAt72 I) (gp73 I)).trans ((Rn_read_miss 5 2 inb_S7x128x128_S1x128x128_5_0_0 inb_S7x128x128_S1x128x128_2_0_0 (by decide) (rowsAt71 I) (gp72 I)).trans ((Rn_read_miss 5 1 inb_S7x128x128_S1x128x128_5_0_0 inb_S7x128x128_S1x128x128_1_0_0 (by decide) (rowsAt70 I) (gp71 I)).trans ((Rn_read_miss 5 0 inb_S7x128x128_S1x128x128_5_0_0 inb_S7x128x128_S1x128x128_0_0_0 (by decide) (rowsAt69 I) (gp70 I)).trans ((Rn_read_miss 5 6 inb_S7x128x128_S1x128x128_5_0_0 inb_S7x128x128_S1x128x128_6_0_0 (by decide) (rowsAt68 I) (gp69 I)).trans (Rn_read_hit 5 inb_S7x128x128_S1x128x128_5_0_0 (rowsAt67 I) (gp68 I)))))))
theorem payG68 (H : Hyp I tbl col pay) : ∀ y, pay68 I y = Cert.Spec.G tbl col ((Rect.unit (s := S16384x3328) (k0_off18 L 256#32) S128x128.size (k0_off18_inb L hc 2)).emb y) :=
  Step.item_payload tbl col H.hr L pay H.hpay I.fi H.hfi 16 2 inb_S26x4x128_S1x1x128_16_2_0 squeezes_S1x1x128_S128
    _ ((Step.read_full (View.whole main_arg42_scv) inb_S1000x128_S1000x128_0_0 I.ft16).trans H.ht16.symm)
    rfl (I.hin 16 2 inb_S26x4x128_S1x1x128_16_2_0 squeezes_S1x1x128_S128) (k0_off18 L 256#32) (k0_off18_eq L 2) (k0_off18_inb L hc 2) (pay68 I) (rd68 I)
theorem inv68 (H : Hyp I tbl col pay) : ∀ j' < 69, ∀ i ∈ Step.blkSet L 0 j', outAt68 I hc i = Cert.Spec.G tbl col i :=
  Step.out_step L 0 (Cert.Spec.G tbl col) 68 (k0_off18 L 256#32) (k0_off18_eq L 2) (k0_off18_inb L hc 2) (outAt67 I hc) (pay68 I) (payG68 I hc H)
    (inv67 I hc H)
theorem rd69 : (Rn 6 inb_S7x128x128_S1x128x128_6_0_0).view.read (Elt F) (rowsAt74 I) = gp69 I :=
  ((Rn_read_miss 6 4 inb_S7x128x128_S1x128x128_6_0_0 inb_S7x128x128_S1x128x128_4_0_0 (by decide) (rowsAt73 I) (gp74 I)).trans ((Rn_read_miss 6 3 inb_S7x128x128_S1x128x128_6_0_0 inb_S7x128x128_S1x128x128_3_0_0 (by decide) (rowsAt72 I) (gp73 I)).trans ((Rn_read_miss 6 2 inb_S7x128x128_S1x128x128_6_0_0 inb_S7x128x128_S1x128x128_2_0_0 (by decide) (rowsAt71 I) (gp72 I)).trans ((Rn_read_miss 6 1 inb_S7x128x128_S1x128x128_6_0_0 inb_S7x128x128_S1x128x128_1_0_0 (by decide) (rowsAt70 I) (gp71 I)).trans ((Rn_read_miss 6 0 inb_S7x128x128_S1x128x128_6_0_0 inb_S7x128x128_S1x128x128_0_0_0 (by decide) (rowsAt69 I) (gp70 I)).trans (Rn_read_hit 6 inb_S7x128x128_S1x128x128_6_0_0 (rowsAt68 I) (gp69 I)))))))
theorem payG69 (H : Hyp I tbl col pay) : ∀ y, pay69 I y = Cert.Spec.G tbl col ((Rect.unit (s := S16384x3328) (k0_off19 L 256#32) S128x128.size (k0_off19_inb L hc 2)).emb y) :=
  Step.item_payload tbl col H.hr L pay H.hpay I.fi H.hfi 17 2 inb_S26x4x128_S1x1x128_17_2_0 squeezes_S1x1x128_S128
    _ ((Step.read_full (View.whole main_arg43_scv) inb_S1000x128_S1000x128_0_0 I.ft17).trans H.ht17.symm)
    rfl (I.hin 17 2 inb_S26x4x128_S1x1x128_17_2_0 squeezes_S1x1x128_S128) (k0_off19 L 256#32) (k0_off19_eq L 2) (k0_off19_inb L hc 2) (pay69 I) (rd69 I)
theorem inv69 (H : Hyp I tbl col pay) : ∀ j' < 70, ∀ i ∈ Step.blkSet L 0 j', outAt69 I hc i = Cert.Spec.G tbl col i :=
  Step.out_step L 0 (Cert.Spec.G tbl col) 69 (k0_off19 L 256#32) (k0_off19_eq L 2) (k0_off19_inb L hc 2) (outAt68 I hc) (pay69 I) (payG69 I hc H)
    (inv68 I hc H)
theorem rd70 : (Rn 0 inb_S7x128x128_S1x128x128_0_0_0).view.read (Elt F) (rowsAt75 I) = gp70 I :=
  ((Rn_read_miss 0 5 inb_S7x128x128_S1x128x128_0_0_0 inb_S7x128x128_S1x128x128_5_0_0 (by decide) (rowsAt74 I) (gp75 I)).trans ((Rn_read_miss 0 4 inb_S7x128x128_S1x128x128_0_0_0 inb_S7x128x128_S1x128x128_4_0_0 (by decide) (rowsAt73 I) (gp74 I)).trans ((Rn_read_miss 0 3 inb_S7x128x128_S1x128x128_0_0_0 inb_S7x128x128_S1x128x128_3_0_0 (by decide) (rowsAt72 I) (gp73 I)).trans ((Rn_read_miss 0 2 inb_S7x128x128_S1x128x128_0_0_0 inb_S7x128x128_S1x128x128_2_0_0 (by decide) (rowsAt71 I) (gp72 I)).trans ((Rn_read_miss 0 1 inb_S7x128x128_S1x128x128_0_0_0 inb_S7x128x128_S1x128x128_1_0_0 (by decide) (rowsAt70 I) (gp71 I)).trans (Rn_read_hit 0 inb_S7x128x128_S1x128x128_0_0_0 (rowsAt69 I) (gp70 I)))))))
theorem payG70 (H : Hyp I tbl col pay) : ∀ y, pay70 I y = Cert.Spec.G tbl col ((Rect.unit (s := S16384x3328) (k0_off20 L 256#32) S128x128.size (k0_off20_inb L hc 2)).emb y) :=
  Step.item_payload tbl col H.hr L pay H.hpay I.fi H.hfi 18 2 inb_S26x4x128_S1x1x128_18_2_0 squeezes_S1x1x128_S128
    _ ((Step.read_full (View.whole main_arg44_scv) inb_S1000x128_S1000x128_0_0 I.ft18).trans H.ht18.symm)
    rfl (I.hin 18 2 inb_S26x4x128_S1x1x128_18_2_0 squeezes_S1x1x128_S128) (k0_off20 L 256#32) (k0_off20_eq L 2) (k0_off20_inb L hc 2) (pay70 I) (rd70 I)
theorem inv70 (H : Hyp I tbl col pay) : ∀ j' < 71, ∀ i ∈ Step.blkSet L 0 j', outAt70 I hc i = Cert.Spec.G tbl col i :=
  Step.out_step L 0 (Cert.Spec.G tbl col) 70 (k0_off20 L 256#32) (k0_off20_eq L 2) (k0_off20_inb L hc 2) (outAt69 I hc) (pay70 I) (payG70 I hc H)
    (inv69 I hc H)
theorem rd71 : (Rn 1 inb_S7x128x128_S1x128x128_1_0_0).view.read (Elt F) (rowsAt76 I) = gp71 I :=
  ((Rn_read_miss 1 6 inb_S7x128x128_S1x128x128_1_0_0 inb_S7x128x128_S1x128x128_6_0_0 (by decide) (rowsAt75 I) (gp76 I)).trans ((Rn_read_miss 1 5 inb_S7x128x128_S1x128x128_1_0_0 inb_S7x128x128_S1x128x128_5_0_0 (by decide) (rowsAt74 I) (gp75 I)).trans ((Rn_read_miss 1 4 inb_S7x128x128_S1x128x128_1_0_0 inb_S7x128x128_S1x128x128_4_0_0 (by decide) (rowsAt73 I) (gp74 I)).trans ((Rn_read_miss 1 3 inb_S7x128x128_S1x128x128_1_0_0 inb_S7x128x128_S1x128x128_3_0_0 (by decide) (rowsAt72 I) (gp73 I)).trans ((Rn_read_miss 1 2 inb_S7x128x128_S1x128x128_1_0_0 inb_S7x128x128_S1x128x128_2_0_0 (by decide) (rowsAt71 I) (gp72 I)).trans (Rn_read_hit 1 inb_S7x128x128_S1x128x128_1_0_0 (rowsAt70 I) (gp71 I)))))))
theorem payG71 (H : Hyp I tbl col pay) : ∀ y, pay71 I y = Cert.Spec.G tbl col ((Rect.unit (s := S16384x3328) (k0_off21 L 256#32) S128x128.size (k0_off21_inb L hc 2)).emb y) :=
  Step.item_payload tbl col H.hr L pay H.hpay I.fi H.hfi 19 2 inb_S26x4x128_S1x1x128_19_2_0 squeezes_S1x1x128_S128
    _ ((Step.read_full (View.whole main_arg45_scv) inb_S1000x128_S1000x128_0_0 I.ft19).trans H.ht19.symm)
    rfl (I.hin 19 2 inb_S26x4x128_S1x1x128_19_2_0 squeezes_S1x1x128_S128) (k0_off21 L 256#32) (k0_off21_eq L 2) (k0_off21_inb L hc 2) (pay71 I) (rd71 I)
theorem inv71 (H : Hyp I tbl col pay) : ∀ j' < 72, ∀ i ∈ Step.blkSet L 0 j', outAt71 I hc i = Cert.Spec.G tbl col i :=
  Step.out_step L 0 (Cert.Spec.G tbl col) 71 (k0_off21 L 256#32) (k0_off21_eq L 2) (k0_off21_inb L hc 2) (outAt70 I hc) (pay71 I) (payG71 I hc H)
    (inv70 I hc H)
theorem rd72 : (Rn 2 inb_S7x128x128_S1x128x128_2_0_0).view.read (Elt F) (rowsAt77 I) = gp72 I :=
  ((Rn_read_miss 2 0 inb_S7x128x128_S1x128x128_2_0_0 inb_S7x128x128_S1x128x128_0_0_0 (by decide) (rowsAt76 I) (gp77 I)).trans ((Rn_read_miss 2 6 inb_S7x128x128_S1x128x128_2_0_0 inb_S7x128x128_S1x128x128_6_0_0 (by decide) (rowsAt75 I) (gp76 I)).trans ((Rn_read_miss 2 5 inb_S7x128x128_S1x128x128_2_0_0 inb_S7x128x128_S1x128x128_5_0_0 (by decide) (rowsAt74 I) (gp75 I)).trans ((Rn_read_miss 2 4 inb_S7x128x128_S1x128x128_2_0_0 inb_S7x128x128_S1x128x128_4_0_0 (by decide) (rowsAt73 I) (gp74 I)).trans ((Rn_read_miss 2 3 inb_S7x128x128_S1x128x128_2_0_0 inb_S7x128x128_S1x128x128_3_0_0 (by decide) (rowsAt72 I) (gp73 I)).trans (Rn_read_hit 2 inb_S7x128x128_S1x128x128_2_0_0 (rowsAt71 I) (gp72 I)))))))
theorem payG72 (H : Hyp I tbl col pay) : ∀ y, pay72 I y = Cert.Spec.G tbl col ((Rect.unit (s := S16384x3328) (k0_off22 L 256#32) S128x128.size (k0_off22_inb L hc 2)).emb y) :=
  Step.item_payload tbl col H.hr L pay H.hpay I.fi H.hfi 20 2 inb_S26x4x128_S1x1x128_20_2_0 squeezes_S1x1x128_S128
    _ ((Step.read_full (View.whole main_arg46_scv) inb_S1000x128_S1000x128_0_0 I.ft20).trans H.ht20.symm)
    rfl (I.hin 20 2 inb_S26x4x128_S1x1x128_20_2_0 squeezes_S1x1x128_S128) (k0_off22 L 256#32) (k0_off22_eq L 2) (k0_off22_inb L hc 2) (pay72 I) (rd72 I)
theorem inv72 (H : Hyp I tbl col pay) : ∀ j' < 73, ∀ i ∈ Step.blkSet L 0 j', outAt72 I hc i = Cert.Spec.G tbl col i :=
  Step.out_step L 0 (Cert.Spec.G tbl col) 72 (k0_off22 L 256#32) (k0_off22_eq L 2) (k0_off22_inb L hc 2) (outAt71 I hc) (pay72 I) (payG72 I hc H)
    (inv71 I hc H)
theorem rd73 : (Rn 3 inb_S7x128x128_S1x128x128_3_0_0).view.read (Elt F) (rowsAt78 I) = gp73 I :=
  ((Rn_read_miss 3 1 inb_S7x128x128_S1x128x128_3_0_0 inb_S7x128x128_S1x128x128_1_0_0 (by decide) (rowsAt77 I) (gp78 I)).trans ((Rn_read_miss 3 0 inb_S7x128x128_S1x128x128_3_0_0 inb_S7x128x128_S1x128x128_0_0_0 (by decide) (rowsAt76 I) (gp77 I)).trans ((Rn_read_miss 3 6 inb_S7x128x128_S1x128x128_3_0_0 inb_S7x128x128_S1x128x128_6_0_0 (by decide) (rowsAt75 I) (gp76 I)).trans ((Rn_read_miss 3 5 inb_S7x128x128_S1x128x128_3_0_0 inb_S7x128x128_S1x128x128_5_0_0 (by decide) (rowsAt74 I) (gp75 I)).trans ((Rn_read_miss 3 4 inb_S7x128x128_S1x128x128_3_0_0 inb_S7x128x128_S1x128x128_4_0_0 (by decide) (rowsAt73 I) (gp74 I)).trans (Rn_read_hit 3 inb_S7x128x128_S1x128x128_3_0_0 (rowsAt72 I) (gp73 I)))))))
theorem payG73 (H : Hyp I tbl col pay) : ∀ y, pay73 I y = Cert.Spec.G tbl col ((Rect.unit (s := S16384x3328) (k0_off23 L 256#32) S128x128.size (k0_off23_inb L hc 2)).emb y) :=
  Step.item_payload tbl col H.hr L pay H.hpay I.fi H.hfi 21 2 inb_S26x4x128_S1x1x128_21_2_0 squeezes_S1x1x128_S128
    _ ((Step.read_full (View.whole main_arg47_scv) inb_S1000x128_S1000x128_0_0 I.ft21).trans H.ht21.symm)
    rfl (I.hin 21 2 inb_S26x4x128_S1x1x128_21_2_0 squeezes_S1x1x128_S128) (k0_off23 L 256#32) (k0_off23_eq L 2) (k0_off23_inb L hc 2) (pay73 I) (rd73 I)
theorem inv73 (H : Hyp I tbl col pay) : ∀ j' < 74, ∀ i ∈ Step.blkSet L 0 j', outAt73 I hc i = Cert.Spec.G tbl col i :=
  Step.out_step L 0 (Cert.Spec.G tbl col) 73 (k0_off23 L 256#32) (k0_off23_eq L 2) (k0_off23_inb L hc 2) (outAt72 I hc) (pay73 I) (payG73 I hc H)
    (inv72 I hc H)
theorem rd74 : (Rn 4 inb_S7x128x128_S1x128x128_4_0_0).view.read (Elt F) (rowsAt79 I) = gp74 I :=
  ((Rn_read_miss 4 2 inb_S7x128x128_S1x128x128_4_0_0 inb_S7x128x128_S1x128x128_2_0_0 (by decide) (rowsAt78 I) (gp79 I)).trans ((Rn_read_miss 4 1 inb_S7x128x128_S1x128x128_4_0_0 inb_S7x128x128_S1x128x128_1_0_0 (by decide) (rowsAt77 I) (gp78 I)).trans ((Rn_read_miss 4 0 inb_S7x128x128_S1x128x128_4_0_0 inb_S7x128x128_S1x128x128_0_0_0 (by decide) (rowsAt76 I) (gp77 I)).trans ((Rn_read_miss 4 6 inb_S7x128x128_S1x128x128_4_0_0 inb_S7x128x128_S1x128x128_6_0_0 (by decide) (rowsAt75 I) (gp76 I)).trans ((Rn_read_miss 4 5 inb_S7x128x128_S1x128x128_4_0_0 inb_S7x128x128_S1x128x128_5_0_0 (by decide) (rowsAt74 I) (gp75 I)).trans (Rn_read_hit 4 inb_S7x128x128_S1x128x128_4_0_0 (rowsAt73 I) (gp74 I)))))))
theorem payG74 (H : Hyp I tbl col pay) : ∀ y, pay74 I y = Cert.Spec.G tbl col ((Rect.unit (s := S16384x3328) (k0_off24 L 256#32) S128x128.size (k0_off24_inb L hc 2)).emb y) :=
  Step.item_payload tbl col H.hr L pay H.hpay I.fi H.hfi 22 2 inb_S26x4x128_S1x1x128_22_2_0 squeezes_S1x1x128_S128
    _ ((Step.read_full (View.whole main_arg48_scv) inb_S1000x128_S1000x128_0_0 I.ft22).trans H.ht22.symm)
    rfl (I.hin 22 2 inb_S26x4x128_S1x1x128_22_2_0 squeezes_S1x1x128_S128) (k0_off24 L 256#32) (k0_off24_eq L 2) (k0_off24_inb L hc 2) (pay74 I) (rd74 I)
theorem inv74 (H : Hyp I tbl col pay) : ∀ j' < 75, ∀ i ∈ Step.blkSet L 0 j', outAt74 I hc i = Cert.Spec.G tbl col i :=
  Step.out_step L 0 (Cert.Spec.G tbl col) 74 (k0_off24 L 256#32) (k0_off24_eq L 2) (k0_off24_inb L hc 2) (outAt73 I hc) (pay74 I) (payG74 I hc H)
    (inv73 I hc H)
theorem rd75 : (Rn 5 inb_S7x128x128_S1x128x128_5_0_0).view.read (Elt F) (rowsAt80 I) = gp75 I :=
  ((Rn_read_miss 5 3 inb_S7x128x128_S1x128x128_5_0_0 inb_S7x128x128_S1x128x128_3_0_0 (by decide) (rowsAt79 I) (gp80 I)).trans ((Rn_read_miss 5 2 inb_S7x128x128_S1x128x128_5_0_0 inb_S7x128x128_S1x128x128_2_0_0 (by decide) (rowsAt78 I) (gp79 I)).trans ((Rn_read_miss 5 1 inb_S7x128x128_S1x128x128_5_0_0 inb_S7x128x128_S1x128x128_1_0_0 (by decide) (rowsAt77 I) (gp78 I)).trans ((Rn_read_miss 5 0 inb_S7x128x128_S1x128x128_5_0_0 inb_S7x128x128_S1x128x128_0_0_0 (by decide) (rowsAt76 I) (gp77 I)).trans ((Rn_read_miss 5 6 inb_S7x128x128_S1x128x128_5_0_0 inb_S7x128x128_S1x128x128_6_0_0 (by decide) (rowsAt75 I) (gp76 I)).trans (Rn_read_hit 5 inb_S7x128x128_S1x128x128_5_0_0 (rowsAt74 I) (gp75 I)))))))
theorem payG75 (H : Hyp I tbl col pay) : ∀ y, pay75 I y = Cert.Spec.G tbl col ((Rect.unit (s := S16384x3328) (k0_off25 L 256#32) S128x128.size (k0_off25_inb L hc 2)).emb y) :=
  Step.item_payload tbl col H.hr L pay H.hpay I.fi H.hfi 23 2 inb_S26x4x128_S1x1x128_23_2_0 squeezes_S1x1x128_S128
    _ ((Step.read_full (View.whole main_arg49_scv) inb_S1000x128_S1000x128_0_0 I.ft23).trans H.ht23.symm)
    rfl (I.hin 23 2 inb_S26x4x128_S1x1x128_23_2_0 squeezes_S1x1x128_S128) (k0_off25 L 256#32) (k0_off25_eq L 2) (k0_off25_inb L hc 2) (pay75 I) (rd75 I)
theorem inv75 (H : Hyp I tbl col pay) : ∀ j' < 76, ∀ i ∈ Step.blkSet L 0 j', outAt75 I hc i = Cert.Spec.G tbl col i :=
  Step.out_step L 0 (Cert.Spec.G tbl col) 75 (k0_off25 L 256#32) (k0_off25_eq L 2) (k0_off25_inb L hc 2) (outAt74 I hc) (pay75 I) (payG75 I hc H)
    (inv74 I hc H)
theorem rd76 : (Rn 6 inb_S7x128x128_S1x128x128_6_0_0).view.read (Elt F) (rowsAt81 I) = gp76 I :=
  ((Rn_read_miss 6 4 inb_S7x128x128_S1x128x128_6_0_0 inb_S7x128x128_S1x128x128_4_0_0 (by decide) (rowsAt80 I) (gp81 I)).trans ((Rn_read_miss 6 3 inb_S7x128x128_S1x128x128_6_0_0 inb_S7x128x128_S1x128x128_3_0_0 (by decide) (rowsAt79 I) (gp80 I)).trans ((Rn_read_miss 6 2 inb_S7x128x128_S1x128x128_6_0_0 inb_S7x128x128_S1x128x128_2_0_0 (by decide) (rowsAt78 I) (gp79 I)).trans ((Rn_read_miss 6 1 inb_S7x128x128_S1x128x128_6_0_0 inb_S7x128x128_S1x128x128_1_0_0 (by decide) (rowsAt77 I) (gp78 I)).trans ((Rn_read_miss 6 0 inb_S7x128x128_S1x128x128_6_0_0 inb_S7x128x128_S1x128x128_0_0_0 (by decide) (rowsAt76 I) (gp77 I)).trans (Rn_read_hit 6 inb_S7x128x128_S1x128x128_6_0_0 (rowsAt75 I) (gp76 I)))))))
theorem payG76 (H : Hyp I tbl col pay) : ∀ y, pay76 I y = Cert.Spec.G tbl col ((Rect.unit (s := S16384x3328) (k0_off26 L 256#32) S128x128.size (k0_off26_inb L hc 2)).emb y) :=
  Step.item_payload tbl col H.hr L pay H.hpay I.fi H.hfi 24 2 inb_S26x4x128_S1x1x128_24_2_0 squeezes_S1x1x128_S128
    _ ((Step.read_full (View.whole main_arg50_scv) inb_S1000x128_S1000x128_0_0 I.ft24).trans H.ht24.symm)
    rfl (I.hin 24 2 inb_S26x4x128_S1x1x128_24_2_0 squeezes_S1x1x128_S128) (k0_off26 L 256#32) (k0_off26_eq L 2) (k0_off26_inb L hc 2) (pay76 I) (rd76 I)
theorem inv76 (H : Hyp I tbl col pay) : ∀ j' < 77, ∀ i ∈ Step.blkSet L 0 j', outAt76 I hc i = Cert.Spec.G tbl col i :=
  Step.out_step L 0 (Cert.Spec.G tbl col) 76 (k0_off26 L 256#32) (k0_off26_eq L 2) (k0_off26_inb L hc 2) (outAt75 I hc) (pay76 I) (payG76 I hc H)
    (inv75 I hc H)
theorem rd77 : (Rn 0 inb_S7x128x128_S1x128x128_0_0_0).view.read (Elt F) (rowsAt82 I) = gp77 I :=
  ((Rn_read_miss 0 5 inb_S7x128x128_S1x128x128_0_0_0 inb_S7x128x128_S1x128x128_5_0_0 (by decide) (rowsAt81 I) (gp82 I)).trans ((Rn_read_miss 0 4 inb_S7x128x128_S1x128x128_0_0_0 inb_S7x128x128_S1x128x128_4_0_0 (by decide) (rowsAt80 I) (gp81 I)).trans ((Rn_read_miss 0 3 inb_S7x128x128_S1x128x128_0_0_0 inb_S7x128x128_S1x128x128_3_0_0 (by decide) (rowsAt79 I) (gp80 I)).trans ((Rn_read_miss 0 2 inb_S7x128x128_S1x128x128_0_0_0 inb_S7x128x128_S1x128x128_2_0_0 (by decide) (rowsAt78 I) (gp79 I)).trans ((Rn_read_miss 0 1 inb_S7x128x128_S1x128x128_0_0_0 inb_S7x128x128_S1x128x128_1_0_0 (by decide) (rowsAt77 I) (gp78 I)).trans (Rn_read_hit 0 inb_S7x128x128_S1x128x128_0_0_0 (rowsAt76 I) (gp77 I)))))))
theorem payG77 (H : Hyp I tbl col pay) : ∀ y, pay77 I y = Cert.Spec.G tbl col ((Rect.unit (s := S16384x3328) (k0_off27 L 256#32) S128x128.size (k0_off27_inb L hc 2)).emb y) :=
  Step.item_payload tbl col H.hr L pay H.hpay I.fi H.hfi 25 2 inb_S26x4x128_S1x1x128_25_2_0 squeezes_S1x1x128_S128
    _ ((Step.read_full (View.whole main_arg51_scv) inb_S1000x128_S1000x128_0_0 I.ft25).trans H.ht25.symm)
    rfl (I.hin 25 2 inb_S26x4x128_S1x1x128_25_2_0 squeezes_S1x1x128_S128) (k0_off27 L 256#32) (k0_off27_eq L 2) (k0_off27_inb L hc 2) (pay77 I) (rd77 I)
theorem inv77 (H : Hyp I tbl col pay) : ∀ j' < 78, ∀ i ∈ Step.blkSet L 0 j', outAt77 I hc i = Cert.Spec.G tbl col i :=
  Step.out_step L 0 (Cert.Spec.G tbl col) 77 (k0_off27 L 256#32) (k0_off27_eq L 2) (k0_off27_inb L hc 2) (outAt76 I hc) (pay77 I) (payG77 I hc H)
    (inv76 I hc H)
theorem rd78 : (Rn 1 inb_S7x128x128_S1x128x128_1_0_0).view.read (Elt F) (rowsAt83 I) = gp78 I :=
  ((Rn_read_miss 1 6 inb_S7x128x128_S1x128x128_1_0_0 inb_S7x128x128_S1x128x128_6_0_0 (by decide) (rowsAt82 I) (gp83 I)).trans ((Rn_read_miss 1 5 inb_S7x128x128_S1x128x128_1_0_0 inb_S7x128x128_S1x128x128_5_0_0 (by decide) (rowsAt81 I) (gp82 I)).trans ((Rn_read_miss 1 4 inb_S7x128x128_S1x128x128_1_0_0 inb_S7x128x128_S1x128x128_4_0_0 (by decide) (rowsAt80 I) (gp81 I)).trans ((Rn_read_miss 1 3 inb_S7x128x128_S1x128x128_1_0_0 inb_S7x128x128_S1x128x128_3_0_0 (by decide) (rowsAt79 I) (gp80 I)).trans ((Rn_read_miss 1 2 inb_S7x128x128_S1x128x128_1_0_0 inb_S7x128x128_S1x128x128_2_0_0 (by decide) (rowsAt78 I) (gp79 I)).trans (Rn_read_hit 1 inb_S7x128x128_S1x128x128_1_0_0 (rowsAt77 I) (gp78 I)))))))
theorem payG78 (H : Hyp I tbl col pay) : ∀ y, pay78 I y = Cert.Spec.G tbl col ((Rect.unit (s := S16384x3328) (k0_off2 L 384#32) S128x128.size (k0_off2_inb L hc 3)).emb y) :=
  Step.item_payload tbl col H.hr L pay H.hpay I.fi H.hfi 0 3 inb_S26x4x128_S1x1x128_0_3_0 squeezes_S1x1x128_S128
    _ ((Step.read_full (View.whole main_arg26_scv) inb_S1000x128_S1000x128_0_0 I.ft0).trans H.ht0.symm)
    rfl (I.hin 0 3 inb_S26x4x128_S1x1x128_0_3_0 squeezes_S1x1x128_S128) (k0_off2 L 384#32) (k0_off2_eq L 3) (k0_off2_inb L hc 3) (pay78 I) (rd78 I)
theorem inv78 (H : Hyp I tbl col pay) : ∀ j' < 79, ∀ i ∈ Step.blkSet L 0 j', outAt78 I hc i = Cert.Spec.G tbl col i :=
  Step.out_step L 0 (Cert.Spec.G tbl col) 78 (k0_off2 L 384#32) (k0_off2_eq L 3) (k0_off2_inb L hc 3) (outAt77 I hc) (pay78 I) (payG78 I hc H)
    (inv77 I hc H)
theorem rd79 : (Rn 2 inb_S7x128x128_S1x128x128_2_0_0).view.read (Elt F) (rowsAt84 I) = gp79 I :=
  ((Rn_read_miss 2 0 inb_S7x128x128_S1x128x128_2_0_0 inb_S7x128x128_S1x128x128_0_0_0 (by decide) (rowsAt83 I) (gp84 I)).trans ((Rn_read_miss 2 6 inb_S7x128x128_S1x128x128_2_0_0 inb_S7x128x128_S1x128x128_6_0_0 (by decide) (rowsAt82 I) (gp83 I)).trans ((Rn_read_miss 2 5 inb_S7x128x128_S1x128x128_2_0_0 inb_S7x128x128_S1x128x128_5_0_0 (by decide) (rowsAt81 I) (gp82 I)).trans ((Rn_read_miss 2 4 inb_S7x128x128_S1x128x128_2_0_0 inb_S7x128x128_S1x128x128_4_0_0 (by decide) (rowsAt80 I) (gp81 I)).trans ((Rn_read_miss 2 3 inb_S7x128x128_S1x128x128_2_0_0 inb_S7x128x128_S1x128x128_3_0_0 (by decide) (rowsAt79 I) (gp80 I)).trans (Rn_read_hit 2 inb_S7x128x128_S1x128x128_2_0_0 (rowsAt78 I) (gp79 I)))))))
theorem payG79 (H : Hyp I tbl col pay) : ∀ y, pay79 I y = Cert.Spec.G tbl col ((Rect.unit (s := S16384x3328) (k0_off3 L 384#32) S128x128.size (k0_off3_inb L hc 3)).emb y) :=
  Step.item_payload tbl col H.hr L pay H.hpay I.fi H.hfi 1 3 inb_S26x4x128_S1x1x128_1_3_0 squeezes_S1x1x128_S128
    _ ((Step.read_full (View.whole main_arg27_scv) inb_S1000x128_S1000x128_0_0 I.ft1).trans H.ht1.symm)
    rfl (I.hin 1 3 inb_S26x4x128_S1x1x128_1_3_0 squeezes_S1x1x128_S128) (k0_off3 L 384#32) (k0_off3_eq L 3) (k0_off3_inb L hc 3) (pay79 I) (rd79 I)
theorem inv79 (H : Hyp I tbl col pay) : ∀ j' < 80, ∀ i ∈ Step.blkSet L 0 j', outAt79 I hc i = Cert.Spec.G tbl col i :=
  Step.out_step L 0 (Cert.Spec.G tbl col) 79 (k0_off3 L 384#32) (k0_off3_eq L 3) (k0_off3_inb L hc 3) (outAt78 I hc) (pay79 I) (payG79 I hc H)
    (inv78 I hc H)
theorem rd80 : (Rn 3 inb_S7x128x128_S1x128x128_3_0_0).view.read (Elt F) (rowsAt85 I) = gp80 I :=
  ((Rn_read_miss 3 1 inb_S7x128x128_S1x128x128_3_0_0 inb_S7x128x128_S1x128x128_1_0_0 (by decide) (rowsAt84 I) (gp85 I)).trans ((Rn_read_miss 3 0 inb_S7x128x128_S1x128x128_3_0_0 inb_S7x128x128_S1x128x128_0_0_0 (by decide) (rowsAt83 I) (gp84 I)).trans ((Rn_read_miss 3 6 inb_S7x128x128_S1x128x128_3_0_0 inb_S7x128x128_S1x128x128_6_0_0 (by decide) (rowsAt82 I) (gp83 I)).trans ((Rn_read_miss 3 5 inb_S7x128x128_S1x128x128_3_0_0 inb_S7x128x128_S1x128x128_5_0_0 (by decide) (rowsAt81 I) (gp82 I)).trans ((Rn_read_miss 3 4 inb_S7x128x128_S1x128x128_3_0_0 inb_S7x128x128_S1x128x128_4_0_0 (by decide) (rowsAt80 I) (gp81 I)).trans (Rn_read_hit 3 inb_S7x128x128_S1x128x128_3_0_0 (rowsAt79 I) (gp80 I)))))))
theorem payG80 (H : Hyp I tbl col pay) : ∀ y, pay80 I y = Cert.Spec.G tbl col ((Rect.unit (s := S16384x3328) (k0_off4 L 384#32) S128x128.size (k0_off4_inb L hc 3)).emb y) :=
  Step.item_payload tbl col H.hr L pay H.hpay I.fi H.hfi 2 3 inb_S26x4x128_S1x1x128_2_3_0 squeezes_S1x1x128_S128
    _ ((Step.read_full (View.whole main_arg28_scv) inb_S1000x128_S1000x128_0_0 I.ft2).trans H.ht2.symm)
    rfl (I.hin 2 3 inb_S26x4x128_S1x1x128_2_3_0 squeezes_S1x1x128_S128) (k0_off4 L 384#32) (k0_off4_eq L 3) (k0_off4_inb L hc 3) (pay80 I) (rd80 I)
theorem inv80 (H : Hyp I tbl col pay) : ∀ j' < 81, ∀ i ∈ Step.blkSet L 0 j', outAt80 I hc i = Cert.Spec.G tbl col i :=
  Step.out_step L 0 (Cert.Spec.G tbl col) 80 (k0_off4 L 384#32) (k0_off4_eq L 3) (k0_off4_inb L hc 3) (outAt79 I hc) (pay80 I) (payG80 I hc H)
    (inv79 I hc H)
theorem rd81 : (Rn 4 inb_S7x128x128_S1x128x128_4_0_0).view.read (Elt F) (rowsAt86 I) = gp81 I :=
  ((Rn_read_miss 4 2 inb_S7x128x128_S1x128x128_4_0_0 inb_S7x128x128_S1x128x128_2_0_0 (by decide) (rowsAt85 I) (gp86 I)).trans ((Rn_read_miss 4 1 inb_S7x128x128_S1x128x128_4_0_0 inb_S7x128x128_S1x128x128_1_0_0 (by decide) (rowsAt84 I) (gp85 I)).trans ((Rn_read_miss 4 0 inb_S7x128x128_S1x128x128_4_0_0 inb_S7x128x128_S1x128x128_0_0_0 (by decide) (rowsAt83 I) (gp84 I)).trans ((Rn_read_miss 4 6 inb_S7x128x128_S1x128x128_4_0_0 inb_S7x128x128_S1x128x128_6_0_0 (by decide) (rowsAt82 I) (gp83 I)).trans ((Rn_read_miss 4 5 inb_S7x128x128_S1x128x128_4_0_0 inb_S7x128x128_S1x128x128_5_0_0 (by decide) (rowsAt81 I) (gp82 I)).trans (Rn_read_hit 4 inb_S7x128x128_S1x128x128_4_0_0 (rowsAt80 I) (gp81 I)))))))
theorem payG81 (H : Hyp I tbl col pay) : ∀ y, pay81 I y = Cert.Spec.G tbl col ((Rect.unit (s := S16384x3328) (k0_off5 L 384#32) S128x128.size (k0_off5_inb L hc 3)).emb y) :=
  Step.item_payload tbl col H.hr L pay H.hpay I.fi H.hfi 3 3 inb_S26x4x128_S1x1x128_3_3_0 squeezes_S1x1x128_S128
    _ ((Step.read_full (View.whole main_arg29_scv) inb_S1000x128_S1000x128_0_0 I.ft3).trans H.ht3.symm)
    rfl (I.hin 3 3 inb_S26x4x128_S1x1x128_3_3_0 squeezes_S1x1x128_S128) (k0_off5 L 384#32) (k0_off5_eq L 3) (k0_off5_inb L hc 3) (pay81 I) (rd81 I)
theorem inv81 (H : Hyp I tbl col pay) : ∀ j' < 82, ∀ i ∈ Step.blkSet L 0 j', outAt81 I hc i = Cert.Spec.G tbl col i :=
  Step.out_step L 0 (Cert.Spec.G tbl col) 81 (k0_off5 L 384#32) (k0_off5_eq L 3) (k0_off5_inb L hc 3) (outAt80 I hc) (pay81 I) (payG81 I hc H)
    (inv80 I hc H)
theorem rd82 : (Rn 5 inb_S7x128x128_S1x128x128_5_0_0).view.read (Elt F) (rowsAt87 I) = gp82 I :=
  ((Rn_read_miss 5 3 inb_S7x128x128_S1x128x128_5_0_0 inb_S7x128x128_S1x128x128_3_0_0 (by decide) (rowsAt86 I) (gp87 I)).trans ((Rn_read_miss 5 2 inb_S7x128x128_S1x128x128_5_0_0 inb_S7x128x128_S1x128x128_2_0_0 (by decide) (rowsAt85 I) (gp86 I)).trans ((Rn_read_miss 5 1 inb_S7x128x128_S1x128x128_5_0_0 inb_S7x128x128_S1x128x128_1_0_0 (by decide) (rowsAt84 I) (gp85 I)).trans ((Rn_read_miss 5 0 inb_S7x128x128_S1x128x128_5_0_0 inb_S7x128x128_S1x128x128_0_0_0 (by decide) (rowsAt83 I) (gp84 I)).trans ((Rn_read_miss 5 6 inb_S7x128x128_S1x128x128_5_0_0 inb_S7x128x128_S1x128x128_6_0_0 (by decide) (rowsAt82 I) (gp83 I)).trans (Rn_read_hit 5 inb_S7x128x128_S1x128x128_5_0_0 (rowsAt81 I) (gp82 I)))))))
theorem payG82 (H : Hyp I tbl col pay) : ∀ y, pay82 I y = Cert.Spec.G tbl col ((Rect.unit (s := S16384x3328) (k0_off6 L 384#32) S128x128.size (k0_off6_inb L hc 3)).emb y) :=
  Step.item_payload tbl col H.hr L pay H.hpay I.fi H.hfi 4 3 inb_S26x4x128_S1x1x128_4_3_0 squeezes_S1x1x128_S128
    _ ((Step.read_full (View.whole main_arg30_scv) inb_S1000x128_S1000x128_0_0 I.ft4).trans H.ht4.symm)
    rfl (I.hin 4 3 inb_S26x4x128_S1x1x128_4_3_0 squeezes_S1x1x128_S128) (k0_off6 L 384#32) (k0_off6_eq L 3) (k0_off6_inb L hc 3) (pay82 I) (rd82 I)
theorem inv82 (H : Hyp I tbl col pay) : ∀ j' < 83, ∀ i ∈ Step.blkSet L 0 j', outAt82 I hc i = Cert.Spec.G tbl col i :=
  Step.out_step L 0 (Cert.Spec.G tbl col) 82 (k0_off6 L 384#32) (k0_off6_eq L 3) (k0_off6_inb L hc 3) (outAt81 I hc) (pay82 I) (payG82 I hc H)
    (inv81 I hc H)
theorem rd83 : (Rn 6 inb_S7x128x128_S1x128x128_6_0_0).view.read (Elt F) (rowsAt88 I) = gp83 I :=
  ((Rn_read_miss 6 4 inb_S7x128x128_S1x128x128_6_0_0 inb_S7x128x128_S1x128x128_4_0_0 (by decide) (rowsAt87 I) (gp88 I)).trans ((Rn_read_miss 6 3 inb_S7x128x128_S1x128x128_6_0_0 inb_S7x128x128_S1x128x128_3_0_0 (by decide) (rowsAt86 I) (gp87 I)).trans ((Rn_read_miss 6 2 inb_S7x128x128_S1x128x128_6_0_0 inb_S7x128x128_S1x128x128_2_0_0 (by decide) (rowsAt85 I) (gp86 I)).trans ((Rn_read_miss 6 1 inb_S7x128x128_S1x128x128_6_0_0 inb_S7x128x128_S1x128x128_1_0_0 (by decide) (rowsAt84 I) (gp85 I)).trans ((Rn_read_miss 6 0 inb_S7x128x128_S1x128x128_6_0_0 inb_S7x128x128_S1x128x128_0_0_0 (by decide) (rowsAt83 I) (gp84 I)).trans (Rn_read_hit 6 inb_S7x128x128_S1x128x128_6_0_0 (rowsAt82 I) (gp83 I)))))))
theorem payG83 (H : Hyp I tbl col pay) : ∀ y, pay83 I y = Cert.Spec.G tbl col ((Rect.unit (s := S16384x3328) (k0_off7 L 384#32) S128x128.size (k0_off7_inb L hc 3)).emb y) :=
  Step.item_payload tbl col H.hr L pay H.hpay I.fi H.hfi 5 3 inb_S26x4x128_S1x1x128_5_3_0 squeezes_S1x1x128_S128
    _ ((Step.read_full (View.whole main_arg31_scv) inb_S1000x128_S1000x128_0_0 I.ft5).trans H.ht5.symm)
    rfl (I.hin 5 3 inb_S26x4x128_S1x1x128_5_3_0 squeezes_S1x1x128_S128) (k0_off7 L 384#32) (k0_off7_eq L 3) (k0_off7_inb L hc 3) (pay83 I) (rd83 I)
theorem inv83 (H : Hyp I tbl col pay) : ∀ j' < 84, ∀ i ∈ Step.blkSet L 0 j', outAt83 I hc i = Cert.Spec.G tbl col i :=
  Step.out_step L 0 (Cert.Spec.G tbl col) 83 (k0_off7 L 384#32) (k0_off7_eq L 3) (k0_off7_inb L hc 3) (outAt82 I hc) (pay83 I) (payG83 I hc H)
    (inv82 I hc H)
theorem rd84 : (Rn 0 inb_S7x128x128_S1x128x128_0_0_0).view.read (Elt F) (rowsAt89 I) = gp84 I :=
  ((Rn_read_miss 0 5 inb_S7x128x128_S1x128x128_0_0_0 inb_S7x128x128_S1x128x128_5_0_0 (by decide) (rowsAt88 I) (gp89 I)).trans ((Rn_read_miss 0 4 inb_S7x128x128_S1x128x128_0_0_0 inb_S7x128x128_S1x128x128_4_0_0 (by decide) (rowsAt87 I) (gp88 I)).trans ((Rn_read_miss 0 3 inb_S7x128x128_S1x128x128_0_0_0 inb_S7x128x128_S1x128x128_3_0_0 (by decide) (rowsAt86 I) (gp87 I)).trans ((Rn_read_miss 0 2 inb_S7x128x128_S1x128x128_0_0_0 inb_S7x128x128_S1x128x128_2_0_0 (by decide) (rowsAt85 I) (gp86 I)).trans ((Rn_read_miss 0 1 inb_S7x128x128_S1x128x128_0_0_0 inb_S7x128x128_S1x128x128_1_0_0 (by decide) (rowsAt84 I) (gp85 I)).trans (Rn_read_hit 0 inb_S7x128x128_S1x128x128_0_0_0 (rowsAt83 I) (gp84 I)))))))
theorem payG84 (H : Hyp I tbl col pay) : ∀ y, pay84 I y = Cert.Spec.G tbl col ((Rect.unit (s := S16384x3328) (k0_off8 L 384#32) S128x128.size (k0_off8_inb L hc 3)).emb y) :=
  Step.item_payload tbl col H.hr L pay H.hpay I.fi H.hfi 6 3 inb_S26x4x128_S1x1x128_6_3_0 squeezes_S1x1x128_S128
    _ ((Step.read_full (View.whole main_arg32_scv) inb_S1000x128_S1000x128_0_0 I.ft6).trans H.ht6.symm)
    rfl (I.hin 6 3 inb_S26x4x128_S1x1x128_6_3_0 squeezes_S1x1x128_S128) (k0_off8 L 384#32) (k0_off8_eq L 3) (k0_off8_inb L hc 3) (pay84 I) (rd84 I)
theorem inv84 (H : Hyp I tbl col pay) : ∀ j' < 85, ∀ i ∈ Step.blkSet L 0 j', outAt84 I hc i = Cert.Spec.G tbl col i :=
  Step.out_step L 0 (Cert.Spec.G tbl col) 84 (k0_off8 L 384#32) (k0_off8_eq L 3) (k0_off8_inb L hc 3) (outAt83 I hc) (pay84 I) (payG84 I hc H)
    (inv83 I hc H)
theorem rd85 : (Rn 1 inb_S7x128x128_S1x128x128_1_0_0).view.read (Elt F) (rowsAt90 I) = gp85 I :=
  ((Rn_read_miss 1 6 inb_S7x128x128_S1x128x128_1_0_0 inb_S7x128x128_S1x128x128_6_0_0 (by decide) (rowsAt89 I) (gp90 I)).trans ((Rn_read_miss 1 5 inb_S7x128x128_S1x128x128_1_0_0 inb_S7x128x128_S1x128x128_5_0_0 (by decide) (rowsAt88 I) (gp89 I)).trans ((Rn_read_miss 1 4 inb_S7x128x128_S1x128x128_1_0_0 inb_S7x128x128_S1x128x128_4_0_0 (by decide) (rowsAt87 I) (gp88 I)).trans ((Rn_read_miss 1 3 inb_S7x128x128_S1x128x128_1_0_0 inb_S7x128x128_S1x128x128_3_0_0 (by decide) (rowsAt86 I) (gp87 I)).trans ((Rn_read_miss 1 2 inb_S7x128x128_S1x128x128_1_0_0 inb_S7x128x128_S1x128x128_2_0_0 (by decide) (rowsAt85 I) (gp86 I)).trans (Rn_read_hit 1 inb_S7x128x128_S1x128x128_1_0_0 (rowsAt84 I) (gp85 I)))))))
theorem payG85 (H : Hyp I tbl col pay) : ∀ y, pay85 I y = Cert.Spec.G tbl col ((Rect.unit (s := S16384x3328) (k0_off9 L 384#32) S128x128.size (k0_off9_inb L hc 3)).emb y) :=
  Step.item_payload tbl col H.hr L pay H.hpay I.fi H.hfi 7 3 inb_S26x4x128_S1x1x128_7_3_0 squeezes_S1x1x128_S128
    _ ((Step.read_full (View.whole main_arg33_scv) inb_S1000x128_S1000x128_0_0 I.ft7).trans H.ht7.symm)
    rfl (I.hin 7 3 inb_S26x4x128_S1x1x128_7_3_0 squeezes_S1x1x128_S128) (k0_off9 L 384#32) (k0_off9_eq L 3) (k0_off9_inb L hc 3) (pay85 I) (rd85 I)
theorem inv85 (H : Hyp I tbl col pay) : ∀ j' < 86, ∀ i ∈ Step.blkSet L 0 j', outAt85 I hc i = Cert.Spec.G tbl col i :=
  Step.out_step L 0 (Cert.Spec.G tbl col) 85 (k0_off9 L 384#32) (k0_off9_eq L 3) (k0_off9_inb L hc 3) (outAt84 I hc) (pay85 I) (payG85 I hc H)
    (inv84 I hc H)
theorem rd86 : (Rn 2 inb_S7x128x128_S1x128x128_2_0_0).view.read (Elt F) (rowsAt91 I) = gp86 I :=
  ((Rn_read_miss 2 0 inb_S7x128x128_S1x128x128_2_0_0 inb_S7x128x128_S1x128x128_0_0_0 (by decide) (rowsAt90 I) (gp91 I)).trans ((Rn_read_miss 2 6 inb_S7x128x128_S1x128x128_2_0_0 inb_S7x128x128_S1x128x128_6_0_0 (by decide) (rowsAt89 I) (gp90 I)).trans ((Rn_read_miss 2 5 inb_S7x128x128_S1x128x128_2_0_0 inb_S7x128x128_S1x128x128_5_0_0 (by decide) (rowsAt88 I) (gp89 I)).trans ((Rn_read_miss 2 4 inb_S7x128x128_S1x128x128_2_0_0 inb_S7x128x128_S1x128x128_4_0_0 (by decide) (rowsAt87 I) (gp88 I)).trans ((Rn_read_miss 2 3 inb_S7x128x128_S1x128x128_2_0_0 inb_S7x128x128_S1x128x128_3_0_0 (by decide) (rowsAt86 I) (gp87 I)).trans (Rn_read_hit 2 inb_S7x128x128_S1x128x128_2_0_0 (rowsAt85 I) (gp86 I)))))))
theorem payG86 (H : Hyp I tbl col pay) : ∀ y, pay86 I y = Cert.Spec.G tbl col ((Rect.unit (s := S16384x3328) (k0_off10 L 384#32) S128x128.size (k0_off10_inb L hc 3)).emb y) :=
  Step.item_payload tbl col H.hr L pay H.hpay I.fi H.hfi 8 3 inb_S26x4x128_S1x1x128_8_3_0 squeezes_S1x1x128_S128
    _ ((Step.read_full (View.whole main_arg34_scv) inb_S1000x128_S1000x128_0_0 I.ft8).trans H.ht8.symm)
    rfl (I.hin 8 3 inb_S26x4x128_S1x1x128_8_3_0 squeezes_S1x1x128_S128) (k0_off10 L 384#32) (k0_off10_eq L 3) (k0_off10_inb L hc 3) (pay86 I) (rd86 I)
theorem inv86 (H : Hyp I tbl col pay) : ∀ j' < 87, ∀ i ∈ Step.blkSet L 0 j', outAt86 I hc i = Cert.Spec.G tbl col i :=
  Step.out_step L 0 (Cert.Spec.G tbl col) 86 (k0_off10 L 384#32) (k0_off10_eq L 3) (k0_off10_inb L hc 3) (outAt85 I hc) (pay86 I) (payG86 I hc H)
    (inv85 I hc H)
theorem rd87 : (Rn 3 inb_S7x128x128_S1x128x128_3_0_0).view.read (Elt F) (rowsAt92 I) = gp87 I :=
  ((Rn_read_miss 3 1 inb_S7x128x128_S1x128x128_3_0_0 inb_S7x128x128_S1x128x128_1_0_0 (by decide) (rowsAt91 I) (gp92 I)).trans ((Rn_read_miss 3 0 inb_S7x128x128_S1x128x128_3_0_0 inb_S7x128x128_S1x128x128_0_0_0 (by decide) (rowsAt90 I) (gp91 I)).trans ((Rn_read_miss 3 6 inb_S7x128x128_S1x128x128_3_0_0 inb_S7x128x128_S1x128x128_6_0_0 (by decide) (rowsAt89 I) (gp90 I)).trans ((Rn_read_miss 3 5 inb_S7x128x128_S1x128x128_3_0_0 inb_S7x128x128_S1x128x128_5_0_0 (by decide) (rowsAt88 I) (gp89 I)).trans ((Rn_read_miss 3 4 inb_S7x128x128_S1x128x128_3_0_0 inb_S7x128x128_S1x128x128_4_0_0 (by decide) (rowsAt87 I) (gp88 I)).trans (Rn_read_hit 3 inb_S7x128x128_S1x128x128_3_0_0 (rowsAt86 I) (gp87 I)))))))
theorem payG87 (H : Hyp I tbl col pay) : ∀ y, pay87 I y = Cert.Spec.G tbl col ((Rect.unit (s := S16384x3328) (k0_off11 L 384#32) S128x128.size (k0_off11_inb L hc 3)).emb y) :=
  Step.item_payload tbl col H.hr L pay H.hpay I.fi H.hfi 9 3 inb_S26x4x128_S1x1x128_9_3_0 squeezes_S1x1x128_S128
    _ ((Step.read_full (View.whole main_arg35_scv) inb_S1000x128_S1000x128_0_0 I.ft9).trans H.ht9.symm)
    rfl (I.hin 9 3 inb_S26x4x128_S1x1x128_9_3_0 squeezes_S1x1x128_S128) (k0_off11 L 384#32) (k0_off11_eq L 3) (k0_off11_inb L hc 3) (pay87 I) (rd87 I)
theorem inv87 (H : Hyp I tbl col pay) : ∀ j' < 88, ∀ i ∈ Step.blkSet L 0 j', outAt87 I hc i = Cert.Spec.G tbl col i :=
  Step.out_step L 0 (Cert.Spec.G tbl col) 87 (k0_off11 L 384#32) (k0_off11_eq L 3) (k0_off11_inb L hc 3) (outAt86 I hc) (pay87 I) (payG87 I hc H)
    (inv86 I hc H)
theorem rd88 : (Rn 4 inb_S7x128x128_S1x128x128_4_0_0).view.read (Elt F) (rowsAt93 I) = gp88 I :=
  ((Rn_read_miss 4 2 inb_S7x128x128_S1x128x128_4_0_0 inb_S7x128x128_S1x128x128_2_0_0 (by decide) (rowsAt92 I) (gp93 I)).trans ((Rn_read_miss 4 1 inb_S7x128x128_S1x128x128_4_0_0 inb_S7x128x128_S1x128x128_1_0_0 (by decide) (rowsAt91 I) (gp92 I)).trans ((Rn_read_miss 4 0 inb_S7x128x128_S1x128x128_4_0_0 inb_S7x128x128_S1x128x128_0_0_0 (by decide) (rowsAt90 I) (gp91 I)).trans ((Rn_read_miss 4 6 inb_S7x128x128_S1x128x128_4_0_0 inb_S7x128x128_S1x128x128_6_0_0 (by decide) (rowsAt89 I) (gp90 I)).trans ((Rn_read_miss 4 5 inb_S7x128x128_S1x128x128_4_0_0 inb_S7x128x128_S1x128x128_5_0_0 (by decide) (rowsAt88 I) (gp89 I)).trans (Rn_read_hit 4 inb_S7x128x128_S1x128x128_4_0_0 (rowsAt87 I) (gp88 I)))))))
theorem payG88 (H : Hyp I tbl col pay) : ∀ y, pay88 I y = Cert.Spec.G tbl col ((Rect.unit (s := S16384x3328) (k0_off12 L 384#32) S128x128.size (k0_off12_inb L hc 3)).emb y) :=
  Step.item_payload tbl col H.hr L pay H.hpay I.fi H.hfi 10 3 inb_S26x4x128_S1x1x128_10_3_0 squeezes_S1x1x128_S128
    _ ((Step.read_full (View.whole main_arg36_scv) inb_S1000x128_S1000x128_0_0 I.ft10).trans H.ht10.symm)
    rfl (I.hin 10 3 inb_S26x4x128_S1x1x128_10_3_0 squeezes_S1x1x128_S128) (k0_off12 L 384#32) (k0_off12_eq L 3) (k0_off12_inb L hc 3) (pay88 I) (rd88 I)
theorem inv88 (H : Hyp I tbl col pay) : ∀ j' < 89, ∀ i ∈ Step.blkSet L 0 j', outAt88 I hc i = Cert.Spec.G tbl col i :=
  Step.out_step L 0 (Cert.Spec.G tbl col) 88 (k0_off12 L 384#32) (k0_off12_eq L 3) (k0_off12_inb L hc 3) (outAt87 I hc) (pay88 I) (payG88 I hc H)
    (inv87 I hc H)
theorem rd89 : (Rn 5 inb_S7x128x128_S1x128x128_5_0_0).view.read (Elt F) (rowsAt94 I) = gp89 I :=
  ((Rn_read_miss 5 3 inb_S7x128x128_S1x128x128_5_0_0 inb_S7x128x128_S1x128x128_3_0_0 (by decide) (rowsAt93 I) (gp94 I)).trans ((Rn_read_miss 5 2 inb_S7x128x128_S1x128x128_5_0_0 inb_S7x128x128_S1x128x128_2_0_0 (by decide) (rowsAt92 I) (gp93 I)).trans ((Rn_read_miss 5 1 inb_S7x128x128_S1x128x128_5_0_0 inb_S7x128x128_S1x128x128_1_0_0 (by decide) (rowsAt91 I) (gp92 I)).trans ((Rn_read_miss 5 0 inb_S7x128x128_S1x128x128_5_0_0 inb_S7x128x128_S1x128x128_0_0_0 (by decide) (rowsAt90 I) (gp91 I)).trans ((Rn_read_miss 5 6 inb_S7x128x128_S1x128x128_5_0_0 inb_S7x128x128_S1x128x128_6_0_0 (by decide) (rowsAt89 I) (gp90 I)).trans (Rn_read_hit 5 inb_S7x128x128_S1x128x128_5_0_0 (rowsAt88 I) (gp89 I)))))))
theorem payG89 (H : Hyp I tbl col pay) : ∀ y, pay89 I y = Cert.Spec.G tbl col ((Rect.unit (s := S16384x3328) (k0_off13 L 384#32) S128x128.size (k0_off13_inb L hc 3)).emb y) :=
  Step.item_payload tbl col H.hr L pay H.hpay I.fi H.hfi 11 3 inb_S26x4x128_S1x1x128_11_3_0 squeezes_S1x1x128_S128
    _ ((Step.read_full (View.whole main_arg37_scv) inb_S1000x128_S1000x128_0_0 I.ft11).trans H.ht11.symm)
    rfl (I.hin 11 3 inb_S26x4x128_S1x1x128_11_3_0 squeezes_S1x1x128_S128) (k0_off13 L 384#32) (k0_off13_eq L 3) (k0_off13_inb L hc 3) (pay89 I) (rd89 I)
theorem inv89 (H : Hyp I tbl col pay) : ∀ j' < 90, ∀ i ∈ Step.blkSet L 0 j', outAt89 I hc i = Cert.Spec.G tbl col i :=
  Step.out_step L 0 (Cert.Spec.G tbl col) 89 (k0_off13 L 384#32) (k0_off13_eq L 3) (k0_off13_inb L hc 3) (outAt88 I hc) (pay89 I) (payG89 I hc H)
    (inv88 I hc H)
theorem rd90 : (Rn 6 inb_S7x128x128_S1x128x128_6_0_0).view.read (Elt F) (rowsAt95 I) = gp90 I :=
  ((Rn_read_miss 6 4 inb_S7x128x128_S1x128x128_6_0_0 inb_S7x128x128_S1x128x128_4_0_0 (by decide) (rowsAt94 I) (gp95 I)).trans ((Rn_read_miss 6 3 inb_S7x128x128_S1x128x128_6_0_0 inb_S7x128x128_S1x128x128_3_0_0 (by decide) (rowsAt93 I) (gp94 I)).trans ((Rn_read_miss 6 2 inb_S7x128x128_S1x128x128_6_0_0 inb_S7x128x128_S1x128x128_2_0_0 (by decide) (rowsAt92 I) (gp93 I)).trans ((Rn_read_miss 6 1 inb_S7x128x128_S1x128x128_6_0_0 inb_S7x128x128_S1x128x128_1_0_0 (by decide) (rowsAt91 I) (gp92 I)).trans ((Rn_read_miss 6 0 inb_S7x128x128_S1x128x128_6_0_0 inb_S7x128x128_S1x128x128_0_0_0 (by decide) (rowsAt90 I) (gp91 I)).trans (Rn_read_hit 6 inb_S7x128x128_S1x128x128_6_0_0 (rowsAt89 I) (gp90 I)))))))
theorem payG90 (H : Hyp I tbl col pay) : ∀ y, pay90 I y = Cert.Spec.G tbl col ((Rect.unit (s := S16384x3328) (k0_off14 L 384#32) S128x128.size (k0_off14_inb L hc 3)).emb y) :=
  Step.item_payload tbl col H.hr L pay H.hpay I.fi H.hfi 12 3 inb_S26x4x128_S1x1x128_12_3_0 squeezes_S1x1x128_S128
    _ ((Step.read_full (View.whole main_arg38_scv) inb_S1000x128_S1000x128_0_0 I.ft12).trans H.ht12.symm)
    rfl (I.hin 12 3 inb_S26x4x128_S1x1x128_12_3_0 squeezes_S1x1x128_S128) (k0_off14 L 384#32) (k0_off14_eq L 3) (k0_off14_inb L hc 3) (pay90 I) (rd90 I)
theorem inv90 (H : Hyp I tbl col pay) : ∀ j' < 91, ∀ i ∈ Step.blkSet L 0 j', outAt90 I hc i = Cert.Spec.G tbl col i :=
  Step.out_step L 0 (Cert.Spec.G tbl col) 90 (k0_off14 L 384#32) (k0_off14_eq L 3) (k0_off14_inb L hc 3) (outAt89 I hc) (pay90 I) (payG90 I hc H)
    (inv89 I hc H)
theorem rd91 : (Rn 0 inb_S7x128x128_S1x128x128_0_0_0).view.read (Elt F) (rowsAt96 I) = gp91 I :=
  ((Rn_read_miss 0 5 inb_S7x128x128_S1x128x128_0_0_0 inb_S7x128x128_S1x128x128_5_0_0 (by decide) (rowsAt95 I) (gp96 I)).trans ((Rn_read_miss 0 4 inb_S7x128x128_S1x128x128_0_0_0 inb_S7x128x128_S1x128x128_4_0_0 (by decide) (rowsAt94 I) (gp95 I)).trans ((Rn_read_miss 0 3 inb_S7x128x128_S1x128x128_0_0_0 inb_S7x128x128_S1x128x128_3_0_0 (by decide) (rowsAt93 I) (gp94 I)).trans ((Rn_read_miss 0 2 inb_S7x128x128_S1x128x128_0_0_0 inb_S7x128x128_S1x128x128_2_0_0 (by decide) (rowsAt92 I) (gp93 I)).trans ((Rn_read_miss 0 1 inb_S7x128x128_S1x128x128_0_0_0 inb_S7x128x128_S1x128x128_1_0_0 (by decide) (rowsAt91 I) (gp92 I)).trans (Rn_read_hit 0 inb_S7x128x128_S1x128x128_0_0_0 (rowsAt90 I) (gp91 I)))))))
theorem payG91 (H : Hyp I tbl col pay) : ∀ y, pay91 I y = Cert.Spec.G tbl col ((Rect.unit (s := S16384x3328) (k0_off15 L 384#32) S128x128.size (k0_off15_inb L hc 3)).emb y) :=
  Step.item_payload tbl col H.hr L pay H.hpay I.fi H.hfi 13 3 inb_S26x4x128_S1x1x128_13_3_0 squeezes_S1x1x128_S128
    _ ((Step.read_full (View.whole main_arg39_scv) inb_S1000x128_S1000x128_0_0 I.ft13).trans H.ht13.symm)
    rfl (I.hin 13 3 inb_S26x4x128_S1x1x128_13_3_0 squeezes_S1x1x128_S128) (k0_off15 L 384#32) (k0_off15_eq L 3) (k0_off15_inb L hc 3) (pay91 I) (rd91 I)
theorem inv91 (H : Hyp I tbl col pay) : ∀ j' < 92, ∀ i ∈ Step.blkSet L 0 j', outAt91 I hc i = Cert.Spec.G tbl col i :=
  Step.out_step L 0 (Cert.Spec.G tbl col) 91 (k0_off15 L 384#32) (k0_off15_eq L 3) (k0_off15_inb L hc 3) (outAt90 I hc) (pay91 I) (payG91 I hc H)
    (inv90 I hc H)
theorem rd92 : (Rn 1 inb_S7x128x128_S1x128x128_1_0_0).view.read (Elt F) (rowsAt97 I) = gp92 I :=
  ((Rn_read_miss 1 6 inb_S7x128x128_S1x128x128_1_0_0 inb_S7x128x128_S1x128x128_6_0_0 (by decide) (rowsAt96 I) (gp97 I)).trans ((Rn_read_miss 1 5 inb_S7x128x128_S1x128x128_1_0_0 inb_S7x128x128_S1x128x128_5_0_0 (by decide) (rowsAt95 I) (gp96 I)).trans ((Rn_read_miss 1 4 inb_S7x128x128_S1x128x128_1_0_0 inb_S7x128x128_S1x128x128_4_0_0 (by decide) (rowsAt94 I) (gp95 I)).trans ((Rn_read_miss 1 3 inb_S7x128x128_S1x128x128_1_0_0 inb_S7x128x128_S1x128x128_3_0_0 (by decide) (rowsAt93 I) (gp94 I)).trans ((Rn_read_miss 1 2 inb_S7x128x128_S1x128x128_1_0_0 inb_S7x128x128_S1x128x128_2_0_0 (by decide) (rowsAt92 I) (gp93 I)).trans (Rn_read_hit 1 inb_S7x128x128_S1x128x128_1_0_0 (rowsAt91 I) (gp92 I)))))))
theorem payG92 (H : Hyp I tbl col pay) : ∀ y, pay92 I y = Cert.Spec.G tbl col ((Rect.unit (s := S16384x3328) (k0_off16 L 384#32) S128x128.size (k0_off16_inb L hc 3)).emb y) :=
  Step.item_payload tbl col H.hr L pay H.hpay I.fi H.hfi 14 3 inb_S26x4x128_S1x1x128_14_3_0 squeezes_S1x1x128_S128
    _ ((Step.read_full (View.whole main_arg40_scv) inb_S1000x128_S1000x128_0_0 I.ft14).trans H.ht14.symm)
    rfl (I.hin 14 3 inb_S26x4x128_S1x1x128_14_3_0 squeezes_S1x1x128_S128) (k0_off16 L 384#32) (k0_off16_eq L 3) (k0_off16_inb L hc 3) (pay92 I) (rd92 I)
theorem inv92 (H : Hyp I tbl col pay) : ∀ j' < 93, ∀ i ∈ Step.blkSet L 0 j', outAt92 I hc i = Cert.Spec.G tbl col i :=
  Step.out_step L 0 (Cert.Spec.G tbl col) 92 (k0_off16 L 384#32) (k0_off16_eq L 3) (k0_off16_inb L hc 3) (outAt91 I hc) (pay92 I) (payG92 I hc H)
    (inv91 I hc H)
theorem rd93 : (Rn 2 inb_S7x128x128_S1x128x128_2_0_0).view.read (Elt F) (rowsAt98 I) = gp93 I :=
  ((Rn_read_miss 2 0 inb_S7x128x128_S1x128x128_2_0_0 inb_S7x128x128_S1x128x128_0_0_0 (by decide) (rowsAt97 I) (gp98 I)).trans ((Rn_read_miss 2 6 inb_S7x128x128_S1x128x128_2_0_0 inb_S7x128x128_S1x128x128_6_0_0 (by decide) (rowsAt96 I) (gp97 I)).trans ((Rn_read_miss 2 5 inb_S7x128x128_S1x128x128_2_0_0 inb_S7x128x128_S1x128x128_5_0_0 (by decide) (rowsAt95 I) (gp96 I)).trans ((Rn_read_miss 2 4 inb_S7x128x128_S1x128x128_2_0_0 inb_S7x128x128_S1x128x128_4_0_0 (by decide) (rowsAt94 I) (gp95 I)).trans ((Rn_read_miss 2 3 inb_S7x128x128_S1x128x128_2_0_0 inb_S7x128x128_S1x128x128_3_0_0 (by decide) (rowsAt93 I) (gp94 I)).trans (Rn_read_hit 2 inb_S7x128x128_S1x128x128_2_0_0 (rowsAt92 I) (gp93 I)))))))
theorem payG93 (H : Hyp I tbl col pay) : ∀ y, pay93 I y = Cert.Spec.G tbl col ((Rect.unit (s := S16384x3328) (k0_off17 L 384#32) S128x128.size (k0_off17_inb L hc 3)).emb y) :=
  Step.item_payload tbl col H.hr L pay H.hpay I.fi H.hfi 15 3 inb_S26x4x128_S1x1x128_15_3_0 squeezes_S1x1x128_S128
    _ ((Step.read_full (View.whole main_arg41_scv) inb_S1000x128_S1000x128_0_0 I.ft15).trans H.ht15.symm)
    rfl (I.hin 15 3 inb_S26x4x128_S1x1x128_15_3_0 squeezes_S1x1x128_S128) (k0_off17 L 384#32) (k0_off17_eq L 3) (k0_off17_inb L hc 3) (pay93 I) (rd93 I)
theorem inv93 (H : Hyp I tbl col pay) : ∀ j' < 94, ∀ i ∈ Step.blkSet L 0 j', outAt93 I hc i = Cert.Spec.G tbl col i :=
  Step.out_step L 0 (Cert.Spec.G tbl col) 93 (k0_off17 L 384#32) (k0_off17_eq L 3) (k0_off17_inb L hc 3) (outAt92 I hc) (pay93 I) (payG93 I hc H)
    (inv92 I hc H)
theorem rd94 : (Rn 3 inb_S7x128x128_S1x128x128_3_0_0).view.read (Elt F) (rowsAt99 I) = gp94 I :=
  ((Rn_read_miss 3 1 inb_S7x128x128_S1x128x128_3_0_0 inb_S7x128x128_S1x128x128_1_0_0 (by decide) (rowsAt98 I) (gp99 I)).trans ((Rn_read_miss 3 0 inb_S7x128x128_S1x128x128_3_0_0 inb_S7x128x128_S1x128x128_0_0_0 (by decide) (rowsAt97 I) (gp98 I)).trans ((Rn_read_miss 3 6 inb_S7x128x128_S1x128x128_3_0_0 inb_S7x128x128_S1x128x128_6_0_0 (by decide) (rowsAt96 I) (gp97 I)).trans ((Rn_read_miss 3 5 inb_S7x128x128_S1x128x128_3_0_0 inb_S7x128x128_S1x128x128_5_0_0 (by decide) (rowsAt95 I) (gp96 I)).trans ((Rn_read_miss 3 4 inb_S7x128x128_S1x128x128_3_0_0 inb_S7x128x128_S1x128x128_4_0_0 (by decide) (rowsAt94 I) (gp95 I)).trans (Rn_read_hit 3 inb_S7x128x128_S1x128x128_3_0_0 (rowsAt93 I) (gp94 I)))))))
theorem payG94 (H : Hyp I tbl col pay) : ∀ y, pay94 I y = Cert.Spec.G tbl col ((Rect.unit (s := S16384x3328) (k0_off18 L 384#32) S128x128.size (k0_off18_inb L hc 3)).emb y) :=
  Step.item_payload tbl col H.hr L pay H.hpay I.fi H.hfi 16 3 inb_S26x4x128_S1x1x128_16_3_0 squeezes_S1x1x128_S128
    _ ((Step.read_full (View.whole main_arg42_scv) inb_S1000x128_S1000x128_0_0 I.ft16).trans H.ht16.symm)
    rfl (I.hin 16 3 inb_S26x4x128_S1x1x128_16_3_0 squeezes_S1x1x128_S128) (k0_off18 L 384#32) (k0_off18_eq L 3) (k0_off18_inb L hc 3) (pay94 I) (rd94 I)
theorem inv94 (H : Hyp I tbl col pay) : ∀ j' < 95, ∀ i ∈ Step.blkSet L 0 j', outAt94 I hc i = Cert.Spec.G tbl col i :=
  Step.out_step L 0 (Cert.Spec.G tbl col) 94 (k0_off18 L 384#32) (k0_off18_eq L 3) (k0_off18_inb L hc 3) (outAt93 I hc) (pay94 I) (payG94 I hc H)
    (inv93 I hc H)
theorem rd95 : (Rn 4 inb_S7x128x128_S1x128x128_4_0_0).view.read (Elt F) (rowsAt100 I) = gp95 I :=
  ((Rn_read_miss 4 2 inb_S7x128x128_S1x128x128_4_0_0 inb_S7x128x128_S1x128x128_2_0_0 (by decide) (rowsAt99 I) (gp100 I)).trans ((Rn_read_miss 4 1 inb_S7x128x128_S1x128x128_4_0_0 inb_S7x128x128_S1x128x128_1_0_0 (by decide) (rowsAt98 I) (gp99 I)).trans ((Rn_read_miss 4 0 inb_S7x128x128_S1x128x128_4_0_0 inb_S7x128x128_S1x128x128_0_0_0 (by decide) (rowsAt97 I) (gp98 I)).trans ((Rn_read_miss 4 6 inb_S7x128x128_S1x128x128_4_0_0 inb_S7x128x128_S1x128x128_6_0_0 (by decide) (rowsAt96 I) (gp97 I)).trans ((Rn_read_miss 4 5 inb_S7x128x128_S1x128x128_4_0_0 inb_S7x128x128_S1x128x128_5_0_0 (by decide) (rowsAt95 I) (gp96 I)).trans (Rn_read_hit 4 inb_S7x128x128_S1x128x128_4_0_0 (rowsAt94 I) (gp95 I)))))))
theorem payG95 (H : Hyp I tbl col pay) : ∀ y, pay95 I y = Cert.Spec.G tbl col ((Rect.unit (s := S16384x3328) (k0_off19 L 384#32) S128x128.size (k0_off19_inb L hc 3)).emb y) :=
  Step.item_payload tbl col H.hr L pay H.hpay I.fi H.hfi 17 3 inb_S26x4x128_S1x1x128_17_3_0 squeezes_S1x1x128_S128
    _ ((Step.read_full (View.whole main_arg43_scv) inb_S1000x128_S1000x128_0_0 I.ft17).trans H.ht17.symm)
    rfl (I.hin 17 3 inb_S26x4x128_S1x1x128_17_3_0 squeezes_S1x1x128_S128) (k0_off19 L 384#32) (k0_off19_eq L 3) (k0_off19_inb L hc 3) (pay95 I) (rd95 I)
theorem inv95 (H : Hyp I tbl col pay) : ∀ j' < 96, ∀ i ∈ Step.blkSet L 0 j', outAt95 I hc i = Cert.Spec.G tbl col i :=
  Step.out_step L 0 (Cert.Spec.G tbl col) 95 (k0_off19 L 384#32) (k0_off19_eq L 3) (k0_off19_inb L hc 3) (outAt94 I hc) (pay95 I) (payG95 I hc H)
    (inv94 I hc H)
theorem rd96 : (Rn 5 inb_S7x128x128_S1x128x128_5_0_0).view.read (Elt F) (rowsAt101 I) = gp96 I :=
  ((Rn_read_miss 5 3 inb_S7x128x128_S1x128x128_5_0_0 inb_S7x128x128_S1x128x128_3_0_0 (by decide) (rowsAt100 I) (gp101 I)).trans ((Rn_read_miss 5 2 inb_S7x128x128_S1x128x128_5_0_0 inb_S7x128x128_S1x128x128_2_0_0 (by decide) (rowsAt99 I) (gp100 I)).trans ((Rn_read_miss 5 1 inb_S7x128x128_S1x128x128_5_0_0 inb_S7x128x128_S1x128x128_1_0_0 (by decide) (rowsAt98 I) (gp99 I)).trans ((Rn_read_miss 5 0 inb_S7x128x128_S1x128x128_5_0_0 inb_S7x128x128_S1x128x128_0_0_0 (by decide) (rowsAt97 I) (gp98 I)).trans ((Rn_read_miss 5 6 inb_S7x128x128_S1x128x128_5_0_0 inb_S7x128x128_S1x128x128_6_0_0 (by decide) (rowsAt96 I) (gp97 I)).trans (Rn_read_hit 5 inb_S7x128x128_S1x128x128_5_0_0 (rowsAt95 I) (gp96 I)))))))
theorem payG96 (H : Hyp I tbl col pay) : ∀ y, pay96 I y = Cert.Spec.G tbl col ((Rect.unit (s := S16384x3328) (k0_off20 L 384#32) S128x128.size (k0_off20_inb L hc 3)).emb y) :=
  Step.item_payload tbl col H.hr L pay H.hpay I.fi H.hfi 18 3 inb_S26x4x128_S1x1x128_18_3_0 squeezes_S1x1x128_S128
    _ ((Step.read_full (View.whole main_arg44_scv) inb_S1000x128_S1000x128_0_0 I.ft18).trans H.ht18.symm)
    rfl (I.hin 18 3 inb_S26x4x128_S1x1x128_18_3_0 squeezes_S1x1x128_S128) (k0_off20 L 384#32) (k0_off20_eq L 3) (k0_off20_inb L hc 3) (pay96 I) (rd96 I)
theorem inv96 (H : Hyp I tbl col pay) : ∀ j' < 97, ∀ i ∈ Step.blkSet L 0 j', outAt96 I hc i = Cert.Spec.G tbl col i :=
  Step.out_step L 0 (Cert.Spec.G tbl col) 96 (k0_off20 L 384#32) (k0_off20_eq L 3) (k0_off20_inb L hc 3) (outAt95 I hc) (pay96 I) (payG96 I hc H)
    (inv95 I hc H)
theorem rd97 : (Rn 6 inb_S7x128x128_S1x128x128_6_0_0).view.read (Elt F) (rowsAt102 I) = gp97 I :=
  ((Rn_read_miss 6 4 inb_S7x128x128_S1x128x128_6_0_0 inb_S7x128x128_S1x128x128_4_0_0 (by decide) (rowsAt101 I) (gp102 I)).trans ((Rn_read_miss 6 3 inb_S7x128x128_S1x128x128_6_0_0 inb_S7x128x128_S1x128x128_3_0_0 (by decide) (rowsAt100 I) (gp101 I)).trans ((Rn_read_miss 6 2 inb_S7x128x128_S1x128x128_6_0_0 inb_S7x128x128_S1x128x128_2_0_0 (by decide) (rowsAt99 I) (gp100 I)).trans ((Rn_read_miss 6 1 inb_S7x128x128_S1x128x128_6_0_0 inb_S7x128x128_S1x128x128_1_0_0 (by decide) (rowsAt98 I) (gp99 I)).trans ((Rn_read_miss 6 0 inb_S7x128x128_S1x128x128_6_0_0 inb_S7x128x128_S1x128x128_0_0_0 (by decide) (rowsAt97 I) (gp98 I)).trans (Rn_read_hit 6 inb_S7x128x128_S1x128x128_6_0_0 (rowsAt96 I) (gp97 I)))))))
theorem payG97 (H : Hyp I tbl col pay) : ∀ y, pay97 I y = Cert.Spec.G tbl col ((Rect.unit (s := S16384x3328) (k0_off21 L 384#32) S128x128.size (k0_off21_inb L hc 3)).emb y) :=
  Step.item_payload tbl col H.hr L pay H.hpay I.fi H.hfi 19 3 inb_S26x4x128_S1x1x128_19_3_0 squeezes_S1x1x128_S128
    _ ((Step.read_full (View.whole main_arg45_scv) inb_S1000x128_S1000x128_0_0 I.ft19).trans H.ht19.symm)
    rfl (I.hin 19 3 inb_S26x4x128_S1x1x128_19_3_0 squeezes_S1x1x128_S128) (k0_off21 L 384#32) (k0_off21_eq L 3) (k0_off21_inb L hc 3) (pay97 I) (rd97 I)
theorem inv97 (H : Hyp I tbl col pay) : ∀ j' < 98, ∀ i ∈ Step.blkSet L 0 j', outAt97 I hc i = Cert.Spec.G tbl col i :=
  Step.out_step L 0 (Cert.Spec.G tbl col) 97 (k0_off21 L 384#32) (k0_off21_eq L 3) (k0_off21_inb L hc 3) (outAt96 I hc) (pay97 I) (payG97 I hc H)
    (inv96 I hc H)
theorem rd98 : (Rn 0 inb_S7x128x128_S1x128x128_0_0_0).view.read (Elt F) (rowsAt103 I) = gp98 I :=
  ((Rn_read_miss 0 5 inb_S7x128x128_S1x128x128_0_0_0 inb_S7x128x128_S1x128x128_5_0_0 (by decide) (rowsAt102 I) (gp103 I)).trans ((Rn_read_miss 0 4 inb_S7x128x128_S1x128x128_0_0_0 inb_S7x128x128_S1x128x128_4_0_0 (by decide) (rowsAt101 I) (gp102 I)).trans ((Rn_read_miss 0 3 inb_S7x128x128_S1x128x128_0_0_0 inb_S7x128x128_S1x128x128_3_0_0 (by decide) (rowsAt100 I) (gp101 I)).trans ((Rn_read_miss 0 2 inb_S7x128x128_S1x128x128_0_0_0 inb_S7x128x128_S1x128x128_2_0_0 (by decide) (rowsAt99 I) (gp100 I)).trans ((Rn_read_miss 0 1 inb_S7x128x128_S1x128x128_0_0_0 inb_S7x128x128_S1x128x128_1_0_0 (by decide) (rowsAt98 I) (gp99 I)).trans (Rn_read_hit 0 inb_S7x128x128_S1x128x128_0_0_0 (rowsAt97 I) (gp98 I)))))))
theorem payG98 (H : Hyp I tbl col pay) : ∀ y, pay98 I y = Cert.Spec.G tbl col ((Rect.unit (s := S16384x3328) (k0_off22 L 384#32) S128x128.size (k0_off22_inb L hc 3)).emb y) :=
  Step.item_payload tbl col H.hr L pay H.hpay I.fi H.hfi 20 3 inb_S26x4x128_S1x1x128_20_3_0 squeezes_S1x1x128_S128
    _ ((Step.read_full (View.whole main_arg46_scv) inb_S1000x128_S1000x128_0_0 I.ft20).trans H.ht20.symm)
    rfl (I.hin 20 3 inb_S26x4x128_S1x1x128_20_3_0 squeezes_S1x1x128_S128) (k0_off22 L 384#32) (k0_off22_eq L 3) (k0_off22_inb L hc 3) (pay98 I) (rd98 I)
theorem inv98 (H : Hyp I tbl col pay) : ∀ j' < 99, ∀ i ∈ Step.blkSet L 0 j', outAt98 I hc i = Cert.Spec.G tbl col i :=
  Step.out_step L 0 (Cert.Spec.G tbl col) 98 (k0_off22 L 384#32) (k0_off22_eq L 3) (k0_off22_inb L hc 3) (outAt97 I hc) (pay98 I) (payG98 I hc H)
    (inv97 I hc H)
theorem rd99 : (Rn 1 inb_S7x128x128_S1x128x128_1_0_0).view.read (Elt F) (rowsAt103 I) = gp99 I :=
  ((Rn_read_miss 1 5 inb_S7x128x128_S1x128x128_1_0_0 inb_S7x128x128_S1x128x128_5_0_0 (by decide) (rowsAt102 I) (gp103 I)).trans ((Rn_read_miss 1 4 inb_S7x128x128_S1x128x128_1_0_0 inb_S7x128x128_S1x128x128_4_0_0 (by decide) (rowsAt101 I) (gp102 I)).trans ((Rn_read_miss 1 3 inb_S7x128x128_S1x128x128_1_0_0 inb_S7x128x128_S1x128x128_3_0_0 (by decide) (rowsAt100 I) (gp101 I)).trans ((Rn_read_miss 1 2 inb_S7x128x128_S1x128x128_1_0_0 inb_S7x128x128_S1x128x128_2_0_0 (by decide) (rowsAt99 I) (gp100 I)).trans (Rn_read_hit 1 inb_S7x128x128_S1x128x128_1_0_0 (rowsAt98 I) (gp99 I))))))
theorem payG99 (H : Hyp I tbl col pay) : ∀ y, pay99 I y = Cert.Spec.G tbl col ((Rect.unit (s := S16384x3328) (k0_off23 L 384#32) S128x128.size (k0_off23_inb L hc 3)).emb y) :=
  Step.item_payload tbl col H.hr L pay H.hpay I.fi H.hfi 21 3 inb_S26x4x128_S1x1x128_21_3_0 squeezes_S1x1x128_S128
    _ ((Step.read_full (View.whole main_arg47_scv) inb_S1000x128_S1000x128_0_0 I.ft21).trans H.ht21.symm)
    rfl (I.hin 21 3 inb_S26x4x128_S1x1x128_21_3_0 squeezes_S1x1x128_S128) (k0_off23 L 384#32) (k0_off23_eq L 3) (k0_off23_inb L hc 3) (pay99 I) (rd99 I)
theorem inv99 (H : Hyp I tbl col pay) : ∀ j' < 100, ∀ i ∈ Step.blkSet L 0 j', outAt99 I hc i = Cert.Spec.G tbl col i :=
  Step.out_step L 0 (Cert.Spec.G tbl col) 99 (k0_off23 L 384#32) (k0_off23_eq L 3) (k0_off23_inb L hc 3) (outAt98 I hc) (pay99 I) (payG99 I hc H)
    (inv98 I hc H)
theorem rd100 : (Rn 2 inb_S7x128x128_S1x128x128_2_0_0).view.read (Elt F) (rowsAt103 I) = gp100 I :=
  ((Rn_read_miss 2 5 inb_S7x128x128_S1x128x128_2_0_0 inb_S7x128x128_S1x128x128_5_0_0 (by decide) (rowsAt102 I) (gp103 I)).trans ((Rn_read_miss 2 4 inb_S7x128x128_S1x128x128_2_0_0 inb_S7x128x128_S1x128x128_4_0_0 (by decide) (rowsAt101 I) (gp102 I)).trans ((Rn_read_miss 2 3 inb_S7x128x128_S1x128x128_2_0_0 inb_S7x128x128_S1x128x128_3_0_0 (by decide) (rowsAt100 I) (gp101 I)).trans (Rn_read_hit 2 inb_S7x128x128_S1x128x128_2_0_0 (rowsAt99 I) (gp100 I)))))
theorem payG100 (H : Hyp I tbl col pay) : ∀ y, pay100 I y = Cert.Spec.G tbl col ((Rect.unit (s := S16384x3328) (k0_off24 L 384#32) S128x128.size (k0_off24_inb L hc 3)).emb y) :=
  Step.item_payload tbl col H.hr L pay H.hpay I.fi H.hfi 22 3 inb_S26x4x128_S1x1x128_22_3_0 squeezes_S1x1x128_S128
    _ ((Step.read_full (View.whole main_arg48_scv) inb_S1000x128_S1000x128_0_0 I.ft22).trans H.ht22.symm)
    rfl (I.hin 22 3 inb_S26x4x128_S1x1x128_22_3_0 squeezes_S1x1x128_S128) (k0_off24 L 384#32) (k0_off24_eq L 3) (k0_off24_inb L hc 3) (pay100 I) (rd100 I)
theorem inv100 (H : Hyp I tbl col pay) : ∀ j' < 101, ∀ i ∈ Step.blkSet L 0 j', outAt100 I hc i = Cert.Spec.G tbl col i :=
  Step.out_step L 0 (Cert.Spec.G tbl col) 100 (k0_off24 L 384#32) (k0_off24_eq L 3) (k0_off24_inb L hc 3) (outAt99 I hc) (pay100 I) (payG100 I hc H)
    (inv99 I hc H)
theorem rd101 : (Rn 3 inb_S7x128x128_S1x128x128_3_0_0).view.read (Elt F) (rowsAt103 I) = gp101 I :=
  ((Rn_read_miss 3 5 inb_S7x128x128_S1x128x128_3_0_0 inb_S7x128x128_S1x128x128_5_0_0 (by decide) (rowsAt102 I) (gp103 I)).trans ((Rn_read_miss 3 4 inb_S7x128x128_S1x128x128_3_0_0 inb_S7x128x128_S1x128x128_4_0_0 (by decide) (rowsAt101 I) (gp102 I)).trans (Rn_read_hit 3 inb_S7x128x128_S1x128x128_3_0_0 (rowsAt100 I) (gp101 I))))
theorem payG101 (H : Hyp I tbl col pay) : ∀ y, pay101 I y = Cert.Spec.G tbl col ((Rect.unit (s := S16384x3328) (k0_off25 L 384#32) S128x128.size (k0_off25_inb L hc 3)).emb y) :=
  Step.item_payload tbl col H.hr L pay H.hpay I.fi H.hfi 23 3 inb_S26x4x128_S1x1x128_23_3_0 squeezes_S1x1x128_S128
    _ ((Step.read_full (View.whole main_arg49_scv) inb_S1000x128_S1000x128_0_0 I.ft23).trans H.ht23.symm)
    rfl (I.hin 23 3 inb_S26x4x128_S1x1x128_23_3_0 squeezes_S1x1x128_S128) (k0_off25 L 384#32) (k0_off25_eq L 3) (k0_off25_inb L hc 3) (pay101 I) (rd101 I)
theorem inv101 (H : Hyp I tbl col pay) : ∀ j' < 102, ∀ i ∈ Step.blkSet L 0 j', outAt101 I hc i = Cert.Spec.G tbl col i :=
  Step.out_step L 0 (Cert.Spec.G tbl col) 101 (k0_off25 L 384#32) (k0_off25_eq L 3) (k0_off25_inb L hc 3) (outAt100 I hc) (pay101 I) (payG101 I hc H)
    (inv100 I hc H)
theorem rd102 : (Rn 4 inb_S7x128x128_S1x128x128_4_0_0).view.read (Elt F) (rowsAt103 I) = gp102 I :=
  ((Rn_read_miss 4 5 inb_S7x128x128_S1x128x128_4_0_0 inb_S7x128x128_S1x128x128_5_0_0 (by decide) (rowsAt102 I) (gp103 I)).trans (Rn_read_hit 4 inb_S7x128x128_S1x128x128_4_0_0 (rowsAt101 I) (gp102 I)))
theorem payG102 (H : Hyp I tbl col pay) : ∀ y, pay102 I y = Cert.Spec.G tbl col ((Rect.unit (s := S16384x3328) (k0_off26 L 384#32) S128x128.size (k0_off26_inb L hc 3)).emb y) :=
  Step.item_payload tbl col H.hr L pay H.hpay I.fi H.hfi 24 3 inb_S26x4x128_S1x1x128_24_3_0 squeezes_S1x1x128_S128
    _ ((Step.read_full (View.whole main_arg50_scv) inb_S1000x128_S1000x128_0_0 I.ft24).trans H.ht24.symm)
    rfl (I.hin 24 3 inb_S26x4x128_S1x1x128_24_3_0 squeezes_S1x1x128_S128) (k0_off26 L 384#32) (k0_off26_eq L 3) (k0_off26_inb L hc 3) (pay102 I) (rd102 I)
theorem inv102 (H : Hyp I tbl col pay) : ∀ j' < 103, ∀ i ∈ Step.blkSet L 0 j', outAt102 I hc i = Cert.Spec.G tbl col i :=
  Step.out_step L 0 (Cert.Spec.G tbl col) 102 (k0_off26 L 384#32) (k0_off26_eq L 3) (k0_off26_inb L hc 3) (outAt101 I hc) (pay102 I) (payG102 I hc H)
    (inv101 I hc H)
theorem rd103 : (Rn 5 inb_S7x128x128_S1x128x128_5_0_0).view.read (Elt F) (rowsAt103 I) = gp103 I :=
  (Rn_read_hit 5 inb_S7x128x128_S1x128x128_5_0_0 (rowsAt102 I) (gp103 I))
theorem payG103 (H : Hyp I tbl col pay) : ∀ y, pay103 I y = Cert.Spec.G tbl col ((Rect.unit (s := S16384x3328) (k0_off27 L 384#32) S128x128.size (k0_off27_inb L hc 3)).emb y) :=
  Step.item_payload tbl col H.hr L pay H.hpay I.fi H.hfi 25 3 inb_S26x4x128_S1x1x128_25_3_0 squeezes_S1x1x128_S128
    _ ((Step.read_full (View.whole main_arg51_scv) inb_S1000x128_S1000x128_0_0 I.ft25).trans H.ht25.symm)
    rfl (I.hin 25 3 inb_S26x4x128_S1x1x128_25_3_0 squeezes_S1x1x128_S128) (k0_off27 L 384#32) (k0_off27_eq L 3) (k0_off27_inb L hc 3) (pay103 I) (rd103 I)
theorem inv103 (H : Hyp I tbl col pay) : ∀ j' < 104, ∀ i ∈ Step.blkSet L 0 j', outAt103 I hc i = Cert.Spec.G tbl col i :=
  Step.out_step L 0 (Cert.Spec.G tbl col) 103 (k0_off27 L 384#32) (k0_off27_eq L 3) (k0_off27_inb L hc 3) (outAt102 I hc) (pay103 I) (payG103 I hc H)
    (inv102 I hc H)

/-- After the tile's 104 copies its 512 rows of the output hold the specified values. -/
theorem out_value (H : Hyp I tbl col pay) :
    ∀ i ∈ (Memref.whole main_v26_scv : Memref sig .scVector .hbm S16384x3328 .f32).view.setOn (oTR L).set,
      outAt103 I hc i = Cert.Spec.G tbl col i := by
  intro i hi
  obtain ⟨j', hj', hmem⟩ := Step.rows_covered L 0 (by decide) i hi
  exact inv103 I hc H j' hj' i hmem

end Cert.Proof.KI.Chain0

end
-- ==== Proof.TileValKI0.lean ====
/-
  One vector subcore's task, for the subcores whose group number 2·(core) + (subcore mod 2) is 0.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  the contents the specification names: entry (b, 128 t + e) is entry e of row col t b of table t.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI
import proofs.«204019_g4913442586959_cont_sun_m_672_34_alg».proof.Proof.ValChainKI0
import proofs.«204019_g4913442586959_cont_sun_m_672_34_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insertV0 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_val0 (hF : (K (F := F)).Facts) (O : CellTallies nD τ sig (HIx 1)) (W : Waits sig (HIx 1)) (hO : ∀ g, O g none = 0)
    (q : PosShare TreeShare) (hc1 : k0_cond1 L = 1#1) (hc2 : ¬ k0_cond2 L = 1#1) (hc3 : ¬ k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (col : Fin 26 → Cert.Spec.ColS.Idx → BitVec 32) (hr : ∀ t b, (col t b).toNat < 1000)
    (hfcol : ∀ (t : Fin 26) (R p : Fin 128), (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 R p) = col t (ValueIdx.ix1 (⟨128 * R.val + p.val, by have := R.isLt; have := p.isLt; omega⟩ : Fin 16384)))
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            ((Memref.whole main_v26_scv : Memref sig .scVector .hbm S16384x3328 .f32).view.loc (V d (cVL L) (jVL L)) ↦[(Memref.whole main_v26_scv : Memref sig .scVector .hbm S16384x3328 .f32).view.setOn (oTR L).set]{fullShare} (Cert.Spec.G (fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) col)) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]
  · -- the output rows: what the run left there is, block by block, what the specification names
    have hp : ∀ (t : Fin 26) (r : Fin 4) (p : Fin 128), (![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] : Fin 26 → S4x128.Idx → Elt F .i32) t (ValueIdx.ix2 r p) = (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 (Val.colRow L r) p) := by
      intro t r p; match t with
        | ⟨0, _⟩ => exact Val.col_read_0 L fc0 r p
        | ⟨1, _⟩ => exact Val.col_read_1 L fc1 r p
        | ⟨2, _⟩ => exact Val.col_read_2 L fc2 r p
        | ⟨3, _⟩ => exact Val.col_read_3 L fc3 r p
        | ⟨4, _⟩ => exact Val.col_read_4 L fc4 r p
        | ⟨5, _⟩ => exact Val.col_read_5 L fc5 r p
        | ⟨6, _⟩ => exact Val.col_read_6 L fc6 r p
        | ⟨7, _⟩ => exact Val.col_read_7 L fc7 r p
        | ⟨8, _⟩ => exact Val.col_read_8 L fc8 r p
        | ⟨9, _⟩ => exact Val.col_read_9 L fc9 r p
        | ⟨10, _⟩ => exact Val.col_read_10 L fc10 r p
        | ⟨11, _⟩ => exact Val.col_read_11 L fc11 r p
        | ⟨12, _⟩ => exact Val.col_read_12 L fc12 r p
        | ⟨13, _⟩ => exact Val.col_read_13 L fc13 r p
        | ⟨14, _⟩ => exact Val.col_read_14 L fc14 r p
        | ⟨15, _⟩ => exact Val.col_read_15 L fc15 r p
        | ⟨16, _⟩ => exact Val.col_read_16 L fc16 r p
        | ⟨17, _⟩ => exact Val.col_read_17 L fc17 r p
        | ⟨18, _⟩ => exact Val.col_read_18 L fc18 r p
        | ⟨19, _⟩ => exact Val.col_read_19 L fc19 r p
        | ⟨20, _⟩ => exact Val.col_read_20 L fc20 r p
        | ⟨21, _⟩ => exact Val.col_read_21 L fc21 r p
        | ⟨22, _⟩ => exact Val.col_read_22 L fc22 r p
        | ⟨23, _⟩ => exact Val.col_read_23 L fc23 r p
        | ⟨24, _⟩ => exact Val.col_read_24 L fc24 r p
        | ⟨25, _⟩ => exact Val.col_read_25 L fc25 r p
        | ⟨n + 26, h⟩ => exact absurd h (by omega)
    have hpay := Val.hpay_of_fc col (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) hfcol L _ hp
    iapply (Entails.of_eq (pointsTo_congr (fun i hi => Chain0.out_value
      (I := ⟨ft0, ft1, ft2, ft3, ft4, ft5, ft6, ft7, ft8, ft9, ft10, ft11, ft12, ft13, ft14, ft15, ft16, ft17, ft18, ft19, ft20, ft21, ft22, ft23, ft24, ft25, _, hin, fo, fr⟩) hc1 (tbl := fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) (col := col)
      ⟨rfl, rfl, rfl, rfl, rfl, rfl, rfl, rfl, rfl, rfl, rfl, rfl, rfl, rfl, rfl, rfl, rfl, rfl, rfl, rfl, rfl, rfl, rfl, rfl, rfl, rfl, hr, rfl, hpay⟩ i hi)))
    iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insertV0 _ ?_)

end Cert.Proof.KI

end
-- ==== Proof.ChainKI1.lean ====
/-
  Group 1's items in the order the task serves them: item j = 26·r + i is (table (i + 7) mod 26, sub-chunk r), its slot j mod 7.
  gp j  : what item j's gather lands in its slot: entry (p, e) is table t's entry (list (t, r) at p, e).
  rowsAt j : the row scratch once gathers 0 .. j have been issued (each lands in its own slot, over what was there).
  pay j : what item j's copy-out carries: its slot as the row scratch stands when the copy is issued, which is after
          gather min (j + 5, 103): the five gathers issued in between went to other slots.
  outAt j : the output once copies 0 .. j have landed, each in its own 128 x 128 block.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI

noncomputable section

namespace Cert.Proof.KI.Chain1

open Cert.KernelIdeal Cert.KernelIdeal.Gen
open Idealize.ShloMosaic
open Idealize.ShloMosaic.SparseCore (S V T)

/-- What a tile's run starts from: the 26 tables' contents, the index scratch's (every word a row number below 1000),
    the output's and the row scratch's. -/
structure TileIn (F : FTy → Type) (d : Dev nD) (L : grid0.Coords) where
  ft0 : Buf (Elt F) ((V d (cVL L) (jVL L)).loc main_arg26_scv)
  ft1 : Buf (Elt F) ((V d (cVL L) (jVL L)).loc main_arg27_scv)
  ft2 : Buf (Elt F) ((V d (cVL L) (jVL L)).loc main_arg28_scv)
  ft3 : Buf (Elt F) ((V d (cVL L) (jVL L)).loc main_arg29_scv)
  ft4 : Buf (Elt F) ((V d (cVL L) (jVL L)).loc main_arg30_scv)
  ft5 : Buf (Elt F) ((V d (cVL L) (jVL L)).loc main_arg31_scv)
  ft6 : Buf (Elt F) ((V d (cVL L) (jVL L)).loc main_arg32_scv)
  ft7 : Buf (Elt F) ((V d (cVL L) (jVL L)).loc main_arg33_scv)
  ft8 : Buf (Elt F) ((V d (cVL L) (jVL L)).loc main_arg34_scv)
  ft9 : Buf (Elt F) ((V d (cVL L) (jVL L)).loc main_arg35_scv)
  ft10 : Buf (Elt F) ((V d (cVL L) (jVL L)).loc main_arg36_scv)
  ft11 : Buf (Elt F) ((V d (cVL L) (jVL L)).loc main_arg37_scv)
  ft12 : Buf (Elt F) ((V d (cVL L) (jVL L)).loc main_arg38_scv)
  ft13 : Buf (Elt F) ((V d (cVL L) (jVL L)).loc main_arg39_scv)
  ft14 : Buf (Elt F) ((V d (cVL L) (jVL L)).loc main_arg40_scv)
  ft15 : Buf (Elt F) ((V d (cVL L) (jVL L)).loc main_arg41_scv)
  ft16 : Buf (Elt F) ((V d (cVL L) (jVL L)).loc main_arg42_scv)
  ft17 : Buf (Elt F) ((V d (cVL L) (jVL L)).loc main_arg43_scv)
  ft18 : Buf (Elt F) ((V d (cVL L) (jVL L)).loc main_arg44_scv)
  ft19 : Buf (Elt F) ((V d (cVL L) (jVL L)).loc main_arg45_scv)
  ft20 : Buf (Elt F) ((V d (cVL L) (jVL L)).loc main_arg46_scv)
  ft21 : Buf (Elt F) ((V d (cVL L) (jVL L)).loc main_arg47_scv)
  ft22 : Buf (Elt F) ((V d (cVL L) (jVL L)).loc main_arg48_scv)
  ft23 : Buf (Elt F) ((V d (cVL L) (jVL L)).loc main_arg49_scv)
  ft24 : Buf (Elt F) ((V d (cVL L) (jVL L)).loc main_arg50_scv)
  ft25 : Buf (Elt F) ((V d (cVL L) (jVL L)).loc main_arg51_scv)
  fi : Buf (Elt F) ((V d (cVL L) (jVL L)).loc cc0_scratch0)
  hin : ∀ (a b : Nat) (h1 : ∀ x, (![a, b, 0] : Fin 3 → Nat) x + S1x1x128.size x ≤ S26x4x128.size x) (h2 : (Rect.unit (s := S26x4x128) ![a, b, 0] S1x1x128.size h1).shape.Squeezes S128) (x : S128.Idx),
      (((((Memref.whole cc0_scratch0 : Memref sig .scVector .vmem S26x4x128 .i32).slice (Rect.unit (s := S26x4x128) ![a, b, 0] S1x1x128.size h1) (fun _ => rfl)).squeeze S128 h2).view.read (Elt F) fi x) : BitVec 32).toNat < 1000
  fo : Buf (Elt F) ((V d (cVL L) (jVL L)).loc main_v26_scv)
  fr : Buf (Elt F) ((V d (cVL L) (jVL L)).loc cc0_scratch1)

variable {F : FTy → Type} {d : Dev nD} {L : grid0.Coords} (I : TileIn F d L) (hc : k0_cond2 L = 1#1)

def gp0 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 0, 0] S1x1x128.size inb_S26x4x128_S1x1x128_7_0_0) (fun _ => rfl)).squeeze S128 squeezes_S1x1x128_S128).view.read (Elt F) I.fi) rfl (I.hin 7 0 inb_S26x4x128_S1x1x128_7_0_0 squeezes_S1x1x128_S128))
def rowsAt0 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view I.fr (gp0 I) Finset.univ
def gp1 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 0, 0] S1x1x128.size inb_S26x4x128_S1x1x128_8_0_0) (fun _ => rfl)).squeeze S128 squeezes_S1x1x128_S128).view.read (Elt F) I.fi) rfl (I.hin 8 0 inb_S26x4x128_S1x1x128_8_0_0 squeezes_S1x1x128_S128))
def rowsAt1 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt0 I) (gp1 I) Finset.univ
def gp2 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 0, 0] S1x1x128.size inb_S26x4x128_S1x1x128_9_0_0) (fun _ => rfl)).squeeze S128 squeezes_S1x1x128_S128).view.read (Elt F) I.fi) rfl (I.hin 9 0 inb_S26x4x128_S1x1x128_9_0_0 squeezes_S1x1x128_S128))
def rowsAt2 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt1 I) (gp2 I) Finset.univ
def gp3 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 0, 0] S1x1x128.size inb_S26x4x128_S1x1x128_10_0_0) (fun _ => rfl)).squeeze S128 squeezes_S1x1x128_S128).view.read (Elt F) I.fi) rfl (I.hin 10 0 inb_S26x4x128_S1x1x128_10_0_0 squeezes_S1x1x128_S128))
def rowsAt3 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt2 I) (gp3 I) Finset.univ
def gp4 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 0, 0] S1x1x128.size inb_S26x4x128_S1x1x128_11_0_0) (fun _ => rfl)).squeeze S128 squeezes_S1x1x128_S128).view.read (Elt F) I.fi) rfl (I.hin 11 0 inb_S26x4x128_S1x1x128_11_0_0 squeezes_S1x1x128_S128))
def rowsAt4 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt3 I) (gp4 I) Finset.univ
def gp5 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 0, 0] S1x1x128.size inb_S26x4x128_S1x1x128_12_0_0) (fun _ => rfl)).squeeze S128 squeezes_S1x1x128_S128).view.read (Elt F) I.fi) rfl (I.hin 12 0 inb_S26x4x128_S1x1x128_12_0_0 squeezes_S1x1x128_S128))
def rowsAt5 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt4 I) (gp5 I) Finset.univ
def gp6 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 0, 0] S1x1x128.size inb_S26x4x128_S1x1x128_13_0_0) (fun _ => rfl)).squeeze S128 squeezes_S1x1x128_S128).view.read (Elt F) I.fi) rfl (I.hin 13 0 inb_S26x4x128_S1x1x128_13_0_0 squeezes_S1x1x128_S128))
def rowsAt6 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt5 I) (gp6 I) Finset.univ
def gp7 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 0, 0] S1x1x128.size inb_S26x4x128_S1x1x128_14_0_0) (fun _ => rfl)).squeeze S128 squeezes_S1x1x128_S128).view.read (Elt F) I.fi) rfl (I.hin 14 0 inb_S26x4x128_S1x1x128_14_0_0 squeezes_S1x1x128_S128))
def rowsAt7 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt6 I) (gp7 I) Finset.univ
def gp8 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 0, 0] S1x1x128.size inb_S26x4x128_S1x1x128_15_0_0) (fun _ => rfl)).squeeze S128 squeezes_S1x1x128_S128).view.read (Elt F) I.fi) rfl (I.hin 15 0 inb_S26x4x128_S1x1x128_15_0_0 squeezes_S1x1x128_S128))
def rowsAt8 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt7 I) (gp8 I) Finset.univ
def gp9 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 0, 0] S1x1x128.size inb_S26x4x128_S1x1x128_16_0_0) (fun _ => rfl)).squeeze S128 squeezes_S1x1x128_S128).view.read (Elt F) I.fi) rfl (I.hin 16 0 inb_S26x4x128_S1x1x128_16_0_0 squeezes_S1x1x128_S128))
def rowsAt9 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt8 I) (gp9 I) Finset.univ
def gp10 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 0, 0] S1x1x128.size inb_S26x4x128_S1x1x128_17_0_0) (fun _ => rfl)).squeeze S128 squeezes_S1x1x128_S128).view.read (Elt F) I.fi) rfl (I.hin 17 0 inb_S26x4x128_S1x1x128_17_0_0 squeezes_S1x1x128_S128))
def rowsAt10 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt9 I) (gp10 I) Finset.univ
def gp11 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 0, 0] S1x1x128.size inb_S26x4x128_S1x1x128_18_0_0) (fun _ => rfl)).squeeze S128 squeezes_S1x1x128_S128).view.read (Elt F) I.fi) rfl (I.hin 18 0 inb_S26x4x128_S1x1x128_18_0_0 squeezes_S1x1x128_S128))
def rowsAt11 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt10 I) (gp11 I) Finset.univ
def gp12 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 0, 0] S1x1x128.size inb_S26x4x128_S1x1x128_19_0_0) (fun _ => rfl)).squeeze S128 squeezes_S1x1x128_S128).view.read (Elt F) I.fi) rfl (I.hin 19 0 inb_S26x4x128_S1x1x128_19_0_0 squeezes_S1x1x128_S128))
def rowsAt12 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt11 I) (gp12 I) Finset.univ
def gp13 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 0, 0] S1x1x128.size inb_S26x4x128_S1x1x128_20_0_0) (fun _ => rfl)).squeeze S128 squeezes_S1x1x128_S128).view.read (Elt F) I.fi) rfl (I.hin 20 0 inb_S26x4x128_S1x1x128_20_0_0 squeezes_S1x1x128_S128))
def rowsAt13 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt12 I) (gp13 I) Finset.univ
def gp14 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 0, 0] S1x1x128.size inb_S26x4x128_S1x1x128_21_0_0) (fun _ => rfl)).squeeze S128 squeezes_S1x1x128_S128).view.read (Elt F) I.fi) rfl (I.hin 21 0 inb_S26x4x128_S1x1x128_21_0_0 squeezes_S1x1x128_S128))
def rowsAt14 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt13 I) (gp14 I) Finset.univ
def gp15 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 0, 0] S1x1x128.size inb_S26x4x128_S1x1x128_22_0_0) (fun _ => rfl)).squeeze S128 squeezes_S1x1x128_S128).view.read (Elt F) I.fi) rfl (I.hin 22 0 inb_S26x4x128_S1x1x128_22_0_0 squeezes_S1x1x128_S128))
def rowsAt15 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt14 I) (gp15 I) Finset.univ
def gp16 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 0, 0] S1x1x128.size inb_S26x4x128_S1x1x128_23_0_0) (fun _ => rfl)).squeeze S128 squeezes_S1x1x128_S128).view.read (Elt F) I.fi) rfl (I.hin 23 0 inb_S26x4x128_S1x1x128_23_0_0 squeezes_S1x1x128_S128))
def rowsAt16 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt15 I) (gp16 I) Finset.univ
def gp17 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 0, 0] S1x1x128.size inb_S26x4x128_S1x1x128_24_0_0) (fun _ => rfl)).squeeze S128 squeezes_S1x1x128_S128).view.read (Elt F) I.fi) rfl (I.hin 24 0 inb_S26x4x128_S1x1x128_24_0_0 squeezes_S1x1x128_S128))
def rowsAt17 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt16 I) (gp17 I) Finset.univ
def gp18 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 0, 0] S1x1x128.size inb_S26x4x128_S1x1x128_25_0_0) (fun _ => rfl)).squeeze S128 squeezes_S1x1x128_S128).view.read (Elt F) I.fi) rfl (I.hin 25 0 inb_S26x4x128_S1x1x128_25_0_0 squeezes_S1x1x128_S128))
def rowsAt18 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt17 I) (gp18 I) Finset.univ
def gp19 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 0, 0] S1x1x128.size inb_S26x4x128_S1x1x128_0_0_0) (fun _ => rfl)).squeeze S128 squeezes_S1x1x128_S128).view.read (Elt F) I.fi) rfl (I.hin 0 0 inb_S26x4x128_S1x1x128_0_0_0 squeezes_S1x1x128_S128))
def rowsAt19 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt18 I) (gp19 I) Finset.univ
def gp20 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 0, 0] S1x1x128.size inb_S26x4x128_S1x1x128_1_0_0) (fun _ => rfl)).squeeze S128 squeezes_S1x1x128_S128).view.read (Elt F) I.fi) rfl (I.hin 1 0 inb_S26x4x128_S1x1x128_1_0_0 squeezes_S1x1x128_S128))
def rowsAt20 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt19 I) (gp20 I) Finset.univ
def gp21 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 0, 0] S1x1x128.size inb_S26x4x128_S1x1x128_2_0_0) (fun _ => rfl)).squeeze S128 squeezes_S1x1x128_S128).view.read (Elt F) I.fi) rfl (I.hin 2 0 inb_S26x4x128_S1x1x128_2_0_0 squeezes_S1x1x128_S128))
def rowsAt21 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt20 I) (gp21 I) Finset.univ
def gp22 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 0, 0] S1x1x128.size inb_S26x4x128_S1x1x128_3_0_0) (fun _ => rfl)).squeeze S128 squeezes_S1x1x128_S128).view.read (Elt F) I.fi) rfl (I.hin 3 0 inb_S26x4x128_S1x1x128_3_0_0 squeezes_S1x1x128_S128))
def rowsAt22 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt21 I) (gp22 I) Finset.univ
def gp23 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 0, 0] S1x1x128.size inb_S26x4x128_S1x1x128_4_0_0) (fun _ => rfl)).squeeze S128 squeezes_S1x1x128_S128).view.read (Elt F) I.fi) rfl (I.hin 4 0 inb_S26x4x128_S1x1x128_4_0_0 squeezes_S1x1x128_S128))
def rowsAt23 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt22 I) (gp23 I) Finset.univ
def gp24 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 0, 0] S1x1x128.size inb_S26x4x128_S1x1x128_5_0_0) (fun _ => rfl)).squeeze S128 squeezes_S1x1x128_S128).view.read (Elt F) I.fi) rfl (I.hin 5 0 inb_S26x4x128_S1x1x128_5_0_0 squeezes_S1x1x128_S128))
def rowsAt24 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt23 I) (gp24 I) Finset.univ
def gp25 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 0, 0] S1x1x128.size inb_S26x4x128_S1x1x128_6_0_0) (fun _ => rfl)).squeeze S128 squeezes_S1x1x128_S128).view.read (Elt F) I.fi) rfl (I.hin 6 0 inb_S26x4x128_S1x1x128_6_0_0 squeezes_S1x1x128_S128))
def rowsAt25 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt24 I) (gp25 I) Finset.univ
def gp26 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 1, 0] S1x1x128.size inb_S26x4x128_S1x1x128_7_1_0) (fun _ => rfl)).squeeze S128 squeezes_S1x1x128_S128).view.read (Elt F) I.fi) rfl (I.hin 7 1 inb_S26x4x128_S1x1x128_7_1_0 squeezes_S1x1x128_S128))
def rowsAt26 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt25 I) (gp26 I) Finset.univ
def gp27 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 1, 0] S1x1x128.size inb_S26x4x128_S1x1x128_8_1_0) (fun _ => rfl)).squeeze S128 squeezes_S1x1x128_S128).view.read (Elt F) I.fi) rfl (I.hin 8 1 inb_S26x4x128_S1x1x128_8_1_0 squeezes_S1x1x128_S128))
def rowsAt27 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt26 I) (gp27 I) Finset.univ
def gp28 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 1, 0] S1x1x128.size inb_S26x4x128_S1x1x128_9_1_0) (fun _ => rfl)).squeeze S128 squeezes_S1x1x128_S128).view.read (Elt F) I.fi) rfl (I.hin 9 1 inb_S26x4x128_S1x1x128_9_1_0 squeezes_S1x1x128_S128))
def rowsAt28 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt27 I) (gp28 I) Finset.univ
def gp29 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 1, 0] S1x1x128.size inb_S26x4x128_S1x1x128_10_1_0) (fun _ => rfl)).squeeze S128 squeezes_S1x1x128_S128).view.read (Elt F) I.fi) rfl (I.hin 10 1 inb_S26x4x128_S1x1x128_10_1_0 squeezes_S1x1x128_S128))
def rowsAt29 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt28 I) (gp29 I) Finset.univ
def gp30 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 1, 0] S1x1x128.size inb_S26x4x128_S1x1x128_11_1_0) (fun _ => rfl)).squeeze S128 squeezes_S1x1x128_S128).view.read (Elt F) I.fi) rfl (I.hin 11 1 inb_S26x4x128_S1x1x128_11_1_0 squeezes_S1x1x128_S128))
def rowsAt30 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt29 I) (gp30 I) Finset.univ
def gp31 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 1, 0] S1x1x128.size inb_S26x4x128_S1x1x128_12_1_0) (fun _ => rfl)).squeeze S128 squeezes_S1x1x128_S128).view.read (Elt F) I.fi) rfl (I.hin 12 1 inb_S26x4x128_S1x1x128_12_1_0 squeezes_S1x1x128_S128))
def rowsAt31 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt30 I) (gp31 I) Finset.univ
def gp32 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 1, 0] S1x1x128.size inb_S26x4x128_S1x1x128_13_1_0) (fun _ => rfl)).squeeze S128 squeezes_S1x1x128_S128).view.read (Elt F) I.fi) rfl (I.hin 13 1 inb_S26x4x128_S1x1x128_13_1_0 squeezes_S1x1x128_S128))
def rowsAt32 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt31 I) (gp32 I) Finset.univ
def gp33 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 1, 0] S1x1x128.size inb_S26x4x128_S1x1x128_14_1_0) (fun _ => rfl)).squeeze S128 squeezes_S1x1x128_S128).view.read (Elt F) I.fi) rfl (I.hin 14 1 inb_S26x4x128_S1x1x128_14_1_0 squeezes_S1x1x128_S128))
def rowsAt33 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt32 I) (gp33 I) Finset.univ
def gp34 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 1, 0] S1x1x128.size inb_S26x4x128_S1x1x128_15_1_0) (fun _ => rfl)).squeeze S128 squeezes_S1x1x128_S128).view.read (Elt F) I.fi) rfl (I.hin 15 1 inb_S26x4x128_S1x1x128_15_1_0 squeezes_S1x1x128_S128))
def rowsAt34 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt33 I) (gp34 I) Finset.univ
def gp35 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 1, 0] S1x1x128.size inb_S26x4x128_S1x1x128_16_1_0) (fun _ => rfl)).squeeze S128 squeezes_S1x1x128_S128).view.read (Elt F) I.fi) rfl (I.hin 16 1 inb_S26x4x128_S1x1x128_16_1_0 squeezes_S1x1x128_S128))
def rowsAt35 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt34 I) (gp35 I) Finset.univ
def gp36 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 1, 0] S1x1x128.size inb_S26x4x128_S1x1x128_17_1_0) (fun _ => rfl)).squeeze S128 squeezes_S1x1x128_S128).view.read (Elt F) I.fi) rfl (I.hin 17 1 inb_S26x4x128_S1x1x128_17_1_0 squeezes_S1x1x128_S128))
def rowsAt36 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt35 I) (gp36 I) Finset.univ
def gp37 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 1, 0] S1x1x128.size inb_S26x4x128_S1x1x128_18_1_0) (fun _ => rfl)).squeeze S128 squeezes_S1x1x128_S128).view.read (Elt F) I.fi) rfl (I.hin 18 1 inb_S26x4x128_S1x1x128_18_1_0 squeezes_S1x1x128_S128))
def rowsAt37 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt36 I) (gp37 I) Finset.univ
def gp38 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 1, 0] S1x1x128.size inb_S26x4x128_S1x1x128_19_1_0) (fun _ => rfl)).squeeze S128 squeezes_S1x1x128_S128).view.read (Elt F) I.fi) rfl (I.hin 19 1 inb_S26x4x128_S1x1x128_19_1_0 squeezes_S1x1x128_S128))
def rowsAt38 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt37 I) (gp38 I) Finset.univ
def gp39 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 1, 0] S1x1x128.size inb_S26x4x128_S1x1x128_20_1_0) (fun _ => rfl)).squeeze S128 squeezes_S1x1x128_S128).view.read (Elt F) I.fi) rfl (I.hin 20 1 inb_S26x4x128_S1x1x128_20_1_0 squeezes_S1x1x128_S128))
def rowsAt39 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt38 I) (gp39 I) Finset.univ
def gp40 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 1, 0] S1x1x128.size inb_S26x4x128_S1x1x128_21_1_0) (fun _ => rfl)).squeeze S128 squeezes_S1x1x128_S128).view.read (Elt F) I.fi) rfl (I.hin 21 1 inb_S26x4x128_S1x1x128_21_1_0 squeezes_S1x1x128_S128))
def rowsAt40 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt39 I) (gp40 I) Finset.univ
def gp41 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 1, 0] S1x1x128.size inb_S26x4x128_S1x1x128_22_1_0) (fun _ => rfl)).squeeze S128 squeezes_S1x1x128_S128).view.read (Elt F) I.fi) rfl (I.hin 22 1 inb_S26x4x128_S1x1x128_22_1_0 squeezes_S1x1x128_S128))
def rowsAt41 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt40 I) (gp41 I) Finset.univ
def gp42 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 1, 0] S1x1x128.size inb_S26x4x128_S1x1x128_23_1_0) (fun _ => rfl)).squeeze S128 squeezes_S1x1x128_S128).view.read (Elt F) I.fi) rfl (I.hin 23 1 inb_S26x4x128_S1x1x128_23_1_0 squeezes_S1x1x128_S128))
def rowsAt42 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt41 I) (gp42 I) Finset.univ
def gp43 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 1, 0] S1x1x128.size inb_S26x4x128_S1x1x128_24_1_0) (fun _ => rfl)).squeeze S128 squeezes_S1x1x128_S128).view.read (Elt F) I.fi) rfl (I.hin 24 1 inb_S26x4x128_S1x1x128_24_1_0 squeezes_S1x1x128_S128))
def rowsAt43 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt42 I) (gp43 I) Finset.univ
def gp44 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 1, 0] S1x1x128.size inb_S26x4x128_S1x1x128_25_1_0) (fun _ => rfl)).squeeze S128 squeezes_S1x1x128_S128).view.read (Elt F) I.fi) rfl (I.hin 25 1 inb_S26x4x128_S1x1x128_25_1_0 squeezes_S1x1x128_S128))
def rowsAt44 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt43 I) (gp44 I) Finset.univ
def gp45 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 1, 0] S1x1x128.size inb_S26x4x128_S1x1x128_0_1_0) (fun _ => rfl)).squeeze S128 squeezes_S1x1x128_S128).view.read (Elt F) I.fi) rfl (I.hin 0 1 inb_S26x4x128_S1x1x128_0_1_0 squeezes_S1x1x128_S128))
def rowsAt45 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt44 I) (gp45 I) Finset.univ
def gp46 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 1, 0] S1x1x128.size inb_S26x4x128_S1x1x128_1_1_0) (fun _ => rfl)).squeeze S128 squeezes_S1x1x128_S128).view.read (Elt F) I.fi) rfl (I.hin 1 1 inb_S26x4x128_S1x1x128_1_1_0 squeezes_S1x1x128_S128))
def rowsAt46 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt45 I) (gp46 I) Finset.univ
def gp47 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 1, 0] S1x1x128.size inb_S26x4x128_S1x1x128_2_1_0) (fun _ => rfl)).squeeze S128 squeezes_S1x1x128_S128).view.read (Elt F) I.fi) rfl (I.hin 2 1 inb_S26x4x128_S1x1x128_2_1_0 squeezes_S1x1x128_S128))
def rowsAt47 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt46 I) (gp47 I) Finset.univ
def gp48 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 1, 0] S1x1x128.size inb_S26x4x128_S1x1x128_3_1_0) (fun _ => rfl)).squeeze S128 squeezes_S1x1x128_S128).view.read (Elt F) I.fi) rfl (I.hin 3 1 inb_S26x4x128_S1x1x128_3_1_0 squeezes_S1x1x128_S128))
def rowsAt48 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt47 I) (gp48 I) Finset.univ
def gp49 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 1, 0] S1x1x128.size inb_S26x4x128_S1x1x128_4_1_0) (fun _ => rfl)).squeeze S128 squeezes_S1x1x128_S128).view.read (Elt F) I.fi) rfl (I.hin 4 1 inb_S26x4x128_S1x1x128_4_1_0 squeezes_S1x1x128_S128))
def rowsAt49 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt48 I) (gp49 I) Finset.univ
def gp50 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 1, 0] S1x1x128.size inb_S26x4x128_S1x1x128_5_1_0) (fun _ => rfl)).squeeze S128 squeezes_S1x1x128_S128).view.read (Elt F) I.fi) rfl (I.hin 5 1 inb_S26x4x128_S1x1x128_5_1_0 squeezes_S1x1x128_S128))
def rowsAt50 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt49 I) (gp50 I) Finset.univ
def gp51 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 1, 0] S1x1x128.size inb_S26x4x128_S1x1x128_6_1_0) (fun _ => rfl)).squeeze S128 squeezes_S1x1x128_S128).view.read (Elt F) I.fi) rfl (I.hin 6 1 inb_S26x4x128_S1x1x128_6_1_0 squeezes_S1x1x128_S128))
def rowsAt51 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt50 I) (gp51 I) Finset.univ
def gp52 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 2, 0] S1x1x128.size inb_S26x4x128_S1x1x128_7_2_0) (fun _ => rfl)).squeeze S128 squeezes_S1x1x128_S128).view.read (Elt F) I.fi) rfl (I.hin 7 2 inb_S26x4x128_S1x1x128_7_2_0 squeezes_S1x1x128_S128))
def rowsAt52 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt51 I) (gp52 I) Finset.univ
def gp53 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 2, 0] S1x1x128.size inb_S26x4x128_S1x1x128_8_2_0) (fun _ => rfl)).squeeze S128 squeezes_S1x1x128_S128).view.read (Elt F) I.fi) rfl (I.hin 8 2 inb_S26x4x128_S1x1x128_8_2_0 squeezes_S1x1x128_S128))
def rowsAt53 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt52 I) (gp53 I) Finset.univ
def gp54 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 2, 0] S1x1x128.size inb_S26x4x128_S1x1x128_9_2_0) (fun _ => rfl)).squeeze S128 squeezes_S1x1x128_S128).view.read (Elt F) I.fi) rfl (I.hin 9 2 inb_S26x4x128_S1x1x128_9_2_0 squeezes_S1x1x128_S128))
def rowsAt54 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt53 I) (gp54 I) Finset.univ
def gp55 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 2, 0] S1x1x128.size inb_S26x4x128_S1x1x128_10_2_0) (fun _ => rfl)).squeeze S128 squeezes_S1x1x128_S128).view.read (Elt F) I.fi) rfl (I.hin 10 2 inb_S26x4x128_S1x1x128_10_2_0 squeezes_S1x1x128_S128))
def rowsAt55 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt54 I) (gp55 I) Finset.univ
def gp56 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 2, 0] S1x1x128.size inb_S26x4x128_S1x1x128_11_2_0) (fun _ => rfl)).squeeze S128 squeezes_S1x1x128_S128).view.read (Elt F) I.fi) rfl (I.hin 11 2 inb_S26x4x128_S1x1x128_11_2_0 squeezes_S1x1x128_S128))
def rowsAt56 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt55 I) (gp56 I) Finset.univ
def gp57 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 2, 0] S1x1x128.size inb_S26x4x128_S1x1x128_12_2_0) (fun _ => rfl)).squeeze S128 squeezes_S1x1x128_S128).view.read (Elt F) I.fi) rfl (I.hin 12 2 inb_S26x4x128_S1x1x128_12_2_0 squeezes_S1x1x128_S128))
def rowsAt57 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt56 I) (gp57 I) Finset.univ
def gp58 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 2, 0] S1x1x128.size inb_S26x4x128_S1x1x128_13_2_0) (fun _ => rfl)).squeeze S128 squeezes_S1x1x128_S128).view.read (Elt F) I.fi) rfl (I.hin 13 2 inb_S26x4x128_S1x1x128_13_2_0 squeezes_S1x1x128_S128))
def rowsAt58 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt57 I) (gp58 I) Finset.univ
def gp59 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 2, 0] S1x1x128.size inb_S26x4x128_S1x1x128_14_2_0) (fun _ => rfl)).squeeze S128 squeezes_S1x1x128_S128).view.read (Elt F) I.fi) rfl (I.hin 14 2 inb_S26x4x128_S1x1x128_14_2_0 squeezes_S1x1x128_S128))
def rowsAt59 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt58 I) (gp59 I) Finset.univ
def gp60 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 2, 0] S1x1x128.size inb_S26x4x128_S1x1x128_15_2_0) (fun _ => rfl)).squeeze S128 squeezes_S1x1x128_S128).view.read (Elt F) I.fi) rfl (I.hin 15 2 inb_S26x4x128_S1x1x128_15_2_0 squeezes_S1x1x128_S128))
def rowsAt60 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt59 I) (gp60 I) Finset.univ
def gp61 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 2, 0] S1x1x128.size inb_S26x4x128_S1x1x128_16_2_0) (fun _ => rfl)).squeeze S128 squeezes_S1x1x128_S128).view.read (Elt F) I.fi) rfl (I.hin 16 2 inb_S26x4x128_S1x1x128_16_2_0 squeezes_S1x1x128_S128))
def rowsAt61 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt60 I) (gp61 I) Finset.univ
def gp62 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 2, 0] S1x1x128.size inb_S26x4x128_S1x1x128_17_2_0) (fun _ => rfl)).squeeze S128 squeezes_S1x1x128_S128).view.read (Elt F) I.fi) rfl (I.hin 17 2 inb_S26x4x128_S1x1x128_17_2_0 squeezes_S1x1x128_S128))
def rowsAt62 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt61 I) (gp62 I) Finset.univ
def gp63 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 2, 0] S1x1x128.size inb_S26x4x128_S1x1x128_18_2_0) (fun _ => rfl)).squeeze S128 squeezes_S1x1x128_S128).view.read (Elt F) I.fi) rfl (I.hin 18 2 inb_S26x4x128_S1x1x128_18_2_0 squeezes_S1x1x128_S128))
def rowsAt63 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt62 I) (gp63 I) Finset.univ
def gp64 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 2, 0] S1x1x128.size inb_S26x4x128_S1x1x128_19_2_0) (fun _ => rfl)).squeeze S128 squeezes_S1x1x128_S128).view.read (Elt F) I.fi) rfl (I.hin 19 2 inb_S26x4x128_S1x1x128_19_2_0 squeezes_S1x1x128_S128))
def rowsAt64 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt63 I) (gp64 I) Finset.univ
def gp65 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 2, 0] S1x1x128.size inb_S26x4x128_S1x1x128_20_2_0) (fun _ => rfl)).squeeze S128 squeezes_S1x1x128_S128).view.read (Elt F) I.fi) rfl (I.hin 20 2 inb_S26x4x128_S1x1x128_20_2_0 squeezes_S1x1x128_S128))
def rowsAt65 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt64 I) (gp65 I) Finset.univ
def gp66 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 2, 0] S1x1x128.size inb_S26x4x128_S1x1x128_21_2_0) (fun _ => rfl)).squeeze S128 squeezes_S1x1x128_S128).view.read (Elt F) I.fi) rfl (I.hin 21 2 inb_S26x4x128_S1x1x128_21_2_0 squeezes_S1x1x128_S128))
def rowsAt66 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt65 I) (gp66 I) Finset.univ
def gp67 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 2, 0] S1x1x128.size inb_S26x4x128_S1x1x128_22_2_0) (fun _ => rfl)).squeeze S128 squeezes_S1x1x128_S128).view.read (Elt F) I.fi) rfl (I.hin 22 2 inb_S26x4x128_S1x1x128_22_2_0 squeezes_S1x1x128_S128))
def rowsAt67 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt66 I) (gp67 I) Finset.univ
def gp68 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 2, 0] S1x1x128.size inb_S26x4x128_S1x1x128_23_2_0) (fun _ => rfl)).squeeze S128 squeezes_S1x1x128_S128).view.read (Elt F) I.fi) rfl (I.hin 23 2 inb_S26x4x128_S1x1x128_23_2_0 squeezes_S1x1x128_S128))
def rowsAt68 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt67 I) (gp68 I) Finset.univ
def gp69 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 2, 0] S1x1x128.size inb_S26x4x128_S1x1x128_24_2_0) (fun _ => rfl)).squeeze S128 squeezes_S1x1x128_S128).view.read (Elt F) I.fi) rfl (I.hin 24 2 inb_S26x4x128_S1x1x128_24_2_0 squeezes_S1x1x128_S128))
def rowsAt69 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt68 I) (gp69 I) Finset.univ
def gp70 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 2, 0] S1x1x128.size inb_S26x4x128_S1x1x128_25_2_0) (fun _ => rfl)).squeeze S128 squeezes_S1x1x128_S128).view.read (Elt F) I.fi) rfl (I.hin 25 2 inb_S26x4x128_S1x1x128_25_2_0 squeezes_S1x1x128_S128))
def rowsAt70 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt69 I) (gp70 I) Finset.univ
def gp71 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 2, 0] S1x1x128.size inb_S26x4x128_S1x1x128_0_2_0) (fun _ => rfl)).squeeze S128 squeezes_S1x1x128_S128).view.read (Elt F) I.fi) rfl (I.hin 0 2 inb_S26x4x128_S1x1x128_0_2_0 squeezes_S1x1x128_S128))
def rowsAt71 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt70 I) (gp71 I) Finset.univ
def gp72 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 2, 0] S1x1x128.size inb_S26x4x128_S1x1x128_1_2_0) (fun _ => rfl)).squeeze S128 squeezes_S1x1x128_S128).view.read (Elt F) I.fi) rfl (I.hin 1 2 inb_S26x4x128_S1x1x128_1_2_0 squeezes_S1x1x128_S128))
def rowsAt72 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt71 I) (gp72 I) Finset.univ
def gp73 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 2, 0] S1x1x128.size inb_S26x4x128_S1x1x128_2_2_0) (fun _ => rfl)).squeeze S128 squeezes_S1x1x128_S128).view.read (Elt F) I.fi) rfl (I.hin 2 2 inb_S26x4x128_S1x1x128_2_2_0 squeezes_S1x1x128_S128))
def rowsAt73 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt72 I) (gp73 I) Finset.univ
def gp74 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 2, 0] S1x1x128.size inb_S26x4x128_S1x1x128_3_2_0) (fun _ => rfl)).squeeze S128 squeezes_S1x1x128_S128).view.read (Elt F) I.fi) rfl (I.hin 3 2 inb_S26x4x128_S1x1x128_3_2_0 squeezes_S1x1x128_S128))
def rowsAt74 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt73 I) (gp74 I) Finset.univ
def gp75 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 2, 0] S1x1x128.size inb_S26x4x128_S1x1x128_4_2_0) (fun _ => rfl)).squeeze S128 squeezes_S1x1x128_S128).view.read (Elt F) I.fi) rfl (I.hin 4 2 inb_S26x4x128_S1x1x128_4_2_0 squeezes_S1x1x128_S128))
def rowsAt75 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt74 I) (gp75 I) Finset.univ
def gp76 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 2, 0] S1x1x128.size inb_S26x4x128_S1x1x128_5_2_0) (fun _ => rfl)).squeeze S128 squeezes_S1x1x128_S128).view.read (Elt F) I.fi) rfl (I.hin 5 2 inb_S26x4x128_S1x1x128_5_2_0 squeezes_S1x1x128_S128))
def rowsAt76 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt75 I) (gp76 I) Finset.univ
def gp77 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 2, 0] S1x1x128.size inb_S26x4x128_S1x1x128_6_2_0) (fun _ => rfl)).squeeze S128 squeezes_S1x1x128_S128).view.read (Elt F) I.fi) rfl (I.hin 6 2 inb_S26x4x128_S1x1x128_6_2_0 squeezes_S1x1x128_S128))
def rowsAt77 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt76 I) (gp77 I) Finset.univ
def gp78 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 3, 0] S1x1x128.size inb_S26x4x128_S1x1x128_7_3_0) (fun _ => rfl)).squeeze S128 squeezes_S1x1x128_S128).view.read (Elt F) I.fi) rfl (I.hin 7 3 inb_S26x4x128_S1x1x128_7_3_0 squeezes_S1x1x128_S128))
def rowsAt78 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt77 I) (gp78 I) Finset.univ
def gp79 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 3, 0] S1x1x128.size inb_S26x4x128_S1x1x128_8_3_0) (fun _ => rfl)).squeeze S128 squeezes_S1x1x128_S128).view.read (Elt F) I.fi) rfl (I.hin 8 3 inb_S26x4x128_S1x1x128_8_3_0 squeezes_S1x1x128_S128))
def rowsAt79 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt78 I) (gp79 I) Finset.univ
def gp80 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 3, 0] S1x1x128.size inb_S26x4x128_S1x1x128_9_3_0) (fun _ => rfl)).squeeze S128 squeezes_S1x1x128_S128).view.read (Elt F) I.fi) rfl (I.hin 9 3 inb_S26x4x128_S1x1x128_9_3_0 squeezes_S1x1x128_S128))
def rowsAt80 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt79 I) (gp80 I) Finset.univ
def gp81 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 3, 0] S1x1x128.size inb_S26x4x128_S1x1x128_10_3_0) (fun _ => rfl)).squeeze S128 squeezes_S1x1x128_S128).view.read (Elt F) I.fi) rfl (I.hin 10 3 inb_S26x4x128_S1x1x128_10_3_0 squeezes_S1x1x128_S128))
def rowsAt81 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt80 I) (gp81 I) Finset.univ
def gp82 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 3, 0] S1x1x128.size inb_S26x4x128_S1x1x128_11_3_0) (fun _ => rfl)).squeeze S128 squeezes_S1x1x128_S128).view.read (Elt F) I.fi) rfl (I.hin 11 3 inb_S26x4x128_S1x1x128_11_3_0 squeezes_S1x1x128_S128))
def rowsAt82 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt81 I) (gp82 I) Finset.univ
def gp83 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 3, 0] S1x1x128.size inb_S26x4x128_S1x1x128_12_3_0) (fun _ => rfl)).squeeze S128 squeezes_S1x1x128_S128).view.read (Elt F) I.fi) rfl (I.hin 12 3 inb_S26x4x128_S1x1x128_12_3_0 squeezes_S1x1x128_S128))
def rowsAt83 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt82 I) (gp83 I) Finset.univ
def gp84 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 3, 0] S1x1x128.size inb_S26x4x128_S1x1x128_13_3_0) (fun _ => rfl)).squeeze S128 squeezes_S1x1x128_S128).view.read (Elt F) I.fi) rfl (I.hin 13 3 inb_S26x4x128_S1x1x128_13_3_0 squeezes_S1x1x128_S128))
def rowsAt84 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt83 I) (gp84 I) Finset.univ
def gp85 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 3, 0] S1x1x128.size inb_S26x4x128_S1x1x128_14_3_0) (fun _ => rfl)).squeeze S128 squeezes_S1x1x128_S128).view.read (Elt F) I.fi) rfl (I.hin 14 3 inb_S26x4x128_S1x1x128_14_3_0 squeezes_S1x1x128_S128))
def rowsAt85 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt84 I) (gp85 I) Finset.univ
def gp86 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 3, 0] S1x1x128.size inb_S26x4x128_S1x1x128_15_3_0) (fun _ => rfl)).squeeze S128 squeezes_S1x1x128_S128).view.read (Elt F) I.fi) rfl (I.hin 15 3 inb_S26x4x128_S1x1x128_15_3_0 squeezes_S1x1x128_S128))
def rowsAt86 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt85 I) (gp86 I) Finset.univ
def gp87 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 3, 0] S1x1x128.size inb_S26x4x128_S1x1x128_16_3_0) (fun _ => rfl)).squeeze S128 squeezes_S1x1x128_S128).view.read (Elt F) I.fi) rfl (I.hin 16 3 inb_S26x4x128_S1x1x128_16_3_0 squeezes_S1x1x128_S128))
def rowsAt87 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt86 I) (gp87 I) Finset.univ
def gp88 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 3, 0] S1x1x128.size inb_S26x4x128_S1x1x128_17_3_0) (fun _ => rfl)).squeeze S128 squeezes_S1x1x128_S128).view.read (Elt F) I.fi) rfl (I.hin 17 3 inb_S26x4x128_S1x1x128_17_3_0 squeezes_S1x1x128_S128))
def rowsAt88 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt87 I) (gp88 I) Finset.univ
def gp89 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 3, 0] S1x1x128.size inb_S26x4x128_S1x1x128_18_3_0) (fun _ => rfl)).squeeze S128 squeezes_S1x1x128_S128).view.read (Elt F) I.fi) rfl (I.hin 18 3 inb_S26x4x128_S1x1x128_18_3_0 squeezes_S1x1x128_S128))
def rowsAt89 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt88 I) (gp89 I) Finset.univ
def gp90 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 3, 0] S1x1x128.size inb_S26x4x128_S1x1x128_19_3_0) (fun _ => rfl)).squeeze S128 squeezes_S1x1x128_S128).view.read (Elt F) I.fi) rfl (I.hin 19 3 inb_S26x4x128_S1x1x128_19_3_0 squeezes_S1x1x128_S128))
def rowsAt90 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt89 I) (gp90 I) Finset.univ
def gp91 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 3, 0] S1x1x128.size inb_S26x4x128_S1x1x128_20_3_0) (fun _ => rfl)).squeeze S128 squeezes_S1x1x128_S128).view.read (Elt F) I.fi) rfl (I.hin 20 3 inb_S26x4x128_S1x1x128_20_3_0 squeezes_S1x1x128_S128))
def rowsAt91 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt90 I) (gp91 I) Finset.univ
def gp92 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 3, 0] S1x1x128.size inb_S26x4x128_S1x1x128_21_3_0) (fun _ => rfl)).squeeze S128 squeezes_S1x1x128_S128).view.read (Elt F) I.fi) rfl (I.hin 21 3 inb_S26x4x128_S1x1x128_21_3_0 squeezes_S1x1x128_S128))
def rowsAt92 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt91 I) (gp92 I) Finset.univ
def gp93 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 3, 0] S1x1x128.size inb_S26x4x128_S1x1x128_22_3_0) (fun _ => rfl)).squeeze S128 squeezes_S1x1x128_S128).view.read (Elt F) I.fi) rfl (I.hin 22 3 inb_S26x4x128_S1x1x128_22_3_0 squeezes_S1x1x128_S128))
def rowsAt93 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt92 I) (gp93 I) Finset.univ
def gp94 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 3, 0] S1x1x128.size inb_S26x4x128_S1x1x128_23_3_0) (fun _ => rfl)).squeeze S128 squeezes_S1x1x128_S128).view.read (Elt F) I.fi) rfl (I.hin 23 3 inb_S26x4x128_S1x1x128_23_3_0 squeezes_S1x1x128_S128))
def rowsAt94 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt93 I) (gp94 I) Finset.univ
def gp95 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 3, 0] S1x1x128.size inb_S26x4x128_S1x1x128_24_3_0) (fun _ => rfl)).squeeze S128 squeezes_S1x1x128_S128).view.read (Elt F) I.fi) rfl (I.hin 24 3 inb_S26x4x128_S1x1x128_24_3_0 squeezes_S1x1x128_S128))
def rowsAt95 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt94 I) (gp95 I) Finset.univ
def gp96 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 3, 0] S1x1x128.size inb_S26x4x128_S1x1x128_25_3_0) (fun _ => rfl)).squeeze S128 squeezes_S1x1x128_S128).view.read (Elt F) I.fi) rfl (I.hin 25 3 inb_S26x4x128_S1x1x128_25_3_0 squeezes_S1x1x128_S128))
def rowsAt96 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt95 I) (gp96 I) Finset.univ
def gp97 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 3, 0] S1x1x128.size inb_S26x4x128_S1x1x128_0_3_0) (fun _ => rfl)).squeeze S128 squeezes_S1x1x128_S128).view.read (Elt F) I.fi) rfl (I.hin 0 3 inb_S26x4x128_S1x1x128_0_3_0 squeezes_S1x1x128_S128))
def rowsAt97 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt96 I) (gp97 I) Finset.univ
def gp98 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 3, 0] S1x1x128.size inb_S26x4x128_S1x1x128_1_3_0) (fun _ => rfl)).squeeze S128 squeezes_S1x1x128_S128).view.read (Elt F) I.fi) rfl (I.hin 1 3 inb_S26x4x128_S1x1x128_1_3_0 squeezes_S1x1x128_S128))
def rowsAt98 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt97 I) (gp98 I) Finset.univ
def gp99 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 3, 0] S1x1x128.size inb_S26x4x128_S1x1x128_2_3_0) (fun _ => rfl)).squeeze S128 squeezes_S1x1x128_S128).view.read (Elt F) I.fi) rfl (I.hin 2 3 inb_S26x4x128_S1x1x128_2_3_0 squeezes_S1x1x128_S128))
def rowsAt99 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt98 I) (gp99 I) Finset.univ
def gp100 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 3, 0] S1x1x128.size inb_S26x4x128_S1x1x128_3_3_0) (fun _ => rfl)).squeeze S128 squeezes_S1x1x128_S128).view.read (Elt F) I.fi) rfl (I.hin 3 3 inb_S26x4x128_S1x1x128_3_3_0 squeezes_S1x1x128_S128))
def rowsAt100 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt99 I) (gp100 I) Finset.univ
def gp101 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 3, 0] S1x1x128.size inb_S26x4x128_S1x1x128_4_3_0) (fun _ => rfl)).squeeze S128 squeezes_S1x1x128_S128).view.read (Elt F) I.fi) rfl (I.hin 4 3 inb_S26x4x128_S1x1x128_4_3_0 squeezes_S1x1x128_S128))
def rowsAt101 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt100 I) (gp101 I) Finset.univ
def gp102 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 3, 0] S1x1x128.size inb_S26x4x128_S1x1x128_5_3_0) (fun _ => rfl)).squeeze S128 squeezes_S1x1x128_S128).view.read (Elt F) I.fi) rfl (I.hin 5 3 inb_S26x4x128_S1x1x128_5_3_0 squeezes_S1x1x128_S128))
def rowsAt102 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt101 I) (gp102 I) Finset.univ
def gp103 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 3, 0] S1x1x128.size inb_S26x4x128_S1x1x128_6_3_0) (fun _ => rfl)).squeeze S128 squeezes_S1x1x128_S128).view.read (Elt F) I.fi) rfl (I.hin 6 3 inb_S26x4x128_S1x1x128_6_3_0 squeezes_S1x1x128_S128))
def rowsAt103 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt102 I) (gp103 I) Finset.univ
def pay0 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt5 I))
def outAt0 : Buf (Elt F) ((V d (cVL L) (jVL L)).loc main_v26_scv) :=
  View.write (Elt F) ((Memref.whole main_v26_scv : Memref sig .scVector .hbm S16384x3328 .f32).slice (Rect.unit (s := S16384x3328) (k0_off28 L 0#32) S128x128.size (k0_off28_inb L hc 0)) (fun _ => rfl)).view I.fo (pay0 I) Finset.univ
def pay1 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt6 I))
def outAt1 : Buf (Elt F) ((V d (cVL L) (jVL L)).loc main_v26_scv) :=
  View.write (Elt F) ((Memref.whole main_v26_scv : Memref sig .scVector .hbm S16384x3328 .f32).slice (Rect.unit (s := S16384x3328) (k0_off29 L 0#32) S128x128.size (k0_off29_inb L hc 0)) (fun _ => rfl)).view (outAt0 I hc) (pay1 I) Finset.univ
def pay2 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt7 I))
def outAt2 : Buf (Elt F) ((V d (cVL L) (jVL L)).loc main_v26_scv) :=
  View.write (Elt F) ((Memref.whole main_v26_scv : Memref sig .scVector .hbm S16384x3328 .f32).slice (Rect.unit (s := S16384x3328) (k0_off30 L 0#32) S128x128.size (k0_off30_inb L hc 0)) (fun _ => rfl)).view (outAt1 I hc) (pay2 I) Finset.univ
def pay3 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt8 I))
def outAt3 : Buf (Elt F) ((V d (cVL L) (jVL L)).loc main_v26_scv) :=
  View.write (Elt F) ((Memref.whole main_v26_scv : Memref sig .scVector .hbm S16384x3328 .f32).slice (Rect.unit (s := S16384x3328) (k0_off31 L 0#32) S128x128.size (k0_off31_inb L hc 0)) (fun _ => rfl)).view (outAt2 I hc) (pay3 I) Finset.univ
def pay4 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt9 I))
def outAt4 : Buf (Elt F) ((V d (cVL L) (jVL L)).loc main_v26_scv) :=
  View.write (Elt F) ((Memref.whole main_v26_scv : Memref sig .scVector .hbm S16384x3328 .f32).slice (Rect.unit (s := S16384x3328) (k0_off32 L 0#32) S128x128.size (k0_off32_inb L hc 0)) (fun _ => rfl)).view (outAt3 I hc) (pay4 I) Finset.univ
def pay5 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt10 I))
def outAt5 : Buf (Elt F) ((V d (cVL L) (jVL L)).loc main_v26_scv) :=
  View.write (Elt F) ((Memref.whole main_v26_scv : Memref sig .scVector .hbm S16384x3328 .f32).slice (Rect.unit (s := S16384x3328) (k0_off33 L 0#32) S128x128.size (k0_off33_inb L hc 0)) (fun _ => rfl)).view (outAt4 I hc) (pay5 I) Finset.univ
def pay6 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt11 I))
def outAt6 : Buf (Elt F) ((V d (cVL L) (jVL L)).loc main_v26_scv) :=
  View.write (Elt F) ((Memref.whole main_v26_scv : Memref sig .scVector .hbm S16384x3328 .f32).slice (Rect.unit (s := S16384x3328) (k0_off34 L 0#32) S128x128.size (k0_off34_inb L hc 0)) (fun _ => rfl)).view (outAt5 I hc) (pay6 I) Finset.univ
def pay7 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt12 I))
def outAt7 : Buf (Elt F) ((V d (cVL L) (jVL L)).loc main_v26_scv) :=
  View.write (Elt F) ((Memref.whole main_v26_scv : Memref sig .scVector .hbm S16384x3328 .f32).slice (Rect.unit (s := S16384x3328) (k0_off35 L 0#32) S128x128.size (k0_off35_inb L hc 0)) (fun _ => rfl)).view (outAt6 I hc) (pay7 I) Finset.univ
def pay8 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt13 I))
def outAt8 : Buf (Elt F) ((V d (cVL L) (jVL L)).loc main_v26_scv) :=
  View.write (Elt F) ((Memref.whole main_v26_scv : Memref sig .scVector .hbm S16384x3328 .f32).slice (Rect.unit (s := S16384x3328) (k0_off36 L 0#32) S128x128.size (k0_off36_inb L hc 0)) (fun _ => rfl)).view (outAt7 I hc) (pay8 I) Finset.univ
def pay9 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt14 I))
def outAt9 : Buf (Elt F) ((V d (cVL L) (jVL L)).loc main_v26_scv) :=
  View.write (Elt F) ((Memref.whole main_v26_scv : Memref sig .scVector .hbm S16384x3328 .f32).slice (Rect.unit (s := S16384x3328) (k0_off37 L 0#32) S128x128.size (k0_off37_inb L hc 0)) (fun _ => rfl)).view (outAt8 I hc) (pay9 I) Finset.univ
def pay10 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt15 I))
def outAt10 : Buf (Elt F) ((V d (cVL L) (jVL L)).loc main_v26_scv) :=
  View.write (Elt F) ((Memref.whole main_v26_scv : Memref sig .scVector .hbm S16384x3328 .f32).slice (Rect.unit (s := S16384x3328) (k0_off38 L 0#32) S128x128.size (k0_off38_inb L hc 0)) (fun _ => rfl)).view (outAt9 I hc) (pay10 I) Finset.univ
def pay11 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt16 I))
def outAt11 : Buf (Elt F) ((V d (cVL L) (jVL L)).loc main_v26_scv) :=
  View.write (Elt F) ((Memref.whole main_v26_scv : Memref sig .scVector .hbm S16384x3328 .f32).slice (Rect.unit (s := S16384x3328) (k0_off39 L 0#32) S128x128.size (k0_off39_inb L hc 0)) (fun _ => rfl)).view (outAt10 I hc) (pay11 I) Finset.univ
def pay12 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt17 I))
def outAt12 : Buf (Elt F) ((V d (cVL L) (jVL L)).loc main_v26_scv) :=
  View.write (Elt F) ((Memref.whole main_v26_scv : Memref sig .scVector .hbm S16384x3328 .f32).slice (Rect.unit (s := S16384x3328) (k0_off40 L 0#32) S128x128.size (k0_off40_inb L hc 0)) (fun _ => rfl)).view (outAt11 I hc) (pay12 I) Finset.univ
def pay13 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt18 I))
def outAt13 : Buf (Elt F) ((V d (cVL L) (jVL L)).loc main_v26_scv) :=
  View.write (Elt F) ((Memref.whole main_v26_scv : Memref sig .scVector .hbm S16384x3328 .f32).slice (Rect.unit (s := S16384x3328) (k0_off41 L 0#32) S128x128.size (k0_off41_inb L hc 0)) (fun _ => rfl)).view (outAt12 I hc) (pay13 I) Finset.univ
def pay14 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt19 I))
def outAt14 : Buf (Elt F) ((V d (cVL L) (jVL L)).loc main_v26_scv) :=
  View.write (Elt F) ((Memref.whole main_v26_scv : Memref sig .scVector .hbm S16384x3328 .f32).slice (Rect.unit (s := S16384x3328) (k0_off42 L 0#32) S128x128.size (k0_off42_inb L hc 0)) (fun _ => rfl)).view (outAt13 I hc) (pay14 I) Finset.univ
def pay15 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt20 I))
def outAt15 : Buf (Elt F) ((V d (cVL L) (jVL L)).loc main_v26_scv) :=
  View.write (Elt F) ((Memref.whole main_v26_scv : Memref sig .scVector .hbm S16384x3328 .f32).slice (Rect.unit (s := S16384x3328) (k0_off43 L 0#32) S128x128.size (k0_off43_inb L hc 0)) (fun _ => rfl)).view (outAt14 I hc) (pay15 I) Finset.univ
def pay16 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt21 I))
def outAt16 : Buf (Elt F) ((V d (cVL L) (jVL L)).loc main_v26_scv) :=
  View.write (Elt F) ((Memref.whole main_v26_scv : Memref sig .scVector .hbm S16384x3328 .f32).slice (Rect.unit (s := S16384x3328) (k0_off44 L 0#32) S128x128.size (k0_off44_inb L hc 0)) (fun _ => rfl)).view (outAt15 I hc) (pay16 I) Finset.univ
def pay17 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt22 I))
def outAt17 : Buf (Elt F) ((V d (cVL L) (jVL L)).loc main_v26_scv) :=
  View.write (Elt F) ((Memref.whole main_v26_scv : Memref sig .scVector .hbm S16384x3328 .f32).slice (Rect.unit (s := S16384x3328) (k0_off45 L 0#32) S128x128.size (k0_off45_inb L hc 0)) (fun _ => rfl)).view (outAt16 I hc) (pay17 I) Finset.univ
def pay18 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt23 I))
def outAt18 : Buf (Elt F) ((V d (cVL L) (jVL L)).loc main_v26_scv) :=
  View.write (Elt F) ((Memref.whole main_v26_scv : Memref sig .scVector .hbm S16384x3328 .f32).slice (Rect.unit (s := S16384x3328) (k0_off46 L 0#32) S128x128.size (k0_off46_inb L hc 0)) (fun _ => rfl)).view (outAt17 I hc) (pay18 I) Finset.univ
def pay19 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt24 I))
def outAt19 : Buf (Elt F) ((V d (cVL L) (jVL L)).loc main_v26_scv) :=
  View.write (Elt F) ((Memref.whole main_v26_scv : Memref sig .scVector .hbm S16384x3328 .f32).slice (Rect.unit (s := S16384x3328) (k0_off47 L 0#32) S128x128.size (k0_off47_inb L hc 0)) (fun _ => rfl)).view (outAt18 I hc) (pay19 I) Finset.univ
def pay20 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt25 I))
def outAt20 : Buf (Elt F) ((V d (cVL L) (jVL L)).loc main_v26_scv) :=
  View.write (Elt F) ((Memref.whole main_v26_scv : Memref sig .scVector .hbm S16384x3328 .f32).slice (Rect.unit (s := S16384x3328) (k0_off48 L 0#32) S128x128.size (k0_off48_inb L hc 0)) (fun _ => rfl)).view (outAt19 I hc) (pay20 I) Finset.univ
def pay21 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt26 I))
def outAt21 : Buf (Elt F) ((V d (cVL L) (jVL L)).loc main_v26_scv) :=
  View.write (Elt F) ((Memref.whole main_v26_scv : Memref sig .scVector .hbm S16384x3328 .f32).slice (Rect.unit (s := S16384x3328) (k0_off49 L 0#32) S128x128.size (k0_off49_inb L hc 0)) (fun _ => rfl)).view (outAt20 I hc) (pay21 I) Finset.univ
def pay22 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt27 I))
def outAt22 : Buf (Elt F) ((V d (cVL L) (jVL L)).loc main_v26_scv) :=
  View.write (Elt F) ((Memref.whole main_v26_scv : Memref sig .scVector .hbm S16384x3328 .f32).slice (Rect.unit (s := S16384x3328) (k0_off50 L 0#32) S128x128.size (k0_off50_inb L hc 0)) (fun _ => rfl)).view (outAt21 I hc) (pay22 I) Finset.univ
def pay23 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt28 I))
def outAt23 : Buf (Elt F) ((V d (cVL L) (jVL L)).loc main_v26_scv) :=
  View.write (Elt F) ((Memref.whole main_v26_scv : Memref sig .scVector .hbm S16384x3328 .f32).slice (Rect.unit (s := S16384x3328) (k0_off51 L 0#32) S128x128.size (k0_off51_inb L hc 0)) (fun _ => rfl)).view (outAt22 I hc) (pay23 I) Finset.univ
def pay24 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt29 I))
def outAt24 : Buf (Elt F) ((V d (cVL L) (jVL L)).loc main_v26_scv) :=
  View.write (Elt F) ((Memref.whole main_v26_scv : Memref sig .scVector .hbm S16384x3328 .f32).slice (Rect.unit (s := S16384x3328) (k0_off52 L 0#32) S128x128.size (k0_off52_inb L hc 0)) (fun _ => rfl)).view (outAt23 I hc) (pay24 I) Finset.univ
def pay25 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt30 I))
def outAt25 : Buf (Elt F) ((V d (cVL L) (jVL L)).loc main_v26_scv) :=
  View.write (Elt F) ((Memref.whole main_v26_scv : Memref sig .scVector .hbm S16384x3328 .f32).slice (Rect.unit (s := S16384x3328) (k0_off53 L 0#32) S128x128.size (k0_off53_inb L hc 0)) (fun _ => rfl)).view (outAt24 I hc) (pay25 I) Finset.univ
def pay26 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt31 I))
def outAt26 : Buf (Elt F) ((V d (cVL L) (jVL L)).loc main_v26_scv) :=
  View.write (Elt F) ((Memref.whole main_v26_scv : Memref sig .scVector .hbm S16384x3328 .f32).slice (Rect.unit (s := S16384x3328) (k0_off28 L 128#32) S128x128.size (k0_off28_inb L hc 1)) (fun _ => rfl)).view (outAt25 I hc) (pay26 I) Finset.univ
def pay27 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt32 I))
def outAt27 : Buf (Elt F) ((V d (cVL L) (jVL L)).loc main_v26_scv) :=
  View.write (Elt F) ((Memref.whole main_v26_scv : Memref sig .scVector .hbm S16384x3328 .f32).slice (Rect.unit (s := S16384x3328) (k0_off29 L 128#32) S128x128.size (k0_off29_inb L hc 1)) (fun _ => rfl)).view (outAt26 I hc) (pay27 I) Finset.univ
def pay28 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt33 I))
def outAt28 : Buf (Elt F) ((V d (cVL L) (jVL L)).loc main_v26_scv) :=
  View.write (Elt F) ((Memref.whole main_v26_scv : Memref sig .scVector .hbm S16384x3328 .f32).slice (Rect.unit (s := S16384x3328) (k0_off30 L 128#32) S128x128.size (k0_off30_inb L hc 1)) (fun _ => rfl)).view (outAt27 I hc) (pay28 I) Finset.univ
def pay29 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt34 I))
def outAt29 : Buf (Elt F) ((V d (cVL L) (jVL L)).loc main_v26_scv) :=
  View.write (Elt F) ((Memref.whole main_v26_scv : Memref sig .scVector .hbm S16384x3328 .f32).slice (Rect.unit (s := S16384x3328) (k0_off31 L 128#32) S128x128.size (k0_off31_inb L hc 1)) (fun _ => rfl)).view (outAt28 I hc) (pay29 I) Finset.univ
def pay30 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt35 I))
def outAt30 : Buf (Elt F) ((V d (cVL L) (jVL L)).loc main_v26_scv) :=
  View.write (Elt F) ((Memref.whole main_v26_scv : Memref sig .scVector .hbm S16384x3328 .f32).slice (Rect.unit (s := S16384x3328) (k0_off32 L 128#32) S128x128.size (k0_off32_inb L hc 1)) (fun _ => rfl)).view (outAt29 I hc) (pay30 I) Finset.univ
def pay31 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt36 I))
def outAt31 : Buf (Elt F) ((V d (cVL L) (jVL L)).loc main_v26_scv) :=
  View.write (Elt F) ((Memref.whole main_v26_scv : Memref sig .scVector .hbm S16384x3328 .f32).slice (Rect.unit (s := S16384x3328) (k0_off33 L 128#32) S128x128.size (k0_off33_inb L hc 1)) (fun _ => rfl)).view (outAt30 I hc) (pay31 I) Finset.univ
def pay32 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt37 I))
def outAt32 : Buf (Elt F) ((V d (cVL L) (jVL L)).loc main_v26_scv) :=
  View.write (Elt F) ((Memref.whole main_v26_scv : Memref sig .scVector .hbm S16384x3328 .f32).slice (Rect.unit (s := S16384x3328) (k0_off34 L 128#32) S128x128.size (k0_off34_inb L hc 1)) (fun _ => rfl)).view (outAt31 I hc) (pay32 I) Finset.univ
def pay33 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt38 I))
def outAt33 : Buf (Elt F) ((V d (cVL L) (jVL L)).loc main_v26_scv) :=
  View.write (Elt F) ((Memref.whole main_v26_scv : Memref sig .scVector .hbm S16384x3328 .f32).slice (Rect.unit (s := S16384x3328) (k0_off35 L 128#32) S128x128.size (k0_off35_inb L hc 1)) (fun _ => rfl)).view (outAt32 I hc) (pay33 I) Finset.univ
def pay34 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt39 I))
def outAt34 : Buf (Elt F) ((V d (cVL L) (jVL L)).loc main_v26_scv) :=
  View.write (Elt F) ((Memref.whole main_v26_scv : Memref sig .scVector .hbm S16384x3328 .f32).slice (Rect.unit (s := S16384x3328) (k0_off36 L 128#32) S128x128.size (k0_off36_inb L hc 1)) (fun _ => rfl)).view (outAt33 I hc) (pay34 I) Finset.univ
def pay35 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt40 I))
def outAt35 : Buf (Elt F) ((V d (cVL L) (jVL L)).loc main_v26_scv) :=
  View.write (Elt F) ((Memref.whole main_v26_scv : Memref sig .scVector .hbm S16384x3328 .f32).slice (Rect.unit (s := S16384x3328) (k0_off37 L 128#32) S128x128.size (k0_off37_inb L hc 1)) (fun _ => rfl)).view (outAt34 I hc) (pay35 I) Finset.univ
def pay36 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt41 I))
def outAt36 : Buf (Elt F) ((V d (cVL L) (jVL L)).loc main_v26_scv) :=
  View.write (Elt F) ((Memref.whole main_v26_scv : Memref sig .scVector .hbm S16384x3328 .f32).slice (Rect.unit (s := S16384x3328) (k0_off38 L 128#32) S128x128.size (k0_off38_inb L hc 1)) (fun _ => rfl)).view (outAt35 I hc) (pay36 I) Finset.univ
def pay37 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt42 I))
def outAt37 : Buf (Elt F) ((V d (cVL L) (jVL L)).loc main_v26_scv) :=
  View.write (Elt F) ((Memref.whole main_v26_scv : Memref sig .scVector .hbm S16384x3328 .f32).slice (Rect.unit (s := S16384x3328) (k0_off39 L 128#32) S128x128.size (k0_off39_inb L hc 1)) (fun _ => rfl)).view (outAt36 I hc) (pay37 I) Finset.univ
def pay38 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt43 I))
def outAt38 : Buf (Elt F) ((V d (cVL L) (jVL L)).loc main_v26_scv) :=
  View.write (Elt F) ((Memref.whole main_v26_scv : Memref sig .scVector .hbm S16384x3328 .f32).slice (Rect.unit (s := S16384x3328) (k0_off40 L 128#32) S128x128.size (k0_off40_inb L hc 1)) (fun _ => rfl)).view (outAt37 I hc) (pay38 I) Finset.univ
def pay39 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt44 I))
def outAt39 : Buf (Elt F) ((V d (cVL L) (jVL L)).loc main_v26_scv) :=
  View.write (Elt F) ((Memref.whole main_v26_scv : Memref sig .scVector .hbm S16384x3328 .f32).slice (Rect.unit (s := S16384x3328) (k0_off41 L 128#32) S128x128.size (k0_off41_inb L hc 1)) (fun _ => rfl)).view (outAt38 I hc) (pay39 I) Finset.univ
def pay40 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt45 I))
def outAt40 : Buf (Elt F) ((V d (cVL L) (jVL L)).loc main_v26_scv) :=
  View.write (Elt F) ((Memref.whole main_v26_scv : Memref sig .scVector .hbm S16384x3328 .f32).slice (Rect.unit (s := S16384x3328) (k0_off42 L 128#32) S128x128.size (k0_off42_inb L hc 1)) (fun _ => rfl)).view (outAt39 I hc) (pay40 I) Finset.univ
def pay41 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt46 I))
def outAt41 : Buf (Elt F) ((V d (cVL L) (jVL L)).loc main_v26_scv) :=
  View.write (Elt F) ((Memref.whole main_v26_scv : Memref sig .scVector .hbm S16384x3328 .f32).slice (Rect.unit (s := S16384x3328) (k0_off43 L 128#32) S128x128.size (k0_off43_inb L hc 1)) (fun _ => rfl)).view (outAt40 I hc) (pay41 I) Finset.univ
def pay42 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt47 I))
def outAt42 : Buf (Elt F) ((V d (cVL L) (jVL L)).loc main_v26_scv) :=
  View.write (Elt F) ((Memref.whole main_v26_scv : Memref sig .scVector .hbm S16384x3328 .f32).slice (Rect.unit (s := S16384x3328) (k0_off44 L 128#32) S128x128.size (k0_off44_inb L hc 1)) (fun _ => rfl)).view (outAt41 I hc) (pay42 I) Finset.univ
def pay43 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt48 I))
def outAt43 : Buf (Elt F) ((V d (cVL L) (jVL L)).loc main_v26_scv) :=
  View.write (Elt F) ((Memref.whole main_v26_scv : Memref sig .scVector .hbm S16384x3328 .f32).slice (Rect.unit (s := S16384x3328) (k0_off45 L 128#32) S128x128.size (k0_off45_inb L hc 1)) (fun _ => rfl)).view (outAt42 I hc) (pay43 I) Finset.univ
def pay44 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt49 I))
def outAt44 : Buf (Elt F) ((V d (cVL L) (jVL L)).loc main_v26_scv) :=
  View.write (Elt F) ((Memref.whole main_v26_scv : Memref sig .scVector .hbm S16384x3328 .f32).slice (Rect.unit (s := S16384x3328) (k0_off46 L 128#32) S128x128.size (k0_off46_inb L hc 1)) (fun _ => rfl)).view (outAt43 I hc) (pay44 I) Finset.univ
def pay45 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt50 I))
def outAt45 : Buf (Elt F) ((V d (cVL L) (jVL L)).loc main_v26_scv) :=
  View.write (Elt F) ((Memref.whole main_v26_scv : Memref sig .scVector .hbm S16384x3328 .f32).slice (Rect.unit (s := S16384x3328) (k0_off47 L 128#32) S128x128.size (k0_off47_inb L hc 1)) (fun _ => rfl)).view (outAt44 I hc) (pay45 I) Finset.univ
def pay46 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt51 I))
def outAt46 : Buf (Elt F) ((V d (cVL L) (jVL L)).loc main_v26_scv) :=
  View.write (Elt F) ((Memref.whole main_v26_scv : Memref sig .scVector .hbm S16384x3328 .f32).slice (Rect.unit (s := S16384x3328) (k0_off48 L 128#32) S128x128.size (k0_off48_inb L hc 1)) (fun _ => rfl)).view (outAt45 I hc) (pay46 I) Finset.univ
def pay47 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt52 I))
def outAt47 : Buf (Elt F) ((V d (cVL L) (jVL L)).loc main_v26_scv) :=
  View.write (Elt F) ((Memref.whole main_v26_scv : Memref sig .scVector .hbm S16384x3328 .f32).slice (Rect.unit (s := S16384x3328) (k0_off49 L 128#32) S128x128.size (k0_off49_inb L hc 1)) (fun _ => rfl)).view (outAt46 I hc) (pay47 I) Finset.univ
def pay48 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt53 I))
def outAt48 : Buf (Elt F) ((V d (cVL L) (jVL L)).loc main_v26_scv) :=
  View.write (Elt F) ((Memref.whole main_v26_scv : Memref sig .scVector .hbm S16384x3328 .f32).slice (Rect.unit (s := S16384x3328) (k0_off50 L 128#32) S128x128.size (k0_off50_inb L hc 1)) (fun _ => rfl)).view (outAt47 I hc) (pay48 I) Finset.univ
def pay49 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt54 I))
def outAt49 : Buf (Elt F) ((V d (cVL L) (jVL L)).loc main_v26_scv) :=
  View.write (Elt F) ((Memref.whole main_v26_scv : Memref sig .scVector .hbm S16384x3328 .f32).slice (Rect.unit (s := S16384x3328) (k0_off51 L 128#32) S128x128.size (k0_off51_inb L hc 1)) (fun _ => rfl)).view (outAt48 I hc) (pay49 I) Finset.univ
def pay50 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt55 I))
def outAt50 : Buf (Elt F) ((V d (cVL L) (jVL L)).loc main_v26_scv) :=
  View.write (Elt F) ((Memref.whole main_v26_scv : Memref sig .scVector .hbm S16384x3328 .f32).slice (Rect.unit (s := S16384x3328) (k0_off52 L 128#32) S128x128.size (k0_off52_inb L hc 1)) (fun _ => rfl)).view (outAt49 I hc) (pay50 I) Finset.univ
def pay51 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt56 I))
def outAt51 : Buf (Elt F) ((V d (cVL L) (jVL L)).loc main_v26_scv) :=
  View.write (Elt F) ((Memref.whole main_v26_scv : Memref sig .scVector .hbm S16384x3328 .f32).slice (Rect.unit (s := S16384x3328) (k0_off53 L 128#32) S128x128.size (k0_off53_inb L hc 1)) (fun _ => rfl)).view (outAt50 I hc) (pay51 I) Finset.univ
def pay52 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt57 I))
def outAt52 : Buf (Elt F) ((V d (cVL L) (jVL L)).loc main_v26_scv) :=
  View.write (Elt F) ((Memref.whole main_v26_scv : Memref sig .scVector .hbm S16384x3328 .f32).slice (Rect.unit (s := S16384x3328) (k0_off28 L 256#32) S128x128.size (k0_off28_inb L hc 2)) (fun _ => rfl)).view (outAt51 I hc) (pay52 I) Finset.univ
def pay53 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt58 I))
def outAt53 : Buf (Elt F) ((V d (cVL L) (jVL L)).loc main_v26_scv) :=
  View.write (Elt F) ((Memref.whole main_v26_scv : Memref sig .scVector .hbm S16384x3328 .f32).slice (Rect.unit (s := S16384x3328) (k0_off29 L 256#32) S128x128.size (k0_off29_inb L hc 2)) (fun _ => rfl)).view (outAt52 I hc) (pay53 I) Finset.univ
def pay54 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt59 I))
def outAt54 : Buf (Elt F) ((V d (cVL L) (jVL L)).loc main_v26_scv) :=
  View.write (Elt F) ((Memref.whole main_v26_scv : Memref sig .scVector .hbm S16384x3328 .f32).slice (Rect.unit (s := S16384x3328) (k0_off30 L 256#32) S128x128.size (k0_off30_inb L hc 2)) (fun _ => rfl)).view (outAt53 I hc) (pay54 I) Finset.univ
def pay55 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt60 I))
def outAt55 : Buf (Elt F) ((V d (cVL L) (jVL L)).loc main_v26_scv) :=
  View.write (Elt F) ((Memref.whole main_v26_scv : Memref sig .scVector .hbm S16384x3328 .f32).slice (Rect.unit (s := S16384x3328) (k0_off31 L 256#32) S128x128.size (k0_off31_inb L hc 2)) (fun _ => rfl)).view (outAt54 I hc) (pay55 I) Finset.univ
def pay56 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt61 I))
def outAt56 : Buf (Elt F) ((V d (cVL L) (jVL L)).loc main_v26_scv) :=
  View.write (Elt F) ((Memref.whole main_v26_scv : Memref sig .scVector .hbm S16384x3328 .f32).slice (Rect.unit (s := S16384x3328) (k0_off32 L 256#32) S128x128.size (k0_off32_inb L hc 2)) (fun _ => rfl)).view (outAt55 I hc) (pay56 I) Finset.univ
def pay57 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt62 I))
def outAt57 : Buf (Elt F) ((V d (cVL L) (jVL L)).loc main_v26_scv) :=
  View.write (Elt F) ((Memref.whole main_v26_scv : Memref sig .scVector .hbm S16384x3328 .f32).slice (Rect.unit (s := S16384x3328) (k0_off33 L 256#32) S128x128.size (k0_off33_inb L hc 2)) (fun _ => rfl)).view (outAt56 I hc) (pay57 I) Finset.univ
def pay58 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt63 I))
def outAt58 : Buf (Elt F) ((V d (cVL L) (jVL L)).loc main_v26_scv) :=
  View.write (Elt F) ((Memref.whole main_v26_scv : Memref sig .scVector .hbm S16384x3328 .f32).slice (Rect.unit (s := S16384x3328) (k0_off34 L 256#32) S128x128.size (k0_off34_inb L hc 2)) (fun _ => rfl)).view (outAt57 I hc) (pay58 I) Finset.univ
def pay59 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt64 I))
def outAt59 : Buf (Elt F) ((V d (cVL L) (jVL L)).loc main_v26_scv) :=
  View.write (Elt F) ((Memref.whole main_v26_scv : Memref sig .scVector .hbm S16384x3328 .f32).slice (Rect.unit (s := S16384x3328) (k0_off35 L 256#32) S128x128.size (k0_off35_inb L hc 2)) (fun _ => rfl)).view (outAt58 I hc) (pay59 I) Finset.univ
def pay60 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt65 I))
def outAt60 : Buf (Elt F) ((V d (cVL L) (jVL L)).loc main_v26_scv) :=
  View.write (Elt F) ((Memref.whole main_v26_scv : Memref sig .scVector .hbm S16384x3328 .f32).slice (Rect.unit (s := S16384x3328) (k0_off36 L 256#32) S128x128.size (k0_off36_inb L hc 2)) (fun _ => rfl)).view (outAt59 I hc) (pay60 I) Finset.univ
def pay61 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt66 I))
def outAt61 : Buf (Elt F) ((V d (cVL L) (jVL L)).loc main_v26_scv) :=
  View.write (Elt F) ((Memref.whole main_v26_scv : Memref sig .scVector .hbm S16384x3328 .f32).slice (Rect.unit (s := S16384x3328) (k0_off37 L 256#32) S128x128.size (k0_off37_inb L hc 2)) (fun _ => rfl)).view (outAt60 I hc) (pay61 I) Finset.univ
def pay62 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt67 I))
def outAt62 : Buf (Elt F) ((V d (cVL L) (jVL L)).loc main_v26_scv) :=
  View.write (Elt F) ((Memref.whole main_v26_scv : Memref sig .scVector .hbm S16384x3328 .f32).slice (Rect.unit (s := S16384x3328) (k0_off38 L 256#32) S128x128.size (k0_off38_inb L hc 2)) (fun _ => rfl)).view (outAt61 I hc) (pay62 I) Finset.univ
def pay63 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt68 I))
def outAt63 : Buf (Elt F) ((V d (cVL L) (jVL L)).loc main_v26_scv) :=
  View.write (Elt F) ((Memref.whole main_v26_scv : Memref sig .scVector .hbm S16384x3328 .f32).slice (Rect.unit (s := S16384x3328) (k0_off39 L 256#32) S128x128.size (k0_off39_inb L hc 2)) (fun _ => rfl)).view (outAt62 I hc) (pay63 I) Finset.univ
def pay64 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt69 I))
def outAt64 : Buf (Elt F) ((V d (cVL L) (jVL L)).loc main_v26_scv) :=
  View.write (Elt F) ((Memref.whole main_v26_scv : Memref sig .scVector .hbm S16384x3328 .f32).slice (Rect.unit (s := S16384x3328) (k0_off40 L 256#32) S128x128.size (k0_off40_inb L hc 2)) (fun _ => rfl)).view (outAt63 I hc) (pay64 I) Finset.univ
def pay65 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt70 I))
def outAt65 : Buf (Elt F) ((V d (cVL L) (jVL L)).loc main_v26_scv) :=
  View.write (Elt F) ((Memref.whole main_v26_scv : Memref sig .scVector .hbm S16384x3328 .f32).slice (Rect.unit (s := S16384x3328) (k0_off41 L 256#32) S128x128.size (k0_off41_inb L hc 2)) (fun _ => rfl)).view (outAt64 I hc) (pay65 I) Finset.univ
def pay66 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt71 I))
def outAt66 : Buf (Elt F) ((V d (cVL L) (jVL L)).loc main_v26_scv) :=
  View.write (Elt F) ((Memref.whole main_v26_scv : Memref sig .scVector .hbm S16384x3328 .f32).slice (Rect.unit (s := S16384x3328) (k0_off42 L 256#32) S128x128.size (k0_off42_inb L hc 2)) (fun _ => rfl)).view (outAt65 I hc) (pay66 I) Finset.univ
def pay67 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt72 I))
def outAt67 : Buf (Elt F) ((V d (cVL L) (jVL L)).loc main_v26_scv) :=
  View.write (Elt F) ((Memref.whole main_v26_scv : Memref sig .scVector .hbm S16384x3328 .f32).slice (Rect.unit (s := S16384x3328) (k0_off43 L 256#32) S128x128.size (k0_off43_inb L hc 2)) (fun _ => rfl)).view (outAt66 I hc) (pay67 I) Finset.univ
def pay68 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt73 I))
def outAt68 : Buf (Elt F) ((V d (cVL L) (jVL L)).loc main_v26_scv) :=
  View.write (Elt F) ((Memref.whole main_v26_scv : Memref sig .scVector .hbm S16384x3328 .f32).slice (Rect.unit (s := S16384x3328) (k0_off44 L 256#32) S128x128.size (k0_off44_inb L hc 2)) (fun _ => rfl)).view (outAt67 I hc) (pay68 I) Finset.univ
def pay69 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt74 I))
def outAt69 : Buf (Elt F) ((V d (cVL L) (jVL L)).loc main_v26_scv) :=
  View.write (Elt F) ((Memref.whole main_v26_scv : Memref sig .scVector .hbm S16384x3328 .f32).slice (Rect.unit (s := S16384x3328) (k0_off45 L 256#32) S128x128.size (k0_off45_inb L hc 2)) (fun _ => rfl)).view (outAt68 I hc) (pay69 I) Finset.univ
def pay70 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt75 I))
def outAt70 : Buf (Elt F) ((V d (cVL L) (jVL L)).loc main_v26_scv) :=
  View.write (Elt F) ((Memref.whole main_v26_scv : Memref sig .scVector .hbm S16384x3328 .f32).slice (Rect.unit (s := S16384x3328) (k0_off46 L 256#32) S128x128.size (k0_off46_inb L hc 2)) (fun _ => rfl)).view (outAt69 I hc) (pay70 I) Finset.univ
def pay71 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt76 I))
def outAt71 : Buf (Elt F) ((V d (cVL L) (jVL L)).loc main_v26_scv) :=
  View.write (Elt F) ((Memref.whole main_v26_scv : Memref sig .scVector .hbm S16384x3328 .f32).slice (Rect.unit (s := S16384x3328) (k0_off47 L 256#32) S128x128.size (k0_off47_inb L hc 2)) (fun _ => rfl)).view (outAt70 I hc) (pay71 I) Finset.univ
def pay72 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt77 I))
def outAt72 : Buf (Elt F) ((V d (cVL L) (jVL L)).loc main_v26_scv) :=
  View.write (Elt F) ((Memref.whole main_v26_scv : Memref sig .scVector .hbm S16384x3328 .f32).slice (Rect.unit (s := S16384x3328) (k0_off48 L 256#32) S128x128.size (k0_off48_inb L hc 2)) (fun _ => rfl)).view (outAt71 I hc) (pay72 I) Finset.univ
def pay73 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt78 I))
def outAt73 : Buf (Elt F) ((V d (cVL L) (jVL L)).loc main_v26_scv) :=
  View.write (Elt F) ((Memref.whole main_v26_scv : Memref sig .scVector .hbm S16384x3328 .f32).slice (Rect.unit (s := S16384x3328) (k0_off49 L 256#32) S128x128.size (k0_off49_inb L hc 2)) (fun _ => rfl)).view (outAt72 I hc) (pay73 I) Finset.univ
def pay74 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt79 I))
def outAt74 : Buf (Elt F) ((V d (cVL L) (jVL L)).loc main_v26_scv) :=
  View.write (Elt F) ((Memref.whole main_v26_scv : Memref sig .scVector .hbm S16384x3328 .f32).slice (Rect.unit (s := S16384x3328) (k0_off50 L 256#32) S128x128.size (k0_off50_inb L hc 2)) (fun _ => rfl)).view (outAt73 I hc) (pay74 I) Finset.univ
def pay75 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt80 I))
def outAt75 : Buf (Elt F) ((V d (cVL L) (jVL L)).loc main_v26_scv) :=
  View.write (Elt F) ((Memref.whole main_v26_scv : Memref sig .scVector .hbm S16384x3328 .f32).slice (Rect.unit (s := S16384x3328) (k0_off51 L 256#32) S128x128.size (k0_off51_inb L hc 2)) (fun _ => rfl)).view (outAt74 I hc) (pay75 I) Finset.univ
def pay76 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt81 I))
def outAt76 : Buf (Elt F) ((V d (cVL L) (jVL L)).loc main_v26_scv) :=
  View.write (Elt F) ((Memref.whole main_v26_scv : Memref sig .scVector .hbm S16384x3328 .f32).slice (Rect.unit (s := S16384x3328) (k0_off52 L 256#32) S128x128.size (k0_off52_inb L hc 2)) (fun _ => rfl)).view (outAt75 I hc) (pay76 I) Finset.univ
def pay77 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt82 I))
def outAt77 : Buf (Elt F) ((V d (cVL L) (jVL L)).loc main_v26_scv) :=
  View.write (Elt F) ((Memref.whole main_v26_scv : Memref sig .scVector .hbm S16384x3328 .f32).slice (Rect.unit (s := S16384x3328) (k0_off53 L 256#32) S128x128.size (k0_off53_inb L hc 2)) (fun _ => rfl)).view (outAt76 I hc) (pay77 I) Finset.univ
def pay78 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt83 I))
def outAt78 : Buf (Elt F) ((V d (cVL L) (jVL L)).loc main_v26_scv) :=
  View.write (Elt F) ((Memref.whole main_v26_scv : Memref sig .scVector .hbm S16384x3328 .f32).slice (Rect.unit (s := S16384x3328) (k0_off28 L 384#32) S128x128.size (k0_off28_inb L hc 3)) (fun _ => rfl)).view (outAt77 I hc) (pay78 I) Finset.univ
def pay79 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt84 I))
def outAt79 : Buf (Elt F) ((V d (cVL L) (jVL L)).loc main_v26_scv) :=
  View.write (Elt F) ((Memref.whole main_v26_scv : Memref sig .scVector .hbm S16384x3328 .f32).slice (Rect.unit (s := S16384x3328) (k0_off29 L 384#32) S128x128.size (k0_off29_inb L hc 3)) (fun _ => rfl)).view (outAt78 I hc) (pay79 I) Finset.univ
def pay80 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt85 I))
def outAt80 : Buf (Elt F) ((V d (cVL L) (jVL L)).loc main_v26_scv) :=
  View.write (Elt F) ((Memref.whole main_v26_scv : Memref sig .scVector .hbm S16384x3328 .f32).slice (Rect.unit (s := S16384x3328) (k0_off30 L 384#32) S128x128.size (k0_off30_inb L hc 3)) (fun _ => rfl)).view (outAt79 I hc) (pay80 I) Finset.univ
def pay81 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt86 I))
def outAt81 : Buf (Elt F) ((V d (cVL L) (jVL L)).loc main_v26_scv) :=
  View.write (Elt F) ((Memref.whole main_v26_scv : Memref sig .scVector .hbm S16384x3328 .f32).slice (Rect.unit (s := S16384x3328) (k0_off31 L 384#32) S128x128.size (k0_off31_inb L hc 3)) (fun _ => rfl)).view (outAt80 I hc) (pay81 I) Finset.univ
def pay82 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt87 I))
def outAt82 : Buf (Elt F) ((V d (cVL L) (jVL L)).loc main_v26_scv) :=
  View.write (Elt F) ((Memref.whole main_v26_scv : Memref sig .scVector .hbm S16384x3328 .f32).slice (Rect.unit (s := S16384x3328) (k0_off32 L 384#32) S128x128.size (k0_off32_inb L hc 3)) (fun _ => rfl)).view (outAt81 I hc) (pay82 I) Finset.univ
def pay83 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt88 I))
def outAt83 : Buf (Elt F) ((V d (cVL L) (jVL L)).loc main_v26_scv) :=
  View.write (Elt F) ((Memref.whole main_v26_scv : Memref sig .scVector .hbm S16384x3328 .f32).slice (Rect.unit (s := S16384x3328) (k0_off33 L 384#32) S128x128.size (k0_off33_inb L hc 3)) (fun _ => rfl)).view (outAt82 I hc) (pay83 I) Finset.univ
def pay84 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt89 I))
def outAt84 : Buf (Elt F) ((V d (cVL L) (jVL L)).loc main_v26_scv) :=
  View.write (Elt F) ((Memref.whole main_v26_scv : Memref sig .scVector .hbm S16384x3328 .f32).slice (Rect.unit (s := S16384x3328) (k0_off34 L 384#32) S128x128.size (k0_off34_inb L hc 3)) (fun _ => rfl)).view (outAt83 I hc) (pay84 I) Finset.univ
def pay85 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt90 I))
def outAt85 : Buf (Elt F) ((V d (cVL L) (jVL L)).loc main_v26_scv) :=
  View.write (Elt F) ((Memref.whole main_v26_scv : Memref sig .scVector .hbm S16384x3328 .f32).slice (Rect.unit (s := S16384x3328) (k0_off35 L 384#32) S128x128.size (k0_off35_inb L hc 3)) (fun _ => rfl)).view (outAt84 I hc) (pay85 I) Finset.univ
def pay86 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt91 I))
def outAt86 : Buf (Elt F) ((V d (cVL L) (jVL L)).loc main_v26_scv) :=
  View.write (Elt F) ((Memref.whole main_v26_scv : Memref sig .scVector .hbm S16384x3328 .f32).slice (Rect.unit (s := S16384x3328) (k0_off36 L 384#32) S128x128.size (k0_off36_inb L hc 3)) (fun _ => rfl)).view (outAt85 I hc) (pay86 I) Finset.univ
def pay87 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt92 I))
def outAt87 : Buf (Elt F) ((V d (cVL L) (jVL L)).loc main_v26_scv) :=
  View.write (Elt F) ((Memref.whole main_v26_scv : Memref sig .scVector .hbm S16384x3328 .f32).slice (Rect.unit (s := S16384x3328) (k0_off37 L 384#32) S128x128.size (k0_off37_inb L hc 3)) (fun _ => rfl)).view (outAt86 I hc) (pay87 I) Finset.univ
def pay88 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt93 I))
def outAt88 : Buf (Elt F) ((V d (cVL L) (jVL L)).loc main_v26_scv) :=
  View.write (Elt F) ((Memref.whole main_v26_scv : Memref sig .scVector .hbm S16384x3328 .f32).slice (Rect.unit (s := S16384x3328) (k0_off38 L 384#32) S128x128.size (k0_off38_inb L hc 3)) (fun _ => rfl)).view (outAt87 I hc) (pay88 I) Finset.univ
def pay89 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt94 I))
def outAt89 : Buf (Elt F) ((V d (cVL L) (jVL L)).loc main_v26_scv) :=
  View.write (Elt F) ((Memref.whole main_v26_scv : Memref sig .scVector .hbm S16384x3328 .f32).slice (Rect.unit (s := S16384x3328) (k0_off39 L 384#32) S128x128.size (k0_off39_inb L hc 3)) (fun _ => rfl)).view (outAt88 I hc) (pay89 I) Finset.univ
def pay90 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt95 I))
def outAt90 : Buf (Elt F) ((V d (cVL L) (jVL L)).loc main_v26_scv) :=
  View.write (Elt F) ((Memref.whole main_v26_scv : Memref sig .scVector .hbm S16384x3328 .f32).slice (Rect.unit (s := S16384x3328) (k0_off40 L 384#32) S128x128.size (k0_off40_inb L hc 3)) (fun _ => rfl)).view (outAt89 I hc) (pay90 I) Finset.univ
def pay91 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt96 I))
def outAt91 : Buf (Elt F) ((V d (cVL L) (jVL L)).loc main_v26_scv) :=
  View.write (Elt F) ((Memref.whole main_v26_scv : Memref sig .scVector .hbm S16384x3328 .f32).slice (Rect.unit (s := S16384x3328) (k0_off41 L 384#32) S128x128.size (k0_off41_inb L hc 3)) (fun _ => rfl)).view (outAt90 I hc) (pay91 I) Finset.univ
def pay92 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt97 I))
def outAt92 : Buf (Elt F) ((V d (cVL L) (jVL L)).loc main_v26_scv) :=
  View.write (Elt F) ((Memref.whole main_v26_scv : Memref sig .scVector .hbm S16384x3328 .f32).slice (Rect.unit (s := S16384x3328) (k0_off42 L 384#32) S128x128.size (k0_off42_inb L hc 3)) (fun _ => rfl)).view (outAt91 I hc) (pay92 I) Finset.univ
def pay93 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt98 I))
def outAt93 : Buf (Elt F) ((V d (cVL L) (jVL L)).loc main_v26_scv) :=
  View.write (Elt F) ((Memref.whole main_v26_scv : Memref sig .scVector .hbm S16384x3328 .f32).slice (Rect.unit (s := S16384x3328) (k0_off43 L 384#32) S128x128.size (k0_off43_inb L hc 3)) (fun _ => rfl)).view (outAt92 I hc) (pay93 I) Finset.univ
def pay94 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt99 I))
def outAt94 : Buf (Elt F) ((V d (cVL L) (jVL L)).loc main_v26_scv) :=
  View.write (Elt F) ((Memref.whole main_v26_scv : Memref sig .scVector .hbm S16384x3328 .f32).slice (Rect.unit (s := S16384x3328) (k0_off44 L 384#32) S128x128.size (k0_off44_inb L hc 3)) (fun _ => rfl)).view (outAt93 I hc) (pay94 I) Finset.univ
def pay95 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt100 I))
def outAt95 : Buf (Elt F) ((V d (cVL L) (jVL L)).loc main_v26_scv) :=
  View.write (Elt F) ((Memref.whole main_v26_scv : Memref sig .scVector .hbm S16384x3328 .f32).slice (Rect.unit (s := S16384x3328) (k0_off45 L 384#32) S128x128.size (k0_off45_inb L hc 3)) (fun _ => rfl)).view (outAt94 I hc) (pay95 I) Finset.univ
def pay96 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt101 I))
def outAt96 : Buf (Elt F) ((V d (cVL L) (jVL L)).loc main_v26_scv) :=
  View.write (Elt F) ((Memref.whole main_v26_scv : Memref sig .scVector .hbm S16384x3328 .f32).slice (Rect.unit (s := S16384x3328) (k0_off46 L 384#32) S128x128.size (k0_off46_inb L hc 3)) (fun _ => rfl)).view (outAt95 I hc) (pay96 I) Finset.univ
def pay97 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt102 I))
def outAt97 : Buf (Elt F) ((V d (cVL L) (jVL L)).loc main_v26_scv) :=
  View.write (Elt F) ((Memref.whole main_v26_scv : Memref sig .scVector .hbm S16384x3328 .f32).slice (Rect.unit (s := S16384x3328) (k0_off47 L 384#32) S128x128.size (k0_off47_inb L hc 3)) (fun _ => rfl)).view (outAt96 I hc) (pay97 I) Finset.univ
def pay98 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt103 I))
def outAt98 : Buf (Elt F) ((V d (cVL L) (jVL L)).loc main_v26_scv) :=
  View.write (Elt F) ((Memref.whole main_v26_scv : Memref sig .scVector .hbm S16384x3328 .f32).slice (Rect.unit (s := S16384x3328) (k0_off48 L 384#32) S128x128.size (k0_off48_inb L hc 3)) (fun _ => rfl)).view (outAt97 I hc) (pay98 I) Finset.univ
def pay99 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt103 I))
def outAt99 : Buf (Elt F) ((V d (cVL L) (jVL L)).loc main_v26_scv) :=
  View.write (Elt F) ((Memref.whole main_v26_scv : Memref sig .scVector .hbm S16384x3328 .f32).slice (Rect.unit (s := S16384x3328) (k0_off49 L 384#32) S128x128.size (k0_off49_inb L hc 3)) (fun _ => rfl)).view (outAt98 I hc) (pay99 I) Finset.univ
def pay100 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt103 I))
def outAt100 : Buf (Elt F) ((V d (cVL L) (jVL L)).loc main_v26_scv) :=
  View.write (Elt F) ((Memref.whole main_v26_scv : Memref sig .scVector .hbm S16384x3328 .f32).slice (Rect.unit (s := S16384x3328) (k0_off50 L 384#32) S128x128.size (k0_off50_inb L hc 3)) (fun _ => rfl)).view (outAt99 I hc) (pay100 I) Finset.univ
def pay101 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt103 I))
def outAt101 : Buf (Elt F) ((V d (cVL L) (jVL L)).loc main_v26_scv) :=
  View.write (Elt F) ((Memref.whole main_v26_scv : Memref sig .scVector .hbm S16384x3328 .f32).slice (Rect.unit (s := S16384x3328) (k0_off51 L 384#32) S128x128.size (k0_off51_inb L hc 3)) (fun _ => rfl)).view (outAt100 I hc) (pay101 I) Finset.univ
def pay102 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt103 I))
def outAt102 : Buf (Elt F) ((V d (cVL L) (jVL L)).loc main_v26_scv) :=
  View.write (Elt F) ((Memref.whole main_v26_scv : Memref sig .scVector .hbm S16384x3328 .f32).slice (Rect.unit (s := S16384x3328) (k0_off52 L 384#32) S128x128.size (k0_off52_inb L hc 3)) (fun _ => rfl)).view (outAt101 I hc) (pay102 I) Finset.univ
def pay103 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt103 I))
def outAt103 : Buf (Elt F) ((V d (cVL L) (jVL L)).loc main_v26_scv) :=
  View.write (Elt F) ((Memref.whole main_v26_scv : Memref sig .scVector .hbm S16384x3328 .f32).slice (Rect.unit (s := S16384x3328) (k0_off53 L 384#32) S128x128.size (k0_off53_inb L hc 3)) (fun _ => rfl)).view (outAt102 I hc) (pay103 I) Finset.univ

end Cert.Proof.KI.Chain1

end
-- ==== Proof.ValChainKI1.lean ====
import proofs.«204019_g4913442586959_cont_sun_m_672_34_alg».proof.Proof.ChainKI1
import proofs.«204019_g4913442586959_cont_sun_m_672_34_alg».proof.Proof.ValStepKI

/-!
  The value of a tile of group 1: after its 104 copies the tile's 512 rows of the output hold the specified values.
  Item j's copy carries its slot as the row scratch stands after gather min (j + 5, 103); the gathers issued after
  gather j went to other slots (slot numbers are taken modulo 7, and at most five gathers lie in between), so the
  slot still holds what gather j landed: entry (p, e) is entry e of the row of table t that word p of list (t, r) of
  the index scratch names. That word is entry 128·(8·L₁ + 4·L₀ + r) + p of column t, so the slot is the specified
  block at rows 1024·L₁ + 512·L₀ + 128·r .., words 128·t ... Copy by copy the output then holds the specified values
  on the blocks of items 0 .. j, and the 104 blocks are all of the tile's rows.
-/

noncomputable section

namespace Cert.Proof.KI.Chain1

open Cert.KernelIdeal Cert.KernelIdeal.Gen
open Idealize.ShloMosaic
open Idealize.ShloMosaic.SparseCore (S V T)
open Idealize.ShloMosaic.ValueIdx
open Cert.Proof.KI Cert.Proof.KI.Idx Cert.Proof.KI.Val

variable {F : FTy → Type} {d : Dev nD} {L : grid0.Coords} (I : TileIn F d L) (hc : k0_cond2 L = 1#1)

/-- What the value argument assumes of the run's start: the tables, the columns in range, the index scratch filled
    with the tile's four rows of each reshaped column. -/
structure Hyp (tbl : Fin 26 → S1000x128.Idx → Elt F .f32) (col : Fin 26 → Cert.Spec.ColS.Idx → BitVec 32)
    (pay : Fin 26 → S4x128.Idx → Elt F .i32) : Prop where
  ht0 : tbl 0 = I.ft0
  ht1 : tbl 1 = I.ft1
  ht2 : tbl 2 = I.ft2
  ht3 : tbl 3 = I.ft3
  ht4 : tbl 4 = I.ft4
  ht5 : tbl 5 = I.ft5
  ht6 : tbl 6 = I.ft6
  ht7 : tbl 7 = I.ft7
  ht8 : tbl 8 = I.ft8
  ht9 : tbl 9 = I.ft9
  ht10 : tbl 10 = I.ft10
  ht11 : tbl 11 = I.ft11
  ht12 : tbl 12 = I.ft12
  ht13 : tbl 13 = I.ft13
  ht14 : tbl 14 = I.ft14
  ht15 : tbl 15 = I.ft15
  ht16 : tbl 16 = I.ft16
  ht17 : tbl 17 = I.ft17
  ht18 : tbl 18 = I.ft18
  ht19 : tbl 19 = I.ft19
  ht20 : tbl 20 = I.ft20
  ht21 : tbl 21 = I.ft21
  ht22 : tbl 22 = I.ft22
  ht23 : tbl 23 = I.ft23
  ht24 : tbl 24 = I.ft24
  ht25 : tbl 25 = I.ft25
  hr : ∀ t b, (col t b).toNat < 1000
  hfi : I.fi = IDXV pay
  hpay : ∀ t (r : Fin 4) (p : Fin 128), pay t (ix2 r p) = col t (ix1 (outRow L r p))

variable {tbl : Fin 26 → S1000x128.Idx → Elt F .f32} {col : Fin 26 → Cert.Spec.ColS.Idx → BitVec 32} {pay : Fin 26 → S4x128.Idx → Elt F .i32}

theorem rd0 : (Rn 0 inb_S7x128x128_S1x128x128_0_0_0).view.read (Elt F) (rowsAt5 I) = gp0 I :=
  ((Rn_read_miss 0 5 inb_S7x128x128_S1x128x128_0_0_0 inb_S7x128x128_S1x128x128_5_0_0 (by decide) (rowsAt4 I) (gp5 I)).trans ((Rn_read_miss 0 4 inb_S7x128x128_S1x128x128_0_0_0 inb_S7x128x128_S1x128x128_4_0_0 (by decide) (rowsAt3 I) (gp4 I)).trans ((Rn_read_miss 0 3 inb_S7x128x128_S1x128x128_0_0_0 inb_S7x128x128_S1x128x128_3_0_0 (by decide) (rowsAt2 I) (gp3 I)).trans ((Rn_read_miss 0 2 inb_S7x128x128_S1x128x128_0_0_0 inb_S7x128x128_S1x128x128_2_0_0 (by decide) (rowsAt1 I) (gp2 I)).trans ((Rn_read_miss 0 1 inb_S7x128x128_S1x128x128_0_0_0 inb_S7x128x128_S1x128x128_1_0_0 (by decide) (rowsAt0 I) (gp1 I)).trans (Rn_read_hit 0 inb_S7x128x128_S1x128x128_0_0_0 I.fr (gp0 I)))))))
theorem payG0 (H : Hyp I tbl col pay) : ∀ y, pay0 I y = Cert.Spec.G tbl col ((Rect.unit (s := S16384x3328) (k0_off28 L 0#32) S128x128.size (k0_off28_inb L hc 0)).emb y) :=
  Step.item_payload tbl col H.hr L pay H.hpay I.fi H.hfi 7 0 inb_S26x4x128_S1x1x128_7_0_0 squeezes_S1x1x128_S128
    _ ((Step.read_full (View.whole main_arg33_scv) inb_S1000x128_S1000x128_0_0 I.ft7).trans H.ht7.symm)
    rfl (I.hin 7 0 inb_S26x4x128_S1x1x128_7_0_0 squeezes_S1x1x128_S128) (k0_off28 L 0#32) (k0_off28_eq L 0) (k0_off28_inb L hc 0) (pay0 I) (rd0 I)
theorem inv0 (H : Hyp I tbl col pay) : ∀ j' < 1, ∀ i ∈ Step.blkSet L 7 j', outAt0 I hc i = Cert.Spec.G tbl col i :=
  Step.out_step L 7 (Cert.Spec.G tbl col) 0 (k0_off28 L 0#32) (k0_off28_eq L 0) (k0_off28_inb L hc 0) I.fo (pay0 I) (payG0 I hc H)
    (fun j' h => absurd h (Nat.not_lt_zero j'))
theorem rd1 : (Rn 1 inb_S7x128x128_S1x128x128_1_0_0).view.read (Elt F) (rowsAt6 I) = gp1 I :=
  ((Rn_read_miss 1 6 inb_S7x128x128_S1x128x128_1_0_0 inb_S7x128x128_S1x128x128_6_0_0 (by decide) (rowsAt5 I) (gp6 I)).trans ((Rn_read_miss 1 5 inb_S7x128x128_S1x128x128_1_0_0 inb_S7x128x128_S1x128x128_5_0_0 (by decide) (rowsAt4 I) (gp5 I)).trans ((Rn_read_miss 1 4 inb_S7x128x128_S1x128x128_1_0_0 inb_S7x128x128_S1x128x128_4_0_0 (by decide) (rowsAt3 I) (gp4 I)).trans ((Rn_read_miss 1 3 inb_S7x128x128_S1x128x128_1_0_0 inb_S7x128x128_S1x128x128_3_0_0 (by decide) (rowsAt2 I) (gp3 I)).trans ((Rn_read_miss 1 2 inb_S7x128x128_S1x128x128_1_0_0 inb_S7x128x128_S1x128x128_2_0_0 (by decide) (rowsAt1 I) (gp2 I)).trans (Rn_read_hit 1 inb_S7x128x128_S1x128x128_1_0_0 (rowsAt0 I) (gp1 I)))))))
theorem payG1 (H : Hyp I tbl col pay) : ∀ y, pay1 I y = Cert.Spec.G tbl col ((Rect.unit (s := S16384x3328) (k0_off29 L 0#32) S128x128.size (k0_off29_inb L hc 0)).emb y) :=
  Step.item_payload tbl col H.hr L pay H.hpay I.fi H.hfi 8 0 inb_S26x4x128_S1x1x128_8_0_0 squeezes_S1x1x128_S128
    _ ((Step.read_full (View.whole main_arg34_scv) inb_S1000x128_S1000x128_0_0 I.ft8).trans H.ht8.symm)
    rfl (I.hin 8 0 inb_S26x4x128_S1x1x128_8_0_0 squeezes_S1x1x128_S128) (k0_off29 L 0#32) (k0_off29_eq L 0) (k0_off29_inb L hc 0) (pay1 I) (rd1 I)
theorem inv1 (H : Hyp I tbl col pay) : ∀ j' < 2, ∀ i ∈ Step.blkSet L 7 j', outAt1 I hc i = Cert.Spec.G tbl col i :=
  Step.out_step L 7 (Cert.Spec.G tbl col) 1 (k0_off29 L 0#32) (k0_off29_eq L 0) (k0_off29_inb L hc 0) (outAt0 I hc) (pay1 I) (payG1 I hc H)
    (inv0 I hc H)
theorem rd2 : (Rn 2 inb_S7x128x128_S1x128x128_2_0_0).view.read (Elt F) (rowsAt7 I) = gp2 I :=
  ((Rn_read_miss 2 0 inb_S7x128x128_S1x128x128_2_0_0 inb_S7x128x128_S1x128x128_0_0_0 (by decide) (rowsAt6 I) (gp7 I)).trans ((Rn_read_miss 2 6 inb_S7x128x128_S1x128x128_2_0_0 inb_S7x128x128_S1x128x128_6_0_0 (by decide) (rowsAt5 I) (gp6 I)).trans ((Rn_read_miss 2 5 inb_S7x128x128_S1x128x128_2_0_0 inb_S7x128x128_S1x128x128_5_0_0 (by decide) (rowsAt4 I) (gp5 I)).trans ((Rn_read_miss 2 4 inb_S7x128x128_S1x128x128_2_0_0 inb_S7x128x128_S1x128x128_4_0_0 (by decide) (rowsAt3 I) (gp4 I)).trans ((Rn_read_miss 2 3 inb_S7x128x128_S1x128x128_2_0_0 inb_S7x128x128_S1x128x128_3_0_0 (by decide) (rowsAt2 I) (gp3 I)).trans (Rn_read_hit 2 inb_S7x128x128_S1x128x128_2_0_0 (rowsAt1 I) (gp2 I)))))))
theorem payG2 (H : Hyp I tbl col pay) : ∀ y, pay2 I y = Cert.Spec.G tbl col ((Rect.unit (s := S16384x3328) (k0_off30 L 0#32) S128x128.size (k0_off30_inb L hc 0)).emb y) :=
  Step.item_payload tbl col H.hr L pay H.hpay I.fi H.hfi 9 0 inb_S26x4x128_S1x1x128_9_0_0 squeezes_S1x1x128_S128
    _ ((Step.read_full (View.whole main_arg35_scv) inb_S1000x128_S1000x128_0_0 I.ft9).trans H.ht9.symm)
    rfl (I.hin 9 0 inb_S26x4x128_S1x1x128_9_0_0 squeezes_S1x1x128_S128) (k0_off30 L 0#32) (k0_off30_eq L 0) (k0_off30_inb L hc 0) (pay2 I) (rd2 I)
theorem inv2 (H : Hyp I tbl col pay) : ∀ j' < 3, ∀ i ∈ Step.blkSet L 7 j', outAt2 I hc i = Cert.Spec.G tbl col i :=
  Step.out_step L 7 (Cert.Spec.G tbl col) 2 (k0_off30 L 0#32) (k0_off30_eq L 0) (k0_off30_inb L hc 0) (outAt1 I hc) (pay2 I) (payG2 I hc H)
    (inv1 I hc H)
theorem rd3 : (Rn 3 inb_S7x128x128_S1x128x128_3_0_0).view.read (Elt F) (rowsAt8 I) = gp3 I :=
  ((Rn_read_miss 3 1 inb_S7x128x128_S1x128x128_3_0_0 inb_S7x128x128_S1x128x128_1_0_0 (by decide) (rowsAt7 I) (gp8 I)).trans ((Rn_read_miss 3 0 inb_S7x128x128_S1x128x128_3_0_0 inb_S7x128x128_S1x128x128_0_0_0 (by decide) (rowsAt6 I) (gp7 I)).trans ((Rn_read_miss 3 6 inb_S7x128x128_S1x128x128_3_0_0 inb_S7x128x128_S1x128x128_6_0_0 (by decide) (rowsAt5 I) (gp6 I)).trans ((Rn_read_miss 3 5 inb_S7x128x128_S1x128x128_3_0_0 inb_S7x128x128_S1x128x128_5_0_0 (by decide) (rowsAt4 I) (gp5 I)).trans ((Rn_read_miss 3 4 inb_S7x128x128_S1x128x128_3_0_0 inb_S7x128x128_S1x128x128_4_0_0 (by decide) (rowsAt3 I) (gp4 I)).trans (Rn_read_hit 3 inb_S7x128x128_S1x128x128_3_0_0 (rowsAt2 I) (gp3 I)))))))
theorem payG3 (H : Hyp I tbl col pay) : ∀ y, pay3 I y = Cert.Spec.G tbl col ((Rect.unit (s := S16384x3328) (k0_off31 L 0#32) S128x128.size (k0_off31_inb L hc 0)).emb y) :=
  Step.item_payload tbl col H.hr L pay H.hpay I.fi H.hfi 10 0 inb_S26x4x128_S1x1x128_10_0_0 squeezes_S1x1x128_S128
    _ ((Step.read_full (View.whole main_arg36_scv) inb_S1000x128_S1000x128_0_0 I.ft10).trans H.ht10.symm)
    rfl (I.hin 10 0 inb_S26x4x128_S1x1x128_10_0_0 squeezes_S1x1x128_S128) (k0_off31 L 0#32) (k0_off31_eq L 0) (k0_off31_inb L hc 0) (pay3 I) (rd3 I)
theorem inv3 (H : Hyp I tbl col pay) : ∀ j' < 4, ∀ i ∈ Step.blkSet L 7 j', outAt3 I hc i = Cert.Spec.G tbl col i :=
  Step.out_step L 7 (Cert.Spec.G tbl col) 3 (k0_off31 L 0#32) (k0_off31_eq L 0) (k0_off31_inb L hc 0) (outAt2 I hc) (pay3 I) (payG3 I hc H)
    (inv2 I hc H)
theorem rd4 : (Rn 4 inb_S7x128x128_S1x128x128_4_0_0).view.read (Elt F) (rowsAt9 I) = gp4 I :=
  ((Rn_read_miss 4 2 inb_S7x128x128_S1x128x128_4_0_0 inb_S7x128x128_S1x128x128_2_0_0 (by decide) (rowsAt8 I) (gp9 I)).trans ((Rn_read_miss 4 1 inb_S7x128x128_S1x128x128_4_0_0 inb_S7x128x128_S1x128x128_1_0_0 (by decide) (rowsAt7 I) (gp8 I)).trans ((Rn_read_miss 4 0 inb_S7x128x128_S1x128x128_4_0_0 inb_S7x128x128_S1x128x128_0_0_0 (by decide) (rowsAt6 I) (gp7 I)).trans ((Rn_read_miss 4 6 inb_S7x128x128_S1x128x128_4_0_0 inb_S7x128x128_S1x128x128_6_0_0 (by decide) (rowsAt5 I) (gp6 I)).trans ((Rn_read_miss 4 5 inb_S7x128x128_S1x128x128_4_0_0 inb_S7x128x128_S1x128x128_5_0_0 (by decide) (rowsAt4 I) (gp5 I)).trans (Rn_read_hit 4 inb_S7x128x128_S1x128x128_4_0_0 (rowsAt3 I) (gp4 I)))))))
theorem payG4 (H : Hyp I tbl col pay) : ∀ y, pay4 I y = Cert.Spec.G tbl col ((Rect.unit (s := S16384x3328) (k0_off32 L 0#32) S128x128.size (k0_off32_inb L hc 0)).emb y) :=
  Step.item_payload tbl col H.hr L pay H.hpay I.fi H.hfi 11 0 inb_S26x4x128_S1x1x128_11_0_0 squeezes_S1x1x128_S128
    _ ((Step.read_full (View.whole main_arg37_scv) inb_S1000x128_S1000x128_0_0 I.ft11).trans H.ht11.symm)
    rfl (I.hin 11 0 inb_S26x4x128_S1x1x128_11_0_0 squeezes_S1x1x128_S128) (k0_off32 L 0#32) (k0_off32_eq L 0) (k0_off32_inb L hc 0) (pay4 I) (rd4 I)
theorem inv4 (H : Hyp I tbl col pay) : ∀ j' < 5, ∀ i ∈ Step.blkSet L 7 j', outAt4 I hc i = Cert.Spec.G tbl col i :=
  Step.out_step L 7 (Cert.Spec.G tbl col) 4 (k0_off32 L 0#32) (k0_off32_eq L 0) (k0_off32_inb L hc 0) (outAt3 I hc) (pay4 I) (payG4 I hc H)
    (inv3 I hc H)
theorem rd5 : (Rn 5 inb_S7x128x128_S1x128x128_5_0_0).view.read (Elt F) (rowsAt10 I) = gp5 I :=
  ((Rn_read_miss 5 3 inb_S7x128x128_S1x128x128_5_0_0 inb_S7x128x128_S1x128x128_3_0_0 (by decide) (rowsAt9 I) (gp10 I)).trans ((Rn_read_miss 5 2 inb_S7x128x128_S1x128x128_5_0_0 inb_S7x128x128_S1x128x128_2_0_0 (by decide) (rowsAt8 I) (gp9 I)).trans ((Rn_read_miss 5 1 inb_S7x128x128_S1x128x128_5_0_0 inb_S7x128x128_S1x128x128_1_0_0 (by decide) (rowsAt7 I) (gp8 I)).trans ((Rn_read_miss 5 0 inb_S7x128x128_S1x128x128_5_0_0 inb_S7x128x128_S1x128x128_0_0_0 (by decide) (rowsAt6 I) (gp7 I)).trans ((Rn_read_miss 5 6 inb_S7x128x128_S1x128x128_5_0_0 inb_S7x128x128_S1x128x128_6_0_0 (by decide) (rowsAt5 I) (gp6 I)).trans (Rn_read_hit 5 inb_S7x128x128_S1x128x128_5_0_0 (rowsAt4 I) (gp5 I)))))))
theorem payG5 (H : Hyp I tbl col pay) : ∀ y, pay5 I y = Cert.Spec.G tbl col ((Rect.unit (s := S16384x3328) (k0_off33 L 0#32) S128x128.size (k0_off33_inb L hc 0)).emb y) :=
  Step.item_payload tbl col H.hr L pay H.hpay I.fi H.hfi 12 0 inb_S26x4x128_S1x1x128_12_0_0 squeezes_S1x1x128_S128
    _ ((Step.read_full (View.whole main_arg38_scv) inb_S1000x128_S1000x128_0_0 I.ft12).trans H.ht12.symm)
    rfl (I.hin 12 0 inb_S26x4x128_S1x1x128_12_0_0 squeezes_S1x1x128_S128) (k0_off33 L 0#32) (k0_off33_eq L 0) (k0_off33_inb L hc 0) (pay5 I) (rd5 I)
theorem inv5 (H : Hyp I tbl col pay) : ∀ j' < 6, ∀ i ∈ Step.blkSet L 7 j', outAt5 I hc i = Cert.Spec.G tbl col i :=
  Step.out_step L 7 (Cert.Spec.G tbl col) 5 (k0_off33 L 0#32) (k0_off33_eq L 0) (k0_off33_inb L hc 0) (outAt4 I hc) (pay5 I) (payG5 I hc H)
    (inv4 I hc H)
theorem rd6 : (Rn 6 inb_S7x128x128_S1x128x128_6_0_0).view.read (Elt F) (rowsAt11 I) = gp6 I :=
  ((Rn_read_miss 6 4 inb_S7x128x128_S1x128x128_6_0_0 inb_S7x128x128_S1x128x128_4_0_0 (by decide) (rowsAt10 I) (gp11 I)).trans ((Rn_read_miss 6 3 inb_S7x128x128_S1x128x128_6_0_0 inb_S7x128x128_S1x128x128_3_0_0 (by decide) (rowsAt9 I) (gp10 I)).trans ((Rn_read_miss 6 2 inb_S7x128x128_S1x128x128_6_0_0 inb_S7x128x128_S1x128x128_2_0_0 (by decide) (rowsAt8 I) (gp9 I)).trans ((Rn_read_miss 6 1 inb_S7x128x128_S1x128x128_6_0_0 inb_S7x128x128_S1x128x128_1_0_0 (by decide) (rowsAt7 I) (gp8 I)).trans ((Rn_read_miss 6 0 inb_S7x128x128_S1x128x128_6_0_0 inb_S7x128x128_S1x128x128_0_0_0 (by decide) (rowsAt6 I) (gp7 I)).trans (Rn_read_hit 6 inb_S7x128x128_S1x128x128_6_0_0 (rowsAt5 I) (gp6 I)))))))
theorem payG6 (H : Hyp I tbl col pay) : ∀ y, pay6 I y = Cert.Spec.G tbl col ((Rect.unit (s := S16384x3328) (k0_off34 L 0#32) S128x128.size (k0_off34_inb L hc 0)).emb y) :=
  Step.item_payload tbl col H.hr L pay H.hpay I.fi H.hfi 13 0 inb_S26x4x128_S1x1x128_13_0_0 squeezes_S1x1x128_S128
    _ ((Step.read_full (View.whole main_arg39_scv) inb_S1000x128_S1000x128_0_0 I.ft13).trans H.ht13.symm)
    rfl (I.hin 13 0 inb_S26x4x128_S1x1x128_13_0_0 squeezes_S1x1x128_S128) (k0_off34 L 0#32) (k0_off34_eq L 0) (k0_off34_inb L hc 0) (pay6 I) (rd6 I)
theorem inv6 (H : Hyp I tbl col pay) : ∀ j' < 7, ∀ i ∈ Step.blkSet L 7 j', outAt6 I hc i = Cert.Spec.G tbl col i :=
  Step.out_step L 7 (Cert.Spec.G tbl col) 6 (k0_off34 L 0#32) (k0_off34_eq L 0) (k0_off34_inb L hc 0) (outAt5 I hc) (pay6 I) (payG6 I hc H)
    (inv5 I hc H)
theorem rd7 : (Rn 0 inb_S7x128x128_S1x128x128_0_0_0).view.read (Elt F) (rowsAt12 I) = gp7 I :=
  ((Rn_read_miss 0 5 inb_S7x128x128_S1x128x128_0_0_0 inb_S7x128x128_S1x128x128_5_0_0 (by decide) (rowsAt11 I) (gp12 I)).trans ((Rn_read_miss 0 4 inb_S7x128x128_S1x128x128_0_0_0 inb_S7x128x128_S1x128x128_4_0_0 (by decide) (rowsAt10 I) (gp11 I)).trans ((Rn_read_miss 0 3 inb_S7x128x128_S1x128x128_0_0_0 inb_S7x128x128_S1x128x128_3_0_0 (by decide) (rowsAt9 I) (gp10 I)).trans ((Rn_read_miss 0 2 inb_S7x128x128_S1x128x128_0_0_0 inb_S7x128x128_S1x128x128_2_0_0 (by decide) (rowsAt8 I) (gp9 I)).trans ((Rn_read_miss 0 1 inb_S7x128x128_S1x128x128_0_0_0 inb_S7x128x128_S1x128x128_1_0_0 (by decide) (rowsAt7 I) (gp8 I)).trans (Rn_read_hit 0 inb_S7x128x128_S1x128x128_0_0_0 (rowsAt6 I) (gp7 I)))))))
theorem payG7 (H : Hyp I tbl col pay) : ∀ y, pay7 I y = Cert.Spec.G tbl col ((Rect.unit (s := S16384x3328) (k0_off35 L 0#32) S128x128.size (k0_off35_inb L hc 0)).emb y) :=
  Step.item_payload tbl col H.hr L pay H.hpay I.fi H.hfi 14 0 inb_S26x4x128_S1x1x128_14_0_0 squeezes_S1x1x128_S128
    _ ((Step.read_full (View.whole main_arg40_scv) inb_S1000x128_S1000x128_0_0 I.ft14).trans H.ht14.symm)
    rfl (I.hin 14 0 inb_S26x4x128_S1x1x128_14_0_0 squeezes_S1x1x128_S128) (k0_off35 L 0#32) (k0_off35_eq L 0) (k0_off35_inb L hc 0) (pay7 I) (rd7 I)
theorem inv7 (H : Hyp I tbl col pay) : ∀ j' < 8, ∀ i ∈ Step.blkSet L 7 j', outAt7 I hc i = Cert.Spec.G tbl col i :=
  Step.out_step L 7 (Cert.Spec.G tbl col) 7 (k0_off35 L 0#32) (k0_off35_eq L 0) (k0_off35_inb L hc 0) (outAt6 I hc) (pay7 I) (payG7 I hc H)
    (inv6 I hc H)
theorem rd8 : (Rn 1 inb_S7x128x128_S1x128x128_1_0_0).view.read (Elt F) (rowsAt13 I) = gp8 I :=
  ((Rn_read_miss 1 6 inb_S7x128x128_S1x128x128_1_0_0 inb_S7x128x128_S1x128x128_6_0_0 (by decide) (rowsAt12 I) (gp13 I)).trans ((Rn_read_miss 1 5 inb_S7x128x128_S1x128x128_1_0_0 inb_S7x128x128_S1x128x128_5_0_0 (by decide) (rowsAt11 I) (gp12 I)).trans ((Rn_read_miss 1 4 inb_S7x128x128_S1x128x128_1_0_0 inb_S7x128x128_S1x128x128_4_0_0 (by decide) (rowsAt10 I) (gp11 I)).trans ((Rn_read_miss 1 3 inb_S7x128x128_S1x128x128_1_0_0 inb_S7x128x128_S1x128x128_3_0_0 (by decide) (rowsAt9 I) (gp10 I)).trans ((Rn_read_miss 1 2 inb_S7x128x128_S1x128x128_1_0_0 inb_S7x128x128_S1x128x128_2_0_0 (by decide) (rowsAt8 I) (gp9 I)).trans (Rn_read_hit 1 inb_S7x128x128_S1x128x128_1_0_0 (rowsAt7 I) (gp8 I)))))))
theorem payG8 (H : Hyp I tbl col pay) : ∀ y, pay8 I y = Cert.Spec.G tbl col ((Rect.unit (s := S16384x3328) (k0_off36 L 0#32) S128x128.size (k0_off36_inb L hc 0)).emb y) :=
  Step.item_payload tbl col H.hr L pay H.hpay I.fi H.hfi 15 0 inb_S26x4x128_S1x1x128_15_0_0 squeezes_S1x1x128_S128
    _ ((Step.read_full (View.whole main_arg41_scv) inb_S1000x128_S1000x128_0_0 I.ft15).trans H.ht15.symm)
    rfl (I.hin 15 0 inb_S26x4x128_S1x1x128_15_0_0 squeezes_S1x1x128_S128) (k0_off36 L 0#32) (k0_off36_eq L 0) (k0_off36_inb L hc 0) (pay8 I) (rd8 I)
theorem inv8 (H : Hyp I tbl col pay) : ∀ j' < 9, ∀ i ∈ Step.blkSet L 7 j', outAt8 I hc i = Cert.Spec.G tbl col i :=
  Step.out_step L 7 (Cert.Spec.G tbl col) 8 (k0_off36 L 0#32) (k0_off36_eq L 0) (k0_off36_inb L hc 0) (outAt7 I hc) (pay8 I) (payG8 I hc H)
    (inv7 I hc H)
theorem rd9 : (Rn 2 inb_S7x128x128_S1x128x128_2_0_0).view.read (Elt F) (rowsAt14 I) = gp9 I :=
  ((Rn_read_miss 2 0 inb_S7x128x128_S1x128x128_2_0_0 inb_S7x128x128_S1x128x128_0_0_0 (by decide) (rowsAt13 I) (gp14 I)).trans ((Rn_read_miss 2 6 inb_S7x128x128_S1x128x128_2_0_0 inb_S7x128x128_S1x128x128_6_0_0 (by decide) (rowsAt12 I) (gp13 I)).trans ((Rn_read_miss 2 5 inb_S7x128x128_S1x128x128_2_0_0 inb_S7x128x128_S1x128x128_5_0_0 (by decide) (rowsAt11 I) (gp12 I)).trans ((Rn_read_miss 2 4 inb_S7x128x128_S1x128x128_2_0_0 inb_S7x128x128_S1x128x128_4_0_0 (by decide) (rowsAt10 I) (gp11 I)).trans ((Rn_read_miss 2 3 inb_S7x128x128_S1x128x128_2_0_0 inb_S7x128x128_S1x128x128_3_0_0 (by decide) (rowsAt9 I) (gp10 I)).trans (Rn_read_hit 2 inb_S7x128x128_S1x128x128_2_0_0 (rowsAt8 I) (gp9 I)))))))
theorem payG9 (H : Hyp I tbl col pay) : ∀ y, pay9 I y = Cert.Spec.G tbl col ((Rect.unit (s := S16384x3328) (k0_off37 L 0#32) S128x128.size (k0_off37_inb L hc 0)).emb y) :=
  Step.item_payload tbl col H.hr L pay H.hpay I.fi H.hfi 16 0 inb_S26x4x128_S1x1x128_16_0_0 squeezes_S1x1x128_S128
    _ ((Step.read_full (View.whole main_arg42_scv) inb_S1000x128_S1000x128_0_0 I.ft16).trans H.ht16.symm)
    rfl (I.hin 16 0 inb_S26x4x128_S1x1x128_16_0_0 squeezes_S1x1x128_S128) (k0_off37 L 0#32) (k0_off37_eq L 0) (k0_off37_inb L hc 0) (pay9 I) (rd9 I)
theorem inv9 (H : Hyp I tbl col pay) : ∀ j' < 10, ∀ i ∈ Step.blkSet L 7 j', outAt9 I hc i = Cert.Spec.G tbl col i :=
  Step.out_step L 7 (Cert.Spec.G tbl col) 9 (k0_off37 L 0#32) (k0_off37_eq L 0) (k0_off37_inb L hc 0) (outAt8 I hc) (pay9 I) (payG9 I hc H)
    (inv8 I hc H)
theorem rd10 : (Rn 3 inb_S7x128x128_S1x128x128_3_0_0).view.read (Elt F) (rowsAt15 I) = gp10 I :=
  ((Rn_read_miss 3 1 inb_S7x128x128_S1x128x128_3_0_0 inb_S7x128x128_S1x128x128_1_0_0 (by decide) (rowsAt14 I) (gp15 I)).trans ((Rn_read_miss 3 0 inb_S7x128x128_S1x128x128_3_0_0 inb_S7x128x128_S1x128x128_0_0_0 (by decide) (rowsAt13 I) (gp14 I)).trans ((Rn_read_miss 3 6 inb_S7x128x128_S1x128x128_3_0_0 inb_S7x128x128_S1x128x128_6_0_0 (by decide) (rowsAt12 I) (gp13 I)).trans ((Rn_read_miss 3 5 inb_S7x128x128_S1x128x128_3_0_0 inb_S7x128x128_S1x128x128_5_0_0 (by decide) (rowsAt11 I) (gp12 I)).trans ((Rn_read_miss 3 4 inb_S7x128x128_S1x128x128_3_0_0 inb_S7x128x128_S1x128x128_4_0_0 (by decide) (rowsAt10 I) (gp11 I)).trans (Rn_read_hit 3 inb_S7x128x128_S1x128x128_3_0_0 (rowsAt9 I) (gp10 I)))))))
theorem payG10 (H : Hyp I tbl col pay) : ∀ y, pay10 I y = Cert.Spec.G tbl col ((Rect.unit (s := S16384x3328) (k0_off38 L 0#32) S128x128.size (k0_off38_inb L hc 0)).emb y) :=
  Step.item_payload tbl col H.hr L pay H.hpay I.fi H.hfi 17 0 inb_S26x4x128_S1x1x128_17_0_0 squeezes_S1x1x128_S128
    _ ((Step.read_full (View.whole main_arg43_scv) inb_S1000x128_S1000x128_0_0 I.ft17).trans H.ht17.symm)
    rfl (I.hin 17 0 inb_S26x4x128_S1x1x128_17_0_0 squeezes_S1x1x128_S128) (k0_off38 L 0#32) (k0_off38_eq L 0) (k0_off38_inb L hc 0) (pay10 I) (rd10 I)
theorem inv10 (H : Hyp I tbl col pay) : ∀ j' < 11, ∀ i ∈ Step.blkSet L 7 j', outAt10 I hc i = Cert.Spec.G tbl col i :=
  Step.out_step L 7 (Cert.Spec.G tbl col) 10 (k0_off38 L 0#32) (k0_off38_eq L 0) (k0_off38_inb L hc 0) (outAt9 I hc) (pay10 I) (payG10 I hc H)
    (inv9 I hc H)
theorem rd11 : (Rn 4 inb_S7x128x128_S1x128x128_4_0_0).view.read (Elt F) (rowsAt16 I) = gp11 I :=
  ((Rn_read_miss 4 2 inb_S7x128x128_S1x128x128_4_0_0 inb_S7x128x128_S1x128x128_2_0_0 (by decide) (rowsAt15 I) (gp16 I)).trans ((Rn_read_miss 4 1 inb_S7x128x128_S1x128x128_4_0_0 inb_S7x128x128_S1x128x128_1_0_0 (by decide) (rowsAt14 I) (gp15 I)).trans ((Rn_read_miss 4 0 inb_S7x128x128_S1x128x128_4_0_0 inb_S7x128x128_S1x128x128_0_0_0 (by decide) (rowsAt13 I) (gp14 I)).trans ((Rn_read_miss 4 6 inb_S7x128x128_S1x128x128_4_0_0 inb_S7x128x128_S1x128x128_6_0_0 (by decide) (rowsAt12 I) (gp13 I)).trans ((Rn_read_miss 4 5 inb_S7x128x128_S1x128x128_4_0_0 inb_S7x128x128_S1x128x128_5_0_0 (by decide) (rowsAt11 I) (gp12 I)).trans (Rn_read_hit 4 inb_S7x128x128_S1x128x128_4_0_0 (rowsAt10 I) (gp11 I)))))))
theorem payG11 (H : Hyp I tbl col pay) : ∀ y, pay11 I y = Cert.Spec.G tbl col ((Rect.unit (s := S16384x3328) (k0_off39 L 0#32) S128x128.size (k0_off39_inb L hc 0)).emb y) :=
  Step.item_payload tbl col H.hr L pay H.hpay I.fi H.hfi 18 0 inb_S26x4x128_S1x1x128_18_0_0 squeezes_S1x1x128_S128
    _ ((Step.read_full (View.whole main_arg44_scv) inb_S1000x128_S1000x128_0_0 I.ft18).trans H.ht18.symm)
    rfl (I.hin 18 0 inb_S26x4x128_S1x1x128_18_0_0 squeezes_S1x1x128_S128) (k0_off39 L 0#32) (k0_off39_eq L 0) (k0_off39_inb L hc 0) (pay11 I) (rd11 I)
theorem inv11 (H : Hyp I tbl col pay) : ∀ j' < 12, ∀ i ∈ Step.blkSet L 7 j', outAt11 I hc i = Cert.Spec.G tbl col i :=
  Step.out_step L 7 (Cert.Spec.G tbl col) 11 (k0_off39 L 0#32) (k0_off39_eq L 0) (k0_off39_inb L hc 0) (outAt10 I hc) (pay11 I) (payG11 I hc H)
    (inv10 I hc H)
theorem rd12 : (Rn 5 inb_S7x128x128_S1x128x128_5_0_0).view.read (Elt F) (rowsAt17 I) = gp12 I :=
  ((Rn_read_miss 5 3 inb_S7x128x128_S1x128x128_5_0_0 inb_S7x128x128_S1x128x128_3_0_0 (by decide) (rowsAt16 I) (gp17 I)).trans ((Rn_read_miss 5 2 inb_S7x128x128_S1x128x128_5_0_0 inb_S7x128x128_S1x128x128_2_0_0 (by decide) (rowsAt15 I) (gp16 I)).trans ((Rn_read_miss 5 1 inb_S7x128x128_S1x128x128_5_0_0 inb_S7x128x128_S1x128x128_1_0_0 (by decide) (rowsAt14 I) (gp15 I)).trans ((Rn_read_miss 5 0 inb_S7x128x128_S1x128x128_5_0_0 inb_S7x128x128_S1x128x128_0_0_0 (by decide) (rowsAt13 I) (gp14 I)).trans ((Rn_read_miss 5 6 inb_S7x128x128_S1x128x128_5_0_0 inb_S7x128x128_S1x128x128_6_0_0 (by decide) (rowsAt12 I) (gp13 I)).trans (Rn_read_hit 5 inb_S7x128x128_S1x128x128_5_0_0 (rowsAt11 I) (gp12 I)))))))
theorem payG12 (H : Hyp I tbl col pay) : ∀ y, pay12 I y = Cert.Spec.G tbl col ((Rect.unit (s := S16384x3328) (k0_off40 L 0#32) S128x128.size (k0_off40_inb L hc 0)).emb y) :=
  Step.item_payload tbl col H.hr L pay H.hpay I.fi H.hfi 19 0 inb_S26x4x128_S1x1x128_19_0_0 squeezes_S1x1x128_S128
    _ ((Step.read_full (View.whole main_arg45_scv) inb_S1000x128_S1000x128_0_0 I.ft19).trans H.ht19.symm)
    rfl (I.hin 19 0 inb_S26x4x128_S1x1x128_19_0_0 squeezes_S1x1x128_S128) (k0_off40 L 0#32) (k0_off40_eq L 0) (k0_off40_inb L hc 0) (pay12 I) (rd12 I)
theorem inv12 (H : Hyp I tbl col pay) : ∀ j' < 13, ∀ i ∈ Step.blkSet L 7 j', outAt12 I hc i = Cert.Spec.G tbl col i :=
  Step.out_step L 7 (Cert.Spec.G tbl col) 12 (k0_off40 L 0#32) (k0_off40_eq L 0) (k0_off40_inb L hc 0) (outAt11 I hc) (pay12 I) (payG12 I hc H)
    (inv11 I hc H)
theorem rd13 : (Rn 6 inb_S7x128x128_S1x128x128_6_0_0).view.read (Elt F) (rowsAt18 I) = gp13 I :=
  ((Rn_read_miss 6 4 inb_S7x128x128_S1x128x128_6_0_0 inb_S7x128x128_S1x128x128_4_0_0 (by decide) (rowsAt17 I) (gp18 I)).trans ((Rn_read_miss 6 3 inb_S7x128x128_S1x128x128_6_0_0 inb_S7x128x128_S1x128x128_3_0_0 (by decide) (rowsAt16 I) (gp17 I)).trans ((Rn_read_miss 6 2 inb_S7x128x128_S1x128x128_6_0_0 inb_S7x128x128_S1x128x128_2_0_0 (by decide) (rowsAt15 I) (gp16 I)).trans ((Rn_read_miss 6 1 inb_S7x128x128_S1x128x128_6_0_0 inb_S7x128x128_S1x128x128_1_0_0 (by decide) (rowsAt14 I) (gp15 I)).trans ((Rn_read_miss 6 0 inb_S7x128x128_S1x128x128_6_0_0 inb_S7x128x128_S1x128x128_0_0_0 (by decide) (rowsAt13 I) (gp14 I)).trans (Rn_read_hit 6 inb_S7x128x128_S1x128x128_6_0_0 (rowsAt12 I) (gp13 I)))))))
theorem payG13 (H : Hyp I tbl col pay) : ∀ y, pay13 I y = Cert.Spec.G tbl col ((Rect.unit (s := S16384x3328) (k0_off41 L 0#32) S128x128.size (k0_off41_inb L hc 0)).emb y) :=
  Step.item_payload tbl col H.hr L pay H.hpay I.fi H.hfi 20 0 inb_S26x4x128_S1x1x128_20_0_0 squeezes_S1x1x128_S128
    _ ((Step.read_full (View.whole main_arg46_scv) inb_S1000x128_S1000x128_0_0 I.ft20).trans H.ht20.symm)
    rfl (I.hin 20 0 inb_S26x4x128_S1x1x128_20_0_0 squeezes_S1x1x128_S128) (k0_off41 L 0#32) (k0_off41_eq L 0) (k0_off41_inb L hc 0) (pay13 I) (rd13 I)
theorem inv13 (H : Hyp I tbl col pay) : ∀ j' < 14, ∀ i ∈ Step.blkSet L 7 j', outAt13 I hc i = Cert.Spec.G tbl col i :=
  Step.out_step L 7 (Cert.Spec.G tbl col) 13 (k0_off41 L 0#32) (k0_off41_eq L 0) (k0_off41_inb L hc 0) (outAt12 I hc) (pay13 I) (payG13 I hc H)
    (inv12 I hc H)
theorem rd14 : (Rn 0 inb_S7x128x128_S1x128x128_0_0_0).view.read (Elt F) (rowsAt19 I) = gp14 I :=
  ((Rn_read_miss 0 5 inb_S7x128x128_S1x128x128_0_0_0 inb_S7x128x128_S1x128x128_5_0_0 (by decide) (rowsAt18 I) (gp19 I)).trans ((Rn_read_miss 0 4 inb_S7x128x128_S1x128x128_0_0_0 inb_S7x128x128_S1x128x128_4_0_0 (by decide) (rowsAt17 I) (gp18 I)).trans ((Rn_read_miss 0 3 inb_S7x128x128_S1x128x128_0_0_0 inb_S7x128x128_S1x128x128_3_0_0 (by decide) (rowsAt16 I) (gp17 I)).trans ((Rn_read_miss 0 2 inb_S7x128x128_S1x128x128_0_0_0 inb_S7x128x128_S1x128x128_2_0_0 (by decide) (rowsAt15 I) (gp16 I)).trans ((Rn_read_miss 0 1 inb_S7x128x128_S1x128x128_0_0_0 inb_S7x128x128_S1x128x128_1_0_0 (by decide) (rowsAt14 I) (gp15 I)).trans (Rn_read_hit 0 inb_S7x128x128_S1x128x128_0_0_0 (rowsAt13 I) (gp14 I)))))))
theorem payG14 (H : Hyp I tbl col pay) : ∀ y, pay14 I y = Cert.Spec.G tbl col ((Rect.unit (s := S16384x3328) (k0_off42 L 0#32) S128x128.size (k0_off42_inb L hc 0)).emb y) :=
  Step.item_payload tbl col H.hr L pay H.hpay I.fi H.hfi 21 0 inb_S26x4x128_S1x1x128_21_0_0 squeezes_S1x1x128_S128
    _ ((Step.read_full (View.whole main_arg47_scv) inb_S1000x128_S1000x128_0_0 I.ft21).trans H.ht21.symm)
    rfl (I.hin 21 0 inb_S26x4x128_S1x1x128_21_0_0 squeezes_S1x1x128_S128) (k0_off42 L 0#32) (k0_off42_eq L 0) (k0_off42_inb L hc 0) (pay14 I) (rd14 I)
theorem inv14 (H : Hyp I tbl col pay) : ∀ j' < 15, ∀ i ∈ Step.blkSet L 7 j', outAt14 I hc i = Cert.Spec.G tbl col i :=
  Step.out_step L 7 (Cert.Spec.G tbl col) 14 (k0_off42 L 0#32) (k0_off42_eq L 0) (k0_off42_inb L hc 0) (outAt13 I hc) (pay14 I) (payG14 I hc H)
    (inv13 I hc H)
theorem rd15 : (Rn 1 inb_S7x128x128_S1x128x128_1_0_0).view.read (Elt F) (rowsAt20 I) = gp15 I :=
  ((Rn_read_miss 1 6 inb_S7x128x128_S1x128x128_1_0_0 inb_S7x128x128_S1x128x128_6_0_0 (by decide) (rowsAt19 I) (gp20 I)).trans ((Rn_read_miss 1 5 inb_S7x128x128_S1x128x128_1_0_0 inb_S7x128x128_S1x128x128_5_0_0 (by decide) (rowsAt18 I) (gp19 I)).trans ((Rn_read_miss 1 4 inb_S7x128x128_S1x128x128_1_0_0 inb_S7x128x128_S1x128x128_4_0_0 (by decide) (rowsAt17 I) (gp18 I)).trans ((Rn_read_miss 1 3 inb_S7x128x128_S1x128x128_1_0_0 inb_S7x128x128_S1x128x128_3_0_0 (by decide) (rowsAt16 I) (gp17 I)).trans ((Rn_read_miss 1 2 inb_S7x128x128_S1x128x128_1_0_0 inb_S7x128x128_S1x128x128_2_0_0 (by decide) (rowsAt15 I) (gp16 I)).trans (Rn_read_hit 1 inb_S7x128x128_S1x128x128_1_0_0 (rowsAt14 I) (gp15 I)))))))
theorem payG15 (H : Hyp I tbl col pay) : ∀ y, pay15 I y = Cert.Spec.G tbl col ((Rect.unit (s := S16384x3328) (k0_off43 L 0#32) S128x128.size (k0_off43_inb L hc 0)).emb y) :=
  Step.item_payload tbl col H.hr L pay H.hpay I.fi H.hfi 22 0 inb_S26x4x128_S1x1x128_22_0_0 squeezes_S1x1x128_S128
    _ ((Step.read_full (View.whole main_arg48_scv) inb_S1000x128_S1000x128_0_0 I.ft22).trans H.ht22.symm)
    rfl (I.hin 22 0 inb_S26x4x128_S1x1x128_22_0_0 squeezes_S1x1x128_S128) (k0_off43 L 0#32) (k0_off43_eq L 0) (k0_off43_inb L hc 0) (pay15 I) (rd15 I)
theorem inv15 (H : Hyp I tbl col pay) : ∀ j' < 16, ∀ i ∈ Step.blkSet L 7 j', outAt15 I hc i = Cert.Spec.G tbl col i :=
  Step.out_step L 7 (Cert.Spec.G tbl col) 15 (k0_off43 L 0#32) (k0_off43_eq L 0) (k0_off43_inb L hc 0) (outAt14 I hc) (pay15 I) (payG15 I hc H)
    (inv14 I hc H)
theorem rd16 : (Rn 2 inb_S7x128x128_S1x128x128_2_0_0).view.read (Elt F) (rowsAt21 I) = gp16 I :=
  ((Rn_read_miss 2 0 inb_S7x128x128_S1x128x128_2_0_0 inb_S7x128x128_S1x128x128_0_0_0 (by decide) (rowsAt20 I) (gp21 I)).trans ((Rn_read_miss 2 6 inb_S7x128x128_S1x128x128_2_0_0 inb_S7x128x128_S1x128x128_6_0_0 (by decide) (rowsAt19 I) (gp20 I)).trans ((Rn_read_miss 2 5 inb_S7x128x128_S1x128x128_2_0_0 inb_S7x128x128_S1x128x128_5_0_0 (by decide) (rowsAt18 I) (gp19 I)).trans ((Rn_read_miss 2 4 inb_S7x128x128_S1x128x128_2_0_0 inb_S7x128x128_S1x128x128_4_0_0 (by decide) (rowsAt17 I) (gp18 I)).trans ((Rn_read_miss 2 3 inb_S7x128x128_S1x128x128_2_0_0 inb_S7x128x128_S1x128x128_3_0_0 (by decide) (rowsAt16 I) (gp17 I)).trans (Rn_read_hit 2 inb_S7x128x128_S1x128x128_2_0_0 (rowsAt15 I) (gp16 I)))))))
theorem payG16 (H : Hyp I tbl col pay) : ∀ y, pay16 I y = Cert.Spec.G tbl col ((Rect.unit (s := S16384x3328) (k0_off44 L 0#32) S128x128.size (k0_off44_inb L hc 0)).emb y) :=
  Step.item_payload tbl col H.hr L pay H.hpay I.fi H.hfi 23 0 inb_S26x4x128_S1x1x128_23_0_0 squeezes_S1x1x128_S128
    _ ((Step.read_full (View.whole main_arg49_scv) inb_S1000x128_S1000x128_0_0 I.ft23).trans H.ht23.symm)
    rfl (I.hin 23 0 inb_S26x4x128_S1x1x128_23_0_0 squeezes_S1x1x128_S128) (k0_off44 L 0#32) (k0_off44_eq L 0) (k0_off44_inb L hc 0) (pay16 I) (rd16 I)
theorem inv16 (H : Hyp I tbl col pay) : ∀ j' < 17, ∀ i ∈ Step.blkSet L 7 j', outAt16 I hc i = Cert.Spec.G tbl col i :=
  Step.out_step L 7 (Cert.Spec.G tbl col) 16 (k0_off44 L 0#32) (k0_off44_eq L 0) (k0_off44_inb L hc 0) (outAt15 I hc) (pay16 I) (payG16 I hc H)
    (inv15 I hc H)
theorem rd17 : (Rn 3 inb_S7x128x128_S1x128x128_3_0_0).view.read (Elt F) (rowsAt22 I) = gp17 I :=
  ((Rn_read_miss 3 1 inb_S7x128x128_S1x128x128_3_0_0 inb_S7x128x128_S1x128x128_1_0_0 (by decide) (rowsAt21 I) (gp22 I)).trans ((Rn_read_miss 3 0 inb_S7x128x128_S1x128x128_3_0_0 inb_S7x128x128_S1x128x128_0_0_0 (by decide) (rowsAt20 I) (gp21 I)).trans ((Rn_read_miss 3 6 inb_S7x128x128_S1x128x128_3_0_0 inb_S7x128x128_S1x128x128_6_0_0 (by decide) (rowsAt19 I) (gp20 I)).trans ((Rn_read_miss 3 5 inb_S7x128x128_S1x128x128_3_0_0 inb_S7x128x128_S1x128x128_5_0_0 (by decide) (rowsAt18 I) (gp19 I)).trans ((Rn_read_miss 3 4 inb_S7x128x128_S1x128x128_3_0_0 inb_S7x128x128_S1x128x128_4_0_0 (by decide) (rowsAt17 I) (gp18 I)).trans (Rn_read_hit 3 inb_S7x128x128_S1x128x128_3_0_0 (rowsAt16 I) (gp17 I)))))))
theorem payG17 (H : Hyp I tbl col pay) : ∀ y, pay17 I y = Cert.Spec.G tbl col ((Rect.unit (s := S16384x3328) (k0_off45 L 0#32) S128x128.size (k0_off45_inb L hc 0)).emb y) :=
  Step.item_payload tbl col H.hr L pay H.hpay I.fi H.hfi 24 0 inb_S26x4x128_S1x1x128_24_0_0 squeezes_S1x1x128_S128
    _ ((Step.read_full (View.whole main_arg50_scv) inb_S1000x128_S1000x128_0_0 I.ft24).trans H.ht24.symm)
    rfl (I.hin 24 0 inb_S26x4x128_S1x1x128_24_0_0 squeezes_S1x1x128_S128) (k0_off45 L 0#32) (k0_off45_eq L 0) (k0_off45_inb L hc 0) (pay17 I) (rd17 I)
theorem inv17 (H : Hyp I tbl col pay) : ∀ j' < 18, ∀ i ∈ Step.blkSet L 7 j', outAt17 I hc i = Cert.Spec.G tbl col i :=
  Step.out_step L 7 (Cert.Spec.G tbl col) 17 (k0_off45 L 0#32) (k0_off45_eq L 0) (k0_off45_inb L hc 0) (outAt16 I hc) (pay17 I) (payG17 I hc H)
    (inv16 I hc H)
theorem rd18 : (Rn 4 inb_S7x128x128_S1x128x128_4_0_0).view.read (Elt F) (rowsAt23 I) = gp18 I :=
  ((Rn_read_miss 4 2 inb_S7x128x128_S1x128x128_4_0_0 inb_S7x128x128_S1x128x128_2_0_0 (by decide) (rowsAt22 I) (gp23 I)).trans ((Rn_read_miss 4 1 inb_S7x128x128_S1x128x128_4_0_0 inb_S7x128x128_S1x128x128_1_0_0 (by decide) (rowsAt21 I) (gp22 I)).trans ((Rn_read_miss 4 0 inb_S7x128x128_S1x128x128_4_0_0 inb_S7x128x128_S1x128x128_0_0_0 (by decide) (rowsAt20 I) (gp21 I)).trans ((Rn_read_miss 4 6 inb_S7x128x128_S1x128x128_4_0_0 inb_S7x128x128_S1x128x128_6_0_0 (by decide) (rowsAt19 I) (gp20 I)).trans ((Rn_read_miss 4 5 inb_S7x128x128_S1x128x128_4_0_0 inb_S7x128x128_S1x128x128_5_0_0 (by decide) (rowsAt18 I) (gp19 I)).trans (Rn_read_hit 4 inb_S7x128x128_S1x128x128_4_0_0 (rowsAt17 I) (gp18 I)))))))
theorem payG18 (H : Hyp I tbl col pay) : ∀ y, pay18 I y = Cert.Spec.G tbl col ((Rect.unit (s := S16384x3328) (k0_off46 L 0#32) S128x128.size (k0_off46_inb L hc 0)).emb y) :=
  Step.item_payload tbl col H.hr L pay H.hpay I.fi H.hfi 25 0 inb_S26x4x128_S1x1x128_25_0_0 squeezes_S1x1x128_S128
    _ ((Step.read_full (View.whole main_arg51_scv) inb_S1000x128_S1000x128_0_0 I.ft25).trans H.ht25.symm)
    rfl (I.hin 25 0 inb_S26x4x128_S1x1x128_25_0_0 squeezes_S1x1x128_S128) (k0_off46 L 0#32) (k0_off46_eq L 0) (k0_off46_inb L hc 0) (pay18 I) (rd18 I)
theorem inv18 (H : Hyp I tbl col pay) : ∀ j' < 19, ∀ i ∈ Step.blkSet L 7 j', outAt18 I hc i = Cert.Spec.G tbl col i :=
  Step.out_step L 7 (Cert.Spec.G tbl col) 18 (k0_off46 L 0#32) (k0_off46_eq L 0) (k0_off46_inb L hc 0) (outAt17 I hc) (pay18 I) (payG18 I hc H)
    (inv17 I hc H)
theorem rd19 : (Rn 5 inb_S7x128x128_S1x128x128_5_0_0).view.read (Elt F) (rowsAt24 I) = gp19 I :=
  ((Rn_read_miss 5 3 inb_S7x128x128_S1x128x128_5_0_0 inb_S7x128x128_S1x128x128_3_0_0 (by decide) (rowsAt23 I) (gp24 I)).trans ((Rn_read_miss 5 2 inb_S7x128x128_S1x128x128_5_0_0 inb_S7x128x128_S1x128x128_2_0_0 (by decide) (rowsAt22 I) (gp23 I)).trans ((Rn_read_miss 5 1 inb_S7x128x128_S1x128x128_5_0_0 inb_S7x128x128_S1x128x128_1_0_0 (by decide) (rowsAt21 I) (gp22 I)).trans ((Rn_read_miss 5 0 inb_S7x128x128_S1x128x128_5_0_0 inb_S7x128x128_S1x128x128_0_0_0 (by decide) (rowsAt20 I) (gp21 I)).trans ((Rn_read_miss 5 6 inb_S7x128x128_S1x128x128_5_0_0 inb_S7x128x128_S1x128x128_6_0_0 (by decide) (rowsAt19 I) (gp20 I)).trans (Rn_read_hit 5 inb_S7x128x128_S1x128x128_5_0_0 (rowsAt18 I) (gp19 I)))))))
theorem payG19 (H : Hyp I tbl col pay) : ∀ y, pay19 I y = Cert.Spec.G tbl col ((Rect.unit (s := S16384x3328) (k0_off47 L 0#32) S128x128.size (k0_off47_inb L hc 0)).emb y) :=
  Step.item_payload tbl col H.hr L pay H.hpay I.fi H.hfi 0 0 inb_S26x4x128_S1x1x128_0_0_0 squeezes_S1x1x128_S128
    _ ((Step.read_full (View.whole main_arg26_scv) inb_S1000x128_S1000x128_0_0 I.ft0).trans H.ht0.symm)
    rfl (I.hin 0 0 inb_S26x4x128_S1x1x128_0_0_0 squeezes_S1x1x128_S128) (k0_off47 L 0#32) (k0_off47_eq L 0) (k0_off47_inb L hc 0) (pay19 I) (rd19 I)
theorem inv19 (H : Hyp I tbl col pay) : ∀ j' < 20, ∀ i ∈ Step.blkSet L 7 j', outAt19 I hc i = Cert.Spec.G tbl col i :=
  Step.out_step L 7 (Cert.Spec.G tbl col) 19 (k0_off47 L 0#32) (k0_off47_eq L 0) (k0_off47_inb L hc 0) (outAt18 I hc) (pay19 I) (payG19 I hc H)
    (inv18 I hc H)
theorem rd20 : (Rn 6 inb_S7x128x128_S1x128x128_6_0_0).view.read (Elt F) (rowsAt25 I) = gp20 I :=
  ((Rn_read_miss 6 4 inb_S7x128x128_S1x128x128_6_0_0 inb_S7x128x128_S1x128x128_4_0_0 (by decide) (rowsAt24 I) (gp25 I)).trans ((Rn_read_miss 6 3 inb_S7x128x128_S1x128x128_6_0_0 inb_S7x128x128_S1x128x128_3_0_0 (by decide) (rowsAt23 I) (gp24 I)).trans ((Rn_read_miss 6 2 inb_S7x128x128_S1x128x128_6_0_0 inb_S7x128x128_S1x128x128_2_0_0 (by decide) (rowsAt22 I) (gp23 I)).trans ((Rn_read_miss 6 1 inb_S7x128x128_S1x128x128_6_0_0 inb_S7x128x128_S1x128x128_1_0_0 (by decide) (rowsAt21 I) (gp22 I)).trans ((Rn_read_miss 6 0 inb_S7x128x128_S1x128x128_6_0_0 inb_S7x128x128_S1x128x128_0_0_0 (by decide) (rowsAt20 I) (gp21 I)).trans (Rn_read_hit 6 inb_S7x128x128_S1x128x128_6_0_0 (rowsAt19 I) (gp20 I)))))))
theorem payG20 (H : Hyp I tbl col pay) : ∀ y, pay20 I y = Cert.Spec.G tbl col ((Rect.unit (s := S16384x3328) (k0_off48 L 0#32) S128x128.size (k0_off48_inb L hc 0)).emb y) :=
  Step.item_payload tbl col H.hr L pay H.hpay I.fi H.hfi 1 0 inb_S26x4x128_S1x1x128_1_0_0 squeezes_S1x1x128_S128
    _ ((Step.read_full (View.whole main_arg27_scv) inb_S1000x128_S1000x128_0_0 I.ft1).trans H.ht1.symm)
    rfl (I.hin 1 0 inb_S26x4x128_S1x1x128_1_0_0 squeezes_S1x1x128_S128) (k0_off48 L 0#32) (k0_off48_eq L 0) (k0_off48_inb L hc 0) (pay20 I) (rd20 I)
theorem inv20 (H : Hyp I tbl col pay) : ∀ j' < 21, ∀ i ∈ Step.blkSet L 7 j', outAt20 I hc i = Cert.Spec.G tbl col i :=
  Step.out_step L 7 (Cert.Spec.G tbl col) 20 (k0_off48 L 0#32) (k0_off48_eq L 0) (k0_off48_inb L hc 0) (outAt19 I hc) (pay20 I) (payG20 I hc H)
    (inv19 I hc H)
theorem rd21 : (Rn 0 inb_S7x128x128_S1x128x128_0_0_0).view.read (Elt F) (rowsAt26 I) = gp21 I :=
  ((Rn_read_miss 0 5 inb_S7x128x128_S1x128x128_0_0_0 inb_S7x128x128_S1x128x128_5_0_0 (by decide) (rowsAt25 I) (gp26 I)).trans ((Rn_read_miss 0 4 inb_S7x128x128_S1x128x128_0_0_0 inb_S7x128x128_S1x128x128_4_0_0 (by decide) (rowsAt24 I) (gp25 I)).trans ((Rn_read_miss 0 3 inb_S7x128x128_S1x128x128_0_0_0 inb_S7x128x128_S1x128x128_3_0_0 (by decide) (rowsAt23 I) (gp24 I)).trans ((Rn_read_miss 0 2 inb_S7x128x128_S1x128x128_0_0_0 inb_S7x128x128_S1x128x128_2_0_0 (by decide) (rowsAt22 I) (gp23 I)).trans ((Rn_read_miss 0 1 inb_S7x128x128_S1x128x128_0_0_0 inb_S7x128x128_S1x128x128_1_0_0 (by decide) (rowsAt21 I) (gp22 I)).trans (Rn_read_hit 0 inb_S7x128x128_S1x128x128_0_0_0 (rowsAt20 I) (gp21 I)))))))
theorem payG21 (H : Hyp I tbl col pay) : ∀ y, pay21 I y = Cert.Spec.G tbl col ((Rect.unit (s := S16384x3328) (k0_off49 L 0#32) S128x128.size (k0_off49_inb L hc 0)).emb y) :=
  Step.item_payload tbl col H.hr L pay H.hpay I.fi H.hfi 2 0 inb_S26x4x128_S1x1x128_2_0_0 squeezes_S1x1x128_S128
    _ ((Step.read_full (View.whole main_arg28_scv) inb_S1000x128_S1000x128_0_0 I.ft2).trans H.ht2.symm)
    rfl (I.hin 2 0 inb_S26x4x128_S1x1x128_2_0_0 squeezes_S1x1x128_S128) (k0_off49 L 0#32) (k0_off49_eq L 0) (k0_off49_inb L hc 0) (pay21 I) (rd21 I)
theorem inv21 (H : Hyp I tbl col pay) : ∀ j' < 22, ∀ i ∈ Step.blkSet L 7 j', outAt21 I hc i = Cert.Spec.G tbl col i :=
  Step.out_step L 7 (Cert.Spec.G tbl col) 21 (k0_off49 L 0#32) (k0_off49_eq L 0) (k0_off49_inb L hc 0) (outAt20 I hc) (pay21 I) (payG21 I hc H)
    (inv20 I hc H)
theorem rd22 : (Rn 1 inb_S7x128x128_S1x128x128_1_0_0).view.read (Elt F) (rowsAt27 I) = gp22 I :=
  ((Rn_read_miss 1 6 inb_S7x128x128_S1x128x128_1_0_0 inb_S7x128x128_S1x128x128_6_0_0 (by decide) (rowsAt26 I) (gp27 I)).trans ((Rn_read_miss 1 5 inb_S7x128x128_S1x128x128_1_0_0 inb_S7x128x128_S1x128x128_5_0_0 (by decide) (rowsAt25 I) (gp26 I)).trans ((Rn_read_miss 1 4 inb_S7x128x128_S1x128x128_1_0_0 inb_S7x128x128_S1x128x128_4_0_0 (by decide) (rowsAt24 I) (gp25 I)).trans ((Rn_read_miss 1 3 inb_S7x128x128_S1x128x128_1_0_0 inb_S7x128x128_S1x128x128_3_0_0 (by decide) (rowsAt23 I) (gp24 I)).trans ((Rn_read_miss 1 2 inb_S7x128x128_S1x128x128_1_0_0 inb_S7x128x128_S1x128x128_2_0_0 (by decide) (rowsAt22 I) (gp23 I)).trans (Rn_read_hit 1 inb_S7x128x128_S1x128x128_1_0_0 (rowsAt21 I) (gp22 I)))))))
theorem payG22 (H : Hyp I tbl col pay) : ∀ y, pay22 I y = Cert.Spec.G tbl col ((Rect.unit (s := S16384x3328) (k0_off50 L 0#32) S128x128.size (k0_off50_inb L hc 0)).emb y) :=
  Step.item_payload tbl col H.hr L pay H.hpay I.fi H.hfi 3 0 inb_S26x4x128_S1x1x128_3_0_0 squeezes_S1x1x128_S128
    _ ((Step.read_full (View.whole main_arg29_scv) inb_S1000x128_S1000x128_0_0 I.ft3).trans H.ht3.symm)
    rfl (I.hin 3 0 inb_S26x4x128_S1x1x128_3_0_0 squeezes_S1x1x128_S128) (k0_off50 L 0#32) (k0_off50_eq L 0) (k0_off50_inb L hc 0) (pay22 I) (rd22 I)
theorem inv22 (H : Hyp I tbl col pay) : ∀ j' < 23, ∀ i ∈ Step.blkSet L 7 j', outAt22 I hc i = Cert.Spec.G tbl col i :=
  Step.out_step L 7 (Cert.Spec.G tbl col) 22 (k0_off50 L 0#32) (k0_off50_eq L 0) (k0_off50_inb L hc 0) (outAt21 I hc) (pay22 I) (payG22 I hc H)
    (inv21 I hc H)
theorem rd23 : (Rn 2 inb_S7x128x128_S1x128x128_2_0_0).view.read (Elt F) (rowsAt28 I) = gp23 I :=
  ((Rn_read_miss 2 0 inb_S7x128x128_S1x128x128_2_0_0 inb_S7x128x128_S1x128x128_0_0_0 (by decide) (rowsAt27 I) (gp28 I)).trans ((Rn_read_miss 2 6 inb_S7x128x128_S1x128x128_2_0_0 inb_S7x128x128_S1x128x128_6_0_0 (by decide) (rowsAt26 I) (gp27 I)).trans ((Rn_read_miss 2 5 inb_S7x128x128_S1x128x128_2_0_0 inb_S7x128x128_S1x128x128_5_0_0 (by decide) (rowsAt25 I) (gp26 I)).trans ((Rn_read_miss 2 4 inb_S7x128x128_S1x128x128_2_0_0 inb_S7x128x128_S1x128x128_4_0_0 (by decide) (rowsAt24 I) (gp25 I)).trans ((Rn_read_miss 2 3 inb_S7x128x128_S1x128x128_2_0_0 inb_S7x128x128_S1x128x128_3_0_0 (by decide) (rowsAt23 I) (gp24 I)).trans (Rn_read_hit 2 inb_S7x128x128_S1x128x128_2_0_0 (rowsAt22 I) (gp23 I)))))))
theorem payG23 (H : Hyp I tbl col pay) : ∀ y, pay23 I y = Cert.Spec.G tbl col ((Rect.unit (s := S16384x3328) (k0_off51 L 0#32) S128x128.size (k0_off51_inb L hc 0)).emb y) :=
  Step.item_payload tbl col H.hr L pay H.hpay I.fi H.hfi 4 0 inb_S26x4x128_S1x1x128_4_0_0 squeezes_S1x1x128_S128
    _ ((Step.read_full (View.whole main_arg30_scv) inb_S1000x128_S1000x128_0_0 I.ft4).trans H.ht4.symm)
    rfl (I.hin 4 0 inb_S26x4x128_S1x1x128_4_0_0 squeezes_S1x1x128_S128) (k0_off51 L 0#32) (k0_off51_eq L 0) (k0_off51_inb L hc 0) (pay23 I) (rd23 I)
theorem inv23 (H : Hyp I tbl col pay) : ∀ j' < 24, ∀ i ∈ Step.blkSet L 7 j', outAt23 I hc i = Cert.Spec.G tbl col i :=
  Step.out_step L 7 (Cert.Spec.G tbl col) 23 (k0_off51 L 0#32) (k0_off51_eq L 0) (k0_off51_inb L hc 0) (outAt22 I hc) (pay23 I) (payG23 I hc H)
    (inv22 I hc H)
theorem rd24 : (Rn 3 inb_S7x128x128_S1x128x128_3_0_0).view.read (Elt F) (rowsAt29 I) = gp24 I :=
  ((Rn_read_miss 3 1 inb_S7x128x128_S1x128x128_3_0_0 inb_S7x128x128_S1x128x128_1_0_0 (by decide) (rowsAt28 I) (gp29 I)).trans ((Rn_read_miss 3 0 inb_S7x128x128_S1x128x128_3_0_0 inb_S7x128x128_S1x128x128_0_0_0 (by decide) (rowsAt27 I) (gp28 I)).trans ((Rn_read_miss 3 6 inb_S7x128x128_S1x128x128_3_0_0 inb_S7x128x128_S1x128x128_6_0_0 (by decide) (rowsAt26 I) (gp27 I)).trans ((Rn_read_miss 3 5 inb_S7x128x128_S1x128x128_3_0_0 inb_S7x128x128_S1x128x128_5_0_0 (by decide) (rowsAt25 I) (gp26 I)).trans ((Rn_read_miss 3 4 inb_S7x128x128_S1x128x128_3_0_0 inb_S7x128x128_S1x128x128_4_0_0 (by decide) (rowsAt24 I) (gp25 I)).trans (Rn_read_hit 3 inb_S7x128x128_S1x128x128_3_0_0 (rowsAt23 I) (gp24 I)))))))
theorem payG24 (H : Hyp I tbl col pay) : ∀ y, pay24 I y = Cert.Spec.G tbl col ((Rect.unit (s := S16384x3328) (k0_off52 L 0#32) S128x128.size (k0_off52_inb L hc 0)).emb y) :=
  Step.item_payload tbl col H.hr L pay H.hpay I.fi H.hfi 5 0 inb_S26x4x128_S1x1x128_5_0_0 squeezes_S1x1x128_S128
    _ ((Step.read_full (View.whole main_arg31_scv) inb_S1000x128_S1000x128_0_0 I.ft5).trans H.ht5.symm)
    rfl (I.hin 5 0 inb_S26x4x128_S1x1x128_5_0_0 squeezes_S1x1x128_S128) (k0_off52 L 0#32) (k0_off52_eq L 0) (k0_off52_inb L hc 0) (pay24 I) (rd24 I)
theorem inv24 (H : Hyp I tbl col pay) : ∀ j' < 25, ∀ i ∈ Step.blkSet L 7 j', outAt24 I hc i = Cert.Spec.G tbl col i :=
  Step.out_step L 7 (Cert.Spec.G tbl col) 24 (k0_off52 L 0#32) (k0_off52_eq L 0) (k0_off52_inb L hc 0) (outAt23 I hc) (pay24 I) (payG24 I hc H)
    (inv23 I hc H)
theorem rd25 : (Rn 4 inb_S7x128x128_S1x128x128_4_0_0).view.read (Elt F) (rowsAt30 I) = gp25 I :=
  ((Rn_read_miss 4 2 inb_S7x128x128_S1x128x128_4_0_0 inb_S7x128x128_S1x128x128_2_0_0 (by decide) (rowsAt29 I) (gp30 I)).trans ((Rn_read_miss 4 1 inb_S7x128x128_S1x128x128_4_0_0 inb_S7x128x128_S1x128x128_1_0_0 (by decide) (rowsAt28 I) (gp29 I)).trans ((Rn_read_miss 4 0 inb_S7x128x128_S1x128x128_4_0_0 inb_S7x128x128_S1x128x128_0_0_0 (by decide) (rowsAt27 I) (gp28 I)).trans ((Rn_read_miss 4 6 inb_S7x128x128_S1x128x128_4_0_0 inb_S7x128x128_S1x128x128_6_0_0 (by decide) (rowsAt26 I) (gp27 I)).trans ((Rn_read_miss 4 5 inb_S7x128x128_S1x128x128_4_0_0 inb_S7x128x128_S1x128x128_5_0_0 (by decide) (rowsAt25 I) (gp26 I)).trans (Rn_read_hit 4 inb_S7x128x128_S1x128x128_4_0_0 (rowsAt24 I) (gp25 I)))))))
theorem payG25 (H : Hyp I tbl col pay) : ∀ y, pay25 I y = Cert.Spec.G tbl col ((Rect.unit (s := S16384x3328) (k0_off53 L 0#32) S128x128.size (k0_off53_inb L hc 0)).emb y) :=
  Step.item_payload tbl col H.hr L pay H.hpay I.fi H.hfi 6 0 inb_S26x4x128_S1x1x128_6_0_0 squeezes_S1x1x128_S128
    _ ((Step.read_full (View.whole main_arg32_scv) inb_S1000x128_S1000x128_0_0 I.ft6).trans H.ht6.symm)
    rfl (I.hin 6 0 inb_S26x4x128_S1x1x128_6_0_0 squeezes_S1x1x128_S128) (k0_off53 L 0#32) (k0_off53_eq L 0) (k0_off53_inb L hc 0) (pay25 I) (rd25 I)
theorem inv25 (H : Hyp I tbl col pay) : ∀ j' < 26, ∀ i ∈ Step.blkSet L 7 j', outAt25 I hc i = Cert.Spec.G tbl col i :=
  Step.out_step L 7 (Cert.Spec.G tbl col) 25 (k0_off53 L 0#32) (k0_off53_eq L 0) (k0_off53_inb L hc 0) (outAt24 I hc) (pay25 I) (payG25 I hc H)
    (inv24 I hc H)
theorem rd26 : (Rn 5 inb_S7x128x128_S1x128x128_5_0_0).view.read (Elt F) (rowsAt31 I) = gp26 I :=
  ((Rn_read_miss 5 3 inb_S7x128x128_S1x128x128_5_0_0 inb_S7x128x128_S1x128x128_3_0_0 (by decide) (rowsAt30 I) (gp31 I)).trans ((Rn_read_miss 5 2 inb_S7x128x128_S1x128x128_5_0_0 inb_S7x128x128_S1x128x128_2_0_0 (by decide) (rowsAt29 I) (gp30 I)).trans ((Rn_read_miss 5 1 inb_S7x128x128_S1x128x128_5_0_0 inb_S7x128x128_S1x128x128_1_0_0 (by decide) (rowsAt28 I) (gp29 I)).trans ((Rn_read_miss 5 0 inb_S7x128x128_S1x128x128_5_0_0 inb_S7x128x128_S1x128x128_0_0_0 (by decide) (rowsAt27 I) (gp28 I)).trans ((Rn_read_miss 5 6 inb_S7x128x128_S1x128x128_5_0_0 inb_S7x128x128_S1x128x128_6_0_0 (by decide) (rowsAt26 I) (gp27 I)).trans (Rn_read_hit 5 inb_S7x128x128_S1x128x128_5_0_0 (rowsAt25 I) (gp26 I)))))))
theorem payG26 (H : Hyp I tbl col pay) : ∀ y, pay26 I y = Cert.Spec.G tbl col ((Rect.unit (s := S16384x3328) (k0_off28 L 128#32) S128x128.size (k0_off28_inb L hc 1)).emb y) :=
  Step.item_payload tbl col H.hr L pay H.hpay I.fi H.hfi 7 1 inb_S26x4x128_S1x1x128_7_1_0 squeezes_S1x1x128_S128
    _ ((Step.read_full (View.whole main_arg33_scv) inb_S1000x128_S1000x128_0_0 I.ft7).trans H.ht7.symm)
    rfl (I.hin 7 1 inb_S26x4x128_S1x1x128_7_1_0 squeezes_S1x1x128_S128) (k0_off28 L 128#32) (k0_off28_eq L 1) (k0_off28_inb L hc 1) (pay26 I) (rd26 I)
theorem inv26 (H : Hyp I tbl col pay) : ∀ j' < 27, ∀ i ∈ Step.blkSet L 7 j', outAt26 I hc i = Cert.Spec.G tbl col i :=
  Step.out_step L 7 (Cert.Spec.G tbl col) 26 (k0_off28 L 128#32) (k0_off28_eq L 1) (k0_off28_inb L hc 1) (outAt25 I hc) (pay26 I) (payG26 I hc H)
    (inv25 I hc H)
theorem rd27 : (Rn 6 inb_S7x128x128_S1x128x128_6_0_0).view.read (Elt F) (rowsAt32 I) = gp27 I :=
  ((Rn_read_miss 6 4 inb_S7x128x128_S1x128x128_6_0_0 inb_S7x128x128_S1x128x128_4_0_0 (by decide) (rowsAt31 I) (gp32 I)).trans ((Rn_read_miss 6 3 inb_S7x128x128_S1x128x128_6_0_0 inb_S7x128x128_S1x128x128_3_0_0 (by decide) (rowsAt30 I) (gp31 I)).trans ((Rn_read_miss 6 2 inb_S7x128x128_S1x128x128_6_0_0 inb_S7x128x128_S1x128x128_2_0_0 (by decide) (rowsAt29 I) (gp30 I)).trans ((Rn_read_miss 6 1 inb_S7x128x128_S1x128x128_6_0_0 inb_S7x128x128_S1x128x128_1_0_0 (by decide) (rowsAt28 I) (gp29 I)).trans ((Rn_read_miss 6 0 inb_S7x128x128_S1x128x128_6_0_0 inb_S7x128x128_S1x128x128_0_0_0 (by decide) (rowsAt27 I) (gp28 I)).trans (Rn_read_hit 6 inb_S7x128x128_S1x128x128_6_0_0 (rowsAt26 I) (gp27 I)))))))
theorem payG27 (H : Hyp I tbl col pay) : ∀ y, pay27 I y = Cert.Spec.G tbl col ((Rect.unit (s := S16384x3328) (k0_off29 L 128#32) S128x128.size (k0_off29_inb L hc 1)).emb y) :=
  Step.item_payload tbl col H.hr L pay H.hpay I.fi H.hfi 8 1 inb_S26x4x128_S1x1x128_8_1_0 squeezes_S1x1x128_S128
    _ ((Step.read_full (View.whole main_arg34_scv) inb_S1000x128_S1000x128_0_0 I.ft8).trans H.ht8.symm)
    rfl (I.hin 8 1 inb_S26x4x128_S1x1x128_8_1_0 squeezes_S1x1x128_S128) (k0_off29 L 128#32) (k0_off29_eq L 1) (k0_off29_inb L hc 1) (pay27 I) (rd27 I)
theorem inv27 (H : Hyp I tbl col pay) : ∀ j' < 28, ∀ i ∈ Step.blkSet L 7 j', outAt27 I hc i = Cert.Spec.G tbl col i :=
  Step.out_step L 7 (Cert.Spec.G tbl col) 27 (k0_off29 L 128#32) (k0_off29_eq L 1) (k0_off29_inb L hc 1) (outAt26 I hc) (pay27 I) (payG27 I hc H)
    (inv26 I hc H)
theorem rd28 : (Rn 0 inb_S7x128x128_S1x128x128_0_0_0).view.read (Elt F) (rowsAt33 I) = gp28 I :=
  ((Rn_read_miss 0 5 inb_S7x128x128_S1x128x128_0_0_0 inb_S7x128x128_S1x128x128_5_0_0 (by decide) (rowsAt32 I) (gp33 I)).trans ((Rn_read_miss 0 4 inb_S7x128x128_S1x128x128_0_0_0 inb_S7x128x128_S1x128x128_4_0_0 (by decide) (rowsAt31 I) (gp32 I)).trans ((Rn_read_miss 0 3 inb_S7x128x128_S1x128x128_0_0_0 inb_S7x128x128_S1x128x128_3_0_0 (by decide) (rowsAt30 I) (gp31 I)).trans ((Rn_read_miss 0 2 inb_S7x128x128_S1x128x128_0_0_0 inb_S7x128x128_S1x128x128_2_0_0 (by decide) (rowsAt29 I) (gp30 I)).trans ((Rn_read_miss 0 1 inb_S7x128x128_S1x128x128_0_0_0 inb_S7x128x128_S1x128x128_1_0_0 (by decide) (rowsAt28 I) (gp29 I)).trans (Rn_read_hit 0 inb_S7x128x128_S1x128x128_0_0_0 (rowsAt27 I) (gp28 I)))))))
theorem payG28 (H : Hyp I tbl col pay) : ∀ y, pay28 I y = Cert.Spec.G tbl col ((Rect.unit (s := S16384x3328) (k0_off30 L 128#32) S128x128.size (k0_off30_inb L hc 1)).emb y) :=
  Step.item_payload tbl col H.hr L pay H.hpay I.fi H.hfi 9 1 inb_S26x4x128_S1x1x128_9_1_0 squeezes_S1x1x128_S128
    _ ((Step.read_full (View.whole main_arg35_scv) inb_S1000x128_S1000x128_0_0 I.ft9).trans H.ht9.symm)
    rfl (I.hin 9 1 inb_S26x4x128_S1x1x128_9_1_0 squeezes_S1x1x128_S128) (k0_off30 L 128#32) (k0_off30_eq L 1) (k0_off30_inb L hc 1) (pay28 I) (rd28 I)
theorem inv28 (H : Hyp I tbl col pay) : ∀ j' < 29, ∀ i ∈ Step.blkSet L 7 j', outAt28 I hc i = Cert.Spec.G tbl col i :=
  Step.out_step L 7 (Cert.Spec.G tbl col) 28 (k0_off30 L 128#32) (k0_off30_eq L 1) (k0_off30_inb L hc 1) (outAt27 I hc) (pay28 I) (payG28 I hc H)
    (inv27 I hc H)
theorem rd29 : (Rn 1 inb_S7x128x128_S1x128x128_1_0_0).view.read (Elt F) (rowsAt34 I) = gp29 I :=
  ((Rn_read_miss 1 6 inb_S7x128x128_S1x128x128_1_0_0 inb_S7x128x128_S1x128x128_6_0_0 (by decide) (rowsAt33 I) (gp34 I)).trans ((Rn_read_miss 1 5 inb_S7x128x128_S1x128x128_1_0_0 inb_S7x128x128_S1x128x128_5_0_0 (by decide) (rowsAt32 I) (gp33 I)).trans ((Rn_read_miss 1 4 inb_S7x128x128_S1x128x128_1_0_0 inb_S7x128x128_S1x128x128_4_0_0 (by decide) (rowsAt31 I) (gp32 I)).trans ((Rn_read_miss 1 3 inb_S7x128x128_S1x128x128_1_0_0 inb_S7x128x128_S1x128x128_3_0_0 (by decide) (rowsAt30 I) (gp31 I)).trans ((Rn_read_miss 1 2 inb_S7x128x128_S1x128x128_1_0_0 inb_S7x128x128_S1x128x128_2_0_0 (by decide) (rowsAt29 I) (gp30 I)).trans (Rn_read_hit 1 inb_S7x128x128_S1x128x128_1_0_0 (rowsAt28 I) (gp29 I)))))))
theorem payG29 (H : Hyp I tbl col pay) : ∀ y, pay29 I y = Cert.Spec.G tbl col ((Rect.unit (s := S16384x3328) (k0_off31 L 128#32) S128x128.size (k0_off31_inb L hc 1)).emb y) :=
  Step.item_payload tbl col H.hr L pay H.hpay I.fi H.hfi 10 1 inb_S26x4x128_S1x1x128_10_1_0 squeezes_S1x1x128_S128
    _ ((Step.read_full (View.whole main_arg36_scv) inb_S1000x128_S1000x128_0_0 I.ft10).trans H.ht10.symm)
    rfl (I.hin 10 1 inb_S26x4x128_S1x1x128_10_1_0 squeezes_S1x1x128_S128) (k0_off31 L 128#32) (k0_off31_eq L 1) (k0_off31_inb L hc 1) (pay29 I) (rd29 I)
theorem inv29 (H : Hyp I tbl col pay) : ∀ j' < 30, ∀ i ∈ Step.blkSet L 7 j', outAt29 I hc i = Cert.Spec.G tbl col i :=
  Step.out_step L 7 (Cert.Spec.G tbl col) 29 (k0_off31 L 128#32) (k0_off31_eq L 1) (k0_off31_inb L hc 1) (outAt28 I hc) (pay29 I) (payG29 I hc H)
    (inv28 I hc H)
theorem rd30 : (Rn 2 inb_S7x128x128_S1x128x128_2_0_0).view.read (Elt F) (rowsAt35 I) = gp30 I :=
  ((Rn_read_miss 2 0 inb_S7x128x128_S1x128x128_2_0_0 inb_S7x128x128_S1x128x128_0_0_0 (by decide) (rowsAt34 I) (gp35 I)).trans ((Rn_read_miss 2 6 inb_S7x128x128_S1x128x128_2_0_0 inb_S7x128x128_S1x128x128_6_0_0 (by decide) (rowsAt33 I) (gp34 I)).trans ((Rn_read_miss 2 5 inb_S7x128x128_S1x128x128_2_0_0 inb_S7x128x128_S1x128x128_5_0_0 (by decide) (rowsAt32 I) (gp33 I)).trans ((Rn_read_miss 2 4 inb_S7x128x128_S1x128x128_2_0_0 inb_S7x128x128_S1x128x128_4_0_0 (by decide) (rowsAt31 I) (gp32 I)).trans ((Rn_read_miss 2 3 inb_S7x128x128_S1x128x128_2_0_0 inb_S7x128x128_S1x128x128_3_0_0 (by decide) (rowsAt30 I) (gp31 I)).trans (Rn_read_hit 2 inb_S7x128x128_S1x128x128_2_0_0 (rowsAt29 I) (gp30 I)))))))
theorem payG30 (H : Hyp I tbl col pay) : ∀ y, pay30 I y = Cert.Spec.G tbl col ((Rect.unit (s := S16384x3328) (k0_off32 L 128#32) S128x128.size (k0_off32_inb L hc 1)).emb y) :=
  Step.item_payload tbl col H.hr L pay H.hpay I.fi H.hfi 11 1 inb_S26x4x128_S1x1x128_11_1_0 squeezes_S1x1x128_S128
    _ ((Step.read_full (View.whole main_arg37_scv) inb_S1000x128_S1000x128_0_0 I.ft11).trans H.ht11.symm)
    rfl (I.hin 11 1 inb_S26x4x128_S1x1x128_11_1_0 squeezes_S1x1x128_S128) (k0_off32 L 128#32) (k0_off32_eq L 1) (k0_off32_inb L hc 1) (pay30 I) (rd30 I)
theorem inv30 (H : Hyp I tbl col pay) : ∀ j' < 31, ∀ i ∈ Step.blkSet L 7 j', outAt30 I hc i = Cert.Spec.G tbl col i :=
  Step.out_step L 7 (Cert.Spec.G tbl col) 30 (k0_off32 L 128#32) (k0_off32_eq L 1) (k0_off32_inb L hc 1) (outAt29 I hc) (pay30 I) (payG30 I hc H)
    (inv29 I hc H)
theorem rd31 : (Rn 3 inb_S7x128x128_S1x128x128_3_0_0).view.read (Elt F) (rowsAt36 I) = gp31 I :=
  ((Rn_read_miss 3 1 inb_S7x128x128_S1x128x128_3_0_0 inb_S7x128x128_S1x128x128_1_0_0 (by decide) (rowsAt35 I) (gp36 I)).trans ((Rn_read_miss 3 0 inb_S7x128x128_S1x128x128_3_0_0 inb_S7x128x128_S1x128x128_0_0_0 (by decide) (rowsAt34 I) (gp35 I)).trans ((Rn_read_miss 3 6 inb_S7x128x128_S1x128x128_3_0_0 inb_S7x128x128_S1x128x128_6_0_0 (by decide) (rowsAt33 I) (gp34 I)).trans ((Rn_read_miss 3 5 inb_S7x128x128_S1x128x128_3_0_0 inb_S7x128x128_S1x128x128_5_0_0 (by decide) (rowsAt32 I) (gp33 I)).trans ((Rn_read_miss 3 4 inb_S7x128x128_S1x128x128_3_0_0 inb_S7x128x128_S1x128x128_4_0_0 (by decide) (rowsAt31 I) (gp32 I)).trans (Rn_read_hit 3 inb_S7x128x128_S1x128x128_3_0_0 (rowsAt30 I) (gp31 I)))))))
theorem payG31 (H : Hyp I tbl col pay) : ∀ y, pay31 I y = Cert.Spec.G tbl col ((Rect.unit (s := S16384x3328) (k0_off33 L 128#32) S128x128.size (k0_off33_inb L hc 1)).emb y) :=
  Step.item_payload tbl col H.hr L pay H.hpay I.fi H.hfi 12 1 inb_S26x4x128_S1x1x128_12_1_0 squeezes_S1x1x128_S128
    _ ((Step.read_full (View.whole main_arg38_scv) inb_S1000x128_S1000x128_0_0 I.ft12).trans H.ht12.symm)
    rfl (I.hin 12 1 inb_S26x4x128_S1x1x128_12_1_0 squeezes_S1x1x128_S128) (k0_off33 L 128#32) (k0_off33_eq L 1) (k0_off33_inb L hc 1) (pay31 I) (rd31 I)
theorem inv31 (H : Hyp I tbl col pay) : ∀ j' < 32, ∀ i ∈ Step.blkSet L 7 j', outAt31 I hc i = Cert.Spec.G tbl col i :=
  Step.out_step L 7 (Cert.Spec.G tbl col) 31 (k0_off33 L 128#32) (k0_off33_eq L 1) (k0_off33_inb L hc 1) (outAt30 I hc) (pay31 I) (payG31 I hc H)
    (inv30 I hc H)
theorem rd32 : (Rn 4 inb_S7x128x128_S1x128x128_4_0_0).view.read (Elt F) (rowsAt37 I) = gp32 I :=
  ((Rn_read_miss 4 2 inb_S7x128x128_S1x128x128_4_0_0 inb_S7x128x128_S1x128x128_2_0_0 (by decide) (rowsAt36 I) (gp37 I)).trans ((Rn_read_miss 4 1 inb_S7x128x128_S1x128x128_4_0_0 inb_S7x128x128_S1x128x128_1_0_0 (by decide) (rowsAt35 I) (gp36 I)).trans ((Rn_read_miss 4 0 inb_S7x128x128_S1x128x128_4_0_0 inb_S7x128x128_S1x128x128_0_0_0 (by decide) (rowsAt34 I) (gp35 I)).trans ((Rn_read_miss 4 6 inb_S7x128x128_S1x128x128_4_0_0 inb_S7x128x128_S1x128x128_6_0_0 (by decide) (rowsAt33 I) (gp34 I)).trans ((Rn_read_miss 4 5 inb_S7x128x128_S1x128x128_4_0_0 inb_S7x128x128_S1x128x128_5_0_0 (by decide) (rowsAt32 I) (gp33 I)).trans (Rn_read_hit 4 inb_S7x128x128_S1x128x128_4_0_0 (rowsAt31 I) (gp32 I)))))))
theorem payG32 (H : Hyp I tbl col pay) : ∀ y, pay32 I y = Cert.Spec.G tbl col ((Rect.unit (s := S16384x3328) (k0_off34 L 128#32) S128x128.size (k0_off34_inb L hc 1)).emb y) :=
  Step.item_payload tbl col H.hr L pay H.hpay I.fi H.hfi 13 1 inb_S26x4x128_S1x1x128_13_1_0 squeezes_S1x1x128_S128
    _ ((Step.read_full (View.whole main_arg39_scv) inb_S1000x128_S1000x128_0_0 I.ft13).trans H.ht13.symm)
    rfl (I.hin 13 1 inb_S26x4x128_S1x1x128_13_1_0 squeezes_S1x1x128_S128) (k0_off34 L 128#32) (k0_off34_eq L 1) (k0_off34_inb L hc 1) (pay32 I) (rd32 I)
theorem inv32 (H : Hyp I tbl col pay) : ∀ j' < 33, ∀ i ∈ Step.blkSet L 7 j', outAt32 I hc i = Cert.Spec.G tbl col i :=
  Step.out_step L 7 (Cert.Spec.G tbl col) 32 (k0_off34 L 128#32) (k0_off34_eq L 1) (k0_off34_inb L hc 1) (outAt31 I hc) (pay32 I) (payG32 I hc H)
    (inv31 I hc H)
theorem rd33 : (Rn 5 inb_S7x128x128_S1x128x128_5_0_0).view.read (Elt F) (rowsAt38 I) = gp33 I :=
  ((Rn_read_miss 5 3 inb_S7x128x128_S1x128x128_5_0_0 inb_S7x128x128_S1x128x128_3_0_0 (by decide) (rowsAt37 I) (gp38 I)).trans ((Rn_read_miss 5 2 inb_S7x128x128_S1x128x128_5_0_0 inb_S7x128x128_S1x128x128_2_0_0 (by decide) (rowsAt36 I) (gp37 I)).trans ((Rn_read_miss 5 1 inb_S7x128x128_S1x128x128_5_0_0 inb_S7x128x128_S1x128x128_1_0_0 (by decide) (rowsAt35 I) (gp36 I)).trans ((Rn_read_miss 5 0 inb_S7x128x128_S1x128x128_5_0_0 inb_S7x128x128_S1x128x128_0_0_0 (by decide) (rowsAt34 I) (gp35 I)).trans ((Rn_read_miss 5 6 inb_S7x128x128_S1x128x128_5_0_0 inb_S7x128x128_S1x128x128_6_0_0 (by decide) (rowsAt33 I) (gp34 I)).trans (Rn_read_hit 5 inb_S7x128x128_S1x128x128_5_0_0 (rowsAt32 I) (gp33 I)))))))
theorem payG33 (H : Hyp I tbl col pay) : ∀ y, pay33 I y = Cert.Spec.G tbl col ((Rect.unit (s := S16384x3328) (k0_off35 L 128#32) S128x128.size (k0_off35_inb L hc 1)).emb y) :=
  Step.item_payload tbl col H.hr L pay H.hpay I.fi H.hfi 14 1 inb_S26x4x128_S1x1x128_14_1_0 squeezes_S1x1x128_S128
    _ ((Step.read_full (View.whole main_arg40_scv) inb_S1000x128_S1000x128_0_0 I.ft14).trans H.ht14.symm)
    rfl (I.hin 14 1 inb_S26x4x128_S1x1x128_14_1_0 squeezes_S1x1x128_S128) (k0_off35 L 128#32) (k0_off35_eq L 1) (k0_off35_inb L hc 1) (pay33 I) (rd33 I)
theorem inv33 (H : Hyp I tbl col pay) : ∀ j' < 34, ∀ i ∈ Step.blkSet L 7 j', outAt33 I hc i = Cert.Spec.G tbl col i :=
  Step.out_step L 7 (Cert.Spec.G tbl col) 33 (k0_off35 L 128#32) (k0_off35_eq L 1) (k0_off35_inb L hc 1) (outAt32 I hc) (pay33 I) (payG33 I hc H)
    (inv32 I hc H)
theorem rd34 : (Rn 6 inb_S7x128x128_S1x128x128_6_0_0).view.read (Elt F) (rowsAt39 I) = gp34 I :=
  ((Rn_read_miss 6 4 inb_S7x128x128_S1x128x128_6_0_0 inb_S7x128x128_S1x128x128_4_0_0 (by decide) (rowsAt38 I) (gp39 I)).trans ((Rn_read_miss 6 3 inb_S7x128x128_S1x128x128_6_0_0 inb_S7x128x128_S1x128x128_3_0_0 (by decide) (rowsAt37 I) (gp38 I)).trans ((Rn_read_miss 6 2 inb_S7x128x128_S1x128x128_6_0_0 inb_S7x128x128_S1x128x128_2_0_0 (by decide) (rowsAt36 I) (gp37 I)).trans ((Rn_read_miss 6 1 inb_S7x128x128_S1x128x128_6_0_0 inb_S7x128x128_S1x128x128_1_0_0 (by decide) (rowsAt35 I) (gp36 I)).trans ((Rn_read_miss 6 0 inb_S7x128x128_S1x128x128_6_0_0 inb_S7x128x128_S1x128x128_0_0_0 (by decide) (rowsAt34 I) (gp35 I)).trans (Rn_read_hit 6 inb_S7x128x128_S1x128x128_6_0_0 (rowsAt33 I) (gp34 I)))))))
theorem payG34 (H : Hyp I tbl col pay) : ∀ y, pay34 I y = Cert.Spec.G tbl col ((Rect.unit (s := S16384x3328) (k0_off36 L 128#32) S128x128.size (k0_off36_inb L hc 1)).emb y) :=
  Step.item_payload tbl col H.hr L pay H.hpay I.fi H.hfi 15 1 inb_S26x4x128_S1x1x128_15_1_0 squeezes_S1x1x128_S128
    _ ((Step.read_full (View.whole main_arg41_scv) inb_S1000x128_S1000x128_0_0 I.ft15).trans H.ht15.symm)
    rfl (I.hin 15 1 inb_S26x4x128_S1x1x128_15_1_0 squeezes_S1x1x128_S128) (k0_off36 L 128#32) (k0_off36_eq L 1) (k0_off36_inb L hc 1) (pay34 I) (rd34 I)
theorem inv34 (H : Hyp I tbl col pay) : ∀ j' < 35, ∀ i ∈ Step.blkSet L 7 j', outAt34 I hc i = Cert.Spec.G tbl col i :=
  Step.out_step L 7 (Cert.Spec.G tbl col) 34 (k0_off36 L 128#32) (k0_off36_eq L 1) (k0_off36_inb L hc 1) (outAt33 I hc) (pay34 I) (payG34 I hc H)
    (inv33 I hc H)
theorem rd35 : (Rn 0 inb_S7x128x128_S1x128x128_0_0_0).view.read (Elt F) (rowsAt40 I) = gp35 I :=
  ((Rn_read_miss 0 5 inb_S7x128x128_S1x128x128_0_0_0 inb_S7x128x128_S1x128x128_5_0_0 (by decide) (rowsAt39 I) (gp40 I)).trans ((Rn_read_miss 0 4 inb_S7x128x128_S1x128x128_0_0_0 inb_S7x128x128_S1x128x128_4_0_0 (by decide) (rowsAt38 I) (gp39 I)).trans ((Rn_read_miss 0 3 inb_S7x128x128_S1x128x128_0_0_0 inb_S7x128x128_S1x128x128_3_0_0 (by decide) (rowsAt37 I) (gp38 I)).trans ((Rn_read_miss 0 2 inb_S7x128x128_S1x128x128_0_0_0 inb_S7x128x128_S1x128x128_2_0_0 (by decide) (rowsAt36 I) (gp37 I)).trans ((Rn_read_miss 0 1 inb_S7x128x128_S1x128x128_0_0_0 inb_S7x128x128_S1x128x128_1_0_0 (by decide) (rowsAt35 I) (gp36 I)).trans (Rn_read_hit 0 inb_S7x128x128_S1x128x128_0_0_0 (rowsAt34 I) (gp35 I)))))))
theorem payG35 (H : Hyp I tbl col pay) : ∀ y, pay35 I y = Cert.Spec.G tbl col ((Rect.unit (s := S16384x3328) (k0_off37 L 128#32) S128x128.size (k0_off37_inb L hc 1)).emb y) :=
  Step.item_payload tbl col H.hr L pay H.hpay I.fi H.hfi 16 1 inb_S26x4x128_S1x1x128_16_1_0 squeezes_S1x1x128_S128
    _ ((Step.read_full (View.whole main_arg42_scv) inb_S1000x128_S1000x128_0_0 I.ft16).trans H.ht16.symm)
    rfl (I.hin 16 1 inb_S26x4x128_S1x1x128_16_1_0 squeezes_S1x1x128_S128) (k0_off37 L 128#32) (k0_off37_eq L 1) (k0_off37_inb L hc 1) (pay35 I) (rd35 I)
theorem inv35 (H : Hyp I tbl col pay) : ∀ j' < 36, ∀ i ∈ Step.blkSet L 7 j', outAt35 I hc i = Cert.Spec.G tbl col i :=
  Step.out_step L 7 (Cert.Spec.G tbl col) 35 (k0_off37 L 128#32) (k0_off37_eq L 1) (k0_off37_inb L hc 1) (outAt34 I hc) (pay35 I) (payG35 I hc H)
    (inv34 I hc H)
theorem rd36 : (Rn 1 inb_S7x128x128_S1x128x128_1_0_0).view.read (Elt F) (rowsAt41 I) = gp36 I :=
  ((Rn_read_miss 1 6 inb_S7x128x128_S1x128x128_1_0_0 inb_S7x128x128_S1x128x128_6_0_0 (by decide) (rowsAt40 I) (gp41 I)).trans ((Rn_read_miss 1 5 inb_S7x128x128_S1x128x128_1_0_0 inb_S7x128x128_S1x128x128_5_0_0 (by decide) (rowsAt39 I) (gp40 I)).trans ((Rn_read_miss 1 4 inb_S7x128x128_S1x128x128_1_0_0 inb_S7x128x128_S1x128x128_4_0_0 (by decide) (rowsAt38 I) (gp39 I)).trans ((Rn_read_miss 1 3 inb_S7x128x128_S1x128x128_1_0_0 inb_S7x128x128_S1x128x128_3_0_0 (by decide) (rowsAt37 I) (gp38 I)).trans ((Rn_read_miss 1 2 inb_S7x128x128_S1x128x128_1_0_0 inb_S7x128x128_S1x128x128_2_0_0 (by decide) (rowsAt36 I) (gp37 I)).trans (Rn_read_hit 1 inb_S7x128x128_S1x128x128_1_0_0 (rowsAt35 I) (gp36 I)))))))
theorem payG36 (H : Hyp I tbl col pay) : ∀ y, pay36 I y = Cert.Spec.G tbl col ((Rect.unit (s := S16384x3328) (k0_off38 L 128#32) S128x128.size (k0_off38_inb L hc 1)).emb y) :=
  Step.item_payload tbl col H.hr L pay H.hpay I.fi H.hfi 17 1 inb_S26x4x128_S1x1x128_17_1_0 squeezes_S1x1x128_S128
    _ ((Step.read_full (View.whole main_arg43_scv) inb_S1000x128_S1000x128_0_0 I.ft17).trans H.ht17.symm)
    rfl (I.hin 17 1 inb_S26x4x128_S1x1x128_17_1_0 squeezes_S1x1x128_S128) (k0_off38 L 128#32) (k0_off38_eq L 1) (k0_off38_inb L hc 1) (pay36 I) (rd36 I)
theorem inv36 (H : Hyp I tbl col pay) : ∀ j' < 37, ∀ i ∈ Step.blkSet L 7 j', outAt36 I hc i = Cert.Spec.G tbl col i :=
  Step.out_step L 7 (Cert.Spec.G tbl col) 36 (k0_off38 L 128#32) (k0_off38_eq L 1) (k0_off38_inb L hc 1) (outAt35 I hc) (pay36 I) (payG36 I hc H)
    (inv35 I hc H)
theorem rd37 : (Rn 2 inb_S7x128x128_S1x128x128_2_0_0).view.read (Elt F) (rowsAt42 I) = gp37 I :=
  ((Rn_read_miss 2 0 inb_S7x128x128_S1x128x128_2_0_0 inb_S7x128x128_S1x128x128_0_0_0 (by decide) (rowsAt41 I) (gp42 I)).trans ((Rn_read_miss 2 6 inb_S7x128x128_S1x128x128_2_0_0 inb_S7x128x128_S1x128x128_6_0_0 (by decide) (rowsAt40 I) (gp41 I)).trans ((Rn_read_miss 2 5 inb_S7x128x128_S1x128x128_2_0_0 inb_S7x128x128_S1x128x128_5_0_0 (by decide) (rowsAt39 I) (gp40 I)).trans ((Rn_read_miss 2 4 inb_S7x128x128_S1x128x128_2_0_0 inb_S7x128x128_S1x128x128_4_0_0 (by decide) (rowsAt38 I) (gp39 I)).trans ((Rn_read_miss 2 3 inb_S7x128x128_S1x128x128_2_0_0 inb_S7x128x128_S1x128x128_3_0_0 (by decide) (rowsAt37 I) (gp38 I)).trans (Rn_read_hit 2 inb_S7x128x128_S1x128x128_2_0_0 (rowsAt36 I) (gp37 I)))))))
theorem payG37 (H : Hyp I tbl col pay) : ∀ y, pay37 I y = Cert.Spec.G tbl col ((Rect.unit (s := S16384x3328) (k0_off39 L 128#32) S128x128.size (k0_off39_inb L hc 1)).emb y) :=
  Step.item_payload tbl col H.hr L pay H.hpay I.fi H.hfi 18 1 inb_S26x4x128_S1x1x128_18_1_0 squeezes_S1x1x128_S128
    _ ((Step.read_full (View.whole main_arg44_scv) inb_S1000x128_S1000x128_0_0 I.ft18).trans H.ht18.symm)
    rfl (I.hin 18 1 inb_S26x4x128_S1x1x128_18_1_0 squeezes_S1x1x128_S128) (k0_off39 L 128#32) (k0_off39_eq L 1) (k0_off39_inb L hc 1) (pay37 I) (rd37 I)
theorem inv37 (H : Hyp I tbl col pay) : ∀ j' < 38, ∀ i ∈ Step.blkSet L 7 j', outAt37 I hc i = Cert.Spec.G tbl col i :=
  Step.out_step L 7 (Cert.Spec.G tbl col) 37 (k0_off39 L 128#32) (k0_off39_eq L 1) (k0_off39_inb L hc 1) (outAt36 I hc) (pay37 I) (payG37 I hc H)
    (inv36 I hc H)
theorem rd38 : (Rn 3 inb_S7x128x128_S1x128x128_3_0_0).view.read (Elt F) (rowsAt43 I) = gp38 I :=
  ((Rn_read_miss 3 1 inb_S7x128x128_S1x128x128_3_0_0 inb_S7x128x128_S1x128x128_1_0_0 (by decide) (rowsAt42 I) (gp43 I)).trans ((Rn_read_miss 3 0 inb_S7x128x128_S1x128x128_3_0_0 inb_S7x128x128_S1x128x128_0_0_0 (by decide) (rowsAt41 I) (gp42 I)).trans ((Rn_read_miss 3 6 inb_S7x128x128_S1x128x128_3_0_0 inb_S7x128x128_S1x128x128_6_0_0 (by decide) (rowsAt40 I) (gp41 I)).trans ((Rn_read_miss 3 5 inb_S7x128x128_S1x128x128_3_0_0 inb_S7x128x128_S1x128x128_5_0_0 (by decide) (rowsAt39 I) (gp40 I)).trans ((Rn_read_miss 3 4 inb_S7x128x128_S1x128x128_3_0_0 inb_S7x128x128_S1x128x128_4_0_0 (by decide) (rowsAt38 I) (gp39 I)).trans (Rn_read_hit 3 inb_S7x128x128_S1x128x128_3_0_0 (rowsAt37 I) (gp38 I)))))))
theorem payG38 (H : Hyp I tbl col pay) : ∀ y, pay38 I y = Cert.Spec.G tbl col ((Rect.unit (s := S16384x3328) (k0_off40 L 128#32) S128x128.size (k0_off40_inb L hc 1)).emb y) :=
  Step.item_payload tbl col H.hr L pay H.hpay I.fi H.hfi 19 1 inb_S26x4x128_S1x1x128_19_1_0 squeezes_S1x1x128_S128
    _ ((Step.read_full (View.whole main_arg45_scv) inb_S1000x128_S1000x128_0_0 I.ft19).trans H.ht19.symm)
    rfl (I.hin 19 1 inb_S26x4x128_S1x1x128_19_1_0 squeezes_S1x1x128_S128) (k0_off40 L 128#32) (k0_off40_eq L 1) (k0_off40_inb L hc 1) (pay38 I) (rd38 I)
theorem inv38 (H : Hyp I tbl col pay) : ∀ j' < 39, ∀ i ∈ Step.blkSet L 7 j', outAt38 I hc i = Cert.Spec.G tbl col i :=
  Step.out_step L 7 (Cert.Spec.G tbl col) 38 (k0_off40 L 128#32) (k0_off40_eq L 1) (k0_off40_inb L hc 1) (outAt37 I hc) (pay38 I) (payG38 I hc H)
    (inv37 I hc H)
theorem rd39 : (Rn 4 inb_S7x128x128_S1x128x128_4_0_0).view.read (Elt F) (rowsAt44 I) = gp39 I :=
  ((Rn_read_miss 4 2 inb_S7x128x128_S1x128x128_4_0_0 inb_S7x128x128_S1x128x128_2_0_0 (by decide) (rowsAt43 I) (gp44 I)).trans ((Rn_read_miss 4 1 inb_S7x128x128_S1x128x128_4_0_0 inb_S7x128x128_S1x128x128_1_0_0 (by decide) (rowsAt42 I) (gp43 I)).trans ((Rn_read_miss 4 0 inb_S7x128x128_S1x128x128_4_0_0 inb_S7x128x128_S1x128x128_0_0_0 (by decide) (rowsAt41 I) (gp42 I)).trans ((Rn_read_miss 4 6 inb_S7x128x128_S1x128x128_4_0_0 inb_S7x128x128_S1x128x128_6_0_0 (by decide) (rowsAt40 I) (gp41 I)).trans ((Rn_read_miss 4 5 inb_S7x128x128_S1x128x128_4_0_0 inb_S7x128x128_S1x128x128_5_0_0 (by decide) (rowsAt39 I) (gp40 I)).trans (Rn_read_hit 4 inb_S7x128x128_S1x128x128_4_0_0 (rowsAt38 I) (gp39 I)))))))
theorem payG39 (H : Hyp I tbl col pay) : ∀ y, pay39 I y = Cert.Spec.G tbl col ((Rect.unit (s := S16384x3328) (k0_off41 L 128#32) S128x128.size (k0_off41_inb L hc 1)).emb y) :=
  Step.item_payload tbl col H.hr L pay H.hpay I.fi H.hfi 20 1 inb_S26x4x128_S1x1x128_20_1_0 squeezes_S1x1x128_S128
    _ ((Step.read_full (View.whole main_arg46_scv) inb_S1000x128_S1000x128_0_0 I.ft20).trans H.ht20.symm)
    rfl (I.hin 20 1 inb_S26x4x128_S1x1x128_20_1_0 squeezes_S1x1x128_S128) (k0_off41 L 128#32) (k0_off41_eq L 1) (k0_off41_inb L hc 1) (pay39 I) (rd39 I)
theorem inv39 (H : Hyp I tbl col pay) : ∀ j' < 40, ∀ i ∈ Step.blkSet L 7 j', outAt39 I hc i = Cert.Spec.G tbl col i :=
  Step.out_step L 7 (Cert.Spec.G tbl col) 39 (k0_off41 L 128#32) (k0_off41_eq L 1) (k0_off41_inb L hc 1) (outAt38 I hc) (pay39 I) (payG39 I hc H)
    (inv38 I hc H)
theorem rd40 : (Rn 5 inb_S7x128x128_S1x128x128_5_0_0).view.read (Elt F) (rowsAt45 I) = gp40 I :=
  ((Rn_read_miss 5 3 inb_S7x128x128_S1x128x128_5_0_0 inb_S7x128x128_S1x128x128_3_0_0 (by decide) (rowsAt44 I) (gp45 I)).trans ((Rn_read_miss 5 2 inb_S7x128x128_S1x128x128_5_0_0 inb_S7x128x128_S1x128x128_2_0_0 (by decide) (rowsAt43 I) (gp44 I)).trans ((Rn_read_miss 5 1 inb_S7x128x128_S1x128x128_5_0_0 inb_S7x128x128_S1x128x128_1_0_0 (by decide) (rowsAt42 I) (gp43 I)).trans ((Rn_read_miss 5 0 inb_S7x128x128_S1x128x128_5_0_0 inb_S7x128x128_S1x128x128_0_0_0 (by decide) (rowsAt41 I) (gp42 I)).trans ((Rn_read_miss 5 6 inb_S7x128x128_S1x128x128_5_0_0 inb_S7x128x128_S1x128x128_6_0_0 (by decide) (rowsAt40 I) (gp41 I)).trans (Rn_read_hit 5 inb_S7x128x128_S1x128x128_5_0_0 (rowsAt39 I) (gp40 I)))))))
theorem payG40 (H : Hyp I tbl col pay) : ∀ y, pay40 I y = Cert.Spec.G tbl col ((Rect.unit (s := S16384x3328) (k0_off42 L 128#32) S128x128.size (k0_off42_inb L hc 1)).emb y) :=
  Step.item_payload tbl col H.hr L pay H.hpay I.fi H.hfi 21 1 inb_S26x4x128_S1x1x128_21_1_0 squeezes_S1x1x128_S128
    _ ((Step.read_full (View.whole main_arg47_scv) inb_S1000x128_S1000x128_0_0 I.ft21).trans H.ht21.symm)
    rfl (I.hin 21 1 inb_S26x4x128_S1x1x128_21_1_0 squeezes_S1x1x128_S128) (k0_off42 L 128#32) (k0_off42_eq L 1) (k0_off42_inb L hc 1) (pay40 I) (rd40 I)
theorem inv40 (H : Hyp I tbl col pay) : ∀ j' < 41, ∀ i ∈ Step.blkSet L 7 j', outAt40 I hc i = Cert.Spec.G tbl col i :=
  Step.out_step L 7 (Cert.Spec.G tbl col) 40 (k0_off42 L 128#32) (k0_off42_eq L 1) (k0_off42_inb L hc 1) (outAt39 I hc) (pay40 I) (payG40 I hc H)
    (inv39 I hc H)
theorem rd41 : (Rn 6 inb_S7x128x128_S1x128x128_6_0_0).view.read (Elt F) (rowsAt46 I) = gp41 I :=
  ((Rn_read_miss 6 4 inb_S7x128x128_S1x128x128_6_0_0 inb_S7x128x128_S1x128x128_4_0_0 (by decide) (rowsAt45 I) (gp46 I)).trans ((Rn_read_miss 6 3 inb_S7x128x128_S1x128x128_6_0_0 inb_S7x128x128_S1x128x128_3_0_0 (by decide) (rowsAt44 I) (gp45 I)).trans ((Rn_read_miss 6 2 inb_S7x128x128_S1x128x128_6_0_0 inb_S7x128x128_S1x128x128_2_0_0 (by decide) (rowsAt43 I) (gp44 I)).trans ((Rn_read_miss 6 1 inb_S7x128x128_S1x128x128_6_0_0 inb_S7x128x128_S1x128x128_1_0_0 (by decide) (rowsAt42 I) (gp43 I)).trans ((Rn_read_miss 6 0 inb_S7x128x128_S1x128x128_6_0_0 inb_S7x128x128_S1x128x128_0_0_0 (by decide) (rowsAt41 I) (gp42 I)).trans (Rn_read_hit 6 inb_S7x128x128_S1x128x128_6_0_0 (rowsAt40 I) (gp41 I)))))))
theorem payG41 (H : Hyp I tbl col pay) : ∀ y, pay41 I y = Cert.Spec.G tbl col ((Rect.unit (s := S16384x3328) (k0_off43 L 128#32) S128x128.size (k0_off43_inb L hc 1)).emb y) :=
  Step.item_payload tbl col H.hr L pay H.hpay I.fi H.hfi 22 1 inb_S26x4x128_S1x1x128_22_1_0 squeezes_S1x1x128_S128
    _ ((Step.read_full (View.whole main_arg48_scv) inb_S1000x128_S1000x128_0_0 I.ft22).trans H.ht22.symm)
    rfl (I.hin 22 1 inb_S26x4x128_S1x1x128_22_1_0 squeezes_S1x1x128_S128) (k0_off43 L 128#32) (k0_off43_eq L 1) (k0_off43_inb L hc 1) (pay41 I) (rd41 I)
theorem inv41 (H : Hyp I tbl col pay) : ∀ j' < 42, ∀ i ∈ Step.blkSet L 7 j', outAt41 I hc i = Cert.Spec.G tbl col i :=
  Step.out_step L 7 (Cert.Spec.G tbl col) 41 (k0_off43 L 128#32) (k0_off43_eq L 1) (k0_off43_inb L hc 1) (outAt40 I hc) (pay41 I) (payG41 I hc H)
    (inv40 I hc H)
theorem rd42 : (Rn 0 inb_S7x128x128_S1x128x128_0_0_0).view.read (Elt F) (rowsAt47 I) = gp42 I :=
  ((Rn_read_miss 0 5 inb_S7x128x128_S1x128x128_0_0_0 inb_S7x128x128_S1x128x128_5_0_0 (by decide) (rowsAt46 I) (gp47 I)).trans ((Rn_read_miss 0 4 inb_S7x128x128_S1x128x128_0_0_0 inb_S7x128x128_S1x128x128_4_0_0 (by decide) (rowsAt45 I) (gp46 I)).trans ((Rn_read_miss 0 3 inb_S7x128x128_S1x128x128_0_0_0 inb_S7x128x128_S1x128x128_3_0_0 (by decide) (rowsAt44 I) (gp45 I)).trans ((Rn_read_miss 0 2 inb_S7x128x128_S1x128x128_0_0_0 inb_S7x128x128_S1x128x128_2_0_0 (by decide) (rowsAt43 I) (gp44 I)).trans ((Rn_read_miss 0 1 inb_S7x128x128_S1x128x128_0_0_0 inb_S7x128x128_S1x128x128_1_0_0 (by decide) (rowsAt42 I) (gp43 I)).trans (Rn_read_hit 0 inb_S7x128x128_S1x128x128_0_0_0 (rowsAt41 I) (gp42 I)))))))
theorem payG42 (H : Hyp I tbl col pay) : ∀ y, pay42 I y = Cert.Spec.G tbl col ((Rect.unit (s := S16384x3328) (k0_off44 L 128#32) S128x128.size (k0_off44_inb L hc 1)).emb y) :=
  Step.item_payload tbl col H.hr L pay H.hpay I.fi H.hfi 23 1 inb_S26x4x128_S1x1x128_23_1_0 squeezes_S1x1x128_S128
    _ ((Step.read_full (View.whole main_arg49_scv) inb_S1000x128_S1000x128_0_0 I.ft23).trans H.ht23.symm)
    rfl (I.hin 23 1 inb_S26x4x128_S1x1x128_23_1_0 squeezes_S1x1x128_S128) (k0_off44 L 128#32) (k0_off44_eq L 1) (k0_off44_inb L hc 1) (pay42 I) (rd42 I)
theorem inv42 (H : Hyp I tbl col pay) : ∀ j' < 43, ∀ i ∈ Step.blkSet L 7 j', outAt42 I hc i = Cert.Spec.G tbl col i :=
  Step.out_step L 7 (Cert.Spec.G tbl col) 42 (k0_off44 L 128#32) (k0_off44_eq L 1) (k0_off44_inb L hc 1) (outAt41 I hc) (pay42 I) (payG42 I hc H)
    (inv41 I hc H)
theorem rd43 : (Rn 1 inb_S7x128x128_S1x128x128_1_0_0).view.read (Elt F) (rowsAt48 I) = gp43 I :=
  ((Rn_read_miss 1 6 inb_S7x128x128_S1x128x128_1_0_0 inb_S7x128x128_S1x128x128_6_0_0 (by decide) (rowsAt47 I) (gp48 I)).trans ((Rn_read_miss 1 5 inb_S7x128x128_S1x128x128_1_0_0 inb_S7x128x128_S1x128x128_5_0_0 (by decide) (rowsAt46 I) (gp47 I)).trans ((Rn_read_miss 1 4 inb_S7x128x128_S1x128x128_1_0_0 inb_S7x128x128_S1x128x128_4_0_0 (by decide) (rowsAt45 I) (gp46 I)).trans ((Rn_read_miss 1 3 inb_S7x128x128_S1x128x128_1_0_0 inb_S7x128x128_S1x128x128_3_0_0 (by decide) (rowsAt44 I) (gp45 I)).trans ((Rn_read_miss 1 2 inb_S7x128x128_S1x128x128_1_0_0 inb_S7x128x128_S1x128x128_2_0_0 (by decide) (rowsAt43 I) (gp44 I)).trans (Rn_read_hit 1 inb_S7x128x128_S1x128x128_1_0_0 (rowsAt42 I) (gp43 I)))))))
theorem payG43 (H : Hyp I tbl col pay) : ∀ y, pay43 I y = Cert.Spec.G tbl col ((Rect.unit (s := S16384x3328) (k0_off45 L 128#32) S128x128.size (k0_off45_inb L hc 1)).emb y) :=
  Step.item_payload tbl col H.hr L pay H.hpay I.fi H.hfi 24 1 inb_S26x4x128_S1x1x128_24_1_0 squeezes_S1x1x128_S128
    _ ((Step.read_full (View.whole main_arg50_scv) inb_S1000x128_S1000x128_0_0 I.ft24).trans H.ht24.symm)
    rfl (I.hin 24 1 inb_S26x4x128_S1x1x128_24_1_0 squeezes_S1x1x128_S128) (k0_off45 L 128#32) (k0_off45_eq L 1) (k0_off45_inb L hc 1) (pay43 I) (rd43 I)
theorem inv43 (H : Hyp I tbl col pay) : ∀ j' < 44, ∀ i ∈ Step.blkSet L 7 j', outAt43 I hc i = Cert.Spec.G tbl col i :=
  Step.out_step L 7 (Cert.Spec.G tbl col) 43 (k0_off45 L 128#32) (k0_off45_eq L 1) (k0_off45_inb L hc 1) (outAt42 I hc) (pay43 I) (payG43 I hc H)
    (inv42 I hc H)
theorem rd44 : (Rn 2 inb_S7x128x128_S1x128x128_2_0_0).view.read (Elt F) (rowsAt49 I) = gp44 I :=
  ((Rn_read_miss 2 0 inb_S7x128x128_S1x128x128_2_0_0 inb_S7x128x128_S1x128x128_0_0_0 (by decide) (rowsAt48 I) (gp49 I)).trans ((Rn_read_miss 2 6 inb_S7x128x128_S1x128x128_2_0_0 inb_S7x128x128_S1x128x128_6_0_0 (by decide) (rowsAt47 I) (gp48 I)).trans ((Rn_read_miss 2 5 inb_S7x128x128_S1x128x128_2_0_0 inb_S7x128x128_S1x128x128_5_0_0 (by decide) (rowsAt46 I) (gp47 I)).trans ((Rn_read_miss 2 4 inb_S7x128x128_S1x128x128_2_0_0 inb_S7x128x128_S1x128x128_4_0_0 (by decide) (rowsAt45 I) (gp46 I)).trans ((Rn_read_miss 2 3 inb_S7x128x128_S1x128x128_2_0_0 inb_S7x128x128_S1x128x128_3_0_0 (by decide) (rowsAt44 I) (gp45 I)).trans (Rn_read_hit 2 inb_S7x128x128_S1x128x128_2_0_0 (rowsAt43 I) (gp44 I)))))))
theorem payG44 (H : Hyp I tbl col pay) : ∀ y, pay44 I y = Cert.Spec.G tbl col ((Rect.unit (s := S16384x3328) (k0_off46 L 128#32) S128x128.size (k0_off46_inb L hc 1)).emb y) :=
  Step.item_payload tbl col H.hr L pay H.hpay I.fi H.hfi 25 1 inb_S26x4x128_S1x1x128_25_1_0 squeezes_S1x1x128_S128
    _ ((Step.read_full (View.whole main_arg51_scv) inb_S1000x128_S1000x128_0_0 I.ft25).trans H.ht25.symm)
    rfl (I.hin 25 1 inb_S26x4x128_S1x1x128_25_1_0 squeezes_S1x1x128_S128) (k0_off46 L 128#32) (k0_off46_eq L 1) (k0_off46_inb L hc 1) (pay44 I) (rd44 I)
theorem inv44 (H : Hyp I tbl col pay) : ∀ j' < 45, ∀ i ∈ Step.blkSet L 7 j', outAt44 I hc i = Cert.Spec.G tbl col i :=
  Step.out_step L 7 (Cert.Spec.G tbl col) 44 (k0_off46 L 128#32) (k0_off46_eq L 1) (k0_off46_inb L hc 1) (outAt43 I hc) (pay44 I) (payG44 I hc H)
    (inv43 I hc H)
theorem rd45 : (Rn 3 inb_S7x128x128_S1x128x128_3_0_0).view.read (Elt F) (rowsAt50 I) = gp45 I :=
  ((Rn_read_miss 3 1 inb_S7x128x128_S1x128x128_3_0_0 inb_S7x128x128_S1x128x128_1_0_0 (by decide) (rowsAt49 I) (gp50 I)).trans ((Rn_read_miss 3 0 inb_S7x128x128_S1x128x128_3_0_0 inb_S7x128x128_S1x128x128_0_0_0 (by decide) (rowsAt48 I) (gp49 I)).trans ((Rn_read_miss 3 6 inb_S7x128x128_S1x128x128_3_0_0 inb_S7x128x128_S1x128x128_6_0_0 (by decide) (rowsAt47 I) (gp48 I)).trans ((Rn_read_miss 3 5 inb_S7x128x128_S1x128x128_3_0_0 inb_S7x128x128_S1x128x128_5_0_0 (by decide) (rowsAt46 I) (gp47 I)).trans ((Rn_read_miss 3 4 inb_S7x128x128_S1x128x128_3_0_0 inb_S7x128x128_S1x128x128_4_0_0 (by decide) (rowsAt45 I) (gp46 I)).trans (Rn_read_hit 3 inb_S7x128x128_S1x128x128_3_0_0 (rowsAt44 I) (gp45 I)))))))
theorem payG45 (H : Hyp I tbl col pay) : ∀ y, pay45 I y = Cert.Spec.G tbl col ((Rect.unit (s := S16384x3328) (k0_off47 L 128#32) S128x128.size (k0_off47_inb L hc 1)).emb y) :=
  Step.item_payload tbl col H.hr L pay H.hpay I.fi H.hfi 0 1 inb_S26x4x128_S1x1x128_0_1_0 squeezes_S1x1x128_S128
    _ ((Step.read_full (View.whole main_arg26_scv) inb_S1000x128_S1000x128_0_0 I.ft0).trans H.ht0.symm)
    rfl (I.hin 0 1 inb_S26x4x128_S1x1x128_0_1_0 squeezes_S1x1x128_S128) (k0_off47 L 128#32) (k0_off47_eq L 1) (k0_off47_inb L hc 1) (pay45 I) (rd45 I)
theorem inv45 (H : Hyp I tbl col pay) : ∀ j' < 46, ∀ i ∈ Step.blkSet L 7 j', outAt45 I hc i = Cert.Spec.G tbl col i :=
  Step.out_step L 7 (Cert.Spec.G tbl col) 45 (k0_off47 L 128#32) (k0_off47_eq L 1) (k0_off47_inb L hc 1) (outAt44 I hc) (pay45 I) (payG45 I hc H)
    (inv44 I hc H)
theorem rd46 : (Rn 4 inb_S7x128x128_S1x128x128_4_0_0).view.read (Elt F) (rowsAt51 I) = gp46 I :=
  ((Rn_read_miss 4 2 inb_S7x128x128_S1x128x128_4_0_0 inb_S7x128x128_S1x128x128_2_0_0 (by decide) (rowsAt50 I) (gp51 I)).trans ((Rn_read_miss 4 1 inb_S7x128x128_S1x128x128_4_0_0 inb_S7x128x128_S1x128x128_1_0_0 (by decide) (rowsAt49 I) (gp50 I)).trans ((Rn_read_miss 4 0 inb_S7x128x128_S1x128x128_4_0_0 inb_S7x128x128_S1x128x128_0_0_0 (by decide) (rowsAt48 I) (gp49 I)).trans ((Rn_read_miss 4 6 inb_S7x128x128_S1x128x128_4_0_0 inb_S7x128x128_S1x128x128_6_0_0 (by decide) (rowsAt47 I) (gp48 I)).trans ((Rn_read_miss 4 5 inb_S7x128x128_S1x128x128_4_0_0 inb_S7x128x128_S1x128x128_5_0_0 (by decide) (rowsAt46 I) (gp47 I)).trans (Rn_read_hit 4 inb_S7x128x128_S1x128x128_4_0_0 (rowsAt45 I) (gp46 I)))))))
theorem payG46 (H : Hyp I tbl col pay) : ∀ y, pay46 I y = Cert.Spec.G tbl col ((Rect.unit (s := S16384x3328) (k0_off48 L 128#32) S128x128.size (k0_off48_inb L hc 1)).emb y) :=
  Step.item_payload tbl col H.hr L pay H.hpay I.fi H.hfi 1 1 inb_S26x4x128_S1x1x128_1_1_0 squeezes_S1x1x128_S128
    _ ((Step.read_full (View.whole main_arg27_scv) inb_S1000x128_S1000x128_0_0 I.ft1).trans H.ht1.symm)
    rfl (I.hin 1 1 inb_S26x4x128_S1x1x128_1_1_0 squeezes_S1x1x128_S128) (k0_off48 L 128#32) (k0_off48_eq L 1) (k0_off48_inb L hc 1) (pay46 I) (rd46 I)
theorem inv46 (H : Hyp I tbl col pay) : ∀ j' < 47, ∀ i ∈ Step.blkSet L 7 j', outAt46 I hc i = Cert.Spec.G tbl col i :=
  Step.out_step L 7 (Cert.Spec.G tbl col) 46 (k0_off48 L 128#32) (k0_off48_eq L 1) (k0_off48_inb L hc 1) (outAt45 I hc) (pay46 I) (payG46 I hc H)
    (inv45 I hc H)
theorem rd47 : (Rn 5 inb_S7x128x128_S1x128x128_5_0_0).view.read (Elt F) (rowsAt52 I) = gp47 I :=
  ((Rn_read_miss 5 3 inb_S7x128x128_S1x128x128_5_0_0 inb_S7x128x128_S1x128x128_3_0_0 (by decide) (rowsAt51 I) (gp52 I)).trans ((Rn_read_miss 5 2 inb_S7x128x128_S1x128x128_5_0_0 inb_S7x128x128_S1x128x128_2_0_0 (by decide) (rowsAt50 I) (gp51 I)).trans ((Rn_read_miss 5 1 inb_S7x128x128_S1x128x128_5_0_0 inb_S7x128x128_S1x128x128_1_0_0 (by decide) (rowsAt49 I) (gp50 I)).trans ((Rn_read_miss 5 0 inb_S7x128x128_S1x128x128_5_0_0 inb_S7x128x128_S1x128x128_0_0_0 (by decide) (rowsAt48 I) (gp49 I)).trans ((Rn_read_miss 5 6 inb_S7x128x128_S1x128x128_5_0_0 inb_S7x128x128_S1x128x128_6_0_0 (by decide) (rowsAt47 I) (gp48 I)).trans (Rn_read_hit 5 inb_S7x128x128_S1x128x128_5_0_0 (rowsAt46 I) (gp47 I)))))))
theorem payG47 (H : Hyp I tbl col pay) : ∀ y, pay47 I y = Cert.Spec.G tbl col ((Rect.unit (s := S16384x3328) (k0_off49 L 128#32) S128x128.size (k0_off49_inb L hc 1)).emb y) :=
  Step.item_payload tbl col H.hr L pay H.hpay I.fi H.hfi 2 1 inb_S26x4x128_S1x1x128_2_1_0 squeezes_S1x1x128_S128
    _ ((Step.read_full (View.whole main_arg28_scv) inb_S1000x128_S1000x128_0_0 I.ft2).trans H.ht2.symm)
    rfl (I.hin 2 1 inb_S26x4x128_S1x1x128_2_1_0 squeezes_S1x1x128_S128) (k0_off49 L 128#32) (k0_off49_eq L 1) (k0_off49_inb L hc 1) (pay47 I) (rd47 I)
theorem inv47 (H : Hyp I tbl col pay) : ∀ j' < 48, ∀ i ∈ Step.blkSet L 7 j', outAt47 I hc i = Cert.Spec.G tbl col i :=
  Step.out_step L 7 (Cert.Spec.G tbl col) 47 (k0_off49 L 128#32) (k0_off49_eq L 1) (k0_off49_inb L hc 1) (outAt46 I hc) (pay47 I) (payG47 I hc H)
    (inv46 I hc H)
theorem rd48 : (Rn 6 inb_S7x128x128_S1x128x128_6_0_0).view.read (Elt F) (rowsAt53 I) = gp48 I :=
  ((Rn_read_miss 6 4 inb_S7x128x128_S1x128x128_6_0_0 inb_S7x128x128_S1x128x128_4_0_0 (by decide) (rowsAt52 I) (gp53 I)).trans ((Rn_read_miss 6 3 inb_S7x128x128_S1x128x128_6_0_0 inb_S7x128x128_S1x128x128_3_0_0 (by decide) (rowsAt51 I) (gp52 I)).trans ((Rn_read_miss 6 2 inb_S7x128x128_S1x128x128_6_0_0 inb_S7x128x128_S1x128x128_2_0_0 (by decide) (rowsAt50 I) (gp51 I)).trans ((Rn_read_miss 6 1 inb_S7x128x128_S1x128x128_6_0_0 inb_S7x128x128_S1x128x128_1_0_0 (by decide) (rowsAt49 I) (gp50 I)).trans ((Rn_read_miss 6 0 inb_S7x128x128_S1x128x128_6_0_0 inb_S7x128x128_S1x128x128_0_0_0 (by decide) (rowsAt48 I) (gp49 I)).trans (Rn_read_hit 6 inb_S7x128x128_S1x128x128_6_0_0 (rowsAt47 I) (gp48 I)))))))
theorem payG48 (H : Hyp I tbl col pay) : ∀ y, pay48 I y = Cert.Spec.G tbl col ((Rect.unit (s := S16384x3328) (k0_off50 L 128#32) S128x128.size (k0_off50_inb L hc 1)).emb y) :=
  Step.item_payload tbl col H.hr L pay H.hpay I.fi H.hfi 3 1 inb_S26x4x128_S1x1x128_3_1_0 squeezes_S1x1x128_S128
    _ ((Step.read_full (View.whole main_arg29_scv) inb_S1000x128_S1000x128_0_0 I.ft3).trans H.ht3.symm)
    rfl (I.hin 3 1 inb_S26x4x128_S1x1x128_3_1_0 squeezes_S1x1x128_S128) (k0_off50 L 128#32) (k0_off50_eq L 1) (k0_off50_inb L hc 1) (pay48 I) (rd48 I)
theorem inv48 (H : Hyp I tbl col pay) : ∀ j' < 49, ∀ i ∈ Step.blkSet L 7 j', outAt48 I hc i = Cert.Spec.G tbl col i :=
  Step.out_step L 7 (Cert.Spec.G tbl col) 48 (k0_off50 L 128#32) (k0_off50_eq L 1) (k0_off50_inb L hc 1) (outAt47 I hc) (pay48 I) (payG48 I hc H)
    (inv47 I hc H)
theorem rd49 : (Rn 0 inb_S7x128x128_S1x128x128_0_0_0).view.read (Elt F) (rowsAt54 I) = gp49 I :=
  ((Rn_read_miss 0 5 inb_S7x128x128_S1x128x128_0_0_0 inb_S7x128x128_S1x128x128_5_0_0 (by decide) (rowsAt53 I) (gp54 I)).trans ((Rn_read_miss 0 4 inb_S7x128x128_S1x128x128_0_0_0 inb_S7x128x128_S1x128x128_4_0_0 (by decide) (rowsAt52 I) (gp53 I)).trans ((Rn_read_miss 0 3 inb_S7x128x128_S1x128x128_0_0_0 inb_S7x128x128_S1x128x128_3_0_0 (by decide) (rowsAt51 I) (gp52 I)).trans ((Rn_read_miss 0 2 inb_S7x128x128_S1x128x128_0_0_0 inb_S7x128x128_S1x128x128_2_0_0 (by decide) (rowsAt50 I) (gp51 I)).trans ((Rn_read_miss 0 1 inb_S7x128x128_S1x128x128_0_0_0 inb_S7x128x128_S1x128x128_1_0_0 (by decide) (rowsAt49 I) (gp50 I)).trans (Rn_read_hit 0 inb_S7x128x128_S1x128x128_0_0_0 (rowsAt48 I) (gp49 I)))))))
theorem payG49 (H : Hyp I tbl col pay) : ∀ y, pay49 I y = Cert.Spec.G tbl col ((Rect.unit (s := S16384x3328) (k0_off51 L 128#32) S128x128.size (k0_off51_inb L hc 1)).emb y) :=
  Step.item_payload tbl col H.hr L pay H.hpay I.fi H.hfi 4 1 inb_S26x4x128_S1x1x128_4_1_0 squeezes_S1x1x128_S128
    _ ((Step.read_full (View.whole main_arg30_scv) inb_S1000x128_S1000x128_0_0 I.ft4).trans H.ht4.symm)
    rfl (I.hin 4 1 inb_S26x4x128_S1x1x128_4_1_0 squeezes_S1x1x128_S128) (k0_off51 L 128#32) (k0_off51_eq L 1) (k0_off51_inb L hc 1) (pay49 I) (rd49 I)
theorem inv49 (H : Hyp I tbl col pay) : ∀ j' < 50, ∀ i ∈ Step.blkSet L 7 j', outAt49 I hc i = Cert.Spec.G tbl col i :=
  Step.out_step L 7 (Cert.Spec.G tbl col) 49 (k0_off51 L 128#32) (k0_off51_eq L 1) (k0_off51_inb L hc 1) (outAt48 I hc) (pay49 I) (payG49 I hc H)
    (inv48 I hc H)
theorem rd50 : (Rn 1 inb_S7x128x128_S1x128x128_1_0_0).view.read (Elt F) (rowsAt55 I) = gp50 I :=
  ((Rn_read_miss 1 6 inb_S7x128x128_S1x128x128_1_0_0 inb_S7x128x128_S1x128x128_6_0_0 (by decide) (rowsAt54 I) (gp55 I)).trans ((Rn_read_miss 1 5 inb_S7x128x128_S1x128x128_1_0_0 inb_S7x128x128_S1x128x128_5_0_0 (by decide) (rowsAt53 I) (gp54 I)).trans ((Rn_read_miss 1 4 inb_S7x128x128_S1x128x128_1_0_0 inb_S7x128x128_S1x128x128_4_0_0 (by decide) (rowsAt52 I) (gp53 I)).trans ((Rn_read_miss 1 3 inb_S7x128x128_S1x128x128_1_0_0 inb_S7x128x128_S1x128x128_3_0_0 (by decide) (rowsAt51 I) (gp52 I)).trans ((Rn_read_miss 1 2 inb_S7x128x128_S1x128x128_1_0_0 inb_S7x128x128_S1x128x128_2_0_0 (by decide) (rowsAt50 I) (gp51 I)).trans (Rn_read_hit 1 inb_S7x128x128_S1x128x128_1_0_0 (rowsAt49 I) (gp50 I)))))))
theorem payG50 (H : Hyp I tbl col pay) : ∀ y, pay50 I y = Cert.Spec.G tbl col ((Rect.unit (s := S16384x3328) (k0_off52 L 128#32) S128x128.size (k0_off52_inb L hc 1)).emb y) :=
  Step.item_payload tbl col H.hr L pay H.hpay I.fi H.hfi 5 1 inb_S26x4x128_S1x1x128_5_1_0 squeezes_S1x1x128_S128
    _ ((Step.read_full (View.whole main_arg31_scv) inb_S1000x128_S1000x128_0_0 I.ft5).trans H.ht5.symm)
    rfl (I.hin 5 1 inb_S26x4x128_S1x1x128_5_1_0 squeezes_S1x1x128_S128) (k0_off52 L 128#32) (k0_off52_eq L 1) (k0_off52_inb L hc 1) (pay50 I) (rd50 I)
theorem inv50 (H : Hyp I tbl col pay) : ∀ j' < 51, ∀ i ∈ Step.blkSet L 7 j', outAt50 I hc i = Cert.Spec.G tbl col i :=
  Step.out_step L 7 (Cert.Spec.G tbl col) 50 (k0_off52 L 128#32) (k0_off52_eq L 1) (k0_off52_inb L hc 1) (outAt49 I hc) (pay50 I) (payG50 I hc H)
    (inv49 I hc H)
theorem rd51 : (Rn 2 inb_S7x128x128_S1x128x128_2_0_0).view.read (Elt F) (rowsAt56 I) = gp51 I :=
  ((Rn_read_miss 2 0 inb_S7x128x128_S1x128x128_2_0_0 inb_S7x128x128_S1x128x128_0_0_0 (by decide) (rowsAt55 I) (gp56 I)).trans ((Rn_read_miss 2 6 inb_S7x128x128_S1x128x128_2_0_0 inb_S7x128x128_S1x128x128_6_0_0 (by decide) (rowsAt54 I) (gp55 I)).trans ((Rn_read_miss 2 5 inb_S7x128x128_S1x128x128_2_0_0 inb_S7x128x128_S1x128x128_5_0_0 (by decide) (rowsAt53 I) (gp54 I)).trans ((Rn_read_miss 2 4 inb_S7x128x128_S1x128x128_2_0_0 inb_S7x128x128_S1x128x128_4_0_0 (by decide) (rowsAt52 I) (gp53 I)).trans ((Rn_read_miss 2 3 inb_S7x128x128_S1x128x128_2_0_0 inb_S7x128x128_S1x128x128_3_0_0 (by decide) (rowsAt51 I) (gp52 I)).trans (Rn_read_hit 2 inb_S7x128x128_S1x128x128_2_0_0 (rowsAt50 I) (gp51 I)))))))
theorem payG51 (H : Hyp I tbl col pay) : ∀ y, pay51 I y = Cert.Spec.G tbl col ((Rect.unit (s := S16384x3328) (k0_off53 L 128#32) S128x128.size (k0_off53_inb L hc 1)).emb y) :=
  Step.item_payload tbl col H.hr L pay H.hpay I.fi H.hfi 6 1 inb_S26x4x128_S1x1x128_6_1_0 squeezes_S1x1x128_S128
    _ ((Step.read_full (View.whole main_arg32_scv) inb_S1000x128_S1000x128_0_0 I.ft6).trans H.ht6.symm)
    rfl (I.hin 6 1 inb_S26x4x128_S1x1x128_6_1_0 squeezes_S1x1x128_S128) (k0_off53 L 128#32) (k0_off53_eq L 1) (k0_off53_inb L hc 1) (pay51 I) (rd51 I)
theorem inv51 (H : Hyp I tbl col pay) : ∀ j' < 52, ∀ i ∈ Step.blkSet L 7 j', outAt51 I hc i = Cert.Spec.G tbl col i :=
  Step.out_step L 7 (Cert.Spec.G tbl col) 51 (k0_off53 L 128#32) (k0_off53_eq L 1) (k0_off53_inb L hc 1) (outAt50 I hc) (pay51 I) (payG51 I hc H)
    (inv50 I hc H)
theorem rd52 : (Rn 3 inb_S7x128x128_S1x128x128_3_0_0).view.read (Elt F) (rowsAt57 I) = gp52 I :=
  ((Rn_read_miss 3 1 inb_S7x128x128_S1x128x128_3_0_0 inb_S7x128x128_S1x128x128_1_0_0 (by decide) (rowsAt56 I) (gp57 I)).trans ((Rn_read_miss 3 0 inb_S7x128x128_S1x128x128_3_0_0 inb_S7x128x128_S1x128x128_0_0_0 (by decide) (rowsAt55 I) (gp56 I)).trans ((Rn_read_miss 3 6 inb_S7x128x128_S1x128x128_3_0_0 inb_S7x128x128_S1x128x128_6_0_0 (by decide) (rowsAt54 I) (gp55 I)).trans ((Rn_read_miss 3 5 inb_S7x128x128_S1x128x128_3_0_0 inb_S7x128x128_S1x128x128_5_0_0 (by decide) (rowsAt53 I) (gp54 I)).trans ((Rn_read_miss 3 4 inb_S7x128x128_S1x128x128_3_0_0 inb_S7x128x128_S1x128x128_4_0_0 (by decide) (rowsAt52 I) (gp53 I)).trans (Rn_read_hit 3 inb_S7x128x128_S1x128x128_3_0_0 (rowsAt51 I) (gp52 I)))))))
theorem payG52 (H : Hyp I tbl col pay) : ∀ y, pay52 I y = Cert.Spec.G tbl col ((Rect.unit (s := S16384x3328) (k0_off28 L 256#32) S128x128.size (k0_off28_inb L hc 2)).emb y) :=
  Step.item_payload tbl col H.hr L pay H.hpay I.fi H.hfi 7 2 inb_S26x4x128_S1x1x128_7_2_0 squeezes_S1x1x128_S128
    _ ((Step.read_full (View.whole main_arg33_scv) inb_S1000x128_S1000x128_0_0 I.ft7).trans H.ht7.symm)
    rfl (I.hin 7 2 inb_S26x4x128_S1x1x128_7_2_0 squeezes_S1x1x128_S128) (k0_off28 L 256#32) (k0_off28_eq L 2) (k0_off28_inb L hc 2) (pay52 I) (rd52 I)
theorem inv52 (H : Hyp I tbl col pay) : ∀ j' < 53, ∀ i ∈ Step.blkSet L 7 j', outAt52 I hc i = Cert.Spec.G tbl col i :=
  Step.out_step L 7 (Cert.Spec.G tbl col) 52 (k0_off28 L 256#32) (k0_off28_eq L 2) (k0_off28_inb L hc 2) (outAt51 I hc) (pay52 I) (payG52 I hc H)
    (inv51 I hc H)
theorem rd53 : (Rn 4 inb_S7x128x128_S1x128x128_4_0_0).view.read (Elt F) (rowsAt58 I) = gp53 I :=
  ((Rn_read_miss 4 2 inb_S7x128x128_S1x128x128_4_0_0 inb_S7x128x128_S1x128x128_2_0_0 (by decide) (rowsAt57 I) (gp58 I)).trans ((Rn_read_miss 4 1 inb_S7x128x128_S1x128x128_4_0_0 inb_S7x128x128_S1x128x128_1_0_0 (by decide) (rowsAt56 I) (gp57 I)).trans ((Rn_read_miss 4 0 inb_S7x128x128_S1x128x128_4_0_0 inb_S7x128x128_S1x128x128_0_0_0 (by decide) (rowsAt55 I) (gp56 I)).trans ((Rn_read_miss 4 6 inb_S7x128x128_S1x128x128_4_0_0 inb_S7x128x128_S1x128x128_6_0_0 (by decide) (rowsAt54 I) (gp55 I)).trans ((Rn_read_miss 4 5 inb_S7x128x128_S1x128x128_4_0_0 inb_S7x128x128_S1x128x128_5_0_0 (by decide) (rowsAt53 I) (gp54 I)).trans (Rn_read_hit 4 inb_S7x128x128_S1x128x128_4_0_0 (rowsAt52 I) (gp53 I)))))))
theorem payG53 (H : Hyp I tbl col pay) : ∀ y, pay53 I y = Cert.Spec.G tbl col ((Rect.unit (s := S16384x3328) (k0_off29 L 256#32) S128x128.size (k0_off29_inb L hc 2)).emb y) :=
  Step.item_payload tbl col H.hr L pay H.hpay I.fi H.hfi 8 2 inb_S26x4x128_S1x1x128_8_2_0 squeezes_S1x1x128_S128
    _ ((Step.read_full (View.whole main_arg34_scv) inb_S1000x128_S1000x128_0_0 I.ft8).trans H.ht8.symm)
    rfl (I.hin 8 2 inb_S26x4x128_S1x1x128_8_2_0 squeezes_S1x1x128_S128) (k0_off29 L 256#32) (k0_off29_eq L 2) (k0_off29_inb L hc 2) (pay53 I) (rd53 I)
theorem inv53 (H : Hyp I tbl col pay) : ∀ j' < 54, ∀ i ∈ Step.blkSet L 7 j', outAt53 I hc i = Cert.Spec.G tbl col i :=
  Step.out_step L 7 (Cert.Spec.G tbl col) 53 (k0_off29 L 256#32) (k0_off29_eq L 2) (k0_off29_inb L hc 2) (outAt52 I hc) (pay53 I) (payG53 I hc H)
    (inv52 I hc H)
theorem rd54 : (Rn 5 inb_S7x128x128_S1x128x128_5_0_0).view.read (Elt F) (rowsAt59 I) = gp54 I :=
  ((Rn_read_miss 5 3 inb_S7x128x128_S1x128x128_5_0_0 inb_S7x128x128_S1x128x128_3_0_0 (by decide) (rowsAt58 I) (gp59 I)).trans ((Rn_read_miss 5 2 inb_S7x128x128_S1x128x128_5_0_0 inb_S7x128x128_S1x128x128_2_0_0 (by decide) (rowsAt57 I) (gp58 I)).trans ((Rn_read_miss 5 1 inb_S7x128x128_S1x128x128_5_0_0 inb_S7x128x128_S1x128x128_1_0_0 (by decide) (rowsAt56 I) (gp57 I)).trans ((Rn_read_miss 5 0 inb_S7x128x128_S1x128x128_5_0_0 inb_S7x128x128_S1x128x128_0_0_0 (by decide) (rowsAt55 I) (gp56 I)).trans ((Rn_read_miss 5 6 inb_S7x128x128_S1x128x128_5_0_0 inb_S7x128x128_S1x128x128_6_0_0 (by decide) (rowsAt54 I) (gp55 I)).trans (Rn_read_hit 5 inb_S7x128x128_S1x128x128_5_0_0 (rowsAt53 I) (gp54 I)))))))
theorem payG54 (H : Hyp I tbl col pay) : ∀ y, pay54 I y = Cert.Spec.G tbl col ((Rect.unit (s := S16384x3328) (k0_off30 L 256#32) S128x128.size (k0_off30_inb L hc 2)).emb y) :=
  Step.item_payload tbl col H.hr L pay H.hpay I.fi H.hfi 9 2 inb_S26x4x128_S1x1x128_9_2_0 squeezes_S1x1x128_S128
    _ ((Step.read_full (View.whole main_arg35_scv) inb_S1000x128_S1000x128_0_0 I.ft9).trans H.ht9.symm)
    rfl (I.hin 9 2 inb_S26x4x128_S1x1x128_9_2_0 squeezes_S1x1x128_S128) (k0_off30 L 256#32) (k0_off30_eq L 2) (k0_off30_inb L hc 2) (pay54 I) (rd54 I)
theorem inv54 (H : Hyp I tbl col pay) : ∀ j' < 55, ∀ i ∈ Step.blkSet L 7 j', outAt54 I hc i = Cert.Spec.G tbl col i :=
  Step.out_step L 7 (Cert.Spec.G tbl col) 54 (k0_off30 L 256#32) (k0_off30_eq L 2) (k0_off30_inb L hc 2) (outAt53 I hc) (pay54 I) (payG54 I hc H)
    (inv53 I hc H)
theorem rd55 : (Rn 6 inb_S7x128x128_S1x128x128_6_0_0).view.read (Elt F) (rowsAt60 I) = gp55 I :=
  ((Rn_read_miss 6 4 inb_S7x128x128_S1x128x128_6_0_0 inb_S7x128x128_S1x128x128_4_0_0 (by decide) (rowsAt59 I) (gp60 I)).trans ((Rn_read_miss 6 3 inb_S7x128x128_S1x128x128_6_0_0 inb_S7x128x128_S1x128x128_3_0_0 (by decide) (rowsAt58 I) (gp59 I)).trans ((Rn_read_miss 6 2 inb_S7x128x128_S1x128x128_6_0_0 inb_S7x128x128_S1x128x128_2_0_0 (by decide) (rowsAt57 I) (gp58 I)).trans ((Rn_read_miss 6 1 inb_S7x128x128_S1x128x128_6_0_0 inb_S7x128x128_S1x128x128_1_0_0 (by decide) (rowsAt56 I) (gp57 I)).trans ((Rn_read_miss 6 0 inb_S7x128x128_S1x128x128_6_0_0 inb_S7x128x128_S1x128x128_0_0_0 (by decide) (rowsAt55 I) (gp56 I)).trans (Rn_read_hit 6 inb_S7x128x128_S1x128x128_6_0_0 (rowsAt54 I) (gp55 I)))))))
theorem payG55 (H : Hyp I tbl col pay) : ∀ y, pay55 I y = Cert.Spec.G tbl col ((Rect.unit (s := S16384x3328) (k0_off31 L 256#32) S128x128.size (k0_off31_inb L hc 2)).emb y) :=
  Step.item_payload tbl col H.hr L pay H.hpay I.fi H.hfi 10 2 inb_S26x4x128_S1x1x128_10_2_0 squeezes_S1x1x128_S128
    _ ((Step.read_full (View.whole main_arg36_scv) inb_S1000x128_S1000x128_0_0 I.ft10).trans H.ht10.symm)
    rfl (I.hin 10 2 inb_S26x4x128_S1x1x128_10_2_0 squeezes_S1x1x128_S128) (k0_off31 L 256#32) (k0_off31_eq L 2) (k0_off31_inb L hc 2) (pay55 I) (rd55 I)
theorem inv55 (H : Hyp I tbl col pay) : ∀ j' < 56, ∀ i ∈ Step.blkSet L 7 j', outAt55 I hc i = Cert.Spec.G tbl col i :=
  Step.out_step L 7 (Cert.Spec.G tbl col) 55 (k0_off31 L 256#32) (k0_off31_eq L 2) (k0_off31_inb L hc 2) (outAt54 I hc) (pay55 I) (payG55 I hc H)
    (inv54 I hc H)
theorem rd56 : (Rn 0 inb_S7x128x128_S1x128x128_0_0_0).view.read (Elt F) (rowsAt61 I) = gp56 I :=
  ((Rn_read_miss 0 5 inb_S7x128x128_S1x128x128_0_0_0 inb_S7x128x128_S1x128x128_5_0_0 (by decide) (rowsAt60 I) (gp61 I)).trans ((Rn_read_miss 0 4 inb_S7x128x128_S1x128x128_0_0_0 inb_S7x128x128_S1x128x128_4_0_0 (by decide) (rowsAt59 I) (gp60 I)).trans ((Rn_read_miss 0 3 inb_S7x128x128_S1x128x128_0_0_0 inb_S7x128x128_S1x128x128_3_0_0 (by decide) (rowsAt58 I) (gp59 I)).trans ((Rn_read_miss 0 2 inb_S7x128x128_S1x128x128_0_0_0 inb_S7x128x128_S1x128x128_2_0_0 (by decide) (rowsAt57 I) (gp58 I)).trans ((Rn_read_miss 0 1 inb_S7x128x128_S1x128x128_0_0_0 inb_S7x128x128_S1x128x128_1_0_0 (by decide) (rowsAt56 I) (gp57 I)).trans (Rn_read_hit 0 inb_S7x128x128_S1x128x128_0_0_0 (rowsAt55 I) (gp56 I)))))))
theorem payG56 (H : Hyp I tbl col pay) : ∀ y, pay56 I y = Cert.Spec.G tbl col ((Rect.unit (s := S16384x3328) (k0_off32 L 256#32) S128x128.size (k0_off32_inb L hc 2)).emb y) :=
  Step.item_payload tbl col H.hr L pay H.hpay I.fi H.hfi 11 2 inb_S26x4x128_S1x1x128_11_2_0 squeezes_S1x1x128_S128
    _ ((Step.read_full (View.whole main_arg37_scv) inb_S1000x128_S1000x128_0_0 I.ft11).trans H.ht11.symm)
    rfl (I.hin 11 2 inb_S26x4x128_S1x1x128_11_2_0 squeezes_S1x1x128_S128) (k0_off32 L 256#32) (k0_off32_eq L 2) (k0_off32_inb L hc 2) (pay56 I) (rd56 I)
theorem inv56 (H : Hyp I tbl col pay) : ∀ j' < 57, ∀ i ∈ Step.blkSet L 7 j', outAt56 I hc i = Cert.Spec.G tbl col i :=
  Step.out_step L 7 (Cert.Spec.G tbl col) 56 (k0_off32 L 256#32) (k0_off32_eq L 2) (k0_off32_inb L hc 2) (outAt55 I hc) (pay56 I) (payG56 I hc H)
    (inv55 I hc H)
theorem rd57 : (Rn 1 inb_S7x128x128_S1x128x128_1_0_0).view.read (Elt F) (rowsAt62 I) = gp57 I :=
  ((Rn_read_miss 1 6 inb_S7x128x128_S1x128x128_1_0_0 inb_S7x128x128_S1x128x128_6_0_0 (by decide) (rowsAt61 I) (gp62 I)).trans ((Rn_read_miss 1 5 inb_S7x128x128_S1x128x128_1_0_0 inb_S7x128x128_S1x128x128_5_0_0 (by decide) (rowsAt60 I) (gp61 I)).trans ((Rn_read_miss 1 4 inb_S7x128x128_S1x128x128_1_0_0 inb_S7x128x128_S1x128x128_4_0_0 (by decide) (rowsAt59 I) (gp60 I)).trans ((Rn_read_miss 1 3 inb_S7x128x128_S1x128x128_1_0_0 inb_S7x128x128_S1x128x128_3_0_0 (by decide) (rowsAt58 I) (gp59 I)).trans ((Rn_read_miss 1 2 inb_S7x128x128_S1x128x128_1_0_0 inb_S7x128x128_S1x128x128_2_0_0 (by decide) (rowsAt57 I) (gp58 I)).trans (Rn_read_hit 1 inb_S7x128x128_S1x128x128_1_0_0 (rowsAt56 I) (gp57 I)))))))
theorem payG57 (H : Hyp I tbl col pay) : ∀ y, pay57 I y = Cert.Spec.G tbl col ((Rect.unit (s := S16384x3328) (k0_off33 L 256#32) S128x128.size (k0_off33_inb L hc 2)).emb y) :=
  Step.item_payload tbl col H.hr L pay H.hpay I.fi H.hfi 12 2 inb_S26x4x128_S1x1x128_12_2_0 squeezes_S1x1x128_S128
    _ ((Step.read_full (View.whole main_arg38_scv) inb_S1000x128_S1000x128_0_0 I.ft12).trans H.ht12.symm)
    rfl (I.hin 12 2 inb_S26x4x128_S1x1x128_12_2_0 squeezes_S1x1x128_S128) (k0_off33 L 256#32) (k0_off33_eq L 2) (k0_off33_inb L hc 2) (pay57 I) (rd57 I)
theorem inv57 (H : Hyp I tbl col pay) : ∀ j' < 58, ∀ i ∈ Step.blkSet L 7 j', outAt57 I hc i = Cert.Spec.G tbl col i :=
  Step.out_step L 7 (Cert.Spec.G tbl col) 57 (k0_off33 L 256#32) (k0_off33_eq L 2) (k0_off33_inb L hc 2) (outAt56 I hc) (pay57 I) (payG57 I hc H)
    (inv56 I hc H)
theorem rd58 : (Rn 2 inb_S7x128x128_S1x128x128_2_0_0).view.read (Elt F) (rowsAt63 I) = gp58 I :=
  ((Rn_read_miss 2 0 inb_S7x128x128_S1x128x128_2_0_0 inb_S7x128x128_S1x128x128_0_0_0 (by decide) (rowsAt62 I) (gp63 I)).trans ((Rn_read_miss 2 6 inb_S7x128x128_S1x128x128_2_0_0 inb_S7x128x128_S1x128x128_6_0_0 (by decide) (rowsAt61 I) (gp62 I)).trans ((Rn_read_miss 2 5 inb_S7x128x128_S1x128x128_2_0_0 inb_S7x128x128_S1x128x128_5_0_0 (by decide) (rowsAt60 I) (gp61 I)).trans ((Rn_read_miss 2 4 inb_S7x128x128_S1x128x128_2_0_0 inb_S7x128x128_S1x128x128_4_0_0 (by decide) (rowsAt59 I) (gp60 I)).trans ((Rn_read_miss 2 3 inb_S7x128x128_S1x128x128_2_0_0 inb_S7x128x128_S1x128x128_3_0_0 (by decide) (rowsAt58 I) (gp59 I)).trans (Rn_read_hit 2 inb_S7x128x128_S1x128x128_2_0_0 (rowsAt57 I) (gp58 I)))))))
theorem payG58 (H : Hyp I tbl col pay) : ∀ y, pay58 I y = Cert.Spec.G tbl col ((Rect.unit (s := S16384x3328) (k0_off34 L 256#32) S128x128.size (k0_off34_inb L hc 2)).emb y) :=
  Step.item_payload tbl col H.hr L pay H.hpay I.fi H.hfi 13 2 inb_S26x4x128_S1x1x128_13_2_0 squeezes_S1x1x128_S128
    _ ((Step.read_full (View.whole main_arg39_scv) inb_S1000x128_S1000x128_0_0 I.ft13).trans H.ht13.symm)
    rfl (I.hin 13 2 inb_S26x4x128_S1x1x128_13_2_0 squeezes_S1x1x128_S128) (k0_off34 L 256#32) (k0_off34_eq L 2) (k0_off34_inb L hc 2) (pay58 I) (rd58 I)
theorem inv58 (H : Hyp I tbl col pay) : ∀ j' < 59, ∀ i ∈ Step.blkSet L 7 j', outAt58 I hc i = Cert.Spec.G tbl col i :=
  Step.out_step L 7 (Cert.Spec.G tbl col) 58 (k0_off34 L 256#32) (k0_off34_eq L 2) (k0_off34_inb L hc 2) (outAt57 I hc) (pay58 I) (payG58 I hc H)
    (inv57 I hc H)
theorem rd59 : (Rn 3 inb_S7x128x128_S1x128x128_3_0_0).view.read (Elt F) (rowsAt64 I) = gp59 I :=
  ((Rn_read_miss 3 1 inb_S7x128x128_S1x128x128_3_0_0 inb_S7x128x128_S1x128x128_1_0_0 (by decide) (rowsAt63 I) (gp64 I)).trans ((Rn_read_miss 3 0 inb_S7x128x128_S1x128x128_3_0_0 inb_S7x128x128_S1x128x128_0_0_0 (by decide) (rowsAt62 I) (gp63 I)).trans ((Rn_read_miss 3 6 inb_S7x128x128_S1x128x128_3_0_0 inb_S7x128x128_S1x128x128_6_0_0 (by decide) (rowsAt61 I) (gp62 I)).trans ((Rn_read_miss 3 5 inb_S7x128x128_S1x128x128_3_0_0 inb_S7x128x128_S1x128x128_5_0_0 (by decide) (rowsAt60 I) (gp61 I)).trans ((Rn_read_miss 3 4 inb_S7x128x128_S1x128x128_3_0_0 inb_S7x128x128_S1x128x128_4_0_0 (by decide) (rowsAt59 I) (gp60 I)).trans (Rn_read_hit 3 inb_S7x128x128_S1x128x128_3_0_0 (rowsAt58 I) (gp59 I)))))))
theorem payG59 (H : Hyp I tbl col pay) : ∀ y, pay59 I y = Cert.Spec.G tbl col ((Rect.unit (s := S16384x3328) (k0_off35 L 256#32) S128x128.size (k0_off35_inb L hc 2)).emb y) :=
  Step.item_payload tbl col H.hr L pay H.hpay I.fi H.hfi 14 2 inb_S26x4x128_S1x1x128_14_2_0 squeezes_S1x1x128_S128
    _ ((Step.read_full (View.whole main_arg40_scv) inb_S1000x128_S1000x128_0_0 I.ft14).trans H.ht14.symm)
    rfl (I.hin 14 2 inb_S26x4x128_S1x1x128_14_2_0 squeezes_S1x1x128_S128) (k0_off35 L 256#32) (k0_off35_eq L 2) (k0_off35_inb L hc 2) (pay59 I) (rd59 I)
theorem inv59 (H : Hyp I tbl col pay) : ∀ j' < 60, ∀ i ∈ Step.blkSet L 7 j', outAt59 I hc i = Cert.Spec.G tbl col i :=
  Step.out_step L 7 (Cert.Spec.G tbl col) 59 (k0_off35 L 256#32) (k0_off35_eq L 2) (k0_off35_inb L hc 2) (outAt58 I hc) (pay59 I) (payG59 I hc H)
    (inv58 I hc H)
theorem rd60 : (Rn 4 inb_S7x128x128_S1x128x128_4_0_0).view.read (Elt F) (rowsAt65 I) = gp60 I :=
  ((Rn_read_miss 4 2 inb_S7x128x128_S1x128x128_4_0_0 inb_S7x128x128_S1x128x128_2_0_0 (by decide) (rowsAt64 I) (gp65 I)).trans ((Rn_read_miss 4 1 inb_S7x128x128_S1x128x128_4_0_0 inb_S7x128x128_S1x128x128_1_0_0 (by decide) (rowsAt63 I) (gp64 I)).trans ((Rn_read_miss 4 0 inb_S7x128x128_S1x128x128_4_0_0 inb_S7x128x128_S1x128x128_0_0_0 (by decide) (rowsAt62 I) (gp63 I)).trans ((Rn_read_miss 4 6 inb_S7x128x128_S1x128x128_4_0_0 inb_S7x128x128_S1x128x128_6_0_0 (by decide) (rowsAt61 I) (gp62 I)).trans ((Rn_read_miss 4 5 inb_S7x128x128_S1x128x128_4_0_0 inb_S7x128x128_S1x128x128_5_0_0 (by decide) (rowsAt60 I) (gp61 I)).trans (Rn_read_hit 4 inb_S7x128x128_S1x128x128_4_0_0 (rowsAt59 I) (gp60 I)))))))
theorem payG60 (H : Hyp I tbl col pay) : ∀ y, pay60 I y = Cert.Spec.G tbl col ((Rect.unit (s := S16384x3328) (k0_off36 L 256#32) S128x128.size (k0_off36_inb L hc 2)).emb y) :=
  Step.item_payload tbl col H.hr L pay H.hpay I.fi H.hfi 15 2 inb_S26x4x128_S1x1x128_15_2_0 squeezes_S1x1x128_S128
    _ ((Step.read_full (View.whole main_arg41_scv) inb_S1000x128_S1000x128_0_0 I.ft15).trans H.ht15.symm)
    rfl (I.hin 15 2 inb_S26x4x128_S1x1x128_15_2_0 squeezes_S1x1x128_S128) (k0_off36 L 256#32) (k0_off36_eq L 2) (k0_off36_inb L hc 2) (pay60 I) (rd60 I)
theorem inv60 (H : Hyp I tbl col pay) : ∀ j' < 61, ∀ i ∈ Step.blkSet L 7 j', outAt60 I hc i = Cert.Spec.G tbl col i :=
  Step.out_step L 7 (Cert.Spec.G tbl col) 60 (k0_off36 L 256#32) (k0_off36_eq L 2) (k0_off36_inb L hc 2) (outAt59 I hc) (pay60 I) (payG60 I hc H)
    (inv59 I hc H)
theorem rd61 : (Rn 5 inb_S7x128x128_S1x128x128_5_0_0).view.read (Elt F) (rowsAt66 I) = gp61 I :=
  ((Rn_read_miss 5 3 inb_S7x128x128_S1x128x128_5_0_0 inb_S7x128x128_S1x128x128_3_0_0 (by decide) (rowsAt65 I) (gp66 I)).trans ((Rn_read_miss 5 2 inb_S7x128x128_S1x128x128_5_0_0 inb_S7x128x128_S1x128x128_2_0_0 (by decide) (rowsAt64 I) (gp65 I)).trans ((Rn_read_miss 5 1 inb_S7x128x128_S1x128x128_5_0_0 inb_S7x128x128_S1x128x128_1_0_0 (by decide) (rowsAt63 I) (gp64 I)).trans ((Rn_read_miss 5 0 inb_S7x128x128_S1x128x128_5_0_0 inb_S7x128x128_S1x128x128_0_0_0 (by decide) (rowsAt62 I) (gp63 I)).trans ((Rn_read_miss 5 6 inb_S7x128x128_S1x128x128_5_0_0 inb_S7x128x128_S1x128x128_6_0_0 (by decide) (rowsAt61 I) (gp62 I)).trans (Rn_read_hit 5 inb_S7x128x128_S1x128x128_5_0_0 (rowsAt60 I) (gp61 I)))))))
theorem payG61 (H : Hyp I tbl col pay) : ∀ y, pay61 I y = Cert.Spec.G tbl col ((Rect.unit (s := S16384x3328) (k0_off37 L 256#32) S128x128.size (k0_off37_inb L hc 2)).emb y) :=
  Step.item_payload tbl col H.hr L pay H.hpay I.fi H.hfi 16 2 inb_S26x4x128_S1x1x128_16_2_0 squeezes_S1x1x128_S128
    _ ((Step.read_full (View.whole main_arg42_scv) inb_S1000x128_S1000x128_0_0 I.ft16).trans H.ht16.symm)
    rfl (I.hin 16 2 inb_S26x4x128_S1x1x128_16_2_0 squeezes_S1x1x128_S128) (k0_off37 L 256#32) (k0_off37_eq L 2) (k0_off37_inb L hc 2) (pay61 I) (rd61 I)
theorem inv61 (H : Hyp I tbl col pay) : ∀ j' < 62, ∀ i ∈ Step.blkSet L 7 j', outAt61 I hc i = Cert.Spec.G tbl col i :=
  Step.out_step L 7 (Cert.Spec.G tbl col) 61 (k0_off37 L 256#32) (k0_off37_eq L 2) (k0_off37_inb L hc 2) (outAt60 I hc) (pay61 I) (payG61 I hc H)
    (inv60 I hc H)
theorem rd62 : (Rn 6 inb_S7x128x128_S1x128x128_6_0_0).view.read (Elt F) (rowsAt67 I) = gp62 I :=
  ((Rn_read_miss 6 4 inb_S7x128x128_S1x128x128_6_0_0 inb_S7x128x128_S1x128x128_4_0_0 (by decide) (rowsAt66 I) (gp67 I)).trans ((Rn_read_miss 6 3 inb_S7x128x128_S1x128x128_6_0_0 inb_S7x128x128_S1x128x128_3_0_0 (by decide) (rowsAt65 I) (gp66 I)).trans ((Rn_read_miss 6 2 inb_S7x128x128_S1x128x128_6_0_0 inb_S7x128x128_S1x128x128_2_0_0 (by decide) (rowsAt64 I) (gp65 I)).trans ((Rn_read_miss 6 1 inb_S7x128x128_S1x128x128_6_0_0 inb_S7x128x128_S1x128x128_1_0_0 (by decide) (rowsAt63 I) (gp64 I)).trans ((Rn_read_miss 6 0 inb_S7x128x128_S1x128x128_6_0_0 inb_S7x128x128_S1x128x128_0_0_0 (by decide) (rowsAt62 I) (gp63 I)).trans (Rn_read_hit 6 inb_S7x128x128_S1x128x128_6_0_0 (rowsAt61 I) (gp62 I)))))))
theorem payG62 (H : Hyp I tbl col pay) : ∀ y, pay62 I y = Cert.Spec.G tbl col ((Rect.unit (s := S16384x3328) (k0_off38 L 256#32) S128x128.size (k0_off38_inb L hc 2)).emb y) :=
  Step.item_payload tbl col H.hr L pay H.hpay I.fi H.hfi 17 2 inb_S26x4x128_S1x1x128_17_2_0 squeezes_S1x1x128_S128
    _ ((Step.read_full (View.whole main_arg43_scv) inb_S1000x128_S1000x128_0_0 I.ft17).trans H.ht17.symm)
    rfl (I.hin 17 2 inb_S26x4x128_S1x1x128_17_2_0 squeezes_S1x1x128_S128) (k0_off38 L 256#32) (k0_off38_eq L 2) (k0_off38_inb L hc 2) (pay62 I) (rd62 I)
theorem inv62 (H : Hyp I tbl col pay) : ∀ j' < 63, ∀ i ∈ Step.blkSet L 7 j', outAt62 I hc i = Cert.Spec.G tbl col i :=
  Step.out_step L 7 (Cert.Spec.G tbl col) 62 (k0_off38 L 256#32) (k0_off38_eq L 2) (k0_off38_inb L hc 2) (outAt61 I hc) (pay62 I) (payG62 I hc H)
    (inv61 I hc H)
theorem rd63 : (Rn 0 inb_S7x128x128_S1x128x128_0_0_0).view.read (Elt F) (rowsAt68 I) = gp63 I :=
  ((Rn_read_miss 0 5 inb_S7x128x128_S1x128x128_0_0_0 inb_S7x128x128_S1x128x128_5_0_0 (by decide) (rowsAt67 I) (gp68 I)).trans ((Rn_read_miss 0 4 inb_S7x128x128_S1x128x128_0_0_0 inb_S7x128x128_S1x128x128_4_0_0 (by decide) (rowsAt66 I) (gp67 I)).trans ((Rn_read_miss 0 3 inb_S7x128x128_S1x128x128_0_0_0 inb_S7x128x128_S1x128x128_3_0_0 (by decide) (rowsAt65 I) (gp66 I)).trans ((Rn_read_miss 0 2 inb_S7x128x128_S1x128x128_0_0_0 inb_S7x128x128_S1x128x128_2_0_0 (by decide) (rowsAt64 I) (gp65 I)).trans ((Rn_read_miss 0 1 inb_S7x128x128_S1x128x128_0_0_0 inb_S7x128x128_S1x128x128_1_0_0 (by decide) (rowsAt63 I) (gp64 I)).trans (Rn_read_hit 0 inb_S7x128x128_S1x128x128_0_0_0 (rowsAt62 I) (gp63 I)))))))
theorem payG63 (H : Hyp I tbl col pay) : ∀ y, pay63 I y = Cert.Spec.G tbl col ((Rect.unit (s := S16384x3328) (k0_off39 L 256#32) S128x128.size (k0_off39_inb L hc 2)).emb y) :=
  Step.item_payload tbl col H.hr L pay H.hpay I.fi H.hfi 18 2 inb_S26x4x128_S1x1x128_18_2_0 squeezes_S1x1x128_S128
    _ ((Step.read_full (View.whole main_arg44_scv) inb_S1000x128_S1000x128_0_0 I.ft18).trans H.ht18.symm)
    rfl (I.hin 18 2 inb_S26x4x128_S1x1x128_18_2_0 squeezes_S1x1x128_S128) (k0_off39 L 256#32) (k0_off39_eq L 2) (k0_off39_inb L hc 2) (pay63 I) (rd63 I)
theorem inv63 (H : Hyp I tbl col pay) : ∀ j' < 64, ∀ i ∈ Step.blkSet L 7 j', outAt63 I hc i = Cert.Spec.G tbl col i :=
  Step.out_step L 7 (Cert.Spec.G tbl col) 63 (k0_off39 L 256#32) (k0_off39_eq L 2) (k0_off39_inb L hc 2) (outAt62 I hc) (pay63 I) (payG63 I hc H)
    (inv62 I hc H)
theorem rd64 : (Rn 1 inb_S7x128x128_S1x128x128_1_0_0).view.read (Elt F) (rowsAt69 I) = gp64 I :=
  ((Rn_read_miss 1 6 inb_S7x128x128_S1x128x128_1_0_0 inb_S7x128x128_S1x128x128_6_0_0 (by decide) (rowsAt68 I) (gp69 I)).trans ((Rn_read_miss 1 5 inb_S7x128x128_S1x128x128_1_0_0 inb_S7x128x128_S1x128x128_5_0_0 (by decide) (rowsAt67 I) (gp68 I)).trans ((Rn_read_miss 1 4 inb_S7x128x128_S1x128x128_1_0_0 inb_S7x128x128_S1x128x128_4_0_0 (by decide) (rowsAt66 I) (gp67 I)).trans ((Rn_read_miss 1 3 inb_S7x128x128_S1x128x128_1_0_0 inb_S7x128x128_S1x128x128_3_0_0 (by decide) (rowsAt65 I) (gp66 I)).trans ((Rn_read_miss 1 2 inb_S7x128x128_S1x128x128_1_0_0 inb_S7x128x128_S1x128x128_2_0_0 (by decide) (rowsAt64 I) (gp65 I)).trans (Rn_read_hit 1 inb_S7x128x128_S1x128x128_1_0_0 (rowsAt63 I) (gp64 I)))))))
theorem payG64 (H : Hyp I tbl col pay) : ∀ y, pay64 I y = Cert.Spec.G tbl col ((Rect.unit (s := S16384x3328) (k0_off40 L 256#32) S128x128.size (k0_off40_inb L hc 2)).emb y) :=
  Step.item_payload tbl col H.hr L pay H.hpay I.fi H.hfi 19 2 inb_S26x4x128_S1x1x128_19_2_0 squeezes_S1x1x128_S128
    _ ((Step.read_full (View.whole main_arg45_scv) inb_S1000x128_S1000x128_0_0 I.ft19).trans H.ht19.symm)
    rfl (I.hin 19 2 inb_S26x4x128_S1x1x128_19_2_0 squeezes_S1x1x128_S128) (k0_off40 L 256#32) (k0_off40_eq L 2) (k0_off40_inb L hc 2) (pay64 I) (rd64 I)
theorem inv64 (H : Hyp I tbl col pay) : ∀ j' < 65, ∀ i ∈ Step.blkSet L 7 j', outAt64 I hc i = Cert.Spec.G tbl col i :=
  Step.out_step L 7 (Cert.Spec.G tbl col) 64 (k0_off40 L 256#32) (k0_off40_eq L 2) (k0_off40_inb L hc 2) (outAt63 I hc) (pay64 I) (payG64 I hc H)
    (inv63 I hc H)
theorem rd65 : (Rn 2 inb_S7x128x128_S1x128x128_2_0_0).view.read (Elt F) (rowsAt70 I) = gp65 I :=
  ((Rn_read_miss 2 0 inb_S7x128x128_S1x128x128_2_0_0 inb_S7x128x128_S1x128x128_0_0_0 (by decide) (rowsAt69 I) (gp70 I)).trans ((Rn_read_miss 2 6 inb_S7x128x128_S1x128x128_2_0_0 inb_S7x128x128_S1x128x128_6_0_0 (by decide) (rowsAt68 I) (gp69 I)).trans ((Rn_read_miss 2 5 inb_S7x128x128_S1x128x128_2_0_0 inb_S7x128x128_S1x128x128_5_0_0 (by decide) (rowsAt67 I) (gp68 I)).trans ((Rn_read_miss 2 4 inb_S7x128x128_S1x128x128_2_0_0 inb_S7x128x128_S1x128x128_4_0_0 (by decide) (rowsAt66 I) (gp67 I)).trans ((Rn_read_miss 2 3 inb_S7x128x128_S1x128x128_2_0_0 inb_S7x128x128_S1x128x128_3_0_0 (by decide) (rowsAt65 I) (gp66 I)).trans (Rn_read_hit 2 inb_S7x128x128_S1x128x128_2_0_0 (rowsAt64 I) (gp65 I)))))))
theorem payG65 (H : Hyp I tbl col pay) : ∀ y, pay65 I y = Cert.Spec.G tbl col ((Rect.unit (s := S16384x3328) (k0_off41 L 256#32) S128x128.size (k0_off41_inb L hc 2)).emb y) :=
  Step.item_payload tbl col H.hr L pay H.hpay I.fi H.hfi 20 2 inb_S26x4x128_S1x1x128_20_2_0 squeezes_S1x1x128_S128
    _ ((Step.read_full (View.whole main_arg46_scv) inb_S1000x128_S1000x128_0_0 I.ft20).trans H.ht20.symm)
    rfl (I.hin 20 2 inb_S26x4x128_S1x1x128_20_2_0 squeezes_S1x1x128_S128) (k0_off41 L 256#32) (k0_off41_eq L 2) (k0_off41_inb L hc 2) (pay65 I) (rd65 I)
theorem inv65 (H : Hyp I tbl col pay) : ∀ j' < 66, ∀ i ∈ Step.blkSet L 7 j', outAt65 I hc i = Cert.Spec.G tbl col i :=
  Step.out_step L 7 (Cert.Spec.G tbl col) 65 (k0_off41 L 256#32) (k0_off41_eq L 2) (k0_off41_inb L hc 2) (outAt64 I hc) (pay65 I) (payG65 I hc H)
    (inv64 I hc H)
theorem rd66 : (Rn 3 inb_S7x128x128_S1x128x128_3_0_0).view.read (Elt F) (rowsAt71 I) = gp66 I :=
  ((Rn_read_miss 3 1 inb_S7x128x128_S1x128x128_3_0_0 inb_S7x128x128_S1x128x128_1_0_0 (by decide) (rowsAt70 I) (gp71 I)).trans ((Rn_read_miss 3 0 inb_S7x128x128_S1x128x128_3_0_0 inb_S7x128x128_S1x128x128_0_0_0 (by decide) (rowsAt69 I) (gp70 I)).trans ((Rn_read_miss 3 6 inb_S7x128x128_S1x128x128_3_0_0 inb_S7x128x128_S1x128x128_6_0_0 (by decide) (rowsAt68 I) (gp69 I)).trans ((Rn_read_miss 3 5 inb_S7x128x128_S1x128x128_3_0_0 inb_S7x128x128_S1x128x128_5_0_0 (by decide) (rowsAt67 I) (gp68 I)).trans ((Rn_read_miss 3 4 inb_S7x128x128_S1x128x128_3_0_0 inb_S7x128x128_S1x128x128_4_0_0 (by decide) (rowsAt66 I) (gp67 I)).trans (Rn_read_hit 3 inb_S7x128x128_S1x128x128_3_0_0 (rowsAt65 I) (gp66 I)))))))
theorem payG66 (H : Hyp I tbl col pay) : ∀ y, pay66 I y = Cert.Spec.G tbl col ((Rect.unit (s := S16384x3328) (k0_off42 L 256#32) S128x128.size (k0_off42_inb L hc 2)).emb y) :=
  Step.item_payload tbl col H.hr L pay H.hpay I.fi H.hfi 21 2 inb_S26x4x128_S1x1x128_21_2_0 squeezes_S1x1x128_S128
    _ ((Step.read_full (View.whole main_arg47_scv) inb_S1000x128_S1000x128_0_0 I.ft21).trans H.ht21.symm)
    rfl (I.hin 21 2 inb_S26x4x128_S1x1x128_21_2_0 squeezes_S1x1x128_S128) (k0_off42 L 256#32) (k0_off42_eq L 2) (k0_off42_inb L hc 2) (pay66 I) (rd66 I)
theorem inv66 (H : Hyp I tbl col pay) : ∀ j' < 67, ∀ i ∈ Step.blkSet L 7 j', outAt66 I hc i = Cert.Spec.G tbl col i :=
  Step.out_step L 7 (Cert.Spec.G tbl col) 66 (k0_off42 L 256#32) (k0_off42_eq L 2) (k0_off42_inb L hc 2) (outAt65 I hc) (pay66 I) (payG66 I hc H)
    (inv65 I hc H)
theorem rd67 : (Rn 4 inb_S7x128x128_S1x128x128_4_0_0).view.read (Elt F) (rowsAt72 I) = gp67 I :=
  ((Rn_read_miss 4 2 inb_S7x128x128_S1x128x128_4_0_0 inb_S7x128x128_S1x128x128_2_0_0 (by decide) (rowsAt71 I) (gp72 I)).trans ((Rn_read_miss 4 1 inb_S7x128x128_S1x128x128_4_0_0 inb_S7x128x128_S1x128x128_1_0_0 (by decide) (rowsAt70 I) (gp71 I)).trans ((Rn_read_miss 4 0 inb_S7x128x128_S1x128x128_4_0_0 inb_S7x128x128_S1x128x128_0_0_0 (by decide) (rowsAt69 I) (gp70 I)).trans ((Rn_read_miss 4 6 inb_S7x128x128_S1x128x128_4_0_0 inb_S7x128x128_S1x128x128_6_0_0 (by decide) (rowsAt68 I) (gp69 I)).trans ((Rn_read_miss 4 5 inb_S7x128x128_S1x128x128_4_0_0 inb_S7x128x128_S1x128x128_5_0_0 (by decide) (rowsAt67 I) (gp68 I)).trans (Rn_read_hit 4 inb_S7x128x128_S1x128x128_4_0_0 (rowsAt66 I) (gp67 I)))))))
theorem payG67 (H : Hyp I tbl col pay) : ∀ y, pay67 I y = Cert.Spec.G tbl col ((Rect.unit (s := S16384x3328) (k0_off43 L 256#32) S128x128.size (k0_off43_inb L hc 2)).emb y) :=
  Step.item_payload tbl col H.hr L pay H.hpay I.fi H.hfi 22 2 inb_S26x4x128_S1x1x128_22_2_0 squeezes_S1x1x128_S128
    _ ((Step.read_full (View.whole main_arg48_scv) inb_S1000x128_S1000x128_0_0 I.ft22).trans H.ht22.symm)
    rfl (I.hin 22 2 inb_S26x4x128_S1x1x128_22_2_0 squeezes_S1x1x128_S128) (k0_off43 L 256#32) (k0_off43_eq L 2) (k0_off43_inb L hc 2) (pay67 I) (rd67 I)
theorem inv67 (H : Hyp I tbl col pay) : ∀ j' < 68, ∀ i ∈ Step.blkSet L 7 j', outAt67 I hc i = Cert.Spec.G tbl col i :=
  Step.out_step L 7 (Cert.Spec.G tbl col) 67 (k0_off43 L 256#32) (k0_off43_eq L 2) (k0_off43_inb L hc 2) (outAt66 I hc) (pay67 I) (payG67 I hc H)
    (inv66 I hc H)
theorem rd68 : (Rn 5 inb_S7x128x128_S1x128x128_5_0_0).view.read (Elt F) (rowsAt73 I) = gp68 I :=
  ((Rn_read_miss 5 3 inb_S7x128x128_S1x128x128_5_0_0 inb_S7x128x128_S1x128x128_3_0_0 (by decide) (rowsAt72 I) (gp73 I)).trans ((Rn_read_miss 5 2 inb_S7x128x128_S1x128x128_5_0_0 inb_S7x128x128_S1x128x128_2_0_0 (by decide) (rowsAt71 I) (gp72 I)).trans ((Rn_read_miss 5 1 inb_S7x128x128_S1x128x128_5_0_0 inb_S7x128x128_S1x128x128_1_0_0 (by decide) (rowsAt70 I) (gp71 I)).trans ((Rn_read_miss 5 0 inb_S7x128x128_S1x128x128_5_0_0 inb_S7x128x128_S1x128x128_0_0_0 (by decide) (rowsAt69 I) (gp70 I)).trans ((Rn_read_miss 5 6 inb_S7x128x128_S1x128x128_5_0_0 inb_S7x128x128_S1x128x128_6_0_0 (by decide) (rowsAt68 I) (gp69 I)).trans (Rn_read_hit 5 inb_S7x128x128_S1x128x128_5_0_0 (rowsAt67 I) (gp68 I)))))))
theorem payG68 (H : Hyp I tbl col pay) : ∀ y, pay68 I y = Cert.Spec.G tbl col ((Rect.unit (s := S16384x3328) (k0_off44 L 256#32) S128x128.size (k0_off44_inb L hc 2)).emb y) :=
  Step.item_payload tbl col H.hr L pay H.hpay I.fi H.hfi 23 2 inb_S26x4x128_S1x1x128_23_2_0 squeezes_S1x1x128_S128
    _ ((Step.read_full (View.whole main_arg49_scv) inb_S1000x128_S1000x128_0_0 I.ft23).trans H.ht23.symm)
    rfl (I.hin 23 2 inb_S26x4x128_S1x1x128_23_2_0 squeezes_S1x1x128_S128) (k0_off44 L 256#32) (k0_off44_eq L 2) (k0_off44_inb L hc 2) (pay68 I) (rd68 I)
theorem inv68 (H : Hyp I tbl col pay) : ∀ j' < 69, ∀ i ∈ Step.blkSet L 7 j', outAt68 I hc i = Cert.Spec.G tbl col i :=
  Step.out_step L 7 (Cert.Spec.G tbl col) 68 (k0_off44 L 256#32) (k0_off44_eq L 2) (k0_off44_inb L hc 2) (outAt67 I hc) (pay68 I) (payG68 I hc H)
    (inv67 I hc H)
theorem rd69 : (Rn 6 inb_S7x128x128_S1x128x128_6_0_0).view.read (Elt F) (rowsAt74 I) = gp69 I :=
  ((Rn_read_miss 6 4 inb_S7x128x128_S1x128x128_6_0_0 inb_S7x128x128_S1x128x128_4_0_0 (by decide) (rowsAt73 I) (gp74 I)).trans ((Rn_read_miss 6 3 inb_S7x128x128_S1x128x128_6_0_0 inb_S7x128x128_S1x128x128_3_0_0 (by decide) (rowsAt72 I) (gp73 I)).trans ((Rn_read_miss 6 2 inb_S7x128x128_S1x128x128_6_0_0 inb_S7x128x128_S1x128x128_2_0_0 (by decide) (rowsAt71 I) (gp72 I)).trans ((Rn_read_miss 6 1 inb_S7x128x128_S1x128x128_6_0_0 inb_S7x128x128_S1x128x128_1_0_0 (by decide) (rowsAt70 I) (gp71 I)).trans ((Rn_read_miss 6 0 inb_S7x128x128_S1x128x128_6_0_0 inb_S7x128x128_S1x128x128_0_0_0 (by decide) (rowsAt69 I) (gp70 I)).trans (Rn_read_hit 6 inb_S7x128x128_S1x128x128_6_0_0 (rowsAt68 I) (gp69 I)))))))
theorem payG69 (H : Hyp I tbl col pay) : ∀ y, pay69 I y = Cert.Spec.G tbl col ((Rect.unit (s := S16384x3328) (k0_off45 L 256#32) S128x128.size (k0_off45_inb L hc 2)).emb y) :=
  Step.item_payload tbl col H.hr L pay H.hpay I.fi H.hfi 24 2 inb_S26x4x128_S1x1x128_24_2_0 squeezes_S1x1x128_S128
    _ ((Step.read_full (View.whole main_arg50_scv) inb_S1000x128_S1000x128_0_0 I.ft24).trans H.ht24.symm)
    rfl (I.hin 24 2 inb_S26x4x128_S1x1x128_24_2_0 squeezes_S1x1x128_S128) (k0_off45 L 256#32) (k0_off45_eq L 2) (k0_off45_inb L hc 2) (pay69 I) (rd69 I)
theorem inv69 (H : Hyp I tbl col pay) : ∀ j' < 70, ∀ i ∈ Step.blkSet L 7 j', outAt69 I hc i = Cert.Spec.G tbl col i :=
  Step.out_step L 7 (Cert.Spec.G tbl col) 69 (k0_off45 L 256#32) (k0_off45_eq L 2) (k0_off45_inb L hc 2) (outAt68 I hc) (pay69 I) (payG69 I hc H)
    (inv68 I hc H)
theorem rd70 : (Rn 0 inb_S7x128x128_S1x128x128_0_0_0).view.read (Elt F) (rowsAt75 I) = gp70 I :=
  ((Rn_read_miss 0 5 inb_S7x128x128_S1x128x128_0_0_0 inb_S7x128x128_S1x128x128_5_0_0 (by decide) (rowsAt74 I) (gp75 I)).trans ((Rn_read_miss 0 4 inb_S7x128x128_S1x128x128_0_0_0 inb_S7x128x128_S1x128x128_4_0_0 (by decide) (rowsAt73 I) (gp74 I)).trans ((Rn_read_miss 0 3 inb_S7x128x128_S1x128x128_0_0_0 inb_S7x128x128_S1x128x128_3_0_0 (by decide) (rowsAt72 I) (gp73 I)).trans ((Rn_read_miss 0 2 inb_S7x128x128_S1x128x128_0_0_0 inb_S7x128x128_S1x128x128_2_0_0 (by decide) (rowsAt71 I) (gp72 I)).trans ((Rn_read_miss 0 1 inb_S7x128x128_S1x128x128_0_0_0 inb_S7x128x128_S1x128x128_1_0_0 (by decide) (rowsAt70 I) (gp71 I)).trans (Rn_read_hit 0 inb_S7x128x128_S1x128x128_0_0_0 (rowsAt69 I) (gp70 I)))))))
theorem payG70 (H : Hyp I tbl col pay) : ∀ y, pay70 I y = Cert.Spec.G tbl col ((Rect.unit (s := S16384x3328) (k0_off46 L 256#32) S128x128.size (k0_off46_inb L hc 2)).emb y) :=
  Step.item_payload tbl col H.hr L pay H.hpay I.fi H.hfi 25 2 inb_S26x4x128_S1x1x128_25_2_0 squeezes_S1x1x128_S128
    _ ((Step.read_full (View.whole main_arg51_scv) inb_S1000x128_S1000x128_0_0 I.ft25).trans H.ht25.symm)
    rfl (I.hin 25 2 inb_S26x4x128_S1x1x128_25_2_0 squeezes_S1x1x128_S128) (k0_off46 L 256#32) (k0_off46_eq L 2) (k0_off46_inb L hc 2) (pay70 I) (rd70 I)
theorem inv70 (H : Hyp I tbl col pay) : ∀ j' < 71, ∀ i ∈ Step.blkSet L 7 j', outAt70 I hc i = Cert.Spec.G tbl col i :=
  Step.out_step L 7 (Cert.Spec.G tbl col) 70 (k0_off46 L 256#32) (k0_off46_eq L 2) (k0_off46_inb L hc 2) (outAt69 I hc) (pay70 I) (payG70 I hc H)
    (inv69 I hc H)
theorem rd71 : (Rn 1 inb_S7x128x128_S1x128x128_1_0_0).view.read (Elt F) (rowsAt76 I) = gp71 I :=
  ((Rn_read_miss 1 6 inb_S7x128x128_S1x128x128_1_0_0 inb_S7x128x128_S1x128x128_6_0_0 (by decide) (rowsAt75 I) (gp76 I)).trans ((Rn_read_miss 1 5 inb_S7x128x128_S1x128x128_1_0_0 inb_S7x128x128_S1x128x128_5_0_0 (by decide) (rowsAt74 I) (gp75 I)).trans ((Rn_read_miss 1 4 inb_S7x128x128_S1x128x128_1_0_0 inb_S7x128x128_S1x128x128_4_0_0 (by decide) (rowsAt73 I) (gp74 I)).trans ((Rn_read_miss 1 3 inb_S7x128x128_S1x128x128_1_0_0 inb_S7x128x128_S1x128x128_3_0_0 (by decide) (rowsAt72 I) (gp73 I)).trans ((Rn_read_miss 1 2 inb_S7x128x128_S1x128x128_1_0_0 inb_S7x128x128_S1x128x128_2_0_0 (by decide) (rowsAt71 I) (gp72 I)).trans (Rn_read_hit 1 inb_S7x128x128_S1x128x128_1_0_0 (rowsAt70 I) (gp71 I)))))))
theorem payG71 (H : Hyp I tbl col pay) : ∀ y, pay71 I y = Cert.Spec.G tbl col ((Rect.unit (s := S16384x3328) (k0_off47 L 256#32) S128x128.size (k0_off47_inb L hc 2)).emb y) :=
  Step.item_payload tbl col H.hr L pay H.hpay I.fi H.hfi 0 2 inb_S26x4x128_S1x1x128_0_2_0 squeezes_S1x1x128_S128
    _ ((Step.read_full (View.whole main_arg26_scv) inb_S1000x128_S1000x128_0_0 I.ft0).trans H.ht0.symm)
    rfl (I.hin 0 2 inb_S26x4x128_S1x1x128_0_2_0 squeezes_S1x1x128_S128) (k0_off47 L 256#32) (k0_off47_eq L 2) (k0_off47_inb L hc 2) (pay71 I) (rd71 I)
theorem inv71 (H : Hyp I tbl col pay) : ∀ j' < 72, ∀ i ∈ Step.blkSet L 7 j', outAt71 I hc i = Cert.Spec.G tbl col i :=
  Step.out_step L 7 (Cert.Spec.G tbl col) 71 (k0_off47 L 256#32) (k0_off47_eq L 2) (k0_off47_inb L hc 2) (outAt70 I hc) (pay71 I) (payG71 I hc H)
    (inv70 I hc H)
theorem rd72 : (Rn 2 inb_S7x128x128_S1x128x128_2_0_0).view.read (Elt F) (rowsAt77 I) = gp72 I :=
  ((Rn_read_miss 2 0 inb_S7x128x128_S1x128x128_2_0_0 inb_S7x128x128_S1x128x128_0_0_0 (by decide) (rowsAt76 I) (gp77 I)).trans ((Rn_read_miss 2 6 inb_S7x128x128_S1x128x128_2_0_0 inb_S7x128x128_S1x128x128_6_0_0 (by decide) (rowsAt75 I) (gp76 I)).trans ((Rn_read_miss 2 5 inb_S7x128x128_S1x128x128_2_0_0 inb_S7x128x128_S1x128x128_5_0_0 (by decide) (rowsAt74 I) (gp75 I)).trans ((Rn_read_miss 2 4 inb_S7x128x128_S1x128x128_2_0_0 inb_S7x128x128_S1x128x128_4_0_0 (by decide) (rowsAt73 I) (gp74 I)).trans ((Rn_read_miss 2 3 inb_S7x128x128_S1x128x128_2_0_0 inb_S7x128x128_S1x128x128_3_0_0 (by decide) (rowsAt72 I) (gp73 I)).trans (Rn_read_hit 2 inb_S7x128x128_S1x128x128_2_0_0 (rowsAt71 I) (gp72 I)))))))
theorem payG72 (H : Hyp I tbl col pay) : ∀ y, pay72 I y = Cert.Spec.G tbl col ((Rect.unit (s := S16384x3328) (k0_off48 L 256#32) S128x128.size (k0_off48_inb L hc 2)).emb y) :=
  Step.item_payload tbl col H.hr L pay H.hpay I.fi H.hfi 1 2 inb_S26x4x128_S1x1x128_1_2_0 squeezes_S1x1x128_S128
    _ ((Step.read_full (View.whole main_arg27_scv) inb_S1000x128_S1000x128_0_0 I.ft1).trans H.ht1.symm)
    rfl (I.hin 1 2 inb_S26x4x128_S1x1x128_1_2_0 squeezes_S1x1x128_S128) (k0_off48 L 256#32) (k0_off48_eq L 2) (k0_off48_inb L hc 2) (pay72 I) (rd72 I)
theorem inv72 (H : Hyp I tbl col pay) : ∀ j' < 73, ∀ i ∈ Step.blkSet L 7 j', outAt72 I hc i = Cert.Spec.G tbl col i :=
  Step.out_step L 7 (Cert.Spec.G tbl col) 72 (k0_off48 L 256#32) (k0_off48_eq L 2) (k0_off48_inb L hc 2) (outAt71 I hc) (pay72 I) (payG72 I hc H)
    (inv71 I hc H)
theorem rd73 : (Rn 3 inb_S7x128x128_S1x128x128_3_0_0).view.read (Elt F) (rowsAt78 I) = gp73 I :=
  ((Rn_read_miss 3 1 inb_S7x128x128_S1x128x128_3_0_0 inb_S7x128x128_S1x128x128_1_0_0 (by decide) (rowsAt77 I) (gp78 I)).trans ((Rn_read_miss 3 0 inb_S7x128x128_S1x128x128_3_0_0 inb_S7x128x128_S1x128x128_0_0_0 (by decide) (rowsAt76 I) (gp77 I)).trans ((Rn_read_miss 3 6 inb_S7x128x128_S1x128x128_3_0_0 inb_S7x128x128_S1x128x128_6_0_0 (by decide) (rowsAt75 I) (gp76 I)).trans ((Rn_read_miss 3 5 inb_S7x128x128_S1x128x128_3_0_0 inb_S7x128x128_S1x128x128_5_0_0 (by decide) (rowsAt74 I) (gp75 I)).trans ((Rn_read_miss 3 4 inb_S7x128x128_S1x128x128_3_0_0 inb_S7x128x128_S1x128x128_4_0_0 (by decide) (rowsAt73 I) (gp74 I)).trans (Rn_read_hit 3 inb_S7x128x128_S1x128x128_3_0_0 (rowsAt72 I) (gp73 I)))))))
theorem payG73 (H : Hyp I tbl col pay) : ∀ y, pay73 I y = Cert.Spec.G tbl col ((Rect.unit (s := S16384x3328) (k0_off49 L 256#32) S128x128.size (k0_off49_inb L hc 2)).emb y) :=
  Step.item_payload tbl col H.hr L pay H.hpay I.fi H.hfi 2 2 inb_S26x4x128_S1x1x128_2_2_0 squeezes_S1x1x128_S128
    _ ((Step.read_full (View.whole main_arg28_scv) inb_S1000x128_S1000x128_0_0 I.ft2).trans H.ht2.symm)
    rfl (I.hin 2 2 inb_S26x4x128_S1x1x128_2_2_0 squeezes_S1x1x128_S128) (k0_off49 L 256#32) (k0_off49_eq L 2) (k0_off49_inb L hc 2) (pay73 I) (rd73 I)
theorem inv73 (H : Hyp I tbl col pay) : ∀ j' < 74, ∀ i ∈ Step.blkSet L 7 j', outAt73 I hc i = Cert.Spec.G tbl col i :=
  Step.out_step L 7 (Cert.Spec.G tbl col) 73 (k0_off49 L 256#32) (k0_off49_eq L 2) (k0_off49_inb L hc 2) (outAt72 I hc) (pay73 I) (payG73 I hc H)
    (inv72 I hc H)
theorem rd74 : (Rn 4 inb_S7x128x128_S1x128x128_4_0_0).view.read (Elt F) (rowsAt79 I) = gp74 I :=
  ((Rn_read_miss 4 2 inb_S7x128x128_S1x128x128_4_0_0 inb_S7x128x128_S1x128x128_2_0_0 (by decide) (rowsAt78 I) (gp79 I)).trans ((Rn_read_miss 4 1 inb_S7x128x128_S1x128x128_4_0_0 inb_S7x128x128_S1x128x128_1_0_0 (by decide) (rowsAt77 I) (gp78 I)).trans ((Rn_read_miss 4 0 inb_S7x128x128_S1x128x128_4_0_0 inb_S7x128x128_S1x128x128_0_0_0 (by decide) (rowsAt76 I) (gp77 I)).trans ((Rn_read_miss 4 6 inb_S7x128x128_S1x128x128_4_0_0 inb_S7x128x128_S1x128x128_6_0_0 (by decide) (rowsAt75 I) (gp76 I)).trans ((Rn_read_miss 4 5 inb_S7x128x128_S1x128x128_4_0_0 inb_S7x128x128_S1x128x128_5_0_0 (by decide) (rowsAt74 I) (gp75 I)).trans (Rn_read_hit 4 inb_S7x128x128_S1x128x128_4_0_0 (rowsAt73 I) (gp74 I)))))))
theorem payG74 (H : Hyp I tbl col pay) : ∀ y, pay74 I y = Cert.Spec.G tbl col ((Rect.unit (s := S16384x3328) (k0_off50 L 256#32) S128x128.size (k0_off50_inb L hc 2)).emb y) :=
  Step.item_payload tbl col H.hr L pay H.hpay I.fi H.hfi 3 2 inb_S26x4x128_S1x1x128_3_2_0 squeezes_S1x1x128_S128
    _ ((Step.read_full (View.whole main_arg29_scv) inb_S1000x128_S1000x128_0_0 I.ft3).trans H.ht3.symm)
    rfl (I.hin 3 2 inb_S26x4x128_S1x1x128_3_2_0 squeezes_S1x1x128_S128) (k0_off50 L 256#32) (k0_off50_eq L 2) (k0_off50_inb L hc 2) (pay74 I) (rd74 I)
theorem inv74 (H : Hyp I tbl col pay) : ∀ j' < 75, ∀ i ∈ Step.blkSet L 7 j', outAt74 I hc i = Cert.Spec.G tbl col i :=
  Step.out_step L 7 (Cert.Spec.G tbl col) 74 (k0_off50 L 256#32) (k0_off50_eq L 2) (k0_off50_inb L hc 2) (outAt73 I hc) (pay74 I) (payG74 I hc H)
    (inv73 I hc H)
theorem rd75 : (Rn 5 inb_S7x128x128_S1x128x128_5_0_0).view.read (Elt F) (rowsAt80 I) = gp75 I :=
  ((Rn_read_miss 5 3 inb_S7x128x128_S1x128x128_5_0_0 inb_S7x128x128_S1x128x128_3_0_0 (by decide) (rowsAt79 I) (gp80 I)).trans ((Rn_read_miss 5 2 inb_S7x128x128_S1x128x128_5_0_0 inb_S7x128x128_S1x128x128_2_0_0 (by decide) (rowsAt78 I) (gp79 I)).trans ((Rn_read_miss 5 1 inb_S7x128x128_S1x128x128_5_0_0 inb_S7x128x128_S1x128x128_1_0_0 (by decide) (rowsAt77 I) (gp78 I)).trans ((Rn_read_miss 5 0 inb_S7x128x128_S1x128x128_5_0_0 inb_S7x128x128_S1x128x128_0_0_0 (by decide) (rowsAt76 I) (gp77 I)).trans ((Rn_read_miss 5 6 inb_S7x128x128_S1x128x128_5_0_0 inb_S7x128x128_S1x128x128_6_0_0 (by decide) (rowsAt75 I) (gp76 I)).trans (Rn_read_hit 5 inb_S7x128x128_S1x128x128_5_0_0 (rowsAt74 I) (gp75 I)))))))
theorem payG75 (H : Hyp I tbl col pay) : ∀ y, pay75 I y = Cert.Spec.G tbl col ((Rect.unit (s := S16384x3328) (k0_off51 L 256#32) S128x128.size (k0_off51_inb L hc 2)).emb y) :=
  Step.item_payload tbl col H.hr L pay H.hpay I.fi H.hfi 4 2 inb_S26x4x128_S1x1x128_4_2_0 squeezes_S1x1x128_S128
    _ ((Step.read_full (View.whole main_arg30_scv) inb_S1000x128_S1000x128_0_0 I.ft4).trans H.ht4.symm)
    rfl (I.hin 4 2 inb_S26x4x128_S1x1x128_4_2_0 squeezes_S1x1x128_S128) (k0_off51 L 256#32) (k0_off51_eq L 2) (k0_off51_inb L hc 2) (pay75 I) (rd75 I)
theorem inv75 (H : Hyp I tbl col pay) : ∀ j' < 76, ∀ i ∈ Step.blkSet L 7 j', outAt75 I hc i = Cert.Spec.G tbl col i :=
  Step.out_step L 7 (Cert.Spec.G tbl col) 75 (k0_off51 L 256#32) (k0_off51_eq L 2) (k0_off51_inb L hc 2) (outAt74 I hc) (pay75 I) (payG75 I hc H)
    (inv74 I hc H)
theorem rd76 : (Rn 6 inb_S7x128x128_S1x128x128_6_0_0).view.read (Elt F) (rowsAt81 I) = gp76 I :=
  ((Rn_read_miss 6 4 inb_S7x128x128_S1x128x128_6_0_0 inb_S7x128x128_S1x128x128_4_0_0 (by decide) (rowsAt80 I) (gp81 I)).trans ((Rn_read_miss 6 3 inb_S7x128x128_S1x128x128_6_0_0 inb_S7x128x128_S1x128x128_3_0_0 (by decide) (rowsAt79 I) (gp80 I)).trans ((Rn_read_miss 6 2 inb_S7x128x128_S1x128x128_6_0_0 inb_S7x128x128_S1x128x128_2_0_0 (by decide) (rowsAt78 I) (gp79 I)).trans ((Rn_read_miss 6 1 inb_S7x128x128_S1x128x128_6_0_0 inb_S7x128x128_S1x128x128_1_0_0 (by decide) (rowsAt77 I) (gp78 I)).trans ((Rn_read_miss 6 0 inb_S7x128x128_S1x128x128_6_0_0 inb_S7x128x128_S1x128x128_0_0_0 (by decide) (rowsAt76 I) (gp77 I)).trans (Rn_read_hit 6 inb_S7x128x128_S1x128x128_6_0_0 (rowsAt75 I) (gp76 I)))))))
theorem payG76 (H : Hyp I tbl col pay) : ∀ y, pay76 I y = Cert.Spec.G tbl col ((Rect.unit (s := S16384x3328) (k0_off52 L 256#32) S128x128.size (k0_off52_inb L hc 2)).emb y) :=
  Step.item_payload tbl col H.hr L pay H.hpay I.fi H.hfi 5 2 inb_S26x4x128_S1x1x128_5_2_0 squeezes_S1x1x128_S128
    _ ((Step.read_full (View.whole main_arg31_scv) inb_S1000x128_S1000x128_0_0 I.ft5).trans H.ht5.symm)
    rfl (I.hin 5 2 inb_S26x4x128_S1x1x128_5_2_0 squeezes_S1x1x128_S128) (k0_off52 L 256#32) (k0_off52_eq L 2) (k0_off52_inb L hc 2) (pay76 I) (rd76 I)
theorem inv76 (H : Hyp I tbl col pay) : ∀ j' < 77, ∀ i ∈ Step.blkSet L 7 j', outAt76 I hc i = Cert.Spec.G tbl col i :=
  Step.out_step L 7 (Cert.Spec.G tbl col) 76 (k0_off52 L 256#32) (k0_off52_eq L 2) (k0_off52_inb L hc 2) (outAt75 I hc) (pay76 I) (payG76 I hc H)
    (inv75 I hc H)
theorem rd77 : (Rn 0 inb_S7x128x128_S1x128x128_0_0_0).view.read (Elt F) (rowsAt82 I) = gp77 I :=
  ((Rn_read_miss 0 5 inb_S7x128x128_S1x128x128_0_0_0 inb_S7x128x128_S1x128x128_5_0_0 (by decide) (rowsAt81 I) (gp82 I)).trans ((Rn_read_miss 0 4 inb_S7x128x128_S1x128x128_0_0_0 inb_S7x128x128_S1x128x128_4_0_0 (by decide) (rowsAt80 I) (gp81 I)).trans ((Rn_read_miss 0 3 inb_S7x128x128_S1x128x128_0_0_0 inb_S7x128x128_S1x128x128_3_0_0 (by decide) (rowsAt79 I) (gp80 I)).trans ((Rn_read_miss 0 2 inb_S7x128x128_S1x128x128_0_0_0 inb_S7x128x128_S1x128x128_2_0_0 (by decide) (rowsAt78 I) (gp79 I)).trans ((Rn_read_miss 0 1 inb_S7x128x128_S1x128x128_0_0_0 inb_S7x128x128_S1x128x128_1_0_0 (by decide) (rowsAt77 I) (gp78 I)).trans (Rn_read_hit 0 inb_S7x128x128_S1x128x128_0_0_0 (rowsAt76 I) (gp77 I)))))))
theorem payG77 (H : Hyp I tbl col pay) : ∀ y, pay77 I y = Cert.Spec.G tbl col ((Rect.unit (s := S16384x3328) (k0_off53 L 256#32) S128x128.size (k0_off53_inb L hc 2)).emb y) :=
  Step.item_payload tbl col H.hr L pay H.hpay I.fi H.hfi 6 2 inb_S26x4x128_S1x1x128_6_2_0 squeezes_S1x1x128_S128
    _ ((Step.read_full (View.whole main_arg32_scv) inb_S1000x128_S1000x128_0_0 I.ft6).trans H.ht6.symm)
    rfl (I.hin 6 2 inb_S26x4x128_S1x1x128_6_2_0 squeezes_S1x1x128_S128) (k0_off53 L 256#32) (k0_off53_eq L 2) (k0_off53_inb L hc 2) (pay77 I) (rd77 I)
theorem inv77 (H : Hyp I tbl col pay) : ∀ j' < 78, ∀ i ∈ Step.blkSet L 7 j', outAt77 I hc i = Cert.Spec.G tbl col i :=
  Step.out_step L 7 (Cert.Spec.G tbl col) 77 (k0_off53 L 256#32) (k0_off53_eq L 2) (k0_off53_inb L hc 2) (outAt76 I hc) (pay77 I) (payG77 I hc H)
    (inv76 I hc H)
theorem rd78 : (Rn 1 inb_S7x128x128_S1x128x128_1_0_0).view.read (Elt F) (rowsAt83 I) = gp78 I :=
  ((Rn_read_miss 1 6 inb_S7x128x128_S1x128x128_1_0_0 inb_S7x128x128_S1x128x128_6_0_0 (by decide) (rowsAt82 I) (gp83 I)).trans ((Rn_read_miss 1 5 inb_S7x128x128_S1x128x128_1_0_0 inb_S7x128x128_S1x128x128_5_0_0 (by decide) (rowsAt81 I) (gp82 I)).trans ((Rn_read_miss 1 4 inb_S7x128x128_S1x128x128_1_0_0 inb_S7x128x128_S1x128x128_4_0_0 (by decide) (rowsAt80 I) (gp81 I)).trans ((Rn_read_miss 1 3 inb_S7x128x128_S1x128x128_1_0_0 inb_S7x128x128_S1x128x128_3_0_0 (by decide) (rowsAt79 I) (gp80 I)).trans ((Rn_read_miss 1 2 inb_S7x128x128_S1x128x128_1_0_0 inb_S7x128x128_S1x128x128_2_0_0 (by decide) (rowsAt78 I) (gp79 I)).trans (Rn_read_hit 1 inb_S7x128x128_S1x128x128_1_0_0 (rowsAt77 I) (gp78 I)))))))
theorem payG78 (H : Hyp I tbl col pay) : ∀ y, pay78 I y = Cert.Spec.G tbl col ((Rect.unit (s := S16384x3328) (k0_off28 L 384#32) S128x128.size (k0_off28_inb L hc 3)).emb y) :=
  Step.item_payload tbl col H.hr L pay H.hpay I.fi H.hfi 7 3 inb_S26x4x128_S1x1x128_7_3_0 squeezes_S1x1x128_S128
    _ ((Step.read_full (View.whole main_arg33_scv) inb_S1000x128_S1000x128_0_0 I.ft7).trans H.ht7.symm)
    rfl (I.hin 7 3 inb_S26x4x128_S1x1x128_7_3_0 squeezes_S1x1x128_S128) (k0_off28 L 384#32) (k0_off28_eq L 3) (k0_off28_inb L hc 3) (pay78 I) (rd78 I)
theorem inv78 (H : Hyp I tbl col pay) : ∀ j' < 79, ∀ i ∈ Step.blkSet L 7 j', outAt78 I hc i = Cert.Spec.G tbl col i :=
  Step.out_step L 7 (Cert.Spec.G tbl col) 78 (k0_off28 L 384#32) (k0_off28_eq L 3) (k0_off28_inb L hc 3) (outAt77 I hc) (pay78 I) (payG78 I hc H)
    (inv77 I hc H)
theorem rd79 : (Rn 2 inb_S7x128x128_S1x128x128_2_0_0).view.read (Elt F) (rowsAt84 I) = gp79 I :=
  ((Rn_read_miss 2 0 inb_S7x128x128_S1x128x128_2_0_0 inb_S7x128x128_S1x128x128_0_0_0 (by decide) (rowsAt83 I) (gp84 I)).trans ((Rn_read_miss 2 6 inb_S7x128x128_S1x128x128_2_0_0 inb_S7x128x128_S1x128x128_6_0_0 (by decide) (rowsAt82 I) (gp83 I)).trans ((Rn_read_miss 2 5 inb_S7x128x128_S1x128x128_2_0_0 inb_S7x128x128_S1x128x128_5_0_0 (by decide) (rowsAt81 I) (gp82 I)).trans ((Rn_read_miss 2 4 inb_S7x128x128_S1x128x128_2_0_0 inb_S7x128x128_S1x128x128_4_0_0 (by decide) (rowsAt80 I) (gp81 I)).trans ((Rn_read_miss 2 3 inb_S7x128x128_S1x128x128_2_0_0 inb_S7x128x128_S1x128x128_3_0_0 (by decide) (rowsAt79 I) (gp80 I)).trans (Rn_read_hit 2 inb_S7x128x128_S1x128x128_2_0_0 (rowsAt78 I) (gp79 I)))))))
theorem payG79 (H : Hyp I tbl col pay) : ∀ y, pay79 I y = Cert.Spec.G tbl col ((Rect.unit (s := S16384x3328) (k0_off29 L 384#32) S128x128.size (k0_off29_inb L hc 3)).emb y) :=
  Step.item_payload tbl col H.hr L pay H.hpay I.fi H.hfi 8 3 inb_S26x4x128_S1x1x128_8_3_0 squeezes_S1x1x128_S128
    _ ((Step.read_full (View.whole main_arg34_scv) inb_S1000x128_S1000x128_0_0 I.ft8).trans H.ht8.symm)
    rfl (I.hin 8 3 inb_S26x4x128_S1x1x128_8_3_0 squeezes_S1x1x128_S128) (k0_off29 L 384#32) (k0_off29_eq L 3) (k0_off29_inb L hc 3) (pay79 I) (rd79 I)
theorem inv79 (H : Hyp I tbl col pay) : ∀ j' < 80, ∀ i ∈ Step.blkSet L 7 j', outAt79 I hc i = Cert.Spec.G tbl col i :=
  Step.out_step L 7 (Cert.Spec.G tbl col) 79 (k0_off29 L 384#32) (k0_off29_eq L 3) (k0_off29_inb L hc 3) (outAt78 I hc) (pay79 I) (payG79 I hc H)
    (inv78 I hc H)
theorem rd80 : (Rn 3 inb_S7x128x128_S1x128x128_3_0_0).view.read (Elt F) (rowsAt85 I) = gp80 I :=
  ((Rn_read_miss 3 1 inb_S7x128x128_S1x128x128_3_0_0 inb_S7x128x128_S1x128x128_1_0_0 (by decide) (rowsAt84 I) (gp85 I)).trans ((Rn_read_miss 3 0 inb_S7x128x128_S1x128x128_3_0_0 inb_S7x128x128_S1x128x128_0_0_0 (by decide) (rowsAt83 I) (gp84 I)).trans ((Rn_read_miss 3 6 inb_S7x128x128_S1x128x128_3_0_0 inb_S7x128x128_S1x128x128_6_0_0 (by decide) (rowsAt82 I) (gp83 I)).trans ((Rn_read_miss 3 5 inb_S7x128x128_S1x128x128_3_0_0 inb_S7x128x128_S1x128x128_5_0_0 (by decide) (rowsAt81 I) (gp82 I)).trans ((Rn_read_miss 3 4 inb_S7x128x128_S1x128x128_3_0_0 inb_S7x128x128_S1x128x128_4_0_0 (by decide) (rowsAt80 I) (gp81 I)).trans (Rn_read_hit 3 inb_S7x128x128_S1x128x128_3_0_0 (rowsAt79 I) (gp80 I)))))))
theorem payG80 (H : Hyp I tbl col pay) : ∀ y, pay80 I y = Cert.Spec.G tbl col ((Rect.unit (s := S16384x3328) (k0_off30 L 384#32) S128x128.size (k0_off30_inb L hc 3)).emb y) :=
  Step.item_payload tbl col H.hr L pay H.hpay I.fi H.hfi 9 3 inb_S26x4x128_S1x1x128_9_3_0 squeezes_S1x1x128_S128
    _ ((Step.read_full (View.whole main_arg35_scv) inb_S1000x128_S1000x128_0_0 I.ft9).trans H.ht9.symm)
    rfl (I.hin 9 3 inb_S26x4x128_S1x1x128_9_3_0 squeezes_S1x1x128_S128) (k0_off30 L 384#32) (k0_off30_eq L 3) (k0_off30_inb L hc 3) (pay80 I) (rd80 I)
theorem inv80 (H : Hyp I tbl col pay) : ∀ j' < 81, ∀ i ∈ Step.blkSet L 7 j', outAt80 I hc i = Cert.Spec.G tbl col i :=
  Step.out_step L 7 (Cert.Spec.G tbl col) 80 (k0_off30 L 384#32) (k0_off30_eq L 3) (k0_off30_inb L hc 3) (outAt79 I hc) (pay80 I) (payG80 I hc H)
    (inv79 I hc H)
theorem rd81 : (Rn 4 inb_S7x128x128_S1x128x128_4_0_0).view.read (Elt F) (rowsAt86 I) = gp81 I :=
  ((Rn_read_miss 4 2 inb_S7x128x128_S1x128x128_4_0_0 inb_S7x128x128_S1x128x128_2_0_0 (by decide) (rowsAt85 I) (gp86 I)).trans ((Rn_read_miss 4 1 inb_S7x128x128_S1x128x128_4_0_0 inb_S7x128x128_S1x128x128_1_0_0 (by decide) (rowsAt84 I) (gp85 I)).trans ((Rn_read_miss 4 0 inb_S7x128x128_S1x128x128_4_0_0 inb_S7x128x128_S1x128x128_0_0_0 (by decide) (rowsAt83 I) (gp84 I)).trans ((Rn_read_miss 4 6 inb_S7x128x128_S1x128x128_4_0_0 inb_S7x128x128_S1x128x128_6_0_0 (by decide) (rowsAt82 I) (gp83 I)).trans ((Rn_read_miss 4 5 inb_S7x128x128_S1x128x128_4_0_0 inb_S7x128x128_S1x128x128_5_0_0 (by decide) (rowsAt81 I) (gp82 I)).trans (Rn_read_hit 4 inb_S7x128x128_S1x128x128_4_0_0 (rowsAt80 I) (gp81 I)))))))
theorem payG81 (H : Hyp I tbl col pay) : ∀ y, pay81 I y = Cert.Spec.G tbl col ((Rect.unit (s := S16384x3328) (k0_off31 L 384#32) S128x128.size (k0_off31_inb L hc 3)).emb y) :=
  Step.item_payload tbl col H.hr L pay H.hpay I.fi H.hfi 10 3 inb_S26x4x128_S1x1x128_10_3_0 squeezes_S1x1x128_S128
    _ ((Step.read_full (View.whole main_arg36_scv) inb_S1000x128_S1000x128_0_0 I.ft10).trans H.ht10.symm)
    rfl (I.hin 10 3 inb_S26x4x128_S1x1x128_10_3_0 squeezes_S1x1x128_S128) (k0_off31 L 384#32) (k0_off31_eq L 3) (k0_off31_inb L hc 3) (pay81 I) (rd81 I)
theorem inv81 (H : Hyp I tbl col pay) : ∀ j' < 82, ∀ i ∈ Step.blkSet L 7 j', outAt81 I hc i = Cert.Spec.G tbl col i :=
  Step.out_step L 7 (Cert.Spec.G tbl col) 81 (k0_off31 L 384#32) (k0_off31_eq L 3) (k0_off31_inb L hc 3) (outAt80 I hc) (pay81 I) (payG81 I hc H)
    (inv80 I hc H)
theorem rd82 : (Rn 5 inb_S7x128x128_S1x128x128_5_0_0).view.read (Elt F) (rowsAt87 I) = gp82 I :=
  ((Rn_read_miss 5 3 inb_S7x128x128_S1x128x128_5_0_0 inb_S7x128x128_S1x128x128_3_0_0 (by decide) (rowsAt86 I) (gp87 I)).trans ((Rn_read_miss 5 2 inb_S7x128x128_S1x128x128_5_0_0 inb_S7x128x128_S1x128x128_2_0_0 (by decide) (rowsAt85 I) (gp86 I)).trans ((Rn_read_miss 5 1 inb_S7x128x128_S1x128x128_5_0_0 inb_S7x128x128_S1x128x128_1_0_0 (by decide) (rowsAt84 I) (gp85 I)).trans ((Rn_read_miss 5 0 inb_S7x128x128_S1x128x128_5_0_0 inb_S7x128x128_S1x128x128_0_0_0 (by decide) (rowsAt83 I) (gp84 I)).trans ((Rn_read_miss 5 6 inb_S7x128x128_S1x128x128_5_0_0 inb_S7x128x128_S1x128x128_6_0_0 (by decide) (rowsAt82 I) (gp83 I)).trans (Rn_read_hit 5 inb_S7x128x128_S1x128x128_5_0_0 (rowsAt81 I) (gp82 I)))))))
theorem payG82 (H : Hyp I tbl col pay) : ∀ y, pay82 I y = Cert.Spec.G tbl col ((Rect.unit (s := S16384x3328) (k0_off32 L 384#32) S128x128.size (k0_off32_inb L hc 3)).emb y) :=
  Step.item_payload tbl col H.hr L pay H.hpay I.fi H.hfi 11 3 inb_S26x4x128_S1x1x128_11_3_0 squeezes_S1x1x128_S128
    _ ((Step.read_full (View.whole main_arg37_scv) inb_S1000x128_S1000x128_0_0 I.ft11).trans H.ht11.symm)
    rfl (I.hin 11 3 inb_S26x4x128_S1x1x128_11_3_0 squeezes_S1x1x128_S128) (k0_off32 L 384#32) (k0_off32_eq L 3) (k0_off32_inb L hc 3) (pay82 I) (rd82 I)
theorem inv82 (H : Hyp I tbl col pay) : ∀ j' < 83, ∀ i ∈ Step.blkSet L 7 j', outAt82 I hc i = Cert.Spec.G tbl col i :=
  Step.out_step L 7 (Cert.Spec.G tbl col) 82 (k0_off32 L 384#32) (k0_off32_eq L 3) (k0_off32_inb L hc 3) (outAt81 I hc) (pay82 I) (payG82 I hc H)
    (inv81 I hc H)
theorem rd83 : (Rn 6 inb_S7x128x128_S1x128x128_6_0_0).view.read (Elt F) (rowsAt88 I) = gp83 I :=
  ((Rn_read_miss 6 4 inb_S7x128x128_S1x128x128_6_0_0 inb_S7x128x128_S1x128x128_4_0_0 (by decide) (rowsAt87 I) (gp88 I)).trans ((Rn_read_miss 6 3 inb_S7x128x128_S1x128x128_6_0_0 inb_S7x128x128_S1x128x128_3_0_0 (by decide) (rowsAt86 I) (gp87 I)).trans ((Rn_read_miss 6 2 inb_S7x128x128_S1x128x128_6_0_0 inb_S7x128x128_S1x128x128_2_0_0 (by decide) (rowsAt85 I) (gp86 I)).trans ((Rn_read_miss 6 1 inb_S7x128x128_S1x128x128_6_0_0 inb_S7x128x128_S1x128x128_1_0_0 (by decide) (rowsAt84 I) (gp85 I)).trans ((Rn_read_miss 6 0 inb_S7x128x128_S1x128x128_6_0_0 inb_S7x128x128_S1x128x128_0_0_0 (by decide) (rowsAt83 I) (gp84 I)).trans (Rn_read_hit 6 inb_S7x128x128_S1x128x128_6_0_0 (rowsAt82 I) (gp83 I)))))))
theorem payG83 (H : Hyp I tbl col pay) : ∀ y, pay83 I y = Cert.Spec.G tbl col ((Rect.unit (s := S16384x3328) (k0_off33 L 384#32) S128x128.size (k0_off33_inb L hc 3)).emb y) :=
  Step.item_payload tbl col H.hr L pay H.hpay I.fi H.hfi 12 3 inb_S26x4x128_S1x1x128_12_3_0 squeezes_S1x1x128_S128
    _ ((Step.read_full (View.whole main_arg38_scv) inb_S1000x128_S1000x128_0_0 I.ft12).trans H.ht12.symm)
    rfl (I.hin 12 3 inb_S26x4x128_S1x1x128_12_3_0 squeezes_S1x1x128_S128) (k0_off33 L 384#32) (k0_off33_eq L 3) (k0_off33_inb L hc 3) (pay83 I) (rd83 I)
theorem inv83 (H : Hyp I tbl col pay) : ∀ j' < 84, ∀ i ∈ Step.blkSet L 7 j', outAt83 I hc i = Cert.Spec.G tbl col i :=
  Step.out_step L 7 (Cert.Spec.G tbl col) 83 (k0_off33 L 384#32) (k0_off33_eq L 3) (k0_off33_inb L hc 3) (outAt82 I hc) (pay83 I) (payG83 I hc H)
    (inv82 I hc H)
theorem rd84 : (Rn 0 inb_S7x128x128_S1x128x128_0_0_0).view.read (Elt F) (rowsAt89 I) = gp84 I :=
  ((Rn_read_miss 0 5 inb_S7x128x128_S1x128x128_0_0_0 inb_S7x128x128_S1x128x128_5_0_0 (by decide) (rowsAt88 I) (gp89 I)).trans ((Rn_read_miss 0 4 inb_S7x128x128_S1x128x128_0_0_0 inb_S7x128x128_S1x128x128_4_0_0 (by decide) (rowsAt87 I) (gp88 I)).trans ((Rn_read_miss 0 3 inb_S7x128x128_S1x128x128_0_0_0 inb_S7x128x128_S1x128x128_3_0_0 (by decide) (rowsAt86 I) (gp87 I)).trans ((Rn_read_miss 0 2 inb_S7x128x128_S1x128x128_0_0_0 inb_S7x128x128_S1x128x128_2_0_0 (by decide) (rowsAt85 I) (gp86 I)).trans ((Rn_read_miss 0 1 inb_S7x128x128_S1x128x128_0_0_0 inb_S7x128x128_S1x128x128_1_0_0 (by decide) (rowsAt84 I) (gp85 I)).trans (Rn_read_hit 0 inb_S7x128x128_S1x128x128_0_0_0 (rowsAt83 I) (gp84 I)))))))
theorem payG84 (H : Hyp I tbl col pay) : ∀ y, pay84 I y = Cert.Spec.G tbl col ((Rect.unit (s := S16384x3328) (k0_off34 L 384#32) S128x128.size (k0_off34_inb L hc 3)).emb y) :=
  Step.item_payload tbl col H.hr L pay H.hpay I.fi H.hfi 13 3 inb_S26x4x128_S1x1x128_13_3_0 squeezes_S1x1x128_S128
    _ ((Step.read_full (View.whole main_arg39_scv) inb_S1000x128_S1000x128_0_0 I.ft13).trans H.ht13.symm)
    rfl (I.hin 13 3 inb_S26x4x128_S1x1x128_13_3_0 squeezes_S1x1x128_S128) (k0_off34 L 384#32) (k0_off34_eq L 3) (k0_off34_inb L hc 3) (pay84 I) (rd84 I)
theorem inv84 (H : Hyp I tbl col pay) : ∀ j' < 85, ∀ i ∈ Step.blkSet L 7 j', outAt84 I hc i = Cert.Spec.G tbl col i :=
  Step.out_step L 7 (Cert.Spec.G tbl col) 84 (k0_off34 L 384#32) (k0_off34_eq L 3) (k0_off34_inb L hc 3) (outAt83 I hc) (pay84 I) (payG84 I hc H)
    (inv83 I hc H)
theorem rd85 : (Rn 1 inb_S7x128x128_S1x128x128_1_0_0).view.read (Elt F) (rowsAt90 I) = gp85 I :=
  ((Rn_read_miss 1 6 inb_S7x128x128_S1x128x128_1_0_0 inb_S7x128x128_S1x128x128_6_0_0 (by decide) (rowsAt89 I) (gp90 I)).trans ((Rn_read_miss 1 5 inb_S7x128x128_S1x128x128_1_0_0 inb_S7x128x128_S1x128x128_5_0_0 (by decide) (rowsAt88 I) (gp89 I)).trans ((Rn_read_miss 1 4 inb_S7x128x128_S1x128x128_1_0_0 inb_S7x128x128_S1x128x128_4_0_0 (by decide) (rowsAt87 I) (gp88 I)).trans ((Rn_read_miss 1 3 inb_S7x128x128_S1x128x128_1_0_0 inb_S7x128x128_S1x128x128_3_0_0 (by decide) (rowsAt86 I) (gp87 I)).trans ((Rn_read_miss 1 2 inb_S7x128x128_S1x128x128_1_0_0 inb_S7x128x128_S1x128x128_2_0_0 (by decide) (rowsAt85 I) (gp86 I)).trans (Rn_read_hit 1 inb_S7x128x128_S1x128x128_1_0_0 (rowsAt84 I) (gp85 I)))))))
theorem payG85 (H : Hyp I tbl col pay) : ∀ y, pay85 I y = Cert.Spec.G tbl col ((Rect.unit (s := S16384x3328) (k0_off35 L 384#32) S128x128.size (k0_off35_inb L hc 3)).emb y) :=
  Step.item_payload tbl col H.hr L pay H.hpay I.fi H.hfi 14 3 inb_S26x4x128_S1x1x128_14_3_0 squeezes_S1x1x128_S128
    _ ((Step.read_full (View.whole main_arg40_scv) inb_S1000x128_S1000x128_0_0 I.ft14).trans H.ht14.symm)
    rfl (I.hin 14 3 inb_S26x4x128_S1x1x128_14_3_0 squeezes_S1x1x128_S128) (k0_off35 L 384#32) (k0_off35_eq L 3) (k0_off35_inb L hc 3) (pay85 I) (rd85 I)
theorem inv85 (H : Hyp I tbl col pay) : ∀ j' < 86, ∀ i ∈ Step.blkSet L 7 j', outAt85 I hc i = Cert.Spec.G tbl col i :=
  Step.out_step L 7 (Cert.Spec.G tbl col) 85 (k0_off35 L 384#32) (k0_off35_eq L 3) (k0_off35_inb L hc 3) (outAt84 I hc) (pay85 I) (payG85 I hc H)
    (inv84 I hc H)
theorem rd86 : (Rn 2 inb_S7x128x128_S1x128x128_2_0_0).view.read (Elt F) (rowsAt91 I) = gp86 I :=
  ((Rn_read_miss 2 0 inb_S7x128x128_S1x128x128_2_0_0 inb_S7x128x128_S1x128x128_0_0_0 (by decide) (rowsAt90 I) (gp91 I)).trans ((Rn_read_miss 2 6 inb_S7x128x128_S1x128x128_2_0_0 inb_S7x128x128_S1x128x128_6_0_0 (by decide) (rowsAt89 I) (gp90 I)).trans ((Rn_read_miss 2 5 inb_S7x128x128_S1x128x128_2_0_0 inb_S7x128x128_S1x128x128_5_0_0 (by decide) (rowsAt88 I) (gp89 I)).trans ((Rn_read_miss 2 4 inb_S7x128x128_S1x128x128_2_0_0 inb_S7x128x128_S1x128x128_4_0_0 (by decide) (rowsAt87 I) (gp88 I)).trans ((Rn_read_miss 2 3 inb_S7x128x128_S1x128x128_2_0_0 inb_S7x128x128_S1x128x128_3_0_0 (by decide) (rowsAt86 I) (gp87 I)).trans (Rn_read_hit 2 inb_S7x128x128_S1x128x128_2_0_0 (rowsAt85 I) (gp86 I)))))))
theorem payG86 (H : Hyp I tbl col pay) : ∀ y, pay86 I y = Cert.Spec.G tbl col ((Rect.unit (s := S16384x3328) (k0_off36 L 384#32) S128x128.size (k0_off36_inb L hc 3)).emb y) :=
  Step.item_payload tbl col H.hr L pay H.hpay I.fi H.hfi 15 3 inb_S26x4x128_S1x1x128_15_3_0 squeezes_S1x1x128_S128
    _ ((Step.read_full (View.whole main_arg41_scv) inb_S1000x128_S1000x128_0_0 I.ft15).trans H.ht15.symm)
    rfl (I.hin 15 3 inb_S26x4x128_S1x1x128_15_3_0 squeezes_S1x1x128_S128) (k0_off36 L 384#32) (k0_off36_eq L 3) (k0_off36_inb L hc 3) (pay86 I) (rd86 I)
theorem inv86 (H : Hyp I tbl col pay) : ∀ j' < 87, ∀ i ∈ Step.blkSet L 7 j', outAt86 I hc i = Cert.Spec.G tbl col i :=
  Step.out_step L 7 (Cert.Spec.G tbl col) 86 (k0_off36 L 384#32) (k0_off36_eq L 3) (k0_off36_inb L hc 3) (outAt85 I hc) (pay86 I) (payG86 I hc H)
    (inv85 I hc H)
theorem rd87 : (Rn 3 inb_S7x128x128_S1x128x128_3_0_0).view.read (Elt F) (rowsAt92 I) = gp87 I :=
  ((Rn_read_miss 3 1 inb_S7x128x128_S1x128x128_3_0_0 inb_S7x128x128_S1x128x128_1_0_0 (by decide) (rowsAt91 I) (gp92 I)).trans ((Rn_read_miss 3 0 inb_S7x128x128_S1x128x128_3_0_0 inb_S7x128x128_S1x128x128_0_0_0 (by decide) (rowsAt90 I) (gp91 I)).trans ((Rn_read_miss 3 6 inb_S7x128x128_S1x128x128_3_0_0 inb_S7x128x128_S1x128x128_6_0_0 (by decide) (rowsAt89 I) (gp90 I)).trans ((Rn_read_miss 3 5 inb_S7x128x128_S1x128x128_3_0_0 inb_S7x128x128_S1x128x128_5_0_0 (by decide) (rowsAt88 I) (gp89 I)).trans ((Rn_read_miss 3 4 inb_S7x128x128_S1x128x128_3_0_0 inb_S7x128x128_S1x128x128_4_0_0 (by decide) (rowsAt87 I) (gp88 I)).trans (Rn_read_hit 3 inb_S7x128x128_S1x128x128_3_0_0 (rowsAt86 I) (gp87 I)))))))
theorem payG87 (H : Hyp I tbl col pay) : ∀ y, pay87 I y = Cert.Spec.G tbl col ((Rect.unit (s := S16384x3328) (k0_off37 L 384#32) S128x128.size (k0_off37_inb L hc 3)).emb y) :=
  Step.item_payload tbl col H.hr L pay H.hpay I.fi H.hfi 16 3 inb_S26x4x128_S1x1x128_16_3_0 squeezes_S1x1x128_S128
    _ ((Step.read_full (View.whole main_arg42_scv) inb_S1000x128_S1000x128_0_0 I.ft16).trans H.ht16.symm)
    rfl (I.hin 16 3 inb_S26x4x128_S1x1x128_16_3_0 squeezes_S1x1x128_S128) (k0_off37 L 384#32) (k0_off37_eq L 3) (k0_off37_inb L hc 3) (pay87 I) (rd87 I)
theorem inv87 (H : Hyp I tbl col pay) : ∀ j' < 88, ∀ i ∈ Step.blkSet L 7 j', outAt87 I hc i = Cert.Spec.G tbl col i :=
  Step.out_step L 7 (Cert.Spec.G tbl col) 87 (k0_off37 L 384#32) (k0_off37_eq L 3) (k0_off37_inb L hc 3) (outAt86 I hc) (pay87 I) (payG87 I hc H)
    (inv86 I hc H)
theorem rd88 : (Rn 4 inb_S7x128x128_S1x128x128_4_0_0).view.read (Elt F) (rowsAt93 I) = gp88 I :=
  ((Rn_read_miss 4 2 inb_S7x128x128_S1x128x128_4_0_0 inb_S7x128x128_S1x128x128_2_0_0 (by decide) (rowsAt92 I) (gp93 I)).trans ((Rn_read_miss 4 1 inb_S7x128x128_S1x128x128_4_0_0 inb_S7x128x128_S1x128x128_1_0_0 (by decide) (rowsAt91 I) (gp92 I)).trans ((Rn_read_miss 4 0 inb_S7x128x128_S1x128x128_4_0_0 inb_S7x128x128_S1x128x128_0_0_0 (by decide) (rowsAt90 I) (gp91 I)).trans ((Rn_read_miss 4 6 inb_S7x128x128_S1x128x128_4_0_0 inb_S7x128x128_S1x128x128_6_0_0 (by decide) (rowsAt89 I) (gp90 I)).trans ((Rn_read_miss 4 5 inb_S7x128x128_S1x128x128_4_0_0 inb_S7x128x128_S1x128x128_5_0_0 (by decide) (rowsAt88 I) (gp89 I)).trans (Rn_read_hit 4 inb_S7x128x128_S1x128x128_4_0_0 (rowsAt87 I) (gp88 I)))))))
theorem payG88 (H : Hyp I tbl col pay) : ∀ y, pay88 I y = Cert.Spec.G tbl col ((Rect.unit (s := S16384x3328) (k0_off38 L 384#32) S128x128.size (k0_off38_inb L hc 3)).emb y) :=
  Step.item_payload tbl col H.hr L pay H.hpay I.fi H.hfi 17 3 inb_S26x4x128_S1x1x128_17_3_0 squeezes_S1x1x128_S128
    _ ((Step.read_full (View.whole main_arg43_scv) inb_S1000x128_S1000x128_0_0 I.ft17).trans H.ht17.symm)
    rfl (I.hin 17 3 inb_S26x4x128_S1x1x128_17_3_0 squeezes_S1x1x128_S128) (k0_off38 L 384#32) (k0_off38_eq L 3) (k0_off38_inb L hc 3) (pay88 I) (rd88 I)
theorem inv88 (H : Hyp I tbl col pay) : ∀ j' < 89, ∀ i ∈ Step.blkSet L 7 j', outAt88 I hc i = Cert.Spec.G tbl col i :=
  Step.out_step L 7 (Cert.Spec.G tbl col) 88 (k0_off38 L 384#32) (k0_off38_eq L 3) (k0_off38_inb L hc 3) (outAt87 I hc) (pay88 I) (payG88 I hc H)
    (inv87 I hc H)
theorem rd89 : (Rn 5 inb_S7x128x128_S1x128x128_5_0_0).view.read (Elt F) (rowsAt94 I) = gp89 I :=
  ((Rn_read_miss 5 3 inb_S7x128x128_S1x128x128_5_0_0 inb_S7x128x128_S1x128x128_3_0_0 (by decide) (rowsAt93 I) (gp94 I)).trans ((Rn_read_miss 5 2 inb_S7x128x128_S1x128x128_5_0_0 inb_S7x128x128_S1x128x128_2_0_0 (by decide) (rowsAt92 I) (gp93 I)).trans ((Rn_read_miss 5 1 inb_S7x128x128_S1x128x128_5_0_0 inb_S7x128x128_S1x128x128_1_0_0 (by decide) (rowsAt91 I) (gp92 I)).trans ((Rn_read_miss 5 0 inb_S7x128x128_S1x128x128_5_0_0 inb_S7x128x128_S1x128x128_0_0_0 (by decide) (rowsAt90 I) (gp91 I)).trans ((Rn_read_miss 5 6 inb_S7x128x128_S1x128x128_5_0_0 inb_S7x128x128_S1x128x128_6_0_0 (by decide) (rowsAt89 I) (gp90 I)).trans (Rn_read_hit 5 inb_S7x128x128_S1x128x128_5_0_0 (rowsAt88 I) (gp89 I)))))))
theorem payG89 (H : Hyp I tbl col pay) : ∀ y, pay89 I y = Cert.Spec.G tbl col ((Rect.unit (s := S16384x3328) (k0_off39 L 384#32) S128x128.size (k0_off39_inb L hc 3)).emb y) :=
  Step.item_payload tbl col H.hr L pay H.hpay I.fi H.hfi 18 3 inb_S26x4x128_S1x1x128_18_3_0 squeezes_S1x1x128_S128
    _ ((Step.read_full (View.whole main_arg44_scv) inb_S1000x128_S1000x128_0_0 I.ft18).trans H.ht18.symm)
    rfl (I.hin 18 3 inb_S26x4x128_S1x1x128_18_3_0 squeezes_S1x1x128_S128) (k0_off39 L 384#32) (k0_off39_eq L 3) (k0_off39_inb L hc 3) (pay89 I) (rd89 I)
theorem inv89 (H : Hyp I tbl col pay) : ∀ j' < 90, ∀ i ∈ Step.blkSet L 7 j', outAt89 I hc i = Cert.Spec.G tbl col i :=
  Step.out_step L 7 (Cert.Spec.G tbl col) 89 (k0_off39 L 384#32) (k0_off39_eq L 3) (k0_off39_inb L hc 3) (outAt88 I hc) (pay89 I) (payG89 I hc H)
    (inv88 I hc H)
theorem rd90 : (Rn 6 inb_S7x128x128_S1x128x128_6_0_0).view.read (Elt F) (rowsAt95 I) = gp90 I :=
  ((Rn_read_miss 6 4 inb_S7x128x128_S1x128x128_6_0_0 inb_S7x128x128_S1x128x128_4_0_0 (by decide) (rowsAt94 I) (gp95 I)).trans ((Rn_read_miss 6 3 inb_S7x128x128_S1x128x128_6_0_0 inb_S7x128x128_S1x128x128_3_0_0 (by decide) (rowsAt93 I) (gp94 I)).trans ((Rn_read_miss 6 2 inb_S7x128x128_S1x128x128_6_0_0 inb_S7x128x128_S1x128x128_2_0_0 (by decide) (rowsAt92 I) (gp93 I)).trans ((Rn_read_miss 6 1 inb_S7x128x128_S1x128x128_6_0_0 inb_S7x128x128_S1x128x128_1_0_0 (by decide) (rowsAt91 I) (gp92 I)).trans ((Rn_read_miss 6 0 inb_S7x128x128_S1x128x128_6_0_0 inb_S7x128x128_S1x128x128_0_0_0 (by decide) (rowsAt90 I) (gp91 I)).trans (Rn_read_hit 6 inb_S7x128x128_S1x128x128_6_0_0 (rowsAt89 I) (gp90 I)))))))
theorem payG90 (H : Hyp I tbl col pay) : ∀ y, pay90 I y = Cert.Spec.G tbl col ((Rect.unit (s := S16384x3328) (k0_off40 L 384#32) S128x128.size (k0_off40_inb L hc 3)).emb y) :=
  Step.item_payload tbl col H.hr L pay H.hpay I.fi H.hfi 19 3 inb_S26x4x128_S1x1x128_19_3_0 squeezes_S1x1x128_S128
    _ ((Step.read_full (View.whole main_arg45_scv) inb_S1000x128_S1000x128_0_0 I.ft19).trans H.ht19.symm)
    rfl (I.hin 19 3 inb_S26x4x128_S1x1x128_19_3_0 squeezes_S1x1x128_S128) (k0_off40 L 384#32) (k0_off40_eq L 3) (k0_off40_inb L hc 3) (pay90 I) (rd90 I)
theorem inv90 (H : Hyp I tbl col pay) : ∀ j' < 91, ∀ i ∈ Step.blkSet L 7 j', outAt90 I hc i = Cert.Spec.G tbl col i :=
  Step.out_step L 7 (Cert.Spec.G tbl col) 90 (k0_off40 L 384#32) (k0_off40_eq L 3) (k0_off40_inb L hc 3) (outAt89 I hc) (pay90 I) (payG90 I hc H)
    (inv89 I hc H)
theorem rd91 : (Rn 0 inb_S7x128x128_S1x128x128_0_0_0).view.read (Elt F) (rowsAt96 I) = gp91 I :=
  ((Rn_read_miss 0 5 inb_S7x128x128_S1x128x128_0_0_0 inb_S7x128x128_S1x128x128_5_0_0 (by decide) (rowsAt95 I) (gp96 I)).trans ((Rn_read_miss 0 4 inb_S7x128x128_S1x128x128_0_0_0 inb_S7x128x128_S1x128x128_4_0_0 (by decide) (rowsAt94 I) (gp95 I)).trans ((Rn_read_miss 0 3 inb_S7x128x128_S1x128x128_0_0_0 inb_S7x128x128_S1x128x128_3_0_0 (by decide) (rowsAt93 I) (gp94 I)).trans ((Rn_read_miss 0 2 inb_S7x128x128_S1x128x128_0_0_0 inb_S7x128x128_S1x128x128_2_0_0 (by decide) (rowsAt92 I) (gp93 I)).trans ((Rn_read_miss 0 1 inb_S7x128x128_S1x128x128_0_0_0 inb_S7x128x128_S1x128x128_1_0_0 (by decide) (rowsAt91 I) (gp92 I)).trans (Rn_read_hit 0 inb_S7x128x128_S1x128x128_0_0_0 (rowsAt90 I) (gp91 I)))))))
theorem payG91 (H : Hyp I tbl col pay) : ∀ y, pay91 I y = Cert.Spec.G tbl col ((Rect.unit (s := S16384x3328) (k0_off41 L 384#32) S128x128.size (k0_off41_inb L hc 3)).emb y) :=
  Step.item_payload tbl col H.hr L pay H.hpay I.fi H.hfi 20 3 inb_S26x4x128_S1x1x128_20_3_0 squeezes_S1x1x128_S128
    _ ((Step.read_full (View.whole main_arg46_scv) inb_S1000x128_S1000x128_0_0 I.ft20).trans H.ht20.symm)
    rfl (I.hin 20 3 inb_S26x4x128_S1x1x128_20_3_0 squeezes_S1x1x128_S128) (k0_off41 L 384#32) (k0_off41_eq L 3) (k0_off41_inb L hc 3) (pay91 I) (rd91 I)
theorem inv91 (H : Hyp I tbl col pay) : ∀ j' < 92, ∀ i ∈ Step.blkSet L 7 j', outAt91 I hc i = Cert.Spec.G tbl col i :=
  Step.out_step L 7 (Cert.Spec.G tbl col) 91 (k0_off41 L 384#32) (k0_off41_eq L 3) (k0_off41_inb L hc 3) (outAt90 I hc) (pay91 I) (payG91 I hc H)
    (inv90 I hc H)
theorem rd92 : (Rn 1 inb_S7x128x128_S1x128x128_1_0_0).view.read (Elt F) (rowsAt97 I) = gp92 I :=
  ((Rn_read_miss 1 6 inb_S7x128x128_S1x128x128_1_0_0 inb_S7x128x128_S1x128x128_6_0_0 (by decide) (rowsAt96 I) (gp97 I)).trans ((Rn_read_miss 1 5 inb_S7x128x128_S1x128x128_1_0_0 inb_S7x128x128_S1x128x128_5_0_0 (by decide) (rowsAt95 I) (gp96 I)).trans ((Rn_read_miss 1 4 inb_S7x128x128_S1x128x128_1_0_0 inb_S7x128x128_S1x128x128_4_0_0 (by decide) (rowsAt94 I) (gp95 I)).trans ((Rn_read_miss 1 3 inb_S7x128x128_S1x128x128_1_0_0 inb_S7x128x128_S1x128x128_3_0_0 (by decide) (rowsAt93 I) (gp94 I)).trans ((Rn_read_miss 1 2 inb_S7x128x128_S1x128x128_1_0_0 inb_S7x128x128_S1x128x128_2_0_0 (by decide) (rowsAt92 I) (gp93 I)).trans (Rn_read_hit 1 inb_S7x128x128_S1x128x128_1_0_0 (rowsAt91 I) (gp92 I)))))))
theorem payG92 (H : Hyp I tbl col pay) : ∀ y, pay92 I y = Cert.Spec.G tbl col ((Rect.unit (s := S16384x3328) (k0_off42 L 384#32) S128x128.size (k0_off42_inb L hc 3)).emb y) :=
  Step.item_payload tbl col H.hr L pay H.hpay I.fi H.hfi 21 3 inb_S26x4x128_S1x1x128_21_3_0 squeezes_S1x1x128_S128
    _ ((Step.read_full (View.whole main_arg47_scv) inb_S1000x128_S1000x128_0_0 I.ft21).trans H.ht21.symm)
    rfl (I.hin 21 3 inb_S26x4x128_S1x1x128_21_3_0 squeezes_S1x1x128_S128) (k0_off42 L 384#32) (k0_off42_eq L 3) (k0_off42_inb L hc 3) (pay92 I) (rd92 I)
theorem inv92 (H : Hyp I tbl col pay) : ∀ j' < 93, ∀ i ∈ Step.blkSet L 7 j', outAt92 I hc i = Cert.Spec.G tbl col i :=
  Step.out_step L 7 (Cert.Spec.G tbl col) 92 (k0_off42 L 384#32) (k0_off42_eq L 3) (k0_off42_inb L hc 3) (outAt91 I hc) (pay92 I) (payG92 I hc H)
    (inv91 I hc H)
theorem rd93 : (Rn 2 inb_S7x128x128_S1x128x128_2_0_0).view.read (Elt F) (rowsAt98 I) = gp93 I :=
  ((Rn_read_miss 2 0 inb_S7x128x128_S1x128x128_2_0_0 inb_S7x128x128_S1x128x128_0_0_0 (by decide) (rowsAt97 I) (gp98 I)).trans ((Rn_read_miss 2 6 inb_S7x128x128_S1x128x128_2_0_0 inb_S7x128x128_S1x128x128_6_0_0 (by decide) (rowsAt96 I) (gp97 I)).trans ((Rn_read_miss 2 5 inb_S7x128x128_S1x128x128_2_0_0 inb_S7x128x128_S1x128x128_5_0_0 (by decide) (rowsAt95 I) (gp96 I)).trans ((Rn_read_miss 2 4 inb_S7x128x128_S1x128x128_2_0_0 inb_S7x128x128_S1x128x128_4_0_0 (by decide) (rowsAt94 I) (gp95 I)).trans ((Rn_read_miss 2 3 inb_S7x128x128_S1x128x128_2_0_0 inb_S7x128x128_S1x128x128_3_0_0 (by decide) (rowsAt93 I) (gp94 I)).trans (Rn_read_hit 2 inb_S7x128x128_S1x128x128_2_0_0 (rowsAt92 I) (gp93 I)))))))
theorem payG93 (H : Hyp I tbl col pay) : ∀ y, pay93 I y = Cert.Spec.G tbl col ((Rect.unit (s := S16384x3328) (k0_off43 L 384#32) S128x128.size (k0_off43_inb L hc 3)).emb y) :=
  Step.item_payload tbl col H.hr L pay H.hpay I.fi H.hfi 22 3 inb_S26x4x128_S1x1x128_22_3_0 squeezes_S1x1x128_S128
    _ ((Step.read_full (View.whole main_arg48_scv) inb_S1000x128_S1000x128_0_0 I.ft22).trans H.ht22.symm)
    rfl (I.hin 22 3 inb_S26x4x128_S1x1x128_22_3_0 squeezes_S1x1x128_S128) (k0_off43 L 384#32) (k0_off43_eq L 3) (k0_off43_inb L hc 3) (pay93 I) (rd93 I)
theorem inv93 (H : Hyp I tbl col pay) : ∀ j' < 94, ∀ i ∈ Step.blkSet L 7 j', outAt93 I hc i = Cert.Spec.G tbl col i :=
  Step.out_step L 7 (Cert.Spec.G tbl col) 93 (k0_off43 L 384#32) (k0_off43_eq L 3) (k0_off43_inb L hc 3) (outAt92 I hc) (pay93 I) (payG93 I hc H)
    (inv92 I hc H)
theorem rd94 : (Rn 3 inb_S7x128x128_S1x128x128_3_0_0).view.read (Elt F) (rowsAt99 I) = gp94 I :=
  ((Rn_read_miss 3 1 inb_S7x128x128_S1x128x128_3_0_0 inb_S7x128x128_S1x128x128_1_0_0 (by decide) (rowsAt98 I) (gp99 I)).trans ((Rn_read_miss 3 0 inb_S7x128x128_S1x128x128_3_0_0 inb_S7x128x128_S1x128x128_0_0_0 (by decide) (rowsAt97 I) (gp98 I)).trans ((Rn_read_miss 3 6 inb_S7x128x128_S1x128x128_3_0_0 inb_S7x128x128_S1x128x128_6_0_0 (by decide) (rowsAt96 I) (gp97 I)).trans ((Rn_read_miss 3 5 inb_S7x128x128_S1x128x128_3_0_0 inb_S7x128x128_S1x128x128_5_0_0 (by decide) (rowsAt95 I) (gp96 I)).trans ((Rn_read_miss 3 4 inb_S7x128x128_S1x128x128_3_0_0 inb_S7x128x128_S1x128x128_4_0_0 (by decide) (rowsAt94 I) (gp95 I)).trans (Rn_read_hit 3 inb_S7x128x128_S1x128x128_3_0_0 (rowsAt93 I) (gp94 I)))))))
theorem payG94 (H : Hyp I tbl col pay) : ∀ y, pay94 I y = Cert.Spec.G tbl col ((Rect.unit (s := S16384x3328) (k0_off44 L 384#32) S128x128.size (k0_off44_inb L hc 3)).emb y) :=
  Step.item_payload tbl col H.hr L pay H.hpay I.fi H.hfi 23 3 inb_S26x4x128_S1x1x128_23_3_0 squeezes_S1x1x128_S128
    _ ((Step.read_full (View.whole main_arg49_scv) inb_S1000x128_S1000x128_0_0 I.ft23).trans H.ht23.symm)
    rfl (I.hin 23 3 inb_S26x4x128_S1x1x128_23_3_0 squeezes_S1x1x128_S128) (k0_off44 L 384#32) (k0_off44_eq L 3) (k0_off44_inb L hc 3) (pay94 I) (rd94 I)
theorem inv94 (H : Hyp I tbl col pay) : ∀ j' < 95, ∀ i ∈ Step.blkSet L 7 j', outAt94 I hc i = Cert.Spec.G tbl col i :=
  Step.out_step L 7 (Cert.Spec.G tbl col) 94 (k0_off44 L 384#32) (k0_off44_eq L 3) (k0_off44_inb L hc 3) (outAt93 I hc) (pay94 I) (payG94 I hc H)
    (inv93 I hc H)
theorem rd95 : (Rn 4 inb_S7x128x128_S1x128x128_4_0_0).view.read (Elt F) (rowsAt100 I) = gp95 I :=
  ((Rn_read_miss 4 2 inb_S7x128x128_S1x128x128_4_0_0 inb_S7x128x128_S1x128x128_2_0_0 (by decide) (rowsAt99 I) (gp100 I)).trans ((Rn_read_miss 4 1 inb_S7x128x128_S1x128x128_4_0_0 inb_S7x128x128_S1x128x128_1_0_0 (by decide) (rowsAt98 I) (gp99 I)).trans ((Rn_read_miss 4 0 inb_S7x128x128_S1x128x128_4_0_0 inb_S7x128x128_S1x128x128_0_0_0 (by decide) (rowsAt97 I) (gp98 I)).trans ((Rn_read_miss 4 6 inb_S7x128x128_S1x128x128_4_0_0 inb_S7x128x128_S1x128x128_6_0_0 (by decide) (rowsAt96 I) (gp97 I)).trans ((Rn_read_miss 4 5 inb_S7x128x128_S1x128x128_4_0_0 inb_S7x128x128_S1x128x128_5_0_0 (by decide) (rowsAt95 I) (gp96 I)).trans (Rn_read_hit 4 inb_S7x128x128_S1x128x128_4_0_0 (rowsAt94 I) (gp95 I)))))))
theorem payG95 (H : Hyp I tbl col pay) : ∀ y, pay95 I y = Cert.Spec.G tbl col ((Rect.unit (s := S16384x3328) (k0_off45 L 384#32) S128x128.size (k0_off45_inb L hc 3)).emb y) :=
  Step.item_payload tbl col H.hr L pay H.hpay I.fi H.hfi 24 3 inb_S26x4x128_S1x1x128_24_3_0 squeezes_S1x1x128_S128
    _ ((Step.read_full (View.whole main_arg50_scv) inb_S1000x128_S1000x128_0_0 I.ft24).trans H.ht24.symm)
    rfl (I.hin 24 3 inb_S26x4x128_S1x1x128_24_3_0 squeezes_S1x1x128_S128) (k0_off45 L 384#32) (k0_off45_eq L 3) (k0_off45_inb L hc 3) (pay95 I) (rd95 I)
theorem inv95 (H : Hyp I tbl col pay) : ∀ j' < 96, ∀ i ∈ Step.blkSet L 7 j', outAt95 I hc i = Cert.Spec.G tbl col i :=
  Step.out_step L 7 (Cert.Spec.G tbl col) 95 (k0_off45 L 384#32) (k0_off45_eq L 3) (k0_off45_inb L hc 3) (outAt94 I hc) (pay95 I) (payG95 I hc H)
    (inv94 I hc H)
theorem rd96 : (Rn 5 inb_S7x128x128_S1x128x128_5_0_0).view.read (Elt F) (rowsAt101 I) = gp96 I :=
  ((Rn_read_miss 5 3 inb_S7x128x128_S1x128x128_5_0_0 inb_S7x128x128_S1x128x128_3_0_0 (by decide) (rowsAt100 I) (gp101 I)).trans ((Rn_read_miss 5 2 inb_S7x128x128_S1x128x128_5_0_0 inb_S7x128x128_S1x128x128_2_0_0 (by decide) (rowsAt99 I) (gp100 I)).trans ((Rn_read_miss 5 1 inb_S7x128x128_S1x128x128_5_0_0 inb_S7x128x128_S1x128x128_1_0_0 (by decide) (rowsAt98 I) (gp99 I)).trans ((Rn_read_miss 5 0 inb_S7x128x128_S1x128x128_5_0_0 inb_S7x128x128_S1x128x128_0_0_0 (by decide) (rowsAt97 I) (gp98 I)).trans ((Rn_read_miss 5 6 inb_S7x128x128_S1x128x128_5_0_0 inb_S7x128x128_S1x128x128_6_0_0 (by decide) (rowsAt96 I) (gp97 I)).trans (Rn_read_hit 5 inb_S7x128x128_S1x128x128_5_0_0 (rowsAt95 I) (gp96 I)))))))
theorem payG96 (H : Hyp I tbl col pay) : ∀ y, pay96 I y = Cert.Spec.G tbl col ((Rect.unit (s := S16384x3328) (k0_off46 L 384#32) S128x128.size (k0_off46_inb L hc 3)).emb y) :=
  Step.item_payload tbl col H.hr L pay H.hpay I.fi H.hfi 25 3 inb_S26x4x128_S1x1x128_25_3_0 squeezes_S1x1x128_S128
    _ ((Step.read_full (View.whole main_arg51_scv) inb_S1000x128_S1000x128_0_0 I.ft25).trans H.ht25.symm)
    rfl (I.hin 25 3 inb_S26x4x128_S1x1x128_25_3_0 squeezes_S1x1x128_S128) (k0_off46 L 384#32) (k0_off46_eq L 3) (k0_off46_inb L hc 3) (pay96 I) (rd96 I)
theorem inv96 (H : Hyp I tbl col pay) : ∀ j' < 97, ∀ i ∈ Step.blkSet L 7 j', outAt96 I hc i = Cert.Spec.G tbl col i :=
  Step.out_step L 7 (Cert.Spec.G tbl col) 96 (k0_off46 L 384#32) (k0_off46_eq L 3) (k0_off46_inb L hc 3) (outAt95 I hc) (pay96 I) (payG96 I hc H)
    (inv95 I hc H)
theorem rd97 : (Rn 6 inb_S7x128x128_S1x128x128_6_0_0).view.read (Elt F) (rowsAt102 I) = gp97 I :=
  ((Rn_read_miss 6 4 inb_S7x128x128_S1x128x128_6_0_0 inb_S7x128x128_S1x128x128_4_0_0 (by decide) (rowsAt101 I) (gp102 I)).trans ((Rn_read_miss 6 3 inb_S7x128x128_S1x128x128_6_0_0 inb_S7x128x128_S1x128x128_3_0_0 (by decide) (rowsAt100 I) (gp101 I)).trans ((Rn_read_miss 6 2 inb_S7x128x128_S1x128x128_6_0_0 inb_S7x128x128_S1x128x128_2_0_0 (by decide) (rowsAt99 I) (gp100 I)).trans ((Rn_read_miss 6 1 inb_S7x128x128_S1x128x128_6_0_0 inb_S7x128x128_S1x128x128_1_0_0 (by decide) (rowsAt98 I) (gp99 I)).trans ((Rn_read_miss 6 0 inb_S7x128x128_S1x128x128_6_0_0 inb_S7x128x128_S1x128x128_0_0_0 (by decide) (rowsAt97 I) (gp98 I)).trans (Rn_read_hit 6 inb_S7x128x128_S1x128x128_6_0_0 (rowsAt96 I) (gp97 I)))))))
theorem payG97 (H : Hyp I tbl col pay) : ∀ y, pay97 I y = Cert.Spec.G tbl col ((Rect.unit (s := S16384x3328) (k0_off47 L 384#32) S128x128.size (k0_off47_inb L hc 3)).emb y) :=
  Step.item_payload tbl col H.hr L pay H.hpay I.fi H.hfi 0 3 inb_S26x4x128_S1x1x128_0_3_0 squeezes_S1x1x128_S128
    _ ((Step.read_full (View.whole main_arg26_scv) inb_S1000x128_S1000x128_0_0 I.ft0).trans H.ht0.symm)
    rfl (I.hin 0 3 inb_S26x4x128_S1x1x128_0_3_0 squeezes_S1x1x128_S128) (k0_off47 L 384#32) (k0_off47_eq L 3) (k0_off47_inb L hc 3) (pay97 I) (rd97 I)
theorem inv97 (H : Hyp I tbl col pay) : ∀ j' < 98, ∀ i ∈ Step.blkSet L 7 j', outAt97 I hc i = Cert.Spec.G tbl col i :=
  Step.out_step L 7 (Cert.Spec.G tbl col) 97 (k0_off47 L 384#32) (k0_off47_eq L 3) (k0_off47_inb L hc 3) (outAt96 I hc) (pay97 I) (payG97 I hc H)
    (inv96 I hc H)
theorem rd98 : (Rn 0 inb_S7x128x128_S1x128x128_0_0_0).view.read (Elt F) (rowsAt103 I) = gp98 I :=
  ((Rn_read_miss 0 5 inb_S7x128x128_S1x128x128_0_0_0 inb_S7x128x128_S1x128x128_5_0_0 (by decide) (rowsAt102 I) (gp103 I)).trans ((Rn_read_miss 0 4 inb_S7x128x128_S1x128x128_0_0_0 inb_S7x128x128_S1x128x128_4_0_0 (by decide) (rowsAt101 I) (gp102 I)).trans ((Rn_read_miss 0 3 inb_S7x128x128_S1x128x128_0_0_0 inb_S7x128x128_S1x128x128_3_0_0 (by decide) (rowsAt100 I) (gp101 I)).trans ((Rn_read_miss 0 2 inb_S7x128x128_S1x128x128_0_0_0 inb_S7x128x128_S1x128x128_2_0_0 (by decide) (rowsAt99 I) (gp100 I)).trans ((Rn_read_miss 0 1 inb_S7x128x128_S1x128x128_0_0_0 inb_S7x128x128_S1x128x128_1_0_0 (by decide) (rowsAt98 I) (gp99 I)).trans (Rn_read_hit 0 inb_S7x128x128_S1x128x128_0_0_0 (rowsAt97 I) (gp98 I)))))))
theorem payG98 (H : Hyp I tbl col pay) : ∀ y, pay98 I y = Cert.Spec.G tbl col ((Rect.unit (s := S16384x3328) (k0_off48 L 384#32) S128x128.size (k0_off48_inb L hc 3)).emb y) :=
  Step.item_payload tbl col H.hr L pay H.hpay I.fi H.hfi 1 3 inb_S26x4x128_S1x1x128_1_3_0 squeezes_S1x1x128_S128
    _ ((Step.read_full (View.whole main_arg27_scv) inb_S1000x128_S1000x128_0_0 I.ft1).trans H.ht1.symm)
    rfl (I.hin 1 3 inb_S26x4x128_S1x1x128_1_3_0 squeezes_S1x1x128_S128) (k0_off48 L 384#32) (k0_off48_eq L 3) (k0_off48_inb L hc 3) (pay98 I) (rd98 I)
theorem inv98 (H : Hyp I tbl col pay) : ∀ j' < 99, ∀ i ∈ Step.blkSet L 7 j', outAt98 I hc i = Cert.Spec.G tbl col i :=
  Step.out_step L 7 (Cert.Spec.G tbl col) 98 (k0_off48 L 384#32) (k0_off48_eq L 3) (k0_off48_inb L hc 3) (outAt97 I hc) (pay98 I) (payG98 I hc H)
    (inv97 I hc H)
theorem rd99 : (Rn 1 inb_S7x128x128_S1x128x128_1_0_0).view.read (Elt F) (rowsAt103 I) = gp99 I :=
  ((Rn_read_miss 1 5 inb_S7x128x128_S1x128x128_1_0_0 inb_S7x128x128_S1x128x128_5_0_0 (by decide) (rowsAt102 I) (gp103 I)).trans ((Rn_read_miss 1 4 inb_S7x128x128_S1x128x128_1_0_0 inb_S7x128x128_S1x128x128_4_0_0 (by decide) (rowsAt101 I) (gp102 I)).trans ((Rn_read_miss 1 3 inb_S7x128x128_S1x128x128_1_0_0 inb_S7x128x128_S1x128x128_3_0_0 (by decide) (rowsAt100 I) (gp101 I)).trans ((Rn_read_miss 1 2 inb_S7x128x128_S1x128x128_1_0_0 inb_S7x128x128_S1x128x128_2_0_0 (by decide) (rowsAt99 I) (gp100 I)).trans (Rn_read_hit 1 inb_S7x128x128_S1x128x128_1_0_0 (rowsAt98 I) (gp99 I))))))
theorem payG99 (H : Hyp I tbl col pay) : ∀ y, pay99 I y = Cert.Spec.G tbl col ((Rect.unit (s := S16384x3328) (k0_off49 L 384#32) S128x128.size (k0_off49_inb L hc 3)).emb y) :=
  Step.item_payload tbl col H.hr L pay H.hpay I.fi H.hfi 2 3 inb_S26x4x128_S1x1x128_2_3_0 squeezes_S1x1x128_S128
    _ ((Step.read_full (View.whole main_arg28_scv) inb_S1000x128_S1000x128_0_0 I.ft2).trans H.ht2.symm)
    rfl (I.hin 2 3 inb_S26x4x128_S1x1x128_2_3_0 squeezes_S1x1x128_S128) (k0_off49 L 384#32) (k0_off49_eq L 3) (k0_off49_inb L hc 3) (pay99 I) (rd99 I)
theorem inv99 (H : Hyp I tbl col pay) : ∀ j' < 100, ∀ i ∈ Step.blkSet L 7 j', outAt99 I hc i = Cert.Spec.G tbl col i :=
  Step.out_step L 7 (Cert.Spec.G tbl col) 99 (k0_off49 L 384#32) (k0_off49_eq L 3) (k0_off49_inb L hc 3) (outAt98 I hc) (pay99 I) (payG99 I hc H)
    (inv98 I hc H)
theorem rd100 : (Rn 2 inb_S7x128x128_S1x128x128_2_0_0).view.read (Elt F) (rowsAt103 I) = gp100 I :=
  ((Rn_read_miss 2 5 inb_S7x128x128_S1x128x128_2_0_0 inb_S7x128x128_S1x128x128_5_0_0 (by decide) (rowsAt102 I) (gp103 I)).trans ((Rn_read_miss 2 4 inb_S7x128x128_S1x128x128_2_0_0 inb_S7x128x128_S1x128x128_4_0_0 (by decide) (rowsAt101 I) (gp102 I)).trans ((Rn_read_miss 2 3 inb_S7x128x128_S1x128x128_2_0_0 inb_S7x128x128_S1x128x128_3_0_0 (by decide) (rowsAt100 I) (gp101 I)).trans (Rn_read_hit 2 inb_S7x128x128_S1x128x128_2_0_0 (rowsAt99 I) (gp100 I)))))
theorem payG100 (H : Hyp I tbl col pay) : ∀ y, pay100 I y = Cert.Spec.G tbl col ((Rect.unit (s := S16384x3328) (k0_off50 L 384#32) S128x128.size (k0_off50_inb L hc 3)).emb y) :=
  Step.item_payload tbl col H.hr L pay H.hpay I.fi H.hfi 3 3 inb_S26x4x128_S1x1x128_3_3_0 squeezes_S1x1x128_S128
    _ ((Step.read_full (View.whole main_arg29_scv) inb_S1000x128_S1000x128_0_0 I.ft3).trans H.ht3.symm)
    rfl (I.hin 3 3 inb_S26x4x128_S1x1x128_3_3_0 squeezes_S1x1x128_S128) (k0_off50 L 384#32) (k0_off50_eq L 3) (k0_off50_inb L hc 3) (pay100 I) (rd100 I)
theorem inv100 (H : Hyp I tbl col pay) : ∀ j' < 101, ∀ i ∈ Step.blkSet L 7 j', outAt100 I hc i = Cert.Spec.G tbl col i :=
  Step.out_step L 7 (Cert.Spec.G tbl col) 100 (k0_off50 L 384#32) (k0_off50_eq L 3) (k0_off50_inb L hc 3) (outAt99 I hc) (pay100 I) (payG100 I hc H)
    (inv99 I hc H)
theorem rd101 : (Rn 3 inb_S7x128x128_S1x128x128_3_0_0).view.read (Elt F) (rowsAt103 I) = gp101 I :=
  ((Rn_read_miss 3 5 inb_S7x128x128_S1x128x128_3_0_0 inb_S7x128x128_S1x128x128_5_0_0 (by decide) (rowsAt102 I) (gp103 I)).trans ((Rn_read_miss 3 4 inb_S7x128x128_S1x128x128_3_0_0 inb_S7x128x128_S1x128x128_4_0_0 (by decide) (rowsAt101 I) (gp102 I)).trans (Rn_read_hit 3 inb_S7x128x128_S1x128x128_3_0_0 (rowsAt100 I) (gp101 I))))
theorem payG101 (H : Hyp I tbl col pay) : ∀ y, pay101 I y = Cert.Spec.G tbl col ((Rect.unit (s := S16384x3328) (k0_off51 L 384#32) S128x128.size (k0_off51_inb L hc 3)).emb y) :=
  Step.item_payload tbl col H.hr L pay H.hpay I.fi H.hfi 4 3 inb_S26x4x128_S1x1x128_4_3_0 squeezes_S1x1x128_S128
    _ ((Step.read_full (View.whole main_arg30_scv) inb_S1000x128_S1000x128_0_0 I.ft4).trans H.ht4.symm)
    rfl (I.hin 4 3 inb_S26x4x128_S1x1x128_4_3_0 squeezes_S1x1x128_S128) (k0_off51 L 384#32) (k0_off51_eq L 3) (k0_off51_inb L hc 3) (pay101 I) (rd101 I)
theorem inv101 (H : Hyp I tbl col pay) : ∀ j' < 102, ∀ i ∈ Step.blkSet L 7 j', outAt101 I hc i = Cert.Spec.G tbl col i :=
  Step.out_step L 7 (Cert.Spec.G tbl col) 101 (k0_off51 L 384#32) (k0_off51_eq L 3) (k0_off51_inb L hc 3) (outAt100 I hc) (pay101 I) (payG101 I hc H)
    (inv100 I hc H)
theorem rd102 : (Rn 4 inb_S7x128x128_S1x128x128_4_0_0).view.read (Elt F) (rowsAt103 I) = gp102 I :=
  ((Rn_read_miss 4 5 inb_S7x128x128_S1x128x128_4_0_0 inb_S7x128x128_S1x128x128_5_0_0 (by decide) (rowsAt102 I) (gp103 I)).trans (Rn_read_hit 4 inb_S7x128x128_S1x128x128_4_0_0 (rowsAt101 I) (gp102 I)))
theorem payG102 (H : Hyp I tbl col pay) : ∀ y, pay102 I y = Cert.Spec.G tbl col ((Rect.unit (s := S16384x3328) (k0_off52 L 384#32) S128x128.size (k0_off52_inb L hc 3)).emb y) :=
  Step.item_payload tbl col H.hr L pay H.hpay I.fi H.hfi 5 3 inb_S26x4x128_S1x1x128_5_3_0 squeezes_S1x1x128_S128
    _ ((Step.read_full (View.whole main_arg31_scv) inb_S1000x128_S1000x128_0_0 I.ft5).trans H.ht5.symm)
    rfl (I.hin 5 3 inb_S26x4x128_S1x1x128_5_3_0 squeezes_S1x1x128_S128) (k0_off52 L 384#32) (k0_off52_eq L 3) (k0_off52_inb L hc 3) (pay102 I) (rd102 I)
theorem inv102 (H : Hyp I tbl col pay) : ∀ j' < 103, ∀ i ∈ Step.blkSet L 7 j', outAt102 I hc i = Cert.Spec.G tbl col i :=
  Step.out_step L 7 (Cert.Spec.G tbl col) 102 (k0_off52 L 384#32) (k0_off52_eq L 3) (k0_off52_inb L hc 3) (outAt101 I hc) (pay102 I) (payG102 I hc H)
    (inv101 I hc H)
theorem rd103 : (Rn 5 inb_S7x128x128_S1x128x128_5_0_0).view.read (Elt F) (rowsAt103 I) = gp103 I :=
  (Rn_read_hit 5 inb_S7x128x128_S1x128x128_5_0_0 (rowsAt102 I) (gp103 I))
theorem payG103 (H : Hyp I tbl col pay) : ∀ y, pay103 I y = Cert.Spec.G tbl col ((Rect.unit (s := S16384x3328) (k0_off53 L 384#32) S128x128.size (k0_off53_inb L hc 3)).emb y) :=
  Step.item_payload tbl col H.hr L pay H.hpay I.fi H.hfi 6 3 inb_S26x4x128_S1x1x128_6_3_0 squeezes_S1x1x128_S128
    _ ((Step.read_full (View.whole main_arg32_scv) inb_S1000x128_S1000x128_0_0 I.ft6).trans H.ht6.symm)
    rfl (I.hin 6 3 inb_S26x4x128_S1x1x128_6_3_0 squeezes_S1x1x128_S128) (k0_off53 L 384#32) (k0_off53_eq L 3) (k0_off53_inb L hc 3) (pay103 I) (rd103 I)
theorem inv103 (H : Hyp I tbl col pay) : ∀ j' < 104, ∀ i ∈ Step.blkSet L 7 j', outAt103 I hc i = Cert.Spec.G tbl col i :=
  Step.out_step L 7 (Cert.Spec.G tbl col) 103 (k0_off53 L 384#32) (k0_off53_eq L 3) (k0_off53_inb L hc 3) (outAt102 I hc) (pay103 I) (payG103 I hc H)
    (inv102 I hc H)

/-- After the tile's 104 copies its 512 rows of the output hold the specified values. -/
theorem out_value (H : Hyp I tbl col pay) :
    ∀ i ∈ (Memref.whole main_v26_scv : Memref sig .scVector .hbm S16384x3328 .f32).view.setOn (oTR L).set,
      outAt103 I hc i = Cert.Spec.G tbl col i := by
  intro i hi
  obtain ⟨j', hj', hmem⟩ := Step.rows_covered L 7 (by decide) i hi
  exact inv103 I hc H j' hj' i hmem

end Cert.Proof.KI.Chain1

end
-- ==== Proof.TileValKI1.lean ====
/-
  One vector subcore's task, for the subcores whose group number 2·(core) + (subcore mod 2) is 1.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  the contents the specification names: entry (b, 128 t + e) is entry e of row col t b of table t.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI
import proofs.«204019_g4913442586959_cont_sun_m_672_34_alg».proof.Proof.ValChainKI1
import proofs.«204019_g4913442586959_cont_sun_m_672_34_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insertV1 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_val1 (hF : (K (F := F)).Facts) (O : CellTallies nD τ sig (HIx 1)) (W : Waits sig (HIx 1)) (hO : ∀ g, O g none = 0)
    (q : PosShare TreeShare) (hc1 : ¬ k0_cond1 L = 1#1) (hc2 : k0_cond2 L = 1#1) (hc3 : ¬ k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (col : Fin 26 → Cert.Spec.ColS.Idx → BitVec 32) (hr : ∀ t b, (col t b).toNat < 1000)
    (hfcol : ∀ (t : Fin 26) (R p : Fin 128), (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 R p) = col t (ValueIdx.ix1 (⟨128 * R.val + p.val, by have := R.isLt; have := p.isLt; omega⟩ : Fin 16384)))
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            ((Memref.whole main_v26_scv : Memref sig .scVector .hbm S16384x3328 .f32).view.loc (V d (cVL L) (jVL L)) ↦[(Memref.whole main_v26_scv : Memref sig .scVector .hbm S16384x3328 .f32).view.setOn (oTR L).set]{fullShare} (Cert.Spec.G (fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) col)) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]
  · -- the output rows: what the run left there is, block by block, what the specification names
    have hp : ∀ (t : Fin 26) (r : Fin 4) (p : Fin 128), (![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] : Fin 26 → S4x128.Idx → Elt F .i32) t (ValueIdx.ix2 r p) = (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 (Val.colRow L r) p) := by
      intro t r p; match t with
        | ⟨0, _⟩ => exact Val.col_read_0 L fc0 r p
        | ⟨1, _⟩ => exact Val.col_read_1 L fc1 r p
        | ⟨2, _⟩ => exact Val.col_read_2 L fc2 r p
        | ⟨3, _⟩ => exact Val.col_read_3 L fc3 r p
        | ⟨4, _⟩ => exact Val.col_read_4 L fc4 r p
        | ⟨5, _⟩ => exact Val.col_read_5 L fc5 r p
        | ⟨6, _⟩ => exact Val.col_read_6 L fc6 r p
        | ⟨7, _⟩ => exact Val.col_read_7 L fc7 r p
        | ⟨8, _⟩ => exact Val.col_read_8 L fc8 r p
        | ⟨9, _⟩ => exact Val.col_read_9 L fc9 r p
        | ⟨10, _⟩ => exact Val.col_read_10 L fc10 r p
        | ⟨11, _⟩ => exact Val.col_read_11 L fc11 r p
        | ⟨12, _⟩ => exact Val.col_read_12 L fc12 r p
        | ⟨13, _⟩ => exact Val.col_read_13 L fc13 r p
        | ⟨14, _⟩ => exact Val.col_read_14 L fc14 r p
        | ⟨15, _⟩ => exact Val.col_read_15 L fc15 r p
        | ⟨16, _⟩ => exact Val.col_read_16 L fc16 r p
        | ⟨17, _⟩ => exact Val.col_read_17 L fc17 r p
        | ⟨18, _⟩ => exact Val.col_read_18 L fc18 r p
        | ⟨19, _⟩ => exact Val.col_read_19 L fc19 r p
        | ⟨20, _⟩ => exact Val.col_read_20 L fc20 r p
        | ⟨21, _⟩ => exact Val.col_read_21 L fc21 r p
        | ⟨22, _⟩ => exact Val.col_read_22 L fc22 r p
        | ⟨23, _⟩ => exact Val.col_read_23 L fc23 r p
        | ⟨24, _⟩ => exact Val.col_read_24 L fc24 r p
        | ⟨25, _⟩ => exact Val.col_read_25 L fc25 r p
        | ⟨n + 26, h⟩ => exact absurd h (by omega)
    have hpay := Val.hpay_of_fc col (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) hfcol L _ hp
    iapply (Entails.of_eq (pointsTo_congr (fun i hi => Chain1.out_value
      (I := ⟨ft0, ft1, ft2, ft3, ft4, ft5, ft6, ft7, ft8, ft9, ft10, ft11, ft12, ft13, ft14, ft15, ft16, ft17, ft18, ft19, ft20, ft21, ft22, ft23, ft24, ft25, _, hin, fo, fr⟩) hc2 (tbl := fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) (col := col)
      ⟨rfl, rfl, rfl, rfl, rfl, rfl, rfl, rfl, rfl, rfl, rfl, rfl, rfl, rfl, rfl, rfl, rfl, rfl, rfl, rfl, rfl, rfl, rfl, rfl, rfl, rfl, hr, rfl, hpay⟩ i hi)))
    iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insertV1 _ ?_)

end Cert.Proof.KI

end
-- ==== Proof.ChainKI2.lean ====
/-
  Group 2's items in the order the task serves them: item j = 26·r + i is (table (i + 13) mod 26, sub-chunk r), its slot j mod 7.
  gp j  : what item j's gather lands in its slot: entry (p, e) is table t's entry (list (t, r) at p, e).
  rowsAt j : the row scratch once gathers 0 .. j have been issued (each lands in its own slot, over what was there).
  pay j : what item j's copy-out carries: its slot as the row scratch stands when the copy is issued, which is after
          gather min (j + 5, 103): the five gathers issued in between went to other slots.
  outAt j : the output once copies 0 .. j have landed, each in its own 128 x 128 block.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI

noncomputable section

namespace Cert.Proof.KI.Chain2

open Cert.KernelIdeal Cert.KernelIdeal.Gen
open Idealize.ShloMosaic
open Idealize.ShloMosaic.SparseCore (S V T)

/-- What a tile's run starts from: the 26 tables' contents, the index scratch's (every word a row number below 1000),
    the output's and the row scratch's. -/
structure TileIn (F : FTy → Type) (d : Dev nD) (L : grid0.Coords) where
  ft0 : Buf (Elt F) ((V d (cVL L) (jVL L)).loc main_arg26_scv)
  ft1 : Buf (Elt F) ((V d (cVL L) (jVL L)).loc main_arg27_scv)
  ft2 : Buf (Elt F) ((V d (cVL L) (jVL L)).loc main_arg28_scv)
  ft3 : Buf (Elt F) ((V d (cVL L) (jVL L)).loc main_arg29_scv)
  ft4 : Buf (Elt F) ((V d (cVL L) (jVL L)).loc main_arg30_scv)
  ft5 : Buf (Elt F) ((V d (cVL L) (jVL L)).loc main_arg31_scv)
  ft6 : Buf (Elt F) ((V d (cVL L) (jVL L)).loc main_arg32_scv)
  ft7 : Buf (Elt F) ((V d (cVL L) (jVL L)).loc main_arg33_scv)
  ft8 : Buf (Elt F) ((V d (cVL L) (jVL L)).loc main_arg34_scv)
  ft9 : Buf (Elt F) ((V d (cVL L) (jVL L)).loc main_arg35_scv)
  ft10 : Buf (Elt F) ((V d (cVL L) (jVL L)).loc main_arg36_scv)
  ft11 : Buf (Elt F) ((V d (cVL L) (jVL L)).loc main_arg37_scv)
  ft12 : Buf (Elt F) ((V d (cVL L) (jVL L)).loc main_arg38_scv)
  ft13 : Buf (Elt F) ((V d (cVL L) (jVL L)).loc main_arg39_scv)
  ft14 : Buf (Elt F) ((V d (cVL L) (jVL L)).loc main_arg40_scv)
  ft15 : Buf (Elt F) ((V d (cVL L) (jVL L)).loc main_arg41_scv)
  ft16 : Buf (Elt F) ((V d (cVL L) (jVL L)).loc main_arg42_scv)
  ft17 : Buf (Elt F) ((V d (cVL L) (jVL L)).loc main_arg43_scv)
  ft18 : Buf (Elt F) ((V d (cVL L) (jVL L)).loc main_arg44_scv)
  ft19 : Buf (Elt F) ((V d (cVL L) (jVL L)).loc main_arg45_scv)
  ft20 : Buf (Elt F) ((V d (cVL L) (jVL L)).loc main_arg46_scv)
  ft21 : Buf (Elt F) ((V d (cVL L) (jVL L)).loc main_arg47_scv)
  ft22 : Buf (Elt F) ((V d (cVL L) (jVL L)).loc main_arg48_scv)
  ft23 : Buf (Elt F) ((V d (cVL L) (jVL L)).loc main_arg49_scv)
  ft24 : Buf (Elt F) ((V d (cVL L) (jVL L)).loc main_arg50_scv)
  ft25 : Buf (Elt F) ((V d (cVL L) (jVL L)).loc main_arg51_scv)
  fi : Buf (Elt F) ((V d (cVL L) (jVL L)).loc cc0_scratch0)
  hin : ∀ (a b : Nat) (h1 : ∀ x, (![a, b, 0] : Fin 3 → Nat) x + S1x1x128.size x ≤ S26x4x128.size x) (h2 : (Rect.unit (s := S26x4x128) ![a, b, 0] S1x1x128.size h1).shape.Squeezes S128) (x : S128.Idx),
      (((((Memref.whole cc0_scratch0 : Memref sig .scVector .vmem S26x4x128 .i32).slice (Rect.unit (s := S26x4x128) ![a, b, 0] S1x1x128.size h1) (fun _ => rfl)).squeeze S128 h2).view.read (Elt F) fi x) : BitVec 32).toNat < 1000
  fo : Buf (Elt F) ((V d (cVL L) (jVL L)).loc main_v26_scv)
  fr : Buf (Elt F) ((V d (cVL L) (jVL L)).loc cc0_scratch1)

variable {F : FTy → Type} {d : Dev nD} {L : grid0.Coords} (I : TileIn F d L) (hc : k0_cond3 L = 1#1)

def gp0 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 0, 0] S1x1x128.size inb_S26x4x128_S1x1x128_13_0_0) (fun _ => rfl)).squeeze S128 squeezes_S1x1x128_S128).view.read (Elt F) I.fi) rfl (I.hin 13 0 inb_S26x4x128_S1x1x128_13_0_0 squeezes_S1x1x128_S128))
def rowsAt0 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view I.fr (gp0 I) Finset.univ
def gp1 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 0, 0] S1x1x128.size inb_S26x4x128_S1x1x128_14_0_0) (fun _ => rfl)).squeeze S128 squeezes_S1x1x128_S128).view.read (Elt F) I.fi) rfl (I.hin 14 0 inb_S26x4x128_S1x1x128_14_0_0 squeezes_S1x1x128_S128))
def rowsAt1 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt0 I) (gp1 I) Finset.univ
def gp2 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 0, 0] S1x1x128.size inb_S26x4x128_S1x1x128_15_0_0) (fun _ => rfl)).squeeze S128 squeezes_S1x1x128_S128).view.read (Elt F) I.fi) rfl (I.hin 15 0 inb_S26x4x128_S1x1x128_15_0_0 squeezes_S1x1x128_S128))
def rowsAt2 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt1 I) (gp2 I) Finset.univ
def gp3 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 0, 0] S1x1x128.size inb_S26x4x128_S1x1x128_16_0_0) (fun _ => rfl)).squeeze S128 squeezes_S1x1x128_S128).view.read (Elt F) I.fi) rfl (I.hin 16 0 inb_S26x4x128_S1x1x128_16_0_0 squeezes_S1x1x128_S128))
def rowsAt3 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt2 I) (gp3 I) Finset.univ
def gp4 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 0, 0] S1x1x128.size inb_S26x4x128_S1x1x128_17_0_0) (fun _ => rfl)).squeeze S128 squeezes_S1x1x128_S128).view.read (Elt F) I.fi) rfl (I.hin 17 0 inb_S26x4x128_S1x1x128_17_0_0 squeezes_S1x1x128_S128))
def rowsAt4 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt3 I) (gp4 I) Finset.univ
def gp5 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 0, 0] S1x1x128.size inb_S26x4x128_S1x1x128_18_0_0) (fun _ => rfl)).squeeze S128 squeezes_S1x1x128_S128).view.read (Elt F) I.fi) rfl (I.hin 18 0 inb_S26x4x128_S1x1x128_18_0_0 squeezes_S1x1x128_S128))
def rowsAt5 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt4 I) (gp5 I) Finset.univ
def gp6 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 0, 0] S1x1x128.size inb_S26x4x128_S1x1x128_19_0_0) (fun _ => rfl)).squeeze S128 squeezes_S1x1x128_S128).view.read (Elt F) I.fi) rfl (I.hin 19 0 inb_S26x4x128_S1x1x128_19_0_0 squeezes_S1x1x128_S128))
def rowsAt6 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt5 I) (gp6 I) Finset.univ
def gp7 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 0, 0] S1x1x128.size inb_S26x4x128_S1x1x128_20_0_0) (fun _ => rfl)).squeeze S128 squeezes_S1x1x128_S128).view.read (Elt F) I.fi) rfl (I.hin 20 0 inb_S26x4x128_S1x1x128_20_0_0 squeezes_S1x1x128_S128))
def rowsAt7 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt6 I) (gp7 I) Finset.univ
def gp8 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 0, 0] S1x1x128.size inb_S26x4x128_S1x1x128_21_0_0) (fun _ => rfl)).squeeze S128 squeezes_S1x1x128_S128).view.read (Elt F) I.fi) rfl (I.hin 21 0 inb_S26x4x128_S1x1x128_21_0_0 squeezes_S1x1x128_S128))
def rowsAt8 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt7 I) (gp8 I) Finset.univ
def gp9 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 0, 0] S1x1x128.size inb_S26x4x128_S1x1x128_22_0_0) (fun _ => rfl)).squeeze S128 squeezes_S1x1x128_S128).view.read (Elt F) I.fi) rfl (I.hin 22 0 inb_S26x4x128_S1x1x128_22_0_0 squeezes_S1x1x128_S128))
def rowsAt9 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt8 I) (gp9 I) Finset.univ
def gp10 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 0, 0] S1x1x128.size inb_S26x4x128_S1x1x128_23_0_0) (fun _ => rfl)).squeeze S128 squeezes_S1x1x128_S128).view.read (Elt F) I.fi) rfl (I.hin 23 0 inb_S26x4x128_S1x1x128_23_0_0 squeezes_S1x1x128_S128))
def rowsAt10 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt9 I) (gp10 I) Finset.univ
def gp11 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 0, 0] S1x1x128.size inb_S26x4x128_S1x1x128_24_0_0) (fun _ => rfl)).squeeze S128 squeezes_S1x1x128_S128).view.read (Elt F) I.fi) rfl (I.hin 24 0 inb_S26x4x128_S1x1x128_24_0_0 squeezes_S1x1x128_S128))
def rowsAt11 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt10 I) (gp11 I) Finset.univ
def gp12 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 0, 0] S1x1x128.size inb_S26x4x128_S1x1x128_25_0_0) (fun _ => rfl)).squeeze S128 squeezes_S1x1x128_S128).view.read (Elt F) I.fi) rfl (I.hin 25 0 inb_S26x4x128_S1x1x128_25_0_0 squeezes_S1x1x128_S128))
def rowsAt12 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt11 I) (gp12 I) Finset.univ
def gp13 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 0, 0] S1x1x128.size inb_S26x4x128_S1x1x128_0_0_0) (fun _ => rfl)).squeeze S128 squeezes_S1x1x128_S128).view.read (Elt F) I.fi) rfl (I.hin 0 0 inb_S26x4x128_S1x1x128_0_0_0 squeezes_S1x1x128_S128))
def rowsAt13 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt12 I) (gp13 I) Finset.univ
def gp14 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 0, 0] S1x1x128.size inb_S26x4x128_S1x1x128_1_0_0) (fun _ => rfl)).squeeze S128 squeezes_S1x1x128_S128).view.read (Elt F) I.fi) rfl (I.hin 1 0 inb_S26x4x128_S1x1x128_1_0_0 squeezes_S1x1x128_S128))
def rowsAt14 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt13 I) (gp14 I) Finset.univ
def gp15 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 0, 0] S1x1x128.size inb_S26x4x128_S1x1x128_2_0_0) (fun _ => rfl)).squeeze S128 squeezes_S1x1x128_S128).view.read (Elt F) I.fi) rfl (I.hin 2 0 inb_S26x4x128_S1x1x128_2_0_0 squeezes_S1x1x128_S128))
def rowsAt15 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt14 I) (gp15 I) Finset.univ
def gp16 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 0, 0] S1x1x128.size inb_S26x4x128_S1x1x128_3_0_0) (fun _ => rfl)).squeeze S128 squeezes_S1x1x128_S128).view.read (Elt F) I.fi) rfl (I.hin 3 0 inb_S26x4x128_S1x1x128_3_0_0 squeezes_S1x1x128_S128))
def rowsAt16 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt15 I) (gp16 I) Finset.univ
def gp17 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 0, 0] S1x1x128.size inb_S26x4x128_S1x1x128_4_0_0) (fun _ => rfl)).squeeze S128 squeezes_S1x1x128_S128).view.read (Elt F) I.fi) rfl (I.hin 4 0 inb_S26x4x128_S1x1x128_4_0_0 squeezes_S1x1x128_S128))
def rowsAt17 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt16 I) (gp17 I) Finset.univ
def gp18 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 0, 0] S1x1x128.size inb_S26x4x128_S1x1x128_5_0_0) (fun _ => rfl)).squeeze S128 squeezes_S1x1x128_S128).view.read (Elt F) I.fi) rfl (I.hin 5 0 inb_S26x4x128_S1x1x128_5_0_0 squeezes_S1x1x128_S128))
def rowsAt18 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt17 I) (gp18 I) Finset.univ
def gp19 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 0, 0] S1x1x128.size inb_S26x4x128_S1x1x128_6_0_0) (fun _ => rfl)).squeeze S128 squeezes_S1x1x128_S128).view.read (Elt F) I.fi) rfl (I.hin 6 0 inb_S26x4x128_S1x1x128_6_0_0 squeezes_S1x1x128_S128))
def rowsAt19 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt18 I) (gp19 I) Finset.univ
def gp20 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 0, 0] S1x1x128.size inb_S26x4x128_S1x1x128_7_0_0) (fun _ => rfl)).squeeze S128 squeezes_S1x1x128_S128).view.read (Elt F) I.fi) rfl (I.hin 7 0 inb_S26x4x128_S1x1x128_7_0_0 squeezes_S1x1x128_S128))
def rowsAt20 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt19 I) (gp20 I) Finset.univ
def gp21 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 0, 0] S1x1x128.size inb_S26x4x128_S1x1x128_8_0_0) (fun _ => rfl)).squeeze S128 squeezes_S1x1x128_S128).view.read (Elt F) I.fi) rfl (I.hin 8 0 inb_S26x4x128_S1x1x128_8_0_0 squeezes_S1x1x128_S128))
def rowsAt21 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt20 I) (gp21 I) Finset.univ
def gp22 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 0, 0] S1x1x128.size inb_S26x4x128_S1x1x128_9_0_0) (fun _ => rfl)).squeeze S128 squeezes_S1x1x128_S128).view.read (Elt F) I.fi) rfl (I.hin 9 0 inb_S26x4x128_S1x1x128_9_0_0 squeezes_S1x1x128_S128))
def rowsAt22 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt21 I) (gp22 I) Finset.univ
def gp23 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 0, 0] S1x1x128.size inb_S26x4x128_S1x1x128_10_0_0) (fun _ => rfl)).squeeze S128 squeezes_S1x1x128_S128).view.read (Elt F) I.fi) rfl (I.hin 10 0 inb_S26x4x128_S1x1x128_10_0_0 squeezes_S1x1x128_S128))
def rowsAt23 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt22 I) (gp23 I) Finset.univ
def gp24 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 0, 0] S1x1x128.size inb_S26x4x128_S1x1x128_11_0_0) (fun _ => rfl)).squeeze S128 squeezes_S1x1x128_S128).view.read (Elt F) I.fi) rfl (I.hin 11 0 inb_S26x4x128_S1x1x128_11_0_0 squeezes_S1x1x128_S128))
def rowsAt24 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt23 I) (gp24 I) Finset.univ
def gp25 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 0, 0] S1x1x128.size inb_S26x4x128_S1x1x128_12_0_0) (fun _ => rfl)).squeeze S128 squeezes_S1x1x128_S128).view.read (Elt F) I.fi) rfl (I.hin 12 0 inb_S26x4x128_S1x1x128_12_0_0 squeezes_S1x1x128_S128))
def rowsAt25 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt24 I) (gp25 I) Finset.univ
def gp26 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 1, 0] S1x1x128.size inb_S26x4x128_S1x1x128_13_1_0) (fun _ => rfl)).squeeze S128 squeezes_S1x1x128_S128).view.read (Elt F) I.fi) rfl (I.hin 13 1 inb_S26x4x128_S1x1x128_13_1_0 squeezes_S1x1x128_S128))
def rowsAt26 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt25 I) (gp26 I) Finset.univ
def gp27 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 1, 0] S1x1x128.size inb_S26x4x128_S1x1x128_14_1_0) (fun _ => rfl)).squeeze S128 squeezes_S1x1x128_S128).view.read (Elt F) I.fi) rfl (I.hin 14 1 inb_S26x4x128_S1x1x128_14_1_0 squeezes_S1x1x128_S128))
def rowsAt27 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt26 I) (gp27 I) Finset.univ
def gp28 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 1, 0] S1x1x128.size inb_S26x4x128_S1x1x128_15_1_0) (fun _ => rfl)).squeeze S128 squeezes_S1x1x128_S128).view.read (Elt F) I.fi) rfl (I.hin 15 1 inb_S26x4x128_S1x1x128_15_1_0 squeezes_S1x1x128_S128))
def rowsAt28 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt27 I) (gp28 I) Finset.univ
def gp29 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 1, 0] S1x1x128.size inb_S26x4x128_S1x1x128_16_1_0) (fun _ => rfl)).squeeze S128 squeezes_S1x1x128_S128).view.read (Elt F) I.fi) rfl (I.hin 16 1 inb_S26x4x128_S1x1x128_16_1_0 squeezes_S1x1x128_S128))
def rowsAt29 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt28 I) (gp29 I) Finset.univ
def gp30 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 1, 0] S1x1x128.size inb_S26x4x128_S1x1x128_17_1_0) (fun _ => rfl)).squeeze S128 squeezes_S1x1x128_S128).view.read (Elt F) I.fi) rfl (I.hin 17 1 inb_S26x4x128_S1x1x128_17_1_0 squeezes_S1x1x128_S128))
def rowsAt30 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt29 I) (gp30 I) Finset.univ
def gp31 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 1, 0] S1x1x128.size inb_S26x4x128_S1x1x128_18_1_0) (fun _ => rfl)).squeeze S128 squeezes_S1x1x128_S128).view.read (Elt F) I.fi) rfl (I.hin 18 1 inb_S26x4x128_S1x1x128_18_1_0 squeezes_S1x1x128_S128))
def rowsAt31 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt30 I) (gp31 I) Finset.univ
def gp32 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 1, 0] S1x1x128.size inb_S26x4x128_S1x1x128_19_1_0) (fun _ => rfl)).squeeze S128 squeezes_S1x1x128_S128).view.read (Elt F) I.fi) rfl (I.hin 19 1 inb_S26x4x128_S1x1x128_19_1_0 squeezes_S1x1x128_S128))
def rowsAt32 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt31 I) (gp32 I) Finset.univ
def gp33 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 1, 0] S1x1x128.size inb_S26x4x128_S1x1x128_20_1_0) (fun _ => rfl)).squeeze S128 squeezes_S1x1x128_S128).view.read (Elt F) I.fi) rfl (I.hin 20 1 inb_S26x4x128_S1x1x128_20_1_0 squeezes_S1x1x128_S128))
def rowsAt33 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt32 I) (gp33 I) Finset.univ
def gp34 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 1, 0] S1x1x128.size inb_S26x4x128_S1x1x128_21_1_0) (fun _ => rfl)).squeeze S128 squeezes_S1x1x128_S128).view.read (Elt F) I.fi) rfl (I.hin 21 1 inb_S26x4x128_S1x1x128_21_1_0 squeezes_S1x1x128_S128))
def rowsAt34 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt33 I) (gp34 I) Finset.univ
def gp35 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 1, 0] S1x1x128.size inb_S26x4x128_S1x1x128_22_1_0) (fun _ => rfl)).squeeze S128 squeezes_S1x1x128_S128).view.read (Elt F) I.fi) rfl (I.hin 22 1 inb_S26x4x128_S1x1x128_22_1_0 squeezes_S1x1x128_S128))
def rowsAt35 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt34 I) (gp35 I) Finset.univ
def gp36 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 1, 0] S1x1x128.size inb_S26x4x128_S1x1x128_23_1_0) (fun _ => rfl)).squeeze S128 squeezes_S1x1x128_S128).view.read (Elt F) I.fi) rfl (I.hin 23 1 inb_S26x4x128_S1x1x128_23_1_0 squeezes_S1x1x128_S128))
def rowsAt36 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt35 I) (gp36 I) Finset.univ
def gp37 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 1, 0] S1x1x128.size inb_S26x4x128_S1x1x128_24_1_0) (fun _ => rfl)).squeeze S128 squeezes_S1x1x128_S128).view.read (Elt F) I.fi) rfl (I.hin 24 1 inb_S26x4x128_S1x1x128_24_1_0 squeezes_S1x1x128_S128))
def rowsAt37 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt36 I) (gp37 I) Finset.univ
def gp38 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 1, 0] S1x1x128.size inb_S26x4x128_S1x1x128_25_1_0) (fun _ => rfl)).squeeze S128 squeezes_S1x1x128_S128).view.read (Elt F) I.fi) rfl (I.hin 25 1 inb_S26x4x128_S1x1x128_25_1_0 squeezes_S1x1x128_S128))
def rowsAt38 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt37 I) (gp38 I) Finset.univ
def gp39 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 1, 0] S1x1x128.size inb_S26x4x128_S1x1x128_0_1_0) (fun _ => rfl)).squeeze S128 squeezes_S1x1x128_S128).view.read (Elt F) I.fi) rfl (I.hin 0 1 inb_S26x4x128_S1x1x128_0_1_0 squeezes_S1x1x128_S128))
def rowsAt39 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt38 I) (gp39 I) Finset.univ
def gp40 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 1, 0] S1x1x128.size inb_S26x4x128_S1x1x128_1_1_0) (fun _ => rfl)).squeeze S128 squeezes_S1x1x128_S128).view.read (Elt F) I.fi) rfl (I.hin 1 1 inb_S26x4x128_S1x1x128_1_1_0 squeezes_S1x1x128_S128))
def rowsAt40 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt39 I) (gp40 I) Finset.univ
def gp41 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 1, 0] S1x1x128.size inb_S26x4x128_S1x1x128_2_1_0) (fun _ => rfl)).squeeze S128 squeezes_S1x1x128_S128).view.read (Elt F) I.fi) rfl (I.hin 2 1 inb_S26x4x128_S1x1x128_2_1_0 squeezes_S1x1x128_S128))
def rowsAt41 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt40 I) (gp41 I) Finset.univ
def gp42 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 1, 0] S1x1x128.size inb_S26x4x128_S1x1x128_3_1_0) (fun _ => rfl)).squeeze S128 squeezes_S1x1x128_S128).view.read (Elt F) I.fi) rfl (I.hin 3 1 inb_S26x4x128_S1x1x128_3_1_0 squeezes_S1x1x128_S128))
def rowsAt42 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt41 I) (gp42 I) Finset.univ
def gp43 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 1, 0] S1x1x128.size inb_S26x4x128_S1x1x128_4_1_0) (fun _ => rfl)).squeeze S128 squeezes_S1x1x128_S128).view.read (Elt F) I.fi) rfl (I.hin 4 1 inb_S26x4x128_S1x1x128_4_1_0 squeezes_S1x1x128_S128))
def rowsAt43 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt42 I) (gp43 I) Finset.univ
def gp44 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 1, 0] S1x1x128.size inb_S26x4x128_S1x1x128_5_1_0) (fun _ => rfl)).squeeze S128 squeezes_S1x1x128_S128).view.read (Elt F) I.fi) rfl (I.hin 5 1 inb_S26x4x128_S1x1x128_5_1_0 squeezes_S1x1x128_S128))
def rowsAt44 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt43 I) (gp44 I) Finset.univ
def gp45 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 1, 0] S1x1x128.size inb_S26x4x128_S1x1x128_6_1_0) (fun _ => rfl)).squeeze S128 squeezes_S1x1x128_S128).view.read (Elt F) I.fi) rfl (I.hin 6 1 inb_S26x4x128_S1x1x128_6_1_0 squeezes_S1x1x128_S128))
def rowsAt45 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt44 I) (gp45 I) Finset.univ
def gp46 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 1, 0] S1x1x128.size inb_S26x4x128_S1x1x128_7_1_0) (fun _ => rfl)).squeeze S128 squeezes_S1x1x128_S128).view.read (Elt F) I.fi) rfl (I.hin 7 1 inb_S26x4x128_S1x1x128_7_1_0 squeezes_S1x1x128_S128))
def rowsAt46 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt45 I) (gp46 I) Finset.univ
def gp47 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 1, 0] S1x1x128.size inb_S26x4x128_S1x1x128_8_1_0) (fun _ => rfl)).squeeze S128 squeezes_S1x1x128_S128).view.read (Elt F) I.fi) rfl (I.hin 8 1 inb_S26x4x128_S1x1x128_8_1_0 squeezes_S1x1x128_S128))
def rowsAt47 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt46 I) (gp47 I) Finset.univ
def gp48 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 1, 0] S1x1x128.size inb_S26x4x128_S1x1x128_9_1_0) (fun _ => rfl)).squeeze S128 squeezes_S1x1x128_S128).view.read (Elt F) I.fi) rfl (I.hin 9 1 inb_S26x4x128_S1x1x128_9_1_0 squeezes_S1x1x128_S128))
def rowsAt48 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt47 I) (gp48 I) Finset.univ
def gp49 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 1, 0] S1x1x128.size inb_S26x4x128_S1x1x128_10_1_0) (fun _ => rfl)).squeeze S128 squeezes_S1x1x128_S128).view.read (Elt F) I.fi) rfl (I.hin 10 1 inb_S26x4x128_S1x1x128_10_1_0 squeezes_S1x1x128_S128))
def rowsAt49 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt48 I) (gp49 I) Finset.univ
def gp50 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 1, 0] S1x1x128.size inb_S26x4x128_S1x1x128_11_1_0) (fun _ => rfl)).squeeze S128 squeezes_S1x1x128_S128).view.read (Elt F) I.fi) rfl (I.hin 11 1 inb_S26x4x128_S1x1x128_11_1_0 squeezes_S1x1x128_S128))
def rowsAt50 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt49 I) (gp50 I) Finset.univ
def gp51 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 1, 0] S1x1x128.size inb_S26x4x128_S1x1x128_12_1_0) (fun _ => rfl)).squeeze S128 squeezes_S1x1x128_S128).view.read (Elt F) I.fi) rfl (I.hin 12 1 inb_S26x4x128_S1x1x128_12_1_0 squeezes_S1x1x128_S128))
def rowsAt51 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt50 I) (gp51 I) Finset.univ
def gp52 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 2, 0] S1x1x128.size inb_S26x4x128_S1x1x128_13_2_0) (fun _ => rfl)).squeeze S128 squeezes_S1x1x128_S128).view.read (Elt F) I.fi) rfl (I.hin 13 2 inb_S26x4x128_S1x1x128_13_2_0 squeezes_S1x1x128_S128))
def rowsAt52 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt51 I) (gp52 I) Finset.univ
def gp53 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 2, 0] S1x1x128.size inb_S26x4x128_S1x1x128_14_2_0) (fun _ => rfl)).squeeze S128 squeezes_S1x1x128_S128).view.read (Elt F) I.fi) rfl (I.hin 14 2 inb_S26x4x128_S1x1x128_14_2_0 squeezes_S1x1x128_S128))
def rowsAt53 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt52 I) (gp53 I) Finset.univ
def gp54 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 2, 0] S1x1x128.size inb_S26x4x128_S1x1x128_15_2_0) (fun _ => rfl)).squeeze S128 squeezes_S1x1x128_S128).view.read (Elt F) I.fi) rfl (I.hin 15 2 inb_S26x4x128_S1x1x128_15_2_0 squeezes_S1x1x128_S128))
def rowsAt54 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt53 I) (gp54 I) Finset.univ
def gp55 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 2, 0] S1x1x128.size inb_S26x4x128_S1x1x128_16_2_0) (fun _ => rfl)).squeeze S128 squeezes_S1x1x128_S128).view.read (Elt F) I.fi) rfl (I.hin 16 2 inb_S26x4x128_S1x1x128_16_2_0 squeezes_S1x1x128_S128))
def rowsAt55 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt54 I) (gp55 I) Finset.univ
def gp56 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 2, 0] S1x1x128.size inb_S26x4x128_S1x1x128_17_2_0) (fun _ => rfl)).squeeze S128 squeezes_S1x1x128_S128).view.read (Elt F) I.fi) rfl (I.hin 17 2 inb_S26x4x128_S1x1x128_17_2_0 squeezes_S1x1x128_S128))
def rowsAt56 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt55 I) (gp56 I) Finset.univ
def gp57 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 2, 0] S1x1x128.size inb_S26x4x128_S1x1x128_18_2_0) (fun _ => rfl)).squeeze S128 squeezes_S1x1x128_S128).view.read (Elt F) I.fi) rfl (I.hin 18 2 inb_S26x4x128_S1x1x128_18_2_0 squeezes_S1x1x128_S128))
def rowsAt57 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt56 I) (gp57 I) Finset.univ
def gp58 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 2, 0] S1x1x128.size inb_S26x4x128_S1x1x128_19_2_0) (fun _ => rfl)).squeeze S128 squeezes_S1x1x128_S128).view.read (Elt F) I.fi) rfl (I.hin 19 2 inb_S26x4x128_S1x1x128_19_2_0 squeezes_S1x1x128_S128))
def rowsAt58 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt57 I) (gp58 I) Finset.univ
def gp59 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 2, 0] S1x1x128.size inb_S26x4x128_S1x1x128_20_2_0) (fun _ => rfl)).squeeze S128 squeezes_S1x1x128_S128).view.read (Elt F) I.fi) rfl (I.hin 20 2 inb_S26x4x128_S1x1x128_20_2_0 squeezes_S1x1x128_S128))
def rowsAt59 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt58 I) (gp59 I) Finset.univ
def gp60 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 2, 0] S1x1x128.size inb_S26x4x128_S1x1x128_21_2_0) (fun _ => rfl)).squeeze S128 squeezes_S1x1x128_S128).view.read (Elt F) I.fi) rfl (I.hin 21 2 inb_S26x4x128_S1x1x128_21_2_0 squeezes_S1x1x128_S128))
def rowsAt60 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt59 I) (gp60 I) Finset.univ
def gp61 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 2, 0] S1x1x128.size inb_S26x4x128_S1x1x128_22_2_0) (fun _ => rfl)).squeeze S128 squeezes_S1x1x128_S128).view.read (Elt F) I.fi) rfl (I.hin 22 2 inb_S26x4x128_S1x1x128_22_2_0 squeezes_S1x1x128_S128))
def rowsAt61 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt60 I) (gp61 I) Finset.univ
def gp62 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 2, 0] S1x1x128.size inb_S26x4x128_S1x1x128_23_2_0) (fun _ => rfl)).squeeze S128 squeezes_S1x1x128_S128).view.read (Elt F) I.fi) rfl (I.hin 23 2 inb_S26x4x128_S1x1x128_23_2_0 squeezes_S1x1x128_S128))
def rowsAt62 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt61 I) (gp62 I) Finset.univ
def gp63 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 2, 0] S1x1x128.size inb_S26x4x128_S1x1x128_24_2_0) (fun _ => rfl)).squeeze S128 squeezes_S1x1x128_S128).view.read (Elt F) I.fi) rfl (I.hin 24 2 inb_S26x4x128_S1x1x128_24_2_0 squeezes_S1x1x128_S128))
def rowsAt63 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt62 I) (gp63 I) Finset.univ
def gp64 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 2, 0] S1x1x128.size inb_S26x4x128_S1x1x128_25_2_0) (fun _ => rfl)).squeeze S128 squeezes_S1x1x128_S128).view.read (Elt F) I.fi) rfl (I.hin 25 2 inb_S26x4x128_S1x1x128_25_2_0 squeezes_S1x1x128_S128))
def rowsAt64 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt63 I) (gp64 I) Finset.univ
def gp65 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 2, 0] S1x1x128.size inb_S26x4x128_S1x1x128_0_2_0) (fun _ => rfl)).squeeze S128 squeezes_S1x1x128_S128).view.read (Elt F) I.fi) rfl (I.hin 0 2 inb_S26x4x128_S1x1x128_0_2_0 squeezes_S1x1x128_S128))
def rowsAt65 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt64 I) (gp65 I) Finset.univ
def gp66 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 2, 0] S1x1x128.size inb_S26x4x128_S1x1x128_1_2_0) (fun _ => rfl)).squeeze S128 squeezes_S1x1x128_S128).view.read (Elt F) I.fi) rfl (I.hin 1 2 inb_S26x4x128_S1x1x128_1_2_0 squeezes_S1x1x128_S128))
def rowsAt66 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt65 I) (gp66 I) Finset.univ
def gp67 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 2, 0] S1x1x128.size inb_S26x4x128_S1x1x128_2_2_0) (fun _ => rfl)).squeeze S128 squeezes_S1x1x128_S128).view.read (Elt F) I.fi) rfl (I.hin 2 2 inb_S26x4x128_S1x1x128_2_2_0 squeezes_S1x1x128_S128))
def rowsAt67 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt66 I) (gp67 I) Finset.univ
def gp68 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 2, 0] S1x1x128.size inb_S26x4x128_S1x1x128_3_2_0) (fun _ => rfl)).squeeze S128 squeezes_S1x1x128_S128).view.read (Elt F) I.fi) rfl (I.hin 3 2 inb_S26x4x128_S1x1x128_3_2_0 squeezes_S1x1x128_S128))
def rowsAt68 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt67 I) (gp68 I) Finset.univ
def gp69 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 2, 0] S1x1x128.size inb_S26x4x128_S1x1x128_4_2_0) (fun _ => rfl)).squeeze S128 squeezes_S1x1x128_S128).view.read (Elt F) I.fi) rfl (I.hin 4 2 inb_S26x4x128_S1x1x128_4_2_0 squeezes_S1x1x128_S128))
def rowsAt69 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt68 I) (gp69 I) Finset.univ
def gp70 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 2, 0] S1x1x128.size inb_S26x4x128_S1x1x128_5_2_0) (fun _ => rfl)).squeeze S128 squeezes_S1x1x128_S128).view.read (Elt F) I.fi) rfl (I.hin 5 2 inb_S26x4x128_S1x1x128_5_2_0 squeezes_S1x1x128_S128))
def rowsAt70 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt69 I) (gp70 I) Finset.univ
def gp71 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 2, 0] S1x1x128.size inb_S26x4x128_S1x1x128_6_2_0) (fun _ => rfl)).squeeze S128 squeezes_S1x1x128_S128).view.read (Elt F) I.fi) rfl (I.hin 6 2 inb_S26x4x128_S1x1x128_6_2_0 squeezes_S1x1x128_S128))
def rowsAt71 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt70 I) (gp71 I) Finset.univ
def gp72 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 2, 0] S1x1x128.size inb_S26x4x128_S1x1x128_7_2_0) (fun _ => rfl)).squeeze S128 squeezes_S1x1x128_S128).view.read (Elt F) I.fi) rfl (I.hin 7 2 inb_S26x4x128_S1x1x128_7_2_0 squeezes_S1x1x128_S128))
def rowsAt72 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt71 I) (gp72 I) Finset.univ
def gp73 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 2, 0] S1x1x128.size inb_S26x4x128_S1x1x128_8_2_0) (fun _ => rfl)).squeeze S128 squeezes_S1x1x128_S128).view.read (Elt F) I.fi) rfl (I.hin 8 2 inb_S26x4x128_S1x1x128_8_2_0 squeezes_S1x1x128_S128))
def rowsAt73 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt72 I) (gp73 I) Finset.univ
def gp74 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 2, 0] S1x1x128.size inb_S26x4x128_S1x1x128_9_2_0) (fun _ => rfl)).squeeze S128 squeezes_S1x1x128_S128).view.read (Elt F) I.fi) rfl (I.hin 9 2 inb_S26x4x128_S1x1x128_9_2_0 squeezes_S1x1x128_S128))
def rowsAt74 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt73 I) (gp74 I) Finset.univ
def gp75 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 2, 0] S1x1x128.size inb_S26x4x128_S1x1x128_10_2_0) (fun _ => rfl)).squeeze S128 squeezes_S1x1x128_S128).view.read (Elt F) I.fi) rfl (I.hin 10 2 inb_S26x4x128_S1x1x128_10_2_0 squeezes_S1x1x128_S128))
def rowsAt75 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt74 I) (gp75 I) Finset.univ
def gp76 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 2, 0] S1x1x128.size inb_S26x4x128_S1x1x128_11_2_0) (fun _ => rfl)).squeeze S128 squeezes_S1x1x128_S128).view.read (Elt F) I.fi) rfl (I.hin 11 2 inb_S26x4x128_S1x1x128_11_2_0 squeezes_S1x1x128_S128))
def rowsAt76 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt75 I) (gp76 I) Finset.univ
def gp77 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 2, 0] S1x1x128.size inb_S26x4x128_S1x1x128_12_2_0) (fun _ => rfl)).squeeze S128 squeezes_S1x1x128_S128).view.read (Elt F) I.fi) rfl (I.hin 12 2 inb_S26x4x128_S1x1x128_12_2_0 squeezes_S1x1x128_S128))
def rowsAt77 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt76 I) (gp77 I) Finset.univ
def gp78 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 3, 0] S1x1x128.size inb_S26x4x128_S1x1x128_13_3_0) (fun _ => rfl)).squeeze S128 squeezes_S1x1x128_S128).view.read (Elt F) I.fi) rfl (I.hin 13 3 inb_S26x4x128_S1x1x128_13_3_0 squeezes_S1x1x128_S128))
def rowsAt78 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt77 I) (gp78 I) Finset.univ
def gp79 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 3, 0] S1x1x128.size inb_S26x4x128_S1x1x128_14_3_0) (fun _ => rfl)).squeeze S128 squeezes_S1x1x128_S128).view.read (Elt F) I.fi) rfl (I.hin 14 3 inb_S26x4x128_S1x1x128_14_3_0 squeezes_S1x1x128_S128))
def rowsAt79 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt78 I) (gp79 I) Finset.univ
def gp80 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 3, 0] S1x1x128.size inb_S26x4x128_S1x1x128_15_3_0) (fun _ => rfl)).squeeze S128 squeezes_S1x1x128_S128).view.read (Elt F) I.fi) rfl (I.hin 15 3 inb_S26x4x128_S1x1x128_15_3_0 squeezes_S1x1x128_S128))
def rowsAt80 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt79 I) (gp80 I) Finset.univ
def gp81 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 3, 0] S1x1x128.size inb_S26x4x128_S1x1x128_16_3_0) (fun _ => rfl)).squeeze S128 squeezes_S1x1x128_S128).view.read (Elt F) I.fi) rfl (I.hin 16 3 inb_S26x4x128_S1x1x128_16_3_0 squeezes_S1x1x128_S128))
def rowsAt81 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt80 I) (gp81 I) Finset.univ
def gp82 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 3, 0] S1x1x128.size inb_S26x4x128_S1x1x128_17_3_0) (fun _ => rfl)).squeeze S128 squeezes_S1x1x128_S128).view.read (Elt F) I.fi) rfl (I.hin 17 3 inb_S26x4x128_S1x1x128_17_3_0 squeezes_S1x1x128_S128))
def rowsAt82 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt81 I) (gp82 I) Finset.univ
def gp83 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 3, 0] S1x1x128.size inb_S26x4x128_S1x1x128_18_3_0) (fun _ => rfl)).squeeze S128 squeezes_S1x1x128_S128).view.read (Elt F) I.fi) rfl (I.hin 18 3 inb_S26x4x128_S1x1x128_18_3_0 squeezes_S1x1x128_S128))
def rowsAt83 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt82 I) (gp83 I) Finset.univ
def gp84 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 3, 0] S1x1x128.size inb_S26x4x128_S1x1x128_19_3_0) (fun _ => rfl)).squeeze S128 squeezes_S1x1x128_S128).view.read (Elt F) I.fi) rfl (I.hin 19 3 inb_S26x4x128_S1x1x128_19_3_0 squeezes_S1x1x128_S128))
def rowsAt84 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt83 I) (gp84 I) Finset.univ
def gp85 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 3, 0] S1x1x128.size inb_S26x4x128_S1x1x128_20_3_0) (fun _ => rfl)).squeeze S128 squeezes_S1x1x128_S128).view.read (Elt F) I.fi) rfl (I.hin 20 3 inb_S26x4x128_S1x1x128_20_3_0 squeezes_S1x1x128_S128))
def rowsAt85 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt84 I) (gp85 I) Finset.univ
def gp86 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 3, 0] S1x1x128.size inb_S26x4x128_S1x1x128_21_3_0) (fun _ => rfl)).squeeze S128 squeezes_S1x1x128_S128).view.read (Elt F) I.fi) rfl (I.hin 21 3 inb_S26x4x128_S1x1x128_21_3_0 squeezes_S1x1x128_S128))
def rowsAt86 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt85 I) (gp86 I) Finset.univ
def gp87 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 3, 0] S1x1x128.size inb_S26x4x128_S1x1x128_22_3_0) (fun _ => rfl)).squeeze S128 squeezes_S1x1x128_S128).view.read (Elt F) I.fi) rfl (I.hin 22 3 inb_S26x4x128_S1x1x128_22_3_0 squeezes_S1x1x128_S128))
def rowsAt87 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt86 I) (gp87 I) Finset.univ
def gp88 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 3, 0] S1x1x128.size inb_S26x4x128_S1x1x128_23_3_0) (fun _ => rfl)).squeeze S128 squeezes_S1x1x128_S128).view.read (Elt F) I.fi) rfl (I.hin 23 3 inb_S26x4x128_S1x1x128_23_3_0 squeezes_S1x1x128_S128))
def rowsAt88 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt87 I) (gp88 I) Finset.univ
def gp89 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 3, 0] S1x1x128.size inb_S26x4x128_S1x1x128_24_3_0) (fun _ => rfl)).squeeze S128 squeezes_S1x1x128_S128).view.read (Elt F) I.fi) rfl (I.hin 24 3 inb_S26x4x128_S1x1x128_24_3_0 squeezes_S1x1x128_S128))
def rowsAt89 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt88 I) (gp89 I) Finset.univ
def gp90 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 3, 0] S1x1x128.size inb_S26x4x128_S1x1x128_25_3_0) (fun _ => rfl)).squeeze S128 squeezes_S1x1x128_S128).view.read (Elt F) I.fi) rfl (I.hin 25 3 inb_S26x4x128_S1x1x128_25_3_0 squeezes_S1x1x128_S128))
def rowsAt90 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt89 I) (gp90 I) Finset.univ
def gp91 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 3, 0] S1x1x128.size inb_S26x4x128_S1x1x128_0_3_0) (fun _ => rfl)).squeeze S128 squeezes_S1x1x128_S128).view.read (Elt F) I.fi) rfl (I.hin 0 3 inb_S26x4x128_S1x1x128_0_3_0 squeezes_S1x1x128_S128))
def rowsAt91 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt90 I) (gp91 I) Finset.univ
def gp92 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 3, 0] S1x1x128.size inb_S26x4x128_S1x1x128_1_3_0) (fun _ => rfl)).squeeze S128 squeezes_S1x1x128_S128).view.read (Elt F) I.fi) rfl (I.hin 1 3 inb_S26x4x128_S1x1x128_1_3_0 squeezes_S1x1x128_S128))
def rowsAt92 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt91 I) (gp92 I) Finset.univ
def gp93 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 3, 0] S1x1x128.size inb_S26x4x128_S1x1x128_2_3_0) (fun _ => rfl)).squeeze S128 squeezes_S1x1x128_S128).view.read (Elt F) I.fi) rfl (I.hin 2 3 inb_S26x4x128_S1x1x128_2_3_0 squeezes_S1x1x128_S128))
def rowsAt93 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt92 I) (gp93 I) Finset.univ
def gp94 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 3, 0] S1x1x128.size inb_S26x4x128_S1x1x128_3_3_0) (fun _ => rfl)).squeeze S128 squeezes_S1x1x128_S128).view.read (Elt F) I.fi) rfl (I.hin 3 3 inb_S26x4x128_S1x1x128_3_3_0 squeezes_S1x1x128_S128))
def rowsAt94 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt93 I) (gp94 I) Finset.univ
def gp95 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 3, 0] S1x1x128.size inb_S26x4x128_S1x1x128_4_3_0) (fun _ => rfl)).squeeze S128 squeezes_S1x1x128_S128).view.read (Elt F) I.fi) rfl (I.hin 4 3 inb_S26x4x128_S1x1x128_4_3_0 squeezes_S1x1x128_S128))
def rowsAt95 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt94 I) (gp95 I) Finset.univ
def gp96 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 3, 0] S1x1x128.size inb_S26x4x128_S1x1x128_5_3_0) (fun _ => rfl)).squeeze S128 squeezes_S1x1x128_S128).view.read (Elt F) I.fi) rfl (I.hin 5 3 inb_S26x4x128_S1x1x128_5_3_0 squeezes_S1x1x128_S128))
def rowsAt96 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt95 I) (gp96 I) Finset.univ
def gp97 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 3, 0] S1x1x128.size inb_S26x4x128_S1x1x128_6_3_0) (fun _ => rfl)).squeeze S128 squeezes_S1x1x128_S128).view.read (Elt F) I.fi) rfl (I.hin 6 3 inb_S26x4x128_S1x1x128_6_3_0 squeezes_S1x1x128_S128))
def rowsAt97 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt96 I) (gp97 I) Finset.univ
def gp98 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 3, 0] S1x1x128.size inb_S26x4x128_S1x1x128_7_3_0) (fun _ => rfl)).squeeze S128 squeezes_S1x1x128_S128).view.read (Elt F) I.fi) rfl (I.hin 7 3 inb_S26x4x128_S1x1x128_7_3_0 squeezes_S1x1x128_S128))
def rowsAt98 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt97 I) (gp98 I) Finset.univ
def gp99 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 3, 0] S1x1x128.size inb_S26x4x128_S1x1x128_8_3_0) (fun _ => rfl)).squeeze S128 squeezes_S1x1x128_S128).view.read (Elt F) I.fi) rfl (I.hin 8 3 inb_S26x4x128_S1x1x128_8_3_0 squeezes_S1x1x128_S128))
def rowsAt99 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt98 I) (gp99 I) Finset.univ
def gp100 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 3, 0] S1x1x128.size inb_S26x4x128_S1x1x128_9_3_0) (fun _ => rfl)).squeeze S128 squeezes_S1x1x128_S128).view.read (Elt F) I.fi) rfl (I.hin 9 3 inb_S26x4x128_S1x1x128_9_3_0 squeezes_S1x1x128_S128))
def rowsAt100 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt99 I) (gp100 I) Finset.univ
def gp101 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 3, 0] S1x1x128.size inb_S26x4x128_S1x1x128_10_3_0) (fun _ => rfl)).squeeze S128 squeezes_S1x1x128_S128).view.read (Elt F) I.fi) rfl (I.hin 10 3 inb_S26x4x128_S1x1x128_10_3_0 squeezes_S1x1x128_S128))
def rowsAt101 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt100 I) (gp101 I) Finset.univ
def gp102 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 3, 0] S1x1x128.size inb_S26x4x128_S1x1x128_11_3_0) (fun _ => rfl)).squeeze S128 squeezes_S1x1x128_S128).view.read (Elt F) I.fi) rfl (I.hin 11 3 inb_S26x4x128_S1x1x128_11_3_0 squeezes_S1x1x128_S128))
def rowsAt102 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt101 I) (gp102 I) Finset.univ
def gp103 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 3, 0] S1x1x128.size inb_S26x4x128_S1x1x128_12_3_0) (fun _ => rfl)).squeeze S128 squeezes_S1x1x128_S128).view.read (Elt F) I.fi) rfl (I.hin 12 3 inb_S26x4x128_S1x1x128_12_3_0 squeezes_S1x1x128_S128))
def rowsAt103 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt102 I) (gp103 I) Finset.univ
def pay0 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt5 I))
def outAt0 : Buf (Elt F) ((V d (cVL L) (jVL L)).loc main_v26_scv) :=
  View.write (Elt F) ((Memref.whole main_v26_scv : Memref sig .scVector .hbm S16384x3328 .f32).slice (Rect.unit (s := S16384x3328) (k0_off54 L 0#32) S128x128.size (k0_off54_inb L hc 0)) (fun _ => rfl)).view I.fo (pay0 I) Finset.univ
def pay1 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt6 I))
def outAt1 : Buf (Elt F) ((V d (cVL L) (jVL L)).loc main_v26_scv) :=
  View.write (Elt F) ((Memref.whole main_v26_scv : Memref sig .scVector .hbm S16384x3328 .f32).slice (Rect.unit (s := S16384x3328) (k0_off55 L 0#32) S128x128.size (k0_off55_inb L hc 0)) (fun _ => rfl)).view (outAt0 I hc) (pay1 I) Finset.univ
def pay2 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt7 I))
def outAt2 : Buf (Elt F) ((V d (cVL L) (jVL L)).loc main_v26_scv) :=
  View.write (Elt F) ((Memref.whole main_v26_scv : Memref sig .scVector .hbm S16384x3328 .f32).slice (Rect.unit (s := S16384x3328) (k0_off56 L 0#32) S128x128.size (k0_off56_inb L hc 0)) (fun _ => rfl)).view (outAt1 I hc) (pay2 I) Finset.univ
def pay3 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt8 I))
def outAt3 : Buf (Elt F) ((V d (cVL L) (jVL L)).loc main_v26_scv) :=
  View.write (Elt F) ((Memref.whole main_v26_scv : Memref sig .scVector .hbm S16384x3328 .f32).slice (Rect.unit (s := S16384x3328) (k0_off57 L 0#32) S128x128.size (k0_off57_inb L hc 0)) (fun _ => rfl)).view (outAt2 I hc) (pay3 I) Finset.univ
def pay4 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt9 I))
def outAt4 : Buf (Elt F) ((V d (cVL L) (jVL L)).loc main_v26_scv) :=
  View.write (Elt F) ((Memref.whole main_v26_scv : Memref sig .scVector .hbm S16384x3328 .f32).slice (Rect.unit (s := S16384x3328) (k0_off58 L 0#32) S128x128.size (k0_off58_inb L hc 0)) (fun _ => rfl)).view (outAt3 I hc) (pay4 I) Finset.univ
def pay5 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt10 I))
def outAt5 : Buf (Elt F) ((V d (cVL L) (jVL L)).loc main_v26_scv) :=
  View.write (Elt F) ((Memref.whole main_v26_scv : Memref sig .scVector .hbm S16384x3328 .f32).slice (Rect.unit (s := S16384x3328) (k0_off59 L 0#32) S128x128.size (k0_off59_inb L hc 0)) (fun _ => rfl)).view (outAt4 I hc) (pay5 I) Finset.univ
def pay6 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt11 I))
def outAt6 : Buf (Elt F) ((V d (cVL L) (jVL L)).loc main_v26_scv) :=
  View.write (Elt F) ((Memref.whole main_v26_scv : Memref sig .scVector .hbm S16384x3328 .f32).slice (Rect.unit (s := S16384x3328) (k0_off60 L 0#32) S128x128.size (k0_off60_inb L hc 0)) (fun _ => rfl)).view (outAt5 I hc) (pay6 I) Finset.univ
def pay7 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt12 I))
def outAt7 : Buf (Elt F) ((V d (cVL L) (jVL L)).loc main_v26_scv) :=
  View.write (Elt F) ((Memref.whole main_v26_scv : Memref sig .scVector .hbm S16384x3328 .f32).slice (Rect.unit (s := S16384x3328) (k0_off61 L 0#32) S128x128.size (k0_off61_inb L hc 0)) (fun _ => rfl)).view (outAt6 I hc) (pay7 I) Finset.univ
def pay8 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt13 I))
def outAt8 : Buf (Elt F) ((V d (cVL L) (jVL L)).loc main_v26_scv) :=
  View.write (Elt F) ((Memref.whole main_v26_scv : Memref sig .scVector .hbm S16384x3328 .f32).slice (Rect.unit (s := S16384x3328) (k0_off62 L 0#32) S128x128.size (k0_off62_inb L hc 0)) (fun _ => rfl)).view (outAt7 I hc) (pay8 I) Finset.univ
def pay9 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt14 I))
def outAt9 : Buf (Elt F) ((V d (cVL L) (jVL L)).loc main_v26_scv) :=
  View.write (Elt F) ((Memref.whole main_v26_scv : Memref sig .scVector .hbm S16384x3328 .f32).slice (Rect.unit (s := S16384x3328) (k0_off63 L 0#32) S128x128.size (k0_off63_inb L hc 0)) (fun _ => rfl)).view (outAt8 I hc) (pay9 I) Finset.univ
def pay10 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt15 I))
def outAt10 : Buf (Elt F) ((V d (cVL L) (jVL L)).loc main_v26_scv) :=
  View.write (Elt F) ((Memref.whole main_v26_scv : Memref sig .scVector .hbm S16384x3328 .f32).slice (Rect.unit (s := S16384x3328) (k0_off64 L 0#32) S128x128.size (k0_off64_inb L hc 0)) (fun _ => rfl)).view (outAt9 I hc) (pay10 I) Finset.univ
def pay11 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt16 I))
def outAt11 : Buf (Elt F) ((V d (cVL L) (jVL L)).loc main_v26_scv) :=
  View.write (Elt F) ((Memref.whole main_v26_scv : Memref sig .scVector .hbm S16384x3328 .f32).slice (Rect.unit (s := S16384x3328) (k0_off65 L 0#32) S128x128.size (k0_off65_inb L hc 0)) (fun _ => rfl)).view (outAt10 I hc) (pay11 I) Finset.univ
def pay12 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt17 I))
def outAt12 : Buf (Elt F) ((V d (cVL L) (jVL L)).loc main_v26_scv) :=
  View.write (Elt F) ((Memref.whole main_v26_scv : Memref sig .scVector .hbm S16384x3328 .f32).slice (Rect.unit (s := S16384x3328) (k0_off66 L 0#32) S128x128.size (k0_off66_inb L hc 0)) (fun _ => rfl)).view (outAt11 I hc) (pay12 I) Finset.univ
def pay13 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt18 I))
def outAt13 : Buf (Elt F) ((V d (cVL L) (jVL L)).loc main_v26_scv) :=
  View.write (Elt F) ((Memref.whole main_v26_scv : Memref sig .scVector .hbm S16384x3328 .f32).slice (Rect.unit (s := S16384x3328) (k0_off67 L 0#32) S128x128.size (k0_off67_inb L hc 0)) (fun _ => rfl)).view (outAt12 I hc) (pay13 I) Finset.univ
def pay14 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt19 I))
def outAt14 : Buf (Elt F) ((V d (cVL L) (jVL L)).loc main_v26_scv) :=
  View.write (Elt F) ((Memref.whole main_v26_scv : Memref sig .scVector .hbm S16384x3328 .f32).slice (Rect.unit (s := S16384x3328) (k0_off68 L 0#32) S128x128.size (k0_off68_inb L hc 0)) (fun _ => rfl)).view (outAt13 I hc) (pay14 I) Finset.univ
def pay15 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt20 I))
def outAt15 : Buf (Elt F) ((V d (cVL L) (jVL L)).loc main_v26_scv) :=
  View.write (Elt F) ((Memref.whole main_v26_scv : Memref sig .scVector .hbm S16384x3328 .f32).slice (Rect.unit (s := S16384x3328) (k0_off69 L 0#32) S128x128.size (k0_off69_inb L hc 0)) (fun _ => rfl)).view (outAt14 I hc) (pay15 I) Finset.univ
def pay16 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt21 I))
def outAt16 : Buf (Elt F) ((V d (cVL L) (jVL L)).loc main_v26_scv) :=
  View.write (Elt F) ((Memref.whole main_v26_scv : Memref sig .scVector .hbm S16384x3328 .f32).slice (Rect.unit (s := S16384x3328) (k0_off70 L 0#32) S128x128.size (k0_off70_inb L hc 0)) (fun _ => rfl)).view (outAt15 I hc) (pay16 I) Finset.univ
def pay17 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt22 I))
def outAt17 : Buf (Elt F) ((V d (cVL L) (jVL L)).loc main_v26_scv) :=
  View.write (Elt F) ((Memref.whole main_v26_scv : Memref sig .scVector .hbm S16384x3328 .f32).slice (Rect.unit (s := S16384x3328) (k0_off71 L 0#32) S128x128.size (k0_off71_inb L hc 0)) (fun _ => rfl)).view (outAt16 I hc) (pay17 I) Finset.univ
def pay18 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt23 I))
def outAt18 : Buf (Elt F) ((V d (cVL L) (jVL L)).loc main_v26_scv) :=
  View.write (Elt F) ((Memref.whole main_v26_scv : Memref sig .scVector .hbm S16384x3328 .f32).slice (Rect.unit (s := S16384x3328) (k0_off72 L 0#32) S128x128.size (k0_off72_inb L hc 0)) (fun _ => rfl)).view (outAt17 I hc) (pay18 I) Finset.univ
def pay19 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt24 I))
def outAt19 : Buf (Elt F) ((V d (cVL L) (jVL L)).loc main_v26_scv) :=
  View.write (Elt F) ((Memref.whole main_v26_scv : Memref sig .scVector .hbm S16384x3328 .f32).slice (Rect.unit (s := S16384x3328) (k0_off73 L 0#32) S128x128.size (k0_off73_inb L hc 0)) (fun _ => rfl)).view (outAt18 I hc) (pay19 I) Finset.univ
def pay20 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt25 I))
def outAt20 : Buf (Elt F) ((V d (cVL L) (jVL L)).loc main_v26_scv) :=
  View.write (Elt F) ((Memref.whole main_v26_scv : Memref sig .scVector .hbm S16384x3328 .f32).slice (Rect.unit (s := S16384x3328) (k0_off74 L 0#32) S128x128.size (k0_off74_inb L hc 0)) (fun _ => rfl)).view (outAt19 I hc) (pay20 I) Finset.univ
def pay21 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt26 I))
def outAt21 : Buf (Elt F) ((V d (cVL L) (jVL L)).loc main_v26_scv) :=
  View.write (Elt F) ((Memref.whole main_v26_scv : Memref sig .scVector .hbm S16384x3328 .f32).slice (Rect.unit (s := S16384x3328) (k0_off75 L 0#32) S128x128.size (k0_off75_inb L hc 0)) (fun _ => rfl)).view (outAt20 I hc) (pay21 I) Finset.univ
def pay22 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt27 I))
def outAt22 : Buf (Elt F) ((V d (cVL L) (jVL L)).loc main_v26_scv) :=
  View.write (Elt F) ((Memref.whole main_v26_scv : Memref sig .scVector .hbm S16384x3328 .f32).slice (Rect.unit (s := S16384x3328) (k0_off76 L 0#32) S128x128.size (k0_off76_inb L hc 0)) (fun _ => rfl)).view (outAt21 I hc) (pay22 I) Finset.univ
def pay23 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt28 I))
def outAt23 : Buf (Elt F) ((V d (cVL L) (jVL L)).loc main_v26_scv) :=
  View.write (Elt F) ((Memref.whole main_v26_scv : Memref sig .scVector .hbm S16384x3328 .f32).slice (Rect.unit (s := S16384x3328) (k0_off77 L 0#32) S128x128.size (k0_off77_inb L hc 0)) (fun _ => rfl)).view (outAt22 I hc) (pay23 I) Finset.univ
def pay24 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt29 I))
def outAt24 : Buf (Elt F) ((V d (cVL L) (jVL L)).loc main_v26_scv) :=
  View.write (Elt F) ((Memref.whole main_v26_scv : Memref sig .scVector .hbm S16384x3328 .f32).slice (Rect.unit (s := S16384x3328) (k0_off78 L 0#32) S128x128.size (k0_off78_inb L hc 0)) (fun _ => rfl)).view (outAt23 I hc) (pay24 I) Finset.univ
def pay25 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt30 I))
def outAt25 : Buf (Elt F) ((V d (cVL L) (jVL L)).loc main_v26_scv) :=
  View.write (Elt F) ((Memref.whole main_v26_scv : Memref sig .scVector .hbm S16384x3328 .f32).slice (Rect.unit (s := S16384x3328) (k0_off79 L 0#32) S128x128.size (k0_off79_inb L hc 0)) (fun _ => rfl)).view (outAt24 I hc) (pay25 I) Finset.univ
def pay26 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt31 I))
def outAt26 : Buf (Elt F) ((V d (cVL L) (jVL L)).loc main_v26_scv) :=
  View.write (Elt F) ((Memref.whole main_v26_scv : Memref sig .scVector .hbm S16384x3328 .f32).slice (Rect.unit (s := S16384x3328) (k0_off54 L 128#32) S128x128.size (k0_off54_inb L hc 1)) (fun _ => rfl)).view (outAt25 I hc) (pay26 I) Finset.univ
def pay27 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt32 I))
def outAt27 : Buf (Elt F) ((V d (cVL L) (jVL L)).loc main_v26_scv) :=
  View.write (Elt F) ((Memref.whole main_v26_scv : Memref sig .scVector .hbm S16384x3328 .f32).slice (Rect.unit (s := S16384x3328) (k0_off55 L 128#32) S128x128.size (k0_off55_inb L hc 1)) (fun _ => rfl)).view (outAt26 I hc) (pay27 I) Finset.univ
def pay28 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt33 I))
def outAt28 : Buf (Elt F) ((V d (cVL L) (jVL L)).loc main_v26_scv) :=
  View.write (Elt F) ((Memref.whole main_v26_scv : Memref sig .scVector .hbm S16384x3328 .f32).slice (Rect.unit (s := S16384x3328) (k0_off56 L 128#32) S128x128.size (k0_off56_inb L hc 1)) (fun _ => rfl)).view (outAt27 I hc) (pay28 I) Finset.univ
def pay29 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt34 I))
def outAt29 : Buf (Elt F) ((V d (cVL L) (jVL L)).loc main_v26_scv) :=
  View.write (Elt F) ((Memref.whole main_v26_scv : Memref sig .scVector .hbm S16384x3328 .f32).slice (Rect.unit (s := S16384x3328) (k0_off57 L 128#32) S128x128.size (k0_off57_inb L hc 1)) (fun _ => rfl)).view (outAt28 I hc) (pay29 I) Finset.univ
def pay30 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt35 I))
def outAt30 : Buf (Elt F) ((V d (cVL L) (jVL L)).loc main_v26_scv) :=
  View.write (Elt F) ((Memref.whole main_v26_scv : Memref sig .scVector .hbm S16384x3328 .f32).slice (Rect.unit (s := S16384x3328) (k0_off58 L 128#32) S128x128.size (k0_off58_inb L hc 1)) (fun _ => rfl)).view (outAt29 I hc) (pay30 I) Finset.univ
def pay31 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt36 I))
def outAt31 : Buf (Elt F) ((V d (cVL L) (jVL L)).loc main_v26_scv) :=
  View.write (Elt F) ((Memref.whole main_v26_scv : Memref sig .scVector .hbm S16384x3328 .f32).slice (Rect.unit (s := S16384x3328) (k0_off59 L 128#32) S128x128.size (k0_off59_inb L hc 1)) (fun _ => rfl)).view (outAt30 I hc) (pay31 I) Finset.univ
def pay32 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt37 I))
def outAt32 : Buf (Elt F) ((V d (cVL L) (jVL L)).loc main_v26_scv) :=
  View.write (Elt F) ((Memref.whole main_v26_scv : Memref sig .scVector .hbm S16384x3328 .f32).slice (Rect.unit (s := S16384x3328) (k0_off60 L 128#32) S128x128.size (k0_off60_inb L hc 1)) (fun _ => rfl)).view (outAt31 I hc) (pay32 I) Finset.univ
def pay33 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt38 I))
def outAt33 : Buf (Elt F) ((V d (cVL L) (jVL L)).loc main_v26_scv) :=
  View.write (Elt F) ((Memref.whole main_v26_scv : Memref sig .scVector .hbm S16384x3328 .f32).slice (Rect.unit (s := S16384x3328) (k0_off61 L 128#32) S128x128.size (k0_off61_inb L hc 1)) (fun _ => rfl)).view (outAt32 I hc) (pay33 I) Finset.univ
def pay34 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt39 I))
def outAt34 : Buf (Elt F) ((V d (cVL L) (jVL L)).loc main_v26_scv) :=
  View.write (Elt F) ((Memref.whole main_v26_scv : Memref sig .scVector .hbm S16384x3328 .f32).slice (Rect.unit (s := S16384x3328) (k0_off62 L 128#32) S128x128.size (k0_off62_inb L hc 1)) (fun _ => rfl)).view (outAt33 I hc) (pay34 I) Finset.univ
def pay35 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt40 I))
def outAt35 : Buf (Elt F) ((V d (cVL L) (jVL L)).loc main_v26_scv) :=
  View.write (Elt F) ((Memref.whole main_v26_scv : Memref sig .scVector .hbm S16384x3328 .f32).slice (Rect.unit (s := S16384x3328) (k0_off63 L 128#32) S128x128.size (k0_off63_inb L hc 1)) (fun _ => rfl)).view (outAt34 I hc) (pay35 I) Finset.univ
def pay36 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt41 I))
def outAt36 : Buf (Elt F) ((V d (cVL L) (jVL L)).loc main_v26_scv) :=
  View.write (Elt F) ((Memref.whole main_v26_scv : Memref sig .scVector .hbm S16384x3328 .f32).slice (Rect.unit (s := S16384x3328) (k0_off64 L 128#32) S128x128.size (k0_off64_inb L hc 1)) (fun _ => rfl)).view (outAt35 I hc) (pay36 I) Finset.univ
def pay37 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt42 I))
def outAt37 : Buf (Elt F) ((V d (cVL L) (jVL L)).loc main_v26_scv) :=
  View.write (Elt F) ((Memref.whole main_v26_scv : Memref sig .scVector .hbm S16384x3328 .f32).slice (Rect.unit (s := S16384x3328) (k0_off65 L 128#32) S128x128.size (k0_off65_inb L hc 1)) (fun _ => rfl)).view (outAt36 I hc) (pay37 I) Finset.univ
def pay38 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt43 I))
def outAt38 : Buf (Elt F) ((V d (cVL L) (jVL L)).loc main_v26_scv) :=
  View.write (Elt F) ((Memref.whole main_v26_scv : Memref sig .scVector .hbm S16384x3328 .f32).slice (Rect.unit (s := S16384x3328) (k0_off66 L 128#32) S128x128.size (k0_off66_inb L hc 1)) (fun _ => rfl)).view (outAt37 I hc) (pay38 I) Finset.univ
def pay39 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt44 I))
def outAt39 : Buf (Elt F) ((V d (cVL L) (jVL L)).loc main_v26_scv) :=
  View.write (Elt F) ((Memref.whole main_v26_scv : Memref sig .scVector .hbm S16384x3328 .f32).slice (Rect.unit (s := S16384x3328) (k0_off67 L 128#32) S128x128.size (k0_off67_inb L hc 1)) (fun _ => rfl)).view (outAt38 I hc) (pay39 I) Finset.univ
def pay40 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt45 I))
def outAt40 : Buf (Elt F) ((V d (cVL L) (jVL L)).loc main_v26_scv) :=
  View.write (Elt F) ((Memref.whole main_v26_scv : Memref sig .scVector .hbm S16384x3328 .f32).slice (Rect.unit (s := S16384x3328) (k0_off68 L 128#32) S128x128.size (k0_off68_inb L hc 1)) (fun _ => rfl)).view (outAt39 I hc) (pay40 I) Finset.univ
def pay41 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt46 I))
def outAt41 : Buf (Elt F) ((V d (cVL L) (jVL L)).loc main_v26_scv) :=
  View.write (Elt F) ((Memref.whole main_v26_scv : Memref sig .scVector .hbm S16384x3328 .f32).slice (Rect.unit (s := S16384x3328) (k0_off69 L 128#32) S128x128.size (k0_off69_inb L hc 1)) (fun _ => rfl)).view (outAt40 I hc) (pay41 I) Finset.univ
def pay42 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt47 I))
def outAt42 : Buf (Elt F) ((V d (cVL L) (jVL L)).loc main_v26_scv) :=
  View.write (Elt F) ((Memref.whole main_v26_scv : Memref sig .scVector .hbm S16384x3328 .f32).slice (Rect.unit (s := S16384x3328) (k0_off70 L 128#32) S128x128.size (k0_off70_inb L hc 1)) (fun _ => rfl)).view (outAt41 I hc) (pay42 I) Finset.univ
def pay43 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt48 I))
def outAt43 : Buf (Elt F) ((V d (cVL L) (jVL L)).loc main_v26_scv) :=
  View.write (Elt F) ((Memref.whole main_v26_scv : Memref sig .scVector .hbm S16384x3328 .f32).slice (Rect.unit (s := S16384x3328) (k0_off71 L 128#32) S128x128.size (k0_off71_inb L hc 1)) (fun _ => rfl)).view (outAt42 I hc) (pay43 I) Finset.univ
def pay44 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt49 I))
def outAt44 : Buf (Elt F) ((V d (cVL L) (jVL L)).loc main_v26_scv) :=
  View.write (Elt F) ((Memref.whole main_v26_scv : Memref sig .scVector .hbm S16384x3328 .f32).slice (Rect.unit (s := S16384x3328) (k0_off72 L 128#32) S128x128.size (k0_off72_inb L hc 1)) (fun _ => rfl)).view (outAt43 I hc) (pay44 I) Finset.univ
def pay45 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt50 I))
def outAt45 : Buf (Elt F) ((V d (cVL L) (jVL L)).loc main_v26_scv) :=
  View.write (Elt F) ((Memref.whole main_v26_scv : Memref sig .scVector .hbm S16384x3328 .f32).slice (Rect.unit (s := S16384x3328) (k0_off73 L 128#32) S128x128.size (k0_off73_inb L hc 1)) (fun _ => rfl)).view (outAt44 I hc) (pay45 I) Finset.univ
def pay46 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt51 I))
def outAt46 : Buf (Elt F) ((V d (cVL L) (jVL L)).loc main_v26_scv) :=
  View.write (Elt F) ((Memref.whole main_v26_scv : Memref sig .scVector .hbm S16384x3328 .f32).slice (Rect.unit (s := S16384x3328) (k0_off74 L 128#32) S128x128.size (k0_off74_inb L hc 1)) (fun _ => rfl)).view (outAt45 I hc) (pay46 I) Finset.univ
def pay47 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt52 I))
def outAt47 : Buf (Elt F) ((V d (cVL L) (jVL L)).loc main_v26_scv) :=
  View.write (Elt F) ((Memref.whole main_v26_scv : Memref sig .scVector .hbm S16384x3328 .f32).slice (Rect.unit (s := S16384x3328) (k0_off75 L 128#32) S128x128.size (k0_off75_inb L hc 1)) (fun _ => rfl)).view (outAt46 I hc) (pay47 I) Finset.univ
def pay48 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt53 I))
def outAt48 : Buf (Elt F) ((V d (cVL L) (jVL L)).loc main_v26_scv) :=
  View.write (Elt F) ((Memref.whole main_v26_scv : Memref sig .scVector .hbm S16384x3328 .f32).slice (Rect.unit (s := S16384x3328) (k0_off76 L 128#32) S128x128.size (k0_off76_inb L hc 1)) (fun _ => rfl)).view (outAt47 I hc) (pay48 I) Finset.univ
def pay49 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt54 I))
def outAt49 : Buf (Elt F) ((V d (cVL L) (jVL L)).loc main_v26_scv) :=
  View.write (Elt F) ((Memref.whole main_v26_scv : Memref sig .scVector .hbm S16384x3328 .f32).slice (Rect.unit (s := S16384x3328) (k0_off77 L 128#32) S128x128.size (k0_off77_inb L hc 1)) (fun _ => rfl)).view (outAt48 I hc) (pay49 I) Finset.univ
def pay50 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt55 I))
def outAt50 : Buf (Elt F) ((V d (cVL L) (jVL L)).loc main_v26_scv) :=
  View.write (Elt F) ((Memref.whole main_v26_scv : Memref sig .scVector .hbm S16384x3328 .f32).slice (Rect.unit (s := S16384x3328) (k0_off78 L 128#32) S128x128.size (k0_off78_inb L hc 1)) (fun _ => rfl)).view (outAt49 I hc) (pay50 I) Finset.univ
def pay51 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt56 I))
def outAt51 : Buf (Elt F) ((V d (cVL L) (jVL L)).loc main_v26_scv) :=
  View.write (Elt F) ((Memref.whole main_v26_scv : Memref sig .scVector .hbm S16384x3328 .f32).slice (Rect.unit (s := S16384x3328) (k0_off79 L 128#32) S128x128.size (k0_off79_inb L hc 1)) (fun _ => rfl)).view (outAt50 I hc) (pay51 I) Finset.univ
def pay52 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt57 I))
def outAt52 : Buf (Elt F) ((V d (cVL L) (jVL L)).loc main_v26_scv) :=
  View.write (Elt F) ((Memref.whole main_v26_scv : Memref sig .scVector .hbm S16384x3328 .f32).slice (Rect.unit (s := S16384x3328) (k0_off54 L 256#32) S128x128.size (k0_off54_inb L hc 2)) (fun _ => rfl)).view (outAt51 I hc) (pay52 I) Finset.univ
def pay53 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt58 I))
def outAt53 : Buf (Elt F) ((V d (cVL L) (jVL L)).loc main_v26_scv) :=
  View.write (Elt F) ((Memref.whole main_v26_scv : Memref sig .scVector .hbm S16384x3328 .f32).slice (Rect.unit (s := S16384x3328) (k0_off55 L 256#32) S128x128.size (k0_off55_inb L hc 2)) (fun _ => rfl)).view (outAt52 I hc) (pay53 I) Finset.univ
def pay54 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt59 I))
def outAt54 : Buf (Elt F) ((V d (cVL L) (jVL L)).loc main_v26_scv) :=
  View.write (Elt F) ((Memref.whole main_v26_scv : Memref sig .scVector .hbm S16384x3328 .f32).slice (Rect.unit (s := S16384x3328) (k0_off56 L 256#32) S128x128.size (k0_off56_inb L hc 2)) (fun _ => rfl)).view (outAt53 I hc) (pay54 I) Finset.univ
def pay55 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt60 I))
def outAt55 : Buf (Elt F) ((V d (cVL L) (jVL L)).loc main_v26_scv) :=
  View.write (Elt F) ((Memref.whole main_v26_scv : Memref sig .scVector .hbm S16384x3328 .f32).slice (Rect.unit (s := S16384x3328) (k0_off57 L 256#32) S128x128.size (k0_off57_inb L hc 2)) (fun _ => rfl)).view (outAt54 I hc) (pay55 I) Finset.univ
def pay56 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt61 I))
def outAt56 : Buf (Elt F) ((V d (cVL L) (jVL L)).loc main_v26_scv) :=
  View.write (Elt F) ((Memref.whole main_v26_scv : Memref sig .scVector .hbm S16384x3328 .f32).slice (Rect.unit (s := S16384x3328) (k0_off58 L 256#32) S128x128.size (k0_off58_inb L hc 2)) (fun _ => rfl)).view (outAt55 I hc) (pay56 I) Finset.univ
def pay57 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt62 I))
def outAt57 : Buf (Elt F) ((V d (cVL L) (jVL L)).loc main_v26_scv) :=
  View.write (Elt F) ((Memref.whole main_v26_scv : Memref sig .scVector .hbm S16384x3328 .f32).slice (Rect.unit (s := S16384x3328) (k0_off59 L 256#32) S128x128.size (k0_off59_inb L hc 2)) (fun _ => rfl)).view (outAt56 I hc) (pay57 I) Finset.univ
def pay58 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt63 I))
def outAt58 : Buf (Elt F) ((V d (cVL L) (jVL L)).loc main_v26_scv) :=
  View.write (Elt F) ((Memref.whole main_v26_scv : Memref sig .scVector .hbm S16384x3328 .f32).slice (Rect.unit (s := S16384x3328) (k0_off60 L 256#32) S128x128.size (k0_off60_inb L hc 2)) (fun _ => rfl)).view (outAt57 I hc) (pay58 I) Finset.univ
def pay59 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt64 I))
def outAt59 : Buf (Elt F) ((V d (cVL L) (jVL L)).loc main_v26_scv) :=
  View.write (Elt F) ((Memref.whole main_v26_scv : Memref sig .scVector .hbm S16384x3328 .f32).slice (Rect.unit (s := S16384x3328) (k0_off61 L 256#32) S128x128.size (k0_off61_inb L hc 2)) (fun _ => rfl)).view (outAt58 I hc) (pay59 I) Finset.univ
def pay60 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt65 I))
def outAt60 : Buf (Elt F) ((V d (cVL L) (jVL L)).loc main_v26_scv) :=
  View.write (Elt F) ((Memref.whole main_v26_scv : Memref sig .scVector .hbm S16384x3328 .f32).slice (Rect.unit (s := S16384x3328) (k0_off62 L 256#32) S128x128.size (k0_off62_inb L hc 2)) (fun _ => rfl)).view (outAt59 I hc) (pay60 I) Finset.univ
def pay61 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt66 I))
def outAt61 : Buf (Elt F) ((V d (cVL L) (jVL L)).loc main_v26_scv) :=
  View.write (Elt F) ((Memref.whole main_v26_scv : Memref sig .scVector .hbm S16384x3328 .f32).slice (Rect.unit (s := S16384x3328) (k0_off63 L 256#32) S128x128.size (k0_off63_inb L hc 2)) (fun _ => rfl)).view (outAt60 I hc) (pay61 I) Finset.univ
def pay62 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt67 I))
def outAt62 : Buf (Elt F) ((V d (cVL L) (jVL L)).loc main_v26_scv) :=
  View.write (Elt F) ((Memref.whole main_v26_scv : Memref sig .scVector .hbm S16384x3328 .f32).slice (Rect.unit (s := S16384x3328) (k0_off64 L 256#32) S128x128.size (k0_off64_inb L hc 2)) (fun _ => rfl)).view (outAt61 I hc) (pay62 I) Finset.univ
def pay63 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt68 I))
def outAt63 : Buf (Elt F) ((V d (cVL L) (jVL L)).loc main_v26_scv) :=
  View.write (Elt F) ((Memref.whole main_v26_scv : Memref sig .scVector .hbm S16384x3328 .f32).slice (Rect.unit (s := S16384x3328) (k0_off65 L 256#32) S128x128.size (k0_off65_inb L hc 2)) (fun _ => rfl)).view (outAt62 I hc) (pay63 I) Finset.univ
def pay64 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt69 I))
def outAt64 : Buf (Elt F) ((V d (cVL L) (jVL L)).loc main_v26_scv) :=
  View.write (Elt F) ((Memref.whole main_v26_scv : Memref sig .scVector .hbm S16384x3328 .f32).slice (Rect.unit (s := S16384x3328) (k0_off66 L 256#32) S128x128.size (k0_off66_inb L hc 2)) (fun _ => rfl)).view (outAt63 I hc) (pay64 I) Finset.univ
def pay65 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt70 I))
def outAt65 : Buf (Elt F) ((V d (cVL L) (jVL L)).loc main_v26_scv) :=
  View.write (Elt F) ((Memref.whole main_v26_scv : Memref sig .scVector .hbm S16384x3328 .f32).slice (Rect.unit (s := S16384x3328) (k0_off67 L 256#32) S128x128.size (k0_off67_inb L hc 2)) (fun _ => rfl)).view (outAt64 I hc) (pay65 I) Finset.univ
def pay66 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt71 I))
def outAt66 : Buf (Elt F) ((V d (cVL L) (jVL L)).loc main_v26_scv) :=
  View.write (Elt F) ((Memref.whole main_v26_scv : Memref sig .scVector .hbm S16384x3328 .f32).slice (Rect.unit (s := S16384x3328) (k0_off68 L 256#32) S128x128.size (k0_off68_inb L hc 2)) (fun _ => rfl)).view (outAt65 I hc) (pay66 I) Finset.univ
def pay67 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt72 I))
def outAt67 : Buf (Elt F) ((V d (cVL L) (jVL L)).loc main_v26_scv) :=
  View.write (Elt F) ((Memref.whole main_v26_scv : Memref sig .scVector .hbm S16384x3328 .f32).slice (Rect.unit (s := S16384x3328) (k0_off69 L 256#32) S128x128.size (k0_off69_inb L hc 2)) (fun _ => rfl)).view (outAt66 I hc) (pay67 I) Finset.univ
def pay68 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt73 I))
def outAt68 : Buf (Elt F) ((V d (cVL L) (jVL L)).loc main_v26_scv) :=
  View.write (Elt F) ((Memref.whole main_v26_scv : Memref sig .scVector .hbm S16384x3328 .f32).slice (Rect.unit (s := S16384x3328) (k0_off70 L 256#32) S128x128.size (k0_off70_inb L hc 2)) (fun _ => rfl)).view (outAt67 I hc) (pay68 I) Finset.univ
def pay69 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt74 I))
def outAt69 : Buf (Elt F) ((V d (cVL L) (jVL L)).loc main_v26_scv) :=
  View.write (Elt F) ((Memref.whole main_v26_scv : Memref sig .scVector .hbm S16384x3328 .f32).slice (Rect.unit (s := S16384x3328) (k0_off71 L 256#32) S128x128.size (k0_off71_inb L hc 2)) (fun _ => rfl)).view (outAt68 I hc) (pay69 I) Finset.univ
def pay70 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt75 I))
def outAt70 : Buf (Elt F) ((V d (cVL L) (jVL L)).loc main_v26_scv) :=
  View.write (Elt F) ((Memref.whole main_v26_scv : Memref sig .scVector .hbm S16384x3328 .f32).slice (Rect.unit (s := S16384x3328) (k0_off72 L 256#32) S128x128.size (k0_off72_inb L hc 2)) (fun _ => rfl)).view (outAt69 I hc) (pay70 I) Finset.univ
def pay71 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt76 I))
def outAt71 : Buf (Elt F) ((V d (cVL L) (jVL L)).loc main_v26_scv) :=
  View.write (Elt F) ((Memref.whole main_v26_scv : Memref sig .scVector .hbm S16384x3328 .f32).slice (Rect.unit (s := S16384x3328) (k0_off73 L 256#32) S128x128.size (k0_off73_inb L hc 2)) (fun _ => rfl)).view (outAt70 I hc) (pay71 I) Finset.univ
def pay72 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt77 I))
def outAt72 : Buf (Elt F) ((V d (cVL L) (jVL L)).loc main_v26_scv) :=
  View.write (Elt F) ((Memref.whole main_v26_scv : Memref sig .scVector .hbm S16384x3328 .f32).slice (Rect.unit (s := S16384x3328) (k0_off74 L 256#32) S128x128.size (k0_off74_inb L hc 2)) (fun _ => rfl)).view (outAt71 I hc) (pay72 I) Finset.univ
def pay73 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt78 I))
def outAt73 : Buf (Elt F) ((V d (cVL L) (jVL L)).loc main_v26_scv) :=
  View.write (Elt F) ((Memref.whole main_v26_scv : Memref sig .scVector .hbm S16384x3328 .f32).slice (Rect.unit (s := S16384x3328) (k0_off75 L 256#32) S128x128.size (k0_off75_inb L hc 2)) (fun _ => rfl)).view (outAt72 I hc) (pay73 I) Finset.univ
def pay74 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt79 I))
def outAt74 : Buf (Elt F) ((V d (cVL L) (jVL L)).loc main_v26_scv) :=
  View.write (Elt F) ((Memref.whole main_v26_scv : Memref sig .scVector .hbm S16384x3328 .f32).slice (Rect.unit (s := S16384x3328) (k0_off76 L 256#32) S128x128.size (k0_off76_inb L hc 2)) (fun _ => rfl)).view (outAt73 I hc) (pay74 I) Finset.univ
def pay75 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt80 I))
def outAt75 : Buf (Elt F) ((V d (cVL L) (jVL L)).loc main_v26_scv) :=
  View.write (Elt F) ((Memref.whole main_v26_scv : Memref sig .scVector .hbm S16384x3328 .f32).slice (Rect.unit (s := S16384x3328) (k0_off77 L 256#32) S128x128.size (k0_off77_inb L hc 2)) (fun _ => rfl)).view (outAt74 I hc) (pay75 I) Finset.univ
def pay76 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt81 I))
def outAt76 : Buf (Elt F) ((V d (cVL L) (jVL L)).loc main_v26_scv) :=
  View.write (Elt F) ((Memref.whole main_v26_scv : Memref sig .scVector .hbm S16384x3328 .f32).slice (Rect.unit (s := S16384x3328) (k0_off78 L 256#32) S128x128.size (k0_off78_inb L hc 2)) (fun _ => rfl)).view (outAt75 I hc) (pay76 I) Finset.univ
def pay77 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt82 I))
def outAt77 : Buf (Elt F) ((V d (cVL L) (jVL L)).loc main_v26_scv) :=
  View.write (Elt F) ((Memref.whole main_v26_scv : Memref sig .scVector .hbm S16384x3328 .f32).slice (Rect.unit (s := S16384x3328) (k0_off79 L 256#32) S128x128.size (k0_off79_inb L hc 2)) (fun _ => rfl)).view (outAt76 I hc) (pay77 I) Finset.univ
def pay78 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt83 I))
def outAt78 : Buf (Elt F) ((V d (cVL L) (jVL L)).loc main_v26_scv) :=
  View.write (Elt F) ((Memref.whole main_v26_scv : Memref sig .scVector .hbm S16384x3328 .f32).slice (Rect.unit (s := S16384x3328) (k0_off54 L 384#32) S128x128.size (k0_off54_inb L hc 3)) (fun _ => rfl)).view (outAt77 I hc) (pay78 I) Finset.univ
def pay79 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt84 I))
def outAt79 : Buf (Elt F) ((V d (cVL L) (jVL L)).loc main_v26_scv) :=
  View.write (Elt F) ((Memref.whole main_v26_scv : Memref sig .scVector .hbm S16384x3328 .f32).slice (Rect.unit (s := S16384x3328) (k0_off55 L 384#32) S128x128.size (k0_off55_inb L hc 3)) (fun _ => rfl)).view (outAt78 I hc) (pay79 I) Finset.univ
def pay80 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt85 I))
def outAt80 : Buf (Elt F) ((V d (cVL L) (jVL L)).loc main_v26_scv) :=
  View.write (Elt F) ((Memref.whole main_v26_scv : Memref sig .scVector .hbm S16384x3328 .f32).slice (Rect.unit (s := S16384x3328) (k0_off56 L 384#32) S128x128.size (k0_off56_inb L hc 3)) (fun _ => rfl)).view (outAt79 I hc) (pay80 I) Finset.univ
def pay81 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt86 I))
def outAt81 : Buf (Elt F) ((V d (cVL L) (jVL L)).loc main_v26_scv) :=
  View.write (Elt F) ((Memref.whole main_v26_scv : Memref sig .scVector .hbm S16384x3328 .f32).slice (Rect.unit (s := S16384x3328) (k0_off57 L 384#32) S128x128.size (k0_off57_inb L hc 3)) (fun _ => rfl)).view (outAt80 I hc) (pay81 I) Finset.univ
def pay82 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt87 I))
def outAt82 : Buf (Elt F) ((V d (cVL L) (jVL L)).loc main_v26_scv) :=
  View.write (Elt F) ((Memref.whole main_v26_scv : Memref sig .scVector .hbm S16384x3328 .f32).slice (Rect.unit (s := S16384x3328) (k0_off58 L 384#32) S128x128.size (k0_off58_inb L hc 3)) (fun _ => rfl)).view (outAt81 I hc) (pay82 I) Finset.univ
def pay83 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt88 I))
def outAt83 : Buf (Elt F) ((V d (cVL L) (jVL L)).loc main_v26_scv) :=
  View.write (Elt F) ((Memref.whole main_v26_scv : Memref sig .scVector .hbm S16384x3328 .f32).slice (Rect.unit (s := S16384x3328) (k0_off59 L 384#32) S128x128.size (k0_off59_inb L hc 3)) (fun _ => rfl)).view (outAt82 I hc) (pay83 I) Finset.univ
def pay84 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt89 I))
def outAt84 : Buf (Elt F) ((V d (cVL L) (jVL L)).loc main_v26_scv) :=
  View.write (Elt F) ((Memref.whole main_v26_scv : Memref sig .scVector .hbm S16384x3328 .f32).slice (Rect.unit (s := S16384x3328) (k0_off60 L 384#32) S128x128.size (k0_off60_inb L hc 3)) (fun _ => rfl)).view (outAt83 I hc) (pay84 I) Finset.univ
def pay85 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt90 I))
def outAt85 : Buf (Elt F) ((V d (cVL L) (jVL L)).loc main_v26_scv) :=
  View.write (Elt F) ((Memref.whole main_v26_scv : Memref sig .scVector .hbm S16384x3328 .f32).slice (Rect.unit (s := S16384x3328) (k0_off61 L 384#32) S128x128.size (k0_off61_inb L hc 3)) (fun _ => rfl)).view (outAt84 I hc) (pay85 I) Finset.univ
def pay86 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt91 I))
def outAt86 : Buf (Elt F) ((V d (cVL L) (jVL L)).loc main_v26_scv) :=
  View.write (Elt F) ((Memref.whole main_v26_scv : Memref sig .scVector .hbm S16384x3328 .f32).slice (Rect.unit (s := S16384x3328) (k0_off62 L 384#32) S128x128.size (k0_off62_inb L hc 3)) (fun _ => rfl)).view (outAt85 I hc) (pay86 I) Finset.univ
def pay87 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt92 I))
def outAt87 : Buf (Elt F) ((V d (cVL L) (jVL L)).loc main_v26_scv) :=
  View.write (Elt F) ((Memref.whole main_v26_scv : Memref sig .scVector .hbm S16384x3328 .f32).slice (Rect.unit (s := S16384x3328) (k0_off63 L 384#32) S128x128.size (k0_off63_inb L hc 3)) (fun _ => rfl)).view (outAt86 I hc) (pay87 I) Finset.univ
def pay88 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt93 I))
def outAt88 : Buf (Elt F) ((V d (cVL L) (jVL L)).loc main_v26_scv) :=
  View.write (Elt F) ((Memref.whole main_v26_scv : Memref sig .scVector .hbm S16384x3328 .f32).slice (Rect.unit (s := S16384x3328) (k0_off64 L 384#32) S128x128.size (k0_off64_inb L hc 3)) (fun _ => rfl)).view (outAt87 I hc) (pay88 I) Finset.univ
def pay89 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt94 I))
def outAt89 : Buf (Elt F) ((V d (cVL L) (jVL L)).loc main_v26_scv) :=
  View.write (Elt F) ((Memref.whole main_v26_scv : Memref sig .scVector .hbm S16384x3328 .f32).slice (Rect.unit (s := S16384x3328) (k0_off65 L 384#32) S128x128.size (k0_off65_inb L hc 3)) (fun _ => rfl)).view (outAt88 I hc) (pay89 I) Finset.univ
def pay90 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt95 I))
def outAt90 : Buf (Elt F) ((V d (cVL L) (jVL L)).loc main_v26_scv) :=
  View.write (Elt F) ((Memref.whole main_v26_scv : Memref sig .scVector .hbm S16384x3328 .f32).slice (Rect.unit (s := S16384x3328) (k0_off66 L 384#32) S128x128.size (k0_off66_inb L hc 3)) (fun _ => rfl)).view (outAt89 I hc) (pay90 I) Finset.univ
def pay91 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt96 I))
def outAt91 : Buf (Elt F) ((V d (cVL L) (jVL L)).loc main_v26_scv) :=
  View.write (Elt F) ((Memref.whole main_v26_scv : Memref sig .scVector .hbm S16384x3328 .f32).slice (Rect.unit (s := S16384x3328) (k0_off67 L 384#32) S128x128.size (k0_off67_inb L hc 3)) (fun _ => rfl)).view (outAt90 I hc) (pay91 I) Finset.univ
def pay92 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt97 I))
def outAt92 : Buf (Elt F) ((V d (cVL L) (jVL L)).loc main_v26_scv) :=
  View.write (Elt F) ((Memref.whole main_v26_scv : Memref sig .scVector .hbm S16384x3328 .f32).slice (Rect.unit (s := S16384x3328) (k0_off68 L 384#32) S128x128.size (k0_off68_inb L hc 3)) (fun _ => rfl)).view (outAt91 I hc) (pay92 I) Finset.univ
def pay93 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt98 I))
def outAt93 : Buf (Elt F) ((V d (cVL L) (jVL L)).loc main_v26_scv) :=
  View.write (Elt F) ((Memref.whole main_v26_scv : Memref sig .scVector .hbm S16384x3328 .f32).slice (Rect.unit (s := S16384x3328) (k0_off69 L 384#32) S128x128.size (k0_off69_inb L hc 3)) (fun _ => rfl)).view (outAt92 I hc) (pay93 I) Finset.univ
def pay94 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt99 I))
def outAt94 : Buf (Elt F) ((V d (cVL L) (jVL L)).loc main_v26_scv) :=
  View.write (Elt F) ((Memref.whole main_v26_scv : Memref sig .scVector .hbm S16384x3328 .f32).slice (Rect.unit (s := S16384x3328) (k0_off70 L 384#32) S128x128.size (k0_off70_inb L hc 3)) (fun _ => rfl)).view (outAt93 I hc) (pay94 I) Finset.univ
def pay95 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt100 I))
def outAt95 : Buf (Elt F) ((V d (cVL L) (jVL L)).loc main_v26_scv) :=
  View.write (Elt F) ((Memref.whole main_v26_scv : Memref sig .scVector .hbm S16384x3328 .f32).slice (Rect.unit (s := S16384x3328) (k0_off71 L 384#32) S128x128.size (k0_off71_inb L hc 3)) (fun _ => rfl)).view (outAt94 I hc) (pay95 I) Finset.univ
def pay96 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt101 I))
def outAt96 : Buf (Elt F) ((V d (cVL L) (jVL L)).loc main_v26_scv) :=
  View.write (Elt F) ((Memref.whole main_v26_scv : Memref sig .scVector .hbm S16384x3328 .f32).slice (Rect.unit (s := S16384x3328) (k0_off72 L 384#32) S128x128.size (k0_off72_inb L hc 3)) (fun _ => rfl)).view (outAt95 I hc) (pay96 I) Finset.univ
def pay97 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt102 I))
def outAt97 : Buf (Elt F) ((V d (cVL L) (jVL L)).loc main_v26_scv) :=
  View.write (Elt F) ((Memref.whole main_v26_scv : Memref sig .scVector .hbm S16384x3328 .f32).slice (Rect.unit (s := S16384x3328) (k0_off73 L 384#32) S128x128.size (k0_off73_inb L hc 3)) (fun _ => rfl)).view (outAt96 I hc) (pay97 I) Finset.univ
def pay98 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt103 I))
def outAt98 : Buf (Elt F) ((V d (cVL L) (jVL L)).loc main_v26_scv) :=
  View.write (Elt F) ((Memref.whole main_v26_scv : Memref sig .scVector .hbm S16384x3328 .f32).slice (Rect.unit (s := S16384x3328) (k0_off74 L 384#32) S128x128.size (k0_off74_inb L hc 3)) (fun _ => rfl)).view (outAt97 I hc) (pay98 I) Finset.univ
def pay99 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt103 I))
def outAt99 : Buf (Elt F) ((V d (cVL L) (jVL L)).loc main_v26_scv) :=
  View.write (Elt F) ((Memref.whole main_v26_scv : Memref sig .scVector .hbm S16384x3328 .f32).slice (Rect.unit (s := S16384x3328) (k0_off75 L 384#32) S128x128.size (k0_off75_inb L hc 3)) (fun _ => rfl)).view (outAt98 I hc) (pay99 I) Finset.univ
def pay100 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt103 I))
def outAt100 : Buf (Elt F) ((V d (cVL L) (jVL L)).loc main_v26_scv) :=
  View.write (Elt F) ((Memref.whole main_v26_scv : Memref sig .scVector .hbm S16384x3328 .f32).slice (Rect.unit (s := S16384x3328) (k0_off76 L 384#32) S128x128.size (k0_off76_inb L hc 3)) (fun _ => rfl)).view (outAt99 I hc) (pay100 I) Finset.univ
def pay101 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt103 I))
def outAt101 : Buf (Elt F) ((V d (cVL L) (jVL L)).loc main_v26_scv) :=
  View.write (Elt F) ((Memref.whole main_v26_scv : Memref sig .scVector .hbm S16384x3328 .f32).slice (Rect.unit (s := S16384x3328) (k0_off77 L 384#32) S128x128.size (k0_off77_inb L hc 3)) (fun _ => rfl)).view (outAt100 I hc) (pay101 I) Finset.univ
def pay102 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt103 I))
def outAt102 : Buf (Elt F) ((V d (cVL L) (jVL L)).loc main_v26_scv) :=
  View.write (Elt F) ((Memref.whole main_v26_scv : Memref sig .scVector .hbm S16384x3328 .f32).slice (Rect.unit (s := S16384x3328) (k0_off78 L 384#32) S128x128.size (k0_off78_inb L hc 3)) (fun _ => rfl)).view (outAt101 I hc) (pay102 I) Finset.univ
def pay103 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt103 I))
def outAt103 : Buf (Elt F) ((V d (cVL L) (jVL L)).loc main_v26_scv) :=
  View.write (Elt F) ((Memref.whole main_v26_scv : Memref sig .scVector .hbm S16384x3328 .f32).slice (Rect.unit (s := S16384x3328) (k0_off79 L 384#32) S128x128.size (k0_off79_inb L hc 3)) (fun _ => rfl)).view (outAt102 I hc) (pay103 I) Finset.univ

end Cert.Proof.KI.Chain2

end
-- ==== Proof.ValChainKI2.lean ====
import proofs.«204019_g4913442586959_cont_sun_m_672_34_alg».proof.Proof.ChainKI2
import proofs.«204019_g4913442586959_cont_sun_m_672_34_alg».proof.Proof.ValStepKI

/-!
  The value of a tile of group 2: after its 104 copies the tile's 512 rows of the output hold the specified values.
  Item j's copy carries its slot as the row scratch stands after gather min (j + 5, 103); the gathers issued after
  gather j went to other slots (slot numbers are taken modulo 7, and at most five gathers lie in between), so the
  slot still holds what gather j landed: entry (p, e) is entry e of the row of table t that word p of list (t, r) of
  the index scratch names. That word is entry 128·(8·L₁ + 4·L₀ + r) + p of column t, so the slot is the specified
  block at rows 1024·L₁ + 512·L₀ + 128·r .., words 128·t ... Copy by copy the output then holds the specified values
  on the blocks of items 0 .. j, and the 104 blocks are all of the tile's rows.
-/

noncomputable section

namespace Cert.Proof.KI.Chain2

open Cert.KernelIdeal Cert.KernelIdeal.Gen
open Idealize.ShloMosaic
open Idealize.ShloMosaic.SparseCore (S V T)
open Idealize.ShloMosaic.ValueIdx
open Cert.Proof.KI Cert.Proof.KI.Idx Cert.Proof.KI.Val

variable {F : FTy → Type} {d : Dev nD} {L : grid0.Coords} (I : TileIn F d L) (hc : k0_cond3 L = 1#1)

/-- What the value argument assumes of the run's start: the tables, the columns in range, the index scratch filled
    with the tile's four rows of each reshaped column. -/
structure Hyp (tbl : Fin 26 → S1000x128.Idx → Elt F .f32) (col : Fin 26 → Cert.Spec.ColS.Idx → BitVec 32)
    (pay : Fin 26 → S4x128.Idx → Elt F .i32) : Prop where
  ht0 : tbl 0 = I.ft0
  ht1 : tbl 1 = I.ft1
  ht2 : tbl 2 = I.ft2
  ht3 : tbl 3 = I.ft3
  ht4 : tbl 4 = I.ft4
  ht5 : tbl 5 = I.ft5
  ht6 : tbl 6 = I.ft6
  ht7 : tbl 7 = I.ft7
  ht8 : tbl 8 = I.ft8
  ht9 : tbl 9 = I.ft9
  ht10 : tbl 10 = I.ft10
  ht11 : tbl 11 = I.ft11
  ht12 : tbl 12 = I.ft12
  ht13 : tbl 13 = I.ft13
  ht14 : tbl 14 = I.ft14
  ht15 : tbl 15 = I.ft15
  ht16 : tbl 16 = I.ft16
  ht17 : tbl 17 = I.ft17
  ht18 : tbl 18 = I.ft18
  ht19 : tbl 19 = I.ft19
  ht20 : tbl 20 = I.ft20
  ht21 : tbl 21 = I.ft21
  ht22 : tbl 22 = I.ft22
  ht23 : tbl 23 = I.ft23
  ht24 : tbl 24 = I.ft24
  ht25 : tbl 25 = I.ft25
  hr : ∀ t b, (col t b).toNat < 1000
  hfi : I.fi = IDXV pay
  hpay : ∀ t (r : Fin 4) (p : Fin 128), pay t (ix2 r p) = col t (ix1 (outRow L r p))

variable {tbl : Fin 26 → S1000x128.Idx → Elt F .f32} {col : Fin 26 → Cert.Spec.ColS.Idx → BitVec 32} {pay : Fin 26 → S4x128.Idx → Elt F .i32}

theorem rd0 : (Rn 0 inb_S7x128x128_S1x128x128_0_0_0).view.read (Elt F) (rowsAt5 I) = gp0 I :=
  ((Rn_read_miss 0 5 inb_S7x128x128_S1x128x128_0_0_0 inb_S7x128x128_S1x128x128_5_0_0 (by decide) (rowsAt4 I) (gp5 I)).trans ((Rn_read_miss 0 4 inb_S7x128x128_S1x128x128_0_0_0 inb_S7x128x128_S1x128x128_4_0_0 (by decide) (rowsAt3 I) (gp4 I)).trans ((Rn_read_miss 0 3 inb_S7x128x128_S1x128x128_0_0_0 inb_S7x128x128_S1x128x128_3_0_0 (by decide) (rowsAt2 I) (gp3 I)).trans ((Rn_read_miss 0 2 inb_S7x128x128_S1x128x128_0_0_0 inb_S7x128x128_S1x128x128_2_0_0 (by decide) (rowsAt1 I) (gp2 I)).trans ((Rn_read_miss 0 1 inb_S7x128x128_S1x128x128_0_0_0 inb_S7x128x128_S1x128x128_1_0_0 (by decide) (rowsAt0 I) (gp1 I)).trans (Rn_read_hit 0 inb_S7x128x128_S1x128x128_0_0_0 I.fr (gp0 I)))))))
theorem payG0 (H : Hyp I tbl col pay) : ∀ y, pay0 I y = Cert.Spec.G tbl col ((Rect.unit (s := S16384x3328) (k0_off54 L 0#32) S128x128.size (k0_off54_inb L hc 0)).emb y) :=
  Step.item_payload tbl col H.hr L pay H.hpay I.fi H.hfi 13 0 inb_S26x4x128_S1x1x128_13_0_0 squeezes_S1x1x128_S128
    _ ((Step.read_full (View.whole main_arg39_scv) inb_S1000x128_S1000x128_0_0 I.ft13).trans H.ht13.symm)
    rfl (I.hin 13 0 inb_S26x4x128_S1x1x128_13_0_0 squeezes_S1x1x128_S128) (k0_off54 L 0#32) (k0_off54_eq L 0) (k0_off54_inb L hc 0) (pay0 I) (rd0 I)
theorem inv0 (H : Hyp I tbl col pay) : ∀ j' < 1, ∀ i ∈ Step.blkSet L 13 j', outAt0 I hc i = Cert.Spec.G tbl col i :=
  Step.out_step L 13 (Cert.Spec.G tbl col) 0 (k0_off54 L 0#32) (k0_off54_eq L 0) (k0_off54_inb L hc 0) I.fo (pay0 I) (payG0 I hc H)
    (fun j' h => absurd h (Nat.not_lt_zero j'))
theorem rd1 : (Rn 1 inb_S7x128x128_S1x128x128_1_0_0).view.read (Elt F) (rowsAt6 I) = gp1 I :=
  ((Rn_read_miss 1 6 inb_S7x128x128_S1x128x128_1_0_0 inb_S7x128x128_S1x128x128_6_0_0 (by decide) (rowsAt5 I) (gp6 I)).trans ((Rn_read_miss 1 5 inb_S7x128x128_S1x128x128_1_0_0 inb_S7x128x128_S1x128x128_5_0_0 (by decide) (rowsAt4 I) (gp5 I)).trans ((Rn_read_miss 1 4 inb_S7x128x128_S1x128x128_1_0_0 inb_S7x128x128_S1x128x128_4_0_0 (by decide) (rowsAt3 I) (gp4 I)).trans ((Rn_read_miss 1 3 inb_S7x128x128_S1x128x128_1_0_0 inb_S7x128x128_S1x128x128_3_0_0 (by decide) (rowsAt2 I) (gp3 I)).trans ((Rn_read_miss 1 2 inb_S7x128x128_S1x128x128_1_0_0 inb_S7x128x128_S1x128x128_2_0_0 (by decide) (rowsAt1 I) (gp2 I)).trans (Rn_read_hit 1 inb_S7x128x128_S1x128x128_1_0_0 (rowsAt0 I) (gp1 I)))))))
theorem payG1 (H : Hyp I tbl col pay) : ∀ y, pay1 I y = Cert.Spec.G tbl col ((Rect.unit (s := S16384x3328) (k0_off55 L 0#32) S128x128.size (k0_off55_inb L hc 0)).emb y) :=
  Step.item_payload tbl col H.hr L pay H.hpay I.fi H.hfi 14 0 inb_S26x4x128_S1x1x128_14_0_0 squeezes_S1x1x128_S128
    _ ((Step.read_full (View.whole main_arg40_scv) inb_S1000x128_S1000x128_0_0 I.ft14).trans H.ht14.symm)
    rfl (I.hin 14 0 inb_S26x4x128_S1x1x128_14_0_0 squeezes_S1x1x128_S128) (k0_off55 L 0#32) (k0_off55_eq L 0) (k0_off55_inb L hc 0) (pay1 I) (rd1 I)
theorem inv1 (H : Hyp I tbl col pay) : ∀ j' < 2, ∀ i ∈ Step.blkSet L 13 j', outAt1 I hc i = Cert.Spec.G tbl col i :=
  Step.out_step L 13 (Cert.Spec.G tbl col) 1 (k0_off55 L 0#32) (k0_off55_eq L 0) (k0_off55_inb L hc 0) (outAt0 I hc) (pay1 I) (payG1 I hc H)
    (inv0 I hc H)
theorem rd2 : (Rn 2 inb_S7x128x128_S1x128x128_2_0_0).view.read (Elt F) (rowsAt7 I) = gp2 I :=
  ((Rn_read_miss 2 0 inb_S7x128x128_S1x128x128_2_0_0 inb_S7x128x128_S1x128x128_0_0_0 (by decide) (rowsAt6 I) (gp7 I)).trans ((Rn_read_miss 2 6 inb_S7x128x128_S1x128x128_2_0_0 inb_S7x128x128_S1x128x128_6_0_0 (by decide) (rowsAt5 I) (gp6 I)).trans ((Rn_read_miss 2 5 inb_S7x128x128_S1x128x128_2_0_0 inb_S7x128x128_S1x128x128_5_0_0 (by decide) (rowsAt4 I) (gp5 I)).trans ((Rn_read_miss 2 4 inb_S7x128x128_S1x128x128_2_0_0 inb_S7x128x128_S1x128x128_4_0_0 (by decide) (rowsAt3 I) (gp4 I)).trans ((Rn_read_miss 2 3 inb_S7x128x128_S1x128x128_2_0_0 inb_S7x128x128_S1x128x128_3_0_0 (by decide) (rowsAt2 I) (gp3 I)).trans (Rn_read_hit 2 inb_S7x128x128_S1x128x128_2_0_0 (rowsAt1 I) (gp2 I)))))))
theorem payG2 (H : Hyp I tbl col pay) : ∀ y, pay2 I y = Cert.Spec.G tbl col ((Rect.unit (s := S16384x3328) (k0_off56 L 0#32) S128x128.size (k0_off56_inb L hc 0)).emb y) :=
  Step.item_payload tbl col H.hr L pay H.hpay I.fi H.hfi 15 0 inb_S26x4x128_S1x1x128_15_0_0 squeezes_S1x1x128_S128
    _ ((Step.read_full (View.whole main_arg41_scv) inb_S1000x128_S1000x128_0_0 I.ft15).trans H.ht15.symm)
    rfl (I.hin 15 0 inb_S26x4x128_S1x1x128_15_0_0 squeezes_S1x1x128_S128) (k0_off56 L 0#32) (k0_off56_eq L 0) (k0_off56_inb L hc 0) (pay2 I) (rd2 I)
theorem inv2 (H : Hyp I tbl col pay) : ∀ j' < 3, ∀ i ∈ Step.blkSet L 13 j', outAt2 I hc i = Cert.Spec.G tbl col i :=
  Step.out_step L 13 (Cert.Spec.G tbl col) 2 (k0_off56 L 0#32) (k0_off56_eq L 0) (k0_off56_inb L hc 0) (outAt1 I hc) (pay2 I) (payG2 I hc H)
    (inv1 I hc H)
theorem rd3 : (Rn 3 inb_S7x128x128_S1x128x128_3_0_0).view.read (Elt F) (rowsAt8 I) = gp3 I :=
  ((Rn_read_miss 3 1 inb_S7x128x128_S1x128x128_3_0_0 inb_S7x128x128_S1x128x128_1_0_0 (by decide) (rowsAt7 I) (gp8 I)).trans ((Rn_read_miss 3 0 inb_S7x128x128_S1x128x128_3_0_0 inb_S7x128x128_S1x128x128_0_0_0 (by decide) (rowsAt6 I) (gp7 I)).trans ((Rn_read_miss 3 6 inb_S7x128x128_S1x128x128_3_0_0 inb_S7x128x128_S1x128x128_6_0_0 (by decide) (rowsAt5 I) (gp6 I)).trans ((Rn_read_miss 3 5 inb_S7x128x128_S1x128x128_3_0_0 inb_S7x128x128_S1x128x128_5_0_0 (by decide) (rowsAt4 I) (gp5 I)).trans ((Rn_read_miss 3 4 inb_S7x128x128_S1x128x128_3_0_0 inb_S7x128x128_S1x128x128_4_0_0 (by decide) (rowsAt3 I) (gp4 I)).trans (Rn_read_hit 3 inb_S7x128x128_S1x128x128_3_0_0 (rowsAt2 I) (gp3 I)))))))
theorem payG3 (H : Hyp I tbl col pay) : ∀ y, pay3 I y = Cert.Spec.G tbl col ((Rect.unit (s := S16384x3328) (k0_off57 L 0#32) S128x128.size (k0_off57_inb L hc 0)).emb y) :=
  Step.item_payload tbl col H.hr L pay H.hpay I.fi H.hfi 16 0 inb_S26x4x128_S1x1x128_16_0_0 squeezes_S1x1x128_S128
    _ ((Step.read_full (View.whole main_arg42_scv) inb_S1000x128_S1000x128_0_0 I.ft16).trans H.ht16.symm)
    rfl (I.hin 16 0 inb_S26x4x128_S1x1x128_16_0_0 squeezes_S1x1x128_S128) (k0_off57 L 0#32) (k0_off57_eq L 0) (k0_off57_inb L hc 0) (pay3 I) (rd3 I)
theorem inv3 (H : Hyp I tbl col pay) : ∀ j' < 4, ∀ i ∈ Step.blkSet L 13 j', outAt3 I hc i = Cert.Spec.G tbl col i :=
  Step.out_step L 13 (Cert.Spec.G tbl col) 3 (k0_off57 L 0#32) (k0_off57_eq L 0) (k0_off57_inb L hc 0) (outAt2 I hc) (pay3 I) (payG3 I hc H)
    (inv2 I hc H)
theorem rd4 : (Rn 4 inb_S7x128x128_S1x128x128_4_0_0).view.read (Elt F) (rowsAt9 I) = gp4 I :=
  ((Rn_read_miss 4 2 inb_S7x128x128_S1x128x128_4_0_0 inb_S7x128x128_S1x128x128_2_0_0 (by decide) (rowsAt8 I) (gp9 I)).trans ((Rn_read_miss 4 1 inb_S7x128x128_S1x128x128_4_0_0 inb_S7x128x128_S1x128x128_1_0_0 (by decide) (rowsAt7 I) (gp8 I)).trans ((Rn_read_miss 4 0 inb_S7x128x128_S1x128x128_4_0_0 inb_S7x128x128_S1x128x128_0_0_0 (by decide) (rowsAt6 I) (gp7 I)).trans ((Rn_read_miss 4 6 inb_S7x128x128_S1x128x128_4_0_0 inb_S7x128x128_S1x128x128_6_0_0 (by decide) (rowsAt5 I) (gp6 I)).trans ((Rn_read_miss 4 5 inb_S7x128x128_S1x128x128_4_0_0 inb_S7x128x128_S1x128x128_5_0_0 (by decide) (rowsAt4 I) (gp5 I)).trans (Rn_read_hit 4 inb_S7x128x128_S1x128x128_4_0_0 (rowsAt3 I) (gp4 I)))))))
theorem payG4 (H : Hyp I tbl col pay) : ∀ y, pay4 I y = Cert.Spec.G tbl col ((Rect.unit (s := S16384x3328) (k0_off58 L 0#32) S128x128.size (k0_off58_inb L hc 0)).emb y) :=
  Step.item_payload tbl col H.hr L pay H.hpay I.fi H.hfi 17 0 inb_S26x4x128_S1x1x128_17_0_0 squeezes_S1x1x128_S128
    _ ((Step.read_full (View.whole main_arg43_scv) inb_S1000x128_S1000x128_0_0 I.ft17).trans H.ht17.symm)
    rfl (I.hin 17 0 inb_S26x4x128_S1x1x128_17_0_0 squeezes_S1x1x128_S128) (k0_off58 L 0#32) (k0_off58_eq L 0) (k0_off58_inb L hc 0) (pay4 I) (rd4 I)
theorem inv4 (H : Hyp I tbl col pay) : ∀ j' < 5, ∀ i ∈ Step.blkSet L 13 j', outAt4 I hc i = Cert.Spec.G tbl col i :=
  Step.out_step L 13 (Cert.Spec.G tbl col) 4 (k0_off58 L 0#32) (k0_off58_eq L 0) (k0_off58_inb L hc 0) (outAt3 I hc) (pay4 I) (payG4 I hc H)
    (inv3 I hc H)
theorem rd5 : (Rn 5 inb_S7x128x128_S1x128x128_5_0_0).view.read (Elt F) (rowsAt10 I) = gp5 I :=
  ((Rn_read_miss 5 3 inb_S7x128x128_S1x128x128_5_0_0 inb_S7x128x128_S1x128x128_3_0_0 (by decide) (rowsAt9 I) (gp10 I)).trans ((Rn_read_miss 5 2 inb_S7x128x128_S1x128x128_5_0_0 inb_S7x128x128_S1x128x128_2_0_0 (by decide) (rowsAt8 I) (gp9 I)).trans ((Rn_read_miss 5 1 inb_S7x128x128_S1x128x128_5_0_0 inb_S7x128x128_S1x128x128_1_0_0 (by decide) (rowsAt7 I) (gp8 I)).trans ((Rn_read_miss 5 0 inb_S7x128x128_S1x128x128_5_0_0 inb_S7x128x128_S1x128x128_0_0_0 (by decide) (rowsAt6 I) (gp7 I)).trans ((Rn_read_miss 5 6 inb_S7x128x128_S1x128x128_5_0_0 inb_S7x128x128_S1x128x128_6_0_0 (by decide) (rowsAt5 I) (gp6 I)).trans (Rn_read_hit 5 inb_S7x128x128_S1x128x128_5_0_0 (rowsAt4 I) (gp5 I)))))))
theorem payG5 (H : Hyp I tbl col pay) : ∀ y, pay5 I y = Cert.Spec.G tbl col ((Rect.unit (s := S16384x3328) (k0_off59 L 0#32) S128x128.size (k0_off59_inb L hc 0)).emb y) :=
  Step.item_payload tbl col H.hr L pay H.hpay I.fi H.hfi 18 0 inb_S26x4x128_S1x1x128_18_0_0 squeezes_S1x1x128_S128
    _ ((Step.read_full (View.whole main_arg44_scv) inb_S1000x128_S1000x128_0_0 I.ft18).trans H.ht18.symm)
    rfl (I.hin 18 0 inb_S26x4x128_S1x1x128_18_0_0 squeezes_S1x1x128_S128) (k0_off59 L 0#32) (k0_off59_eq L 0) (k0_off59_inb L hc 0) (pay5 I) (rd5 I)
theorem inv5 (H : Hyp I tbl col pay) : ∀ j' < 6, ∀ i ∈ Step.blkSet L 13 j', outAt5 I hc i = Cert.Spec.G tbl col i :=
  Step.out_step L 13 (Cert.Spec.G tbl col) 5 (k0_off59 L 0#32) (k0_off59_eq L 0) (k0_off59_inb L hc 0) (outAt4 I hc) (pay5 I) (payG5 I hc H)
    (inv4 I hc H)
theorem rd6 : (Rn 6 inb_S7x128x128_S1x128x128_6_0_0).view.read (Elt F) (rowsAt11 I) = gp6 I :=
  ((Rn_read_miss 6 4 inb_S7x128x128_S1x128x128_6_0_0 inb_S7x128x128_S1x128x128_4_0_0 (by decide) (rowsAt10 I) (gp11 I)).trans ((Rn_read_miss 6 3 inb_S7x128x128_S1x128x128_6_0_0 inb_S7x128x128_S1x128x128_3_0_0 (by decide) (rowsAt9 I) (gp10 I)).trans ((Rn_read_miss 6 2 inb_S7x128x128_S1x128x128_6_0_0 inb_S7x128x128_S1x128x128_2_0_0 (by decide) (rowsAt8 I) (gp9 I)).trans ((Rn_read_miss 6 1 inb_S7x128x128_S1x128x128_6_0_0 inb_S7x128x128_S1x128x128_1_0_0 (by decide) (rowsAt7 I) (gp8 I)).trans ((Rn_read_miss 6 0 inb_S7x128x128_S1x128x128_6_0_0 inb_S7x128x128_S1x128x128_0_0_0 (by decide) (rowsAt6 I) (gp7 I)).trans (Rn_read_hit 6 inb_S7x128x128_S1x128x128_6_0_0 (rowsAt5 I) (gp6 I)))))))
theorem payG6 (H : Hyp I tbl col pay) : ∀ y, pay6 I y = Cert.Spec.G tbl col ((Rect.unit (s := S16384x3328) (k0_off60 L 0#32) S128x128.size (k0_off60_inb L hc 0)).emb y) :=
  Step.item_payload tbl col H.hr L pay H.hpay I.fi H.hfi 19 0 inb_S26x4x128_S1x1x128_19_0_0 squeezes_S1x1x128_S128
    _ ((Step.read_full (View.whole main_arg45_scv) inb_S1000x128_S1000x128_0_0 I.ft19).trans H.ht19.symm)
    rfl (I.hin 19 0 inb_S26x4x128_S1x1x128_19_0_0 squeezes_S1x1x128_S128) (k0_off60 L 0#32) (k0_off60_eq L 0) (k0_off60_inb L hc 0) (pay6 I) (rd6 I)
theorem inv6 (H : Hyp I tbl col pay) : ∀ j' < 7, ∀ i ∈ Step.blkSet L 13 j', outAt6 I hc i = Cert.Spec.G tbl col i :=
  Step.out_step L 13 (Cert.Spec.G tbl col) 6 (k0_off60 L 0#32) (k0_off60_eq L 0) (k0_off60_inb L hc 0) (outAt5 I hc) (pay6 I) (payG6 I hc H)
    (inv5 I hc H)
theorem rd7 : (Rn 0 inb_S7x128x128_S1x128x128_0_0_0).view.read (Elt F) (rowsAt12 I) = gp7 I :=
  ((Rn_read_miss 0 5 inb_S7x128x128_S1x128x128_0_0_0 inb_S7x128x128_S1x128x128_5_0_0 (by decide) (rowsAt11 I) (gp12 I)).trans ((Rn_read_miss 0 4 inb_S7x128x128_S1x128x128_0_0_0 inb_S7x128x128_S1x128x128_4_0_0 (by decide) (rowsAt10 I) (gp11 I)).trans ((Rn_read_miss 0 3 inb_S7x128x128_S1x128x128_0_0_0 inb_S7x128x128_S1x128x128_3_0_0 (by decide) (rowsAt9 I) (gp10 I)).trans ((Rn_read_miss 0 2 inb_S7x128x128_S1x128x128_0_0_0 inb_S7x128x128_S1x128x128_2_0_0 (by decide) (rowsAt8 I) (gp9 I)).trans ((Rn_read_miss 0 1 inb_S7x128x128_S1x128x128_0_0_0 inb_S7x128x128_S1x128x128_1_0_0 (by decide) (rowsAt7 I) (gp8 I)).trans (Rn_read_hit 0 inb_S7x128x128_S1x128x128_0_0_0 (rowsAt6 I) (gp7 I)))))))
theorem payG7 (H : Hyp I tbl col pay) : ∀ y, pay7 I y = Cert.Spec.G tbl col ((Rect.unit (s := S16384x3328) (k0_off61 L 0#32) S128x128.size (k0_off61_inb L hc 0)).emb y) :=
  Step.item_payload tbl col H.hr L pay H.hpay I.fi H.hfi 20 0 inb_S26x4x128_S1x1x128_20_0_0 squeezes_S1x1x128_S128
    _ ((Step.read_full (View.whole main_arg46_scv) inb_S1000x128_S1000x128_0_0 I.ft20).trans H.ht20.symm)
    rfl (I.hin 20 0 inb_S26x4x128_S1x1x128_20_0_0 squeezes_S1x1x128_S128) (k0_off61 L 0#32) (k0_off61_eq L 0) (k0_off61_inb L hc 0) (pay7 I) (rd7 I)
theorem inv7 (H : Hyp I tbl col pay) : ∀ j' < 8, ∀ i ∈ Step.blkSet L 13 j', outAt7 I hc i = Cert.Spec.G tbl col i :=
  Step.out_step L 13 (Cert.Spec.G tbl col) 7 (k0_off61 L 0#32) (k0_off61_eq L 0) (k0_off61_inb L hc 0) (outAt6 I hc) (pay7 I) (payG7 I hc H)
    (inv6 I hc H)
theorem rd8 : (Rn 1 inb_S7x128x128_S1x128x128_1_0_0).view.read (Elt F) (rowsAt13 I) = gp8 I :=
  ((Rn_read_miss 1 6 inb_S7x128x128_S1x128x128_1_0_0 inb_S7x128x128_S1x128x128_6_0_0 (by decide) (rowsAt12 I) (gp13 I)).trans ((Rn_read_miss 1 5 inb_S7x128x128_S1x128x128_1_0_0 inb_S7x128x128_S1x128x128_5_0_0 (by decide) (rowsAt11 I) (gp12 I)).trans ((Rn_read_miss 1 4 inb_S7x128x128_S1x128x128_1_0_0 inb_S7x128x128_S1x128x128_4_0_0 (by decide) (rowsAt10 I) (gp11 I)).trans ((Rn_read_miss 1 3 inb_S7x128x128_S1x128x128_1_0_0 inb_S7x128x128_S1x128x128_3_0_0 (by decide) (rowsAt9 I) (gp10 I)).trans ((Rn_read_miss 1 2 inb_S7x128x128_S1x128x128_1_0_0 inb_S7x128x128_S1x128x128_2_0_0 (by decide) (rowsAt8 I) (gp9 I)).trans (Rn_read_hit 1 inb_S7x128x128_S1x128x128_1_0_0 (rowsAt7 I) (gp8 I)))))))
theorem payG8 (H : Hyp I tbl col pay) : ∀ y, pay8 I y = Cert.Spec.G tbl col ((Rect.unit (s := S16384x3328) (k0_off62 L 0#32) S128x128.size (k0_off62_inb L hc 0)).emb y) :=
  Step.item_payload tbl col H.hr L pay H.hpay I.fi H.hfi 21 0 inb_S26x4x128_S1x1x128_21_0_0 squeezes_S1x1x128_S128
    _ ((Step.read_full (View.whole main_arg47_scv) inb_S1000x128_S1000x128_0_0 I.ft21).trans H.ht21.symm)
    rfl (I.hin 21 0 inb_S26x4x128_S1x1x128_21_0_0 squeezes_S1x1x128_S128) (k0_off62 L 0#32) (k0_off62_eq L 0) (k0_off62_inb L hc 0) (pay8 I) (rd8 I)
theorem inv8 (H : Hyp I tbl col pay) : ∀ j' < 9, ∀ i ∈ Step.blkSet L 13 j', outAt8 I hc i = Cert.Spec.G tbl col i :=
  Step.out_step L 13 (Cert.Spec.G tbl col) 8 (k0_off62 L 0#32) (k0_off62_eq L 0) (k0_off62_inb L hc 0) (outAt7 I hc) (pay8 I) (payG8 I hc H)
    (inv7 I hc H)
theorem rd9 : (Rn 2 inb_S7x128x128_S1x128x128_2_0_0).view.read (Elt F) (rowsAt14 I) = gp9 I :=
  ((Rn_read_miss 2 0 inb_S7x128x128_S1x128x128_2_0_0 inb_S7x128x128_S1x128x128_0_0_0 (by decide) (rowsAt13 I) (gp14 I)).trans ((Rn_read_miss 2 6 inb_S7x128x128_S1x128x128_2_0_0 inb_S7x128x128_S1x128x128_6_0_0 (by decide) (rowsAt12 I) (gp13 I)).trans ((Rn_read_miss 2 5 inb_S7x128x128_S1x128x128_2_0_0 inb_S7x128x128_S1x128x128_5_0_0 (by decide) (rowsAt11 I) (gp12 I)).trans ((Rn_read_miss 2 4 inb_S7x128x128_S1x128x128_2_0_0 inb_S7x128x128_S1x128x128_4_0_0 (by decide) (rowsAt10 I) (gp11 I)).trans ((Rn_read_miss 2 3 inb_S7x128x128_S1x128x128_2_0_0 inb_S7x128x128_S1x128x128_3_0_0 (by decide) (rowsAt9 I) (gp10 I)).trans (Rn_read_hit 2 inb_S7x128x128_S1x128x128_2_0_0 (rowsAt8 I) (gp9 I)))))))
theorem payG9 (H : Hyp I tbl col pay) : ∀ y, pay9 I y = Cert.Spec.G tbl col ((Rect.unit (s := S16384x3328) (k0_off63 L 0#32) S128x128.size (k0_off63_inb L hc 0)).emb y) :=
  Step.item_payload tbl col H.hr L pay H.hpay I.fi H.hfi 22 0 inb_S26x4x128_S1x1x128_22_0_0 squeezes_S1x1x128_S128
    _ ((Step.read_full (View.whole main_arg48_scv) inb_S1000x128_S1000x128_0_0 I.ft22).trans H.ht22.symm)
    rfl (I.hin 22 0 inb_S26x4x128_S1x1x128_22_0_0 squeezes_S1x1x128_S128) (k0_off63 L 0#32) (k0_off63_eq L 0) (k0_off63_inb L hc 0) (pay9 I) (rd9 I)
theorem inv9 (H : Hyp I tbl col pay) : ∀ j' < 10, ∀ i ∈ Step.blkSet L 13 j', outAt9 I hc i = Cert.Spec.G tbl col i :=
  Step.out_step L 13 (Cert.Spec.G tbl col) 9 (k0_off63 L 0#32) (k0_off63_eq L 0) (k0_off63_inb L hc 0) (outAt8 I hc) (pay9 I) (payG9 I hc H)
    (inv8 I hc H)
theorem rd10 : (Rn 3 inb_S7x128x128_S1x128x128_3_0_0).view.read (Elt F) (rowsAt15 I) = gp10 I :=
  ((Rn_read_miss 3 1 inb_S7x128x128_S1x128x128_3_0_0 inb_S7x128x128_S1x128x128_1_0_0 (by decide) (rowsAt14 I) (gp15 I)).trans ((Rn_read_miss 3 0 inb_S7x128x128_S1x128x128_3_0_0 inb_S7x128x128_S1x128x128_0_0_0 (by decide) (rowsAt13 I) (gp14 I)).trans ((Rn_read_miss 3 6 inb_S7x128x128_S1x128x128_3_0_0 inb_S7x128x128_S1x128x128_6_0_0 (by decide) (rowsAt12 I) (gp13 I)).trans ((Rn_read_miss 3 5 inb_S7x128x128_S1x128x128_3_0_0 inb_S7x128x128_S1x128x128_5_0_0 (by decide) (rowsAt11 I) (gp12 I)).trans ((Rn_read_miss 3 4 inb_S7x128x128_S1x128x128_3_0_0 inb_S7x128x128_S1x128x128_4_0_0 (by decide) (rowsAt10 I) (gp11 I)).trans (Rn_read_hit 3 inb_S7x128x128_S1x128x128_3_0_0 (rowsAt9 I) (gp10 I)))))))
theorem payG10 (H : Hyp I tbl col pay) : ∀ y, pay10 I y = Cert.Spec.G tbl col ((Rect.unit (s := S16384x3328) (k0_off64 L 0#32) S128x128.size (k0_off64_inb L hc 0)).emb y) :=
  Step.item_payload tbl col H.hr L pay H.hpay I.fi H.hfi 23 0 inb_S26x4x128_S1x1x128_23_0_0 squeezes_S1x1x128_S128
    _ ((Step.read_full (View.whole main_arg49_scv) inb_S1000x128_S1000x128_0_0 I.ft23).trans H.ht23.symm)
    rfl (I.hin 23 0 inb_S26x4x128_S1x1x128_23_0_0 squeezes_S1x1x128_S128) (k0_off64 L 0#32) (k0_off64_eq L 0) (k0_off64_inb L hc 0) (pay10 I) (rd10 I)
theorem inv10 (H : Hyp I tbl col pay) : ∀ j' < 11, ∀ i ∈ Step.blkSet L 13 j', outAt10 I hc i = Cert.Spec.G tbl col i :=
  Step.out_step L 13 (Cert.Spec.G tbl col) 10 (k0_off64 L 0#32) (k0_off64_eq L 0) (k0_off64_inb L hc 0) (outAt9 I hc) (pay10 I) (payG10 I hc H)
    (inv9 I hc H)
theorem rd11 : (Rn 4 inb_S7x128x128_S1x128x128_4_0_0).view.read (Elt F) (rowsAt16 I) = gp11 I :=
  ((Rn_read_miss 4 2 inb_S7x128x128_S1x128x128_4_0_0 inb_S7x128x128_S1x128x128_2_0_0 (by decide) (rowsAt15 I) (gp16 I)).trans ((Rn_read_miss 4 1 inb_S7x128x128_S1x128x128_4_0_0 inb_S7x128x128_S1x128x128_1_0_0 (by decide) (rowsAt14 I) (gp15 I)).trans ((Rn_read_miss 4 0 inb_S7x128x128_S1x128x128_4_0_0 inb_S7x128x128_S1x128x128_0_0_0 (by decide) (rowsAt13 I) (gp14 I)).trans ((Rn_read_miss 4 6 inb_S7x128x128_S1x128x128_4_0_0 inb_S7x128x128_S1x128x128_6_0_0 (by decide) (rowsAt12 I) (gp13 I)).trans ((Rn_read_miss 4 5 inb_S7x128x128_S1x128x128_4_0_0 inb_S7x128x128_S1x128x128_5_0_0 (by decide) (rowsAt11 I) (gp12 I)).trans (Rn_read_hit 4 inb_S7x128x128_S1x128x128_4_0_0 (rowsAt10 I) (gp11 I)))))))
theorem payG11 (H : Hyp I tbl col pay) : ∀ y, pay11 I y = Cert.Spec.G tbl col ((Rect.unit (s := S16384x3328) (k0_off65 L 0#32) S128x128.size (k0_off65_inb L hc 0)).emb y) :=
  Step.item_payload tbl col H.hr L pay H.hpay I.fi H.hfi 24 0 inb_S26x4x128_S1x1x128_24_0_0 squeezes_S1x1x128_S128
    _ ((Step.read_full (View.whole main_arg50_scv) inb_S1000x128_S1000x128_0_0 I.ft24).trans H.ht24.symm)
    rfl (I.hin 24 0 inb_S26x4x128_S1x1x128_24_0_0 squeezes_S1x1x128_S128) (k0_off65 L 0#32) (k0_off65_eq L 0) (k0_off65_inb L hc 0) (pay11 I) (rd11 I)
theorem inv11 (H : Hyp I tbl col pay) : ∀ j' < 12, ∀ i ∈ Step.blkSet L 13 j', outAt11 I hc i = Cert.Spec.G tbl col i :=
  Step.out_step L 13 (Cert.Spec.G tbl col) 11 (k0_off65 L 0#32) (k0_off65_eq L 0) (k0_off65_inb L hc 0) (outAt10 I hc) (pay11 I) (payG11 I hc H)
    (inv10 I hc H)
theorem rd12 : (Rn 5 inb_S7x128x128_S1x128x128_5_0_0).view.read (Elt F) (rowsAt17 I) = gp12 I :=
  ((Rn_read_miss 5 3 inb_S7x128x128_S1x128x128_5_0_0 inb_S7x128x128_S1x128x128_3_0_0 (by decide) (rowsAt16 I) (gp17 I)).trans ((Rn_read_miss 5 2 inb_S7x128x128_S1x128x128_5_0_0 inb_S7x128x128_S1x128x128_2_0_0 (by decide) (rowsAt15 I) (gp16 I)).trans ((Rn_read_miss 5 1 inb_S7x128x128_S1x128x128_5_0_0 inb_S7x128x128_S1x128x128_1_0_0 (by decide) (rowsAt14 I) (gp15 I)).trans ((Rn_read_miss 5 0 inb_S7x128x128_S1x128x128_5_0_0 inb_S7x128x128_S1x128x128_0_0_0 (by decide) (rowsAt13 I) (gp14 I)).trans ((Rn_read_miss 5 6 inb_S7x128x128_S1x128x128_5_0_0 inb_S7x128x128_S1x128x128_6_0_0 (by decide) (rowsAt12 I) (gp13 I)).trans (Rn_read_hit 5 inb_S7x128x128_S1x128x128_5_0_0 (rowsAt11 I) (gp12 I)))))))
theorem payG12 (H : Hyp I tbl col pay) : ∀ y, pay12 I y = Cert.Spec.G tbl col ((Rect.unit (s := S16384x3328) (k0_off66 L 0#32) S128x128.size (k0_off66_inb L hc 0)).emb y) :=
  Step.item_payload tbl col H.hr L pay H.hpay I.fi H.hfi 25 0 inb_S26x4x128_S1x1x128_25_0_0 squeezes_S1x1x128_S128
    _ ((Step.read_full (View.whole main_arg51_scv) inb_S1000x128_S1000x128_0_0 I.ft25).trans H.ht25.symm)
    rfl (I.hin 25 0 inb_S26x4x128_S1x1x128_25_0_0 squeezes_S1x1x128_S128) (k0_off66 L 0#32) (k0_off66_eq L 0) (k0_off66_inb L hc 0) (pay12 I) (rd12 I)
theorem inv12 (H : Hyp I tbl col pay) : ∀ j' < 13, ∀ i ∈ Step.blkSet L 13 j', outAt12 I hc i = Cert.Spec.G tbl col i :=
  Step.out_step L 13 (Cert.Spec.G tbl col) 12 (k0_off66 L 0#32) (k0_off66_eq L 0) (k0_off66_inb L hc 0) (outAt11 I hc) (pay12 I) (payG12 I hc H)
    (inv11 I hc H)
theorem rd13 : (Rn 6 inb_S7x128x128_S1x128x128_6_0_0).view.read (Elt F) (rowsAt18 I) = gp13 I :=
  ((Rn_read_miss 6 4 inb_S7x128x128_S1x128x128_6_0_0 inb_S7x128x128_S1x128x128_4_0_0 (by decide) (rowsAt17 I) (gp18 I)).trans ((Rn_read_miss 6 3 inb_S7x128x128_S1x128x128_6_0_0 inb_S7x128x128_S1x128x128_3_0_0 (by decide) (rowsAt16 I) (gp17 I)).trans ((Rn_read_miss 6 2 inb_S7x128x128_S1x128x128_6_0_0 inb_S7x128x128_S1x128x128_2_0_0 (by decide) (rowsAt15 I) (gp16 I)).trans ((Rn_read_miss 6 1 inb_S7x128x128_S1x128x128_6_0_0 inb_S7x128x128_S1x128x128_1_0_0 (by decide) (rowsAt14 I) (gp15 I)).trans ((Rn_read_miss 6 0 inb_S7x128x128_S1x128x128_6_0_0 inb_S7x128x128_S1x128x128_0_0_0 (by decide) (rowsAt13 I) (gp14 I)).trans (Rn_read_hit 6 inb_S7x128x128_S1x128x128_6_0_0 (rowsAt12 I) (gp13 I)))))))
theorem payG13 (H : Hyp I tbl col pay) : ∀ y, pay13 I y = Cert.Spec.G tbl col ((Rect.unit (s := S16384x3328) (k0_off67 L 0#32) S128x128.size (k0_off67_inb L hc 0)).emb y) :=
  Step.item_payload tbl col H.hr L pay H.hpay I.fi H.hfi 0 0 inb_S26x4x128_S1x1x128_0_0_0 squeezes_S1x1x128_S128
    _ ((Step.read_full (View.whole main_arg26_scv) inb_S1000x128_S1000x128_0_0 I.ft0).trans H.ht0.symm)
    rfl (I.hin 0 0 inb_S26x4x128_S1x1x128_0_0_0 squeezes_S1x1x128_S128) (k0_off67 L 0#32) (k0_off67_eq L 0) (k0_off67_inb L hc 0) (pay13 I) (rd13 I)
theorem inv13 (H : Hyp I tbl col pay) : ∀ j' < 14, ∀ i ∈ Step.blkSet L 13 j', outAt13 I hc i = Cert.Spec.G tbl col i :=
  Step.out_step L 13 (Cert.Spec.G tbl col) 13 (k0_off67 L 0#32) (k0_off67_eq L 0) (k0_off67_inb L hc 0) (outAt12 I hc) (pay13 I) (payG13 I hc H)
    (inv12 I hc H)
theorem rd14 : (Rn 0 inb_S7x128x128_S1x128x128_0_0_0).view.read (Elt F) (rowsAt19 I) = gp14 I :=
  ((Rn_read_miss 0 5 inb_S7x128x128_S1x128x128_0_0_0 inb_S7x128x128_S1x128x128_5_0_0 (by decide) (rowsAt18 I) (gp19 I)).trans ((Rn_read_miss 0 4 inb_S7x128x128_S1x128x128_0_0_0 inb_S7x128x128_S1x128x128_4_0_0 (by decide) (rowsAt17 I) (gp18 I)).trans ((Rn_read_miss 0 3 inb_S7x128x128_S1x128x128_0_0_0 inb_S7x128x128_S1x128x128_3_0_0 (by decide) (rowsAt16 I) (gp17 I)).trans ((Rn_read_miss 0 2 inb_S7x128x128_S1x128x128_0_0_0 inb_S7x128x128_S1x128x128_2_0_0 (by decide) (rowsAt15 I) (gp16 I)).trans ((Rn_read_miss 0 1 inb_S7x128x128_S1x128x128_0_0_0 inb_S7x128x128_S1x128x128_1_0_0 (by decide) (rowsAt14 I) (gp15 I)).trans (Rn_read_hit 0 inb_S7x128x128_S1x128x128_0_0_0 (rowsAt13 I) (gp14 I)))))))
theorem payG14 (H : Hyp I tbl col pay) : ∀ y, pay14 I y = Cert.Spec.G tbl col ((Rect.unit (s := S16384x3328) (k0_off68 L 0#32) S128x128.size (k0_off68_inb L hc 0)).emb y) :=
  Step.item_payload tbl col H.hr L pay H.hpay I.fi H.hfi 1 0 inb_S26x4x128_S1x1x128_1_0_0 squeezes_S1x1x128_S128
    _ ((Step.read_full (View.whole main_arg27_scv) inb_S1000x128_S1000x128_0_0 I.ft1).trans H.ht1.symm)
    rfl (I.hin 1 0 inb_S26x4x128_S1x1x128_1_0_0 squeezes_S1x1x128_S128) (k0_off68 L 0#32) (k0_off68_eq L 0) (k0_off68_inb L hc 0) (pay14 I) (rd14 I)
theorem inv14 (H : Hyp I tbl col pay) : ∀ j' < 15, ∀ i ∈ Step.blkSet L 13 j', outAt14 I hc i = Cert.Spec.G tbl col i :=
  Step.out_step L 13 (Cert.Spec.G tbl col) 14 (k0_off68 L 0#32) (k0_off68_eq L 0) (k0_off68_inb L hc 0) (outAt13 I hc) (pay14 I) (payG14 I hc H)
    (inv13 I hc H)
theorem rd15 : (Rn 1 inb_S7x128x128_S1x128x128_1_0_0).view.read (Elt F) (rowsAt20 I) = gp15 I :=
  ((Rn_read_miss 1 6 inb_S7x128x128_S1x128x128_1_0_0 inb_S7x128x128_S1x128x128_6_0_0 (by decide) (rowsAt19 I) (gp20 I)).trans ((Rn_read_miss 1 5 inb_S7x128x128_S1x128x128_1_0_0 inb_S7x128x128_S1x128x128_5_0_0 (by decide) (rowsAt18 I) (gp19 I)).trans ((Rn_read_miss 1 4 inb_S7x128x128_S1x128x128_1_0_0 inb_S7x128x128_S1x128x128_4_0_0 (by decide) (rowsAt17 I) (gp18 I)).trans ((Rn_read_miss 1 3 inb_S7x128x128_S1x128x128_1_0_0 inb_S7x128x128_S1x128x128_3_0_0 (by decide) (rowsAt16 I) (gp17 I)).trans ((Rn_read_miss 1 2 inb_S7x128x128_S1x128x128_1_0_0 inb_S7x128x128_S1x128x128_2_0_0 (by decide) (rowsAt15 I) (gp16 I)).trans (Rn_read_hit 1 inb_S7x128x128_S1x128x128_1_0_0 (rowsAt14 I) (gp15 I)))))))
theorem payG15 (H : Hyp I tbl col pay) : ∀ y, pay15 I y = Cert.Spec.G tbl col ((Rect.unit (s := S16384x3328) (k0_off69 L 0#32) S128x128.size (k0_off69_inb L hc 0)).emb y) :=
  Step.item_payload tbl col H.hr L pay H.hpay I.fi H.hfi 2 0 inb_S26x4x128_S1x1x128_2_0_0 squeezes_S1x1x128_S128
    _ ((Step.read_full (View.whole main_arg28_scv) inb_S1000x128_S1000x128_0_0 I.ft2).trans H.ht2.symm)
    rfl (I.hin 2 0 inb_S26x4x128_S1x1x128_2_0_0 squeezes_S1x1x128_S128) (k0_off69 L 0#32) (k0_off69_eq L 0) (k0_off69_inb L hc 0) (pay15 I) (rd15 I)
theorem inv15 (H : Hyp I tbl col pay) : ∀ j' < 16, ∀ i ∈ Step.blkSet L 13 j', outAt15 I hc i = Cert.Spec.G tbl col i :=
  Step.out_step L 13 (Cert.Spec.G tbl col) 15 (k0_off69 L 0#32) (k0_off69_eq L 0) (k0_off69_inb L hc 0) (outAt14 I hc) (pay15 I) (payG15 I hc H)
    (inv14 I hc H)
theorem rd16 : (Rn 2 inb_S7x128x128_S1x128x128_2_0_0).view.read (Elt F) (rowsAt21 I) = gp16 I :=
  ((Rn_read_miss 2 0 inb_S7x128x128_S1x128x128_2_0_0 inb_S7x128x128_S1x128x128_0_0_0 (by decide) (rowsAt20 I) (gp21 I)).trans ((Rn_read_miss 2 6 inb_S7x128x128_S1x128x128_2_0_0 inb_S7x128x128_S1x128x128_6_0_0 (by decide) (rowsAt19 I) (gp20 I)).trans ((Rn_read_miss 2 5 inb_S7x128x128_S1x128x128_2_0_0 inb_S7x128x128_S1x128x128_5_0_0 (by decide) (rowsAt18 I) (gp19 I)).trans ((Rn_read_miss 2 4 inb_S7x128x128_S1x128x128_2_0_0 inb_S7x128x128_S1x128x128_4_0_0 (by decide) (rowsAt17 I) (gp18 I)).trans ((Rn_read_miss 2 3 inb_S7x128x128_S1x128x128_2_0_0 inb_S7x128x128_S1x128x128_3_0_0 (by decide) (rowsAt16 I) (gp17 I)).trans (Rn_read_hit 2 inb_S7x128x128_S1x128x128_2_0_0 (rowsAt15 I) (gp16 I)))))))
theorem payG16 (H : Hyp I tbl col pay) : ∀ y, pay16 I y = Cert.Spec.G tbl col ((Rect.unit (s := S16384x3328) (k0_off70 L 0#32) S128x128.size (k0_off70_inb L hc 0)).emb y) :=
  Step.item_payload tbl col H.hr L pay H.hpay I.fi H.hfi 3 0 inb_S26x4x128_S1x1x128_3_0_0 squeezes_S1x1x128_S128
    _ ((Step.read_full (View.whole main_arg29_scv) inb_S1000x128_S1000x128_0_0 I.ft3).trans H.ht3.symm)
    rfl (I.hin 3 0 inb_S26x4x128_S1x1x128_3_0_0 squeezes_S1x1x128_S128) (k0_off70 L 0#32) (k0_off70_eq L 0) (k0_off70_inb L hc 0) (pay16 I) (rd16 I)
theorem inv16 (H : Hyp I tbl col pay) : ∀ j' < 17, ∀ i ∈ Step.blkSet L 13 j', outAt16 I hc i = Cert.Spec.G tbl col i :=
  Step.out_step L 13 (Cert.Spec.G tbl col) 16 (k0_off70 L 0#32) (k0_off70_eq L 0) (k0_off70_inb L hc 0) (outAt15 I hc) (pay16 I) (payG16 I hc H)
    (inv15 I hc H)
theorem rd17 : (Rn 3 inb_S7x128x128_S1x128x128_3_0_0).view.read (Elt F) (rowsAt22 I) = gp17 I :=
  ((Rn_read_miss 3 1 inb_S7x128x128_S1x128x128_3_0_0 inb_S7x128x128_S1x128x128_1_0_0 (by decide) (rowsAt21 I) (gp22 I)).trans ((Rn_read_miss 3 0 inb_S7x128x128_S1x128x128_3_0_0 inb_S7x128x128_S1x128x128_0_0_0 (by decide) (rowsAt20 I) (gp21 I)).trans ((Rn_read_miss 3 6 inb_S7x128x128_S1x128x128_3_0_0 inb_S7x128x128_S1x128x128_6_0_0 (by decide) (rowsAt19 I) (gp20 I)).trans ((Rn_read_miss 3 5 inb_S7x128x128_S1x128x128_3_0_0 inb_S7x128x128_S1x128x128_5_0_0 (by decide) (rowsAt18 I) (gp19 I)).trans ((Rn_read_miss 3 4 inb_S7x128x128_S1x128x128_3_0_0 inb_S7x128x128_S1x128x128_4_0_0 (by decide) (rowsAt17 I) (gp18 I)).trans (Rn_read_hit 3 inb_S7x128x128_S1x128x128_3_0_0 (rowsAt16 I) (gp17 I)))))))
theorem payG17 (H : Hyp I tbl col pay) : ∀ y, pay17 I y = Cert.Spec.G tbl col ((Rect.unit (s := S16384x3328) (k0_off71 L 0#32) S128x128.size (k0_off71_inb L hc 0)).emb y) :=
  Step.item_payload tbl col H.hr L pay H.hpay I.fi H.hfi 4 0 inb_S26x4x128_S1x1x128_4_0_0 squeezes_S1x1x128_S128
    _ ((Step.read_full (View.whole main_arg30_scv) inb_S1000x128_S1000x128_0_0 I.ft4).trans H.ht4.symm)
    rfl (I.hin 4 0 inb_S26x4x128_S1x1x128_4_0_0 squeezes_S1x1x128_S128) (k0_off71 L 0#32) (k0_off71_eq L 0) (k0_off71_inb L hc 0) (pay17 I) (rd17 I)
theorem inv17 (H : Hyp I tbl col pay) : ∀ j' < 18, ∀ i ∈ Step.blkSet L 13 j', outAt17 I hc i = Cert.Spec.G tbl col i :=
  Step.out_step L 13 (Cert.Spec.G tbl col) 17 (k0_off71 L 0#32) (k0_off71_eq L 0) (k0_off71_inb L hc 0) (outAt16 I hc) (pay17 I) (payG17 I hc H)
    (inv16 I hc H)
theorem rd18 : (Rn 4 inb_S7x128x128_S1x128x128_4_0_0).view.read (Elt F) (rowsAt23 I) = gp18 I :=
  ((Rn_read_miss 4 2 inb_S7x128x128_S1x128x128_4_0_0 inb_S7x128x128_S1x128x128_2_0_0 (by decide) (rowsAt22 I) (gp23 I)).trans ((Rn_read_miss 4 1 inb_S7x128x128_S1x128x128_4_0_0 inb_S7x128x128_S1x128x128_1_0_0 (by decide) (rowsAt21 I) (gp22 I)).trans ((Rn_read_miss 4 0 inb_S7x128x128_S1x128x128_4_0_0 inb_S7x128x128_S1x128x128_0_0_0 (by decide) (rowsAt20 I) (gp21 I)).trans ((Rn_read_miss 4 6 inb_S7x128x128_S1x128x128_4_0_0 inb_S7x128x128_S1x128x128_6_0_0 (by decide) (rowsAt19 I) (gp20 I)).trans ((Rn_read_miss 4 5 inb_S7x128x128_S1x128x128_4_0_0 inb_S7x128x128_S1x128x128_5_0_0 (by decide) (rowsAt18 I) (gp19 I)).trans (Rn_read_hit 4 inb_S7x128x128_S1x128x128_4_0_0 (rowsAt17 I) (gp18 I)))))))
theorem payG18 (H : Hyp I tbl col pay) : ∀ y, pay18 I y = Cert.Spec.G tbl col ((Rect.unit (s := S16384x3328) (k0_off72 L 0#32) S128x128.size (k0_off72_inb L hc 0)).emb y) :=
  Step.item_payload tbl col H.hr L pay H.hpay I.fi H.hfi 5 0 inb_S26x4x128_S1x1x128_5_0_0 squeezes_S1x1x128_S128
    _ ((Step.read_full (View.whole main_arg31_scv) inb_S1000x128_S1000x128_0_0 I.ft5).trans H.ht5.symm)
    rfl (I.hin 5 0 inb_S26x4x128_S1x1x128_5_0_0 squeezes_S1x1x128_S128) (k0_off72 L 0#32) (k0_off72_eq L 0) (k0_off72_inb L hc 0) (pay18 I) (rd18 I)
theorem inv18 (H : Hyp I tbl col pay) : ∀ j' < 19, ∀ i ∈ Step.blkSet L 13 j', outAt18 I hc i = Cert.Spec.G tbl col i :=
  Step.out_step L 13 (Cert.Spec.G tbl col) 18 (k0_off72 L 0#32) (k0_off72_eq L 0) (k0_off72_inb L hc 0) (outAt17 I hc) (pay18 I) (payG18 I hc H)
    (inv17 I hc H)
theorem rd19 : (Rn 5 inb_S7x128x128_S1x128x128_5_0_0).view.read (Elt F) (rowsAt24 I) = gp19 I :=
  ((Rn_read_miss 5 3 inb_S7x128x128_S1x128x128_5_0_0 inb_S7x128x128_S1x128x128_3_0_0 (by decide) (rowsAt23 I) (gp24 I)).trans ((Rn_read_miss 5 2 inb_S7x128x128_S1x128x128_5_0_0 inb_S7x128x128_S1x128x128_2_0_0 (by decide) (rowsAt22 I) (gp23 I)).trans ((Rn_read_miss 5 1 inb_S7x128x128_S1x128x128_5_0_0 inb_S7x128x128_S1x128x128_1_0_0 (by decide) (rowsAt21 I) (gp22 I)).trans ((Rn_read_miss 5 0 inb_S7x128x128_S1x128x128_5_0_0 inb_S7x128x128_S1x128x128_0_0_0 (by decide) (rowsAt20 I) (gp21 I)).trans ((Rn_read_miss 5 6 inb_S7x128x128_S1x128x128_5_0_0 inb_S7x128x128_S1x128x128_6_0_0 (by decide) (rowsAt19 I) (gp20 I)).trans (Rn_read_hit 5 inb_S7x128x128_S1x128x128_5_0_0 (rowsAt18 I) (gp19 I)))))))
theorem payG19 (H : Hyp I tbl col pay) : ∀ y, pay19 I y = Cert.Spec.G tbl col ((Rect.unit (s := S16384x3328) (k0_off73 L 0#32) S128x128.size (k0_off73_inb L hc 0)).emb y) :=
  Step.item_payload tbl col H.hr L pay H.hpay I.fi H.hfi 6 0 inb_S26x4x128_S1x1x128_6_0_0 squeezes_S1x1x128_S128
    _ ((Step.read_full (View.whole main_arg32_scv) inb_S1000x128_S1000x128_0_0 I.ft6).trans H.ht6.symm)
    rfl (I.hin 6 0 inb_S26x4x128_S1x1x128_6_0_0 squeezes_S1x1x128_S128) (k0_off73 L 0#32) (k0_off73_eq L 0) (k0_off73_inb L hc 0) (pay19 I) (rd19 I)
theorem inv19 (H : Hyp I tbl col pay) : ∀ j' < 20, ∀ i ∈ Step.blkSet L 13 j', outAt19 I hc i = Cert.Spec.G tbl col i :=
  Step.out_step L 13 (Cert.Spec.G tbl col) 19 (k0_off73 L 0#32) (k0_off73_eq L 0) (k0_off73_inb L hc 0) (outAt18 I hc) (pay19 I) (payG19 I hc H)
    (inv18 I hc H)
theorem rd20 : (Rn 6 inb_S7x128x128_S1x128x128_6_0_0).view.read (Elt F) (rowsAt25 I) = gp20 I :=
  ((Rn_read_miss 6 4 inb_S7x128x128_S1x128x128_6_0_0 inb_S7x128x128_S1x128x128_4_0_0 (by decide) (rowsAt24 I) (gp25 I)).trans ((Rn_read_miss 6 3 inb_S7x128x128_S1x128x128_6_0_0 inb_S7x128x128_S1x128x128_3_0_0 (by decide) (rowsAt23 I) (gp24 I)).trans ((Rn_read_miss 6 2 inb_S7x128x128_S1x128x128_6_0_0 inb_S7x128x128_S1x128x128_2_0_0 (by decide) (rowsAt22 I) (gp23 I)).trans ((Rn_read_miss 6 1 inb_S7x128x128_S1x128x128_6_0_0 inb_S7x128x128_S1x128x128_1_0_0 (by decide) (rowsAt21 I) (gp22 I)).trans ((Rn_read_miss 6 0 inb_S7x128x128_S1x128x128_6_0_0 inb_S7x128x128_S1x128x128_0_0_0 (by decide) (rowsAt20 I) (gp21 I)).trans (Rn_read_hit 6 inb_S7x128x128_S1x128x128_6_0_0 (rowsAt19 I) (gp20 I)))))))
theorem payG20 (H : Hyp I tbl col pay) : ∀ y, pay20 I y = Cert.Spec.G tbl col ((Rect.unit (s := S16384x3328) (k0_off74 L 0#32) S128x128.size (k0_off74_inb L hc 0)).emb y) :=
  Step.item_payload tbl col H.hr L pay H.hpay I.fi H.hfi 7 0 inb_S26x4x128_S1x1x128_7_0_0 squeezes_S1x1x128_S128
    _ ((Step.read_full (View.whole main_arg33_scv) inb_S1000x128_S1000x128_0_0 I.ft7).trans H.ht7.symm)
    rfl (I.hin 7 0 inb_S26x4x128_S1x1x128_7_0_0 squeezes_S1x1x128_S128) (k0_off74 L 0#32) (k0_off74_eq L 0) (k0_off74_inb L hc 0) (pay20 I) (rd20 I)
theorem inv20 (H : Hyp I tbl col pay) : ∀ j' < 21, ∀ i ∈ Step.blkSet L 13 j', outAt20 I hc i = Cert.Spec.G tbl col i :=
  Step.out_step L 13 (Cert.Spec.G tbl col) 20 (k0_off74 L 0#32) (k0_off74_eq L 0) (k0_off74_inb L hc 0) (outAt19 I hc) (pay20 I) (payG20 I hc H)
    (inv19 I hc H)
theorem rd21 : (Rn 0 inb_S7x128x128_S1x128x128_0_0_0).view.read (Elt F) (rowsAt26 I) = gp21 I :=
  ((Rn_read_miss 0 5 inb_S7x128x128_S1x128x128_0_0_0 inb_S7x128x128_S1x128x128_5_0_0 (by decide) (rowsAt25 I) (gp26 I)).trans ((Rn_read_miss 0 4 inb_S7x128x128_S1x128x128_0_0_0 inb_S7x128x128_S1x128x128_4_0_0 (by decide) (rowsAt24 I) (gp25 I)).trans ((Rn_read_miss 0 3 inb_S7x128x128_S1x128x128_0_0_0 inb_S7x128x128_S1x128x128_3_0_0 (by decide) (rowsAt23 I) (gp24 I)).trans ((Rn_read_miss 0 2 inb_S7x128x128_S1x128x128_0_0_0 inb_S7x128x128_S1x128x128_2_0_0 (by decide) (rowsAt22 I) (gp23 I)).trans ((Rn_read_miss 0 1 inb_S7x128x128_S1x128x128_0_0_0 inb_S7x128x128_S1x128x128_1_0_0 (by decide) (rowsAt21 I) (gp22 I)).trans (Rn_read_hit 0 inb_S7x128x128_S1x128x128_0_0_0 (rowsAt20 I) (gp21 I)))))))
theorem payG21 (H : Hyp I tbl col pay) : ∀ y, pay21 I y = Cert.Spec.G tbl col ((Rect.unit (s := S16384x3328) (k0_off75 L 0#32) S128x128.size (k0_off75_inb L hc 0)).emb y) :=
  Step.item_payload tbl col H.hr L pay H.hpay I.fi H.hfi 8 0 inb_S26x4x128_S1x1x128_8_0_0 squeezes_S1x1x128_S128
    _ ((Step.read_full (View.whole main_arg34_scv) inb_S1000x128_S1000x128_0_0 I.ft8).trans H.ht8.symm)
    rfl (I.hin 8 0 inb_S26x4x128_S1x1x128_8_0_0 squeezes_S1x1x128_S128) (k0_off75 L 0#32) (k0_off75_eq L 0) (k0_off75_inb L hc 0) (pay21 I) (rd21 I)
theorem inv21 (H : Hyp I tbl col pay) : ∀ j' < 22, ∀ i ∈ Step.blkSet L 13 j', outAt21 I hc i = Cert.Spec.G tbl col i :=
  Step.out_step L 13 (Cert.Spec.G tbl col) 21 (k0_off75 L 0#32) (k0_off75_eq L 0) (k0_off75_inb L hc 0) (outAt20 I hc) (pay21 I) (payG21 I hc H)
    (inv20 I hc H)
theorem rd22 : (Rn 1 inb_S7x128x128_S1x128x128_1_0_0).view.read (Elt F) (rowsAt27 I) = gp22 I :=
  ((Rn_read_miss 1 6 inb_S7x128x128_S1x128x128_1_0_0 inb_S7x128x128_S1x128x128_6_0_0 (by decide) (rowsAt26 I) (gp27 I)).trans ((Rn_read_miss 1 5 inb_S7x128x128_S1x128x128_1_0_0 inb_S7x128x128_S1x128x128_5_0_0 (by decide) (rowsAt25 I) (gp26 I)).trans ((Rn_read_miss 1 4 inb_S7x128x128_S1x128x128_1_0_0 inb_S7x128x128_S1x128x128_4_0_0 (by decide) (rowsAt24 I) (gp25 I)).trans ((Rn_read_miss 1 3 inb_S7x128x128_S1x128x128_1_0_0 inb_S7x128x128_S1x128x128_3_0_0 (by decide) (rowsAt23 I) (gp24 I)).trans ((Rn_read_miss 1 2 inb_S7x128x128_S1x128x128_1_0_0 inb_S7x128x128_S1x128x128_2_0_0 (by decide) (rowsAt22 I) (gp23 I)).trans (Rn_read_hit 1 inb_S7x128x128_S1x128x128_1_0_0 (rowsAt21 I) (gp22 I)))))))
theorem payG22 (H : Hyp I tbl col pay) : ∀ y, pay22 I y = Cert.Spec.G tbl col ((Rect.unit (s := S16384x3328) (k0_off76 L 0#32) S128x128.size (k0_off76_inb L hc 0)).emb y) :=
  Step.item_payload tbl col H.hr L pay H.hpay I.fi H.hfi 9 0 inb_S26x4x128_S1x1x128_9_0_0 squeezes_S1x1x128_S128
    _ ((Step.read_full (View.whole main_arg35_scv) inb_S1000x128_S1000x128_0_0 I.ft9).trans H.ht9.symm)
    rfl (I.hin 9 0 inb_S26x4x128_S1x1x128_9_0_0 squeezes_S1x1x128_S128) (k0_off76 L 0#32) (k0_off76_eq L 0) (k0_off76_inb L hc 0) (pay22 I) (rd22 I)
theorem inv22 (H : Hyp I tbl col pay) : ∀ j' < 23, ∀ i ∈ Step.blkSet L 13 j', outAt22 I hc i = Cert.Spec.G tbl col i :=
  Step.out_step L 13 (Cert.Spec.G tbl col) 22 (k0_off76 L 0#32) (k0_off76_eq L 0) (k0_off76_inb L hc 0) (outAt21 I hc) (pay22 I) (payG22 I hc H)
    (inv21 I hc H)
theorem rd23 : (Rn 2 inb_S7x128x128_S1x128x128_2_0_0).view.read (Elt F) (rowsAt28 I) = gp23 I :=
  ((Rn_read_miss 2 0 inb_S7x128x128_S1x128x128_2_0_0 inb_S7x128x128_S1x128x128_0_0_0 (by decide) (rowsAt27 I) (gp28 I)).trans ((Rn_read_miss 2 6 inb_S7x128x128_S1x128x128_2_0_0 inb_S7x128x128_S1x128x128_6_0_0 (by decide) (rowsAt26 I) (gp27 I)).trans ((Rn_read_miss 2 5 inb_S7x128x128_S1x128x128_2_0_0 inb_S7x128x128_S1x128x128_5_0_0 (by decide) (rowsAt25 I) (gp26 I)).trans ((Rn_read_miss 2 4 inb_S7x128x128_S1x128x128_2_0_0 inb_S7x128x128_S1x128x128_4_0_0 (by decide) (rowsAt24 I) (gp25 I)).trans ((Rn_read_miss 2 3 inb_S7x128x128_S1x128x128_2_0_0 inb_S7x128x128_S1x128x128_3_0_0 (by decide) (rowsAt23 I) (gp24 I)).trans (Rn_read_hit 2 inb_S7x128x128_S1x128x128_2_0_0 (rowsAt22 I) (gp23 I)))))))
theorem payG23 (H : Hyp I tbl col pay) : ∀ y, pay23 I y = Cert.Spec.G tbl col ((Rect.unit (s := S16384x3328) (k0_off77 L 0#32) S128x128.size (k0_off77_inb L hc 0)).emb y) :=
  Step.item_payload tbl col H.hr L pay H.hpay I.fi H.hfi 10 0 inb_S26x4x128_S1x1x128_10_0_0 squeezes_S1x1x128_S128
    _ ((Step.read_full (View.whole main_arg36_scv) inb_S1000x128_S1000x128_0_0 I.ft10).trans H.ht10.symm)
    rfl (I.hin 10 0 inb_S26x4x128_S1x1x128_10_0_0 squeezes_S1x1x128_S128) (k0_off77 L 0#32) (k0_off77_eq L 0) (k0_off77_inb L hc 0) (pay23 I) (rd23 I)
theorem inv23 (H : Hyp I tbl col pay) : ∀ j' < 24, ∀ i ∈ Step.blkSet L 13 j', outAt23 I hc i = Cert.Spec.G tbl col i :=
  Step.out_step L 13 (Cert.Spec.G tbl col) 23 (k0_off77 L 0#32) (k0_off77_eq L 0) (k0_off77_inb L hc 0) (outAt22 I hc) (pay23 I) (payG23 I hc H)
    (inv22 I hc H)
theorem rd24 : (Rn 3 inb_S7x128x128_S1x128x128_3_0_0).view.read (Elt F) (rowsAt29 I) = gp24 I :=
  ((Rn_read_miss 3 1 inb_S7x128x128_S1x128x128_3_0_0 inb_S7x128x128_S1x128x128_1_0_0 (by decide) (rowsAt28 I) (gp29 I)).trans ((Rn_read_miss 3 0 inb_S7x128x128_S1x128x128_3_0_0 inb_S7x128x128_S1x128x128_0_0_0 (by decide) (rowsAt27 I) (gp28 I)).trans ((Rn_read_miss 3 6 inb_S7x128x128_S1x128x128_3_0_0 inb_S7x128x128_S1x128x128_6_0_0 (by decide) (rowsAt26 I) (gp27 I)).trans ((Rn_read_miss 3 5 inb_S7x128x128_S1x128x128_3_0_0 inb_S7x128x128_S1x128x128_5_0_0 (by decide) (rowsAt25 I) (gp26 I)).trans ((Rn_read_miss 3 4 inb_S7x128x128_S1x128x128_3_0_0 inb_S7x128x128_S1x128x128_4_0_0 (by decide) (rowsAt24 I) (gp25 I)).trans (Rn_read_hit 3 inb_S7x128x128_S1x128x128_3_0_0 (rowsAt23 I) (gp24 I)))))))
theorem payG24 (H : Hyp I tbl col pay) : ∀ y, pay24 I y = Cert.Spec.G tbl col ((Rect.unit (s := S16384x3328) (k0_off78 L 0#32) S128x128.size (k0_off78_inb L hc 0)).emb y) :=
  Step.item_payload tbl col H.hr L pay H.hpay I.fi H.hfi 11 0 inb_S26x4x128_S1x1x128_11_0_0 squeezes_S1x1x128_S128
    _ ((Step.read_full (View.whole main_arg37_scv) inb_S1000x128_S1000x128_0_0 I.ft11).trans H.ht11.symm)
    rfl (I.hin 11 0 inb_S26x4x128_S1x1x128_11_0_0 squeezes_S1x1x128_S128) (k0_off78 L 0#32) (k0_off78_eq L 0) (k0_off78_inb L hc 0) (pay24 I) (rd24 I)
theorem inv24 (H : Hyp I tbl col pay) : ∀ j' < 25, ∀ i ∈ Step.blkSet L 13 j', outAt24 I hc i = Cert.Spec.G tbl col i :=
  Step.out_step L 13 (Cert.Spec.G tbl col) 24 (k0_off78 L 0#32) (k0_off78_eq L 0) (k0_off78_inb L hc 0) (outAt23 I hc) (pay24 I) (payG24 I hc H)
    (inv23 I hc H)
theorem rd25 : (Rn 4 inb_S7x128x128_S1x128x128_4_0_0).view.read (Elt F) (rowsAt30 I) = gp25 I :=
  ((Rn_read_miss 4 2 inb_S7x128x128_S1x128x128_4_0_0 inb_S7x128x128_S1x128x128_2_0_0 (by decide) (rowsAt29 I) (gp30 I)).trans ((Rn_read_miss 4 1 inb_S7x128x128_S1x128x128_4_0_0 inb_S7x128x128_S1x128x128_1_0_0 (by decide) (rowsAt28 I) (gp29 I)).trans ((Rn_read_miss 4 0 inb_S7x128x128_S1x128x128_4_0_0 inb_S7x128x128_S1x128x128_0_0_0 (by decide) (rowsAt27 I) (gp28 I)).trans ((Rn_read_miss 4 6 inb_S7x128x128_S1x128x128_4_0_0 inb_S7x128x128_S1x128x128_6_0_0 (by decide) (rowsAt26 I) (gp27 I)).trans ((Rn_read_miss 4 5 inb_S7x128x128_S1x128x128_4_0_0 inb_S7x128x128_S1x128x128_5_0_0 (by decide) (rowsAt25 I) (gp26 I)).trans (Rn_read_hit 4 inb_S7x128x128_S1x128x128_4_0_0 (rowsAt24 I) (gp25 I)))))))
theorem payG25 (H : Hyp I tbl col pay) : ∀ y, pay25 I y = Cert.Spec.G tbl col ((Rect.unit (s := S16384x3328) (k0_off79 L 0#32) S128x128.size (k0_off79_inb L hc 0)).emb y) :=
  Step.item_payload tbl col H.hr L pay H.hpay I.fi H.hfi 12 0 inb_S26x4x128_S1x1x128_12_0_0 squeezes_S1x1x128_S128
    _ ((Step.read_full (View.whole main_arg38_scv) inb_S1000x128_S1000x128_0_0 I.ft12).trans H.ht12.symm)
    rfl (I.hin 12 0 inb_S26x4x128_S1x1x128_12_0_0 squeezes_S1x1x128_S128) (k0_off79 L 0#32) (k0_off79_eq L 0) (k0_off79_inb L hc 0) (pay25 I) (rd25 I)
theorem inv25 (H : Hyp I tbl col pay) : ∀ j' < 26, ∀ i ∈ Step.blkSet L 13 j', outAt25 I hc i = Cert.Spec.G tbl col i :=
  Step.out_step L 13 (Cert.Spec.G tbl col) 25 (k0_off79 L 0#32) (k0_off79_eq L 0) (k0_off79_inb L hc 0) (outAt24 I hc) (pay25 I) (payG25 I hc H)
    (inv24 I hc H)
theorem rd26 : (Rn 5 inb_S7x128x128_S1x128x128_5_0_0).view.read (Elt F) (rowsAt31 I) = gp26 I :=
  ((Rn_read_miss 5 3 inb_S7x128x128_S1x128x128_5_0_0 inb_S7x128x128_S1x128x128_3_0_0 (by decide) (rowsAt30 I) (gp31 I)).trans ((Rn_read_miss 5 2 inb_S7x128x128_S1x128x128_5_0_0 inb_S7x128x128_S1x128x128_2_0_0 (by decide) (rowsAt29 I) (gp30 I)).trans ((Rn_read_miss 5 1 inb_S7x128x128_S1x128x128_5_0_0 inb_S7x128x128_S1x128x128_1_0_0 (by decide) (rowsAt28 I) (gp29 I)).trans ((Rn_read_miss 5 0 inb_S7x128x128_S1x128x128_5_0_0 inb_S7x128x128_S1x128x128_0_0_0 (by decide) (rowsAt27 I) (gp28 I)).trans ((Rn_read_miss 5 6 inb_S7x128x128_S1x128x128_5_0_0 inb_S7x128x128_S1x128x128_6_0_0 (by decide) (rowsAt26 I) (gp27 I)).trans (Rn_read_hit 5 inb_S7x128x128_S1x128x128_5_0_0 (rowsAt25 I) (gp26 I)))))))
theorem payG26 (H : Hyp I tbl col pay) : ∀ y, pay26 I y = Cert.Spec.G tbl col ((Rect.unit (s := S16384x3328) (k0_off54 L 128#32) S128x128.size (k0_off54_inb L hc 1)).emb y) :=
  Step.item_payload tbl col H.hr L pay H.hpay I.fi H.hfi 13 1 inb_S26x4x128_S1x1x128_13_1_0 squeezes_S1x1x128_S128
    _ ((Step.read_full (View.whole main_arg39_scv) inb_S1000x128_S1000x128_0_0 I.ft13).trans H.ht13.symm)
    rfl (I.hin 13 1 inb_S26x4x128_S1x1x128_13_1_0 squeezes_S1x1x128_S128) (k0_off54 L 128#32) (k0_off54_eq L 1) (k0_off54_inb L hc 1) (pay26 I) (rd26 I)
theorem inv26 (H : Hyp I tbl col pay) : ∀ j' < 27, ∀ i ∈ Step.blkSet L 13 j', outAt26 I hc i = Cert.Spec.G tbl col i :=
  Step.out_step L 13 (Cert.Spec.G tbl col) 26 (k0_off54 L 128#32) (k0_off54_eq L 1) (k0_off54_inb L hc 1) (outAt25 I hc) (pay26 I) (payG26 I hc H)
    (inv25 I hc H)
theorem rd27 : (Rn 6 inb_S7x128x128_S1x128x128_6_0_0).view.read (Elt F) (rowsAt32 I) = gp27 I :=
  ((Rn_read_miss 6 4 inb_S7x128x128_S1x128x128_6_0_0 inb_S7x128x128_S1x128x128_4_0_0 (by decide) (rowsAt31 I) (gp32 I)).trans ((Rn_read_miss 6 3 inb_S7x128x128_S1x128x128_6_0_0 inb_S7x128x128_S1x128x128_3_0_0 (by decide) (rowsAt30 I) (gp31 I)).trans ((Rn_read_miss 6 2 inb_S7x128x128_S1x128x128_6_0_0 inb_S7x128x128_S1x128x128_2_0_0 (by decide) (rowsAt29 I) (gp30 I)).trans ((Rn_read_miss 6 1 inb_S7x128x128_S1x128x128_6_0_0 inb_S7x128x128_S1x128x128_1_0_0 (by decide) (rowsAt28 I) (gp29 I)).trans ((Rn_read_miss 6 0 inb_S7x128x128_S1x128x128_6_0_0 inb_S7x128x128_S1x128x128_0_0_0 (by decide) (rowsAt27 I) (gp28 I)).trans (Rn_read_hit 6 inb_S7x128x128_S1x128x128_6_0_0 (rowsAt26 I) (gp27 I)))))))
theorem payG27 (H : Hyp I tbl col pay) : ∀ y, pay27 I y = Cert.Spec.G tbl col ((Rect.unit (s := S16384x3328) (k0_off55 L 128#32) S128x128.size (k0_off55_inb L hc 1)).emb y) :=
  Step.item_payload tbl col H.hr L pay H.hpay I.fi H.hfi 14 1 inb_S26x4x128_S1x1x128_14_1_0 squeezes_S1x1x128_S128
    _ ((Step.read_full (View.whole main_arg40_scv) inb_S1000x128_S1000x128_0_0 I.ft14).trans H.ht14.symm)
    rfl (I.hin 14 1 inb_S26x4x128_S1x1x128_14_1_0 squeezes_S1x1x128_S128) (k0_off55 L 128#32) (k0_off55_eq L 1) (k0_off55_inb L hc 1) (pay27 I) (rd27 I)
theorem inv27 (H : Hyp I tbl col pay) : ∀ j' < 28, ∀ i ∈ Step.blkSet L 13 j', outAt27 I hc i = Cert.Spec.G tbl col i :=
  Step.out_step L 13 (Cert.Spec.G tbl col) 27 (k0_off55 L 128#32) (k0_off55_eq L 1) (k0_off55_inb L hc 1) (outAt26 I hc) (pay27 I) (payG27 I hc H)
    (inv26 I hc H)
theorem rd28 : (Rn 0 inb_S7x128x128_S1x128x128_0_0_0).view.read (Elt F) (rowsAt33 I) = gp28 I :=
  ((Rn_read_miss 0 5 inb_S7x128x128_S1x128x128_0_0_0 inb_S7x128x128_S1x128x128_5_0_0 (by decide) (rowsAt32 I) (gp33 I)).trans ((Rn_read_miss 0 4 inb_S7x128x128_S1x128x128_0_0_0 inb_S7x128x128_S1x128x128_4_0_0 (by decide) (rowsAt31 I) (gp32 I)).trans ((Rn_read_miss 0 3 inb_S7x128x128_S1x128x128_0_0_0 inb_S7x128x128_S1x128x128_3_0_0 (by decide) (rowsAt30 I) (gp31 I)).trans ((Rn_read_miss 0 2 inb_S7x128x128_S1x128x128_0_0_0 inb_S7x128x128_S1x128x128_2_0_0 (by decide) (rowsAt29 I) (gp30 I)).trans ((Rn_read_miss 0 1 inb_S7x128x128_S1x128x128_0_0_0 inb_S7x128x128_S1x128x128_1_0_0 (by decide) (rowsAt28 I) (gp29 I)).trans (Rn_read_hit 0 inb_S7x128x128_S1x128x128_0_0_0 (rowsAt27 I) (gp28 I)))))))
theorem payG28 (H : Hyp I tbl col pay) : ∀ y, pay28 I y = Cert.Spec.G tbl col ((Rect.unit (s := S16384x3328) (k0_off56 L 128#32) S128x128.size (k0_off56_inb L hc 1)).emb y) :=
  Step.item_payload tbl col H.hr L pay H.hpay I.fi H.hfi 15 1 inb_S26x4x128_S1x1x128_15_1_0 squeezes_S1x1x128_S128
    _ ((Step.read_full (View.whole main_arg41_scv) inb_S1000x128_S1000x128_0_0 I.ft15).trans H.ht15.symm)
    rfl (I.hin 15 1 inb_S26x4x128_S1x1x128_15_1_0 squeezes_S1x1x128_S128) (k0_off56 L 128#32) (k0_off56_eq L 1) (k0_off56_inb L hc 1) (pay28 I) (rd28 I)
theorem inv28 (H : Hyp I tbl col pay) : ∀ j' < 29, ∀ i ∈ Step.blkSet L 13 j', outAt28 I hc i = Cert.Spec.G tbl col i :=
  Step.out_step L 13 (Cert.Spec.G tbl col) 28 (k0_off56 L 128#32) (k0_off56_eq L 1) (k0_off56_inb L hc 1) (outAt27 I hc) (pay28 I) (payG28 I hc H)
    (inv27 I hc H)
theorem rd29 : (Rn 1 inb_S7x128x128_S1x128x128_1_0_0).view.read (Elt F) (rowsAt34 I) = gp29 I :=
  ((Rn_read_miss 1 6 inb_S7x128x128_S1x128x128_1_0_0 inb_S7x128x128_S1x128x128_6_0_0 (by decide) (rowsAt33 I) (gp34 I)).trans ((Rn_read_miss 1 5 inb_S7x128x128_S1x128x128_1_0_0 inb_S7x128x128_S1x128x128_5_0_0 (by decide) (rowsAt32 I) (gp33 I)).trans ((Rn_read_miss 1 4 inb_S7x128x128_S1x128x128_1_0_0 inb_S7x128x128_S1x128x128_4_0_0 (by decide) (rowsAt31 I) (gp32 I)).trans ((Rn_read_miss 1 3 inb_S7x128x128_S1x128x128_1_0_0 inb_S7x128x128_S1x128x128_3_0_0 (by decide) (rowsAt30 I) (gp31 I)).trans ((Rn_read_miss 1 2 inb_S7x128x128_S1x128x128_1_0_0 inb_S7x128x128_S1x128x128_2_0_0 (by decide) (rowsAt29 I) (gp30 I)).trans (Rn_read_hit 1 inb_S7x128x128_S1x128x128_1_0_0 (rowsAt28 I) (gp29 I)))))))
theorem payG29 (H : Hyp I tbl col pay) : ∀ y, pay29 I y = Cert.Spec.G tbl col ((Rect.unit (s := S16384x3328) (k0_off57 L 128#32) S128x128.size (k0_off57_inb L hc 1)).emb y) :=
  Step.item_payload tbl col H.hr L pay H.hpay I.fi H.hfi 16 1 inb_S26x4x128_S1x1x128_16_1_0 squeezes_S1x1x128_S128
    _ ((Step.read_full (View.whole main_arg42_scv) inb_S1000x128_S1000x128_0_0 I.ft16).trans H.ht16.symm)
    rfl (I.hin 16 1 inb_S26x4x128_S1x1x128_16_1_0 squeezes_S1x1x128_S128) (k0_off57 L 128#32) (k0_off57_eq L 1) (k0_off57_inb L hc 1) (pay29 I) (rd29 I)
theorem inv29 (H : Hyp I tbl col pay) : ∀ j' < 30, ∀ i ∈ Step.blkSet L 13 j', outAt29 I hc i = Cert.Spec.G tbl col i :=
  Step.out_step L 13 (Cert.Spec.G tbl col) 29 (k0_off57 L 128#32) (k0_off57_eq L 1) (k0_off57_inb L hc 1) (outAt28 I hc) (pay29 I) (payG29 I hc H)
    (inv28 I hc H)
theorem rd30 : (Rn 2 inb_S7x128x128_S1x128x128_2_0_0).view.read (Elt F) (rowsAt35 I) = gp30 I :=
  ((Rn_read_miss 2 0 inb_S7x128x128_S1x128x128_2_0_0 inb_S7x128x128_S1x128x128_0_0_0 (by decide) (rowsAt34 I) (gp35 I)).trans ((Rn_read_miss 2 6 inb_S7x128x128_S1x128x128_2_0_0 inb_S7x128x128_S1x128x128_6_0_0 (by decide) (rowsAt33 I) (gp34 I)).trans ((Rn_read_miss 2 5 inb_S7x128x128_S1x128x128_2_0_0 inb_S7x128x128_S1x128x128_5_0_0 (by decide) (rowsAt32 I) (gp33 I)).trans ((Rn_read_miss 2 4 inb_S7x128x128_S1x128x128_2_0_0 inb_S7x128x128_S1x128x128_4_0_0 (by decide) (rowsAt31 I) (gp32 I)).trans ((Rn_read_miss 2 3 inb_S7x128x128_S1x128x128_2_0_0 inb_S7x128x128_S1x128x128_3_0_0 (by decide) (rowsAt30 I) (gp31 I)).trans (Rn_read_hit 2 inb_S7x128x128_S1x128x128_2_0_0 (rowsAt29 I) (gp30 I)))))))
theorem payG30 (H : Hyp I tbl col pay) : ∀ y, pay30 I y = Cert.Spec.G tbl col ((Rect.unit (s := S16384x3328) (k0_off58 L 128#32) S128x128.size (k0_off58_inb L hc 1)).emb y) :=
  Step.item_payload tbl col H.hr L pay H.hpay I.fi H.hfi 17 1 inb_S26x4x128_S1x1x128_17_1_0 squeezes_S1x1x128_S128
    _ ((Step.read_full (View.whole main_arg43_scv) inb_S1000x128_S1000x128_0_0 I.ft17).trans H.ht17.symm)
    rfl (I.hin 17 1 inb_S26x4x128_S1x1x128_17_1_0 squeezes_S1x1x128_S128) (k0_off58 L 128#32) (k0_off58_eq L 1) (k0_off58_inb L hc 1) (pay30 I) (rd30 I)
theorem inv30 (H : Hyp I tbl col pay) : ∀ j' < 31, ∀ i ∈ Step.blkSet L 13 j', outAt30 I hc i = Cert.Spec.G tbl col i :=
  Step.out_step L 13 (Cert.Spec.G tbl col) 30 (k0_off58 L 128#32) (k0_off58_eq L 1) (k0_off58_inb L hc 1) (outAt29 I hc) (pay30 I) (payG30 I hc H)
    (inv29 I hc H)
theorem rd31 : (Rn 3 inb_S7x128x128_S1x128x128_3_0_0).view.read (Elt F) (rowsAt36 I) = gp31 I :=
  ((Rn_read_miss 3 1 inb_S7x128x128_S1x128x128_3_0_0 inb_S7x128x128_S1x128x128_1_0_0 (by decide) (rowsAt35 I) (gp36 I)).trans ((Rn_read_miss 3 0 inb_S7x128x128_S1x128x128_3_0_0 inb_S7x128x128_S1x128x128_0_0_0 (by decide) (rowsAt34 I) (gp35 I)).trans ((Rn_read_miss 3 6 inb_S7x128x128_S1x128x128_3_0_0 inb_S7x128x128_S1x128x128_6_0_0 (by decide) (rowsAt33 I) (gp34 I)).trans ((Rn_read_miss 3 5 inb_S7x128x128_S1x128x128_3_0_0 inb_S7x128x128_S1x128x128_5_0_0 (by decide) (rowsAt32 I) (gp33 I)).trans ((Rn_read_miss 3 4 inb_S7x128x128_S1x128x128_3_0_0 inb_S7x128x128_S1x128x128_4_0_0 (by decide) (rowsAt31 I) (gp32 I)).trans (Rn_read_hit 3 inb_S7x128x128_S1x128x128_3_0_0 (rowsAt30 I) (gp31 I)))))))
theorem payG31 (H : Hyp I tbl col pay) : ∀ y, pay31 I y = Cert.Spec.G tbl col ((Rect.unit (s := S16384x3328) (k0_off59 L 128#32) S128x128.size (k0_off59_inb L hc 1)).emb y) :=
  Step.item_payload tbl col H.hr L pay H.hpay I.fi H.hfi 18 1 inb_S26x4x128_S1x1x128_18_1_0 squeezes_S1x1x128_S128
    _ ((Step.read_full (View.whole main_arg44_scv) inb_S1000x128_S1000x128_0_0 I.ft18).trans H.ht18.symm)
    rfl (I.hin 18 1 inb_S26x4x128_S1x1x128_18_1_0 squeezes_S1x1x128_S128) (k0_off59 L 128#32) (k0_off59_eq L 1) (k0_off59_inb L hc 1) (pay31 I) (rd31 I)
theorem inv31 (H : Hyp I tbl col pay) : ∀ j' < 32, ∀ i ∈ Step.blkSet L 13 j', outAt31 I hc i = Cert.Spec.G tbl col i :=
  Step.out_step L 13 (Cert.Spec.G tbl col) 31 (k0_off59 L 128#32) (k0_off59_eq L 1) (k0_off59_inb L hc 1) (outAt30 I hc) (pay31 I) (payG31 I hc H)
    (inv30 I hc H)
theorem rd32 : (Rn 4 inb_S7x128x128_S1x128x128_4_0_0).view.read (Elt F) (rowsAt37 I) = gp32 I :=
  ((Rn_read_miss 4 2 inb_S7x128x128_S1x128x128_4_0_0 inb_S7x128x128_S1x128x128_2_0_0 (by decide) (rowsAt36 I) (gp37 I)).trans ((Rn_read_miss 4 1 inb_S7x128x128_S1x128x128_4_0_0 inb_S7x128x128_S1x128x128_1_0_0 (by decide) (rowsAt35 I) (gp36 I)).trans ((Rn_read_miss 4 0 inb_S7x128x128_S1x128x128_4_0_0 inb_S7x128x128_S1x128x128_0_0_0 (by decide) (rowsAt34 I) (gp35 I)).trans ((Rn_read_miss 4 6 inb_S7x128x128_S1x128x128_4_0_0 inb_S7x128x128_S1x128x128_6_0_0 (by decide) (rowsAt33 I) (gp34 I)).trans ((Rn_read_miss 4 5 inb_S7x128x128_S1x128x128_4_0_0 inb_S7x128x128_S1x128x128_5_0_0 (by decide) (rowsAt32 I) (gp33 I)).trans (Rn_read_hit 4 inb_S7x128x128_S1x128x128_4_0_0 (rowsAt31 I) (gp32 I)))))))
theorem payG32 (H : Hyp I tbl col pay) : ∀ y, pay32 I y = Cert.Spec.G tbl col ((Rect.unit (s := S16384x3328) (k0_off60 L 128#32) S128x128.size (k0_off60_inb L hc 1)).emb y) :=
  Step.item_payload tbl col H.hr L pay H.hpay I.fi H.hfi 19 1 inb_S26x4x128_S1x1x128_19_1_0 squeezes_S1x1x128_S128
    _ ((Step.read_full (View.whole main_arg45_scv) inb_S1000x128_S1000x128_0_0 I.ft19).trans H.ht19.symm)
    rfl (I.hin 19 1 inb_S26x4x128_S1x1x128_19_1_0 squeezes_S1x1x128_S128) (k0_off60 L 128#32) (k0_off60_eq L 1) (k0_off60_inb L hc 1) (pay32 I) (rd32 I)
theorem inv32 (H : Hyp I tbl col pay) : ∀ j' < 33, ∀ i ∈ Step.blkSet L 13 j', outAt32 I hc i = Cert.Spec.G tbl col i :=
  Step.out_step L 13 (Cert.Spec.G tbl col) 32 (k0_off60 L 128#32) (k0_off60_eq L 1) (k0_off60_inb L hc 1) (outAt31 I hc) (pay32 I) (payG32 I hc H)
    (inv31 I hc H)
theorem rd33 : (Rn 5 inb_S7x128x128_S1x128x128_5_0_0).view.read (Elt F) (rowsAt38 I) = gp33 I :=
  ((Rn_read_miss 5 3 inb_S7x128x128_S1x128x128_5_0_0 inb_S7x128x128_S1x128x128_3_0_0 (by decide) (rowsAt37 I) (gp38 I)).trans ((Rn_read_miss 5 2 inb_S7x128x128_S1x128x128_5_0_0 inb_S7x128x128_S1x128x128_2_0_0 (by decide) (rowsAt36 I) (gp37 I)).trans ((Rn_read_miss 5 1 inb_S7x128x128_S1x128x128_5_0_0 inb_S7x128x128_S1x128x128_1_0_0 (by decide) (rowsAt35 I) (gp36 I)).trans ((Rn_read_miss 5 0 inb_S7x128x128_S1x128x128_5_0_0 inb_S7x128x128_S1x128x128_0_0_0 (by decide) (rowsAt34 I) (gp35 I)).trans ((Rn_read_miss 5 6 inb_S7x128x128_S1x128x128_5_0_0 inb_S7x128x128_S1x128x128_6_0_0 (by decide) (rowsAt33 I) (gp34 I)).trans (Rn_read_hit 5 inb_S7x128x128_S1x128x128_5_0_0 (rowsAt32 I) (gp33 I)))))))
theorem payG33 (H : Hyp I tbl col pay) : ∀ y, pay33 I y = Cert.Spec.G tbl col ((Rect.unit (s := S16384x3328) (k0_off61 L 128#32) S128x128.size (k0_off61_inb L hc 1)).emb y) :=
  Step.item_payload tbl col H.hr L pay H.hpay I.fi H.hfi 20 1 inb_S26x4x128_S1x1x128_20_1_0 squeezes_S1x1x128_S128
    _ ((Step.read_full (View.whole main_arg46_scv) inb_S1000x128_S1000x128_0_0 I.ft20).trans H.ht20.symm)
    rfl (I.hin 20 1 inb_S26x4x128_S1x1x128_20_1_0 squeezes_S1x1x128_S128) (k0_off61 L 128#32) (k0_off61_eq L 1) (k0_off61_inb L hc 1) (pay33 I) (rd33 I)
theorem inv33 (H : Hyp I tbl col pay) : ∀ j' < 34, ∀ i ∈ Step.blkSet L 13 j', outAt33 I hc i = Cert.Spec.G tbl col i :=
  Step.out_step L 13 (Cert.Spec.G tbl col) 33 (k0_off61 L 128#32) (k0_off61_eq L 1) (k0_off61_inb L hc 1) (outAt32 I hc) (pay33 I) (payG33 I hc H)
    (inv32 I hc H)
theorem rd34 : (Rn 6 inb_S7x128x128_S1x128x128_6_0_0).view.read (Elt F) (rowsAt39 I) = gp34 I :=
  ((Rn_read_miss 6 4 inb_S7x128x128_S1x128x128_6_0_0 inb_S7x128x128_S1x128x128_4_0_0 (by decide) (rowsAt38 I) (gp39 I)).trans ((Rn_read_miss 6 3 inb_S7x128x128_S1x128x128_6_0_0 inb_S7x128x128_S1x128x128_3_0_0 (by decide) (rowsAt37 I) (gp38 I)).trans ((Rn_read_miss 6 2 inb_S7x128x128_S1x128x128_6_0_0 inb_S7x128x128_S1x128x128_2_0_0 (by decide) (rowsAt36 I) (gp37 I)).trans ((Rn_read_miss 6 1 inb_S7x128x128_S1x128x128_6_0_0 inb_S7x128x128_S1x128x128_1_0_0 (by decide) (rowsAt35 I) (gp36 I)).trans ((Rn_read_miss 6 0 inb_S7x128x128_S1x128x128_6_0_0 inb_S7x128x128_S1x128x128_0_0_0 (by decide) (rowsAt34 I) (gp35 I)).trans (Rn_read_hit 6 inb_S7x128x128_S1x128x128_6_0_0 (rowsAt33 I) (gp34 I)))))))
theorem payG34 (H : Hyp I tbl col pay) : ∀ y, pay34 I y = Cert.Spec.G tbl col ((Rect.unit (s := S16384x3328) (k0_off62 L 128#32) S128x128.size (k0_off62_inb L hc 1)).emb y) :=
  Step.item_payload tbl col H.hr L pay H.hpay I.fi H.hfi 21 1 inb_S26x4x128_S1x1x128_21_1_0 squeezes_S1x1x128_S128
    _ ((Step.read_full (View.whole main_arg47_scv) inb_S1000x128_S1000x128_0_0 I.ft21).trans H.ht21.symm)
    rfl (I.hin 21 1 inb_S26x4x128_S1x1x128_21_1_0 squeezes_S1x1x128_S128) (k0_off62 L 128#32) (k0_off62_eq L 1) (k0_off62_inb L hc 1) (pay34 I) (rd34 I)
theorem inv34 (H : Hyp I tbl col pay) : ∀ j' < 35, ∀ i ∈ Step.blkSet L 13 j', outAt34 I hc i = Cert.Spec.G tbl col i :=
  Step.out_step L 13 (Cert.Spec.G tbl col) 34 (k0_off62 L 128#32) (k0_off62_eq L 1) (k0_off62_inb L hc 1) (outAt33 I hc) (pay34 I) (payG34 I hc H)
    (inv33 I hc H)
theorem rd35 : (Rn 0 inb_S7x128x128_S1x128x128_0_0_0).view.read (Elt F) (rowsAt40 I) = gp35 I :=
  ((Rn_read_miss 0 5 inb_S7x128x128_S1x128x128_0_0_0 inb_S7x128x128_S1x128x128_5_0_0 (by decide) (rowsAt39 I) (gp40 I)).trans ((Rn_read_miss 0 4 inb_S7x128x128_S1x128x128_0_0_0 inb_S7x128x128_S1x128x128_4_0_0 (by decide) (rowsAt38 I) (gp39 I)).trans ((Rn_read_miss 0 3 inb_S7x128x128_S1x128x128_0_0_0 inb_S7x128x128_S1x128x128_3_0_0 (by decide) (rowsAt37 I) (gp38 I)).trans ((Rn_read_miss 0 2 inb_S7x128x128_S1x128x128_0_0_0 inb_S7x128x128_S1x128x128_2_0_0 (by decide) (rowsAt36 I) (gp37 I)).trans ((Rn_read_miss 0 1 inb_S7x128x128_S1x128x128_0_0_0 inb_S7x128x128_S1x128x128_1_0_0 (by decide) (rowsAt35 I) (gp36 I)).trans (Rn_read_hit 0 inb_S7x128x128_S1x128x128_0_0_0 (rowsAt34 I) (gp35 I)))))))
theorem payG35 (H : Hyp I tbl col pay) : ∀ y, pay35 I y = Cert.Spec.G tbl col ((Rect.unit (s := S16384x3328) (k0_off63 L 128#32) S128x128.size (k0_off63_inb L hc 1)).emb y) :=
  Step.item_payload tbl col H.hr L pay H.hpay I.fi H.hfi 22 1 inb_S26x4x128_S1x1x128_22_1_0 squeezes_S1x1x128_S128
    _ ((Step.read_full (View.whole main_arg48_scv) inb_S1000x128_S1000x128_0_0 I.ft22).trans H.ht22.symm)
    rfl (I.hin 22 1 inb_S26x4x128_S1x1x128_22_1_0 squeezes_S1x1x128_S128) (k0_off63 L 128#32) (k0_off63_eq L 1) (k0_off63_inb L hc 1) (pay35 I) (rd35 I)
theorem inv35 (H : Hyp I tbl col pay) : ∀ j' < 36, ∀ i ∈ Step.blkSet L 13 j', outAt35 I hc i = Cert.Spec.G tbl col i :=
  Step.out_step L 13 (Cert.Spec.G tbl col) 35 (k0_off63 L 128#32) (k0_off63_eq L 1) (k0_off63_inb L hc 1) (outAt34 I hc) (pay35 I) (payG35 I hc H)
    (inv34 I hc H)
theorem rd36 : (Rn 1 inb_S7x128x128_S1x128x128_1_0_0).view.read (Elt F) (rowsAt41 I) = gp36 I :=
  ((Rn_read_miss 1 6 inb_S7x128x128_S1x128x128_1_0_0 inb_S7x128x128_S1x128x128_6_0_0 (by decide) (rowsAt40 I) (gp41 I)).trans ((Rn_read_miss 1 5 inb_S7x128x128_S1x128x128_1_0_0 inb_S7x128x128_S1x128x128_5_0_0 (by decide) (rowsAt39 I) (gp40 I)).trans ((Rn_read_miss 1 4 inb_S7x128x128_S1x128x128_1_0_0 inb_S7x128x128_S1x128x128_4_0_0 (by decide) (rowsAt38 I) (gp39 I)).trans ((Rn_read_miss 1 3 inb_S7x128x128_S1x128x128_1_0_0 inb_S7x128x128_S1x128x128_3_0_0 (by decide) (rowsAt37 I) (gp38 I)).trans ((Rn_read_miss 1 2 inb_S7x128x128_S1x128x128_1_0_0 inb_S7x128x128_S1x128x128_2_0_0 (by decide) (rowsAt36 I) (gp37 I)).trans (Rn_read_hit 1 inb_S7x128x128_S1x128x128_1_0_0 (rowsAt35 I) (gp36 I)))))))
theorem payG36 (H : Hyp I tbl col pay) : ∀ y, pay36 I y = Cert.Spec.G tbl col ((Rect.unit (s := S16384x3328) (k0_off64 L 128#32) S128x128.size (k0_off64_inb L hc 1)).emb y) :=
  Step.item_payload tbl col H.hr L pay H.hpay I.fi H.hfi 23 1 inb_S26x4x128_S1x1x128_23_1_0 squeezes_S1x1x128_S128
    _ ((Step.read_full (View.whole main_arg49_scv) inb_S1000x128_S1000x128_0_0 I.ft23).trans H.ht23.symm)
    rfl (I.hin 23 1 inb_S26x4x128_S1x1x128_23_1_0 squeezes_S1x1x128_S128) (k0_off64 L 128#32) (k0_off64_eq L 1) (k0_off64_inb L hc 1) (pay36 I) (rd36 I)
theorem inv36 (H : Hyp I tbl col pay) : ∀ j' < 37, ∀ i ∈ Step.blkSet L 13 j', outAt36 I hc i = Cert.Spec.G tbl col i :=
  Step.out_step L 13 (Cert.Spec.G tbl col) 36 (k0_off64 L 128#32) (k0_off64_eq L 1) (k0_off64_inb L hc 1) (outAt35 I hc) (pay36 I) (payG36 I hc H)
    (inv35 I hc H)
theorem rd37 : (Rn 2 inb_S7x128x128_S1x128x128_2_0_0).view.read (Elt F) (rowsAt42 I) = gp37 I :=
  ((Rn_read_miss 2 0 inb_S7x128x128_S1x128x128_2_0_0 inb_S7x128x128_S1x128x128_0_0_0 (by decide) (rowsAt41 I) (gp42 I)).trans ((Rn_read_miss 2 6 inb_S7x128x128_S1x128x128_2_0_0 inb_S7x128x128_S1x128x128_6_0_0 (by decide) (rowsAt40 I) (gp41 I)).trans ((Rn_read_miss 2 5 inb_S7x128x128_S1x128x128_2_0_0 inb_S7x128x128_S1x128x128_5_0_0 (by decide) (rowsAt39 I) (gp40 I)).trans ((Rn_read_miss 2 4 inb_S7x128x128_S1x128x128_2_0_0 inb_S7x128x128_S1x128x128_4_0_0 (by decide) (rowsAt38 I) (gp39 I)).trans ((Rn_read_miss 2 3 inb_S7x128x128_S1x128x128_2_0_0 inb_S7x128x128_S1x128x128_3_0_0 (by decide) (rowsAt37 I) (gp38 I)).trans (Rn_read_hit 2 inb_S7x128x128_S1x128x128_2_0_0 (rowsAt36 I) (gp37 I)))))))
theorem payG37 (H : Hyp I tbl col pay) : ∀ y, pay37 I y = Cert.Spec.G tbl col ((Rect.unit (s := S16384x3328) (k0_off65 L 128#32) S128x128.size (k0_off65_inb L hc 1)).emb y) :=
  Step.item_payload tbl col H.hr L pay H.hpay I.fi H.hfi 24 1 inb_S26x4x128_S1x1x128_24_1_0 squeezes_S1x1x128_S128
    _ ((Step.read_full (View.whole main_arg50_scv) inb_S1000x128_S1000x128_0_0 I.ft24).trans H.ht24.symm)
    rfl (I.hin 24 1 inb_S26x4x128_S1x1x128_24_1_0 squeezes_S1x1x128_S128) (k0_off65 L 128#32) (k0_off65_eq L 1) (k0_off65_inb L hc 1) (pay37 I) (rd37 I)
theorem inv37 (H : Hyp I tbl col pay) : ∀ j' < 38, ∀ i ∈ Step.blkSet L 13 j', outAt37 I hc i = Cert.Spec.G tbl col i :=
  Step.out_step L 13 (Cert.Spec.G tbl col) 37 (k0_off65 L 128#32) (k0_off65_eq L 1) (k0_off65_inb L hc 1) (outAt36 I hc) (pay37 I) (payG37 I hc H)
    (inv36 I hc H)
theorem rd38 : (Rn 3 inb_S7x128x128_S1x128x128_3_0_0).view.read (Elt F) (rowsAt43 I) = gp38 I :=
  ((Rn_read_miss 3 1 inb_S7x128x128_S1x128x128_3_0_0 inb_S7x128x128_S1x128x128_1_0_0 (by decide) (rowsAt42 I) (gp43 I)).trans ((Rn_read_miss 3 0 inb_S7x128x128_S1x128x128_3_0_0 inb_S7x128x128_S1x128x128_0_0_0 (by decide) (rowsAt41 I) (gp42 I)).trans ((Rn_read_miss 3 6 inb_S7x128x128_S1x128x128_3_0_0 inb_S7x128x128_S1x128x128_6_0_0 (by decide) (rowsAt40 I) (gp41 I)).trans ((Rn_read_miss 3 5 inb_S7x128x128_S1x128x128_3_0_0 inb_S7x128x128_S1x128x128_5_0_0 (by decide) (rowsAt39 I) (gp40 I)).trans ((Rn_read_miss 3 4 inb_S7x128x128_S1x128x128_3_0_0 inb_S7x128x128_S1x128x128_4_0_0 (by decide) (rowsAt38 I) (gp39 I)).trans (Rn_read_hit 3 inb_S7x128x128_S1x128x128_3_0_0 (rowsAt37 I) (gp38 I)))))))
theorem payG38 (H : Hyp I tbl col pay) : ∀ y, pay38 I y = Cert.Spec.G tbl col ((Rect.unit (s := S16384x3328) (k0_off66 L 128#32) S128x128.size (k0_off66_inb L hc 1)).emb y) :=
  Step.item_payload tbl col H.hr L pay H.hpay I.fi H.hfi 25 1 inb_S26x4x128_S1x1x128_25_1_0 squeezes_S1x1x128_S128
    _ ((Step.read_full (View.whole main_arg51_scv) inb_S1000x128_S1000x128_0_0 I.ft25).trans H.ht25.symm)
    rfl (I.hin 25 1 inb_S26x4x128_S1x1x128_25_1_0 squeezes_S1x1x128_S128) (k0_off66 L 128#32) (k0_off66_eq L 1) (k0_off66_inb L hc 1) (pay38 I) (rd38 I)
theorem inv38 (H : Hyp I tbl col pay) : ∀ j' < 39, ∀ i ∈ Step.blkSet L 13 j', outAt38 I hc i = Cert.Spec.G tbl col i :=
  Step.out_step L 13 (Cert.Spec.G tbl col) 38 (k0_off66 L 128#32) (k0_off66_eq L 1) (k0_off66_inb L hc 1) (outAt37 I hc) (pay38 I) (payG38 I hc H)
    (inv37 I hc H)
theorem rd39 : (Rn 4 inb_S7x128x128_S1x128x128_4_0_0).view.read (Elt F) (rowsAt44 I) = gp39 I :=
  ((Rn_read_miss 4 2 inb_S7x128x128_S1x128x128_4_0_0 inb_S7x128x128_S1x128x128_2_0_0 (by decide) (rowsAt43 I) (gp44 I)).trans ((Rn_read_miss 4 1 inb_S7x128x128_S1x128x128_4_0_0 inb_S7x128x128_S1x128x128_1_0_0 (by decide) (rowsAt42 I) (gp43 I)).trans ((Rn_read_miss 4 0 inb_S7x128x128_S1x128x128_4_0_0 inb_S7x128x128_S1x128x128_0_0_0 (by decide) (rowsAt41 I) (gp42 I)).trans ((Rn_read_miss 4 6 inb_S7x128x128_S1x128x128_4_0_0 inb_S7x128x128_S1x128x128_6_0_0 (by decide) (rowsAt40 I) (gp41 I)).trans ((Rn_read_miss 4 5 inb_S7x128x128_S1x128x128_4_0_0 inb_S7x128x128_S1x128x128_5_0_0 (by decide) (rowsAt39 I) (gp40 I)).trans (Rn_read_hit 4 inb_S7x128x128_S1x128x128_4_0_0 (rowsAt38 I) (gp39 I)))))))
theorem payG39 (H : Hyp I tbl col pay) : ∀ y, pay39 I y = Cert.Spec.G tbl col ((Rect.unit (s := S16384x3328) (k0_off67 L 128#32) S128x128.size (k0_off67_inb L hc 1)).emb y) :=
  Step.item_payload tbl col H.hr L pay H.hpay I.fi H.hfi 0 1 inb_S26x4x128_S1x1x128_0_1_0 squeezes_S1x1x128_S128
    _ ((Step.read_full (View.whole main_arg26_scv) inb_S1000x128_S1000x128_0_0 I.ft0).trans H.ht0.symm)
    rfl (I.hin 0 1 inb_S26x4x128_S1x1x128_0_1_0 squeezes_S1x1x128_S128) (k0_off67 L 128#32) (k0_off67_eq L 1) (k0_off67_inb L hc 1) (pay39 I) (rd39 I)
theorem inv39 (H : Hyp I tbl col pay) : ∀ j' < 40, ∀ i ∈ Step.blkSet L 13 j', outAt39 I hc i = Cert.Spec.G tbl col i :=
  Step.out_step L 13 (Cert.Spec.G tbl col) 39 (k0_off67 L 128#32) (k0_off67_eq L 1) (k0_off67_inb L hc 1) (outAt38 I hc) (pay39 I) (payG39 I hc H)
    (inv38 I hc H)
theorem rd40 : (Rn 5 inb_S7x128x128_S1x128x128_5_0_0).view.read (Elt F) (rowsAt45 I) = gp40 I :=
  ((Rn_read_miss 5 3 inb_S7x128x128_S1x128x128_5_0_0 inb_S7x128x128_S1x128x128_3_0_0 (by decide) (rowsAt44 I) (gp45 I)).trans ((Rn_read_miss 5 2 inb_S7x128x128_S1x128x128_5_0_0 inb_S7x128x128_S1x128x128_2_0_0 (by decide) (rowsAt43 I) (gp44 I)).trans ((Rn_read_miss 5 1 inb_S7x128x128_S1x128x128_5_0_0 inb_S7x128x128_S1x128x128_1_0_0 (by decide) (rowsAt42 I) (gp43 I)).trans ((Rn_read_miss 5 0 inb_S7x128x128_S1x128x128_5_0_0 inb_S7x128x128_S1x128x128_0_0_0 (by decide) (rowsAt41 I) (gp42 I)).trans ((Rn_read_miss 5 6 inb_S7x128x128_S1x128x128_5_0_0 inb_S7x128x128_S1x128x128_6_0_0 (by decide) (rowsAt40 I) (gp41 I)).trans (Rn_read_hit 5 inb_S7x128x128_S1x128x128_5_0_0 (rowsAt39 I) (gp40 I)))))))
theorem payG40 (H : Hyp I tbl col pay) : ∀ y, pay40 I y = Cert.Spec.G tbl col ((Rect.unit (s := S16384x3328) (k0_off68 L 128#32) S128x128.size (k0_off68_inb L hc 1)).emb y) :=
  Step.item_payload tbl col H.hr L pay H.hpay I.fi H.hfi 1 1 inb_S26x4x128_S1x1x128_1_1_0 squeezes_S1x1x128_S128
    _ ((Step.read_full (View.whole main_arg27_scv) inb_S1000x128_S1000x128_0_0 I.ft1).trans H.ht1.symm)
    rfl (I.hin 1 1 inb_S26x4x128_S1x1x128_1_1_0 squeezes_S1x1x128_S128) (k0_off68 L 128#32) (k0_off68_eq L 1) (k0_off68_inb L hc 1) (pay40 I) (rd40 I)
theorem inv40 (H : Hyp I tbl col pay) : ∀ j' < 41, ∀ i ∈ Step.blkSet L 13 j', outAt40 I hc i = Cert.Spec.G tbl col i :=
  Step.out_step L 13 (Cert.Spec.G tbl col) 40 (k0_off68 L 128#32) (k0_off68_eq L 1) (k0_off68_inb L hc 1) (outAt39 I hc) (pay40 I) (payG40 I hc H)
    (inv39 I hc H)
theorem rd41 : (Rn 6 inb_S7x128x128_S1x128x128_6_0_0).view.read (Elt F) (rowsAt46 I) = gp41 I :=
  ((Rn_read_miss 6 4 inb_S7x128x128_S1x128x128_6_0_0 inb_S7x128x128_S1x128x128_4_0_0 (by decide) (rowsAt45 I) (gp46 I)).trans ((Rn_read_miss 6 3 inb_S7x128x128_S1x128x128_6_0_0 inb_S7x128x128_S1x128x128_3_0_0 (by decide) (rowsAt44 I) (gp45 I)).trans ((Rn_read_miss 6 2 inb_S7x128x128_S1x128x128_6_0_0 inb_S7x128x128_S1x128x128_2_0_0 (by decide) (rowsAt43 I) (gp44 I)).trans ((Rn_read_miss 6 1 inb_S7x128x128_S1x128x128_6_0_0 inb_S7x128x128_S1x128x128_1_0_0 (by decide) (rowsAt42 I) (gp43 I)).trans ((Rn_read_miss 6 0 inb_S7x128x128_S1x128x128_6_0_0 inb_S7x128x128_S1x128x128_0_0_0 (by decide) (rowsAt41 I) (gp42 I)).trans (Rn_read_hit 6 inb_S7x128x128_S1x128x128_6_0_0 (rowsAt40 I) (gp41 I)))))))
theorem payG41 (H : Hyp I tbl col pay) : ∀ y, pay41 I y = Cert.Spec.G tbl col ((Rect.unit (s := S16384x3328) (k0_off69 L 128#32) S128x128.size (k0_off69_inb L hc 1)).emb y) :=
  Step.item_payload tbl col H.hr L pay H.hpay I.fi H.hfi 2 1 inb_S26x4x128_S1x1x128_2_1_0 squeezes_S1x1x128_S128
    _ ((Step.read_full (View.whole main_arg28_scv) inb_S1000x128_S1000x128_0_0 I.ft2).trans H.ht2.symm)
    rfl (I.hin 2 1 inb_S26x4x128_S1x1x128_2_1_0 squeezes_S1x1x128_S128) (k0_off69 L 128#32) (k0_off69_eq L 1) (k0_off69_inb L hc 1) (pay41 I) (rd41 I)
theorem inv41 (H : Hyp I tbl col pay) : ∀ j' < 42, ∀ i ∈ Step.blkSet L 13 j', outAt41 I hc i = Cert.Spec.G tbl col i :=
  Step.out_step L 13 (Cert.Spec.G tbl col) 41 (k0_off69 L 128#32) (k0_off69_eq L 1) (k0_off69_inb L hc 1) (outAt40 I hc) (pay41 I) (payG41 I hc H)
    (inv40 I hc H)
theorem rd42 : (Rn 0 inb_S7x128x128_S1x128x128_0_0_0).view.read (Elt F) (rowsAt47 I) = gp42 I :=
  ((Rn_read_miss 0 5 inb_S7x128x128_S1x128x128_0_0_0 inb_S7x128x128_S1x128x128_5_0_0 (by decide) (rowsAt46 I) (gp47 I)).trans ((Rn_read_miss 0 4 inb_S7x128x128_S1x128x128_0_0_0 inb_S7x128x128_S1x128x128_4_0_0 (by decide) (rowsAt45 I) (gp46 I)).trans ((Rn_read_miss 0 3 inb_S7x128x128_S1x128x128_0_0_0 inb_S7x128x128_S1x128x128_3_0_0 (by decide) (rowsAt44 I) (gp45 I)).trans ((Rn_read_miss 0 2 inb_S7x128x128_S1x128x128_0_0_0 inb_S7x128x128_S1x128x128_2_0_0 (by decide) (rowsAt43 I) (gp44 I)).trans ((Rn_read_miss 0 1 inb_S7x128x128_S1x128x128_0_0_0 inb_S7x128x128_S1x128x128_1_0_0 (by decide) (rowsAt42 I) (gp43 I)).trans (Rn_read_hit 0 inb_S7x128x128_S1x128x128_0_0_0 (rowsAt41 I) (gp42 I)))))))
theorem payG42 (H : Hyp I tbl col pay) : ∀ y, pay42 I y = Cert.Spec.G tbl col ((Rect.unit (s := S16384x3328) (k0_off70 L 128#32) S128x128.size (k0_off70_inb L hc 1)).emb y) :=
  Step.item_payload tbl col H.hr L pay H.hpay I.fi H.hfi 3 1 inb_S26x4x128_S1x1x128_3_1_0 squeezes_S1x1x128_S128
    _ ((Step.read_full (View.whole main_arg29_scv) inb_S1000x128_S1000x128_0_0 I.ft3).trans H.ht3.symm)
    rfl (I.hin 3 1 inb_S26x4x128_S1x1x128_3_1_0 squeezes_S1x1x128_S128) (k0_off70 L 128#32) (k0_off70_eq L 1) (k0_off70_inb L hc 1) (pay42 I) (rd42 I)
theorem inv42 (H : Hyp I tbl col pay) : ∀ j' < 43, ∀ i ∈ Step.blkSet L 13 j', outAt42 I hc i = Cert.Spec.G tbl col i :=
  Step.out_step L 13 (Cert.Spec.G tbl col) 42 (k0_off70 L 128#32) (k0_off70_eq L 1) (k0_off70_inb L hc 1) (outAt41 I hc) (pay42 I) (payG42 I hc H)
    (inv41 I hc H)
theorem rd43 : (Rn 1 inb_S7x128x128_S1x128x128_1_0_0).view.read (Elt F) (rowsAt48 I) = gp43 I :=
  ((Rn_read_miss 1 6 inb_S7x128x128_S1x128x128_1_0_0 inb_S7x128x128_S1x128x128_6_0_0 (by decide) (rowsAt47 I) (gp48 I)).trans ((Rn_read_miss 1 5 inb_S7x128x128_S1x128x128_1_0_0 inb_S7x128x128_S1x128x128_5_0_0 (by decide) (rowsAt46 I) (gp47 I)).trans ((Rn_read_miss 1 4 inb_S7x128x128_S1x128x128_1_0_0 inb_S7x128x128_S1x128x128_4_0_0 (by decide) (rowsAt45 I) (gp46 I)).trans ((Rn_read_miss 1 3 inb_S7x128x128_S1x128x128_1_0_0 inb_S7x128x128_S1x128x128_3_0_0 (by decide) (rowsAt44 I) (gp45 I)).trans ((Rn_read_miss 1 2 inb_S7x128x128_S1x128x128_1_0_0 inb_S7x128x128_S1x128x128_2_0_0 (by decide) (rowsAt43 I) (gp44 I)).trans (Rn_read_hit 1 inb_S7x128x128_S1x128x128_1_0_0 (rowsAt42 I) (gp43 I)))))))
theorem payG43 (H : Hyp I tbl col pay) : ∀ y, pay43 I y = Cert.Spec.G tbl col ((Rect.unit (s := S16384x3328) (k0_off71 L 128#32) S128x128.size (k0_off71_inb L hc 1)).emb y) :=
  Step.item_payload tbl col H.hr L pay H.hpay I.fi H.hfi 4 1 inb_S26x4x128_S1x1x128_4_1_0 squeezes_S1x1x128_S128
    _ ((Step.read_full (View.whole main_arg30_scv) inb_S1000x128_S1000x128_0_0 I.ft4).trans H.ht4.symm)
    rfl (I.hin 4 1 inb_S26x4x128_S1x1x128_4_1_0 squeezes_S1x1x128_S128) (k0_off71 L 128#32) (k0_off71_eq L 1) (k0_off71_inb L hc 1) (pay43 I) (rd43 I)
theorem inv43 (H : Hyp I tbl col pay) : ∀ j' < 44, ∀ i ∈ Step.blkSet L 13 j', outAt43 I hc i = Cert.Spec.G tbl col i :=
  Step.out_step L 13 (Cert.Spec.G tbl col) 43 (k0_off71 L 128#32) (k0_off71_eq L 1) (k0_off71_inb L hc 1) (outAt42 I hc) (pay43 I) (payG43 I hc H)
    (inv42 I hc H)
theorem rd44 : (Rn 2 inb_S7x128x128_S1x128x128_2_0_0).view.read (Elt F) (rowsAt49 I) = gp44 I :=
  ((Rn_read_miss 2 0 inb_S7x128x128_S1x128x128_2_0_0 inb_S7x128x128_S1x128x128_0_0_0 (by decide) (rowsAt48 I) (gp49 I)).trans ((Rn_read_miss 2 6 inb_S7x128x128_S1x128x128_2_0_0 inb_S7x128x128_S1x128x128_6_0_0 (by decide) (rowsAt47 I) (gp48 I)).trans ((Rn_read_miss 2 5 inb_S7x128x128_S1x128x128_2_0_0 inb_S7x128x128_S1x128x128_5_0_0 (by decide) (rowsAt46 I) (gp47 I)).trans ((Rn_read_miss 2 4 inb_S7x128x128_S1x128x128_2_0_0 inb_S7x128x128_S1x128x128_4_0_0 (by decide) (rowsAt45 I) (gp46 I)).trans ((Rn_read_miss 2 3 inb_S7x128x128_S1x128x128_2_0_0 inb_S7x128x128_S1x128x128_3_0_0 (by decide) (rowsAt44 I) (gp45 I)).trans (Rn_read_hit 2 inb_S7x128x128_S1x128x128_2_0_0 (rowsAt43 I) (gp44 I)))))))
theorem payG44 (H : Hyp I tbl col pay) : ∀ y, pay44 I y = Cert.Spec.G tbl col ((Rect.unit (s := S16384x3328) (k0_off72 L 128#32) S128x128.size (k0_off72_inb L hc 1)).emb y) :=
  Step.item_payload tbl col H.hr L pay H.hpay I.fi H.hfi 5 1 inb_S26x4x128_S1x1x128_5_1_0 squeezes_S1x1x128_S128
    _ ((Step.read_full (View.whole main_arg31_scv) inb_S1000x128_S1000x128_0_0 I.ft5).trans H.ht5.symm)
    rfl (I.hin 5 1 inb_S26x4x128_S1x1x128_5_1_0 squeezes_S1x1x128_S128) (k0_off72 L 128#32) (k0_off72_eq L 1) (k0_off72_inb L hc 1) (pay44 I) (rd44 I)
theorem inv44 (H : Hyp I tbl col pay) : ∀ j' < 45, ∀ i ∈ Step.blkSet L 13 j', outAt44 I hc i = Cert.Spec.G tbl col i :=
  Step.out_step L 13 (Cert.Spec.G tbl col) 44 (k0_off72 L 128#32) (k0_off72_eq L 1) (k0_off72_inb L hc 1) (outAt43 I hc) (pay44 I) (payG44 I hc H)
    (inv43 I hc H)
theorem rd45 : (Rn 3 inb_S7x128x128_S1x128x128_3_0_0).view.read (Elt F) (rowsAt50 I) = gp45 I :=
  ((Rn_read_miss 3 1 inb_S7x128x128_S1x128x128_3_0_0 inb_S7x128x128_S1x128x128_1_0_0 (by decide) (rowsAt49 I) (gp50 I)).trans ((Rn_read_miss 3 0 inb_S7x128x128_S1x128x128_3_0_0 inb_S7x128x128_S1x128x128_0_0_0 (by decide) (rowsAt48 I) (gp49 I)).trans ((Rn_read_miss 3 6 inb_S7x128x128_S1x128x128_3_0_0 inb_S7x128x128_S1x128x128_6_0_0 (by decide) (rowsAt47 I) (gp48 I)).trans ((Rn_read_miss 3 5 inb_S7x128x128_S1x128x128_3_0_0 inb_S7x128x128_S1x128x128_5_0_0 (by decide) (rowsAt46 I) (gp47 I)).trans ((Rn_read_miss 3 4 inb_S7x128x128_S1x128x128_3_0_0 inb_S7x128x128_S1x128x128_4_0_0 (by decide) (rowsAt45 I) (gp46 I)).trans (Rn_read_hit 3 inb_S7x128x128_S1x128x128_3_0_0 (rowsAt44 I) (gp45 I)))))))
theorem payG45 (H : Hyp I tbl col pay) : ∀ y, pay45 I y = Cert.Spec.G tbl col ((Rect.unit (s := S16384x3328) (k0_off73 L 128#32) S128x128.size (k0_off73_inb L hc 1)).emb y) :=
  Step.item_payload tbl col H.hr L pay H.hpay I.fi H.hfi 6 1 inb_S26x4x128_S1x1x128_6_1_0 squeezes_S1x1x128_S128
    _ ((Step.read_full (View.whole main_arg32_scv) inb_S1000x128_S1000x128_0_0 I.ft6).trans H.ht6.symm)
    rfl (I.hin 6 1 inb_S26x4x128_S1x1x128_6_1_0 squeezes_S1x1x128_S128) (k0_off73 L 128#32) (k0_off73_eq L 1) (k0_off73_inb L hc 1) (pay45 I) (rd45 I)
theorem inv45 (H : Hyp I tbl col pay) : ∀ j' < 46, ∀ i ∈ Step.blkSet L 13 j', outAt45 I hc i = Cert.Spec.G tbl col i :=
  Step.out_step L 13 (Cert.Spec.G tbl col) 45 (k0_off73 L 128#32) (k0_off73_eq L 1) (k0_off73_inb L hc 1) (outAt44 I hc) (pay45 I) (payG45 I hc H)
    (inv44 I hc H)
theorem rd46 : (Rn 4 inb_S7x128x128_S1x128x128_4_0_0).view.read (Elt F) (rowsAt51 I) = gp46 I :=
  ((Rn_read_miss 4 2 inb_S7x128x128_S1x128x128_4_0_0 inb_S7x128x128_S1x128x128_2_0_0 (by decide) (rowsAt50 I) (gp51 I)).trans ((Rn_read_miss 4 1 inb_S7x128x128_S1x128x128_4_0_0 inb_S7x128x128_S1x128x128_1_0_0 (by decide) (rowsAt49 I) (gp50 I)).trans ((Rn_read_miss 4 0 inb_S7x128x128_S1x128x128_4_0_0 inb_S7x128x128_S1x128x128_0_0_0 (by decide) (rowsAt48 I) (gp49 I)).trans ((Rn_read_miss 4 6 inb_S7x128x128_S1x128x128_4_0_0 inb_S7x128x128_S1x128x128_6_0_0 (by decide) (rowsAt47 I) (gp48 I)).trans ((Rn_read_miss 4 5 inb_S7x128x128_S1x128x128_4_0_0 inb_S7x128x128_S1x128x128_5_0_0 (by decide) (rowsAt46 I) (gp47 I)).trans (Rn_read_hit 4 inb_S7x128x128_S1x128x128_4_0_0 (rowsAt45 I) (gp46 I)))))))
theorem payG46 (H : Hyp I tbl col pay) : ∀ y, pay46 I y = Cert.Spec.G tbl col ((Rect.unit (s := S16384x3328) (k0_off74 L 128#32) S128x128.size (k0_off74_inb L hc 1)).emb y) :=
  Step.item_payload tbl col H.hr L pay H.hpay I.fi H.hfi 7 1 inb_S26x4x128_S1x1x128_7_1_0 squeezes_S1x1x128_S128
    _ ((Step.read_full (View.whole main_arg33_scv) inb_S1000x128_S1000x128_0_0 I.ft7).trans H.ht7.symm)
    rfl (I.hin 7 1 inb_S26x4x128_S1x1x128_7_1_0 squeezes_S1x1x128_S128) (k0_off74 L 128#32) (k0_off74_eq L 1) (k0_off74_inb L hc 1) (pay46 I) (rd46 I)
theorem inv46 (H : Hyp I tbl col pay) : ∀ j' < 47, ∀ i ∈ Step.blkSet L 13 j', outAt46 I hc i = Cert.Spec.G tbl col i :=
  Step.out_step L 13 (Cert.Spec.G tbl col) 46 (k0_off74 L 128#32) (k0_off74_eq L 1) (k0_off74_inb L hc 1) (outAt45 I hc) (pay46 I) (payG46 I hc H)
    (inv45 I hc H)
theorem rd47 : (Rn 5 inb_S7x128x128_S1x128x128_5_0_0).view.read (Elt F) (rowsAt52 I) = gp47 I :=
  ((Rn_read_miss 5 3 inb_S7x128x128_S1x128x128_5_0_0 inb_S7x128x128_S1x128x128_3_0_0 (by decide) (rowsAt51 I) (gp52 I)).trans ((Rn_read_miss 5 2 inb_S7x128x128_S1x128x128_5_0_0 inb_S7x128x128_S1x128x128_2_0_0 (by decide) (rowsAt50 I) (gp51 I)).trans ((Rn_read_miss 5 1 inb_S7x128x128_S1x128x128_5_0_0 inb_S7x128x128_S1x128x128_1_0_0 (by decide) (rowsAt49 I) (gp50 I)).trans ((Rn_read_miss 5 0 inb_S7x128x128_S1x128x128_5_0_0 inb_S7x128x128_S1x128x128_0_0_0 (by decide) (rowsAt48 I) (gp49 I)).trans ((Rn_read_miss 5 6 inb_S7x128x128_S1x128x128_5_0_0 inb_S7x128x128_S1x128x128_6_0_0 (by decide) (rowsAt47 I) (gp48 I)).trans (Rn_read_hit 5 inb_S7x128x128_S1x128x128_5_0_0 (rowsAt46 I) (gp47 I)))))))
theorem payG47 (H : Hyp I tbl col pay) : ∀ y, pay47 I y = Cert.Spec.G tbl col ((Rect.unit (s := S16384x3328) (k0_off75 L 128#32) S128x128.size (k0_off75_inb L hc 1)).emb y) :=
  Step.item_payload tbl col H.hr L pay H.hpay I.fi H.hfi 8 1 inb_S26x4x128_S1x1x128_8_1_0 squeezes_S1x1x128_S128
    _ ((Step.read_full (View.whole main_arg34_scv) inb_S1000x128_S1000x128_0_0 I.ft8).trans H.ht8.symm)
    rfl (I.hin 8 1 inb_S26x4x128_S1x1x128_8_1_0 squeezes_S1x1x128_S128) (k0_off75 L 128#32) (k0_off75_eq L 1) (k0_off75_inb L hc 1) (pay47 I) (rd47 I)
theorem inv47 (H : Hyp I tbl col pay) : ∀ j' < 48, ∀ i ∈ Step.blkSet L 13 j', outAt47 I hc i = Cert.Spec.G tbl col i :=
  Step.out_step L 13 (Cert.Spec.G tbl col) 47 (k0_off75 L 128#32) (k0_off75_eq L 1) (k0_off75_inb L hc 1) (outAt46 I hc) (pay47 I) (payG47 I hc H)
    (inv46 I hc H)
theorem rd48 : (Rn 6 inb_S7x128x128_S1x128x128_6_0_0).view.read (Elt F) (rowsAt53 I) = gp48 I :=
  ((Rn_read_miss 6 4 inb_S7x128x128_S1x128x128_6_0_0 inb_S7x128x128_S1x128x128_4_0_0 (by decide) (rowsAt52 I) (gp53 I)).trans ((Rn_read_miss 6 3 inb_S7x128x128_S1x128x128_6_0_0 inb_S7x128x128_S1x128x128_3_0_0 (by decide) (rowsAt51 I) (gp52 I)).trans ((Rn_read_miss 6 2 inb_S7x128x128_S1x128x128_6_0_0 inb_S7x128x128_S1x128x128_2_0_0 (by decide) (rowsAt50 I) (gp51 I)).trans ((Rn_read_miss 6 1 inb_S7x128x128_S1x128x128_6_0_0 inb_S7x128x128_S1x128x128_1_0_0 (by decide) (rowsAt49 I) (gp50 I)).trans ((Rn_read_miss 6 0 inb_S7x128x128_S1x128x128_6_0_0 inb_S7x128x128_S1x128x128_0_0_0 (by decide) (rowsAt48 I) (gp49 I)).trans (Rn_read_hit 6 inb_S7x128x128_S1x128x128_6_0_0 (rowsAt47 I) (gp48 I)))))))
theorem payG48 (H : Hyp I tbl col pay) : ∀ y, pay48 I y = Cert.Spec.G tbl col ((Rect.unit (s := S16384x3328) (k0_off76 L 128#32) S128x128.size (k0_off76_inb L hc 1)).emb y) :=
  Step.item_payload tbl col H.hr L pay H.hpay I.fi H.hfi 9 1 inb_S26x4x128_S1x1x128_9_1_0 squeezes_S1x1x128_S128
    _ ((Step.read_full (View.whole main_arg35_scv) inb_S1000x128_S1000x128_0_0 I.ft9).trans H.ht9.symm)
    rfl (I.hin 9 1 inb_S26x4x128_S1x1x128_9_1_0 squeezes_S1x1x128_S128) (k0_off76 L 128#32) (k0_off76_eq L 1) (k0_off76_inb L hc 1) (pay48 I) (rd48 I)
theorem inv48 (H : Hyp I tbl col pay) : ∀ j' < 49, ∀ i ∈ Step.blkSet L 13 j', outAt48 I hc i = Cert.Spec.G tbl col i :=
  Step.out_step L 13 (Cert.Spec.G tbl col) 48 (k0_off76 L 128#32) (k0_off76_eq L 1) (k0_off76_inb L hc 1) (outAt47 I hc) (pay48 I) (payG48 I hc H)
    (inv47 I hc H)
theorem rd49 : (Rn 0 inb_S7x128x128_S1x128x128_0_0_0).view.read (Elt F) (rowsAt54 I) = gp49 I :=
  ((Rn_read_miss 0 5 inb_S7x128x128_S1x128x128_0_0_0 inb_S7x128x128_S1x128x128_5_0_0 (by decide) (rowsAt53 I) (gp54 I)).trans ((Rn_read_miss 0 4 inb_S7x128x128_S1x128x128_0_0_0 inb_S7x128x128_S1x128x128_4_0_0 (by decide) (rowsAt52 I) (gp53 I)).trans ((Rn_read_miss 0 3 inb_S7x128x128_S1x128x128_0_0_0 inb_S7x128x128_S1x128x128_3_0_0 (by decide) (rowsAt51 I) (gp52 I)).trans ((Rn_read_miss 0 2 inb_S7x128x128_S1x128x128_0_0_0 inb_S7x128x128_S1x128x128_2_0_0 (by decide) (rowsAt50 I) (gp51 I)).trans ((Rn_read_miss 0 1 inb_S7x128x128_S1x128x128_0_0_0 inb_S7x128x128_S1x128x128_1_0_0 (by decide) (rowsAt49 I) (gp50 I)).trans (Rn_read_hit 0 inb_S7x128x128_S1x128x128_0_0_0 (rowsAt48 I) (gp49 I)))))))
theorem payG49 (H : Hyp I tbl col pay) : ∀ y, pay49 I y = Cert.Spec.G tbl col ((Rect.unit (s := S16384x3328) (k0_off77 L 128#32) S128x128.size (k0_off77_inb L hc 1)).emb y) :=
  Step.item_payload tbl col H.hr L pay H.hpay I.fi H.hfi 10 1 inb_S26x4x128_S1x1x128_10_1_0 squeezes_S1x1x128_S128
    _ ((Step.read_full (View.whole main_arg36_scv) inb_S1000x128_S1000x128_0_0 I.ft10).trans H.ht10.symm)
    rfl (I.hin 10 1 inb_S26x4x128_S1x1x128_10_1_0 squeezes_S1x1x128_S128) (k0_off77 L 128#32) (k0_off77_eq L 1) (k0_off77_inb L hc 1) (pay49 I) (rd49 I)
theorem inv49 (H : Hyp I tbl col pay) : ∀ j' < 50, ∀ i ∈ Step.blkSet L 13 j', outAt49 I hc i = Cert.Spec.G tbl col i :=
  Step.out_step L 13 (Cert.Spec.G tbl col) 49 (k0_off77 L 128#32) (k0_off77_eq L 1) (k0_off77_inb L hc 1) (outAt48 I hc) (pay49 I) (payG49 I hc H)
    (inv48 I hc H)
theorem rd50 : (Rn 1 inb_S7x128x128_S1x128x128_1_0_0).view.read (Elt F) (rowsAt55 I) = gp50 I :=
  ((Rn_read_miss 1 6 inb_S7x128x128_S1x128x128_1_0_0 inb_S7x128x128_S1x128x128_6_0_0 (by decide) (rowsAt54 I) (gp55 I)).trans ((Rn_read_miss 1 5 inb_S7x128x128_S1x128x128_1_0_0 inb_S7x128x128_S1x128x128_5_0_0 (by decide) (rowsAt53 I) (gp54 I)).trans ((Rn_read_miss 1 4 inb_S7x128x128_S1x128x128_1_0_0 inb_S7x128x128_S1x128x128_4_0_0 (by decide) (rowsAt52 I) (gp53 I)).trans ((Rn_read_miss 1 3 inb_S7x128x128_S1x128x128_1_0_0 inb_S7x128x128_S1x128x128_3_0_0 (by decide) (rowsAt51 I) (gp52 I)).trans ((Rn_read_miss 1 2 inb_S7x128x128_S1x128x128_1_0_0 inb_S7x128x128_S1x128x128_2_0_0 (by decide) (rowsAt50 I) (gp51 I)).trans (Rn_read_hit 1 inb_S7x128x128_S1x128x128_1_0_0 (rowsAt49 I) (gp50 I)))))))
theorem payG50 (H : Hyp I tbl col pay) : ∀ y, pay50 I y = Cert.Spec.G tbl col ((Rect.unit (s := S16384x3328) (k0_off78 L 128#32) S128x128.size (k0_off78_inb L hc 1)).emb y) :=
  Step.item_payload tbl col H.hr L pay H.hpay I.fi H.hfi 11 1 inb_S26x4x128_S1x1x128_11_1_0 squeezes_S1x1x128_S128
    _ ((Step.read_full (View.whole main_arg37_scv) inb_S1000x128_S1000x128_0_0 I.ft11).trans H.ht11.symm)
    rfl (I.hin 11 1 inb_S26x4x128_S1x1x128_11_1_0 squeezes_S1x1x128_S128) (k0_off78 L 128#32) (k0_off78_eq L 1) (k0_off78_inb L hc 1) (pay50 I) (rd50 I)
theorem inv50 (H : Hyp I tbl col pay) : ∀ j' < 51, ∀ i ∈ Step.blkSet L 13 j', outAt50 I hc i = Cert.Spec.G tbl col i :=
  Step.out_step L 13 (Cert.Spec.G tbl col) 50 (k0_off78 L 128#32) (k0_off78_eq L 1) (k0_off78_inb L hc 1) (outAt49 I hc) (pay50 I) (payG50 I hc H)
    (inv49 I hc H)
theorem rd51 : (Rn 2 inb_S7x128x128_S1x128x128_2_0_0).view.read (Elt F) (rowsAt56 I) = gp51 I :=
  ((Rn_read_miss 2 0 inb_S7x128x128_S1x128x128_2_0_0 inb_S7x128x128_S1x128x128_0_0_0 (by decide) (rowsAt55 I) (gp56 I)).trans ((Rn_read_miss 2 6 inb_S7x128x128_S1x128x128_2_0_0 inb_S7x128x128_S1x128x128_6_0_0 (by decide) (rowsAt54 I) (gp55 I)).trans ((Rn_read_miss 2 5 inb_S7x128x128_S1x128x128_2_0_0 inb_S7x128x128_S1x128x128_5_0_0 (by decide) (rowsAt53 I) (gp54 I)).trans ((Rn_read_miss 2 4 inb_S7x128x128_S1x128x128_2_0_0 inb_S7x128x128_S1x128x128_4_0_0 (by decide) (rowsAt52 I) (gp53 I)).trans ((Rn_read_miss 2 3 inb_S7x128x128_S1x128x128_2_0_0 inb_S7x128x128_S1x128x128_3_0_0 (by decide) (rowsAt51 I) (gp52 I)).trans (Rn_read_hit 2 inb_S7x128x128_S1x128x128_2_0_0 (rowsAt50 I) (gp51 I)))))))
theorem payG51 (H : Hyp I tbl col pay) : ∀ y, pay51 I y = Cert.Spec.G tbl col ((Rect.unit (s := S16384x3328) (k0_off79 L 128#32) S128x128.size (k0_off79_inb L hc 1)).emb y) :=
  Step.item_payload tbl col H.hr L pay H.hpay I.fi H.hfi 12 1 inb_S26x4x128_S1x1x128_12_1_0 squeezes_S1x1x128_S128
    _ ((Step.read_full (View.whole main_arg38_scv) inb_S1000x128_S1000x128_0_0 I.ft12).trans H.ht12.symm)
    rfl (I.hin 12 1 inb_S26x4x128_S1x1x128_12_1_0 squeezes_S1x1x128_S128) (k0_off79 L 128#32) (k0_off79_eq L 1) (k0_off79_inb L hc 1) (pay51 I) (rd51 I)
theorem inv51 (H : Hyp I tbl col pay) : ∀ j' < 52, ∀ i ∈ Step.blkSet L 13 j', outAt51 I hc i = Cert.Spec.G tbl col i :=
  Step.out_step L 13 (Cert.Spec.G tbl col) 51 (k0_off79 L 128#32) (k0_off79_eq L 1) (k0_off79_inb L hc 1) (outAt50 I hc) (pay51 I) (payG51 I hc H)
    (inv50 I hc H)
theorem rd52 : (Rn 3 inb_S7x128x128_S1x128x128_3_0_0).view.read (Elt F) (rowsAt57 I) = gp52 I :=
  ((Rn_read_miss 3 1 inb_S7x128x128_S1x128x128_3_0_0 inb_S7x128x128_S1x128x128_1_0_0 (by decide) (rowsAt56 I) (gp57 I)).trans ((Rn_read_miss 3 0 inb_S7x128x128_S1x128x128_3_0_0 inb_S7x128x128_S1x128x128_0_0_0 (by decide) (rowsAt55 I) (gp56 I)).trans ((Rn_read_miss 3 6 inb_S7x128x128_S1x128x128_3_0_0 inb_S7x128x128_S1x128x128_6_0_0 (by decide) (rowsAt54 I) (gp55 I)).trans ((Rn_read_miss 3 5 inb_S7x128x128_S1x128x128_3_0_0 inb_S7x128x128_S1x128x128_5_0_0 (by decide) (rowsAt53 I) (gp54 I)).trans ((Rn_read_miss 3 4 inb_S7x128x128_S1x128x128_3_0_0 inb_S7x128x128_S1x128x128_4_0_0 (by decide) (rowsAt52 I) (gp53 I)).trans (Rn_read_hit 3 inb_S7x128x128_S1x128x128_3_0_0 (rowsAt51 I) (gp52 I)))))))
theorem payG52 (H : Hyp I tbl col pay) : ∀ y, pay52 I y = Cert.Spec.G tbl col ((Rect.unit (s := S16384x3328) (k0_off54 L 256#32) S128x128.size (k0_off54_inb L hc 2)).emb y) :=
  Step.item_payload tbl col H.hr L pay H.hpay I.fi H.hfi 13 2 inb_S26x4x128_S1x1x128_13_2_0 squeezes_S1x1x128_S128
    _ ((Step.read_full (View.whole main_arg39_scv) inb_S1000x128_S1000x128_0_0 I.ft13).trans H.ht13.symm)
    rfl (I.hin 13 2 inb_S26x4x128_S1x1x128_13_2_0 squeezes_S1x1x128_S128) (k0_off54 L 256#32) (k0_off54_eq L 2) (k0_off54_inb L hc 2) (pay52 I) (rd52 I)
theorem inv52 (H : Hyp I tbl col pay) : ∀ j' < 53, ∀ i ∈ Step.blkSet L 13 j', outAt52 I hc i = Cert.Spec.G tbl col i :=
  Step.out_step L 13 (Cert.Spec.G tbl col) 52 (k0_off54 L 256#32) (k0_off54_eq L 2) (k0_off54_inb L hc 2) (outAt51 I hc) (pay52 I) (payG52 I hc H)
    (inv51 I hc H)
theorem rd53 : (Rn 4 inb_S7x128x128_S1x128x128_4_0_0).view.read (Elt F) (rowsAt58 I) = gp53 I :=
  ((Rn_read_miss 4 2 inb_S7x128x128_S1x128x128_4_0_0 inb_S7x128x128_S1x128x128_2_0_0 (by decide) (rowsAt57 I) (gp58 I)).trans ((Rn_read_miss 4 1 inb_S7x128x128_S1x128x128_4_0_0 inb_S7x128x128_S1x128x128_1_0_0 (by decide) (rowsAt56 I) (gp57 I)).trans ((Rn_read_miss 4 0 inb_S7x128x128_S1x128x128_4_0_0 inb_S7x128x128_S1x128x128_0_0_0 (by decide) (rowsAt55 I) (gp56 I)).trans ((Rn_read_miss 4 6 inb_S7x128x128_S1x128x128_4_0_0 inb_S7x128x128_S1x128x128_6_0_0 (by decide) (rowsAt54 I) (gp55 I)).trans ((Rn_read_miss 4 5 inb_S7x128x128_S1x128x128_4_0_0 inb_S7x128x128_S1x128x128_5_0_0 (by decide) (rowsAt53 I) (gp54 I)).trans (Rn_read_hit 4 inb_S7x128x128_S1x128x128_4_0_0 (rowsAt52 I) (gp53 I)))))))
theorem payG53 (H : Hyp I tbl col pay) : ∀ y, pay53 I y = Cert.Spec.G tbl col ((Rect.unit (s := S16384x3328) (k0_off55 L 256#32) S128x128.size (k0_off55_inb L hc 2)).emb y) :=
  Step.item_payload tbl col H.hr L pay H.hpay I.fi H.hfi 14 2 inb_S26x4x128_S1x1x128_14_2_0 squeezes_S1x1x128_S128
    _ ((Step.read_full (View.whole main_arg40_scv) inb_S1000x128_S1000x128_0_0 I.ft14).trans H.ht14.symm)
    rfl (I.hin 14 2 inb_S26x4x128_S1x1x128_14_2_0 squeezes_S1x1x128_S128) (k0_off55 L 256#32) (k0_off55_eq L 2) (k0_off55_inb L hc 2) (pay53 I) (rd53 I)
theorem inv53 (H : Hyp I tbl col pay) : ∀ j' < 54, ∀ i ∈ Step.blkSet L 13 j', outAt53 I hc i = Cert.Spec.G tbl col i :=
  Step.out_step L 13 (Cert.Spec.G tbl col) 53 (k0_off55 L 256#32) (k0_off55_eq L 2) (k0_off55_inb L hc 2) (outAt52 I hc) (pay53 I) (payG53 I hc H)
    (inv52 I hc H)
theorem rd54 : (Rn 5 inb_S7x128x128_S1x128x128_5_0_0).view.read (Elt F) (rowsAt59 I) = gp54 I :=
  ((Rn_read_miss 5 3 inb_S7x128x128_S1x128x128_5_0_0 inb_S7x128x128_S1x128x128_3_0_0 (by decide) (rowsAt58 I) (gp59 I)).trans ((Rn_read_miss 5 2 inb_S7x128x128_S1x128x128_5_0_0 inb_S7x128x128_S1x128x128_2_0_0 (by decide) (rowsAt57 I) (gp58 I)).trans ((Rn_read_miss 5 1 inb_S7x128x128_S1x128x128_5_0_0 inb_S7x128x128_S1x128x128_1_0_0 (by decide) (rowsAt56 I) (gp57 I)).trans ((Rn_read_miss 5 0 inb_S7x128x128_S1x128x128_5_0_0 inb_S7x128x128_S1x128x128_0_0_0 (by decide) (rowsAt55 I) (gp56 I)).trans ((Rn_read_miss 5 6 inb_S7x128x128_S1x128x128_5_0_0 inb_S7x128x128_S1x128x128_6_0_0 (by decide) (rowsAt54 I) (gp55 I)).trans (Rn_read_hit 5 inb_S7x128x128_S1x128x128_5_0_0 (rowsAt53 I) (gp54 I)))))))
theorem payG54 (H : Hyp I tbl col pay) : ∀ y, pay54 I y = Cert.Spec.G tbl col ((Rect.unit (s := S16384x3328) (k0_off56 L 256#32) S128x128.size (k0_off56_inb L hc 2)).emb y) :=
  Step.item_payload tbl col H.hr L pay H.hpay I.fi H.hfi 15 2 inb_S26x4x128_S1x1x128_15_2_0 squeezes_S1x1x128_S128
    _ ((Step.read_full (View.whole main_arg41_scv) inb_S1000x128_S1000x128_0_0 I.ft15).trans H.ht15.symm)
    rfl (I.hin 15 2 inb_S26x4x128_S1x1x128_15_2_0 squeezes_S1x1x128_S128) (k0_off56 L 256#32) (k0_off56_eq L 2) (k0_off56_inb L hc 2) (pay54 I) (rd54 I)
theorem inv54 (H : Hyp I tbl col pay) : ∀ j' < 55, ∀ i ∈ Step.blkSet L 13 j', outAt54 I hc i = Cert.Spec.G tbl col i :=
  Step.out_step L 13 (Cert.Spec.G tbl col) 54 (k0_off56 L 256#32) (k0_off56_eq L 2) (k0_off56_inb L hc 2) (outAt53 I hc) (pay54 I) (payG54 I hc H)
    (inv53 I hc H)
theorem rd55 : (Rn 6 inb_S7x128x128_S1x128x128_6_0_0).view.read (Elt F) (rowsAt60 I) = gp55 I :=
  ((Rn_read_miss 6 4 inb_S7x128x128_S1x128x128_6_0_0 inb_S7x128x128_S1x128x128_4_0_0 (by decide) (rowsAt59 I) (gp60 I)).trans ((Rn_read_miss 6 3 inb_S7x128x128_S1x128x128_6_0_0 inb_S7x128x128_S1x128x128_3_0_0 (by decide) (rowsAt58 I) (gp59 I)).trans ((Rn_read_miss 6 2 inb_S7x128x128_S1x128x128_6_0_0 inb_S7x128x128_S1x128x128_2_0_0 (by decide) (rowsAt57 I) (gp58 I)).trans ((Rn_read_miss 6 1 inb_S7x128x128_S1x128x128_6_0_0 inb_S7x128x128_S1x128x128_1_0_0 (by decide) (rowsAt56 I) (gp57 I)).trans ((Rn_read_miss 6 0 inb_S7x128x128_S1x128x128_6_0_0 inb_S7x128x128_S1x128x128_0_0_0 (by decide) (rowsAt55 I) (gp56 I)).trans (Rn_read_hit 6 inb_S7x128x128_S1x128x128_6_0_0 (rowsAt54 I) (gp55 I)))))))
theorem payG55 (H : Hyp I tbl col pay) : ∀ y, pay55 I y = Cert.Spec.G tbl col ((Rect.unit (s := S16384x3328) (k0_off57 L 256#32) S128x128.size (k0_off57_inb L hc 2)).emb y) :=
  Step.item_payload tbl col H.hr L pay H.hpay I.fi H.hfi 16 2 inb_S26x4x128_S1x1x128_16_2_0 squeezes_S1x1x128_S128
    _ ((Step.read_full (View.whole main_arg42_scv) inb_S1000x128_S1000x128_0_0 I.ft16).trans H.ht16.symm)
    rfl (I.hin 16 2 inb_S26x4x128_S1x1x128_16_2_0 squeezes_S1x1x128_S128) (k0_off57 L 256#32) (k0_off57_eq L 2) (k0_off57_inb L hc 2) (pay55 I) (rd55 I)
theorem inv55 (H : Hyp I tbl col pay) : ∀ j' < 56, ∀ i ∈ Step.blkSet L 13 j', outAt55 I hc i = Cert.Spec.G tbl col i :=
  Step.out_step L 13 (Cert.Spec.G tbl col) 55 (k0_off57 L 256#32) (k0_off57_eq L 2) (k0_off57_inb L hc 2) (outAt54 I hc) (pay55 I) (payG55 I hc H)
    (inv54 I hc H)
theorem rd56 : (Rn 0 inb_S7x128x128_S1x128x128_0_0_0).view.read (Elt F) (rowsAt61 I) = gp56 I :=
  ((Rn_read_miss 0 5 inb_S7x128x128_S1x128x128_0_0_0 inb_S7x128x128_S1x128x128_5_0_0 (by decide) (rowsAt60 I) (gp61 I)).trans ((Rn_read_miss 0 4 inb_S7x128x128_S1x128x128_0_0_0 inb_S7x128x128_S1x128x128_4_0_0 (by decide) (rowsAt59 I) (gp60 I)).trans ((Rn_read_miss 0 3 inb_S7x128x128_S1x128x128_0_0_0 inb_S7x128x128_S1x128x128_3_0_0 (by decide) (rowsAt58 I) (gp59 I)).trans ((Rn_read_miss 0 2 inb_S7x128x128_S1x128x128_0_0_0 inb_S7x128x128_S1x128x128_2_0_0 (by decide) (rowsAt57 I) (gp58 I)).trans ((Rn_read_miss 0 1 inb_S7x128x128_S1x128x128_0_0_0 inb_S7x128x128_S1x128x128_1_0_0 (by decide) (rowsAt56 I) (gp57 I)).trans (Rn_read_hit 0 inb_S7x128x128_S1x128x128_0_0_0 (rowsAt55 I) (gp56 I)))))))
theorem payG56 (H : Hyp I tbl col pay) : ∀ y, pay56 I y = Cert.Spec.G tbl col ((Rect.unit (s := S16384x3328) (k0_off58 L 256#32) S128x128.size (k0_off58_inb L hc 2)).emb y) :=
  Step.item_payload tbl col H.hr L pay H.hpay I.fi H.hfi 17 2 inb_S26x4x128_S1x1x128_17_2_0 squeezes_S1x1x128_S128
    _ ((Step.read_full (View.whole main_arg43_scv) inb_S1000x128_S1000x128_0_0 I.ft17).trans H.ht17.symm)
    rfl (I.hin 17 2 inb_S26x4x128_S1x1x128_17_2_0 squeezes_S1x1x128_S128) (k0_off58 L 256#32) (k0_off58_eq L 2) (k0_off58_inb L hc 2) (pay56 I) (rd56 I)
theorem inv56 (H : Hyp I tbl col pay) : ∀ j' < 57, ∀ i ∈ Step.blkSet L 13 j', outAt56 I hc i = Cert.Spec.G tbl col i :=
  Step.out_step L 13 (Cert.Spec.G tbl col) 56 (k0_off58 L 256#32) (k0_off58_eq L 2) (k0_off58_inb L hc 2) (outAt55 I hc) (pay56 I) (payG56 I hc H)
    (inv55 I hc H)
theorem rd57 : (Rn 1 inb_S7x128x128_S1x128x128_1_0_0).view.read (Elt F) (rowsAt62 I) = gp57 I :=
  ((Rn_read_miss 1 6 inb_S7x128x128_S1x128x128_1_0_0 inb_S7x128x128_S1x128x128_6_0_0 (by decide) (rowsAt61 I) (gp62 I)).trans ((Rn_read_miss 1 5 inb_S7x128x128_S1x128x128_1_0_0 inb_S7x128x128_S1x128x128_5_0_0 (by decide) (rowsAt60 I) (gp61 I)).trans ((Rn_read_miss 1 4 inb_S7x128x128_S1x128x128_1_0_0 inb_S7x128x128_S1x128x128_4_0_0 (by decide) (rowsAt59 I) (gp60 I)).trans ((Rn_read_miss 1 3 inb_S7x128x128_S1x128x128_1_0_0 inb_S7x128x128_S1x128x128_3_0_0 (by decide) (rowsAt58 I) (gp59 I)).trans ((Rn_read_miss 1 2 inb_S7x128x128_S1x128x128_1_0_0 inb_S7x128x128_S1x128x128_2_0_0 (by decide) (rowsAt57 I) (gp58 I)).trans (Rn_read_hit 1 inb_S7x128x128_S1x128x128_1_0_0 (rowsAt56 I) (gp57 I)))))))
theorem payG57 (H : Hyp I tbl col pay) : ∀ y, pay57 I y = Cert.Spec.G tbl col ((Rect.unit (s := S16384x3328) (k0_off59 L 256#32) S128x128.size (k0_off59_inb L hc 2)).emb y) :=
  Step.item_payload tbl col H.hr L pay H.hpay I.fi H.hfi 18 2 inb_S26x4x128_S1x1x128_18_2_0 squeezes_S1x1x128_S128
    _ ((Step.read_full (View.whole main_arg44_scv) inb_S1000x128_S1000x128_0_0 I.ft18).trans H.ht18.symm)
    rfl (I.hin 18 2 inb_S26x4x128_S1x1x128_18_2_0 squeezes_S1x1x128_S128) (k0_off59 L 256#32) (k0_off59_eq L 2) (k0_off59_inb L hc 2) (pay57 I) (rd57 I)
theorem inv57 (H : Hyp I tbl col pay) : ∀ j' < 58, ∀ i ∈ Step.blkSet L 13 j', outAt57 I hc i = Cert.Spec.G tbl col i :=
  Step.out_step L 13 (Cert.Spec.G tbl col) 57 (k0_off59 L 256#32) (k0_off59_eq L 2) (k0_off59_inb L hc 2) (outAt56 I hc) (pay57 I) (payG57 I hc H)
    (inv56 I hc H)
theorem rd58 : (Rn 2 inb_S7x128x128_S1x128x128_2_0_0).view.read (Elt F) (rowsAt63 I) = gp58 I :=
  ((Rn_read_miss 2 0 inb_S7x128x128_S1x128x128_2_0_0 inb_S7x128x128_S1x128x128_0_0_0 (by decide) (rowsAt62 I) (gp63 I)).trans ((Rn_read_miss 2 6 inb_S7x128x128_S1x128x128_2_0_0 inb_S7x128x128_S1x128x128_6_0_0 (by decide) (rowsAt61 I) (gp62 I)).trans ((Rn_read_miss 2 5 inb_S7x128x128_S1x128x128_2_0_0 inb_S7x128x128_S1x128x128_5_0_0 (by decide) (rowsAt60 I) (gp61 I)).trans ((Rn_read_miss 2 4 inb_S7x128x128_S1x128x128_2_0_0 inb_S7x128x128_S1x128x128_4_0_0 (by decide) (rowsAt59 I) (gp60 I)).trans ((Rn_read_miss 2 3 inb_S7x128x128_S1x128x128_2_0_0 inb_S7x128x128_S1x128x128_3_0_0 (by decide) (rowsAt58 I) (gp59 I)).trans (Rn_read_hit 2 inb_S7x128x128_S1x128x128_2_0_0 (rowsAt57 I) (gp58 I)))))))
theorem payG58 (H : Hyp I tbl col pay) : ∀ y, pay58 I y = Cert.Spec.G tbl col ((Rect.unit (s := S16384x3328) (k0_off60 L 256#32) S128x128.size (k0_off60_inb L hc 2)).emb y) :=
  Step.item_payload tbl col H.hr L pay H.hpay I.fi H.hfi 19 2 inb_S26x4x128_S1x1x128_19_2_0 squeezes_S1x1x128_S128
    _ ((Step.read_full (View.whole main_arg45_scv) inb_S1000x128_S1000x128_0_0 I.ft19).trans H.ht19.symm)
    rfl (I.hin 19 2 inb_S26x4x128_S1x1x128_19_2_0 squeezes_S1x1x128_S128) (k0_off60 L 256#32) (k0_off60_eq L 2) (k0_off60_inb L hc 2) (pay58 I) (rd58 I)
theorem inv58 (H : Hyp I tbl col pay) : ∀ j' < 59, ∀ i ∈ Step.blkSet L 13 j', outAt58 I hc i = Cert.Spec.G tbl col i :=
  Step.out_step L 13 (Cert.Spec.G tbl col) 58 (k0_off60 L 256#32) (k0_off60_eq L 2) (k0_off60_inb L hc 2) (outAt57 I hc) (pay58 I) (payG58 I hc H)
    (inv57 I hc H)
theorem rd59 : (Rn 3 inb_S7x128x128_S1x128x128_3_0_0).view.read (Elt F) (rowsAt64 I) = gp59 I :=
  ((Rn_read_miss 3 1 inb_S7x128x128_S1x128x128_3_0_0 inb_S7x128x128_S1x128x128_1_0_0 (by decide) (rowsAt63 I) (gp64 I)).trans ((Rn_read_miss 3 0 inb_S7x128x128_S1x128x128_3_0_0 inb_S7x128x128_S1x128x128_0_0_0 (by decide) (rowsAt62 I) (gp63 I)).trans ((Rn_read_miss 3 6 inb_S7x128x128_S1x128x128_3_0_0 inb_S7x128x128_S1x128x128_6_0_0 (by decide) (rowsAt61 I) (gp62 I)).trans ((Rn_read_miss 3 5 inb_S7x128x128_S1x128x128_3_0_0 inb_S7x128x128_S1x128x128_5_0_0 (by decide) (rowsAt60 I) (gp61 I)).trans ((Rn_read_miss 3 4 inb_S7x128x128_S1x128x128_3_0_0 inb_S7x128x128_S1x128x128_4_0_0 (by decide) (rowsAt59 I) (gp60 I)).trans (Rn_read_hit 3 inb_S7x128x128_S1x128x128_3_0_0 (rowsAt58 I) (gp59 I)))))))
theorem payG59 (H : Hyp I tbl col pay) : ∀ y, pay59 I y = Cert.Spec.G tbl col ((Rect.unit (s := S16384x3328) (k0_off61 L 256#32) S128x128.size (k0_off61_inb L hc 2)).emb y) :=
  Step.item_payload tbl col H.hr L pay H.hpay I.fi H.hfi 20 2 inb_S26x4x128_S1x1x128_20_2_0 squeezes_S1x1x128_S128
    _ ((Step.read_full (View.whole main_arg46_scv) inb_S1000x128_S1000x128_0_0 I.ft20).trans H.ht20.symm)
    rfl (I.hin 20 2 inb_S26x4x128_S1x1x128_20_2_0 squeezes_S1x1x128_S128) (k0_off61 L 256#32) (k0_off61_eq L 2) (k0_off61_inb L hc 2) (pay59 I) (rd59 I)
theorem inv59 (H : Hyp I tbl col pay) : ∀ j' < 60, ∀ i ∈ Step.blkSet L 13 j', outAt59 I hc i = Cert.Spec.G tbl col i :=
  Step.out_step L 13 (Cert.Spec.G tbl col) 59 (k0_off61 L 256#32) (k0_off61_eq L 2) (k0_off61_inb L hc 2) (outAt58 I hc) (pay59 I) (payG59 I hc H)
    (inv58 I hc H)
theorem rd60 : (Rn 4 inb_S7x128x128_S1x128x128_4_0_0).view.read (Elt F) (rowsAt65 I) = gp60 I :=
  ((Rn_read_miss 4 2 inb_S7x128x128_S1x128x128_4_0_0 inb_S7x128x128_S1x128x128_2_0_0 (by decide) (rowsAt64 I) (gp65 I)).trans ((Rn_read_miss 4 1 inb_S7x128x128_S1x128x128_4_0_0 inb_S7x128x128_S1x128x128_1_0_0 (by decide) (rowsAt63 I) (gp64 I)).trans ((Rn_read_miss 4 0 inb_S7x128x128_S1x128x128_4_0_0 inb_S7x128x128_S1x128x128_0_0_0 (by decide) (rowsAt62 I) (gp63 I)).trans ((Rn_read_miss 4 6 inb_S7x128x128_S1x128x128_4_0_0 inb_S7x128x128_S1x128x128_6_0_0 (by decide) (rowsAt61 I) (gp62 I)).trans ((Rn_read_miss 4 5 inb_S7x128x128_S1x128x128_4_0_0 inb_S7x128x128_S1x128x128_5_0_0 (by decide) (rowsAt60 I) (gp61 I)).trans (Rn_read_hit 4 inb_S7x128x128_S1x128x128_4_0_0 (rowsAt59 I) (gp60 I)))))))
theorem payG60 (H : Hyp I tbl col pay) : ∀ y, pay60 I y = Cert.Spec.G tbl col ((Rect.unit (s := S16384x3328) (k0_off62 L 256#32) S128x128.size (k0_off62_inb L hc 2)).emb y) :=
  Step.item_payload tbl col H.hr L pay H.hpay I.fi H.hfi 21 2 inb_S26x4x128_S1x1x128_21_2_0 squeezes_S1x1x128_S128
    _ ((Step.read_full (View.whole main_arg47_scv) inb_S1000x128_S1000x128_0_0 I.ft21).trans H.ht21.symm)
    rfl (I.hin 21 2 inb_S26x4x128_S1x1x128_21_2_0 squeezes_S1x1x128_S128) (k0_off62 L 256#32) (k0_off62_eq L 2) (k0_off62_inb L hc 2) (pay60 I) (rd60 I)
theorem inv60 (H : Hyp I tbl col pay) : ∀ j' < 61, ∀ i ∈ Step.blkSet L 13 j', outAt60 I hc i = Cert.Spec.G tbl col i :=
  Step.out_step L 13 (Cert.Spec.G tbl col) 60 (k0_off62 L 256#32) (k0_off62_eq L 2) (k0_off62_inb L hc 2) (outAt59 I hc) (pay60 I) (payG60 I hc H)
    (inv59 I hc H)
theorem rd61 : (Rn 5 inb_S7x128x128_S1x128x128_5_0_0).view.read (Elt F) (rowsAt66 I) = gp61 I :=
  ((Rn_read_miss 5 3 inb_S7x128x128_S1x128x128_5_0_0 inb_S7x128x128_S1x128x128_3_0_0 (by decide) (rowsAt65 I) (gp66 I)).trans ((Rn_read_miss 5 2 inb_S7x128x128_S1x128x128_5_0_0 inb_S7x128x128_S1x128x128_2_0_0 (by decide) (rowsAt64 I) (gp65 I)).trans ((Rn_read_miss 5 1 inb_S7x128x128_S1x128x128_5_0_0 inb_S7x128x128_S1x128x128_1_0_0 (by decide) (rowsAt63 I) (gp64 I)).trans ((Rn_read_miss 5 0 inb_S7x128x128_S1x128x128_5_0_0 inb_S7x128x128_S1x128x128_0_0_0 (by decide) (rowsAt62 I) (gp63 I)).trans ((Rn_read_miss 5 6 inb_S7x128x128_S1x128x128_5_0_0 inb_S7x128x128_S1x128x128_6_0_0 (by decide) (rowsAt61 I) (gp62 I)).trans (Rn_read_hit 5 inb_S7x128x128_S1x128x128_5_0_0 (rowsAt60 I) (gp61 I)))))))
theorem payG61 (H : Hyp I tbl col pay) : ∀ y, pay61 I y = Cert.Spec.G tbl col ((Rect.unit (s := S16384x3328) (k0_off63 L 256#32) S128x128.size (k0_off63_inb L hc 2)).emb y) :=
  Step.item_payload tbl col H.hr L pay H.hpay I.fi H.hfi 22 2 inb_S26x4x128_S1x1x128_22_2_0 squeezes_S1x1x128_S128
    _ ((Step.read_full (View.whole main_arg48_scv) inb_S1000x128_S1000x128_0_0 I.ft22).trans H.ht22.symm)
    rfl (I.hin 22 2 inb_S26x4x128_S1x1x128_22_2_0 squeezes_S1x1x128_S128) (k0_off63 L 256#32) (k0_off63_eq L 2) (k0_off63_inb L hc 2) (pay61 I) (rd61 I)
theorem inv61 (H : Hyp I tbl col pay) : ∀ j' < 62, ∀ i ∈ Step.blkSet L 13 j', outAt61 I hc i = Cert.Spec.G tbl col i :=
  Step.out_step L 13 (Cert.Spec.G tbl col) 61 (k0_off63 L 256#32) (k0_off63_eq L 2) (k0_off63_inb L hc 2) (outAt60 I hc) (pay61 I) (payG61 I hc H)
    (inv60 I hc H)
theorem rd62 : (Rn 6 inb_S7x128x128_S1x128x128_6_0_0).view.read (Elt F) (rowsAt67 I) = gp62 I :=
  ((Rn_read_miss 6 4 inb_S7x128x128_S1x128x128_6_0_0 inb_S7x128x128_S1x128x128_4_0_0 (by decide) (rowsAt66 I) (gp67 I)).trans ((Rn_read_miss 6 3 inb_S7x128x128_S1x128x128_6_0_0 inb_S7x128x128_S1x128x128_3_0_0 (by decide) (rowsAt65 I) (gp66 I)).trans ((Rn_read_miss 6 2 inb_S7x128x128_S1x128x128_6_0_0 inb_S7x128x128_S1x128x128_2_0_0 (by decide) (rowsAt64 I) (gp65 I)).trans ((Rn_read_miss 6 1 inb_S7x128x128_S1x128x128_6_0_0 inb_S7x128x128_S1x128x128_1_0_0 (by decide) (rowsAt63 I) (gp64 I)).trans ((Rn_read_miss 6 0 inb_S7x128x128_S1x128x128_6_0_0 inb_S7x128x128_S1x128x128_0_0_0 (by decide) (rowsAt62 I) (gp63 I)).trans (Rn_read_hit 6 inb_S7x128x128_S1x128x128_6_0_0 (rowsAt61 I) (gp62 I)))))))
theorem payG62 (H : Hyp I tbl col pay) : ∀ y, pay62 I y = Cert.Spec.G tbl col ((Rect.unit (s := S16384x3328) (k0_off64 L 256#32) S128x128.size (k0_off64_inb L hc 2)).emb y) :=
  Step.item_payload tbl col H.hr L pay H.hpay I.fi H.hfi 23 2 inb_S26x4x128_S1x1x128_23_2_0 squeezes_S1x1x128_S128
    _ ((Step.read_full (View.whole main_arg49_scv) inb_S1000x128_S1000x128_0_0 I.ft23).trans H.ht23.symm)
    rfl (I.hin 23 2 inb_S26x4x128_S1x1x128_23_2_0 squeezes_S1x1x128_S128) (k0_off64 L 256#32) (k0_off64_eq L 2) (k0_off64_inb L hc 2) (pay62 I) (rd62 I)
theorem inv62 (H : Hyp I tbl col pay) : ∀ j' < 63, ∀ i ∈ Step.blkSet L 13 j', outAt62 I hc i = Cert.Spec.G tbl col i :=
  Step.out_step L 13 (Cert.Spec.G tbl col) 62 (k0_off64 L 256#32) (k0_off64_eq L 2) (k0_off64_inb L hc 2) (outAt61 I hc) (pay62 I) (payG62 I hc H)
    (inv61 I hc H)
theorem rd63 : (Rn 0 inb_S7x128x128_S1x128x128_0_0_0).view.read (Elt F) (rowsAt68 I) = gp63 I :=
  ((Rn_read_miss 0 5 inb_S7x128x128_S1x128x128_0_0_0 inb_S7x128x128_S1x128x128_5_0_0 (by decide) (rowsAt67 I) (gp68 I)).trans ((Rn_read_miss 0 4 inb_S7x128x128_S1x128x128_0_0_0 inb_S7x128x128_S1x128x128_4_0_0 (by decide) (rowsAt66 I) (gp67 I)).trans ((Rn_read_miss 0 3 inb_S7x128x128_S1x128x128_0_0_0 inb_S7x128x128_S1x128x128_3_0_0 (by decide) (rowsAt65 I) (gp66 I)).trans ((Rn_read_miss 0 2 inb_S7x128x128_S1x128x128_0_0_0 inb_S7x128x128_S1x128x128_2_0_0 (by decide) (rowsAt64 I) (gp65 I)).trans ((Rn_read_miss 0 1 inb_S7x128x128_S1x128x128_0_0_0 inb_S7x128x128_S1x128x128_1_0_0 (by decide) (rowsAt63 I) (gp64 I)).trans (Rn_read_hit 0 inb_S7x128x128_S1x128x128_0_0_0 (rowsAt62 I) (gp63 I)))))))
theorem payG63 (H : Hyp I tbl col pay) : ∀ y, pay63 I y = Cert.Spec.G tbl col ((Rect.unit (s := S16384x3328) (k0_off65 L 256#32) S128x128.size (k0_off65_inb L hc 2)).emb y) :=
  Step.item_payload tbl col H.hr L pay H.hpay I.fi H.hfi 24 2 inb_S26x4x128_S1x1x128_24_2_0 squeezes_S1x1x128_S128
    _ ((Step.read_full (View.whole main_arg50_scv) inb_S1000x128_S1000x128_0_0 I.ft24).trans H.ht24.symm)
    rfl (I.hin 24 2 inb_S26x4x128_S1x1x128_24_2_0 squeezes_S1x1x128_S128) (k0_off65 L 256#32) (k0_off65_eq L 2) (k0_off65_inb L hc 2) (pay63 I) (rd63 I)
theorem inv63 (H : Hyp I tbl col pay) : ∀ j' < 64, ∀ i ∈ Step.blkSet L 13 j', outAt63 I hc i = Cert.Spec.G tbl col i :=
  Step.out_step L 13 (Cert.Spec.G tbl col) 63 (k0_off65 L 256#32) (k0_off65_eq L 2) (k0_off65_inb L hc 2) (outAt62 I hc) (pay63 I) (payG63 I hc H)
    (inv62 I hc H)
theorem rd64 : (Rn 1 inb_S7x128x128_S1x128x128_1_0_0).view.read (Elt F) (rowsAt69 I) = gp64 I :=
  ((Rn_read_miss 1 6 inb_S7x128x128_S1x128x128_1_0_0 inb_S7x128x128_S1x128x128_6_0_0 (by decide) (rowsAt68 I) (gp69 I)).trans ((Rn_read_miss 1 5 inb_S7x128x128_S1x128x128_1_0_0 inb_S7x128x128_S1x128x128_5_0_0 (by decide) (rowsAt67 I) (gp68 I)).trans ((Rn_read_miss 1 4 inb_S7x128x128_S1x128x128_1_0_0 inb_S7x128x128_S1x128x128_4_0_0 (by decide) (rowsAt66 I) (gp67 I)).trans ((Rn_read_miss 1 3 inb_S7x128x128_S1x128x128_1_0_0 inb_S7x128x128_S1x128x128_3_0_0 (by decide) (rowsAt65 I) (gp66 I)).trans ((Rn_read_miss 1 2 inb_S7x128x128_S1x128x128_1_0_0 inb_S7x128x128_S1x128x128_2_0_0 (by decide) (rowsAt64 I) (gp65 I)).trans (Rn_read_hit 1 inb_S7x128x128_S1x128x128_1_0_0 (rowsAt63 I) (gp64 I)))))))
theorem payG64 (H : Hyp I tbl col pay) : ∀ y, pay64 I y = Cert.Spec.G tbl col ((Rect.unit (s := S16384x3328) (k0_off66 L 256#32) S128x128.size (k0_off66_inb L hc 2)).emb y) :=
  Step.item_payload tbl col H.hr L pay H.hpay I.fi H.hfi 25 2 inb_S26x4x128_S1x1x128_25_2_0 squeezes_S1x1x128_S128
    _ ((Step.read_full (View.whole main_arg51_scv) inb_S1000x128_S1000x128_0_0 I.ft25).trans H.ht25.symm)
    rfl (I.hin 25 2 inb_S26x4x128_S1x1x128_25_2_0 squeezes_S1x1x128_S128) (k0_off66 L 256#32) (k0_off66_eq L 2) (k0_off66_inb L hc 2) (pay64 I) (rd64 I)
theorem inv64 (H : Hyp I tbl col pay) : ∀ j' < 65, ∀ i ∈ Step.blkSet L 13 j', outAt64 I hc i = Cert.Spec.G tbl col i :=
  Step.out_step L 13 (Cert.Spec.G tbl col) 64 (k0_off66 L 256#32) (k0_off66_eq L 2) (k0_off66_inb L hc 2) (outAt63 I hc) (pay64 I) (payG64 I hc H)
    (inv63 I hc H)
theorem rd65 : (Rn 2 inb_S7x128x128_S1x128x128_2_0_0).view.read (Elt F) (rowsAt70 I) = gp65 I :=
  ((Rn_read_miss 2 0 inb_S7x128x128_S1x128x128_2_0_0 inb_S7x128x128_S1x128x128_0_0_0 (by decide) (rowsAt69 I) (gp70 I)).trans ((Rn_read_miss 2 6 inb_S7x128x128_S1x128x128_2_0_0 inb_S7x128x128_S1x128x128_6_0_0 (by decide) (rowsAt68 I) (gp69 I)).trans ((Rn_read_miss 2 5 inb_S7x128x128_S1x128x128_2_0_0 inb_S7x128x128_S1x128x128_5_0_0 (by decide) (rowsAt67 I) (gp68 I)).trans ((Rn_read_miss 2 4 inb_S7x128x128_S1x128x128_2_0_0 inb_S7x128x128_S1x128x128_4_0_0 (by decide) (rowsAt66 I) (gp67 I)).trans ((Rn_read_miss 2 3 inb_S7x128x128_S1x128x128_2_0_0 inb_S7x128x128_S1x128x128_3_0_0 (by decide) (rowsAt65 I) (gp66 I)).trans (Rn_read_hit 2 inb_S7x128x128_S1x128x128_2_0_0 (rowsAt64 I) (gp65 I)))))))
theorem payG65 (H : Hyp I tbl col pay) : ∀ y, pay65 I y = Cert.Spec.G tbl col ((Rect.unit (s := S16384x3328) (k0_off67 L 256#32) S128x128.size (k0_off67_inb L hc 2)).emb y) :=
  Step.item_payload tbl col H.hr L pay H.hpay I.fi H.hfi 0 2 inb_S26x4x128_S1x1x128_0_2_0 squeezes_S1x1x128_S128
    _ ((Step.read_full (View.whole main_arg26_scv) inb_S1000x128_S1000x128_0_0 I.ft0).trans H.ht0.symm)
    rfl (I.hin 0 2 inb_S26x4x128_S1x1x128_0_2_0 squeezes_S1x1x128_S128) (k0_off67 L 256#32) (k0_off67_eq L 2) (k0_off67_inb L hc 2) (pay65 I) (rd65 I)
theorem inv65 (H : Hyp I tbl col pay) : ∀ j' < 66, ∀ i ∈ Step.blkSet L 13 j', outAt65 I hc i = Cert.Spec.G tbl col i :=
  Step.out_step L 13 (Cert.Spec.G tbl col) 65 (k0_off67 L 256#32) (k0_off67_eq L 2) (k0_off67_inb L hc 2) (outAt64 I hc) (pay65 I) (payG65 I hc H)
    (inv64 I hc H)
theorem rd66 : (Rn 3 inb_S7x128x128_S1x128x128_3_0_0).view.read (Elt F) (rowsAt71 I) = gp66 I :=
  ((Rn_read_miss 3 1 inb_S7x128x128_S1x128x128_3_0_0 inb_S7x128x128_S1x128x128_1_0_0 (by decide) (rowsAt70 I) (gp71 I)).trans ((Rn_read_miss 3 0 inb_S7x128x128_S1x128x128_3_0_0 inb_S7x128x128_S1x128x128_0_0_0 (by decide) (rowsAt69 I) (gp70 I)).trans ((Rn_read_miss 3 6 inb_S7x128x128_S1x128x128_3_0_0 inb_S7x128x128_S1x128x128_6_0_0 (by decide) (rowsAt68 I) (gp69 I)).trans ((Rn_read_miss 3 5 inb_S7x128x128_S1x128x128_3_0_0 inb_S7x128x128_S1x128x128_5_0_0 (by decide) (rowsAt67 I) (gp68 I)).trans ((Rn_read_miss 3 4 inb_S7x128x128_S1x128x128_3_0_0 inb_S7x128x128_S1x128x128_4_0_0 (by decide) (rowsAt66 I) (gp67 I)).trans (Rn_read_hit 3 inb_S7x128x128_S1x128x128_3_0_0 (rowsAt65 I) (gp66 I)))))))
theorem payG66 (H : Hyp I tbl col pay) : ∀ y, pay66 I y = Cert.Spec.G tbl col ((Rect.unit (s := S16384x3328) (k0_off68 L 256#32) S128x128.size (k0_off68_inb L hc 2)).emb y) :=
  Step.item_payload tbl col H.hr L pay H.hpay I.fi H.hfi 1 2 inb_S26x4x128_S1x1x128_1_2_0 squeezes_S1x1x128_S128
    _ ((Step.read_full (View.whole main_arg27_scv) inb_S1000x128_S1000x128_0_0 I.ft1).trans H.ht1.symm)
    rfl (I.hin 1 2 inb_S26x4x128_S1x1x128_1_2_0 squeezes_S1x1x128_S128) (k0_off68 L 256#32) (k0_off68_eq L 2) (k0_off68_inb L hc 2) (pay66 I) (rd66 I)
theorem inv66 (H : Hyp I tbl col pay) : ∀ j' < 67, ∀ i ∈ Step.blkSet L 13 j', outAt66 I hc i = Cert.Spec.G tbl col i :=
  Step.out_step L 13 (Cert.Spec.G tbl col) 66 (k0_off68 L 256#32) (k0_off68_eq L 2) (k0_off68_inb L hc 2) (outAt65 I hc) (pay66 I) (payG66 I hc H)
    (inv65 I hc H)
theorem rd67 : (Rn 4 inb_S7x128x128_S1x128x128_4_0_0).view.read (Elt F) (rowsAt72 I) = gp67 I :=
  ((Rn_read_miss 4 2 inb_S7x128x128_S1x128x128_4_0_0 inb_S7x128x128_S1x128x128_2_0_0 (by decide) (rowsAt71 I) (gp72 I)).trans ((Rn_read_miss 4 1 inb_S7x128x128_S1x128x128_4_0_0 inb_S7x128x128_S1x128x128_1_0_0 (by decide) (rowsAt70 I) (gp71 I)).trans ((Rn_read_miss 4 0 inb_S7x128x128_S1x128x128_4_0_0 inb_S7x128x128_S1x128x128_0_0_0 (by decide) (rowsAt69 I) (gp70 I)).trans ((Rn_read_miss 4 6 inb_S7x128x128_S1x128x128_4_0_0 inb_S7x128x128_S1x128x128_6_0_0 (by decide) (rowsAt68 I) (gp69 I)).trans ((Rn_read_miss 4 5 inb_S7x128x128_S1x128x128_4_0_0 inb_S7x128x128_S1x128x128_5_0_0 (by decide) (rowsAt67 I) (gp68 I)).trans (Rn_read_hit 4 inb_S7x128x128_S1x128x128_4_0_0 (rowsAt66 I) (gp67 I)))))))
theorem payG67 (H : Hyp I tbl col pay) : ∀ y, pay67 I y = Cert.Spec.G tbl col ((Rect.unit (s := S16384x3328) (k0_off69 L 256#32) S128x128.size (k0_off69_inb L hc 2)).emb y) :=
  Step.item_payload tbl col H.hr L pay H.hpay I.fi H.hfi 2 2 inb_S26x4x128_S1x1x128_2_2_0 squeezes_S1x1x128_S128
    _ ((Step.read_full (View.whole main_arg28_scv) inb_S1000x128_S1000x128_0_0 I.ft2).trans H.ht2.symm)
    rfl (I.hin 2 2 inb_S26x4x128_S1x1x128_2_2_0 squeezes_S1x1x128_S128) (k0_off69 L 256#32) (k0_off69_eq L 2) (k0_off69_inb L hc 2) (pay67 I) (rd67 I)
theorem inv67 (H : Hyp I tbl col pay) : ∀ j' < 68, ∀ i ∈ Step.blkSet L 13 j', outAt67 I hc i = Cert.Spec.G tbl col i :=
  Step.out_step L 13 (Cert.Spec.G tbl col) 67 (k0_off69 L 256#32) (k0_off69_eq L 2) (k0_off69_inb L hc 2) (outAt66 I hc) (pay67 I) (payG67 I hc H)
    (inv66 I hc H)
theorem rd68 : (Rn 5 inb_S7x128x128_S1x128x128_5_0_0).view.read (Elt F) (rowsAt73 I) = gp68 I :=
  ((Rn_read_miss 5 3 inb_S7x128x128_S1x128x128_5_0_0 inb_S7x128x128_S1x128x128_3_0_0 (by decide) (rowsAt72 I) (gp73 I)).trans ((Rn_read_miss 5 2 inb_S7x128x128_S1x128x128_5_0_0 inb_S7x128x128_S1x128x128_2_0_0 (by decide) (rowsAt71 I) (gp72 I)).trans ((Rn_read_miss 5 1 inb_S7x128x128_S1x128x128_5_0_0 inb_S7x128x128_S1x128x128_1_0_0 (by decide) (rowsAt70 I) (gp71 I)).trans ((Rn_read_miss 5 0 inb_S7x128x128_S1x128x128_5_0_0 inb_S7x128x128_S1x128x128_0_0_0 (by decide) (rowsAt69 I) (gp70 I)).trans ((Rn_read_miss 5 6 inb_S7x128x128_S1x128x128_5_0_0 inb_S7x128x128_S1x128x128_6_0_0 (by decide) (rowsAt68 I) (gp69 I)).trans (Rn_read_hit 5 inb_S7x128x128_S1x128x128_5_0_0 (rowsAt67 I) (gp68 I)))))))
theorem payG68 (H : Hyp I tbl col pay) : ∀ y, pay68 I y = Cert.Spec.G tbl col ((Rect.unit (s := S16384x3328) (k0_off70 L 256#32) S128x128.size (k0_off70_inb L hc 2)).emb y) :=
  Step.item_payload tbl col H.hr L pay H.hpay I.fi H.hfi 3 2 inb_S26x4x128_S1x1x128_3_2_0 squeezes_S1x1x128_S128
    _ ((Step.read_full (View.whole main_arg29_scv) inb_S1000x128_S1000x128_0_0 I.ft3).trans H.ht3.symm)
    rfl (I.hin 3 2 inb_S26x4x128_S1x1x128_3_2_0 squeezes_S1x1x128_S128) (k0_off70 L 256#32) (k0_off70_eq L 2) (k0_off70_inb L hc 2) (pay68 I) (rd68 I)
theorem inv68 (H : Hyp I tbl col pay) : ∀ j' < 69, ∀ i ∈ Step.blkSet L 13 j', outAt68 I hc i = Cert.Spec.G tbl col i :=
  Step.out_step L 13 (Cert.Spec.G tbl col) 68 (k0_off70 L 256#32) (k0_off70_eq L 2) (k0_off70_inb L hc 2) (outAt67 I hc) (pay68 I) (payG68 I hc H)
    (inv67 I hc H)
theorem rd69 : (Rn 6 inb_S7x128x128_S1x128x128_6_0_0).view.read (Elt F) (rowsAt74 I) = gp69 I :=
  ((Rn_read_miss 6 4 inb_S7x128x128_S1x128x128_6_0_0 inb_S7x128x128_S1x128x128_4_0_0 (by decide) (rowsAt73 I) (gp74 I)).trans ((Rn_read_miss 6 3 inb_S7x128x128_S1x128x128_6_0_0 inb_S7x128x128_S1x128x128_3_0_0 (by decide) (rowsAt72 I) (gp73 I)).trans ((Rn_read_miss 6 2 inb_S7x128x128_S1x128x128_6_0_0 inb_S7x128x128_S1x128x128_2_0_0 (by decide) (rowsAt71 I) (gp72 I)).trans ((Rn_read_miss 6 1 inb_S7x128x128_S1x128x128_6_0_0 inb_S7x128x128_S1x128x128_1_0_0 (by decide) (rowsAt70 I) (gp71 I)).trans ((Rn_read_miss 6 0 inb_S7x128x128_S1x128x128_6_0_0 inb_S7x128x128_S1x128x128_0_0_0 (by decide) (rowsAt69 I) (gp70 I)).trans (Rn_read_hit 6 inb_S7x128x128_S1x128x128_6_0_0 (rowsAt68 I) (gp69 I)))))))
theorem payG69 (H : Hyp I tbl col pay) : ∀ y, pay69 I y = Cert.Spec.G tbl col ((Rect.unit (s := S16384x3328) (k0_off71 L 256#32) S128x128.size (k0_off71_inb L hc 2)).emb y) :=
  Step.item_payload tbl col H.hr L pay H.hpay I.fi H.hfi 4 2 inb_S26x4x128_S1x1x128_4_2_0 squeezes_S1x1x128_S128
    _ ((Step.read_full (View.whole main_arg30_scv) inb_S1000x128_S1000x128_0_0 I.ft4).trans H.ht4.symm)
    rfl (I.hin 4 2 inb_S26x4x128_S1x1x128_4_2_0 squeezes_S1x1x128_S128) (k0_off71 L 256#32) (k0_off71_eq L 2) (k0_off71_inb L hc 2) (pay69 I) (rd69 I)
theorem inv69 (H : Hyp I tbl col pay) : ∀ j' < 70, ∀ i ∈ Step.blkSet L 13 j', outAt69 I hc i = Cert.Spec.G tbl col i :=
  Step.out_step L 13 (Cert.Spec.G tbl col) 69 (k0_off71 L 256#32) (k0_off71_eq L 2) (k0_off71_inb L hc 2) (outAt68 I hc) (pay69 I) (payG69 I hc H)
    (inv68 I hc H)
theorem rd70 : (Rn 0 inb_S7x128x128_S1x128x128_0_0_0).view.read (Elt F) (rowsAt75 I) = gp70 I :=
  ((Rn_read_miss 0 5 inb_S7x128x128_S1x128x128_0_0_0 inb_S7x128x128_S1x128x128_5_0_0 (by decide) (rowsAt74 I) (gp75 I)).trans ((Rn_read_miss 0 4 inb_S7x128x128_S1x128x128_0_0_0 inb_S7x128x128_S1x128x128_4_0_0 (by decide) (rowsAt73 I) (gp74 I)).trans ((Rn_read_miss 0 3 inb_S7x128x128_S1x128x128_0_0_0 inb_S7x128x128_S1x128x128_3_0_0 (by decide) (rowsAt72 I) (gp73 I)).trans ((Rn_read_miss 0 2 inb_S7x128x128_S1x128x128_0_0_0 inb_S7x128x128_S1x128x128_2_0_0 (by decide) (rowsAt71 I) (gp72 I)).trans ((Rn_read_miss 0 1 inb_S7x128x128_S1x128x128_0_0_0 inb_S7x128x128_S1x128x128_1_0_0 (by decide) (rowsAt70 I) (gp71 I)).trans (Rn_read_hit 0 inb_S7x128x128_S1x128x128_0_0_0 (rowsAt69 I) (gp70 I)))))))
theorem payG70 (H : Hyp I tbl col pay) : ∀ y, pay70 I y = Cert.Spec.G tbl col ((Rect.unit (s := S16384x3328) (k0_off72 L 256#32) S128x128.size (k0_off72_inb L hc 2)).emb y) :=
  Step.item_payload tbl col H.hr L pay H.hpay I.fi H.hfi 5 2 inb_S26x4x128_S1x1x128_5_2_0 squeezes_S1x1x128_S128
    _ ((Step.read_full (View.whole main_arg31_scv) inb_S1000x128_S1000x128_0_0 I.ft5).trans H.ht5.symm)
    rfl (I.hin 5 2 inb_S26x4x128_S1x1x128_5_2_0 squeezes_S1x1x128_S128) (k0_off72 L 256#32) (k0_off72_eq L 2) (k0_off72_inb L hc 2) (pay70 I) (rd70 I)
theorem inv70 (H : Hyp I tbl col pay) : ∀ j' < 71, ∀ i ∈ Step.blkSet L 13 j', outAt70 I hc i = Cert.Spec.G tbl col i :=
  Step.out_step L 13 (Cert.Spec.G tbl col) 70 (k0_off72 L 256#32) (k0_off72_eq L 2) (k0_off72_inb L hc 2) (outAt69 I hc) (pay70 I) (payG70 I hc H)
    (inv69 I hc H)
theorem rd71 : (Rn 1 inb_S7x128x128_S1x128x128_1_0_0).view.read (Elt F) (rowsAt76 I) = gp71 I :=
  ((Rn_read_miss 1 6 inb_S7x128x128_S1x128x128_1_0_0 inb_S7x128x128_S1x128x128_6_0_0 (by decide) (rowsAt75 I) (gp76 I)).trans ((Rn_read_miss 1 5 inb_S7x128x128_S1x128x128_1_0_0 inb_S7x128x128_S1x128x128_5_0_0 (by decide) (rowsAt74 I) (gp75 I)).trans ((Rn_read_miss 1 4 inb_S7x128x128_S1x128x128_1_0_0 inb_S7x128x128_S1x128x128_4_0_0 (by decide) (rowsAt73 I) (gp74 I)).trans ((Rn_read_miss 1 3 inb_S7x128x128_S1x128x128_1_0_0 inb_S7x128x128_S1x128x128_3_0_0 (by decide) (rowsAt72 I) (gp73 I)).trans ((Rn_read_miss 1 2 inb_S7x128x128_S1x128x128_1_0_0 inb_S7x128x128_S1x128x128_2_0_0 (by decide) (rowsAt71 I) (gp72 I)).trans (Rn_read_hit 1 inb_S7x128x128_S1x128x128_1_0_0 (rowsAt70 I) (gp71 I)))))))
theorem payG71 (H : Hyp I tbl col pay) : ∀ y, pay71 I y = Cert.Spec.G tbl col ((Rect.unit (s := S16384x3328) (k0_off73 L 256#32) S128x128.size (k0_off73_inb L hc 2)).emb y) :=
  Step.item_payload tbl col H.hr L pay H.hpay I.fi H.hfi 6 2 inb_S26x4x128_S1x1x128_6_2_0 squeezes_S1x1x128_S128
    _ ((Step.read_full (View.whole main_arg32_scv) inb_S1000x128_S1000x128_0_0 I.ft6).trans H.ht6.symm)
    rfl (I.hin 6 2 inb_S26x4x128_S1x1x128_6_2_0 squeezes_S1x1x128_S128) (k0_off73 L 256#32) (k0_off73_eq L 2) (k0_off73_inb L hc 2) (pay71 I) (rd71 I)
theorem inv71 (H : Hyp I tbl col pay) : ∀ j' < 72, ∀ i ∈ Step.blkSet L 13 j', outAt71 I hc i = Cert.Spec.G tbl col i :=
  Step.out_step L 13 (Cert.Spec.G tbl col) 71 (k0_off73 L 256#32) (k0_off73_eq L 2) (k0_off73_inb L hc 2) (outAt70 I hc) (pay71 I) (payG71 I hc H)
    (inv70 I hc H)
theorem rd72 : (Rn 2 inb_S7x128x128_S1x128x128_2_0_0).view.read (Elt F) (rowsAt77 I) = gp72 I :=
  ((Rn_read_miss 2 0 inb_S7x128x128_S1x128x128_2_0_0 inb_S7x128x128_S1x128x128_0_0_0 (by decide) (rowsAt76 I) (gp77 I)).trans ((Rn_read_miss 2 6 inb_S7x128x128_S1x128x128_2_0_0 inb_S7x128x128_S1x128x128_6_0_0 (by decide) (rowsAt75 I) (gp76 I)).trans ((Rn_read_miss 2 5 inb_S7x128x128_S1x128x128_2_0_0 inb_S7x128x128_S1x128x128_5_0_0 (by decide) (rowsAt74 I) (gp75 I)).trans ((Rn_read_miss 2 4 inb_S7x128x128_S1x128x128_2_0_0 inb_S7x128x128_S1x128x128_4_0_0 (by decide) (rowsAt73 I) (gp74 I)).trans ((Rn_read_miss 2 3 inb_S7x128x128_S1x128x128_2_0_0 inb_S7x128x128_S1x128x128_3_0_0 (by decide) (rowsAt72 I) (gp73 I)).trans (Rn_read_hit 2 inb_S7x128x128_S1x128x128_2_0_0 (rowsAt71 I) (gp72 I)))))))
theorem payG72 (H : Hyp I tbl col pay) : ∀ y, pay72 I y = Cert.Spec.G tbl col ((Rect.unit (s := S16384x3328) (k0_off74 L 256#32) S128x128.size (k0_off74_inb L hc 2)).emb y) :=
  Step.item_payload tbl col H.hr L pay H.hpay I.fi H.hfi 7 2 inb_S26x4x128_S1x1x128_7_2_0 squeezes_S1x1x128_S128
    _ ((Step.read_full (View.whole main_arg33_scv) inb_S1000x128_S1000x128_0_0 I.ft7).trans H.ht7.symm)
    rfl (I.hin 7 2 inb_S26x4x128_S1x1x128_7_2_0 squeezes_S1x1x128_S128) (k0_off74 L 256#32) (k0_off74_eq L 2) (k0_off74_inb L hc 2) (pay72 I) (rd72 I)
theorem inv72 (H : Hyp I tbl col pay) : ∀ j' < 73, ∀ i ∈ Step.blkSet L 13 j', outAt72 I hc i = Cert.Spec.G tbl col i :=
  Step.out_step L 13 (Cert.Spec.G tbl col) 72 (k0_off74 L 256#32) (k0_off74_eq L 2) (k0_off74_inb L hc 2) (outAt71 I hc) (pay72 I) (payG72 I hc H)
    (inv71 I hc H)
theorem rd73 : (Rn 3 inb_S7x128x128_S1x128x128_3_0_0).view.read (Elt F) (rowsAt78 I) = gp73 I :=
  ((Rn_read_miss 3 1 inb_S7x128x128_S1x128x128_3_0_0 inb_S7x128x128_S1x128x128_1_0_0 (by decide) (rowsAt77 I) (gp78 I)).trans ((Rn_read_miss 3 0 inb_S7x128x128_S1x128x128_3_0_0 inb_S7x128x128_S1x128x128_0_0_0 (by decide) (rowsAt76 I) (gp77 I)).trans ((Rn_read_miss 3 6 inb_S7x128x128_S1x128x128_3_0_0 inb_S7x128x128_S1x128x128_6_0_0 (by decide) (rowsAt75 I) (gp76 I)).trans ((Rn_read_miss 3 5 inb_S7x128x128_S1x128x128_3_0_0 inb_S7x128x128_S1x128x128_5_0_0 (by decide) (rowsAt74 I) (gp75 I)).trans ((Rn_read_miss 3 4 inb_S7x128x128_S1x128x128_3_0_0 inb_S7x128x128_S1x128x128_4_0_0 (by decide) (rowsAt73 I) (gp74 I)).trans (Rn_read_hit 3 inb_S7x128x128_S1x128x128_3_0_0 (rowsAt72 I) (gp73 I)))))))
theorem payG73 (H : Hyp I tbl col pay) : ∀ y, pay73 I y = Cert.Spec.G tbl col ((Rect.unit (s := S16384x3328) (k0_off75 L 256#32) S128x128.size (k0_off75_inb L hc 2)).emb y) :=
  Step.item_payload tbl col H.hr L pay H.hpay I.fi H.hfi 8 2 inb_S26x4x128_S1x1x128_8_2_0 squeezes_S1x1x128_S128
    _ ((Step.read_full (View.whole main_arg34_scv) inb_S1000x128_S1000x128_0_0 I.ft8).trans H.ht8.symm)
    rfl (I.hin 8 2 inb_S26x4x128_S1x1x128_8_2_0 squeezes_S1x1x128_S128) (k0_off75 L 256#32) (k0_off75_eq L 2) (k0_off75_inb L hc 2) (pay73 I) (rd73 I)
theorem inv73 (H : Hyp I tbl col pay) : ∀ j' < 74, ∀ i ∈ Step.blkSet L 13 j', outAt73 I hc i = Cert.Spec.G tbl col i :=
  Step.out_step L 13 (Cert.Spec.G tbl col) 73 (k0_off75 L 256#32) (k0_off75_eq L 2) (k0_off75_inb L hc 2) (outAt72 I hc) (pay73 I) (payG73 I hc H)
    (inv72 I hc H)
theorem rd74 : (Rn 4 inb_S7x128x128_S1x128x128_4_0_0).view.read (Elt F) (rowsAt79 I) = gp74 I :=
  ((Rn_read_miss 4 2 inb_S7x128x128_S1x128x128_4_0_0 inb_S7x128x128_S1x128x128_2_0_0 (by decide) (rowsAt78 I) (gp79 I)).trans ((Rn_read_miss 4 1 inb_S7x128x128_S1x128x128_4_0_0 inb_S7x128x128_S1x128x128_1_0_0 (by decide) (rowsAt77 I) (gp78 I)).trans ((Rn_read_miss 4 0 inb_S7x128x128_S1x128x128_4_0_0 inb_S7x128x128_S1x128x128_0_0_0 (by decide) (rowsAt76 I) (gp77 I)).trans ((Rn_read_miss 4 6 inb_S7x128x128_S1x128x128_4_0_0 inb_S7x128x128_S1x128x128_6_0_0 (by decide) (rowsAt75 I) (gp76 I)).trans ((Rn_read_miss 4 5 inb_S7x128x128_S1x128x128_4_0_0 inb_S7x128x128_S1x128x128_5_0_0 (by decide) (rowsAt74 I) (gp75 I)).trans (Rn_read_hit 4 inb_S7x128x128_S1x128x128_4_0_0 (rowsAt73 I) (gp74 I)))))))
theorem payG74 (H : Hyp I tbl col pay) : ∀ y, pay74 I y = Cert.Spec.G tbl col ((Rect.unit (s := S16384x3328) (k0_off76 L 256#32) S128x128.size (k0_off76_inb L hc 2)).emb y) :=
  Step.item_payload tbl col H.hr L pay H.hpay I.fi H.hfi 9 2 inb_S26x4x128_S1x1x128_9_2_0 squeezes_S1x1x128_S128
    _ ((Step.read_full (View.whole main_arg35_scv) inb_S1000x128_S1000x128_0_0 I.ft9).trans H.ht9.symm)
    rfl (I.hin 9 2 inb_S26x4x128_S1x1x128_9_2_0 squeezes_S1x1x128_S128) (k0_off76 L 256#32) (k0_off76_eq L 2) (k0_off76_inb L hc 2) (pay74 I) (rd74 I)
theorem inv74 (H : Hyp I tbl col pay) : ∀ j' < 75, ∀ i ∈ Step.blkSet L 13 j', outAt74 I hc i = Cert.Spec.G tbl col i :=
  Step.out_step L 13 (Cert.Spec.G tbl col) 74 (k0_off76 L 256#32) (k0_off76_eq L 2) (k0_off76_inb L hc 2) (outAt73 I hc) (pay74 I) (payG74 I hc H)
    (inv73 I hc H)
theorem rd75 : (Rn 5 inb_S7x128x128_S1x128x128_5_0_0).view.read (Elt F) (rowsAt80 I) = gp75 I :=
  ((Rn_read_miss 5 3 inb_S7x128x128_S1x128x128_5_0_0 inb_S7x128x128_S1x128x128_3_0_0 (by decide) (rowsAt79 I) (gp80 I)).trans ((Rn_read_miss 5 2 inb_S7x128x128_S1x128x128_5_0_0 inb_S7x128x128_S1x128x128_2_0_0 (by decide) (rowsAt78 I) (gp79 I)).trans ((Rn_read_miss 5 1 inb_S7x128x128_S1x128x128_5_0_0 inb_S7x128x128_S1x128x128_1_0_0 (by decide) (rowsAt77 I) (gp78 I)).trans ((Rn_read_miss 5 0 inb_S7x128x128_S1x128x128_5_0_0 inb_S7x128x128_S1x128x128_0_0_0 (by decide) (rowsAt76 I) (gp77 I)).trans ((Rn_read_miss 5 6 inb_S7x128x128_S1x128x128_5_0_0 inb_S7x128x128_S1x128x128_6_0_0 (by decide) (rowsAt75 I) (gp76 I)).trans (Rn_read_hit 5 inb_S7x128x128_S1x128x128_5_0_0 (rowsAt74 I) (gp75 I)))))))
theorem payG75 (H : Hyp I tbl col pay) : ∀ y, pay75 I y = Cert.Spec.G tbl col ((Rect.unit (s := S16384x3328) (k0_off77 L 256#32) S128x128.size (k0_off77_inb L hc 2)).emb y) :=
  Step.item_payload tbl col H.hr L pay H.hpay I.fi H.hfi 10 2 inb_S26x4x128_S1x1x128_10_2_0 squeezes_S1x1x128_S128
    _ ((Step.read_full (View.whole main_arg36_scv) inb_S1000x128_S1000x128_0_0 I.ft10).trans H.ht10.symm)
    rfl (I.hin 10 2 inb_S26x4x128_S1x1x128_10_2_0 squeezes_S1x1x128_S128) (k0_off77 L 256#32) (k0_off77_eq L 2) (k0_off77_inb L hc 2) (pay75 I) (rd75 I)
theorem inv75 (H : Hyp I tbl col pay) : ∀ j' < 76, ∀ i ∈ Step.blkSet L 13 j', outAt75 I hc i = Cert.Spec.G tbl col i :=
  Step.out_step L 13 (Cert.Spec.G tbl col) 75 (k0_off77 L 256#32) (k0_off77_eq L 2) (k0_off77_inb L hc 2) (outAt74 I hc) (pay75 I) (payG75 I hc H)
    (inv74 I hc H)
theorem rd76 : (Rn 6 inb_S7x128x128_S1x128x128_6_0_0).view.read (Elt F) (rowsAt81 I) = gp76 I :=
  ((Rn_read_miss 6 4 inb_S7x128x128_S1x128x128_6_0_0 inb_S7x128x128_S1x128x128_4_0_0 (by decide) (rowsAt80 I) (gp81 I)).trans ((Rn_read_miss 6 3 inb_S7x128x128_S1x128x128_6_0_0 inb_S7x128x128_S1x128x128_3_0_0 (by decide) (rowsAt79 I) (gp80 I)).trans ((Rn_read_miss 6 2 inb_S7x128x128_S1x128x128_6_0_0 inb_S7x128x128_S1x128x128_2_0_0 (by decide) (rowsAt78 I) (gp79 I)).trans ((Rn_read_miss 6 1 inb_S7x128x128_S1x128x128_6_0_0 inb_S7x128x128_S1x128x128_1_0_0 (by decide) (rowsAt77 I) (gp78 I)).trans ((Rn_read_miss 6 0 inb_S7x128x128_S1x128x128_6_0_0 inb_S7x128x128_S1x128x128_0_0_0 (by decide) (rowsAt76 I) (gp77 I)).trans (Rn_read_hit 6 inb_S7x128x128_S1x128x128_6_0_0 (rowsAt75 I) (gp76 I)))))))
theorem payG76 (H : Hyp I tbl col pay) : ∀ y, pay76 I y = Cert.Spec.G tbl col ((Rect.unit (s := S16384x3328) (k0_off78 L 256#32) S128x128.size (k0_off78_inb L hc 2)).emb y) :=
  Step.item_payload tbl col H.hr L pay H.hpay I.fi H.hfi 11 2 inb_S26x4x128_S1x1x128_11_2_0 squeezes_S1x1x128_S128
    _ ((Step.read_full (View.whole main_arg37_scv) inb_S1000x128_S1000x128_0_0 I.ft11).trans H.ht11.symm)
    rfl (I.hin 11 2 inb_S26x4x128_S1x1x128_11_2_0 squeezes_S1x1x128_S128) (k0_off78 L 256#32) (k0_off78_eq L 2) (k0_off78_inb L hc 2) (pay76 I) (rd76 I)
theorem inv76 (H : Hyp I tbl col pay) : ∀ j' < 77, ∀ i ∈ Step.blkSet L 13 j', outAt76 I hc i = Cert.Spec.G tbl col i :=
  Step.out_step L 13 (Cert.Spec.G tbl col) 76 (k0_off78 L 256#32) (k0_off78_eq L 2) (k0_off78_inb L hc 2) (outAt75 I hc) (pay76 I) (payG76 I hc H)
    (inv75 I hc H)
theorem rd77 : (Rn 0 inb_S7x128x128_S1x128x128_0_0_0).view.read (Elt F) (rowsAt82 I) = gp77 I :=
  ((Rn_read_miss 0 5 inb_S7x128x128_S1x128x128_0_0_0 inb_S7x128x128_S1x128x128_5_0_0 (by decide) (rowsAt81 I) (gp82 I)).trans ((Rn_read_miss 0 4 inb_S7x128x128_S1x128x128_0_0_0 inb_S7x128x128_S1x128x128_4_0_0 (by decide) (rowsAt80 I) (gp81 I)).trans ((Rn_read_miss 0 3 inb_S7x128x128_S1x128x128_0_0_0 inb_S7x128x128_S1x128x128_3_0_0 (by decide) (rowsAt79 I) (gp80 I)).trans ((Rn_read_miss 0 2 inb_S7x128x128_S1x128x128_0_0_0 inb_S7x128x128_S1x128x128_2_0_0 (by decide) (rowsAt78 I) (gp79 I)).trans ((Rn_read_miss 0 1 inb_S7x128x128_S1x128x128_0_0_0 inb_S7x128x128_S1x128x128_1_0_0 (by decide) (rowsAt77 I) (gp78 I)).trans (Rn_read_hit 0 inb_S7x128x128_S1x128x128_0_0_0 (rowsAt76 I) (gp77 I)))))))
theorem payG77 (H : Hyp I tbl col pay) : ∀ y, pay77 I y = Cert.Spec.G tbl col ((Rect.unit (s := S16384x3328) (k0_off79 L 256#32) S128x128.size (k0_off79_inb L hc 2)).emb y) :=
  Step.item_payload tbl col H.hr L pay H.hpay I.fi H.hfi 12 2 inb_S26x4x128_S1x1x128_12_2_0 squeezes_S1x1x128_S128
    _ ((Step.read_full (View.whole main_arg38_scv) inb_S1000x128_S1000x128_0_0 I.ft12).trans H.ht12.symm)
    rfl (I.hin 12 2 inb_S26x4x128_S1x1x128_12_2_0 squeezes_S1x1x128_S128) (k0_off79 L 256#32) (k0_off79_eq L 2) (k0_off79_inb L hc 2) (pay77 I) (rd77 I)
theorem inv77 (H : Hyp I tbl col pay) : ∀ j' < 78, ∀ i ∈ Step.blkSet L 13 j', outAt77 I hc i = Cert.Spec.G tbl col i :=
  Step.out_step L 13 (Cert.Spec.G tbl col) 77 (k0_off79 L 256#32) (k0_off79_eq L 2) (k0_off79_inb L hc 2) (outAt76 I hc) (pay77 I) (payG77 I hc H)
    (inv76 I hc H)
theorem rd78 : (Rn 1 inb_S7x128x128_S1x128x128_1_0_0).view.read (Elt F) (rowsAt83 I) = gp78 I :=
  ((Rn_read_miss 1 6 inb_S7x128x128_S1x128x128_1_0_0 inb_S7x128x128_S1x128x128_6_0_0 (by decide) (rowsAt82 I) (gp83 I)).trans ((Rn_read_miss 1 5 inb_S7x128x128_S1x128x128_1_0_0 inb_S7x128x128_S1x128x128_5_0_0 (by decide) (rowsAt81 I) (gp82 I)).trans ((Rn_read_miss 1 4 inb_S7x128x128_S1x128x128_1_0_0 inb_S7x128x128_S1x128x128_4_0_0 (by decide) (rowsAt80 I) (gp81 I)).trans ((Rn_read_miss 1 3 inb_S7x128x128_S1x128x128_1_0_0 inb_S7x128x128_S1x128x128_3_0_0 (by decide) (rowsAt79 I) (gp80 I)).trans ((Rn_read_miss 1 2 inb_S7x128x128_S1x128x128_1_0_0 inb_S7x128x128_S1x128x128_2_0_0 (by decide) (rowsAt78 I) (gp79 I)).trans (Rn_read_hit 1 inb_S7x128x128_S1x128x128_1_0_0 (rowsAt77 I) (gp78 I)))))))
theorem payG78 (H : Hyp I tbl col pay) : ∀ y, pay78 I y = Cert.Spec.G tbl col ((Rect.unit (s := S16384x3328) (k0_off54 L 384#32) S128x128.size (k0_off54_inb L hc 3)).emb y) :=
  Step.item_payload tbl col H.hr L pay H.hpay I.fi H.hfi 13 3 inb_S26x4x128_S1x1x128_13_3_0 squeezes_S1x1x128_S128
    _ ((Step.read_full (View.whole main_arg39_scv) inb_S1000x128_S1000x128_0_0 I.ft13).trans H.ht13.symm)
    rfl (I.hin 13 3 inb_S26x4x128_S1x1x128_13_3_0 squeezes_S1x1x128_S128) (k0_off54 L 384#32) (k0_off54_eq L 3) (k0_off54_inb L hc 3) (pay78 I) (rd78 I)
theorem inv78 (H : Hyp I tbl col pay) : ∀ j' < 79, ∀ i ∈ Step.blkSet L 13 j', outAt78 I hc i = Cert.Spec.G tbl col i :=
  Step.out_step L 13 (Cert.Spec.G tbl col) 78 (k0_off54 L 384#32) (k0_off54_eq L 3) (k0_off54_inb L hc 3) (outAt77 I hc) (pay78 I) (payG78 I hc H)
    (inv77 I hc H)
theorem rd79 : (Rn 2 inb_S7x128x128_S1x128x128_2_0_0).view.read (Elt F) (rowsAt84 I) = gp79 I :=
  ((Rn_read_miss 2 0 inb_S7x128x128_S1x128x128_2_0_0 inb_S7x128x128_S1x128x128_0_0_0 (by decide) (rowsAt83 I) (gp84 I)).trans ((Rn_read_miss 2 6 inb_S7x128x128_S1x128x128_2_0_0 inb_S7x128x128_S1x128x128_6_0_0 (by decide) (rowsAt82 I) (gp83 I)).trans ((Rn_read_miss 2 5 inb_S7x128x128_S1x128x128_2_0_0 inb_S7x128x128_S1x128x128_5_0_0 (by decide) (rowsAt81 I) (gp82 I)).trans ((Rn_read_miss 2 4 inb_S7x128x128_S1x128x128_2_0_0 inb_S7x128x128_S1x128x128_4_0_0 (by decide) (rowsAt80 I) (gp81 I)).trans ((Rn_read_miss 2 3 inb_S7x128x128_S1x128x128_2_0_0 inb_S7x128x128_S1x128x128_3_0_0 (by decide) (rowsAt79 I) (gp80 I)).trans (Rn_read_hit 2 inb_S7x128x128_S1x128x128_2_0_0 (rowsAt78 I) (gp79 I)))))))
theorem payG79 (H : Hyp I tbl col pay) : ∀ y, pay79 I y = Cert.Spec.G tbl col ((Rect.unit (s := S16384x3328) (k0_off55 L 384#32) S128x128.size (k0_off55_inb L hc 3)).emb y) :=
  Step.item_payload tbl col H.hr L pay H.hpay I.fi H.hfi 14 3 inb_S26x4x128_S1x1x128_14_3_0 squeezes_S1x1x128_S128
    _ ((Step.read_full (View.whole main_arg40_scv) inb_S1000x128_S1000x128_0_0 I.ft14).trans H.ht14.symm)
    rfl (I.hin 14 3 inb_S26x4x128_S1x1x128_14_3_0 squeezes_S1x1x128_S128) (k0_off55 L 384#32) (k0_off55_eq L 3) (k0_off55_inb L hc 3) (pay79 I) (rd79 I)
theorem inv79 (H : Hyp I tbl col pay) : ∀ j' < 80, ∀ i ∈ Step.blkSet L 13 j', outAt79 I hc i = Cert.Spec.G tbl col i :=
  Step.out_step L 13 (Cert.Spec.G tbl col) 79 (k0_off55 L 384#32) (k0_off55_eq L 3) (k0_off55_inb L hc 3) (outAt78 I hc) (pay79 I) (payG79 I hc H)
    (inv78 I hc H)
theorem rd80 : (Rn 3 inb_S7x128x128_S1x128x128_3_0_0).view.read (Elt F) (rowsAt85 I) = gp80 I :=
  ((Rn_read_miss 3 1 inb_S7x128x128_S1x128x128_3_0_0 inb_S7x128x128_S1x128x128_1_0_0 (by decide) (rowsAt84 I) (gp85 I)).trans ((Rn_read_miss 3 0 inb_S7x128x128_S1x128x128_3_0_0 inb_S7x128x128_S1x128x128_0_0_0 (by decide) (rowsAt83 I) (gp84 I)).trans ((Rn_read_miss 3 6 inb_S7x128x128_S1x128x128_3_0_0 inb_S7x128x128_S1x128x128_6_0_0 (by decide) (rowsAt82 I) (gp83 I)).trans ((Rn_read_miss 3 5 inb_S7x128x128_S1x128x128_3_0_0 inb_S7x128x128_S1x128x128_5_0_0 (by decide) (rowsAt81 I) (gp82 I)).trans ((Rn_read_miss 3 4 inb_S7x128x128_S1x128x128_3_0_0 inb_S7x128x128_S1x128x128_4_0_0 (by decide) (rowsAt80 I) (gp81 I)).trans (Rn_read_hit 3 inb_S7x128x128_S1x128x128_3_0_0 (rowsAt79 I) (gp80 I)))))))
theorem payG80 (H : Hyp I tbl col pay) : ∀ y, pay80 I y = Cert.Spec.G tbl col ((Rect.unit (s := S16384x3328) (k0_off56 L 384#32) S128x128.size (k0_off56_inb L hc 3)).emb y) :=
  Step.item_payload tbl col H.hr L pay H.hpay I.fi H.hfi 15 3 inb_S26x4x128_S1x1x128_15_3_0 squeezes_S1x1x128_S128
    _ ((Step.read_full (View.whole main_arg41_scv) inb_S1000x128_S1000x128_0_0 I.ft15).trans H.ht15.symm)
    rfl (I.hin 15 3 inb_S26x4x128_S1x1x128_15_3_0 squeezes_S1x1x128_S128) (k0_off56 L 384#32) (k0_off56_eq L 3) (k0_off56_inb L hc 3) (pay80 I) (rd80 I)
theorem inv80 (H : Hyp I tbl col pay) : ∀ j' < 81, ∀ i ∈ Step.blkSet L 13 j', outAt80 I hc i = Cert.Spec.G tbl col i :=
  Step.out_step L 13 (Cert.Spec.G tbl col) 80 (k0_off56 L 384#32) (k0_off56_eq L 3) (k0_off56_inb L hc 3) (outAt79 I hc) (pay80 I) (payG80 I hc H)
    (inv79 I hc H)
theorem rd81 : (Rn 4 inb_S7x128x128_S1x128x128_4_0_0).view.read (Elt F) (rowsAt86 I) = gp81 I :=
  ((Rn_read_miss 4 2 inb_S7x128x128_S1x128x128_4_0_0 inb_S7x128x128_S1x128x128_2_0_0 (by decide) (rowsAt85 I) (gp86 I)).trans ((Rn_read_miss 4 1 inb_S7x128x128_S1x128x128_4_0_0 inb_S7x128x128_S1x128x128_1_0_0 (by decide) (rowsAt84 I) (gp85 I)).trans ((Rn_read_miss 4 0 inb_S7x128x128_S1x128x128_4_0_0 inb_S7x128x128_S1x128x128_0_0_0 (by decide) (rowsAt83 I) (gp84 I)).trans ((Rn_read_miss 4 6 inb_S7x128x128_S1x128x128_4_0_0 inb_S7x128x128_S1x128x128_6_0_0 (by decide) (rowsAt82 I) (gp83 I)).trans ((Rn_read_miss 4 5 inb_S7x128x128_S1x128x128_4_0_0 inb_S7x128x128_S1x128x128_5_0_0 (by decide) (rowsAt81 I) (gp82 I)).trans (Rn_read_hit 4 inb_S7x128x128_S1x128x128_4_0_0 (rowsAt80 I) (gp81 I)))))))
theorem payG81 (H : Hyp I tbl col pay) : ∀ y, pay81 I y = Cert.Spec.G tbl col ((Rect.unit (s := S16384x3328) (k0_off57 L 384#32) S128x128.size (k0_off57_inb L hc 3)).emb y) :=
  Step.item_payload tbl col H.hr L pay H.hpay I.fi H.hfi 16 3 inb_S26x4x128_S1x1x128_16_3_0 squeezes_S1x1x128_S128
    _ ((Step.read_full (View.whole main_arg42_scv) inb_S1000x128_S1000x128_0_0 I.ft16).trans H.ht16.symm)
    rfl (I.hin 16 3 inb_S26x4x128_S1x1x128_16_3_0 squeezes_S1x1x128_S128) (k0_off57 L 384#32) (k0_off57_eq L 3) (k0_off57_inb L hc 3) (pay81 I) (rd81 I)
theorem inv81 (H : Hyp I tbl col pay) : ∀ j' < 82, ∀ i ∈ Step.blkSet L 13 j', outAt81 I hc i = Cert.Spec.G tbl col i :=
  Step.out_step L 13 (Cert.Spec.G tbl col) 81 (k0_off57 L 384#32) (k0_off57_eq L 3) (k0_off57_inb L hc 3) (outAt80 I hc) (pay81 I) (payG81 I hc H)
    (inv80 I hc H)
theorem rd82 : (Rn 5 inb_S7x128x128_S1x128x128_5_0_0).view.read (Elt F) (rowsAt87 I) = gp82 I :=
  ((Rn_read_miss 5 3 inb_S7x128x128_S1x128x128_5_0_0 inb_S7x128x128_S1x128x128_3_0_0 (by decide) (rowsAt86 I) (gp87 I)).trans ((Rn_read_miss 5 2 inb_S7x128x128_S1x128x128_5_0_0 inb_S7x128x128_S1x128x128_2_0_0 (by decide) (rowsAt85 I) (gp86 I)).trans ((Rn_read_miss 5 1 inb_S7x128x128_S1x128x128_5_0_0 inb_S7x128x128_S1x128x128_1_0_0 (by decide) (rowsAt84 I) (gp85 I)).trans ((Rn_read_miss 5 0 inb_S7x128x128_S1x128x128_5_0_0 inb_S7x128x128_S1x128x128_0_0_0 (by decide) (rowsAt83 I) (gp84 I)).trans ((Rn_read_miss 5 6 inb_S7x128x128_S1x128x128_5_0_0 inb_S7x128x128_S1x128x128_6_0_0 (by decide) (rowsAt82 I) (gp83 I)).trans (Rn_read_hit 5 inb_S7x128x128_S1x128x128_5_0_0 (rowsAt81 I) (gp82 I)))))))
theorem payG82 (H : Hyp I tbl col pay) : ∀ y, pay82 I y = Cert.Spec.G tbl col ((Rect.unit (s := S16384x3328) (k0_off58 L 384#32) S128x128.size (k0_off58_inb L hc 3)).emb y) :=
  Step.item_payload tbl col H.hr L pay H.hpay I.fi H.hfi 17 3 inb_S26x4x128_S1x1x128_17_3_0 squeezes_S1x1x128_S128
    _ ((Step.read_full (View.whole main_arg43_scv) inb_S1000x128_S1000x128_0_0 I.ft17).trans H.ht17.symm)
    rfl (I.hin 17 3 inb_S26x4x128_S1x1x128_17_3_0 squeezes_S1x1x128_S128) (k0_off58 L 384#32) (k0_off58_eq L 3) (k0_off58_inb L hc 3) (pay82 I) (rd82 I)
theorem inv82 (H : Hyp I tbl col pay) : ∀ j' < 83, ∀ i ∈ Step.blkSet L 13 j', outAt82 I hc i = Cert.Spec.G tbl col i :=
  Step.out_step L 13 (Cert.Spec.G tbl col) 82 (k0_off58 L 384#32) (k0_off58_eq L 3) (k0_off58_inb L hc 3) (outAt81 I hc) (pay82 I) (payG82 I hc H)
    (inv81 I hc H)
theorem rd83 : (Rn 6 inb_S7x128x128_S1x128x128_6_0_0).view.read (Elt F) (rowsAt88 I) = gp83 I :=
  ((Rn_read_miss 6 4 inb_S7x128x128_S1x128x128_6_0_0 inb_S7x128x128_S1x128x128_4_0_0 (by decide) (rowsAt87 I) (gp88 I)).trans ((Rn_read_miss 6 3 inb_S7x128x128_S1x128x128_6_0_0 inb_S7x128x128_S1x128x128_3_0_0 (by decide) (rowsAt86 I) (gp87 I)).trans ((Rn_read_miss 6 2 inb_S7x128x128_S1x128x128_6_0_0 inb_S7x128x128_S1x128x128_2_0_0 (by decide) (rowsAt85 I) (gp86 I)).trans ((Rn_read_miss 6 1 inb_S7x128x128_S1x128x128_6_0_0 inb_S7x128x128_S1x128x128_1_0_0 (by decide) (rowsAt84 I) (gp85 I)).trans ((Rn_read_miss 6 0 inb_S7x128x128_S1x128x128_6_0_0 inb_S7x128x128_S1x128x128_0_0_0 (by decide) (rowsAt83 I) (gp84 I)).trans (Rn_read_hit 6 inb_S7x128x128_S1x128x128_6_0_0 (rowsAt82 I) (gp83 I)))))))
theorem payG83 (H : Hyp I tbl col pay) : ∀ y, pay83 I y = Cert.Spec.G tbl col ((Rect.unit (s := S16384x3328) (k0_off59 L 384#32) S128x128.size (k0_off59_inb L hc 3)).emb y) :=
  Step.item_payload tbl col H.hr L pay H.hpay I.fi H.hfi 18 3 inb_S26x4x128_S1x1x128_18_3_0 squeezes_S1x1x128_S128
    _ ((Step.read_full (View.whole main_arg44_scv) inb_S1000x128_S1000x128_0_0 I.ft18).trans H.ht18.symm)
    rfl (I.hin 18 3 inb_S26x4x128_S1x1x128_18_3_0 squeezes_S1x1x128_S128) (k0_off59 L 384#32) (k0_off59_eq L 3) (k0_off59_inb L hc 3) (pay83 I) (rd83 I)
theorem inv83 (H : Hyp I tbl col pay) : ∀ j' < 84, ∀ i ∈ Step.blkSet L 13 j', outAt83 I hc i = Cert.Spec.G tbl col i :=
  Step.out_step L 13 (Cert.Spec.G tbl col) 83 (k0_off59 L 384#32) (k0_off59_eq L 3) (k0_off59_inb L hc 3) (outAt82 I hc) (pay83 I) (payG83 I hc H)
    (inv82 I hc H)
theorem rd84 : (Rn 0 inb_S7x128x128_S1x128x128_0_0_0).view.read (Elt F) (rowsAt89 I) = gp84 I :=
  ((Rn_read_miss 0 5 inb_S7x128x128_S1x128x128_0_0_0 inb_S7x128x128_S1x128x128_5_0_0 (by decide) (rowsAt88 I) (gp89 I)).trans ((Rn_read_miss 0 4 inb_S7x128x128_S1x128x128_0_0_0 inb_S7x128x128_S1x128x128_4_0_0 (by decide) (rowsAt87 I) (gp88 I)).trans ((Rn_read_miss 0 3 inb_S7x128x128_S1x128x128_0_0_0 inb_S7x128x128_S1x128x128_3_0_0 (by decide) (rowsAt86 I) (gp87 I)).trans ((Rn_read_miss 0 2 inb_S7x128x128_S1x128x128_0_0_0 inb_S7x128x128_S1x128x128_2_0_0 (by decide) (rowsAt85 I) (gp86 I)).trans ((Rn_read_miss 0 1 inb_S7x128x128_S1x128x128_0_0_0 inb_S7x128x128_S1x128x128_1_0_0 (by decide) (rowsAt84 I) (gp85 I)).trans (Rn_read_hit 0 inb_S7x128x128_S1x128x128_0_0_0 (rowsAt83 I) (gp84 I)))))))
theorem payG84 (H : Hyp I tbl col pay) : ∀ y, pay84 I y = Cert.Spec.G tbl col ((Rect.unit (s := S16384x3328) (k0_off60 L 384#32) S128x128.size (k0_off60_inb L hc 3)).emb y) :=
  Step.item_payload tbl col H.hr L pay H.hpay I.fi H.hfi 19 3 inb_S26x4x128_S1x1x128_19_3_0 squeezes_S1x1x128_S128
    _ ((Step.read_full (View.whole main_arg45_scv) inb_S1000x128_S1000x128_0_0 I.ft19).trans H.ht19.symm)
    rfl (I.hin 19 3 inb_S26x4x128_S1x1x128_19_3_0 squeezes_S1x1x128_S128) (k0_off60 L 384#32) (k0_off60_eq L 3) (k0_off60_inb L hc 3) (pay84 I) (rd84 I)
theorem inv84 (H : Hyp I tbl col pay) : ∀ j' < 85, ∀ i ∈ Step.blkSet L 13 j', outAt84 I hc i = Cert.Spec.G tbl col i :=
  Step.out_step L 13 (Cert.Spec.G tbl col) 84 (k0_off60 L 384#32) (k0_off60_eq L 3) (k0_off60_inb L hc 3) (outAt83 I hc) (pay84 I) (payG84 I hc H)
    (inv83 I hc H)
theorem rd85 : (Rn 1 inb_S7x128x128_S1x128x128_1_0_0).view.read (Elt F) (rowsAt90 I) = gp85 I :=
  ((Rn_read_miss 1 6 inb_S7x128x128_S1x128x128_1_0_0 inb_S7x128x128_S1x128x128_6_0_0 (by decide) (rowsAt89 I) (gp90 I)).trans ((Rn_read_miss 1 5 inb_S7x128x128_S1x128x128_1_0_0 inb_S7x128x128_S1x128x128_5_0_0 (by decide) (rowsAt88 I) (gp89 I)).trans ((Rn_read_miss 1 4 inb_S7x128x128_S1x128x128_1_0_0 inb_S7x128x128_S1x128x128_4_0_0 (by decide) (rowsAt87 I) (gp88 I)).trans ((Rn_read_miss 1 3 inb_S7x128x128_S1x128x128_1_0_0 inb_S7x128x128_S1x128x128_3_0_0 (by decide) (rowsAt86 I) (gp87 I)).trans ((Rn_read_miss 1 2 inb_S7x128x128_S1x128x128_1_0_0 inb_S7x128x128_S1x128x128_2_0_0 (by decide) (rowsAt85 I) (gp86 I)).trans (Rn_read_hit 1 inb_S7x128x128_S1x128x128_1_0_0 (rowsAt84 I) (gp85 I)))))))
theorem payG85 (H : Hyp I tbl col pay) : ∀ y, pay85 I y = Cert.Spec.G tbl col ((Rect.unit (s := S16384x3328) (k0_off61 L 384#32) S128x128.size (k0_off61_inb L hc 3)).emb y) :=
  Step.item_payload tbl col H.hr L pay H.hpay I.fi H.hfi 20 3 inb_S26x4x128_S1x1x128_20_3_0 squeezes_S1x1x128_S128
    _ ((Step.read_full (View.whole main_arg46_scv) inb_S1000x128_S1000x128_0_0 I.ft20).trans H.ht20.symm)
    rfl (I.hin 20 3 inb_S26x4x128_S1x1x128_20_3_0 squeezes_S1x1x128_S128) (k0_off61 L 384#32) (k0_off61_eq L 3) (k0_off61_inb L hc 3) (pay85 I) (rd85 I)
theorem inv85 (H : Hyp I tbl col pay) : ∀ j' < 86, ∀ i ∈ Step.blkSet L 13 j', outAt85 I hc i = Cert.Spec.G tbl col i :=
  Step.out_step L 13 (Cert.Spec.G tbl col) 85 (k0_off61 L 384#32) (k0_off61_eq L 3) (k0_off61_inb L hc 3) (outAt84 I hc) (pay85 I) (payG85 I hc H)
    (inv84 I hc H)
theorem rd86 : (Rn 2 inb_S7x128x128_S1x128x128_2_0_0).view.read (Elt F) (rowsAt91 I) = gp86 I :=
  ((Rn_read_miss 2 0 inb_S7x128x128_S1x128x128_2_0_0 inb_S7x128x128_S1x128x128_0_0_0 (by decide) (rowsAt90 I) (gp91 I)).trans ((Rn_read_miss 2 6 inb_S7x128x128_S1x128x128_2_0_0 inb_S7x128x128_S1x128x128_6_0_0 (by decide) (rowsAt89 I) (gp90 I)).trans ((Rn_read_miss 2 5 inb_S7x128x128_S1x128x128_2_0_0 inb_S7x128x128_S1x128x128_5_0_0 (by decide) (rowsAt88 I) (gp89 I)).trans ((Rn_read_miss 2 4 inb_S7x128x128_S1x128x128_2_0_0 inb_S7x128x128_S1x128x128_4_0_0 (by decide) (rowsAt87 I) (gp88 I)).trans ((Rn_read_miss 2 3 inb_S7x128x128_S1x128x128_2_0_0 inb_S7x128x128_S1x128x128_3_0_0 (by decide) (rowsAt86 I) (gp87 I)).trans (Rn_read_hit 2 inb_S7x128x128_S1x128x128_2_0_0 (rowsAt85 I) (gp86 I)))))))
theorem payG86 (H : Hyp I tbl col pay) : ∀ y, pay86 I y = Cert.Spec.G tbl col ((Rect.unit (s := S16384x3328) (k0_off62 L 384#32) S128x128.size (k0_off62_inb L hc 3)).emb y) :=
  Step.item_payload tbl col H.hr L pay H.hpay I.fi H.hfi 21 3 inb_S26x4x128_S1x1x128_21_3_0 squeezes_S1x1x128_S128
    _ ((Step.read_full (View.whole main_arg47_scv) inb_S1000x128_S1000x128_0_0 I.ft21).trans H.ht21.symm)
    rfl (I.hin 21 3 inb_S26x4x128_S1x1x128_21_3_0 squeezes_S1x1x128_S128) (k0_off62 L 384#32) (k0_off62_eq L 3) (k0_off62_inb L hc 3) (pay86 I) (rd86 I)
theorem inv86 (H : Hyp I tbl col pay) : ∀ j' < 87, ∀ i ∈ Step.blkSet L 13 j', outAt86 I hc i = Cert.Spec.G tbl col i :=
  Step.out_step L 13 (Cert.Spec.G tbl col) 86 (k0_off62 L 384#32) (k0_off62_eq L 3) (k0_off62_inb L hc 3) (outAt85 I hc) (pay86 I) (payG86 I hc H)
    (inv85 I hc H)
theorem rd87 : (Rn 3 inb_S7x128x128_S1x128x128_3_0_0).view.read (Elt F) (rowsAt92 I) = gp87 I :=
  ((Rn_read_miss 3 1 inb_S7x128x128_S1x128x128_3_0_0 inb_S7x128x128_S1x128x128_1_0_0 (by decide) (rowsAt91 I) (gp92 I)).trans ((Rn_read_miss 3 0 inb_S7x128x128_S1x128x128_3_0_0 inb_S7x128x128_S1x128x128_0_0_0 (by decide) (rowsAt90 I) (gp91 I)).trans ((Rn_read_miss 3 6 inb_S7x128x128_S1x128x128_3_0_0 inb_S7x128x128_S1x128x128_6_0_0 (by decide) (rowsAt89 I) (gp90 I)).trans ((Rn_read_miss 3 5 inb_S7x128x128_S1x128x128_3_0_0 inb_S7x128x128_S1x128x128_5_0_0 (by decide) (rowsAt88 I) (gp89 I)).trans ((Rn_read_miss 3 4 inb_S7x128x128_S1x128x128_3_0_0 inb_S7x128x128_S1x128x128_4_0_0 (by decide) (rowsAt87 I) (gp88 I)).trans (Rn_read_hit 3 inb_S7x128x128_S1x128x128_3_0_0 (rowsAt86 I) (gp87 I)))))))
theorem payG87 (H : Hyp I tbl col pay) : ∀ y, pay87 I y = Cert.Spec.G tbl col ((Rect.unit (s := S16384x3328) (k0_off63 L 384#32) S128x128.size (k0_off63_inb L hc 3)).emb y) :=
  Step.item_payload tbl col H.hr L pay H.hpay I.fi H.hfi 22 3 inb_S26x4x128_S1x1x128_22_3_0 squeezes_S1x1x128_S128
    _ ((Step.read_full (View.whole main_arg48_scv) inb_S1000x128_S1000x128_0_0 I.ft22).trans H.ht22.symm)
    rfl (I.hin 22 3 inb_S26x4x128_S1x1x128_22_3_0 squeezes_S1x1x128_S128) (k0_off63 L 384#32) (k0_off63_eq L 3) (k0_off63_inb L hc 3) (pay87 I) (rd87 I)
theorem inv87 (H : Hyp I tbl col pay) : ∀ j' < 88, ∀ i ∈ Step.blkSet L 13 j', outAt87 I hc i = Cert.Spec.G tbl col i :=
  Step.out_step L 13 (Cert.Spec.G tbl col) 87 (k0_off63 L 384#32) (k0_off63_eq L 3) (k0_off63_inb L hc 3) (outAt86 I hc) (pay87 I) (payG87 I hc H)
    (inv86 I hc H)
theorem rd88 : (Rn 4 inb_S7x128x128_S1x128x128_4_0_0).view.read (Elt F) (rowsAt93 I) = gp88 I :=
  ((Rn_read_miss 4 2 inb_S7x128x128_S1x128x128_4_0_0 inb_S7x128x128_S1x128x128_2_0_0 (by decide) (rowsAt92 I) (gp93 I)).trans ((Rn_read_miss 4 1 inb_S7x128x128_S1x128x128_4_0_0 inb_S7x128x128_S1x128x128_1_0_0 (by decide) (rowsAt91 I) (gp92 I)).trans ((Rn_read_miss 4 0 inb_S7x128x128_S1x128x128_4_0_0 inb_S7x128x128_S1x128x128_0_0_0 (by decide) (rowsAt90 I) (gp91 I)).trans ((Rn_read_miss 4 6 inb_S7x128x128_S1x128x128_4_0_0 inb_S7x128x128_S1x128x128_6_0_0 (by decide) (rowsAt89 I) (gp90 I)).trans ((Rn_read_miss 4 5 inb_S7x128x128_S1x128x128_4_0_0 inb_S7x128x128_S1x128x128_5_0_0 (by decide) (rowsAt88 I) (gp89 I)).trans (Rn_read_hit 4 inb_S7x128x128_S1x128x128_4_0_0 (rowsAt87 I) (gp88 I)))))))
theorem payG88 (H : Hyp I tbl col pay) : ∀ y, pay88 I y = Cert.Spec.G tbl col ((Rect.unit (s := S16384x3328) (k0_off64 L 384#32) S128x128.size (k0_off64_inb L hc 3)).emb y) :=
  Step.item_payload tbl col H.hr L pay H.hpay I.fi H.hfi 23 3 inb_S26x4x128_S1x1x128_23_3_0 squeezes_S1x1x128_S128
    _ ((Step.read_full (View.whole main_arg49_scv) inb_S1000x128_S1000x128_0_0 I.ft23).trans H.ht23.symm)
    rfl (I.hin 23 3 inb_S26x4x128_S1x1x128_23_3_0 squeezes_S1x1x128_S128) (k0_off64 L 384#32) (k0_off64_eq L 3) (k0_off64_inb L hc 3) (pay88 I) (rd88 I)
theorem inv88 (H : Hyp I tbl col pay) : ∀ j' < 89, ∀ i ∈ Step.blkSet L 13 j', outAt88 I hc i = Cert.Spec.G tbl col i :=
  Step.out_step L 13 (Cert.Spec.G tbl col) 88 (k0_off64 L 384#32) (k0_off64_eq L 3) (k0_off64_inb L hc 3) (outAt87 I hc) (pay88 I) (payG88 I hc H)
    (inv87 I hc H)
theorem rd89 : (Rn 5 inb_S7x128x128_S1x128x128_5_0_0).view.read (Elt F) (rowsAt94 I) = gp89 I :=
  ((Rn_read_miss 5 3 inb_S7x128x128_S1x128x128_5_0_0 inb_S7x128x128_S1x128x128_3_0_0 (by decide) (rowsAt93 I) (gp94 I)).trans ((Rn_read_miss 5 2 inb_S7x128x128_S1x128x128_5_0_0 inb_S7x128x128_S1x128x128_2_0_0 (by decide) (rowsAt92 I) (gp93 I)).trans ((Rn_read_miss 5 1 inb_S7x128x128_S1x128x128_5_0_0 inb_S7x128x128_S1x128x128_1_0_0 (by decide) (rowsAt91 I) (gp92 I)).trans ((Rn_read_miss 5 0 inb_S7x128x128_S1x128x128_5_0_0 inb_S7x128x128_S1x128x128_0_0_0 (by decide) (rowsAt90 I) (gp91 I)).trans ((Rn_read_miss 5 6 inb_S7x128x128_S1x128x128_5_0_0 inb_S7x128x128_S1x128x128_6_0_0 (by decide) (rowsAt89 I) (gp90 I)).trans (Rn_read_hit 5 inb_S7x128x128_S1x128x128_5_0_0 (rowsAt88 I) (gp89 I)))))))
theorem payG89 (H : Hyp I tbl col pay) : ∀ y, pay89 I y = Cert.Spec.G tbl col ((Rect.unit (s := S16384x3328) (k0_off65 L 384#32) S128x128.size (k0_off65_inb L hc 3)).emb y) :=
  Step.item_payload tbl col H.hr L pay H.hpay I.fi H.hfi 24 3 inb_S26x4x128_S1x1x128_24_3_0 squeezes_S1x1x128_S128
    _ ((Step.read_full (View.whole main_arg50_scv) inb_S1000x128_S1000x128_0_0 I.ft24).trans H.ht24.symm)
    rfl (I.hin 24 3 inb_S26x4x128_S1x1x128_24_3_0 squeezes_S1x1x128_S128) (k0_off65 L 384#32) (k0_off65_eq L 3) (k0_off65_inb L hc 3) (pay89 I) (rd89 I)
theorem inv89 (H : Hyp I tbl col pay) : ∀ j' < 90, ∀ i ∈ Step.blkSet L 13 j', outAt89 I hc i = Cert.Spec.G tbl col i :=
  Step.out_step L 13 (Cert.Spec.G tbl col) 89 (k0_off65 L 384#32) (k0_off65_eq L 3) (k0_off65_inb L hc 3) (outAt88 I hc) (pay89 I) (payG89 I hc H)
    (inv88 I hc H)
theorem rd90 : (Rn 6 inb_S7x128x128_S1x128x128_6_0_0).view.read (Elt F) (rowsAt95 I) = gp90 I :=
  ((Rn_read_miss 6 4 inb_S7x128x128_S1x128x128_6_0_0 inb_S7x128x128_S1x128x128_4_0_0 (by decide) (rowsAt94 I) (gp95 I)).trans ((Rn_read_miss 6 3 inb_S7x128x128_S1x128x128_6_0_0 inb_S7x128x128_S1x128x128_3_0_0 (by decide) (rowsAt93 I) (gp94 I)).trans ((Rn_read_miss 6 2 inb_S7x128x128_S1x128x128_6_0_0 inb_S7x128x128_S1x128x128_2_0_0 (by decide) (rowsAt92 I) (gp93 I)).trans ((Rn_read_miss 6 1 inb_S7x128x128_S1x128x128_6_0_0 inb_S7x128x128_S1x128x128_1_0_0 (by decide) (rowsAt91 I) (gp92 I)).trans ((Rn_read_miss 6 0 inb_S7x128x128_S1x128x128_6_0_0 inb_S7x128x128_S1x128x128_0_0_0 (by decide) (rowsAt90 I) (gp91 I)).trans (Rn_read_hit 6 inb_S7x128x128_S1x128x128_6_0_0 (rowsAt89 I) (gp90 I)))))))
theorem payG90 (H : Hyp I tbl col pay) : ∀ y, pay90 I y = Cert.Spec.G tbl col ((Rect.unit (s := S16384x3328) (k0_off66 L 384#32) S128x128.size (k0_off66_inb L hc 3)).emb y) :=
  Step.item_payload tbl col H.hr L pay H.hpay I.fi H.hfi 25 3 inb_S26x4x128_S1x1x128_25_3_0 squeezes_S1x1x128_S128
    _ ((Step.read_full (View.whole main_arg51_scv) inb_S1000x128_S1000x128_0_0 I.ft25).trans H.ht25.symm)
    rfl (I.hin 25 3 inb_S26x4x128_S1x1x128_25_3_0 squeezes_S1x1x128_S128) (k0_off66 L 384#32) (k0_off66_eq L 3) (k0_off66_inb L hc 3) (pay90 I) (rd90 I)
theorem inv90 (H : Hyp I tbl col pay) : ∀ j' < 91, ∀ i ∈ Step.blkSet L 13 j', outAt90 I hc i = Cert.Spec.G tbl col i :=
  Step.out_step L 13 (Cert.Spec.G tbl col) 90 (k0_off66 L 384#32) (k0_off66_eq L 3) (k0_off66_inb L hc 3) (outAt89 I hc) (pay90 I) (payG90 I hc H)
    (inv89 I hc H)
theorem rd91 : (Rn 0 inb_S7x128x128_S1x128x128_0_0_0).view.read (Elt F) (rowsAt96 I) = gp91 I :=
  ((Rn_read_miss 0 5 inb_S7x128x128_S1x128x128_0_0_0 inb_S7x128x128_S1x128x128_5_0_0 (by decide) (rowsAt95 I) (gp96 I)).trans ((Rn_read_miss 0 4 inb_S7x128x128_S1x128x128_0_0_0 inb_S7x128x128_S1x128x128_4_0_0 (by decide) (rowsAt94 I) (gp95 I)).trans ((Rn_read_miss 0 3 inb_S7x128x128_S1x128x128_0_0_0 inb_S7x128x128_S1x128x128_3_0_0 (by decide) (rowsAt93 I) (gp94 I)).trans ((Rn_read_miss 0 2 inb_S7x128x128_S1x128x128_0_0_0 inb_S7x128x128_S1x128x128_2_0_0 (by decide) (rowsAt92 I) (gp93 I)).trans ((Rn_read_miss 0 1 inb_S7x128x128_S1x128x128_0_0_0 inb_S7x128x128_S1x128x128_1_0_0 (by decide) (rowsAt91 I) (gp92 I)).trans (Rn_read_hit 0 inb_S7x128x128_S1x128x128_0_0_0 (rowsAt90 I) (gp91 I)))))))
theorem payG91 (H : Hyp I tbl col pay) : ∀ y, pay91 I y = Cert.Spec.G tbl col ((Rect.unit (s := S16384x3328) (k0_off67 L 384#32) S128x128.size (k0_off67_inb L hc 3)).emb y) :=
  Step.item_payload tbl col H.hr L pay H.hpay I.fi H.hfi 0 3 inb_S26x4x128_S1x1x128_0_3_0 squeezes_S1x1x128_S128
    _ ((Step.read_full (View.whole main_arg26_scv) inb_S1000x128_S1000x128_0_0 I.ft0).trans H.ht0.symm)
    rfl (I.hin 0 3 inb_S26x4x128_S1x1x128_0_3_0 squeezes_S1x1x128_S128) (k0_off67 L 384#32) (k0_off67_eq L 3) (k0_off67_inb L hc 3) (pay91 I) (rd91 I)
theorem inv91 (H : Hyp I tbl col pay) : ∀ j' < 92, ∀ i ∈ Step.blkSet L 13 j', outAt91 I hc i = Cert.Spec.G tbl col i :=
  Step.out_step L 13 (Cert.Spec.G tbl col) 91 (k0_off67 L 384#32) (k0_off67_eq L 3) (k0_off67_inb L hc 3) (outAt90 I hc) (pay91 I) (payG91 I hc H)
    (inv90 I hc H)
theorem rd92 : (Rn 1 inb_S7x128x128_S1x128x128_1_0_0).view.read (Elt F) (rowsAt97 I) = gp92 I :=
  ((Rn_read_miss 1 6 inb_S7x128x128_S1x128x128_1_0_0 inb_S7x128x128_S1x128x128_6_0_0 (by decide) (rowsAt96 I) (gp97 I)).trans ((Rn_read_miss 1 5 inb_S7x128x128_S1x128x128_1_0_0 inb_S7x128x128_S1x128x128_5_0_0 (by decide) (rowsAt95 I) (gp96 I)).trans ((Rn_read_miss 1 4 inb_S7x128x128_S1x128x128_1_0_0 inb_S7x128x128_S1x128x128_4_0_0 (by decide) (rowsAt94 I) (gp95 I)).trans ((Rn_read_miss 1 3 inb_S7x128x128_S1x128x128_1_0_0 inb_S7x128x128_S1x128x128_3_0_0 (by decide) (rowsAt93 I) (gp94 I)).trans ((Rn_read_miss 1 2 inb_S7x128x128_S1x128x128_1_0_0 inb_S7x128x128_S1x128x128_2_0_0 (by decide) (rowsAt92 I) (gp93 I)).trans (Rn_read_hit 1 inb_S7x128x128_S1x128x128_1_0_0 (rowsAt91 I) (gp92 I)))))))
theorem payG92 (H : Hyp I tbl col pay) : ∀ y, pay92 I y = Cert.Spec.G tbl col ((Rect.unit (s := S16384x3328) (k0_off68 L 384#32) S128x128.size (k0_off68_inb L hc 3)).emb y) :=
  Step.item_payload tbl col H.hr L pay H.hpay I.fi H.hfi 1 3 inb_S26x4x128_S1x1x128_1_3_0 squeezes_S1x1x128_S128
    _ ((Step.read_full (View.whole main_arg27_scv) inb_S1000x128_S1000x128_0_0 I.ft1).trans H.ht1.symm)
    rfl (I.hin 1 3 inb_S26x4x128_S1x1x128_1_3_0 squeezes_S1x1x128_S128) (k0_off68 L 384#32) (k0_off68_eq L 3) (k0_off68_inb L hc 3) (pay92 I) (rd92 I)
theorem inv92 (H : Hyp I tbl col pay) : ∀ j' < 93, ∀ i ∈ Step.blkSet L 13 j', outAt92 I hc i = Cert.Spec.G tbl col i :=
  Step.out_step L 13 (Cert.Spec.G tbl col) 92 (k0_off68 L 384#32) (k0_off68_eq L 3) (k0_off68_inb L hc 3) (outAt91 I hc) (pay92 I) (payG92 I hc H)
    (inv91 I hc H)
theorem rd93 : (Rn 2 inb_S7x128x128_S1x128x128_2_0_0).view.read (Elt F) (rowsAt98 I) = gp93 I :=
  ((Rn_read_miss 2 0 inb_S7x128x128_S1x128x128_2_0_0 inb_S7x128x128_S1x128x128_0_0_0 (by decide) (rowsAt97 I) (gp98 I)).trans ((Rn_read_miss 2 6 inb_S7x128x128_S1x128x128_2_0_0 inb_S7x128x128_S1x128x128_6_0_0 (by decide) (rowsAt96 I) (gp97 I)).trans ((Rn_read_miss 2 5 inb_S7x128x128_S1x128x128_2_0_0 inb_S7x128x128_S1x128x128_5_0_0 (by decide) (rowsAt95 I) (gp96 I)).trans ((Rn_read_miss 2 4 inb_S7x128x128_S1x128x128_2_0_0 inb_S7x128x128_S1x128x128_4_0_0 (by decide) (rowsAt94 I) (gp95 I)).trans ((Rn_read_miss 2 3 inb_S7x128x128_S1x128x128_2_0_0 inb_S7x128x128_S1x128x128_3_0_0 (by decide) (rowsAt93 I) (gp94 I)).trans (Rn_read_hit 2 inb_S7x128x128_S1x128x128_2_0_0 (rowsAt92 I) (gp93 I)))))))
theorem payG93 (H : Hyp I tbl col pay) : ∀ y, pay93 I y = Cert.Spec.G tbl col ((Rect.unit (s := S16384x3328) (k0_off69 L 384#32) S128x128.size (k0_off69_inb L hc 3)).emb y) :=
  Step.item_payload tbl col H.hr L pay H.hpay I.fi H.hfi 2 3 inb_S26x4x128_S1x1x128_2_3_0 squeezes_S1x1x128_S128
    _ ((Step.read_full (View.whole main_arg28_scv) inb_S1000x128_S1000x128_0_0 I.ft2).trans H.ht2.symm)
    rfl (I.hin 2 3 inb_S26x4x128_S1x1x128_2_3_0 squeezes_S1x1x128_S128) (k0_off69 L 384#32) (k0_off69_eq L 3) (k0_off69_inb L hc 3) (pay93 I) (rd93 I)
theorem inv93 (H : Hyp I tbl col pay) : ∀ j' < 94, ∀ i ∈ Step.blkSet L 13 j', outAt93 I hc i = Cert.Spec.G tbl col i :=
  Step.out_step L 13 (Cert.Spec.G tbl col) 93 (k0_off69 L 384#32) (k0_off69_eq L 3) (k0_off69_inb L hc 3) (outAt92 I hc) (pay93 I) (payG93 I hc H)
    (inv92 I hc H)
theorem rd94 : (Rn 3 inb_S7x128x128_S1x128x128_3_0_0).view.read (Elt F) (rowsAt99 I) = gp94 I :=
  ((Rn_read_miss 3 1 inb_S7x128x128_S1x128x128_3_0_0 inb_S7x128x128_S1x128x128_1_0_0 (by decide) (rowsAt98 I) (gp99 I)).trans ((Rn_read_miss 3 0 inb_S7x128x128_S1x128x128_3_0_0 inb_S7x128x128_S1x128x128_0_0_0 (by decide) (rowsAt97 I) (gp98 I)).trans ((Rn_read_miss 3 6 inb_S7x128x128_S1x128x128_3_0_0 inb_S7x128x128_S1x128x128_6_0_0 (by decide) (rowsAt96 I) (gp97 I)).trans ((Rn_read_miss 3 5 inb_S7x128x128_S1x128x128_3_0_0 inb_S7x128x128_S1x128x128_5_0_0 (by decide) (rowsAt95 I) (gp96 I)).trans ((Rn_read_miss 3 4 inb_S7x128x128_S1x128x128_3_0_0 inb_S7x128x128_S1x128x128_4_0_0 (by decide) (rowsAt94 I) (gp95 I)).trans (Rn_read_hit 3 inb_S7x128x128_S1x128x128_3_0_0 (rowsAt93 I) (gp94 I)))))))
theorem payG94 (H : Hyp I tbl col pay) : ∀ y, pay94 I y = Cert.Spec.G tbl col ((Rect.unit (s := S16384x3328) (k0_off70 L 384#32) S128x128.size (k0_off70_inb L hc 3)).emb y) :=
  Step.item_payload tbl col H.hr L pay H.hpay I.fi H.hfi 3 3 inb_S26x4x128_S1x1x128_3_3_0 squeezes_S1x1x128_S128
    _ ((Step.read_full (View.whole main_arg29_scv) inb_S1000x128_S1000x128_0_0 I.ft3).trans H.ht3.symm)
    rfl (I.hin 3 3 inb_S26x4x128_S1x1x128_3_3_0 squeezes_S1x1x128_S128) (k0_off70 L 384#32) (k0_off70_eq L 3) (k0_off70_inb L hc 3) (pay94 I) (rd94 I)
theorem inv94 (H : Hyp I tbl col pay) : ∀ j' < 95, ∀ i ∈ Step.blkSet L 13 j', outAt94 I hc i = Cert.Spec.G tbl col i :=
  Step.out_step L 13 (Cert.Spec.G tbl col) 94 (k0_off70 L 384#32) (k0_off70_eq L 3) (k0_off70_inb L hc 3) (outAt93 I hc) (pay94 I) (payG94 I hc H)
    (inv93 I hc H)
theorem rd95 : (Rn 4 inb_S7x128x128_S1x128x128_4_0_0).view.read (Elt F) (rowsAt100 I) = gp95 I :=
  ((Rn_read_miss 4 2 inb_S7x128x128_S1x128x128_4_0_0 inb_S7x128x128_S1x128x128_2_0_0 (by decide) (rowsAt99 I) (gp100 I)).trans ((Rn_read_miss 4 1 inb_S7x128x128_S1x128x128_4_0_0 inb_S7x128x128_S1x128x128_1_0_0 (by decide) (rowsAt98 I) (gp99 I)).trans ((Rn_read_miss 4 0 inb_S7x128x128_S1x128x128_4_0_0 inb_S7x128x128_S1x128x128_0_0_0 (by decide) (rowsAt97 I) (gp98 I)).trans ((Rn_read_miss 4 6 inb_S7x128x128_S1x128x128_4_0_0 inb_S7x128x128_S1x128x128_6_0_0 (by decide) (rowsAt96 I) (gp97 I)).trans ((Rn_read_miss 4 5 inb_S7x128x128_S1x128x128_4_0_0 inb_S7x128x128_S1x128x128_5_0_0 (by decide) (rowsAt95 I) (gp96 I)).trans (Rn_read_hit 4 inb_S7x128x128_S1x128x128_4_0_0 (rowsAt94 I) (gp95 I)))))))
theorem payG95 (H : Hyp I tbl col pay) : ∀ y, pay95 I y = Cert.Spec.G tbl col ((Rect.unit (s := S16384x3328) (k0_off71 L 384#32) S128x128.size (k0_off71_inb L hc 3)).emb y) :=
  Step.item_payload tbl col H.hr L pay H.hpay I.fi H.hfi 4 3 inb_S26x4x128_S1x1x128_4_3_0 squeezes_S1x1x128_S128
    _ ((Step.read_full (View.whole main_arg30_scv) inb_S1000x128_S1000x128_0_0 I.ft4).trans H.ht4.symm)
    rfl (I.hin 4 3 inb_S26x4x128_S1x1x128_4_3_0 squeezes_S1x1x128_S128) (k0_off71 L 384#32) (k0_off71_eq L 3) (k0_off71_inb L hc 3) (pay95 I) (rd95 I)
theorem inv95 (H : Hyp I tbl col pay) : ∀ j' < 96, ∀ i ∈ Step.blkSet L 13 j', outAt95 I hc i = Cert.Spec.G tbl col i :=
  Step.out_step L 13 (Cert.Spec.G tbl col) 95 (k0_off71 L 384#32) (k0_off71_eq L 3) (k0_off71_inb L hc 3) (outAt94 I hc) (pay95 I) (payG95 I hc H)
    (inv94 I hc H)
theorem rd96 : (Rn 5 inb_S7x128x128_S1x128x128_5_0_0).view.read (Elt F) (rowsAt101 I) = gp96 I :=
  ((Rn_read_miss 5 3 inb_S7x128x128_S1x128x128_5_0_0 inb_S7x128x128_S1x128x128_3_0_0 (by decide) (rowsAt100 I) (gp101 I)).trans ((Rn_read_miss 5 2 inb_S7x128x128_S1x128x128_5_0_0 inb_S7x128x128_S1x128x128_2_0_0 (by decide) (rowsAt99 I) (gp100 I)).trans ((Rn_read_miss 5 1 inb_S7x128x128_S1x128x128_5_0_0 inb_S7x128x128_S1x128x128_1_0_0 (by decide) (rowsAt98 I) (gp99 I)).trans ((Rn_read_miss 5 0 inb_S7x128x128_S1x128x128_5_0_0 inb_S7x128x128_S1x128x128_0_0_0 (by decide) (rowsAt97 I) (gp98 I)).trans ((Rn_read_miss 5 6 inb_S7x128x128_S1x128x128_5_0_0 inb_S7x128x128_S1x128x128_6_0_0 (by decide) (rowsAt96 I) (gp97 I)).trans (Rn_read_hit 5 inb_S7x128x128_S1x128x128_5_0_0 (rowsAt95 I) (gp96 I)))))))
theorem payG96 (H : Hyp I tbl col pay) : ∀ y, pay96 I y = Cert.Spec.G tbl col ((Rect.unit (s := S16384x3328) (k0_off72 L 384#32) S128x128.size (k0_off72_inb L hc 3)).emb y) :=
  Step.item_payload tbl col H.hr L pay H.hpay I.fi H.hfi 5 3 inb_S26x4x128_S1x1x128_5_3_0 squeezes_S1x1x128_S128
    _ ((Step.read_full (View.whole main_arg31_scv) inb_S1000x128_S1000x128_0_0 I.ft5).trans H.ht5.symm)
    rfl (I.hin 5 3 inb_S26x4x128_S1x1x128_5_3_0 squeezes_S1x1x128_S128) (k0_off72 L 384#32) (k0_off72_eq L 3) (k0_off72_inb L hc 3) (pay96 I) (rd96 I)
theorem inv96 (H : Hyp I tbl col pay) : ∀ j' < 97, ∀ i ∈ Step.blkSet L 13 j', outAt96 I hc i = Cert.Spec.G tbl col i :=
  Step.out_step L 13 (Cert.Spec.G tbl col) 96 (k0_off72 L 384#32) (k0_off72_eq L 3) (k0_off72_inb L hc 3) (outAt95 I hc) (pay96 I) (payG96 I hc H)
    (inv95 I hc H)
theorem rd97 : (Rn 6 inb_S7x128x128_S1x128x128_6_0_0).view.read (Elt F) (rowsAt102 I) = gp97 I :=
  ((Rn_read_miss 6 4 inb_S7x128x128_S1x128x128_6_0_0 inb_S7x128x128_S1x128x128_4_0_0 (by decide) (rowsAt101 I) (gp102 I)).trans ((Rn_read_miss 6 3 inb_S7x128x128_S1x128x128_6_0_0 inb_S7x128x128_S1x128x128_3_0_0 (by decide) (rowsAt100 I) (gp101 I)).trans ((Rn_read_miss 6 2 inb_S7x128x128_S1x128x128_6_0_0 inb_S7x128x128_S1x128x128_2_0_0 (by decide) (rowsAt99 I) (gp100 I)).trans ((Rn_read_miss 6 1 inb_S7x128x128_S1x128x128_6_0_0 inb_S7x128x128_S1x128x128_1_0_0 (by decide) (rowsAt98 I) (gp99 I)).trans ((Rn_read_miss 6 0 inb_S7x128x128_S1x128x128_6_0_0 inb_S7x128x128_S1x128x128_0_0_0 (by decide) (rowsAt97 I) (gp98 I)).trans (Rn_read_hit 6 inb_S7x128x128_S1x128x128_6_0_0 (rowsAt96 I) (gp97 I)))))))
theorem payG97 (H : Hyp I tbl col pay) : ∀ y, pay97 I y = Cert.Spec.G tbl col ((Rect.unit (s := S16384x3328) (k0_off73 L 384#32) S128x128.size (k0_off73_inb L hc 3)).emb y) :=
  Step.item_payload tbl col H.hr L pay H.hpay I.fi H.hfi 6 3 inb_S26x4x128_S1x1x128_6_3_0 squeezes_S1x1x128_S128
    _ ((Step.read_full (View.whole main_arg32_scv) inb_S1000x128_S1000x128_0_0 I.ft6).trans H.ht6.symm)
    rfl (I.hin 6 3 inb_S26x4x128_S1x1x128_6_3_0 squeezes_S1x1x128_S128) (k0_off73 L 384#32) (k0_off73_eq L 3) (k0_off73_inb L hc 3) (pay97 I) (rd97 I)
theorem inv97 (H : Hyp I tbl col pay) : ∀ j' < 98, ∀ i ∈ Step.blkSet L 13 j', outAt97 I hc i = Cert.Spec.G tbl col i :=
  Step.out_step L 13 (Cert.Spec.G tbl col) 97 (k0_off73 L 384#32) (k0_off73_eq L 3) (k0_off73_inb L hc 3) (outAt96 I hc) (pay97 I) (payG97 I hc H)
    (inv96 I hc H)
theorem rd98 : (Rn 0 inb_S7x128x128_S1x128x128_0_0_0).view.read (Elt F) (rowsAt103 I) = gp98 I :=
  ((Rn_read_miss 0 5 inb_S7x128x128_S1x128x128_0_0_0 inb_S7x128x128_S1x128x128_5_0_0 (by decide) (rowsAt102 I) (gp103 I)).trans ((Rn_read_miss 0 4 inb_S7x128x128_S1x128x128_0_0_0 inb_S7x128x128_S1x128x128_4_0_0 (by decide) (rowsAt101 I) (gp102 I)).trans ((Rn_read_miss 0 3 inb_S7x128x128_S1x128x128_0_0_0 inb_S7x128x128_S1x128x128_3_0_0 (by decide) (rowsAt100 I) (gp101 I)).trans ((Rn_read_miss 0 2 inb_S7x128x128_S1x128x128_0_0_0 inb_S7x128x128_S1x128x128_2_0_0 (by decide) (rowsAt99 I) (gp100 I)).trans ((Rn_read_miss 0 1 inb_S7x128x128_S1x128x128_0_0_0 inb_S7x128x128_S1x128x128_1_0_0 (by decide) (rowsAt98 I) (gp99 I)).trans (Rn_read_hit 0 inb_S7x128x128_S1x128x128_0_0_0 (rowsAt97 I) (gp98 I)))))))
theorem payG98 (H : Hyp I tbl col pay) : ∀ y, pay98 I y = Cert.Spec.G tbl col ((Rect.unit (s := S16384x3328) (k0_off74 L 384#32) S128x128.size (k0_off74_inb L hc 3)).emb y) :=
  Step.item_payload tbl col H.hr L pay H.hpay I.fi H.hfi 7 3 inb_S26x4x128_S1x1x128_7_3_0 squeezes_S1x1x128_S128
    _ ((Step.read_full (View.whole main_arg33_scv) inb_S1000x128_S1000x128_0_0 I.ft7).trans H.ht7.symm)
    rfl (I.hin 7 3 inb_S26x4x128_S1x1x128_7_3_0 squeezes_S1x1x128_S128) (k0_off74 L 384#32) (k0_off74_eq L 3) (k0_off74_inb L hc 3) (pay98 I) (rd98 I)
theorem inv98 (H : Hyp I tbl col pay) : ∀ j' < 99, ∀ i ∈ Step.blkSet L 13 j', outAt98 I hc i = Cert.Spec.G tbl col i :=
  Step.out_step L 13 (Cert.Spec.G tbl col) 98 (k0_off74 L 384#32) (k0_off74_eq L 3) (k0_off74_inb L hc 3) (outAt97 I hc) (pay98 I) (payG98 I hc H)
    (inv97 I hc H)
theorem rd99 : (Rn 1 inb_S7x128x128_S1x128x128_1_0_0).view.read (Elt F) (rowsAt103 I) = gp99 I :=
  ((Rn_read_miss 1 5 inb_S7x128x128_S1x128x128_1_0_0 inb_S7x128x128_S1x128x128_5_0_0 (by decide) (rowsAt102 I) (gp103 I)).trans ((Rn_read_miss 1 4 inb_S7x128x128_S1x128x128_1_0_0 inb_S7x128x128_S1x128x128_4_0_0 (by decide) (rowsAt101 I) (gp102 I)).trans ((Rn_read_miss 1 3 inb_S7x128x128_S1x128x128_1_0_0 inb_S7x128x128_S1x128x128_3_0_0 (by decide) (rowsAt100 I) (gp101 I)).trans ((Rn_read_miss 1 2 inb_S7x128x128_S1x128x128_1_0_0 inb_S7x128x128_S1x128x128_2_0_0 (by decide) (rowsAt99 I) (gp100 I)).trans (Rn_read_hit 1 inb_S7x128x128_S1x128x128_1_0_0 (rowsAt98 I) (gp99 I))))))
theorem payG99 (H : Hyp I tbl col pay) : ∀ y, pay99 I y = Cert.Spec.G tbl col ((Rect.unit (s := S16384x3328) (k0_off75 L 384#32) S128x128.size (k0_off75_inb L hc 3)).emb y) :=
  Step.item_payload tbl col H.hr L pay H.hpay I.fi H.hfi 8 3 inb_S26x4x128_S1x1x128_8_3_0 squeezes_S1x1x128_S128
    _ ((Step.read_full (View.whole main_arg34_scv) inb_S1000x128_S1000x128_0_0 I.ft8).trans H.ht8.symm)
    rfl (I.hin 8 3 inb_S26x4x128_S1x1x128_8_3_0 squeezes_S1x1x128_S128) (k0_off75 L 384#32) (k0_off75_eq L 3) (k0_off75_inb L hc 3) (pay99 I) (rd99 I)
theorem inv99 (H : Hyp I tbl col pay) : ∀ j' < 100, ∀ i ∈ Step.blkSet L 13 j', outAt99 I hc i = Cert.Spec.G tbl col i :=
  Step.out_step L 13 (Cert.Spec.G tbl col) 99 (k0_off75 L 384#32) (k0_off75_eq L 3) (k0_off75_inb L hc 3) (outAt98 I hc) (pay99 I) (payG99 I hc H)
    (inv98 I hc H)
theorem rd100 : (Rn 2 inb_S7x128x128_S1x128x128_2_0_0).view.read (Elt F) (rowsAt103 I) = gp100 I :=
  ((Rn_read_miss 2 5 inb_S7x128x128_S1x128x128_2_0_0 inb_S7x128x128_S1x128x128_5_0_0 (by decide) (rowsAt102 I) (gp103 I)).trans ((Rn_read_miss 2 4 inb_S7x128x128_S1x128x128_2_0_0 inb_S7x128x128_S1x128x128_4_0_0 (by decide) (rowsAt101 I) (gp102 I)).trans ((Rn_read_miss 2 3 inb_S7x128x128_S1x128x128_2_0_0 inb_S7x128x128_S1x128x128_3_0_0 (by decide) (rowsAt100 I) (gp101 I)).trans (Rn_read_hit 2 inb_S7x128x128_S1x128x128_2_0_0 (rowsAt99 I) (gp100 I)))))
theorem payG100 (H : Hyp I tbl col pay) : ∀ y, pay100 I y = Cert.Spec.G tbl col ((Rect.unit (s := S16384x3328) (k0_off76 L 384#32) S128x128.size (k0_off76_inb L hc 3)).emb y) :=
  Step.item_payload tbl col H.hr L pay H.hpay I.fi H.hfi 9 3 inb_S26x4x128_S1x1x128_9_3_0 squeezes_S1x1x128_S128
    _ ((Step.read_full (View.whole main_arg35_scv) inb_S1000x128_S1000x128_0_0 I.ft9).trans H.ht9.symm)
    rfl (I.hin 9 3 inb_S26x4x128_S1x1x128_9_3_0 squeezes_S1x1x128_S128) (k0_off76 L 384#32) (k0_off76_eq L 3) (k0_off76_inb L hc 3) (pay100 I) (rd100 I)
theorem inv100 (H : Hyp I tbl col pay) : ∀ j' < 101, ∀ i ∈ Step.blkSet L 13 j', outAt100 I hc i = Cert.Spec.G tbl col i :=
  Step.out_step L 13 (Cert.Spec.G tbl col) 100 (k0_off76 L 384#32) (k0_off76_eq L 3) (k0_off76_inb L hc 3) (outAt99 I hc) (pay100 I) (payG100 I hc H)
    (inv99 I hc H)
theorem rd101 : (Rn 3 inb_S7x128x128_S1x128x128_3_0_0).view.read (Elt F) (rowsAt103 I) = gp101 I :=
  ((Rn_read_miss 3 5 inb_S7x128x128_S1x128x128_3_0_0 inb_S7x128x128_S1x128x128_5_0_0 (by decide) (rowsAt102 I) (gp103 I)).trans ((Rn_read_miss 3 4 inb_S7x128x128_S1x128x128_3_0_0 inb_S7x128x128_S1x128x128_4_0_0 (by decide) (rowsAt101 I) (gp102 I)).trans (Rn_read_hit 3 inb_S7x128x128_S1x128x128_3_0_0 (rowsAt100 I) (gp101 I))))
theorem payG101 (H : Hyp I tbl col pay) : ∀ y, pay101 I y = Cert.Spec.G tbl col ((Rect.unit (s := S16384x3328) (k0_off77 L 384#32) S128x128.size (k0_off77_inb L hc 3)).emb y) :=
  Step.item_payload tbl col H.hr L pay H.hpay I.fi H.hfi 10 3 inb_S26x4x128_S1x1x128_10_3_0 squeezes_S1x1x128_S128
    _ ((Step.read_full (View.whole main_arg36_scv) inb_S1000x128_S1000x128_0_0 I.ft10).trans H.ht10.symm)
    rfl (I.hin 10 3 inb_S26x4x128_S1x1x128_10_3_0 squeezes_S1x1x128_S128) (k0_off77 L 384#32) (k0_off77_eq L 3) (k0_off77_inb L hc 3) (pay101 I) (rd101 I)
theorem inv101 (H : Hyp I tbl col pay) : ∀ j' < 102, ∀ i ∈ Step.blkSet L 13 j', outAt101 I hc i = Cert.Spec.G tbl col i :=
  Step.out_step L 13 (Cert.Spec.G tbl col) 101 (k0_off77 L 384#32) (k0_off77_eq L 3) (k0_off77_inb L hc 3) (outAt100 I hc) (pay101 I) (payG101 I hc H)
    (inv100 I hc H)
theorem rd102 : (Rn 4 inb_S7x128x128_S1x128x128_4_0_0).view.read (Elt F) (rowsAt103 I) = gp102 I :=
  ((Rn_read_miss 4 5 inb_S7x128x128_S1x128x128_4_0_0 inb_S7x128x128_S1x128x128_5_0_0 (by decide) (rowsAt102 I) (gp103 I)).trans (Rn_read_hit 4 inb_S7x128x128_S1x128x128_4_0_0 (rowsAt101 I) (gp102 I)))
theorem payG102 (H : Hyp I tbl col pay) : ∀ y, pay102 I y = Cert.Spec.G tbl col ((Rect.unit (s := S16384x3328) (k0_off78 L 384#32) S128x128.size (k0_off78_inb L hc 3)).emb y) :=
  Step.item_payload tbl col H.hr L pay H.hpay I.fi H.hfi 11 3 inb_S26x4x128_S1x1x128_11_3_0 squeezes_S1x1x128_S128
    _ ((Step.read_full (View.whole main_arg37_scv) inb_S1000x128_S1000x128_0_0 I.ft11).trans H.ht11.symm)
    rfl (I.hin 11 3 inb_S26x4x128_S1x1x128_11_3_0 squeezes_S1x1x128_S128) (k0_off78 L 384#32) (k0_off78_eq L 3) (k0_off78_inb L hc 3) (pay102 I) (rd102 I)
theorem inv102 (H : Hyp I tbl col pay) : ∀ j' < 103, ∀ i ∈ Step.blkSet L 13 j', outAt102 I hc i = Cert.Spec.G tbl col i :=
  Step.out_step L 13 (Cert.Spec.G tbl col) 102 (k0_off78 L 384#32) (k0_off78_eq L 3) (k0_off78_inb L hc 3) (outAt101 I hc) (pay102 I) (payG102 I hc H)
    (inv101 I hc H)
theorem rd103 : (Rn 5 inb_S7x128x128_S1x128x128_5_0_0).view.read (Elt F) (rowsAt103 I) = gp103 I :=
  (Rn_read_hit 5 inb_S7x128x128_S1x128x128_5_0_0 (rowsAt102 I) (gp103 I))
theorem payG103 (H : Hyp I tbl col pay) : ∀ y, pay103 I y = Cert.Spec.G tbl col ((Rect.unit (s := S16384x3328) (k0_off79 L 384#32) S128x128.size (k0_off79_inb L hc 3)).emb y) :=
  Step.item_payload tbl col H.hr L pay H.hpay I.fi H.hfi 12 3 inb_S26x4x128_S1x1x128_12_3_0 squeezes_S1x1x128_S128
    _ ((Step.read_full (View.whole main_arg38_scv) inb_S1000x128_S1000x128_0_0 I.ft12).trans H.ht12.symm)
    rfl (I.hin 12 3 inb_S26x4x128_S1x1x128_12_3_0 squeezes_S1x1x128_S128) (k0_off79 L 384#32) (k0_off79_eq L 3) (k0_off79_inb L hc 3) (pay103 I) (rd103 I)
theorem inv103 (H : Hyp I tbl col pay) : ∀ j' < 104, ∀ i ∈ Step.blkSet L 13 j', outAt103 I hc i = Cert.Spec.G tbl col i :=
  Step.out_step L 13 (Cert.Spec.G tbl col) 103 (k0_off79 L 384#32) (k0_off79_eq L 3) (k0_off79_inb L hc 3) (outAt102 I hc) (pay103 I) (payG103 I hc H)
    (inv102 I hc H)

/-- After the tile's 104 copies its 512 rows of the output hold the specified values. -/
theorem out_value (H : Hyp I tbl col pay) :
    ∀ i ∈ (Memref.whole main_v26_scv : Memref sig .scVector .hbm S16384x3328 .f32).view.setOn (oTR L).set,
      outAt103 I hc i = Cert.Spec.G tbl col i := by
  intro i hi
  obtain ⟨j', hj', hmem⟩ := Step.rows_covered L 13 (by decide) i hi
  exact inv103 I hc H j' hj' i hmem

end Cert.Proof.KI.Chain2

end
-- ==== Proof.TileValKI2.lean ====
/-
  One vector subcore's task, for the subcores whose group number 2·(core) + (subcore mod 2) is 2.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  the contents the specification names: entry (b, 128 t + e) is entry e of row col t b of table t.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI
import proofs.«204019_g4913442586959_cont_sun_m_672_34_alg».proof.Proof.ValChainKI2
import proofs.«204019_g4913442586959_cont_sun_m_672_34_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insertV2 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_val2 (hF : (K (F := F)).Facts) (O : CellTallies nD τ sig (HIx 1)) (W : Waits sig (HIx 1)) (hO : ∀ g, O g none = 0)
    (q : PosShare TreeShare) (hc1 : ¬ k0_cond1 L = 1#1) (hc2 : ¬ k0_cond2 L = 1#1) (hc3 : k0_cond3 L = 1#1) (hc4 : ¬ k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (col : Fin 26 → Cert.Spec.ColS.Idx → BitVec 32) (hr : ∀ t b, (col t b).toNat < 1000)
    (hfcol : ∀ (t : Fin 26) (R p : Fin 128), (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 R p) = col t (ValueIdx.ix1 (⟨128 * R.val + p.val, by have := R.isLt; have := p.isLt; omega⟩ : Fin 16384)))
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            ((Memref.whole main_v26_scv : Memref sig .scVector .hbm S16384x3328 .f32).view.loc (V d (cVL L) (jVL L)) ↦[(Memref.whole main_v26_scv : Memref sig .scVector .hbm S16384x3328 .f32).view.setOn (oTR L).set]{fullShare} (Cert.Spec.G (fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) col)) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]
  · -- the output rows: what the run left there is, block by block, what the specification names
    have hp : ∀ (t : Fin 26) (r : Fin 4) (p : Fin 128), (![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] : Fin 26 → S4x128.Idx → Elt F .i32) t (ValueIdx.ix2 r p) = (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 (Val.colRow L r) p) := by
      intro t r p; match t with
        | ⟨0, _⟩ => exact Val.col_read_0 L fc0 r p
        | ⟨1, _⟩ => exact Val.col_read_1 L fc1 r p
        | ⟨2, _⟩ => exact Val.col_read_2 L fc2 r p
        | ⟨3, _⟩ => exact Val.col_read_3 L fc3 r p
        | ⟨4, _⟩ => exact Val.col_read_4 L fc4 r p
        | ⟨5, _⟩ => exact Val.col_read_5 L fc5 r p
        | ⟨6, _⟩ => exact Val.col_read_6 L fc6 r p
        | ⟨7, _⟩ => exact Val.col_read_7 L fc7 r p
        | ⟨8, _⟩ => exact Val.col_read_8 L fc8 r p
        | ⟨9, _⟩ => exact Val.col_read_9 L fc9 r p
        | ⟨10, _⟩ => exact Val.col_read_10 L fc10 r p
        | ⟨11, _⟩ => exact Val.col_read_11 L fc11 r p
        | ⟨12, _⟩ => exact Val.col_read_12 L fc12 r p
        | ⟨13, _⟩ => exact Val.col_read_13 L fc13 r p
        | ⟨14, _⟩ => exact Val.col_read_14 L fc14 r p
        | ⟨15, _⟩ => exact Val.col_read_15 L fc15 r p
        | ⟨16, _⟩ => exact Val.col_read_16 L fc16 r p
        | ⟨17, _⟩ => exact Val.col_read_17 L fc17 r p
        | ⟨18, _⟩ => exact Val.col_read_18 L fc18 r p
        | ⟨19, _⟩ => exact Val.col_read_19 L fc19 r p
        | ⟨20, _⟩ => exact Val.col_read_20 L fc20 r p
        | ⟨21, _⟩ => exact Val.col_read_21 L fc21 r p
        | ⟨22, _⟩ => exact Val.col_read_22 L fc22 r p
        | ⟨23, _⟩ => exact Val.col_read_23 L fc23 r p
        | ⟨24, _⟩ => exact Val.col_read_24 L fc24 r p
        | ⟨25, _⟩ => exact Val.col_read_25 L fc25 r p
        | ⟨n + 26, h⟩ => exact absurd h (by omega)
    have hpay := Val.hpay_of_fc col (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) hfcol L _ hp
    iapply (Entails.of_eq (pointsTo_congr (fun i hi => Chain2.out_value
      (I := ⟨ft0, ft1, ft2, ft3, ft4, ft5, ft6, ft7, ft8, ft9, ft10, ft11, ft12, ft13, ft14, ft15, ft16, ft17, ft18, ft19, ft20, ft21, ft22, ft23, ft24, ft25, _, hin, fo, fr⟩) hc3 (tbl := fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) (col := col)
      ⟨rfl, rfl, rfl, rfl, rfl, rfl, rfl, rfl, rfl, rfl, rfl, rfl, rfl, rfl, rfl, rfl, rfl, rfl, rfl, rfl, rfl, rfl, rfl, rfl, rfl, rfl, hr, rfl, hpay⟩ i hi)))
    iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insertV2 _ ?_)

end Cert.Proof.KI

end
-- ==== Proof.ChainKI3.lean ====
/-
  Group 3's items in the order the task serves them: item j = 26·r + i is (table (i + 20) mod 26, sub-chunk r), its slot j mod 7.
  gp j  : what item j's gather lands in its slot: entry (p, e) is table t's entry (list (t, r) at p, e).
  rowsAt j : the row scratch once gathers 0 .. j have been issued (each lands in its own slot, over what was there).
  pay j : what item j's copy-out carries: its slot as the row scratch stands when the copy is issued, which is after
          gather min (j + 5, 103): the five gathers issued in between went to other slots.
  outAt j : the output once copies 0 .. j have landed, each in its own 128 x 128 block.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI

noncomputable section

namespace Cert.Proof.KI.Chain3

open Cert.KernelIdeal Cert.KernelIdeal.Gen
open Idealize.ShloMosaic
open Idealize.ShloMosaic.SparseCore (S V T)

/-- What a tile's run starts from: the 26 tables' contents, the index scratch's (every word a row number below 1000),
    the output's and the row scratch's. -/
structure TileIn (F : FTy → Type) (d : Dev nD) (L : grid0.Coords) where
  ft0 : Buf (Elt F) ((V d (cVL L) (jVL L)).loc main_arg26_scv)
  ft1 : Buf (Elt F) ((V d (cVL L) (jVL L)).loc main_arg27_scv)
  ft2 : Buf (Elt F) ((V d (cVL L) (jVL L)).loc main_arg28_scv)
  ft3 : Buf (Elt F) ((V d (cVL L) (jVL L)).loc main_arg29_scv)
  ft4 : Buf (Elt F) ((V d (cVL L) (jVL L)).loc main_arg30_scv)
  ft5 : Buf (Elt F) ((V d (cVL L) (jVL L)).loc main_arg31_scv)
  ft6 : Buf (Elt F) ((V d (cVL L) (jVL L)).loc main_arg32_scv)
  ft7 : Buf (Elt F) ((V d (cVL L) (jVL L)).loc main_arg33_scv)
  ft8 : Buf (Elt F) ((V d (cVL L) (jVL L)).loc main_arg34_scv)
  ft9 : Buf (Elt F) ((V d (cVL L) (jVL L)).loc main_arg35_scv)
  ft10 : Buf (Elt F) ((V d (cVL L) (jVL L)).loc main_arg36_scv)
  ft11 : Buf (Elt F) ((V d (cVL L) (jVL L)).loc main_arg37_scv)
  ft12 : Buf (Elt F) ((V d (cVL L) (jVL L)).loc main_arg38_scv)
  ft13 : Buf (Elt F) ((V d (cVL L) (jVL L)).loc main_arg39_scv)
  ft14 : Buf (Elt F) ((V d (cVL L) (jVL L)).loc main_arg40_scv)
  ft15 : Buf (Elt F) ((V d (cVL L) (jVL L)).loc main_arg41_scv)
  ft16 : Buf (Elt F) ((V d (cVL L) (jVL L)).loc main_arg42_scv)
  ft17 : Buf (Elt F) ((V d (cVL L) (jVL L)).loc main_arg43_scv)
  ft18 : Buf (Elt F) ((V d (cVL L) (jVL L)).loc main_arg44_scv)
  ft19 : Buf (Elt F) ((V d (cVL L) (jVL L)).loc main_arg45_scv)
  ft20 : Buf (Elt F) ((V d (cVL L) (jVL L)).loc main_arg46_scv)
  ft21 : Buf (Elt F) ((V d (cVL L) (jVL L)).loc main_arg47_scv)
  ft22 : Buf (Elt F) ((V d (cVL L) (jVL L)).loc main_arg48_scv)
  ft23 : Buf (Elt F) ((V d (cVL L) (jVL L)).loc main_arg49_scv)
  ft24 : Buf (Elt F) ((V d (cVL L) (jVL L)).loc main_arg50_scv)
  ft25 : Buf (Elt F) ((V d (cVL L) (jVL L)).loc main_arg51_scv)
  fi : Buf (Elt F) ((V d (cVL L) (jVL L)).loc cc0_scratch0)
  hin : ∀ (a b : Nat) (h1 : ∀ x, (![a, b, 0] : Fin 3 → Nat) x + S1x1x128.size x ≤ S26x4x128.size x) (h2 : (Rect.unit (s := S26x4x128) ![a, b, 0] S1x1x128.size h1).shape.Squeezes S128) (x : S128.Idx),
      (((((Memref.whole cc0_scratch0 : Memref sig .scVector .vmem S26x4x128 .i32).slice (Rect.unit (s := S26x4x128) ![a, b, 0] S1x1x128.size h1) (fun _ => rfl)).squeeze S128 h2).view.read (Elt F) fi x) : BitVec 32).toNat < 1000
  fo : Buf (Elt F) ((V d (cVL L) (jVL L)).loc main_v26_scv)
  fr : Buf (Elt F) ((V d (cVL L) (jVL L)).loc cc0_scratch1)

variable {F : FTy → Type} {d : Dev nD} {L : grid0.Coords} (I : TileIn F d L) (hc : k0_cond4 L = 1#1)

def gp0 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 0, 0] S1x1x128.size inb_S26x4x128_S1x1x128_20_0_0) (fun _ => rfl)).squeeze S128 squeezes_S1x1x128_S128).view.read (Elt F) I.fi) rfl (I.hin 20 0 inb_S26x4x128_S1x1x128_20_0_0 squeezes_S1x1x128_S128))
def rowsAt0 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view I.fr (gp0 I) Finset.univ
def gp1 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 0, 0] S1x1x128.size inb_S26x4x128_S1x1x128_21_0_0) (fun _ => rfl)).squeeze S128 squeezes_S1x1x128_S128).view.read (Elt F) I.fi) rfl (I.hin 21 0 inb_S26x4x128_S1x1x128_21_0_0 squeezes_S1x1x128_S128))
def rowsAt1 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt0 I) (gp1 I) Finset.univ
def gp2 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 0, 0] S1x1x128.size inb_S26x4x128_S1x1x128_22_0_0) (fun _ => rfl)).squeeze S128 squeezes_S1x1x128_S128).view.read (Elt F) I.fi) rfl (I.hin 22 0 inb_S26x4x128_S1x1x128_22_0_0 squeezes_S1x1x128_S128))
def rowsAt2 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt1 I) (gp2 I) Finset.univ
def gp3 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 0, 0] S1x1x128.size inb_S26x4x128_S1x1x128_23_0_0) (fun _ => rfl)).squeeze S128 squeezes_S1x1x128_S128).view.read (Elt F) I.fi) rfl (I.hin 23 0 inb_S26x4x128_S1x1x128_23_0_0 squeezes_S1x1x128_S128))
def rowsAt3 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt2 I) (gp3 I) Finset.univ
def gp4 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 0, 0] S1x1x128.size inb_S26x4x128_S1x1x128_24_0_0) (fun _ => rfl)).squeeze S128 squeezes_S1x1x128_S128).view.read (Elt F) I.fi) rfl (I.hin 24 0 inb_S26x4x128_S1x1x128_24_0_0 squeezes_S1x1x128_S128))
def rowsAt4 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt3 I) (gp4 I) Finset.univ
def gp5 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 0, 0] S1x1x128.size inb_S26x4x128_S1x1x128_25_0_0) (fun _ => rfl)).squeeze S128 squeezes_S1x1x128_S128).view.read (Elt F) I.fi) rfl (I.hin 25 0 inb_S26x4x128_S1x1x128_25_0_0 squeezes_S1x1x128_S128))
def rowsAt5 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt4 I) (gp5 I) Finset.univ
def gp6 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 0, 0] S1x1x128.size inb_S26x4x128_S1x1x128_0_0_0) (fun _ => rfl)).squeeze S128 squeezes_S1x1x128_S128).view.read (Elt F) I.fi) rfl (I.hin 0 0 inb_S26x4x128_S1x1x128_0_0_0 squeezes_S1x1x128_S128))
def rowsAt6 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt5 I) (gp6 I) Finset.univ
def gp7 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 0, 0] S1x1x128.size inb_S26x4x128_S1x1x128_1_0_0) (fun _ => rfl)).squeeze S128 squeezes_S1x1x128_S128).view.read (Elt F) I.fi) rfl (I.hin 1 0 inb_S26x4x128_S1x1x128_1_0_0 squeezes_S1x1x128_S128))
def rowsAt7 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt6 I) (gp7 I) Finset.univ
def gp8 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 0, 0] S1x1x128.size inb_S26x4x128_S1x1x128_2_0_0) (fun _ => rfl)).squeeze S128 squeezes_S1x1x128_S128).view.read (Elt F) I.fi) rfl (I.hin 2 0 inb_S26x4x128_S1x1x128_2_0_0 squeezes_S1x1x128_S128))
def rowsAt8 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt7 I) (gp8 I) Finset.univ
def gp9 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 0, 0] S1x1x128.size inb_S26x4x128_S1x1x128_3_0_0) (fun _ => rfl)).squeeze S128 squeezes_S1x1x128_S128).view.read (Elt F) I.fi) rfl (I.hin 3 0 inb_S26x4x128_S1x1x128_3_0_0 squeezes_S1x1x128_S128))
def rowsAt9 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt8 I) (gp9 I) Finset.univ
def gp10 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 0, 0] S1x1x128.size inb_S26x4x128_S1x1x128_4_0_0) (fun _ => rfl)).squeeze S128 squeezes_S1x1x128_S128).view.read (Elt F) I.fi) rfl (I.hin 4 0 inb_S26x4x128_S1x1x128_4_0_0 squeezes_S1x1x128_S128))
def rowsAt10 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt9 I) (gp10 I) Finset.univ
def gp11 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 0, 0] S1x1x128.size inb_S26x4x128_S1x1x128_5_0_0) (fun _ => rfl)).squeeze S128 squeezes_S1x1x128_S128).view.read (Elt F) I.fi) rfl (I.hin 5 0 inb_S26x4x128_S1x1x128_5_0_0 squeezes_S1x1x128_S128))
def rowsAt11 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt10 I) (gp11 I) Finset.univ
def gp12 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 0, 0] S1x1x128.size inb_S26x4x128_S1x1x128_6_0_0) (fun _ => rfl)).squeeze S128 squeezes_S1x1x128_S128).view.read (Elt F) I.fi) rfl (I.hin 6 0 inb_S26x4x128_S1x1x128_6_0_0 squeezes_S1x1x128_S128))
def rowsAt12 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt11 I) (gp12 I) Finset.univ
def gp13 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 0, 0] S1x1x128.size inb_S26x4x128_S1x1x128_7_0_0) (fun _ => rfl)).squeeze S128 squeezes_S1x1x128_S128).view.read (Elt F) I.fi) rfl (I.hin 7 0 inb_S26x4x128_S1x1x128_7_0_0 squeezes_S1x1x128_S128))
def rowsAt13 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt12 I) (gp13 I) Finset.univ
def gp14 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 0, 0] S1x1x128.size inb_S26x4x128_S1x1x128_8_0_0) (fun _ => rfl)).squeeze S128 squeezes_S1x1x128_S128).view.read (Elt F) I.fi) rfl (I.hin 8 0 inb_S26x4x128_S1x1x128_8_0_0 squeezes_S1x1x128_S128))
def rowsAt14 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt13 I) (gp14 I) Finset.univ
def gp15 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 0, 0] S1x1x128.size inb_S26x4x128_S1x1x128_9_0_0) (fun _ => rfl)).squeeze S128 squeezes_S1x1x128_S128).view.read (Elt F) I.fi) rfl (I.hin 9 0 inb_S26x4x128_S1x1x128_9_0_0 squeezes_S1x1x128_S128))
def rowsAt15 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt14 I) (gp15 I) Finset.univ
def gp16 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 0, 0] S1x1x128.size inb_S26x4x128_S1x1x128_10_0_0) (fun _ => rfl)).squeeze S128 squeezes_S1x1x128_S128).view.read (Elt F) I.fi) rfl (I.hin 10 0 inb_S26x4x128_S1x1x128_10_0_0 squeezes_S1x1x128_S128))
def rowsAt16 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt15 I) (gp16 I) Finset.univ
def gp17 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 0, 0] S1x1x128.size inb_S26x4x128_S1x1x128_11_0_0) (fun _ => rfl)).squeeze S128 squeezes_S1x1x128_S128).view.read (Elt F) I.fi) rfl (I.hin 11 0 inb_S26x4x128_S1x1x128_11_0_0 squeezes_S1x1x128_S128))
def rowsAt17 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt16 I) (gp17 I) Finset.univ
def gp18 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 0, 0] S1x1x128.size inb_S26x4x128_S1x1x128_12_0_0) (fun _ => rfl)).squeeze S128 squeezes_S1x1x128_S128).view.read (Elt F) I.fi) rfl (I.hin 12 0 inb_S26x4x128_S1x1x128_12_0_0 squeezes_S1x1x128_S128))
def rowsAt18 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt17 I) (gp18 I) Finset.univ
def gp19 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 0, 0] S1x1x128.size inb_S26x4x128_S1x1x128_13_0_0) (fun _ => rfl)).squeeze S128 squeezes_S1x1x128_S128).view.read (Elt F) I.fi) rfl (I.hin 13 0 inb_S26x4x128_S1x1x128_13_0_0 squeezes_S1x1x128_S128))
def rowsAt19 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt18 I) (gp19 I) Finset.univ
def gp20 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 0, 0] S1x1x128.size inb_S26x4x128_S1x1x128_14_0_0) (fun _ => rfl)).squeeze S128 squeezes_S1x1x128_S128).view.read (Elt F) I.fi) rfl (I.hin 14 0 inb_S26x4x128_S1x1x128_14_0_0 squeezes_S1x1x128_S128))
def rowsAt20 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt19 I) (gp20 I) Finset.univ
def gp21 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 0, 0] S1x1x128.size inb_S26x4x128_S1x1x128_15_0_0) (fun _ => rfl)).squeeze S128 squeezes_S1x1x128_S128).view.read (Elt F) I.fi) rfl (I.hin 15 0 inb_S26x4x128_S1x1x128_15_0_0 squeezes_S1x1x128_S128))
def rowsAt21 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt20 I) (gp21 I) Finset.univ
def gp22 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 0, 0] S1x1x128.size inb_S26x4x128_S1x1x128_16_0_0) (fun _ => rfl)).squeeze S128 squeezes_S1x1x128_S128).view.read (Elt F) I.fi) rfl (I.hin 16 0 inb_S26x4x128_S1x1x128_16_0_0 squeezes_S1x1x128_S128))
def rowsAt22 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt21 I) (gp22 I) Finset.univ
def gp23 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 0, 0] S1x1x128.size inb_S26x4x128_S1x1x128_17_0_0) (fun _ => rfl)).squeeze S128 squeezes_S1x1x128_S128).view.read (Elt F) I.fi) rfl (I.hin 17 0 inb_S26x4x128_S1x1x128_17_0_0 squeezes_S1x1x128_S128))
def rowsAt23 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt22 I) (gp23 I) Finset.univ
def gp24 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 0, 0] S1x1x128.size inb_S26x4x128_S1x1x128_18_0_0) (fun _ => rfl)).squeeze S128 squeezes_S1x1x128_S128).view.read (Elt F) I.fi) rfl (I.hin 18 0 inb_S26x4x128_S1x1x128_18_0_0 squeezes_S1x1x128_S128))
def rowsAt24 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt23 I) (gp24 I) Finset.univ
def gp25 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 0, 0] S1x1x128.size inb_S26x4x128_S1x1x128_19_0_0) (fun _ => rfl)).squeeze S128 squeezes_S1x1x128_S128).view.read (Elt F) I.fi) rfl (I.hin 19 0 inb_S26x4x128_S1x1x128_19_0_0 squeezes_S1x1x128_S128))
def rowsAt25 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt24 I) (gp25 I) Finset.univ
def gp26 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 1, 0] S1x1x128.size inb_S26x4x128_S1x1x128_20_1_0) (fun _ => rfl)).squeeze S128 squeezes_S1x1x128_S128).view.read (Elt F) I.fi) rfl (I.hin 20 1 inb_S26x4x128_S1x1x128_20_1_0 squeezes_S1x1x128_S128))
def rowsAt26 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt25 I) (gp26 I) Finset.univ
def gp27 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 1, 0] S1x1x128.size inb_S26x4x128_S1x1x128_21_1_0) (fun _ => rfl)).squeeze S128 squeezes_S1x1x128_S128).view.read (Elt F) I.fi) rfl (I.hin 21 1 inb_S26x4x128_S1x1x128_21_1_0 squeezes_S1x1x128_S128))
def rowsAt27 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt26 I) (gp27 I) Finset.univ
def gp28 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 1, 0] S1x1x128.size inb_S26x4x128_S1x1x128_22_1_0) (fun _ => rfl)).squeeze S128 squeezes_S1x1x128_S128).view.read (Elt F) I.fi) rfl (I.hin 22 1 inb_S26x4x128_S1x1x128_22_1_0 squeezes_S1x1x128_S128))
def rowsAt28 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt27 I) (gp28 I) Finset.univ
def gp29 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 1, 0] S1x1x128.size inb_S26x4x128_S1x1x128_23_1_0) (fun _ => rfl)).squeeze S128 squeezes_S1x1x128_S128).view.read (Elt F) I.fi) rfl (I.hin 23 1 inb_S26x4x128_S1x1x128_23_1_0 squeezes_S1x1x128_S128))
def rowsAt29 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt28 I) (gp29 I) Finset.univ
def gp30 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 1, 0] S1x1x128.size inb_S26x4x128_S1x1x128_24_1_0) (fun _ => rfl)).squeeze S128 squeezes_S1x1x128_S128).view.read (Elt F) I.fi) rfl (I.hin 24 1 inb_S26x4x128_S1x1x128_24_1_0 squeezes_S1x1x128_S128))
def rowsAt30 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt29 I) (gp30 I) Finset.univ
def gp31 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 1, 0] S1x1x128.size inb_S26x4x128_S1x1x128_25_1_0) (fun _ => rfl)).squeeze S128 squeezes_S1x1x128_S128).view.read (Elt F) I.fi) rfl (I.hin 25 1 inb_S26x4x128_S1x1x128_25_1_0 squeezes_S1x1x128_S128))
def rowsAt31 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt30 I) (gp31 I) Finset.univ
def gp32 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 1, 0] S1x1x128.size inb_S26x4x128_S1x1x128_0_1_0) (fun _ => rfl)).squeeze S128 squeezes_S1x1x128_S128).view.read (Elt F) I.fi) rfl (I.hin 0 1 inb_S26x4x128_S1x1x128_0_1_0 squeezes_S1x1x128_S128))
def rowsAt32 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt31 I) (gp32 I) Finset.univ
def gp33 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 1, 0] S1x1x128.size inb_S26x4x128_S1x1x128_1_1_0) (fun _ => rfl)).squeeze S128 squeezes_S1x1x128_S128).view.read (Elt F) I.fi) rfl (I.hin 1 1 inb_S26x4x128_S1x1x128_1_1_0 squeezes_S1x1x128_S128))
def rowsAt33 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt32 I) (gp33 I) Finset.univ
def gp34 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 1, 0] S1x1x128.size inb_S26x4x128_S1x1x128_2_1_0) (fun _ => rfl)).squeeze S128 squeezes_S1x1x128_S128).view.read (Elt F) I.fi) rfl (I.hin 2 1 inb_S26x4x128_S1x1x128_2_1_0 squeezes_S1x1x128_S128))
def rowsAt34 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt33 I) (gp34 I) Finset.univ
def gp35 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 1, 0] S1x1x128.size inb_S26x4x128_S1x1x128_3_1_0) (fun _ => rfl)).squeeze S128 squeezes_S1x1x128_S128).view.read (Elt F) I.fi) rfl (I.hin 3 1 inb_S26x4x128_S1x1x128_3_1_0 squeezes_S1x1x128_S128))
def rowsAt35 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt34 I) (gp35 I) Finset.univ
def gp36 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 1, 0] S1x1x128.size inb_S26x4x128_S1x1x128_4_1_0) (fun _ => rfl)).squeeze S128 squeezes_S1x1x128_S128).view.read (Elt F) I.fi) rfl (I.hin 4 1 inb_S26x4x128_S1x1x128_4_1_0 squeezes_S1x1x128_S128))
def rowsAt36 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt35 I) (gp36 I) Finset.univ
def gp37 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 1, 0] S1x1x128.size inb_S26x4x128_S1x1x128_5_1_0) (fun _ => rfl)).squeeze S128 squeezes_S1x1x128_S128).view.read (Elt F) I.fi) rfl (I.hin 5 1 inb_S26x4x128_S1x1x128_5_1_0 squeezes_S1x1x128_S128))
def rowsAt37 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt36 I) (gp37 I) Finset.univ
def gp38 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 1, 0] S1x1x128.size inb_S26x4x128_S1x1x128_6_1_0) (fun _ => rfl)).squeeze S128 squeezes_S1x1x128_S128).view.read (Elt F) I.fi) rfl (I.hin 6 1 inb_S26x4x128_S1x1x128_6_1_0 squeezes_S1x1x128_S128))
def rowsAt38 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt37 I) (gp38 I) Finset.univ
def gp39 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 1, 0] S1x1x128.size inb_S26x4x128_S1x1x128_7_1_0) (fun _ => rfl)).squeeze S128 squeezes_S1x1x128_S128).view.read (Elt F) I.fi) rfl (I.hin 7 1 inb_S26x4x128_S1x1x128_7_1_0 squeezes_S1x1x128_S128))
def rowsAt39 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt38 I) (gp39 I) Finset.univ
def gp40 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 1, 0] S1x1x128.size inb_S26x4x128_S1x1x128_8_1_0) (fun _ => rfl)).squeeze S128 squeezes_S1x1x128_S128).view.read (Elt F) I.fi) rfl (I.hin 8 1 inb_S26x4x128_S1x1x128_8_1_0 squeezes_S1x1x128_S128))
def rowsAt40 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt39 I) (gp40 I) Finset.univ
def gp41 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 1, 0] S1x1x128.size inb_S26x4x128_S1x1x128_9_1_0) (fun _ => rfl)).squeeze S128 squeezes_S1x1x128_S128).view.read (Elt F) I.fi) rfl (I.hin 9 1 inb_S26x4x128_S1x1x128_9_1_0 squeezes_S1x1x128_S128))
def rowsAt41 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt40 I) (gp41 I) Finset.univ
def gp42 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 1, 0] S1x1x128.size inb_S26x4x128_S1x1x128_10_1_0) (fun _ => rfl)).squeeze S128 squeezes_S1x1x128_S128).view.read (Elt F) I.fi) rfl (I.hin 10 1 inb_S26x4x128_S1x1x128_10_1_0 squeezes_S1x1x128_S128))
def rowsAt42 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt41 I) (gp42 I) Finset.univ
def gp43 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 1, 0] S1x1x128.size inb_S26x4x128_S1x1x128_11_1_0) (fun _ => rfl)).squeeze S128 squeezes_S1x1x128_S128).view.read (Elt F) I.fi) rfl (I.hin 11 1 inb_S26x4x128_S1x1x128_11_1_0 squeezes_S1x1x128_S128))
def rowsAt43 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt42 I) (gp43 I) Finset.univ
def gp44 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 1, 0] S1x1x128.size inb_S26x4x128_S1x1x128_12_1_0) (fun _ => rfl)).squeeze S128 squeezes_S1x1x128_S128).view.read (Elt F) I.fi) rfl (I.hin 12 1 inb_S26x4x128_S1x1x128_12_1_0 squeezes_S1x1x128_S128))
def rowsAt44 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt43 I) (gp44 I) Finset.univ
def gp45 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 1, 0] S1x1x128.size inb_S26x4x128_S1x1x128_13_1_0) (fun _ => rfl)).squeeze S128 squeezes_S1x1x128_S128).view.read (Elt F) I.fi) rfl (I.hin 13 1 inb_S26x4x128_S1x1x128_13_1_0 squeezes_S1x1x128_S128))
def rowsAt45 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt44 I) (gp45 I) Finset.univ
def gp46 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 1, 0] S1x1x128.size inb_S26x4x128_S1x1x128_14_1_0) (fun _ => rfl)).squeeze S128 squeezes_S1x1x128_S128).view.read (Elt F) I.fi) rfl (I.hin 14 1 inb_S26x4x128_S1x1x128_14_1_0 squeezes_S1x1x128_S128))
def rowsAt46 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt45 I) (gp46 I) Finset.univ
def gp47 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 1, 0] S1x1x128.size inb_S26x4x128_S1x1x128_15_1_0) (fun _ => rfl)).squeeze S128 squeezes_S1x1x128_S128).view.read (Elt F) I.fi) rfl (I.hin 15 1 inb_S26x4x128_S1x1x128_15_1_0 squeezes_S1x1x128_S128))
def rowsAt47 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt46 I) (gp47 I) Finset.univ
def gp48 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 1, 0] S1x1x128.size inb_S26x4x128_S1x1x128_16_1_0) (fun _ => rfl)).squeeze S128 squeezes_S1x1x128_S128).view.read (Elt F) I.fi) rfl (I.hin 16 1 inb_S26x4x128_S1x1x128_16_1_0 squeezes_S1x1x128_S128))
def rowsAt48 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt47 I) (gp48 I) Finset.univ
def gp49 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 1, 0] S1x1x128.size inb_S26x4x128_S1x1x128_17_1_0) (fun _ => rfl)).squeeze S128 squeezes_S1x1x128_S128).view.read (Elt F) I.fi) rfl (I.hin 17 1 inb_S26x4x128_S1x1x128_17_1_0 squeezes_S1x1x128_S128))
def rowsAt49 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt48 I) (gp49 I) Finset.univ
def gp50 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 1, 0] S1x1x128.size inb_S26x4x128_S1x1x128_18_1_0) (fun _ => rfl)).squeeze S128 squeezes_S1x1x128_S128).view.read (Elt F) I.fi) rfl (I.hin 18 1 inb_S26x4x128_S1x1x128_18_1_0 squeezes_S1x1x128_S128))
def rowsAt50 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt49 I) (gp50 I) Finset.univ
def gp51 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 1, 0] S1x1x128.size inb_S26x4x128_S1x1x128_19_1_0) (fun _ => rfl)).squeeze S128 squeezes_S1x1x128_S128).view.read (Elt F) I.fi) rfl (I.hin 19 1 inb_S26x4x128_S1x1x128_19_1_0 squeezes_S1x1x128_S128))
def rowsAt51 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt50 I) (gp51 I) Finset.univ
def gp52 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 2, 0] S1x1x128.size inb_S26x4x128_S1x1x128_20_2_0) (fun _ => rfl)).squeeze S128 squeezes_S1x1x128_S128).view.read (Elt F) I.fi) rfl (I.hin 20 2 inb_S26x4x128_S1x1x128_20_2_0 squeezes_S1x1x128_S128))
def rowsAt52 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt51 I) (gp52 I) Finset.univ
def gp53 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 2, 0] S1x1x128.size inb_S26x4x128_S1x1x128_21_2_0) (fun _ => rfl)).squeeze S128 squeezes_S1x1x128_S128).view.read (Elt F) I.fi) rfl (I.hin 21 2 inb_S26x4x128_S1x1x128_21_2_0 squeezes_S1x1x128_S128))
def rowsAt53 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt52 I) (gp53 I) Finset.univ
def gp54 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 2, 0] S1x1x128.size inb_S26x4x128_S1x1x128_22_2_0) (fun _ => rfl)).squeeze S128 squeezes_S1x1x128_S128).view.read (Elt F) I.fi) rfl (I.hin 22 2 inb_S26x4x128_S1x1x128_22_2_0 squeezes_S1x1x128_S128))
def rowsAt54 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt53 I) (gp54 I) Finset.univ
def gp55 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 2, 0] S1x1x128.size inb_S26x4x128_S1x1x128_23_2_0) (fun _ => rfl)).squeeze S128 squeezes_S1x1x128_S128).view.read (Elt F) I.fi) rfl (I.hin 23 2 inb_S26x4x128_S1x1x128_23_2_0 squeezes_S1x1x128_S128))
def rowsAt55 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt54 I) (gp55 I) Finset.univ
def gp56 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 2, 0] S1x1x128.size inb_S26x4x128_S1x1x128_24_2_0) (fun _ => rfl)).squeeze S128 squeezes_S1x1x128_S128).view.read (Elt F) I.fi) rfl (I.hin 24 2 inb_S26x4x128_S1x1x128_24_2_0 squeezes_S1x1x128_S128))
def rowsAt56 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt55 I) (gp56 I) Finset.univ
def gp57 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 2, 0] S1x1x128.size inb_S26x4x128_S1x1x128_25_2_0) (fun _ => rfl)).squeeze S128 squeezes_S1x1x128_S128).view.read (Elt F) I.fi) rfl (I.hin 25 2 inb_S26x4x128_S1x1x128_25_2_0 squeezes_S1x1x128_S128))
def rowsAt57 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt56 I) (gp57 I) Finset.univ
def gp58 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 2, 0] S1x1x128.size inb_S26x4x128_S1x1x128_0_2_0) (fun _ => rfl)).squeeze S128 squeezes_S1x1x128_S128).view.read (Elt F) I.fi) rfl (I.hin 0 2 inb_S26x4x128_S1x1x128_0_2_0 squeezes_S1x1x128_S128))
def rowsAt58 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt57 I) (gp58 I) Finset.univ
def gp59 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 2, 0] S1x1x128.size inb_S26x4x128_S1x1x128_1_2_0) (fun _ => rfl)).squeeze S128 squeezes_S1x1x128_S128).view.read (Elt F) I.fi) rfl (I.hin 1 2 inb_S26x4x128_S1x1x128_1_2_0 squeezes_S1x1x128_S128))
def rowsAt59 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt58 I) (gp59 I) Finset.univ
def gp60 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 2, 0] S1x1x128.size inb_S26x4x128_S1x1x128_2_2_0) (fun _ => rfl)).squeeze S128 squeezes_S1x1x128_S128).view.read (Elt F) I.fi) rfl (I.hin 2 2 inb_S26x4x128_S1x1x128_2_2_0 squeezes_S1x1x128_S128))
def rowsAt60 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt59 I) (gp60 I) Finset.univ
def gp61 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 2, 0] S1x1x128.size inb_S26x4x128_S1x1x128_3_2_0) (fun _ => rfl)).squeeze S128 squeezes_S1x1x128_S128).view.read (Elt F) I.fi) rfl (I.hin 3 2 inb_S26x4x128_S1x1x128_3_2_0 squeezes_S1x1x128_S128))
def rowsAt61 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt60 I) (gp61 I) Finset.univ
def gp62 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 2, 0] S1x1x128.size inb_S26x4x128_S1x1x128_4_2_0) (fun _ => rfl)).squeeze S128 squeezes_S1x1x128_S128).view.read (Elt F) I.fi) rfl (I.hin 4 2 inb_S26x4x128_S1x1x128_4_2_0 squeezes_S1x1x128_S128))
def rowsAt62 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt61 I) (gp62 I) Finset.univ
def gp63 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 2, 0] S1x1x128.size inb_S26x4x128_S1x1x128_5_2_0) (fun _ => rfl)).squeeze S128 squeezes_S1x1x128_S128).view.read (Elt F) I.fi) rfl (I.hin 5 2 inb_S26x4x128_S1x1x128_5_2_0 squeezes_S1x1x128_S128))
def rowsAt63 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt62 I) (gp63 I) Finset.univ
def gp64 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 2, 0] S1x1x128.size inb_S26x4x128_S1x1x128_6_2_0) (fun _ => rfl)).squeeze S128 squeezes_S1x1x128_S128).view.read (Elt F) I.fi) rfl (I.hin 6 2 inb_S26x4x128_S1x1x128_6_2_0 squeezes_S1x1x128_S128))
def rowsAt64 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt63 I) (gp64 I) Finset.univ
def gp65 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 2, 0] S1x1x128.size inb_S26x4x128_S1x1x128_7_2_0) (fun _ => rfl)).squeeze S128 squeezes_S1x1x128_S128).view.read (Elt F) I.fi) rfl (I.hin 7 2 inb_S26x4x128_S1x1x128_7_2_0 squeezes_S1x1x128_S128))
def rowsAt65 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt64 I) (gp65 I) Finset.univ
def gp66 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 2, 0] S1x1x128.size inb_S26x4x128_S1x1x128_8_2_0) (fun _ => rfl)).squeeze S128 squeezes_S1x1x128_S128).view.read (Elt F) I.fi) rfl (I.hin 8 2 inb_S26x4x128_S1x1x128_8_2_0 squeezes_S1x1x128_S128))
def rowsAt66 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt65 I) (gp66 I) Finset.univ
def gp67 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 2, 0] S1x1x128.size inb_S26x4x128_S1x1x128_9_2_0) (fun _ => rfl)).squeeze S128 squeezes_S1x1x128_S128).view.read (Elt F) I.fi) rfl (I.hin 9 2 inb_S26x4x128_S1x1x128_9_2_0 squeezes_S1x1x128_S128))
def rowsAt67 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt66 I) (gp67 I) Finset.univ
def gp68 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 2, 0] S1x1x128.size inb_S26x4x128_S1x1x128_10_2_0) (fun _ => rfl)).squeeze S128 squeezes_S1x1x128_S128).view.read (Elt F) I.fi) rfl (I.hin 10 2 inb_S26x4x128_S1x1x128_10_2_0 squeezes_S1x1x128_S128))
def rowsAt68 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt67 I) (gp68 I) Finset.univ
def gp69 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 2, 0] S1x1x128.size inb_S26x4x128_S1x1x128_11_2_0) (fun _ => rfl)).squeeze S128 squeezes_S1x1x128_S128).view.read (Elt F) I.fi) rfl (I.hin 11 2 inb_S26x4x128_S1x1x128_11_2_0 squeezes_S1x1x128_S128))
def rowsAt69 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt68 I) (gp69 I) Finset.univ
def gp70 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 2, 0] S1x1x128.size inb_S26x4x128_S1x1x128_12_2_0) (fun _ => rfl)).squeeze S128 squeezes_S1x1x128_S128).view.read (Elt F) I.fi) rfl (I.hin 12 2 inb_S26x4x128_S1x1x128_12_2_0 squeezes_S1x1x128_S128))
def rowsAt70 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt69 I) (gp70 I) Finset.univ
def gp71 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 2, 0] S1x1x128.size inb_S26x4x128_S1x1x128_13_2_0) (fun _ => rfl)).squeeze S128 squeezes_S1x1x128_S128).view.read (Elt F) I.fi) rfl (I.hin 13 2 inb_S26x4x128_S1x1x128_13_2_0 squeezes_S1x1x128_S128))
def rowsAt71 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt70 I) (gp71 I) Finset.univ
def gp72 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 2, 0] S1x1x128.size inb_S26x4x128_S1x1x128_14_2_0) (fun _ => rfl)).squeeze S128 squeezes_S1x1x128_S128).view.read (Elt F) I.fi) rfl (I.hin 14 2 inb_S26x4x128_S1x1x128_14_2_0 squeezes_S1x1x128_S128))
def rowsAt72 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt71 I) (gp72 I) Finset.univ
def gp73 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 2, 0] S1x1x128.size inb_S26x4x128_S1x1x128_15_2_0) (fun _ => rfl)).squeeze S128 squeezes_S1x1x128_S128).view.read (Elt F) I.fi) rfl (I.hin 15 2 inb_S26x4x128_S1x1x128_15_2_0 squeezes_S1x1x128_S128))
def rowsAt73 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt72 I) (gp73 I) Finset.univ
def gp74 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 2, 0] S1x1x128.size inb_S26x4x128_S1x1x128_16_2_0) (fun _ => rfl)).squeeze S128 squeezes_S1x1x128_S128).view.read (Elt F) I.fi) rfl (I.hin 16 2 inb_S26x4x128_S1x1x128_16_2_0 squeezes_S1x1x128_S128))
def rowsAt74 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt73 I) (gp74 I) Finset.univ
def gp75 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 2, 0] S1x1x128.size inb_S26x4x128_S1x1x128_17_2_0) (fun _ => rfl)).squeeze S128 squeezes_S1x1x128_S128).view.read (Elt F) I.fi) rfl (I.hin 17 2 inb_S26x4x128_S1x1x128_17_2_0 squeezes_S1x1x128_S128))
def rowsAt75 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt74 I) (gp75 I) Finset.univ
def gp76 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 2, 0] S1x1x128.size inb_S26x4x128_S1x1x128_18_2_0) (fun _ => rfl)).squeeze S128 squeezes_S1x1x128_S128).view.read (Elt F) I.fi) rfl (I.hin 18 2 inb_S26x4x128_S1x1x128_18_2_0 squeezes_S1x1x128_S128))
def rowsAt76 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt75 I) (gp76 I) Finset.univ
def gp77 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 2, 0] S1x1x128.size inb_S26x4x128_S1x1x128_19_2_0) (fun _ => rfl)).squeeze S128 squeezes_S1x1x128_S128).view.read (Elt F) I.fi) rfl (I.hin 19 2 inb_S26x4x128_S1x1x128_19_2_0 squeezes_S1x1x128_S128))
def rowsAt77 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt76 I) (gp77 I) Finset.univ
def gp78 : S128x128.Idx → Elt F .f32 :=
  SparseCore.gatherPayload (s₀ := S1000x128) (s := S128x128) gathers_S1000x128_S128x128 (((Memref.whole main_arg46_scv : Memref sig .scVector .hbm S1000x128 .f32).slice (Rect.unit (s := S1000x128) ![0, 0] S1000x128.size inb_S1000x128_S1000x128_0_0) (fun _ => rfl)).view.read (Elt F) I.ft20)
    (SparseCore.rows ((((Memref.whole cc0_scratch0 : Memref sig .scVector .vmem S26x4x128 .i32).slice (Rect.unit (s := S26x4x128) ![20, 3, 0] S1x1x128.size inb_S26x4x128_S1x1x128_20_3_0) (fun _ => rfl)).squeeze S128 squeezes_S1x1x128_S128).view.read (Elt F) I.fi) rfl (I.hin 20 3 inb_S26x4x128_S1x1x128_20_3_0 squeezes_S1x1x128_S128))
def rowsAt78 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt77 I) (gp78 I) Finset.univ
def gp79 : S128x128.Idx → Elt F .f32 :=
  SparseCore.gatherPayload (s₀ := S1000x128) (s := S128x128) gathers_S1000x128_S128x128 (((Memref.whole main_arg47_scv : Memref sig .scVector .hbm S1000x128 .f32).slice (Rect.unit (s := S1000x128) ![0, 0] S1000x128.size inb_S1000x128_S1000x128_0_0) (fun _ => rfl)).view.read (Elt F) I.ft21)
    (SparseCore.rows ((((Memref.whole cc0_scratch0 : Memref sig .scVector .vmem S26x4x128 .i32).slice (Rect.unit (s := S26x4x128) ![21, 3, 0] S1x1x128.size inb_S26x4x128_S1x1x128_21_3_0) (fun _ => rfl)).squeeze S128 squeezes_S1x1x128_S128).view.read (Elt F) I.fi) rfl (I.hin 21 3 inb_S26x4x128_S1x1x128_21_3_0 squeezes_S1x1x128_S128))
def rowsAt79 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt78 I) (gp79 I) Finset.univ
def gp80 : S128x128.Idx → Elt F .f32 :=
  SparseCore.gatherPayload (s₀ := S1000x128) (s := S128x128) gathers_S1000x128_S128x128 (((Memref.whole main_arg48_scv : Memref sig .scVector .hbm S1000x128 .f32).slice (Rect.unit (s := S1000x128) ![0, 0] S1000x128.size inb_S1000x128_S1000x128_0_0) (fun _ => rfl)).view.read (Elt F) I.ft22)
    (SparseCore.rows ((((Memref.whole cc0_scratch0 : Memref sig .scVector .vmem S26x4x128 .i32).slice (Rect.unit (s := S26x4x128) ![22, 3, 0] S1x1x128.size inb_S26x4x128_S1x1x128_22_3_0) (fun _ => rfl)).squeeze S128 squeezes_S1x1x128_S128).view.read (Elt F) I.fi) rfl (I.hin 22 3 inb_S26x4x128_S1x1x128_22_3_0 squeezes_S1x1x128_S128))
def rowsAt80 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt79 I) (gp80 I) Finset.univ
def gp81 : S128x128.Idx → Elt F .f32 :=
  SparseCore.gatherPayload (s₀ := S1000x128) (s := S128x128) gathers_S1000x128_S128x128 (((Memref.whole main_arg49_scv : Memref sig .scVector .hbm S1000x128 .f32).slice (Rect.unit (s := S1000x128) ![0, 0] S1000x128.size inb_S1000x128_S1000x128_0_0) (fun _ => rfl)).view.read (Elt F) I.ft23)
    (SparseCore.rows ((((Memref.whole cc0_scratch0 : Memref sig .scVector .vmem S26x4x128 .i32).slice (Rect.unit (s := S26x4x128) ![23, 3, 0] S1x1x128.size inb_S26x4x128_S1x1x128_23_3_0) (fun _ => rfl)).squeeze S128 squeezes_S1x1x128_S128).view.read (Elt F) I.fi) rfl (I.hin 23 3 inb_S26x4x128_S1x1x128_23_3_0 squeezes_S1x1x128_S128))
def rowsAt81 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt80 I) (gp81 I) Finset.univ
def gp82 : S128x128.Idx → Elt F .f32 :=
  SparseCore.gatherPayload (s₀ := S1000x128) (s := S128x128) gathers_S1000x128_S128x128 (((Memref.whole main_arg50_scv : Memref sig .scVector .hbm S1000x128 .f32).slice (Rect.unit (s := S1000x128) ![0, 0] S1000x128.size inb_S1000x128_S1000x128_0_0) (fun _ => rfl)).view.read (Elt F) I.ft24)
    (SparseCore.rows ((((Memref.whole cc0_scratch0 : Memref sig .scVector .vmem S26x4x128 .i32).slice (Rect.unit (s := S26x4x128) ![24, 3, 0] S1x1x128.size inb_S26x4x128_S1x1x128_24_3_0) (fun _ => rfl)).squeeze S128 squeezes_S1x1x128_S128).view.read (Elt F) I.fi) rfl (I.hin 24 3 inb_S26x4x128_S1x1x128_24_3_0 squeezes_S1x1x128_S128))
def rowsAt82 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt81 I) (gp82 I) Finset.univ
def gp83 : S128x128.Idx → Elt F .f32 :=
  SparseCore.gatherPayload (s₀ := S1000x128) (s := S128x128) gathers_S1000x128_S128x128 (((Memref.whole main_arg51_scv : Memref sig .scVector .hbm S1000x128 .f32).slice (Rect.unit (s := S1000x128) ![0, 0] S1000x128.size inb_S1000x128_S1000x128_0_0) (fun _ => rfl)).view.read (Elt F) I.ft25)
    (SparseCore.rows ((((Memref.whole cc0_scratch0 : Memref sig .scVector .vmem S26x4x128 .i32).slice (Rect.unit (s := S26x4x128) ![25, 3, 0] S1x1x128.size inb_S26x4x128_S1x1x128_25_3_0) (fun _ => rfl)).squeeze S128 squeezes_S1x1x128_S128).view.read (Elt F) I.fi) rfl (I.hin 25 3 inb_S26x4x128_S1x1x128_25_3_0 squeezes_S1x1x128_S128))
def rowsAt83 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt82 I) (gp83 I) Finset.univ
def gp84 : S128x128.Idx → Elt F .f32 :=
  SparseCore.gatherPayload (s₀ := S1000x128) (s := S128x128) gathers_S1000x128_S128x128 (((Memref.whole main_arg26_scv : Memref sig .scVector .hbm S1000x128 .f32).slice (Rect.unit (s := S1000x128) ![0, 0] S1000x128.size inb_S1000x128_S1000x128_0_0) (fun _ => rfl)).view.read (Elt F) I.ft0)
    (SparseCore.rows ((((Memref.whole cc0_scratch0 : Memref sig .scVector .vmem S26x4x128 .i32).slice (Rect.unit (s := S26x4x128) ![0, 3, 0] S1x1x128.size inb_S26x4x128_S1x1x128_0_3_0) (fun _ => rfl)).squeeze S128 squeezes_S1x1x128_S128).view.read (Elt F) I.fi) rfl (I.hin 0 3 inb_S26x4x128_S1x1x128_0_3_0 squeezes_S1x1x128_S128))
def rowsAt84 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt83 I) (gp84 I) Finset.univ
def gp85 : S128x128.Idx → Elt F .f32 :=
  SparseCore.gatherPayload (s₀ := S1000x128) (s := S128x128) gathers_S1000x128_S128x128 (((Memref.whole main_arg27_scv : Memref sig .scVector .hbm S1000x128 .f32).slice (Rect.unit (s := S1000x128) ![0, 0] S1000x128.size inb_S1000x128_S1000x128_0_0) (fun _ => rfl)).view.read (Elt F) I.ft1)
    (SparseCore.rows ((((Memref.whole cc0_scratch0 : Memref sig .scVector .vmem S26x4x128 .i32).slice (Rect.unit (s := S26x4x128) ![1, 3, 0] S1x1x128.size inb_S26x4x128_S1x1x128_1_3_0) (fun _ => rfl)).squeeze S128 squeezes_S1x1x128_S128).view.read (Elt F) I.fi) rfl (I.hin 1 3 inb_S26x4x128_S1x1x128_1_3_0 squeezes_S1x1x128_S128))
def rowsAt85 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt84 I) (gp85 I) Finset.univ
def gp86 : S128x128.Idx → Elt F .f32 :=
  SparseCore.gatherPayload (s₀ := S1000x128) (s := S128x128) gathers_S1000x128_S128x128 (((Memref.whole main_arg28_scv : Memref sig .scVector .hbm S1000x128 .f32).slice (Rect.unit (s := S1000x128) ![0, 0] S1000x128.size inb_S1000x128_S1000x128_0_0) (fun _ => rfl)).view.read (Elt F) I.ft2)
    (SparseCore.rows ((((Memref.whole cc0_scratch0 : Memref sig .scVector .vmem S26x4x128 .i32).slice (Rect.unit (s := S26x4x128) ![2, 3, 0] S1x1x128.size inb_S26x4x128_S1x1x128_2_3_0) (fun _ => rfl)).squeeze S128 squeezes_S1x1x128_S128).view.read (Elt F) I.fi) rfl (I.hin 2 3 inb_S26x4x128_S1x1x128_2_3_0 squeezes_S1x1x128_S128))
def rowsAt86 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt85 I) (gp86 I) Finset.univ
def gp87 : S128x128.Idx → Elt F .f32 :=
  SparseCore.gatherPayload (s₀ := S1000x128) (s := S128x128) gathers_S1000x128_S128x128 (((Memref.whole main_arg29_scv : Memref sig .scVector .hbm S1000x128 .f32).slice (Rect.unit (s := S1000x128) ![0, 0] S1000x128.size inb_S1000x128_S1000x128_0_0) (fun _ => rfl)).view.read (Elt F) I.ft3)
    (SparseCore.rows ((((Memref.whole cc0_scratch0 : Memref sig .scVector .vmem S26x4x128 .i32).slice (Rect.unit (s := S26x4x128) ![3, 3, 0] S1x1x128.size inb_S26x4x128_S1x1x128_3_3_0) (fun _ => rfl)).squeeze S128 squeezes_S1x1x128_S128).view.read (Elt F) I.fi) rfl (I.hin 3 3 inb_S26x4x128_S1x1x128_3_3_0 squeezes_S1x1x128_S128))
def rowsAt87 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt86 I) (gp87 I) Finset.univ
def gp88 : S128x128.Idx → Elt F .f32 :=
  SparseCore.gatherPayload (s₀ := S1000x128) (s := S128x128) gathers_S1000x128_S128x128 (((Memref.whole main_arg30_scv : Memref sig .scVector .hbm S1000x128 .f32).slice (Rect.unit (s := S1000x128) ![0, 0] S1000x128.size inb_S1000x128_S1000x128_0_0) (fun _ => rfl)).view.read (Elt F) I.ft4)
    (SparseCore.rows ((((Memref.whole cc0_scratch0 : Memref sig .scVector .vmem S26x4x128 .i32).slice (Rect.unit (s := S26x4x128) ![4, 3, 0] S1x1x128.size inb_S26x4x128_S1x1x128_4_3_0) (fun _ => rfl)).squeeze S128 squeezes_S1x1x128_S128).view.read (Elt F) I.fi) rfl (I.hin 4 3 inb_S26x4x128_S1x1x128_4_3_0 squeezes_S1x1x128_S128))
def rowsAt88 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt87 I) (gp88 I) Finset.univ
def gp89 : S128x128.Idx → Elt F .f32 :=
  SparseCore.gatherPayload (s₀ := S1000x128) (s := S128x128) gathers_S1000x128_S128x128 (((Memref.whole main_arg31_scv : Memref sig .scVector .hbm S1000x128 .f32).slice (Rect.unit (s := S1000x128) ![0, 0] S1000x128.size inb_S1000x128_S1000x128_0_0) (fun _ => rfl)).view.read (Elt F) I.ft5)
    (SparseCore.rows ((((Memref.whole cc0_scratch0 : Memref sig .scVector .vmem S26x4x128 .i32).slice (Rect.unit (s := S26x4x128) ![5, 3, 0] S1x1x128.size inb_S26x4x128_S1x1x128_5_3_0) (fun _ => rfl)).squeeze S128 squeezes_S1x1x128_S128).view.read (Elt F) I.fi) rfl (I.hin 5 3 inb_S26x4x128_S1x1x128_5_3_0 squeezes_S1x1x128_S128))
def rowsAt89 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt88 I) (gp89 I) Finset.univ
def gp90 : S128x128.Idx → Elt F .f32 :=
  SparseCore.gatherPayload (s₀ := S1000x128) (s := S128x128) gathers_S1000x128_S128x128 (((Memref.whole main_arg32_scv : Memref sig .scVector .hbm S1000x128 .f32).slice (Rect.unit (s := S1000x128) ![0, 0] S1000x128.size inb_S1000x128_S1000x128_0_0) (fun _ => rfl)).view.read (Elt F) I.ft6)
    (SparseCore.rows ((((Memref.whole cc0_scratch0 : Memref sig .scVector .vmem S26x4x128 .i32).slice (Rect.unit (s := S26x4x128) ![6, 3, 0] S1x1x128.size inb_S26x4x128_S1x1x128_6_3_0) (fun _ => rfl)).squeeze S128 squeezes_S1x1x128_S128).view.read (Elt F) I.fi) rfl (I.hin 6 3 inb_S26x4x128_S1x1x128_6_3_0 squeezes_S1x1x128_S128))
def rowsAt90 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt89 I) (gp90 I) Finset.univ
def gp91 : S128x128.Idx → Elt F .f32 :=
  SparseCore.gatherPayload (s₀ := S1000x128) (s := S128x128) gathers_S1000x128_S128x128 (((Memref.whole main_arg33_scv : Memref sig .scVector .hbm S1000x128 .f32).slice (Rect.unit (s := S1000x128) ![0, 0] S1000x128.size inb_S1000x128_S1000x128_0_0) (fun _ => rfl)).view.read (Elt F) I.ft7)
    (SparseCore.rows ((((Memref.whole cc0_scratch0 : Memref sig .scVector .vmem S26x4x128 .i32).slice (Rect.unit (s := S26x4x128) ![7, 3, 0] S1x1x128.size inb_S26x4x128_S1x1x128_7_3_0) (fun _ => rfl)).squeeze S128 squeezes_S1x1x128_S128).view.read (Elt F) I.fi) rfl (I.hin 7 3 inb_S26x4x128_S1x1x128_7_3_0 squeezes_S1x1x128_S128))
def rowsAt91 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt90 I) (gp91 I) Finset.univ
def gp92 : S128x128.Idx → Elt F .f32 :=
  SparseCore.gatherPayload (s₀ := S1000x128) (s := S128x128) gathers_S1000x128_S128x128 (((Memref.whole main_arg34_scv : Memref sig .scVector .hbm S1000x128 .f32).slice (Rect.unit (s := S1000x128) ![0, 0] S1000x128.size inb_S1000x128_S1000x128_0_0) (fun _ => rfl)).view.read (Elt F) I.ft8)
    (SparseCore.rows ((((Memref.whole cc0_scratch0 : Memref sig .scVector .vmem S26x4x128 .i32).slice (Rect.unit (s := S26x4x128) ![8, 3, 0] S1x1x128.size inb_S26x4x128_S1x1x128_8_3_0) (fun _ => rfl)).squeeze S128 squeezes_S1x1x128_S128).view.read (Elt F) I.fi) rfl (I.hin 8 3 inb_S26x4x128_S1x1x128_8_3_0 squeezes_S1x1x128_S128))
def rowsAt92 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt91 I) (gp92 I) Finset.univ
def gp93 : S128x128.Idx → Elt F .f32 :=
  SparseCore.gatherPayload (s₀ := S1000x128) (s := S128x128) gathers_S1000x128_S128x128 (((Memref.whole main_arg35_scv : Memref sig .scVector .hbm S1000x128 .f32).slice (Rect.unit (s := S1000x128) ![0, 0] S1000x128.size inb_S1000x128_S1000x128_0_0) (fun _ => rfl)).view.read (Elt F) I.ft9)
    (SparseCore.rows ((((Memref.whole cc0_scratch0 : Memref sig .scVector .vmem S26x4x128 .i32).slice (Rect.unit (s := S26x4x128) ![9, 3, 0] S1x1x128.size inb_S26x4x128_S1x1x128_9_3_0) (fun _ => rfl)).squeeze S128 squeezes_S1x1x128_S128).view.read (Elt F) I.fi) rfl (I.hin 9 3 inb_S26x4x128_S1x1x128_9_3_0 squeezes_S1x1x128_S128))
def rowsAt93 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt92 I) (gp93 I) Finset.univ
def gp94 : S128x128.Idx → Elt F .f32 :=
  SparseCore.gatherPayload (s₀ := S1000x128) (s := S128x128) gathers_S1000x128_S128x128 (((Memref.whole main_arg36_scv : Memref sig .scVector .hbm S1000x128 .f32).slice (Rect.unit (s := S1000x128) ![0, 0] S1000x128.size inb_S1000x128_S1000x128_0_0) (fun _ => rfl)).view.read (Elt F) I.ft10)
    (SparseCore.rows ((((Memref.whole cc0_scratch0 : Memref sig .scVector .vmem S26x4x128 .i32).slice (Rect.unit (s := S26x4x128) ![10, 3, 0] S1x1x128.size inb_S26x4x128_S1x1x128_10_3_0) (fun _ => rfl)).squeeze S128 squeezes_S1x1x128_S128).view.read (Elt F) I.fi) rfl (I.hin 10 3 inb_S26x4x128_S1x1x128_10_3_0 squeezes_S1x1x128_S128))
def rowsAt94 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt93 I) (gp94 I) Finset.univ
def gp95 : S128x128.Idx → Elt F .f32 :=
  SparseCore.gatherPayload (s₀ := S1000x128) (s := S128x128) gathers_S1000x128_S128x128 (((Memref.whole main_arg37_scv : Memref sig .scVector .hbm S1000x128 .f32).slice (Rect.unit (s := S1000x128) ![0, 0] S1000x128.size inb_S1000x128_S1000x128_0_0) (fun _ => rfl)).view.read (Elt F) I.ft11)
    (SparseCore.rows ((((Memref.whole cc0_scratch0 : Memref sig .scVector .vmem S26x4x128 .i32).slice (Rect.unit (s := S26x4x128) ![11, 3, 0] S1x1x128.size inb_S26x4x128_S1x1x128_11_3_0) (fun _ => rfl)).squeeze S128 squeezes_S1x1x128_S128).view.read (Elt F) I.fi) rfl (I.hin 11 3 inb_S26x4x128_S1x1x128_11_3_0 squeezes_S1x1x128_S128))
def rowsAt95 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt94 I) (gp95 I) Finset.univ
def gp96 : S128x128.Idx → Elt F .f32 :=
  SparseCore.gatherPayload (s₀ := S1000x128) (s := S128x128) gathers_S1000x128_S128x128 (((Memref.whole main_arg38_scv : Memref sig .scVector .hbm S1000x128 .f32).slice (Rect.unit (s := S1000x128) ![0, 0] S1000x128.size inb_S1000x128_S1000x128_0_0) (fun _ => rfl)).view.read (Elt F) I.ft12)
    (SparseCore.rows ((((Memref.whole cc0_scratch0 : Memref sig .scVector .vmem S26x4x128 .i32).slice (Rect.unit (s := S26x4x128) ![12, 3, 0] S1x1x128.size inb_S26x4x128_S1x1x128_12_3_0) (fun _ => rfl)).squeeze S128 squeezes_S1x1x128_S128).view.read (Elt F) I.fi) rfl (I.hin 12 3 inb_S26x4x128_S1x1x128_12_3_0 squeezes_S1x1x128_S128))
def rowsAt96 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt95 I) (gp96 I) Finset.univ
def gp97 : S128x128.Idx → Elt F .f32 :=
  SparseCore.gatherPayload (s₀ := S1000x128) (s := S128x128) gathers_S1000x128_S128x128 (((Memref.whole main_arg39_scv : Memref sig .scVector .hbm S1000x128 .f32).slice (Rect.unit (s := S1000x128) ![0, 0] S1000x128.size inb_S1000x128_S1000x128_0_0) (fun _ => rfl)).view.read (Elt F) I.ft13)
    (SparseCore.rows ((((Memref.whole cc0_scratch0 : Memref sig .scVector .vmem S26x4x128 .i32).slice (Rect.unit (s := S26x4x128) ![13, 3, 0] S1x1x128.size inb_S26x4x128_S1x1x128_13_3_0) (fun _ => rfl)).squeeze S128 squeezes_S1x1x128_S128).view.read (Elt F) I.fi) rfl (I.hin 13 3 inb_S26x4x128_S1x1x128_13_3_0 squeezes_S1x1x128_S128))
def rowsAt97 : Buf (Elt F) ((V d (cVL L) (jVL L)).loc cc0_scratch1) :=
  View.write (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt96 I) (gp97 I) Finset.univ
def gp98 : S128x128.Idx → Elt F .f32 :=
  SparseCore.gatherPayload (s₀ := S1000x128) (s := S128x128) gathers_S1000x128_S128x128 (((Memref.whole main_arg40_scv : Memref sig .scVector .hbm S1000x128 .f32).slice (Rect.unit (s := S1000x128) ![0, 0] S1000x128.size inb_S1000x128_S1000x128_0_0) (fun _ => rfl)).view.read (Elt F) I.ft14)
    (SparseCore.rows ((((Memref.whole cc0_scratch0 : Memref sig .scVector .vmem S26x4x128 .i32).slice (Rect.unit (s := S26x4x128) ![14, 3, 0] S1x1x128.size inb_S26x4x128_S1x1x128_14_3_0) (fun _ => rfl)).squeeze S128 squeezes_S1x1x128_S128).view.read (Elt F) I.fi) rfl (I.hin 14 3 inb_S26x4x128_S1x1x128_14_3_0 squeezes_S1x1x128_S128))
def rowsAt98 : Buf (Elt F) ((V d (cVL L) (jVL L)).loc cc0_scratch1) :=
  View.write (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt97 I) (gp98 I) Finset.univ
def gp99 : S128x128.Idx → Elt F .f32 :=
  SparseCore.gatherPayload (s₀ := S1000x128) (s := S128x128) gathers_S1000x128_S128x128 (((Memref.whole main_arg41_scv : Memref sig .scVector .hbm S1000x128 .f32).slice (Rect.unit (s := S1000x128) ![0, 0] S1000x128.size inb_S1000x128_S1000x128_0_0) (fun _ => rfl)).view.read (Elt F) I.ft15)
    (SparseCore.rows ((((Memref.whole cc0_scratch0 : Memref sig .scVector .vmem S26x4x128 .i32).slice (Rect.unit (s := S26x4x128) ![15, 3, 0] S1x1x128.size inb_S26x4x128_S1x1x128_15_3_0) (fun _ => rfl)).squeeze S128 squeezes_S1x1x128_S128).view.read (Elt F) I.fi) rfl (I.hin 15 3 inb_S26x4x128_S1x1x128_15_3_0 squeezes_S1x1x128_S128))
def rowsAt99 : Buf (Elt F) ((V d (cVL L) (jVL L)).loc cc0_scratch1) :=
  View.write (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt98 I) (gp99 I) Finset.univ
def gp100 : S128x128.Idx → Elt F .f32 :=
  SparseCore.gatherPayload (s₀ := S1000x128) (s := S128x128) gathers_S1000x128_S128x128 (((Memref.whole main_arg42_scv : Memref sig .scVector .hbm S1000x128 .f32).slice (Rect.unit (s := S1000x128) ![0, 0] S1000x128.size inb_S1000x128_S1000x128_0_0) (fun _ => rfl)).view.read (Elt F) I.ft16)
    (SparseCore.rows ((((Memref.whole cc0_scratch0 : Memref sig .scVector .vmem S26x4x128 .i32).slice (Rect.unit (s := S26x4x128) ![16, 3, 0] S1x1x128.size inb_S26x4x128_S1x1x128_16_3_0) (fun _ => rfl)).squeeze S128 squeezes_S1x1x128_S128).view.read (Elt F) I.fi) rfl (I.hin 16 3 inb_S26x4x128_S1x1x128_16_3_0 squeezes_S1x1x128_S128))
def rowsAt100 : Buf (Elt F) ((V d (cVL L) (jVL L)).loc cc0_scratch1) :=
  View.write (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt99 I) (gp100 I) Finset.univ
def gp101 : S128x128.Idx → Elt F .f32 :=
  SparseCore.gatherPayload (s₀ := S1000x128) (s := S128x128) gathers_S1000x128_S128x128 (((Memref.whole main_arg43_scv : Memref sig .scVector .hbm S1000x128 .f32).slice (Rect.unit (s := S1000x128) ![0, 0] S1000x128.size inb_S1000x128_S1000x128_0_0) (fun _ => rfl)).view.read (Elt F) I.ft17)
    (SparseCore.rows ((((Memref.whole cc0_scratch0 : Memref sig .scVector .vmem S26x4x128 .i32).slice (Rect.unit (s := S26x4x128) ![17, 3, 0] S1x1x128.size inb_S26x4x128_S1x1x128_17_3_0) (fun _ => rfl)).squeeze S128 squeezes_S1x1x128_S128).view.read (Elt F) I.fi) rfl (I.hin 17 3 inb_S26x4x128_S1x1x128_17_3_0 squeezes_S1x1x128_S128))
def rowsAt101 : Buf (Elt F) ((V d (cVL L) (jVL L)).loc cc0_scratch1) :=
  View.write (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt100 I) (gp101 I) Finset.univ
def gp102 : S128x128.Idx → Elt F .f32 :=
  SparseCore.gatherPayload (s₀ := S1000x128) (s := S128x128) gathers_S1000x128_S128x128 (((Memref.whole main_arg44_scv : Memref sig .scVector .hbm S1000x128 .f32).slice (Rect.unit (s := S1000x128) ![0, 0] S1000x128.size inb_S1000x128_S1000x128_0_0) (fun _ => rfl)).view.read (Elt F) I.ft18)
    (SparseCore.rows ((((Memref.whole cc0_scratch0 : Memref sig .scVector .vmem S26x4x128 .i32).slice (Rect.unit (s := S26x4x128) ![18, 3, 0] S1x1x128.size inb_S26x4x128_S1x1x128_18_3_0) (fun _ => rfl)).squeeze S128 squeezes_S1x1x128_S128).view.read (Elt F) I.fi) rfl (I.hin 18 3 inb_S26x4x128_S1x1x128_18_3_0 squeezes_S1x1x128_S128))
def rowsAt102 : Buf (Elt F) ((V d (cVL L) (jVL L)).loc cc0_scratch1) :=
  View.write (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt101 I) (gp102 I) Finset.univ
def gp103 : S128x128.Idx → Elt F .f32 :=
  SparseCore.gatherPayload (s₀ := S1000x128) (s := S128x128) gathers_S1000x128_S128x128 (((Memref.whole main_arg45_scv : Memref sig .scVector .hbm S1000x128 .f32).slice (Rect.unit (s := S1000x128) ![0, 0] S1000x128.size inb_S1000x128_S1000x128_0_0) (fun _ => rfl)).view.read (Elt F) I.ft19)
    (SparseCore.rows ((((Memref.whole cc0_scratch0 : Memref sig .scVector .vmem S26x4x128 .i32).slice (Rect.unit (s := S26x4x128) ![19, 3, 0] S1x1x128.size inb_S26x4x128_S1x1x128_19_3_0) (fun _ => rfl)).squeeze S128 squeezes_S1x1x128_S128).view.read (Elt F) I.fi) rfl (I.hin 19 3 inb_S26x4x128_S1x1x128_19_3_0 squeezes_S1x1x128_S128))
def rowsAt103 : Buf (Elt F) ((V d (cVL L) (jVL L)).loc cc0_scratch1) :=
  View.write (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt102 I) (gp103 I) Finset.univ
def pay0 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt5 I))
def outAt0 : Buf (Elt F) ((V d (cVL L) (jVL L)).loc main_v26_scv) :=
  View.write (Elt F) ((Memref.whole main_v26_scv : Memref sig .scVector .hbm S16384x3328 .f32).slice (Rect.unit (s := S16384x3328) (k0_off80 L 0#32) S128x128.size (k0_off80_inb L hc 0)) (fun _ => rfl)).view I.fo (pay0 I) Finset.univ
def pay1 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt6 I))
def outAt1 : Buf (Elt F) ((V d (cVL L) (jVL L)).loc main_v26_scv) :=
  View.write (Elt F) ((Memref.whole main_v26_scv : Memref sig .scVector .hbm S16384x3328 .f32).slice (Rect.unit (s := S16384x3328) (k0_off81 L 0#32) S128x128.size (k0_off81_inb L hc 0)) (fun _ => rfl)).view (outAt0 I hc) (pay1 I) Finset.univ
def pay2 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt7 I))
def outAt2 : Buf (Elt F) ((V d (cVL L) (jVL L)).loc main_v26_scv) :=
  View.write (Elt F) ((Memref.whole main_v26_scv : Memref sig .scVector .hbm S16384x3328 .f32).slice (Rect.unit (s := S16384x3328) (k0_off82 L 0#32) S128x128.size (k0_off82_inb L hc 0)) (fun _ => rfl)).view (outAt1 I hc) (pay2 I) Finset.univ
def pay3 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt8 I))
def outAt3 : Buf (Elt F) ((V d (cVL L) (jVL L)).loc main_v26_scv) :=
  View.write (Elt F) ((Memref.whole main_v26_scv : Memref sig .scVector .hbm S16384x3328 .f32).slice (Rect.unit (s := S16384x3328) (k0_off83 L 0#32) S128x128.size (k0_off83_inb L hc 0)) (fun _ => rfl)).view (outAt2 I hc) (pay3 I) Finset.univ
def pay4 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt9 I))
def outAt4 : Buf (Elt F) ((V d (cVL L) (jVL L)).loc main_v26_scv) :=
  View.write (Elt F) ((Memref.whole main_v26_scv : Memref sig .scVector .hbm S16384x3328 .f32).slice (Rect.unit (s := S16384x3328) (k0_off84 L 0#32) S128x128.size (k0_off84_inb L hc 0)) (fun _ => rfl)).view (outAt3 I hc) (pay4 I) Finset.univ
def pay5 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt10 I))
def outAt5 : Buf (Elt F) ((V d (cVL L) (jVL L)).loc main_v26_scv) :=
  View.write (Elt F) ((Memref.whole main_v26_scv : Memref sig .scVector .hbm S16384x3328 .f32).slice (Rect.unit (s := S16384x3328) (k0_off85 L 0#32) S128x128.size (k0_off85_inb L hc 0)) (fun _ => rfl)).view (outAt4 I hc) (pay5 I) Finset.univ
def pay6 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt11 I))
def outAt6 : Buf (Elt F) ((V d (cVL L) (jVL L)).loc main_v26_scv) :=
  View.write (Elt F) ((Memref.whole main_v26_scv : Memref sig .scVector .hbm S16384x3328 .f32).slice (Rect.unit (s := S16384x3328) (k0_off86 L 0#32) S128x128.size (k0_off86_inb L hc 0)) (fun _ => rfl)).view (outAt5 I hc) (pay6 I) Finset.univ
def pay7 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt12 I))
def outAt7 : Buf (Elt F) ((V d (cVL L) (jVL L)).loc main_v26_scv) :=
  View.write (Elt F) ((Memref.whole main_v26_scv : Memref sig .scVector .hbm S16384x3328 .f32).slice (Rect.unit (s := S16384x3328) (k0_off87 L 0#32) S128x128.size (k0_off87_inb L hc 0)) (fun _ => rfl)).view (outAt6 I hc) (pay7 I) Finset.univ
def pay8 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt13 I))
def outAt8 : Buf (Elt F) ((V d (cVL L) (jVL L)).loc main_v26_scv) :=
  View.write (Elt F) ((Memref.whole main_v26_scv : Memref sig .scVector .hbm S16384x3328 .f32).slice (Rect.unit (s := S16384x3328) (k0_off88 L 0#32) S128x128.size (k0_off88_inb L hc 0)) (fun _ => rfl)).view (outAt7 I hc) (pay8 I) Finset.univ
def pay9 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt14 I))
def outAt9 : Buf (Elt F) ((V d (cVL L) (jVL L)).loc main_v26_scv) :=
  View.write (Elt F) ((Memref.whole main_v26_scv : Memref sig .scVector .hbm S16384x3328 .f32).slice (Rect.unit (s := S16384x3328) (k0_off89 L 0#32) S128x128.size (k0_off89_inb L hc 0)) (fun _ => rfl)).view (outAt8 I hc) (pay9 I) Finset.univ
def pay10 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt15 I))
def outAt10 : Buf (Elt F) ((V d (cVL L) (jVL L)).loc main_v26_scv) :=
  View.write (Elt F) ((Memref.whole main_v26_scv : Memref sig .scVector .hbm S16384x3328 .f32).slice (Rect.unit (s := S16384x3328) (k0_off90 L 0#32) S128x128.size (k0_off90_inb L hc 0)) (fun _ => rfl)).view (outAt9 I hc) (pay10 I) Finset.univ
def pay11 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt16 I))
def outAt11 : Buf (Elt F) ((V d (cVL L) (jVL L)).loc main_v26_scv) :=
  View.write (Elt F) ((Memref.whole main_v26_scv : Memref sig .scVector .hbm S16384x3328 .f32).slice (Rect.unit (s := S16384x3328) (k0_off91 L 0#32) S128x128.size (k0_off91_inb L hc 0)) (fun _ => rfl)).view (outAt10 I hc) (pay11 I) Finset.univ
def pay12 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt17 I))
def outAt12 : Buf (Elt F) ((V d (cVL L) (jVL L)).loc main_v26_scv) :=
  View.write (Elt F) ((Memref.whole main_v26_scv : Memref sig .scVector .hbm S16384x3328 .f32).slice (Rect.unit (s := S16384x3328) (k0_off92 L 0#32) S128x128.size (k0_off92_inb L hc 0)) (fun _ => rfl)).view (outAt11 I hc) (pay12 I) Finset.univ
def pay13 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt18 I))
def outAt13 : Buf (Elt F) ((V d (cVL L) (jVL L)).loc main_v26_scv) :=
  View.write (Elt F) ((Memref.whole main_v26_scv : Memref sig .scVector .hbm S16384x3328 .f32).slice (Rect.unit (s := S16384x3328) (k0_off93 L 0#32) S128x128.size (k0_off93_inb L hc 0)) (fun _ => rfl)).view (outAt12 I hc) (pay13 I) Finset.univ
def pay14 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt19 I))
def outAt14 : Buf (Elt F) ((V d (cVL L) (jVL L)).loc main_v26_scv) :=
  View.write (Elt F) ((Memref.whole main_v26_scv : Memref sig .scVector .hbm S16384x3328 .f32).slice (Rect.unit (s := S16384x3328) (k0_off94 L 0#32) S128x128.size (k0_off94_inb L hc 0)) (fun _ => rfl)).view (outAt13 I hc) (pay14 I) Finset.univ
def pay15 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt20 I))
def outAt15 : Buf (Elt F) ((V d (cVL L) (jVL L)).loc main_v26_scv) :=
  View.write (Elt F) ((Memref.whole main_v26_scv : Memref sig .scVector .hbm S16384x3328 .f32).slice (Rect.unit (s := S16384x3328) (k0_off95 L 0#32) S128x128.size (k0_off95_inb L hc 0)) (fun _ => rfl)).view (outAt14 I hc) (pay15 I) Finset.univ
def pay16 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt21 I))
def outAt16 : Buf (Elt F) ((V d (cVL L) (jVL L)).loc main_v26_scv) :=
  View.write (Elt F) ((Memref.whole main_v26_scv : Memref sig .scVector .hbm S16384x3328 .f32).slice (Rect.unit (s := S16384x3328) (k0_off96 L 0#32) S128x128.size (k0_off96_inb L hc 0)) (fun _ => rfl)).view (outAt15 I hc) (pay16 I) Finset.univ
def pay17 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt22 I))
def outAt17 : Buf (Elt F) ((V d (cVL L) (jVL L)).loc main_v26_scv) :=
  View.write (Elt F) ((Memref.whole main_v26_scv : Memref sig .scVector .hbm S16384x3328 .f32).slice (Rect.unit (s := S16384x3328) (k0_off97 L 0#32) S128x128.size (k0_off97_inb L hc 0)) (fun _ => rfl)).view (outAt16 I hc) (pay17 I) Finset.univ
def pay18 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt23 I))
def outAt18 : Buf (Elt F) ((V d (cVL L) (jVL L)).loc main_v26_scv) :=
  View.write (Elt F) ((Memref.whole main_v26_scv : Memref sig .scVector .hbm S16384x3328 .f32).slice (Rect.unit (s := S16384x3328) (k0_off98 L 0#32) S128x128.size (k0_off98_inb L hc 0)) (fun _ => rfl)).view (outAt17 I hc) (pay18 I) Finset.univ
def pay19 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt24 I))
def outAt19 : Buf (Elt F) ((V d (cVL L) (jVL L)).loc main_v26_scv) :=
  View.write (Elt F) ((Memref.whole main_v26_scv : Memref sig .scVector .hbm S16384x3328 .f32).slice (Rect.unit (s := S16384x3328) (k0_off99 L 0#32) S128x128.size (k0_off99_inb L hc 0)) (fun _ => rfl)).view (outAt18 I hc) (pay19 I) Finset.univ
def pay20 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt25 I))
def outAt20 : Buf (Elt F) ((V d (cVL L) (jVL L)).loc main_v26_scv) :=
  View.write (Elt F) ((Memref.whole main_v26_scv : Memref sig .scVector .hbm S16384x3328 .f32).slice (Rect.unit (s := S16384x3328) (k0_off100 L 0#32) S128x128.size (k0_off100_inb L hc 0)) (fun _ => rfl)).view (outAt19 I hc) (pay20 I) Finset.univ
def pay21 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt26 I))
def outAt21 : Buf (Elt F) ((V d (cVL L) (jVL L)).loc main_v26_scv) :=
  View.write (Elt F) ((Memref.whole main_v26_scv : Memref sig .scVector .hbm S16384x3328 .f32).slice (Rect.unit (s := S16384x3328) (k0_off101 L 0#32) S128x128.size (k0_off101_inb L hc 0)) (fun _ => rfl)).view (outAt20 I hc) (pay21 I) Finset.univ
def pay22 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt27 I))
def outAt22 : Buf (Elt F) ((V d (cVL L) (jVL L)).loc main_v26_scv) :=
  View.write (Elt F) ((Memref.whole main_v26_scv : Memref sig .scVector .hbm S16384x3328 .f32).slice (Rect.unit (s := S16384x3328) (k0_off102 L 0#32) S128x128.size (k0_off102_inb L hc 0)) (fun _ => rfl)).view (outAt21 I hc) (pay22 I) Finset.univ
def pay23 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt28 I))
def outAt23 : Buf (Elt F) ((V d (cVL L) (jVL L)).loc main_v26_scv) :=
  View.write (Elt F) ((Memref.whole main_v26_scv : Memref sig .scVector .hbm S16384x3328 .f32).slice (Rect.unit (s := S16384x3328) (k0_off103 L 0#32) S128x128.size (k0_off103_inb L hc 0)) (fun _ => rfl)).view (outAt22 I hc) (pay23 I) Finset.univ
def pay24 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt29 I))
def outAt24 : Buf (Elt F) ((V d (cVL L) (jVL L)).loc main_v26_scv) :=
  View.write (Elt F) ((Memref.whole main_v26_scv : Memref sig .scVector .hbm S16384x3328 .f32).slice (Rect.unit (s := S16384x3328) (k0_off104 L 0#32) S128x128.size (k0_off104_inb L hc 0)) (fun _ => rfl)).view (outAt23 I hc) (pay24 I) Finset.univ
def pay25 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt30 I))
def outAt25 : Buf (Elt F) ((V d (cVL L) (jVL L)).loc main_v26_scv) :=
  View.write (Elt F) ((Memref.whole main_v26_scv : Memref sig .scVector .hbm S16384x3328 .f32).slice (Rect.unit (s := S16384x3328) (k0_off105 L 0#32) S128x128.size (k0_off105_inb L hc 0)) (fun _ => rfl)).view (outAt24 I hc) (pay25 I) Finset.univ
def pay26 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt31 I))
def outAt26 : Buf (Elt F) ((V d (cVL L) (jVL L)).loc main_v26_scv) :=
  View.write (Elt F) ((Memref.whole main_v26_scv : Memref sig .scVector .hbm S16384x3328 .f32).slice (Rect.unit (s := S16384x3328) (k0_off80 L 128#32) S128x128.size (k0_off80_inb L hc 1)) (fun _ => rfl)).view (outAt25 I hc) (pay26 I) Finset.univ
def pay27 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt32 I))
def outAt27 : Buf (Elt F) ((V d (cVL L) (jVL L)).loc main_v26_scv) :=
  View.write (Elt F) ((Memref.whole main_v26_scv : Memref sig .scVector .hbm S16384x3328 .f32).slice (Rect.unit (s := S16384x3328) (k0_off81 L 128#32) S128x128.size (k0_off81_inb L hc 1)) (fun _ => rfl)).view (outAt26 I hc) (pay27 I) Finset.univ
def pay28 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt33 I))
def outAt28 : Buf (Elt F) ((V d (cVL L) (jVL L)).loc main_v26_scv) :=
  View.write (Elt F) ((Memref.whole main_v26_scv : Memref sig .scVector .hbm S16384x3328 .f32).slice (Rect.unit (s := S16384x3328) (k0_off82 L 128#32) S128x128.size (k0_off82_inb L hc 1)) (fun _ => rfl)).view (outAt27 I hc) (pay28 I) Finset.univ
def pay29 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt34 I))
def outAt29 : Buf (Elt F) ((V d (cVL L) (jVL L)).loc main_v26_scv) :=
  View.write (Elt F) ((Memref.whole main_v26_scv : Memref sig .scVector .hbm S16384x3328 .f32).slice (Rect.unit (s := S16384x3328) (k0_off83 L 128#32) S128x128.size (k0_off83_inb L hc 1)) (fun _ => rfl)).view (outAt28 I hc) (pay29 I) Finset.univ
def pay30 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt35 I))
def outAt30 : Buf (Elt F) ((V d (cVL L) (jVL L)).loc main_v26_scv) :=
  View.write (Elt F) ((Memref.whole main_v26_scv : Memref sig .scVector .hbm S16384x3328 .f32).slice (Rect.unit (s := S16384x3328) (k0_off84 L 128#32) S128x128.size (k0_off84_inb L hc 1)) (fun _ => rfl)).view (outAt29 I hc) (pay30 I) Finset.univ
def pay31 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt36 I))
def outAt31 : Buf (Elt F) ((V d (cVL L) (jVL L)).loc main_v26_scv) :=
  View.write (Elt F) ((Memref.whole main_v26_scv : Memref sig .scVector .hbm S16384x3328 .f32).slice (Rect.unit (s := S16384x3328) (k0_off85 L 128#32) S128x128.size (k0_off85_inb L hc 1)) (fun _ => rfl)).view (outAt30 I hc) (pay31 I) Finset.univ
def pay32 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt37 I))
def outAt32 : Buf (Elt F) ((V d (cVL L) (jVL L)).loc main_v26_scv) :=
  View.write (Elt F) ((Memref.whole main_v26_scv : Memref sig .scVector .hbm S16384x3328 .f32).slice (Rect.unit (s := S16384x3328) (k0_off86 L 128#32) S128x128.size (k0_off86_inb L hc 1)) (fun _ => rfl)).view (outAt31 I hc) (pay32 I) Finset.univ
def pay33 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt38 I))
def outAt33 : Buf (Elt F) ((V d (cVL L) (jVL L)).loc main_v26_scv) :=
  View.write (Elt F) ((Memref.whole main_v26_scv : Memref sig .scVector .hbm S16384x3328 .f32).slice (Rect.unit (s := S16384x3328) (k0_off87 L 128#32) S128x128.size (k0_off87_inb L hc 1)) (fun _ => rfl)).view (outAt32 I hc) (pay33 I) Finset.univ
def pay34 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt39 I))
def outAt34 : Buf (Elt F) ((V d (cVL L) (jVL L)).loc main_v26_scv) :=
  View.write (Elt F) ((Memref.whole main_v26_scv : Memref sig .scVector .hbm S16384x3328 .f32).slice (Rect.unit (s := S16384x3328) (k0_off88 L 128#32) S128x128.size (k0_off88_inb L hc 1)) (fun _ => rfl)).view (outAt33 I hc) (pay34 I) Finset.univ
def pay35 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt40 I))
def outAt35 : Buf (Elt F) ((V d (cVL L) (jVL L)).loc main_v26_scv) :=
  View.write (Elt F) ((Memref.whole main_v26_scv : Memref sig .scVector .hbm S16384x3328 .f32).slice (Rect.unit (s := S16384x3328) (k0_off89 L 128#32) S128x128.size (k0_off89_inb L hc 1)) (fun _ => rfl)).view (outAt34 I hc) (pay35 I) Finset.univ
def pay36 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt41 I))
def outAt36 : Buf (Elt F) ((V d (cVL L) (jVL L)).loc main_v26_scv) :=
  View.write (Elt F) ((Memref.whole main_v26_scv : Memref sig .scVector .hbm S16384x3328 .f32).slice (Rect.unit (s := S16384x3328) (k0_off90 L 128#32) S128x128.size (k0_off90_inb L hc 1)) (fun _ => rfl)).view (outAt35 I hc) (pay36 I) Finset.univ
def pay37 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt42 I))
def outAt37 : Buf (Elt F) ((V d (cVL L) (jVL L)).loc main_v26_scv) :=
  View.write (Elt F) ((Memref.whole main_v26_scv : Memref sig .scVector .hbm S16384x3328 .f32).slice (Rect.unit (s := S16384x3328) (k0_off91 L 128#32) S128x128.size (k0_off91_inb L hc 1)) (fun _ => rfl)).view (outAt36 I hc) (pay37 I) Finset.univ
def pay38 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt43 I))
def outAt38 : Buf (Elt F) ((V d (cVL L) (jVL L)).loc main_v26_scv) :=
  View.write (Elt F) ((Memref.whole main_v26_scv : Memref sig .scVector .hbm S16384x3328 .f32).slice (Rect.unit (s := S16384x3328) (k0_off92 L 128#32) S128x128.size (k0_off92_inb L hc 1)) (fun _ => rfl)).view (outAt37 I hc) (pay38 I) Finset.univ
def pay39 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt44 I))
def outAt39 : Buf (Elt F) ((V d (cVL L) (jVL L)).loc main_v26_scv) :=
  View.write (Elt F) ((Memref.whole main_v26_scv : Memref sig .scVector .hbm S16384x3328 .f32).slice (Rect.unit (s := S16384x3328) (k0_off93 L 128#32) S128x128.size (k0_off93_inb L hc 1)) (fun _ => rfl)).view (outAt38 I hc) (pay39 I) Finset.univ
def pay40 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt45 I))
def outAt40 : Buf (Elt F) ((V d (cVL L) (jVL L)).loc main_v26_scv) :=
  View.write (Elt F) ((Memref.whole main_v26_scv : Memref sig .scVector .hbm S16384x3328 .f32).slice (Rect.unit (s := S16384x3328) (k0_off94 L 128#32) S128x128.size (k0_off94_inb L hc 1)) (fun _ => rfl)).view (outAt39 I hc) (pay40 I) Finset.univ
def pay41 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt46 I))
def outAt41 : Buf (Elt F) ((V d (cVL L) (jVL L)).loc main_v26_scv) :=
  View.write (Elt F) ((Memref.whole main_v26_scv : Memref sig .scVector .hbm S16384x3328 .f32).slice (Rect.unit (s := S16384x3328) (k0_off95 L 128#32) S128x128.size (k0_off95_inb L hc 1)) (fun _ => rfl)).view (outAt40 I hc) (pay41 I) Finset.univ
def pay42 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt47 I))
def outAt42 : Buf (Elt F) ((V d (cVL L) (jVL L)).loc main_v26_scv) :=
  View.write (Elt F) ((Memref.whole main_v26_scv : Memref sig .scVector .hbm S16384x3328 .f32).slice (Rect.unit (s := S16384x3328) (k0_off96 L 128#32) S128x128.size (k0_off96_inb L hc 1)) (fun _ => rfl)).view (outAt41 I hc) (pay42 I) Finset.univ
def pay43 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt48 I))
def outAt43 : Buf (Elt F) ((V d (cVL L) (jVL L)).loc main_v26_scv) :=
  View.write (Elt F) ((Memref.whole main_v26_scv : Memref sig .scVector .hbm S16384x3328 .f32).slice (Rect.unit (s := S16384x3328) (k0_off97 L 128#32) S128x128.size (k0_off97_inb L hc 1)) (fun _ => rfl)).view (outAt42 I hc) (pay43 I) Finset.univ
def pay44 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt49 I))
def outAt44 : Buf (Elt F) ((V d (cVL L) (jVL L)).loc main_v26_scv) :=
  View.write (Elt F) ((Memref.whole main_v26_scv : Memref sig .scVector .hbm S16384x3328 .f32).slice (Rect.unit (s := S16384x3328) (k0_off98 L 128#32) S128x128.size (k0_off98_inb L hc 1)) (fun _ => rfl)).view (outAt43 I hc) (pay44 I) Finset.univ
def pay45 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt50 I))
def outAt45 : Buf (Elt F) ((V d (cVL L) (jVL L)).loc main_v26_scv) :=
  View.write (Elt F) ((Memref.whole main_v26_scv : Memref sig .scVector .hbm S16384x3328 .f32).slice (Rect.unit (s := S16384x3328) (k0_off99 L 128#32) S128x128.size (k0_off99_inb L hc 1)) (fun _ => rfl)).view (outAt44 I hc) (pay45 I) Finset.univ
def pay46 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt51 I))
def outAt46 : Buf (Elt F) ((V d (cVL L) (jVL L)).loc main_v26_scv) :=
  View.write (Elt F) ((Memref.whole main_v26_scv : Memref sig .scVector .hbm S16384x3328 .f32).slice (Rect.unit (s := S16384x3328) (k0_off100 L 128#32) S128x128.size (k0_off100_inb L hc 1)) (fun _ => rfl)).view (outAt45 I hc) (pay46 I) Finset.univ
def pay47 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt52 I))
def outAt47 : Buf (Elt F) ((V d (cVL L) (jVL L)).loc main_v26_scv) :=
  View.write (Elt F) ((Memref.whole main_v26_scv : Memref sig .scVector .hbm S16384x3328 .f32).slice (Rect.unit (s := S16384x3328) (k0_off101 L 128#32) S128x128.size (k0_off101_inb L hc 1)) (fun _ => rfl)).view (outAt46 I hc) (pay47 I) Finset.univ
def pay48 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt53 I))
def outAt48 : Buf (Elt F) ((V d (cVL L) (jVL L)).loc main_v26_scv) :=
  View.write (Elt F) ((Memref.whole main_v26_scv : Memref sig .scVector .hbm S16384x3328 .f32).slice (Rect.unit (s := S16384x3328) (k0_off102 L 128#32) S128x128.size (k0_off102_inb L hc 1)) (fun _ => rfl)).view (outAt47 I hc) (pay48 I) Finset.univ
def pay49 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt54 I))
def outAt49 : Buf (Elt F) ((V d (cVL L) (jVL L)).loc main_v26_scv) :=
  View.write (Elt F) ((Memref.whole main_v26_scv : Memref sig .scVector .hbm S16384x3328 .f32).slice (Rect.unit (s := S16384x3328) (k0_off103 L 128#32) S128x128.size (k0_off103_inb L hc 1)) (fun _ => rfl)).view (outAt48 I hc) (pay49 I) Finset.univ
def pay50 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt55 I))
def outAt50 : Buf (Elt F) ((V d (cVL L) (jVL L)).loc main_v26_scv) :=
  View.write (Elt F) ((Memref.whole main_v26_scv : Memref sig .scVector .hbm S16384x3328 .f32).slice (Rect.unit (s := S16384x3328) (k0_off104 L 128#32) S128x128.size (k0_off104_inb L hc 1)) (fun _ => rfl)).view (outAt49 I hc) (pay50 I) Finset.univ
def pay51 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt56 I))
def outAt51 : Buf (Elt F) ((V d (cVL L) (jVL L)).loc main_v26_scv) :=
  View.write (Elt F) ((Memref.whole main_v26_scv : Memref sig .scVector .hbm S16384x3328 .f32).slice (Rect.unit (s := S16384x3328) (k0_off105 L 128#32) S128x128.size (k0_off105_inb L hc 1)) (fun _ => rfl)).view (outAt50 I hc) (pay51 I) Finset.univ
def pay52 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt57 I))
def outAt52 : Buf (Elt F) ((V d (cVL L) (jVL L)).loc main_v26_scv) :=
  View.write (Elt F) ((Memref.whole main_v26_scv : Memref sig .scVector .hbm S16384x3328 .f32).slice (Rect.unit (s := S16384x3328) (k0_off80 L 256#32) S128x128.size (k0_off80_inb L hc 2)) (fun _ => rfl)).view (outAt51 I hc) (pay52 I) Finset.univ
def pay53 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt58 I))
def outAt53 : Buf (Elt F) ((V d (cVL L) (jVL L)).loc main_v26_scv) :=
  View.write (Elt F) ((Memref.whole main_v26_scv : Memref sig .scVector .hbm S16384x3328 .f32).slice (Rect.unit (s := S16384x3328) (k0_off81 L 256#32) S128x128.size (k0_off81_inb L hc 2)) (fun _ => rfl)).view (outAt52 I hc) (pay53 I) Finset.univ
def pay54 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt59 I))
def outAt54 : Buf (Elt F) ((V d (cVL L) (jVL L)).loc main_v26_scv) :=
  View.write (Elt F) ((Memref.whole main_v26_scv : Memref sig .scVector .hbm S16384x3328 .f32).slice (Rect.unit (s := S16384x3328) (k0_off82 L 256#32) S128x128.size (k0_off82_inb L hc 2)) (fun _ => rfl)).view (outAt53 I hc) (pay54 I) Finset.univ
def pay55 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt60 I))
def outAt55 : Buf (Elt F) ((V d (cVL L) (jVL L)).loc main_v26_scv) :=
  View.write (Elt F) ((Memref.whole main_v26_scv : Memref sig .scVector .hbm S16384x3328 .f32).slice (Rect.unit (s := S16384x3328) (k0_off83 L 256#32) S128x128.size (k0_off83_inb L hc 2)) (fun _ => rfl)).view (outAt54 I hc) (pay55 I) Finset.univ
def pay56 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt61 I))
def outAt56 : Buf (Elt F) ((V d (cVL L) (jVL L)).loc main_v26_scv) :=
  View.write (Elt F) ((Memref.whole main_v26_scv : Memref sig .scVector .hbm S16384x3328 .f32).slice (Rect.unit (s := S16384x3328) (k0_off84 L 256#32) S128x128.size (k0_off84_inb L hc 2)) (fun _ => rfl)).view (outAt55 I hc) (pay56 I) Finset.univ
def pay57 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt62 I))
def outAt57 : Buf (Elt F) ((V d (cVL L) (jVL L)).loc main_v26_scv) :=
  View.write (Elt F) ((Memref.whole main_v26_scv : Memref sig .scVector .hbm S16384x3328 .f32).slice (Rect.unit (s := S16384x3328) (k0_off85 L 256#32) S128x128.size (k0_off85_inb L hc 2)) (fun _ => rfl)).view (outAt56 I hc) (pay57 I) Finset.univ
def pay58 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt63 I))
def outAt58 : Buf (Elt F) ((V d (cVL L) (jVL L)).loc main_v26_scv) :=
  View.write (Elt F) ((Memref.whole main_v26_scv : Memref sig .scVector .hbm S16384x3328 .f32).slice (Rect.unit (s := S16384x3328) (k0_off86 L 256#32) S128x128.size (k0_off86_inb L hc 2)) (fun _ => rfl)).view (outAt57 I hc) (pay58 I) Finset.univ
def pay59 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt64 I))
def outAt59 : Buf (Elt F) ((V d (cVL L) (jVL L)).loc main_v26_scv) :=
  View.write (Elt F) ((Memref.whole main_v26_scv : Memref sig .scVector .hbm S16384x3328 .f32).slice (Rect.unit (s := S16384x3328) (k0_off87 L 256#32) S128x128.size (k0_off87_inb L hc 2)) (fun _ => rfl)).view (outAt58 I hc) (pay59 I) Finset.univ
def pay60 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt65 I))
def outAt60 : Buf (Elt F) ((V d (cVL L) (jVL L)).loc main_v26_scv) :=
  View.write (Elt F) ((Memref.whole main_v26_scv : Memref sig .scVector .hbm S16384x3328 .f32).slice (Rect.unit (s := S16384x3328) (k0_off88 L 256#32) S128x128.size (k0_off88_inb L hc 2)) (fun _ => rfl)).view (outAt59 I hc) (pay60 I) Finset.univ
def pay61 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt66 I))
def outAt61 : Buf (Elt F) ((V d (cVL L) (jVL L)).loc main_v26_scv) :=
  View.write (Elt F) ((Memref.whole main_v26_scv : Memref sig .scVector .hbm S16384x3328 .f32).slice (Rect.unit (s := S16384x3328) (k0_off89 L 256#32) S128x128.size (k0_off89_inb L hc 2)) (fun _ => rfl)).view (outAt60 I hc) (pay61 I) Finset.univ
def pay62 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt67 I))
def outAt62 : Buf (Elt F) ((V d (cVL L) (jVL L)).loc main_v26_scv) :=
  View.write (Elt F) ((Memref.whole main_v26_scv : Memref sig .scVector .hbm S16384x3328 .f32).slice (Rect.unit (s := S16384x3328) (k0_off90 L 256#32) S128x128.size (k0_off90_inb L hc 2)) (fun _ => rfl)).view (outAt61 I hc) (pay62 I) Finset.univ
def pay63 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt68 I))
def outAt63 : Buf (Elt F) ((V d (cVL L) (jVL L)).loc main_v26_scv) :=
  View.write (Elt F) ((Memref.whole main_v26_scv : Memref sig .scVector .hbm S16384x3328 .f32).slice (Rect.unit (s := S16384x3328) (k0_off91 L 256#32) S128x128.size (k0_off91_inb L hc 2)) (fun _ => rfl)).view (outAt62 I hc) (pay63 I) Finset.univ
def pay64 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt69 I))
def outAt64 : Buf (Elt F) ((V d (cVL L) (jVL L)).loc main_v26_scv) :=
  View.write (Elt F) ((Memref.whole main_v26_scv : Memref sig .scVector .hbm S16384x3328 .f32).slice (Rect.unit (s := S16384x3328) (k0_off92 L 256#32) S128x128.size (k0_off92_inb L hc 2)) (fun _ => rfl)).view (outAt63 I hc) (pay64 I) Finset.univ
def pay65 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt70 I))
def outAt65 : Buf (Elt F) ((V d (cVL L) (jVL L)).loc main_v26_scv) :=
  View.write (Elt F) ((Memref.whole main_v26_scv : Memref sig .scVector .hbm S16384x3328 .f32).slice (Rect.unit (s := S16384x3328) (k0_off93 L 256#32) S128x128.size (k0_off93_inb L hc 2)) (fun _ => rfl)).view (outAt64 I hc) (pay65 I) Finset.univ
def pay66 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt71 I))
def outAt66 : Buf (Elt F) ((V d (cVL L) (jVL L)).loc main_v26_scv) :=
  View.write (Elt F) ((Memref.whole main_v26_scv : Memref sig .scVector .hbm S16384x3328 .f32).slice (Rect.unit (s := S16384x3328) (k0_off94 L 256#32) S128x128.size (k0_off94_inb L hc 2)) (fun _ => rfl)).view (outAt65 I hc) (pay66 I) Finset.univ
def pay67 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt72 I))
def outAt67 : Buf (Elt F) ((V d (cVL L) (jVL L)).loc main_v26_scv) :=
  View.write (Elt F) ((Memref.whole main_v26_scv : Memref sig .scVector .hbm S16384x3328 .f32).slice (Rect.unit (s := S16384x3328) (k0_off95 L 256#32) S128x128.size (k0_off95_inb L hc 2)) (fun _ => rfl)).view (outAt66 I hc) (pay67 I) Finset.univ
def pay68 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt73 I))
def outAt68 : Buf (Elt F) ((V d (cVL L) (jVL L)).loc main_v26_scv) :=
  View.write (Elt F) ((Memref.whole main_v26_scv : Memref sig .scVector .hbm S16384x3328 .f32).slice (Rect.unit (s := S16384x3328) (k0_off96 L 256#32) S128x128.size (k0_off96_inb L hc 2)) (fun _ => rfl)).view (outAt67 I hc) (pay68 I) Finset.univ
def pay69 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt74 I))
def outAt69 : Buf (Elt F) ((V d (cVL L) (jVL L)).loc main_v26_scv) :=
  View.write (Elt F) ((Memref.whole main_v26_scv : Memref sig .scVector .hbm S16384x3328 .f32).slice (Rect.unit (s := S16384x3328) (k0_off97 L 256#32) S128x128.size (k0_off97_inb L hc 2)) (fun _ => rfl)).view (outAt68 I hc) (pay69 I) Finset.univ
def pay70 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt75 I))
def outAt70 : Buf (Elt F) ((V d (cVL L) (jVL L)).loc main_v26_scv) :=
  View.write (Elt F) ((Memref.whole main_v26_scv : Memref sig .scVector .hbm S16384x3328 .f32).slice (Rect.unit (s := S16384x3328) (k0_off98 L 256#32) S128x128.size (k0_off98_inb L hc 2)) (fun _ => rfl)).view (outAt69 I hc) (pay70 I) Finset.univ
def pay71 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt76 I))
def outAt71 : Buf (Elt F) ((V d (cVL L) (jVL L)).loc main_v26_scv) :=
  View.write (Elt F) ((Memref.whole main_v26_scv : Memref sig .scVector .hbm S16384x3328 .f32).slice (Rect.unit (s := S16384x3328) (k0_off99 L 256#32) S128x128.size (k0_off99_inb L hc 2)) (fun _ => rfl)).view (outAt70 I hc) (pay71 I) Finset.univ
def pay72 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt77 I))
def outAt72 : Buf (Elt F) ((V d (cVL L) (jVL L)).loc main_v26_scv) :=
  View.write (Elt F) ((Memref.whole main_v26_scv : Memref sig .scVector .hbm S16384x3328 .f32).slice (Rect.unit (s := S16384x3328) (k0_off100 L 256#32) S128x128.size (k0_off100_inb L hc 2)) (fun _ => rfl)).view (outAt71 I hc) (pay72 I) Finset.univ
def pay73 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt78 I))
def outAt73 : Buf (Elt F) ((V d (cVL L) (jVL L)).loc main_v26_scv) :=
  View.write (Elt F) ((Memref.whole main_v26_scv : Memref sig .scVector .hbm S16384x3328 .f32).slice (Rect.unit (s := S16384x3328) (k0_off101 L 256#32) S128x128.size (k0_off101_inb L hc 2)) (fun _ => rfl)).view (outAt72 I hc) (pay73 I) Finset.univ
def pay74 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt79 I))
def outAt74 : Buf (Elt F) ((V d (cVL L) (jVL L)).loc main_v26_scv) :=
  View.write (Elt F) ((Memref.whole main_v26_scv : Memref sig .scVector .hbm S16384x3328 .f32).slice (Rect.unit (s := S16384x3328) (k0_off102 L 256#32) S128x128.size (k0_off102_inb L hc 2)) (fun _ => rfl)).view (outAt73 I hc) (pay74 I) Finset.univ
def pay75 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt80 I))
def outAt75 : Buf (Elt F) ((V d (cVL L) (jVL L)).loc main_v26_scv) :=
  View.write (Elt F) ((Memref.whole main_v26_scv : Memref sig .scVector .hbm S16384x3328 .f32).slice (Rect.unit (s := S16384x3328) (k0_off103 L 256#32) S128x128.size (k0_off103_inb L hc 2)) (fun _ => rfl)).view (outAt74 I hc) (pay75 I) Finset.univ
def pay76 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt81 I))
def outAt76 : Buf (Elt F) ((V d (cVL L) (jVL L)).loc main_v26_scv) :=
  View.write (Elt F) ((Memref.whole main_v26_scv : Memref sig .scVector .hbm S16384x3328 .f32).slice (Rect.unit (s := S16384x3328) (k0_off104 L 256#32) S128x128.size (k0_off104_inb L hc 2)) (fun _ => rfl)).view (outAt75 I hc) (pay76 I) Finset.univ
def pay77 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt82 I))
def outAt77 : Buf (Elt F) ((V d (cVL L) (jVL L)).loc main_v26_scv) :=
  View.write (Elt F) ((Memref.whole main_v26_scv : Memref sig .scVector .hbm S16384x3328 .f32).slice (Rect.unit (s := S16384x3328) (k0_off105 L 256#32) S128x128.size (k0_off105_inb L hc 2)) (fun _ => rfl)).view (outAt76 I hc) (pay77 I) Finset.univ
def pay78 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt83 I))
def outAt78 : Buf (Elt F) ((V d (cVL L) (jVL L)).loc main_v26_scv) :=
  View.write (Elt F) ((Memref.whole main_v26_scv : Memref sig .scVector .hbm S16384x3328 .f32).slice (Rect.unit (s := S16384x3328) (k0_off80 L 384#32) S128x128.size (k0_off80_inb L hc 3)) (fun _ => rfl)).view (outAt77 I hc) (pay78 I) Finset.univ
def pay79 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt84 I))
def outAt79 : Buf (Elt F) ((V d (cVL L) (jVL L)).loc main_v26_scv) :=
  View.write (Elt F) ((Memref.whole main_v26_scv : Memref sig .scVector .hbm S16384x3328 .f32).slice (Rect.unit (s := S16384x3328) (k0_off81 L 384#32) S128x128.size (k0_off81_inb L hc 3)) (fun _ => rfl)).view (outAt78 I hc) (pay79 I) Finset.univ
def pay80 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt85 I))
def outAt80 : Buf (Elt F) ((V d (cVL L) (jVL L)).loc main_v26_scv) :=
  View.write (Elt F) ((Memref.whole main_v26_scv : Memref sig .scVector .hbm S16384x3328 .f32).slice (Rect.unit (s := S16384x3328) (k0_off82 L 384#32) S128x128.size (k0_off82_inb L hc 3)) (fun _ => rfl)).view (outAt79 I hc) (pay80 I) Finset.univ
def pay81 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt86 I))
def outAt81 : Buf (Elt F) ((V d (cVL L) (jVL L)).loc main_v26_scv) :=
  View.write (Elt F) ((Memref.whole main_v26_scv : Memref sig .scVector .hbm S16384x3328 .f32).slice (Rect.unit (s := S16384x3328) (k0_off83 L 384#32) S128x128.size (k0_off83_inb L hc 3)) (fun _ => rfl)).view (outAt80 I hc) (pay81 I) Finset.univ
def pay82 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt87 I))
def outAt82 : Buf (Elt F) ((V d (cVL L) (jVL L)).loc main_v26_scv) :=
  View.write (Elt F) ((Memref.whole main_v26_scv : Memref sig .scVector .hbm S16384x3328 .f32).slice (Rect.unit (s := S16384x3328) (k0_off84 L 384#32) S128x128.size (k0_off84_inb L hc 3)) (fun _ => rfl)).view (outAt81 I hc) (pay82 I) Finset.univ
def pay83 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt88 I))
def outAt83 : Buf (Elt F) ((V d (cVL L) (jVL L)).loc main_v26_scv) :=
  View.write (Elt F) ((Memref.whole main_v26_scv : Memref sig .scVector .hbm S16384x3328 .f32).slice (Rect.unit (s := S16384x3328) (k0_off85 L 384#32) S128x128.size (k0_off85_inb L hc 3)) (fun _ => rfl)).view (outAt82 I hc) (pay83 I) Finset.univ
def pay84 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt89 I))
def outAt84 : Buf (Elt F) ((V d (cVL L) (jVL L)).loc main_v26_scv) :=
  View.write (Elt F) ((Memref.whole main_v26_scv : Memref sig .scVector .hbm S16384x3328 .f32).slice (Rect.unit (s := S16384x3328) (k0_off86 L 384#32) S128x128.size (k0_off86_inb L hc 3)) (fun _ => rfl)).view (outAt83 I hc) (pay84 I) Finset.univ
def pay85 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt90 I))
def outAt85 : Buf (Elt F) ((V d (cVL L) (jVL L)).loc main_v26_scv) :=
  View.write (Elt F) ((Memref.whole main_v26_scv : Memref sig .scVector .hbm S16384x3328 .f32).slice (Rect.unit (s := S16384x3328) (k0_off87 L 384#32) S128x128.size (k0_off87_inb L hc 3)) (fun _ => rfl)).view (outAt84 I hc) (pay85 I) Finset.univ
def pay86 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt91 I))
def outAt86 : Buf (Elt F) ((V d (cVL L) (jVL L)).loc main_v26_scv) :=
  View.write (Elt F) ((Memref.whole main_v26_scv : Memref sig .scVector .hbm S16384x3328 .f32).slice (Rect.unit (s := S16384x3328) (k0_off88 L 384#32) S128x128.size (k0_off88_inb L hc 3)) (fun _ => rfl)).view (outAt85 I hc) (pay86 I) Finset.univ
def pay87 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt92 I))
def outAt87 : Buf (Elt F) ((V d (cVL L) (jVL L)).loc main_v26_scv) :=
  View.write (Elt F) ((Memref.whole main_v26_scv : Memref sig .scVector .hbm S16384x3328 .f32).slice (Rect.unit (s := S16384x3328) (k0_off89 L 384#32) S128x128.size (k0_off89_inb L hc 3)) (fun _ => rfl)).view (outAt86 I hc) (pay87 I) Finset.univ
def pay88 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt93 I))
def outAt88 : Buf (Elt F) ((V d (cVL L) (jVL L)).loc main_v26_scv) :=
  View.write (Elt F) ((Memref.whole main_v26_scv : Memref sig .scVector .hbm S16384x3328 .f32).slice (Rect.unit (s := S16384x3328) (k0_off90 L 384#32) S128x128.size (k0_off90_inb L hc 3)) (fun _ => rfl)).view (outAt87 I hc) (pay88 I) Finset.univ
def pay89 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt94 I))
def outAt89 : Buf (Elt F) ((V d (cVL L) (jVL L)).loc main_v26_scv) :=
  View.write (Elt F) ((Memref.whole main_v26_scv : Memref sig .scVector .hbm S16384x3328 .f32).slice (Rect.unit (s := S16384x3328) (k0_off91 L 384#32) S128x128.size (k0_off91_inb L hc 3)) (fun _ => rfl)).view (outAt88 I hc) (pay89 I) Finset.univ
def pay90 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt95 I))
def outAt90 : Buf (Elt F) ((V d (cVL L) (jVL L)).loc main_v26_scv) :=
  View.write (Elt F) ((Memref.whole main_v26_scv : Memref sig .scVector .hbm S16384x3328 .f32).slice (Rect.unit (s := S16384x3328) (k0_off92 L 384#32) S128x128.size (k0_off92_inb L hc 3)) (fun _ => rfl)).view (outAt89 I hc) (pay90 I) Finset.univ
def pay91 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt96 I))
def outAt91 : Buf (Elt F) ((V d (cVL L) (jVL L)).loc main_v26_scv) :=
  View.write (Elt F) ((Memref.whole main_v26_scv : Memref sig .scVector .hbm S16384x3328 .f32).slice (Rect.unit (s := S16384x3328) (k0_off93 L 384#32) S128x128.size (k0_off93_inb L hc 3)) (fun _ => rfl)).view (outAt90 I hc) (pay91 I) Finset.univ
def pay92 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt97 I))
def outAt92 : Buf (Elt F) ((V d (cVL L) (jVL L)).loc main_v26_scv) :=
  View.write (Elt F) ((Memref.whole main_v26_scv : Memref sig .scVector .hbm S16384x3328 .f32).slice (Rect.unit (s := S16384x3328) (k0_off94 L 384#32) S128x128.size (k0_off94_inb L hc 3)) (fun _ => rfl)).view (outAt91 I hc) (pay92 I) Finset.univ
def pay93 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt98 I))
def outAt93 : Buf (Elt F) ((V d (cVL L) (jVL L)).loc main_v26_scv) :=
  View.write (Elt F) ((Memref.whole main_v26_scv : Memref sig .scVector .hbm S16384x3328 .f32).slice (Rect.unit (s := S16384x3328) (k0_off95 L 384#32) S128x128.size (k0_off95_inb L hc 3)) (fun _ => rfl)).view (outAt92 I hc) (pay93 I) Finset.univ
def pay94 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt99 I))
def outAt94 : Buf (Elt F) ((V d (cVL L) (jVL L)).loc main_v26_scv) :=
  View.write (Elt F) ((Memref.whole main_v26_scv : Memref sig .scVector .hbm S16384x3328 .f32).slice (Rect.unit (s := S16384x3328) (k0_off96 L 384#32) S128x128.size (k0_off96_inb L hc 3)) (fun _ => rfl)).view (outAt93 I hc) (pay94 I) Finset.univ
def pay95 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt100 I))
def outAt95 : Buf (Elt F) ((V d (cVL L) (jVL L)).loc main_v26_scv) :=
  View.write (Elt F) ((Memref.whole main_v26_scv : Memref sig .scVector .hbm S16384x3328 .f32).slice (Rect.unit (s := S16384x3328) (k0_off97 L 384#32) S128x128.size (k0_off97_inb L hc 3)) (fun _ => rfl)).view (outAt94 I hc) (pay95 I) Finset.univ
def pay96 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt101 I))
def outAt96 : Buf (Elt F) ((V d (cVL L) (jVL L)).loc main_v26_scv) :=
  View.write (Elt F) ((Memref.whole main_v26_scv : Memref sig .scVector .hbm S16384x3328 .f32).slice (Rect.unit (s := S16384x3328) (k0_off98 L 384#32) S128x128.size (k0_off98_inb L hc 3)) (fun _ => rfl)).view (outAt95 I hc) (pay96 I) Finset.univ
def pay97 : S128x128.Idx → Elt F .f32 :=
  ReadAs.same.apply (View.read (Elt F) (((Memref.whole cc0_scratch1 : Memref sig .scVector .vmem S7x128x128 .f32).slice (Rect.unit (s := S7x128x128) ![6, 0, 0] S1x128x128.size inb_S7x128x128_S1x128x128_6_0_0) (fun _ => rfl)).squeeze S128x128 squeezes_S1x128x128_S128x128).view (rowsAt102 I))
def outAt97 : Buf (Elt F) ((V d (cVL L) (jVL L)).loc main_v26_scv) :=
  View.write (Elt F) ((Memref.whole main_v26_scv : Memref sig .scVector .hbm S16384x3328 .f32).slice (Rect.unit (s := S16384x3328) (k0_off99 L 384#32) S128x128.size (k0_off99_inb L hc 3)) (fun _ => rfl)).view (outAt96 I hc) (pay97 I) Finset.univ
def pay98 : S128x128.Idx → Elt F .f32 :=
  ReadAs.same.apply (View.read (Elt F) (((Memref.whole cc0_scratch1 : Memref sig .scVector .vmem S7x128x128 .f32).slice (Rect.unit (s := S7x128x128) ![0, 0, 0] S1x128x128.size inb_S7x128x128_S1x128x128_0_0_0) (fun _ => rfl)).squeeze S128x128 squeezes_S1x128x128_S128x128).view (rowsAt103 I))
def outAt98 : Buf (Elt F) ((V d (cVL L) (jVL L)).loc main_v26_scv) :=
  View.write (Elt F) ((Memref.whole main_v26_scv : Memref sig .scVector .hbm S16384x3328 .f32).slice (Rect.unit (s := S16384x3328) (k0_off100 L 384#32) S128x128.size (k0_off100_inb L hc 3)) (fun _ => rfl)).view (outAt97 I hc) (pay98 I) Finset.univ
def pay99 : S128x128.Idx → Elt F .f32 :=
  ReadAs.same.apply (View.read (Elt F) (((Memref.whole cc0_scratch1 : Memref sig .scVector .vmem S7x128x128 .f32).slice (Rect.unit (s := S7x128x128) ![1, 0, 0] S1x128x128.size inb_S7x128x128_S1x128x128_1_0_0) (fun _ => rfl)).squeeze S128x128 squeezes_S1x128x128_S128x128).view (rowsAt103 I))
def outAt99 : Buf (Elt F) ((V d (cVL L) (jVL L)).loc main_v26_scv) :=
  View.write (Elt F) ((Memref.whole main_v26_scv : Memref sig .scVector .hbm S16384x3328 .f32).slice (Rect.unit (s := S16384x3328) (k0_off101 L 384#32) S128x128.size (k0_off101_inb L hc 3)) (fun _ => rfl)).view (outAt98 I hc) (pay99 I) Finset.univ
def pay100 : S128x128.Idx → Elt F .f32 :=
  ReadAs.same.apply (View.read (Elt F) (((Memref.whole cc0_scratch1 : Memref sig .scVector .vmem S7x128x128 .f32).slice (Rect.unit (s := S7x128x128) ![2, 0, 0] S1x128x128.size inb_S7x128x128_S1x128x128_2_0_0) (fun _ => rfl)).squeeze S128x128 squeezes_S1x128x128_S128x128).view (rowsAt103 I))
def outAt100 : Buf (Elt F) ((V d (cVL L) (jVL L)).loc main_v26_scv) :=
  View.write (Elt F) ((Memref.whole main_v26_scv : Memref sig .scVector .hbm S16384x3328 .f32).slice (Rect.unit (s := S16384x3328) (k0_off102 L 384#32) S128x128.size (k0_off102_inb L hc 3)) (fun _ => rfl)).view (outAt99 I hc) (pay100 I) Finset.univ
def pay101 : S128x128.Idx → Elt F .f32 :=
  ReadAs.same.apply (View.read (Elt F) (((Memref.whole cc0_scratch1 : Memref sig .scVector .vmem S7x128x128 .f32).slice (Rect.unit (s := S7x128x128) ![3, 0, 0] S1x128x128.size inb_S7x128x128_S1x128x128_3_0_0) (fun _ => rfl)).squeeze S128x128 squeezes_S1x128x128_S128x128).view (rowsAt103 I))
def outAt101 : Buf (Elt F) ((V d (cVL L) (jVL L)).loc main_v26_scv) :=
  View.write (Elt F) ((Memref.whole main_v26_scv : Memref sig .scVector .hbm S16384x3328 .f32).slice (Rect.unit (s := S16384x3328) (k0_off103 L 384#32) S128x128.size (k0_off103_inb L hc 3)) (fun _ => rfl)).view (outAt100 I hc) (pay101 I) Finset.univ
def pay102 : S128x128.Idx → Elt F .f32 :=
  ReadAs.same.apply (View.read (Elt F) (((Memref.whole cc0_scratch1 : Memref sig .scVector .vmem S7x128x128 .f32).slice (Rect.unit (s := S7x128x128) ![4, 0, 0] S1x128x128.size inb_S7x128x128_S1x128x128_4_0_0) (fun _ => rfl)).squeeze S128x128 squeezes_S1x128x128_S128x128).view (rowsAt103 I))
def outAt102 : Buf (Elt F) ((V d (cVL L) (jVL L)).loc main_v26_scv) :=
  View.write (Elt F) ((Memref.whole main_v26_scv : Memref sig .scVector .hbm S16384x3328 .f32).slice (Rect.unit (s := S16384x3328) (k0_off104 L 384#32) S128x128.size (k0_off104_inb L hc 3)) (fun _ => rfl)).view (outAt101 I hc) (pay102 I) Finset.univ
def pay103 : S128x128.Idx → Elt F .f32 :=
  ReadAs.same.apply (View.read (Elt F) (((Memref.whole cc0_scratch1 : Memref sig .scVector .vmem S7x128x128 .f32).slice (Rect.unit (s := S7x128x128) ![5, 0, 0] S1x128x128.size inb_S7x128x128_S1x128x128_5_0_0) (fun _ => rfl)).squeeze S128x128 squeezes_S1x128x128_S128x128).view (rowsAt103 I))
def outAt103 : Buf (Elt F) ((V d (cVL L) (jVL L)).loc main_v26_scv) :=
  View.write (Elt F) ((Memref.whole main_v26_scv : Memref sig .scVector .hbm S16384x3328 .f32).slice (Rect.unit (s := S16384x3328) (k0_off105 L 384#32) S128x128.size (k0_off105_inb L hc 3)) (fun _ => rfl)).view (outAt102 I hc) (pay103 I) Finset.univ

end Cert.Proof.KI.Chain3

end
-- ==== Proof.ValChainKI3.lean ====
import proofs.«204019_g4913442586959_cont_sun_m_672_34_alg».proof.Proof.ChainKI3
import proofs.«204019_g4913442586959_cont_sun_m_672_34_alg».proof.Proof.ValStepKI

/-!
  The value of a tile of group 3: after its 104 copies the tile's 512 rows of the output hold the specified values.
  Item j's copy carries its slot as the row scratch stands after gather min (j + 5, 103); the gathers issued after
  gather j went to other slots (slot numbers are taken modulo 7, and at most five gathers lie in between), so the
  slot still holds what gather j landed: entry (p, e) is entry e of the row of table t that word p of list (t, r) of
  the index scratch names. That word is entry 128·(8·L₁ + 4·L₀ + r) + p of column t, so the slot is the specified
  block at rows 1024·L₁ + 512·L₀ + 128·r .., words 128·t ... Copy by copy the output then holds the specified values
  on the blocks of items 0 .. j, and the 104 blocks are all of the tile's rows.
-/

noncomputable section

namespace Cert.Proof.KI.Chain3

open Cert.KernelIdeal Cert.KernelIdeal.Gen
open Idealize.ShloMosaic
open Idealize.ShloMosaic.SparseCore (S V T)
open Idealize.ShloMosaic.ValueIdx
open Cert.Proof.KI Cert.Proof.KI.Idx Cert.Proof.KI.Val

variable {F : FTy → Type} {d : Dev nD} {L : grid0.Coords} (I : TileIn F d L) (hc : k0_cond4 L = 1#1)

/-- What the value argument assumes of the run's start: the tables, the columns in range, the index scratch filled
    with the tile's four rows of each reshaped column. -/
structure Hyp (tbl : Fin 26 → S1000x128.Idx → Elt F .f32) (col : Fin 26 → Cert.Spec.ColS.Idx → BitVec 32)
    (pay : Fin 26 → S4x128.Idx → Elt F .i32) : Prop where
  ht0 : tbl 0 = I.ft0
  ht1 : tbl 1 = I.ft1
  ht2 : tbl 2 = I.ft2
  ht3 : tbl 3 = I.ft3
  ht4 : tbl 4 = I.ft4
  ht5 : tbl 5 = I.ft5
  ht6 : tbl 6 = I.ft6
  ht7 : tbl 7 = I.ft7
  ht8 : tbl 8 = I.ft8
  ht9 : tbl 9 = I.ft9
  ht10 : tbl 10 = I.ft10
  ht11 : tbl 11 = I.ft11
  ht12 : tbl 12 = I.ft12
  ht13 : tbl 13 = I.ft13
  ht14 : tbl 14 = I.ft14
  ht15 : tbl 15 = I.ft15
  ht16 : tbl 16 = I.ft16
  ht17 : tbl 17 = I.ft17
  ht18 : tbl 18 = I.ft18
  ht19 : tbl 19 = I.ft19
  ht20 : tbl 20 = I.ft20
  ht21 : tbl 21 = I.ft21
  ht22 : tbl 22 = I.ft22
  ht23 : tbl 23 = I.ft23
  ht24 : tbl 24 = I.ft24
  ht25 : tbl 25 = I.ft25
  hr : ∀ t b, (col t b).toNat < 1000
  hfi : I.fi = IDXV pay
  hpay : ∀ t (r : Fin 4) (p : Fin 128), pay t (ix2 r p) = col t (ix1 (outRow L r p))

variable {tbl : Fin 26 → S1000x128.Idx → Elt F .f32} {col : Fin 26 → Cert.Spec.ColS.Idx → BitVec 32} {pay : Fin 26 → S4x128.Idx → Elt F .i32}

theorem rd0 : (Rn 0 inb_S7x128x128_S1x128x128_0_0_0).view.read (Elt F) (rowsAt5 I) = gp0 I :=
  ((Rn_read_miss 0 5 inb_S7x128x128_S1x128x128_0_0_0 inb_S7x128x128_S1x128x128_5_0_0 (by decide) (rowsAt4 I) (gp5 I)).trans ((Rn_read_miss 0 4 inb_S7x128x128_S1x128x128_0_0_0 inb_S7x128x128_S1x128x128_4_0_0 (by decide) (rowsAt3 I) (gp4 I)).trans ((Rn_read_miss 0 3 inb_S7x128x128_S1x128x128_0_0_0 inb_S7x128x128_S1x128x128_3_0_0 (by decide) (rowsAt2 I) (gp3 I)).trans ((Rn_read_miss 0 2 inb_S7x128x128_S1x128x128_0_0_0 inb_S7x128x128_S1x128x128_2_0_0 (by decide) (rowsAt1 I) (gp2 I)).trans ((Rn_read_miss 0 1 inb_S7x128x128_S1x128x128_0_0_0 inb_S7x128x128_S1x128x128_1_0_0 (by decide) (rowsAt0 I) (gp1 I)).trans (Rn_read_hit 0 inb_S7x128x128_S1x128x128_0_0_0 I.fr (gp0 I)))))))
theorem payG0 (H : Hyp I tbl col pay) : ∀ y, pay0 I y = Cert.Spec.G tbl col ((Rect.unit (s := S16384x3328) (k0_off80 L 0#32) S128x128.size (k0_off80_inb L hc 0)).emb y) :=
  Step.item_payload tbl col H.hr L pay H.hpay I.fi H.hfi 20 0 inb_S26x4x128_S1x1x128_20_0_0 squeezes_S1x1x128_S128
    _ ((Step.read_full (View.whole main_arg46_scv) inb_S1000x128_S1000x128_0_0 I.ft20).trans H.ht20.symm)
    rfl (I.hin 20 0 inb_S26x4x128_S1x1x128_20_0_0 squeezes_S1x1x128_S128) (k0_off80 L 0#32) (k0_off80_eq L 0) (k0_off80_inb L hc 0) (pay0 I) (rd0 I)
theorem inv0 (H : Hyp I tbl col pay) : ∀ j' < 1, ∀ i ∈ Step.blkSet L 20 j', outAt0 I hc i = Cert.Spec.G tbl col i :=
  Step.out_step L 20 (Cert.Spec.G tbl col) 0 (k0_off80 L 0#32) (k0_off80_eq L 0) (k0_off80_inb L hc 0) I.fo (pay0 I) (payG0 I hc H)
    (fun j' h => absurd h (Nat.not_lt_zero j'))
theorem rd1 : (Rn 1 inb_S7x128x128_S1x128x128_1_0_0).view.read (Elt F) (rowsAt6 I) = gp1 I :=
  ((Rn_read_miss 1 6 inb_S7x128x128_S1x128x128_1_0_0 inb_S7x128x128_S1x128x128_6_0_0 (by decide) (rowsAt5 I) (gp6 I)).trans ((Rn_read_miss 1 5 inb_S7x128x128_S1x128x128_1_0_0 inb_S7x128x128_S1x128x128_5_0_0 (by decide) (rowsAt4 I) (gp5 I)).trans ((Rn_read_miss 1 4 inb_S7x128x128_S1x128x128_1_0_0 inb_S7x128x128_S1x128x128_4_0_0 (by decide) (rowsAt3 I) (gp4 I)).trans ((Rn_read_miss 1 3 inb_S7x128x128_S1x128x128_1_0_0 inb_S7x128x128_S1x128x128_3_0_0 (by decide) (rowsAt2 I) (gp3 I)).trans ((Rn_read_miss 1 2 inb_S7x128x128_S1x128x128_1_0_0 inb_S7x128x128_S1x128x128_2_0_0 (by decide) (rowsAt1 I) (gp2 I)).trans (Rn_read_hit 1 inb_S7x128x128_S1x128x128_1_0_0 (rowsAt0 I) (gp1 I)))))))
theorem payG1 (H : Hyp I tbl col pay) : ∀ y, pay1 I y = Cert.Spec.G tbl col ((Rect.unit (s := S16384x3328) (k0_off81 L 0#32) S128x128.size (k0_off81_inb L hc 0)).emb y) :=
  Step.item_payload tbl col H.hr L pay H.hpay I.fi H.hfi 21 0 inb_S26x4x128_S1x1x128_21_0_0 squeezes_S1x1x128_S128
    _ ((Step.read_full (View.whole main_arg47_scv) inb_S1000x128_S1000x128_0_0 I.ft21).trans H.ht21.symm)
    rfl (I.hin 21 0 inb_S26x4x128_S1x1x128_21_0_0 squeezes_S1x1x128_S128) (k0_off81 L 0#32) (k0_off81_eq L 0) (k0_off81_inb L hc 0) (pay1 I) (rd1 I)
theorem inv1 (H : Hyp I tbl col pay) : ∀ j' < 2, ∀ i ∈ Step.blkSet L 20 j', outAt1 I hc i = Cert.Spec.G tbl col i :=
  Step.out_step L 20 (Cert.Spec.G tbl col) 1 (k0_off81 L 0#32) (k0_off81_eq L 0) (k0_off81_inb L hc 0) (outAt0 I hc) (pay1 I) (payG1 I hc H)
    (inv0 I hc H)
theorem rd2 : (Rn 2 inb_S7x128x128_S1x128x128_2_0_0).view.read (Elt F) (rowsAt7 I) = gp2 I :=
  ((Rn_read_miss 2 0 inb_S7x128x128_S1x128x128_2_0_0 inb_S7x128x128_S1x128x128_0_0_0 (by decide) (rowsAt6 I) (gp7 I)).trans ((Rn_read_miss 2 6 inb_S7x128x128_S1x128x128_2_0_0 inb_S7x128x128_S1x128x128_6_0_0 (by decide) (rowsAt5 I) (gp6 I)).trans ((Rn_read_miss 2 5 inb_S7x128x128_S1x128x128_2_0_0 inb_S7x128x128_S1x128x128_5_0_0 (by decide) (rowsAt4 I) (gp5 I)).trans ((Rn_read_miss 2 4 inb_S7x128x128_S1x128x128_2_0_0 inb_S7x128x128_S1x128x128_4_0_0 (by decide) (rowsAt3 I) (gp4 I)).trans ((Rn_read_miss 2 3 inb_S7x128x128_S1x128x128_2_0_0 inb_S7x128x128_S1x128x128_3_0_0 (by decide) (rowsAt2 I) (gp3 I)).trans (Rn_read_hit 2 inb_S7x128x128_S1x128x128_2_0_0 (rowsAt1 I) (gp2 I)))))))
theorem payG2 (H : Hyp I tbl col pay) : ∀ y, pay2 I y = Cert.Spec.G tbl col ((Rect.unit (s := S16384x3328) (k0_off82 L 0#32) S128x128.size (k0_off82_inb L hc 0)).emb y) :=
  Step.item_payload tbl col H.hr L pay H.hpay I.fi H.hfi 22 0 inb_S26x4x128_S1x1x128_22_0_0 squeezes_S1x1x128_S128
    _ ((Step.read_full (View.whole main_arg48_scv) inb_S1000x128_S1000x128_0_0 I.ft22).trans H.ht22.symm)
    rfl (I.hin 22 0 inb_S26x4x128_S1x1x128_22_0_0 squeezes_S1x1x128_S128) (k0_off82 L 0#32) (k0_off82_eq L 0) (k0_off82_inb L hc 0) (pay2 I) (rd2 I)
theorem inv2 (H : Hyp I tbl col pay) : ∀ j' < 3, ∀ i ∈ Step.blkSet L 20 j', outAt2 I hc i = Cert.Spec.G tbl col i :=
  Step.out_step L 20 (Cert.Spec.G tbl col) 2 (k0_off82 L 0#32) (k0_off82_eq L 0) (k0_off82_inb L hc 0) (outAt1 I hc) (pay2 I) (payG2 I hc H)
    (inv1 I hc H)
theorem rd3 : (Rn 3 inb_S7x128x128_S1x128x128_3_0_0).view.read (Elt F) (rowsAt8 I) = gp3 I :=
  ((Rn_read_miss 3 1 inb_S7x128x128_S1x128x128_3_0_0 inb_S7x128x128_S1x128x128_1_0_0 (by decide) (rowsAt7 I) (gp8 I)).trans ((Rn_read_miss 3 0 inb_S7x128x128_S1x128x128_3_0_0 inb_S7x128x128_S1x128x128_0_0_0 (by decide) (rowsAt6 I) (gp7 I)).trans ((Rn_read_miss 3 6 inb_S7x128x128_S1x128x128_3_0_0 inb_S7x128x128_S1x128x128_6_0_0 (by decide) (rowsAt5 I) (gp6 I)).trans ((Rn_read_miss 3 5 inb_S7x128x128_S1x128x128_3_0_0 inb_S7x128x128_S1x128x128_5_0_0 (by decide) (rowsAt4 I) (gp5 I)).trans ((Rn_read_miss 3 4 inb_S7x128x128_S1x128x128_3_0_0 inb_S7x128x128_S1x128x128_4_0_0 (by decide) (rowsAt3 I) (gp4 I)).trans (Rn_read_hit 3 inb_S7x128x128_S1x128x128_3_0_0 (rowsAt2 I) (gp3 I)))))))
theorem payG3 (H : Hyp I tbl col pay) : ∀ y, pay3 I y = Cert.Spec.G tbl col ((Rect.unit (s := S16384x3328) (k0_off83 L 0#32) S128x128.size (k0_off83_inb L hc 0)).emb y) :=
  Step.item_payload tbl col H.hr L pay H.hpay I.fi H.hfi 23 0 inb_S26x4x128_S1x1x128_23_0_0 squeezes_S1x1x128_S128
    _ ((Step.read_full (View.whole main_arg49_scv) inb_S1000x128_S1000x128_0_0 I.ft23).trans H.ht23.symm)
    rfl (I.hin 23 0 inb_S26x4x128_S1x1x128_23_0_0 squeezes_S1x1x128_S128) (k0_off83 L 0#32) (k0_off83_eq L 0) (k0_off83_inb L hc 0) (pay3 I) (rd3 I)
theorem inv3 (H : Hyp I tbl col pay) : ∀ j' < 4, ∀ i ∈ Step.blkSet L 20 j', outAt3 I hc i = Cert.Spec.G tbl col i :=
  Step.out_step L 20 (Cert.Spec.G tbl col) 3 (k0_off83 L 0#32) (k0_off83_eq L 0) (k0_off83_inb L hc 0) (outAt2 I hc) (pay3 I) (payG3 I hc H)
    (inv2 I hc H)
theorem rd4 : (Rn 4 inb_S7x128x128_S1x128x128_4_0_0).view.read (Elt F) (rowsAt9 I) = gp4 I :=
  ((Rn_read_miss 4 2 inb_S7x128x128_S1x128x128_4_0_0 inb_S7x128x128_S1x128x128_2_0_0 (by decide) (rowsAt8 I) (gp9 I)).trans ((Rn_read_miss 4 1 inb_S7x128x128_S1x128x128_4_0_0 inb_S7x128x128_S1x128x128_1_0_0 (by decide) (rowsAt7 I) (gp8 I)).trans ((Rn_read_miss 4 0 inb_S7x128x128_S1x128x128_4_0_0 inb_S7x128x128_S1x128x128_0_0_0 (by decide) (rowsAt6 I) (gp7 I)).trans ((Rn_read_miss 4 6 inb_S7x128x128_S1x128x128_4_0_0 inb_S7x128x128_S1x128x128_6_0_0 (by decide) (rowsAt5 I) (gp6 I)).trans ((Rn_read_miss 4 5 inb_S7x128x128_S1x128x128_4_0_0 inb_S7x128x128_S1x128x128_5_0_0 (by decide) (rowsAt4 I) (gp5 I)).trans (Rn_read_hit 4 inb_S7x128x128_S1x128x128_4_0_0 (rowsAt3 I) (gp4 I)))))))
theorem payG4 (H : Hyp I tbl col pay) : ∀ y, pay4 I y = Cert.Spec.G tbl col ((Rect.unit (s := S16384x3328) (k0_off84 L 0#32) S128x128.size (k0_off84_inb L hc 0)).emb y) :=
  Step.item_payload tbl col H.hr L pay H.hpay I.fi H.hfi 24 0 inb_S26x4x128_S1x1x128_24_0_0 squeezes_S1x1x128_S128
    _ ((Step.read_full (View.whole main_arg50_scv) inb_S1000x128_S1000x128_0_0 I.ft24).trans H.ht24.symm)
    rfl (I.hin 24 0 inb_S26x4x128_S1x1x128_24_0_0 squeezes_S1x1x128_S128) (k0_off84 L 0#32) (k0_off84_eq L 0) (k0_off84_inb L hc 0) (pay4 I) (rd4 I)
theorem inv4 (H : Hyp I tbl col pay) : ∀ j' < 5, ∀ i ∈ Step.blkSet L 20 j', outAt4 I hc i = Cert.Spec.G tbl col i :=
  Step.out_step L 20 (Cert.Spec.G tbl col) 4 (k0_off84 L 0#32) (k0_off84_eq L 0) (k0_off84_inb L hc 0) (outAt3 I hc) (pay4 I) (payG4 I hc H)
    (inv3 I hc H)
theorem rd5 : (Rn 5 inb_S7x128x128_S1x128x128_5_0_0).view.read (Elt F) (rowsAt10 I) = gp5 I :=
  ((Rn_read_miss 5 3 inb_S7x128x128_S1x128x128_5_0_0 inb_S7x128x128_S1x128x128_3_0_0 (by decide) (rowsAt9 I) (gp10 I)).trans ((Rn_read_miss 5 2 inb_S7x128x128_S1x128x128_5_0_0 inb_S7x128x128_S1x128x128_2_0_0 (by decide) (rowsAt8 I) (gp9 I)).trans ((Rn_read_miss 5 1 inb_S7x128x128_S1x128x128_5_0_0 inb_S7x128x128_S1x128x128_1_0_0 (by decide) (rowsAt7 I) (gp8 I)).trans ((Rn_read_miss 5 0 inb_S7x128x128_S1x128x128_5_0_0 inb_S7x128x128_S1x128x128_0_0_0 (by decide) (rowsAt6 I) (gp7 I)).trans ((Rn_read_miss 5 6 inb_S7x128x128_S1x128x128_5_0_0 inb_S7x128x128_S1x128x128_6_0_0 (by decide) (rowsAt5 I) (gp6 I)).trans (Rn_read_hit 5 inb_S7x128x128_S1x128x128_5_0_0 (rowsAt4 I) (gp5 I)))))))
theorem payG5 (H : Hyp I tbl col pay) : ∀ y, pay5 I y = Cert.Spec.G tbl col ((Rect.unit (s := S16384x3328) (k0_off85 L 0#32) S128x128.size (k0_off85_inb L hc 0)).emb y) :=
  Step.item_payload tbl col H.hr L pay H.hpay I.fi H.hfi 25 0 inb_S26x4x128_S1x1x128_25_0_0 squeezes_S1x1x128_S128
    _ ((Step.read_full (View.whole main_arg51_scv) inb_S1000x128_S1000x128_0_0 I.ft25).trans H.ht25.symm)
    rfl (I.hin 25 0 inb_S26x4x128_S1x1x128_25_0_0 squeezes_S1x1x128_S128) (k0_off85 L 0#32) (k0_off85_eq L 0) (k0_off85_inb L hc 0) (pay5 I) (rd5 I)
theorem inv5 (H : Hyp I tbl col pay) : ∀ j' < 6, ∀ i ∈ Step.blkSet L 20 j', outAt5 I hc i = Cert.Spec.G tbl col i :=
  Step.out_step L 20 (Cert.Spec.G tbl col) 5 (k0_off85 L 0#32) (k0_off85_eq L 0) (k0_off85_inb L hc 0) (outAt4 I hc) (pay5 I) (payG5 I hc H)
    (inv4 I hc H)
theorem rd6 : (Rn 6 inb_S7x128x128_S1x128x128_6_0_0).view.read (Elt F) (rowsAt11 I) = gp6 I :=
  ((Rn_read_miss 6 4 inb_S7x128x128_S1x128x128_6_0_0 inb_S7x128x128_S1x128x128_4_0_0 (by decide) (rowsAt10 I) (gp11 I)).trans ((Rn_read_miss 6 3 inb_S7x128x128_S1x128x128_6_0_0 inb_S7x128x128_S1x128x128_3_0_0 (by decide) (rowsAt9 I) (gp10 I)).trans ((Rn_read_miss 6 2 inb_S7x128x128_S1x128x128_6_0_0 inb_S7x128x128_S1x128x128_2_0_0 (by decide) (rowsAt8 I) (gp9 I)).trans ((Rn_read_miss 6 1 inb_S7x128x128_S1x128x128_6_0_0 inb_S7x128x128_S1x128x128_1_0_0 (by decide) (rowsAt7 I) (gp8 I)).trans ((Rn_read_miss 6 0 inb_S7x128x128_S1x128x128_6_0_0 inb_S7x128x128_S1x128x128_0_0_0 (by decide) (rowsAt6 I) (gp7 I)).trans (Rn_read_hit 6 inb_S7x128x128_S1x128x128_6_0_0 (rowsAt5 I) (gp6 I)))))))
theorem payG6 (H : Hyp I tbl col pay) : ∀ y, pay6 I y = Cert.Spec.G tbl col ((Rect.unit (s := S16384x3328) (k0_off86 L 0#32) S128x128.size (k0_off86_inb L hc 0)).emb y) :=
  Step.item_payload tbl col H.hr L pay H.hpay I.fi H.hfi 0 0 inb_S26x4x128_S1x1x128_0_0_0 squeezes_S1x1x128_S128
    _ ((Step.read_full (View.whole main_arg26_scv) inb_S1000x128_S1000x128_0_0 I.ft0).trans H.ht0.symm)
    rfl (I.hin 0 0 inb_S26x4x128_S1x1x128_0_0_0 squeezes_S1x1x128_S128) (k0_off86 L 0#32) (k0_off86_eq L 0) (k0_off86_inb L hc 0) (pay6 I) (rd6 I)
theorem inv6 (H : Hyp I tbl col pay) : ∀ j' < 7, ∀ i ∈ Step.blkSet L 20 j', outAt6 I hc i = Cert.Spec.G tbl col i :=
  Step.out_step L 20 (Cert.Spec.G tbl col) 6 (k0_off86 L 0#32) (k0_off86_eq L 0) (k0_off86_inb L hc 0) (outAt5 I hc) (pay6 I) (payG6 I hc H)
    (inv5 I hc H)
theorem rd7 : (Rn 0 inb_S7x128x128_S1x128x128_0_0_0).view.read (Elt F) (rowsAt12 I) = gp7 I :=
  ((Rn_read_miss 0 5 inb_S7x128x128_S1x128x128_0_0_0 inb_S7x128x128_S1x128x128_5_0_0 (by decide) (rowsAt11 I) (gp12 I)).trans ((Rn_read_miss 0 4 inb_S7x128x128_S1x128x128_0_0_0 inb_S7x128x128_S1x128x128_4_0_0 (by decide) (rowsAt10 I) (gp11 I)).trans ((Rn_read_miss 0 3 inb_S7x128x128_S1x128x128_0_0_0 inb_S7x128x128_S1x128x128_3_0_0 (by decide) (rowsAt9 I) (gp10 I)).trans ((Rn_read_miss 0 2 inb_S7x128x128_S1x128x128_0_0_0 inb_S7x128x128_S1x128x128_2_0_0 (by decide) (rowsAt8 I) (gp9 I)).trans ((Rn_read_miss 0 1 inb_S7x128x128_S1x128x128_0_0_0 inb_S7x128x128_S1x128x128_1_0_0 (by decide) (rowsAt7 I) (gp8 I)).trans (Rn_read_hit 0 inb_S7x128x128_S1x128x128_0_0_0 (rowsAt6 I) (gp7 I)))))))
theorem payG7 (H : Hyp I tbl col pay) : ∀ y, pay7 I y = Cert.Spec.G tbl col ((Rect.unit (s := S16384x3328) (k0_off87 L 0#32) S128x128.size (k0_off87_inb L hc 0)).emb y) :=
  Step.item_payload tbl col H.hr L pay H.hpay I.fi H.hfi 1 0 inb_S26x4x128_S1x1x128_1_0_0 squeezes_S1x1x128_S128
    _ ((Step.read_full (View.whole main_arg27_scv) inb_S1000x128_S1000x128_0_0 I.ft1).trans H.ht1.symm)
    rfl (I.hin 1 0 inb_S26x4x128_S1x1x128_1_0_0 squeezes_S1x1x128_S128) (k0_off87 L 0#32) (k0_off87_eq L 0) (k0_off87_inb L hc 0) (pay7 I) (rd7 I)
theorem inv7 (H : Hyp I tbl col pay) : ∀ j' < 8, ∀ i ∈ Step.blkSet L 20 j', outAt7 I hc i = Cert.Spec.G tbl col i :=
  Step.out_step L 20 (Cert.Spec.G tbl col) 7 (k0_off87 L 0#32) (k0_off87_eq L 0) (k0_off87_inb L hc 0) (outAt6 I hc) (pay7 I) (payG7 I hc H)
    (inv6 I hc H)
theorem rd8 : (Rn 1 inb_S7x128x128_S1x128x128_1_0_0).view.read (Elt F) (rowsAt13 I) = gp8 I :=
  ((Rn_read_miss 1 6 inb_S7x128x128_S1x128x128_1_0_0 inb_S7x128x128_S1x128x128_6_0_0 (by decide) (rowsAt12 I) (gp13 I)).trans ((Rn_read_miss 1 5 inb_S7x128x128_S1x128x128_1_0_0 inb_S7x128x128_S1x128x128_5_0_0 (by decide) (rowsAt11 I) (gp12 I)).trans ((Rn_read_miss 1 4 inb_S7x128x128_S1x128x128_1_0_0 inb_S7x128x128_S1x128x128_4_0_0 (by decide) (rowsAt10 I) (gp11 I)).trans ((Rn_read_miss 1 3 inb_S7x128x128_S1x128x128_1_0_0 inb_S7x128x128_S1x128x128_3_0_0 (by decide) (rowsAt9 I) (gp10 I)).trans ((Rn_read_miss 1 2 inb_S7x128x128_S1x128x128_1_0_0 inb_S7x128x128_S1x128x128_2_0_0 (by decide) (rowsAt8 I) (gp9 I)).trans (Rn_read_hit 1 inb_S7x128x128_S1x128x128_1_0_0 (rowsAt7 I) (gp8 I)))))))
theorem payG8 (H : Hyp I tbl col pay) : ∀ y, pay8 I y = Cert.Spec.G tbl col ((Rect.unit (s := S16384x3328) (k0_off88 L 0#32) S128x128.size (k0_off88_inb L hc 0)).emb y) :=
  Step.item_payload tbl col H.hr L pay H.hpay I.fi H.hfi 2 0 inb_S26x4x128_S1x1x128_2_0_0 squeezes_S1x1x128_S128
    _ ((Step.read_full (View.whole main_arg28_scv) inb_S1000x128_S1000x128_0_0 I.ft2).trans H.ht2.symm)
    rfl (I.hin 2 0 inb_S26x4x128_S1x1x128_2_0_0 squeezes_S1x1x128_S128) (k0_off88 L 0#32) (k0_off88_eq L 0) (k0_off88_inb L hc 0) (pay8 I) (rd8 I)
theorem inv8 (H : Hyp I tbl col pay) : ∀ j' < 9, ∀ i ∈ Step.blkSet L 20 j', outAt8 I hc i = Cert.Spec.G tbl col i :=
  Step.out_step L 20 (Cert.Spec.G tbl col) 8 (k0_off88 L 0#32) (k0_off88_eq L 0) (k0_off88_inb L hc 0) (outAt7 I hc) (pay8 I) (payG8 I hc H)
    (inv7 I hc H)
theorem rd9 : (Rn 2 inb_S7x128x128_S1x128x128_2_0_0).view.read (Elt F) (rowsAt14 I) = gp9 I :=
  ((Rn_read_miss 2 0 inb_S7x128x128_S1x128x128_2_0_0 inb_S7x128x128_S1x128x128_0_0_0 (by decide) (rowsAt13 I) (gp14 I)).trans ((Rn_read_miss 2 6 inb_S7x128x128_S1x128x128_2_0_0 inb_S7x128x128_S1x128x128_6_0_0 (by decide) (rowsAt12 I) (gp13 I)).trans ((Rn_read_miss 2 5 inb_S7x128x128_S1x128x128_2_0_0 inb_S7x128x128_S1x128x128_5_0_0 (by decide) (rowsAt11 I) (gp12 I)).trans ((Rn_read_miss 2 4 inb_S7x128x128_S1x128x128_2_0_0 inb_S7x128x128_S1x128x128_4_0_0 (by decide) (rowsAt10 I) (gp11 I)).trans ((Rn_read_miss 2 3 inb_S7x128x128_S1x128x128_2_0_0 inb_S7x128x128_S1x128x128_3_0_0 (by decide) (rowsAt9 I) (gp10 I)).trans (Rn_read_hit 2 inb_S7x128x128_S1x128x128_2_0_0 (rowsAt8 I) (gp9 I)))))))
theorem payG9 (H : Hyp I tbl col pay) : ∀ y, pay9 I y = Cert.Spec.G tbl col ((Rect.unit (s := S16384x3328) (k0_off89 L 0#32) S128x128.size (k0_off89_inb L hc 0)).emb y) :=
  Step.item_payload tbl col H.hr L pay H.hpay I.fi H.hfi 3 0 inb_S26x4x128_S1x1x128_3_0_0 squeezes_S1x1x128_S128
    _ ((Step.read_full (View.whole main_arg29_scv) inb_S1000x128_S1000x128_0_0 I.ft3).trans H.ht3.symm)
    rfl (I.hin 3 0 inb_S26x4x128_S1x1x128_3_0_0 squeezes_S1x1x128_S128) (k0_off89 L 0#32) (k0_off89_eq L 0) (k0_off89_inb L hc 0) (pay9 I) (rd9 I)
theorem inv9 (H : Hyp I tbl col pay) : ∀ j' < 10, ∀ i ∈ Step.blkSet L 20 j', outAt9 I hc i = Cert.Spec.G tbl col i :=
  Step.out_step L 20 (Cert.Spec.G tbl col) 9 (k0_off89 L 0#32) (k0_off89_eq L 0) (k0_off89_inb L hc 0) (outAt8 I hc) (pay9 I) (payG9 I hc H)
    (inv8 I hc H)
theorem rd10 : (Rn 3 inb_S7x128x128_S1x128x128_3_0_0).view.read (Elt F) (rowsAt15 I) = gp10 I :=
  ((Rn_read_miss 3 1 inb_S7x128x128_S1x128x128_3_0_0 inb_S7x128x128_S1x128x128_1_0_0 (by decide) (rowsAt14 I) (gp15 I)).trans ((Rn_read_miss 3 0 inb_S7x128x128_S1x128x128_3_0_0 inb_S7x128x128_S1x128x128_0_0_0 (by decide) (rowsAt13 I) (gp14 I)).trans ((Rn_read_miss 3 6 inb_S7x128x128_S1x128x128_3_0_0 inb_S7x128x128_S1x128x128_6_0_0 (by decide) (rowsAt12 I) (gp13 I)).trans ((Rn_read_miss 3 5 inb_S7x128x128_S1x128x128_3_0_0 inb_S7x128x128_S1x128x128_5_0_0 (by decide) (rowsAt11 I) (gp12 I)).trans ((Rn_read_miss 3 4 inb_S7x128x128_S1x128x128_3_0_0 inb_S7x128x128_S1x128x128_4_0_0 (by decide) (rowsAt10 I) (gp11 I)).trans (Rn_read_hit 3 inb_S7x128x128_S1x128x128_3_0_0 (rowsAt9 I) (gp10 I)))))))
theorem payG10 (H : Hyp I tbl col pay) : ∀ y, pay10 I y = Cert.Spec.G tbl col ((Rect.unit (s := S16384x3328) (k0_off90 L 0#32) S128x128.size (k0_off90_inb L hc 0)).emb y) :=
  Step.item_payload tbl col H.hr L pay H.hpay I.fi H.hfi 4 0 inb_S26x4x128_S1x1x128_4_0_0 squeezes_S1x1x128_S128
    _ ((Step.read_full (View.whole main_arg30_scv) inb_S1000x128_S1000x128_0_0 I.ft4).trans H.ht4.symm)
    rfl (I.hin 4 0 inb_S26x4x128_S1x1x128_4_0_0 squeezes_S1x1x128_S128) (k0_off90 L 0#32) (k0_off90_eq L 0) (k0_off90_inb L hc 0) (pay10 I) (rd10 I)
theorem inv10 (H : Hyp I tbl col pay) : ∀ j' < 11, ∀ i ∈ Step.blkSet L 20 j', outAt10 I hc i = Cert.Spec.G tbl col i :=
  Step.out_step L 20 (Cert.Spec.G tbl col) 10 (k0_off90 L 0#32) (k0_off90_eq L 0) (k0_off90_inb L hc 0) (outAt9 I hc) (pay10 I) (payG10 I hc H)
    (inv9 I hc H)
theorem rd11 : (Rn 4 inb_S7x128x128_S1x128x128_4_0_0).view.read (Elt F) (rowsAt16 I) = gp11 I :=
  ((Rn_read_miss 4 2 inb_S7x128x128_S1x128x128_4_0_0 inb_S7x128x128_S1x128x128_2_0_0 (by decide) (rowsAt15 I) (gp16 I)).trans ((Rn_read_miss 4 1 inb_S7x128x128_S1x128x128_4_0_0 inb_S7x128x128_S1x128x128_1_0_0 (by decide) (rowsAt14 I) (gp15 I)).trans ((Rn_read_miss 4 0 inb_S7x128x128_S1x128x128_4_0_0 inb_S7x128x128_S1x128x128_0_0_0 (by decide) (rowsAt13 I) (gp14 I)).trans ((Rn_read_miss 4 6 inb_S7x128x128_S1x128x128_4_0_0 inb_S7x128x128_S1x128x128_6_0_0 (by decide) (rowsAt12 I) (gp13 I)).trans ((Rn_read_miss 4 5 inb_S7x128x128_S1x128x128_4_0_0 inb_S7x128x128_S1x128x128_5_0_0 (by decide) (rowsAt11 I) (gp12 I)).trans (Rn_read_hit 4 inb_S7x128x128_S1x128x128_4_0_0 (rowsAt10 I) (gp11 I)))))))
theorem payG11 (H : Hyp I tbl col pay) : ∀ y, pay11 I y = Cert.Spec.G tbl col ((Rect.unit (s := S16384x3328) (k0_off91 L 0#32) S128x128.size (k0_off91_inb L hc 0)).emb y) :=
  Step.item_payload tbl col H.hr L pay H.hpay I.fi H.hfi 5 0 inb_S26x4x128_S1x1x128_5_0_0 squeezes_S1x1x128_S128
    _ ((Step.read_full (View.whole main_arg31_scv) inb_S1000x128_S1000x128_0_0 I.ft5).trans H.ht5.symm)
    rfl (I.hin 5 0 inb_S26x4x128_S1x1x128_5_0_0 squeezes_S1x1x128_S128) (k0_off91 L 0#32) (k0_off91_eq L 0) (k0_off91_inb L hc 0) (pay11 I) (rd11 I)
theorem inv11 (H : Hyp I tbl col pay) : ∀ j' < 12, ∀ i ∈ Step.blkSet L 20 j', outAt11 I hc i = Cert.Spec.G tbl col i :=
  Step.out_step L 20 (Cert.Spec.G tbl col) 11 (k0_off91 L 0#32) (k0_off91_eq L 0) (k0_off91_inb L hc 0) (outAt10 I hc) (pay11 I) (payG11 I hc H)
    (inv10 I hc H)
theorem rd12 : (Rn 5 inb_S7x128x128_S1x128x128_5_0_0).view.read (Elt F) (rowsAt17 I) = gp12 I :=
  ((Rn_read_miss 5 3 inb_S7x128x128_S1x128x128_5_0_0 inb_S7x128x128_S1x128x128_3_0_0 (by decide) (rowsAt16 I) (gp17 I)).trans ((Rn_read_miss 5 2 inb_S7x128x128_S1x128x128_5_0_0 inb_S7x128x128_S1x128x128_2_0_0 (by decide) (rowsAt15 I) (gp16 I)).trans ((Rn_read_miss 5 1 inb_S7x128x128_S1x128x128_5_0_0 inb_S7x128x128_S1x128x128_1_0_0 (by decide) (rowsAt14 I) (gp15 I)).trans ((Rn_read_miss 5 0 inb_S7x128x128_S1x128x128_5_0_0 inb_S7x128x128_S1x128x128_0_0_0 (by decide) (rowsAt13 I) (gp14 I)).trans ((Rn_read_miss 5 6 inb_S7x128x128_S1x128x128_5_0_0 inb_S7x128x128_S1x128x128_6_0_0 (by decide) (rowsAt12 I) (gp13 I)).trans (Rn_read_hit 5 inb_S7x128x128_S1x128x128_5_0_0 (rowsAt11 I) (gp12 I)))))))
theorem payG12 (H : Hyp I tbl col pay) : ∀ y, pay12 I y = Cert.Spec.G tbl col ((Rect.unit (s := S16384x3328) (k0_off92 L 0#32) S128x128.size (k0_off92_inb L hc 0)).emb y) :=
  Step.item_payload tbl col H.hr L pay H.hpay I.fi H.hfi 6 0 inb_S26x4x128_S1x1x128_6_0_0 squeezes_S1x1x128_S128
    _ ((Step.read_full (View.whole main_arg32_scv) inb_S1000x128_S1000x128_0_0 I.ft6).trans H.ht6.symm)
    rfl (I.hin 6 0 inb_S26x4x128_S1x1x128_6_0_0 squeezes_S1x1x128_S128) (k0_off92 L 0#32) (k0_off92_eq L 0) (k0_off92_inb L hc 0) (pay12 I) (rd12 I)
theorem inv12 (H : Hyp I tbl col pay) : ∀ j' < 13, ∀ i ∈ Step.blkSet L 20 j', outAt12 I hc i = Cert.Spec.G tbl col i :=
  Step.out_step L 20 (Cert.Spec.G tbl col) 12 (k0_off92 L 0#32) (k0_off92_eq L 0) (k0_off92_inb L hc 0) (outAt11 I hc) (pay12 I) (payG12 I hc H)
    (inv11 I hc H)
theorem rd13 : (Rn 6 inb_S7x128x128_S1x128x128_6_0_0).view.read (Elt F) (rowsAt18 I) = gp13 I :=
  ((Rn_read_miss 6 4 inb_S7x128x128_S1x128x128_6_0_0 inb_S7x128x128_S1x128x128_4_0_0 (by decide) (rowsAt17 I) (gp18 I)).trans ((Rn_read_miss 6 3 inb_S7x128x128_S1x128x128_6_0_0 inb_S7x128x128_S1x128x128_3_0_0 (by decide) (rowsAt16 I) (gp17 I)).trans ((Rn_read_miss 6 2 inb_S7x128x128_S1x128x128_6_0_0 inb_S7x128x128_S1x128x128_2_0_0 (by decide) (rowsAt15 I) (gp16 I)).trans ((Rn_read_miss 6 1 inb_S7x128x128_S1x128x128_6_0_0 inb_S7x128x128_S1x128x128_1_0_0 (by decide) (rowsAt14 I) (gp15 I)).trans ((Rn_read_miss 6 0 inb_S7x128x128_S1x128x128_6_0_0 inb_S7x128x128_S1x128x128_0_0_0 (by decide) (rowsAt13 I) (gp14 I)).trans (Rn_read_hit 6 inb_S7x128x128_S1x128x128_6_0_0 (rowsAt12 I) (gp13 I)))))))
theorem payG13 (H : Hyp I tbl col pay) : ∀ y, pay13 I y = Cert.Spec.G tbl col ((Rect.unit (s := S16384x3328) (k0_off93 L 0#32) S128x128.size (k0_off93_inb L hc 0)).emb y) :=
  Step.item_payload tbl col H.hr L pay H.hpay I.fi H.hfi 7 0 inb_S26x4x128_S1x1x128_7_0_0 squeezes_S1x1x128_S128
    _ ((Step.read_full (View.whole main_arg33_scv) inb_S1000x128_S1000x128_0_0 I.ft7).trans H.ht7.symm)
    rfl (I.hin 7 0 inb_S26x4x128_S1x1x128_7_0_0 squeezes_S1x1x128_S128) (k0_off93 L 0#32) (k0_off93_eq L 0) (k0_off93_inb L hc 0) (pay13 I) (rd13 I)
theorem inv13 (H : Hyp I tbl col pay) : ∀ j' < 14, ∀ i ∈ Step.blkSet L 20 j', outAt13 I hc i = Cert.Spec.G tbl col i :=
  Step.out_step L 20 (Cert.Spec.G tbl col) 13 (k0_off93 L 0#32) (k0_off93_eq L 0) (k0_off93_inb L hc 0) (outAt12 I hc) (pay13 I) (payG13 I hc H)
    (inv12 I hc H)
theorem rd14 : (Rn 0 inb_S7x128x128_S1x128x128_0_0_0).view.read (Elt F) (rowsAt19 I) = gp14 I :=
  ((Rn_read_miss 0 5 inb_S7x128x128_S1x128x128_0_0_0 inb_S7x128x128_S1x128x128_5_0_0 (by decide) (rowsAt18 I) (gp19 I)).trans ((Rn_read_miss 0 4 inb_S7x128x128_S1x128x128_0_0_0 inb_S7x128x128_S1x128x128_4_0_0 (by decide) (rowsAt17 I) (gp18 I)).trans ((Rn_read_miss 0 3 inb_S7x128x128_S1x128x128_0_0_0 inb_S7x128x128_S1x128x128_3_0_0 (by decide) (rowsAt16 I) (gp17 I)).trans ((Rn_read_miss 0 2 inb_S7x128x128_S1x128x128_0_0_0 inb_S7x128x128_S1x128x128_2_0_0 (by decide) (rowsAt15 I) (gp16 I)).trans ((Rn_read_miss 0 1 inb_S7x128x128_S1x128x128_0_0_0 inb_S7x128x128_S1x128x128_1_0_0 (by decide) (rowsAt14 I) (gp15 I)).trans (Rn_read_hit 0 inb_S7x128x128_S1x128x128_0_0_0 (rowsAt13 I) (gp14 I)))))))
theorem payG14 (H : Hyp I tbl col pay) : ∀ y, pay14 I y = Cert.Spec.G tbl col ((Rect.unit (s := S16384x3328) (k0_off94 L 0#32) S128x128.size (k0_off94_inb L hc 0)).emb y) :=
  Step.item_payload tbl col H.hr L pay H.hpay I.fi H.hfi 8 0 inb_S26x4x128_S1x1x128_8_0_0 squeezes_S1x1x128_S128
    _ ((Step.read_full (View.whole main_arg34_scv) inb_S1000x128_S1000x128_0_0 I.ft8).trans H.ht8.symm)
    rfl (I.hin 8 0 inb_S26x4x128_S1x1x128_8_0_0 squeezes_S1x1x128_S128) (k0_off94 L 0#32) (k0_off94_eq L 0) (k0_off94_inb L hc 0) (pay14 I) (rd14 I)
theorem inv14 (H : Hyp I tbl col pay) : ∀ j' < 15, ∀ i ∈ Step.blkSet L 20 j', outAt14 I hc i = Cert.Spec.G tbl col i :=
  Step.out_step L 20 (Cert.Spec.G tbl col) 14 (k0_off94 L 0#32) (k0_off94_eq L 0) (k0_off94_inb L hc 0) (outAt13 I hc) (pay14 I) (payG14 I hc H)
    (inv13 I hc H)
theorem rd15 : (Rn 1 inb_S7x128x128_S1x128x128_1_0_0).view.read (Elt F) (rowsAt20 I) = gp15 I :=
  ((Rn_read_miss 1 6 inb_S7x128x128_S1x128x128_1_0_0 inb_S7x128x128_S1x128x128_6_0_0 (by decide) (rowsAt19 I) (gp20 I)).trans ((Rn_read_miss 1 5 inb_S7x128x128_S1x128x128_1_0_0 inb_S7x128x128_S1x128x128_5_0_0 (by decide) (rowsAt18 I) (gp19 I)).trans ((Rn_read_miss 1 4 inb_S7x128x128_S1x128x128_1_0_0 inb_S7x128x128_S1x128x128_4_0_0 (by decide) (rowsAt17 I) (gp18 I)).trans ((Rn_read_miss 1 3 inb_S7x128x128_S1x128x128_1_0_0 inb_S7x128x128_S1x128x128_3_0_0 (by decide) (rowsAt16 I) (gp17 I)).trans ((Rn_read_miss 1 2 inb_S7x128x128_S1x128x128_1_0_0 inb_S7x128x128_S1x128x128_2_0_0 (by decide) (rowsAt15 I) (gp16 I)).trans (Rn_read_hit 1 inb_S7x128x128_S1x128x128_1_0_0 (rowsAt14 I) (gp15 I)))))))
theorem payG15 (H : Hyp I tbl col pay) : ∀ y, pay15 I y = Cert.Spec.G tbl col ((Rect.unit (s := S16384x3328) (k0_off95 L 0#32) S128x128.size (k0_off95_inb L hc 0)).emb y) :=
  Step.item_payload tbl col H.hr L pay H.hpay I.fi H.hfi 9 0 inb_S26x4x128_S1x1x128_9_0_0 squeezes_S1x1x128_S128
    _ ((Step.read_full (View.whole main_arg35_scv) inb_S1000x128_S1000x128_0_0 I.ft9).trans H.ht9.symm)
    rfl (I.hin 9 0 inb_S26x4x128_S1x1x128_9_0_0 squeezes_S1x1x128_S128) (k0_off95 L 0#32) (k0_off95_eq L 0) (k0_off95_inb L hc 0) (pay15 I) (rd15 I)
theorem inv15 (H : Hyp I tbl col pay) : ∀ j' < 16, ∀ i ∈ Step.blkSet L 20 j', outAt15 I hc i = Cert.Spec.G tbl col i :=
  Step.out_step L 20 (Cert.Spec.G tbl col) 15 (k0_off95 L 0#32) (k0_off95_eq L 0) (k0_off95_inb L hc 0) (outAt14 I hc) (pay15 I) (payG15 I hc H)
    (inv14 I hc H)
theorem rd16 : (Rn 2 inb_S7x128x128_S1x128x128_2_0_0).view.read (Elt F) (rowsAt21 I) = gp16 I :=
  ((Rn_read_miss 2 0 inb_S7x128x128_S1x128x128_2_0_0 inb_S7x128x128_S1x128x128_0_0_0 (by decide) (rowsAt20 I) (gp21 I)).trans ((Rn_read_miss 2 6 inb_S7x128x128_S1x128x128_2_0_0 inb_S7x128x128_S1x128x128_6_0_0 (by decide) (rowsAt19 I) (gp20 I)).trans ((Rn_read_miss 2 5 inb_S7x128x128_S1x128x128_2_0_0 inb_S7x128x128_S1x128x128_5_0_0 (by decide) (rowsAt18 I) (gp19 I)).trans ((Rn_read_miss 2 4 inb_S7x128x128_S1x128x128_2_0_0 inb_S7x128x128_S1x128x128_4_0_0 (by decide) (rowsAt17 I) (gp18 I)).trans ((Rn_read_miss 2 3 inb_S7x128x128_S1x128x128_2_0_0 inb_S7x128x128_S1x128x128_3_0_0 (by decide) (rowsAt16 I) (gp17 I)).trans (Rn_read_hit 2 inb_S7x128x128_S1x128x128_2_0_0 (rowsAt15 I) (gp16 I)))))))
theorem payG16 (H : Hyp I tbl col pay) : ∀ y, pay16 I y = Cert.Spec.G tbl col ((Rect.unit (s := S16384x3328) (k0_off96 L 0#32) S128x128.size (k0_off96_inb L hc 0)).emb y) :=
  Step.item_payload tbl col H.hr L pay H.hpay I.fi H.hfi 10 0 inb_S26x4x128_S1x1x128_10_0_0 squeezes_S1x1x128_S128
    _ ((Step.read_full (View.whole main_arg36_scv) inb_S1000x128_S1000x128_0_0 I.ft10).trans H.ht10.symm)
    rfl (I.hin 10 0 inb_S26x4x128_S1x1x128_10_0_0 squeezes_S1x1x128_S128) (k0_off96 L 0#32) (k0_off96_eq L 0) (k0_off96_inb L hc 0) (pay16 I) (rd16 I)
theorem inv16 (H : Hyp I tbl col pay) : ∀ j' < 17, ∀ i ∈ Step.blkSet L 20 j', outAt16 I hc i = Cert.Spec.G tbl col i :=
  Step.out_step L 20 (Cert.Spec.G tbl col) 16 (k0_off96 L 0#32) (k0_off96_eq L 0) (k0_off96_inb L hc 0) (outAt15 I hc) (pay16 I) (payG16 I hc H)
    (inv15 I hc H)
theorem rd17 : (Rn 3 inb_S7x128x128_S1x128x128_3_0_0).view.read (Elt F) (rowsAt22 I) = gp17 I :=
  ((Rn_read_miss 3 1 inb_S7x128x128_S1x128x128_3_0_0 inb_S7x128x128_S1x128x128_1_0_0 (by decide) (rowsAt21 I) (gp22 I)).trans ((Rn_read_miss 3 0 inb_S7x128x128_S1x128x128_3_0_0 inb_S7x128x128_S1x128x128_0_0_0 (by decide) (rowsAt20 I) (gp21 I)).trans ((Rn_read_miss 3 6 inb_S7x128x128_S1x128x128_3_0_0 inb_S7x128x128_S1x128x128_6_0_0 (by decide) (rowsAt19 I) (gp20 I)).trans ((Rn_read_miss 3 5 inb_S7x128x128_S1x128x128_3_0_0 inb_S7x128x128_S1x128x128_5_0_0 (by decide) (rowsAt18 I) (gp19 I)).trans ((Rn_read_miss 3 4 inb_S7x128x128_S1x128x128_3_0_0 inb_S7x128x128_S1x128x128_4_0_0 (by decide) (rowsAt17 I) (gp18 I)).trans (Rn_read_hit 3 inb_S7x128x128_S1x128x128_3_0_0 (rowsAt16 I) (gp17 I)))))))
theorem payG17 (H : Hyp I tbl col pay) : ∀ y, pay17 I y = Cert.Spec.G tbl col ((Rect.unit (s := S16384x3328) (k0_off97 L 0#32) S128x128.size (k0_off97_inb L hc 0)).emb y) :=
  Step.item_payload tbl col H.hr L pay H.hpay I.fi H.hfi 11 0 inb_S26x4x128_S1x1x128_11_0_0 squeezes_S1x1x128_S128
    _ ((Step.read_full (View.whole main_arg37_scv) inb_S1000x128_S1000x128_0_0 I.ft11).trans H.ht11.symm)
    rfl (I.hin 11 0 inb_S26x4x128_S1x1x128_11_0_0 squeezes_S1x1x128_S128) (k0_off97 L 0#32) (k0_off97_eq L 0) (k0_off97_inb L hc 0) (pay17 I) (rd17 I)
theorem inv17 (H : Hyp I tbl col pay) : ∀ j' < 18, ∀ i ∈ Step.blkSet L 20 j', outAt17 I hc i = Cert.Spec.G tbl col i :=
  Step.out_step L 20 (Cert.Spec.G tbl col) 17 (k0_off97 L 0#32) (k0_off97_eq L 0) (k0_off97_inb L hc 0) (outAt16 I hc) (pay17 I) (payG17 I hc H)
    (inv16 I hc H)
theorem rd18 : (Rn 4 inb_S7x128x128_S1x128x128_4_0_0).view.read (Elt F) (rowsAt23 I) = gp18 I :=
  ((Rn_read_miss 4 2 inb_S7x128x128_S1x128x128_4_0_0 inb_S7x128x128_S1x128x128_2_0_0 (by decide) (rowsAt22 I) (gp23 I)).trans ((Rn_read_miss 4 1 inb_S7x128x128_S1x128x128_4_0_0 inb_S7x128x128_S1x128x128_1_0_0 (by decide) (rowsAt21 I) (gp22 I)).trans ((Rn_read_miss 4 0 inb_S7x128x128_S1x128x128_4_0_0 inb_S7x128x128_S1x128x128_0_0_0 (by decide) (rowsAt20 I) (gp21 I)).trans ((Rn_read_miss 4 6 inb_S7x128x128_S1x128x128_4_0_0 inb_S7x128x128_S1x128x128_6_0_0 (by decide) (rowsAt19 I) (gp20 I)).trans ((Rn_read_miss 4 5 inb_S7x128x128_S1x128x128_4_0_0 inb_S7x128x128_S1x128x128_5_0_0 (by decide) (rowsAt18 I) (gp19 I)).trans (Rn_read_hit 4 inb_S7x128x128_S1x128x128_4_0_0 (rowsAt17 I) (gp18 I)))))))
theorem payG18 (H : Hyp I tbl col pay) : ∀ y, pay18 I y = Cert.Spec.G tbl col ((Rect.unit (s := S16384x3328) (k0_off98 L 0#32) S128x128.size (k0_off98_inb L hc 0)).emb y) :=
  Step.item_payload tbl col H.hr L pay H.hpay I.fi H.hfi 12 0 inb_S26x4x128_S1x1x128_12_0_0 squeezes_S1x1x128_S128
    _ ((Step.read_full (View.whole main_arg38_scv) inb_S1000x128_S1000x128_0_0 I.ft12).trans H.ht12.symm)
    rfl (I.hin 12 0 inb_S26x4x128_S1x1x128_12_0_0 squeezes_S1x1x128_S128) (k0_off98 L 0#32) (k0_off98_eq L 0) (k0_off98_inb L hc 0) (pay18 I) (rd18 I)
theorem inv18 (H : Hyp I tbl col pay) : ∀ j' < 19, ∀ i ∈ Step.blkSet L 20 j', outAt18 I hc i = Cert.Spec.G tbl col i :=
  Step.out_step L 20 (Cert.Spec.G tbl col) 18 (k0_off98 L 0#32) (k0_off98_eq L 0) (k0_off98_inb L hc 0) (outAt17 I hc) (pay18 I) (payG18 I hc H)
    (inv17 I hc H)
theorem rd19 : (Rn 5 inb_S7x128x128_S1x128x128_5_0_0).view.read (Elt F) (rowsAt24 I) = gp19 I :=
  ((Rn_read_miss 5 3 inb_S7x128x128_S1x128x128_5_0_0 inb_S7x128x128_S1x128x128_3_0_0 (by decide) (rowsAt23 I) (gp24 I)).trans ((Rn_read_miss 5 2 inb_S7x128x128_S1x128x128_5_0_0 inb_S7x128x128_S1x128x128_2_0_0 (by decide) (rowsAt22 I) (gp23 I)).trans ((Rn_read_miss 5 1 inb_S7x128x128_S1x128x128_5_0_0 inb_S7x128x128_S1x128x128_1_0_0 (by decide) (rowsAt21 I) (gp22 I)).trans ((Rn_read_miss 5 0 inb_S7x128x128_S1x128x128_5_0_0 inb_S7x128x128_S1x128x128_0_0_0 (by decide) (rowsAt20 I) (gp21 I)).trans ((Rn_read_miss 5 6 inb_S7x128x128_S1x128x128_5_0_0 inb_S7x128x128_S1x128x128_6_0_0 (by decide) (rowsAt19 I) (gp20 I)).trans (Rn_read_hit 5 inb_S7x128x128_S1x128x128_5_0_0 (rowsAt18 I) (gp19 I)))))))
theorem payG19 (H : Hyp I tbl col pay) : ∀ y, pay19 I y = Cert.Spec.G tbl col ((Rect.unit (s := S16384x3328) (k0_off99 L 0#32) S128x128.size (k0_off99_inb L hc 0)).emb y) :=
  Step.item_payload tbl col H.hr L pay H.hpay I.fi H.hfi 13 0 inb_S26x4x128_S1x1x128_13_0_0 squeezes_S1x1x128_S128
    _ ((Step.read_full (View.whole main_arg39_scv) inb_S1000x128_S1000x128_0_0 I.ft13).trans H.ht13.symm)
    rfl (I.hin 13 0 inb_S26x4x128_S1x1x128_13_0_0 squeezes_S1x1x128_S128) (k0_off99 L 0#32) (k0_off99_eq L 0) (k0_off99_inb L hc 0) (pay19 I) (rd19 I)
theorem inv19 (H : Hyp I tbl col pay) : ∀ j' < 20, ∀ i ∈ Step.blkSet L 20 j', outAt19 I hc i = Cert.Spec.G tbl col i :=
  Step.out_step L 20 (Cert.Spec.G tbl col) 19 (k0_off99 L 0#32) (k0_off99_eq L 0) (k0_off99_inb L hc 0) (outAt18 I hc) (pay19 I) (payG19 I hc H)
    (inv18 I hc H)
theorem rd20 : (Rn 6 inb_S7x128x128_S1x128x128_6_0_0).view.read (Elt F) (rowsAt25 I) = gp20 I :=
  ((Rn_read_miss 6 4 inb_S7x128x128_S1x128x128_6_0_0 inb_S7x128x128_S1x128x128_4_0_0 (by decide) (rowsAt24 I) (gp25 I)).trans ((Rn_read_miss 6 3 inb_S7x128x128_S1x128x128_6_0_0 inb_S7x128x128_S1x128x128_3_0_0 (by decide) (rowsAt23 I) (gp24 I)).trans ((Rn_read_miss 6 2 inb_S7x128x128_S1x128x128_6_0_0 inb_S7x128x128_S1x128x128_2_0_0 (by decide) (rowsAt22 I) (gp23 I)).trans ((Rn_read_miss 6 1 inb_S7x128x128_S1x128x128_6_0_0 inb_S7x128x128_S1x128x128_1_0_0 (by decide) (rowsAt21 I) (gp22 I)).trans ((Rn_read_miss 6 0 inb_S7x128x128_S1x128x128_6_0_0 inb_S7x128x128_S1x128x128_0_0_0 (by decide) (rowsAt20 I) (gp21 I)).trans (Rn_read_hit 6 inb_S7x128x128_S1x128x128_6_0_0 (rowsAt19 I) (gp20 I)))))))
theorem payG20 (H : Hyp I tbl col pay) : ∀ y, pay20 I y = Cert.Spec.G tbl col ((Rect.unit (s := S16384x3328) (k0_off100 L 0#32) S128x128.size (k0_off100_inb L hc 0)).emb y) :=
  Step.item_payload tbl col H.hr L pay H.hpay I.fi H.hfi 14 0 inb_S26x4x128_S1x1x128_14_0_0 squeezes_S1x1x128_S128
    _ ((Step.read_full (View.whole main_arg40_scv) inb_S1000x128_S1000x128_0_0 I.ft14).trans H.ht14.symm)
    rfl (I.hin 14 0 inb_S26x4x128_S1x1x128_14_0_0 squeezes_S1x1x128_S128) (k0_off100 L 0#32) (k0_off100_eq L 0) (k0_off100_inb L hc 0) (pay20 I) (rd20 I)
theorem inv20 (H : Hyp I tbl col pay) : ∀ j' < 21, ∀ i ∈ Step.blkSet L 20 j', outAt20 I hc i = Cert.Spec.G tbl col i :=
  Step.out_step L 20 (Cert.Spec.G tbl col) 20 (k0_off100 L 0#32) (k0_off100_eq L 0) (k0_off100_inb L hc 0) (outAt19 I hc) (pay20 I) (payG20 I hc H)
    (inv19 I hc H)
theorem rd21 : (Rn 0 inb_S7x128x128_S1x128x128_0_0_0).view.read (Elt F) (rowsAt26 I) = gp21 I :=
  ((Rn_read_miss 0 5 inb_S7x128x128_S1x128x128_0_0_0 inb_S7x128x128_S1x128x128_5_0_0 (by decide) (rowsAt25 I) (gp26 I)).trans ((Rn_read_miss 0 4 inb_S7x128x128_S1x128x128_0_0_0 inb_S7x128x128_S1x128x128_4_0_0 (by decide) (rowsAt24 I) (gp25 I)).trans ((Rn_read_miss 0 3 inb_S7x128x128_S1x128x128_0_0_0 inb_S7x128x128_S1x128x128_3_0_0 (by decide) (rowsAt23 I) (gp24 I)).trans ((Rn_read_miss 0 2 inb_S7x128x128_S1x128x128_0_0_0 inb_S7x128x128_S1x128x128_2_0_0 (by decide) (rowsAt22 I) (gp23 I)).trans ((Rn_read_miss 0 1 inb_S7x128x128_S1x128x128_0_0_0 inb_S7x128x128_S1x128x128_1_0_0 (by decide) (rowsAt21 I) (gp22 I)).trans (Rn_read_hit 0 inb_S7x128x128_S1x128x128_0_0_0 (rowsAt20 I) (gp21 I)))))))
theorem payG21 (H : Hyp I tbl col pay) : ∀ y, pay21 I y = Cert.Spec.G tbl col ((Rect.unit (s := S16384x3328) (k0_off101 L 0#32) S128x128.size (k0_off101_inb L hc 0)).emb y) :=
  Step.item_payload tbl col H.hr L pay H.hpay I.fi H.hfi 15 0 inb_S26x4x128_S1x1x128_15_0_0 squeezes_S1x1x128_S128
    _ ((Step.read_full (View.whole main_arg41_scv) inb_S1000x128_S1000x128_0_0 I.ft15).trans H.ht15.symm)
    rfl (I.hin 15 0 inb_S26x4x128_S1x1x128_15_0_0 squeezes_S1x1x128_S128) (k0_off101 L 0#32) (k0_off101_eq L 0) (k0_off101_inb L hc 0) (pay21 I) (rd21 I)
theorem inv21 (H : Hyp I tbl col pay) : ∀ j' < 22, ∀ i ∈ Step.blkSet L 20 j', outAt21 I hc i = Cert.Spec.G tbl col i :=
  Step.out_step L 20 (Cert.Spec.G tbl col) 21 (k0_off101 L 0#32) (k0_off101_eq L 0) (k0_off101_inb L hc 0) (outAt20 I hc) (pay21 I) (payG21 I hc H)
    (inv20 I hc H)
theorem rd22 : (Rn 1 inb_S7x128x128_S1x128x128_1_0_0).view.read (Elt F) (rowsAt27 I) = gp22 I :=
  ((Rn_read_miss 1 6 inb_S7x128x128_S1x128x128_1_0_0 inb_S7x128x128_S1x128x128_6_0_0 (by decide) (rowsAt26 I) (gp27 I)).trans ((Rn_read_miss 1 5 inb_S7x128x128_S1x128x128_1_0_0 inb_S7x128x128_S1x128x128_5_0_0 (by decide) (rowsAt25 I) (gp26 I)).trans ((Rn_read_miss 1 4 inb_S7x128x128_S1x128x128_1_0_0 inb_S7x128x128_S1x128x128_4_0_0 (by decide) (rowsAt24 I) (gp25 I)).trans ((Rn_read_miss 1 3 inb_S7x128x128_S1x128x128_1_0_0 inb_S7x128x128_S1x128x128_3_0_0 (by decide) (rowsAt23 I) (gp24 I)).trans ((Rn_read_miss 1 2 inb_S7x128x128_S1x128x128_1_0_0 inb_S7x128x128_S1x128x128_2_0_0 (by decide) (rowsAt22 I) (gp23 I)).trans (Rn_read_hit 1 inb_S7x128x128_S1x128x128_1_0_0 (rowsAt21 I) (gp22 I)))))))
theorem payG22 (H : Hyp I tbl col pay) : ∀ y, pay22 I y = Cert.Spec.G tbl col ((Rect.unit (s := S16384x3328) (k0_off102 L 0#32) S128x128.size (k0_off102_inb L hc 0)).emb y) :=
  Step.item_payload tbl col H.hr L pay H.hpay I.fi H.hfi 16 0 inb_S26x4x128_S1x1x128_16_0_0 squeezes_S1x1x128_S128
    _ ((Step.read_full (View.whole main_arg42_scv) inb_S1000x128_S1000x128_0_0 I.ft16).trans H.ht16.symm)
    rfl (I.hin 16 0 inb_S26x4x128_S1x1x128_16_0_0 squeezes_S1x1x128_S128) (k0_off102 L 0#32) (k0_off102_eq L 0) (k0_off102_inb L hc 0) (pay22 I) (rd22 I)
theorem inv22 (H : Hyp I tbl col pay) : ∀ j' < 23, ∀ i ∈ Step.blkSet L 20 j', outAt22 I hc i = Cert.Spec.G tbl col i :=
  Step.out_step L 20 (Cert.Spec.G tbl col) 22 (k0_off102 L 0#32) (k0_off102_eq L 0) (k0_off102_inb L hc 0) (outAt21 I hc) (pay22 I) (payG22 I hc H)
    (inv21 I hc H)
theorem rd23 : (Rn 2 inb_S7x128x128_S1x128x128_2_0_0).view.read (Elt F) (rowsAt28 I) = gp23 I :=
  ((Rn_read_miss 2 0 inb_S7x128x128_S1x128x128_2_0_0 inb_S7x128x128_S1x128x128_0_0_0 (by decide) (rowsAt27 I) (gp28 I)).trans ((Rn_read_miss 2 6 inb_S7x128x128_S1x128x128_2_0_0 inb_S7x128x128_S1x128x128_6_0_0 (by decide) (rowsAt26 I) (gp27 I)).trans ((Rn_read_miss 2 5 inb_S7x128x128_S1x128x128_2_0_0 inb_S7x128x128_S1x128x128_5_0_0 (by decide) (rowsAt25 I) (gp26 I)).trans ((Rn_read_miss 2 4 inb_S7x128x128_S1x128x128_2_0_0 inb_S7x128x128_S1x128x128_4_0_0 (by decide) (rowsAt24 I) (gp25 I)).trans ((Rn_read_miss 2 3 inb_S7x128x128_S1x128x128_2_0_0 inb_S7x128x128_S1x128x128_3_0_0 (by decide) (rowsAt23 I) (gp24 I)).trans (Rn_read_hit 2 inb_S7x128x128_S1x128x128_2_0_0 (rowsAt22 I) (gp23 I)))))))
theorem payG23 (H : Hyp I tbl col pay) : ∀ y, pay23 I y = Cert.Spec.G tbl col ((Rect.unit (s := S16384x3328) (k0_off103 L 0#32) S128x128.size (k0_off103_inb L hc 0)).emb y) :=
  Step.item_payload tbl col H.hr L pay H.hpay I.fi H.hfi 17 0 inb_S26x4x128_S1x1x128_17_0_0 squeezes_S1x1x128_S128
    _ ((Step.read_full (View.whole main_arg43_scv) inb_S1000x128_S1000x128_0_0 I.ft17).trans H.ht17.symm)
    rfl (I.hin 17 0 inb_S26x4x128_S1x1x128_17_0_0 squeezes_S1x1x128_S128) (k0_off103 L 0#32) (k0_off103_eq L 0) (k0_off103_inb L hc 0) (pay23 I) (rd23 I)
theorem inv23 (H : Hyp I tbl col pay) : ∀ j' < 24, ∀ i ∈ Step.blkSet L 20 j', outAt23 I hc i = Cert.Spec.G tbl col i :=
  Step.out_step L 20 (Cert.Spec.G tbl col) 23 (k0_off103 L 0#32) (k0_off103_eq L 0) (k0_off103_inb L hc 0) (outAt22 I hc) (pay23 I) (payG23 I hc H)
    (inv22 I hc H)
theorem rd24 : (Rn 3 inb_S7x128x128_S1x128x128_3_0_0).view.read (Elt F) (rowsAt29 I) = gp24 I :=
  ((Rn_read_miss 3 1 inb_S7x128x128_S1x128x128_3_0_0 inb_S7x128x128_S1x128x128_1_0_0 (by decide) (rowsAt28 I) (gp29 I)).trans ((Rn_read_miss 3 0 inb_S7x128x128_S1x128x128_3_0_0 inb_S7x128x128_S1x128x128_0_0_0 (by decide) (rowsAt27 I) (gp28 I)).trans ((Rn_read_miss 3 6 inb_S7x128x128_S1x128x128_3_0_0 inb_S7x128x128_S1x128x128_6_0_0 (by decide) (rowsAt26 I) (gp27 I)).trans ((Rn_read_miss 3 5 inb_S7x128x128_S1x128x128_3_0_0 inb_S7x128x128_S1x128x128_5_0_0 (by decide) (rowsAt25 I) (gp26 I)).trans ((Rn_read_miss 3 4 inb_S7x128x128_S1x128x128_3_0_0 inb_S7x128x128_S1x128x128_4_0_0 (by decide) (rowsAt24 I) (gp25 I)).trans (Rn_read_hit 3 inb_S7x128x128_S1x128x128_3_0_0 (rowsAt23 I) (gp24 I)))))))
theorem payG24 (H : Hyp I tbl col pay) : ∀ y, pay24 I y = Cert.Spec.G tbl col ((Rect.unit (s := S16384x3328) (k0_off104 L 0#32) S128x128.size (k0_off104_inb L hc 0)).emb y) :=
  Step.item_payload tbl col H.hr L pay H.hpay I.fi H.hfi 18 0 inb_S26x4x128_S1x1x128_18_0_0 squeezes_S1x1x128_S128
    _ ((Step.read_full (View.whole main_arg44_scv) inb_S1000x128_S1000x128_0_0 I.ft18).trans H.ht18.symm)
    rfl (I.hin 18 0 inb_S26x4x128_S1x1x128_18_0_0 squeezes_S1x1x128_S128) (k0_off104 L 0#32) (k0_off104_eq L 0) (k0_off104_inb L hc 0) (pay24 I) (rd24 I)
theorem inv24 (H : Hyp I tbl col pay) : ∀ j' < 25, ∀ i ∈ Step.blkSet L 20 j', outAt24 I hc i = Cert.Spec.G tbl col i :=
  Step.out_step L 20 (Cert.Spec.G tbl col) 24 (k0_off104 L 0#32) (k0_off104_eq L 0) (k0_off104_inb L hc 0) (outAt23 I hc) (pay24 I) (payG24 I hc H)
    (inv23 I hc H)
theorem rd25 : (Rn 4 inb_S7x128x128_S1x128x128_4_0_0).view.read (Elt F) (rowsAt30 I) = gp25 I :=
  ((Rn_read_miss 4 2 inb_S7x128x128_S1x128x128_4_0_0 inb_S7x128x128_S1x128x128_2_0_0 (by decide) (rowsAt29 I) (gp30 I)).trans ((Rn_read_miss 4 1 inb_S7x128x128_S1x128x128_4_0_0 inb_S7x128x128_S1x128x128_1_0_0 (by decide) (rowsAt28 I) (gp29 I)).trans ((Rn_read_miss 4 0 inb_S7x128x128_S1x128x128_4_0_0 inb_S7x128x128_S1x128x128_0_0_0 (by decide) (rowsAt27 I) (gp28 I)).trans ((Rn_read_miss 4 6 inb_S7x128x128_S1x128x128_4_0_0 inb_S7x128x128_S1x128x128_6_0_0 (by decide) (rowsAt26 I) (gp27 I)).trans ((Rn_read_miss 4 5 inb_S7x128x128_S1x128x128_4_0_0 inb_S7x128x128_S1x128x128_5_0_0 (by decide) (rowsAt25 I) (gp26 I)).trans (Rn_read_hit 4 inb_S7x128x128_S1x128x128_4_0_0 (rowsAt24 I) (gp25 I)))))))
theorem payG25 (H : Hyp I tbl col pay) : ∀ y, pay25 I y = Cert.Spec.G tbl col ((Rect.unit (s := S16384x3328) (k0_off105 L 0#32) S128x128.size (k0_off105_inb L hc 0)).emb y) :=
  Step.item_payload tbl col H.hr L pay H.hpay I.fi H.hfi 19 0 inb_S26x4x128_S1x1x128_19_0_0 squeezes_S1x1x128_S128
    _ ((Step.read_full (View.whole main_arg45_scv) inb_S1000x128_S1000x128_0_0 I.ft19).trans H.ht19.symm)
    rfl (I.hin 19 0 inb_S26x4x128_S1x1x128_19_0_0 squeezes_S1x1x128_S128) (k0_off105 L 0#32) (k0_off105_eq L 0) (k0_off105_inb L hc 0) (pay25 I) (rd25 I)
theorem inv25 (H : Hyp I tbl col pay) : ∀ j' < 26, ∀ i ∈ Step.blkSet L 20 j', outAt25 I hc i = Cert.Spec.G tbl col i :=
  Step.out_step L 20 (Cert.Spec.G tbl col) 25 (k0_off105 L 0#32) (k0_off105_eq L 0) (k0_off105_inb L hc 0) (outAt24 I hc) (pay25 I) (payG25 I hc H)
    (inv24 I hc H)
theorem rd26 : (Rn 5 inb_S7x128x128_S1x128x128_5_0_0).view.read (Elt F) (rowsAt31 I) = gp26 I :=
  ((Rn_read_miss 5 3 inb_S7x128x128_S1x128x128_5_0_0 inb_S7x128x128_S1x128x128_3_0_0 (by decide) (rowsAt30 I) (gp31 I)).trans ((Rn_read_miss 5 2 inb_S7x128x128_S1x128x128_5_0_0 inb_S7x128x128_S1x128x128_2_0_0 (by decide) (rowsAt29 I) (gp30 I)).trans ((Rn_read_miss 5 1 inb_S7x128x128_S1x128x128_5_0_0 inb_S7x128x128_S1x128x128_1_0_0 (by decide) (rowsAt28 I) (gp29 I)).trans ((Rn_read_miss 5 0 inb_S7x128x128_S1x128x128_5_0_0 inb_S7x128x128_S1x128x128_0_0_0 (by decide) (rowsAt27 I) (gp28 I)).trans ((Rn_read_miss 5 6 inb_S7x128x128_S1x128x128_5_0_0 inb_S7x128x128_S1x128x128_6_0_0 (by decide) (rowsAt26 I) (gp27 I)).trans (Rn_read_hit 5 inb_S7x128x128_S1x128x128_5_0_0 (rowsAt25 I) (gp26 I)))))))
theorem payG26 (H : Hyp I tbl col pay) : ∀ y, pay26 I y = Cert.Spec.G tbl col ((Rect.unit (s := S16384x3328) (k0_off80 L 128#32) S128x128.size (k0_off80_inb L hc 1)).emb y) :=
  Step.item_payload tbl col H.hr L pay H.hpay I.fi H.hfi 20 1 inb_S26x4x128_S1x1x128_20_1_0 squeezes_S1x1x128_S128
    _ ((Step.read_full (View.whole main_arg46_scv) inb_S1000x128_S1000x128_0_0 I.ft20).trans H.ht20.symm)
    rfl (I.hin 20 1 inb_S26x4x128_S1x1x128_20_1_0 squeezes_S1x1x128_S128) (k0_off80 L 128#32) (k0_off80_eq L 1) (k0_off80_inb L hc 1) (pay26 I) (rd26 I)
theorem inv26 (H : Hyp I tbl col pay) : ∀ j' < 27, ∀ i ∈ Step.blkSet L 20 j', outAt26 I hc i = Cert.Spec.G tbl col i :=
  Step.out_step L 20 (Cert.Spec.G tbl col) 26 (k0_off80 L 128#32) (k0_off80_eq L 1) (k0_off80_inb L hc 1) (outAt25 I hc) (pay26 I) (payG26 I hc H)
    (inv25 I hc H)
theorem rd27 : (Rn 6 inb_S7x128x128_S1x128x128_6_0_0).view.read (Elt F) (rowsAt32 I) = gp27 I :=
  ((Rn_read_miss 6 4 inb_S7x128x128_S1x128x128_6_0_0 inb_S7x128x128_S1x128x128_4_0_0 (by decide) (rowsAt31 I) (gp32 I)).trans ((Rn_read_miss 6 3 inb_S7x128x128_S1x128x128_6_0_0 inb_S7x128x128_S1x128x128_3_0_0 (by decide) (rowsAt30 I) (gp31 I)).trans ((Rn_read_miss 6 2 inb_S7x128x128_S1x128x128_6_0_0 inb_S7x128x128_S1x128x128_2_0_0 (by decide) (rowsAt29 I) (gp30 I)).trans ((Rn_read_miss 6 1 inb_S7x128x128_S1x128x128_6_0_0 inb_S7x128x128_S1x128x128_1_0_0 (by decide) (rowsAt28 I) (gp29 I)).trans ((Rn_read_miss 6 0 inb_S7x128x128_S1x128x128_6_0_0 inb_S7x128x128_S1x128x128_0_0_0 (by decide) (rowsAt27 I) (gp28 I)).trans (Rn_read_hit 6 inb_S7x128x128_S1x128x128_6_0_0 (rowsAt26 I) (gp27 I)))))))
theorem payG27 (H : Hyp I tbl col pay) : ∀ y, pay27 I y = Cert.Spec.G tbl col ((Rect.unit (s := S16384x3328) (k0_off81 L 128#32) S128x128.size (k0_off81_inb L hc 1)).emb y) :=
  Step.item_payload tbl col H.hr L pay H.hpay I.fi H.hfi 21 1 inb_S26x4x128_S1x1x128_21_1_0 squeezes_S1x1x128_S128
    _ ((Step.read_full (View.whole main_arg47_scv) inb_S1000x128_S1000x128_0_0 I.ft21).trans H.ht21.symm)
    rfl (I.hin 21 1 inb_S26x4x128_S1x1x128_21_1_0 squeezes_S1x1x128_S128) (k0_off81 L 128#32) (k0_off81_eq L 1) (k0_off81_inb L hc 1) (pay27 I) (rd27 I)
theorem inv27 (H : Hyp I tbl col pay) : ∀ j' < 28, ∀ i ∈ Step.blkSet L 20 j', outAt27 I hc i = Cert.Spec.G tbl col i :=
  Step.out_step L 20 (Cert.Spec.G tbl col) 27 (k0_off81 L 128#32) (k0_off81_eq L 1) (k0_off81_inb L hc 1) (outAt26 I hc) (pay27 I) (payG27 I hc H)
    (inv26 I hc H)
theorem rd28 : (Rn 0 inb_S7x128x128_S1x128x128_0_0_0).view.read (Elt F) (rowsAt33 I) = gp28 I :=
  ((Rn_read_miss 0 5 inb_S7x128x128_S1x128x128_0_0_0 inb_S7x128x128_S1x128x128_5_0_0 (by decide) (rowsAt32 I) (gp33 I)).trans ((Rn_read_miss 0 4 inb_S7x128x128_S1x128x128_0_0_0 inb_S7x128x128_S1x128x128_4_0_0 (by decide) (rowsAt31 I) (gp32 I)).trans ((Rn_read_miss 0 3 inb_S7x128x128_S1x128x128_0_0_0 inb_S7x128x128_S1x128x128_3_0_0 (by decide) (rowsAt30 I) (gp31 I)).trans ((Rn_read_miss 0 2 inb_S7x128x128_S1x128x128_0_0_0 inb_S7x128x128_S1x128x128_2_0_0 (by decide) (rowsAt29 I) (gp30 I)).trans ((Rn_read_miss 0 1 inb_S7x128x128_S1x128x128_0_0_0 inb_S7x128x128_S1x128x128_1_0_0 (by decide) (rowsAt28 I) (gp29 I)).trans (Rn_read_hit 0 inb_S7x128x128_S1x128x128_0_0_0 (rowsAt27 I) (gp28 I)))))))
theorem payG28 (H : Hyp I tbl col pay) : ∀ y, pay28 I y = Cert.Spec.G tbl col ((Rect.unit (s := S16384x3328) (k0_off82 L 128#32) S128x128.size (k0_off82_inb L hc 1)).emb y) :=
  Step.item_payload tbl col H.hr L pay H.hpay I.fi H.hfi 22 1 inb_S26x4x128_S1x1x128_22_1_0 squeezes_S1x1x128_S128
    _ ((Step.read_full (View.whole main_arg48_scv) inb_S1000x128_S1000x128_0_0 I.ft22).trans H.ht22.symm)
    rfl (I.hin 22 1 inb_S26x4x128_S1x1x128_22_1_0 squeezes_S1x1x128_S128) (k0_off82 L 128#32) (k0_off82_eq L 1) (k0_off82_inb L hc 1) (pay28 I) (rd28 I)
theorem inv28 (H : Hyp I tbl col pay) : ∀ j' < 29, ∀ i ∈ Step.blkSet L 20 j', outAt28 I hc i = Cert.Spec.G tbl col i :=
  Step.out_step L 20 (Cert.Spec.G tbl col) 28 (k0_off82 L 128#32) (k0_off82_eq L 1) (k0_off82_inb L hc 1) (outAt27 I hc) (pay28 I) (payG28 I hc H)
    (inv27 I hc H)
theorem rd29 : (Rn 1 inb_S7x128x128_S1x128x128_1_0_0).view.read (Elt F) (rowsAt34 I) = gp29 I :=
  ((Rn_read_miss 1 6 inb_S7x128x128_S1x128x128_1_0_0 inb_S7x128x128_S1x128x128_6_0_0 (by decide) (rowsAt33 I) (gp34 I)).trans ((Rn_read_miss 1 5 inb_S7x128x128_S1x128x128_1_0_0 inb_S7x128x128_S1x128x128_5_0_0 (by decide) (rowsAt32 I) (gp33 I)).trans ((Rn_read_miss 1 4 inb_S7x128x128_S1x128x128_1_0_0 inb_S7x128x128_S1x128x128_4_0_0 (by decide) (rowsAt31 I) (gp32 I)).trans ((Rn_read_miss 1 3 inb_S7x128x128_S1x128x128_1_0_0 inb_S7x128x128_S1x128x128_3_0_0 (by decide) (rowsAt30 I) (gp31 I)).trans ((Rn_read_miss 1 2 inb_S7x128x128_S1x128x128_1_0_0 inb_S7x128x128_S1x128x128_2_0_0 (by decide) (rowsAt29 I) (gp30 I)).trans (Rn_read_hit 1 inb_S7x128x128_S1x128x128_1_0_0 (rowsAt28 I) (gp29 I)))))))
theorem payG29 (H : Hyp I tbl col pay) : ∀ y, pay29 I y = Cert.Spec.G tbl col ((Rect.unit (s := S16384x3328) (k0_off83 L 128#32) S128x128.size (k0_off83_inb L hc 1)).emb y) :=
  Step.item_payload tbl col H.hr L pay H.hpay I.fi H.hfi 23 1 inb_S26x4x128_S1x1x128_23_1_0 squeezes_S1x1x128_S128
    _ ((Step.read_full (View.whole main_arg49_scv) inb_S1000x128_S1000x128_0_0 I.ft23).trans H.ht23.symm)
    rfl (I.hin 23 1 inb_S26x4x128_S1x1x128_23_1_0 squeezes_S1x1x128_S128) (k0_off83 L 128#32) (k0_off83_eq L 1) (k0_off83_inb L hc 1) (pay29 I) (rd29 I)
theorem inv29 (H : Hyp I tbl col pay) : ∀ j' < 30, ∀ i ∈ Step.blkSet L 20 j', outAt29 I hc i = Cert.Spec.G tbl col i :=
  Step.out_step L 20 (Cert.Spec.G tbl col) 29 (k0_off83 L 128#32) (k0_off83_eq L 1) (k0_off83_inb L hc 1) (outAt28 I hc) (pay29 I) (payG29 I hc H)
    (inv28 I hc H)
theorem rd30 : (Rn 2 inb_S7x128x128_S1x128x128_2_0_0).view.read (Elt F) (rowsAt35 I) = gp30 I :=
  ((Rn_read_miss 2 0 inb_S7x128x128_S1x128x128_2_0_0 inb_S7x128x128_S1x128x128_0_0_0 (by decide) (rowsAt34 I) (gp35 I)).trans ((Rn_read_miss 2 6 inb_S7x128x128_S1x128x128_2_0_0 inb_S7x128x128_S1x128x128_6_0_0 (by decide) (rowsAt33 I) (gp34 I)).trans ((Rn_read_miss 2 5 inb_S7x128x128_S1x128x128_2_0_0 inb_S7x128x128_S1x128x128_5_0_0 (by decide) (rowsAt32 I) (gp33 I)).trans ((Rn_read_miss 2 4 inb_S7x128x128_S1x128x128_2_0_0 inb_S7x128x128_S1x128x128_4_0_0 (by decide) (rowsAt31 I) (gp32 I)).trans ((Rn_read_miss 2 3 inb_S7x128x128_S1x128x128_2_0_0 inb_S7x128x128_S1x128x128_3_0_0 (by decide) (rowsAt30 I) (gp31 I)).trans (Rn_read_hit 2 inb_S7x128x128_S1x128x128_2_0_0 (rowsAt29 I) (gp30 I)))))))
theorem payG30 (H : Hyp I tbl col pay) : ∀ y, pay30 I y = Cert.Spec.G tbl col ((Rect.unit (s := S16384x3328) (k0_off84 L 128#32) S128x128.size (k0_off84_inb L hc 1)).emb y) :=
  Step.item_payload tbl col H.hr L pay H.hpay I.fi H.hfi 24 1 inb_S26x4x128_S1x1x128_24_1_0 squeezes_S1x1x128_S128
    _ ((Step.read_full (View.whole main_arg50_scv) inb_S1000x128_S1000x128_0_0 I.ft24).trans H.ht24.symm)
    rfl (I.hin 24 1 inb_S26x4x128_S1x1x128_24_1_0 squeezes_S1x1x128_S128) (k0_off84 L 128#32) (k0_off84_eq L 1) (k0_off84_inb L hc 1) (pay30 I) (rd30 I)
theorem inv30 (H : Hyp I tbl col pay) : ∀ j' < 31, ∀ i ∈ Step.blkSet L 20 j', outAt30 I hc i = Cert.Spec.G tbl col i :=
  Step.out_step L 20 (Cert.Spec.G tbl col) 30 (k0_off84 L 128#32) (k0_off84_eq L 1) (k0_off84_inb L hc 1) (outAt29 I hc) (pay30 I) (payG30 I hc H)
    (inv29 I hc H)
theorem rd31 : (Rn 3 inb_S7x128x128_S1x128x128_3_0_0).view.read (Elt F) (rowsAt36 I) = gp31 I :=
  ((Rn_read_miss 3 1 inb_S7x128x128_S1x128x128_3_0_0 inb_S7x128x128_S1x128x128_1_0_0 (by decide) (rowsAt35 I) (gp36 I)).trans ((Rn_read_miss 3 0 inb_S7x128x128_S1x128x128_3_0_0 inb_S7x128x128_S1x128x128_0_0_0 (by decide) (rowsAt34 I) (gp35 I)).trans ((Rn_read_miss 3 6 inb_S7x128x128_S1x128x128_3_0_0 inb_S7x128x128_S1x128x128_6_0_0 (by decide) (rowsAt33 I) (gp34 I)).trans ((Rn_read_miss 3 5 inb_S7x128x128_S1x128x128_3_0_0 inb_S7x128x128_S1x128x128_5_0_0 (by decide) (rowsAt32 I) (gp33 I)).trans ((Rn_read_miss 3 4 inb_S7x128x128_S1x128x128_3_0_0 inb_S7x128x128_S1x128x128_4_0_0 (by decide) (rowsAt31 I) (gp32 I)).trans (Rn_read_hit 3 inb_S7x128x128_S1x128x128_3_0_0 (rowsAt30 I) (gp31 I)))))))
theorem payG31 (H : Hyp I tbl col pay) : ∀ y, pay31 I y = Cert.Spec.G tbl col ((Rect.unit (s := S16384x3328) (k0_off85 L 128#32) S128x128.size (k0_off85_inb L hc 1)).emb y) :=
  Step.item_payload tbl col H.hr L pay H.hpay I.fi H.hfi 25 1 inb_S26x4x128_S1x1x128_25_1_0 squeezes_S1x1x128_S128
    _ ((Step.read_full (View.whole main_arg51_scv) inb_S1000x128_S1000x128_0_0 I.ft25).trans H.ht25.symm)
    rfl (I.hin 25 1 inb_S26x4x128_S1x1x128_25_1_0 squeezes_S1x1x128_S128) (k0_off85 L 128#32) (k0_off85_eq L 1) (k0_off85_inb L hc 1) (pay31 I) (rd31 I)
theorem inv31 (H : Hyp I tbl col pay) : ∀ j' < 32, ∀ i ∈ Step.blkSet L 20 j', outAt31 I hc i = Cert.Spec.G tbl col i :=
  Step.out_step L 20 (Cert.Spec.G tbl col) 31 (k0_off85 L 128#32) (k0_off85_eq L 1) (k0_off85_inb L hc 1) (outAt30 I hc) (pay31 I) (payG31 I hc H)
    (inv30 I hc H)
theorem rd32 : (Rn 4 inb_S7x128x128_S1x128x128_4_0_0).view.read (Elt F) (rowsAt37 I) = gp32 I :=
  ((Rn_read_miss 4 2 inb_S7x128x128_S1x128x128_4_0_0 inb_S7x128x128_S1x128x128_2_0_0 (by decide) (rowsAt36 I) (gp37 I)).trans ((Rn_read_miss 4 1 inb_S7x128x128_S1x128x128_4_0_0 inb_S7x128x128_S1x128x128_1_0_0 (by decide) (rowsAt35 I) (gp36 I)).trans ((Rn_read_miss 4 0 inb_S7x128x128_S1x128x128_4_0_0 inb_S7x128x128_S1x128x128_0_0_0 (by decide) (rowsAt34 I) (gp35 I)).trans ((Rn_read_miss 4 6 inb_S7x128x128_S1x128x128_4_0_0 inb_S7x128x128_S1x128x128_6_0_0 (by decide) (rowsAt33 I) (gp34 I)).trans ((Rn_read_miss 4 5 inb_S7x128x128_S1x128x128_4_0_0 inb_S7x128x128_S1x128x128_5_0_0 (by decide) (rowsAt32 I) (gp33 I)).trans (Rn_read_hit 4 inb_S7x128x128_S1x128x128_4_0_0 (rowsAt31 I) (gp32 I)))))))
theorem payG32 (H : Hyp I tbl col pay) : ∀ y, pay32 I y = Cert.Spec.G tbl col ((Rect.unit (s := S16384x3328) (k0_off86 L 128#32) S128x128.size (k0_off86_inb L hc 1)).emb y) :=
  Step.item_payload tbl col H.hr L pay H.hpay I.fi H.hfi 0 1 inb_S26x4x128_S1x1x128_0_1_0 squeezes_S1x1x128_S128
    _ ((Step.read_full (View.whole main_arg26_scv) inb_S1000x128_S1000x128_0_0 I.ft0).trans H.ht0.symm)
    rfl (I.hin 0 1 inb_S26x4x128_S1x1x128_0_1_0 squeezes_S1x1x128_S128) (k0_off86 L 128#32) (k0_off86_eq L 1) (k0_off86_inb L hc 1) (pay32 I) (rd32 I)
theorem inv32 (H : Hyp I tbl col pay) : ∀ j' < 33, ∀ i ∈ Step.blkSet L 20 j', outAt32 I hc i = Cert.Spec.G tbl col i :=
  Step.out_step L 20 (Cert.Spec.G tbl col) 32 (k0_off86 L 128#32) (k0_off86_eq L 1) (k0_off86_inb L hc 1) (outAt31 I hc) (pay32 I) (payG32 I hc H)
    (inv31 I hc H)
theorem rd33 : (Rn 5 inb_S7x128x128_S1x128x128_5_0_0).view.read (Elt F) (rowsAt38 I) = gp33 I :=
  ((Rn_read_miss 5 3 inb_S7x128x128_S1x128x128_5_0_0 inb_S7x128x128_S1x128x128_3_0_0 (by decide) (rowsAt37 I) (gp38 I)).trans ((Rn_read_miss 5 2 inb_S7x128x128_S1x128x128_5_0_0 inb_S7x128x128_S1x128x128_2_0_0 (by decide) (rowsAt36 I) (gp37 I)).trans ((Rn_read_miss 5 1 inb_S7x128x128_S1x128x128_5_0_0 inb_S7x128x128_S1x128x128_1_0_0 (by decide) (rowsAt35 I) (gp36 I)).trans ((Rn_read_miss 5 0 inb_S7x128x128_S1x128x128_5_0_0 inb_S7x128x128_S1x128x128_0_0_0 (by decide) (rowsAt34 I) (gp35 I)).trans ((Rn_read_miss 5 6 inb_S7x128x128_S1x128x128_5_0_0 inb_S7x128x128_S1x128x128_6_0_0 (by decide) (rowsAt33 I) (gp34 I)).trans (Rn_read_hit 5 inb_S7x128x128_S1x128x128_5_0_0 (rowsAt32 I) (gp33 I)))))))
theorem payG33 (H : Hyp I tbl col pay) : ∀ y, pay33 I y = Cert.Spec.G tbl col ((Rect.unit (s := S16384x3328) (k0_off87 L 128#32) S128x128.size (k0_off87_inb L hc 1)).emb y) :=
  Step.item_payload tbl col H.hr L pay H.hpay I.fi H.hfi 1 1 inb_S26x4x128_S1x1x128_1_1_0 squeezes_S1x1x128_S128
    _ ((Step.read_full (View.whole main_arg27_scv) inb_S1000x128_S1000x128_0_0 I.ft1).trans H.ht1.symm)
    rfl (I.hin 1 1 inb_S26x4x128_S1x1x128_1_1_0 squeezes_S1x1x128_S128) (k0_off87 L 128#32) (k0_off87_eq L 1) (k0_off87_inb L hc 1) (pay33 I) (rd33 I)
theorem inv33 (H : Hyp I tbl col pay) : ∀ j' < 34, ∀ i ∈ Step.blkSet L 20 j', outAt33 I hc i = Cert.Spec.G tbl col i :=
  Step.out_step L 20 (Cert.Spec.G tbl col) 33 (k0_off87 L 128#32) (k0_off87_eq L 1) (k0_off87_inb L hc 1) (outAt32 I hc) (pay33 I) (payG33 I hc H)
    (inv32 I hc H)
theorem rd34 : (Rn 6 inb_S7x128x128_S1x128x128_6_0_0).view.read (Elt F) (rowsAt39 I) = gp34 I :=
  ((Rn_read_miss 6 4 inb_S7x128x128_S1x128x128_6_0_0 inb_S7x128x128_S1x128x128_4_0_0 (by decide) (rowsAt38 I) (gp39 I)).trans ((Rn_read_miss 6 3 inb_S7x128x128_S1x128x128_6_0_0 inb_S7x128x128_S1x128x128_3_0_0 (by decide) (rowsAt37 I) (gp38 I)).trans ((Rn_read_miss 6 2 inb_S7x128x128_S1x128x128_6_0_0 inb_S7x128x128_S1x128x128_2_0_0 (by decide) (rowsAt36 I) (gp37 I)).trans ((Rn_read_miss 6 1 inb_S7x128x128_S1x128x128_6_0_0 inb_S7x128x128_S1x128x128_1_0_0 (by decide) (rowsAt35 I) (gp36 I)).trans ((Rn_read_miss 6 0 inb_S7x128x128_S1x128x128_6_0_0 inb_S7x128x128_S1x128x128_0_0_0 (by decide) (rowsAt34 I) (gp35 I)).trans (Rn_read_hit 6 inb_S7x128x128_S1x128x128_6_0_0 (rowsAt33 I) (gp34 I)))))))
theorem payG34 (H : Hyp I tbl col pay) : ∀ y, pay34 I y = Cert.Spec.G tbl col ((Rect.unit (s := S16384x3328) (k0_off88 L 128#32) S128x128.size (k0_off88_inb L hc 1)).emb y) :=
  Step.item_payload tbl col H.hr L pay H.hpay I.fi H.hfi 2 1 inb_S26x4x128_S1x1x128_2_1_0 squeezes_S1x1x128_S128
    _ ((Step.read_full (View.whole main_arg28_scv) inb_S1000x128_S1000x128_0_0 I.ft2).trans H.ht2.symm)
    rfl (I.hin 2 1 inb_S26x4x128_S1x1x128_2_1_0 squeezes_S1x1x128_S128) (k0_off88 L 128#32) (k0_off88_eq L 1) (k0_off88_inb L hc 1) (pay34 I) (rd34 I)
theorem inv34 (H : Hyp I tbl col pay) : ∀ j' < 35, ∀ i ∈ Step.blkSet L 20 j', outAt34 I hc i = Cert.Spec.G tbl col i :=
  Step.out_step L 20 (Cert.Spec.G tbl col) 34 (k0_off88 L 128#32) (k0_off88_eq L 1) (k0_off88_inb L hc 1) (outAt33 I hc) (pay34 I) (payG34 I hc H)
    (inv33 I hc H)
theorem rd35 : (Rn 0 inb_S7x128x128_S1x128x128_0_0_0).view.read (Elt F) (rowsAt40 I) = gp35 I :=
  ((Rn_read_miss 0 5 inb_S7x128x128_S1x128x128_0_0_0 inb_S7x128x128_S1x128x128_5_0_0 (by decide) (rowsAt39 I) (gp40 I)).trans ((Rn_read_miss 0 4 inb_S7x128x128_S1x128x128_0_0_0 inb_S7x128x128_S1x128x128_4_0_0 (by decide) (rowsAt38 I) (gp39 I)).trans ((Rn_read_miss 0 3 inb_S7x128x128_S1x128x128_0_0_0 inb_S7x128x128_S1x128x128_3_0_0 (by decide) (rowsAt37 I) (gp38 I)).trans ((Rn_read_miss 0 2 inb_S7x128x128_S1x128x128_0_0_0 inb_S7x128x128_S1x128x128_2_0_0 (by decide) (rowsAt36 I) (gp37 I)).trans ((Rn_read_miss 0 1 inb_S7x128x128_S1x128x128_0_0_0 inb_S7x128x128_S1x128x128_1_0_0 (by decide) (rowsAt35 I) (gp36 I)).trans (Rn_read_hit 0 inb_S7x128x128_S1x128x128_0_0_0 (rowsAt34 I) (gp35 I)))))))
theorem payG35 (H : Hyp I tbl col pay) : ∀ y, pay35 I y = Cert.Spec.G tbl col ((Rect.unit (s := S16384x3328) (k0_off89 L 128#32) S128x128.size (k0_off89_inb L hc 1)).emb y) :=
  Step.item_payload tbl col H.hr L pay H.hpay I.fi H.hfi 3 1 inb_S26x4x128_S1x1x128_3_1_0 squeezes_S1x1x128_S128
    _ ((Step.read_full (View.whole main_arg29_scv) inb_S1000x128_S1000x128_0_0 I.ft3).trans H.ht3.symm)
    rfl (I.hin 3 1 inb_S26x4x128_S1x1x128_3_1_0 squeezes_S1x1x128_S128) (k0_off89 L 128#32) (k0_off89_eq L 1) (k0_off89_inb L hc 1) (pay35 I) (rd35 I)
theorem inv35 (H : Hyp I tbl col pay) : ∀ j' < 36, ∀ i ∈ Step.blkSet L 20 j', outAt35 I hc i = Cert.Spec.G tbl col i :=
  Step.out_step L 20 (Cert.Spec.G tbl col) 35 (k0_off89 L 128#32) (k0_off89_eq L 1) (k0_off89_inb L hc 1) (outAt34 I hc) (pay35 I) (payG35 I hc H)
    (inv34 I hc H)
theorem rd36 : (Rn 1 inb_S7x128x128_S1x128x128_1_0_0).view.read (Elt F) (rowsAt41 I) = gp36 I :=
  ((Rn_read_miss 1 6 inb_S7x128x128_S1x128x128_1_0_0 inb_S7x128x128_S1x128x128_6_0_0 (by decide) (rowsAt40 I) (gp41 I)).trans ((Rn_read_miss 1 5 inb_S7x128x128_S1x128x128_1_0_0 inb_S7x128x128_S1x128x128_5_0_0 (by decide) (rowsAt39 I) (gp40 I)).trans ((Rn_read_miss 1 4 inb_S7x128x128_S1x128x128_1_0_0 inb_S7x128x128_S1x128x128_4_0_0 (by decide) (rowsAt38 I) (gp39 I)).trans ((Rn_read_miss 1 3 inb_S7x128x128_S1x128x128_1_0_0 inb_S7x128x128_S1x128x128_3_0_0 (by decide) (rowsAt37 I) (gp38 I)).trans ((Rn_read_miss 1 2 inb_S7x128x128_S1x128x128_1_0_0 inb_S7x128x128_S1x128x128_2_0_0 (by decide) (rowsAt36 I) (gp37 I)).trans (Rn_read_hit 1 inb_S7x128x128_S1x128x128_1_0_0 (rowsAt35 I) (gp36 I)))))))
theorem payG36 (H : Hyp I tbl col pay) : ∀ y, pay36 I y = Cert.Spec.G tbl col ((Rect.unit (s := S16384x3328) (k0_off90 L 128#32) S128x128.size (k0_off90_inb L hc 1)).emb y) :=
  Step.item_payload tbl col H.hr L pay H.hpay I.fi H.hfi 4 1 inb_S26x4x128_S1x1x128_4_1_0 squeezes_S1x1x128_S128
    _ ((Step.read_full (View.whole main_arg30_scv) inb_S1000x128_S1000x128_0_0 I.ft4).trans H.ht4.symm)
    rfl (I.hin 4 1 inb_S26x4x128_S1x1x128_4_1_0 squeezes_S1x1x128_S128) (k0_off90 L 128#32) (k0_off90_eq L 1) (k0_off90_inb L hc 1) (pay36 I) (rd36 I)
theorem inv36 (H : Hyp I tbl col pay) : ∀ j' < 37, ∀ i ∈ Step.blkSet L 20 j', outAt36 I hc i = Cert.Spec.G tbl col i :=
  Step.out_step L 20 (Cert.Spec.G tbl col) 36 (k0_off90 L 128#32) (k0_off90_eq L 1) (k0_off90_inb L hc 1) (outAt35 I hc) (pay36 I) (payG36 I hc H)
    (inv35 I hc H)
theorem rd37 : (Rn 2 inb_S7x128x128_S1x128x128_2_0_0).view.read (Elt F) (rowsAt42 I) = gp37 I :=
  ((Rn_read_miss 2 0 inb_S7x128x128_S1x128x128_2_0_0 inb_S7x128x128_S1x128x128_0_0_0 (by decide) (rowsAt41 I) (gp42 I)).trans ((Rn_read_miss 2 6 inb_S7x128x128_S1x128x128_2_0_0 inb_S7x128x128_S1x128x128_6_0_0 (by decide) (rowsAt40 I) (gp41 I)).trans ((Rn_read_miss 2 5 inb_S7x128x128_S1x128x128_2_0_0 inb_S7x128x128_S1x128x128_5_0_0 (by decide) (rowsAt39 I) (gp40 I)).trans ((Rn_read_miss 2 4 inb_S7x128x128_S1x128x128_2_0_0 inb_S7x128x128_S1x128x128_4_0_0 (by decide) (rowsAt38 I) (gp39 I)).trans ((Rn_read_miss 2 3 inb_S7x128x128_S1x128x128_2_0_0 inb_S7x128x128_S1x128x128_3_0_0 (by decide) (rowsAt37 I) (gp38 I)).trans (Rn_read_hit 2 inb_S7x128x128_S1x128x128_2_0_0 (rowsAt36 I) (gp37 I)))))))
theorem payG37 (H : Hyp I tbl col pay) : ∀ y, pay37 I y = Cert.Spec.G tbl col ((Rect.unit (s := S16384x3328) (k0_off91 L 128#32) S128x128.size (k0_off91_inb L hc 1)).emb y) :=
  Step.item_payload tbl col H.hr L pay H.hpay I.fi H.hfi 5 1 inb_S26x4x128_S1x1x128_5_1_0 squeezes_S1x1x128_S128
    _ ((Step.read_full (View.whole main_arg31_scv) inb_S1000x128_S1000x128_0_0 I.ft5).trans H.ht5.symm)
    rfl (I.hin 5 1 inb_S26x4x128_S1x1x128_5_1_0 squeezes_S1x1x128_S128) (k0_off91 L 128#32) (k0_off91_eq L 1) (k0_off91_inb L hc 1) (pay37 I) (rd37 I)
theorem inv37 (H : Hyp I tbl col pay) : ∀ j' < 38, ∀ i ∈ Step.blkSet L 20 j', outAt37 I hc i = Cert.Spec.G tbl col i :=
  Step.out_step L 20 (Cert.Spec.G tbl col) 37 (k0_off91 L 128#32) (k0_off91_eq L 1) (k0_off91_inb L hc 1) (outAt36 I hc) (pay37 I) (payG37 I hc H)
    (inv36 I hc H)
theorem rd38 : (Rn 3 inb_S7x128x128_S1x128x128_3_0_0).view.read (Elt F) (rowsAt43 I) = gp38 I :=
  ((Rn_read_miss 3 1 inb_S7x128x128_S1x128x128_3_0_0 inb_S7x128x128_S1x128x128_1_0_0 (by decide) (rowsAt42 I) (gp43 I)).trans ((Rn_read_miss 3 0 inb_S7x128x128_S1x128x128_3_0_0 inb_S7x128x128_S1x128x128_0_0_0 (by decide) (rowsAt41 I) (gp42 I)).trans ((Rn_read_miss 3 6 inb_S7x128x128_S1x128x128_3_0_0 inb_S7x128x128_S1x128x128_6_0_0 (by decide) (rowsAt40 I) (gp41 I)).trans ((Rn_read_miss 3 5 inb_S7x128x128_S1x128x128_3_0_0 inb_S7x128x128_S1x128x128_5_0_0 (by decide) (rowsAt39 I) (gp40 I)).trans ((Rn_read_miss 3 4 inb_S7x128x128_S1x128x128_3_0_0 inb_S7x128x128_S1x128x128_4_0_0 (by decide) (rowsAt38 I) (gp39 I)).trans (Rn_read_hit 3 inb_S7x128x128_S1x128x128_3_0_0 (rowsAt37 I) (gp38 I)))))))
theorem payG38 (H : Hyp I tbl col pay) : ∀ y, pay38 I y = Cert.Spec.G tbl col ((Rect.unit (s := S16384x3328) (k0_off92 L 128#32) S128x128.size (k0_off92_inb L hc 1)).emb y) :=
  Step.item_payload tbl col H.hr L pay H.hpay I.fi H.hfi 6 1 inb_S26x4x128_S1x1x128_6_1_0 squeezes_S1x1x128_S128
    _ ((Step.read_full (View.whole main_arg32_scv) inb_S1000x128_S1000x128_0_0 I.ft6).trans H.ht6.symm)
    rfl (I.hin 6 1 inb_S26x4x128_S1x1x128_6_1_0 squeezes_S1x1x128_S128) (k0_off92 L 128#32) (k0_off92_eq L 1) (k0_off92_inb L hc 1) (pay38 I) (rd38 I)
theorem inv38 (H : Hyp I tbl col pay) : ∀ j' < 39, ∀ i ∈ Step.blkSet L 20 j', outAt38 I hc i = Cert.Spec.G tbl col i :=
  Step.out_step L 20 (Cert.Spec.G tbl col) 38 (k0_off92 L 128#32) (k0_off92_eq L 1) (k0_off92_inb L hc 1) (outAt37 I hc) (pay38 I) (payG38 I hc H)
    (inv37 I hc H)
theorem rd39 : (Rn 4 inb_S7x128x128_S1x128x128_4_0_0).view.read (Elt F) (rowsAt44 I) = gp39 I :=
  ((Rn_read_miss 4 2 inb_S7x128x128_S1x128x128_4_0_0 inb_S7x128x128_S1x128x128_2_0_0 (by decide) (rowsAt43 I) (gp44 I)).trans ((Rn_read_miss 4 1 inb_S7x128x128_S1x128x128_4_0_0 inb_S7x128x128_S1x128x128_1_0_0 (by decide) (rowsAt42 I) (gp43 I)).trans ((Rn_read_miss 4 0 inb_S7x128x128_S1x128x128_4_0_0 inb_S7x128x128_S1x128x128_0_0_0 (by decide) (rowsAt41 I) (gp42 I)).trans ((Rn_read_miss 4 6 inb_S7x128x128_S1x128x128_4_0_0 inb_S7x128x128_S1x128x128_6_0_0 (by decide) (rowsAt40 I) (gp41 I)).trans ((Rn_read_miss 4 5 inb_S7x128x128_S1x128x128_4_0_0 inb_S7x128x128_S1x128x128_5_0_0 (by decide) (rowsAt39 I) (gp40 I)).trans (Rn_read_hit 4 inb_S7x128x128_S1x128x128_4_0_0 (rowsAt38 I) (gp39 I)))))))
theorem payG39 (H : Hyp I tbl col pay) : ∀ y, pay39 I y = Cert.Spec.G tbl col ((Rect.unit (s := S16384x3328) (k0_off93 L 128#32) S128x128.size (k0_off93_inb L hc 1)).emb y) :=
  Step.item_payload tbl col H.hr L pay H.hpay I.fi H.hfi 7 1 inb_S26x4x128_S1x1x128_7_1_0 squeezes_S1x1x128_S128
    _ ((Step.read_full (View.whole main_arg33_scv) inb_S1000x128_S1000x128_0_0 I.ft7).trans H.ht7.symm)
    rfl (I.hin 7 1 inb_S26x4x128_S1x1x128_7_1_0 squeezes_S1x1x128_S128) (k0_off93 L 128#32) (k0_off93_eq L 1) (k0_off93_inb L hc 1) (pay39 I) (rd39 I)
theorem inv39 (H : Hyp I tbl col pay) : ∀ j' < 40, ∀ i ∈ Step.blkSet L 20 j', outAt39 I hc i = Cert.Spec.G tbl col i :=
  Step.out_step L 20 (Cert.Spec.G tbl col) 39 (k0_off93 L 128#32) (k0_off93_eq L 1) (k0_off93_inb L hc 1) (outAt38 I hc) (pay39 I) (payG39 I hc H)
    (inv38 I hc H)
theorem rd40 : (Rn 5 inb_S7x128x128_S1x128x128_5_0_0).view.read (Elt F) (rowsAt45 I) = gp40 I :=
  ((Rn_read_miss 5 3 inb_S7x128x128_S1x128x128_5_0_0 inb_S7x128x128_S1x128x128_3_0_0 (by decide) (rowsAt44 I) (gp45 I)).trans ((Rn_read_miss 5 2 inb_S7x128x128_S1x128x128_5_0_0 inb_S7x128x128_S1x128x128_2_0_0 (by decide) (rowsAt43 I) (gp44 I)).trans ((Rn_read_miss 5 1 inb_S7x128x128_S1x128x128_5_0_0 inb_S7x128x128_S1x128x128_1_0_0 (by decide) (rowsAt42 I) (gp43 I)).trans ((Rn_read_miss 5 0 inb_S7x128x128_S1x128x128_5_0_0 inb_S7x128x128_S1x128x128_0_0_0 (by decide) (rowsAt41 I) (gp42 I)).trans ((Rn_read_miss 5 6 inb_S7x128x128_S1x128x128_5_0_0 inb_S7x128x128_S1x128x128_6_0_0 (by decide) (rowsAt40 I) (gp41 I)).trans (Rn_read_hit 5 inb_S7x128x128_S1x128x128_5_0_0 (rowsAt39 I) (gp40 I)))))))
theorem payG40 (H : Hyp I tbl col pay) : ∀ y, pay40 I y = Cert.Spec.G tbl col ((Rect.unit (s := S16384x3328) (k0_off94 L 128#32) S128x128.size (k0_off94_inb L hc 1)).emb y) :=
  Step.item_payload tbl col H.hr L pay H.hpay I.fi H.hfi 8 1 inb_S26x4x128_S1x1x128_8_1_0 squeezes_S1x1x128_S128
    _ ((Step.read_full (View.whole main_arg34_scv) inb_S1000x128_S1000x128_0_0 I.ft8).trans H.ht8.symm)
    rfl (I.hin 8 1 inb_S26x4x128_S1x1x128_8_1_0 squeezes_S1x1x128_S128) (k0_off94 L 128#32) (k0_off94_eq L 1) (k0_off94_inb L hc 1) (pay40 I) (rd40 I)
theorem inv40 (H : Hyp I tbl col pay) : ∀ j' < 41, ∀ i ∈ Step.blkSet L 20 j', outAt40 I hc i = Cert.Spec.G tbl col i :=
  Step.out_step L 20 (Cert.Spec.G tbl col) 40 (k0_off94 L 128#32) (k0_off94_eq L 1) (k0_off94_inb L hc 1) (outAt39 I hc) (pay40 I) (payG40 I hc H)
    (inv39 I hc H)
theorem rd41 : (Rn 6 inb_S7x128x128_S1x128x128_6_0_0).view.read (Elt F) (rowsAt46 I) = gp41 I :=
  ((Rn_read_miss 6 4 inb_S7x128x128_S1x128x128_6_0_0 inb_S7x128x128_S1x128x128_4_0_0 (by decide) (rowsAt45 I) (gp46 I)).trans ((Rn_read_miss 6 3 inb_S7x128x128_S1x128x128_6_0_0 inb_S7x128x128_S1x128x128_3_0_0 (by decide) (rowsAt44 I) (gp45 I)).trans ((Rn_read_miss 6 2 inb_S7x128x128_S1x128x128_6_0_0 inb_S7x128x128_S1x128x128_2_0_0 (by decide) (rowsAt43 I) (gp44 I)).trans ((Rn_read_miss 6 1 inb_S7x128x128_S1x128x128_6_0_0 inb_S7x128x128_S1x128x128_1_0_0 (by decide) (rowsAt42 I) (gp43 I)).trans ((Rn_read_miss 6 0 inb_S7x128x128_S1x128x128_6_0_0 inb_S7x128x128_S1x128x128_0_0_0 (by decide) (rowsAt41 I) (gp42 I)).trans (Rn_read_hit 6 inb_S7x128x128_S1x128x128_6_0_0 (rowsAt40 I) (gp41 I)))))))
theorem payG41 (H : Hyp I tbl col pay) : ∀ y, pay41 I y = Cert.Spec.G tbl col ((Rect.unit (s := S16384x3328) (k0_off95 L 128#32) S128x128.size (k0_off95_inb L hc 1)).emb y) :=
  Step.item_payload tbl col H.hr L pay H.hpay I.fi H.hfi 9 1 inb_S26x4x128_S1x1x128_9_1_0 squeezes_S1x1x128_S128
    _ ((Step.read_full (View.whole main_arg35_scv) inb_S1000x128_S1000x128_0_0 I.ft9).trans H.ht9.symm)
    rfl (I.hin 9 1 inb_S26x4x128_S1x1x128_9_1_0 squeezes_S1x1x128_S128) (k0_off95 L 128#32) (k0_off95_eq L 1) (k0_off95_inb L hc 1) (pay41 I) (rd41 I)
theorem inv41 (H : Hyp I tbl col pay) : ∀ j' < 42, ∀ i ∈ Step.blkSet L 20 j', outAt41 I hc i = Cert.Spec.G tbl col i :=
  Step.out_step L 20 (Cert.Spec.G tbl col) 41 (k0_off95 L 128#32) (k0_off95_eq L 1) (k0_off95_inb L hc 1) (outAt40 I hc) (pay41 I) (payG41 I hc H)
    (inv40 I hc H)
theorem rd42 : (Rn 0 inb_S7x128x128_S1x128x128_0_0_0).view.read (Elt F) (rowsAt47 I) = gp42 I :=
  ((Rn_read_miss 0 5 inb_S7x128x128_S1x128x128_0_0_0 inb_S7x128x128_S1x128x128_5_0_0 (by decide) (rowsAt46 I) (gp47 I)).trans ((Rn_read_miss 0 4 inb_S7x128x128_S1x128x128_0_0_0 inb_S7x128x128_S1x128x128_4_0_0 (by decide) (rowsAt45 I) (gp46 I)).trans ((Rn_read_miss 0 3 inb_S7x128x128_S1x128x128_0_0_0 inb_S7x128x128_S1x128x128_3_0_0 (by decide) (rowsAt44 I) (gp45 I)).trans ((Rn_read_miss 0 2 inb_S7x128x128_S1x128x128_0_0_0 inb_S7x128x128_S1x128x128_2_0_0 (by decide) (rowsAt43 I) (gp44 I)).trans ((Rn_read_miss 0 1 inb_S7x128x128_S1x128x128_0_0_0 inb_S7x128x128_S1x128x128_1_0_0 (by decide) (rowsAt42 I) (gp43 I)).trans (Rn_read_hit 0 inb_S7x128x128_S1x128x128_0_0_0 (rowsAt41 I) (gp42 I)))))))
theorem payG42 (H : Hyp I tbl col pay) : ∀ y, pay42 I y = Cert.Spec.G tbl col ((Rect.unit (s := S16384x3328) (k0_off96 L 128#32) S128x128.size (k0_off96_inb L hc 1)).emb y) :=
  Step.item_payload tbl col H.hr L pay H.hpay I.fi H.hfi 10 1 inb_S26x4x128_S1x1x128_10_1_0 squeezes_S1x1x128_S128
    _ ((Step.read_full (View.whole main_arg36_scv) inb_S1000x128_S1000x128_0_0 I.ft10).trans H.ht10.symm)
    rfl (I.hin 10 1 inb_S26x4x128_S1x1x128_10_1_0 squeezes_S1x1x128_S128) (k0_off96 L 128#32) (k0_off96_eq L 1) (k0_off96_inb L hc 1) (pay42 I) (rd42 I)
theorem inv42 (H : Hyp I tbl col pay) : ∀ j' < 43, ∀ i ∈ Step.blkSet L 20 j', outAt42 I hc i = Cert.Spec.G tbl col i :=
  Step.out_step L 20 (Cert.Spec.G tbl col) 42 (k0_off96 L 128#32) (k0_off96_eq L 1) (k0_off96_inb L hc 1) (outAt41 I hc) (pay42 I) (payG42 I hc H)
    (inv41 I hc H)
theorem rd43 : (Rn 1 inb_S7x128x128_S1x128x128_1_0_0).view.read (Elt F) (rowsAt48 I) = gp43 I :=
  ((Rn_read_miss 1 6 inb_S7x128x128_S1x128x128_1_0_0 inb_S7x128x128_S1x128x128_6_0_0 (by decide) (rowsAt47 I) (gp48 I)).trans ((Rn_read_miss 1 5 inb_S7x128x128_S1x128x128_1_0_0 inb_S7x128x128_S1x128x128_5_0_0 (by decide) (rowsAt46 I) (gp47 I)).trans ((Rn_read_miss 1 4 inb_S7x128x128_S1x128x128_1_0_0 inb_S7x128x128_S1x128x128_4_0_0 (by decide) (rowsAt45 I) (gp46 I)).trans ((Rn_read_miss 1 3 inb_S7x128x128_S1x128x128_1_0_0 inb_S7x128x128_S1x128x128_3_0_0 (by decide) (rowsAt44 I) (gp45 I)).trans ((Rn_read_miss 1 2 inb_S7x128x128_S1x128x128_1_0_0 inb_S7x128x128_S1x128x128_2_0_0 (by decide) (rowsAt43 I) (gp44 I)).trans (Rn_read_hit 1 inb_S7x128x128_S1x128x128_1_0_0 (rowsAt42 I) (gp43 I)))))))
theorem payG43 (H : Hyp I tbl col pay) : ∀ y, pay43 I y = Cert.Spec.G tbl col ((Rect.unit (s := S16384x3328) (k0_off97 L 128#32) S128x128.size (k0_off97_inb L hc 1)).emb y) :=
  Step.item_payload tbl col H.hr L pay H.hpay I.fi H.hfi 11 1 inb_S26x4x128_S1x1x128_11_1_0 squeezes_S1x1x128_S128
    _ ((Step.read_full (View.whole main_arg37_scv) inb_S1000x128_S1000x128_0_0 I.ft11).trans H.ht11.symm)
    rfl (I.hin 11 1 inb_S26x4x128_S1x1x128_11_1_0 squeezes_S1x1x128_S128) (k0_off97 L 128#32) (k0_off97_eq L 1) (k0_off97_inb L hc 1) (pay43 I) (rd43 I)
theorem inv43 (H : Hyp I tbl col pay) : ∀ j' < 44, ∀ i ∈ Step.blkSet L 20 j', outAt43 I hc i = Cert.Spec.G tbl col i :=
  Step.out_step L 20 (Cert.Spec.G tbl col) 43 (k0_off97 L 128#32) (k0_off97_eq L 1) (k0_off97_inb L hc 1) (outAt42 I hc) (pay43 I) (payG43 I hc H)
    (inv42 I hc H)
theorem rd44 : (Rn 2 inb_S7x128x128_S1x128x128_2_0_0).view.read (Elt F) (rowsAt49 I) = gp44 I :=
  ((Rn_read_miss 2 0 inb_S7x128x128_S1x128x128_2_0_0 inb_S7x128x128_S1x128x128_0_0_0 (by decide) (rowsAt48 I) (gp49 I)).trans ((Rn_read_miss 2 6 inb_S7x128x128_S1x128x128_2_0_0 inb_S7x128x128_S1x128x128_6_0_0 (by decide) (rowsAt47 I) (gp48 I)).trans ((Rn_read_miss 2 5 inb_S7x128x128_S1x128x128_2_0_0 inb_S7x128x128_S1x128x128_5_0_0 (by decide) (rowsAt46 I) (gp47 I)).trans ((Rn_read_miss 2 4 inb_S7x128x128_S1x128x128_2_0_0 inb_S7x128x128_S1x128x128_4_0_0 (by decide) (rowsAt45 I) (gp46 I)).trans ((Rn_read_miss 2 3 inb_S7x128x128_S1x128x128_2_0_0 inb_S7x128x128_S1x128x128_3_0_0 (by decide) (rowsAt44 I) (gp45 I)).trans (Rn_read_hit 2 inb_S7x128x128_S1x128x128_2_0_0 (rowsAt43 I) (gp44 I)))))))
theorem payG44 (H : Hyp I tbl col pay) : ∀ y, pay44 I y = Cert.Spec.G tbl col ((Rect.unit (s := S16384x3328) (k0_off98 L 128#32) S128x128.size (k0_off98_inb L hc 1)).emb y) :=
  Step.item_payload tbl col H.hr L pay H.hpay I.fi H.hfi 12 1 inb_S26x4x128_S1x1x128_12_1_0 squeezes_S1x1x128_S128
    _ ((Step.read_full (View.whole main_arg38_scv) inb_S1000x128_S1000x128_0_0 I.ft12).trans H.ht12.symm)
    rfl (I.hin 12 1 inb_S26x4x128_S1x1x128_12_1_0 squeezes_S1x1x128_S128) (k0_off98 L 128#32) (k0_off98_eq L 1) (k0_off98_inb L hc 1) (pay44 I) (rd44 I)
theorem inv44 (H : Hyp I tbl col pay) : ∀ j' < 45, ∀ i ∈ Step.blkSet L 20 j', outAt44 I hc i = Cert.Spec.G tbl col i :=
  Step.out_step L 20 (Cert.Spec.G tbl col) 44 (k0_off98 L 128#32) (k0_off98_eq L 1) (k0_off98_inb L hc 1) (outAt43 I hc) (pay44 I) (payG44 I hc H)
    (inv43 I hc H)
theorem rd45 : (Rn 3 inb_S7x128x128_S1x128x128_3_0_0).view.read (Elt F) (rowsAt50 I) = gp45 I :=
  ((Rn_read_miss 3 1 inb_S7x128x128_S1x128x128_3_0_0 inb_S7x128x128_S1x128x128_1_0_0 (by decide) (rowsAt49 I) (gp50 I)).trans ((Rn_read_miss 3 0 inb_S7x128x128_S1x128x128_3_0_0 inb_S7x128x128_S1x128x128_0_0_0 (by decide) (rowsAt48 I) (gp49 I)).trans ((Rn_read_miss 3 6 inb_S7x128x128_S1x128x128_3_0_0 inb_S7x128x128_S1x128x128_6_0_0 (by decide) (rowsAt47 I) (gp48 I)).trans ((Rn_read_miss 3 5 inb_S7x128x128_S1x128x128_3_0_0 inb_S7x128x128_S1x128x128_5_0_0 (by decide) (rowsAt46 I) (gp47 I)).trans ((Rn_read_miss 3 4 inb_S7x128x128_S1x128x128_3_0_0 inb_S7x128x128_S1x128x128_4_0_0 (by decide) (rowsAt45 I) (gp46 I)).trans (Rn_read_hit 3 inb_S7x128x128_S1x128x128_3_0_0 (rowsAt44 I) (gp45 I)))))))
theorem payG45 (H : Hyp I tbl col pay) : ∀ y, pay45 I y = Cert.Spec.G tbl col ((Rect.unit (s := S16384x3328) (k0_off99 L 128#32) S128x128.size (k0_off99_inb L hc 1)).emb y) :=
  Step.item_payload tbl col H.hr L pay H.hpay I.fi H.hfi 13 1 inb_S26x4x128_S1x1x128_13_1_0 squeezes_S1x1x128_S128
    _ ((Step.read_full (View.whole main_arg39_scv) inb_S1000x128_S1000x128_0_0 I.ft13).trans H.ht13.symm)
    rfl (I.hin 13 1 inb_S26x4x128_S1x1x128_13_1_0 squeezes_S1x1x128_S128) (k0_off99 L 128#32) (k0_off99_eq L 1) (k0_off99_inb L hc 1) (pay45 I) (rd45 I)
theorem inv45 (H : Hyp I tbl col pay) : ∀ j' < 46, ∀ i ∈ Step.blkSet L 20 j', outAt45 I hc i = Cert.Spec.G tbl col i :=
  Step.out_step L 20 (Cert.Spec.G tbl col) 45 (k0_off99 L 128#32) (k0_off99_eq L 1) (k0_off99_inb L hc 1) (outAt44 I hc) (pay45 I) (payG45 I hc H)
    (inv44 I hc H)
theorem rd46 : (Rn 4 inb_S7x128x128_S1x128x128_4_0_0).view.read (Elt F) (rowsAt51 I) = gp46 I :=
  ((Rn_read_miss 4 2 inb_S7x128x128_S1x128x128_4_0_0 inb_S7x128x128_S1x128x128_2_0_0 (by decide) (rowsAt50 I) (gp51 I)).trans ((Rn_read_miss 4 1 inb_S7x128x128_S1x128x128_4_0_0 inb_S7x128x128_S1x128x128_1_0_0 (by decide) (rowsAt49 I) (gp50 I)).trans ((Rn_read_miss 4 0 inb_S7x128x128_S1x128x128_4_0_0 inb_S7x128x128_S1x128x128_0_0_0 (by decide) (rowsAt48 I) (gp49 I)).trans ((Rn_read_miss 4 6 inb_S7x128x128_S1x128x128_4_0_0 inb_S7x128x128_S1x128x128_6_0_0 (by decide) (rowsAt47 I) (gp48 I)).trans ((Rn_read_miss 4 5 inb_S7x128x128_S1x128x128_4_0_0 inb_S7x128x128_S1x128x128_5_0_0 (by decide) (rowsAt46 I) (gp47 I)).trans (Rn_read_hit 4 inb_S7x128x128_S1x128x128_4_0_0 (rowsAt45 I) (gp46 I)))))))
theorem payG46 (H : Hyp I tbl col pay) : ∀ y, pay46 I y = Cert.Spec.G tbl col ((Rect.unit (s := S16384x3328) (k0_off100 L 128#32) S128x128.size (k0_off100_inb L hc 1)).emb y) :=
  Step.item_payload tbl col H.hr L pay H.hpay I.fi H.hfi 14 1 inb_S26x4x128_S1x1x128_14_1_0 squeezes_S1x1x128_S128
    _ ((Step.read_full (View.whole main_arg40_scv) inb_S1000x128_S1000x128_0_0 I.ft14).trans H.ht14.symm)
    rfl (I.hin 14 1 inb_S26x4x128_S1x1x128_14_1_0 squeezes_S1x1x128_S128) (k0_off100 L 128#32) (k0_off100_eq L 1) (k0_off100_inb L hc 1) (pay46 I) (rd46 I)
theorem inv46 (H : Hyp I tbl col pay) : ∀ j' < 47, ∀ i ∈ Step.blkSet L 20 j', outAt46 I hc i = Cert.Spec.G tbl col i :=
  Step.out_step L 20 (Cert.Spec.G tbl col) 46 (k0_off100 L 128#32) (k0_off100_eq L 1) (k0_off100_inb L hc 1) (outAt45 I hc) (pay46 I) (payG46 I hc H)
    (inv45 I hc H)
theorem rd47 : (Rn 5 inb_S7x128x128_S1x128x128_5_0_0).view.read (Elt F) (rowsAt52 I) = gp47 I :=
  ((Rn_read_miss 5 3 inb_S7x128x128_S1x128x128_5_0_0 inb_S7x128x128_S1x128x128_3_0_0 (by decide) (rowsAt51 I) (gp52 I)).trans ((Rn_read_miss 5 2 inb_S7x128x128_S1x128x128_5_0_0 inb_S7x128x128_S1x128x128_2_0_0 (by decide) (rowsAt50 I) (gp51 I)).trans ((Rn_read_miss 5 1 inb_S7x128x128_S1x128x128_5_0_0 inb_S7x128x128_S1x128x128_1_0_0 (by decide) (rowsAt49 I) (gp50 I)).trans ((Rn_read_miss 5 0 inb_S7x128x128_S1x128x128_5_0_0 inb_S7x128x128_S1x128x128_0_0_0 (by decide) (rowsAt48 I) (gp49 I)).trans ((Rn_read_miss 5 6 inb_S7x128x128_S1x128x128_5_0_0 inb_S7x128x128_S1x128x128_6_0_0 (by decide) (rowsAt47 I) (gp48 I)).trans (Rn_read_hit 5 inb_S7x128x128_S1x128x128_5_0_0 (rowsAt46 I) (gp47 I)))))))
theorem payG47 (H : Hyp I tbl col pay) : ∀ y, pay47 I y = Cert.Spec.G tbl col ((Rect.unit (s := S16384x3328) (k0_off101 L 128#32) S128x128.size (k0_off101_inb L hc 1)).emb y) :=
  Step.item_payload tbl col H.hr L pay H.hpay I.fi H.hfi 15 1 inb_S26x4x128_S1x1x128_15_1_0 squeezes_S1x1x128_S128
    _ ((Step.read_full (View.whole main_arg41_scv) inb_S1000x128_S1000x128_0_0 I.ft15).trans H.ht15.symm)
    rfl (I.hin 15 1 inb_S26x4x128_S1x1x128_15_1_0 squeezes_S1x1x128_S128) (k0_off101 L 128#32) (k0_off101_eq L 1) (k0_off101_inb L hc 1) (pay47 I) (rd47 I)
theorem inv47 (H : Hyp I tbl col pay) : ∀ j' < 48, ∀ i ∈ Step.blkSet L 20 j', outAt47 I hc i = Cert.Spec.G tbl col i :=
  Step.out_step L 20 (Cert.Spec.G tbl col) 47 (k0_off101 L 128#32) (k0_off101_eq L 1) (k0_off101_inb L hc 1) (outAt46 I hc) (pay47 I) (payG47 I hc H)
    (inv46 I hc H)
theorem rd48 : (Rn 6 inb_S7x128x128_S1x128x128_6_0_0).view.read (Elt F) (rowsAt53 I) = gp48 I :=
  ((Rn_read_miss 6 4 inb_S7x128x128_S1x128x128_6_0_0 inb_S7x128x128_S1x128x128_4_0_0 (by decide) (rowsAt52 I) (gp53 I)).trans ((Rn_read_miss 6 3 inb_S7x128x128_S1x128x128_6_0_0 inb_S7x128x128_S1x128x128_3_0_0 (by decide) (rowsAt51 I) (gp52 I)).trans ((Rn_read_miss 6 2 inb_S7x128x128_S1x128x128_6_0_0 inb_S7x128x128_S1x128x128_2_0_0 (by decide) (rowsAt50 I) (gp51 I)).trans ((Rn_read_miss 6 1 inb_S7x128x128_S1x128x128_6_0_0 inb_S7x128x128_S1x128x128_1_0_0 (by decide) (rowsAt49 I) (gp50 I)).trans ((Rn_read_miss 6 0 inb_S7x128x128_S1x128x128_6_0_0 inb_S7x128x128_S1x128x128_0_0_0 (by decide) (rowsAt48 I) (gp49 I)).trans (Rn_read_hit 6 inb_S7x128x128_S1x128x128_6_0_0 (rowsAt47 I) (gp48 I)))))))
theorem payG48 (H : Hyp I tbl col pay) : ∀ y, pay48 I y = Cert.Spec.G tbl col ((Rect.unit (s := S16384x3328) (k0_off102 L 128#32) S128x128.size (k0_off102_inb L hc 1)).emb y) :=
  Step.item_payload tbl col H.hr L pay H.hpay I.fi H.hfi 16 1 inb_S26x4x128_S1x1x128_16_1_0 squeezes_S1x1x128_S128
    _ ((Step.read_full (View.whole main_arg42_scv) inb_S1000x128_S1000x128_0_0 I.ft16).trans H.ht16.symm)
    rfl (I.hin 16 1 inb_S26x4x128_S1x1x128_16_1_0 squeezes_S1x1x128_S128) (k0_off102 L 128#32) (k0_off102_eq L 1) (k0_off102_inb L hc 1) (pay48 I) (rd48 I)
theorem inv48 (H : Hyp I tbl col pay) : ∀ j' < 49, ∀ i ∈ Step.blkSet L 20 j', outAt48 I hc i = Cert.Spec.G tbl col i :=
  Step.out_step L 20 (Cert.Spec.G tbl col) 48 (k0_off102 L 128#32) (k0_off102_eq L 1) (k0_off102_inb L hc 1) (outAt47 I hc) (pay48 I) (payG48 I hc H)
    (inv47 I hc H)
theorem rd49 : (Rn 0 inb_S7x128x128_S1x128x128_0_0_0).view.read (Elt F) (rowsAt54 I) = gp49 I :=
  ((Rn_read_miss 0 5 inb_S7x128x128_S1x128x128_0_0_0 inb_S7x128x128_S1x128x128_5_0_0 (by decide) (rowsAt53 I) (gp54 I)).trans ((Rn_read_miss 0 4 inb_S7x128x128_S1x128x128_0_0_0 inb_S7x128x128_S1x128x128_4_0_0 (by decide) (rowsAt52 I) (gp53 I)).trans ((Rn_read_miss 0 3 inb_S7x128x128_S1x128x128_0_0_0 inb_S7x128x128_S1x128x128_3_0_0 (by decide) (rowsAt51 I) (gp52 I)).trans ((Rn_read_miss 0 2 inb_S7x128x128_S1x128x128_0_0_0 inb_S7x128x128_S1x128x128_2_0_0 (by decide) (rowsAt50 I) (gp51 I)).trans ((Rn_read_miss 0 1 inb_S7x128x128_S1x128x128_0_0_0 inb_S7x128x128_S1x128x128_1_0_0 (by decide) (rowsAt49 I) (gp50 I)).trans (Rn_read_hit 0 inb_S7x128x128_S1x128x128_0_0_0 (rowsAt48 I) (gp49 I)))))))
theorem payG49 (H : Hyp I tbl col pay) : ∀ y, pay49 I y = Cert.Spec.G tbl col ((Rect.unit (s := S16384x3328) (k0_off103 L 128#32) S128x128.size (k0_off103_inb L hc 1)).emb y) :=
  Step.item_payload tbl col H.hr L pay H.hpay I.fi H.hfi 17 1 inb_S26x4x128_S1x1x128_17_1_0 squeezes_S1x1x128_S128
    _ ((Step.read_full (View.whole main_arg43_scv) inb_S1000x128_S1000x128_0_0 I.ft17).trans H.ht17.symm)
    rfl (I.hin 17 1 inb_S26x4x128_S1x1x128_17_1_0 squeezes_S1x1x128_S128) (k0_off103 L 128#32) (k0_off103_eq L 1) (k0_off103_inb L hc 1) (pay49 I) (rd49 I)
theorem inv49 (H : Hyp I tbl col pay) : ∀ j' < 50, ∀ i ∈ Step.blkSet L 20 j', outAt49 I hc i = Cert.Spec.G tbl col i :=
  Step.out_step L 20 (Cert.Spec.G tbl col) 49 (k0_off103 L 128#32) (k0_off103_eq L 1) (k0_off103_inb L hc 1) (outAt48 I hc) (pay49 I) (payG49 I hc H)
    (inv48 I hc H)
theorem rd50 : (Rn 1 inb_S7x128x128_S1x128x128_1_0_0).view.read (Elt F) (rowsAt55 I) = gp50 I :=
  ((Rn_read_miss 1 6 inb_S7x128x128_S1x128x128_1_0_0 inb_S7x128x128_S1x128x128_6_0_0 (by decide) (rowsAt54 I) (gp55 I)).trans ((Rn_read_miss 1 5 inb_S7x128x128_S1x128x128_1_0_0 inb_S7x128x128_S1x128x128_5_0_0 (by decide) (rowsAt53 I) (gp54 I)).trans ((Rn_read_miss 1 4 inb_S7x128x128_S1x128x128_1_0_0 inb_S7x128x128_S1x128x128_4_0_0 (by decide) (rowsAt52 I) (gp53 I)).trans ((Rn_read_miss 1 3 inb_S7x128x128_S1x128x128_1_0_0 inb_S7x128x128_S1x128x128_3_0_0 (by decide) (rowsAt51 I) (gp52 I)).trans ((Rn_read_miss 1 2 inb_S7x128x128_S1x128x128_1_0_0 inb_S7x128x128_S1x128x128_2_0_0 (by decide) (rowsAt50 I) (gp51 I)).trans (Rn_read_hit 1 inb_S7x128x128_S1x128x128_1_0_0 (rowsAt49 I) (gp50 I)))))))
theorem payG50 (H : Hyp I tbl col pay) : ∀ y, pay50 I y = Cert.Spec.G tbl col ((Rect.unit (s := S16384x3328) (k0_off104 L 128#32) S128x128.size (k0_off104_inb L hc 1)).emb y) :=
  Step.item_payload tbl col H.hr L pay H.hpay I.fi H.hfi 18 1 inb_S26x4x128_S1x1x128_18_1_0 squeezes_S1x1x128_S128
    _ ((Step.read_full (View.whole main_arg44_scv) inb_S1000x128_S1000x128_0_0 I.ft18).trans H.ht18.symm)
    rfl (I.hin 18 1 inb_S26x4x128_S1x1x128_18_1_0 squeezes_S1x1x128_S128) (k0_off104 L 128#32) (k0_off104_eq L 1) (k0_off104_inb L hc 1) (pay50 I) (rd50 I)
theorem inv50 (H : Hyp I tbl col pay) : ∀ j' < 51, ∀ i ∈ Step.blkSet L 20 j', outAt50 I hc i = Cert.Spec.G tbl col i :=
  Step.out_step L 20 (Cert.Spec.G tbl col) 50 (k0_off104 L 128#32) (k0_off104_eq L 1) (k0_off104_inb L hc 1) (outAt49 I hc) (pay50 I) (payG50 I hc H)
    (inv49 I hc H)
theorem rd51 : (Rn 2 inb_S7x128x128_S1x128x128_2_0_0).view.read (Elt F) (rowsAt56 I) = gp51 I :=
  ((Rn_read_miss 2 0 inb_S7x128x128_S1x128x128_2_0_0 inb_S7x128x128_S1x128x128_0_0_0 (by decide) (rowsAt55 I) (gp56 I)).trans ((Rn_read_miss 2 6 inb_S7x128x128_S1x128x128_2_0_0 inb_S7x128x128_S1x128x128_6_0_0 (by decide) (rowsAt54 I) (gp55 I)).trans ((Rn_read_miss 2 5 inb_S7x128x128_S1x128x128_2_0_0 inb_S7x128x128_S1x128x128_5_0_0 (by decide) (rowsAt53 I) (gp54 I)).trans ((Rn_read_miss 2 4 inb_S7x128x128_S1x128x128_2_0_0 inb_S7x128x128_S1x128x128_4_0_0 (by decide) (rowsAt52 I) (gp53 I)).trans ((Rn_read_miss 2 3 inb_S7x128x128_S1x128x128_2_0_0 inb_S7x128x128_S1x128x128_3_0_0 (by decide) (rowsAt51 I) (gp52 I)).trans (Rn_read_hit 2 inb_S7x128x128_S1x128x128_2_0_0 (rowsAt50 I) (gp51 I)))))))
theorem payG51 (H : Hyp I tbl col pay) : ∀ y, pay51 I y = Cert.Spec.G tbl col ((Rect.unit (s := S16384x3328) (k0_off105 L 128#32) S128x128.size (k0_off105_inb L hc 1)).emb y) :=
  Step.item_payload tbl col H.hr L pay H.hpay I.fi H.hfi 19 1 inb_S26x4x128_S1x1x128_19_1_0 squeezes_S1x1x128_S128
    _ ((Step.read_full (View.whole main_arg45_scv) inb_S1000x128_S1000x128_0_0 I.ft19).trans H.ht19.symm)
    rfl (I.hin 19 1 inb_S26x4x128_S1x1x128_19_1_0 squeezes_S1x1x128_S128) (k0_off105 L 128#32) (k0_off105_eq L 1) (k0_off105_inb L hc 1) (pay51 I) (rd51 I)
theorem inv51 (H : Hyp I tbl col pay) : ∀ j' < 52, ∀ i ∈ Step.blkSet L 20 j', outAt51 I hc i = Cert.Spec.G tbl col i :=
  Step.out_step L 20 (Cert.Spec.G tbl col) 51 (k0_off105 L 128#32) (k0_off105_eq L 1) (k0_off105_inb L hc 1) (outAt50 I hc) (pay51 I) (payG51 I hc H)
    (inv50 I hc H)
theorem rd52 : (Rn 3 inb_S7x128x128_S1x128x128_3_0_0).view.read (Elt F) (rowsAt57 I) = gp52 I :=
  ((Rn_read_miss 3 1 inb_S7x128x128_S1x128x128_3_0_0 inb_S7x128x128_S1x128x128_1_0_0 (by decide) (rowsAt56 I) (gp57 I)).trans ((Rn_read_miss 3 0 inb_S7x128x128_S1x128x128_3_0_0 inb_S7x128x128_S1x128x128_0_0_0 (by decide) (rowsAt55 I) (gp56 I)).trans ((Rn_read_miss 3 6 inb_S7x128x128_S1x128x128_3_0_0 inb_S7x128x128_S1x128x128_6_0_0 (by decide) (rowsAt54 I) (gp55 I)).trans ((Rn_read_miss 3 5 inb_S7x128x128_S1x128x128_3_0_0 inb_S7x128x128_S1x128x128_5_0_0 (by decide) (rowsAt53 I) (gp54 I)).trans ((Rn_read_miss 3 4 inb_S7x128x128_S1x128x128_3_0_0 inb_S7x128x128_S1x128x128_4_0_0 (by decide) (rowsAt52 I) (gp53 I)).trans (Rn_read_hit 3 inb_S7x128x128_S1x128x128_3_0_0 (rowsAt51 I) (gp52 I)))))))
theorem payG52 (H : Hyp I tbl col pay) : ∀ y, pay52 I y = Cert.Spec.G tbl col ((Rect.unit (s := S16384x3328) (k0_off80 L 256#32) S128x128.size (k0_off80_inb L hc 2)).emb y) :=
  Step.item_payload tbl col H.hr L pay H.hpay I.fi H.hfi 20 2 inb_S26x4x128_S1x1x128_20_2_0 squeezes_S1x1x128_S128
    _ ((Step.read_full (View.whole main_arg46_scv) inb_S1000x128_S1000x128_0_0 I.ft20).trans H.ht20.symm)
    rfl (I.hin 20 2 inb_S26x4x128_S1x1x128_20_2_0 squeezes_S1x1x128_S128) (k0_off80 L 256#32) (k0_off80_eq L 2) (k0_off80_inb L hc 2) (pay52 I) (rd52 I)
theorem inv52 (H : Hyp I tbl col pay) : ∀ j' < 53, ∀ i ∈ Step.blkSet L 20 j', outAt52 I hc i = Cert.Spec.G tbl col i :=
  Step.out_step L 20 (Cert.Spec.G tbl col) 52 (k0_off80 L 256#32) (k0_off80_eq L 2) (k0_off80_inb L hc 2) (outAt51 I hc) (pay52 I) (payG52 I hc H)
    (inv51 I hc H)
theorem rd53 : (Rn 4 inb_S7x128x128_S1x128x128_4_0_0).view.read (Elt F) (rowsAt58 I) = gp53 I :=
  ((Rn_read_miss 4 2 inb_S7x128x128_S1x128x128_4_0_0 inb_S7x128x128_S1x128x128_2_0_0 (by decide) (rowsAt57 I) (gp58 I)).trans ((Rn_read_miss 4 1 inb_S7x128x128_S1x128x128_4_0_0 inb_S7x128x128_S1x128x128_1_0_0 (by decide) (rowsAt56 I) (gp57 I)).trans ((Rn_read_miss 4 0 inb_S7x128x128_S1x128x128_4_0_0 inb_S7x128x128_S1x128x128_0_0_0 (by decide) (rowsAt55 I) (gp56 I)).trans ((Rn_read_miss 4 6 inb_S7x128x128_S1x128x128_4_0_0 inb_S7x128x128_S1x128x128_6_0_0 (by decide) (rowsAt54 I) (gp55 I)).trans ((Rn_read_miss 4 5 inb_S7x128x128_S1x128x128_4_0_0 inb_S7x128x128_S1x128x128_5_0_0 (by decide) (rowsAt53 I) (gp54 I)).trans (Rn_read_hit 4 inb_S7x128x128_S1x128x128_4_0_0 (rowsAt52 I) (gp53 I)))))))
theorem payG53 (H : Hyp I tbl col pay) : ∀ y, pay53 I y = Cert.Spec.G tbl col ((Rect.unit (s := S16384x3328) (k0_off81 L 256#32) S128x128.size (k0_off81_inb L hc 2)).emb y) :=
  Step.item_payload tbl col H.hr L pay H.hpay I.fi H.hfi 21 2 inb_S26x4x128_S1x1x128_21_2_0 squeezes_S1x1x128_S128
    _ ((Step.read_full (View.whole main_arg47_scv) inb_S1000x128_S1000x128_0_0 I.ft21).trans H.ht21.symm)
    rfl (I.hin 21 2 inb_S26x4x128_S1x1x128_21_2_0 squeezes_S1x1x128_S128) (k0_off81 L 256#32) (k0_off81_eq L 2) (k0_off81_inb L hc 2) (pay53 I) (rd53 I)
theorem inv53 (H : Hyp I tbl col pay) : ∀ j' < 54, ∀ i ∈ Step.blkSet L 20 j', outAt53 I hc i = Cert.Spec.G tbl col i :=
  Step.out_step L 20 (Cert.Spec.G tbl col) 53 (k0_off81 L 256#32) (k0_off81_eq L 2) (k0_off81_inb L hc 2) (outAt52 I hc) (pay53 I) (payG53 I hc H)
    (inv52 I hc H)
theorem rd54 : (Rn 5 inb_S7x128x128_S1x128x128_5_0_0).view.read (Elt F) (rowsAt59 I) = gp54 I :=
  ((Rn_read_miss 5 3 inb_S7x128x128_S1x128x128_5_0_0 inb_S7x128x128_S1x128x128_3_0_0 (by decide) (rowsAt58 I) (gp59 I)).trans ((Rn_read_miss 5 2 inb_S7x128x128_S1x128x128_5_0_0 inb_S7x128x128_S1x128x128_2_0_0 (by decide) (rowsAt57 I) (gp58 I)).trans ((Rn_read_miss 5 1 inb_S7x128x128_S1x128x128_5_0_0 inb_S7x128x128_S1x128x128_1_0_0 (by decide) (rowsAt56 I) (gp57 I)).trans ((Rn_read_miss 5 0 inb_S7x128x128_S1x128x128_5_0_0 inb_S7x128x128_S1x128x128_0_0_0 (by decide) (rowsAt55 I) (gp56 I)).trans ((Rn_read_miss 5 6 inb_S7x128x128_S1x128x128_5_0_0 inb_S7x128x128_S1x128x128_6_0_0 (by decide) (rowsAt54 I) (gp55 I)).trans (Rn_read_hit 5 inb_S7x128x128_S1x128x128_5_0_0 (rowsAt53 I) (gp54 I)))))))
theorem payG54 (H : Hyp I tbl col pay) : ∀ y, pay54 I y = Cert.Spec.G tbl col ((Rect.unit (s := S16384x3328) (k0_off82 L 256#32) S128x128.size (k0_off82_inb L hc 2)).emb y) :=
  Step.item_payload tbl col H.hr L pay H.hpay I.fi H.hfi 22 2 inb_S26x4x128_S1x1x128_22_2_0 squeezes_S1x1x128_S128
    _ ((Step.read_full (View.whole main_arg48_scv) inb_S1000x128_S1000x128_0_0 I.ft22).trans H.ht22.symm)
    rfl (I.hin 22 2 inb_S26x4x128_S1x1x128_22_2_0 squeezes_S1x1x128_S128) (k0_off82 L 256#32) (k0_off82_eq L 2) (k0_off82_inb L hc 2) (pay54 I) (rd54 I)
theorem inv54 (H : Hyp I tbl col pay) : ∀ j' < 55, ∀ i ∈ Step.blkSet L 20 j', outAt54 I hc i = Cert.Spec.G tbl col i :=
  Step.out_step L 20 (Cert.Spec.G tbl col) 54 (k0_off82 L 256#32) (k0_off82_eq L 2) (k0_off82_inb L hc 2) (outAt53 I hc) (pay54 I) (payG54 I hc H)
    (inv53 I hc H)
theorem rd55 : (Rn 6 inb_S7x128x128_S1x128x128_6_0_0).view.read (Elt F) (rowsAt60 I) = gp55 I :=
  ((Rn_read_miss 6 4 inb_S7x128x128_S1x128x128_6_0_0 inb_S7x128x128_S1x128x128_4_0_0 (by decide) (rowsAt59 I) (gp60 I)).trans ((Rn_read_miss 6 3 inb_S7x128x128_S1x128x128_6_0_0 inb_S7x128x128_S1x128x128_3_0_0 (by decide) (rowsAt58 I) (gp59 I)).trans ((Rn_read_miss 6 2 inb_S7x128x128_S1x128x128_6_0_0 inb_S7x128x128_S1x128x128_2_0_0 (by decide) (rowsAt57 I) (gp58 I)).trans ((Rn_read_miss 6 1 inb_S7x128x128_S1x128x128_6_0_0 inb_S7x128x128_S1x128x128_1_0_0 (by decide) (rowsAt56 I) (gp57 I)).trans ((Rn_read_miss 6 0 inb_S7x128x128_S1x128x128_6_0_0 inb_S7x128x128_S1x128x128_0_0_0 (by decide) (rowsAt55 I) (gp56 I)).trans (Rn_read_hit 6 inb_S7x128x128_S1x128x128_6_0_0 (rowsAt54 I) (gp55 I)))))))
theorem payG55 (H : Hyp I tbl col pay) : ∀ y, pay55 I y = Cert.Spec.G tbl col ((Rect.unit (s := S16384x3328) (k0_off83 L 256#32) S128x128.size (k0_off83_inb L hc 2)).emb y) :=
  Step.item_payload tbl col H.hr L pay H.hpay I.fi H.hfi 23 2 inb_S26x4x128_S1x1x128_23_2_0 squeezes_S1x1x128_S128
    _ ((Step.read_full (View.whole main_arg49_scv) inb_S1000x128_S1000x128_0_0 I.ft23).trans H.ht23.symm)
    rfl (I.hin 23 2 inb_S26x4x128_S1x1x128_23_2_0 squeezes_S1x1x128_S128) (k0_off83 L 256#32) (k0_off83_eq L 2) (k0_off83_inb L hc 2) (pay55 I) (rd55 I)
theorem inv55 (H : Hyp I tbl col pay) : ∀ j' < 56, ∀ i ∈ Step.blkSet L 20 j', outAt55 I hc i = Cert.Spec.G tbl col i :=
  Step.out_step L 20 (Cert.Spec.G tbl col) 55 (k0_off83 L 256#32) (k0_off83_eq L 2) (k0_off83_inb L hc 2) (outAt54 I hc) (pay55 I) (payG55 I hc H)
    (inv54 I hc H)
theorem rd56 : (Rn 0 inb_S7x128x128_S1x128x128_0_0_0).view.read (Elt F) (rowsAt61 I) = gp56 I :=
  ((Rn_read_miss 0 5 inb_S7x128x128_S1x128x128_0_0_0 inb_S7x128x128_S1x128x128_5_0_0 (by decide) (rowsAt60 I) (gp61 I)).trans ((Rn_read_miss 0 4 inb_S7x128x128_S1x128x128_0_0_0 inb_S7x128x128_S1x128x128_4_0_0 (by decide) (rowsAt59 I) (gp60 I)).trans ((Rn_read_miss 0 3 inb_S7x128x128_S1x128x128_0_0_0 inb_S7x128x128_S1x128x128_3_0_0 (by decide) (rowsAt58 I) (gp59 I)).trans ((Rn_read_miss 0 2 inb_S7x128x128_S1x128x128_0_0_0 inb_S7x128x128_S1x128x128_2_0_0 (by decide) (rowsAt57 I) (gp58 I)).trans ((Rn_read_miss 0 1 inb_S7x128x128_S1x128x128_0_0_0 inb_S7x128x128_S1x128x128_1_0_0 (by decide) (rowsAt56 I) (gp57 I)).trans (Rn_read_hit 0 inb_S7x128x128_S1x128x128_0_0_0 (rowsAt55 I) (gp56 I)))))))
theorem payG56 (H : Hyp I tbl col pay) : ∀ y, pay56 I y = Cert.Spec.G tbl col ((Rect.unit (s := S16384x3328) (k0_off84 L 256#32) S128x128.size (k0_off84_inb L hc 2)).emb y) :=
  Step.item_payload tbl col H.hr L pay H.hpay I.fi H.hfi 24 2 inb_S26x4x128_S1x1x128_24_2_0 squeezes_S1x1x128_S128
    _ ((Step.read_full (View.whole main_arg50_scv) inb_S1000x128_S1000x128_0_0 I.ft24).trans H.ht24.symm)
    rfl (I.hin 24 2 inb_S26x4x128_S1x1x128_24_2_0 squeezes_S1x1x128_S128) (k0_off84 L 256#32) (k0_off84_eq L 2) (k0_off84_inb L hc 2) (pay56 I) (rd56 I)
theorem inv56 (H : Hyp I tbl col pay) : ∀ j' < 57, ∀ i ∈ Step.blkSet L 20 j', outAt56 I hc i = Cert.Spec.G tbl col i :=
  Step.out_step L 20 (Cert.Spec.G tbl col) 56 (k0_off84 L 256#32) (k0_off84_eq L 2) (k0_off84_inb L hc 2) (outAt55 I hc) (pay56 I) (payG56 I hc H)
    (inv55 I hc H)
theorem rd57 : (Rn 1 inb_S7x128x128_S1x128x128_1_0_0).view.read (Elt F) (rowsAt62 I) = gp57 I :=
  ((Rn_read_miss 1 6 inb_S7x128x128_S1x128x128_1_0_0 inb_S7x128x128_S1x128x128_6_0_0 (by decide) (rowsAt61 I) (gp62 I)).trans ((Rn_read_miss 1 5 inb_S7x128x128_S1x128x128_1_0_0 inb_S7x128x128_S1x128x128_5_0_0 (by decide) (rowsAt60 I) (gp61 I)).trans ((Rn_read_miss 1 4 inb_S7x128x128_S1x128x128_1_0_0 inb_S7x128x128_S1x128x128_4_0_0 (by decide) (rowsAt59 I) (gp60 I)).trans ((Rn_read_miss 1 3 inb_S7x128x128_S1x128x128_1_0_0 inb_S7x128x128_S1x128x128_3_0_0 (by decide) (rowsAt58 I) (gp59 I)).trans ((Rn_read_miss 1 2 inb_S7x128x128_S1x128x128_1_0_0 inb_S7x128x128_S1x128x128_2_0_0 (by decide) (rowsAt57 I) (gp58 I)).trans (Rn_read_hit 1 inb_S7x128x128_S1x128x128_1_0_0 (rowsAt56 I) (gp57 I)))))))
theorem payG57 (H : Hyp I tbl col pay) : ∀ y, pay57 I y = Cert.Spec.G tbl col ((Rect.unit (s := S16384x3328) (k0_off85 L 256#32) S128x128.size (k0_off85_inb L hc 2)).emb y) :=
  Step.item_payload tbl col H.hr L pay H.hpay I.fi H.hfi 25 2 inb_S26x4x128_S1x1x128_25_2_0 squeezes_S1x1x128_S128
    _ ((Step.read_full (View.whole main_arg51_scv) inb_S1000x128_S1000x128_0_0 I.ft25).trans H.ht25.symm)
    rfl (I.hin 25 2 inb_S26x4x128_S1x1x128_25_2_0 squeezes_S1x1x128_S128) (k0_off85 L 256#32) (k0_off85_eq L 2) (k0_off85_inb L hc 2) (pay57 I) (rd57 I)
theorem inv57 (H : Hyp I tbl col pay) : ∀ j' < 58, ∀ i ∈ Step.blkSet L 20 j', outAt57 I hc i = Cert.Spec.G tbl col i :=
  Step.out_step L 20 (Cert.Spec.G tbl col) 57 (k0_off85 L 256#32) (k0_off85_eq L 2) (k0_off85_inb L hc 2) (outAt56 I hc) (pay57 I) (payG57 I hc H)
    (inv56 I hc H)
theorem rd58 : (Rn 2 inb_S7x128x128_S1x128x128_2_0_0).view.read (Elt F) (rowsAt63 I) = gp58 I :=
  ((Rn_read_miss 2 0 inb_S7x128x128_S1x128x128_2_0_0 inb_S7x128x128_S1x128x128_0_0_0 (by decide) (rowsAt62 I) (gp63 I)).trans ((Rn_read_miss 2 6 inb_S7x128x128_S1x128x128_2_0_0 inb_S7x128x128_S1x128x128_6_0_0 (by decide) (rowsAt61 I) (gp62 I)).trans ((Rn_read_miss 2 5 inb_S7x128x128_S1x128x128_2_0_0 inb_S7x128x128_S1x128x128_5_0_0 (by decide) (rowsAt60 I) (gp61 I)).trans ((Rn_read_miss 2 4 inb_S7x128x128_S1x128x128_2_0_0 inb_S7x128x128_S1x128x128_4_0_0 (by decide) (rowsAt59 I) (gp60 I)).trans ((Rn_read_miss 2 3 inb_S7x128x128_S1x128x128_2_0_0 inb_S7x128x128_S1x128x128_3_0_0 (by decide) (rowsAt58 I) (gp59 I)).trans (Rn_read_hit 2 inb_S7x128x128_S1x128x128_2_0_0 (rowsAt57 I) (gp58 I)))))))
theorem payG58 (H : Hyp I tbl col pay) : ∀ y, pay58 I y = Cert.Spec.G tbl col ((Rect.unit (s := S16384x3328) (k0_off86 L 256#32) S128x128.size (k0_off86_inb L hc 2)).emb y) :=
  Step.item_payload tbl col H.hr L pay H.hpay I.fi H.hfi 0 2 inb_S26x4x128_S1x1x128_0_2_0 squeezes_S1x1x128_S128
    _ ((Step.read_full (View.whole main_arg26_scv) inb_S1000x128_S1000x128_0_0 I.ft0).trans H.ht0.symm)
    rfl (I.hin 0 2 inb_S26x4x128_S1x1x128_0_2_0 squeezes_S1x1x128_S128) (k0_off86 L 256#32) (k0_off86_eq L 2) (k0_off86_inb L hc 2) (pay58 I) (rd58 I)
theorem inv58 (H : Hyp I tbl col pay) : ∀ j' < 59, ∀ i ∈ Step.blkSet L 20 j', outAt58 I hc i = Cert.Spec.G tbl col i :=
  Step.out_step L 20 (Cert.Spec.G tbl col) 58 (k0_off86 L 256#32) (k0_off86_eq L 2) (k0_off86_inb L hc 2) (outAt57 I hc) (pay58 I) (payG58 I hc H)
    (inv57 I hc H)
theorem rd59 : (Rn 3 inb_S7x128x128_S1x128x128_3_0_0).view.read (Elt F) (rowsAt64 I) = gp59 I :=
  ((Rn_read_miss 3 1 inb_S7x128x128_S1x128x128_3_0_0 inb_S7x128x128_S1x128x128_1_0_0 (by decide) (rowsAt63 I) (gp64 I)).trans ((Rn_read_miss 3 0 inb_S7x128x128_S1x128x128_3_0_0 inb_S7x128x128_S1x128x128_0_0_0 (by decide) (rowsAt62 I) (gp63 I)).trans ((Rn_read_miss 3 6 inb_S7x128x128_S1x128x128_3_0_0 inb_S7x128x128_S1x128x128_6_0_0 (by decide) (rowsAt61 I) (gp62 I)).trans ((Rn_read_miss 3 5 inb_S7x128x128_S1x128x128_3_0_0 inb_S7x128x128_S1x128x128_5_0_0 (by decide) (rowsAt60 I) (gp61 I)).trans ((Rn_read_miss 3 4 inb_S7x128x128_S1x128x128_3_0_0 inb_S7x128x128_S1x128x128_4_0_0 (by decide) (rowsAt59 I) (gp60 I)).trans (Rn_read_hit 3 inb_S7x128x128_S1x128x128_3_0_0 (rowsAt58 I) (gp59 I)))))))
theorem payG59 (H : Hyp I tbl col pay) : ∀ y, pay59 I y = Cert.Spec.G tbl col ((Rect.unit (s := S16384x3328) (k0_off87 L 256#32) S128x128.size (k0_off87_inb L hc 2)).emb y) :=
  Step.item_payload tbl col H.hr L pay H.hpay I.fi H.hfi 1 2 inb_S26x4x128_S1x1x128_1_2_0 squeezes_S1x1x128_S128
    _ ((Step.read_full (View.whole main_arg27_scv) inb_S1000x128_S1000x128_0_0 I.ft1).trans H.ht1.symm)
    rfl (I.hin 1 2 inb_S26x4x128_S1x1x128_1_2_0 squeezes_S1x1x128_S128) (k0_off87 L 256#32) (k0_off87_eq L 2) (k0_off87_inb L hc 2) (pay59 I) (rd59 I)
theorem inv59 (H : Hyp I tbl col pay) : ∀ j' < 60, ∀ i ∈ Step.blkSet L 20 j', outAt59 I hc i = Cert.Spec.G tbl col i :=
  Step.out_step L 20 (Cert.Spec.G tbl col) 59 (k0_off87 L 256#32) (k0_off87_eq L 2) (k0_off87_inb L hc 2) (outAt58 I hc) (pay59 I) (payG59 I hc H)
    (inv58 I hc H)
theorem rd60 : (Rn 4 inb_S7x128x128_S1x128x128_4_0_0).view.read (Elt F) (rowsAt65 I) = gp60 I :=
  ((Rn_read_miss 4 2 inb_S7x128x128_S1x128x128_4_0_0 inb_S7x128x128_S1x128x128_2_0_0 (by decide) (rowsAt64 I) (gp65 I)).trans ((Rn_read_miss 4 1 inb_S7x128x128_S1x128x128_4_0_0 inb_S7x128x128_S1x128x128_1_0_0 (by decide) (rowsAt63 I) (gp64 I)).trans ((Rn_read_miss 4 0 inb_S7x128x128_S1x128x128_4_0_0 inb_S7x128x128_S1x128x128_0_0_0 (by decide) (rowsAt62 I) (gp63 I)).trans ((Rn_read_miss 4 6 inb_S7x128x128_S1x128x128_4_0_0 inb_S7x128x128_S1x128x128_6_0_0 (by decide) (rowsAt61 I) (gp62 I)).trans ((Rn_read_miss 4 5 inb_S7x128x128_S1x128x128_4_0_0 inb_S7x128x128_S1x128x128_5_0_0 (by decide) (rowsAt60 I) (gp61 I)).trans (Rn_read_hit 4 inb_S7x128x128_S1x128x128_4_0_0 (rowsAt59 I) (gp60 I)))))))
theorem payG60 (H : Hyp I tbl col pay) : ∀ y, pay60 I y = Cert.Spec.G tbl col ((Rect.unit (s := S16384x3328) (k0_off88 L 256#32) S128x128.size (k0_off88_inb L hc 2)).emb y) :=
  Step.item_payload tbl col H.hr L pay H.hpay I.fi H.hfi 2 2 inb_S26x4x128_S1x1x128_2_2_0 squeezes_S1x1x128_S128
    _ ((Step.read_full (View.whole main_arg28_scv) inb_S1000x128_S1000x128_0_0 I.ft2).trans H.ht2.symm)
    rfl (I.hin 2 2 inb_S26x4x128_S1x1x128_2_2_0 squeezes_S1x1x128_S128) (k0_off88 L 256#32) (k0_off88_eq L 2) (k0_off88_inb L hc 2) (pay60 I) (rd60 I)
theorem inv60 (H : Hyp I tbl col pay) : ∀ j' < 61, ∀ i ∈ Step.blkSet L 20 j', outAt60 I hc i = Cert.Spec.G tbl col i :=
  Step.out_step L 20 (Cert.Spec.G tbl col) 60 (k0_off88 L 256#32) (k0_off88_eq L 2) (k0_off88_inb L hc 2) (outAt59 I hc) (pay60 I) (payG60 I hc H)
    (inv59 I hc H)
theorem rd61 : (Rn 5 inb_S7x128x128_S1x128x128_5_0_0).view.read (Elt F) (rowsAt66 I) = gp61 I :=
  ((Rn_read_miss 5 3 inb_S7x128x128_S1x128x128_5_0_0 inb_S7x128x128_S1x128x128_3_0_0 (by decide) (rowsAt65 I) (gp66 I)).trans ((Rn_read_miss 5 2 inb_S7x128x128_S1x128x128_5_0_0 inb_S7x128x128_S1x128x128_2_0_0 (by decide) (rowsAt64 I) (gp65 I)).trans ((Rn_read_miss 5 1 inb_S7x128x128_S1x128x128_5_0_0 inb_S7x128x128_S1x128x128_1_0_0 (by decide) (rowsAt63 I) (gp64 I)).trans ((Rn_read_miss 5 0 inb_S7x128x128_S1x128x128_5_0_0 inb_S7x128x128_S1x128x128_0_0_0 (by decide) (rowsAt62 I) (gp63 I)).trans ((Rn_read_miss 5 6 inb_S7x128x128_S1x128x128_5_0_0 inb_S7x128x128_S1x128x128_6_0_0 (by decide) (rowsAt61 I) (gp62 I)).trans (Rn_read_hit 5 inb_S7x128x128_S1x128x128_5_0_0 (rowsAt60 I) (gp61 I)))))))
theorem payG61 (H : Hyp I tbl col pay) : ∀ y, pay61 I y = Cert.Spec.G tbl col ((Rect.unit (s := S16384x3328) (k0_off89 L 256#32) S128x128.size (k0_off89_inb L hc 2)).emb y) :=
  Step.item_payload tbl col H.hr L pay H.hpay I.fi H.hfi 3 2 inb_S26x4x128_S1x1x128_3_2_0 squeezes_S1x1x128_S128
    _ ((Step.read_full (View.whole main_arg29_scv) inb_S1000x128_S1000x128_0_0 I.ft3).trans H.ht3.symm)
    rfl (I.hin 3 2 inb_S26x4x128_S1x1x128_3_2_0 squeezes_S1x1x128_S128) (k0_off89 L 256#32) (k0_off89_eq L 2) (k0_off89_inb L hc 2) (pay61 I) (rd61 I)
theorem inv61 (H : Hyp I tbl col pay) : ∀ j' < 62, ∀ i ∈ Step.blkSet L 20 j', outAt61 I hc i = Cert.Spec.G tbl col i :=
  Step.out_step L 20 (Cert.Spec.G tbl col) 61 (k0_off89 L 256#32) (k0_off89_eq L 2) (k0_off89_inb L hc 2) (outAt60 I hc) (pay61 I) (payG61 I hc H)
    (inv60 I hc H)
theorem rd62 : (Rn 6 inb_S7x128x128_S1x128x128_6_0_0).view.read (Elt F) (rowsAt67 I) = gp62 I :=
  ((Rn_read_miss 6 4 inb_S7x128x128_S1x128x128_6_0_0 inb_S7x128x128_S1x128x128_4_0_0 (by decide) (rowsAt66 I) (gp67 I)).trans ((Rn_read_miss 6 3 inb_S7x128x128_S1x128x128_6_0_0 inb_S7x128x128_S1x128x128_3_0_0 (by decide) (rowsAt65 I) (gp66 I)).trans ((Rn_read_miss 6 2 inb_S7x128x128_S1x128x128_6_0_0 inb_S7x128x128_S1x128x128_2_0_0 (by decide) (rowsAt64 I) (gp65 I)).trans ((Rn_read_miss 6 1 inb_S7x128x128_S1x128x128_6_0_0 inb_S7x128x128_S1x128x128_1_0_0 (by decide) (rowsAt63 I) (gp64 I)).trans ((Rn_read_miss 6 0 inb_S7x128x128_S1x128x128_6_0_0 inb_S7x128x128_S1x128x128_0_0_0 (by decide) (rowsAt62 I) (gp63 I)).trans (Rn_read_hit 6 inb_S7x128x128_S1x128x128_6_0_0 (rowsAt61 I) (gp62 I)))))))
theorem payG62 (H : Hyp I tbl col pay) : ∀ y, pay62 I y = Cert.Spec.G tbl col ((Rect.unit (s := S16384x3328) (k0_off90 L 256#32) S128x128.size (k0_off90_inb L hc 2)).emb y) :=
  Step.item_payload tbl col H.hr L pay H.hpay I.fi H.hfi 4 2 inb_S26x4x128_S1x1x128_4_2_0 squeezes_S1x1x128_S128
    _ ((Step.read_full (View.whole main_arg30_scv) inb_S1000x128_S1000x128_0_0 I.ft4).trans H.ht4.symm)
    rfl (I.hin 4 2 inb_S26x4x128_S1x1x128_4_2_0 squeezes_S1x1x128_S128) (k0_off90 L 256#32) (k0_off90_eq L 2) (k0_off90_inb L hc 2) (pay62 I) (rd62 I)
theorem inv62 (H : Hyp I tbl col pay) : ∀ j' < 63, ∀ i ∈ Step.blkSet L 20 j', outAt62 I hc i = Cert.Spec.G tbl col i :=
  Step.out_step L 20 (Cert.Spec.G tbl col) 62 (k0_off90 L 256#32) (k0_off90_eq L 2) (k0_off90_inb L hc 2) (outAt61 I hc) (pay62 I) (payG62 I hc H)
    (inv61 I hc H)
theorem rd63 : (Rn 0 inb_S7x128x128_S1x128x128_0_0_0).view.read (Elt F) (rowsAt68 I) = gp63 I :=
  ((Rn_read_miss 0 5 inb_S7x128x128_S1x128x128_0_0_0 inb_S7x128x128_S1x128x128_5_0_0 (by decide) (rowsAt67 I) (gp68 I)).trans ((Rn_read_miss 0 4 inb_S7x128x128_S1x128x128_0_0_0 inb_S7x128x128_S1x128x128_4_0_0 (by decide) (rowsAt66 I) (gp67 I)).trans ((Rn_read_miss 0 3 inb_S7x128x128_S1x128x128_0_0_0 inb_S7x128x128_S1x128x128_3_0_0 (by decide) (rowsAt65 I) (gp66 I)).trans ((Rn_read_miss 0 2 inb_S7x128x128_S1x128x128_0_0_0 inb_S7x128x128_S1x128x128_2_0_0 (by decide) (rowsAt64 I) (gp65 I)).trans ((Rn_read_miss 0 1 inb_S7x128x128_S1x128x128_0_0_0 inb_S7x128x128_S1x128x128_1_0_0 (by decide) (rowsAt63 I) (gp64 I)).trans (Rn_read_hit 0 inb_S7x128x128_S1x128x128_0_0_0 (rowsAt62 I) (gp63 I)))))))
theorem payG63 (H : Hyp I tbl col pay) : ∀ y, pay63 I y = Cert.Spec.G tbl col ((Rect.unit (s := S16384x3328) (k0_off91 L 256#32) S128x128.size (k0_off91_inb L hc 2)).emb y) :=
  Step.item_payload tbl col H.hr L pay H.hpay I.fi H.hfi 5 2 inb_S26x4x128_S1x1x128_5_2_0 squeezes_S1x1x128_S128
    _ ((Step.read_full (View.whole main_arg31_scv) inb_S1000x128_S1000x128_0_0 I.ft5).trans H.ht5.symm)
    rfl (I.hin 5 2 inb_S26x4x128_S1x1x128_5_2_0 squeezes_S1x1x128_S128) (k0_off91 L 256#32) (k0_off91_eq L 2) (k0_off91_inb L hc 2) (pay63 I) (rd63 I)
theorem inv63 (H : Hyp I tbl col pay) : ∀ j' < 64, ∀ i ∈ Step.blkSet L 20 j', outAt63 I hc i = Cert.Spec.G tbl col i :=
  Step.out_step L 20 (Cert.Spec.G tbl col) 63 (k0_off91 L 256#32) (k0_off91_eq L 2) (k0_off91_inb L hc 2) (outAt62 I hc) (pay63 I) (payG63 I hc H)
    (inv62 I hc H)
theorem rd64 : (Rn 1 inb_S7x128x128_S1x128x128_1_0_0).view.read (Elt F) (rowsAt69 I) = gp64 I :=
  ((Rn_read_miss 1 6 inb_S7x128x128_S1x128x128_1_0_0 inb_S7x128x128_S1x128x128_6_0_0 (by decide) (rowsAt68 I) (gp69 I)).trans ((Rn_read_miss 1 5 inb_S7x128x128_S1x128x128_1_0_0 inb_S7x128x128_S1x128x128_5_0_0 (by decide) (rowsAt67 I) (gp68 I)).trans ((Rn_read_miss 1 4 inb_S7x128x128_S1x128x128_1_0_0 inb_S7x128x128_S1x128x128_4_0_0 (by decide) (rowsAt66 I) (gp67 I)).trans ((Rn_read_miss 1 3 inb_S7x128x128_S1x128x128_1_0_0 inb_S7x128x128_S1x128x128_3_0_0 (by decide) (rowsAt65 I) (gp66 I)).trans ((Rn_read_miss 1 2 inb_S7x128x128_S1x128x128_1_0_0 inb_S7x128x128_S1x128x128_2_0_0 (by decide) (rowsAt64 I) (gp65 I)).trans (Rn_read_hit 1 inb_S7x128x128_S1x128x128_1_0_0 (rowsAt63 I) (gp64 I)))))))
theorem payG64 (H : Hyp I tbl col pay) : ∀ y, pay64 I y = Cert.Spec.G tbl col ((Rect.unit (s := S16384x3328) (k0_off92 L 256#32) S128x128.size (k0_off92_inb L hc 2)).emb y) :=
  Step.item_payload tbl col H.hr L pay H.hpay I.fi H.hfi 6 2 inb_S26x4x128_S1x1x128_6_2_0 squeezes_S1x1x128_S128
    _ ((Step.read_full (View.whole main_arg32_scv) inb_S1000x128_S1000x128_0_0 I.ft6).trans H.ht6.symm)
    rfl (I.hin 6 2 inb_S26x4x128_S1x1x128_6_2_0 squeezes_S1x1x128_S128) (k0_off92 L 256#32) (k0_off92_eq L 2) (k0_off92_inb L hc 2) (pay64 I) (rd64 I)
theorem inv64 (H : Hyp I tbl col pay) : ∀ j' < 65, ∀ i ∈ Step.blkSet L 20 j', outAt64 I hc i = Cert.Spec.G tbl col i :=
  Step.out_step L 20 (Cert.Spec.G tbl col) 64 (k0_off92 L 256#32) (k0_off92_eq L 2) (k0_off92_inb L hc 2) (outAt63 I hc) (pay64 I) (payG64 I hc H)
    (inv63 I hc H)
theorem rd65 : (Rn 2 inb_S7x128x128_S1x128x128_2_0_0).view.read (Elt F) (rowsAt70 I) = gp65 I :=
  ((Rn_read_miss 2 0 inb_S7x128x128_S1x128x128_2_0_0 inb_S7x128x128_S1x128x128_0_0_0 (by decide) (rowsAt69 I) (gp70 I)).trans ((Rn_read_miss 2 6 inb_S7x128x128_S1x128x128_2_0_0 inb_S7x128x128_S1x128x128_6_0_0 (by decide) (rowsAt68 I) (gp69 I)).trans ((Rn_read_miss 2 5 inb_S7x128x128_S1x128x128_2_0_0 inb_S7x128x128_S1x128x128_5_0_0 (by decide) (rowsAt67 I) (gp68 I)).trans ((Rn_read_miss 2 4 inb_S7x128x128_S1x128x128_2_0_0 inb_S7x128x128_S1x128x128_4_0_0 (by decide) (rowsAt66 I) (gp67 I)).trans ((Rn_read_miss 2 3 inb_S7x128x128_S1x128x128_2_0_0 inb_S7x128x128_S1x128x128_3_0_0 (by decide) (rowsAt65 I) (gp66 I)).trans (Rn_read_hit 2 inb_S7x128x128_S1x128x128_2_0_0 (rowsAt64 I) (gp65 I)))))))
theorem payG65 (H : Hyp I tbl col pay) : ∀ y, pay65 I y = Cert.Spec.G tbl col ((Rect.unit (s := S16384x3328) (k0_off93 L 256#32) S128x128.size (k0_off93_inb L hc 2)).emb y) :=
  Step.item_payload tbl col H.hr L pay H.hpay I.fi H.hfi 7 2 inb_S26x4x128_S1x1x128_7_2_0 squeezes_S1x1x128_S128
    _ ((Step.read_full (View.whole main_arg33_scv) inb_S1000x128_S1000x128_0_0 I.ft7).trans H.ht7.symm)
    rfl (I.hin 7 2 inb_S26x4x128_S1x1x128_7_2_0 squeezes_S1x1x128_S128) (k0_off93 L 256#32) (k0_off93_eq L 2) (k0_off93_inb L hc 2) (pay65 I) (rd65 I)
theorem inv65 (H : Hyp I tbl col pay) : ∀ j' < 66, ∀ i ∈ Step.blkSet L 20 j', outAt65 I hc i = Cert.Spec.G tbl col i :=
  Step.out_step L 20 (Cert.Spec.G tbl col) 65 (k0_off93 L 256#32) (k0_off93_eq L 2) (k0_off93_inb L hc 2) (outAt64 I hc) (pay65 I) (payG65 I hc H)
    (inv64 I hc H)
theorem rd66 : (Rn 3 inb_S7x128x128_S1x128x128_3_0_0).view.read (Elt F) (rowsAt71 I) = gp66 I :=
  ((Rn_read_miss 3 1 inb_S7x128x128_S1x128x128_3_0_0 inb_S7x128x128_S1x128x128_1_0_0 (by decide) (rowsAt70 I) (gp71 I)).trans ((Rn_read_miss 3 0 inb_S7x128x128_S1x128x128_3_0_0 inb_S7x128x128_S1x128x128_0_0_0 (by decide) (rowsAt69 I) (gp70 I)).trans ((Rn_read_miss 3 6 inb_S7x128x128_S1x128x128_3_0_0 inb_S7x128x128_S1x128x128_6_0_0 (by decide) (rowsAt68 I) (gp69 I)).trans ((Rn_read_miss 3 5 inb_S7x128x128_S1x128x128_3_0_0 inb_S7x128x128_S1x128x128_5_0_0 (by decide) (rowsAt67 I) (gp68 I)).trans ((Rn_read_miss 3 4 inb_S7x128x128_S1x128x128_3_0_0 inb_S7x128x128_S1x128x128_4_0_0 (by decide) (rowsAt66 I) (gp67 I)).trans (Rn_read_hit 3 inb_S7x128x128_S1x128x128_3_0_0 (rowsAt65 I) (gp66 I)))))))
theorem payG66 (H : Hyp I tbl col pay) : ∀ y, pay66 I y = Cert.Spec.G tbl col ((Rect.unit (s := S16384x3328) (k0_off94 L 256#32) S128x128.size (k0_off94_inb L hc 2)).emb y) :=
  Step.item_payload tbl col H.hr L pay H.hpay I.fi H.hfi 8 2 inb_S26x4x128_S1x1x128_8_2_0 squeezes_S1x1x128_S128
    _ ((Step.read_full (View.whole main_arg34_scv) inb_S1000x128_S1000x128_0_0 I.ft8).trans H.ht8.symm)
    rfl (I.hin 8 2 inb_S26x4x128_S1x1x128_8_2_0 squeezes_S1x1x128_S128) (k0_off94 L 256#32) (k0_off94_eq L 2) (k0_off94_inb L hc 2) (pay66 I) (rd66 I)
theorem inv66 (H : Hyp I tbl col pay) : ∀ j' < 67, ∀ i ∈ Step.blkSet L 20 j', outAt66 I hc i = Cert.Spec.G tbl col i :=
  Step.out_step L 20 (Cert.Spec.G tbl col) 66 (k0_off94 L 256#32) (k0_off94_eq L 2) (k0_off94_inb L hc 2) (outAt65 I hc) (pay66 I) (payG66 I hc H)
    (inv65 I hc H)
theorem rd67 : (Rn 4 inb_S7x128x128_S1x128x128_4_0_0).view.read (Elt F) (rowsAt72 I) = gp67 I :=
  ((Rn_read_miss 4 2 inb_S7x128x128_S1x128x128_4_0_0 inb_S7x128x128_S1x128x128_2_0_0 (by decide) (rowsAt71 I) (gp72 I)).trans ((Rn_read_miss 4 1 inb_S7x128x128_S1x128x128_4_0_0 inb_S7x128x128_S1x128x128_1_0_0 (by decide) (rowsAt70 I) (gp71 I)).trans ((Rn_read_miss 4 0 inb_S7x128x128_S1x128x128_4_0_0 inb_S7x128x128_S1x128x128_0_0_0 (by decide) (rowsAt69 I) (gp70 I)).trans ((Rn_read_miss 4 6 inb_S7x128x128_S1x128x128_4_0_0 inb_S7x128x128_S1x128x128_6_0_0 (by decide) (rowsAt68 I) (gp69 I)).trans ((Rn_read_miss 4 5 inb_S7x128x128_S1x128x128_4_0_0 inb_S7x128x128_S1x128x128_5_0_0 (by decide) (rowsAt67 I) (gp68 I)).trans (Rn_read_hit 4 inb_S7x128x128_S1x128x128_4_0_0 (rowsAt66 I) (gp67 I)))))))
theorem payG67 (H : Hyp I tbl col pay) : ∀ y, pay67 I y = Cert.Spec.G tbl col ((Rect.unit (s := S16384x3328) (k0_off95 L 256#32) S128x128.size (k0_off95_inb L hc 2)).emb y) :=
  Step.item_payload tbl col H.hr L pay H.hpay I.fi H.hfi 9 2 inb_S26x4x128_S1x1x128_9_2_0 squeezes_S1x1x128_S128
    _ ((Step.read_full (View.whole main_arg35_scv) inb_S1000x128_S1000x128_0_0 I.ft9).trans H.ht9.symm)
    rfl (I.hin 9 2 inb_S26x4x128_S1x1x128_9_2_0 squeezes_S1x1x128_S128) (k0_off95 L 256#32) (k0_off95_eq L 2) (k0_off95_inb L hc 2) (pay67 I) (rd67 I)
theorem inv67 (H : Hyp I tbl col pay) : ∀ j' < 68, ∀ i ∈ Step.blkSet L 20 j', outAt67 I hc i = Cert.Spec.G tbl col i :=
  Step.out_step L 20 (Cert.Spec.G tbl col) 67 (k0_off95 L 256#32) (k0_off95_eq L 2) (k0_off95_inb L hc 2) (outAt66 I hc) (pay67 I) (payG67 I hc H)
    (inv66 I hc H)
theorem rd68 : (Rn 5 inb_S7x128x128_S1x128x128_5_0_0).view.read (Elt F) (rowsAt73 I) = gp68 I :=
  ((Rn_read_miss 5 3 inb_S7x128x128_S1x128x128_5_0_0 inb_S7x128x128_S1x128x128_3_0_0 (by decide) (rowsAt72 I) (gp73 I)).trans ((Rn_read_miss 5 2 inb_S7x128x128_S1x128x128_5_0_0 inb_S7x128x128_S1x128x128_2_0_0 (by decide) (rowsAt71 I) (gp72 I)).trans ((Rn_read_miss 5 1 inb_S7x128x128_S1x128x128_5_0_0 inb_S7x128x128_S1x128x128_1_0_0 (by decide) (rowsAt70 I) (gp71 I)).trans ((Rn_read_miss 5 0 inb_S7x128x128_S1x128x128_5_0_0 inb_S7x128x128_S1x128x128_0_0_0 (by decide) (rowsAt69 I) (gp70 I)).trans ((Rn_read_miss 5 6 inb_S7x128x128_S1x128x128_5_0_0 inb_S7x128x128_S1x128x128_6_0_0 (by decide) (rowsAt68 I) (gp69 I)).trans (Rn_read_hit 5 inb_S7x128x128_S1x128x128_5_0_0 (rowsAt67 I) (gp68 I)))))))
theorem payG68 (H : Hyp I tbl col pay) : ∀ y, pay68 I y = Cert.Spec.G tbl col ((Rect.unit (s := S16384x3328) (k0_off96 L 256#32) S128x128.size (k0_off96_inb L hc 2)).emb y) :=
  Step.item_payload tbl col H.hr L pay H.hpay I.fi H.hfi 10 2 inb_S26x4x128_S1x1x128_10_2_0 squeezes_S1x1x128_S128
    _ ((Step.read_full (View.whole main_arg36_scv) inb_S1000x128_S1000x128_0_0 I.ft10).trans H.ht10.symm)
    rfl (I.hin 10 2 inb_S26x4x128_S1x1x128_10_2_0 squeezes_S1x1x128_S128) (k0_off96 L 256#32) (k0_off96_eq L 2) (k0_off96_inb L hc 2) (pay68 I) (rd68 I)
theorem inv68 (H : Hyp I tbl col pay) : ∀ j' < 69, ∀ i ∈ Step.blkSet L 20 j', outAt68 I hc i = Cert.Spec.G tbl col i :=
  Step.out_step L 20 (Cert.Spec.G tbl col) 68 (k0_off96 L 256#32) (k0_off96_eq L 2) (k0_off96_inb L hc 2) (outAt67 I hc) (pay68 I) (payG68 I hc H)
    (inv67 I hc H)
theorem rd69 : (Rn 6 inb_S7x128x128_S1x128x128_6_0_0).view.read (Elt F) (rowsAt74 I) = gp69 I :=
  ((Rn_read_miss 6 4 inb_S7x128x128_S1x128x128_6_0_0 inb_S7x128x128_S1x128x128_4_0_0 (by decide) (rowsAt73 I) (gp74 I)).trans ((Rn_read_miss 6 3 inb_S7x128x128_S1x128x128_6_0_0 inb_S7x128x128_S1x128x128_3_0_0 (by decide) (rowsAt72 I) (gp73 I)).trans ((Rn_read_miss 6 2 inb_S7x128x128_S1x128x128_6_0_0 inb_S7x128x128_S1x128x128_2_0_0 (by decide) (rowsAt71 I) (gp72 I)).trans ((Rn_read_miss 6 1 inb_S7x128x128_S1x128x128_6_0_0 inb_S7x128x128_S1x128x128_1_0_0 (by decide) (rowsAt70 I) (gp71 I)).trans ((Rn_read_miss 6 0 inb_S7x128x128_S1x128x128_6_0_0 inb_S7x128x128_S1x128x128_0_0_0 (by decide) (rowsAt69 I) (gp70 I)).trans (Rn_read_hit 6 inb_S7x128x128_S1x128x128_6_0_0 (rowsAt68 I) (gp69 I)))))))
theorem payG69 (H : Hyp I tbl col pay) : ∀ y, pay69 I y = Cert.Spec.G tbl col ((Rect.unit (s := S16384x3328) (k0_off97 L 256#32) S128x128.size (k0_off97_inb L hc 2)).emb y) :=
  Step.item_payload tbl col H.hr L pay H.hpay I.fi H.hfi 11 2 inb_S26x4x128_S1x1x128_11_2_0 squeezes_S1x1x128_S128
    _ ((Step.read_full (View.whole main_arg37_scv) inb_S1000x128_S1000x128_0_0 I.ft11).trans H.ht11.symm)
    rfl (I.hin 11 2 inb_S26x4x128_S1x1x128_11_2_0 squeezes_S1x1x128_S128) (k0_off97 L 256#32) (k0_off97_eq L 2) (k0_off97_inb L hc 2) (pay69 I) (rd69 I)
theorem inv69 (H : Hyp I tbl col pay) : ∀ j' < 70, ∀ i ∈ Step.blkSet L 20 j', outAt69 I hc i = Cert.Spec.G tbl col i :=
  Step.out_step L 20 (Cert.Spec.G tbl col) 69 (k0_off97 L 256#32) (k0_off97_eq L 2) (k0_off97_inb L hc 2) (outAt68 I hc) (pay69 I) (payG69 I hc H)
    (inv68 I hc H)
theorem rd70 : (Rn 0 inb_S7x128x128_S1x128x128_0_0_0).view.read (Elt F) (rowsAt75 I) = gp70 I :=
  ((Rn_read_miss 0 5 inb_S7x128x128_S1x128x128_0_0_0 inb_S7x128x128_S1x128x128_5_0_0 (by decide) (rowsAt74 I) (gp75 I)).trans ((Rn_read_miss 0 4 inb_S7x128x128_S1x128x128_0_0_0 inb_S7x128x128_S1x128x128_4_0_0 (by decide) (rowsAt73 I) (gp74 I)).trans ((Rn_read_miss 0 3 inb_S7x128x128_S1x128x128_0_0_0 inb_S7x128x128_S1x128x128_3_0_0 (by decide) (rowsAt72 I) (gp73 I)).trans ((Rn_read_miss 0 2 inb_S7x128x128_S1x128x128_0_0_0 inb_S7x128x128_S1x128x128_2_0_0 (by decide) (rowsAt71 I) (gp72 I)).trans ((Rn_read_miss 0 1 inb_S7x128x128_S1x128x128_0_0_0 inb_S7x128x128_S1x128x128_1_0_0 (by decide) (rowsAt70 I) (gp71 I)).trans (Rn_read_hit 0 inb_S7x128x128_S1x128x128_0_0_0 (rowsAt69 I) (gp70 I)))))))
theorem payG70 (H : Hyp I tbl col pay) : ∀ y, pay70 I y = Cert.Spec.G tbl col ((Rect.unit (s := S16384x3328) (k0_off98 L 256#32) S128x128.size (k0_off98_inb L hc 2)).emb y) :=
  Step.item_payload tbl col H.hr L pay H.hpay I.fi H.hfi 12 2 inb_S26x4x128_S1x1x128_12_2_0 squeezes_S1x1x128_S128
    _ ((Step.read_full (View.whole main_arg38_scv) inb_S1000x128_S1000x128_0_0 I.ft12).trans H.ht12.symm)
    rfl (I.hin 12 2 inb_S26x4x128_S1x1x128_12_2_0 squeezes_S1x1x128_S128) (k0_off98 L 256#32) (k0_off98_eq L 2) (k0_off98_inb L hc 2) (pay70 I) (rd70 I)
theorem inv70 (H : Hyp I tbl col pay) : ∀ j' < 71, ∀ i ∈ Step.blkSet L 20 j', outAt70 I hc i = Cert.Spec.G tbl col i :=
  Step.out_step L 20 (Cert.Spec.G tbl col) 70 (k0_off98 L 256#32) (k0_off98_eq L 2) (k0_off98_inb L hc 2) (outAt69 I hc) (pay70 I) (payG70 I hc H)
    (inv69 I hc H)
theorem rd71 : (Rn 1 inb_S7x128x128_S1x128x128_1_0_0).view.read (Elt F) (rowsAt76 I) = gp71 I :=
  ((Rn_read_miss 1 6 inb_S7x128x128_S1x128x128_1_0_0 inb_S7x128x128_S1x128x128_6_0_0 (by decide) (rowsAt75 I) (gp76 I)).trans ((Rn_read_miss 1 5 inb_S7x128x128_S1x128x128_1_0_0 inb_S7x128x128_S1x128x128_5_0_0 (by decide) (rowsAt74 I) (gp75 I)).trans ((Rn_read_miss 1 4 inb_S7x128x128_S1x128x128_1_0_0 inb_S7x128x128_S1x128x128_4_0_0 (by decide) (rowsAt73 I) (gp74 I)).trans ((Rn_read_miss 1 3 inb_S7x128x128_S1x128x128_1_0_0 inb_S7x128x128_S1x128x128_3_0_0 (by decide) (rowsAt72 I) (gp73 I)).trans ((Rn_read_miss 1 2 inb_S7x128x128_S1x128x128_1_0_0 inb_S7x128x128_S1x128x128_2_0_0 (by decide) (rowsAt71 I) (gp72 I)).trans (Rn_read_hit 1 inb_S7x128x128_S1x128x128_1_0_0 (rowsAt70 I) (gp71 I)))))))
theorem payG71 (H : Hyp I tbl col pay) : ∀ y, pay71 I y = Cert.Spec.G tbl col ((Rect.unit (s := S16384x3328) (k0_off99 L 256#32) S128x128.size (k0_off99_inb L hc 2)).emb y) :=
  Step.item_payload tbl col H.hr L pay H.hpay I.fi H.hfi 13 2 inb_S26x4x128_S1x1x128_13_2_0 squeezes_S1x1x128_S128
    _ ((Step.read_full (View.whole main_arg39_scv) inb_S1000x128_S1000x128_0_0 I.ft13).trans H.ht13.symm)
    rfl (I.hin 13 2 inb_S26x4x128_S1x1x128_13_2_0 squeezes_S1x1x128_S128) (k0_off99 L 256#32) (k0_off99_eq L 2) (k0_off99_inb L hc 2) (pay71 I) (rd71 I)
theorem inv71 (H : Hyp I tbl col pay) : ∀ j' < 72, ∀ i ∈ Step.blkSet L 20 j', outAt71 I hc i = Cert.Spec.G tbl col i :=
  Step.out_step L 20 (Cert.Spec.G tbl col) 71 (k0_off99 L 256#32) (k0_off99_eq L 2) (k0_off99_inb L hc 2) (outAt70 I hc) (pay71 I) (payG71 I hc H)
    (inv70 I hc H)
theorem rd72 : (Rn 2 inb_S7x128x128_S1x128x128_2_0_0).view.read (Elt F) (rowsAt77 I) = gp72 I :=
  ((Rn_read_miss 2 0 inb_S7x128x128_S1x128x128_2_0_0 inb_S7x128x128_S1x128x128_0_0_0 (by decide) (rowsAt76 I) (gp77 I)).trans ((Rn_read_miss 2 6 inb_S7x128x128_S1x128x128_2_0_0 inb_S7x128x128_S1x128x128_6_0_0 (by decide) (rowsAt75 I) (gp76 I)).trans ((Rn_read_miss 2 5 inb_S7x128x128_S1x128x128_2_0_0 inb_S7x128x128_S1x128x128_5_0_0 (by decide) (rowsAt74 I) (gp75 I)).trans ((Rn_read_miss 2 4 inb_S7x128x128_S1x128x128_2_0_0 inb_S7x128x128_S1x128x128_4_0_0 (by decide) (rowsAt73 I) (gp74 I)).trans ((Rn_read_miss 2 3 inb_S7x128x128_S1x128x128_2_0_0 inb_S7x128x128_S1x128x128_3_0_0 (by decide) (rowsAt72 I) (gp73 I)).trans (Rn_read_hit 2 inb_S7x128x128_S1x128x128_2_0_0 (rowsAt71 I) (gp72 I)))))))
theorem payG72 (H : Hyp I tbl col pay) : ∀ y, pay72 I y = Cert.Spec.G tbl col ((Rect.unit (s := S16384x3328) (k0_off100 L 256#32) S128x128.size (k0_off100_inb L hc 2)).emb y) :=
  Step.item_payload tbl col H.hr L pay H.hpay I.fi H.hfi 14 2 inb_S26x4x128_S1x1x128_14_2_0 squeezes_S1x1x128_S128
    _ ((Step.read_full (View.whole main_arg40_scv) inb_S1000x128_S1000x128_0_0 I.ft14).trans H.ht14.symm)
    rfl (I.hin 14 2 inb_S26x4x128_S1x1x128_14_2_0 squeezes_S1x1x128_S128) (k0_off100 L 256#32) (k0_off100_eq L 2) (k0_off100_inb L hc 2) (pay72 I) (rd72 I)
theorem inv72 (H : Hyp I tbl col pay) : ∀ j' < 73, ∀ i ∈ Step.blkSet L 20 j', outAt72 I hc i = Cert.Spec.G tbl col i :=
  Step.out_step L 20 (Cert.Spec.G tbl col) 72 (k0_off100 L 256#32) (k0_off100_eq L 2) (k0_off100_inb L hc 2) (outAt71 I hc) (pay72 I) (payG72 I hc H)
    (inv71 I hc H)
theorem rd73 : (Rn 3 inb_S7x128x128_S1x128x128_3_0_0).view.read (Elt F) (rowsAt78 I) = gp73 I :=
  ((Rn_read_miss 3 1 inb_S7x128x128_S1x128x128_3_0_0 inb_S7x128x128_S1x128x128_1_0_0 (by decide) (rowsAt77 I) (gp78 I)).trans ((Rn_read_miss 3 0 inb_S7x128x128_S1x128x128_3_0_0 inb_S7x128x128_S1x128x128_0_0_0 (by decide) (rowsAt76 I) (gp77 I)).trans ((Rn_read_miss 3 6 inb_S7x128x128_S1x128x128_3_0_0 inb_S7x128x128_S1x128x128_6_0_0 (by decide) (rowsAt75 I) (gp76 I)).trans ((Rn_read_miss 3 5 inb_S7x128x128_S1x128x128_3_0_0 inb_S7x128x128_S1x128x128_5_0_0 (by decide) (rowsAt74 I) (gp75 I)).trans ((Rn_read_miss 3 4 inb_S7x128x128_S1x128x128_3_0_0 inb_S7x128x128_S1x128x128_4_0_0 (by decide) (rowsAt73 I) (gp74 I)).trans (Rn_read_hit 3 inb_S7x128x128_S1x128x128_3_0_0 (rowsAt72 I) (gp73 I)))))))
theorem payG73 (H : Hyp I tbl col pay) : ∀ y, pay73 I y = Cert.Spec.G tbl col ((Rect.unit (s := S16384x3328) (k0_off101 L 256#32) S128x128.size (k0_off101_inb L hc 2)).emb y) :=
  Step.item_payload tbl col H.hr L pay H.hpay I.fi H.hfi 15 2 inb_S26x4x128_S1x1x128_15_2_0 squeezes_S1x1x128_S128
    _ ((Step.read_full (View.whole main_arg41_scv) inb_S1000x128_S1000x128_0_0 I.ft15).trans H.ht15.symm)
    rfl (I.hin 15 2 inb_S26x4x128_S1x1x128_15_2_0 squeezes_S1x1x128_S128) (k0_off101 L 256#32) (k0_off101_eq L 2) (k0_off101_inb L hc 2) (pay73 I) (rd73 I)
theorem inv73 (H : Hyp I tbl col pay) : ∀ j' < 74, ∀ i ∈ Step.blkSet L 20 j', outAt73 I hc i = Cert.Spec.G tbl col i :=
  Step.out_step L 20 (Cert.Spec.G tbl col) 73 (k0_off101 L 256#32) (k0_off101_eq L 2) (k0_off101_inb L hc 2) (outAt72 I hc) (pay73 I) (payG73 I hc H)
    (inv72 I hc H)
theorem rd74 : (Rn 4 inb_S7x128x128_S1x128x128_4_0_0).view.read (Elt F) (rowsAt79 I) = gp74 I :=
  ((Rn_read_miss 4 2 inb_S7x128x128_S1x128x128_4_0_0 inb_S7x128x128_S1x128x128_2_0_0 (by decide) (rowsAt78 I) (gp79 I)).trans ((Rn_read_miss 4 1 inb_S7x128x128_S1x128x128_4_0_0 inb_S7x128x128_S1x128x128_1_0_0 (by decide) (rowsAt77 I) (gp78 I)).trans ((Rn_read_miss 4 0 inb_S7x128x128_S1x128x128_4_0_0 inb_S7x128x128_S1x128x128_0_0_0 (by decide) (rowsAt76 I) (gp77 I)).trans ((Rn_read_miss 4 6 inb_S7x128x128_S1x128x128_4_0_0 inb_S7x128x128_S1x128x128_6_0_0 (by decide) (rowsAt75 I) (gp76 I)).trans ((Rn_read_miss 4 5 inb_S7x128x128_S1x128x128_4_0_0 inb_S7x128x128_S1x128x128_5_0_0 (by decide) (rowsAt74 I) (gp75 I)).trans (Rn_read_hit 4 inb_S7x128x128_S1x128x128_4_0_0 (rowsAt73 I) (gp74 I)))))))
theorem payG74 (H : Hyp I tbl col pay) : ∀ y, pay74 I y = Cert.Spec.G tbl col ((Rect.unit (s := S16384x3328) (k0_off102 L 256#32) S128x128.size (k0_off102_inb L hc 2)).emb y) :=
  Step.item_payload tbl col H.hr L pay H.hpay I.fi H.hfi 16 2 inb_S26x4x128_S1x1x128_16_2_0 squeezes_S1x1x128_S128
    _ ((Step.read_full (View.whole main_arg42_scv) inb_S1000x128_S1000x128_0_0 I.ft16).trans H.ht16.symm)
    rfl (I.hin 16 2 inb_S26x4x128_S1x1x128_16_2_0 squeezes_S1x1x128_S128) (k0_off102 L 256#32) (k0_off102_eq L 2) (k0_off102_inb L hc 2) (pay74 I) (rd74 I)
theorem inv74 (H : Hyp I tbl col pay) : ∀ j' < 75, ∀ i ∈ Step.blkSet L 20 j', outAt74 I hc i = Cert.Spec.G tbl col i :=
  Step.out_step L 20 (Cert.Spec.G tbl col) 74 (k0_off102 L 256#32) (k0_off102_eq L 2) (k0_off102_inb L hc 2) (outAt73 I hc) (pay74 I) (payG74 I hc H)
    (inv73 I hc H)
theorem rd75 : (Rn 5 inb_S7x128x128_S1x128x128_5_0_0).view.read (Elt F) (rowsAt80 I) = gp75 I :=
  ((Rn_read_miss 5 3 inb_S7x128x128_S1x128x128_5_0_0 inb_S7x128x128_S1x128x128_3_0_0 (by decide) (rowsAt79 I) (gp80 I)).trans ((Rn_read_miss 5 2 inb_S7x128x128_S1x128x128_5_0_0 inb_S7x128x128_S1x128x128_2_0_0 (by decide) (rowsAt78 I) (gp79 I)).trans ((Rn_read_miss 5 1 inb_S7x128x128_S1x128x128_5_0_0 inb_S7x128x128_S1x128x128_1_0_0 (by decide) (rowsAt77 I) (gp78 I)).trans ((Rn_read_miss 5 0 inb_S7x128x128_S1x128x128_5_0_0 inb_S7x128x128_S1x128x128_0_0_0 (by decide) (rowsAt76 I) (gp77 I)).trans ((Rn_read_miss 5 6 inb_S7x128x128_S1x128x128_5_0_0 inb_S7x128x128_S1x128x128_6_0_0 (by decide) (rowsAt75 I) (gp76 I)).trans (Rn_read_hit 5 inb_S7x128x128_S1x128x128_5_0_0 (rowsAt74 I) (gp75 I)))))))
theorem payG75 (H : Hyp I tbl col pay) : ∀ y, pay75 I y = Cert.Spec.G tbl col ((Rect.unit (s := S16384x3328) (k0_off103 L 256#32) S128x128.size (k0_off103_inb L hc 2)).emb y) :=
  Step.item_payload tbl col H.hr L pay H.hpay I.fi H.hfi 17 2 inb_S26x4x128_S1x1x128_17_2_0 squeezes_S1x1x128_S128
    _ ((Step.read_full (View.whole main_arg43_scv) inb_S1000x128_S1000x128_0_0 I.ft17).trans H.ht17.symm)
    rfl (I.hin 17 2 inb_S26x4x128_S1x1x128_17_2_0 squeezes_S1x1x128_S128) (k0_off103 L 256#32) (k0_off103_eq L 2) (k0_off103_inb L hc 2) (pay75 I) (rd75 I)
theorem inv75 (H : Hyp I tbl col pay) : ∀ j' < 76, ∀ i ∈ Step.blkSet L 20 j', outAt75 I hc i = Cert.Spec.G tbl col i :=
  Step.out_step L 20 (Cert.Spec.G tbl col) 75 (k0_off103 L 256#32) (k0_off103_eq L 2) (k0_off103_inb L hc 2) (outAt74 I hc) (pay75 I) (payG75 I hc H)
    (inv74 I hc H)
theorem rd76 : (Rn 6 inb_S7x128x128_S1x128x128_6_0_0).view.read (Elt F) (rowsAt81 I) = gp76 I :=
  ((Rn_read_miss 6 4 inb_S7x128x128_S1x128x128_6_0_0 inb_S7x128x128_S1x128x128_4_0_0 (by decide) (rowsAt80 I) (gp81 I)).trans ((Rn_read_miss 6 3 inb_S7x128x128_S1x128x128_6_0_0 inb_S7x128x128_S1x128x128_3_0_0 (by decide) (rowsAt79 I) (gp80 I)).trans ((Rn_read_miss 6 2 inb_S7x128x128_S1x128x128_6_0_0 inb_S7x128x128_S1x128x128_2_0_0 (by decide) (rowsAt78 I) (gp79 I)).trans ((Rn_read_miss 6 1 inb_S7x128x128_S1x128x128_6_0_0 inb_S7x128x128_S1x128x128_1_0_0 (by decide) (rowsAt77 I) (gp78 I)).trans ((Rn_read_miss 6 0 inb_S7x128x128_S1x128x128_6_0_0 inb_S7x128x128_S1x128x128_0_0_0 (by decide) (rowsAt76 I) (gp77 I)).trans (Rn_read_hit 6 inb_S7x128x128_S1x128x128_6_0_0 (rowsAt75 I) (gp76 I)))))))
theorem payG76 (H : Hyp I tbl col pay) : ∀ y, pay76 I y = Cert.Spec.G tbl col ((Rect.unit (s := S16384x3328) (k0_off104 L 256#32) S128x128.size (k0_off104_inb L hc 2)).emb y) :=
  Step.item_payload tbl col H.hr L pay H.hpay I.fi H.hfi 18 2 inb_S26x4x128_S1x1x128_18_2_0 squeezes_S1x1x128_S128
    _ ((Step.read_full (View.whole main_arg44_scv) inb_S1000x128_S1000x128_0_0 I.ft18).trans H.ht18.symm)
    rfl (I.hin 18 2 inb_S26x4x128_S1x1x128_18_2_0 squeezes_S1x1x128_S128) (k0_off104 L 256#32) (k0_off104_eq L 2) (k0_off104_inb L hc 2) (pay76 I) (rd76 I)
theorem inv76 (H : Hyp I tbl col pay) : ∀ j' < 77, ∀ i ∈ Step.blkSet L 20 j', outAt76 I hc i = Cert.Spec.G tbl col i :=
  Step.out_step L 20 (Cert.Spec.G tbl col) 76 (k0_off104 L 256#32) (k0_off104_eq L 2) (k0_off104_inb L hc 2) (outAt75 I hc) (pay76 I) (payG76 I hc H)
    (inv75 I hc H)
theorem rd77 : (Rn 0 inb_S7x128x128_S1x128x128_0_0_0).view.read (Elt F) (rowsAt82 I) = gp77 I :=
  ((Rn_read_miss 0 5 inb_S7x128x128_S1x128x128_0_0_0 inb_S7x128x128_S1x128x128_5_0_0 (by decide) (rowsAt81 I) (gp82 I)).trans ((Rn_read_miss 0 4 inb_S7x128x128_S1x128x128_0_0_0 inb_S7x128x128_S1x128x128_4_0_0 (by decide) (rowsAt80 I) (gp81 I)).trans ((Rn_read_miss 0 3 inb_S7x128x128_S1x128x128_0_0_0 inb_S7x128x128_S1x128x128_3_0_0 (by decide) (rowsAt79 I) (gp80 I)).trans ((Rn_read_miss 0 2 inb_S7x128x128_S1x128x128_0_0_0 inb_S7x128x128_S1x128x128_2_0_0 (by decide) (rowsAt78 I) (gp79 I)).trans ((Rn_read_miss 0 1 inb_S7x128x128_S1x128x128_0_0_0 inb_S7x128x128_S1x128x128_1_0_0 (by decide) (rowsAt77 I) (gp78 I)).trans (Rn_read_hit 0 inb_S7x128x128_S1x128x128_0_0_0 (rowsAt76 I) (gp77 I)))))))
theorem payG77 (H : Hyp I tbl col pay) : ∀ y, pay77 I y = Cert.Spec.G tbl col ((Rect.unit (s := S16384x3328) (k0_off105 L 256#32) S128x128.size (k0_off105_inb L hc 2)).emb y) :=
  Step.item_payload tbl col H.hr L pay H.hpay I.fi H.hfi 19 2 inb_S26x4x128_S1x1x128_19_2_0 squeezes_S1x1x128_S128
    _ ((Step.read_full (View.whole main_arg45_scv) inb_S1000x128_S1000x128_0_0 I.ft19).trans H.ht19.symm)
    rfl (I.hin 19 2 inb_S26x4x128_S1x1x128_19_2_0 squeezes_S1x1x128_S128) (k0_off105 L 256#32) (k0_off105_eq L 2) (k0_off105_inb L hc 2) (pay77 I) (rd77 I)
theorem inv77 (H : Hyp I tbl col pay) : ∀ j' < 78, ∀ i ∈ Step.blkSet L 20 j', outAt77 I hc i = Cert.Spec.G tbl col i :=
  Step.out_step L 20 (Cert.Spec.G tbl col) 77 (k0_off105 L 256#32) (k0_off105_eq L 2) (k0_off105_inb L hc 2) (outAt76 I hc) (pay77 I) (payG77 I hc H)
    (inv76 I hc H)
theorem rd78 : (Rn 1 inb_S7x128x128_S1x128x128_1_0_0).view.read (Elt F) (rowsAt83 I) = gp78 I :=
  ((Rn_read_miss 1 6 inb_S7x128x128_S1x128x128_1_0_0 inb_S7x128x128_S1x128x128_6_0_0 (by decide) (rowsAt82 I) (gp83 I)).trans ((Rn_read_miss 1 5 inb_S7x128x128_S1x128x128_1_0_0 inb_S7x128x128_S1x128x128_5_0_0 (by decide) (rowsAt81 I) (gp82 I)).trans ((Rn_read_miss 1 4 inb_S7x128x128_S1x128x128_1_0_0 inb_S7x128x128_S1x128x128_4_0_0 (by decide) (rowsAt80 I) (gp81 I)).trans ((Rn_read_miss 1 3 inb_S7x128x128_S1x128x128_1_0_0 inb_S7x128x128_S1x128x128_3_0_0 (by decide) (rowsAt79 I) (gp80 I)).trans ((Rn_read_miss 1 2 inb_S7x128x128_S1x128x128_1_0_0 inb_S7x128x128_S1x128x128_2_0_0 (by decide) (rowsAt78 I) (gp79 I)).trans (Rn_read_hit 1 inb_S7x128x128_S1x128x128_1_0_0 (rowsAt77 I) (gp78 I)))))))
theorem payG78 (H : Hyp I tbl col pay) : ∀ y, pay78 I y = Cert.Spec.G tbl col ((Rect.unit (s := S16384x3328) (k0_off80 L 384#32) S128x128.size (k0_off80_inb L hc 3)).emb y) :=
  Step.item_payload tbl col H.hr L pay H.hpay I.fi H.hfi 20 3 inb_S26x4x128_S1x1x128_20_3_0 squeezes_S1x1x128_S128
    _ ((Step.read_full (View.whole main_arg46_scv) inb_S1000x128_S1000x128_0_0 I.ft20).trans H.ht20.symm)
    rfl (I.hin 20 3 inb_S26x4x128_S1x1x128_20_3_0 squeezes_S1x1x128_S128) (k0_off80 L 384#32) (k0_off80_eq L 3) (k0_off80_inb L hc 3) (pay78 I) (rd78 I)
theorem inv78 (H : Hyp I tbl col pay) : ∀ j' < 79, ∀ i ∈ Step.blkSet L 20 j', outAt78 I hc i = Cert.Spec.G tbl col i :=
  Step.out_step L 20 (Cert.Spec.G tbl col) 78 (k0_off80 L 384#32) (k0_off80_eq L 3) (k0_off80_inb L hc 3) (outAt77 I hc) (pay78 I) (payG78 I hc H)
    (inv77 I hc H)
theorem rd79 : (Rn 2 inb_S7x128x128_S1x128x128_2_0_0).view.read (Elt F) (rowsAt84 I) = gp79 I :=
  ((Rn_read_miss 2 0 inb_S7x128x128_S1x128x128_2_0_0 inb_S7x128x128_S1x128x128_0_0_0 (by decide) (rowsAt83 I) (gp84 I)).trans ((Rn_read_miss 2 6 inb_S7x128x128_S1x128x128_2_0_0 inb_S7x128x128_S1x128x128_6_0_0 (by decide) (rowsAt82 I) (gp83 I)).trans ((Rn_read_miss 2 5 inb_S7x128x128_S1x128x128_2_0_0 inb_S7x128x128_S1x128x128_5_0_0 (by decide) (rowsAt81 I) (gp82 I)).trans ((Rn_read_miss 2 4 inb_S7x128x128_S1x128x128_2_0_0 inb_S7x128x128_S1x128x128_4_0_0 (by decide) (rowsAt80 I) (gp81 I)).trans ((Rn_read_miss 2 3 inb_S7x128x128_S1x128x128_2_0_0 inb_S7x128x128_S1x128x128_3_0_0 (by decide) (rowsAt79 I) (gp80 I)).trans (Rn_read_hit 2 inb_S7x128x128_S1x128x128_2_0_0 (rowsAt78 I) (gp79 I)))))))
theorem payG79 (H : Hyp I tbl col pay) : ∀ y, pay79 I y = Cert.Spec.G tbl col ((Rect.unit (s := S16384x3328) (k0_off81 L 384#32) S128x128.size (k0_off81_inb L hc 3)).emb y) :=
  Step.item_payload tbl col H.hr L pay H.hpay I.fi H.hfi 21 3 inb_S26x4x128_S1x1x128_21_3_0 squeezes_S1x1x128_S128
    _ ((Step.read_full (View.whole main_arg47_scv) inb_S1000x128_S1000x128_0_0 I.ft21).trans H.ht21.symm)
    rfl (I.hin 21 3 inb_S26x4x128_S1x1x128_21_3_0 squeezes_S1x1x128_S128) (k0_off81 L 384#32) (k0_off81_eq L 3) (k0_off81_inb L hc 3) (pay79 I) (rd79 I)
theorem inv79 (H : Hyp I tbl col pay) : ∀ j' < 80, ∀ i ∈ Step.blkSet L 20 j', outAt79 I hc i = Cert.Spec.G tbl col i :=
  Step.out_step L 20 (Cert.Spec.G tbl col) 79 (k0_off81 L 384#32) (k0_off81_eq L 3) (k0_off81_inb L hc 3) (outAt78 I hc) (pay79 I) (payG79 I hc H)
    (inv78 I hc H)
theorem rd80 : (Rn 3 inb_S7x128x128_S1x128x128_3_0_0).view.read (Elt F) (rowsAt85 I) = gp80 I :=
  ((Rn_read_miss 3 1 inb_S7x128x128_S1x128x128_3_0_0 inb_S7x128x128_S1x128x128_1_0_0 (by decide) (rowsAt84 I) (gp85 I)).trans ((Rn_read_miss 3 0 inb_S7x128x128_S1x128x128_3_0_0 inb_S7x128x128_S1x128x128_0_0_0 (by decide) (rowsAt83 I) (gp84 I)).trans ((Rn_read_miss 3 6 inb_S7x128x128_S1x128x128_3_0_0 inb_S7x128x128_S1x128x128_6_0_0 (by decide) (rowsAt82 I) (gp83 I)).trans ((Rn_read_miss 3 5 inb_S7x128x128_S1x128x128_3_0_0 inb_S7x128x128_S1x128x128_5_0_0 (by decide) (rowsAt81 I) (gp82 I)).trans ((Rn_read_miss 3 4 inb_S7x128x128_S1x128x128_3_0_0 inb_S7x128x128_S1x128x128_4_0_0 (by decide) (rowsAt80 I) (gp81 I)).trans (Rn_read_hit 3 inb_S7x128x128_S1x128x128_3_0_0 (rowsAt79 I) (gp80 I)))))))
theorem payG80 (H : Hyp I tbl col pay) : ∀ y, pay80 I y = Cert.Spec.G tbl col ((Rect.unit (s := S16384x3328) (k0_off82 L 384#32) S128x128.size (k0_off82_inb L hc 3)).emb y) :=
  Step.item_payload tbl col H.hr L pay H.hpay I.fi H.hfi 22 3 inb_S26x4x128_S1x1x128_22_3_0 squeezes_S1x1x128_S128
    _ ((Step.read_full (View.whole main_arg48_scv) inb_S1000x128_S1000x128_0_0 I.ft22).trans H.ht22.symm)
    rfl (I.hin 22 3 inb_S26x4x128_S1x1x128_22_3_0 squeezes_S1x1x128_S128) (k0_off82 L 384#32) (k0_off82_eq L 3) (k0_off82_inb L hc 3) (pay80 I) (rd80 I)
theorem inv80 (H : Hyp I tbl col pay) : ∀ j' < 81, ∀ i ∈ Step.blkSet L 20 j', outAt80 I hc i = Cert.Spec.G tbl col i :=
  Step.out_step L 20 (Cert.Spec.G tbl col) 80 (k0_off82 L 384#32) (k0_off82_eq L 3) (k0_off82_inb L hc 3) (outAt79 I hc) (pay80 I) (payG80 I hc H)
    (inv79 I hc H)
theorem rd81 : (Rn 4 inb_S7x128x128_S1x128x128_4_0_0).view.read (Elt F) (rowsAt86 I) = gp81 I :=
  ((Rn_read_miss 4 2 inb_S7x128x128_S1x128x128_4_0_0 inb_S7x128x128_S1x128x128_2_0_0 (by decide) (rowsAt85 I) (gp86 I)).trans ((Rn_read_miss 4 1 inb_S7x128x128_S1x128x128_4_0_0 inb_S7x128x128_S1x128x128_1_0_0 (by decide) (rowsAt84 I) (gp85 I)).trans ((Rn_read_miss 4 0 inb_S7x128x128_S1x128x128_4_0_0 inb_S7x128x128_S1x128x128_0_0_0 (by decide) (rowsAt83 I) (gp84 I)).trans ((Rn_read_miss 4 6 inb_S7x128x128_S1x128x128_4_0_0 inb_S7x128x128_S1x128x128_6_0_0 (by decide) (rowsAt82 I) (gp83 I)).trans ((Rn_read_miss 4 5 inb_S7x128x128_S1x128x128_4_0_0 inb_S7x128x128_S1x128x128_5_0_0 (by decide) (rowsAt81 I) (gp82 I)).trans (Rn_read_hit 4 inb_S7x128x128_S1x128x128_4_0_0 (rowsAt80 I) (gp81 I)))))))
theorem payG81 (H : Hyp I tbl col pay) : ∀ y, pay81 I y = Cert.Spec.G tbl col ((Rect.unit (s := S16384x3328) (k0_off83 L 384#32) S128x128.size (k0_off83_inb L hc 3)).emb y) :=
  Step.item_payload tbl col H.hr L pay H.hpay I.fi H.hfi 23 3 inb_S26x4x128_S1x1x128_23_3_0 squeezes_S1x1x128_S128
    _ ((Step.read_full (View.whole main_arg49_scv) inb_S1000x128_S1000x128_0_0 I.ft23).trans H.ht23.symm)
    rfl (I.hin 23 3 inb_S26x4x128_S1x1x128_23_3_0 squeezes_S1x1x128_S128) (k0_off83 L 384#32) (k0_off83_eq L 3) (k0_off83_inb L hc 3) (pay81 I) (rd81 I)
theorem inv81 (H : Hyp I tbl col pay) : ∀ j' < 82, ∀ i ∈ Step.blkSet L 20 j', outAt81 I hc i = Cert.Spec.G tbl col i :=
  Step.out_step L 20 (Cert.Spec.G tbl col) 81 (k0_off83 L 384#32) (k0_off83_eq L 3) (k0_off83_inb L hc 3) (outAt80 I hc) (pay81 I) (payG81 I hc H)
    (inv80 I hc H)
theorem rd82 : (Rn 5 inb_S7x128x128_S1x128x128_5_0_0).view.read (Elt F) (rowsAt87 I) = gp82 I :=
  ((Rn_read_miss 5 3 inb_S7x128x128_S1x128x128_5_0_0 inb_S7x128x128_S1x128x128_3_0_0 (by decide) (rowsAt86 I) (gp87 I)).trans ((Rn_read_miss 5 2 inb_S7x128x128_S1x128x128_5_0_0 inb_S7x128x128_S1x128x128_2_0_0 (by decide) (rowsAt85 I) (gp86 I)).trans ((Rn_read_miss 5 1 inb_S7x128x128_S1x128x128_5_0_0 inb_S7x128x128_S1x128x128_1_0_0 (by decide) (rowsAt84 I) (gp85 I)).trans ((Rn_read_miss 5 0 inb_S7x128x128_S1x128x128_5_0_0 inb_S7x128x128_S1x128x128_0_0_0 (by decide) (rowsAt83 I) (gp84 I)).trans ((Rn_read_miss 5 6 inb_S7x128x128_S1x128x128_5_0_0 inb_S7x128x128_S1x128x128_6_0_0 (by decide) (rowsAt82 I) (gp83 I)).trans (Rn_read_hit 5 inb_S7x128x128_S1x128x128_5_0_0 (rowsAt81 I) (gp82 I)))))))
theorem payG82 (H : Hyp I tbl col pay) : ∀ y, pay82 I y = Cert.Spec.G tbl col ((Rect.unit (s := S16384x3328) (k0_off84 L 384#32) S128x128.size (k0_off84_inb L hc 3)).emb y) :=
  Step.item_payload tbl col H.hr L pay H.hpay I.fi H.hfi 24 3 inb_S26x4x128_S1x1x128_24_3_0 squeezes_S1x1x128_S128
    _ ((Step.read_full (View.whole main_arg50_scv) inb_S1000x128_S1000x128_0_0 I.ft24).trans H.ht24.symm)
    rfl (I.hin 24 3 inb_S26x4x128_S1x1x128_24_3_0 squeezes_S1x1x128_S128) (k0_off84 L 384#32) (k0_off84_eq L 3) (k0_off84_inb L hc 3) (pay82 I) (rd82 I)
theorem inv82 (H : Hyp I tbl col pay) : ∀ j' < 83, ∀ i ∈ Step.blkSet L 20 j', outAt82 I hc i = Cert.Spec.G tbl col i :=
  Step.out_step L 20 (Cert.Spec.G tbl col) 82 (k0_off84 L 384#32) (k0_off84_eq L 3) (k0_off84_inb L hc 3) (outAt81 I hc) (pay82 I) (payG82 I hc H)
    (inv81 I hc H)
theorem rd83 : (Rn 6 inb_S7x128x128_S1x128x128_6_0_0).view.read (Elt F) (rowsAt88 I) = gp83 I :=
  ((Rn_read_miss 6 4 inb_S7x128x128_S1x128x128_6_0_0 inb_S7x128x128_S1x128x128_4_0_0 (by decide) (rowsAt87 I) (gp88 I)).trans ((Rn_read_miss 6 3 inb_S7x128x128_S1x128x128_6_0_0 inb_S7x128x128_S1x128x128_3_0_0 (by decide) (rowsAt86 I) (gp87 I)).trans ((Rn_read_miss 6 2 inb_S7x128x128_S1x128x128_6_0_0 inb_S7x128x128_S1x128x128_2_0_0 (by decide) (rowsAt85 I) (gp86 I)).trans ((Rn_read_miss 6 1 inb_S7x128x128_S1x128x128_6_0_0 inb_S7x128x128_S1x128x128_1_0_0 (by decide) (rowsAt84 I) (gp85 I)).trans ((Rn_read_miss 6 0 inb_S7x128x128_S1x128x128_6_0_0 inb_S7x128x128_S1x128x128_0_0_0 (by decide) (rowsAt83 I) (gp84 I)).trans (Rn_read_hit 6 inb_S7x128x128_S1x128x128_6_0_0 (rowsAt82 I) (gp83 I)))))))
theorem payG83 (H : Hyp I tbl col pay) : ∀ y, pay83 I y = Cert.Spec.G tbl col ((Rect.unit (s := S16384x3328) (k0_off85 L 384#32) S128x128.size (k0_off85_inb L hc 3)).emb y) :=
  Step.item_payload tbl col H.hr L pay H.hpay I.fi H.hfi 25 3 inb_S26x4x128_S1x1x128_25_3_0 squeezes_S1x1x128_S128
    _ ((Step.read_full (View.whole main_arg51_scv) inb_S1000x128_S1000x128_0_0 I.ft25).trans H.ht25.symm)
    rfl (I.hin 25 3 inb_S26x4x128_S1x1x128_25_3_0 squeezes_S1x1x128_S128) (k0_off85 L 384#32) (k0_off85_eq L 3) (k0_off85_inb L hc 3) (pay83 I) (rd83 I)
theorem inv83 (H : Hyp I tbl col pay) : ∀ j' < 84, ∀ i ∈ Step.blkSet L 20 j', outAt83 I hc i = Cert.Spec.G tbl col i :=
  Step.out_step L 20 (Cert.Spec.G tbl col) 83 (k0_off85 L 384#32) (k0_off85_eq L 3) (k0_off85_inb L hc 3) (outAt82 I hc) (pay83 I) (payG83 I hc H)
    (inv82 I hc H)
theorem rd84 : (Rn 0 inb_S7x128x128_S1x128x128_0_0_0).view.read (Elt F) (rowsAt89 I) = gp84 I :=
  ((Rn_read_miss 0 5 inb_S7x128x128_S1x128x128_0_0_0 inb_S7x128x128_S1x128x128_5_0_0 (by decide) (rowsAt88 I) (gp89 I)).trans ((Rn_read_miss 0 4 inb_S7x128x128_S1x128x128_0_0_0 inb_S7x128x128_S1x128x128_4_0_0 (by decide) (rowsAt87 I) (gp88 I)).trans ((Rn_read_miss 0 3 inb_S7x128x128_S1x128x128_0_0_0 inb_S7x128x128_S1x128x128_3_0_0 (by decide) (rowsAt86 I) (gp87 I)).trans ((Rn_read_miss 0 2 inb_S7x128x128_S1x128x128_0_0_0 inb_S7x128x128_S1x128x128_2_0_0 (by decide) (rowsAt85 I) (gp86 I)).trans ((Rn_read_miss 0 1 inb_S7x128x128_S1x128x128_0_0_0 inb_S7x128x128_S1x128x128_1_0_0 (by decide) (rowsAt84 I) (gp85 I)).trans (Rn_read_hit 0 inb_S7x128x128_S1x128x128_0_0_0 (rowsAt83 I) (gp84 I)))))))
theorem payG84 (H : Hyp I tbl col pay) : ∀ y, pay84 I y = Cert.Spec.G tbl col ((Rect.unit (s := S16384x3328) (k0_off86 L 384#32) S128x128.size (k0_off86_inb L hc 3)).emb y) :=
  Step.item_payload tbl col H.hr L pay H.hpay I.fi H.hfi 0 3 inb_S26x4x128_S1x1x128_0_3_0 squeezes_S1x1x128_S128
    _ ((Step.read_full (View.whole main_arg26_scv) inb_S1000x128_S1000x128_0_0 I.ft0).trans H.ht0.symm)
    rfl (I.hin 0 3 inb_S26x4x128_S1x1x128_0_3_0 squeezes_S1x1x128_S128) (k0_off86 L 384#32) (k0_off86_eq L 3) (k0_off86_inb L hc 3) (pay84 I) (rd84 I)
theorem inv84 (H : Hyp I tbl col pay) : ∀ j' < 85, ∀ i ∈ Step.blkSet L 20 j', outAt84 I hc i = Cert.Spec.G tbl col i :=
  Step.out_step L 20 (Cert.Spec.G tbl col) 84 (k0_off86 L 384#32) (k0_off86_eq L 3) (k0_off86_inb L hc 3) (outAt83 I hc) (pay84 I) (payG84 I hc H)
    (inv83 I hc H)
theorem rd85 : (Rn 1 inb_S7x128x128_S1x128x128_1_0_0).view.read (Elt F) (rowsAt90 I) = gp85 I :=
  ((Rn_read_miss 1 6 inb_S7x128x128_S1x128x128_1_0_0 inb_S7x128x128_S1x128x128_6_0_0 (by decide) (rowsAt89 I) (gp90 I)).trans ((Rn_read_miss 1 5 inb_S7x128x128_S1x128x128_1_0_0 inb_S7x128x128_S1x128x128_5_0_0 (by decide) (rowsAt88 I) (gp89 I)).trans ((Rn_read_miss 1 4 inb_S7x128x128_S1x128x128_1_0_0 inb_S7x128x128_S1x128x128_4_0_0 (by decide) (rowsAt87 I) (gp88 I)).trans ((Rn_read_miss 1 3 inb_S7x128x128_S1x128x128_1_0_0 inb_S7x128x128_S1x128x128_3_0_0 (by decide) (rowsAt86 I) (gp87 I)).trans ((Rn_read_miss 1 2 inb_S7x128x128_S1x128x128_1_0_0 inb_S7x128x128_S1x128x128_2_0_0 (by decide) (rowsAt85 I) (gp86 I)).trans (Rn_read_hit 1 inb_S7x128x128_S1x128x128_1_0_0 (rowsAt84 I) (gp85 I)))))))
theorem payG85 (H : Hyp I tbl col pay) : ∀ y, pay85 I y = Cert.Spec.G tbl col ((Rect.unit (s := S16384x3328) (k0_off87 L 384#32) S128x128.size (k0_off87_inb L hc 3)).emb y) :=
  Step.item_payload tbl col H.hr L pay H.hpay I.fi H.hfi 1 3 inb_S26x4x128_S1x1x128_1_3_0 squeezes_S1x1x128_S128
    _ ((Step.read_full (View.whole main_arg27_scv) inb_S1000x128_S1000x128_0_0 I.ft1).trans H.ht1.symm)
    rfl (I.hin 1 3 inb_S26x4x128_S1x1x128_1_3_0 squeezes_S1x1x128_S128) (k0_off87 L 384#32) (k0_off87_eq L 3) (k0_off87_inb L hc 3) (pay85 I) (rd85 I)
theorem inv85 (H : Hyp I tbl col pay) : ∀ j' < 86, ∀ i ∈ Step.blkSet L 20 j', outAt85 I hc i = Cert.Spec.G tbl col i :=
  Step.out_step L 20 (Cert.Spec.G tbl col) 85 (k0_off87 L 384#32) (k0_off87_eq L 3) (k0_off87_inb L hc 3) (outAt84 I hc) (pay85 I) (payG85 I hc H)
    (inv84 I hc H)
theorem rd86 : (Rn 2 inb_S7x128x128_S1x128x128_2_0_0).view.read (Elt F) (rowsAt91 I) = gp86 I :=
  ((Rn_read_miss 2 0 inb_S7x128x128_S1x128x128_2_0_0 inb_S7x128x128_S1x128x128_0_0_0 (by decide) (rowsAt90 I) (gp91 I)).trans ((Rn_read_miss 2 6 inb_S7x128x128_S1x128x128_2_0_0 inb_S7x128x128_S1x128x128_6_0_0 (by decide) (rowsAt89 I) (gp90 I)).trans ((Rn_read_miss 2 5 inb_S7x128x128_S1x128x128_2_0_0 inb_S7x128x128_S1x128x128_5_0_0 (by decide) (rowsAt88 I) (gp89 I)).trans ((Rn_read_miss 2 4 inb_S7x128x128_S1x128x128_2_0_0 inb_S7x128x128_S1x128x128_4_0_0 (by decide) (rowsAt87 I) (gp88 I)).trans ((Rn_read_miss 2 3 inb_S7x128x128_S1x128x128_2_0_0 inb_S7x128x128_S1x128x128_3_0_0 (by decide) (rowsAt86 I) (gp87 I)).trans (Rn_read_hit 2 inb_S7x128x128_S1x128x128_2_0_0 (rowsAt85 I) (gp86 I)))))))
theorem payG86 (H : Hyp I tbl col pay) : ∀ y, pay86 I y = Cert.Spec.G tbl col ((Rect.unit (s := S16384x3328) (k0_off88 L 384#32) S128x128.size (k0_off88_inb L hc 3)).emb y) :=
  Step.item_payload tbl col H.hr L pay H.hpay I.fi H.hfi 2 3 inb_S26x4x128_S1x1x128_2_3_0 squeezes_S1x1x128_S128
    _ ((Step.read_full (View.whole main_arg28_scv) inb_S1000x128_S1000x128_0_0 I.ft2).trans H.ht2.symm)
    rfl (I.hin 2 3 inb_S26x4x128_S1x1x128_2_3_0 squeezes_S1x1x128_S128) (k0_off88 L 384#32) (k0_off88_eq L 3) (k0_off88_inb L hc 3) (pay86 I) (rd86 I)
theorem inv86 (H : Hyp I tbl col pay) : ∀ j' < 87, ∀ i ∈ Step.blkSet L 20 j', outAt86 I hc i = Cert.Spec.G tbl col i :=
  Step.out_step L 20 (Cert.Spec.G tbl col) 86 (k0_off88 L 384#32) (k0_off88_eq L 3) (k0_off88_inb L hc 3) (outAt85 I hc) (pay86 I) (payG86 I hc H)
    (inv85 I hc H)
theorem rd87 : (Rn 3 inb_S7x128x128_S1x128x128_3_0_0).view.read (Elt F) (rowsAt92 I) = gp87 I :=
  ((Rn_read_miss 3 1 inb_S7x128x128_S1x128x128_3_0_0 inb_S7x128x128_S1x128x128_1_0_0 (by decide) (rowsAt91 I) (gp92 I)).trans ((Rn_read_miss 3 0 inb_S7x128x128_S1x128x128_3_0_0 inb_S7x128x128_S1x128x128_0_0_0 (by decide) (rowsAt90 I) (gp91 I)).trans ((Rn_read_miss 3 6 inb_S7x128x128_S1x128x128_3_0_0 inb_S7x128x128_S1x128x128_6_0_0 (by decide) (rowsAt89 I) (gp90 I)).trans ((Rn_read_miss 3 5 inb_S7x128x128_S1x128x128_3_0_0 inb_S7x128x128_S1x128x128_5_0_0 (by decide) (rowsAt88 I) (gp89 I)).trans ((Rn_read_miss 3 4 inb_S7x128x128_S1x128x128_3_0_0 inb_S7x128x128_S1x128x128_4_0_0 (by decide) (rowsAt87 I) (gp88 I)).trans (Rn_read_hit 3 inb_S7x128x128_S1x128x128_3_0_0 (rowsAt86 I) (gp87 I)))))))
theorem payG87 (H : Hyp I tbl col pay) : ∀ y, pay87 I y = Cert.Spec.G tbl col ((Rect.unit (s := S16384x3328) (k0_off89 L 384#32) S128x128.size (k0_off89_inb L hc 3)).emb y) :=
  Step.item_payload tbl col H.hr L pay H.hpay I.fi H.hfi 3 3 inb_S26x4x128_S1x1x128_3_3_0 squeezes_S1x1x128_S128
    _ ((Step.read_full (View.whole main_arg29_scv) inb_S1000x128_S1000x128_0_0 I.ft3).trans H.ht3.symm)
    rfl (I.hin 3 3 inb_S26x4x128_S1x1x128_3_3_0 squeezes_S1x1x128_S128) (k0_off89 L 384#32) (k0_off89_eq L 3) (k0_off89_inb L hc 3) (pay87 I) (rd87 I)
theorem inv87 (H : Hyp I tbl col pay) : ∀ j' < 88, ∀ i ∈ Step.blkSet L 20 j', outAt87 I hc i = Cert.Spec.G tbl col i :=
  Step.out_step L 20 (Cert.Spec.G tbl col) 87 (k0_off89 L 384#32) (k0_off89_eq L 3) (k0_off89_inb L hc 3) (outAt86 I hc) (pay87 I) (payG87 I hc H)
    (inv86 I hc H)
theorem rd88 : (Rn 4 inb_S7x128x128_S1x128x128_4_0_0).view.read (Elt F) (rowsAt93 I) = gp88 I :=
  ((Rn_read_miss 4 2 inb_S7x128x128_S1x128x128_4_0_0 inb_S7x128x128_S1x128x128_2_0_0 (by decide) (rowsAt92 I) (gp93 I)).trans ((Rn_read_miss 4 1 inb_S7x128x128_S1x128x128_4_0_0 inb_S7x128x128_S1x128x128_1_0_0 (by decide) (rowsAt91 I) (gp92 I)).trans ((Rn_read_miss 4 0 inb_S7x128x128_S1x128x128_4_0_0 inb_S7x128x128_S1x128x128_0_0_0 (by decide) (rowsAt90 I) (gp91 I)).trans ((Rn_read_miss 4 6 inb_S7x128x128_S1x128x128_4_0_0 inb_S7x128x128_S1x128x128_6_0_0 (by decide) (rowsAt89 I) (gp90 I)).trans ((Rn_read_miss 4 5 inb_S7x128x128_S1x128x128_4_0_0 inb_S7x128x128_S1x128x128_5_0_0 (by decide) (rowsAt88 I) (gp89 I)).trans (Rn_read_hit 4 inb_S7x128x128_S1x128x128_4_0_0 (rowsAt87 I) (gp88 I)))))))
theorem payG88 (H : Hyp I tbl col pay) : ∀ y, pay88 I y = Cert.Spec.G tbl col ((Rect.unit (s := S16384x3328) (k0_off90 L 384#32) S128x128.size (k0_off90_inb L hc 3)).emb y) :=
  Step.item_payload tbl col H.hr L pay H.hpay I.fi H.hfi 4 3 inb_S26x4x128_S1x1x128_4_3_0 squeezes_S1x1x128_S128
    _ ((Step.read_full (View.whole main_arg30_scv) inb_S1000x128_S1000x128_0_0 I.ft4).trans H.ht4.symm)
    rfl (I.hin 4 3 inb_S26x4x128_S1x1x128_4_3_0 squeezes_S1x1x128_S128) (k0_off90 L 384#32) (k0_off90_eq L 3) (k0_off90_inb L hc 3) (pay88 I) (rd88 I)
theorem inv88 (H : Hyp I tbl col pay) : ∀ j' < 89, ∀ i ∈ Step.blkSet L 20 j', outAt88 I hc i = Cert.Spec.G tbl col i :=
  Step.out_step L 20 (Cert.Spec.G tbl col) 88 (k0_off90 L 384#32) (k0_off90_eq L 3) (k0_off90_inb L hc 3) (outAt87 I hc) (pay88 I) (payG88 I hc H)
    (inv87 I hc H)
theorem rd89 : (Rn 5 inb_S7x128x128_S1x128x128_5_0_0).view.read (Elt F) (rowsAt94 I) = gp89 I :=
  ((Rn_read_miss 5 3 inb_S7x128x128_S1x128x128_5_0_0 inb_S7x128x128_S1x128x128_3_0_0 (by decide) (rowsAt93 I) (gp94 I)).trans ((Rn_read_miss 5 2 inb_S7x128x128_S1x128x128_5_0_0 inb_S7x128x128_S1x128x128_2_0_0 (by decide) (rowsAt92 I) (gp93 I)).trans ((Rn_read_miss 5 1 inb_S7x128x128_S1x128x128_5_0_0 inb_S7x128x128_S1x128x128_1_0_0 (by decide) (rowsAt91 I) (gp92 I)).trans ((Rn_read_miss 5 0 inb_S7x128x128_S1x128x128_5_0_0 inb_S7x128x128_S1x128x128_0_0_0 (by decide) (rowsAt90 I) (gp91 I)).trans ((Rn_read_miss 5 6 inb_S7x128x128_S1x128x128_5_0_0 inb_S7x128x128_S1x128x128_6_0_0 (by decide) (rowsAt89 I) (gp90 I)).trans (Rn_read_hit 5 inb_S7x128x128_S1x128x128_5_0_0 (rowsAt88 I) (gp89 I)))))))
theorem payG89 (H : Hyp I tbl col pay) : ∀ y, pay89 I y = Cert.Spec.G tbl col ((Rect.unit (s := S16384x3328) (k0_off91 L 384#32) S128x128.size (k0_off91_inb L hc 3)).emb y) :=
  Step.item_payload tbl col H.hr L pay H.hpay I.fi H.hfi 5 3 inb_S26x4x128_S1x1x128_5_3_0 squeezes_S1x1x128_S128
    _ ((Step.read_full (View.whole main_arg31_scv) inb_S1000x128_S1000x128_0_0 I.ft5).trans H.ht5.symm)
    rfl (I.hin 5 3 inb_S26x4x128_S1x1x128_5_3_0 squeezes_S1x1x128_S128) (k0_off91 L 384#32) (k0_off91_eq L 3) (k0_off91_inb L hc 3) (pay89 I) (rd89 I)
theorem inv89 (H : Hyp I tbl col pay) : ∀ j' < 90, ∀ i ∈ Step.blkSet L 20 j', outAt89 I hc i = Cert.Spec.G tbl col i :=
  Step.out_step L 20 (Cert.Spec.G tbl col) 89 (k0_off91 L 384#32) (k0_off91_eq L 3) (k0_off91_inb L hc 3) (outAt88 I hc) (pay89 I) (payG89 I hc H)
    (inv88 I hc H)
theorem rd90 : (Rn 6 inb_S7x128x128_S1x128x128_6_0_0).view.read (Elt F) (rowsAt95 I) = gp90 I :=
  ((Rn_read_miss 6 4 inb_S7x128x128_S1x128x128_6_0_0 inb_S7x128x128_S1x128x128_4_0_0 (by decide) (rowsAt94 I) (gp95 I)).trans ((Rn_read_miss 6 3 inb_S7x128x128_S1x128x128_6_0_0 inb_S7x128x128_S1x128x128_3_0_0 (by decide) (rowsAt93 I) (gp94 I)).trans ((Rn_read_miss 6 2 inb_S7x128x128_S1x128x128_6_0_0 inb_S7x128x128_S1x128x128_2_0_0 (by decide) (rowsAt92 I) (gp93 I)).trans ((Rn_read_miss 6 1 inb_S7x128x128_S1x128x128_6_0_0 inb_S7x128x128_S1x128x128_1_0_0 (by decide) (rowsAt91 I) (gp92 I)).trans ((Rn_read_miss 6 0 inb_S7x128x128_S1x128x128_6_0_0 inb_S7x128x128_S1x128x128_0_0_0 (by decide) (rowsAt90 I) (gp91 I)).trans (Rn_read_hit 6 inb_S7x128x128_S1x128x128_6_0_0 (rowsAt89 I) (gp90 I)))))))
theorem payG90 (H : Hyp I tbl col pay) : ∀ y, pay90 I y = Cert.Spec.G tbl col ((Rect.unit (s := S16384x3328) (k0_off92 L 384#32) S128x128.size (k0_off92_inb L hc 3)).emb y) :=
  Step.item_payload tbl col H.hr L pay H.hpay I.fi H.hfi 6 3 inb_S26x4x128_S1x1x128_6_3_0 squeezes_S1x1x128_S128
    _ ((Step.read_full (View.whole main_arg32_scv) inb_S1000x128_S1000x128_0_0 I.ft6).trans H.ht6.symm)
    rfl (I.hin 6 3 inb_S26x4x128_S1x1x128_6_3_0 squeezes_S1x1x128_S128) (k0_off92 L 384#32) (k0_off92_eq L 3) (k0_off92_inb L hc 3) (pay90 I) (rd90 I)
theorem inv90 (H : Hyp I tbl col pay) : ∀ j' < 91, ∀ i ∈ Step.blkSet L 20 j', outAt90 I hc i = Cert.Spec.G tbl col i :=
  Step.out_step L 20 (Cert.Spec.G tbl col) 90 (k0_off92 L 384#32) (k0_off92_eq L 3) (k0_off92_inb L hc 3) (outAt89 I hc) (pay90 I) (payG90 I hc H)
    (inv89 I hc H)
theorem rd91 : (Rn 0 inb_S7x128x128_S1x128x128_0_0_0).view.read (Elt F) (rowsAt96 I) = gp91 I :=
  ((Rn_read_miss 0 5 inb_S7x128x128_S1x128x128_0_0_0 inb_S7x128x128_S1x128x128_5_0_0 (by decide) (rowsAt95 I) (gp96 I)).trans ((Rn_read_miss 0 4 inb_S7x128x128_S1x128x128_0_0_0 inb_S7x128x128_S1x128x128_4_0_0 (by decide) (rowsAt94 I) (gp95 I)).trans ((Rn_read_miss 0 3 inb_S7x128x128_S1x128x128_0_0_0 inb_S7x128x128_S1x128x128_3_0_0 (by decide) (rowsAt93 I) (gp94 I)).trans ((Rn_read_miss 0 2 inb_S7x128x128_S1x128x128_0_0_0 inb_S7x128x128_S1x128x128_2_0_0 (by decide) (rowsAt92 I) (gp93 I)).trans ((Rn_read_miss 0 1 inb_S7x128x128_S1x128x128_0_0_0 inb_S7x128x128_S1x128x128_1_0_0 (by decide) (rowsAt91 I) (gp92 I)).trans (Rn_read_hit 0 inb_S7x128x128_S1x128x128_0_0_0 (rowsAt90 I) (gp91 I)))))))
theorem payG91 (H : Hyp I tbl col pay) : ∀ y, pay91 I y = Cert.Spec.G tbl col ((Rect.unit (s := S16384x3328) (k0_off93 L 384#32) S128x128.size (k0_off93_inb L hc 3)).emb y) :=
  Step.item_payload tbl col H.hr L pay H.hpay I.fi H.hfi 7 3 inb_S26x4x128_S1x1x128_7_3_0 squeezes_S1x1x128_S128
    _ ((Step.read_full (View.whole main_arg33_scv) inb_S1000x128_S1000x128_0_0 I.ft7).trans H.ht7.symm)
    rfl (I.hin 7 3 inb_S26x4x128_S1x1x128_7_3_0 squeezes_S1x1x128_S128) (k0_off93 L 384#32) (k0_off93_eq L 3) (k0_off93_inb L hc 3) (pay91 I) (rd91 I)
theorem inv91 (H : Hyp I tbl col pay) : ∀ j' < 92, ∀ i ∈ Step.blkSet L 20 j', outAt91 I hc i = Cert.Spec.G tbl col i :=
  Step.out_step L 20 (Cert.Spec.G tbl col) 91 (k0_off93 L 384#32) (k0_off93_eq L 3) (k0_off93_inb L hc 3) (outAt90 I hc) (pay91 I) (payG91 I hc H)
    (inv90 I hc H)
theorem rd92 : (Rn 1 inb_S7x128x128_S1x128x128_1_0_0).view.read (Elt F) (rowsAt97 I) = gp92 I :=
  ((Rn_read_miss 1 6 inb_S7x128x128_S1x128x128_1_0_0 inb_S7x128x128_S1x128x128_6_0_0 (by decide) (rowsAt96 I) (gp97 I)).trans ((Rn_read_miss 1 5 inb_S7x128x128_S1x128x128_1_0_0 inb_S7x128x128_S1x128x128_5_0_0 (by decide) (rowsAt95 I) (gp96 I)).trans ((Rn_read_miss 1 4 inb_S7x128x128_S1x128x128_1_0_0 inb_S7x128x128_S1x128x128_4_0_0 (by decide) (rowsAt94 I) (gp95 I)).trans ((Rn_read_miss 1 3 inb_S7x128x128_S1x128x128_1_0_0 inb_S7x128x128_S1x128x128_3_0_0 (by decide) (rowsAt93 I) (gp94 I)).trans ((Rn_read_miss 1 2 inb_S7x128x128_S1x128x128_1_0_0 inb_S7x128x128_S1x128x128_2_0_0 (by decide) (rowsAt92 I) (gp93 I)).trans (Rn_read_hit 1 inb_S7x128x128_S1x128x128_1_0_0 (rowsAt91 I) (gp92 I)))))))
theorem payG92 (H : Hyp I tbl col pay) : ∀ y, pay92 I y = Cert.Spec.G tbl col ((Rect.unit (s := S16384x3328) (k0_off94 L 384#32) S128x128.size (k0_off94_inb L hc 3)).emb y) :=
  Step.item_payload tbl col H.hr L pay H.hpay I.fi H.hfi 8 3 inb_S26x4x128_S1x1x128_8_3_0 squeezes_S1x1x128_S128
    _ ((Step.read_full (View.whole main_arg34_scv) inb_S1000x128_S1000x128_0_0 I.ft8).trans H.ht8.symm)
    rfl (I.hin 8 3 inb_S26x4x128_S1x1x128_8_3_0 squeezes_S1x1x128_S128) (k0_off94 L 384#32) (k0_off94_eq L 3) (k0_off94_inb L hc 3) (pay92 I) (rd92 I)
theorem inv92 (H : Hyp I tbl col pay) : ∀ j' < 93, ∀ i ∈ Step.blkSet L 20 j', outAt92 I hc i = Cert.Spec.G tbl col i :=
  Step.out_step L 20 (Cert.Spec.G tbl col) 92 (k0_off94 L 384#32) (k0_off94_eq L 3) (k0_off94_inb L hc 3) (outAt91 I hc) (pay92 I) (payG92 I hc H)
    (inv91 I hc H)
theorem rd93 : (Rn 2 inb_S7x128x128_S1x128x128_2_0_0).view.read (Elt F) (rowsAt98 I) = gp93 I :=
  ((Rn_read_miss 2 0 inb_S7x128x128_S1x128x128_2_0_0 inb_S7x128x128_S1x128x128_0_0_0 (by decide) (rowsAt97 I) (gp98 I)).trans ((Rn_read_miss 2 6 inb_S7x128x128_S1x128x128_2_0_0 inb_S7x128x128_S1x128x128_6_0_0 (by decide) (rowsAt96 I) (gp97 I)).trans ((Rn_read_miss 2 5 inb_S7x128x128_S1x128x128_2_0_0 inb_S7x128x128_S1x128x128_5_0_0 (by decide) (rowsAt95 I) (gp96 I)).trans ((Rn_read_miss 2 4 inb_S7x128x128_S1x128x128_2_0_0 inb_S7x128x128_S1x128x128_4_0_0 (by decide) (rowsAt94 I) (gp95 I)).trans ((Rn_read_miss 2 3 inb_S7x128x128_S1x128x128_2_0_0 inb_S7x128x128_S1x128x128_3_0_0 (by decide) (rowsAt93 I) (gp94 I)).trans (Rn_read_hit 2 inb_S7x128x128_S1x128x128_2_0_0 (rowsAt92 I) (gp93 I)))))))
theorem payG93 (H : Hyp I tbl col pay) : ∀ y, pay93 I y = Cert.Spec.G tbl col ((Rect.unit (s := S16384x3328) (k0_off95 L 384#32) S128x128.size (k0_off95_inb L hc 3)).emb y) :=
  Step.item_payload tbl col H.hr L pay H.hpay I.fi H.hfi 9 3 inb_S26x4x128_S1x1x128_9_3_0 squeezes_S1x1x128_S128
    _ ((Step.read_full (View.whole main_arg35_scv) inb_S1000x128_S1000x128_0_0 I.ft9).trans H.ht9.symm)
    rfl (I.hin 9 3 inb_S26x4x128_S1x1x128_9_3_0 squeezes_S1x1x128_S128) (k0_off95 L 384#32) (k0_off95_eq L 3) (k0_off95_inb L hc 3) (pay93 I) (rd93 I)
theorem inv93 (H : Hyp I tbl col pay) : ∀ j' < 94, ∀ i ∈ Step.blkSet L 20 j', outAt93 I hc i = Cert.Spec.G tbl col i :=
  Step.out_step L 20 (Cert.Spec.G tbl col) 93 (k0_off95 L 384#32) (k0_off95_eq L 3) (k0_off95_inb L hc 3) (outAt92 I hc) (pay93 I) (payG93 I hc H)
    (inv92 I hc H)
theorem rd94 : (Rn 3 inb_S7x128x128_S1x128x128_3_0_0).view.read (Elt F) (rowsAt99 I) = gp94 I :=
  ((Rn_read_miss 3 1 inb_S7x128x128_S1x128x128_3_0_0 inb_S7x128x128_S1x128x128_1_0_0 (by decide) (rowsAt98 I) (gp99 I)).trans ((Rn_read_miss 3 0 inb_S7x128x128_S1x128x128_3_0_0 inb_S7x128x128_S1x128x128_0_0_0 (by decide) (rowsAt97 I) (gp98 I)).trans ((Rn_read_miss 3 6 inb_S7x128x128_S1x128x128_3_0_0 inb_S7x128x128_S1x128x128_6_0_0 (by decide) (rowsAt96 I) (gp97 I)).trans ((Rn_read_miss 3 5 inb_S7x128x128_S1x128x128_3_0_0 inb_S7x128x128_S1x128x128_5_0_0 (by decide) (rowsAt95 I) (gp96 I)).trans ((Rn_read_miss 3 4 inb_S7x128x128_S1x128x128_3_0_0 inb_S7x128x128_S1x128x128_4_0_0 (by decide) (rowsAt94 I) (gp95 I)).trans (Rn_read_hit 3 inb_S7x128x128_S1x128x128_3_0_0 (rowsAt93 I) (gp94 I)))))))
theorem payG94 (H : Hyp I tbl col pay) : ∀ y, pay94 I y = Cert.Spec.G tbl col ((Rect.unit (s := S16384x3328) (k0_off96 L 384#32) S128x128.size (k0_off96_inb L hc 3)).emb y) :=
  Step.item_payload tbl col H.hr L pay H.hpay I.fi H.hfi 10 3 inb_S26x4x128_S1x1x128_10_3_0 squeezes_S1x1x128_S128
    _ ((Step.read_full (View.whole main_arg36_scv) inb_S1000x128_S1000x128_0_0 I.ft10).trans H.ht10.symm)
    rfl (I.hin 10 3 inb_S26x4x128_S1x1x128_10_3_0 squeezes_S1x1x128_S128) (k0_off96 L 384#32) (k0_off96_eq L 3) (k0_off96_inb L hc 3) (pay94 I) (rd94 I)
theorem inv94 (H : Hyp I tbl col pay) : ∀ j' < 95, ∀ i ∈ Step.blkSet L 20 j', outAt94 I hc i = Cert.Spec.G tbl col i :=
  Step.out_step L 20 (Cert.Spec.G tbl col) 94 (k0_off96 L 384#32) (k0_off96_eq L 3) (k0_off96_inb L hc 3) (outAt93 I hc) (pay94 I) (payG94 I hc H)
    (inv93 I hc H)
theorem rd95 : (Rn 4 inb_S7x128x128_S1x128x128_4_0_0).view.read (Elt F) (rowsAt100 I) = gp95 I :=
  ((Rn_read_miss 4 2 inb_S7x128x128_S1x128x128_4_0_0 inb_S7x128x128_S1x128x128_2_0_0 (by decide) (rowsAt99 I) (gp100 I)).trans ((Rn_read_miss 4 1 inb_S7x128x128_S1x128x128_4_0_0 inb_S7x128x128_S1x128x128_1_0_0 (by decide) (rowsAt98 I) (gp99 I)).trans ((Rn_read_miss 4 0 inb_S7x128x128_S1x128x128_4_0_0 inb_S7x128x128_S1x128x128_0_0_0 (by decide) (rowsAt97 I) (gp98 I)).trans ((Rn_read_miss 4 6 inb_S7x128x128_S1x128x128_4_0_0 inb_S7x128x128_S1x128x128_6_0_0 (by decide) (rowsAt96 I) (gp97 I)).trans ((Rn_read_miss 4 5 inb_S7x128x128_S1x128x128_4_0_0 inb_S7x128x128_S1x128x128_5_0_0 (by decide) (rowsAt95 I) (gp96 I)).trans (Rn_read_hit 4 inb_S7x128x128_S1x128x128_4_0_0 (rowsAt94 I) (gp95 I)))))))
theorem payG95 (H : Hyp I tbl col pay) : ∀ y, pay95 I y = Cert.Spec.G tbl col ((Rect.unit (s := S16384x3328) (k0_off97 L 384#32) S128x128.size (k0_off97_inb L hc 3)).emb y) :=
  Step.item_payload tbl col H.hr L pay H.hpay I.fi H.hfi 11 3 inb_S26x4x128_S1x1x128_11_3_0 squeezes_S1x1x128_S128
    _ ((Step.read_full (View.whole main_arg37_scv) inb_S1000x128_S1000x128_0_0 I.ft11).trans H.ht11.symm)
    rfl (I.hin 11 3 inb_S26x4x128_S1x1x128_11_3_0 squeezes_S1x1x128_S128) (k0_off97 L 384#32) (k0_off97_eq L 3) (k0_off97_inb L hc 3) (pay95 I) (rd95 I)
theorem inv95 (H : Hyp I tbl col pay) : ∀ j' < 96, ∀ i ∈ Step.blkSet L 20 j', outAt95 I hc i = Cert.Spec.G tbl col i :=
  Step.out_step L 20 (Cert.Spec.G tbl col) 95 (k0_off97 L 384#32) (k0_off97_eq L 3) (k0_off97_inb L hc 3) (outAt94 I hc) (pay95 I) (payG95 I hc H)
    (inv94 I hc H)
theorem rd96 : (Rn 5 inb_S7x128x128_S1x128x128_5_0_0).view.read (Elt F) (rowsAt101 I) = gp96 I :=
  ((Rn_read_miss 5 3 inb_S7x128x128_S1x128x128_5_0_0 inb_S7x128x128_S1x128x128_3_0_0 (by decide) (rowsAt100 I) (gp101 I)).trans ((Rn_read_miss 5 2 inb_S7x128x128_S1x128x128_5_0_0 inb_S7x128x128_S1x128x128_2_0_0 (by decide) (rowsAt99 I) (gp100 I)).trans ((Rn_read_miss 5 1 inb_S7x128x128_S1x128x128_5_0_0 inb_S7x128x128_S1x128x128_1_0_0 (by decide) (rowsAt98 I) (gp99 I)).trans ((Rn_read_miss 5 0 inb_S7x128x128_S1x128x128_5_0_0 inb_S7x128x128_S1x128x128_0_0_0 (by decide) (rowsAt97 I) (gp98 I)).trans ((Rn_read_miss 5 6 inb_S7x128x128_S1x128x128_5_0_0 inb_S7x128x128_S1x128x128_6_0_0 (by decide) (rowsAt96 I) (gp97 I)).trans (Rn_read_hit 5 inb_S7x128x128_S1x128x128_5_0_0 (rowsAt95 I) (gp96 I)))))))
theorem payG96 (H : Hyp I tbl col pay) : ∀ y, pay96 I y = Cert.Spec.G tbl col ((Rect.unit (s := S16384x3328) (k0_off98 L 384#32) S128x128.size (k0_off98_inb L hc 3)).emb y) :=
  Step.item_payload tbl col H.hr L pay H.hpay I.fi H.hfi 12 3 inb_S26x4x128_S1x1x128_12_3_0 squeezes_S1x1x128_S128
    _ ((Step.read_full (View.whole main_arg38_scv) inb_S1000x128_S1000x128_0_0 I.ft12).trans H.ht12.symm)
    rfl (I.hin 12 3 inb_S26x4x128_S1x1x128_12_3_0 squeezes_S1x1x128_S128) (k0_off98 L 384#32) (k0_off98_eq L 3) (k0_off98_inb L hc 3) (pay96 I) (rd96 I)
theorem inv96 (H : Hyp I tbl col pay) : ∀ j' < 97, ∀ i ∈ Step.blkSet L 20 j', outAt96 I hc i = Cert.Spec.G tbl col i :=
  Step.out_step L 20 (Cert.Spec.G tbl col) 96 (k0_off98 L 384#32) (k0_off98_eq L 3) (k0_off98_inb L hc 3) (outAt95 I hc) (pay96 I) (payG96 I hc H)
    (inv95 I hc H)
theorem rd97 : (Rn 6 inb_S7x128x128_S1x128x128_6_0_0).view.read (Elt F) (rowsAt102 I) = gp97 I :=
  ((Rn_read_miss 6 4 inb_S7x128x128_S1x128x128_6_0_0 inb_S7x128x128_S1x128x128_4_0_0 (by decide) (rowsAt101 I) (gp102 I)).trans ((Rn_read_miss 6 3 inb_S7x128x128_S1x128x128_6_0_0 inb_S7x128x128_S1x128x128_3_0_0 (by decide) (rowsAt100 I) (gp101 I)).trans ((Rn_read_miss 6 2 inb_S7x128x128_S1x128x128_6_0_0 inb_S7x128x128_S1x128x128_2_0_0 (by decide) (rowsAt99 I) (gp100 I)).trans ((Rn_read_miss 6 1 inb_S7x128x128_S1x128x128_6_0_0 inb_S7x128x128_S1x128x128_1_0_0 (by decide) (rowsAt98 I) (gp99 I)).trans ((Rn_read_miss 6 0 inb_S7x128x128_S1x128x128_6_0_0 inb_S7x128x128_S1x128x128_0_0_0 (by decide) (rowsAt97 I) (gp98 I)).trans (Rn_read_hit 6 inb_S7x128x128_S1x128x128_6_0_0 (rowsAt96 I) (gp97 I)))))))
theorem payG97 (H : Hyp I tbl col pay) : ∀ y, pay97 I y = Cert.Spec.G tbl col ((Rect.unit (s := S16384x3328) (k0_off99 L 384#32) S128x128.size (k0_off99_inb L hc 3)).emb y) :=
  Step.item_payload tbl col H.hr L pay H.hpay I.fi H.hfi 13 3 inb_S26x4x128_S1x1x128_13_3_0 squeezes_S1x1x128_S128
    _ ((Step.read_full (View.whole main_arg39_scv) inb_S1000x128_S1000x128_0_0 I.ft13).trans H.ht13.symm)
    rfl (I.hin 13 3 inb_S26x4x128_S1x1x128_13_3_0 squeezes_S1x1x128_S128) (k0_off99 L 384#32) (k0_off99_eq L 3) (k0_off99_inb L hc 3) (pay97 I) (rd97 I)
theorem inv97 (H : Hyp I tbl col pay) : ∀ j' < 98, ∀ i ∈ Step.blkSet L 20 j', outAt97 I hc i = Cert.Spec.G tbl col i :=
  Step.out_step L 20 (Cert.Spec.G tbl col) 97 (k0_off99 L 384#32) (k0_off99_eq L 3) (k0_off99_inb L hc 3) (outAt96 I hc) (pay97 I) (payG97 I hc H)
    (inv96 I hc H)
theorem rd98 : (Rn 0 inb_S7x128x128_S1x128x128_0_0_0).view.read (Elt F) (rowsAt103 I) = gp98 I :=
  ((Rn_read_miss 0 5 inb_S7x128x128_S1x128x128_0_0_0 inb_S7x128x128_S1x128x128_5_0_0 (by decide) (rowsAt102 I) (gp103 I)).trans ((Rn_read_miss 0 4 inb_S7x128x128_S1x128x128_0_0_0 inb_S7x128x128_S1x128x128_4_0_0 (by decide) (rowsAt101 I) (gp102 I)).trans ((Rn_read_miss 0 3 inb_S7x128x128_S1x128x128_0_0_0 inb_S7x128x128_S1x128x128_3_0_0 (by decide) (rowsAt100 I) (gp101 I)).trans ((Rn_read_miss 0 2 inb_S7x128x128_S1x128x128_0_0_0 inb_S7x128x128_S1x128x128_2_0_0 (by decide) (rowsAt99 I) (gp100 I)).trans ((Rn_read_miss 0 1 inb_S7x128x128_S1x128x128_0_0_0 inb_S7x128x128_S1x128x128_1_0_0 (by decide) (rowsAt98 I) (gp99 I)).trans (Rn_read_hit 0 inb_S7x128x128_S1x128x128_0_0_0 (rowsAt97 I) (gp98 I)))))))
theorem payG98 (H : Hyp I tbl col pay) : ∀ y, pay98 I y = Cert.Spec.G tbl col ((Rect.unit (s := S16384x3328) (k0_off100 L 384#32) S128x128.size (k0_off100_inb L hc 3)).emb y) :=
  Step.item_payload tbl col H.hr L pay H.hpay I.fi H.hfi 14 3 inb_S26x4x128_S1x1x128_14_3_0 squeezes_S1x1x128_S128
    _ ((Step.read_full (View.whole main_arg40_scv) inb_S1000x128_S1000x128_0_0 I.ft14).trans H.ht14.symm)
    rfl (I.hin 14 3 inb_S26x4x128_S1x1x128_14_3_0 squeezes_S1x1x128_S128) (k0_off100 L 384#32) (k0_off100_eq L 3) (k0_off100_inb L hc 3) (pay98 I) (rd98 I)
theorem inv98 (H : Hyp I tbl col pay) : ∀ j' < 99, ∀ i ∈ Step.blkSet L 20 j', outAt98 I hc i = Cert.Spec.G tbl col i :=
  Step.out_step L 20 (Cert.Spec.G tbl col) 98 (k0_off100 L 384#32) (k0_off100_eq L 3) (k0_off100_inb L hc 3) (outAt97 I hc) (pay98 I) (payG98 I hc H)
    (inv97 I hc H)
theorem rd99 : (Rn 1 inb_S7x128x128_S1x128x128_1_0_0).view.read (Elt F) (rowsAt103 I) = gp99 I :=
  ((Rn_read_miss 1 5 inb_S7x128x128_S1x128x128_1_0_0 inb_S7x128x128_S1x128x128_5_0_0 (by decide) (rowsAt102 I) (gp103 I)).trans ((Rn_read_miss 1 4 inb_S7x128x128_S1x128x128_1_0_0 inb_S7x128x128_S1x128x128_4_0_0 (by decide) (rowsAt101 I) (gp102 I)).trans ((Rn_read_miss 1 3 inb_S7x128x128_S1x128x128_1_0_0 inb_S7x128x128_S1x128x128_3_0_0 (by decide) (rowsAt100 I) (gp101 I)).trans ((Rn_read_miss 1 2 inb_S7x128x128_S1x128x128_1_0_0 inb_S7x128x128_S1x128x128_2_0_0 (by decide) (rowsAt99 I) (gp100 I)).trans (Rn_read_hit 1 inb_S7x128x128_S1x128x128_1_0_0 (rowsAt98 I) (gp99 I))))))
theorem payG99 (H : Hyp I tbl col pay) : ∀ y, pay99 I y = Cert.Spec.G tbl col ((Rect.unit (s := S16384x3328) (k0_off101 L 384#32) S128x128.size (k0_off101_inb L hc 3)).emb y) :=
  Step.item_payload tbl col H.hr L pay H.hpay I.fi H.hfi 15 3 inb_S26x4x128_S1x1x128_15_3_0 squeezes_S1x1x128_S128
    _ ((Step.read_full (View.whole main_arg41_scv) inb_S1000x128_S1000x128_0_0 I.ft15).trans H.ht15.symm)
    rfl (I.hin 15 3 inb_S26x4x128_S1x1x128_15_3_0 squeezes_S1x1x128_S128) (k0_off101 L 384#32) (k0_off101_eq L 3) (k0_off101_inb L hc 3) (pay99 I) (rd99 I)
theorem inv99 (H : Hyp I tbl col pay) : ∀ j' < 100, ∀ i ∈ Step.blkSet L 20 j', outAt99 I hc i = Cert.Spec.G tbl col i :=
  Step.out_step L 20 (Cert.Spec.G tbl col) 99 (k0_off101 L 384#32) (k0_off101_eq L 3) (k0_off101_inb L hc 3) (outAt98 I hc) (pay99 I) (payG99 I hc H)
    (inv98 I hc H)
theorem rd100 : (Rn 2 inb_S7x128x128_S1x128x128_2_0_0).view.read (Elt F) (rowsAt103 I) = gp100 I :=
  ((Rn_read_miss 2 5 inb_S7x128x128_S1x128x128_2_0_0 inb_S7x128x128_S1x128x128_5_0_0 (by decide) (rowsAt102 I) (gp103 I)).trans ((Rn_read_miss 2 4 inb_S7x128x128_S1x128x128_2_0_0 inb_S7x128x128_S1x128x128_4_0_0 (by decide) (rowsAt101 I) (gp102 I)).trans ((Rn_read_miss 2 3 inb_S7x128x128_S1x128x128_2_0_0 inb_S7x128x128_S1x128x128_3_0_0 (by decide) (rowsAt100 I) (gp101 I)).trans (Rn_read_hit 2 inb_S7x128x128_S1x128x128_2_0_0 (rowsAt99 I) (gp100 I)))))
theorem payG100 (H : Hyp I tbl col pay) : ∀ y, pay100 I y = Cert.Spec.G tbl col ((Rect.unit (s := S16384x3328) (k0_off102 L 384#32) S128x128.size (k0_off102_inb L hc 3)).emb y) :=
  Step.item_payload tbl col H.hr L pay H.hpay I.fi H.hfi 16 3 inb_S26x4x128_S1x1x128_16_3_0 squeezes_S1x1x128_S128
    _ ((Step.read_full (View.whole main_arg42_scv) inb_S1000x128_S1000x128_0_0 I.ft16).trans H.ht16.symm)
    rfl (I.hin 16 3 inb_S26x4x128_S1x1x128_16_3_0 squeezes_S1x1x128_S128) (k0_off102 L 384#32) (k0_off102_eq L 3) (k0_off102_inb L hc 3) (pay100 I) (rd100 I)
theorem inv100 (H : Hyp I tbl col pay) : ∀ j' < 101, ∀ i ∈ Step.blkSet L 20 j', outAt100 I hc i = Cert.Spec.G tbl col i :=
  Step.out_step L 20 (Cert.Spec.G tbl col) 100 (k0_off102 L 384#32) (k0_off102_eq L 3) (k0_off102_inb L hc 3) (outAt99 I hc) (pay100 I) (payG100 I hc H)
    (inv99 I hc H)
theorem rd101 : (Rn 3 inb_S7x128x128_S1x128x128_3_0_0).view.read (Elt F) (rowsAt103 I) = gp101 I :=
  ((Rn_read_miss 3 5 inb_S7x128x128_S1x128x128_3_0_0 inb_S7x128x128_S1x128x128_5_0_0 (by decide) (rowsAt102 I) (gp103 I)).trans ((Rn_read_miss 3 4 inb_S7x128x128_S1x128x128_3_0_0 inb_S7x128x128_S1x128x128_4_0_0 (by decide) (rowsAt101 I) (gp102 I)).trans (Rn_read_hit 3 inb_S7x128x128_S1x128x128_3_0_0 (rowsAt100 I) (gp101 I))))
theorem payG101 (H : Hyp I tbl col pay) : ∀ y, pay101 I y = Cert.Spec.G tbl col ((Rect.unit (s := S16384x3328) (k0_off103 L 384#32) S128x128.size (k0_off103_inb L hc 3)).emb y) :=
  Step.item_payload tbl col H.hr L pay H.hpay I.fi H.hfi 17 3 inb_S26x4x128_S1x1x128_17_3_0 squeezes_S1x1x128_S128
    _ ((Step.read_full (View.whole main_arg43_scv) inb_S1000x128_S1000x128_0_0 I.ft17).trans H.ht17.symm)
    rfl (I.hin 17 3 inb_S26x4x128_S1x1x128_17_3_0 squeezes_S1x1x128_S128) (k0_off103 L 384#32) (k0_off103_eq L 3) (k0_off103_inb L hc 3) (pay101 I) (rd101 I)
theorem inv101 (H : Hyp I tbl col pay) : ∀ j' < 102, ∀ i ∈ Step.blkSet L 20 j', outAt101 I hc i = Cert.Spec.G tbl col i :=
  Step.out_step L 20 (Cert.Spec.G tbl col) 101 (k0_off103 L 384#32) (k0_off103_eq L 3) (k0_off103_inb L hc 3) (outAt100 I hc) (pay101 I) (payG101 I hc H)
    (inv100 I hc H)
theorem rd102 : (Rn 4 inb_S7x128x128_S1x128x128_4_0_0).view.read (Elt F) (rowsAt103 I) = gp102 I :=
  ((Rn_read_miss 4 5 inb_S7x128x128_S1x128x128_4_0_0 inb_S7x128x128_S1x128x128_5_0_0 (by decide) (rowsAt102 I) (gp103 I)).trans (Rn_read_hit 4 inb_S7x128x128_S1x128x128_4_0_0 (rowsAt101 I) (gp102 I)))
theorem payG102 (H : Hyp I tbl col pay) : ∀ y, pay102 I y = Cert.Spec.G tbl col ((Rect.unit (s := S16384x3328) (k0_off104 L 384#32) S128x128.size (k0_off104_inb L hc 3)).emb y) :=
  Step.item_payload tbl col H.hr L pay H.hpay I.fi H.hfi 18 3 inb_S26x4x128_S1x1x128_18_3_0 squeezes_S1x1x128_S128
    _ ((Step.read_full (View.whole main_arg44_scv) inb_S1000x128_S1000x128_0_0 I.ft18).trans H.ht18.symm)
    rfl (I.hin 18 3 inb_S26x4x128_S1x1x128_18_3_0 squeezes_S1x1x128_S128) (k0_off104 L 384#32) (k0_off104_eq L 3) (k0_off104_inb L hc 3) (pay102 I) (rd102 I)
theorem inv102 (H : Hyp I tbl col pay) : ∀ j' < 103, ∀ i ∈ Step.blkSet L 20 j', outAt102 I hc i = Cert.Spec.G tbl col i :=
  Step.out_step L 20 (Cert.Spec.G tbl col) 102 (k0_off104 L 384#32) (k0_off104_eq L 3) (k0_off104_inb L hc 3) (outAt101 I hc) (pay102 I) (payG102 I hc H)
    (inv101 I hc H)
theorem rd103 : (Rn 5 inb_S7x128x128_S1x128x128_5_0_0).view.read (Elt F) (rowsAt103 I) = gp103 I :=
  (Rn_read_hit 5 inb_S7x128x128_S1x128x128_5_0_0 (rowsAt102 I) (gp103 I))
theorem payG103 (H : Hyp I tbl col pay) : ∀ y, pay103 I y = Cert.Spec.G tbl col ((Rect.unit (s := S16384x3328) (k0_off105 L 384#32) S128x128.size (k0_off105_inb L hc 3)).emb y) :=
  Step.item_payload tbl col H.hr L pay H.hpay I.fi H.hfi 19 3 inb_S26x4x128_S1x1x128_19_3_0 squeezes_S1x1x128_S128
    _ ((Step.read_full (View.whole main_arg45_scv) inb_S1000x128_S1000x128_0_0 I.ft19).trans H.ht19.symm)
    rfl (I.hin 19 3 inb_S26x4x128_S1x1x128_19_3_0 squeezes_S1x1x128_S128) (k0_off105 L 384#32) (k0_off105_eq L 3) (k0_off105_inb L hc 3) (pay103 I) (rd103 I)
theorem inv103 (H : Hyp I tbl col pay) : ∀ j' < 104, ∀ i ∈ Step.blkSet L 20 j', outAt103 I hc i = Cert.Spec.G tbl col i :=
  Step.out_step L 20 (Cert.Spec.G tbl col) 103 (k0_off105 L 384#32) (k0_off105_eq L 3) (k0_off105_inb L hc 3) (outAt102 I hc) (pay103 I) (payG103 I hc H)
    (inv102 I hc H)

/-- After the tile's 104 copies its 512 rows of the output hold the specified values. -/
theorem out_value (H : Hyp I tbl col pay) :
    ∀ i ∈ (Memref.whole main_v26_scv : Memref sig .scVector .hbm S16384x3328 .f32).view.setOn (oTR L).set,
      outAt103 I hc i = Cert.Spec.G tbl col i := by
  intro i hi
  obtain ⟨j', hj', hmem⟩ := Step.rows_covered L 20 (by decide) i hi
  exact inv103 I hc H j' hj' i hmem

end Cert.Proof.KI.Chain3

end
-- ==== Proof.TileValKI3.lean ====
/-
  One vector subcore's task, for the subcores whose group number 2·(core) + (subcore mod 2) is 3.
  The task copies, for each of the 26 tables, its 4 x 128 block of row numbers into the index scratch (26 copies
  on one semaphore, drained by one wait for their total), then serves its 104 items (table, sub-chunk) through a
  ring of 7 row slots: item k's rows are gathered into slot k mod 7 on that slot's gather semaphore, waited for
  five items later, copied out to the item's 128 x 128 block of the output on the slot's store semaphore, and
  that copy is waited for before the slot is gathered into again. No semaphore ever has two transfers out at once
  except the index copies, and no buffer is touched while a transfer on it is out. The row numbers are below
  1000, the tables' row count, so every gather names rows that exist.
  Here: from the tables (read shares), the task's blocks of the columns, its rows of the output, its two scratches
  and its fifteen semaphores at zero, the task runs to its end and gives all of them back, the output rows at
  the contents the specification names: entry (b, 128 t + e) is entry e of row col t b of table t.
-/
import proofs.«204019_g4913442586959_cont_sun_m_672_34_alg».proof.Proof.SetupKI0
import proofs.«204019_g4913442586959_cont_sun_m_672_34_alg».proof.Proof.IdxScratchKI
import proofs.«204019_g4913442586959_cont_sun_m_672_34_alg».proof.Proof.ValueKI
import proofs.«204019_g4913442586959_cont_sun_m_672_34_alg».proof.Proof.ValChainKI3
import proofs.«204019_g4913442586959_cont_sun_m_672_34_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A wait recorded at the default index is one the launch allows: adding it to a set of recorded waits keeps
    "every recorded wait is an old one or at the default index". (Stated per group so the four groups build side by side.) -/
theorem waits_insertV3 {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with hp | hp
  · exact .inr (hp ▸ rfl)
  · exact h p hp

variable [FloatOps F] (d : Dev nD) (L : grid0.Coords)

set_option maxHeartbeats 400000000 in
set_option maxRecDepth 65536 in
theorem tile_val3 (hF : (K (F := F)).Facts) (O : CellTallies nD τ sig (HIx 1)) (W : Waits sig (HIx 1)) (hO : ∀ g, O g none = 0)
    (q : PosShare TreeShare) (hc1 : ¬ k0_cond1 L = 1#1) (hc2 : ¬ k0_cond2 L = 1#1) (hc3 : ¬ k0_cond3 L = 1#1) (hc4 : k0_cond4 L = 1#1)
    (ft0 : Buf (Elt F) ((V d (cVL L) (jVL L)).loc main_arg26_scv)) (fc0 : Buf (Elt F) ((V d (cVL L) (jVL L)).loc main_v0_scv)) (hfc0 : ∀ j, (fc0 j).toNat < 1000)
    (ft1 : Buf (Elt F) ((V d (cVL L) (jVL L)).loc main_arg27_scv)) (fc1 : Buf (Elt F) ((V d (cVL L) (jVL L)).loc main_v1_scv)) (hfc1 : ∀ j, (fc1 j).toNat < 1000)
    (ft2 : Buf (Elt F) ((V d (cVL L) (jVL L)).loc main_arg28_scv)) (fc2 : Buf (Elt F) ((V d (cVL L) (jVL L)).loc main_v2_scv)) (hfc2 : ∀ j, (fc2 j).toNat < 1000)
    (ft3 : Buf (Elt F) ((V d (cVL L) (jVL L)).loc main_arg29_scv)) (fc3 : Buf (Elt F) ((V d (cVL L) (jVL L)).loc main_v3_scv)) (hfc3 : ∀ j, (fc3 j).toNat < 1000)
    (ft4 : Buf (Elt F) ((V d (cVL L) (jVL L)).loc main_arg30_scv)) (fc4 : Buf (Elt F) ((V d (cVL L) (jVL L)).loc main_v4_scv)) (hfc4 : ∀ j, (fc4 j).toNat < 1000)
    (ft5 : Buf (Elt F) ((V d (cVL L) (jVL L)).loc main_arg31_scv)) (fc5 : Buf (Elt F) ((V d (cVL L) (jVL L)).loc main_v5_scv)) (hfc5 : ∀ j, (fc5 j).toNat < 1000)
    (ft6 : Buf (Elt F) ((V d (cVL L) (jVL L)).loc main_arg32_scv)) (fc6 : Buf (Elt F) ((V d (cVL L) (jVL L)).loc main_v6_scv)) (hfc6 : ∀ j, (fc6 j).toNat < 1000)
    (ft7 : Buf (Elt F) ((V d (cVL L) (jVL L)).loc main_arg33_scv)) (fc7 : Buf (Elt F) ((V d (cVL L) (jVL L)).loc main_v7_scv)) (hfc7 : ∀ j, (fc7 j).toNat < 1000)
    (ft8 : Buf (Elt F) ((V d (cVL L) (jVL L)).loc main_arg34_scv)) (fc8 : Buf (Elt F) ((V d (cVL L) (jVL L)).loc main_v8_scv)) (hfc8 : ∀ j, (fc8 j).toNat < 1000)
    (ft9 : Buf (Elt F) ((V d (cVL L) (jVL L)).loc main_arg35_scv)) (fc9 : Buf (Elt F) ((V d (cVL L) (jVL L)).loc main_v9_scv)) (hfc9 : ∀ j, (fc9 j).toNat < 1000)
    (ft10 : Buf (Elt F) ((V d (cVL L) (jVL L)).loc main_arg36_scv)) (fc10 : Buf (Elt F) ((V d (cVL L) (jVL L)).loc main_v10_scv)) (hfc10 : ∀ j, (fc10 j).toNat < 1000)
    (ft11 : Buf (Elt F) ((V d (cVL L) (jVL L)).loc main_arg37_scv)) (fc11 : Buf (Elt F) ((V d (cVL L) (jVL L)).loc main_v11_scv)) (hfc11 : ∀ j, (fc11 j).toNat < 1000)
    (ft12 : Buf (Elt F) ((V d (cVL L) (jVL L)).loc main_arg38_scv)) (fc12 : Buf (Elt F) ((V d (cVL L) (jVL L)).loc main_v12_scv)) (hfc12 : ∀ j, (fc12 j).toNat < 1000)
    (ft13 : Buf (Elt F) ((V d (cVL L) (jVL L)).loc main_arg39_scv)) (fc13 : Buf (Elt F) ((V d (cVL L) (jVL L)).loc main_v13_scv)) (hfc13 : ∀ j, (fc13 j).toNat < 1000)
    (ft14 : Buf (Elt F) ((V d (cVL L) (jVL L)).loc main_arg40_scv)) (fc14 : Buf (Elt F) ((V d (cVL L) (jVL L)).loc main_v14_scv)) (hfc14 : ∀ j, (fc14 j).toNat < 1000)
    (ft15 : Buf (Elt F) ((V d (cVL L) (jVL L)).loc main_arg41_scv)) (fc15 : Buf (Elt F) ((V d (cVL L) (jVL L)).loc main_v15_scv)) (hfc15 : ∀ j, (fc15 j).toNat < 1000)
    (ft16 : Buf (Elt F) ((V d (cVL L) (jVL L)).loc main_arg42_scv)) (fc16 : Buf (Elt F) ((V d (cVL L) (jVL L)).loc main_v16_scv)) (hfc16 : ∀ j, (fc16 j).toNat < 1000)
    (ft17 : Buf (Elt F) ((V d (cVL L) (jVL L)).loc main_arg43_scv)) (fc17 : Buf (Elt F) ((V d (cVL L) (jVL L)).loc main_v17_scv)) (hfc17 : ∀ j, (fc17 j).toNat < 1000)
    (ft18 : Buf (Elt F) ((V d (cVL L) (jVL L)).loc main_arg44_scv)) (fc18 : Buf (Elt F) ((V d (cVL L) (jVL L)).loc main_v18_scv)) (hfc18 : ∀ j, (fc18 j).toNat < 1000)
    (ft19 : Buf (Elt F) ((V d (cVL L) (jVL L)).loc main_arg45_scv)) (fc19 : Buf (Elt F) ((V d (cVL L) (jVL L)).loc main_v19_scv)) (hfc19 : ∀ j, (fc19 j).toNat < 1000)
    (ft20 : Buf (Elt F) ((V d (cVL L) (jVL L)).loc main_arg46_scv)) (fc20 : Buf (Elt F) ((V d (cVL L) (jVL L)).loc main_v20_scv)) (hfc20 : ∀ j, (fc20 j).toNat < 1000)
    (ft21 : Buf (Elt F) ((V d (cVL L) (jVL L)).loc main_arg47_scv)) (fc21 : Buf (Elt F) ((V d (cVL L) (jVL L)).loc main_v21_scv)) (hfc21 : ∀ j, (fc21 j).toNat < 1000)
    (ft22 : Buf (Elt F) ((V d (cVL L) (jVL L)).loc main_arg48_scv)) (fc22 : Buf (Elt F) ((V d (cVL L) (jVL L)).loc main_v22_scv)) (hfc22 : ∀ j, (fc22 j).toNat < 1000)
    (ft23 : Buf (Elt F) ((V d (cVL L) (jVL L)).loc main_arg49_scv)) (fc23 : Buf (Elt F) ((V d (cVL L) (jVL L)).loc main_v23_scv)) (hfc23 : ∀ j, (fc23 j).toNat < 1000)
    (ft24 : Buf (Elt F) ((V d (cVL L) (jVL L)).loc main_arg50_scv)) (fc24 : Buf (Elt F) ((V d (cVL L) (jVL L)).loc main_v24_scv)) (hfc24 : ∀ j, (fc24 j).toNat < 1000)
    (ft25 : Buf (Elt F) ((V d (cVL L) (jVL L)).loc main_arg51_scv)) (fc25 : Buf (Elt F) ((V d (cVL L) (jVL L)).loc main_v25_scv)) (hfc25 : ∀ j, (fc25 j).toNat < 1000)
    (col : Fin 26 → Cert.Spec.ColS.Idx → BitVec 32) (hr : ∀ t b, (col t b).toNat < 1000)
    (hfcol : ∀ (t : Fin 26) (R p : Fin 128), (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 R p) = col t (ValueIdx.ix1 (⟨128 * R.val + p.val, by have := R.isLt; have := p.isLt; omega⟩ : Fin 16384)))
    (fo : Buf (Elt F) ((V d (cVL L) (jVL L)).loc main_v26_scv)) (fs : Buf (Elt F) ((V d (cVL L) (jVL L)).loc cc0_scratch0)) (fr : Buf (Elt F) ((V d (cVL L) (jVL L)).loc cc0_scratch1)) :
    (iprop(levAts (K (F := F)).L (K (F := F)).lev
        ∗ ((Memref.whole main_arg26_scv : Memref sig .scVector .hbm S1000x128 .f32).view.loc (V d (cVL L) (jVL L)) ↦{q} ft0)
        ∗ ((Memref.whole main_arg27_scv : Memref sig .scVector .hbm S1000x128 .f32).view.loc (V d (cVL L) (jVL L)) ↦{q} ft1)
        ∗ ((Memref.whole main_arg28_scv : Memref sig .scVector .hbm S1000x128 .f32).view.loc (V d (cVL L) (jVL L)) ↦{q} ft2)
        ∗ ((Memref.whole main_arg29_scv : Memref sig .scVector .hbm S1000x128 .f32).view.loc (V d (cVL L) (jVL L)) ↦{q} ft3)
        ∗ ((Memref.whole main_arg30_scv : Memref sig .scVector .hbm S1000x128 .f32).view.loc (V d (cVL L) (jVL L)) ↦{q} ft4)
        ∗ ((Memref.whole main_arg31_scv : Memref sig .scVector .hbm S1000x128 .f32).view.loc (V d (cVL L) (jVL L)) ↦{q} ft5)
        ∗ ((Memref.whole main_arg32_scv : Memref sig .scVector .hbm S1000x128 .f32).view.loc (V d (cVL L) (jVL L)) ↦{q} ft6)
        ∗ ((Memref.whole main_arg33_scv : Memref sig .scVector .hbm S1000x128 .f32).view.loc (V d (cVL L) (jVL L)) ↦{q} ft7)
        ∗ ((Memref.whole main_arg34_scv : Memref sig .scVector .hbm S1000x128 .f32).view.loc (V d (cVL L) (jVL L)) ↦{q} ft8)
        ∗ ((Memref.whole main_arg35_scv : Memref sig .scVector .hbm S1000x128 .f32).view.loc (V d (cVL L) (jVL L)) ↦{q} ft9)
        ∗ ((Memref.whole main_arg36_scv : Memref sig .scVector .hbm S1000x128 .f32).view.loc (V d (cVL L) (jVL L)) ↦{q} ft10)
        ∗ ((Memref.whole main_arg37_scv : Memref sig .scVector .hbm S1000x128 .f32).view.loc (V d (cVL L) (jVL L)) ↦{q} ft11)
        ∗ ((Memref.whole main_arg38_scv : Memref sig .scVector .hbm S1000x128 .f32).view.loc (V d (cVL L) (jVL L)) ↦{q} ft12)
        ∗ ((Memref.whole main_arg39_scv : Memref sig .scVector .hbm S1000x128 .f32).view.loc (V d (cVL L) (jVL L)) ↦{q} ft13)
        ∗ ((Memref.whole main_arg40_scv : Memref sig .scVector .hbm S1000x128 .f32).view.loc (V d (cVL L) (jVL L)) ↦{q} ft14)
        ∗ ((Memref.whole main_arg41_scv : Memref sig .scVector .hbm S1000x128 .f32).view.loc (V d (cVL L) (jVL L)) ↦{q} ft15)
        ∗ ((Memref.whole main_arg42_scv : Memref sig .scVector .hbm S1000x128 .f32).view.loc (V d (cVL L) (jVL L)) ↦{q} ft16)
        ∗ ((Memref.whole main_arg43_scv : Memref sig .scVector .hbm S1000x128 .f32).view.loc (V d (cVL L) (jVL L)) ↦{q} ft17)
        ∗ ((Memref.whole main_arg44_scv : Memref sig .scVector .hbm S1000x128 .f32).view.loc (V d (cVL L) (jVL L)) ↦{q} ft18)
        ∗ ((Memref.whole main_arg45_scv : Memref sig .scVector .hbm S1000x128 .f32).view.loc (V d (cVL L) (jVL L)) ↦{q} ft19)
        ∗ ((Memref.whole main_arg46_scv : Memref sig .scVector .hbm S1000x128 .f32).view.loc (V d (cVL L) (jVL L)) ↦{q} ft20)
        ∗ ((Memref.whole main_arg47_scv : Memref sig .scVector .hbm S1000x128 .f32).view.loc (V d (cVL L) (jVL L)) ↦{q} ft21)
        ∗ ((Memref.whole main_arg48_scv : Memref sig .scVector .hbm S1000x128 .f32).view.loc (V d (cVL L) (jVL L)) ↦{q} ft22)
        ∗ ((Memref.whole main_arg49_scv : Memref sig .scVector .hbm S1000x128 .f32).view.loc (V d (cVL L) (jVL L)) ↦{q} ft23)
        ∗ ((Memref.whole main_arg50_scv : Memref sig .scVector .hbm S1000x128 .f32).view.loc (V d (cVL L) (jVL L)) ↦{q} ft24)
        ∗ ((Memref.whole main_arg51_scv : Memref sig .scVector .hbm S1000x128 .f32).view.loc (V d (cVL L) (jVL L)) ↦{q} ft25)
        ∗ (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0)
        ∗ (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1)
        ∗ (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2)
        ∗ (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3)
        ∗ (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4)
        ∗ (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5)
        ∗ (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6)
        ∗ (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7)
        ∗ (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8)
        ∗ (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9)
        ∗ (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10)
        ∗ (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11)
        ∗ (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12)
        ∗ (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13)
        ∗ (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14)
        ∗ (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15)
        ∗ (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16)
        ∗ (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17)
        ∗ (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18)
        ∗ (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19)
        ∗ (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20)
        ∗ (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21)
        ∗ (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22)
        ∗ (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23)
        ∗ (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24)
        ∗ (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25)
        ∗ ((Memref.whole main_v26_scv : Memref sig .scVector .hbm S16384x3328 .f32).view.loc (V d (cVL L) (jVL L)) ↦[(Memref.whole main_v26_scv : Memref sig .scVector .hbm S16384x3328 .f32).view.setOn (oTR L).set]{fullShare} fo)
        ∗ ((Memref.whole cc0_scratch0 : Memref sig .scVector .vmem S26x4x128 .i32).view.loc (V d (cVL L) (jVL L)) ↦{fullShare} fs)
        ∗ ((Memref.whole cc0_scratch1 : Memref sig .scVector .vmem S7x128x128 .f32).view.loc (V d (cVL L) (jVL L)) ↦{fullShare} fr)
        ∗ semVal (((V d (cVL L) (jVL L)), .dma cc0_scratch2.sem) : GSem nD τ sig) 0
        ∗ semVal (((V d (cVL L) (jVL L)), .dma cc0_scratch3.sem) : GSem nD τ sig) 0
        ∗ semVal (((V d (cVL L) (jVL L)), .dma cc0_scratch4.sem) : GSem nD τ sig) 0
        ∗ semVal (((V d (cVL L) (jVL L)), .dma cc0_scratch5.sem) : GSem nD τ sig) 0
        ∗ semVal (((V d (cVL L) (jVL L)), .dma cc0_scratch6.sem) : GSem nD τ sig) 0
        ∗ semVal (((V d (cVL L) (jVL L)), .dma cc0_scratch7.sem) : GSem nD τ sig) 0
        ∗ semVal (((V d (cVL L) (jVL L)), .dma cc0_scratch8.sem) : GSem nD τ sig) 0
        ∗ semVal (((V d (cVL L) (jVL L)), .dma cc0_scratch9.sem) : GSem nD τ sig) 0
        ∗ semVal (((V d (cVL L) (jVL L)), .dma cc0_scratch10.sem) : GSem nD τ sig) 0
        ∗ semVal (((V d (cVL L) (jVL L)), .dma cc0_scratch11.sem) : GSem nD τ sig) 0
        ∗ semVal (((V d (cVL L) (jVL L)), .dma cc0_scratch12.sem) : GSem nD τ sig) 0
        ∗ semVal (((V d (cVL L) (jVL L)), .dma cc0_scratch13.sem) : GSem nD τ sig) 0
        ∗ semVal (((V d (cVL L) (jVL L)), .dma cc0_scratch14.sem) : GSem nD τ sig) 0
        ∗ semVal (((V d (cVL L) (jVL L)), .dma cc0_scratch15.sem) : GSem nD τ sig) 0
        ∗ semVal (((V d (cVL L) (jVL L)), .dma cc0_scratch16.sem) : GSem nD τ sig) 0
        ∗ owes (V d (cVL L) (jVL L)) O W) : sProp 𝕄)
      ⊢ wp frame (wpE (defs₀ (F := F)) 𝒱₀ (V d (cVL L) (jVL L)) none) Set.univ
          (cc0_k L (Memref.whole main_arg26_scv : Memref sig .scVector .hbm S1000x128 .f32) (Memref.isWhole_whole _) (Memref.whole main_arg27_scv : Memref sig .scVector .hbm S1000x128 .f32) (Memref.isWhole_whole _) (Memref.whole main_arg28_scv : Memref sig .scVector .hbm S1000x128 .f32) (Memref.isWhole_whole _) (Memref.whole main_arg29_scv : Memref sig .scVector .hbm S1000x128 .f32) (Memref.isWhole_whole _) (Memref.whole main_arg30_scv : Memref sig .scVector .hbm S1000x128 .f32) (Memref.isWhole_whole _) (Memref.whole main_arg31_scv : Memref sig .scVector .hbm S1000x128 .f32) (Memref.isWhole_whole _) (Memref.whole main_arg32_scv : Memref sig .scVector .hbm S1000x128 .f32) (Memref.isWhole_whole _) (Memref.whole main_arg33_scv : Memref sig .scVector .hbm S1000x128 .f32) (Memref.isWhole_whole _) (Memref.whole main_arg34_scv : Memref sig .scVector .hbm S1000x128 .f32) (Memref.isWhole_whole _) (Memref.whole main_arg35_scv : Memref sig .scVector .hbm S1000x128 .f32) (Memref.isWhole_whole _) (Memref.whole main_arg36_scv : Memref sig .scVector .hbm S1000x128 .f32) (Memref.isWhole_whole _) (Memref.whole main_arg37_scv : Memref sig .scVector .hbm S1000x128 .f32) (Memref.isWhole_whole _) (Memref.whole main_arg38_scv : Memref sig .scVector .hbm S1000x128 .f32) (Memref.isWhole_whole _) (Memref.whole main_arg39_scv : Memref sig .scVector .hbm S1000x128 .f32) (Memref.isWhole_whole _) (Memref.whole main_arg40_scv : Memref sig .scVector .hbm S1000x128 .f32) (Memref.isWhole_whole _) (Memref.whole main_arg41_scv : Memref sig .scVector .hbm S1000x128 .f32) (Memref.isWhole_whole _) (Memref.whole main_arg42_scv : Memref sig .scVector .hbm S1000x128 .f32) (Memref.isWhole_whole _) (Memref.whole main_arg43_scv : Memref sig .scVector .hbm S1000x128 .f32) (Memref.isWhole_whole _) (Memref.whole main_arg44_scv : Memref sig .scVector .hbm S1000x128 .f32) (Memref.isWhole_whole _) (Memref.whole main_arg45_scv : Memref sig .scVector .hbm S1000x128 .f32) (Memref.isWhole_whole _) (Memref.whole main_arg46_scv : Memref sig .scVector .hbm S1000x128 .f32) (Memref.isWhole_whole _) (Memref.whole main_arg47_scv : Memref sig .scVector .hbm S1000x128 .f32) (Memref.isWhole_whole _) (Memref.whole main_arg48_scv : Memref sig .scVector .hbm S1000x128 .f32) (Memref.isWhole_whole _) (Memref.whole main_arg49_scv : Memref sig .scVector .hbm S1000x128 .f32) (Memref.isWhole_whole _) (Memref.whole main_arg50_scv : Memref sig .scVector .hbm S1000x128 .f32) (Memref.isWhole_whole _) (Memref.whole main_arg51_scv : Memref sig .scVector .hbm S1000x128 .f32) (Memref.isWhole_whole _) (Memref.whole main_v0_scv : Memref sig .scVector .hbm S128x128 .i32) (Memref.isWhole_whole _) (Memref.whole main_v1_scv : Memref sig .scVector .hbm S128x128 .i32) (Memref.isWhole_whole _) (Memref.whole main_v2_scv : Memref sig .scVector .hbm S128x128 .i32) (Memref.isWhole_whole _) (Memref.whole main_v3_scv : Memref sig .scVector .hbm S128x128 .i32) (Memref.isWhole_whole _) (Memref.whole main_v4_scv : Memref sig .scVector .hbm S128x128 .i32) (Memref.isWhole_whole _) (Memref.whole main_v5_scv : Memref sig .scVector .hbm S128x128 .i32) (Memref.isWhole_whole _) (Memref.whole main_v6_scv : Memref sig .scVector .hbm S128x128 .i32) (Memref.isWhole_whole _) (Memref.whole main_v7_scv : Memref sig .scVector .hbm S128x128 .i32) (Memref.isWhole_whole _) (Memref.whole main_v8_scv : Memref sig .scVector .hbm S128x128 .i32) (Memref.isWhole_whole _) (Memref.whole main_v9_scv : Memref sig .scVector .hbm S128x128 .i32) (Memref.isWhole_whole _) (Memref.whole main_v10_scv : Memref sig .scVector .hbm S128x128 .i32) (Memref.isWhole_whole _) (Memref.whole main_v11_scv : Memref sig .scVector .hbm S128x128 .i32) (Memref.isWhole_whole _) (Memref.whole main_v12_scv : Memref sig .scVector .hbm S128x128 .i32) (Memref.isWhole_whole _) (Memref.whole main_v13_scv : Memref sig .scVector .hbm S128x128 .i32) (Memref.isWhole_whole _) (Memref.whole main_v14_scv : Memref sig .scVector .hbm S128x128 .i32) (Memref.isWhole_whole _) (Memref.whole main_v15_scv : Memref sig .scVector .hbm S128x128 .i32) (Memref.isWhole_whole _) (Memref.whole main_v16_scv : Memref sig .scVector .hbm S128x128 .i32) (Memref.isWhole_whole _) (Memref.whole main_v17_scv : Memref sig .scVector .hbm S128x128 .i32) (Memref.isWhole_whole _) (Memref.whole main_v18_scv : Memref sig .scVector .hbm S128x128 .i32) (Memref.isWhole_whole _) (Memref.whole main_v19_scv : Memref sig .scVector .hbm S128x128 .i32) (Memref.isWhole_whole _) (Memref.whole main_v20_scv : Memref sig .scVector .hbm S128x128 .i32) (Memref.isWhole_whole _) (Memref.whole main_v21_scv : Memref sig .scVector .hbm S128x128 .i32) (Memref.isWhole_whole _) (Memref.whole main_v22_scv : Memref sig .scVector .hbm S128x128 .i32) (Memref.isWhole_whole _) (Memref.whole main_v23_scv : Memref sig .scVector .hbm S128x128 .i32) (Memref.isWhole_whole _) (Memref.whole main_v24_scv : Memref sig .scVector .hbm S128x128 .i32) (Memref.isWhole_whole _) (Memref.whole main_v25_scv : Memref sig .scVector .hbm S128x128 .i32) (Memref.isWhole_whole _) (Memref.whole main_v26_scv : Memref sig .scVector .hbm S16384x3328 .f32) (Memref.isWhole_whole _) (Memref.whole cc0_scratch0 : Memref sig .scVector .vmem S26x4x128 .i32) (Memref.isWhole_whole _) (Memref.whole cc0_scratch1 : Memref sig .scVector .vmem S7x128x128 .f32) (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
          fun _ => (iprop(
            ((Memref.whole main_arg26_scv : Memref sig .scVector .hbm S1000x128 .f32).view.loc (V d (cVL L) (jVL L)) ↦{q} ft0) ∗
            ((Memref.whole main_arg27_scv : Memref sig .scVector .hbm S1000x128 .f32).view.loc (V d (cVL L) (jVL L)) ↦{q} ft1) ∗
            ((Memref.whole main_arg28_scv : Memref sig .scVector .hbm S1000x128 .f32).view.loc (V d (cVL L) (jVL L)) ↦{q} ft2) ∗
            ((Memref.whole main_arg29_scv : Memref sig .scVector .hbm S1000x128 .f32).view.loc (V d (cVL L) (jVL L)) ↦{q} ft3) ∗
            ((Memref.whole main_arg30_scv : Memref sig .scVector .hbm S1000x128 .f32).view.loc (V d (cVL L) (jVL L)) ↦{q} ft4) ∗
            ((Memref.whole main_arg31_scv : Memref sig .scVector .hbm S1000x128 .f32).view.loc (V d (cVL L) (jVL L)) ↦{q} ft5) ∗
            ((Memref.whole main_arg32_scv : Memref sig .scVector .hbm S1000x128 .f32).view.loc (V d (cVL L) (jVL L)) ↦{q} ft6) ∗
            ((Memref.whole main_arg33_scv : Memref sig .scVector .hbm S1000x128 .f32).view.loc (V d (cVL L) (jVL L)) ↦{q} ft7) ∗
            ((Memref.whole main_arg34_scv : Memref sig .scVector .hbm S1000x128 .f32).view.loc (V d (cVL L) (jVL L)) ↦{q} ft8) ∗
            ((Memref.whole main_arg35_scv : Memref sig .scVector .hbm S1000x128 .f32).view.loc (V d (cVL L) (jVL L)) ↦{q} ft9) ∗
            ((Memref.whole main_arg36_scv : Memref sig .scVector .hbm S1000x128 .f32).view.loc (V d (cVL L) (jVL L)) ↦{q} ft10) ∗
            ((Memref.whole main_arg37_scv : Memref sig .scVector .hbm S1000x128 .f32).view.loc (V d (cVL L) (jVL L)) ↦{q} ft11) ∗
            ((Memref.whole main_arg38_scv : Memref sig .scVector .hbm S1000x128 .f32).view.loc (V d (cVL L) (jVL L)) ↦{q} ft12) ∗
            ((Memref.whole main_arg39_scv : Memref sig .scVector .hbm S1000x128 .f32).view.loc (V d (cVL L) (jVL L)) ↦{q} ft13) ∗
            ((Memref.whole main_arg40_scv : Memref sig .scVector .hbm S1000x128 .f32).view.loc (V d (cVL L) (jVL L)) ↦{q} ft14) ∗
            ((Memref.whole main_arg41_scv : Memref sig .scVector .hbm S1000x128 .f32).view.loc (V d (cVL L) (jVL L)) ↦{q} ft15) ∗
            ((Memref.whole main_arg42_scv : Memref sig .scVector .hbm S1000x128 .f32).view.loc (V d (cVL L) (jVL L)) ↦{q} ft16) ∗
            ((Memref.whole main_arg43_scv : Memref sig .scVector .hbm S1000x128 .f32).view.loc (V d (cVL L) (jVL L)) ↦{q} ft17) ∗
            ((Memref.whole main_arg44_scv : Memref sig .scVector .hbm S1000x128 .f32).view.loc (V d (cVL L) (jVL L)) ↦{q} ft18) ∗
            ((Memref.whole main_arg45_scv : Memref sig .scVector .hbm S1000x128 .f32).view.loc (V d (cVL L) (jVL L)) ↦{q} ft19) ∗
            ((Memref.whole main_arg46_scv : Memref sig .scVector .hbm S1000x128 .f32).view.loc (V d (cVL L) (jVL L)) ↦{q} ft20) ∗
            ((Memref.whole main_arg47_scv : Memref sig .scVector .hbm S1000x128 .f32).view.loc (V d (cVL L) (jVL L)) ↦{q} ft21) ∗
            ((Memref.whole main_arg48_scv : Memref sig .scVector .hbm S1000x128 .f32).view.loc (V d (cVL L) (jVL L)) ↦{q} ft22) ∗
            ((Memref.whole main_arg49_scv : Memref sig .scVector .hbm S1000x128 .f32).view.loc (V d (cVL L) (jVL L)) ↦{q} ft23) ∗
            ((Memref.whole main_arg50_scv : Memref sig .scVector .hbm S1000x128 .f32).view.loc (V d (cVL L) (jVL L)) ↦{q} ft24) ∗
            ((Memref.whole main_arg51_scv : Memref sig .scVector .hbm S1000x128 .f32).view.loc (V d (cVL L) (jVL L)) ↦{q} ft25) ∗
            (((Memref.whole main_v0_scv : Memref sig .scVector .hbm S128x128 .i32).slice (Rect.unit (s := S128x128) (k0_off1 L) S4x128.size (k0_off1_inb L)) (fun _ => rfl)).view.loc (V d (cVL L) (jVL L)) ↦[((Memref.whole main_v0_scv : Memref sig .scVector .hbm S128x128 .i32).slice (Rect.unit (s := S128x128) (k0_off1 L) S4x128.size (k0_off1_inb L)) (fun _ => rfl)).view.set]{fullShare} fc0) ∗
            (((Memref.whole main_v1_scv : Memref sig .scVector .hbm S128x128 .i32).slice (Rect.unit (s := S128x128) (k0_off1 L) S4x128.size (k0_off1_inb L)) (fun _ => rfl)).view.loc (V d (cVL L) (jVL L)) ↦[((Memref.whole main_v1_scv : Memref sig .scVector .hbm S128x128 .i32).slice (Rect.unit (s := S128x128) (k0_off1 L) S4x128.size (k0_off1_inb L)) (fun _ => rfl)).view.set]{fullShare} fc1) ∗
            (((Memref.whole main_v2_scv : Memref sig .scVector .hbm S128x128 .i32).slice (Rect.unit (s := S128x128) (k0_off1 L) S4x128.size (k0_off1_inb L)) (fun _ => rfl)).view.loc (V d (cVL L) (jVL L)) ↦[((Memref.whole main_v2_scv : Memref sig .scVector .hbm S128x128 .i32).slice (Rect.unit (s := S128x128) (k0_off1 L) S4x128.size (k0_off1_inb L)) (fun _ => rfl)).view.set]{fullShare} fc2) ∗
            (((Memref.whole main_v3_scv : Memref sig .scVector .hbm S128x128 .i32).slice (Rect.unit (s := S128x128) (k0_off1 L) S4x128.size (k0_off1_inb L)) (fun _ => rfl)).view.loc (V d (cVL L) (jVL L)) ↦[((Memref.whole main_v3_scv : Memref sig .scVector .hbm S128x128 .i32).slice (Rect.unit (s := S128x128) (k0_off1 L) S4x128.size (k0_off1_inb L)) (fun _ => rfl)).view.set]{fullShare} fc3) ∗
            (((Memref.whole main_v4_scv : Memref sig .scVector .hbm S128x128 .i32).slice (Rect.unit (s := S128x128) (k0_off1 L) S4x128.size (k0_off1_inb L)) (fun _ => rfl)).view.loc (V d (cVL L) (jVL L)) ↦[((Memref.whole main_v4_scv : Memref sig .scVector .hbm S128x128 .i32).slice (Rect.unit (s := S128x128) (k0_off1 L) S4x128.size (k0_off1_inb L)) (fun _ => rfl)).view.set]{fullShare} fc4) ∗
            (((Memref.whole main_v5_scv : Memref sig .scVector .hbm S128x128 .i32).slice (Rect.unit (s := S128x128) (k0_off1 L) S4x128.size (k0_off1_inb L)) (fun _ => rfl)).view.loc (V d (cVL L) (jVL L)) ↦[((Memref.whole main_v5_scv : Memref sig .scVector .hbm S128x128 .i32).slice (Rect.unit (s := S128x128) (k0_off1 L) S4x128.size (k0_off1_inb L)) (fun _ => rfl)).view.set]{fullShare} fc5) ∗
            (((Memref.whole main_v6_scv : Memref sig .scVector .hbm S128x128 .i32).slice (Rect.unit (s := S128x128) (k0_off1 L) S4x128.size (k0_off1_inb L)) (fun _ => rfl)).view.loc (V d (cVL L) (jVL L)) ↦[((Memref.whole main_v6_scv : Memref sig .scVector .hbm S128x128 .i32).slice (Rect.unit (s := S128x128) (k0_off1 L) S4x128.size (k0_off1_inb L)) (fun _ => rfl)).view.set]{fullShare} fc6) ∗
            (((Memref.whole main_v7_scv : Memref sig .scVector .hbm S128x128 .i32).slice (Rect.unit (s := S128x128) (k0_off1 L) S4x128.size (k0_off1_inb L)) (fun _ => rfl)).view.loc (V d (cVL L) (jVL L)) ↦[((Memref.whole main_v7_scv : Memref sig .scVector .hbm S128x128 .i32).slice (Rect.unit (s := S128x128) (k0_off1 L) S4x128.size (k0_off1_inb L)) (fun _ => rfl)).view.set]{fullShare} fc7) ∗
            (((Memref.whole main_v8_scv : Memref sig .scVector .hbm S128x128 .i32).slice (Rect.unit (s := S128x128) (k0_off1 L) S4x128.size (k0_off1_inb L)) (fun _ => rfl)).view.loc (V d (cVL L) (jVL L)) ↦[((Memref.whole main_v8_scv : Memref sig .scVector .hbm S128x128 .i32).slice (Rect.unit (s := S128x128) (k0_off1 L) S4x128.size (k0_off1_inb L)) (fun _ => rfl)).view.set]{fullShare} fc8) ∗
            (((Memref.whole main_v9_scv : Memref sig .scVector .hbm S128x128 .i32).slice (Rect.unit (s := S128x128) (k0_off1 L) S4x128.size (k0_off1_inb L)) (fun _ => rfl)).view.loc (V d (cVL L) (jVL L)) ↦[((Memref.whole main_v9_scv : Memref sig .scVector .hbm S128x128 .i32).slice (Rect.unit (s := S128x128) (k0_off1 L) S4x128.size (k0_off1_inb L)) (fun _ => rfl)).view.set]{fullShare} fc9) ∗
            (((Memref.whole main_v10_scv : Memref sig .scVector .hbm S128x128 .i32).slice (Rect.unit (s := S128x128) (k0_off1 L) S4x128.size (k0_off1_inb L)) (fun _ => rfl)).view.loc (V d (cVL L) (jVL L)) ↦[((Memref.whole main_v10_scv : Memref sig .scVector .hbm S128x128 .i32).slice (Rect.unit (s := S128x128) (k0_off1 L) S4x128.size (k0_off1_inb L)) (fun _ => rfl)).view.set]{fullShare} fc10) ∗
            (((Memref.whole main_v11_scv : Memref sig .scVector .hbm S128x128 .i32).slice (Rect.unit (s := S128x128) (k0_off1 L) S4x128.size (k0_off1_inb L)) (fun _ => rfl)).view.loc (V d (cVL L) (jVL L)) ↦[((Memref.whole main_v11_scv : Memref sig .scVector .hbm S128x128 .i32).slice (Rect.unit (s := S128x128) (k0_off1 L) S4x128.size (k0_off1_inb L)) (fun _ => rfl)).view.set]{fullShare} fc11) ∗
            (((Memref.whole main_v12_scv : Memref sig .scVector .hbm S128x128 .i32).slice (Rect.unit (s := S128x128) (k0_off1 L) S4x128.size (k0_off1_inb L)) (fun _ => rfl)).view.loc (V d (cVL L) (jVL L)) ↦[((Memref.whole main_v12_scv : Memref sig .scVector .hbm S128x128 .i32).slice (Rect.unit (s := S128x128) (k0_off1 L) S4x128.size (k0_off1_inb L)) (fun _ => rfl)).view.set]{fullShare} fc12) ∗
            (((Memref.whole main_v13_scv : Memref sig .scVector .hbm S128x128 .i32).slice (Rect.unit (s := S128x128) (k0_off1 L) S4x128.size (k0_off1_inb L)) (fun _ => rfl)).view.loc (V d (cVL L) (jVL L)) ↦[((Memref.whole main_v13_scv : Memref sig .scVector .hbm S128x128 .i32).slice (Rect.unit (s := S128x128) (k0_off1 L) S4x128.size (k0_off1_inb L)) (fun _ => rfl)).view.set]{fullShare} fc13) ∗
            (((Memref.whole main_v14_scv : Memref sig .scVector .hbm S128x128 .i32).slice (Rect.unit (s := S128x128) (k0_off1 L) S4x128.size (k0_off1_inb L)) (fun _ => rfl)).view.loc (V d (cVL L) (jVL L)) ↦[((Memref.whole main_v14_scv : Memref sig .scVector .hbm S128x128 .i32).slice (Rect.unit (s := S128x128) (k0_off1 L) S4x128.size (k0_off1_inb L)) (fun _ => rfl)).view.set]{fullShare} fc14) ∗
            (((Memref.whole main_v15_scv : Memref sig .scVector .hbm S128x128 .i32).slice (Rect.unit (s := S128x128) (k0_off1 L) S4x128.size (k0_off1_inb L)) (fun _ => rfl)).view.loc (V d (cVL L) (jVL L)) ↦[((Memref.whole main_v15_scv : Memref sig .scVector .hbm S128x128 .i32).slice (Rect.unit (s := S128x128) (k0_off1 L) S4x128.size (k0_off1_inb L)) (fun _ => rfl)).view.set]{fullShare} fc15) ∗
            (((Memref.whole main_v16_scv : Memref sig .scVector .hbm S128x128 .i32).slice (Rect.unit (s := S128x128) (k0_off1 L) S4x128.size (k0_off1_inb L)) (fun _ => rfl)).view.loc (V d (cVL L) (jVL L)) ↦[((Memref.whole main_v16_scv : Memref sig .scVector .hbm S128x128 .i32).slice (Rect.unit (s := S128x128) (k0_off1 L) S4x128.size (k0_off1_inb L)) (fun _ => rfl)).view.set]{fullShare} fc16) ∗
            (((Memref.whole main_v17_scv : Memref sig .scVector .hbm S128x128 .i32).slice (Rect.unit (s := S128x128) (k0_off1 L) S4x128.size (k0_off1_inb L)) (fun _ => rfl)).view.loc (V d (cVL L) (jVL L)) ↦[((Memref.whole main_v17_scv : Memref sig .scVector .hbm S128x128 .i32).slice (Rect.unit (s := S128x128) (k0_off1 L) S4x128.size (k0_off1_inb L)) (fun _ => rfl)).view.set]{fullShare} fc17) ∗
            (((Memref.whole main_v18_scv : Memref sig .scVector .hbm S128x128 .i32).slice (Rect.unit (s := S128x128) (k0_off1 L) S4x128.size (k0_off1_inb L)) (fun _ => rfl)).view.loc (V d (cVL L) (jVL L)) ↦[((Memref.whole main_v18_scv : Memref sig .scVector .hbm S128x128 .i32).slice (Rect.unit (s := S128x128) (k0_off1 L) S4x128.size (k0_off1_inb L)) (fun _ => rfl)).view.set]{fullShare} fc18) ∗
            (((Memref.whole main_v19_scv : Memref sig .scVector .hbm S128x128 .i32).slice (Rect.unit (s := S128x128) (k0_off1 L) S4x128.size (k0_off1_inb L)) (fun _ => rfl)).view.loc (V d (cVL L) (jVL L)) ↦[((Memref.whole main_v19_scv : Memref sig .scVector .hbm S128x128 .i32).slice (Rect.unit (s := S128x128) (k0_off1 L) S4x128.size (k0_off1_inb L)) (fun _ => rfl)).view.set]{fullShare} fc19) ∗
            (((Memref.whole main_v20_scv : Memref sig .scVector .hbm S128x128 .i32).slice (Rect.unit (s := S128x128) (k0_off1 L) S4x128.size (k0_off1_inb L)) (fun _ => rfl)).view.loc (V d (cVL L) (jVL L)) ↦[((Memref.whole main_v20_scv : Memref sig .scVector .hbm S128x128 .i32).slice (Rect.unit (s := S128x128) (k0_off1 L) S4x128.size (k0_off1_inb L)) (fun _ => rfl)).view.set]{fullShare} fc20) ∗
            (((Memref.whole main_v21_scv : Memref sig .scVector .hbm S128x128 .i32).slice (Rect.unit (s := S128x128) (k0_off1 L) S4x128.size (k0_off1_inb L)) (fun _ => rfl)).view.loc (V d (cVL L) (jVL L)) ↦[((Memref.whole main_v21_scv : Memref sig .scVector .hbm S128x128 .i32).slice (Rect.unit (s := S128x128) (k0_off1 L) S4x128.size (k0_off1_inb L)) (fun _ => rfl)).view.set]{fullShare} fc21) ∗
            (((Memref.whole main_v22_scv : Memref sig .scVector .hbm S128x128 .i32).slice (Rect.unit (s := S128x128) (k0_off1 L) S4x128.size (k0_off1_inb L)) (fun _ => rfl)).view.loc (V d (cVL L) (jVL L)) ↦[((Memref.whole main_v22_scv : Memref sig .scVector .hbm S128x128 .i32).slice (Rect.unit (s := S128x128) (k0_off1 L) S4x128.size (k0_off1_inb L)) (fun _ => rfl)).view.set]{fullShare} fc22) ∗
            (((Memref.whole main_v23_scv : Memref sig .scVector .hbm S128x128 .i32).slice (Rect.unit (s := S128x128) (k0_off1 L) S4x128.size (k0_off1_inb L)) (fun _ => rfl)).view.loc (V d (cVL L) (jVL L)) ↦[((Memref.whole main_v23_scv : Memref sig .scVector .hbm S128x128 .i32).slice (Rect.unit (s := S128x128) (k0_off1 L) S4x128.size (k0_off1_inb L)) (fun _ => rfl)).view.set]{fullShare} fc23) ∗
            (((Memref.whole main_v24_scv : Memref sig .scVector .hbm S128x128 .i32).slice (Rect.unit (s := S128x128) (k0_off1 L) S4x128.size (k0_off1_inb L)) (fun _ => rfl)).view.loc (V d (cVL L) (jVL L)) ↦[((Memref.whole main_v24_scv : Memref sig .scVector .hbm S128x128 .i32).slice (Rect.unit (s := S128x128) (k0_off1 L) S4x128.size (k0_off1_inb L)) (fun _ => rfl)).view.set]{fullShare} fc24) ∗
            (((Memref.whole main_v25_scv : Memref sig .scVector .hbm S128x128 .i32).slice (Rect.unit (s := S128x128) (k0_off1 L) S4x128.size (k0_off1_inb L)) (fun _ => rfl)).view.loc (V d (cVL L) (jVL L)) ↦[((Memref.whole main_v25_scv : Memref sig .scVector .hbm S128x128 .i32).slice (Rect.unit (s := S128x128) (k0_off1 L) S4x128.size (k0_off1_inb L)) (fun _ => rfl)).view.set]{fullShare} fc25) ∗
            ((Memref.whole main_v26_scv : Memref sig .scVector .hbm S16384x3328 .f32).view.loc (V d (cVL L) (jVL L)) ↦[(Memref.whole main_v26_scv : Memref sig .scVector .hbm S16384x3328 .f32).view.setOn (oTR L).set]{fullShare} (Cert.Spec.G (fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) col)) ∗
            (∃ f, (Memref.whole cc0_scratch0 : Memref sig .scVector .vmem S26x4x128 .i32).view.loc (V d (cVL L) (jVL L)) ↦{fullShare} f) ∗
            (∃ f, (Memref.whole cc0_scratch1 : Memref sig .scVector .vmem S7x128x128 .f32).view.loc (V d (cVL L) (jVL L)) ↦{fullShare} f) ∗
            semVal (((V d (cVL L) (jVL L)), .dma cc0_scratch2.sem) : GSem nD τ sig) 0 ∗
            semVal (((V d (cVL L) (jVL L)), .dma cc0_scratch3.sem) : GSem nD τ sig) 0 ∗
            semVal (((V d (cVL L) (jVL L)), .dma cc0_scratch4.sem) : GSem nD τ sig) 0 ∗
            semVal (((V d (cVL L) (jVL L)), .dma cc0_scratch5.sem) : GSem nD τ sig) 0 ∗
            semVal (((V d (cVL L) (jVL L)), .dma cc0_scratch6.sem) : GSem nD τ sig) 0 ∗
            semVal (((V d (cVL L) (jVL L)), .dma cc0_scratch7.sem) : GSem nD τ sig) 0 ∗
            semVal (((V d (cVL L) (jVL L)), .dma cc0_scratch8.sem) : GSem nD τ sig) 0 ∗
            semVal (((V d (cVL L) (jVL L)), .dma cc0_scratch9.sem) : GSem nD τ sig) 0 ∗
            semVal (((V d (cVL L) (jVL L)), .dma cc0_scratch10.sem) : GSem nD τ sig) 0 ∗
            semVal (((V d (cVL L) (jVL L)), .dma cc0_scratch11.sem) : GSem nD τ sig) 0 ∗
            semVal (((V d (cVL L) (jVL L)), .dma cc0_scratch12.sem) : GSem nD τ sig) 0 ∗
            semVal (((V d (cVL L) (jVL L)), .dma cc0_scratch13.sem) : GSem nD τ sig) 0 ∗
            semVal (((V d (cVL L) (jVL L)), .dma cc0_scratch14.sem) : GSem nD τ sig) 0 ∗
            semVal (((V d (cVL L) (jVL L)), .dma cc0_scratch15.sem) : GSem nD τ sig) 0 ∗
            semVal (((V d (cVL L) (jVL L)), .dma cc0_scratch16.sem) : GSem nD τ sig) 0 ∗
            ∃ W', ⌜∀ p ∈ W', p ∈ W ∨ p.2 = none⌝ ∗ owes (V d (cVL L) (jVL L)) O W') : sProp 𝕄) := by
  iintro ⟨#Hlv, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Ho, Hs, Hr, Hsem0, Hsem1, Hsem2, Hsem3, Hsem4, Hsem5, Hsem6, Hsem7, Hsem8, Hsem9, Hsem10, Hsem11, Hsem12, Hsem13, Hsem14, HO⟩
  ihave Hmw := (show levAts (K (F := F)).L (K (F := F)).lev ⊢ Transfers.MayWaits (V d (cVL L) (jVL L)) (default : HIx 1) O from
    (K (F := F)).mayWaits_none (thr := (V d (cVL L) (jVL L))) hO) $$ Hlv
  -- the 26 index copies share one semaphore and are drained by one wait: a batch of 26 landing in windows of the scratch
  have hplan : Transfers.BatchOf (V d (cVL L) (jVL L)) (SemLoc.dma cc0_scratch16.sem : SemLoc sig) 26 (windows := true) := trivial
  -- the index scratch as its 26 windows, one per table
  ihave Hsp := (Idx.idx_split (F := F) d (cVL L) (jVL L) fs) $$ Hs
  icases Hsp with ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25⟩
  set_option sl_exec.stopBefore "k0_cond1" in sl_exec_parts
  -- every window has landed: the scratch is one function again, entry (t, r, p) the word (r, p) of table t's block
  ihave Hs := (Idx.idx_join' (F := F) d (cVL L) (jVL L) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] fs) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    iexact Hw25
  -- every word of it is a row number below 1000, so every list the gathers read names rows of its table
  have hin := Idx.list_inb (F := F) ![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))]
    (by intro t; match t with
      | ⟨0, _⟩ => exact Val.pay_lt_fc_0 L fc0 hfc0
      | ⟨1, _⟩ => exact Val.pay_lt_fc_1 L fc1 hfc1
      | ⟨2, _⟩ => exact Val.pay_lt_fc_2 L fc2 hfc2
      | ⟨3, _⟩ => exact Val.pay_lt_fc_3 L fc3 hfc3
      | ⟨4, _⟩ => exact Val.pay_lt_fc_4 L fc4 hfc4
      | ⟨5, _⟩ => exact Val.pay_lt_fc_5 L fc5 hfc5
      | ⟨6, _⟩ => exact Val.pay_lt_fc_6 L fc6 hfc6
      | ⟨7, _⟩ => exact Val.pay_lt_fc_7 L fc7 hfc7
      | ⟨8, _⟩ => exact Val.pay_lt_fc_8 L fc8 hfc8
      | ⟨9, _⟩ => exact Val.pay_lt_fc_9 L fc9 hfc9
      | ⟨10, _⟩ => exact Val.pay_lt_fc_10 L fc10 hfc10
      | ⟨11, _⟩ => exact Val.pay_lt_fc_11 L fc11 hfc11
      | ⟨12, _⟩ => exact Val.pay_lt_fc_12 L fc12 hfc12
      | ⟨13, _⟩ => exact Val.pay_lt_fc_13 L fc13 hfc13
      | ⟨14, _⟩ => exact Val.pay_lt_fc_14 L fc14 hfc14
      | ⟨15, _⟩ => exact Val.pay_lt_fc_15 L fc15 hfc15
      | ⟨16, _⟩ => exact Val.pay_lt_fc_16 L fc16 hfc16
      | ⟨17, _⟩ => exact Val.pay_lt_fc_17 L fc17 hfc17
      | ⟨18, _⟩ => exact Val.pay_lt_fc_18 L fc18 hfc18
      | ⟨19, _⟩ => exact Val.pay_lt_fc_19 L fc19 hfc19
      | ⟨20, _⟩ => exact Val.pay_lt_fc_20 L fc20 hfc20
      | ⟨21, _⟩ => exact Val.pay_lt_fc_21 L fc21 hfc21
      | ⟨22, _⟩ => exact Val.pay_lt_fc_22 L fc22 hfc22
      | ⟨23, _⟩ => exact Val.pay_lt_fc_23 L fc23 hfc23
      | ⟨24, _⟩ => exact Val.pay_lt_fc_24 L fc24 hfc24
      | ⟨25, _⟩ => exact Val.pay_lt_fc_25 L fc25 hfc25
      | ⟨n + 26, h⟩ => exact absurd h (by omega))
  sl_exec_parts
  sl_step
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  isplitl [Hc18]; · iexact Hc18
  isplitl [Hc19]; · iexact Hc19
  isplitl [Hc20]; · iexact Hc20
  isplitl [Hc21]; · iexact Hc21
  isplitl [Hc22]; · iexact Hc22
  isplitl [Hc23]; · iexact Hc23
  isplitl [Hc24]; · iexact Hc24
  isplitl [Hc25]; · iexact Hc25
  isplitl [Ho]
  · -- the output rows: what the run left there is, block by block, what the specification names
    have hp : ∀ (t : Fin 26) (r : Fin 4) (p : Fin 128), (![(ReadAs.same.apply (View.read (Elt F) ((Memref.whole main_v0_scv : Memref sig .scVector .hbm S128x128 .i32).slice (Rect.unit (s := S128x128) (k0_off1 L) S4x128.size (k0_off1_inb L)) (fun _ => rfl)).view fc0)),
      (ReadAs.same.apply (View.read (Elt F) ((Memref.whole main_v1_scv : Memref sig .scVector .hbm S128x128 .i32).slice (Rect.unit (s := S128x128) (k0_off1 L) S4x128.size (k0_off1_inb L)) (fun _ => rfl)).view fc1)),
      (ReadAs.same.apply (View.read (Elt F) ((Memref.whole main_v2_scv : Memref sig .scVector .hbm S128x128 .i32).slice (Rect.unit (s := S128x128) (k0_off1 L) S4x128.size (k0_off1_inb L)) (fun _ => rfl)).view fc2)),
      (ReadAs.same.apply (View.read (Elt F) ((Memref.whole main_v3_scv : Memref sig .scVector .hbm S128x128 .i32).slice (Rect.unit (s := S128x128) (k0_off1 L) S4x128.size (k0_off1_inb L)) (fun _ => rfl)).view fc3)),
      (ReadAs.same.apply (View.read (Elt F) ((Memref.whole main_v4_scv : Memref sig .scVector .hbm S128x128 .i32).slice (Rect.unit (s := S128x128) (k0_off1 L) S4x128.size (k0_off1_inb L)) (fun _ => rfl)).view fc4)),
      (ReadAs.same.apply (View.read (Elt F) ((Memref.whole main_v5_scv : Memref sig .scVector .hbm S128x128 .i32).slice (Rect.unit (s := S128x128) (k0_off1 L) S4x128.size (k0_off1_inb L)) (fun _ => rfl)).view fc5)),
      (ReadAs.same.apply (View.read (Elt F) ((Memref.whole main_v6_scv : Memref sig .scVector .hbm S128x128 .i32).slice (Rect.unit (s := S128x128) (k0_off1 L) S4x128.size (k0_off1_inb L)) (fun _ => rfl)).view fc6)),
      (ReadAs.same.apply (View.read (Elt F) ((Memref.whole main_v7_scv : Memref sig .scVector .hbm S128x128 .i32).slice (Rect.unit (s := S128x128) (k0_off1 L) S4x128.size (k0_off1_inb L)) (fun _ => rfl)).view fc7)),
      (ReadAs.same.apply (View.read (Elt F) ((Memref.whole main_v8_scv : Memref sig .scVector .hbm S128x128 .i32).slice (Rect.unit (s := S128x128) (k0_off1 L) S4x128.size (k0_off1_inb L)) (fun _ => rfl)).view fc8)),
      (ReadAs.same.apply (View.read (Elt F) ((Memref.whole main_v9_scv : Memref sig .scVector .hbm S128x128 .i32).slice (Rect.unit (s := S128x128) (k0_off1 L) S4x128.size (k0_off1_inb L)) (fun _ => rfl)).view fc9)),
      (ReadAs.same.apply (View.read (Elt F) ((Memref.whole main_v10_scv : Memref sig .scVector .hbm S128x128 .i32).slice (Rect.unit (s := S128x128) (k0_off1 L) S4x128.size (k0_off1_inb L)) (fun _ => rfl)).view fc10)),
      (ReadAs.same.apply (View.read (Elt F) ((Memref.whole main_v11_scv : Memref sig .scVector .hbm S128x128 .i32).slice (Rect.unit (s := S128x128) (k0_off1 L) S4x128.size (k0_off1_inb L)) (fun _ => rfl)).view fc11)),
      (ReadAs.same.apply (View.read (Elt F) ((Memref.whole main_v12_scv : Memref sig .scVector .hbm S128x128 .i32).slice (Rect.unit (s := S128x128) (k0_off1 L) S4x128.size (k0_off1_inb L)) (fun _ => rfl)).view fc12)),
      (ReadAs.same.apply (View.read (Elt F) ((Memref.whole main_v13_scv : Memref sig .scVector .hbm S128x128 .i32).slice (Rect.unit (s := S128x128) (k0_off1 L) S4x128.size (k0_off1_inb L)) (fun _ => rfl)).view fc13)),
      (ReadAs.same.apply (View.read (Elt F) ((Memref.whole main_v14_scv : Memref sig .scVector .hbm S128x128 .i32).slice (Rect.unit (s := S128x128) (k0_off1 L) S4x128.size (k0_off1_inb L)) (fun _ => rfl)).view fc14)),
      (ReadAs.same.apply (View.read (Elt F) ((Memref.whole main_v15_scv : Memref sig .scVector .hbm S128x128 .i32).slice (Rect.unit (s := S128x128) (k0_off1 L) S4x128.size (k0_off1_inb L)) (fun _ => rfl)).view fc15)),
      (ReadAs.same.apply (View.read (Elt F) ((Memref.whole main_v16_scv : Memref sig .scVector .hbm S128x128 .i32).slice (Rect.unit (s := S128x128) (k0_off1 L) S4x128.size (k0_off1_inb L)) (fun _ => rfl)).view fc16)),
      (ReadAs.same.apply (View.read (Elt F) ((Memref.whole main_v17_scv : Memref sig .scVector .hbm S128x128 .i32).slice (Rect.unit (s := S128x128) (k0_off1 L) S4x128.size (k0_off1_inb L)) (fun _ => rfl)).view fc17)),
      (ReadAs.same.apply (View.read (Elt F) ((Memref.whole main_v18_scv : Memref sig .scVector .hbm S128x128 .i32).slice (Rect.unit (s := S128x128) (k0_off1 L) S4x128.size (k0_off1_inb L)) (fun _ => rfl)).view fc18)),
      (ReadAs.same.apply (View.read (Elt F) ((Memref.whole main_v19_scv : Memref sig .scVector .hbm S128x128 .i32).slice (Rect.unit (s := S128x128) (k0_off1 L) S4x128.size (k0_off1_inb L)) (fun _ => rfl)).view fc19)),
      (ReadAs.same.apply (View.read (Elt F) ((Memref.whole main_v20_scv : Memref sig .scVector .hbm S128x128 .i32).slice (Rect.unit (s := S128x128) (k0_off1 L) S4x128.size (k0_off1_inb L)) (fun _ => rfl)).view fc20)),
      (ReadAs.same.apply (View.read (Elt F) ((Memref.whole main_v21_scv : Memref sig .scVector .hbm S128x128 .i32).slice (Rect.unit (s := S128x128) (k0_off1 L) S4x128.size (k0_off1_inb L)) (fun _ => rfl)).view fc21)),
      (ReadAs.same.apply (View.read (Elt F) ((Memref.whole main_v22_scv : Memref sig .scVector .hbm S128x128 .i32).slice (Rect.unit (s := S128x128) (k0_off1 L) S4x128.size (k0_off1_inb L)) (fun _ => rfl)).view fc22)),
      (ReadAs.same.apply (View.read (Elt F) ((Memref.whole main_v23_scv : Memref sig .scVector .hbm S128x128 .i32).slice (Rect.unit (s := S128x128) (k0_off1 L) S4x128.size (k0_off1_inb L)) (fun _ => rfl)).view fc23)),
      (ReadAs.same.apply (View.read (Elt F) ((Memref.whole main_v24_scv : Memref sig .scVector .hbm S128x128 .i32).slice (Rect.unit (s := S128x128) (k0_off1 L) S4x128.size (k0_off1_inb L)) (fun _ => rfl)).view fc24)),
      (ReadAs.same.apply (View.read (Elt F) ((Memref.whole main_v25_scv : Memref sig .scVector .hbm S128x128 .i32).slice (Rect.unit (s := S128x128) (k0_off1 L) S4x128.size (k0_off1_inb L)) (fun _ => rfl)).view fc25))] : Fin 26 → S4x128.Idx → Elt F .i32) t (ValueIdx.ix2 r p) = (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) t (ValueIdx.ix2 (Val.colRow L r) p) := by
      intro t r p; match t with
        | ⟨0, _⟩ => exact Val.col_read_0 L fc0 r p
        | ⟨1, _⟩ => exact Val.col_read_1 L fc1 r p
        | ⟨2, _⟩ => exact Val.col_read_2 L fc2 r p
        | ⟨3, _⟩ => exact Val.col_read_3 L fc3 r p
        | ⟨4, _⟩ => exact Val.col_read_4 L fc4 r p
        | ⟨5, _⟩ => exact Val.col_read_5 L fc5 r p
        | ⟨6, _⟩ => exact Val.col_read_6 L fc6 r p
        | ⟨7, _⟩ => exact Val.col_read_7 L fc7 r p
        | ⟨8, _⟩ => exact Val.col_read_8 L fc8 r p
        | ⟨9, _⟩ => exact Val.col_read_9 L fc9 r p
        | ⟨10, _⟩ => exact Val.col_read_10 L fc10 r p
        | ⟨11, _⟩ => exact Val.col_read_11 L fc11 r p
        | ⟨12, _⟩ => exact Val.col_read_12 L fc12 r p
        | ⟨13, _⟩ => exact Val.col_read_13 L fc13 r p
        | ⟨14, _⟩ => exact Val.col_read_14 L fc14 r p
        | ⟨15, _⟩ => exact Val.col_read_15 L fc15 r p
        | ⟨16, _⟩ => exact Val.col_read_16 L fc16 r p
        | ⟨17, _⟩ => exact Val.col_read_17 L fc17 r p
        | ⟨18, _⟩ => exact Val.col_read_18 L fc18 r p
        | ⟨19, _⟩ => exact Val.col_read_19 L fc19 r p
        | ⟨20, _⟩ => exact Val.col_read_20 L fc20 r p
        | ⟨21, _⟩ => exact Val.col_read_21 L fc21 r p
        | ⟨22, _⟩ => exact Val.col_read_22 L fc22 r p
        | ⟨23, _⟩ => exact Val.col_read_23 L fc23 r p
        | ⟨24, _⟩ => exact Val.col_read_24 L fc24 r p
        | ⟨25, _⟩ => exact Val.col_read_25 L fc25 r p
        | ⟨n + 26, h⟩ => exact absurd h (by omega)
    have hpay := Val.hpay_of_fc col (![fc0, fc1, fc2, fc3, fc4, fc5, fc6, fc7, fc8, fc9, fc10, fc11, fc12, fc13, fc14, fc15, fc16, fc17, fc18, fc19, fc20, fc21, fc22, fc23, fc24, fc25] : Fin 26 → S128x128.Idx → Elt F .i32) hfcol L _ hp
    iapply (Entails.of_eq (pointsTo_congr (fun i hi => Chain3.out_value
      (I := ⟨ft0, ft1, ft2, ft3, ft4, ft5, ft6, ft7, ft8, ft9, ft10, ft11, ft12, ft13, ft14, ft15, ft16, ft17, ft18, ft19, ft20, ft21, ft22, ft23, ft24, ft25, _, hin, fo, fr⟩) hc4 (tbl := fun t => (![ft0, ft1, ft2, ft3, ft4, ft5, ft6, ft7, ft8, ft9, ft10, ft11, ft12, ft13, ft14, ft15, ft16, ft17, ft18, ft19, ft20, ft21, ft22, ft23, ft24, ft25] : Fin 26 → S1000x128.Idx → Elt F .f32) t) (col := col)
      ⟨rfl, rfl, rfl, rfl, rfl, rfl, rfl, rfl, rfl, rfl, rfl, rfl, rfl, rfl, rfl, rfl, rfl, rfl, rfl, rfl, rfl, rfl, rfl, rfl, rfl, rfl, hr, rfl, hpay⟩ i hi)))
    iexact Ho
  isplitl [Hs]; · iexists _; iexact Hs
  isplitl [Hr]; · iexists _; iexact Hr
  isplitl [Hsem0]; · iexact Hsem0
  isplitl [Hsem1]; · iexact Hsem1
  isplitl [Hsem2]; · iexact Hsem2
  isplitl [Hsem3]; · iexact Hsem3
  isplitl [Hsem4]; · iexact Hsem4
  isplitl [Hsem5]; · iexact Hsem5
  isplitl [Hsem6]; · iexact Hsem6
  isplitl [Hsem7]; · iexact Hsem7
  isplitl [Hsem8]; · iexact Hsem8
  isplitl [Hsem9]; · iexact Hsem9
  isplitl [Hsem10]; · iexact Hsem10
  isplitl [Hsem11]; · iexact Hsem11
  isplitl [Hsem12]; · iexact Hsem12
  isplitl [Hsem13]; · iexact Hsem13
  isplitl [Hsem14]; · iexact Hsem14
  iexists _; isplitr
  swap; · iexact HO
  ipureintro
  repeat (first | exact (fun p hp => Or.inl hp) | refine waits_insertV3 _ ?_)

end Cert.Proof.KI

end
-- ==== Proof.lean ====
/- The claim: a kernel that looks up twenty-six embedding tables and its reference compute the same array, and each of the
   three programs runs and leaves its arguments unchanged.

   What is computed. Twenty-six tables of 1000 rows by 128 entries and twenty-six columns of 16384 row numbers (each
   between 0 and 999 by the precondition) go to one array of 16384 rows by 26·128 entries: entry (b, 128 t + e) is entry e
   of row col_t[b] of table t. The reference takes each table's rows by its column — a clamped gather under a validity
   mask, after a wrap of negative row numbers — and concatenates the twenty-six blocks. The kernel cuts the 16384 rows into
   thirty-two runs of 512, one per vector subcore: a subcore copies its 512 row numbers of each column into a scratch
   buffer and then, 128 rows at a time and table by table, gathers the rows the numbers name into one of seven row buffers
   and writes the buffer into its block of the result: 104 gathers and 104 writes over fifteen transfer cells. The order in
   which a subcore visits the tables is one of four rotations, chosen by its coordinates; the result does not depend on it.

   Which law joins the two sides. None: both sides only move data, no arithmetic touches a table entry on either side. The
   two results are equal index by index, both being the function `Cert.Spec.G` of the tables and the columns: the kernel's
   because each block it writes is the gather of the rows its row numbers name; the reference's because on row numbers below
   1000 its wrap is the identity, its mask is all ones and its clamp changes nothing.

   How the proof is organised. The precondition's bit, read back, says every column word is below 1000 (Proof/PreRange).
   The reference (Proof/Ref…): its @main is a straight line of 601 operations; the run of one lookup is proved once, for any
   pairwise distinct buffers, and used twenty-six times; the frame follows from the list of buffers the line writes; the
   value by reading each operation at an index. The kernel, at the idealized instance (Proof/…KI…) and the same text over the
   kernel's own namespace (Proof/…KB…): the launch of the one call over a payload that deals each subcore a read share of
   every table, its rows of every reshaped column and its rows of the result; the run of the body on one subcore, one
   theorem per rotation; a subcore's obligation from these runs, its scoped storage split into the two scratch buffers, the
   fifteen cells and a rest that is framed around the run; the frame, and the value, from the launch. -/
import proofs.«204019_g4913442586959_cont_sun_m_672_34_alg».proof.Defs
import proofs.«204019_g4913442586959_cont_sun_m_672_34_alg».proof.Proof.Gen.Kernel
import proofs.«204019_g4913442586959_cont_sun_m_672_34_alg».proof.Proof.Gen.Kernel.Skeleton
import proofs.«204019_g4913442586959_cont_sun_m_672_34_alg».proof.Proof.Gen.KernelIdeal
import proofs.«204019_g4913442586959_cont_sun_m_672_34_alg».proof.Proof.Gen.KernelIdeal.Skeleton
import proofs.«204019_g4913442586959_cont_sun_m_672_34_alg».proof.Proof.Gen.ReferenceIdeal
import proofs.«204019_g4913442586959_cont_sun_m_672_34_alg».proof.Proof.Gen.Pre_input_domain
import Idealize.ShloMosaic.Adequacy
import Idealize.ShloMosaic.Init
import proofs.«204019_g4913442586959_cont_sun_m_672_34_alg».proof.Proof.FrameKB
import proofs.«204019_g4913442586959_cont_sun_m_672_34_alg».proof.Proof.ObligKB
import proofs.«204019_g4913442586959_cont_sun_m_672_34_alg».proof.Proof.TileKB0
import proofs.«204019_g4913442586959_cont_sun_m_672_34_alg».proof.Proof.TileKB1
import proofs.«204019_g4913442586959_cont_sun_m_672_34_alg».proof.Proof.TileKB2
import proofs.«204019_g4913442586959_cont_sun_m_672_34_alg».proof.Proof.TileKB3
import proofs.«204019_g4913442586959_cont_sun_m_672_34_alg».proof.Proof.AlgKI
import proofs.«204019_g4913442586959_cont_sun_m_672_34_alg».proof.Proof.ObligValKI
import proofs.«204019_g4913442586959_cont_sun_m_672_34_alg».proof.Proof.TileValKI0
import proofs.«204019_g4913442586959_cont_sun_m_672_34_alg».proof.Proof.TileValKI1
import proofs.«204019_g4913442586959_cont_sun_m_672_34_alg».proof.Proof.TileValKI2
import proofs.«204019_g4913442586959_cont_sun_m_672_34_alg».proof.Proof.TileValKI3
import proofs.«204019_g4913442586959_cont_sun_m_672_34_alg».proof.Proof.RefClaims

noncomputable section

namespace Cert.Proof

open Idealize.ShloMosaic Idealize.SL.Sem

set_option maxHeartbeats 400000000 in
set_option maxRecDepth 65536 in
/-- The kernel runs and leaves its arguments unchanged: the launch's frame over the subcores' obligation, which the four
    rotations' runs give under the columns' range. -/
theorem frame_kernel : Cert.frame_Kernel (hKernel := Cert.Kernel.Gen.facts) (hPre_input_domain := Cert.Pre_input_domain.Gen.facts) :=
  Cert.Proof.KB.frame_kb_of fun m hpre =>
    Cert.Proof.KB.tileObl (m := m) hpre Cert.Proof.KB.tile_run0 Cert.Proof.KB.tile_run1 Cert.Proof.KB.tile_run2 Cert.Proof.KB.tile_run3

set_option maxHeartbeats 400000000 in
set_option maxRecDepth 65536 in
/-- The kernel read at the idealized instance runs and leaves its arguments unchanged: the launch that also carries the
    value of the rows each subcore writes (the subcores' obligation from the four rotations' runs in value form, under the
    columns' range), its value conjunct dropped. -/
theorem frame_kernelIdeal : Cert.frame_KernelIdeal (hKernelIdeal := Cert.KernelIdeal.Gen.facts) (hPre_input_domain := Cert.Pre_input_domain.Gen.facts) :=
  Cert.Proof.KIV.frame_ki_val_of fun m hpre =>
    Cert.Proof.KIV.tileOblV (m := m) hpre Cert.Proof.KI.tile_val0 Cert.Proof.KI.tile_val1 Cert.Proof.KI.tile_val2 Cert.Proof.KI.tile_val3

set_option maxHeartbeats 400000000 in
set_option maxRecDepth 65536 in
/-- The idealized kernel's result and the reference's are the same array: both are the specification's function of the
    tables and the columns. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  Cert.Proof.KIV.algebraic_ki_of fun m hpre =>
    Cert.Proof.KIV.tileOblV (m := m) hpre Cert.Proof.KI.tile_val0 Cert.Proof.KI.tile_val1 Cert.Proof.KI.tile_val2 Cert.Proof.KI.tile_val3

theorem claim : Cert.Claim := ⟨Cert.Kernel.Gen.facts, Cert.KernelIdeal.Gen.facts, Cert.ReferenceIdeal.Gen.facts, Cert.Pre_input_domain.Gen.facts,
  frame_kernel, frame_kernelIdeal, Cert.Proof.RefClaims.frame_ri, trivial, algebraic⟩

end Cert.Proof

end
